-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v128)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v464) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x784 : Shape := ⟨2, ![4096, 784]⟩
abbrev S4 : Shape := ⟨1, ![4]⟩
abbrev S10x784 : Shape := ⟨2, ![10, 784]⟩
abbrev S10 : Shape := ⟨1, ![10]⟩
abbrev S_ : Shape := ⟨0, ![]⟩

class Facts : Prop where
  bcast_S_S4096x784 : S_.BroadcastsInDim S4096x784 (![] : Fin 0 → Fin S4096x784.rank)
  reducesTo_S4096x784_S_d0_1 : S4096x784.ReducesTo [0, 1] S_
  h_S_ : 0 < S_.numel
  bcast_S_S4 : S_.BroadcastsInDim S4 (![] : Fin 0 → Fin S4.rank)
  reducesTo_S4_S_d0 : S4.ReducesTo [0] S_
  bcast_S_S10x784 : S_.BroadcastsInDim S10x784 (![] : Fin 0 → Fin S10x784.rank)
  reducesTo_S10x784_S_d0_1 : S10x784.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_v13 : IVec S_ 1) (main_v16 : IVec S10 1) : IVec S_ 1 :=
  let main_c_5 : IVec S_ 1 := constantI S_ 1 1#1
  let main_v17 : IVec S_ 1 := (fun x v => Host.reduce IntOp.andi x v reducesTo_S10_S_d0 h_S_) main_v16 main_c_5
  let main_v18 : IVec S_ 1 := andi main_v13 main_v17
  main_v18

def fn {F : FTy → Type} [FloatOps F] (main_arg0 : FVec F S4096x784 .f32) (main_arg1 : FVec F S4 .f32) (main_arg2 : FVec F S10x784 .f32) (main_arg3 : FVec F S10 .f32) : IVec S_ 1 :=
  let main_v0 : FVec F S4096x784 .f32 := Host.absf main_arg0
  let main_cst : FVec F S_ .f32 := constant S_ .f32 0x7F800000#32
  let main_v1 : FVec F S4096x784 .f32 := broadcastInDim S4096x784 ![] bcast_S_S4096x784 main_cst
  let main_v2 : IVec S4096x784 1 := cmpf .olt main_v0 main_v1
  let main_c : IVec S_ 1 := constantI S_ 1 1#1
  let main_v3 : IVec S_ 1 := (fun x v => Host.reduce IntOp.andi x v reducesTo_S4096x784_S_d0_1 h_S_) main_v2 main_c
  let main_v4 : FVec F S4 .f32 := Host.absf main_arg1
  let main_cst_0 : FVec F S_ .f32 := constant S_ .f32 0x7F800000#32
  let main_v5 : FVec F S4 .f32 := broadcastInDim S4 ![] bcast_S_S4 main_cst_0
  let main_v6 : IVec S4 1 := cmpf .olt main_v4 main_v5
  let main_c_1 : IVec S_ 1 := constantI S_ 1 1#1
  let main_v7 : IVec S_ 1 := (fun x v => Host.reduce IntOp.andi x v reducesTo_S4_S_d0 h_S_) main_v6 main_c_1
  let main_v8 : IVec S_ 1 := andi main_v3 main_v7
  let main_v9 : FVec F S10x784 .f32 := Host.absf main_arg2
  let main_cst_2 : FVec F S_ .f32 := constant S_ .f32 0x7F800000#32
  let main_v10 : FVec F S10x784 .f32 := broadcastInDim S10x784 ![] bcast_S_S10x784 main_cst_2
  let main_v11 : IVec S10x784 1 := cmpf .olt main_v9 main_v10
  let main_c_3 : IVec S_ 1 := constantI S_ 1 1#1
  let main_v12 : IVec S_ 1 := (fun x v => Host.reduce IntOp.andi x v reducesTo_S10x784_S_d0_1 h_S_) main_v11 main_c_3
  let main_v13 : IVec S_ 1 := andi main_v8 main_v12
  let main_v14 : FVec F S10 .f32 := Host.absf main_arg3
  let main_cst_4 : FVec F S_ .f32 := constant S_ .f32 0x7F800000#32
  let main_v15 : FVec F S10 .f32 := broadcastInDim S10 ![] bcast_S_S10 main_cst_4
  let main_v16 : IVec S10 1 := cmpf .olt main_v14 main_v15
  fn_part1 (F := F) main_v13 main_v16
-- ==== Kernel.lean ====
abbrev S4096x784 : Shape := ⟨2, ![4096, 784]⟩
abbrev S4 : Shape := ⟨1, ![4]⟩
abbrev S10x784 : Shape := ⟨2, ![10, 784]⟩
abbrev S10 : Shape := ⟨1, ![10]⟩
abbrev S4096x14x2x14x2 : Shape := ⟨5, ![4096, 14, 2, 14, 2]⟩
abbrev S2x2x4096x14x14 : Shape := ⟨5, ![2, 2, 4096, 14, 14]⟩
abbrev S4x802816 : Shape := ⟨2, ![4, 802816]⟩
abbrev S16x16 : Shape := ⟨2, ![16, 16]⟩
abbrev S_ : Shape := ⟨0, ![]⟩
abbrev S16x2x2x2x2 : Shape := ⟨5, ![16, 2, 2, 2, 2]⟩
abbrev S1 : Shape := ⟨1, ![1]⟩
abbrev S16x2x2x2 : Shape := ⟨4, ![16, 2, 2, 2]⟩
abbrev S16x1x2x2x2 : Shape := ⟨5, ![16, 1, 2, 2, 2]⟩
abbrev S16x2x1x2x2 : Shape := ⟨5, ![16, 2, 1, 2, 2]⟩
abbrev S16x2x2x1x2 : Shape := ⟨5, ![16, 2, 2, 1, 2]⟩
abbrev S16x2x2x2x1 : Shape := ⟨5, ![16, 2, 2, 2, 1]⟩
abbrev S4x57344 : Shape := ⟨2, ![4, 57344]⟩
abbrev S1x57344 : Shape := ⟨2, ![1, 57344]⟩
abbrev S57344 : Shape := ⟨1, ![57344]⟩
abbrev S16x57344 : Shape := ⟨2, ![16, 57344]⟩
abbrev S802816x4 : Shape := ⟨2, ![802816, 4]⟩
abbrev S784x10 : Shape := ⟨2, ![784, 10]⟩
abbrev S4096x10 : Shape := ⟨2, ![4096, 10]⟩
abbrev S1x10 : Shape := ⟨2, ![1, 10]⟩
abbrev S4096 : Shape := ⟨1, ![4096]⟩
abbrev S4096x1 : Shape := ⟨2, ![4096, 1]⟩

abbrev nBuf : Space → Nat
  | .hbm => 476
  | .vmem => 5
  | .smem => 0
  | _ => 0

abbrev hbmTy0_0 (i : Nat) : BufTy := match i % 128 with
  | 0 => ⟨S4096x784, .f32⟩
  | 1 => ⟨S4, .f32⟩
  | 2 => ⟨S10x784, .f32⟩
  | 3 => ⟨S10, .f32⟩
  | 4 => ⟨S4096x14x2x14x2, .f32⟩
  | 5 => ⟨S2x2x4096x14x14, .f32⟩
  | 6 => ⟨S4x802816, .f32⟩
  | 7 => ⟨S16x16, .i32⟩
  | 8 => ⟨S16x16, .i32⟩
  | 9 => ⟨S_, .i32⟩
  | 10 => ⟨S16x16, .i32⟩
  | 11 => ⟨S16x16, .i32⟩
  | 12 => ⟨S16x16, .i1⟩
  | 13 => ⟨S16x16, .f32⟩
  | 14 => ⟨S16x2x2x2x2, .f32⟩
  | 15 => ⟨S1, .f32⟩
  | 16 => ⟨S_, .f32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S1, .i32⟩
  | 24 => ⟨S1, .i32⟩
  | 25 => ⟨S1, .i32⟩
  | 26 => ⟨S_, .i32⟩
  | 27 => ⟨S1, .i32⟩
  | 28 => ⟨S1, .i1⟩
  | 29 => ⟨S1, .i1⟩
  | 30 => ⟨S1, .i1⟩
  | 31 => ⟨S_, .i1⟩
  | 32 => ⟨S_, .i1⟩
  | 33 => ⟨S16x2x2x2, .f32⟩
  | 34 => ⟨S16x2x2x2, .i1⟩
  | 35 => ⟨S_, .f32⟩
  | 36 => ⟨S16x2x2x2, .f32⟩
  | 37 => ⟨S16x2x2x2, .f32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S1, .i32⟩
  | 45 => ⟨S1, .i32⟩
  | 46 => ⟨S1, .i32⟩
  | 47 => ⟨S_, .i32⟩
  | 48 => ⟨S1, .i32⟩
  | 49 => ⟨S1, .i1⟩
  | 50 => ⟨S1, .i1⟩
  | 51 => ⟨S1, .i1⟩
  | 52 => ⟨S_, .i1⟩
  | 53 => ⟨S_, .i1⟩
  | 54 => ⟨S16x2x2x2, .f32⟩
  | 55 => ⟨S16x2x2x2, .i1⟩
  | 56 => ⟨S_, .f32⟩
  | 57 => ⟨S16x2x2x2, .f32⟩
  | 58 => ⟨S16x2x2x2, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S16x2x2x2, .f32⟩
  | 66 => ⟨S16x2x2x2, .f32⟩
  | 67 => ⟨S16x2x2x2, .f32⟩
  | 68 => ⟨S16x2x2x2, .f32⟩
  | 69 => ⟨S16x2x2x2, .f32⟩
  | 70 => ⟨S16x2x2x2, .f32⟩
  | 71 => ⟨S16x2x2x2, .f32⟩
  | 72 => ⟨S16x2x2x2, .f32⟩
  | 73 => ⟨S16x2x2x2, .f32⟩
  | 74 => ⟨S16x2x2x2, .f32⟩
  | 75 => ⟨S16x1x2x2x2, .f32⟩
  | 76 => ⟨S16x1x2x2x2, .f32⟩
  | 77 => ⟨S16x2x2x2x2, .f32⟩
  | 78 => ⟨S_, .i32⟩
  | 79 => ⟨S_, .i32⟩
  | 80 => ⟨S_, .i1⟩
  | 81 => ⟨S_, .i32⟩
  | 82 => ⟨S_, .i32⟩
  | 83 => ⟨S_, .i32⟩
  | 84 => ⟨S1, .i32⟩
  | 85 => ⟨S1, .i32⟩
  | 86 => ⟨S1, .i32⟩
  | 87 => ⟨S_, .i32⟩
  | 88 => ⟨S1, .i32⟩
  | 89 => ⟨S1, .i1⟩
  | 90 => ⟨S1, .i1⟩
  | 91 => ⟨S1, .i1⟩
  | 92 => ⟨S_, .i1⟩
  | 93 => ⟨S_, .i1⟩
  | 94 => ⟨S16x2x2x2, .f32⟩
  | 95 => ⟨S16x2x2x2, .i1⟩
  | 96 => ⟨S_, .f32⟩
  | 97 => ⟨S16x2x2x2, .f32⟩
  | 98 => ⟨S16x2x2x2, .f32⟩
  | 99 => ⟨S_, .i32⟩
  | 100 => ⟨S_, .i32⟩
  | 101 => ⟨S_, .i1⟩
  | 102 => ⟨S_, .i32⟩
  | 103 => ⟨S_, .i32⟩
  | 104 => ⟨S_, .i32⟩
  | 105 => ⟨S1, .i32⟩
  | 106 => ⟨S1, .i32⟩
  | 107 => ⟨S1, .i32⟩
  | 108 => ⟨S_, .i32⟩
  | 109 => ⟨S1, .i32⟩
  | 110 => ⟨S1, .i1⟩
  | 111 => ⟨S1, .i1⟩
  | 112 => ⟨S1, .i1⟩
  | 113 => ⟨S_, .i1⟩
  | 114 => ⟨S_, .i1⟩
  | 115 => ⟨S16x2x2x2, .f32⟩
  | 116 => ⟨S16x2x2x2, .i1⟩
  | 117 => ⟨S_, .f32⟩
  | 118 => ⟨S16x2x2x2, .f32⟩
  | 119 => ⟨S16x2x2x2, .f32⟩
  | 120 => ⟨S16x2x2x2, .f32⟩
  | 121 => ⟨S16x1x2x2x2, .f32⟩
  | 122 => ⟨S16x1x2x2x2, .f32⟩
  | 123 => ⟨S16x2x2x2x2, .f32⟩
  | 124 => ⟨S1, .f32⟩
  | 125 => ⟨S_, .f32⟩
  | 126 => ⟨S_, .i32⟩
  | 127 => ⟨S_, .i32⟩
  | _ => ⟨S4096x784, .f32⟩

abbrev hbmTy0_1 (i : Nat) : BufTy := match i % 128 with
  | 0 => ⟨S_, .i1⟩
  | 1 => ⟨S_, .i32⟩
  | 2 => ⟨S_, .i32⟩
  | 3 => ⟨S_, .i32⟩
  | 4 => ⟨S1, .i32⟩
  | 5 => ⟨S1, .i32⟩
  | 6 => ⟨S1, .i32⟩
  | 7 => ⟨S_, .i32⟩
  | 8 => ⟨S1, .i32⟩
  | 9 => ⟨S1, .i1⟩
  | 10 => ⟨S1, .i1⟩
  | 11 => ⟨S1, .i1⟩
  | 12 => ⟨S_, .i1⟩
  | 13 => ⟨S_, .i1⟩
  | 14 => ⟨S16x2x2x2, .f32⟩
  | 15 => ⟨S16x2x2x2, .i1⟩
  | 16 => ⟨S_, .f32⟩
  | 17 => ⟨S16x2x2x2, .f32⟩
  | 18 => ⟨S16x2x2x2, .f32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S1, .i32⟩
  | 26 => ⟨S1, .i32⟩
  | 27 => ⟨S1, .i32⟩
  | 28 => ⟨S_, .i32⟩
  | 29 => ⟨S1, .i32⟩
  | 30 => ⟨S1, .i1⟩
  | 31 => ⟨S1, .i1⟩
  | 32 => ⟨S1, .i1⟩
  | 33 => ⟨S_, .i1⟩
  | 34 => ⟨S_, .i1⟩
  | 35 => ⟨S16x2x2x2, .f32⟩
  | 36 => ⟨S16x2x2x2, .i1⟩
  | 37 => ⟨S_, .f32⟩
  | 38 => ⟨S16x2x2x2, .f32⟩
  | 39 => ⟨S16x2x2x2, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S16x2x2x2, .f32⟩
  | 47 => ⟨S16x2x2x2, .f32⟩
  | 48 => ⟨S16x2x2x2, .f32⟩
  | 49 => ⟨S16x2x2x2, .f32⟩
  | 50 => ⟨S16x2x2x2, .f32⟩
  | 51 => ⟨S16x2x2x2, .f32⟩
  | 52 => ⟨S16x2x2x2, .f32⟩
  | 53 => ⟨S16x2x2x2, .f32⟩
  | 54 => ⟨S16x2x2x2, .f32⟩
  | 55 => ⟨S16x2x2x2, .f32⟩
  | 56 => ⟨S16x2x1x2x2, .f32⟩
  | 57 => ⟨S16x2x1x2x2, .f32⟩
  | 58 => ⟨S16x2x2x2x2, .f32⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S1, .i32⟩
  | 66 => ⟨S1, .i32⟩
  | 67 => ⟨S1, .i32⟩
  | 68 => ⟨S_, .i32⟩
  | 69 => ⟨S1, .i32⟩
  | 70 => ⟨S1, .i1⟩
  | 71 => ⟨S1, .i1⟩
  | 72 => ⟨S1, .i1⟩
  | 73 => ⟨S_, .i1⟩
  | 74 => ⟨S_, .i1⟩
  | 75 => ⟨S16x2x2x2, .f32⟩
  | 76 => ⟨S16x2x2x2, .i1⟩
  | 77 => ⟨S_, .f32⟩
  | 78 => ⟨S16x2x2x2, .f32⟩
  | 79 => ⟨S16x2x2x2, .f32⟩
  | 80 => ⟨S_, .i32⟩
  | 81 => ⟨S_, .i32⟩
  | 82 => ⟨S_, .i1⟩
  | 83 => ⟨S_, .i32⟩
  | 84 => ⟨S_, .i32⟩
  | 85 => ⟨S_, .i32⟩
  | 86 => ⟨S1, .i32⟩
  | 87 => ⟨S1, .i32⟩
  | 88 => ⟨S1, .i32⟩
  | 89 => ⟨S_, .i32⟩
  | 90 => ⟨S1, .i32⟩
  | 91 => ⟨S1, .i1⟩
  | 92 => ⟨S1, .i1⟩
  | 93 => ⟨S1, .i1⟩
  | 94 => ⟨S_, .i1⟩
  | 95 => ⟨S_, .i1⟩
  | 96 => ⟨S16x2x2x2, .f32⟩
  | 97 => ⟨S16x2x2x2, .i1⟩
  | 98 => ⟨S_, .f32⟩
  | 99 => ⟨S16x2x2x2, .f32⟩
  | 100 => ⟨S16x2x2x2, .f32⟩
  | 101 => ⟨S16x2x2x2, .f32⟩
  | 102 => ⟨S16x2x1x2x2, .f32⟩
  | 103 => ⟨S16x2x1x2x2, .f32⟩
  | 104 => ⟨S16x2x2x2x2, .f32⟩
  | 105 => ⟨S1, .f32⟩
  | 106 => ⟨S_, .f32⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S1, .i32⟩
  | 114 => ⟨S1, .i32⟩
  | 115 => ⟨S1, .i32⟩
  | 116 => ⟨S_, .i32⟩
  | 117 => ⟨S1, .i32⟩
  | 118 => ⟨S1, .i1⟩
  | 119 => ⟨S1, .i1⟩
  | 120 => ⟨S1, .i1⟩
  | 121 => ⟨S_, .i1⟩
  | 122 => ⟨S_, .i1⟩
  | 123 => ⟨S16x2x2x2, .f32⟩
  | 124 => ⟨S16x2x2x2, .i1⟩
  | 125 => ⟨S_, .f32⟩
  | 126 => ⟨S16x2x2x2, .f32⟩
  | 127 => ⟨S16x2x2x2, .f32⟩
  | _ => ⟨S4096x784, .f32⟩

abbrev hbmTy0_2 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S_, .i32⟩
  | 6 => ⟨S1, .i32⟩
  | 7 => ⟨S1, .i32⟩
  | 8 => ⟨S1, .i32⟩
  | 9 => ⟨S_, .i32⟩
  | 10 => ⟨S1, .i32⟩
  | 11 => ⟨S1, .i1⟩
  | 12 => ⟨S1, .i1⟩
  | 13 => ⟨S1, .i1⟩
  | 14 => ⟨S_, .i1⟩
  | 15 => ⟨S_, .i1⟩
  | 16 => ⟨S16x2x2x2, .f32⟩
  | 17 => ⟨S16x2x2x2, .i1⟩
  | 18 => ⟨S_, .f32⟩
  | 19 => ⟨S16x2x2x2, .f32⟩
  | 20 => ⟨S16x2x2x2, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S16x2x2x2, .f32⟩
  | 28 => ⟨S16x2x2x2, .f32⟩
  | 29 => ⟨S16x2x2x2, .f32⟩
  | 30 => ⟨S16x2x2x2, .f32⟩
  | 31 => ⟨S16x2x2x2, .f32⟩
  | 32 => ⟨S16x2x2x2, .f32⟩
  | 33 => ⟨S16x2x2x2, .f32⟩
  | 34 => ⟨S16x2x2x2, .f32⟩
  | 35 => ⟨S16x2x2x2, .f32⟩
  | 36 => ⟨S16x2x2x2, .f32⟩
  | 37 => ⟨S16x2x2x1x2, .f32⟩
  | 38 => ⟨S16x2x2x1x2, .f32⟩
  | 39 => ⟨S16x2x2x2x2, .f32⟩
  | 40 => ⟨S_, .i32⟩
  | 41 => ⟨S_, .i32⟩
  | 42 => ⟨S_, .i1⟩
  | 43 => ⟨S_, .i32⟩
  | 44 => ⟨S_, .i32⟩
  | 45 => ⟨S_, .i32⟩
  | 46 => ⟨S1, .i32⟩
  | 47 => ⟨S1, .i32⟩
  | 48 => ⟨S1, .i32⟩
  | 49 => ⟨S_, .i32⟩
  | 50 => ⟨S1, .i32⟩
  | 51 => ⟨S1, .i1⟩
  | 52 => ⟨S1, .i1⟩
  | 53 => ⟨S1, .i1⟩
  | 54 => ⟨S_, .i1⟩
  | 55 => ⟨S_, .i1⟩
  | 56 => ⟨S16x2x2x2, .f32⟩
  | 57 => ⟨S16x2x2x2, .i1⟩
  | 58 => ⟨S_, .f32⟩
  | 59 => ⟨S16x2x2x2, .f32⟩
  | 60 => ⟨S16x2x2x2, .f32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S1, .i32⟩
  | 68 => ⟨S1, .i32⟩
  | 69 => ⟨S1, .i32⟩
  | 70 => ⟨S_, .i32⟩
  | 71 => ⟨S1, .i32⟩
  | 72 => ⟨S1, .i1⟩
  | 73 => ⟨S1, .i1⟩
  | 74 => ⟨S1, .i1⟩
  | 75 => ⟨S_, .i1⟩
  | 76 => ⟨S_, .i1⟩
  | 77 => ⟨S16x2x2x2, .f32⟩
  | 78 => ⟨S16x2x2x2, .i1⟩
  | 79 => ⟨S_, .f32⟩
  | 80 => ⟨S16x2x2x2, .f32⟩
  | 81 => ⟨S16x2x2x2, .f32⟩
  | 82 => ⟨S16x2x2x2, .f32⟩
  | 83 => ⟨S16x2x2x1x2, .f32⟩
  | 84 => ⟨S16x2x2x1x2, .f32⟩
  | 85 => ⟨S16x2x2x2x2, .f32⟩
  | 86 => ⟨S1, .f32⟩
  | 87 => ⟨S_, .f32⟩
  | 88 => ⟨S_, .i32⟩
  | 89 => ⟨S_, .i32⟩
  | 90 => ⟨S_, .i1⟩
  | 91 => ⟨S_, .i32⟩
  | 92 => ⟨S_, .i32⟩
  | 93 => ⟨S_, .i32⟩
  | 94 => ⟨S1, .i32⟩
  | 95 => ⟨S1, .i32⟩
  | 96 => ⟨S1, .i32⟩
  | 97 => ⟨S_, .i32⟩
  | 98 => ⟨S1, .i32⟩
  | 99 => ⟨S1, .i1⟩
  | 100 => ⟨S1, .i1⟩
  | 101 => ⟨S1, .i1⟩
  | 102 => ⟨S_, .i1⟩
  | 103 => ⟨S_, .i1⟩
  | 104 => ⟨S16x2x2x2, .f32⟩
  | 105 => ⟨S16x2x2x2, .i1⟩
  | 106 => ⟨S_, .f32⟩
  | 107 => ⟨S16x2x2x2, .f32⟩
  | 108 => ⟨S16x2x2x2, .f32⟩
  | 109 => ⟨S_, .i32⟩
  | 110 => ⟨S_, .i32⟩
  | 111 => ⟨S_, .i1⟩
  | 112 => ⟨S_, .i32⟩
  | 113 => ⟨S_, .i32⟩
  | 114 => ⟨S_, .i32⟩
  | 115 => ⟨S1, .i32⟩
  | 116 => ⟨S1, .i32⟩
  | 117 => ⟨S1, .i32⟩
  | 118 => ⟨S_, .i32⟩
  | 119 => ⟨S1, .i32⟩
  | 120 => ⟨S1, .i1⟩
  | 121 => ⟨S1, .i1⟩
  | 122 => ⟨S1, .i1⟩
  | 123 => ⟨S_, .i1⟩
  | 124 => ⟨S_, .i1⟩
  | 125 => ⟨S16x2x2x2, .f32⟩
  | 126 => ⟨S16x2x2x2, .i1⟩
  | 127 => ⟨S_, .f32⟩
  | _ => ⟨S4096x784, .f32⟩

abbrev hbmTy0_3 (i : Nat) : BufTy := match i % 128 with
  | 0 => ⟨S16x2x2x2, .f32⟩
  | 1 => ⟨S16x2x2x2, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S16x2x2x2, .f32⟩
  | 9 => ⟨S16x2x2x2, .f32⟩
  | 10 => ⟨S16x2x2x2, .f32⟩
  | 11 => ⟨S16x2x2x2, .f32⟩
  | 12 => ⟨S16x2x2x2, .f32⟩
  | 13 => ⟨S16x2x2x2, .f32⟩
  | 14 => ⟨S16x2x2x2, .f32⟩
  | 15 => ⟨S16x2x2x2, .f32⟩
  | 16 => ⟨S16x2x2x2, .f32⟩
  | 17 => ⟨S16x2x2x2, .f32⟩
  | 18 => ⟨S16x2x2x2x1, .f32⟩
  | 19 => ⟨S16x2x2x2x1, .f32⟩
  | 20 => ⟨S16x2x2x2x2, .f32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S1, .i32⟩
  | 28 => ⟨S1, .i32⟩
  | 29 => ⟨S1, .i32⟩
  | 30 => ⟨S_, .i32⟩
  | 31 => ⟨S1, .i32⟩
  | 32 => ⟨S1, .i1⟩
  | 33 => ⟨S1, .i1⟩
  | 34 => ⟨S1, .i1⟩
  | 35 => ⟨S_, .i1⟩
  | 36 => ⟨S_, .i1⟩
  | 37 => ⟨S16x2x2x2, .f32⟩
  | 38 => ⟨S16x2x2x2, .i1⟩
  | 39 => ⟨S_, .f32⟩
  | 40 => ⟨S16x2x2x2, .f32⟩
  | 41 => ⟨S16x2x2x2, .f32⟩
  | 42 => ⟨S_, .i32⟩
  | 43 => ⟨S_, .i32⟩
  | 44 => ⟨S_, .i1⟩
  | 45 => ⟨S_, .i32⟩
  | 46 => ⟨S_, .i32⟩
  | 47 => ⟨S_, .i32⟩
  | 48 => ⟨S1, .i32⟩
  | 49 => ⟨S1, .i32⟩
  | 50 => ⟨S1, .i32⟩
  | 51 => ⟨S_, .i32⟩
  | 52 => ⟨S1, .i32⟩
  | 53 => ⟨S1, .i1⟩
  | 54 => ⟨S1, .i1⟩
  | 55 => ⟨S1, .i1⟩
  | 56 => ⟨S_, .i1⟩
  | 57 => ⟨S_, .i1⟩
  | 58 => ⟨S16x2x2x2, .f32⟩
  | 59 => ⟨S16x2x2x2, .i1⟩
  | 60 => ⟨S_, .f32⟩
  | 61 => ⟨S16x2x2x2, .f32⟩
  | 62 => ⟨S16x2x2x2, .f32⟩
  | 63 => ⟨S16x2x2x2, .f32⟩
  | 64 => ⟨S16x2x2x2x1, .f32⟩
  | 65 => ⟨S16x2x2x2x1, .f32⟩
  | 66 => ⟨S16x2x2x2x2, .f32⟩
  | 67 => ⟨S16x16, .f32⟩
  | 68 => ⟨S16x16, .f32⟩
  | 69 => ⟨S4x802816, .f32⟩
  | 70 => ⟨S802816x4, .f32⟩
  | 71 => ⟨S4096x784, .f32⟩
  | 72 => ⟨S784x10, .f32⟩
  | 73 => ⟨S4096x10, .f32⟩
  | 74 => ⟨S1x10, .f32⟩
  | 75 => ⟨S4096x10, .f32⟩
  | 76 => ⟨S4096x10, .f32⟩
  | 77 => ⟨S_, .f32⟩
  | 78 => ⟨S4096, .f32⟩
  | 79 => ⟨S_, .f32⟩
  | 80 => ⟨S4096, .f32⟩
  | 81 => ⟨S4096, .f32⟩
  | 82 => ⟨S4096x1, .f32⟩
  | 83 => ⟨S4096x10, .f32⟩
  | 84 => ⟨S4096x10, .f32⟩
  | 85 => ⟨S4096x10, .f32⟩
  | 86 => ⟨S_, .f32⟩
  | 87 => ⟨S4096, .f32⟩
  | 88 => ⟨S4096x1, .f32⟩
  | 89 => ⟨S4096x1, .f32⟩
  | 90 => ⟨S4096x10, .f32⟩
  | 91 => ⟨S4096x10, .f32⟩
  | _ => ⟨S4096x784, .f32⟩

abbrev hbmTy (i : Nat) : BufTy := match i / 128 with
  | 0 => hbmTy0_0 i
  | 1 => hbmTy0_1 i
  | 2 => hbmTy0_2 i
  | 3 => hbmTy0_3 i
  | _ => ⟨S4096x784, .f32⟩

abbrev bufTy : (tb : Table) → Fin (tcTables nBuf tb) → BufTy
  | .hbm, ⟨i, _⟩ => hbmTy i
  | .local _ .vmem, ⟨0, _⟩ => ⟨S16x16, .f32⟩
  | .local _ .vmem, ⟨1, _⟩ => ⟨S4x57344, .f32⟩
  | .local _ .vmem, ⟨2, _⟩ => ⟨S4x57344, .f32⟩
  | .local _ .vmem, ⟨3, _⟩ => ⟨S4x57344, .f32⟩
  | .local _ .vmem, ⟨4, _⟩ => ⟨S4x57344, .f32⟩
  | _, _ => ⟨S4096x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_call0_c : Ref sig .tc := ⟨.hbm, 18, rfl⟩
abbrev main_call0_v0 : Ref sig .tc := ⟨.hbm, 19, rfl⟩
abbrev main_call0_c_0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_c_1 : Ref sig .tc := ⟨.hbm, 24, rfl⟩
abbrev main_call0_v4 : Ref sig .tc := ⟨.hbm, 25, rfl⟩
abbrev main_call0_c_2 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c_3 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_cst : Ref sig .tc := ⟨.hbm, 35, rfl⟩
abbrev main_call0_v12 : Ref sig .tc := ⟨.hbm, 36, rfl⟩
abbrev main_v12 : Ref sig .tc := ⟨.hbm, 37, rfl⟩
abbrev main_c_1 : Ref sig .tc := ⟨.hbm, 38, rfl⟩
abbrev main_call1_c : Ref sig .tc := ⟨.hbm, 39, rfl⟩
abbrev main_call1_v0 : Ref sig .tc := ⟨.hbm, 40, rfl⟩
abbrev main_call1_c_0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_c_1 : Ref sig .tc := ⟨.hbm, 45, rfl⟩
abbrev main_call1_v4 : Ref sig .tc := ⟨.hbm, 46, rfl⟩
abbrev main_call1_c_2 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c_3 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_cst : Ref sig .tc := ⟨.hbm, 56, rfl⟩
abbrev main_call1_v12 : Ref sig .tc := ⟨.hbm, 57, rfl⟩
abbrev main_v13 : Ref sig .tc := ⟨.hbm, 58, rfl⟩
abbrev main_cst : Ref sig .tc := ⟨.hbm, 59, rfl⟩
abbrev main_v14 : Ref sig .tc := ⟨.hbm, 60, rfl⟩
abbrev main_v15 : Ref sig .tc := ⟨.hbm, 61, rfl⟩
abbrev main_cst_2 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_c_3 : Ref sig .tc := ⟨.hbm, 78, rfl⟩
abbrev main_call2_c : Ref sig .tc := ⟨.hbm, 79, rfl⟩
abbrev main_call2_v0 : Ref sig .tc := ⟨.hbm, 80, rfl⟩
abbrev main_call2_c_0 : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_c_1 : Ref sig .tc := ⟨.hbm, 85, rfl⟩
abbrev main_call2_v4 : Ref sig .tc := ⟨.hbm, 86, rfl⟩
abbrev main_call2_c_2 : Ref sig .tc := ⟨.hbm, 87, rfl⟩
abbrev main_call2_v5 : Ref sig .tc := ⟨.hbm, 88, rfl⟩
abbrev main_call2_v6 : Ref sig .tc := ⟨.hbm, 89, rfl⟩
abbrev main_call2_v7 : Ref sig .tc := ⟨.hbm, 90, rfl⟩
abbrev main_call2_v8 : Ref sig .tc := ⟨.hbm, 91, rfl⟩
abbrev main_call2_c_3 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_cst : Ref sig .tc := ⟨.hbm, 96, rfl⟩
abbrev main_call2_v12 : Ref sig .tc := ⟨.hbm, 97, rfl⟩
abbrev main_v31 : Ref sig .tc := ⟨.hbm, 98, rfl⟩
abbrev main_c_4 : Ref sig .tc := ⟨.hbm, 99, rfl⟩
abbrev main_call3_c : Ref sig .tc := ⟨.hbm, 100, rfl⟩
abbrev main_call3_v0 : Ref sig .tc := ⟨.hbm, 101, rfl⟩
abbrev main_call3_c_0 : Ref sig .tc := ⟨.hbm, 102, rfl⟩
abbrev main_call3_v1 : Ref sig .tc := ⟨.hbm, 103, rfl⟩
abbrev main_call3_v2 : Ref sig .tc := ⟨.hbm, 104, rfl⟩
abbrev main_call3_v3 : Ref sig .tc := ⟨.hbm, 105, rfl⟩
abbrev main_call3_c_1 : Ref sig .tc := ⟨.hbm, 106, rfl⟩
abbrev main_call3_v4 : Ref sig .tc := ⟨.hbm, 107, rfl⟩
abbrev main_call3_c_2 : Ref sig .tc := ⟨.hbm, 108, rfl⟩
abbrev main_call3_v5 : Ref sig .tc := ⟨.hbm, 109, rfl⟩
abbrev main_call3_v6 : Ref sig .tc := ⟨.hbm, 110, rfl⟩
abbrev main_call3_v7 : Ref sig .tc := ⟨.hbm, 111, rfl⟩
abbrev main_call3_v8 : Ref sig .tc := ⟨.hbm, 112, rfl⟩
abbrev main_call3_c_3 : Ref sig .tc := ⟨.hbm, 113, rfl⟩
abbrev main_call3_v9 : Ref sig .tc := ⟨.hbm, 114, rfl⟩
abbrev main_call3_v10 : Ref sig .tc := ⟨.hbm, 115, rfl⟩
abbrev main_call3_v11 : Ref sig .tc := ⟨.hbm, 116, rfl⟩
abbrev main_call3_cst : Ref sig .tc := ⟨.hbm, 117, rfl⟩
abbrev main_call3_v12 : Ref sig .tc := ⟨.hbm, 118, rfl⟩
abbrev main_v32 : Ref sig .tc := ⟨.hbm, 119, rfl⟩
abbrev main_v33 : Ref sig .tc := ⟨.hbm, 120, rfl⟩
abbrev main_v34 : Ref sig .tc := ⟨.hbm, 121, rfl⟩
abbrev main_v35 : Ref sig .tc := ⟨.hbm, 122, rfl⟩
abbrev main_v36 : Ref sig .tc := ⟨.hbm, 123, rfl⟩
abbrev main_v37 : Ref sig .tc := ⟨.hbm, 124, rfl⟩
abbrev main_v38 : Ref sig .tc := ⟨.hbm, 125, rfl⟩
abbrev main_c_5 : Ref sig .tc := ⟨.hbm, 126, rfl⟩
abbrev main_call5_c : Ref sig .tc := ⟨.hbm, 127, rfl⟩
abbrev main_call5_v0 : Ref sig .tc := ⟨.hbm, 128, rfl⟩
abbrev main_call5_c_0 : Ref sig .tc := ⟨.hbm, 129, rfl⟩
abbrev main_call5_v1 : Ref sig .tc := ⟨.hbm, 130, rfl⟩
abbrev main_call5_v2 : Ref sig .tc := ⟨.hbm, 131, rfl⟩
abbrev main_call5_v3 : Ref sig .tc := ⟨.hbm, 132, rfl⟩
abbrev main_call5_c_1 : Ref sig .tc := ⟨.hbm, 133, rfl⟩
abbrev main_call5_v4 : Ref sig .tc := ⟨.hbm, 134, rfl⟩
abbrev main_call5_c_2 : Ref sig .tc := ⟨.hbm, 135, rfl⟩
abbrev main_call5_v5 : Ref sig .tc := ⟨.hbm, 136, rfl⟩
abbrev main_call5_v6 : Ref sig .tc := ⟨.hbm, 137, rfl⟩
abbrev main_call5_v7 : Ref sig .tc := ⟨.hbm, 138, rfl⟩
abbrev main_call5_v8 : Ref sig .tc := ⟨.hbm, 139, rfl⟩
abbrev main_call5_c_3 : Ref sig .tc := ⟨.hbm, 140, rfl⟩
abbrev main_call5_v9 : Ref sig .tc := ⟨.hbm, 141, rfl⟩
abbrev main_call5_v10 : Ref sig .tc := ⟨.hbm, 142, rfl⟩
abbrev main_call5_v11 : Ref sig .tc := ⟨.hbm, 143, rfl⟩
abbrev main_call5_cst : Ref sig .tc := ⟨.hbm, 144, rfl⟩
abbrev main_call5_v12 : Ref sig .tc := ⟨.hbm, 145, rfl⟩
abbrev main_v39 : Ref sig .tc := ⟨.hbm, 146, rfl⟩
abbrev main_c_6 : Ref sig .tc := ⟨.hbm, 147, rfl⟩
abbrev main_call6_c : Ref sig .tc := ⟨.hbm, 148, rfl⟩
abbrev main_call6_v0 : Ref sig .tc := ⟨.hbm, 149, rfl⟩
abbrev main_call6_c_0 : Ref sig .tc := ⟨.hbm, 150, rfl⟩
abbrev main_call6_v1 : Ref sig .tc := ⟨.hbm, 151, rfl⟩
abbrev main_call6_v2 : Ref sig .tc := ⟨.hbm, 152, rfl⟩
abbrev main_call6_v3 : Ref sig .tc := ⟨.hbm, 153, rfl⟩
abbrev main_call6_c_1 : Ref sig .tc := ⟨.hbm, 154, rfl⟩
abbrev main_call6_v4 : Ref sig .tc := ⟨.hbm, 155, rfl⟩
abbrev main_call6_c_2 : Ref sig .tc := ⟨.hbm, 156, rfl⟩
abbrev main_call6_v5 : Ref sig .tc := ⟨.hbm, 157, rfl⟩
abbrev main_call6_v6 : Ref sig .tc := ⟨.hbm, 158, rfl⟩
abbrev main_call6_v7 : Ref sig .tc := ⟨.hbm, 159, rfl⟩
abbrev main_call6_v8 : Ref sig .tc := ⟨.hbm, 160, rfl⟩
abbrev main_call6_c_3 : Ref sig .tc := ⟨.hbm, 161, rfl⟩
abbrev main_call6_v9 : Ref sig .tc := ⟨.hbm, 162, rfl⟩
abbrev main_call6_v10 : Ref sig .tc := ⟨.hbm, 163, rfl⟩
abbrev main_call6_v11 : Ref sig .tc := ⟨.hbm, 164, rfl⟩
abbrev main_call6_cst : Ref sig .tc := ⟨.hbm, 165, rfl⟩
abbrev main_call6_v12 : Ref sig .tc := ⟨.hbm, 166, rfl⟩
abbrev main_v40 : Ref sig .tc := ⟨.hbm, 167, rfl⟩
abbrev main_cst_7 : Ref sig .tc := ⟨.hbm, 168, rfl⟩
abbrev main_v41 : Ref sig .tc := ⟨.hbm, 169, rfl⟩
abbrev main_v42 : Ref sig .tc := ⟨.hbm, 170, rfl⟩
abbrev main_cst_8 : Ref sig .tc := ⟨.hbm, 171, rfl⟩
abbrev main_v43 : Ref sig .tc := ⟨.hbm, 172, rfl⟩
abbrev main_v44 : Ref sig .tc := ⟨.hbm, 173, rfl⟩
abbrev main_v45 : Ref sig .tc := ⟨.hbm, 174, rfl⟩
abbrev main_v46 : Ref sig .tc := ⟨.hbm, 175, rfl⟩
abbrev main_v47 : Ref sig .tc := ⟨.hbm, 176, rfl⟩
abbrev main_v48 : Ref sig .tc := ⟨.hbm, 177, rfl⟩
abbrev main_v49 : Ref sig .tc := ⟨.hbm, 178, rfl⟩
abbrev main_v50 : Ref sig .tc := ⟨.hbm, 179, rfl⟩
abbrev main_v51 : Ref sig .tc := ⟨.hbm, 180, rfl⟩
abbrev main_v52 : Ref sig .tc := ⟨.hbm, 181, rfl⟩
abbrev main_v53 : Ref sig .tc := ⟨.hbm, 182, rfl⟩
abbrev main_v54 : Ref sig .tc := ⟨.hbm, 183, rfl⟩
abbrev main_v55 : Ref sig .tc := ⟨.hbm, 184, rfl⟩
abbrev main_v56 : Ref sig .tc := ⟨.hbm, 185, rfl⟩
abbrev main_v57 : Ref sig .tc := ⟨.hbm, 186, rfl⟩
abbrev main_c_9 : Ref sig .tc := ⟨.hbm, 187, rfl⟩
abbrev main_call7_c : Ref sig .tc := ⟨.hbm, 188, rfl⟩
abbrev main_call7_v0 : Ref sig .tc := ⟨.hbm, 189, rfl⟩
abbrev main_call7_c_0 : Ref sig .tc := ⟨.hbm, 190, rfl⟩
abbrev main_call7_v1 : Ref sig .tc := ⟨.hbm, 191, rfl⟩
abbrev main_call7_v2 : Ref sig .tc := ⟨.hbm, 192, rfl⟩
abbrev main_call7_v3 : Ref sig .tc := ⟨.hbm, 193, rfl⟩
abbrev main_call7_c_1 : Ref sig .tc := ⟨.hbm, 194, rfl⟩
abbrev main_call7_v4 : Ref sig .tc := ⟨.hbm, 195, rfl⟩
abbrev main_call7_c_2 : Ref sig .tc := ⟨.hbm, 196, rfl⟩
abbrev main_call7_v5 : Ref sig .tc := ⟨.hbm, 197, rfl⟩
abbrev main_call7_v6 : Ref sig .tc := ⟨.hbm, 198, rfl⟩
abbrev main_call7_v7 : Ref sig .tc := ⟨.hbm, 199, rfl⟩
abbrev main_call7_v8 : Ref sig .tc := ⟨.hbm, 200, rfl⟩
abbrev main_call7_c_3 : Ref sig .tc := ⟨.hbm, 201, rfl⟩
abbrev main_call7_v9 : Ref sig .tc := ⟨.hbm, 202, rfl⟩
abbrev main_call7_v10 : Ref sig .tc := ⟨.hbm, 203, rfl⟩
abbrev main_call7_v11 : Ref sig .tc := ⟨.hbm, 204, rfl⟩
abbrev main_call7_cst : Ref sig .tc := ⟨.hbm, 205, rfl⟩
abbrev main_call7_v12 : Ref sig .tc := ⟨.hbm, 206, rfl⟩
abbrev main_v58 : Ref sig .tc := ⟨.hbm, 207, rfl⟩
abbrev main_c_10 : Ref sig .tc := ⟨.hbm, 208, rfl⟩
abbrev main_call8_c : Ref sig .tc := ⟨.hbm, 209, rfl⟩
abbrev main_call8_v0 : Ref sig .tc := ⟨.hbm, 210, rfl⟩
abbrev main_call8_c_0 : Ref sig .tc := ⟨.hbm, 211, rfl⟩
abbrev main_call8_v1 : Ref sig .tc := ⟨.hbm, 212, rfl⟩
abbrev main_call8_v2 : Ref sig .tc := ⟨.hbm, 213, rfl⟩
abbrev main_call8_v3 : Ref sig .tc := ⟨.hbm, 214, rfl⟩
abbrev main_call8_c_1 : Ref sig .tc := ⟨.hbm, 215, rfl⟩
abbrev main_call8_v4 : Ref sig .tc := ⟨.hbm, 216, rfl⟩
abbrev main_call8_c_2 : Ref sig .tc := ⟨.hbm, 217, rfl⟩
abbrev main_call8_v5 : Ref sig .tc := ⟨.hbm, 218, rfl⟩
abbrev main_call8_v6 : Ref sig .tc := ⟨.hbm, 219, rfl⟩
abbrev main_call8_v7 : Ref sig .tc := ⟨.hbm, 220, rfl⟩
abbrev main_call8_v8 : Ref sig .tc := ⟨.hbm, 221, rfl⟩
abbrev main_call8_c_3 : Ref sig .tc := ⟨.hbm, 222, rfl⟩
abbrev main_call8_v9 : Ref sig .tc := ⟨.hbm, 223, rfl⟩
abbrev main_call8_v10 : Ref sig .tc := ⟨.hbm, 224, rfl⟩
abbrev main_call8_v11 : Ref sig .tc := ⟨.hbm, 225, rfl⟩
abbrev main_call8_cst : Ref sig .tc := ⟨.hbm, 226, rfl⟩
abbrev main_call8_v12 : Ref sig .tc := ⟨.hbm, 227, rfl⟩
abbrev main_v59 : Ref sig .tc := ⟨.hbm, 228, rfl⟩
abbrev main_v60 : Ref sig .tc := ⟨.hbm, 229, rfl⟩
abbrev main_v61 : Ref sig .tc := ⟨.hbm, 230, rfl⟩
abbrev main_v62 : Ref sig .tc := ⟨.hbm, 231, rfl⟩
abbrev main_v63 : Ref sig .tc := ⟨.hbm, 232, rfl⟩
abbrev main_v64 : Ref sig .tc := ⟨.hbm, 233, rfl⟩
abbrev main_v65 : Ref sig .tc := ⟨.hbm, 234, rfl⟩
abbrev main_c_11 : Ref sig .tc := ⟨.hbm, 235, rfl⟩
abbrev main_call10_c : Ref sig .tc := ⟨.hbm, 236, rfl⟩
abbrev main_call10_v0 : Ref sig .tc := ⟨.hbm, 237, rfl⟩
abbrev main_call10_c_0 : Ref sig .tc := ⟨.hbm, 238, rfl⟩
abbrev main_call10_v1 : Ref sig .tc := ⟨.hbm, 239, rfl⟩
abbrev main_call10_v2 : Ref sig .tc := ⟨.hbm, 240, rfl⟩
abbrev main_call10_v3 : Ref sig .tc := ⟨.hbm, 241, rfl⟩
abbrev main_call10_c_1 : Ref sig .tc := ⟨.hbm, 242, rfl⟩
abbrev main_call10_v4 : Ref sig .tc := ⟨.hbm, 243, rfl⟩
abbrev main_call10_c_2 : Ref sig .tc := ⟨.hbm, 244, rfl⟩
abbrev main_call10_v5 : Ref sig .tc := ⟨.hbm, 245, rfl⟩
abbrev main_call10_v6 : Ref sig .tc := ⟨.hbm, 246, rfl⟩
abbrev main_call10_v7 : Ref sig .tc := ⟨.hbm, 247, rfl⟩
abbrev main_call10_v8 : Ref sig .tc := ⟨.hbm, 248, rfl⟩
abbrev main_call10_c_3 : Ref sig .tc := ⟨.hbm, 249, rfl⟩
abbrev main_call10_v9 : Ref sig .tc := ⟨.hbm, 250, rfl⟩
abbrev main_call10_v10 : Ref sig .tc := ⟨.hbm, 251, rfl⟩
abbrev main_call10_v11 : Ref sig .tc := ⟨.hbm, 252, rfl⟩
abbrev main_call10_cst : Ref sig .tc := ⟨.hbm, 253, rfl⟩
abbrev main_call10_v12 : Ref sig .tc := ⟨.hbm, 254, rfl⟩
abbrev main_v66 : Ref sig .tc := ⟨.hbm, 255, rfl⟩
abbrev main_c_12 : Ref sig .tc := ⟨.hbm, 256, rfl⟩
abbrev main_call11_c : Ref sig .tc := ⟨.hbm, 257, rfl⟩
abbrev main_call11_v0 : Ref sig .tc := ⟨.hbm, 258, rfl⟩
abbrev main_call11_c_0 : Ref sig .tc := ⟨.hbm, 259, rfl⟩
abbrev main_call11_v1 : Ref sig .tc := ⟨.hbm, 260, rfl⟩
abbrev main_call11_v2 : Ref sig .tc := ⟨.hbm, 261, rfl⟩
abbrev main_call11_v3 : Ref sig .tc := ⟨.hbm, 262, rfl⟩
abbrev main_call11_c_1 : Ref sig .tc := ⟨.hbm, 263, rfl⟩
abbrev main_call11_v4 : Ref sig .tc := ⟨.hbm, 264, rfl⟩
abbrev main_call11_c_2 : Ref sig .tc := ⟨.hbm, 265, rfl⟩
abbrev main_call11_v5 : Ref sig .tc := ⟨.hbm, 266, rfl⟩
abbrev main_call11_v6 : Ref sig .tc := ⟨.hbm, 267, rfl⟩
abbrev main_call11_v7 : Ref sig .tc := ⟨.hbm, 268, rfl⟩
abbrev main_call11_v8 : Ref sig .tc := ⟨.hbm, 269, rfl⟩
abbrev main_call11_c_3 : Ref sig .tc := ⟨.hbm, 270, rfl⟩
abbrev main_call11_v9 : Ref sig .tc := ⟨.hbm, 271, rfl⟩
abbrev main_call11_v10 : Ref sig .tc := ⟨.hbm, 272, rfl⟩
abbrev main_call11_v11 : Ref sig .tc := ⟨.hbm, 273, rfl⟩
abbrev main_call11_cst : Ref sig .tc := ⟨.hbm, 274, rfl⟩
abbrev main_call11_v12 : Ref sig .tc := ⟨.hbm, 275, rfl⟩
abbrev main_v67 : Ref sig .tc := ⟨.hbm, 276, rfl⟩
abbrev main_cst_13 : Ref sig .tc := ⟨.hbm, 277, rfl⟩
abbrev main_v68 : Ref sig .tc := ⟨.hbm, 278, rfl⟩
abbrev main_v69 : Ref sig .tc := ⟨.hbm, 279, rfl⟩
abbrev main_cst_14 : Ref sig .tc := ⟨.hbm, 280, rfl⟩
abbrev main_v70 : Ref sig .tc := ⟨.hbm, 281, rfl⟩
abbrev main_v71 : Ref sig .tc := ⟨.hbm, 282, rfl⟩
abbrev main_v72 : Ref sig .tc := ⟨.hbm, 283, rfl⟩
abbrev main_v73 : Ref sig .tc := ⟨.hbm, 284, rfl⟩
abbrev main_v74 : Ref sig .tc := ⟨.hbm, 285, rfl⟩
abbrev main_v75 : Ref sig .tc := ⟨.hbm, 286, rfl⟩
abbrev main_v76 : Ref sig .tc := ⟨.hbm, 287, rfl⟩
abbrev main_v77 : Ref sig .tc := ⟨.hbm, 288, rfl⟩
abbrev main_v78 : Ref sig .tc := ⟨.hbm, 289, rfl⟩
abbrev main_v79 : Ref sig .tc := ⟨.hbm, 290, rfl⟩
abbrev main_v80 : Ref sig .tc := ⟨.hbm, 291, rfl⟩
abbrev main_v81 : Ref sig .tc := ⟨.hbm, 292, rfl⟩
abbrev main_v82 : Ref sig .tc := ⟨.hbm, 293, rfl⟩
abbrev main_v83 : Ref sig .tc := ⟨.hbm, 294, rfl⟩
abbrev main_v84 : Ref sig .tc := ⟨.hbm, 295, rfl⟩
abbrev main_c_15 : Ref sig .tc := ⟨.hbm, 296, rfl⟩
abbrev main_call12_c : Ref sig .tc := ⟨.hbm, 297, rfl⟩
abbrev main_call12_v0 : Ref sig .tc := ⟨.hbm, 298, rfl⟩
abbrev main_call12_c_0 : Ref sig .tc := ⟨.hbm, 299, rfl⟩
abbrev main_call12_v1 : Ref sig .tc := ⟨.hbm, 300, rfl⟩
abbrev main_call12_v2 : Ref sig .tc := ⟨.hbm, 301, rfl⟩
abbrev main_call12_v3 : Ref sig .tc := ⟨.hbm, 302, rfl⟩
abbrev main_call12_c_1 : Ref sig .tc := ⟨.hbm, 303, rfl⟩
abbrev main_call12_v4 : Ref sig .tc := ⟨.hbm, 304, rfl⟩
abbrev main_call12_c_2 : Ref sig .tc := ⟨.hbm, 305, rfl⟩
abbrev main_call12_v5 : Ref sig .tc := ⟨.hbm, 306, rfl⟩
abbrev main_call12_v6 : Ref sig .tc := ⟨.hbm, 307, rfl⟩
abbrev main_call12_v7 : Ref sig .tc := ⟨.hbm, 308, rfl⟩
abbrev main_call12_v8 : Ref sig .tc := ⟨.hbm, 309, rfl⟩
abbrev main_call12_c_3 : Ref sig .tc := ⟨.hbm, 310, rfl⟩
abbrev main_call12_v9 : Ref sig .tc := ⟨.hbm, 311, rfl⟩
abbrev main_call12_v10 : Ref sig .tc := ⟨.hbm, 312, rfl⟩
abbrev main_call12_v11 : Ref sig .tc := ⟨.hbm, 313, rfl⟩
abbrev main_call12_cst : Ref sig .tc := ⟨.hbm, 314, rfl⟩
abbrev main_call12_v12 : Ref sig .tc := ⟨.hbm, 315, rfl⟩
abbrev main_v85 : Ref sig .tc := ⟨.hbm, 316, rfl⟩
abbrev main_c_16 : Ref sig .tc := ⟨.hbm, 317, rfl⟩
abbrev main_call13_c : Ref sig .tc := ⟨.hbm, 318, rfl⟩
abbrev main_call13_v0 : Ref sig .tc := ⟨.hbm, 319, rfl⟩
abbrev main_call13_c_0 : Ref sig .tc := ⟨.hbm, 320, rfl⟩
abbrev main_call13_v1 : Ref sig .tc := ⟨.hbm, 321, rfl⟩
abbrev main_call13_v2 : Ref sig .tc := ⟨.hbm, 322, rfl⟩
abbrev main_call13_v3 : Ref sig .tc := ⟨.hbm, 323, rfl⟩
abbrev main_call13_c_1 : Ref sig .tc := ⟨.hbm, 324, rfl⟩
abbrev main_call13_v4 : Ref sig .tc := ⟨.hbm, 325, rfl⟩
abbrev main_call13_c_2 : Ref sig .tc := ⟨.hbm, 326, rfl⟩
abbrev main_call13_v5 : Ref sig .tc := ⟨.hbm, 327, rfl⟩
abbrev main_call13_v6 : Ref sig .tc := ⟨.hbm, 328, rfl⟩
abbrev main_call13_v7 : Ref sig .tc := ⟨.hbm, 329, rfl⟩
abbrev main_call13_v8 : Ref sig .tc := ⟨.hbm, 330, rfl⟩
abbrev main_call13_c_3 : Ref sig .tc := ⟨.hbm, 331, rfl⟩
abbrev main_call13_v9 : Ref sig .tc := ⟨.hbm, 332, rfl⟩
abbrev main_call13_v10 : Ref sig .tc := ⟨.hbm, 333, rfl⟩
abbrev main_call13_v11 : Ref sig .tc := ⟨.hbm, 334, rfl⟩
abbrev main_call13_cst : Ref sig .tc := ⟨.hbm, 335, rfl⟩
abbrev main_call13_v12 : Ref sig .tc := ⟨.hbm, 336, rfl⟩
abbrev main_v86 : Ref sig .tc := ⟨.hbm, 337, rfl⟩
abbrev main_v87 : Ref sig .tc := ⟨.hbm, 338, rfl⟩
abbrev main_v88 : Ref sig .tc := ⟨.hbm, 339, rfl⟩
abbrev main_v89 : Ref sig .tc := ⟨.hbm, 340, rfl⟩
abbrev main_v90 : Ref sig .tc := ⟨.hbm, 341, rfl⟩
abbrev main_v91 : Ref sig .tc := ⟨.hbm, 342, rfl⟩
abbrev main_v92 : Ref sig .tc := ⟨.hbm, 343, rfl⟩
abbrev main_c_17 : Ref sig .tc := ⟨.hbm, 344, rfl⟩
abbrev main_call15_c : Ref sig .tc := ⟨.hbm, 345, rfl⟩
abbrev main_call15_v0 : Ref sig .tc := ⟨.hbm, 346, rfl⟩
abbrev main_call15_c_0 : Ref sig .tc := ⟨.hbm, 347, rfl⟩
abbrev main_call15_v1 : Ref sig .tc := ⟨.hbm, 348, rfl⟩
abbrev main_call15_v2 : Ref sig .tc := ⟨.hbm, 349, rfl⟩
abbrev main_call15_v3 : Ref sig .tc := ⟨.hbm, 350, rfl⟩
abbrev main_call15_c_1 : Ref sig .tc := ⟨.hbm, 351, rfl⟩
abbrev main_call15_v4 : Ref sig .tc := ⟨.hbm, 352, rfl⟩
abbrev main_call15_c_2 : Ref sig .tc := ⟨.hbm, 353, rfl⟩
abbrev main_call15_v5 : Ref sig .tc := ⟨.hbm, 354, rfl⟩
abbrev main_call15_v6 : Ref sig .tc := ⟨.hbm, 355, rfl⟩
abbrev main_call15_v7 : Ref sig .tc := ⟨.hbm, 356, rfl⟩
abbrev main_call15_v8 : Ref sig .tc := ⟨.hbm, 357, rfl⟩
abbrev main_call15_c_3 : Ref sig .tc := ⟨.hbm, 358, rfl⟩
abbrev main_call15_v9 : Ref sig .tc := ⟨.hbm, 359, rfl⟩
abbrev main_call15_v10 : Ref sig .tc := ⟨.hbm, 360, rfl⟩
abbrev main_call15_v11 : Ref sig .tc := ⟨.hbm, 361, rfl⟩
abbrev main_call15_cst : Ref sig .tc := ⟨.hbm, 362, rfl⟩
abbrev main_call15_v12 : Ref sig .tc := ⟨.hbm, 363, rfl⟩
abbrev main_v93 : Ref sig .tc := ⟨.hbm, 364, rfl⟩
abbrev main_c_18 : Ref sig .tc := ⟨.hbm, 365, rfl⟩
abbrev main_call16_c : Ref sig .tc := ⟨.hbm, 366, rfl⟩
abbrev main_call16_v0 : Ref sig .tc := ⟨.hbm, 367, rfl⟩
abbrev main_call16_c_0 : Ref sig .tc := ⟨.hbm, 368, rfl⟩
abbrev main_call16_v1 : Ref sig .tc := ⟨.hbm, 369, rfl⟩
abbrev main_call16_v2 : Ref sig .tc := ⟨.hbm, 370, rfl⟩
abbrev main_call16_v3 : Ref sig .tc := ⟨.hbm, 371, rfl⟩
abbrev main_call16_c_1 : Ref sig .tc := ⟨.hbm, 372, rfl⟩
abbrev main_call16_v4 : Ref sig .tc := ⟨.hbm, 373, rfl⟩
abbrev main_call16_c_2 : Ref sig .tc := ⟨.hbm, 374, rfl⟩
abbrev main_call16_v5 : Ref sig .tc := ⟨.hbm, 375, rfl⟩
abbrev main_call16_v6 : Ref sig .tc := ⟨.hbm, 376, rfl⟩
abbrev main_call16_v7 : Ref sig .tc := ⟨.hbm, 377, rfl⟩
abbrev main_call16_v8 : Ref sig .tc := ⟨.hbm, 378, rfl⟩
abbrev main_call16_c_3 : Ref sig .tc := ⟨.hbm, 379, rfl⟩
abbrev main_call16_v9 : Ref sig .tc := ⟨.hbm, 380, rfl⟩
abbrev main_call16_v10 : Ref sig .tc := ⟨.hbm, 381, rfl⟩
abbrev main_call16_v11 : Ref sig .tc := ⟨.hbm, 382, rfl⟩
abbrev main_call16_cst : Ref sig .tc := ⟨.hbm, 383, rfl⟩
abbrev main_call16_v12 : Ref sig .tc := ⟨.hbm, 384, rfl⟩
abbrev main_v94 : Ref sig .tc := ⟨.hbm, 385, rfl⟩
abbrev main_cst_19 : Ref sig .tc := ⟨.hbm, 386, rfl⟩
abbrev main_v95 : Ref sig .tc := ⟨.hbm, 387, rfl⟩
abbrev main_v96 : Ref sig .tc := ⟨.hbm, 388, rfl⟩
abbrev main_cst_20 : Ref sig .tc := ⟨.hbm, 389, rfl⟩
abbrev main_v97 : Ref sig .tc := ⟨.hbm, 390, rfl⟩
abbrev main_v98 : Ref sig .tc := ⟨.hbm, 391, rfl⟩
abbrev main_v99 : Ref sig .tc := ⟨.hbm, 392, rfl⟩
abbrev main_v100 : Ref sig .tc := ⟨.hbm, 393, rfl⟩
abbrev main_v101 : Ref sig .tc := ⟨.hbm, 394, rfl⟩
abbrev main_v102 : Ref sig .tc := ⟨.hbm, 395, rfl⟩
abbrev main_v103 : Ref sig .tc := ⟨.hbm, 396, rfl⟩
abbrev main_v104 : Ref sig .tc := ⟨.hbm, 397, rfl⟩
abbrev main_v105 : Ref sig .tc := ⟨.hbm, 398, rfl⟩
abbrev main_v106 : Ref sig .tc := ⟨.hbm, 399, rfl⟩
abbrev main_v107 : Ref sig .tc := ⟨.hbm, 400, rfl⟩
abbrev main_v108 : Ref sig .tc := ⟨.hbm, 401, rfl⟩
abbrev main_v109 : Ref sig .tc := ⟨.hbm, 402, rfl⟩
abbrev main_v110 : Ref sig .tc := ⟨.hbm, 403, rfl⟩
abbrev main_v111 : Ref sig .tc := ⟨.hbm, 404, rfl⟩
abbrev main_c_21 : Ref sig .tc := ⟨.hbm, 405, rfl⟩
abbrev main_call17_c : Ref sig .tc := ⟨.hbm, 406, rfl⟩
abbrev main_call17_v0 : Ref sig .tc := ⟨.hbm, 407, rfl⟩
abbrev main_call17_c_0 : Ref sig .tc := ⟨.hbm, 408, rfl⟩
abbrev main_call17_v1 : Ref sig .tc := ⟨.hbm, 409, rfl⟩
abbrev main_call17_v2 : Ref sig .tc := ⟨.hbm, 410, rfl⟩
abbrev main_call17_v3 : Ref sig .tc := ⟨.hbm, 411, rfl⟩
abbrev main_call17_c_1 : Ref sig .tc := ⟨.hbm, 412, rfl⟩
abbrev main_call17_v4 : Ref sig .tc := ⟨.hbm, 413, rfl⟩
abbrev main_call17_c_2 : Ref sig .tc := ⟨.hbm, 414, rfl⟩
abbrev main_call17_v5 : Ref sig .tc := ⟨.hbm, 415, rfl⟩
abbrev main_call17_v6 : Ref sig .tc := ⟨.hbm, 416, rfl⟩
abbrev main_call17_v7 : Ref sig .tc := ⟨.hbm, 417, rfl⟩
abbrev main_call17_v8 : Ref sig .tc := ⟨.hbm, 418, rfl⟩
abbrev main_call17_c_3 : Ref sig .tc := ⟨.hbm, 419, rfl⟩
abbrev main_call17_v9 : Ref sig .tc := ⟨.hbm, 420, rfl⟩
abbrev main_call17_v10 : Ref sig .tc := ⟨.hbm, 421, rfl⟩
abbrev main_call17_v11 : Ref sig .tc := ⟨.hbm, 422, rfl⟩
abbrev main_call17_cst : Ref sig .tc := ⟨.hbm, 423, rfl⟩
abbrev main_call17_v12 : Ref sig .tc := ⟨.hbm, 424, rfl⟩
abbrev main_v112 : Ref sig .tc := ⟨.hbm, 425, rfl⟩
abbrev main_c_22 : Ref sig .tc := ⟨.hbm, 426, rfl⟩
abbrev main_call18_c : Ref sig .tc := ⟨.hbm, 427, rfl⟩
abbrev main_call18_v0 : Ref sig .tc := ⟨.hbm, 428, rfl⟩
abbrev main_call18_c_0 : Ref sig .tc := ⟨.hbm, 429, rfl⟩
abbrev main_call18_v1 : Ref sig .tc := ⟨.hbm, 430, rfl⟩
abbrev main_call18_v2 : Ref sig .tc := ⟨.hbm, 431, rfl⟩
abbrev main_call18_v3 : Ref sig .tc := ⟨.hbm, 432, rfl⟩
abbrev main_call18_c_1 : Ref sig .tc := ⟨.hbm, 433, rfl⟩
abbrev main_call18_v4 : Ref sig .tc := ⟨.hbm, 434, rfl⟩
abbrev main_call18_c_2 : Ref sig .tc := ⟨.hbm, 435, rfl⟩
abbrev main_call18_v5 : Ref sig .tc := ⟨.hbm, 436, rfl⟩
abbrev main_call18_v6 : Ref sig .tc := ⟨.hbm, 437, rfl⟩
abbrev main_call18_v7 : Ref sig .tc := ⟨.hbm, 438, rfl⟩
abbrev main_call18_v8 : Ref sig .tc := ⟨.hbm, 439, rfl⟩
abbrev main_call18_c_3 : Ref sig .tc := ⟨.hbm, 440, rfl⟩
abbrev main_call18_v9 : Ref sig .tc := ⟨.hbm, 441, rfl⟩
abbrev main_call18_v10 : Ref sig .tc := ⟨.hbm, 442, rfl⟩
abbrev main_call18_v11 : Ref sig .tc := ⟨.hbm, 443, rfl⟩
abbrev main_call18_cst : Ref sig .tc := ⟨.hbm, 444, rfl⟩
abbrev main_call18_v12 : Ref sig .tc := ⟨.hbm, 445, rfl⟩
abbrev main_v113 : Ref sig .tc := ⟨.hbm, 446, rfl⟩
abbrev main_v114 : Ref sig .tc := ⟨.hbm, 447, rfl⟩
abbrev main_v115 : Ref sig .tc := ⟨.hbm, 448, rfl⟩
abbrev main_v116 : Ref sig .tc := ⟨.hbm, 449, rfl⟩
abbrev main_v117 : Ref sig .tc := ⟨.hbm, 450, rfl⟩
abbrev main_v118 : Ref sig .tc := ⟨.hbm, 451, rfl⟩
abbrev main_v119 : Ref sig .tc := ⟨.hbm, 452, rfl⟩
abbrev main_v120 : Ref sig .tc := ⟨.hbm, 453, rfl⟩
abbrev main_v121 : Ref sig .tc := ⟨.hbm, 454, rfl⟩
abbrev main_v122 : Ref sig .tc := ⟨.hbm, 455, rfl⟩
abbrev main_v123 : Ref sig .tc := ⟨.hbm, 456, rfl⟩
abbrev main_v124 : Ref sig .tc := ⟨.hbm, 457, rfl⟩
abbrev main_v125 : Ref sig .tc := ⟨.hbm, 458, rfl⟩
abbrev main_v126 : Ref sig .tc := ⟨.hbm, 459, rfl⟩
abbrev main_v127 : Ref sig .tc := ⟨.hbm, 460, rfl⟩
abbrev main_call20_cst : Ref sig .tc := ⟨.hbm, 461, rfl⟩
abbrev main_call20_v0 : Ref sig .tc := ⟨.hbm, 462, rfl⟩
abbrev main_call20_cst_0 : Ref sig .tc := ⟨.hbm, 463, rfl⟩
abbrev main_call20_v1 : Ref sig .tc := ⟨.hbm, 464, rfl⟩
abbrev main_call20_v2 : Ref sig .tc := ⟨.hbm, 465, rfl⟩
abbrev main_call20_v3 : Ref sig .tc := ⟨.hbm, 466, rfl⟩
abbrev main_call20_v4 : Ref sig .tc := ⟨.hbm, 467, rfl⟩
abbrev main_call20_v5 : Ref sig .tc := ⟨.hbm, 468, rfl⟩
abbrev main_call20_v6 : Ref sig .tc := ⟨.hbm, 469, rfl⟩
abbrev main_call20_cst_1 : Ref sig .tc := ⟨.hbm, 470, rfl⟩
abbrev main_call20_v7 : Ref sig .tc := ⟨.hbm, 471, rfl⟩
abbrev main_call20_v8 : Ref sig .tc := ⟨.hbm, 472, rfl⟩
abbrev main_call20_v9 : Ref sig .tc := ⟨.hbm, 473, rfl⟩
abbrev main_call20_v10 : Ref sig .tc := ⟨.hbm, 474, rfl⟩
abbrev main_v128 : Ref sig .tc := ⟨.hbm, 475, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x57344 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x57344 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096x784_S4096x14x2x14x2 : S4096x784.ShapeCasts S4096x14x2x14x2
  transposes_S4096x14x2x14x2_S2x2x4096x14x14_2_4_0_1_3 : S4096x14x2x14x2.Transposes [2, 4, 0, 1, 3] S2x2x4096x14x14
  shapeCasts_S2x2x4096x14x14_S4x802816 : S2x2x4096x14x14.ShapeCasts S4x802816
  bcast_S_S16x16 : S_.BroadcastsInDim S16x16 (![] : Fin 0 → Fin S16x16.rank)
  shapeCasts_S16x16_S16x2x2x2x2 : S16x16.ShapeCasts S16x2x2x2x2
  slices_S4_S1_0 : S4.Slices ![0] S1
  shapeCasts_S1_S_ : S1.ShapeCasts S_
  bcast_S_S1 : S_.BroadcastsInDim S1 (![] : Fin 0 → Fin S1.rank)
  reducesTo_S1_S_d0 : S1.ReducesTo [0] S_
  h_S_ : 0 < S_.numel
  bcast_S_S16x2x2x2 : S_.BroadcastsInDim S16x2x2x2 (![] : Fin 0 → Fin S16x2x2x2.rank)
  bcast_S16x2x2x2_S16x1x2x2x2_0_2_3_4 : S16x2x2x2.BroadcastsInDim S16x1x2x2x2 (![0, 2, 3, 4] : Fin 4 → Fin S16x1x2x2x2.rank)
  concatenates_S16x1x2x2x2_S16x1x2x2x2_S16x2x2x2x2_d1 : Shape.Concatenates [S16x1x2x2x2, S16x1x2x2x2] S16x2x2x2x2 1
  slices_S4_S1_1 : S4.Slices ![1] S1
  bcast_S16x2x2x2_S16x2x1x2x2_0_1_3_4 : S16x2x2x2.BroadcastsInDim S16x2x1x2x2 (![0, 1, 3, 4] : Fin 4 → Fin S16x2x1x2x2.rank)
  concatenates_S16x2x1x2x2_S16x2x1x2x2_S16x2x2x2x2_d2 : Shape.Concatenates [S16x2x1x2x2, S16x2x1x2x2] S16x2x2x2x2 2
  slices_S4_S1_2 : S4.Slices ![2] S1
  bcast_S16x2x2x2_S16x2x2x1x2_0_1_2_4 : S16x2x2x2.BroadcastsInDim S16x2x2x1x2 (![0, 1, 2, 4] : Fin 4 → Fin S16x2x2x1x2.rank)
  concatenates_S16x2x2x1x2_S16x2x2x1x2_S16x2x2x2x2_d3 : Shape.Concatenates [S16x2x2x1x2, S16x2x2x1x2] S16x2x2x2x2 3
  slices_S4_S1_3 : S4.Slices ![3] S1
  bcast_S16x2x2x2_S16x2x2x2x1_0_1_2_3 : S16x2x2x2.BroadcastsInDim S16x2x2x2x1 (![0, 1, 2, 3] : Fin 4 → Fin S16x2x2x2x1.rank)
  concatenates_S16x2x2x2x1_S16x2x2x2x1_S16x2x2x2x2_d4 : Shape.Concatenates [S16x2x2x2x1, S16x2x2x2x1] S16x2x2x2x2 4
  shapeCasts_S16x2x2x2x2_S16x16 : S16x2x2x2x2.ShapeCasts S16x16
  transposes_S16x16_S16x16_1_0 : S16x16.Transposes [1, 0] S16x16
  inb_S4x57344_S1x57344_0_0 : ∀ a, (![0, 0] : Fin 2 → Nat) a + S1x57344.size a ≤ S4x57344.size a
  h_S1x57344 : 0 < S1x57344.numel
  shapeCasts_S1x57344_S57344 : S1x57344.ShapeCasts S57344
  inb_S4x57344_S1x57344_1_0 : ∀ a, (![1, 0] : Fin 2 → Nat) a + S1x57344.size a ≤ S4x57344.size a
  inb_S4x57344_S1x57344_2_0 : ∀ a, (![2, 0] : Fin 2 → Nat) a + S1x57344.size a ≤ S4x57344.size a
  inb_S4x57344_S1x57344_3_0 : ∀ a, (![3, 0] : Fin 2 → Nat) a + S1x57344.size a ≤ S4x57344.size a
  shapeCasts_S57344_S1x57344 : S57344.ShapeCasts S1x57344
  concatenates_S1x57344_S1x57344_S1x57344_S1x57344_S1x57344_S1x57344_S1x57344_S1x57344_S1x57344_S1x57344_S1x57344_S1x57344_S1x57344_S1x57344_S1x57344_S1x57344_S16x57344_d0 : Shape.Concatenates [S1x57344, S1x57344, S1x57344, S1x57344, S1x57344, S1x57344, S1x57344, S1x57344, S1x57344, S1x57344, S1x57344, S1x57344, S1x57344, S1x57344, S1x57344, S1x57344] S16x57344 0
  inb_S16x16_S16x16_0_0 : ∀ a, (![0, 0] : Fin 2 → Nat) a + S16x16.size a ≤ S16x16.size a
  h_S16x16 : 0 < S16x16.numel
  shapeCasts_S16x16_S16x16 : S16x16.ShapeCasts S16x16
  slices_S16x57344_o0_0_S1x57344 : S16x57344.Slices ![0, 0] S1x57344
  slices_S16x57344_o1_0_S1x57344 : S16x57344.Slices ![1, 0] S1x57344
  slices_S16x57344_o2_0_S1x57344 : S16x57344.Slices ![2, 0] S1x57344
  slices_S16x57344_o3_0_S1x57344 : S16x57344.Slices ![3, 0] S1x57344
  slices_S16x57344_o4_0_S1x57344 : S16x57344.Slices ![4, 0] S1x57344
  slices_S16x57344_o5_0_S1x57344 : S16x57344.Slices ![5, 0] S1x57344
  slices_S16x57344_o6_0_S1x57344 : S16x57344.Slices ![6, 0] S1x57344
  slices_S16x57344_o7_0_S1x57344 : S16x57344.Slices ![7, 0] S1x57344
  slices_S16x57344_o8_0_S1x57344 : S16x57344.Slices ![8, 0] S1x57344
  slices_S16x57344_o9_0_S1x57344 : S16x57344.Slices ![9, 0] S1x57344
  slices_S16x57344_o10_0_S1x57344 : S16x57344.Slices ![10, 0] S1x57344
  slices_S16x57344_o11_0_S1x57344 : S16x57344.Slices ![11, 0] S1x57344
  slices_S16x57344_o12_0_S1x57344 : S16x57344.Slices ![12, 0] S1x57344
  slices_S16x57344_o13_0_S1x57344 : S16x57344.Slices ![13, 0] S1x57344
  slices_S16x57344_o14_0_S1x57344 : S16x57344.Slices ![14, 0] S1x57344
  slices_S16x57344_o15_0_S1x57344 : S16x57344.Slices ![15, 0] S1x57344
  concatenates_S1x57344_S1x57344_S1x57344_S1x57344_S4x57344_d0 : Shape.Concatenates [S1x57344, S1x57344, S1x57344, S1x57344] S4x57344 0
  inb_S4x57344_S4x57344_0_0 : ∀ a, (![0, 0] : Fin 2 → Nat) a + S4x57344.size a ≤ S4x57344.size a
  h_S4x57344 : 0 < S4x57344.numel
  transposes_S4x802816_S802816x4_1_0 : S4x802816.Transposes [1, 0] S802816x4
  shapeCasts_S802816x4_S4096x784 : S802816x4.ShapeCasts S4096x784
  transposes_S10x784_S784x10_1_0 : S10x784.Transposes [1, 0] S784x10
  bcast_S10_S1x10_1 : S10.BroadcastsInDim S1x10 (![1] : Fin 1 → Fin S1x10.rank)
  bcast_S1x10_S4096x10_0_1 : S1x10.BroadcastsInDim S4096x10 (![0, 1] : Fin 2 → Fin S4096x10.rank)
  reducesTo_S4096x10_S4096_d1 : S4096x10.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x10_0_1 : S4096x1.BroadcastsInDim S4096x10 (![0, 1] : Fin 2 → Fin S4096x10.rank)
  gather_S16x2x2x2x2_S1_S16x2x2x2_0123_1_n_n_1_0_161222_wf : GatherDims.WF S16x2x2x2x2 S1 S16x2x2x2 [0, 1, 2, 3] [1] [] [1] [] 0 ![16, 1, 2, 2, 2]
  gather_S16x2x2x2x2_S1_S16x2x2x2_0123_2_n_n_2_0_162122_wf : GatherDims.WF S16x2x2x2x2 S1 S16x2x2x2 [0, 1, 2, 3] [2] [] [2] [] 0 ![16, 2, 1, 2, 2]
  gather_S16x2x2x2x2_S1_S16x2x2x2_0123_3_n_n_3_0_162212_wf : GatherDims.WF S16x2x2x2x2 S1 S16x2x2x2 [0, 1, 2, 3] [3] [] [3] [] 0 ![16, 2, 2, 1, 2]
  gather_S16x2x2x2x2_S1_S16x2x2x2_0123_4_n_n_4_0_162221_wf : GatherDims.WF S16x2x2x2x2 S1 S16x2x2x2 [0, 1, 2, 3] [4] [] [4] [] 0 ![16, 2, 2, 2, 1]
  dot_S16x16_S16x57344_S16x57344_1_0_0_1_n_n_wf : DotDims.WF S16x16 S16x57344 S16x57344 [1] [0] [0] [1] [] []
  dot_S4096x784_S784x10_S4096x10_1_0_0_1_n_n_wf : DotDims.WF S4096x784 S784x10 S4096x10 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x16.size a ≤ S16x16.size a
  hwx0_0 : ∀ i : grid0.Coords, EltTy.bits .f32 = 32 ∨ (Rect.block (s := S16x16) S16x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x57344.size a ≤ S4x802816.size a
  hwx0_1 : ∀ i : grid0.Coords, EltTy.bits .f32 = 32 ∨ (Rect.block (s := S4x802816) S4x57344.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x57344.size a ≤ S4x802816.size a
  hwx0_2 : ∀ i : grid0.Coords, EltTy.bits .f32 = 32 ∨ (Rect.block (s := S4x802816) S4x57344.size (cc0_transform_2 i) (hinb0_2 i)).WholeWords (EltTy.packing .f32)

variable [Facts₀]

def gather_S16x2x2x2x2_S1_S16x2x2x2_0123_1_n_n_1_0_161222 : GatherDims S16x2x2x2x2 S1 S16x2x2x2 where
  offsetDims := [0, 1, 2, 3]
  collapsedSliceDims := [1]
  operandBatchingDims := []
  startIndicesBatchingDims := []
  startIndexMap := [1]
  indexVectorDim := 0
  sliceSizes := ![16, 1, 2, 2, 2]
  wf := gather_S16x2x2x2x2_S1_S16x2x2x2_0123_1_n_n_1_0_161222_wf
def gather_S16x2x2x2x2_S1_S16x2x2x2_0123_2_n_n_2_0_162122 : GatherDims S16x2x2x2x2 S1 S16x2x2x2 where
  offsetDims := [0, 1, 2, 3]
  collapsedSliceDims := [2]
  operandBatchingDims := []
  startIndicesBatchingDims := []
  startIndexMap := [2]
  indexVectorDim := 0
  sliceSizes := ![16, 2, 1, 2, 2]
  wf := gather_S16x2x2x2x2_S1_S16x2x2x2_0123_2_n_n_2_0_162122_wf
def gather_S16x2x2x2x2_S1_S16x2x2x2_0123_3_n_n_3_0_162212 : GatherDims S16x2x2x2x2 S1 S16x2x2x2 where
  offsetDims := [0, 1, 2, 3]
  collapsedSliceDims := [3]
  operandBatchingDims := []
  startIndicesBatchingDims := []
  startIndexMap := [3]
  indexVectorDim := 0
  sliceSizes := ![16, 2, 2, 1, 2]
  wf := gather_S16x2x2x2x2_S1_S16x2x2x2_0123_3_n_n_3_0_162212_wf
def gather_S16x2x2x2x2_S1_S16x2x2x2_0123_4_n_n_4_0_162221 : GatherDims S16x2x2x2x2 S1 S16x2x2x2 where
  offsetDims := [0, 1, 2, 3]
  collapsedSliceDims := [4]
  operandBatchingDims := []
  startIndicesBatchingDims := []
  startIndexMap := [4]
  indexVectorDim := 0
  sliceSizes := ![16, 2, 2, 2, 1]
  wf := gather_S16x2x2x2x2_S1_S16x2x2x2_0123_4_n_n_4_0_162221_wf
def dot_S16x16_S16x57344_S16x57344_1_0_0_1_n_n : DotDims S16x16 S16x57344 S16x57344 where
  lhsContracting := [1]
  rhsContracting := [0]
  lhsNonContracting := [0]
  rhsNonContracting := [1]
  lhsBatch := []
  rhsBatch := []
  wf := dot_S16x16_S16x57344_S16x57344_1_0_0_1_n_n_wf
def dot_S4096x784_S784x10_S4096x10_1_0_0_1_n_n : DotDims S4096x784 S784x10 S4096x10 where
  lhsContracting := [1]
  rhsContracting := [0]
  lhsNonContracting := [0]
  rhsNonContracting := [1]
  lhsBatch := []
  rhsBatch := []
  wf := dot_S4096x784_S784x10_S4096x10_1_0_0_1_n_n_wf

abbrev win0_0 : Pipeline.Window sig grid0 :=
  Pipeline.Window.ofSpec (Memref.whole main_v119) S16x16.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4x57344.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v120) S4x57344.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x784 : Shape := ⟨2, ![4096, 784]⟩
abbrev S4 : Shape := ⟨1, ![4]⟩
abbrev S10x784 : Shape := ⟨2, ![10, 784]⟩
abbrev S10 : Shape := ⟨1, ![10]⟩
abbrev S4096x28x28 : Shape := ⟨3, ![4096, 28, 28]⟩
abbrev S4096x14x2x14x2 : Shape := ⟨5, ![4096, 14, 2, 14, 2]⟩
abbrev S4096x14x14x2x2 : Shape := ⟨5, ![4096, 14, 14, 2, 2]⟩
abbrev S802816x4 : Shape := ⟨2, ![802816, 4]⟩
abbrev S_ : Shape := ⟨0, ![]⟩
abbrev S802816x2x2x2x2 : Shape := ⟨5, ![802816, 2, 2, 2, 2]⟩
abbrev S1 : Shape := ⟨1, ![1]⟩
abbrev S802816 : Shape := ⟨1, ![802816]⟩
abbrev S802816x1 : Shape := ⟨2, ![802816, 1]⟩
abbrev S802816x2x2x2 : Shape := ⟨4, ![802816, 2, 2, 2]⟩
abbrev S802816x1x1x1 : Shape := ⟨4, ![802816, 1, 1, 1]⟩
abbrev S802816x1x2x2x2 : Shape := ⟨5, ![802816, 1, 2, 2, 2]⟩
abbrev S802816x2x1x2x2 : Shape := ⟨5, ![802816, 2, 1, 2, 2]⟩
abbrev S802816x2x2x1x2 : Shape := ⟨5, ![802816, 2, 2, 1, 2]⟩
abbrev S802816x2x2x2x1 : Shape := ⟨5, ![802816, 2, 2, 2, 1]⟩
abbrev S802816x2 : Shape := ⟨2, ![802816, 2]⟩
abbrev S784x10 : Shape := ⟨2, ![784, 10]⟩
abbrev S4096x10 : Shape := ⟨2, ![4096, 10]⟩
abbrev S1x10 : Shape := ⟨2, ![1, 10]⟩
abbrev S4096 : Shape := ⟨1, ![4096]⟩
abbrev S4096x1 : Shape := ⟨2, ![4096, 1]⟩

abbrev nBuf : Space → Nat
  | .hbm => 1485
  | .vmem => 0
  | .smem => 0
  | _ => 0

abbrev hbmTy0_0 (i : Nat) : BufTy := match i % 128 with
  | 0 => ⟨S4096x784, .f32⟩
  | 1 => ⟨S4, .f32⟩
  | 2 => ⟨S10x784, .f32⟩
  | 3 => ⟨S10, .f32⟩
  | 4 => ⟨S4096x28x28, .f32⟩
  | 5 => ⟨S4096x14x2x14x2, .f32⟩
  | 6 => ⟨S4096x14x14x2x2, .f32⟩
  | 7 => ⟨S802816x4, .f32⟩
  | 8 => ⟨S_, .f32⟩
  | 9 => ⟨S802816x2x2x2x2, .f32⟩
  | 10 => ⟨S_, .i32⟩
  | 11 => ⟨S1, .i32⟩
  | 12 => ⟨S_, .i32⟩
  | 13 => ⟨S1, .i32⟩
  | 14 => ⟨S_, .i32⟩
  | 15 => ⟨S1, .i32⟩
  | 16 => ⟨S_, .i32⟩
  | 17 => ⟨S1, .i32⟩
  | 18 => ⟨S4, .i32⟩
  | 19 => ⟨S_, .f32⟩
  | 20 => ⟨S802816, .f32⟩
  | 21 => ⟨S802816x2x2x2x2, .f32⟩
  | 22 => ⟨S802816x1, .f32⟩
  | 23 => ⟨S802816, .f32⟩
  | 24 => ⟨S_, .i32⟩
  | 25 => ⟨S_, .i32⟩
  | 26 => ⟨S_, .i1⟩
  | 27 => ⟨S_, .i32⟩
  | 28 => ⟨S_, .i32⟩
  | 29 => ⟨S_, .i32⟩
  | 30 => ⟨S1, .i32⟩
  | 31 => ⟨S1, .i32⟩
  | 32 => ⟨S1, .i32⟩
  | 33 => ⟨S_, .i32⟩
  | 34 => ⟨S1, .i32⟩
  | 35 => ⟨S1, .i1⟩
  | 36 => ⟨S1, .i1⟩
  | 37 => ⟨S1, .i1⟩
  | 38 => ⟨S_, .i1⟩
  | 39 => ⟨S_, .i1⟩
  | 40 => ⟨S802816x2x2x2, .f32⟩
  | 41 => ⟨S802816x2x2x2, .i1⟩
  | 42 => ⟨S_, .f32⟩
  | 43 => ⟨S802816x2x2x2, .f32⟩
  | 44 => ⟨S802816x2x2x2, .f32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S1, .i32⟩
  | 52 => ⟨S1, .i32⟩
  | 53 => ⟨S1, .i32⟩
  | 54 => ⟨S_, .i32⟩
  | 55 => ⟨S1, .i32⟩
  | 56 => ⟨S1, .i1⟩
  | 57 => ⟨S1, .i1⟩
  | 58 => ⟨S1, .i1⟩
  | 59 => ⟨S_, .i1⟩
  | 60 => ⟨S_, .i1⟩
  | 61 => ⟨S802816x2x2x2, .f32⟩
  | 62 => ⟨S802816x2x2x2, .i1⟩
  | 63 => ⟨S_, .f32⟩
  | 64 => ⟨S802816x2x2x2, .f32⟩
  | 65 => ⟨S802816x2x2x2, .f32⟩
  | 66 => ⟨S_, .f32⟩
  | 67 => ⟨S802816, .f32⟩
  | 68 => ⟨S802816, .f32⟩
  | 69 => ⟨S802816, .f32⟩
  | 70 => ⟨S_, .f32⟩
  | 71 => ⟨S802816, .f32⟩
  | 72 => ⟨S802816, .f32⟩
  | 73 => ⟨S802816, .f32⟩
  | 74 => ⟨S802816x1x1x1, .f32⟩
  | 75 => ⟨S802816x1x1x1, .f32⟩
  | 76 => ⟨S802816x2x2x2, .f32⟩
  | 77 => ⟨S802816x2x2x2, .f32⟩
  | 78 => ⟨S802816x2x2x2, .f32⟩
  | 79 => ⟨S802816x2x2x2, .f32⟩
  | 80 => ⟨S802816x2x2x2, .f32⟩
  | 81 => ⟨S802816x2x2x2, .f32⟩
  | 82 => ⟨S802816x2x2x2, .f32⟩
  | 83 => ⟨S802816x2x2x2, .f32⟩
  | 84 => ⟨S802816x2x2x2, .f32⟩
  | 85 => ⟨S802816x2x2x2, .f32⟩
  | 86 => ⟨S802816x1x2x2x2, .f32⟩
  | 87 => ⟨S802816x1x2x2x2, .f32⟩
  | 88 => ⟨S802816x2x2x2x2, .f32⟩
  | 89 => ⟨S802816x1, .f32⟩
  | 90 => ⟨S802816, .f32⟩
  | 91 => ⟨S_, .i32⟩
  | 92 => ⟨S_, .i32⟩
  | 93 => ⟨S_, .i1⟩
  | 94 => ⟨S_, .i32⟩
  | 95 => ⟨S_, .i32⟩
  | 96 => ⟨S_, .i32⟩
  | 97 => ⟨S1, .i32⟩
  | 98 => ⟨S1, .i32⟩
  | 99 => ⟨S1, .i32⟩
  | 100 => ⟨S_, .i32⟩
  | 101 => ⟨S1, .i32⟩
  | 102 => ⟨S1, .i1⟩
  | 103 => ⟨S1, .i1⟩
  | 104 => ⟨S1, .i1⟩
  | 105 => ⟨S_, .i1⟩
  | 106 => ⟨S_, .i1⟩
  | 107 => ⟨S802816x2x2x2, .f32⟩
  | 108 => ⟨S802816x2x2x2, .i1⟩
  | 109 => ⟨S_, .f32⟩
  | 110 => ⟨S802816x2x2x2, .f32⟩
  | 111 => ⟨S802816x2x2x2, .f32⟩
  | 112 => ⟨S_, .i32⟩
  | 113 => ⟨S_, .i32⟩
  | 114 => ⟨S_, .i1⟩
  | 115 => ⟨S_, .i32⟩
  | 116 => ⟨S_, .i32⟩
  | 117 => ⟨S_, .i32⟩
  | 118 => ⟨S1, .i32⟩
  | 119 => ⟨S1, .i32⟩
  | 120 => ⟨S1, .i32⟩
  | 121 => ⟨S_, .i32⟩
  | 122 => ⟨S1, .i32⟩
  | 123 => ⟨S1, .i1⟩
  | 124 => ⟨S1, .i1⟩
  | 125 => ⟨S1, .i1⟩
  | 126 => ⟨S_, .i1⟩
  | 127 => ⟨S_, .i1⟩
  | _ => ⟨S4096x784, .f32⟩

abbrev hbmTy0_1 (i : Nat) : BufTy := match i % 128 with
  | 0 => ⟨S802816x2x2x2, .f32⟩
  | 1 => ⟨S802816x2x2x2, .i1⟩
  | 2 => ⟨S_, .f32⟩
  | 3 => ⟨S802816x2x2x2, .f32⟩
  | 4 => ⟨S802816x2x2x2, .f32⟩
  | 5 => ⟨S_, .f32⟩
  | 6 => ⟨S802816, .f32⟩
  | 7 => ⟨S802816, .f32⟩
  | 8 => ⟨S802816, .f32⟩
  | 9 => ⟨S_, .f32⟩
  | 10 => ⟨S802816, .f32⟩
  | 11 => ⟨S802816, .f32⟩
  | 12 => ⟨S802816, .f32⟩
  | 13 => ⟨S802816x1x1x1, .f32⟩
  | 14 => ⟨S802816x1x1x1, .f32⟩
  | 15 => ⟨S802816x2x2x2, .f32⟩
  | 16 => ⟨S802816x2x2x2, .f32⟩
  | 17 => ⟨S802816x2x2x2, .f32⟩
  | 18 => ⟨S802816x2x2x2, .f32⟩
  | 19 => ⟨S802816x2x2x2, .f32⟩
  | 20 => ⟨S802816x2x2x2, .f32⟩
  | 21 => ⟨S802816x2x2x2, .f32⟩
  | 22 => ⟨S802816x2x2x2, .f32⟩
  | 23 => ⟨S802816x2x2x2, .f32⟩
  | 24 => ⟨S802816x2x2x2, .f32⟩
  | 25 => ⟨S802816x2x1x2x2, .f32⟩
  | 26 => ⟨S802816x2x1x2x2, .f32⟩
  | 27 => ⟨S802816x2x2x2x2, .f32⟩
  | 28 => ⟨S802816x1, .f32⟩
  | 29 => ⟨S802816, .f32⟩
  | 30 => ⟨S_, .i32⟩
  | 31 => ⟨S_, .i32⟩
  | 32 => ⟨S_, .i1⟩
  | 33 => ⟨S_, .i32⟩
  | 34 => ⟨S_, .i32⟩
  | 35 => ⟨S_, .i32⟩
  | 36 => ⟨S1, .i32⟩
  | 37 => ⟨S1, .i32⟩
  | 38 => ⟨S1, .i32⟩
  | 39 => ⟨S_, .i32⟩
  | 40 => ⟨S1, .i32⟩
  | 41 => ⟨S1, .i1⟩
  | 42 => ⟨S1, .i1⟩
  | 43 => ⟨S1, .i1⟩
  | 44 => ⟨S_, .i1⟩
  | 45 => ⟨S_, .i1⟩
  | 46 => ⟨S802816x2x2x2, .f32⟩
  | 47 => ⟨S802816x2x2x2, .i1⟩
  | 48 => ⟨S_, .f32⟩
  | 49 => ⟨S802816x2x2x2, .f32⟩
  | 50 => ⟨S802816x2x2x2, .f32⟩
  | 51 => ⟨S_, .i32⟩
  | 52 => ⟨S_, .i32⟩
  | 53 => ⟨S_, .i1⟩
  | 54 => ⟨S_, .i32⟩
  | 55 => ⟨S_, .i32⟩
  | 56 => ⟨S_, .i32⟩
  | 57 => ⟨S1, .i32⟩
  | 58 => ⟨S1, .i32⟩
  | 59 => ⟨S1, .i32⟩
  | 60 => ⟨S_, .i32⟩
  | 61 => ⟨S1, .i32⟩
  | 62 => ⟨S1, .i1⟩
  | 63 => ⟨S1, .i1⟩
  | 64 => ⟨S1, .i1⟩
  | 65 => ⟨S_, .i1⟩
  | 66 => ⟨S_, .i1⟩
  | 67 => ⟨S802816x2x2x2, .f32⟩
  | 68 => ⟨S802816x2x2x2, .i1⟩
  | 69 => ⟨S_, .f32⟩
  | 70 => ⟨S802816x2x2x2, .f32⟩
  | 71 => ⟨S802816x2x2x2, .f32⟩
  | 72 => ⟨S_, .f32⟩
  | 73 => ⟨S802816, .f32⟩
  | 74 => ⟨S802816, .f32⟩
  | 75 => ⟨S802816, .f32⟩
  | 76 => ⟨S_, .f32⟩
  | 77 => ⟨S802816, .f32⟩
  | 78 => ⟨S802816, .f32⟩
  | 79 => ⟨S802816, .f32⟩
  | 80 => ⟨S802816x1x1x1, .f32⟩
  | 81 => ⟨S802816x1x1x1, .f32⟩
  | 82 => ⟨S802816x2x2x2, .f32⟩
  | 83 => ⟨S802816x2x2x2, .f32⟩
  | 84 => ⟨S802816x2x2x2, .f32⟩
  | 85 => ⟨S802816x2x2x2, .f32⟩
  | 86 => ⟨S802816x2x2x2, .f32⟩
  | 87 => ⟨S802816x2x2x2, .f32⟩
  | 88 => ⟨S802816x2x2x2, .f32⟩
  | 89 => ⟨S802816x2x2x2, .f32⟩
  | 90 => ⟨S802816x2x2x2, .f32⟩
  | 91 => ⟨S802816x2x2x2, .f32⟩
  | 92 => ⟨S802816x2x2x1x2, .f32⟩
  | 93 => ⟨S802816x2x2x1x2, .f32⟩
  | 94 => ⟨S802816x2x2x2x2, .f32⟩
  | 95 => ⟨S802816x1, .f32⟩
  | 96 => ⟨S802816, .f32⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S1, .i32⟩
  | 104 => ⟨S1, .i32⟩
  | 105 => ⟨S1, .i32⟩
  | 106 => ⟨S_, .i32⟩
  | 107 => ⟨S1, .i32⟩
  | 108 => ⟨S1, .i1⟩
  | 109 => ⟨S1, .i1⟩
  | 110 => ⟨S1, .i1⟩
  | 111 => ⟨S_, .i1⟩
  | 112 => ⟨S_, .i1⟩
  | 113 => ⟨S802816x2x2x2, .f32⟩
  | 114 => ⟨S802816x2x2x2, .i1⟩
  | 115 => ⟨S_, .f32⟩
  | 116 => ⟨S802816x2x2x2, .f32⟩
  | 117 => ⟨S802816x2x2x2, .f32⟩
  | 118 => ⟨S_, .i32⟩
  | 119 => ⟨S_, .i32⟩
  | 120 => ⟨S_, .i1⟩
  | 121 => ⟨S_, .i32⟩
  | 122 => ⟨S_, .i32⟩
  | 123 => ⟨S_, .i32⟩
  | 124 => ⟨S1, .i32⟩
  | 125 => ⟨S1, .i32⟩
  | 126 => ⟨S1, .i32⟩
  | 127 => ⟨S_, .i32⟩
  | _ => ⟨S4096x784, .f32⟩

abbrev hbmTy0_2 (i : Nat) : BufTy := match i % 128 with
  | 0 => ⟨S1, .i32⟩
  | 1 => ⟨S1, .i1⟩
  | 2 => ⟨S1, .i1⟩
  | 3 => ⟨S1, .i1⟩
  | 4 => ⟨S_, .i1⟩
  | 5 => ⟨S_, .i1⟩
  | 6 => ⟨S802816x2x2x2, .f32⟩
  | 7 => ⟨S802816x2x2x2, .i1⟩
  | 8 => ⟨S_, .f32⟩
  | 9 => ⟨S802816x2x2x2, .f32⟩
  | 10 => ⟨S802816x2x2x2, .f32⟩
  | 11 => ⟨S_, .f32⟩
  | 12 => ⟨S802816, .f32⟩
  | 13 => ⟨S802816, .f32⟩
  | 14 => ⟨S802816, .f32⟩
  | 15 => ⟨S_, .f32⟩
  | 16 => ⟨S802816, .f32⟩
  | 17 => ⟨S802816, .f32⟩
  | 18 => ⟨S802816, .f32⟩
  | 19 => ⟨S802816x1x1x1, .f32⟩
  | 20 => ⟨S802816x1x1x1, .f32⟩
  | 21 => ⟨S802816x2x2x2, .f32⟩
  | 22 => ⟨S802816x2x2x2, .f32⟩
  | 23 => ⟨S802816x2x2x2, .f32⟩
  | 24 => ⟨S802816x2x2x2, .f32⟩
  | 25 => ⟨S802816x2x2x2, .f32⟩
  | 26 => ⟨S802816x2x2x2, .f32⟩
  | 27 => ⟨S802816x2x2x2, .f32⟩
  | 28 => ⟨S802816x2x2x2, .f32⟩
  | 29 => ⟨S802816x2x2x2, .f32⟩
  | 30 => ⟨S802816x2x2x2, .f32⟩
  | 31 => ⟨S802816x2x2x2x1, .f32⟩
  | 32 => ⟨S802816x2x2x2x1, .f32⟩
  | 33 => ⟨S802816x2x2x2x2, .f32⟩
  | 34 => ⟨S1, .f32⟩
  | 35 => ⟨S_, .f32⟩
  | 36 => ⟨S_, .i32⟩
  | 37 => ⟨S_, .i32⟩
  | 38 => ⟨S_, .i1⟩
  | 39 => ⟨S_, .i32⟩
  | 40 => ⟨S_, .i32⟩
  | 41 => ⟨S_, .i32⟩
  | 42 => ⟨S1, .i32⟩
  | 43 => ⟨S1, .i32⟩
  | 44 => ⟨S1, .i32⟩
  | 45 => ⟨S_, .i32⟩
  | 46 => ⟨S1, .i32⟩
  | 47 => ⟨S1, .i1⟩
  | 48 => ⟨S1, .i1⟩
  | 49 => ⟨S1, .i1⟩
  | 50 => ⟨S_, .i1⟩
  | 51 => ⟨S_, .i1⟩
  | 52 => ⟨S802816x2x2x2, .f32⟩
  | 53 => ⟨S802816x2x2x2, .i1⟩
  | 54 => ⟨S_, .f32⟩
  | 55 => ⟨S802816x2x2x2, .f32⟩
  | 56 => ⟨S802816x2x2x2, .f32⟩
  | 57 => ⟨S_, .i32⟩
  | 58 => ⟨S_, .i32⟩
  | 59 => ⟨S_, .i1⟩
  | 60 => ⟨S_, .i32⟩
  | 61 => ⟨S_, .i32⟩
  | 62 => ⟨S_, .i32⟩
  | 63 => ⟨S1, .i32⟩
  | 64 => ⟨S1, .i32⟩
  | 65 => ⟨S1, .i32⟩
  | 66 => ⟨S_, .i32⟩
  | 67 => ⟨S1, .i32⟩
  | 68 => ⟨S1, .i1⟩
  | 69 => ⟨S1, .i1⟩
  | 70 => ⟨S1, .i1⟩
  | 71 => ⟨S_, .i1⟩
  | 72 => ⟨S_, .i1⟩
  | 73 => ⟨S802816x2x2x2, .f32⟩
  | 74 => ⟨S802816x2x2x2, .i1⟩
  | 75 => ⟨S_, .f32⟩
  | 76 => ⟨S802816x2x2x2, .f32⟩
  | 77 => ⟨S802816x2x2x2, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S802816x2x2x2, .f32⟩
  | 85 => ⟨S802816x2x2x2, .f32⟩
  | 86 => ⟨S802816x2x2x2, .f32⟩
  | 87 => ⟨S802816x2x2x2, .f32⟩
  | 88 => ⟨S802816x2x2x2, .f32⟩
  | 89 => ⟨S802816x2x2x2, .f32⟩
  | 90 => ⟨S802816x2x2x2, .f32⟩
  | 91 => ⟨S802816x2x2x2, .f32⟩
  | 92 => ⟨S802816x2x2x2, .f32⟩
  | 93 => ⟨S802816x2x2x2, .f32⟩
  | 94 => ⟨S802816x1x2x2x2, .f32⟩
  | 95 => ⟨S802816x1x2x2x2, .f32⟩
  | 96 => ⟨S802816x2x2x2x2, .f32⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S1, .i32⟩
  | 104 => ⟨S1, .i32⟩
  | 105 => ⟨S1, .i32⟩
  | 106 => ⟨S_, .i32⟩
  | 107 => ⟨S1, .i32⟩
  | 108 => ⟨S1, .i1⟩
  | 109 => ⟨S1, .i1⟩
  | 110 => ⟨S1, .i1⟩
  | 111 => ⟨S_, .i1⟩
  | 112 => ⟨S_, .i1⟩
  | 113 => ⟨S802816x2x2x2, .f32⟩
  | 114 => ⟨S802816x2x2x2, .i1⟩
  | 115 => ⟨S_, .f32⟩
  | 116 => ⟨S802816x2x2x2, .f32⟩
  | 117 => ⟨S802816x2x2x2, .f32⟩
  | 118 => ⟨S_, .i32⟩
  | 119 => ⟨S_, .i32⟩
  | 120 => ⟨S_, .i1⟩
  | 121 => ⟨S_, .i32⟩
  | 122 => ⟨S_, .i32⟩
  | 123 => ⟨S_, .i32⟩
  | 124 => ⟨S1, .i32⟩
  | 125 => ⟨S1, .i32⟩
  | 126 => ⟨S1, .i32⟩
  | 127 => ⟨S_, .i32⟩
  | _ => ⟨S4096x784, .f32⟩

abbrev hbmTy0_3 (i : Nat) : BufTy := match i % 128 with
  | 0 => ⟨S1, .i32⟩
  | 1 => ⟨S1, .i1⟩
  | 2 => ⟨S1, .i1⟩
  | 3 => ⟨S1, .i1⟩
  | 4 => ⟨S_, .i1⟩
  | 5 => ⟨S_, .i1⟩
  | 6 => ⟨S802816x2x2x2, .f32⟩
  | 7 => ⟨S802816x2x2x2, .i1⟩
  | 8 => ⟨S_, .f32⟩
  | 9 => ⟨S802816x2x2x2, .f32⟩
  | 10 => ⟨S802816x2x2x2, .f32⟩
  | 11 => ⟨S802816x2x2x2, .f32⟩
  | 12 => ⟨S802816x1x2x2x2, .f32⟩
  | 13 => ⟨S802816x1x2x2x2, .f32⟩
  | 14 => ⟨S802816x2x2x2x2, .f32⟩
  | 15 => ⟨S1, .f32⟩
  | 16 => ⟨S_, .f32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S1, .i32⟩
  | 24 => ⟨S1, .i32⟩
  | 25 => ⟨S1, .i32⟩
  | 26 => ⟨S_, .i32⟩
  | 27 => ⟨S1, .i32⟩
  | 28 => ⟨S1, .i1⟩
  | 29 => ⟨S1, .i1⟩
  | 30 => ⟨S1, .i1⟩
  | 31 => ⟨S_, .i1⟩
  | 32 => ⟨S_, .i1⟩
  | 33 => ⟨S802816x2x2x2, .f32⟩
  | 34 => ⟨S802816x2x2x2, .i1⟩
  | 35 => ⟨S_, .f32⟩
  | 36 => ⟨S802816x2x2x2, .f32⟩
  | 37 => ⟨S802816x2x2x2, .f32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S1, .i32⟩
  | 45 => ⟨S1, .i32⟩
  | 46 => ⟨S1, .i32⟩
  | 47 => ⟨S_, .i32⟩
  | 48 => ⟨S1, .i32⟩
  | 49 => ⟨S1, .i1⟩
  | 50 => ⟨S1, .i1⟩
  | 51 => ⟨S1, .i1⟩
  | 52 => ⟨S_, .i1⟩
  | 53 => ⟨S_, .i1⟩
  | 54 => ⟨S802816x2x2x2, .f32⟩
  | 55 => ⟨S802816x2x2x2, .i1⟩
  | 56 => ⟨S_, .f32⟩
  | 57 => ⟨S802816x2x2x2, .f32⟩
  | 58 => ⟨S802816x2x2x2, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S802816x2x2x2, .f32⟩
  | 66 => ⟨S802816x2x2x2, .f32⟩
  | 67 => ⟨S802816x2x2x2, .f32⟩
  | 68 => ⟨S802816x2x2x2, .f32⟩
  | 69 => ⟨S802816x2x2x2, .f32⟩
  | 70 => ⟨S802816x2x2x2, .f32⟩
  | 71 => ⟨S802816x2x2x2, .f32⟩
  | 72 => ⟨S802816x2x2x2, .f32⟩
  | 73 => ⟨S802816x2x2x2, .f32⟩
  | 74 => ⟨S802816x2x2x2, .f32⟩
  | 75 => ⟨S802816x2x1x2x2, .f32⟩
  | 76 => ⟨S802816x2x1x2x2, .f32⟩
  | 77 => ⟨S802816x2x2x2x2, .f32⟩
  | 78 => ⟨S_, .i32⟩
  | 79 => ⟨S_, .i32⟩
  | 80 => ⟨S_, .i1⟩
  | 81 => ⟨S_, .i32⟩
  | 82 => ⟨S_, .i32⟩
  | 83 => ⟨S_, .i32⟩
  | 84 => ⟨S1, .i32⟩
  | 85 => ⟨S1, .i32⟩
  | 86 => ⟨S1, .i32⟩
  | 87 => ⟨S_, .i32⟩
  | 88 => ⟨S1, .i32⟩
  | 89 => ⟨S1, .i1⟩
  | 90 => ⟨S1, .i1⟩
  | 91 => ⟨S1, .i1⟩
  | 92 => ⟨S_, .i1⟩
  | 93 => ⟨S_, .i1⟩
  | 94 => ⟨S802816x2x2x2, .f32⟩
  | 95 => ⟨S802816x2x2x2, .i1⟩
  | 96 => ⟨S_, .f32⟩
  | 97 => ⟨S802816x2x2x2, .f32⟩
  | 98 => ⟨S802816x2x2x2, .f32⟩
  | 99 => ⟨S_, .i32⟩
  | 100 => ⟨S_, .i32⟩
  | 101 => ⟨S_, .i1⟩
  | 102 => ⟨S_, .i32⟩
  | 103 => ⟨S_, .i32⟩
  | 104 => ⟨S_, .i32⟩
  | 105 => ⟨S1, .i32⟩
  | 106 => ⟨S1, .i32⟩
  | 107 => ⟨S1, .i32⟩
  | 108 => ⟨S_, .i32⟩
  | 109 => ⟨S1, .i32⟩
  | 110 => ⟨S1, .i1⟩
  | 111 => ⟨S1, .i1⟩
  | 112 => ⟨S1, .i1⟩
  | 113 => ⟨S_, .i1⟩
  | 114 => ⟨S_, .i1⟩
  | 115 => ⟨S802816x2x2x2, .f32⟩
  | 116 => ⟨S802816x2x2x2, .i1⟩
  | 117 => ⟨S_, .f32⟩
  | 118 => ⟨S802816x2x2x2, .f32⟩
  | 119 => ⟨S802816x2x2x2, .f32⟩
  | 120 => ⟨S802816x2x2x2, .f32⟩
  | 121 => ⟨S802816x2x1x2x2, .f32⟩
  | 122 => ⟨S802816x2x1x2x2, .f32⟩
  | 123 => ⟨S802816x2x2x2x2, .f32⟩
  | 124 => ⟨S1, .f32⟩
  | 125 => ⟨S_, .f32⟩
  | 126 => ⟨S_, .i32⟩
  | 127 => ⟨S_, .i32⟩
  | _ => ⟨S4096x784, .f32⟩

abbrev hbmTy0_4 (i : Nat) : BufTy := match i % 128 with
  | 0 => ⟨S_, .i1⟩
  | 1 => ⟨S_, .i32⟩
  | 2 => ⟨S_, .i32⟩
  | 3 => ⟨S_, .i32⟩
  | 4 => ⟨S1, .i32⟩
  | 5 => ⟨S1, .i32⟩
  | 6 => ⟨S1, .i32⟩
  | 7 => ⟨S_, .i32⟩
  | 8 => ⟨S1, .i32⟩
  | 9 => ⟨S1, .i1⟩
  | 10 => ⟨S1, .i1⟩
  | 11 => ⟨S1, .i1⟩
  | 12 => ⟨S_, .i1⟩
  | 13 => ⟨S_, .i1⟩
  | 14 => ⟨S802816x2x2x2, .f32⟩
  | 15 => ⟨S802816x2x2x2, .i1⟩
  | 16 => ⟨S_, .f32⟩
  | 17 => ⟨S802816x2x2x2, .f32⟩
  | 18 => ⟨S802816x2x2x2, .f32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S1, .i32⟩
  | 26 => ⟨S1, .i32⟩
  | 27 => ⟨S1, .i32⟩
  | 28 => ⟨S_, .i32⟩
  | 29 => ⟨S1, .i32⟩
  | 30 => ⟨S1, .i1⟩
  | 31 => ⟨S1, .i1⟩
  | 32 => ⟨S1, .i1⟩
  | 33 => ⟨S_, .i1⟩
  | 34 => ⟨S_, .i1⟩
  | 35 => ⟨S802816x2x2x2, .f32⟩
  | 36 => ⟨S802816x2x2x2, .i1⟩
  | 37 => ⟨S_, .f32⟩
  | 38 => ⟨S802816x2x2x2, .f32⟩
  | 39 => ⟨S802816x2x2x2, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S802816x2x2x2, .f32⟩
  | 47 => ⟨S802816x2x2x2, .f32⟩
  | 48 => ⟨S802816x2x2x2, .f32⟩
  | 49 => ⟨S802816x2x2x2, .f32⟩
  | 50 => ⟨S802816x2x2x2, .f32⟩
  | 51 => ⟨S802816x2x2x2, .f32⟩
  | 52 => ⟨S802816x2x2x2, .f32⟩
  | 53 => ⟨S802816x2x2x2, .f32⟩
  | 54 => ⟨S802816x2x2x2, .f32⟩
  | 55 => ⟨S802816x2x2x2, .f32⟩
  | 56 => ⟨S802816x2x2x1x2, .f32⟩
  | 57 => ⟨S802816x2x2x1x2, .f32⟩
  | 58 => ⟨S802816x2x2x2x2, .f32⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S1, .i32⟩
  | 66 => ⟨S1, .i32⟩
  | 67 => ⟨S1, .i32⟩
  | 68 => ⟨S_, .i32⟩
  | 69 => ⟨S1, .i32⟩
  | 70 => ⟨S1, .i1⟩
  | 71 => ⟨S1, .i1⟩
  | 72 => ⟨S1, .i1⟩
  | 73 => ⟨S_, .i1⟩
  | 74 => ⟨S_, .i1⟩
  | 75 => ⟨S802816x2x2x2, .f32⟩
  | 76 => ⟨S802816x2x2x2, .i1⟩
  | 77 => ⟨S_, .f32⟩
  | 78 => ⟨S802816x2x2x2, .f32⟩
  | 79 => ⟨S802816x2x2x2, .f32⟩
  | 80 => ⟨S_, .i32⟩
  | 81 => ⟨S_, .i32⟩
  | 82 => ⟨S_, .i1⟩
  | 83 => ⟨S_, .i32⟩
  | 84 => ⟨S_, .i32⟩
  | 85 => ⟨S_, .i32⟩
  | 86 => ⟨S1, .i32⟩
  | 87 => ⟨S1, .i32⟩
  | 88 => ⟨S1, .i32⟩
  | 89 => ⟨S_, .i32⟩
  | 90 => ⟨S1, .i32⟩
  | 91 => ⟨S1, .i1⟩
  | 92 => ⟨S1, .i1⟩
  | 93 => ⟨S1, .i1⟩
  | 94 => ⟨S_, .i1⟩
  | 95 => ⟨S_, .i1⟩
  | 96 => ⟨S802816x2x2x2, .f32⟩
  | 97 => ⟨S802816x2x2x2, .i1⟩
  | 98 => ⟨S_, .f32⟩
  | 99 => ⟨S802816x2x2x2, .f32⟩
  | 100 => ⟨S802816x2x2x2, .f32⟩
  | 101 => ⟨S802816x2x2x2, .f32⟩
  | 102 => ⟨S802816x2x2x1x2, .f32⟩
  | 103 => ⟨S802816x2x2x1x2, .f32⟩
  | 104 => ⟨S802816x2x2x2x2, .f32⟩
  | 105 => ⟨S1, .f32⟩
  | 106 => ⟨S_, .f32⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S1, .i32⟩
  | 114 => ⟨S1, .i32⟩
  | 115 => ⟨S1, .i32⟩
  | 116 => ⟨S_, .i32⟩
  | 117 => ⟨S1, .i32⟩
  | 118 => ⟨S1, .i1⟩
  | 119 => ⟨S1, .i1⟩
  | 120 => ⟨S1, .i1⟩
  | 121 => ⟨S_, .i1⟩
  | 122 => ⟨S_, .i1⟩
  | 123 => ⟨S802816x2x2x2, .f32⟩
  | 124 => ⟨S802816x2x2x2, .i1⟩
  | 125 => ⟨S_, .f32⟩
  | 126 => ⟨S802816x2x2x2, .f32⟩
  | 127 => ⟨S802816x2x2x2, .f32⟩
  | _ => ⟨S4096x784, .f32⟩

abbrev hbmTy0_5 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S_, .i32⟩
  | 6 => ⟨S1, .i32⟩
  | 7 => ⟨S1, .i32⟩
  | 8 => ⟨S1, .i32⟩
  | 9 => ⟨S_, .i32⟩
  | 10 => ⟨S1, .i32⟩
  | 11 => ⟨S1, .i1⟩
  | 12 => ⟨S1, .i1⟩
  | 13 => ⟨S1, .i1⟩
  | 14 => ⟨S_, .i1⟩
  | 15 => ⟨S_, .i1⟩
  | 16 => ⟨S802816x2x2x2, .f32⟩
  | 17 => ⟨S802816x2x2x2, .i1⟩
  | 18 => ⟨S_, .f32⟩
  | 19 => ⟨S802816x2x2x2, .f32⟩
  | 20 => ⟨S802816x2x2x2, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S802816x2x2x2, .f32⟩
  | 28 => ⟨S802816x2x2x2, .f32⟩
  | 29 => ⟨S802816x2x2x2, .f32⟩
  | 30 => ⟨S802816x2x2x2, .f32⟩
  | 31 => ⟨S802816x2x2x2, .f32⟩
  | 32 => ⟨S802816x2x2x2, .f32⟩
  | 33 => ⟨S802816x2x2x2, .f32⟩
  | 34 => ⟨S802816x2x2x2, .f32⟩
  | 35 => ⟨S802816x2x2x2, .f32⟩
  | 36 => ⟨S802816x2x2x2, .f32⟩
  | 37 => ⟨S802816x2x2x2x1, .f32⟩
  | 38 => ⟨S802816x2x2x2x1, .f32⟩
  | 39 => ⟨S802816x2x2x2x2, .f32⟩
  | 40 => ⟨S_, .i32⟩
  | 41 => ⟨S_, .i32⟩
  | 42 => ⟨S_, .i1⟩
  | 43 => ⟨S_, .i32⟩
  | 44 => ⟨S_, .i32⟩
  | 45 => ⟨S_, .i32⟩
  | 46 => ⟨S1, .i32⟩
  | 47 => ⟨S1, .i32⟩
  | 48 => ⟨S1, .i32⟩
  | 49 => ⟨S_, .i32⟩
  | 50 => ⟨S1, .i32⟩
  | 51 => ⟨S1, .i1⟩
  | 52 => ⟨S1, .i1⟩
  | 53 => ⟨S1, .i1⟩
  | 54 => ⟨S_, .i1⟩
  | 55 => ⟨S_, .i1⟩
  | 56 => ⟨S802816x2x2x2, .f32⟩
  | 57 => ⟨S802816x2x2x2, .i1⟩
  | 58 => ⟨S_, .f32⟩
  | 59 => ⟨S802816x2x2x2, .f32⟩
  | 60 => ⟨S802816x2x2x2, .f32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S1, .i32⟩
  | 68 => ⟨S1, .i32⟩
  | 69 => ⟨S1, .i32⟩
  | 70 => ⟨S_, .i32⟩
  | 71 => ⟨S1, .i32⟩
  | 72 => ⟨S1, .i1⟩
  | 73 => ⟨S1, .i1⟩
  | 74 => ⟨S1, .i1⟩
  | 75 => ⟨S_, .i1⟩
  | 76 => ⟨S_, .i1⟩
  | 77 => ⟨S802816x2x2x2, .f32⟩
  | 78 => ⟨S802816x2x2x2, .i1⟩
  | 79 => ⟨S_, .f32⟩
  | 80 => ⟨S802816x2x2x2, .f32⟩
  | 81 => ⟨S802816x2x2x2, .f32⟩
  | 82 => ⟨S802816x2x2x2, .f32⟩
  | 83 => ⟨S802816x2x2x2x1, .f32⟩
  | 84 => ⟨S802816x2x2x2x1, .f32⟩
  | 85 => ⟨S802816x2x2x2x2, .f32⟩
  | 86 => ⟨S802816x1, .f32⟩
  | 87 => ⟨S802816, .f32⟩
  | 88 => ⟨S_, .i32⟩
  | 89 => ⟨S_, .i32⟩
  | 90 => ⟨S_, .i1⟩
  | 91 => ⟨S_, .i32⟩
  | 92 => ⟨S_, .i32⟩
  | 93 => ⟨S_, .i32⟩
  | 94 => ⟨S1, .i32⟩
  | 95 => ⟨S1, .i32⟩
  | 96 => ⟨S1, .i32⟩
  | 97 => ⟨S_, .i32⟩
  | 98 => ⟨S1, .i32⟩
  | 99 => ⟨S1, .i1⟩
  | 100 => ⟨S1, .i1⟩
  | 101 => ⟨S1, .i1⟩
  | 102 => ⟨S_, .i1⟩
  | 103 => ⟨S_, .i1⟩
  | 104 => ⟨S802816x2x2x2, .f32⟩
  | 105 => ⟨S802816x2x2x2, .i1⟩
  | 106 => ⟨S_, .f32⟩
  | 107 => ⟨S802816x2x2x2, .f32⟩
  | 108 => ⟨S802816x2x2x2, .f32⟩
  | 109 => ⟨S_, .i32⟩
  | 110 => ⟨S_, .i32⟩
  | 111 => ⟨S_, .i1⟩
  | 112 => ⟨S_, .i32⟩
  | 113 => ⟨S_, .i32⟩
  | 114 => ⟨S_, .i32⟩
  | 115 => ⟨S1, .i32⟩
  | 116 => ⟨S1, .i32⟩
  | 117 => ⟨S1, .i32⟩
  | 118 => ⟨S_, .i32⟩
  | 119 => ⟨S1, .i32⟩
  | 120 => ⟨S1, .i1⟩
  | 121 => ⟨S1, .i1⟩
  | 122 => ⟨S1, .i1⟩
  | 123 => ⟨S_, .i1⟩
  | 124 => ⟨S_, .i1⟩
  | 125 => ⟨S802816x2x2x2, .f32⟩
  | 126 => ⟨S802816x2x2x2, .i1⟩
  | 127 => ⟨S_, .f32⟩
  | _ => ⟨S4096x784, .f32⟩

abbrev hbmTy0_6 (i : Nat) : BufTy := match i % 128 with
  | 0 => ⟨S802816x2x2x2, .f32⟩
  | 1 => ⟨S802816x2x2x2, .f32⟩
  | 2 => ⟨S_, .f32⟩
  | 3 => ⟨S802816, .f32⟩
  | 4 => ⟨S802816, .f32⟩
  | 5 => ⟨S802816, .f32⟩
  | 6 => ⟨S_, .f32⟩
  | 7 => ⟨S802816, .f32⟩
  | 8 => ⟨S802816, .f32⟩
  | 9 => ⟨S802816, .f32⟩
  | 10 => ⟨S802816x1x1x1, .f32⟩
  | 11 => ⟨S802816x1x1x1, .f32⟩
  | 12 => ⟨S802816x2x2x2, .f32⟩
  | 13 => ⟨S802816x2x2x2, .f32⟩
  | 14 => ⟨S802816x2x2x2, .f32⟩
  | 15 => ⟨S802816x2x2x2, .f32⟩
  | 16 => ⟨S802816x2x2x2, .f32⟩
  | 17 => ⟨S802816x2x2x2, .f32⟩
  | 18 => ⟨S802816x2x2x2, .f32⟩
  | 19 => ⟨S802816x2x2x2, .f32⟩
  | 20 => ⟨S802816x2x2x2, .f32⟩
  | 21 => ⟨S802816x2x2x2, .f32⟩
  | 22 => ⟨S802816x1x2x2x2, .f32⟩
  | 23 => ⟨S802816x1x2x2x2, .f32⟩
  | 24 => ⟨S802816x2x2x2x2, .f32⟩
  | 25 => ⟨S802816x1, .f32⟩
  | 26 => ⟨S802816, .f32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S1, .i32⟩
  | 34 => ⟨S1, .i32⟩
  | 35 => ⟨S1, .i32⟩
  | 36 => ⟨S_, .i32⟩
  | 37 => ⟨S1, .i32⟩
  | 38 => ⟨S1, .i1⟩
  | 39 => ⟨S1, .i1⟩
  | 40 => ⟨S1, .i1⟩
  | 41 => ⟨S_, .i1⟩
  | 42 => ⟨S_, .i1⟩
  | 43 => ⟨S802816x2x2x2, .f32⟩
  | 44 => ⟨S802816x2x2x2, .i1⟩
  | 45 => ⟨S_, .f32⟩
  | 46 => ⟨S802816x2x2x2, .f32⟩
  | 47 => ⟨S802816x2x2x2, .f32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S1, .i32⟩
  | 55 => ⟨S1, .i32⟩
  | 56 => ⟨S1, .i32⟩
  | 57 => ⟨S_, .i32⟩
  | 58 => ⟨S1, .i32⟩
  | 59 => ⟨S1, .i1⟩
  | 60 => ⟨S1, .i1⟩
  | 61 => ⟨S1, .i1⟩
  | 62 => ⟨S_, .i1⟩
  | 63 => ⟨S_, .i1⟩
  | 64 => ⟨S802816x2x2x2, .f32⟩
  | 65 => ⟨S802816x2x2x2, .i1⟩
  | 66 => ⟨S_, .f32⟩
  | 67 => ⟨S802816x2x2x2, .f32⟩
  | 68 => ⟨S802816x2x2x2, .f32⟩
  | 69 => ⟨S_, .f32⟩
  | 70 => ⟨S802816, .f32⟩
  | 71 => ⟨S802816, .f32⟩
  | 72 => ⟨S802816, .f32⟩
  | 73 => ⟨S_, .f32⟩
  | 74 => ⟨S802816, .f32⟩
  | 75 => ⟨S802816, .f32⟩
  | 76 => ⟨S802816, .f32⟩
  | 77 => ⟨S802816x1x1x1, .f32⟩
  | 78 => ⟨S802816x1x1x1, .f32⟩
  | 79 => ⟨S802816x2x2x2, .f32⟩
  | 80 => ⟨S802816x2x2x2, .f32⟩
  | 81 => ⟨S802816x2x2x2, .f32⟩
  | 82 => ⟨S802816x2x2x2, .f32⟩
  | 83 => ⟨S802816x2x2x2, .f32⟩
  | 84 => ⟨S802816x2x2x2, .f32⟩
  | 85 => ⟨S802816x2x2x2, .f32⟩
  | 86 => ⟨S802816x2x2x2, .f32⟩
  | 87 => ⟨S802816x2x2x2, .f32⟩
  | 88 => ⟨S802816x2x2x2, .f32⟩
  | 89 => ⟨S802816x2x1x2x2, .f32⟩
  | 90 => ⟨S802816x2x1x2x2, .f32⟩
  | 91 => ⟨S802816x2x2x2x2, .f32⟩
  | 92 => ⟨S802816x1, .f32⟩
  | 93 => ⟨S802816, .f32⟩
  | 94 => ⟨S_, .i32⟩
  | 95 => ⟨S_, .i32⟩
  | 96 => ⟨S_, .i1⟩
  | 97 => ⟨S_, .i32⟩
  | 98 => ⟨S_, .i32⟩
  | 99 => ⟨S_, .i32⟩
  | 100 => ⟨S1, .i32⟩
  | 101 => ⟨S1, .i32⟩
  | 102 => ⟨S1, .i32⟩
  | 103 => ⟨S_, .i32⟩
  | 104 => ⟨S1, .i32⟩
  | 105 => ⟨S1, .i1⟩
  | 106 => ⟨S1, .i1⟩
  | 107 => ⟨S1, .i1⟩
  | 108 => ⟨S_, .i1⟩
  | 109 => ⟨S_, .i1⟩
  | 110 => ⟨S802816x2x2x2, .f32⟩
  | 111 => ⟨S802816x2x2x2, .i1⟩
  | 112 => ⟨S_, .f32⟩
  | 113 => ⟨S802816x2x2x2, .f32⟩
  | 114 => ⟨S802816x2x2x2, .f32⟩
  | 115 => ⟨S_, .i32⟩
  | 116 => ⟨S_, .i32⟩
  | 117 => ⟨S_, .i1⟩
  | 118 => ⟨S_, .i32⟩
  | 119 => ⟨S_, .i32⟩
  | 120 => ⟨S_, .i32⟩
  | 121 => ⟨S1, .i32⟩
  | 122 => ⟨S1, .i32⟩
  | 123 => ⟨S1, .i32⟩
  | 124 => ⟨S_, .i32⟩
  | 125 => ⟨S1, .i32⟩
  | 126 => ⟨S1, .i1⟩
  | 127 => ⟨S1, .i1⟩
  | _ => ⟨S4096x784, .f32⟩

abbrev hbmTy0_7 (i : Nat) : BufTy := match i % 128 with
  | 0 => ⟨S1, .i1⟩
  | 1 => ⟨S_, .i1⟩
  | 2 => ⟨S_, .i1⟩
  | 3 => ⟨S802816x2x2x2, .f32⟩
  | 4 => ⟨S802816x2x2x2, .i1⟩
  | 5 => ⟨S_, .f32⟩
  | 6 => ⟨S802816x2x2x2, .f32⟩
  | 7 => ⟨S802816x2x2x2, .f32⟩
  | 8 => ⟨S_, .f32⟩
  | 9 => ⟨S802816, .f32⟩
  | 10 => ⟨S802816, .f32⟩
  | 11 => ⟨S802816, .f32⟩
  | 12 => ⟨S_, .f32⟩
  | 13 => ⟨S802816, .f32⟩
  | 14 => ⟨S802816, .f32⟩
  | 15 => ⟨S802816, .f32⟩
  | 16 => ⟨S802816x1x1x1, .f32⟩
  | 17 => ⟨S802816x1x1x1, .f32⟩
  | 18 => ⟨S802816x2x2x2, .f32⟩
  | 19 => ⟨S802816x2x2x2, .f32⟩
  | 20 => ⟨S802816x2x2x2, .f32⟩
  | 21 => ⟨S802816x2x2x2, .f32⟩
  | 22 => ⟨S802816x2x2x2, .f32⟩
  | 23 => ⟨S802816x2x2x2, .f32⟩
  | 24 => ⟨S802816x2x2x2, .f32⟩
  | 25 => ⟨S802816x2x2x2, .f32⟩
  | 26 => ⟨S802816x2x2x2, .f32⟩
  | 27 => ⟨S802816x2x2x2, .f32⟩
  | 28 => ⟨S802816x2x2x1x2, .f32⟩
  | 29 => ⟨S802816x2x2x1x2, .f32⟩
  | 30 => ⟨S802816x2x2x2x2, .f32⟩
  | 31 => ⟨S802816x1, .f32⟩
  | 32 => ⟨S802816, .f32⟩
  | 33 => ⟨S_, .i32⟩
  | 34 => ⟨S_, .i32⟩
  | 35 => ⟨S_, .i1⟩
  | 36 => ⟨S_, .i32⟩
  | 37 => ⟨S_, .i32⟩
  | 38 => ⟨S_, .i32⟩
  | 39 => ⟨S1, .i32⟩
  | 40 => ⟨S1, .i32⟩
  | 41 => ⟨S1, .i32⟩
  | 42 => ⟨S_, .i32⟩
  | 43 => ⟨S1, .i32⟩
  | 44 => ⟨S1, .i1⟩
  | 45 => ⟨S1, .i1⟩
  | 46 => ⟨S1, .i1⟩
  | 47 => ⟨S_, .i1⟩
  | 48 => ⟨S_, .i1⟩
  | 49 => ⟨S802816x2x2x2, .f32⟩
  | 50 => ⟨S802816x2x2x2, .i1⟩
  | 51 => ⟨S_, .f32⟩
  | 52 => ⟨S802816x2x2x2, .f32⟩
  | 53 => ⟨S802816x2x2x2, .f32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S1, .i32⟩
  | 61 => ⟨S1, .i32⟩
  | 62 => ⟨S1, .i32⟩
  | 63 => ⟨S_, .i32⟩
  | 64 => ⟨S1, .i32⟩
  | 65 => ⟨S1, .i1⟩
  | 66 => ⟨S1, .i1⟩
  | 67 => ⟨S1, .i1⟩
  | 68 => ⟨S_, .i1⟩
  | 69 => ⟨S_, .i1⟩
  | 70 => ⟨S802816x2x2x2, .f32⟩
  | 71 => ⟨S802816x2x2x2, .i1⟩
  | 72 => ⟨S_, .f32⟩
  | 73 => ⟨S802816x2x2x2, .f32⟩
  | 74 => ⟨S802816x2x2x2, .f32⟩
  | 75 => ⟨S_, .f32⟩
  | 76 => ⟨S802816, .f32⟩
  | 77 => ⟨S802816, .f32⟩
  | 78 => ⟨S802816, .f32⟩
  | 79 => ⟨S_, .f32⟩
  | 80 => ⟨S802816, .f32⟩
  | 81 => ⟨S802816, .f32⟩
  | 82 => ⟨S802816, .f32⟩
  | 83 => ⟨S802816x1x1x1, .f32⟩
  | 84 => ⟨S802816x1x1x1, .f32⟩
  | 85 => ⟨S802816x2x2x2, .f32⟩
  | 86 => ⟨S802816x2x2x2, .f32⟩
  | 87 => ⟨S802816x2x2x2, .f32⟩
  | 88 => ⟨S802816x2x2x2, .f32⟩
  | 89 => ⟨S802816x2x2x2, .f32⟩
  | 90 => ⟨S802816x2x2x2, .f32⟩
  | 91 => ⟨S802816x2x2x2, .f32⟩
  | 92 => ⟨S802816x2x2x2, .f32⟩
  | 93 => ⟨S802816x2x2x2, .f32⟩
  | 94 => ⟨S802816x2x2x2, .f32⟩
  | 95 => ⟨S802816x2x2x2x1, .f32⟩
  | 96 => ⟨S802816x2x2x2x1, .f32⟩
  | 97 => ⟨S802816x2x2x2x2, .f32⟩
  | 98 => ⟨S1, .f32⟩
  | 99 => ⟨S_, .f32⟩
  | 100 => ⟨S_, .i32⟩
  | 101 => ⟨S_, .i32⟩
  | 102 => ⟨S_, .i1⟩
  | 103 => ⟨S_, .i32⟩
  | 104 => ⟨S_, .i32⟩
  | 105 => ⟨S_, .i32⟩
  | 106 => ⟨S1, .i32⟩
  | 107 => ⟨S1, .i32⟩
  | 108 => ⟨S1, .i32⟩
  | 109 => ⟨S_, .i32⟩
  | 110 => ⟨S1, .i32⟩
  | 111 => ⟨S1, .i1⟩
  | 112 => ⟨S1, .i1⟩
  | 113 => ⟨S1, .i1⟩
  | 114 => ⟨S_, .i1⟩
  | 115 => ⟨S_, .i1⟩
  | 116 => ⟨S802816x2x2x2, .f32⟩
  | 117 => ⟨S802816x2x2x2, .i1⟩
  | 118 => ⟨S_, .f32⟩
  | 119 => ⟨S802816x2x2x2, .f32⟩
  | 120 => ⟨S802816x2x2x2, .f32⟩
  | 121 => ⟨S_, .i32⟩
  | 122 => ⟨S_, .i32⟩
  | 123 => ⟨S_, .i1⟩
  | 124 => ⟨S_, .i32⟩
  | 125 => ⟨S_, .i32⟩
  | 126 => ⟨S_, .i32⟩
  | 127 => ⟨S1, .i32⟩
  | _ => ⟨S4096x784, .f32⟩

abbrev hbmTy0_8 (i : Nat) : BufTy := match i % 128 with
  | 0 => ⟨S1, .i32⟩
  | 1 => ⟨S1, .i32⟩
  | 2 => ⟨S_, .i32⟩
  | 3 => ⟨S1, .i32⟩
  | 4 => ⟨S1, .i1⟩
  | 5 => ⟨S1, .i1⟩
  | 6 => ⟨S1, .i1⟩
  | 7 => ⟨S_, .i1⟩
  | 8 => ⟨S_, .i1⟩
  | 9 => ⟨S802816x2x2x2, .f32⟩
  | 10 => ⟨S802816x2x2x2, .i1⟩
  | 11 => ⟨S_, .f32⟩
  | 12 => ⟨S802816x2x2x2, .f32⟩
  | 13 => ⟨S802816x2x2x2, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S802816x2x2x2, .f32⟩
  | 21 => ⟨S802816x2x2x2, .f32⟩
  | 22 => ⟨S802816x2x2x2, .f32⟩
  | 23 => ⟨S802816x2x2x2, .f32⟩
  | 24 => ⟨S802816x2x2x2, .f32⟩
  | 25 => ⟨S802816x2x2x2, .f32⟩
  | 26 => ⟨S802816x2x2x2, .f32⟩
  | 27 => ⟨S802816x2x2x2, .f32⟩
  | 28 => ⟨S802816x2x2x2, .f32⟩
  | 29 => ⟨S802816x2x2x2, .f32⟩
  | 30 => ⟨S802816x1x2x2x2, .f32⟩
  | 31 => ⟨S802816x1x2x2x2, .f32⟩
  | 32 => ⟨S802816x2x2x2x2, .f32⟩
  | 33 => ⟨S_, .i32⟩
  | 34 => ⟨S_, .i32⟩
  | 35 => ⟨S_, .i1⟩
  | 36 => ⟨S_, .i32⟩
  | 37 => ⟨S_, .i32⟩
  | 38 => ⟨S_, .i32⟩
  | 39 => ⟨S1, .i32⟩
  | 40 => ⟨S1, .i32⟩
  | 41 => ⟨S1, .i32⟩
  | 42 => ⟨S_, .i32⟩
  | 43 => ⟨S1, .i32⟩
  | 44 => ⟨S1, .i1⟩
  | 45 => ⟨S1, .i1⟩
  | 46 => ⟨S1, .i1⟩
  | 47 => ⟨S_, .i1⟩
  | 48 => ⟨S_, .i1⟩
  | 49 => ⟨S802816x2x2x2, .f32⟩
  | 50 => ⟨S802816x2x2x2, .i1⟩
  | 51 => ⟨S_, .f32⟩
  | 52 => ⟨S802816x2x2x2, .f32⟩
  | 53 => ⟨S802816x2x2x2, .f32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S1, .i32⟩
  | 61 => ⟨S1, .i32⟩
  | 62 => ⟨S1, .i32⟩
  | 63 => ⟨S_, .i32⟩
  | 64 => ⟨S1, .i32⟩
  | 65 => ⟨S1, .i1⟩
  | 66 => ⟨S1, .i1⟩
  | 67 => ⟨S1, .i1⟩
  | 68 => ⟨S_, .i1⟩
  | 69 => ⟨S_, .i1⟩
  | 70 => ⟨S802816x2x2x2, .f32⟩
  | 71 => ⟨S802816x2x2x2, .i1⟩
  | 72 => ⟨S_, .f32⟩
  | 73 => ⟨S802816x2x2x2, .f32⟩
  | 74 => ⟨S802816x2x2x2, .f32⟩
  | 75 => ⟨S802816x2x2x2, .f32⟩
  | 76 => ⟨S802816x1x2x2x2, .f32⟩
  | 77 => ⟨S802816x1x2x2x2, .f32⟩
  | 78 => ⟨S802816x2x2x2x2, .f32⟩
  | 79 => ⟨S1, .f32⟩
  | 80 => ⟨S_, .f32⟩
  | 81 => ⟨S_, .i32⟩
  | 82 => ⟨S_, .i32⟩
  | 83 => ⟨S_, .i1⟩
  | 84 => ⟨S_, .i32⟩
  | 85 => ⟨S_, .i32⟩
  | 86 => ⟨S_, .i32⟩
  | 87 => ⟨S1, .i32⟩
  | 88 => ⟨S1, .i32⟩
  | 89 => ⟨S1, .i32⟩
  | 90 => ⟨S_, .i32⟩
  | 91 => ⟨S1, .i32⟩
  | 92 => ⟨S1, .i1⟩
  | 93 => ⟨S1, .i1⟩
  | 94 => ⟨S1, .i1⟩
  | 95 => ⟨S_, .i1⟩
  | 96 => ⟨S_, .i1⟩
  | 97 => ⟨S802816x2x2x2, .f32⟩
  | 98 => ⟨S802816x2x2x2, .i1⟩
  | 99 => ⟨S_, .f32⟩
  | 100 => ⟨S802816x2x2x2, .f32⟩
  | 101 => ⟨S802816x2x2x2, .f32⟩
  | 102 => ⟨S_, .i32⟩
  | 103 => ⟨S_, .i32⟩
  | 104 => ⟨S_, .i1⟩
  | 105 => ⟨S_, .i32⟩
  | 106 => ⟨S_, .i32⟩
  | 107 => ⟨S_, .i32⟩
  | 108 => ⟨S1, .i32⟩
  | 109 => ⟨S1, .i32⟩
  | 110 => ⟨S1, .i32⟩
  | 111 => ⟨S_, .i32⟩
  | 112 => ⟨S1, .i32⟩
  | 113 => ⟨S1, .i1⟩
  | 114 => ⟨S1, .i1⟩
  | 115 => ⟨S1, .i1⟩
  | 116 => ⟨S_, .i1⟩
  | 117 => ⟨S_, .i1⟩
  | 118 => ⟨S802816x2x2x2, .f32⟩
  | 119 => ⟨S802816x2x2x2, .i1⟩
  | 120 => ⟨S_, .f32⟩
  | 121 => ⟨S802816x2x2x2, .f32⟩
  | 122 => ⟨S802816x2x2x2, .f32⟩
  | 123 => ⟨S_, .f32⟩
  | 124 => ⟨S_, .f32⟩
  | 125 => ⟨S_, .f32⟩
  | 126 => ⟨S_, .f32⟩
  | 127 => ⟨S_, .f32⟩
  | _ => ⟨S4096x784, .f32⟩

abbrev hbmTy0_9 (i : Nat) : BufTy := match i % 128 with
  | 0 => ⟨S_, .f32⟩
  | 1 => ⟨S802816x2x2x2, .f32⟩
  | 2 => ⟨S802816x2x2x2, .f32⟩
  | 3 => ⟨S802816x2x2x2, .f32⟩
  | 4 => ⟨S802816x2x2x2, .f32⟩
  | 5 => ⟨S802816x2x2x2, .f32⟩
  | 6 => ⟨S802816x2x2x2, .f32⟩
  | 7 => ⟨S802816x2x2x2, .f32⟩
  | 8 => ⟨S802816x2x2x2, .f32⟩
  | 9 => ⟨S802816x2x2x2, .f32⟩
  | 10 => ⟨S802816x2x2x2, .f32⟩
  | 11 => ⟨S802816x2x1x2x2, .f32⟩
  | 12 => ⟨S802816x2x1x2x2, .f32⟩
  | 13 => ⟨S802816x2x2x2x2, .f32⟩
  | 14 => ⟨S_, .i32⟩
  | 15 => ⟨S_, .i32⟩
  | 16 => ⟨S_, .i1⟩
  | 17 => ⟨S_, .i32⟩
  | 18 => ⟨S_, .i32⟩
  | 19 => ⟨S_, .i32⟩
  | 20 => ⟨S1, .i32⟩
  | 21 => ⟨S1, .i32⟩
  | 22 => ⟨S1, .i32⟩
  | 23 => ⟨S_, .i32⟩
  | 24 => ⟨S1, .i32⟩
  | 25 => ⟨S1, .i1⟩
  | 26 => ⟨S1, .i1⟩
  | 27 => ⟨S1, .i1⟩
  | 28 => ⟨S_, .i1⟩
  | 29 => ⟨S_, .i1⟩
  | 30 => ⟨S802816x2x2x2, .f32⟩
  | 31 => ⟨S802816x2x2x2, .i1⟩
  | 32 => ⟨S_, .f32⟩
  | 33 => ⟨S802816x2x2x2, .f32⟩
  | 34 => ⟨S802816x2x2x2, .f32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S1, .i32⟩
  | 42 => ⟨S1, .i32⟩
  | 43 => ⟨S1, .i32⟩
  | 44 => ⟨S_, .i32⟩
  | 45 => ⟨S1, .i32⟩
  | 46 => ⟨S1, .i1⟩
  | 47 => ⟨S1, .i1⟩
  | 48 => ⟨S1, .i1⟩
  | 49 => ⟨S_, .i1⟩
  | 50 => ⟨S_, .i1⟩
  | 51 => ⟨S802816x2x2x2, .f32⟩
  | 52 => ⟨S802816x2x2x2, .i1⟩
  | 53 => ⟨S_, .f32⟩
  | 54 => ⟨S802816x2x2x2, .f32⟩
  | 55 => ⟨S802816x2x2x2, .f32⟩
  | 56 => ⟨S802816x2x2x2, .f32⟩
  | 57 => ⟨S802816x2x1x2x2, .f32⟩
  | 58 => ⟨S802816x2x1x2x2, .f32⟩
  | 59 => ⟨S802816x2x2x2x2, .f32⟩
  | 60 => ⟨S1, .f32⟩
  | 61 => ⟨S_, .f32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S1, .i32⟩
  | 69 => ⟨S1, .i32⟩
  | 70 => ⟨S1, .i32⟩
  | 71 => ⟨S_, .i32⟩
  | 72 => ⟨S1, .i32⟩
  | 73 => ⟨S1, .i1⟩
  | 74 => ⟨S1, .i1⟩
  | 75 => ⟨S1, .i1⟩
  | 76 => ⟨S_, .i1⟩
  | 77 => ⟨S_, .i1⟩
  | 78 => ⟨S802816x2x2x2, .f32⟩
  | 79 => ⟨S802816x2x2x2, .i1⟩
  | 80 => ⟨S_, .f32⟩
  | 81 => ⟨S802816x2x2x2, .f32⟩
  | 82 => ⟨S802816x2x2x2, .f32⟩
  | 83 => ⟨S_, .i32⟩
  | 84 => ⟨S_, .i32⟩
  | 85 => ⟨S_, .i1⟩
  | 86 => ⟨S_, .i32⟩
  | 87 => ⟨S_, .i32⟩
  | 88 => ⟨S_, .i32⟩
  | 89 => ⟨S1, .i32⟩
  | 90 => ⟨S1, .i32⟩
  | 91 => ⟨S1, .i32⟩
  | 92 => ⟨S_, .i32⟩
  | 93 => ⟨S1, .i32⟩
  | 94 => ⟨S1, .i1⟩
  | 95 => ⟨S1, .i1⟩
  | 96 => ⟨S1, .i1⟩
  | 97 => ⟨S_, .i1⟩
  | 98 => ⟨S_, .i1⟩
  | 99 => ⟨S802816x2x2x2, .f32⟩
  | 100 => ⟨S802816x2x2x2, .i1⟩
  | 101 => ⟨S_, .f32⟩
  | 102 => ⟨S802816x2x2x2, .f32⟩
  | 103 => ⟨S802816x2x2x2, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S802816x2x2x2, .f32⟩
  | 111 => ⟨S802816x2x2x2, .f32⟩
  | 112 => ⟨S802816x2x2x2, .f32⟩
  | 113 => ⟨S802816x2x2x2, .f32⟩
  | 114 => ⟨S802816x2x2x2, .f32⟩
  | 115 => ⟨S802816x2x2x2, .f32⟩
  | 116 => ⟨S802816x2x2x2, .f32⟩
  | 117 => ⟨S802816x2x2x2, .f32⟩
  | 118 => ⟨S802816x2x2x2, .f32⟩
  | 119 => ⟨S802816x2x2x2, .f32⟩
  | 120 => ⟨S802816x2x2x1x2, .f32⟩
  | 121 => ⟨S802816x2x2x1x2, .f32⟩
  | 122 => ⟨S802816x2x2x2x2, .f32⟩
  | 123 => ⟨S_, .i32⟩
  | 124 => ⟨S_, .i32⟩
  | 125 => ⟨S_, .i1⟩
  | 126 => ⟨S_, .i32⟩
  | 127 => ⟨S_, .i32⟩
  | _ => ⟨S4096x784, .f32⟩

abbrev hbmTy0_10 (i : Nat) : BufTy := match i % 128 with
  | 0 => ⟨S_, .i32⟩
  | 1 => ⟨S1, .i32⟩
  | 2 => ⟨S1, .i32⟩
  | 3 => ⟨S1, .i32⟩
  | 4 => ⟨S_, .i32⟩
  | 5 => ⟨S1, .i32⟩
  | 6 => ⟨S1, .i1⟩
  | 7 => ⟨S1, .i1⟩
  | 8 => ⟨S1, .i1⟩
  | 9 => ⟨S_, .i1⟩
  | 10 => ⟨S_, .i1⟩
  | 11 => ⟨S802816x2x2x2, .f32⟩
  | 12 => ⟨S802816x2x2x2, .i1⟩
  | 13 => ⟨S_, .f32⟩
  | 14 => ⟨S802816x2x2x2, .f32⟩
  | 15 => ⟨S802816x2x2x2, .f32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S1, .i32⟩
  | 23 => ⟨S1, .i32⟩
  | 24 => ⟨S1, .i32⟩
  | 25 => ⟨S_, .i32⟩
  | 26 => ⟨S1, .i32⟩
  | 27 => ⟨S1, .i1⟩
  | 28 => ⟨S1, .i1⟩
  | 29 => ⟨S1, .i1⟩
  | 30 => ⟨S_, .i1⟩
  | 31 => ⟨S_, .i1⟩
  | 32 => ⟨S802816x2x2x2, .f32⟩
  | 33 => ⟨S802816x2x2x2, .i1⟩
  | 34 => ⟨S_, .f32⟩
  | 35 => ⟨S802816x2x2x2, .f32⟩
  | 36 => ⟨S802816x2x2x2, .f32⟩
  | 37 => ⟨S802816x2x2x2, .f32⟩
  | 38 => ⟨S802816x2x2x1x2, .f32⟩
  | 39 => ⟨S802816x2x2x1x2, .f32⟩
  | 40 => ⟨S802816x2x2x2x2, .f32⟩
  | 41 => ⟨S1, .f32⟩
  | 42 => ⟨S_, .f32⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S1, .i32⟩
  | 50 => ⟨S1, .i32⟩
  | 51 => ⟨S1, .i32⟩
  | 52 => ⟨S_, .i32⟩
  | 53 => ⟨S1, .i32⟩
  | 54 => ⟨S1, .i1⟩
  | 55 => ⟨S1, .i1⟩
  | 56 => ⟨S1, .i1⟩
  | 57 => ⟨S_, .i1⟩
  | 58 => ⟨S_, .i1⟩
  | 59 => ⟨S802816x2x2x2, .f32⟩
  | 60 => ⟨S802816x2x2x2, .i1⟩
  | 61 => ⟨S_, .f32⟩
  | 62 => ⟨S802816x2x2x2, .f32⟩
  | 63 => ⟨S802816x2x2x2, .f32⟩
  | 64 => ⟨S_, .i32⟩
  | 65 => ⟨S_, .i32⟩
  | 66 => ⟨S_, .i1⟩
  | 67 => ⟨S_, .i32⟩
  | 68 => ⟨S_, .i32⟩
  | 69 => ⟨S_, .i32⟩
  | 70 => ⟨S1, .i32⟩
  | 71 => ⟨S1, .i32⟩
  | 72 => ⟨S1, .i32⟩
  | 73 => ⟨S_, .i32⟩
  | 74 => ⟨S1, .i32⟩
  | 75 => ⟨S1, .i1⟩
  | 76 => ⟨S1, .i1⟩
  | 77 => ⟨S1, .i1⟩
  | 78 => ⟨S_, .i1⟩
  | 79 => ⟨S_, .i1⟩
  | 80 => ⟨S802816x2x2x2, .f32⟩
  | 81 => ⟨S802816x2x2x2, .i1⟩
  | 82 => ⟨S_, .f32⟩
  | 83 => ⟨S802816x2x2x2, .f32⟩
  | 84 => ⟨S802816x2x2x2, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S802816x2x2x2, .f32⟩
  | 92 => ⟨S802816x2x2x2, .f32⟩
  | 93 => ⟨S802816x2x2x2, .f32⟩
  | 94 => ⟨S802816x2x2x2, .f32⟩
  | 95 => ⟨S802816x2x2x2, .f32⟩
  | 96 => ⟨S802816x2x2x2, .f32⟩
  | 97 => ⟨S802816x2x2x2, .f32⟩
  | 98 => ⟨S802816x2x2x2, .f32⟩
  | 99 => ⟨S802816x2x2x2, .f32⟩
  | 100 => ⟨S802816x2x2x2, .f32⟩
  | 101 => ⟨S802816x2x2x2x1, .f32⟩
  | 102 => ⟨S802816x2x2x2x1, .f32⟩
  | 103 => ⟨S802816x2x2x2x2, .f32⟩
  | 104 => ⟨S_, .i32⟩
  | 105 => ⟨S_, .i32⟩
  | 106 => ⟨S_, .i1⟩
  | 107 => ⟨S_, .i32⟩
  | 108 => ⟨S_, .i32⟩
  | 109 => ⟨S_, .i32⟩
  | 110 => ⟨S1, .i32⟩
  | 111 => ⟨S1, .i32⟩
  | 112 => ⟨S1, .i32⟩
  | 113 => ⟨S_, .i32⟩
  | 114 => ⟨S1, .i32⟩
  | 115 => ⟨S1, .i1⟩
  | 116 => ⟨S1, .i1⟩
  | 117 => ⟨S1, .i1⟩
  | 118 => ⟨S_, .i1⟩
  | 119 => ⟨S_, .i1⟩
  | 120 => ⟨S802816x2x2x2, .f32⟩
  | 121 => ⟨S802816x2x2x2, .i1⟩
  | 122 => ⟨S_, .f32⟩
  | 123 => ⟨S802816x2x2x2, .f32⟩
  | 124 => ⟨S802816x2x2x2, .f32⟩
  | 125 => ⟨S_, .i32⟩
  | 126 => ⟨S_, .i32⟩
  | 127 => ⟨S_, .i1⟩
  | _ => ⟨S4096x784, .f32⟩

abbrev hbmTy0_11 (i : Nat) : BufTy := match i % 128 with
  | 0 => ⟨S_, .i32⟩
  | 1 => ⟨S_, .i32⟩
  | 2 => ⟨S_, .i32⟩
  | 3 => ⟨S1, .i32⟩
  | 4 => ⟨S1, .i32⟩
  | 5 => ⟨S1, .i32⟩
  | 6 => ⟨S_, .i32⟩
  | 7 => ⟨S1, .i32⟩
  | 8 => ⟨S1, .i1⟩
  | 9 => ⟨S1, .i1⟩
  | 10 => ⟨S1, .i1⟩
  | 11 => ⟨S_, .i1⟩
  | 12 => ⟨S_, .i1⟩
  | 13 => ⟨S802816x2x2x2, .f32⟩
  | 14 => ⟨S802816x2x2x2, .i1⟩
  | 15 => ⟨S_, .f32⟩
  | 16 => ⟨S802816x2x2x2, .f32⟩
  | 17 => ⟨S802816x2x2x2, .f32⟩
  | 18 => ⟨S802816x2x2x2, .f32⟩
  | 19 => ⟨S802816x2x2x2x1, .f32⟩
  | 20 => ⟨S802816x2x2x2x1, .f32⟩
  | 21 => ⟨S802816x2x2x2x2, .f32⟩
  | 22 => ⟨S802816x2x2x2x2, .f32⟩
  | 23 => ⟨S_, .f32⟩
  | 24 => ⟨S802816x2, .f32⟩
  | 25 => ⟨S802816x1, .f32⟩
  | 26 => ⟨S802816, .f32⟩
  | 27 => ⟨S802816x1, .f32⟩
  | 28 => ⟨S802816, .f32⟩
  | 29 => ⟨S802816, .f32⟩
  | 30 => ⟨S_, .f32⟩
  | 31 => ⟨S802816x2, .f32⟩
  | 32 => ⟨S802816x1, .f32⟩
  | 33 => ⟨S802816, .f32⟩
  | 34 => ⟨S802816x1, .f32⟩
  | 35 => ⟨S802816, .f32⟩
  | 36 => ⟨S802816, .f32⟩
  | 37 => ⟨S_, .f32⟩
  | 38 => ⟨S802816x2, .f32⟩
  | 39 => ⟨S802816x1, .f32⟩
  | 40 => ⟨S802816, .f32⟩
  | 41 => ⟨S802816x1, .f32⟩
  | 42 => ⟨S802816, .f32⟩
  | 43 => ⟨S802816, .f32⟩
  | 44 => ⟨S_, .f32⟩
  | 45 => ⟨S802816x2, .f32⟩
  | 46 => ⟨S802816x1, .f32⟩
  | 47 => ⟨S802816, .f32⟩
  | 48 => ⟨S802816x1, .f32⟩
  | 49 => ⟨S802816, .f32⟩
  | 50 => ⟨S802816, .f32⟩
  | 51 => ⟨S802816x1, .f32⟩
  | 52 => ⟨S802816x1, .f32⟩
  | 53 => ⟨S802816x1, .f32⟩
  | 54 => ⟨S802816x1, .f32⟩
  | 55 => ⟨S802816x4, .f32⟩
  | 56 => ⟨S4096x784, .f32⟩
  | 57 => ⟨S784x10, .f32⟩
  | 58 => ⟨S4096x10, .f32⟩
  | 59 => ⟨S1x10, .f32⟩
  | 60 => ⟨S4096x10, .f32⟩
  | 61 => ⟨S4096x10, .f32⟩
  | 62 => ⟨S_, .f32⟩
  | 63 => ⟨S4096, .f32⟩
  | 64 => ⟨S_, .f32⟩
  | 65 => ⟨S4096, .f32⟩
  | 66 => ⟨S4096, .f32⟩
  | 67 => ⟨S4096x1, .f32⟩
  | 68 => ⟨S4096x10, .f32⟩
  | 69 => ⟨S4096x10, .f32⟩
  | 70 => ⟨S4096x10, .f32⟩
  | 71 => ⟨S_, .f32⟩
  | 72 => ⟨S4096, .f32⟩
  | 73 => ⟨S4096x1, .f32⟩
  | 74 => ⟨S4096x1, .f32⟩
  | 75 => ⟨S4096x10, .f32⟩
  | 76 => ⟨S4096x10, .f32⟩
  | _ => ⟨S4096x784, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S4096x784, .f32⟩

abbrev bufTy : (tb : Table) → Fin (tcTables nBuf tb) → BufTy
  | .hbm, ⟨i, _⟩ => hbmTy i
  | _, _ => ⟨S4096x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_call0_c : Ref sig .tc := ⟨.hbm, 25, rfl⟩
abbrev main_call0_v0 : Ref sig .tc := ⟨.hbm, 26, rfl⟩
abbrev main_call0_c_0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_c_1 : Ref sig .tc := ⟨.hbm, 31, rfl⟩
abbrev main_call0_v4 : Ref sig .tc := ⟨.hbm, 32, rfl⟩
abbrev main_call0_c_2 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_c_3 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_cst : Ref sig .tc := ⟨.hbm, 42, rfl⟩
abbrev main_call0_v12 : Ref sig .tc := ⟨.hbm, 43, rfl⟩
abbrev main_v14 : Ref sig .tc := ⟨.hbm, 44, rfl⟩
abbrev main_c_5 : Ref sig .tc := ⟨.hbm, 45, rfl⟩
abbrev main_call1_c : Ref sig .tc := ⟨.hbm, 46, rfl⟩
abbrev main_call1_v0 : Ref sig .tc := ⟨.hbm, 47, rfl⟩
abbrev main_call1_c_0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_c_1 : Ref sig .tc := ⟨.hbm, 52, rfl⟩
abbrev main_call1_v4 : Ref sig .tc := ⟨.hbm, 53, rfl⟩
abbrev main_call1_c_2 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_c_3 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_cst : Ref sig .tc := ⟨.hbm, 63, rfl⟩
abbrev main_call1_v12 : Ref sig .tc := ⟨.hbm, 64, rfl⟩
abbrev main_v15 : Ref sig .tc := ⟨.hbm, 65, rfl⟩
abbrev main_cst_6 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_cst_7 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_c_8 : Ref sig .tc := ⟨.hbm, 91, rfl⟩
abbrev main_call2_c : Ref sig .tc := ⟨.hbm, 92, rfl⟩
abbrev main_call2_v0 : Ref sig .tc := ⟨.hbm, 93, rfl⟩
abbrev main_call2_c_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_c_1 : Ref sig .tc := ⟨.hbm, 98, rfl⟩
abbrev main_call2_v4 : Ref sig .tc := ⟨.hbm, 99, rfl⟩
abbrev main_call2_c_2 : Ref sig .tc := ⟨.hbm, 100, rfl⟩
abbrev main_call2_v5 : Ref sig .tc := ⟨.hbm, 101, rfl⟩
abbrev main_call2_v6 : Ref sig .tc := ⟨.hbm, 102, rfl⟩
abbrev main_call2_v7 : Ref sig .tc := ⟨.hbm, 103, rfl⟩
abbrev main_call2_v8 : Ref sig .tc := ⟨.hbm, 104, rfl⟩
abbrev main_call2_c_3 : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_cst : Ref sig .tc := ⟨.hbm, 109, rfl⟩
abbrev main_call2_v12 : Ref sig .tc := ⟨.hbm, 110, rfl⟩
abbrev main_v39 : Ref sig .tc := ⟨.hbm, 111, rfl⟩
abbrev main_c_9 : Ref sig .tc := ⟨.hbm, 112, rfl⟩
abbrev main_call3_c : Ref sig .tc := ⟨.hbm, 113, rfl⟩
abbrev main_call3_v0 : Ref sig .tc := ⟨.hbm, 114, rfl⟩
abbrev main_call3_c_0 : Ref sig .tc := ⟨.hbm, 115, rfl⟩
abbrev main_call3_v1 : Ref sig .tc := ⟨.hbm, 116, rfl⟩
abbrev main_call3_v2 : Ref sig .tc := ⟨.hbm, 117, rfl⟩
abbrev main_call3_v3 : Ref sig .tc := ⟨.hbm, 118, rfl⟩
abbrev main_call3_c_1 : Ref sig .tc := ⟨.hbm, 119, rfl⟩
abbrev main_call3_v4 : Ref sig .tc := ⟨.hbm, 120, rfl⟩
abbrev main_call3_c_2 : Ref sig .tc := ⟨.hbm, 121, rfl⟩
abbrev main_call3_v5 : Ref sig .tc := ⟨.hbm, 122, rfl⟩
abbrev main_call3_v6 : Ref sig .tc := ⟨.hbm, 123, rfl⟩
abbrev main_call3_v7 : Ref sig .tc := ⟨.hbm, 124, rfl⟩
abbrev main_call3_v8 : Ref sig .tc := ⟨.hbm, 125, rfl⟩
abbrev main_call3_c_3 : Ref sig .tc := ⟨.hbm, 126, rfl⟩
abbrev main_call3_v9 : Ref sig .tc := ⟨.hbm, 127, rfl⟩
abbrev main_call3_v10 : Ref sig .tc := ⟨.hbm, 128, rfl⟩
abbrev main_call3_v11 : Ref sig .tc := ⟨.hbm, 129, rfl⟩
abbrev main_call3_cst : Ref sig .tc := ⟨.hbm, 130, rfl⟩
abbrev main_call3_v12 : Ref sig .tc := ⟨.hbm, 131, rfl⟩
abbrev main_v40 : Ref sig .tc := ⟨.hbm, 132, rfl⟩
abbrev main_cst_10 : Ref sig .tc := ⟨.hbm, 133, rfl⟩
abbrev main_v41 : Ref sig .tc := ⟨.hbm, 134, rfl⟩
abbrev main_v42 : Ref sig .tc := ⟨.hbm, 135, rfl⟩
abbrev main_v43 : Ref sig .tc := ⟨.hbm, 136, rfl⟩
abbrev main_cst_11 : Ref sig .tc := ⟨.hbm, 137, rfl⟩
abbrev main_v44 : Ref sig .tc := ⟨.hbm, 138, rfl⟩
abbrev main_v45 : Ref sig .tc := ⟨.hbm, 139, rfl⟩
abbrev main_v46 : Ref sig .tc := ⟨.hbm, 140, rfl⟩
abbrev main_v47 : Ref sig .tc := ⟨.hbm, 141, rfl⟩
abbrev main_v48 : Ref sig .tc := ⟨.hbm, 142, rfl⟩
abbrev main_v49 : Ref sig .tc := ⟨.hbm, 143, rfl⟩
abbrev main_v50 : Ref sig .tc := ⟨.hbm, 144, rfl⟩
abbrev main_v51 : Ref sig .tc := ⟨.hbm, 145, rfl⟩
abbrev main_v52 : Ref sig .tc := ⟨.hbm, 146, rfl⟩
abbrev main_v53 : Ref sig .tc := ⟨.hbm, 147, rfl⟩
abbrev main_v54 : Ref sig .tc := ⟨.hbm, 148, rfl⟩
abbrev main_v55 : Ref sig .tc := ⟨.hbm, 149, rfl⟩
abbrev main_v56 : Ref sig .tc := ⟨.hbm, 150, rfl⟩
abbrev main_v57 : Ref sig .tc := ⟨.hbm, 151, rfl⟩
abbrev main_v58 : Ref sig .tc := ⟨.hbm, 152, rfl⟩
abbrev main_v59 : Ref sig .tc := ⟨.hbm, 153, rfl⟩
abbrev main_v60 : Ref sig .tc := ⟨.hbm, 154, rfl⟩
abbrev main_v61 : Ref sig .tc := ⟨.hbm, 155, rfl⟩
abbrev main_v62 : Ref sig .tc := ⟨.hbm, 156, rfl⟩
abbrev main_v63 : Ref sig .tc := ⟨.hbm, 157, rfl⟩
abbrev main_c_12 : Ref sig .tc := ⟨.hbm, 158, rfl⟩
abbrev main_call4_c : Ref sig .tc := ⟨.hbm, 159, rfl⟩
abbrev main_call4_v0 : Ref sig .tc := ⟨.hbm, 160, rfl⟩
abbrev main_call4_c_0 : Ref sig .tc := ⟨.hbm, 161, rfl⟩
abbrev main_call4_v1 : Ref sig .tc := ⟨.hbm, 162, rfl⟩
abbrev main_call4_v2 : Ref sig .tc := ⟨.hbm, 163, rfl⟩
abbrev main_call4_v3 : Ref sig .tc := ⟨.hbm, 164, rfl⟩
abbrev main_call4_c_1 : Ref sig .tc := ⟨.hbm, 165, rfl⟩
abbrev main_call4_v4 : Ref sig .tc := ⟨.hbm, 166, rfl⟩
abbrev main_call4_c_2 : Ref sig .tc := ⟨.hbm, 167, rfl⟩
abbrev main_call4_v5 : Ref sig .tc := ⟨.hbm, 168, rfl⟩
abbrev main_call4_v6 : Ref sig .tc := ⟨.hbm, 169, rfl⟩
abbrev main_call4_v7 : Ref sig .tc := ⟨.hbm, 170, rfl⟩
abbrev main_call4_v8 : Ref sig .tc := ⟨.hbm, 171, rfl⟩
abbrev main_call4_c_3 : Ref sig .tc := ⟨.hbm, 172, rfl⟩
abbrev main_call4_v9 : Ref sig .tc := ⟨.hbm, 173, rfl⟩
abbrev main_call4_v10 : Ref sig .tc := ⟨.hbm, 174, rfl⟩
abbrev main_call4_v11 : Ref sig .tc := ⟨.hbm, 175, rfl⟩
abbrev main_call4_cst : Ref sig .tc := ⟨.hbm, 176, rfl⟩
abbrev main_call4_v12 : Ref sig .tc := ⟨.hbm, 177, rfl⟩
abbrev main_v64 : Ref sig .tc := ⟨.hbm, 178, rfl⟩
abbrev main_c_13 : Ref sig .tc := ⟨.hbm, 179, rfl⟩
abbrev main_call5_c : Ref sig .tc := ⟨.hbm, 180, rfl⟩
abbrev main_call5_v0 : Ref sig .tc := ⟨.hbm, 181, rfl⟩
abbrev main_call5_c_0 : Ref sig .tc := ⟨.hbm, 182, rfl⟩
abbrev main_call5_v1 : Ref sig .tc := ⟨.hbm, 183, rfl⟩
abbrev main_call5_v2 : Ref sig .tc := ⟨.hbm, 184, rfl⟩
abbrev main_call5_v3 : Ref sig .tc := ⟨.hbm, 185, rfl⟩
abbrev main_call5_c_1 : Ref sig .tc := ⟨.hbm, 186, rfl⟩
abbrev main_call5_v4 : Ref sig .tc := ⟨.hbm, 187, rfl⟩
abbrev main_call5_c_2 : Ref sig .tc := ⟨.hbm, 188, rfl⟩
abbrev main_call5_v5 : Ref sig .tc := ⟨.hbm, 189, rfl⟩
abbrev main_call5_v6 : Ref sig .tc := ⟨.hbm, 190, rfl⟩
abbrev main_call5_v7 : Ref sig .tc := ⟨.hbm, 191, rfl⟩
abbrev main_call5_v8 : Ref sig .tc := ⟨.hbm, 192, rfl⟩
abbrev main_call5_c_3 : Ref sig .tc := ⟨.hbm, 193, rfl⟩
abbrev main_call5_v9 : Ref sig .tc := ⟨.hbm, 194, rfl⟩
abbrev main_call5_v10 : Ref sig .tc := ⟨.hbm, 195, rfl⟩
abbrev main_call5_v11 : Ref sig .tc := ⟨.hbm, 196, rfl⟩
abbrev main_call5_cst : Ref sig .tc := ⟨.hbm, 197, rfl⟩
abbrev main_call5_v12 : Ref sig .tc := ⟨.hbm, 198, rfl⟩
abbrev main_v65 : Ref sig .tc := ⟨.hbm, 199, rfl⟩
abbrev main_cst_14 : Ref sig .tc := ⟨.hbm, 200, rfl⟩
abbrev main_v66 : Ref sig .tc := ⟨.hbm, 201, rfl⟩
abbrev main_v67 : Ref sig .tc := ⟨.hbm, 202, rfl⟩
abbrev main_v68 : Ref sig .tc := ⟨.hbm, 203, rfl⟩
abbrev main_cst_15 : Ref sig .tc := ⟨.hbm, 204, rfl⟩
abbrev main_v69 : Ref sig .tc := ⟨.hbm, 205, rfl⟩
abbrev main_v70 : Ref sig .tc := ⟨.hbm, 206, rfl⟩
abbrev main_v71 : Ref sig .tc := ⟨.hbm, 207, rfl⟩
abbrev main_v72 : Ref sig .tc := ⟨.hbm, 208, rfl⟩
abbrev main_v73 : Ref sig .tc := ⟨.hbm, 209, rfl⟩
abbrev main_v74 : Ref sig .tc := ⟨.hbm, 210, rfl⟩
abbrev main_v75 : Ref sig .tc := ⟨.hbm, 211, rfl⟩
abbrev main_v76 : Ref sig .tc := ⟨.hbm, 212, rfl⟩
abbrev main_v77 : Ref sig .tc := ⟨.hbm, 213, rfl⟩
abbrev main_v78 : Ref sig .tc := ⟨.hbm, 214, rfl⟩
abbrev main_v79 : Ref sig .tc := ⟨.hbm, 215, rfl⟩
abbrev main_v80 : Ref sig .tc := ⟨.hbm, 216, rfl⟩
abbrev main_v81 : Ref sig .tc := ⟨.hbm, 217, rfl⟩
abbrev main_v82 : Ref sig .tc := ⟨.hbm, 218, rfl⟩
abbrev main_v83 : Ref sig .tc := ⟨.hbm, 219, rfl⟩
abbrev main_v84 : Ref sig .tc := ⟨.hbm, 220, rfl⟩
abbrev main_v85 : Ref sig .tc := ⟨.hbm, 221, rfl⟩
abbrev main_v86 : Ref sig .tc := ⟨.hbm, 222, rfl⟩
abbrev main_v87 : Ref sig .tc := ⟨.hbm, 223, rfl⟩
abbrev main_v88 : Ref sig .tc := ⟨.hbm, 224, rfl⟩
abbrev main_c_16 : Ref sig .tc := ⟨.hbm, 225, rfl⟩
abbrev main_call6_c : Ref sig .tc := ⟨.hbm, 226, rfl⟩
abbrev main_call6_v0 : Ref sig .tc := ⟨.hbm, 227, rfl⟩
abbrev main_call6_c_0 : Ref sig .tc := ⟨.hbm, 228, rfl⟩
abbrev main_call6_v1 : Ref sig .tc := ⟨.hbm, 229, rfl⟩
abbrev main_call6_v2 : Ref sig .tc := ⟨.hbm, 230, rfl⟩
abbrev main_call6_v3 : Ref sig .tc := ⟨.hbm, 231, rfl⟩
abbrev main_call6_c_1 : Ref sig .tc := ⟨.hbm, 232, rfl⟩
abbrev main_call6_v4 : Ref sig .tc := ⟨.hbm, 233, rfl⟩
abbrev main_call6_c_2 : Ref sig .tc := ⟨.hbm, 234, rfl⟩
abbrev main_call6_v5 : Ref sig .tc := ⟨.hbm, 235, rfl⟩
abbrev main_call6_v6 : Ref sig .tc := ⟨.hbm, 236, rfl⟩
abbrev main_call6_v7 : Ref sig .tc := ⟨.hbm, 237, rfl⟩
abbrev main_call6_v8 : Ref sig .tc := ⟨.hbm, 238, rfl⟩
abbrev main_call6_c_3 : Ref sig .tc := ⟨.hbm, 239, rfl⟩
abbrev main_call6_v9 : Ref sig .tc := ⟨.hbm, 240, rfl⟩
abbrev main_call6_v10 : Ref sig .tc := ⟨.hbm, 241, rfl⟩
abbrev main_call6_v11 : Ref sig .tc := ⟨.hbm, 242, rfl⟩
abbrev main_call6_cst : Ref sig .tc := ⟨.hbm, 243, rfl⟩
abbrev main_call6_v12 : Ref sig .tc := ⟨.hbm, 244, rfl⟩
abbrev main_v89 : Ref sig .tc := ⟨.hbm, 245, rfl⟩
abbrev main_c_17 : Ref sig .tc := ⟨.hbm, 246, rfl⟩
abbrev main_call7_c : Ref sig .tc := ⟨.hbm, 247, rfl⟩
abbrev main_call7_v0 : Ref sig .tc := ⟨.hbm, 248, rfl⟩
abbrev main_call7_c_0 : Ref sig .tc := ⟨.hbm, 249, rfl⟩
abbrev main_call7_v1 : Ref sig .tc := ⟨.hbm, 250, rfl⟩
abbrev main_call7_v2 : Ref sig .tc := ⟨.hbm, 251, rfl⟩
abbrev main_call7_v3 : Ref sig .tc := ⟨.hbm, 252, rfl⟩
abbrev main_call7_c_1 : Ref sig .tc := ⟨.hbm, 253, rfl⟩
abbrev main_call7_v4 : Ref sig .tc := ⟨.hbm, 254, rfl⟩
abbrev main_call7_c_2 : Ref sig .tc := ⟨.hbm, 255, rfl⟩
abbrev main_call7_v5 : Ref sig .tc := ⟨.hbm, 256, rfl⟩
abbrev main_call7_v6 : Ref sig .tc := ⟨.hbm, 257, rfl⟩
abbrev main_call7_v7 : Ref sig .tc := ⟨.hbm, 258, rfl⟩
abbrev main_call7_v8 : Ref sig .tc := ⟨.hbm, 259, rfl⟩
abbrev main_call7_c_3 : Ref sig .tc := ⟨.hbm, 260, rfl⟩
abbrev main_call7_v9 : Ref sig .tc := ⟨.hbm, 261, rfl⟩
abbrev main_call7_v10 : Ref sig .tc := ⟨.hbm, 262, rfl⟩
abbrev main_call7_v11 : Ref sig .tc := ⟨.hbm, 263, rfl⟩
abbrev main_call7_cst : Ref sig .tc := ⟨.hbm, 264, rfl⟩
abbrev main_call7_v12 : Ref sig .tc := ⟨.hbm, 265, rfl⟩
abbrev main_v90 : Ref sig .tc := ⟨.hbm, 266, rfl⟩
abbrev main_cst_18 : Ref sig .tc := ⟨.hbm, 267, rfl⟩
abbrev main_v91 : Ref sig .tc := ⟨.hbm, 268, rfl⟩
abbrev main_v92 : Ref sig .tc := ⟨.hbm, 269, rfl⟩
abbrev main_v93 : Ref sig .tc := ⟨.hbm, 270, rfl⟩
abbrev main_cst_19 : Ref sig .tc := ⟨.hbm, 271, rfl⟩
abbrev main_v94 : Ref sig .tc := ⟨.hbm, 272, rfl⟩
abbrev main_v95 : Ref sig .tc := ⟨.hbm, 273, rfl⟩
abbrev main_v96 : Ref sig .tc := ⟨.hbm, 274, rfl⟩
abbrev main_v97 : Ref sig .tc := ⟨.hbm, 275, rfl⟩
abbrev main_v98 : Ref sig .tc := ⟨.hbm, 276, rfl⟩
abbrev main_v99 : Ref sig .tc := ⟨.hbm, 277, rfl⟩
abbrev main_v100 : Ref sig .tc := ⟨.hbm, 278, rfl⟩
abbrev main_v101 : Ref sig .tc := ⟨.hbm, 279, rfl⟩
abbrev main_v102 : Ref sig .tc := ⟨.hbm, 280, rfl⟩
abbrev main_v103 : Ref sig .tc := ⟨.hbm, 281, rfl⟩
abbrev main_v104 : Ref sig .tc := ⟨.hbm, 282, rfl⟩
abbrev main_v105 : Ref sig .tc := ⟨.hbm, 283, rfl⟩
abbrev main_v106 : Ref sig .tc := ⟨.hbm, 284, rfl⟩
abbrev main_v107 : Ref sig .tc := ⟨.hbm, 285, rfl⟩
abbrev main_v108 : Ref sig .tc := ⟨.hbm, 286, rfl⟩
abbrev main_v109 : Ref sig .tc := ⟨.hbm, 287, rfl⟩
abbrev main_v110 : Ref sig .tc := ⟨.hbm, 288, rfl⟩
abbrev main_v111 : Ref sig .tc := ⟨.hbm, 289, rfl⟩
abbrev main_v112 : Ref sig .tc := ⟨.hbm, 290, rfl⟩
abbrev main_v113 : Ref sig .tc := ⟨.hbm, 291, rfl⟩
abbrev main_c_20 : Ref sig .tc := ⟨.hbm, 292, rfl⟩
abbrev main_call8_c : Ref sig .tc := ⟨.hbm, 293, rfl⟩
abbrev main_call8_v0 : Ref sig .tc := ⟨.hbm, 294, rfl⟩
abbrev main_call8_c_0 : Ref sig .tc := ⟨.hbm, 295, rfl⟩
abbrev main_call8_v1 : Ref sig .tc := ⟨.hbm, 296, rfl⟩
abbrev main_call8_v2 : Ref sig .tc := ⟨.hbm, 297, rfl⟩
abbrev main_call8_v3 : Ref sig .tc := ⟨.hbm, 298, rfl⟩
abbrev main_call8_c_1 : Ref sig .tc := ⟨.hbm, 299, rfl⟩
abbrev main_call8_v4 : Ref sig .tc := ⟨.hbm, 300, rfl⟩
abbrev main_call8_c_2 : Ref sig .tc := ⟨.hbm, 301, rfl⟩
abbrev main_call8_v5 : Ref sig .tc := ⟨.hbm, 302, rfl⟩
abbrev main_call8_v6 : Ref sig .tc := ⟨.hbm, 303, rfl⟩
abbrev main_call8_v7 : Ref sig .tc := ⟨.hbm, 304, rfl⟩
abbrev main_call8_v8 : Ref sig .tc := ⟨.hbm, 305, rfl⟩
abbrev main_call8_c_3 : Ref sig .tc := ⟨.hbm, 306, rfl⟩
abbrev main_call8_v9 : Ref sig .tc := ⟨.hbm, 307, rfl⟩
abbrev main_call8_v10 : Ref sig .tc := ⟨.hbm, 308, rfl⟩
abbrev main_call8_v11 : Ref sig .tc := ⟨.hbm, 309, rfl⟩
abbrev main_call8_cst : Ref sig .tc := ⟨.hbm, 310, rfl⟩
abbrev main_call8_v12 : Ref sig .tc := ⟨.hbm, 311, rfl⟩
abbrev main_v114 : Ref sig .tc := ⟨.hbm, 312, rfl⟩
abbrev main_c_21 : Ref sig .tc := ⟨.hbm, 313, rfl⟩
abbrev main_call9_c : Ref sig .tc := ⟨.hbm, 314, rfl⟩
abbrev main_call9_v0 : Ref sig .tc := ⟨.hbm, 315, rfl⟩
abbrev main_call9_c_0 : Ref sig .tc := ⟨.hbm, 316, rfl⟩
abbrev main_call9_v1 : Ref sig .tc := ⟨.hbm, 317, rfl⟩
abbrev main_call9_v2 : Ref sig .tc := ⟨.hbm, 318, rfl⟩
abbrev main_call9_v3 : Ref sig .tc := ⟨.hbm, 319, rfl⟩
abbrev main_call9_c_1 : Ref sig .tc := ⟨.hbm, 320, rfl⟩
abbrev main_call9_v4 : Ref sig .tc := ⟨.hbm, 321, rfl⟩
abbrev main_call9_c_2 : Ref sig .tc := ⟨.hbm, 322, rfl⟩
abbrev main_call9_v5 : Ref sig .tc := ⟨.hbm, 323, rfl⟩
abbrev main_call9_v6 : Ref sig .tc := ⟨.hbm, 324, rfl⟩
abbrev main_call9_v7 : Ref sig .tc := ⟨.hbm, 325, rfl⟩
abbrev main_call9_v8 : Ref sig .tc := ⟨.hbm, 326, rfl⟩
abbrev main_call9_c_3 : Ref sig .tc := ⟨.hbm, 327, rfl⟩
abbrev main_call9_v9 : Ref sig .tc := ⟨.hbm, 328, rfl⟩
abbrev main_call9_v10 : Ref sig .tc := ⟨.hbm, 329, rfl⟩
abbrev main_call9_v11 : Ref sig .tc := ⟨.hbm, 330, rfl⟩
abbrev main_call9_cst : Ref sig .tc := ⟨.hbm, 331, rfl⟩
abbrev main_call9_v12 : Ref sig .tc := ⟨.hbm, 332, rfl⟩
abbrev main_v115 : Ref sig .tc := ⟨.hbm, 333, rfl⟩
abbrev main_cst_22 : Ref sig .tc := ⟨.hbm, 334, rfl⟩
abbrev main_v116 : Ref sig .tc := ⟨.hbm, 335, rfl⟩
abbrev main_v117 : Ref sig .tc := ⟨.hbm, 336, rfl⟩
abbrev main_cst_23 : Ref sig .tc := ⟨.hbm, 337, rfl⟩
abbrev main_v118 : Ref sig .tc := ⟨.hbm, 338, rfl⟩
abbrev main_v119 : Ref sig .tc := ⟨.hbm, 339, rfl⟩
abbrev main_v120 : Ref sig .tc := ⟨.hbm, 340, rfl⟩
abbrev main_v121 : Ref sig .tc := ⟨.hbm, 341, rfl⟩
abbrev main_v122 : Ref sig .tc := ⟨.hbm, 342, rfl⟩
abbrev main_v123 : Ref sig .tc := ⟨.hbm, 343, rfl⟩
abbrev main_v124 : Ref sig .tc := ⟨.hbm, 344, rfl⟩
abbrev main_v125 : Ref sig .tc := ⟨.hbm, 345, rfl⟩
abbrev main_v126 : Ref sig .tc := ⟨.hbm, 346, rfl⟩
abbrev main_v127 : Ref sig .tc := ⟨.hbm, 347, rfl⟩
abbrev main_v128 : Ref sig .tc := ⟨.hbm, 348, rfl⟩
abbrev main_v129 : Ref sig .tc := ⟨.hbm, 349, rfl⟩
abbrev main_v130 : Ref sig .tc := ⟨.hbm, 350, rfl⟩
abbrev main_v131 : Ref sig .tc := ⟨.hbm, 351, rfl⟩
abbrev main_v132 : Ref sig .tc := ⟨.hbm, 352, rfl⟩
abbrev main_c_24 : Ref sig .tc := ⟨.hbm, 353, rfl⟩
abbrev main_call10_c : Ref sig .tc := ⟨.hbm, 354, rfl⟩
abbrev main_call10_v0 : Ref sig .tc := ⟨.hbm, 355, rfl⟩
abbrev main_call10_c_0 : Ref sig .tc := ⟨.hbm, 356, rfl⟩
abbrev main_call10_v1 : Ref sig .tc := ⟨.hbm, 357, rfl⟩
abbrev main_call10_v2 : Ref sig .tc := ⟨.hbm, 358, rfl⟩
abbrev main_call10_v3 : Ref sig .tc := ⟨.hbm, 359, rfl⟩
abbrev main_call10_c_1 : Ref sig .tc := ⟨.hbm, 360, rfl⟩
abbrev main_call10_v4 : Ref sig .tc := ⟨.hbm, 361, rfl⟩
abbrev main_call10_c_2 : Ref sig .tc := ⟨.hbm, 362, rfl⟩
abbrev main_call10_v5 : Ref sig .tc := ⟨.hbm, 363, rfl⟩
abbrev main_call10_v6 : Ref sig .tc := ⟨.hbm, 364, rfl⟩
abbrev main_call10_v7 : Ref sig .tc := ⟨.hbm, 365, rfl⟩
abbrev main_call10_v8 : Ref sig .tc := ⟨.hbm, 366, rfl⟩
abbrev main_call10_c_3 : Ref sig .tc := ⟨.hbm, 367, rfl⟩
abbrev main_call10_v9 : Ref sig .tc := ⟨.hbm, 368, rfl⟩
abbrev main_call10_v10 : Ref sig .tc := ⟨.hbm, 369, rfl⟩
abbrev main_call10_v11 : Ref sig .tc := ⟨.hbm, 370, rfl⟩
abbrev main_call10_cst : Ref sig .tc := ⟨.hbm, 371, rfl⟩
abbrev main_call10_v12 : Ref sig .tc := ⟨.hbm, 372, rfl⟩
abbrev main_v133 : Ref sig .tc := ⟨.hbm, 373, rfl⟩
abbrev main_c_25 : Ref sig .tc := ⟨.hbm, 374, rfl⟩
abbrev main_call11_c : Ref sig .tc := ⟨.hbm, 375, rfl⟩
abbrev main_call11_v0 : Ref sig .tc := ⟨.hbm, 376, rfl⟩
abbrev main_call11_c_0 : Ref sig .tc := ⟨.hbm, 377, rfl⟩
abbrev main_call11_v1 : Ref sig .tc := ⟨.hbm, 378, rfl⟩
abbrev main_call11_v2 : Ref sig .tc := ⟨.hbm, 379, rfl⟩
abbrev main_call11_v3 : Ref sig .tc := ⟨.hbm, 380, rfl⟩
abbrev main_call11_c_1 : Ref sig .tc := ⟨.hbm, 381, rfl⟩
abbrev main_call11_v4 : Ref sig .tc := ⟨.hbm, 382, rfl⟩
abbrev main_call11_c_2 : Ref sig .tc := ⟨.hbm, 383, rfl⟩
abbrev main_call11_v5 : Ref sig .tc := ⟨.hbm, 384, rfl⟩
abbrev main_call11_v6 : Ref sig .tc := ⟨.hbm, 385, rfl⟩
abbrev main_call11_v7 : Ref sig .tc := ⟨.hbm, 386, rfl⟩
abbrev main_call11_v8 : Ref sig .tc := ⟨.hbm, 387, rfl⟩
abbrev main_call11_c_3 : Ref sig .tc := ⟨.hbm, 388, rfl⟩
abbrev main_call11_v9 : Ref sig .tc := ⟨.hbm, 389, rfl⟩
abbrev main_call11_v10 : Ref sig .tc := ⟨.hbm, 390, rfl⟩
abbrev main_call11_v11 : Ref sig .tc := ⟨.hbm, 391, rfl⟩
abbrev main_call11_cst : Ref sig .tc := ⟨.hbm, 392, rfl⟩
abbrev main_call11_v12 : Ref sig .tc := ⟨.hbm, 393, rfl⟩
abbrev main_v134 : Ref sig .tc := ⟨.hbm, 394, rfl⟩
abbrev main_v135 : Ref sig .tc := ⟨.hbm, 395, rfl⟩
abbrev main_v136 : Ref sig .tc := ⟨.hbm, 396, rfl⟩
abbrev main_v137 : Ref sig .tc := ⟨.hbm, 397, rfl⟩
abbrev main_v138 : Ref sig .tc := ⟨.hbm, 398, rfl⟩
abbrev main_v139 : Ref sig .tc := ⟨.hbm, 399, rfl⟩
abbrev main_v140 : Ref sig .tc := ⟨.hbm, 400, rfl⟩
abbrev main_c_26 : Ref sig .tc := ⟨.hbm, 401, rfl⟩
abbrev main_call13_c : Ref sig .tc := ⟨.hbm, 402, rfl⟩
abbrev main_call13_v0 : Ref sig .tc := ⟨.hbm, 403, rfl⟩
abbrev main_call13_c_0 : Ref sig .tc := ⟨.hbm, 404, rfl⟩
abbrev main_call13_v1 : Ref sig .tc := ⟨.hbm, 405, rfl⟩
abbrev main_call13_v2 : Ref sig .tc := ⟨.hbm, 406, rfl⟩
abbrev main_call13_v3 : Ref sig .tc := ⟨.hbm, 407, rfl⟩
abbrev main_call13_c_1 : Ref sig .tc := ⟨.hbm, 408, rfl⟩
abbrev main_call13_v4 : Ref sig .tc := ⟨.hbm, 409, rfl⟩
abbrev main_call13_c_2 : Ref sig .tc := ⟨.hbm, 410, rfl⟩
abbrev main_call13_v5 : Ref sig .tc := ⟨.hbm, 411, rfl⟩
abbrev main_call13_v6 : Ref sig .tc := ⟨.hbm, 412, rfl⟩
abbrev main_call13_v7 : Ref sig .tc := ⟨.hbm, 413, rfl⟩
abbrev main_call13_v8 : Ref sig .tc := ⟨.hbm, 414, rfl⟩
abbrev main_call13_c_3 : Ref sig .tc := ⟨.hbm, 415, rfl⟩
abbrev main_call13_v9 : Ref sig .tc := ⟨.hbm, 416, rfl⟩
abbrev main_call13_v10 : Ref sig .tc := ⟨.hbm, 417, rfl⟩
abbrev main_call13_v11 : Ref sig .tc := ⟨.hbm, 418, rfl⟩
abbrev main_call13_cst : Ref sig .tc := ⟨.hbm, 419, rfl⟩
abbrev main_call13_v12 : Ref sig .tc := ⟨.hbm, 420, rfl⟩
abbrev main_v141 : Ref sig .tc := ⟨.hbm, 421, rfl⟩
abbrev main_c_27 : Ref sig .tc := ⟨.hbm, 422, rfl⟩
abbrev main_call14_c : Ref sig .tc := ⟨.hbm, 423, rfl⟩
abbrev main_call14_v0 : Ref sig .tc := ⟨.hbm, 424, rfl⟩
abbrev main_call14_c_0 : Ref sig .tc := ⟨.hbm, 425, rfl⟩
abbrev main_call14_v1 : Ref sig .tc := ⟨.hbm, 426, rfl⟩
abbrev main_call14_v2 : Ref sig .tc := ⟨.hbm, 427, rfl⟩
abbrev main_call14_v3 : Ref sig .tc := ⟨.hbm, 428, rfl⟩
abbrev main_call14_c_1 : Ref sig .tc := ⟨.hbm, 429, rfl⟩
abbrev main_call14_v4 : Ref sig .tc := ⟨.hbm, 430, rfl⟩
abbrev main_call14_c_2 : Ref sig .tc := ⟨.hbm, 431, rfl⟩
abbrev main_call14_v5 : Ref sig .tc := ⟨.hbm, 432, rfl⟩
abbrev main_call14_v6 : Ref sig .tc := ⟨.hbm, 433, rfl⟩
abbrev main_call14_v7 : Ref sig .tc := ⟨.hbm, 434, rfl⟩
abbrev main_call14_v8 : Ref sig .tc := ⟨.hbm, 435, rfl⟩
abbrev main_call14_c_3 : Ref sig .tc := ⟨.hbm, 436, rfl⟩
abbrev main_call14_v9 : Ref sig .tc := ⟨.hbm, 437, rfl⟩
abbrev main_call14_v10 : Ref sig .tc := ⟨.hbm, 438, rfl⟩
abbrev main_call14_v11 : Ref sig .tc := ⟨.hbm, 439, rfl⟩
abbrev main_call14_cst : Ref sig .tc := ⟨.hbm, 440, rfl⟩
abbrev main_call14_v12 : Ref sig .tc := ⟨.hbm, 441, rfl⟩
abbrev main_v142 : Ref sig .tc := ⟨.hbm, 442, rfl⟩
abbrev main_cst_28 : Ref sig .tc := ⟨.hbm, 443, rfl⟩
abbrev main_v143 : Ref sig .tc := ⟨.hbm, 444, rfl⟩
abbrev main_v144 : Ref sig .tc := ⟨.hbm, 445, rfl⟩
abbrev main_cst_29 : Ref sig .tc := ⟨.hbm, 446, rfl⟩
abbrev main_v145 : Ref sig .tc := ⟨.hbm, 447, rfl⟩
abbrev main_v146 : Ref sig .tc := ⟨.hbm, 448, rfl⟩
abbrev main_v147 : Ref sig .tc := ⟨.hbm, 449, rfl⟩
abbrev main_v148 : Ref sig .tc := ⟨.hbm, 450, rfl⟩
abbrev main_v149 : Ref sig .tc := ⟨.hbm, 451, rfl⟩
abbrev main_v150 : Ref sig .tc := ⟨.hbm, 452, rfl⟩
abbrev main_v151 : Ref sig .tc := ⟨.hbm, 453, rfl⟩
abbrev main_v152 : Ref sig .tc := ⟨.hbm, 454, rfl⟩
abbrev main_v153 : Ref sig .tc := ⟨.hbm, 455, rfl⟩
abbrev main_v154 : Ref sig .tc := ⟨.hbm, 456, rfl⟩
abbrev main_v155 : Ref sig .tc := ⟨.hbm, 457, rfl⟩
abbrev main_v156 : Ref sig .tc := ⟨.hbm, 458, rfl⟩
abbrev main_v157 : Ref sig .tc := ⟨.hbm, 459, rfl⟩
abbrev main_v158 : Ref sig .tc := ⟨.hbm, 460, rfl⟩
abbrev main_v159 : Ref sig .tc := ⟨.hbm, 461, rfl⟩
abbrev main_c_30 : Ref sig .tc := ⟨.hbm, 462, rfl⟩
abbrev main_call15_c : Ref sig .tc := ⟨.hbm, 463, rfl⟩
abbrev main_call15_v0 : Ref sig .tc := ⟨.hbm, 464, rfl⟩
abbrev main_call15_c_0 : Ref sig .tc := ⟨.hbm, 465, rfl⟩
abbrev main_call15_v1 : Ref sig .tc := ⟨.hbm, 466, rfl⟩
abbrev main_call15_v2 : Ref sig .tc := ⟨.hbm, 467, rfl⟩
abbrev main_call15_v3 : Ref sig .tc := ⟨.hbm, 468, rfl⟩
abbrev main_call15_c_1 : Ref sig .tc := ⟨.hbm, 469, rfl⟩
abbrev main_call15_v4 : Ref sig .tc := ⟨.hbm, 470, rfl⟩
abbrev main_call15_c_2 : Ref sig .tc := ⟨.hbm, 471, rfl⟩
abbrev main_call15_v5 : Ref sig .tc := ⟨.hbm, 472, rfl⟩
abbrev main_call15_v6 : Ref sig .tc := ⟨.hbm, 473, rfl⟩
abbrev main_call15_v7 : Ref sig .tc := ⟨.hbm, 474, rfl⟩
abbrev main_call15_v8 : Ref sig .tc := ⟨.hbm, 475, rfl⟩
abbrev main_call15_c_3 : Ref sig .tc := ⟨.hbm, 476, rfl⟩
abbrev main_call15_v9 : Ref sig .tc := ⟨.hbm, 477, rfl⟩
abbrev main_call15_v10 : Ref sig .tc := ⟨.hbm, 478, rfl⟩
abbrev main_call15_v11 : Ref sig .tc := ⟨.hbm, 479, rfl⟩
abbrev main_call15_cst : Ref sig .tc := ⟨.hbm, 480, rfl⟩
abbrev main_call15_v12 : Ref sig .tc := ⟨.hbm, 481, rfl⟩
abbrev main_v160 : Ref sig .tc := ⟨.hbm, 482, rfl⟩
abbrev main_c_31 : Ref sig .tc := ⟨.hbm, 483, rfl⟩
abbrev main_call16_c : Ref sig .tc := ⟨.hbm, 484, rfl⟩
abbrev main_call16_v0 : Ref sig .tc := ⟨.hbm, 485, rfl⟩
abbrev main_call16_c_0 : Ref sig .tc := ⟨.hbm, 486, rfl⟩
abbrev main_call16_v1 : Ref sig .tc := ⟨.hbm, 487, rfl⟩
abbrev main_call16_v2 : Ref sig .tc := ⟨.hbm, 488, rfl⟩
abbrev main_call16_v3 : Ref sig .tc := ⟨.hbm, 489, rfl⟩
abbrev main_call16_c_1 : Ref sig .tc := ⟨.hbm, 490, rfl⟩
abbrev main_call16_v4 : Ref sig .tc := ⟨.hbm, 491, rfl⟩
abbrev main_call16_c_2 : Ref sig .tc := ⟨.hbm, 492, rfl⟩
abbrev main_call16_v5 : Ref sig .tc := ⟨.hbm, 493, rfl⟩
abbrev main_call16_v6 : Ref sig .tc := ⟨.hbm, 494, rfl⟩
abbrev main_call16_v7 : Ref sig .tc := ⟨.hbm, 495, rfl⟩
abbrev main_call16_v8 : Ref sig .tc := ⟨.hbm, 496, rfl⟩
abbrev main_call16_c_3 : Ref sig .tc := ⟨.hbm, 497, rfl⟩
abbrev main_call16_v9 : Ref sig .tc := ⟨.hbm, 498, rfl⟩
abbrev main_call16_v10 : Ref sig .tc := ⟨.hbm, 499, rfl⟩
abbrev main_call16_v11 : Ref sig .tc := ⟨.hbm, 500, rfl⟩
abbrev main_call16_cst : Ref sig .tc := ⟨.hbm, 501, rfl⟩
abbrev main_call16_v12 : Ref sig .tc := ⟨.hbm, 502, rfl⟩
abbrev main_v161 : Ref sig .tc := ⟨.hbm, 503, rfl⟩
abbrev main_v162 : Ref sig .tc := ⟨.hbm, 504, rfl⟩
abbrev main_v163 : Ref sig .tc := ⟨.hbm, 505, rfl⟩
abbrev main_v164 : Ref sig .tc := ⟨.hbm, 506, rfl⟩
abbrev main_v165 : Ref sig .tc := ⟨.hbm, 507, rfl⟩
abbrev main_v166 : Ref sig .tc := ⟨.hbm, 508, rfl⟩
abbrev main_v167 : Ref sig .tc := ⟨.hbm, 509, rfl⟩
abbrev main_c_32 : Ref sig .tc := ⟨.hbm, 510, rfl⟩
abbrev main_call18_c : Ref sig .tc := ⟨.hbm, 511, rfl⟩
abbrev main_call18_v0 : Ref sig .tc := ⟨.hbm, 512, rfl⟩
abbrev main_call18_c_0 : Ref sig .tc := ⟨.hbm, 513, rfl⟩
abbrev main_call18_v1 : Ref sig .tc := ⟨.hbm, 514, rfl⟩
abbrev main_call18_v2 : Ref sig .tc := ⟨.hbm, 515, rfl⟩
abbrev main_call18_v3 : Ref sig .tc := ⟨.hbm, 516, rfl⟩
abbrev main_call18_c_1 : Ref sig .tc := ⟨.hbm, 517, rfl⟩
abbrev main_call18_v4 : Ref sig .tc := ⟨.hbm, 518, rfl⟩
abbrev main_call18_c_2 : Ref sig .tc := ⟨.hbm, 519, rfl⟩
abbrev main_call18_v5 : Ref sig .tc := ⟨.hbm, 520, rfl⟩
abbrev main_call18_v6 : Ref sig .tc := ⟨.hbm, 521, rfl⟩
abbrev main_call18_v7 : Ref sig .tc := ⟨.hbm, 522, rfl⟩
abbrev main_call18_v8 : Ref sig .tc := ⟨.hbm, 523, rfl⟩
abbrev main_call18_c_3 : Ref sig .tc := ⟨.hbm, 524, rfl⟩
abbrev main_call18_v9 : Ref sig .tc := ⟨.hbm, 525, rfl⟩
abbrev main_call18_v10 : Ref sig .tc := ⟨.hbm, 526, rfl⟩
abbrev main_call18_v11 : Ref sig .tc := ⟨.hbm, 527, rfl⟩
abbrev main_call18_cst : Ref sig .tc := ⟨.hbm, 528, rfl⟩
abbrev main_call18_v12 : Ref sig .tc := ⟨.hbm, 529, rfl⟩
abbrev main_v168 : Ref sig .tc := ⟨.hbm, 530, rfl⟩
abbrev main_c_33 : Ref sig .tc := ⟨.hbm, 531, rfl⟩
abbrev main_call19_c : Ref sig .tc := ⟨.hbm, 532, rfl⟩
abbrev main_call19_v0 : Ref sig .tc := ⟨.hbm, 533, rfl⟩
abbrev main_call19_c_0 : Ref sig .tc := ⟨.hbm, 534, rfl⟩
abbrev main_call19_v1 : Ref sig .tc := ⟨.hbm, 535, rfl⟩
abbrev main_call19_v2 : Ref sig .tc := ⟨.hbm, 536, rfl⟩
abbrev main_call19_v3 : Ref sig .tc := ⟨.hbm, 537, rfl⟩
abbrev main_call19_c_1 : Ref sig .tc := ⟨.hbm, 538, rfl⟩
abbrev main_call19_v4 : Ref sig .tc := ⟨.hbm, 539, rfl⟩
abbrev main_call19_c_2 : Ref sig .tc := ⟨.hbm, 540, rfl⟩
abbrev main_call19_v5 : Ref sig .tc := ⟨.hbm, 541, rfl⟩
abbrev main_call19_v6 : Ref sig .tc := ⟨.hbm, 542, rfl⟩
abbrev main_call19_v7 : Ref sig .tc := ⟨.hbm, 543, rfl⟩
abbrev main_call19_v8 : Ref sig .tc := ⟨.hbm, 544, rfl⟩
abbrev main_call19_c_3 : Ref sig .tc := ⟨.hbm, 545, rfl⟩
abbrev main_call19_v9 : Ref sig .tc := ⟨.hbm, 546, rfl⟩
abbrev main_call19_v10 : Ref sig .tc := ⟨.hbm, 547, rfl⟩
abbrev main_call19_v11 : Ref sig .tc := ⟨.hbm, 548, rfl⟩
abbrev main_call19_cst : Ref sig .tc := ⟨.hbm, 549, rfl⟩
abbrev main_call19_v12 : Ref sig .tc := ⟨.hbm, 550, rfl⟩
abbrev main_v169 : Ref sig .tc := ⟨.hbm, 551, rfl⟩
abbrev main_cst_34 : Ref sig .tc := ⟨.hbm, 552, rfl⟩
abbrev main_v170 : Ref sig .tc := ⟨.hbm, 553, rfl⟩
abbrev main_v171 : Ref sig .tc := ⟨.hbm, 554, rfl⟩
abbrev main_cst_35 : Ref sig .tc := ⟨.hbm, 555, rfl⟩
abbrev main_v172 : Ref sig .tc := ⟨.hbm, 556, rfl⟩
abbrev main_v173 : Ref sig .tc := ⟨.hbm, 557, rfl⟩
abbrev main_v174 : Ref sig .tc := ⟨.hbm, 558, rfl⟩
abbrev main_v175 : Ref sig .tc := ⟨.hbm, 559, rfl⟩
abbrev main_v176 : Ref sig .tc := ⟨.hbm, 560, rfl⟩
abbrev main_v177 : Ref sig .tc := ⟨.hbm, 561, rfl⟩
abbrev main_v178 : Ref sig .tc := ⟨.hbm, 562, rfl⟩
abbrev main_v179 : Ref sig .tc := ⟨.hbm, 563, rfl⟩
abbrev main_v180 : Ref sig .tc := ⟨.hbm, 564, rfl⟩
abbrev main_v181 : Ref sig .tc := ⟨.hbm, 565, rfl⟩
abbrev main_v182 : Ref sig .tc := ⟨.hbm, 566, rfl⟩
abbrev main_v183 : Ref sig .tc := ⟨.hbm, 567, rfl⟩
abbrev main_v184 : Ref sig .tc := ⟨.hbm, 568, rfl⟩
abbrev main_v185 : Ref sig .tc := ⟨.hbm, 569, rfl⟩
abbrev main_v186 : Ref sig .tc := ⟨.hbm, 570, rfl⟩
abbrev main_c_36 : Ref sig .tc := ⟨.hbm, 571, rfl⟩
abbrev main_call20_c : Ref sig .tc := ⟨.hbm, 572, rfl⟩
abbrev main_call20_v0 : Ref sig .tc := ⟨.hbm, 573, rfl⟩
abbrev main_call20_c_0 : Ref sig .tc := ⟨.hbm, 574, rfl⟩
abbrev main_call20_v1 : Ref sig .tc := ⟨.hbm, 575, rfl⟩
abbrev main_call20_v2 : Ref sig .tc := ⟨.hbm, 576, rfl⟩
abbrev main_call20_v3 : Ref sig .tc := ⟨.hbm, 577, rfl⟩
abbrev main_call20_c_1 : Ref sig .tc := ⟨.hbm, 578, rfl⟩
abbrev main_call20_v4 : Ref sig .tc := ⟨.hbm, 579, rfl⟩
abbrev main_call20_c_2 : Ref sig .tc := ⟨.hbm, 580, rfl⟩
abbrev main_call20_v5 : Ref sig .tc := ⟨.hbm, 581, rfl⟩
abbrev main_call20_v6 : Ref sig .tc := ⟨.hbm, 582, rfl⟩
abbrev main_call20_v7 : Ref sig .tc := ⟨.hbm, 583, rfl⟩
abbrev main_call20_v8 : Ref sig .tc := ⟨.hbm, 584, rfl⟩
abbrev main_call20_c_3 : Ref sig .tc := ⟨.hbm, 585, rfl⟩
abbrev main_call20_v9 : Ref sig .tc := ⟨.hbm, 586, rfl⟩
abbrev main_call20_v10 : Ref sig .tc := ⟨.hbm, 587, rfl⟩
abbrev main_call20_v11 : Ref sig .tc := ⟨.hbm, 588, rfl⟩
abbrev main_call20_cst : Ref sig .tc := ⟨.hbm, 589, rfl⟩
abbrev main_call20_v12 : Ref sig .tc := ⟨.hbm, 590, rfl⟩
abbrev main_v187 : Ref sig .tc := ⟨.hbm, 591, rfl⟩
abbrev main_c_37 : Ref sig .tc := ⟨.hbm, 592, rfl⟩
abbrev main_call21_c : Ref sig .tc := ⟨.hbm, 593, rfl⟩
abbrev main_call21_v0 : Ref sig .tc := ⟨.hbm, 594, rfl⟩
abbrev main_call21_c_0 : Ref sig .tc := ⟨.hbm, 595, rfl⟩
abbrev main_call21_v1 : Ref sig .tc := ⟨.hbm, 596, rfl⟩
abbrev main_call21_v2 : Ref sig .tc := ⟨.hbm, 597, rfl⟩
abbrev main_call21_v3 : Ref sig .tc := ⟨.hbm, 598, rfl⟩
abbrev main_call21_c_1 : Ref sig .tc := ⟨.hbm, 599, rfl⟩
abbrev main_call21_v4 : Ref sig .tc := ⟨.hbm, 600, rfl⟩
abbrev main_call21_c_2 : Ref sig .tc := ⟨.hbm, 601, rfl⟩
abbrev main_call21_v5 : Ref sig .tc := ⟨.hbm, 602, rfl⟩
abbrev main_call21_v6 : Ref sig .tc := ⟨.hbm, 603, rfl⟩
abbrev main_call21_v7 : Ref sig .tc := ⟨.hbm, 604, rfl⟩
abbrev main_call21_v8 : Ref sig .tc := ⟨.hbm, 605, rfl⟩
abbrev main_call21_c_3 : Ref sig .tc := ⟨.hbm, 606, rfl⟩
abbrev main_call21_v9 : Ref sig .tc := ⟨.hbm, 607, rfl⟩
abbrev main_call21_v10 : Ref sig .tc := ⟨.hbm, 608, rfl⟩
abbrev main_call21_v11 : Ref sig .tc := ⟨.hbm, 609, rfl⟩
abbrev main_call21_cst : Ref sig .tc := ⟨.hbm, 610, rfl⟩
abbrev main_call21_v12 : Ref sig .tc := ⟨.hbm, 611, rfl⟩
abbrev main_v188 : Ref sig .tc := ⟨.hbm, 612, rfl⟩
abbrev main_v189 : Ref sig .tc := ⟨.hbm, 613, rfl⟩
abbrev main_v190 : Ref sig .tc := ⟨.hbm, 614, rfl⟩
abbrev main_v191 : Ref sig .tc := ⟨.hbm, 615, rfl⟩
abbrev main_v192 : Ref sig .tc := ⟨.hbm, 616, rfl⟩
abbrev main_v193 : Ref sig .tc := ⟨.hbm, 617, rfl⟩
abbrev main_v194 : Ref sig .tc := ⟨.hbm, 618, rfl⟩
abbrev main_c_38 : Ref sig .tc := ⟨.hbm, 619, rfl⟩
abbrev main_call23_c : Ref sig .tc := ⟨.hbm, 620, rfl⟩
abbrev main_call23_v0 : Ref sig .tc := ⟨.hbm, 621, rfl⟩
abbrev main_call23_c_0 : Ref sig .tc := ⟨.hbm, 622, rfl⟩
abbrev main_call23_v1 : Ref sig .tc := ⟨.hbm, 623, rfl⟩
abbrev main_call23_v2 : Ref sig .tc := ⟨.hbm, 624, rfl⟩
abbrev main_call23_v3 : Ref sig .tc := ⟨.hbm, 625, rfl⟩
abbrev main_call23_c_1 : Ref sig .tc := ⟨.hbm, 626, rfl⟩
abbrev main_call23_v4 : Ref sig .tc := ⟨.hbm, 627, rfl⟩
abbrev main_call23_c_2 : Ref sig .tc := ⟨.hbm, 628, rfl⟩
abbrev main_call23_v5 : Ref sig .tc := ⟨.hbm, 629, rfl⟩
abbrev main_call23_v6 : Ref sig .tc := ⟨.hbm, 630, rfl⟩
abbrev main_call23_v7 : Ref sig .tc := ⟨.hbm, 631, rfl⟩
abbrev main_call23_v8 : Ref sig .tc := ⟨.hbm, 632, rfl⟩
abbrev main_call23_c_3 : Ref sig .tc := ⟨.hbm, 633, rfl⟩
abbrev main_call23_v9 : Ref sig .tc := ⟨.hbm, 634, rfl⟩
abbrev main_call23_v10 : Ref sig .tc := ⟨.hbm, 635, rfl⟩
abbrev main_call23_v11 : Ref sig .tc := ⟨.hbm, 636, rfl⟩
abbrev main_call23_cst : Ref sig .tc := ⟨.hbm, 637, rfl⟩
abbrev main_call23_v12 : Ref sig .tc := ⟨.hbm, 638, rfl⟩
abbrev main_v195 : Ref sig .tc := ⟨.hbm, 639, rfl⟩
abbrev main_c_39 : Ref sig .tc := ⟨.hbm, 640, rfl⟩
abbrev main_call24_c : Ref sig .tc := ⟨.hbm, 641, rfl⟩
abbrev main_call24_v0 : Ref sig .tc := ⟨.hbm, 642, rfl⟩
abbrev main_call24_c_0 : Ref sig .tc := ⟨.hbm, 643, rfl⟩
abbrev main_call24_v1 : Ref sig .tc := ⟨.hbm, 644, rfl⟩
abbrev main_call24_v2 : Ref sig .tc := ⟨.hbm, 645, rfl⟩
abbrev main_call24_v3 : Ref sig .tc := ⟨.hbm, 646, rfl⟩
abbrev main_call24_c_1 : Ref sig .tc := ⟨.hbm, 647, rfl⟩
abbrev main_call24_v4 : Ref sig .tc := ⟨.hbm, 648, rfl⟩
abbrev main_call24_c_2 : Ref sig .tc := ⟨.hbm, 649, rfl⟩
abbrev main_call24_v5 : Ref sig .tc := ⟨.hbm, 650, rfl⟩
abbrev main_call24_v6 : Ref sig .tc := ⟨.hbm, 651, rfl⟩
abbrev main_call24_v7 : Ref sig .tc := ⟨.hbm, 652, rfl⟩
abbrev main_call24_v8 : Ref sig .tc := ⟨.hbm, 653, rfl⟩
abbrev main_call24_c_3 : Ref sig .tc := ⟨.hbm, 654, rfl⟩
abbrev main_call24_v9 : Ref sig .tc := ⟨.hbm, 655, rfl⟩
abbrev main_call24_v10 : Ref sig .tc := ⟨.hbm, 656, rfl⟩
abbrev main_call24_v11 : Ref sig .tc := ⟨.hbm, 657, rfl⟩
abbrev main_call24_cst : Ref sig .tc := ⟨.hbm, 658, rfl⟩
abbrev main_call24_v12 : Ref sig .tc := ⟨.hbm, 659, rfl⟩
abbrev main_v196 : Ref sig .tc := ⟨.hbm, 660, rfl⟩
abbrev main_cst_40 : Ref sig .tc := ⟨.hbm, 661, rfl⟩
abbrev main_v197 : Ref sig .tc := ⟨.hbm, 662, rfl⟩
abbrev main_v198 : Ref sig .tc := ⟨.hbm, 663, rfl⟩
abbrev main_cst_41 : Ref sig .tc := ⟨.hbm, 664, rfl⟩
abbrev main_v199 : Ref sig .tc := ⟨.hbm, 665, rfl⟩
abbrev main_v200 : Ref sig .tc := ⟨.hbm, 666, rfl⟩
abbrev main_v201 : Ref sig .tc := ⟨.hbm, 667, rfl⟩
abbrev main_v202 : Ref sig .tc := ⟨.hbm, 668, rfl⟩
abbrev main_v203 : Ref sig .tc := ⟨.hbm, 669, rfl⟩
abbrev main_v204 : Ref sig .tc := ⟨.hbm, 670, rfl⟩
abbrev main_v205 : Ref sig .tc := ⟨.hbm, 671, rfl⟩
abbrev main_v206 : Ref sig .tc := ⟨.hbm, 672, rfl⟩
abbrev main_v207 : Ref sig .tc := ⟨.hbm, 673, rfl⟩
abbrev main_v208 : Ref sig .tc := ⟨.hbm, 674, rfl⟩
abbrev main_v209 : Ref sig .tc := ⟨.hbm, 675, rfl⟩
abbrev main_v210 : Ref sig .tc := ⟨.hbm, 676, rfl⟩
abbrev main_v211 : Ref sig .tc := ⟨.hbm, 677, rfl⟩
abbrev main_v212 : Ref sig .tc := ⟨.hbm, 678, rfl⟩
abbrev main_v213 : Ref sig .tc := ⟨.hbm, 679, rfl⟩
abbrev main_c_42 : Ref sig .tc := ⟨.hbm, 680, rfl⟩
abbrev main_call25_c : Ref sig .tc := ⟨.hbm, 681, rfl⟩
abbrev main_call25_v0 : Ref sig .tc := ⟨.hbm, 682, rfl⟩
abbrev main_call25_c_0 : Ref sig .tc := ⟨.hbm, 683, rfl⟩
abbrev main_call25_v1 : Ref sig .tc := ⟨.hbm, 684, rfl⟩
abbrev main_call25_v2 : Ref sig .tc := ⟨.hbm, 685, rfl⟩
abbrev main_call25_v3 : Ref sig .tc := ⟨.hbm, 686, rfl⟩
abbrev main_call25_c_1 : Ref sig .tc := ⟨.hbm, 687, rfl⟩
abbrev main_call25_v4 : Ref sig .tc := ⟨.hbm, 688, rfl⟩
abbrev main_call25_c_2 : Ref sig .tc := ⟨.hbm, 689, rfl⟩
abbrev main_call25_v5 : Ref sig .tc := ⟨.hbm, 690, rfl⟩
abbrev main_call25_v6 : Ref sig .tc := ⟨.hbm, 691, rfl⟩
abbrev main_call25_v7 : Ref sig .tc := ⟨.hbm, 692, rfl⟩
abbrev main_call25_v8 : Ref sig .tc := ⟨.hbm, 693, rfl⟩
abbrev main_call25_c_3 : Ref sig .tc := ⟨.hbm, 694, rfl⟩
abbrev main_call25_v9 : Ref sig .tc := ⟨.hbm, 695, rfl⟩
abbrev main_call25_v10 : Ref sig .tc := ⟨.hbm, 696, rfl⟩
abbrev main_call25_v11 : Ref sig .tc := ⟨.hbm, 697, rfl⟩
abbrev main_call25_cst : Ref sig .tc := ⟨.hbm, 698, rfl⟩
abbrev main_call25_v12 : Ref sig .tc := ⟨.hbm, 699, rfl⟩
abbrev main_v214 : Ref sig .tc := ⟨.hbm, 700, rfl⟩
abbrev main_c_43 : Ref sig .tc := ⟨.hbm, 701, rfl⟩
abbrev main_call26_c : Ref sig .tc := ⟨.hbm, 702, rfl⟩
abbrev main_call26_v0 : Ref sig .tc := ⟨.hbm, 703, rfl⟩
abbrev main_call26_c_0 : Ref sig .tc := ⟨.hbm, 704, rfl⟩
abbrev main_call26_v1 : Ref sig .tc := ⟨.hbm, 705, rfl⟩
abbrev main_call26_v2 : Ref sig .tc := ⟨.hbm, 706, rfl⟩
abbrev main_call26_v3 : Ref sig .tc := ⟨.hbm, 707, rfl⟩
abbrev main_call26_c_1 : Ref sig .tc := ⟨.hbm, 708, rfl⟩
abbrev main_call26_v4 : Ref sig .tc := ⟨.hbm, 709, rfl⟩
abbrev main_call26_c_2 : Ref sig .tc := ⟨.hbm, 710, rfl⟩
abbrev main_call26_v5 : Ref sig .tc := ⟨.hbm, 711, rfl⟩
abbrev main_call26_v6 : Ref sig .tc := ⟨.hbm, 712, rfl⟩
abbrev main_call26_v7 : Ref sig .tc := ⟨.hbm, 713, rfl⟩
abbrev main_call26_v8 : Ref sig .tc := ⟨.hbm, 714, rfl⟩
abbrev main_call26_c_3 : Ref sig .tc := ⟨.hbm, 715, rfl⟩
abbrev main_call26_v9 : Ref sig .tc := ⟨.hbm, 716, rfl⟩
abbrev main_call26_v10 : Ref sig .tc := ⟨.hbm, 717, rfl⟩
abbrev main_call26_v11 : Ref sig .tc := ⟨.hbm, 718, rfl⟩
abbrev main_call26_cst : Ref sig .tc := ⟨.hbm, 719, rfl⟩
abbrev main_call26_v12 : Ref sig .tc := ⟨.hbm, 720, rfl⟩
abbrev main_v215 : Ref sig .tc := ⟨.hbm, 721, rfl⟩
abbrev main_v216 : Ref sig .tc := ⟨.hbm, 722, rfl⟩
abbrev main_v217 : Ref sig .tc := ⟨.hbm, 723, rfl⟩
abbrev main_v218 : Ref sig .tc := ⟨.hbm, 724, rfl⟩
abbrev main_v219 : Ref sig .tc := ⟨.hbm, 725, rfl⟩
abbrev main_v220 : Ref sig .tc := ⟨.hbm, 726, rfl⟩
abbrev main_v221 : Ref sig .tc := ⟨.hbm, 727, rfl⟩
abbrev main_c_44 : Ref sig .tc := ⟨.hbm, 728, rfl⟩
abbrev main_call28_c : Ref sig .tc := ⟨.hbm, 729, rfl⟩
abbrev main_call28_v0 : Ref sig .tc := ⟨.hbm, 730, rfl⟩
abbrev main_call28_c_0 : Ref sig .tc := ⟨.hbm, 731, rfl⟩
abbrev main_call28_v1 : Ref sig .tc := ⟨.hbm, 732, rfl⟩
abbrev main_call28_v2 : Ref sig .tc := ⟨.hbm, 733, rfl⟩
abbrev main_call28_v3 : Ref sig .tc := ⟨.hbm, 734, rfl⟩
abbrev main_call28_c_1 : Ref sig .tc := ⟨.hbm, 735, rfl⟩
abbrev main_call28_v4 : Ref sig .tc := ⟨.hbm, 736, rfl⟩
abbrev main_call28_c_2 : Ref sig .tc := ⟨.hbm, 737, rfl⟩
abbrev main_call28_v5 : Ref sig .tc := ⟨.hbm, 738, rfl⟩
abbrev main_call28_v6 : Ref sig .tc := ⟨.hbm, 739, rfl⟩
abbrev main_call28_v7 : Ref sig .tc := ⟨.hbm, 740, rfl⟩
abbrev main_call28_v8 : Ref sig .tc := ⟨.hbm, 741, rfl⟩
abbrev main_call28_c_3 : Ref sig .tc := ⟨.hbm, 742, rfl⟩
abbrev main_call28_v9 : Ref sig .tc := ⟨.hbm, 743, rfl⟩
abbrev main_call28_v10 : Ref sig .tc := ⟨.hbm, 744, rfl⟩
abbrev main_call28_v11 : Ref sig .tc := ⟨.hbm, 745, rfl⟩
abbrev main_call28_cst : Ref sig .tc := ⟨.hbm, 746, rfl⟩
abbrev main_call28_v12 : Ref sig .tc := ⟨.hbm, 747, rfl⟩
abbrev main_v222 : Ref sig .tc := ⟨.hbm, 748, rfl⟩
abbrev main_c_45 : Ref sig .tc := ⟨.hbm, 749, rfl⟩
abbrev main_call29_c : Ref sig .tc := ⟨.hbm, 750, rfl⟩
abbrev main_call29_v0 : Ref sig .tc := ⟨.hbm, 751, rfl⟩
abbrev main_call29_c_0 : Ref sig .tc := ⟨.hbm, 752, rfl⟩
abbrev main_call29_v1 : Ref sig .tc := ⟨.hbm, 753, rfl⟩
abbrev main_call29_v2 : Ref sig .tc := ⟨.hbm, 754, rfl⟩
abbrev main_call29_v3 : Ref sig .tc := ⟨.hbm, 755, rfl⟩
abbrev main_call29_c_1 : Ref sig .tc := ⟨.hbm, 756, rfl⟩
abbrev main_call29_v4 : Ref sig .tc := ⟨.hbm, 757, rfl⟩
abbrev main_call29_c_2 : Ref sig .tc := ⟨.hbm, 758, rfl⟩
abbrev main_call29_v5 : Ref sig .tc := ⟨.hbm, 759, rfl⟩
abbrev main_call29_v6 : Ref sig .tc := ⟨.hbm, 760, rfl⟩
abbrev main_call29_v7 : Ref sig .tc := ⟨.hbm, 761, rfl⟩
abbrev main_call29_v8 : Ref sig .tc := ⟨.hbm, 762, rfl⟩
abbrev main_call29_c_3 : Ref sig .tc := ⟨.hbm, 763, rfl⟩
abbrev main_call29_v9 : Ref sig .tc := ⟨.hbm, 764, rfl⟩
abbrev main_call29_v10 : Ref sig .tc := ⟨.hbm, 765, rfl⟩
abbrev main_call29_v11 : Ref sig .tc := ⟨.hbm, 766, rfl⟩
abbrev main_call29_cst : Ref sig .tc := ⟨.hbm, 767, rfl⟩
abbrev main_call29_v12 : Ref sig .tc := ⟨.hbm, 768, rfl⟩
abbrev main_v223 : Ref sig .tc := ⟨.hbm, 769, rfl⟩
abbrev main_cst_46 : Ref sig .tc := ⟨.hbm, 770, rfl⟩
abbrev main_v224 : Ref sig .tc := ⟨.hbm, 771, rfl⟩
abbrev main_v225 : Ref sig .tc := ⟨.hbm, 772, rfl⟩
abbrev main_v226 : Ref sig .tc := ⟨.hbm, 773, rfl⟩
abbrev main_cst_47 : Ref sig .tc := ⟨.hbm, 774, rfl⟩
abbrev main_v227 : Ref sig .tc := ⟨.hbm, 775, rfl⟩
abbrev main_v228 : Ref sig .tc := ⟨.hbm, 776, rfl⟩
abbrev main_v229 : Ref sig .tc := ⟨.hbm, 777, rfl⟩
abbrev main_v230 : Ref sig .tc := ⟨.hbm, 778, rfl⟩
abbrev main_v231 : Ref sig .tc := ⟨.hbm, 779, rfl⟩
abbrev main_v232 : Ref sig .tc := ⟨.hbm, 780, rfl⟩
abbrev main_v233 : Ref sig .tc := ⟨.hbm, 781, rfl⟩
abbrev main_v234 : Ref sig .tc := ⟨.hbm, 782, rfl⟩
abbrev main_v235 : Ref sig .tc := ⟨.hbm, 783, rfl⟩
abbrev main_v236 : Ref sig .tc := ⟨.hbm, 784, rfl⟩
abbrev main_v237 : Ref sig .tc := ⟨.hbm, 785, rfl⟩
abbrev main_v238 : Ref sig .tc := ⟨.hbm, 786, rfl⟩
abbrev main_v239 : Ref sig .tc := ⟨.hbm, 787, rfl⟩
abbrev main_v240 : Ref sig .tc := ⟨.hbm, 788, rfl⟩
abbrev main_v241 : Ref sig .tc := ⟨.hbm, 789, rfl⟩
abbrev main_v242 : Ref sig .tc := ⟨.hbm, 790, rfl⟩
abbrev main_v243 : Ref sig .tc := ⟨.hbm, 791, rfl⟩
abbrev main_v244 : Ref sig .tc := ⟨.hbm, 792, rfl⟩
abbrev main_v245 : Ref sig .tc := ⟨.hbm, 793, rfl⟩
abbrev main_v246 : Ref sig .tc := ⟨.hbm, 794, rfl⟩
abbrev main_c_48 : Ref sig .tc := ⟨.hbm, 795, rfl⟩
abbrev main_call30_c : Ref sig .tc := ⟨.hbm, 796, rfl⟩
abbrev main_call30_v0 : Ref sig .tc := ⟨.hbm, 797, rfl⟩
abbrev main_call30_c_0 : Ref sig .tc := ⟨.hbm, 798, rfl⟩
abbrev main_call30_v1 : Ref sig .tc := ⟨.hbm, 799, rfl⟩
abbrev main_call30_v2 : Ref sig .tc := ⟨.hbm, 800, rfl⟩
abbrev main_call30_v3 : Ref sig .tc := ⟨.hbm, 801, rfl⟩
abbrev main_call30_c_1 : Ref sig .tc := ⟨.hbm, 802, rfl⟩
abbrev main_call30_v4 : Ref sig .tc := ⟨.hbm, 803, rfl⟩
abbrev main_call30_c_2 : Ref sig .tc := ⟨.hbm, 804, rfl⟩
abbrev main_call30_v5 : Ref sig .tc := ⟨.hbm, 805, rfl⟩
abbrev main_call30_v6 : Ref sig .tc := ⟨.hbm, 806, rfl⟩
abbrev main_call30_v7 : Ref sig .tc := ⟨.hbm, 807, rfl⟩
abbrev main_call30_v8 : Ref sig .tc := ⟨.hbm, 808, rfl⟩
abbrev main_call30_c_3 : Ref sig .tc := ⟨.hbm, 809, rfl⟩
abbrev main_call30_v9 : Ref sig .tc := ⟨.hbm, 810, rfl⟩
abbrev main_call30_v10 : Ref sig .tc := ⟨.hbm, 811, rfl⟩
abbrev main_call30_v11 : Ref sig .tc := ⟨.hbm, 812, rfl⟩
abbrev main_call30_cst : Ref sig .tc := ⟨.hbm, 813, rfl⟩
abbrev main_call30_v12 : Ref sig .tc := ⟨.hbm, 814, rfl⟩
abbrev main_v247 : Ref sig .tc := ⟨.hbm, 815, rfl⟩
abbrev main_c_49 : Ref sig .tc := ⟨.hbm, 816, rfl⟩
abbrev main_call31_c : Ref sig .tc := ⟨.hbm, 817, rfl⟩
abbrev main_call31_v0 : Ref sig .tc := ⟨.hbm, 818, rfl⟩
abbrev main_call31_c_0 : Ref sig .tc := ⟨.hbm, 819, rfl⟩
abbrev main_call31_v1 : Ref sig .tc := ⟨.hbm, 820, rfl⟩
abbrev main_call31_v2 : Ref sig .tc := ⟨.hbm, 821, rfl⟩
abbrev main_call31_v3 : Ref sig .tc := ⟨.hbm, 822, rfl⟩
abbrev main_call31_c_1 : Ref sig .tc := ⟨.hbm, 823, rfl⟩
abbrev main_call31_v4 : Ref sig .tc := ⟨.hbm, 824, rfl⟩
abbrev main_call31_c_2 : Ref sig .tc := ⟨.hbm, 825, rfl⟩
abbrev main_call31_v5 : Ref sig .tc := ⟨.hbm, 826, rfl⟩
abbrev main_call31_v6 : Ref sig .tc := ⟨.hbm, 827, rfl⟩
abbrev main_call31_v7 : Ref sig .tc := ⟨.hbm, 828, rfl⟩
abbrev main_call31_v8 : Ref sig .tc := ⟨.hbm, 829, rfl⟩
abbrev main_call31_c_3 : Ref sig .tc := ⟨.hbm, 830, rfl⟩
abbrev main_call31_v9 : Ref sig .tc := ⟨.hbm, 831, rfl⟩
abbrev main_call31_v10 : Ref sig .tc := ⟨.hbm, 832, rfl⟩
abbrev main_call31_v11 : Ref sig .tc := ⟨.hbm, 833, rfl⟩
abbrev main_call31_cst : Ref sig .tc := ⟨.hbm, 834, rfl⟩
abbrev main_call31_v12 : Ref sig .tc := ⟨.hbm, 835, rfl⟩
abbrev main_v248 : Ref sig .tc := ⟨.hbm, 836, rfl⟩
abbrev main_cst_50 : Ref sig .tc := ⟨.hbm, 837, rfl⟩
abbrev main_v249 : Ref sig .tc := ⟨.hbm, 838, rfl⟩
abbrev main_v250 : Ref sig .tc := ⟨.hbm, 839, rfl⟩
abbrev main_v251 : Ref sig .tc := ⟨.hbm, 840, rfl⟩
abbrev main_cst_51 : Ref sig .tc := ⟨.hbm, 841, rfl⟩
abbrev main_v252 : Ref sig .tc := ⟨.hbm, 842, rfl⟩
abbrev main_v253 : Ref sig .tc := ⟨.hbm, 843, rfl⟩
abbrev main_v254 : Ref sig .tc := ⟨.hbm, 844, rfl⟩
abbrev main_v255 : Ref sig .tc := ⟨.hbm, 845, rfl⟩
abbrev main_v256 : Ref sig .tc := ⟨.hbm, 846, rfl⟩
abbrev main_v257 : Ref sig .tc := ⟨.hbm, 847, rfl⟩
abbrev main_v258 : Ref sig .tc := ⟨.hbm, 848, rfl⟩
abbrev main_v259 : Ref sig .tc := ⟨.hbm, 849, rfl⟩
abbrev main_v260 : Ref sig .tc := ⟨.hbm, 850, rfl⟩
abbrev main_v261 : Ref sig .tc := ⟨.hbm, 851, rfl⟩
abbrev main_v262 : Ref sig .tc := ⟨.hbm, 852, rfl⟩
abbrev main_v263 : Ref sig .tc := ⟨.hbm, 853, rfl⟩
abbrev main_v264 : Ref sig .tc := ⟨.hbm, 854, rfl⟩
abbrev main_v265 : Ref sig .tc := ⟨.hbm, 855, rfl⟩
abbrev main_v266 : Ref sig .tc := ⟨.hbm, 856, rfl⟩
abbrev main_v267 : Ref sig .tc := ⟨.hbm, 857, rfl⟩
abbrev main_v268 : Ref sig .tc := ⟨.hbm, 858, rfl⟩
abbrev main_v269 : Ref sig .tc := ⟨.hbm, 859, rfl⟩
abbrev main_v270 : Ref sig .tc := ⟨.hbm, 860, rfl⟩
abbrev main_v271 : Ref sig .tc := ⟨.hbm, 861, rfl⟩
abbrev main_c_52 : Ref sig .tc := ⟨.hbm, 862, rfl⟩
abbrev main_call32_c : Ref sig .tc := ⟨.hbm, 863, rfl⟩
abbrev main_call32_v0 : Ref sig .tc := ⟨.hbm, 864, rfl⟩
abbrev main_call32_c_0 : Ref sig .tc := ⟨.hbm, 865, rfl⟩
abbrev main_call32_v1 : Ref sig .tc := ⟨.hbm, 866, rfl⟩
abbrev main_call32_v2 : Ref sig .tc := ⟨.hbm, 867, rfl⟩
abbrev main_call32_v3 : Ref sig .tc := ⟨.hbm, 868, rfl⟩
abbrev main_call32_c_1 : Ref sig .tc := ⟨.hbm, 869, rfl⟩
abbrev main_call32_v4 : Ref sig .tc := ⟨.hbm, 870, rfl⟩
abbrev main_call32_c_2 : Ref sig .tc := ⟨.hbm, 871, rfl⟩
abbrev main_call32_v5 : Ref sig .tc := ⟨.hbm, 872, rfl⟩
abbrev main_call32_v6 : Ref sig .tc := ⟨.hbm, 873, rfl⟩
abbrev main_call32_v7 : Ref sig .tc := ⟨.hbm, 874, rfl⟩
abbrev main_call32_v8 : Ref sig .tc := ⟨.hbm, 875, rfl⟩
abbrev main_call32_c_3 : Ref sig .tc := ⟨.hbm, 876, rfl⟩
abbrev main_call32_v9 : Ref sig .tc := ⟨.hbm, 877, rfl⟩
abbrev main_call32_v10 : Ref sig .tc := ⟨.hbm, 878, rfl⟩
abbrev main_call32_v11 : Ref sig .tc := ⟨.hbm, 879, rfl⟩
abbrev main_call32_cst : Ref sig .tc := ⟨.hbm, 880, rfl⟩
abbrev main_call32_v12 : Ref sig .tc := ⟨.hbm, 881, rfl⟩
abbrev main_v272 : Ref sig .tc := ⟨.hbm, 882, rfl⟩
abbrev main_c_53 : Ref sig .tc := ⟨.hbm, 883, rfl⟩
abbrev main_call33_c : Ref sig .tc := ⟨.hbm, 884, rfl⟩
abbrev main_call33_v0 : Ref sig .tc := ⟨.hbm, 885, rfl⟩
abbrev main_call33_c_0 : Ref sig .tc := ⟨.hbm, 886, rfl⟩
abbrev main_call33_v1 : Ref sig .tc := ⟨.hbm, 887, rfl⟩
abbrev main_call33_v2 : Ref sig .tc := ⟨.hbm, 888, rfl⟩
abbrev main_call33_v3 : Ref sig .tc := ⟨.hbm, 889, rfl⟩
abbrev main_call33_c_1 : Ref sig .tc := ⟨.hbm, 890, rfl⟩
abbrev main_call33_v4 : Ref sig .tc := ⟨.hbm, 891, rfl⟩
abbrev main_call33_c_2 : Ref sig .tc := ⟨.hbm, 892, rfl⟩
abbrev main_call33_v5 : Ref sig .tc := ⟨.hbm, 893, rfl⟩
abbrev main_call33_v6 : Ref sig .tc := ⟨.hbm, 894, rfl⟩
abbrev main_call33_v7 : Ref sig .tc := ⟨.hbm, 895, rfl⟩
abbrev main_call33_v8 : Ref sig .tc := ⟨.hbm, 896, rfl⟩
abbrev main_call33_c_3 : Ref sig .tc := ⟨.hbm, 897, rfl⟩
abbrev main_call33_v9 : Ref sig .tc := ⟨.hbm, 898, rfl⟩
abbrev main_call33_v10 : Ref sig .tc := ⟨.hbm, 899, rfl⟩
abbrev main_call33_v11 : Ref sig .tc := ⟨.hbm, 900, rfl⟩
abbrev main_call33_cst : Ref sig .tc := ⟨.hbm, 901, rfl⟩
abbrev main_call33_v12 : Ref sig .tc := ⟨.hbm, 902, rfl⟩
abbrev main_v273 : Ref sig .tc := ⟨.hbm, 903, rfl⟩
abbrev main_cst_54 : Ref sig .tc := ⟨.hbm, 904, rfl⟩
abbrev main_v274 : Ref sig .tc := ⟨.hbm, 905, rfl⟩
abbrev main_v275 : Ref sig .tc := ⟨.hbm, 906, rfl⟩
abbrev main_v276 : Ref sig .tc := ⟨.hbm, 907, rfl⟩
abbrev main_cst_55 : Ref sig .tc := ⟨.hbm, 908, rfl⟩
abbrev main_v277 : Ref sig .tc := ⟨.hbm, 909, rfl⟩
abbrev main_v278 : Ref sig .tc := ⟨.hbm, 910, rfl⟩
abbrev main_v279 : Ref sig .tc := ⟨.hbm, 911, rfl⟩
abbrev main_v280 : Ref sig .tc := ⟨.hbm, 912, rfl⟩
abbrev main_v281 : Ref sig .tc := ⟨.hbm, 913, rfl⟩
abbrev main_v282 : Ref sig .tc := ⟨.hbm, 914, rfl⟩
abbrev main_v283 : Ref sig .tc := ⟨.hbm, 915, rfl⟩
abbrev main_v284 : Ref sig .tc := ⟨.hbm, 916, rfl⟩
abbrev main_v285 : Ref sig .tc := ⟨.hbm, 917, rfl⟩
abbrev main_v286 : Ref sig .tc := ⟨.hbm, 918, rfl⟩
abbrev main_v287 : Ref sig .tc := ⟨.hbm, 919, rfl⟩
abbrev main_v288 : Ref sig .tc := ⟨.hbm, 920, rfl⟩
abbrev main_v289 : Ref sig .tc := ⟨.hbm, 921, rfl⟩
abbrev main_v290 : Ref sig .tc := ⟨.hbm, 922, rfl⟩
abbrev main_v291 : Ref sig .tc := ⟨.hbm, 923, rfl⟩
abbrev main_v292 : Ref sig .tc := ⟨.hbm, 924, rfl⟩
abbrev main_v293 : Ref sig .tc := ⟨.hbm, 925, rfl⟩
abbrev main_v294 : Ref sig .tc := ⟨.hbm, 926, rfl⟩
abbrev main_v295 : Ref sig .tc := ⟨.hbm, 927, rfl⟩
abbrev main_v296 : Ref sig .tc := ⟨.hbm, 928, rfl⟩
abbrev main_c_56 : Ref sig .tc := ⟨.hbm, 929, rfl⟩
abbrev main_call34_c : Ref sig .tc := ⟨.hbm, 930, rfl⟩
abbrev main_call34_v0 : Ref sig .tc := ⟨.hbm, 931, rfl⟩
abbrev main_call34_c_0 : Ref sig .tc := ⟨.hbm, 932, rfl⟩
abbrev main_call34_v1 : Ref sig .tc := ⟨.hbm, 933, rfl⟩
abbrev main_call34_v2 : Ref sig .tc := ⟨.hbm, 934, rfl⟩
abbrev main_call34_v3 : Ref sig .tc := ⟨.hbm, 935, rfl⟩
abbrev main_call34_c_1 : Ref sig .tc := ⟨.hbm, 936, rfl⟩
abbrev main_call34_v4 : Ref sig .tc := ⟨.hbm, 937, rfl⟩
abbrev main_call34_c_2 : Ref sig .tc := ⟨.hbm, 938, rfl⟩
abbrev main_call34_v5 : Ref sig .tc := ⟨.hbm, 939, rfl⟩
abbrev main_call34_v6 : Ref sig .tc := ⟨.hbm, 940, rfl⟩
abbrev main_call34_v7 : Ref sig .tc := ⟨.hbm, 941, rfl⟩
abbrev main_call34_v8 : Ref sig .tc := ⟨.hbm, 942, rfl⟩
abbrev main_call34_c_3 : Ref sig .tc := ⟨.hbm, 943, rfl⟩
abbrev main_call34_v9 : Ref sig .tc := ⟨.hbm, 944, rfl⟩
abbrev main_call34_v10 : Ref sig .tc := ⟨.hbm, 945, rfl⟩
abbrev main_call34_v11 : Ref sig .tc := ⟨.hbm, 946, rfl⟩
abbrev main_call34_cst : Ref sig .tc := ⟨.hbm, 947, rfl⟩
abbrev main_call34_v12 : Ref sig .tc := ⟨.hbm, 948, rfl⟩
abbrev main_v297 : Ref sig .tc := ⟨.hbm, 949, rfl⟩
abbrev main_c_57 : Ref sig .tc := ⟨.hbm, 950, rfl⟩
abbrev main_call35_c : Ref sig .tc := ⟨.hbm, 951, rfl⟩
abbrev main_call35_v0 : Ref sig .tc := ⟨.hbm, 952, rfl⟩
abbrev main_call35_c_0 : Ref sig .tc := ⟨.hbm, 953, rfl⟩
abbrev main_call35_v1 : Ref sig .tc := ⟨.hbm, 954, rfl⟩
abbrev main_call35_v2 : Ref sig .tc := ⟨.hbm, 955, rfl⟩
abbrev main_call35_v3 : Ref sig .tc := ⟨.hbm, 956, rfl⟩
abbrev main_call35_c_1 : Ref sig .tc := ⟨.hbm, 957, rfl⟩
abbrev main_call35_v4 : Ref sig .tc := ⟨.hbm, 958, rfl⟩
abbrev main_call35_c_2 : Ref sig .tc := ⟨.hbm, 959, rfl⟩
abbrev main_call35_v5 : Ref sig .tc := ⟨.hbm, 960, rfl⟩
abbrev main_call35_v6 : Ref sig .tc := ⟨.hbm, 961, rfl⟩
abbrev main_call35_v7 : Ref sig .tc := ⟨.hbm, 962, rfl⟩
abbrev main_call35_v8 : Ref sig .tc := ⟨.hbm, 963, rfl⟩
abbrev main_call35_c_3 : Ref sig .tc := ⟨.hbm, 964, rfl⟩
abbrev main_call35_v9 : Ref sig .tc := ⟨.hbm, 965, rfl⟩
abbrev main_call35_v10 : Ref sig .tc := ⟨.hbm, 966, rfl⟩
abbrev main_call35_v11 : Ref sig .tc := ⟨.hbm, 967, rfl⟩
abbrev main_call35_cst : Ref sig .tc := ⟨.hbm, 968, rfl⟩
abbrev main_call35_v12 : Ref sig .tc := ⟨.hbm, 969, rfl⟩
abbrev main_v298 : Ref sig .tc := ⟨.hbm, 970, rfl⟩
abbrev main_cst_58 : Ref sig .tc := ⟨.hbm, 971, rfl⟩
abbrev main_v299 : Ref sig .tc := ⟨.hbm, 972, rfl⟩
abbrev main_v300 : Ref sig .tc := ⟨.hbm, 973, rfl⟩
abbrev main_v301 : Ref sig .tc := ⟨.hbm, 974, rfl⟩
abbrev main_cst_59 : Ref sig .tc := ⟨.hbm, 975, rfl⟩
abbrev main_v302 : Ref sig .tc := ⟨.hbm, 976, rfl⟩
abbrev main_v303 : Ref sig .tc := ⟨.hbm, 977, rfl⟩
abbrev main_v304 : Ref sig .tc := ⟨.hbm, 978, rfl⟩
abbrev main_v305 : Ref sig .tc := ⟨.hbm, 979, rfl⟩
abbrev main_v306 : Ref sig .tc := ⟨.hbm, 980, rfl⟩
abbrev main_v307 : Ref sig .tc := ⟨.hbm, 981, rfl⟩
abbrev main_v308 : Ref sig .tc := ⟨.hbm, 982, rfl⟩
abbrev main_v309 : Ref sig .tc := ⟨.hbm, 983, rfl⟩
abbrev main_v310 : Ref sig .tc := ⟨.hbm, 984, rfl⟩
abbrev main_v311 : Ref sig .tc := ⟨.hbm, 985, rfl⟩
abbrev main_v312 : Ref sig .tc := ⟨.hbm, 986, rfl⟩
abbrev main_v313 : Ref sig .tc := ⟨.hbm, 987, rfl⟩
abbrev main_v314 : Ref sig .tc := ⟨.hbm, 988, rfl⟩
abbrev main_v315 : Ref sig .tc := ⟨.hbm, 989, rfl⟩
abbrev main_v316 : Ref sig .tc := ⟨.hbm, 990, rfl⟩
abbrev main_v317 : Ref sig .tc := ⟨.hbm, 991, rfl⟩
abbrev main_v318 : Ref sig .tc := ⟨.hbm, 992, rfl⟩
abbrev main_v319 : Ref sig .tc := ⟨.hbm, 993, rfl⟩
abbrev main_v320 : Ref sig .tc := ⟨.hbm, 994, rfl⟩
abbrev main_v321 : Ref sig .tc := ⟨.hbm, 995, rfl⟩
abbrev main_c_60 : Ref sig .tc := ⟨.hbm, 996, rfl⟩
abbrev main_call36_c : Ref sig .tc := ⟨.hbm, 997, rfl⟩
abbrev main_call36_v0 : Ref sig .tc := ⟨.hbm, 998, rfl⟩
abbrev main_call36_c_0 : Ref sig .tc := ⟨.hbm, 999, rfl⟩
abbrev main_call36_v1 : Ref sig .tc := ⟨.hbm, 1000, rfl⟩
abbrev main_call36_v2 : Ref sig .tc := ⟨.hbm, 1001, rfl⟩
abbrev main_call36_v3 : Ref sig .tc := ⟨.hbm, 1002, rfl⟩
abbrev main_call36_c_1 : Ref sig .tc := ⟨.hbm, 1003, rfl⟩
abbrev main_call36_v4 : Ref sig .tc := ⟨.hbm, 1004, rfl⟩
abbrev main_call36_c_2 : Ref sig .tc := ⟨.hbm, 1005, rfl⟩
abbrev main_call36_v5 : Ref sig .tc := ⟨.hbm, 1006, rfl⟩
abbrev main_call36_v6 : Ref sig .tc := ⟨.hbm, 1007, rfl⟩
abbrev main_call36_v7 : Ref sig .tc := ⟨.hbm, 1008, rfl⟩
abbrev main_call36_v8 : Ref sig .tc := ⟨.hbm, 1009, rfl⟩
abbrev main_call36_c_3 : Ref sig .tc := ⟨.hbm, 1010, rfl⟩
abbrev main_call36_v9 : Ref sig .tc := ⟨.hbm, 1011, rfl⟩
abbrev main_call36_v10 : Ref sig .tc := ⟨.hbm, 1012, rfl⟩
abbrev main_call36_v11 : Ref sig .tc := ⟨.hbm, 1013, rfl⟩
abbrev main_call36_cst : Ref sig .tc := ⟨.hbm, 1014, rfl⟩
abbrev main_call36_v12 : Ref sig .tc := ⟨.hbm, 1015, rfl⟩
abbrev main_v322 : Ref sig .tc := ⟨.hbm, 1016, rfl⟩
abbrev main_c_61 : Ref sig .tc := ⟨.hbm, 1017, rfl⟩
abbrev main_call37_c : Ref sig .tc := ⟨.hbm, 1018, rfl⟩
abbrev main_call37_v0 : Ref sig .tc := ⟨.hbm, 1019, rfl⟩
abbrev main_call37_c_0 : Ref sig .tc := ⟨.hbm, 1020, rfl⟩
abbrev main_call37_v1 : Ref sig .tc := ⟨.hbm, 1021, rfl⟩
abbrev main_call37_v2 : Ref sig .tc := ⟨.hbm, 1022, rfl⟩
abbrev main_call37_v3 : Ref sig .tc := ⟨.hbm, 1023, rfl⟩
abbrev main_call37_c_1 : Ref sig .tc := ⟨.hbm, 1024, rfl⟩
abbrev main_call37_v4 : Ref sig .tc := ⟨.hbm, 1025, rfl⟩
abbrev main_call37_c_2 : Ref sig .tc := ⟨.hbm, 1026, rfl⟩
abbrev main_call37_v5 : Ref sig .tc := ⟨.hbm, 1027, rfl⟩
abbrev main_call37_v6 : Ref sig .tc := ⟨.hbm, 1028, rfl⟩
abbrev main_call37_v7 : Ref sig .tc := ⟨.hbm, 1029, rfl⟩
abbrev main_call37_v8 : Ref sig .tc := ⟨.hbm, 1030, rfl⟩
abbrev main_call37_c_3 : Ref sig .tc := ⟨.hbm, 1031, rfl⟩
abbrev main_call37_v9 : Ref sig .tc := ⟨.hbm, 1032, rfl⟩
abbrev main_call37_v10 : Ref sig .tc := ⟨.hbm, 1033, rfl⟩
abbrev main_call37_v11 : Ref sig .tc := ⟨.hbm, 1034, rfl⟩
abbrev main_call37_cst : Ref sig .tc := ⟨.hbm, 1035, rfl⟩
abbrev main_call37_v12 : Ref sig .tc := ⟨.hbm, 1036, rfl⟩
abbrev main_v323 : Ref sig .tc := ⟨.hbm, 1037, rfl⟩
abbrev main_cst_62 : Ref sig .tc := ⟨.hbm, 1038, rfl⟩
abbrev main_v324 : Ref sig .tc := ⟨.hbm, 1039, rfl⟩
abbrev main_v325 : Ref sig .tc := ⟨.hbm, 1040, rfl⟩
abbrev main_cst_63 : Ref sig .tc := ⟨.hbm, 1041, rfl⟩
abbrev main_v326 : Ref sig .tc := ⟨.hbm, 1042, rfl⟩
abbrev main_v327 : Ref sig .tc := ⟨.hbm, 1043, rfl⟩
abbrev main_v328 : Ref sig .tc := ⟨.hbm, 1044, rfl⟩
abbrev main_v329 : Ref sig .tc := ⟨.hbm, 1045, rfl⟩
abbrev main_v330 : Ref sig .tc := ⟨.hbm, 1046, rfl⟩
abbrev main_v331 : Ref sig .tc := ⟨.hbm, 1047, rfl⟩
abbrev main_v332 : Ref sig .tc := ⟨.hbm, 1048, rfl⟩
abbrev main_v333 : Ref sig .tc := ⟨.hbm, 1049, rfl⟩
abbrev main_v334 : Ref sig .tc := ⟨.hbm, 1050, rfl⟩
abbrev main_v335 : Ref sig .tc := ⟨.hbm, 1051, rfl⟩
abbrev main_v336 : Ref sig .tc := ⟨.hbm, 1052, rfl⟩
abbrev main_v337 : Ref sig .tc := ⟨.hbm, 1053, rfl⟩
abbrev main_v338 : Ref sig .tc := ⟨.hbm, 1054, rfl⟩
abbrev main_v339 : Ref sig .tc := ⟨.hbm, 1055, rfl⟩
abbrev main_v340 : Ref sig .tc := ⟨.hbm, 1056, rfl⟩
abbrev main_c_64 : Ref sig .tc := ⟨.hbm, 1057, rfl⟩
abbrev main_call38_c : Ref sig .tc := ⟨.hbm, 1058, rfl⟩
abbrev main_call38_v0 : Ref sig .tc := ⟨.hbm, 1059, rfl⟩
abbrev main_call38_c_0 : Ref sig .tc := ⟨.hbm, 1060, rfl⟩
abbrev main_call38_v1 : Ref sig .tc := ⟨.hbm, 1061, rfl⟩
abbrev main_call38_v2 : Ref sig .tc := ⟨.hbm, 1062, rfl⟩
abbrev main_call38_v3 : Ref sig .tc := ⟨.hbm, 1063, rfl⟩
abbrev main_call38_c_1 : Ref sig .tc := ⟨.hbm, 1064, rfl⟩
abbrev main_call38_v4 : Ref sig .tc := ⟨.hbm, 1065, rfl⟩
abbrev main_call38_c_2 : Ref sig .tc := ⟨.hbm, 1066, rfl⟩
abbrev main_call38_v5 : Ref sig .tc := ⟨.hbm, 1067, rfl⟩
abbrev main_call38_v6 : Ref sig .tc := ⟨.hbm, 1068, rfl⟩
abbrev main_call38_v7 : Ref sig .tc := ⟨.hbm, 1069, rfl⟩
abbrev main_call38_v8 : Ref sig .tc := ⟨.hbm, 1070, rfl⟩
abbrev main_call38_c_3 : Ref sig .tc := ⟨.hbm, 1071, rfl⟩
abbrev main_call38_v9 : Ref sig .tc := ⟨.hbm, 1072, rfl⟩
abbrev main_call38_v10 : Ref sig .tc := ⟨.hbm, 1073, rfl⟩
abbrev main_call38_v11 : Ref sig .tc := ⟨.hbm, 1074, rfl⟩
abbrev main_call38_cst : Ref sig .tc := ⟨.hbm, 1075, rfl⟩
abbrev main_call38_v12 : Ref sig .tc := ⟨.hbm, 1076, rfl⟩
abbrev main_v341 : Ref sig .tc := ⟨.hbm, 1077, rfl⟩
abbrev main_c_65 : Ref sig .tc := ⟨.hbm, 1078, rfl⟩
abbrev main_call39_c : Ref sig .tc := ⟨.hbm, 1079, rfl⟩
abbrev main_call39_v0 : Ref sig .tc := ⟨.hbm, 1080, rfl⟩
abbrev main_call39_c_0 : Ref sig .tc := ⟨.hbm, 1081, rfl⟩
abbrev main_call39_v1 : Ref sig .tc := ⟨.hbm, 1082, rfl⟩
abbrev main_call39_v2 : Ref sig .tc := ⟨.hbm, 1083, rfl⟩
abbrev main_call39_v3 : Ref sig .tc := ⟨.hbm, 1084, rfl⟩
abbrev main_call39_c_1 : Ref sig .tc := ⟨.hbm, 1085, rfl⟩
abbrev main_call39_v4 : Ref sig .tc := ⟨.hbm, 1086, rfl⟩
abbrev main_call39_c_2 : Ref sig .tc := ⟨.hbm, 1087, rfl⟩
abbrev main_call39_v5 : Ref sig .tc := ⟨.hbm, 1088, rfl⟩
abbrev main_call39_v6 : Ref sig .tc := ⟨.hbm, 1089, rfl⟩
abbrev main_call39_v7 : Ref sig .tc := ⟨.hbm, 1090, rfl⟩
abbrev main_call39_v8 : Ref sig .tc := ⟨.hbm, 1091, rfl⟩
abbrev main_call39_c_3 : Ref sig .tc := ⟨.hbm, 1092, rfl⟩
abbrev main_call39_v9 : Ref sig .tc := ⟨.hbm, 1093, rfl⟩
abbrev main_call39_v10 : Ref sig .tc := ⟨.hbm, 1094, rfl⟩
abbrev main_call39_v11 : Ref sig .tc := ⟨.hbm, 1095, rfl⟩
abbrev main_call39_cst : Ref sig .tc := ⟨.hbm, 1096, rfl⟩
abbrev main_call39_v12 : Ref sig .tc := ⟨.hbm, 1097, rfl⟩
abbrev main_v342 : Ref sig .tc := ⟨.hbm, 1098, rfl⟩
abbrev main_v343 : Ref sig .tc := ⟨.hbm, 1099, rfl⟩
abbrev main_v344 : Ref sig .tc := ⟨.hbm, 1100, rfl⟩
abbrev main_v345 : Ref sig .tc := ⟨.hbm, 1101, rfl⟩
abbrev main_v346 : Ref sig .tc := ⟨.hbm, 1102, rfl⟩
abbrev main_v347 : Ref sig .tc := ⟨.hbm, 1103, rfl⟩
abbrev main_v348 : Ref sig .tc := ⟨.hbm, 1104, rfl⟩
abbrev main_c_66 : Ref sig .tc := ⟨.hbm, 1105, rfl⟩
abbrev main_call41_c : Ref sig .tc := ⟨.hbm, 1106, rfl⟩
abbrev main_call41_v0 : Ref sig .tc := ⟨.hbm, 1107, rfl⟩
abbrev main_call41_c_0 : Ref sig .tc := ⟨.hbm, 1108, rfl⟩
abbrev main_call41_v1 : Ref sig .tc := ⟨.hbm, 1109, rfl⟩
abbrev main_call41_v2 : Ref sig .tc := ⟨.hbm, 1110, rfl⟩
abbrev main_call41_v3 : Ref sig .tc := ⟨.hbm, 1111, rfl⟩
abbrev main_call41_c_1 : Ref sig .tc := ⟨.hbm, 1112, rfl⟩
abbrev main_call41_v4 : Ref sig .tc := ⟨.hbm, 1113, rfl⟩
abbrev main_call41_c_2 : Ref sig .tc := ⟨.hbm, 1114, rfl⟩
abbrev main_call41_v5 : Ref sig .tc := ⟨.hbm, 1115, rfl⟩
abbrev main_call41_v6 : Ref sig .tc := ⟨.hbm, 1116, rfl⟩
abbrev main_call41_v7 : Ref sig .tc := ⟨.hbm, 1117, rfl⟩
abbrev main_call41_v8 : Ref sig .tc := ⟨.hbm, 1118, rfl⟩
abbrev main_call41_c_3 : Ref sig .tc := ⟨.hbm, 1119, rfl⟩
abbrev main_call41_v9 : Ref sig .tc := ⟨.hbm, 1120, rfl⟩
abbrev main_call41_v10 : Ref sig .tc := ⟨.hbm, 1121, rfl⟩
abbrev main_call41_v11 : Ref sig .tc := ⟨.hbm, 1122, rfl⟩
abbrev main_call41_cst : Ref sig .tc := ⟨.hbm, 1123, rfl⟩
abbrev main_call41_v12 : Ref sig .tc := ⟨.hbm, 1124, rfl⟩
abbrev main_v349 : Ref sig .tc := ⟨.hbm, 1125, rfl⟩
abbrev main_c_67 : Ref sig .tc := ⟨.hbm, 1126, rfl⟩
abbrev main_call42_c : Ref sig .tc := ⟨.hbm, 1127, rfl⟩
abbrev main_call42_v0 : Ref sig .tc := ⟨.hbm, 1128, rfl⟩
abbrev main_call42_c_0 : Ref sig .tc := ⟨.hbm, 1129, rfl⟩
abbrev main_call42_v1 : Ref sig .tc := ⟨.hbm, 1130, rfl⟩
abbrev main_call42_v2 : Ref sig .tc := ⟨.hbm, 1131, rfl⟩
abbrev main_call42_v3 : Ref sig .tc := ⟨.hbm, 1132, rfl⟩
abbrev main_call42_c_1 : Ref sig .tc := ⟨.hbm, 1133, rfl⟩
abbrev main_call42_v4 : Ref sig .tc := ⟨.hbm, 1134, rfl⟩
abbrev main_call42_c_2 : Ref sig .tc := ⟨.hbm, 1135, rfl⟩
abbrev main_call42_v5 : Ref sig .tc := ⟨.hbm, 1136, rfl⟩
abbrev main_call42_v6 : Ref sig .tc := ⟨.hbm, 1137, rfl⟩
abbrev main_call42_v7 : Ref sig .tc := ⟨.hbm, 1138, rfl⟩
abbrev main_call42_v8 : Ref sig .tc := ⟨.hbm, 1139, rfl⟩
abbrev main_call42_c_3 : Ref sig .tc := ⟨.hbm, 1140, rfl⟩
abbrev main_call42_v9 : Ref sig .tc := ⟨.hbm, 1141, rfl⟩
abbrev main_call42_v10 : Ref sig .tc := ⟨.hbm, 1142, rfl⟩
abbrev main_call42_v11 : Ref sig .tc := ⟨.hbm, 1143, rfl⟩
abbrev main_call42_cst : Ref sig .tc := ⟨.hbm, 1144, rfl⟩
abbrev main_call42_v12 : Ref sig .tc := ⟨.hbm, 1145, rfl⟩
abbrev main_v350 : Ref sig .tc := ⟨.hbm, 1146, rfl⟩
abbrev main_cst_68 : Ref sig .tc := ⟨.hbm, 1147, rfl⟩
abbrev main_v351 : Ref sig .tc := ⟨.hbm, 1148, rfl⟩
abbrev main_v352 : Ref sig .tc := ⟨.hbm, 1149, rfl⟩
abbrev main_cst_69 : Ref sig .tc := ⟨.hbm, 1150, rfl⟩
abbrev main_v353 : Ref sig .tc := ⟨.hbm, 1151, rfl⟩
abbrev main_v354 : Ref sig .tc := ⟨.hbm, 1152, rfl⟩
abbrev main_v355 : Ref sig .tc := ⟨.hbm, 1153, rfl⟩
abbrev main_v356 : Ref sig .tc := ⟨.hbm, 1154, rfl⟩
abbrev main_v357 : Ref sig .tc := ⟨.hbm, 1155, rfl⟩
abbrev main_v358 : Ref sig .tc := ⟨.hbm, 1156, rfl⟩
abbrev main_v359 : Ref sig .tc := ⟨.hbm, 1157, rfl⟩
abbrev main_v360 : Ref sig .tc := ⟨.hbm, 1158, rfl⟩
abbrev main_v361 : Ref sig .tc := ⟨.hbm, 1159, rfl⟩
abbrev main_v362 : Ref sig .tc := ⟨.hbm, 1160, rfl⟩
abbrev main_v363 : Ref sig .tc := ⟨.hbm, 1161, rfl⟩
abbrev main_v364 : Ref sig .tc := ⟨.hbm, 1162, rfl⟩
abbrev main_v365 : Ref sig .tc := ⟨.hbm, 1163, rfl⟩
abbrev main_v366 : Ref sig .tc := ⟨.hbm, 1164, rfl⟩
abbrev main_v367 : Ref sig .tc := ⟨.hbm, 1165, rfl⟩
abbrev main_c_70 : Ref sig .tc := ⟨.hbm, 1166, rfl⟩
abbrev main_call43_c : Ref sig .tc := ⟨.hbm, 1167, rfl⟩
abbrev main_call43_v0 : Ref sig .tc := ⟨.hbm, 1168, rfl⟩
abbrev main_call43_c_0 : Ref sig .tc := ⟨.hbm, 1169, rfl⟩
abbrev main_call43_v1 : Ref sig .tc := ⟨.hbm, 1170, rfl⟩
abbrev main_call43_v2 : Ref sig .tc := ⟨.hbm, 1171, rfl⟩
abbrev main_call43_v3 : Ref sig .tc := ⟨.hbm, 1172, rfl⟩
abbrev main_call43_c_1 : Ref sig .tc := ⟨.hbm, 1173, rfl⟩
abbrev main_call43_v4 : Ref sig .tc := ⟨.hbm, 1174, rfl⟩
abbrev main_call43_c_2 : Ref sig .tc := ⟨.hbm, 1175, rfl⟩
abbrev main_call43_v5 : Ref sig .tc := ⟨.hbm, 1176, rfl⟩
abbrev main_call43_v6 : Ref sig .tc := ⟨.hbm, 1177, rfl⟩
abbrev main_call43_v7 : Ref sig .tc := ⟨.hbm, 1178, rfl⟩
abbrev main_call43_v8 : Ref sig .tc := ⟨.hbm, 1179, rfl⟩
abbrev main_call43_c_3 : Ref sig .tc := ⟨.hbm, 1180, rfl⟩
abbrev main_call43_v9 : Ref sig .tc := ⟨.hbm, 1181, rfl⟩
abbrev main_call43_v10 : Ref sig .tc := ⟨.hbm, 1182, rfl⟩
abbrev main_call43_v11 : Ref sig .tc := ⟨.hbm, 1183, rfl⟩
abbrev main_call43_cst : Ref sig .tc := ⟨.hbm, 1184, rfl⟩
abbrev main_call43_v12 : Ref sig .tc := ⟨.hbm, 1185, rfl⟩
abbrev main_v368 : Ref sig .tc := ⟨.hbm, 1186, rfl⟩
abbrev main_c_71 : Ref sig .tc := ⟨.hbm, 1187, rfl⟩
abbrev main_call44_c : Ref sig .tc := ⟨.hbm, 1188, rfl⟩
abbrev main_call44_v0 : Ref sig .tc := ⟨.hbm, 1189, rfl⟩
abbrev main_call44_c_0 : Ref sig .tc := ⟨.hbm, 1190, rfl⟩
abbrev main_call44_v1 : Ref sig .tc := ⟨.hbm, 1191, rfl⟩
abbrev main_call44_v2 : Ref sig .tc := ⟨.hbm, 1192, rfl⟩
abbrev main_call44_v3 : Ref sig .tc := ⟨.hbm, 1193, rfl⟩
abbrev main_call44_c_1 : Ref sig .tc := ⟨.hbm, 1194, rfl⟩
abbrev main_call44_v4 : Ref sig .tc := ⟨.hbm, 1195, rfl⟩
abbrev main_call44_c_2 : Ref sig .tc := ⟨.hbm, 1196, rfl⟩
abbrev main_call44_v5 : Ref sig .tc := ⟨.hbm, 1197, rfl⟩
abbrev main_call44_v6 : Ref sig .tc := ⟨.hbm, 1198, rfl⟩
abbrev main_call44_v7 : Ref sig .tc := ⟨.hbm, 1199, rfl⟩
abbrev main_call44_v8 : Ref sig .tc := ⟨.hbm, 1200, rfl⟩
abbrev main_call44_c_3 : Ref sig .tc := ⟨.hbm, 1201, rfl⟩
abbrev main_call44_v9 : Ref sig .tc := ⟨.hbm, 1202, rfl⟩
abbrev main_call44_v10 : Ref sig .tc := ⟨.hbm, 1203, rfl⟩
abbrev main_call44_v11 : Ref sig .tc := ⟨.hbm, 1204, rfl⟩
abbrev main_call44_cst : Ref sig .tc := ⟨.hbm, 1205, rfl⟩
abbrev main_call44_v12 : Ref sig .tc := ⟨.hbm, 1206, rfl⟩
abbrev main_v369 : Ref sig .tc := ⟨.hbm, 1207, rfl⟩
abbrev main_v370 : Ref sig .tc := ⟨.hbm, 1208, rfl⟩
abbrev main_v371 : Ref sig .tc := ⟨.hbm, 1209, rfl⟩
abbrev main_v372 : Ref sig .tc := ⟨.hbm, 1210, rfl⟩
abbrev main_v373 : Ref sig .tc := ⟨.hbm, 1211, rfl⟩
abbrev main_v374 : Ref sig .tc := ⟨.hbm, 1212, rfl⟩
abbrev main_v375 : Ref sig .tc := ⟨.hbm, 1213, rfl⟩
abbrev main_c_72 : Ref sig .tc := ⟨.hbm, 1214, rfl⟩
abbrev main_call46_c : Ref sig .tc := ⟨.hbm, 1215, rfl⟩
abbrev main_call46_v0 : Ref sig .tc := ⟨.hbm, 1216, rfl⟩
abbrev main_call46_c_0 : Ref sig .tc := ⟨.hbm, 1217, rfl⟩
abbrev main_call46_v1 : Ref sig .tc := ⟨.hbm, 1218, rfl⟩
abbrev main_call46_v2 : Ref sig .tc := ⟨.hbm, 1219, rfl⟩
abbrev main_call46_v3 : Ref sig .tc := ⟨.hbm, 1220, rfl⟩
abbrev main_call46_c_1 : Ref sig .tc := ⟨.hbm, 1221, rfl⟩
abbrev main_call46_v4 : Ref sig .tc := ⟨.hbm, 1222, rfl⟩
abbrev main_call46_c_2 : Ref sig .tc := ⟨.hbm, 1223, rfl⟩
abbrev main_call46_v5 : Ref sig .tc := ⟨.hbm, 1224, rfl⟩
abbrev main_call46_v6 : Ref sig .tc := ⟨.hbm, 1225, rfl⟩
abbrev main_call46_v7 : Ref sig .tc := ⟨.hbm, 1226, rfl⟩
abbrev main_call46_v8 : Ref sig .tc := ⟨.hbm, 1227, rfl⟩
abbrev main_call46_c_3 : Ref sig .tc := ⟨.hbm, 1228, rfl⟩
abbrev main_call46_v9 : Ref sig .tc := ⟨.hbm, 1229, rfl⟩
abbrev main_call46_v10 : Ref sig .tc := ⟨.hbm, 1230, rfl⟩
abbrev main_call46_v11 : Ref sig .tc := ⟨.hbm, 1231, rfl⟩
abbrev main_call46_cst : Ref sig .tc := ⟨.hbm, 1232, rfl⟩
abbrev main_call46_v12 : Ref sig .tc := ⟨.hbm, 1233, rfl⟩
abbrev main_v376 : Ref sig .tc := ⟨.hbm, 1234, rfl⟩
abbrev main_c_73 : Ref sig .tc := ⟨.hbm, 1235, rfl⟩
abbrev main_call47_c : Ref sig .tc := ⟨.hbm, 1236, rfl⟩
abbrev main_call47_v0 : Ref sig .tc := ⟨.hbm, 1237, rfl⟩
abbrev main_call47_c_0 : Ref sig .tc := ⟨.hbm, 1238, rfl⟩
abbrev main_call47_v1 : Ref sig .tc := ⟨.hbm, 1239, rfl⟩
abbrev main_call47_v2 : Ref sig .tc := ⟨.hbm, 1240, rfl⟩
abbrev main_call47_v3 : Ref sig .tc := ⟨.hbm, 1241, rfl⟩
abbrev main_call47_c_1 : Ref sig .tc := ⟨.hbm, 1242, rfl⟩
abbrev main_call47_v4 : Ref sig .tc := ⟨.hbm, 1243, rfl⟩
abbrev main_call47_c_2 : Ref sig .tc := ⟨.hbm, 1244, rfl⟩
abbrev main_call47_v5 : Ref sig .tc := ⟨.hbm, 1245, rfl⟩
abbrev main_call47_v6 : Ref sig .tc := ⟨.hbm, 1246, rfl⟩
abbrev main_call47_v7 : Ref sig .tc := ⟨.hbm, 1247, rfl⟩
abbrev main_call47_v8 : Ref sig .tc := ⟨.hbm, 1248, rfl⟩
abbrev main_call47_c_3 : Ref sig .tc := ⟨.hbm, 1249, rfl⟩
abbrev main_call47_v9 : Ref sig .tc := ⟨.hbm, 1250, rfl⟩
abbrev main_call47_v10 : Ref sig .tc := ⟨.hbm, 1251, rfl⟩
abbrev main_call47_v11 : Ref sig .tc := ⟨.hbm, 1252, rfl⟩
abbrev main_call47_cst : Ref sig .tc := ⟨.hbm, 1253, rfl⟩
abbrev main_call47_v12 : Ref sig .tc := ⟨.hbm, 1254, rfl⟩
abbrev main_v377 : Ref sig .tc := ⟨.hbm, 1255, rfl⟩
abbrev main_cst_74 : Ref sig .tc := ⟨.hbm, 1256, rfl⟩
abbrev main_v378 : Ref sig .tc := ⟨.hbm, 1257, rfl⟩
abbrev main_v379 : Ref sig .tc := ⟨.hbm, 1258, rfl⟩
abbrev main_cst_75 : Ref sig .tc := ⟨.hbm, 1259, rfl⟩
abbrev main_v380 : Ref sig .tc := ⟨.hbm, 1260, rfl⟩
abbrev main_v381 : Ref sig .tc := ⟨.hbm, 1261, rfl⟩
abbrev main_v382 : Ref sig .tc := ⟨.hbm, 1262, rfl⟩
abbrev main_v383 : Ref sig .tc := ⟨.hbm, 1263, rfl⟩
abbrev main_v384 : Ref sig .tc := ⟨.hbm, 1264, rfl⟩
abbrev main_v385 : Ref sig .tc := ⟨.hbm, 1265, rfl⟩
abbrev main_v386 : Ref sig .tc := ⟨.hbm, 1266, rfl⟩
abbrev main_v387 : Ref sig .tc := ⟨.hbm, 1267, rfl⟩
abbrev main_v388 : Ref sig .tc := ⟨.hbm, 1268, rfl⟩
abbrev main_v389 : Ref sig .tc := ⟨.hbm, 1269, rfl⟩
abbrev main_v390 : Ref sig .tc := ⟨.hbm, 1270, rfl⟩
abbrev main_v391 : Ref sig .tc := ⟨.hbm, 1271, rfl⟩
abbrev main_v392 : Ref sig .tc := ⟨.hbm, 1272, rfl⟩
abbrev main_v393 : Ref sig .tc := ⟨.hbm, 1273, rfl⟩
abbrev main_v394 : Ref sig .tc := ⟨.hbm, 1274, rfl⟩
abbrev main_c_76 : Ref sig .tc := ⟨.hbm, 1275, rfl⟩
abbrev main_call48_c : Ref sig .tc := ⟨.hbm, 1276, rfl⟩
abbrev main_call48_v0 : Ref sig .tc := ⟨.hbm, 1277, rfl⟩
abbrev main_call48_c_0 : Ref sig .tc := ⟨.hbm, 1278, rfl⟩
abbrev main_call48_v1 : Ref sig .tc := ⟨.hbm, 1279, rfl⟩
abbrev main_call48_v2 : Ref sig .tc := ⟨.hbm, 1280, rfl⟩
abbrev main_call48_v3 : Ref sig .tc := ⟨.hbm, 1281, rfl⟩
abbrev main_call48_c_1 : Ref sig .tc := ⟨.hbm, 1282, rfl⟩
abbrev main_call48_v4 : Ref sig .tc := ⟨.hbm, 1283, rfl⟩
abbrev main_call48_c_2 : Ref sig .tc := ⟨.hbm, 1284, rfl⟩
abbrev main_call48_v5 : Ref sig .tc := ⟨.hbm, 1285, rfl⟩
abbrev main_call48_v6 : Ref sig .tc := ⟨.hbm, 1286, rfl⟩
abbrev main_call48_v7 : Ref sig .tc := ⟨.hbm, 1287, rfl⟩
abbrev main_call48_v8 : Ref sig .tc := ⟨.hbm, 1288, rfl⟩
abbrev main_call48_c_3 : Ref sig .tc := ⟨.hbm, 1289, rfl⟩
abbrev main_call48_v9 : Ref sig .tc := ⟨.hbm, 1290, rfl⟩
abbrev main_call48_v10 : Ref sig .tc := ⟨.hbm, 1291, rfl⟩
abbrev main_call48_v11 : Ref sig .tc := ⟨.hbm, 1292, rfl⟩
abbrev main_call48_cst : Ref sig .tc := ⟨.hbm, 1293, rfl⟩
abbrev main_call48_v12 : Ref sig .tc := ⟨.hbm, 1294, rfl⟩
abbrev main_v395 : Ref sig .tc := ⟨.hbm, 1295, rfl⟩
abbrev main_c_77 : Ref sig .tc := ⟨.hbm, 1296, rfl⟩
abbrev main_call49_c : Ref sig .tc := ⟨.hbm, 1297, rfl⟩
abbrev main_call49_v0 : Ref sig .tc := ⟨.hbm, 1298, rfl⟩
abbrev main_call49_c_0 : Ref sig .tc := ⟨.hbm, 1299, rfl⟩
abbrev main_call49_v1 : Ref sig .tc := ⟨.hbm, 1300, rfl⟩
abbrev main_call49_v2 : Ref sig .tc := ⟨.hbm, 1301, rfl⟩
abbrev main_call49_v3 : Ref sig .tc := ⟨.hbm, 1302, rfl⟩
abbrev main_call49_c_1 : Ref sig .tc := ⟨.hbm, 1303, rfl⟩
abbrev main_call49_v4 : Ref sig .tc := ⟨.hbm, 1304, rfl⟩
abbrev main_call49_c_2 : Ref sig .tc := ⟨.hbm, 1305, rfl⟩
abbrev main_call49_v5 : Ref sig .tc := ⟨.hbm, 1306, rfl⟩
abbrev main_call49_v6 : Ref sig .tc := ⟨.hbm, 1307, rfl⟩
abbrev main_call49_v7 : Ref sig .tc := ⟨.hbm, 1308, rfl⟩
abbrev main_call49_v8 : Ref sig .tc := ⟨.hbm, 1309, rfl⟩
abbrev main_call49_c_3 : Ref sig .tc := ⟨.hbm, 1310, rfl⟩
abbrev main_call49_v9 : Ref sig .tc := ⟨.hbm, 1311, rfl⟩
abbrev main_call49_v10 : Ref sig .tc := ⟨.hbm, 1312, rfl⟩
abbrev main_call49_v11 : Ref sig .tc := ⟨.hbm, 1313, rfl⟩
abbrev main_call49_cst : Ref sig .tc := ⟨.hbm, 1314, rfl⟩
abbrev main_call49_v12 : Ref sig .tc := ⟨.hbm, 1315, rfl⟩
abbrev main_v396 : Ref sig .tc := ⟨.hbm, 1316, rfl⟩
abbrev main_v397 : Ref sig .tc := ⟨.hbm, 1317, rfl⟩
abbrev main_v398 : Ref sig .tc := ⟨.hbm, 1318, rfl⟩
abbrev main_v399 : Ref sig .tc := ⟨.hbm, 1319, rfl⟩
abbrev main_v400 : Ref sig .tc := ⟨.hbm, 1320, rfl⟩
abbrev main_v401 : Ref sig .tc := ⟨.hbm, 1321, rfl⟩
abbrev main_v402 : Ref sig .tc := ⟨.hbm, 1322, rfl⟩
abbrev main_c_78 : Ref sig .tc := ⟨.hbm, 1323, rfl⟩
abbrev main_call51_c : Ref sig .tc := ⟨.hbm, 1324, rfl⟩
abbrev main_call51_v0 : Ref sig .tc := ⟨.hbm, 1325, rfl⟩
abbrev main_call51_c_0 : Ref sig .tc := ⟨.hbm, 1326, rfl⟩
abbrev main_call51_v1 : Ref sig .tc := ⟨.hbm, 1327, rfl⟩
abbrev main_call51_v2 : Ref sig .tc := ⟨.hbm, 1328, rfl⟩
abbrev main_call51_v3 : Ref sig .tc := ⟨.hbm, 1329, rfl⟩
abbrev main_call51_c_1 : Ref sig .tc := ⟨.hbm, 1330, rfl⟩
abbrev main_call51_v4 : Ref sig .tc := ⟨.hbm, 1331, rfl⟩
abbrev main_call51_c_2 : Ref sig .tc := ⟨.hbm, 1332, rfl⟩
abbrev main_call51_v5 : Ref sig .tc := ⟨.hbm, 1333, rfl⟩
abbrev main_call51_v6 : Ref sig .tc := ⟨.hbm, 1334, rfl⟩
abbrev main_call51_v7 : Ref sig .tc := ⟨.hbm, 1335, rfl⟩
abbrev main_call51_v8 : Ref sig .tc := ⟨.hbm, 1336, rfl⟩
abbrev main_call51_c_3 : Ref sig .tc := ⟨.hbm, 1337, rfl⟩
abbrev main_call51_v9 : Ref sig .tc := ⟨.hbm, 1338, rfl⟩
abbrev main_call51_v10 : Ref sig .tc := ⟨.hbm, 1339, rfl⟩
abbrev main_call51_v11 : Ref sig .tc := ⟨.hbm, 1340, rfl⟩
abbrev main_call51_cst : Ref sig .tc := ⟨.hbm, 1341, rfl⟩
abbrev main_call51_v12 : Ref sig .tc := ⟨.hbm, 1342, rfl⟩
abbrev main_v403 : Ref sig .tc := ⟨.hbm, 1343, rfl⟩
abbrev main_c_79 : Ref sig .tc := ⟨.hbm, 1344, rfl⟩
abbrev main_call52_c : Ref sig .tc := ⟨.hbm, 1345, rfl⟩
abbrev main_call52_v0 : Ref sig .tc := ⟨.hbm, 1346, rfl⟩
abbrev main_call52_c_0 : Ref sig .tc := ⟨.hbm, 1347, rfl⟩
abbrev main_call52_v1 : Ref sig .tc := ⟨.hbm, 1348, rfl⟩
abbrev main_call52_v2 : Ref sig .tc := ⟨.hbm, 1349, rfl⟩
abbrev main_call52_v3 : Ref sig .tc := ⟨.hbm, 1350, rfl⟩
abbrev main_call52_c_1 : Ref sig .tc := ⟨.hbm, 1351, rfl⟩
abbrev main_call52_v4 : Ref sig .tc := ⟨.hbm, 1352, rfl⟩
abbrev main_call52_c_2 : Ref sig .tc := ⟨.hbm, 1353, rfl⟩
abbrev main_call52_v5 : Ref sig .tc := ⟨.hbm, 1354, rfl⟩
abbrev main_call52_v6 : Ref sig .tc := ⟨.hbm, 1355, rfl⟩
abbrev main_call52_v7 : Ref sig .tc := ⟨.hbm, 1356, rfl⟩
abbrev main_call52_v8 : Ref sig .tc := ⟨.hbm, 1357, rfl⟩
abbrev main_call52_c_3 : Ref sig .tc := ⟨.hbm, 1358, rfl⟩
abbrev main_call52_v9 : Ref sig .tc := ⟨.hbm, 1359, rfl⟩
abbrev main_call52_v10 : Ref sig .tc := ⟨.hbm, 1360, rfl⟩
abbrev main_call52_v11 : Ref sig .tc := ⟨.hbm, 1361, rfl⟩
abbrev main_call52_cst : Ref sig .tc := ⟨.hbm, 1362, rfl⟩
abbrev main_call52_v12 : Ref sig .tc := ⟨.hbm, 1363, rfl⟩
abbrev main_v404 : Ref sig .tc := ⟨.hbm, 1364, rfl⟩
abbrev main_cst_80 : Ref sig .tc := ⟨.hbm, 1365, rfl⟩
abbrev main_v405 : Ref sig .tc := ⟨.hbm, 1366, rfl⟩
abbrev main_v406 : Ref sig .tc := ⟨.hbm, 1367, rfl⟩
abbrev main_cst_81 : Ref sig .tc := ⟨.hbm, 1368, rfl⟩
abbrev main_v407 : Ref sig .tc := ⟨.hbm, 1369, rfl⟩
abbrev main_v408 : Ref sig .tc := ⟨.hbm, 1370, rfl⟩
abbrev main_v409 : Ref sig .tc := ⟨.hbm, 1371, rfl⟩
abbrev main_v410 : Ref sig .tc := ⟨.hbm, 1372, rfl⟩
abbrev main_v411 : Ref sig .tc := ⟨.hbm, 1373, rfl⟩
abbrev main_v412 : Ref sig .tc := ⟨.hbm, 1374, rfl⟩
abbrev main_v413 : Ref sig .tc := ⟨.hbm, 1375, rfl⟩
abbrev main_v414 : Ref sig .tc := ⟨.hbm, 1376, rfl⟩
abbrev main_v415 : Ref sig .tc := ⟨.hbm, 1377, rfl⟩
abbrev main_v416 : Ref sig .tc := ⟨.hbm, 1378, rfl⟩
abbrev main_v417 : Ref sig .tc := ⟨.hbm, 1379, rfl⟩
abbrev main_v418 : Ref sig .tc := ⟨.hbm, 1380, rfl⟩
abbrev main_v419 : Ref sig .tc := ⟨.hbm, 1381, rfl⟩
abbrev main_v420 : Ref sig .tc := ⟨.hbm, 1382, rfl⟩
abbrev main_v421 : Ref sig .tc := ⟨.hbm, 1383, rfl⟩
abbrev main_c_82 : Ref sig .tc := ⟨.hbm, 1384, rfl⟩
abbrev main_call53_c : Ref sig .tc := ⟨.hbm, 1385, rfl⟩
abbrev main_call53_v0 : Ref sig .tc := ⟨.hbm, 1386, rfl⟩
abbrev main_call53_c_0 : Ref sig .tc := ⟨.hbm, 1387, rfl⟩
abbrev main_call53_v1 : Ref sig .tc := ⟨.hbm, 1388, rfl⟩
abbrev main_call53_v2 : Ref sig .tc := ⟨.hbm, 1389, rfl⟩
abbrev main_call53_v3 : Ref sig .tc := ⟨.hbm, 1390, rfl⟩
abbrev main_call53_c_1 : Ref sig .tc := ⟨.hbm, 1391, rfl⟩
abbrev main_call53_v4 : Ref sig .tc := ⟨.hbm, 1392, rfl⟩
abbrev main_call53_c_2 : Ref sig .tc := ⟨.hbm, 1393, rfl⟩
abbrev main_call53_v5 : Ref sig .tc := ⟨.hbm, 1394, rfl⟩
abbrev main_call53_v6 : Ref sig .tc := ⟨.hbm, 1395, rfl⟩
abbrev main_call53_v7 : Ref sig .tc := ⟨.hbm, 1396, rfl⟩
abbrev main_call53_v8 : Ref sig .tc := ⟨.hbm, 1397, rfl⟩
abbrev main_call53_c_3 : Ref sig .tc := ⟨.hbm, 1398, rfl⟩
abbrev main_call53_v9 : Ref sig .tc := ⟨.hbm, 1399, rfl⟩
abbrev main_call53_v10 : Ref sig .tc := ⟨.hbm, 1400, rfl⟩
abbrev main_call53_v11 : Ref sig .tc := ⟨.hbm, 1401, rfl⟩
abbrev main_call53_cst : Ref sig .tc := ⟨.hbm, 1402, rfl⟩
abbrev main_call53_v12 : Ref sig .tc := ⟨.hbm, 1403, rfl⟩
abbrev main_v422 : Ref sig .tc := ⟨.hbm, 1404, rfl⟩
abbrev main_c_83 : Ref sig .tc := ⟨.hbm, 1405, rfl⟩
abbrev main_call54_c : Ref sig .tc := ⟨.hbm, 1406, rfl⟩
abbrev main_call54_v0 : Ref sig .tc := ⟨.hbm, 1407, rfl⟩
abbrev main_call54_c_0 : Ref sig .tc := ⟨.hbm, 1408, rfl⟩
abbrev main_call54_v1 : Ref sig .tc := ⟨.hbm, 1409, rfl⟩
abbrev main_call54_v2 : Ref sig .tc := ⟨.hbm, 1410, rfl⟩
abbrev main_call54_v3 : Ref sig .tc := ⟨.hbm, 1411, rfl⟩
abbrev main_call54_c_1 : Ref sig .tc := ⟨.hbm, 1412, rfl⟩
abbrev main_call54_v4 : Ref sig .tc := ⟨.hbm, 1413, rfl⟩
abbrev main_call54_c_2 : Ref sig .tc := ⟨.hbm, 1414, rfl⟩
abbrev main_call54_v5 : Ref sig .tc := ⟨.hbm, 1415, rfl⟩
abbrev main_call54_v6 : Ref sig .tc := ⟨.hbm, 1416, rfl⟩
abbrev main_call54_v7 : Ref sig .tc := ⟨.hbm, 1417, rfl⟩
abbrev main_call54_v8 : Ref sig .tc := ⟨.hbm, 1418, rfl⟩
abbrev main_call54_c_3 : Ref sig .tc := ⟨.hbm, 1419, rfl⟩
abbrev main_call54_v9 : Ref sig .tc := ⟨.hbm, 1420, rfl⟩
abbrev main_call54_v10 : Ref sig .tc := ⟨.hbm, 1421, rfl⟩
abbrev main_call54_v11 : Ref sig .tc := ⟨.hbm, 1422, rfl⟩
abbrev main_call54_cst : Ref sig .tc := ⟨.hbm, 1423, rfl⟩
abbrev main_call54_v12 : Ref sig .tc := ⟨.hbm, 1424, rfl⟩
abbrev main_v423 : Ref sig .tc := ⟨.hbm, 1425, rfl⟩
abbrev main_v424 : Ref sig .tc := ⟨.hbm, 1426, rfl⟩
abbrev main_v425 : Ref sig .tc := ⟨.hbm, 1427, rfl⟩
abbrev main_v426 : Ref sig .tc := ⟨.hbm, 1428, rfl⟩
abbrev main_v427 : Ref sig .tc := ⟨.hbm, 1429, rfl⟩
abbrev main_v428 : Ref sig .tc := ⟨.hbm, 1430, rfl⟩
abbrev main_cst_84 : Ref sig .tc := ⟨.hbm, 1431, rfl⟩
abbrev main_v429 : Ref sig .tc := ⟨.hbm, 1432, rfl⟩
abbrev main_v430 : Ref sig .tc := ⟨.hbm, 1433, rfl⟩
abbrev main_v431 : Ref sig .tc := ⟨.hbm, 1434, rfl⟩
abbrev main_v432 : Ref sig .tc := ⟨.hbm, 1435, rfl⟩
abbrev main_v433 : Ref sig .tc := ⟨.hbm, 1436, rfl⟩
abbrev main_v434 : Ref sig .tc := ⟨.hbm, 1437, rfl⟩
abbrev main_cst_85 : Ref sig .tc := ⟨.hbm, 1438, rfl⟩
abbrev main_v435 : Ref sig .tc := ⟨.hbm, 1439, rfl⟩
abbrev main_v436 : Ref sig .tc := ⟨.hbm, 1440, rfl⟩
abbrev main_v437 : Ref sig .tc := ⟨.hbm, 1441, rfl⟩
abbrev main_v438 : Ref sig .tc := ⟨.hbm, 1442, rfl⟩
abbrev main_v439 : Ref sig .tc := ⟨.hbm, 1443, rfl⟩
abbrev main_v440 : Ref sig .tc := ⟨.hbm, 1444, rfl⟩
abbrev main_cst_86 : Ref sig .tc := ⟨.hbm, 1445, rfl⟩
abbrev main_v441 : Ref sig .tc := ⟨.hbm, 1446, rfl⟩
abbrev main_v442 : Ref sig .tc := ⟨.hbm, 1447, rfl⟩
abbrev main_v443 : Ref sig .tc := ⟨.hbm, 1448, rfl⟩
abbrev main_v444 : Ref sig .tc := ⟨.hbm, 1449, rfl⟩
abbrev main_v445 : Ref sig .tc := ⟨.hbm, 1450, rfl⟩
abbrev main_v446 : Ref sig .tc := ⟨.hbm, 1451, rfl⟩
abbrev main_cst_87 : Ref sig .tc := ⟨.hbm, 1452, rfl⟩
abbrev main_v447 : Ref sig .tc := ⟨.hbm, 1453, rfl⟩
abbrev main_v448 : Ref sig .tc := ⟨.hbm, 1454, rfl⟩
abbrev main_v449 : Ref sig .tc := ⟨.hbm, 1455, rfl⟩
abbrev main_v450 : Ref sig .tc := ⟨.hbm, 1456, rfl⟩
abbrev main_v451 : Ref sig .tc := ⟨.hbm, 1457, rfl⟩
abbrev main_v452 : Ref sig .tc := ⟨.hbm, 1458, rfl⟩
abbrev main_v453 : Ref sig .tc := ⟨.hbm, 1459, rfl⟩
abbrev main_v454 : Ref sig .tc := ⟨.hbm, 1460, rfl⟩
abbrev main_v455 : Ref sig .tc := ⟨.hbm, 1461, rfl⟩
abbrev main_v456 : Ref sig .tc := ⟨.hbm, 1462, rfl⟩
abbrev main_v457 : Ref sig .tc := ⟨.hbm, 1463, rfl⟩
abbrev main_v458 : Ref sig .tc := ⟨.hbm, 1464, rfl⟩
abbrev main_v459 : Ref sig .tc := ⟨.hbm, 1465, rfl⟩
abbrev main_v460 : Ref sig .tc := ⟨.hbm, 1466, rfl⟩
abbrev main_v461 : Ref sig .tc := ⟨.hbm, 1467, rfl⟩
abbrev main_v462 : Ref sig .tc := ⟨.hbm, 1468, rfl⟩
abbrev main_v463 : Ref sig .tc := ⟨.hbm, 1469, rfl⟩
abbrev main_call56_cst : Ref sig .tc := ⟨.hbm, 1470, rfl⟩
abbrev main_call56_v0 : Ref sig .tc := ⟨.hbm, 1471, rfl⟩
abbrev main_call56_cst_0 : Ref sig .tc := ⟨.hbm, 1472, rfl⟩
abbrev main_call56_v1 : Ref sig .tc := ⟨.hbm, 1473, rfl⟩
abbrev main_call56_v2 : Ref sig .tc := ⟨.hbm, 1474, rfl⟩
abbrev main_call56_v3 : Ref sig .tc := ⟨.hbm, 1475, rfl⟩
abbrev main_call56_v4 : Ref sig .tc := ⟨.hbm, 1476, rfl⟩
abbrev main_call56_v5 : Ref sig .tc := ⟨.hbm, 1477, rfl⟩
abbrev main_call56_v6 : Ref sig .tc := ⟨.hbm, 1478, rfl⟩
abbrev main_call56_cst_1 : Ref sig .tc := ⟨.hbm, 1479, rfl⟩
abbrev main_call56_v7 : Ref sig .tc := ⟨.hbm, 1480, rfl⟩
abbrev main_call56_v8 : Ref sig .tc := ⟨.hbm, 1481, rfl⟩
abbrev main_call56_v9 : Ref sig .tc := ⟨.hbm, 1482, rfl⟩
abbrev main_call56_v10 : Ref sig .tc := ⟨.hbm, 1483, rfl⟩
abbrev main_v464 : Ref sig .tc := ⟨.hbm, 1484, rfl⟩

abbrev nD : Nat := 1
abbrev τ : Topo := Topo.v7x

variable {F : FTy → Type} [FloatOps F]

class Facts₀ : Prop where
  shapeCasts_S4096x784_S4096x28x28 : S4096x784.ShapeCasts S4096x28x28
  shapeCasts_S4096x28x28_S4096x14x2x14x2 : S4096x28x28.ShapeCasts S4096x14x2x14x2
  transposes_S4096x14x2x14x2_S4096x14x14x2x2_0_1_3_2_4 : S4096x14x2x14x2.Transposes [0, 1, 3, 2, 4] S4096x14x14x2x2
  shapeCasts_S4096x14x14x2x2_S802816x4 : S4096x14x14x2x2.ShapeCasts S802816x4
  bcast_S_S802816x2x2x2x2 : S_.BroadcastsInDim S802816x2x2x2x2 (![] : Fin 0 → Fin S802816x2x2x2x2.rank)
  bcast_S_S1 : S_.BroadcastsInDim S1 (![] : Fin 0 → Fin S1.rank)
  concatenates_S1_S1_S1_S1_S4_d0 : Shape.Concatenates [S1, S1, S1, S1] S4 0
  bcast_S_S802816 : S_.BroadcastsInDim S802816 (![] : Fin 0 → Fin S802816.rank)
  slices_S802816x4_S802816x1_0_0 : S802816x4.Slices ![0, 0] S802816x1
  shapeCasts_S802816x1_S802816 : S802816x1.ShapeCasts S802816
  reducesTo_S1_S_d0 : S1.ReducesTo [0] S_
  h_S_ : 0 < S_.numel
  bcast_S_S802816x2x2x2 : S_.BroadcastsInDim S802816x2x2x2 (![] : Fin 0 → Fin S802816x2x2x2.rank)
  shapeCasts_S802816_S802816x1x1x1 : S802816.ShapeCasts S802816x1x1x1
  bcast_S802816x1x1x1_S802816x2x2x2_0_1_2_3 : S802816x1x1x1.BroadcastsInDim S802816x2x2x2 (![0, 1, 2, 3] : Fin 4 → Fin S802816x2x2x2.rank)
  bcast_S802816x2x2x2_S802816x1x2x2x2_0_2_3_4 : S802816x2x2x2.BroadcastsInDim S802816x1x2x2x2 (![0, 2, 3, 4] : Fin 4 → Fin S802816x1x2x2x2.rank)
  concatenates_S802816x1x2x2x2_S802816x1x2x2x2_S802816x2x2x2x2_d1 : Shape.Concatenates [S802816x1x2x2x2, S802816x1x2x2x2] S802816x2x2x2x2 1
  slices_S802816x4_S802816x1_0_1 : S802816x4.Slices ![0, 1] S802816x1
  bcast_S802816x2x2x2_S802816x2x1x2x2_0_1_3_4 : S802816x2x2x2.BroadcastsInDim S802816x2x1x2x2 (![0, 1, 3, 4] : Fin 4 → Fin S802816x2x1x2x2.rank)
  concatenates_S802816x2x1x2x2_S802816x2x1x2x2_S802816x2x2x2x2_d2 : Shape.Concatenates [S802816x2x1x2x2, S802816x2x1x2x2] S802816x2x2x2x2 2
  slices_S802816x4_S802816x1_0_2 : S802816x4.Slices ![0, 2] S802816x1
  bcast_S802816x2x2x2_S802816x2x2x1x2_0_1_2_4 : S802816x2x2x2.BroadcastsInDim S802816x2x2x1x2 (![0, 1, 2, 4] : Fin 4 → Fin S802816x2x2x1x2.rank)
  concatenates_S802816x2x2x1x2_S802816x2x2x1x2_S802816x2x2x2x2_d3 : Shape.Concatenates [S802816x2x2x1x2, S802816x2x2x1x2] S802816x2x2x2x2 3
  slices_S802816x4_S802816x1_0_3 : S802816x4.Slices ![0, 3] S802816x1
  bcast_S802816x2x2x2_S802816x2x2x2x1_0_1_2_3 : S802816x2x2x2.BroadcastsInDim S802816x2x2x2x1 (![0, 1, 2, 3] : Fin 4 → Fin S802816x2x2x2x1.rank)
  concatenates_S802816x2x2x2x1_S802816x2x2x2x1_S802816x2x2x2x2_d4 : Shape.Concatenates [S802816x2x2x2x1, S802816x2x2x2x1] S802816x2x2x2x2 4
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  reducesTo_S802816x2x2x2x2_S802816x2_d2_3_4 : S802816x2x2x2x2.ReducesTo [2, 3, 4] S802816x2
  slices_S802816x2_S802816x1_0_0 : S802816x2.Slices ![0, 0] S802816x1
  slices_S802816x2_S802816x1_0_1 : S802816x2.Slices ![0, 1] S802816x1
  reducesTo_S802816x2x2x2x2_S802816x2_d1_3_4 : S802816x2x2x2x2.ReducesTo [1, 3, 4] S802816x2
  reducesTo_S802816x2x2x2x2_S802816x2_d1_2_4 : S802816x2x2x2x2.ReducesTo [1, 2, 4] S802816x2
  reducesTo_S802816x2x2x2x2_S802816x2_d1_2_3 : S802816x2x2x2x2.ReducesTo [1, 2, 3] S802816x2
  bcast_S802816_S802816x1_0 : S802816.BroadcastsInDim S802816x1 (![0] : Fin 1 → Fin S802816x1.rank)
  concatenates_S802816x1_S802816x1_S802816x1_S802816x1_S802816x4_d1 : Shape.Concatenates [S802816x1, S802816x1, S802816x1, S802816x1] S802816x4 1
  shapeCasts_S802816x4_S4096x784 : S802816x4.ShapeCasts S4096x784
  transposes_S10x784_S784x10_1_0 : S10x784.Transposes [1, 0] S784x10
  bcast_S10_S1x10_1 : S10.BroadcastsInDim S1x10 (![1] : Fin 1 → Fin S1x10.rank)
  bcast_S1x10_S4096x10_0_1 : S1x10.BroadcastsInDim S4096x10 (![0, 1] : Fin 2 → Fin S4096x10.rank)
  reducesTo_S4096x10_S4096_d1 : S4096x10.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x10_0_1 : S4096x1.BroadcastsInDim S4096x10 (![0, 1] : Fin 2 → Fin S4096x10.rank)
  scatter_S802816x2x2x2x2_S4_S802816_0_1234_1234_0_wf : ScatterDims.WF S802816x2x2x2x2 S4 S802816 [0] [1, 2, 3, 4] [1, 2, 3, 4] 0
  gather_S802816x2x2x2x2_S1_S802816x2x2x2_0123_1_n_n_1_0_8028161222_wf : GatherDims.WF S802816x2x2x2x2 S1 S802816x2x2x2 [0, 1, 2, 3] [1] [] [1] [] 0 ![802816, 1, 2, 2, 2]
  gather_S802816x2x2x2x2_S1_S802816x2x2x2_0123_2_n_n_2_0_8028162122_wf : GatherDims.WF S802816x2x2x2x2 S1 S802816x2x2x2 [0, 1, 2, 3] [2] [] [2] [] 0 ![802816, 2, 1, 2, 2]
  gather_S802816x2x2x2x2_S1_S802816x2x2x2_0123_3_n_n_3_0_8028162212_wf : GatherDims.WF S802816x2x2x2x2 S1 S802816x2x2x2 [0, 1, 2, 3] [3] [] [3] [] 0 ![802816, 2, 2, 1, 2]
  gather_S802816x2x2x2x2_S1_S802816x2x2x2_0123_4_n_n_4_0_8028162221_wf : GatherDims.WF S802816x2x2x2x2 S1 S802816x2x2x2 [0, 1, 2, 3] [4] [] [4] [] 0 ![802816, 2, 2, 2, 1]
  dot_S4096x784_S784x10_S4096x10_1_0_0_1_n_n_wf : DotDims.WF S4096x784 S784x10 S4096x10 [1] [0] [0] [1] [] []

variable [Facts₀]

def scatter_S802816x2x2x2x2_S4_S802816_0_1234_1234_0 : ScatterDims S802816x2x2x2x2 S4 S802816 where
  updateWindowDims := [0]
  insertedWindowDims := [1, 2, 3, 4]
  scatterDimsToOperandDims := [1, 2, 3, 4]
  indexVectorDim := 0
  wf := scatter_S802816x2x2x2x2_S4_S802816_0_1234_1234_0_wf
def gather_S802816x2x2x2x2_S1_S802816x2x2x2_0123_1_n_n_1_0_8028161222 : GatherDims S802816x2x2x2x2 S1 S802816x2x2x2 where
  offsetDims := [0, 1, 2, 3]
  collapsedSliceDims := [1]
  operandBatchingDims := []
  startIndicesBatchingDims := []
  startIndexMap := [1]
  indexVectorDim := 0
  sliceSizes := ![802816, 1, 2, 2, 2]
  wf := gather_S802816x2x2x2x2_S1_S802816x2x2x2_0123_1_n_n_1_0_8028161222_wf
def gather_S802816x2x2x2x2_S1_S802816x2x2x2_0123_2_n_n_2_0_8028162122 : GatherDims S802816x2x2x2x2 S1 S802816x2x2x2 where
  offsetDims := [0, 1, 2, 3]
  collapsedSliceDims := [2]
  operandBatchingDims := []
  startIndicesBatchingDims := []
  startIndexMap := [2]
  indexVectorDim := 0
  sliceSizes := ![802816, 2, 1, 2, 2]
  wf := gather_S802816x2x2x2x2_S1_S802816x2x2x2_0123_2_n_n_2_0_8028162122_wf
def gather_S802816x2x2x2x2_S1_S802816x2x2x2_0123_3_n_n_3_0_8028162212 : GatherDims S802816x2x2x2x2 S1 S802816x2x2x2 where
  offsetDims := [0, 1, 2, 3]
  collapsedSliceDims := [3]
  operandBatchingDims := []
  startIndicesBatchingDims := []
  startIndexMap := [3]
  indexVectorDim := 0
  sliceSizes := ![802816, 2, 2, 1, 2]
  wf := gather_S802816x2x2x2x2_S1_S802816x2x2x2_0123_3_n_n_3_0_8028162212_wf
def gather_S802816x2x2x2x2_S1_S802816x2x2x2_0123_4_n_n_4_0_8028162221 : GatherDims S802816x2x2x2x2 S1 S802816x2x2x2 where
  offsetDims := [0, 1, 2, 3]
  collapsedSliceDims := [4]
  operandBatchingDims := []
  startIndicesBatchingDims := []
  startIndexMap := [4]
  indexVectorDim := 0
  sliceSizes := ![802816, 2, 2, 2, 1]
  wf := gather_S802816x2x2x2x2_S1_S802816x2x2x2_0123_4_n_n_4_0_8028162221_wf
def dot_S4096x784_S784x10_S4096x10_1_0_0_1_n_n : DotDims S4096x784 S784x10 S4096x10 where
  lhsContracting := [1]
  rhsContracting := [0]
  lhsNonContracting := [0]
  rhsNonContracting := [1]
  lhsBatch := []
  rhsBatch := []
  wf := dot_S4096x784_S784x10_S4096x10_1_0_0_1_n_n_wf

class Facts : Prop extends Facts₀ where

variable [Facts]
-- ==== Proof.KerBodyDagBits.lean ====
/-
  The values of the kernel body named one by one.  The body's stored block is a term in which every
  intermediate value is repeated wherever it is used; here each intermediate value is one definition over the
  five loaded blocks — the 16 x 16 matrix `u` and the four one-row blocks of angles `a0 … a3` — applied to
  the definitions of the values it reads, so that unfolding all of them gives back that term: `stored`, at
  the loads of the body, is definitionally the stored block.  Generic in the float instance.  This is the same naming for the program as printed at the word level
  (its payload functions are that program's own).
-/
import proofs.«159359_j65481071398168_2_alg».proof.Proof.Gen.Kernel.Skeleton

noncomputable section

namespace Cert.Kernel.Body

open Idealize.ShloMosaic Cert.Kernel.Gen

variable {F : FTy → Type} [FloatOps F]
/-- The value `%19` of the body. -/
def p9 (u : Vec F S16x16 .f32) (a0 a1 a2 a3 : Vec F S1x57344 .f32) : FVec F S57344 .f32 :=
  k0_pay9 a3

/-- The value `%31` of the body. -/
def p13 (u : Vec F S16x16 .f32) (a0 a1 a2 a3 : Vec F S1x57344 .f32) : FVec F S57344 .f32 :=
  k0_pay13 a3

/-- The value `%78` of the body. -/
def p25 (u : Vec F S16x16 .f32) (a0 a1 a2 a3 : Vec F S1x57344 .f32) : FVec F S16x16 .f32 :=
  k0_pay25 u

/-- The value `%16` of the body. -/
def p8 (u : Vec F S16x16 .f32) (a0 a1 a2 a3 : Vec F S1x57344 .f32) : FVec F S57344 .f32 :=
  k0_pay8 a2

/-- The value `%28` of the body. -/
def p12 (u : Vec F S16x16 .f32) (a0 a1 a2 a3 : Vec F S1x57344 .f32) : FVec F S57344 .f32 :=
  k0_pay12 a2

/-- The value `%13` of the body. -/
def p7 (u : Vec F S16x16 .f32) (a0 a1 a2 a3 : Vec F S1x57344 .f32) : FVec F S57344 .f32 :=
  k0_pay7 a1

/-- The value `%25` of the body. -/
def p11 (u : Vec F S16x16 .f32) (a0 a1 a2 a3 : Vec F S1x57344 .f32) : FVec F S57344 .f32 :=
  k0_pay11 a1

/-- The value `%10` of the body. -/
def p6 (u : Vec F S16x16 .f32) (a0 a1 a2 a3 : Vec F S1x57344 .f32) : FVec F S57344 .f32 :=
  k0_pay6 a0

/-- The value `%22` of the body. -/
def p10 (u : Vec F S16x16 .f32) (a0 a1 a2 a3 : Vec F S1x57344 .f32) : FVec F S57344 .f32 :=
  k0_pay10 a0

/-- The value `%35` of the body. -/
def p17 (u : Vec F S16x16 .f32) (a0 a1 a2 a3 : Vec F S1x57344 .f32) : FVec F S57344 .f32 :=
  k0_pay17 a0 a1

/-- The value `%36` of the body. -/
def p18 (u : Vec F S16x16 .f32) (a0 a1 a2 a3 : Vec F S1x57344 .f32) : FVec F S57344 .f32 :=
  k0_pay18 a0 a1 a2

/-- The value `%37` of the body. -/
def p19 (u : Vec F S16x16 .f32) (a0 a1 a2 a3 : Vec F S1x57344 .f32) : FVec F S57344 .f32 :=
  k0_pay19 a0 a1 a2

/-- The value `%38` of the body. -/
def p20 (u : Vec F S16x16 .f32) (a0 a1 a2 a3 : Vec F S1x57344 .f32) : FVec F S57344 .f32 :=
  k0_pay20 a0 a1 a2

/-- The value `%39` of the body. -/
def p21 (u : Vec F S16x16 .f32) (a0 a1 a2 a3 : Vec F S1x57344 .f32) : FVec F S57344 .f32 :=
  k0_pay21 a0 a1 a2

/-- The value `%40` of the body. -/
def p22 (u : Vec F S16x16 .f32) (a0 a1 a2 a3 : Vec F S1x57344 .f32) : FVec F S57344 .f32 :=
  k0_pay22 a0 a1 a2

/-- The value `%41` of the body. -/
def p23 (u : Vec F S16x16 .f32) (a0 a1 a2 a3 : Vec F S1x57344 .f32) : FVec F S57344 .f32 :=
  k0_pay23 a0 a1 a2

/-- The value `%42` of the body. -/
def p24 (u : Vec F S16x16 .f32) (a0 a1 a2 a3 : Vec F S1x57344 .f32) : FVec F S57344 .f32 :=
  k0_pay24 a0 a1 a2

/-- The value `%81` of the body. -/
def p27 (u : Vec F S16x16 .f32) (a0 a1 a2 a3 : Vec F S1x57344 .f32) : FVec F S57344 .f32 :=
  k0_pay27 (p9 u a0 a1 a2 a3) (p12 u a0 a1 a2 a3) (p13 u a0 a1 a2 a3) (p17 u a0 a1 a2 a3) (p18 u a0 a1 a2 a3) (p19 u a0 a1 a2 a3) (p20 u a0 a1 a2 a3) (p21 u a0 a1 a2 a3) (p22 u a0 a1 a2 a3) (p23 u a0 a1 a2 a3) (p24 u a0 a1 a2 a3) u

/-- The value `%97` of the body. -/
def p35 (u : Vec F S16x16 .f32) (a0 a1 a2 a3 : Vec F S1x57344 .f32) : FVec F S57344 .f32 :=
  k0_pay35 (p9 u a0 a1 a2 a3) (p12 u a0 a1 a2 a3) (p13 u a0 a1 a2 a3) (p17 u a0 a1 a2 a3) (p18 u a0 a1 a2 a3) (p19 u a0 a1 a2 a3) (p20 u a0 a1 a2 a3) (p21 u a0 a1 a2 a3) (p22 u a0 a1 a2 a3) (p23 u a0 a1 a2 a3) (p24 u a0 a1 a2 a3) u

/-- The value `%117` of the body. -/
def p44 (u : Vec F S16x16 .f32) (a0 a1 a2 a3 : Vec F S1x57344 .f32) : FVec F S57344 .f32 :=
  k0_pay44 (p6 u a0 a1 a2 a3) (p10 u a0 a1 a2 a3) (p27 u a0 a1 a2 a3) (p35 u a0 a1 a2 a3)

/-- The value `%79` of the body. -/
def p26 (u : Vec F S16x16 .f32) (a0 a1 a2 a3 : Vec F S1x57344 .f32) : FVec F S16x57344 .f32 :=
  k0_pay26 (p9 u a0 a1 a2 a3) (p12 u a0 a1 a2 a3) (p13 u a0 a1 a2 a3) (p17 u a0 a1 a2 a3) (p18 u a0 a1 a2 a3) (p19 u a0 a1 a2 a3) (p20 u a0 a1 a2 a3) (p21 u a0 a1 a2 a3) (p22 u a0 a1 a2 a3) (p23 u a0 a1 a2 a3) (p24 u a0 a1 a2 a3) u

/-- The value `%89` of the body. -/
def p31 (u : Vec F S16x16 .f32) (a0 a1 a2 a3 : Vec F S1x57344 .f32) : FVec F S57344 .f32 :=
  k0_pay31 (p9 u a0 a1 a2 a3) (p12 u a0 a1 a2 a3) (p13 u a0 a1 a2 a3) (p17 u a0 a1 a2 a3) (p18 u a0 a1 a2 a3) (p19 u a0 a1 a2 a3) (p20 u a0 a1 a2 a3) (p21 u a0 a1 a2 a3) (p22 u a0 a1 a2 a3) (p23 u a0 a1 a2 a3) (p24 u a0 a1 a2 a3) u

/-- The value `%141` of the body. -/
def p52 (u : Vec F S16x16 .f32) (a0 a1 a2 a3 : Vec F S1x57344 .f32) : FVec F S57344 .f32 :=
  k0_pay52 (p6 u a0 a1 a2 a3) (p10 u a0 a1 a2 a3) (p26 u a0 a1 a2 a3) (p31 u a0 a1 a2 a3)

/-- The value `%186` of the body. -/
def p67 (u : Vec F S16x16 .f32) (a0 a1 a2 a3 : Vec F S1x57344 .f32) : FVec F S57344 .f32 :=
  k0_pay67 (p7 u a0 a1 a2 a3) (p11 u a0 a1 a2 a3) (p44 u a0 a1 a2 a3) (p52 u a0 a1 a2 a3)

/-- The value `%85` of the body. -/
def p29 (u : Vec F S16x16 .f32) (a0 a1 a2 a3 : Vec F S1x57344 .f32) : FVec F S57344 .f32 :=
  k0_pay29 (p9 u a0 a1 a2 a3) (p12 u a0 a1 a2 a3) (p13 u a0 a1 a2 a3) (p17 u a0 a1 a2 a3) (p18 u a0 a1 a2 a3) (p19 u a0 a1 a2 a3) (p20 u a0 a1 a2 a3) (p21 u a0 a1 a2 a3) (p22 u a0 a1 a2 a3) (p23 u a0 a1 a2 a3) (p24 u a0 a1 a2 a3) u

/-- The value `%129` of the body. -/
def p48 (u : Vec F S16x16 .f32) (a0 a1 a2 a3 : Vec F S1x57344 .f32) : FVec F S57344 .f32 :=
  k0_pay48 (p6 u a0 a1 a2 a3) (p10 u a0 a1 a2 a3) (p26 u a0 a1 a2 a3) (p29 u a0 a1 a2 a3)

/-- The value `%93` of the body. -/
def p33 (u : Vec F S16x16 .f32) (a0 a1 a2 a3 : Vec F S1x57344 .f32) : FVec F S57344 .f32 :=
  k0_pay33 (p9 u a0 a1 a2 a3) (p12 u a0 a1 a2 a3) (p13 u a0 a1 a2 a3) (p17 u a0 a1 a2 a3) (p18 u a0 a1 a2 a3) (p19 u a0 a1 a2 a3) (p20 u a0 a1 a2 a3) (p21 u a0 a1 a2 a3) (p22 u a0 a1 a2 a3) (p23 u a0 a1 a2 a3) (p24 u a0 a1 a2 a3) u

/-- The value `%153` of the body. -/
def p56 (u : Vec F S16x16 .f32) (a0 a1 a2 a3 : Vec F S1x57344 .f32) : FVec F S57344 .f32 :=
  k0_pay56 (p6 u a0 a1 a2 a3) (p10 u a0 a1 a2 a3) (p26 u a0 a1 a2 a3) (p33 u a0 a1 a2 a3)

/-- The value `%198` of the body. -/
def p71 (u : Vec F S16x16 .f32) (a0 a1 a2 a3 : Vec F S1x57344 .f32) : FVec F S57344 .f32 :=
  k0_pay71 (p7 u a0 a1 a2 a3) (p11 u a0 a1 a2 a3) (p48 u a0 a1 a2 a3) (p56 u a0 a1 a2 a3)

/-- The value `%234` of the body. -/
def p83 (u : Vec F S16x16 .f32) (a0 a1 a2 a3 : Vec F S1x57344 .f32) : FVec F S57344 .f32 :=
  k0_pay83 (p8 u a0 a1 a2 a3) (p12 u a0 a1 a2 a3) (p67 u a0 a1 a2 a3) (p71 u a0 a1 a2 a3)

/-- The value `%237` of the body. -/
def p84 (u : Vec F S16x16 .f32) (a0 a1 a2 a3 : Vec F S1x57344 .f32) : FVec F S57344 .f32 :=
  k0_pay84 (p8 u a0 a1 a2 a3) (p12 u a0 a1 a2 a3) (p67 u a0 a1 a2 a3) (p71 u a0 a1 a2 a3)

/-- The value `%83` of the body. -/
def p28 (u : Vec F S16x16 .f32) (a0 a1 a2 a3 : Vec F S1x57344 .f32) : FVec F S57344 .f32 :=
  k0_pay28 (p9 u a0 a1 a2 a3) (p12 u a0 a1 a2 a3) (p13 u a0 a1 a2 a3) (p17 u a0 a1 a2 a3) (p18 u a0 a1 a2 a3) (p19 u a0 a1 a2 a3) (p20 u a0 a1 a2 a3) (p21 u a0 a1 a2 a3) (p22 u a0 a1 a2 a3) (p23 u a0 a1 a2 a3) (p24 u a0 a1 a2 a3) u

/-- The value `%99` of the body. -/
def p36 (u : Vec F S16x16 .f32) (a0 a1 a2 a3 : Vec F S1x57344 .f32) : FVec F S57344 .f32 :=
  k0_pay36 (p9 u a0 a1 a2 a3) (p12 u a0 a1 a2 a3) (p13 u a0 a1 a2 a3) (p17 u a0 a1 a2 a3) (p18 u a0 a1 a2 a3) (p19 u a0 a1 a2 a3) (p20 u a0 a1 a2 a3) (p21 u a0 a1 a2 a3) (p22 u a0 a1 a2 a3) (p23 u a0 a1 a2 a3) (p24 u a0 a1 a2 a3) u

/-- The value `%123` of the body. -/
def p46 (u : Vec F S16x16 .f32) (a0 a1 a2 a3 : Vec F S1x57344 .f32) : FVec F S57344 .f32 :=
  k0_pay46 (p6 u a0 a1 a2 a3) (p10 u a0 a1 a2 a3) (p28 u a0 a1 a2 a3) (p36 u a0 a1 a2 a3)

/-- The value `%91` of the body. -/
def p32 (u : Vec F S16x16 .f32) (a0 a1 a2 a3 : Vec F S1x57344 .f32) : FVec F S57344 .f32 :=
  k0_pay32 (p9 u a0 a1 a2 a3) (p12 u a0 a1 a2 a3) (p13 u a0 a1 a2 a3) (p17 u a0 a1 a2 a3) (p18 u a0 a1 a2 a3) (p19 u a0 a1 a2 a3) (p20 u a0 a1 a2 a3) (p21 u a0 a1 a2 a3) (p22 u a0 a1 a2 a3) (p23 u a0 a1 a2 a3) (p24 u a0 a1 a2 a3) u

/-- The value `%147` of the body. -/
def p54 (u : Vec F S16x16 .f32) (a0 a1 a2 a3 : Vec F S1x57344 .f32) : FVec F S57344 .f32 :=
  k0_pay54 (p6 u a0 a1 a2 a3) (p10 u a0 a1 a2 a3) (p26 u a0 a1 a2 a3) (p32 u a0 a1 a2 a3)

/-- The value `%192` of the body. -/
def p69 (u : Vec F S16x16 .f32) (a0 a1 a2 a3 : Vec F S1x57344 .f32) : FVec F S57344 .f32 :=
  k0_pay69 (p7 u a0 a1 a2 a3) (p11 u a0 a1 a2 a3) (p46 u a0 a1 a2 a3) (p54 u a0 a1 a2 a3)

/-- The value `%87` of the body. -/
def p30 (u : Vec F S16x16 .f32) (a0 a1 a2 a3 : Vec F S1x57344 .f32) : FVec F S57344 .f32 :=
  k0_pay30 (p9 u a0 a1 a2 a3) (p12 u a0 a1 a2 a3) (p13 u a0 a1 a2 a3) (p17 u a0 a1 a2 a3) (p18 u a0 a1 a2 a3) (p19 u a0 a1 a2 a3) (p20 u a0 a1 a2 a3) (p21 u a0 a1 a2 a3) (p22 u a0 a1 a2 a3) (p23 u a0 a1 a2 a3) (p24 u a0 a1 a2 a3) u

/-- The value `%135` of the body. -/
def p50 (u : Vec F S16x16 .f32) (a0 a1 a2 a3 : Vec F S1x57344 .f32) : FVec F S57344 .f32 :=
  k0_pay50 (p6 u a0 a1 a2 a3) (p10 u a0 a1 a2 a3) (p26 u a0 a1 a2 a3) (p30 u a0 a1 a2 a3)

/-- The value `%95` of the body. -/
def p34 (u : Vec F S16x16 .f32) (a0 a1 a2 a3 : Vec F S1x57344 .f32) : FVec F S57344 .f32 :=
  k0_pay34 (p9 u a0 a1 a2 a3) (p12 u a0 a1 a2 a3) (p13 u a0 a1 a2 a3) (p17 u a0 a1 a2 a3) (p18 u a0 a1 a2 a3) (p19 u a0 a1 a2 a3) (p20 u a0 a1 a2 a3) (p21 u a0 a1 a2 a3) (p22 u a0 a1 a2 a3) (p23 u a0 a1 a2 a3) (p24 u a0 a1 a2 a3) u

/-- The value `%159` of the body. -/
def p58 (u : Vec F S16x16 .f32) (a0 a1 a2 a3 : Vec F S1x57344 .f32) : FVec F S57344 .f32 :=
  k0_pay58 (p6 u a0 a1 a2 a3) (p10 u a0 a1 a2 a3) (p26 u a0 a1 a2 a3) (p34 u a0 a1 a2 a3)

/-- The value `%204` of the body. -/
def p73 (u : Vec F S16x16 .f32) (a0 a1 a2 a3 : Vec F S1x57344 .f32) : FVec F S57344 .f32 :=
  k0_pay73 (p7 u a0 a1 a2 a3) (p11 u a0 a1 a2 a3) (p50 u a0 a1 a2 a3) (p58 u a0 a1 a2 a3)

/-- The value `%240` of the body. -/
def p85 (u : Vec F S16x16 .f32) (a0 a1 a2 a3 : Vec F S1x57344 .f32) : FVec F S57344 .f32 :=
  k0_pay85 (p8 u a0 a1 a2 a3) (p12 u a0 a1 a2 a3) (p69 u a0 a1 a2 a3) (p73 u a0 a1 a2 a3)

/-- The value `%243` of the body. -/
def p86 (u : Vec F S16x16 .f32) (a0 a1 a2 a3 : Vec F S1x57344 .f32) : FVec F S57344 .f32 :=
  k0_pay86 (p8 u a0 a1 a2 a3) (p12 u a0 a1 a2 a3) (p69 u a0 a1 a2 a3) (p73 u a0 a1 a2 a3)

/-- The value `%189` of the body. -/
def p68 (u : Vec F S16x16 .f32) (a0 a1 a2 a3 : Vec F S1x57344 .f32) : FVec F S57344 .f32 :=
  k0_pay68 (p7 u a0 a1 a2 a3) (p11 u a0 a1 a2 a3) (p44 u a0 a1 a2 a3) (p52 u a0 a1 a2 a3)

/-- The value `%201` of the body. -/
def p72 (u : Vec F S16x16 .f32) (a0 a1 a2 a3 : Vec F S1x57344 .f32) : FVec F S57344 .f32 :=
  k0_pay72 (p7 u a0 a1 a2 a3) (p11 u a0 a1 a2 a3) (p48 u a0 a1 a2 a3) (p56 u a0 a1 a2 a3)

/-- The value `%246` of the body. -/
def p87 (u : Vec F S16x16 .f32) (a0 a1 a2 a3 : Vec F S1x57344 .f32) : FVec F S57344 .f32 :=
  k0_pay87 (p8 u a0 a1 a2 a3) (p12 u a0 a1 a2 a3) (p68 u a0 a1 a2 a3) (p72 u a0 a1 a2 a3)

/-- The value `%249` of the body. -/
def p88 (u : Vec F S16x16 .f32) (a0 a1 a2 a3 : Vec F S1x57344 .f32) : FVec F S57344 .f32 :=
  k0_pay88 (p8 u a0 a1 a2 a3) (p12 u a0 a1 a2 a3) (p68 u a0 a1 a2 a3) (p72 u a0 a1 a2 a3)

/-- The value `%195` of the body. -/
def p70 (u : Vec F S16x16 .f32) (a0 a1 a2 a3 : Vec F S1x57344 .f32) : FVec F S57344 .f32 :=
  k0_pay70 (p7 u a0 a1 a2 a3) (p11 u a0 a1 a2 a3) (p46 u a0 a1 a2 a3) (p54 u a0 a1 a2 a3)

/-- The value `%207` of the body. -/
def p74 (u : Vec F S16x16 .f32) (a0 a1 a2 a3 : Vec F S1x57344 .f32) : FVec F S57344 .f32 :=
  k0_pay74 (p7 u a0 a1 a2 a3) (p11 u a0 a1 a2 a3) (p50 u a0 a1 a2 a3) (p58 u a0 a1 a2 a3)

/-- The value `%252` of the body. -/
def p89 (u : Vec F S16x16 .f32) (a0 a1 a2 a3 : Vec F S1x57344 .f32) : FVec F S57344 .f32 :=
  k0_pay89 (p8 u a0 a1 a2 a3) (p12 u a0 a1 a2 a3) (p70 u a0 a1 a2 a3) (p74 u a0 a1 a2 a3)

/-- The value `%255` of the body. -/
def p90 (u : Vec F S16x16 .f32) (a0 a1 a2 a3 : Vec F S1x57344 .f32) : FVec F S57344 .f32 :=
  k0_pay90 (p8 u a0 a1 a2 a3) (p12 u a0 a1 a2 a3) (p70 u a0 a1 a2 a3) (p74 u a0 a1 a2 a3)

/-- The value `%114` of the body. -/
def p43 (u : Vec F S16x16 .f32) (a0 a1 a2 a3 : Vec F S1x57344 .f32) : FVec F S57344 .f32 :=
  k0_pay43 (p6 u a0 a1 a2 a3) (p10 u a0 a1 a2 a3) (p27 u a0 a1 a2 a3) (p35 u a0 a1 a2 a3)

/-- The value `%126` of the body. -/
def p47 (u : Vec F S16x16 .f32) (a0 a1 a2 a3 : Vec F S1x57344 .f32) : FVec F S57344 .f32 :=
  k0_pay47 (p6 u a0 a1 a2 a3) (p10 u a0 a1 a2 a3) (p26 u a0 a1 a2 a3) (p29 u a0 a1 a2 a3)

/-- The value `%138` of the body. -/
def p51 (u : Vec F S16x16 .f32) (a0 a1 a2 a3 : Vec F S1x57344 .f32) : FVec F S57344 .f32 :=
  k0_pay51 (p6 u a0 a1 a2 a3) (p10 u a0 a1 a2 a3) (p26 u a0 a1 a2 a3) (p31 u a0 a1 a2 a3)

/-- The value `%150` of the body. -/
def p55 (u : Vec F S16x16 .f32) (a0 a1 a2 a3 : Vec F S1x57344 .f32) : FVec F S57344 .f32 :=
  k0_pay55 (p6 u a0 a1 a2 a3) (p10 u a0 a1 a2 a3) (p26 u a0 a1 a2 a3) (p33 u a0 a1 a2 a3)

/-- The value `%210` of the body. -/
def p75 (u : Vec F S16x16 .f32) (a0 a1 a2 a3 : Vec F S1x57344 .f32) : FVec F S57344 .f32 :=
  k0_pay75 (p7 u a0 a1 a2 a3) (p8 u a0 a1 a2 a3) (p11 u a0 a1 a2 a3) (p12 u a0 a1 a2 a3) (p43 u a0 a1 a2 a3) (p47 u a0 a1 a2 a3) (p51 u a0 a1 a2 a3) (p55 u a0 a1 a2 a3)

/-- The value `%120` of the body. -/
def p45 (u : Vec F S16x16 .f32) (a0 a1 a2 a3 : Vec F S1x57344 .f32) : FVec F S57344 .f32 :=
  k0_pay45 (p6 u a0 a1 a2 a3) (p10 u a0 a1 a2 a3) (p28 u a0 a1 a2 a3) (p36 u a0 a1 a2 a3)

/-- The value `%132` of the body. -/
def p49 (u : Vec F S16x16 .f32) (a0 a1 a2 a3 : Vec F S1x57344 .f32) : FVec F S57344 .f32 :=
  k0_pay49 (p6 u a0 a1 a2 a3) (p10 u a0 a1 a2 a3) (p26 u a0 a1 a2 a3) (p30 u a0 a1 a2 a3)

/-- The value `%144` of the body. -/
def p53 (u : Vec F S16x16 .f32) (a0 a1 a2 a3 : Vec F S1x57344 .f32) : FVec F S57344 .f32 :=
  k0_pay53 (p6 u a0 a1 a2 a3) (p10 u a0 a1 a2 a3) (p26 u a0 a1 a2 a3) (p32 u a0 a1 a2 a3)

/-- The value `%156` of the body. -/
def p57 (u : Vec F S16x16 .f32) (a0 a1 a2 a3 : Vec F S1x57344 .f32) : FVec F S57344 .f32 :=
  k0_pay57 (p6 u a0 a1 a2 a3) (p10 u a0 a1 a2 a3) (p26 u a0 a1 a2 a3) (p34 u a0 a1 a2 a3)

/-- The value `%216` of the body. -/
def p77 (u : Vec F S16x16 .f32) (a0 a1 a2 a3 : Vec F S1x57344 .f32) : FVec F S57344 .f32 :=
  k0_pay77 (p7 u a0 a1 a2 a3) (p8 u a0 a1 a2 a3) (p11 u a0 a1 a2 a3) (p12 u a0 a1 a2 a3) (p45 u a0 a1 a2 a3) (p49 u a0 a1 a2 a3) (p53 u a0 a1 a2 a3) (p57 u a0 a1 a2 a3)

/-- The value `%258` of the body. -/
def p91 (u : Vec F S16x16 .f32) (a0 a1 a2 a3 : Vec F S1x57344 .f32) : FVec F S57344 .f32 :=
  k0_pay91 (p9 u a0 a1 a2 a3) (p13 u a0 a1 a2 a3) (p75 u a0 a1 a2 a3) (p77 u a0 a1 a2 a3)

/-- The value `%261` of the body. -/
def p92 (u : Vec F S16x16 .f32) (a0 a1 a2 a3 : Vec F S1x57344 .f32) : FVec F S57344 .f32 :=
  k0_pay92 (p9 u a0 a1 a2 a3) (p13 u a0 a1 a2 a3) (p75 u a0 a1 a2 a3) (p77 u a0 a1 a2 a3)

/-- The value `%213` of the body. -/
def p76 (u : Vec F S16x16 .f32) (a0 a1 a2 a3 : Vec F S1x57344 .f32) : FVec F S57344 .f32 :=
  k0_pay76 (p7 u a0 a1 a2 a3) (p8 u a0 a1 a2 a3) (p11 u a0 a1 a2 a3) (p12 u a0 a1 a2 a3) (p43 u a0 a1 a2 a3) (p47 u a0 a1 a2 a3) (p51 u a0 a1 a2 a3) (p55 u a0 a1 a2 a3)

/-- The value `%219` of the body. -/
def p78 (u : Vec F S16x16 .f32) (a0 a1 a2 a3 : Vec F S1x57344 .f32) : FVec F S57344 .f32 :=
  k0_pay78 (p7 u a0 a1 a2 a3) (p8 u a0 a1 a2 a3) (p11 u a0 a1 a2 a3) (p12 u a0 a1 a2 a3) (p45 u a0 a1 a2 a3) (p49 u a0 a1 a2 a3) (p53 u a0 a1 a2 a3) (p57 u a0 a1 a2 a3)

/-- The value `%264` of the body. -/
def p93 (u : Vec F S16x16 .f32) (a0 a1 a2 a3 : Vec F S1x57344 .f32) : FVec F S57344 .f32 :=
  k0_pay93 (p9 u a0 a1 a2 a3) (p13 u a0 a1 a2 a3) (p76 u a0 a1 a2 a3) (p78 u a0 a1 a2 a3)

/-- The value `%267` of the body. -/
def p94 (u : Vec F S16x16 .f32) (a0 a1 a2 a3 : Vec F S1x57344 .f32) : FVec F S57344 .f32 :=
  k0_pay94 (p9 u a0 a1 a2 a3) (p13 u a0 a1 a2 a3) (p76 u a0 a1 a2 a3) (p78 u a0 a1 a2 a3)

/-- The value `%165` of the body. -/
def p60 (u : Vec F S16x16 .f32) (a0 a1 a2 a3 : Vec F S1x57344 .f32) : FVec F S57344 .f32 :=
  k0_pay60 (p7 u a0 a1 a2 a3) (p11 u a0 a1 a2 a3) (p43 u a0 a1 a2 a3) (p51 u a0 a1 a2 a3)

/-- The value `%171` of the body. -/
def p62 (u : Vec F S16x16 .f32) (a0 a1 a2 a3 : Vec F S1x57344 .f32) : FVec F S57344 .f32 :=
  k0_pay62 (p7 u a0 a1 a2 a3) (p11 u a0 a1 a2 a3) (p45 u a0 a1 a2 a3) (p53 u a0 a1 a2 a3)

/-- The value `%177` of the body. -/
def p64 (u : Vec F S16x16 .f32) (a0 a1 a2 a3 : Vec F S1x57344 .f32) : FVec F S57344 .f32 :=
  k0_pay64 (p7 u a0 a1 a2 a3) (p11 u a0 a1 a2 a3) (p47 u a0 a1 a2 a3) (p55 u a0 a1 a2 a3)

/-- The value `%183` of the body. -/
def p66 (u : Vec F S16x16 .f32) (a0 a1 a2 a3 : Vec F S1x57344 .f32) : FVec F S57344 .f32 :=
  k0_pay66 (p7 u a0 a1 a2 a3) (p11 u a0 a1 a2 a3) (p49 u a0 a1 a2 a3) (p57 u a0 a1 a2 a3)

/-- The value `%270` of the body. -/
def p95 (u : Vec F S16x16 .f32) (a0 a1 a2 a3 : Vec F S1x57344 .f32) : FVec F S57344 .f32 :=
  k0_pay95 (p8 u a0 a1 a2 a3) (p9 u a0 a1 a2 a3) (p12 u a0 a1 a2 a3) (p13 u a0 a1 a2 a3) (p60 u a0 a1 a2 a3) (p62 u a0 a1 a2 a3) (p64 u a0 a1 a2 a3) (p66 u a0 a1 a2 a3)

/-- The value `%273` of the body. -/
def p96 (u : Vec F S16x16 .f32) (a0 a1 a2 a3 : Vec F S1x57344 .f32) : FVec F S57344 .f32 :=
  k0_pay96 (p8 u a0 a1 a2 a3) (p9 u a0 a1 a2 a3) (p12 u a0 a1 a2 a3) (p13 u a0 a1 a2 a3) (p60 u a0 a1 a2 a3) (p62 u a0 a1 a2 a3) (p64 u a0 a1 a2 a3) (p66 u a0 a1 a2 a3)

/-- The value `%276` of the body. -/
def p97 (u : Vec F S16x16 .f32) (a0 a1 a2 a3 : Vec F S1x57344 .f32) : FVec F S57344 .f32 :=
  k0_pay97 (p8 u a0 a1 a2 a3) (p9 u a0 a1 a2 a3) (p12 u a0 a1 a2 a3) (p13 u a0 a1 a2 a3) (p60 u a0 a1 a2 a3) (p62 u a0 a1 a2 a3) (p64 u a0 a1 a2 a3) (p66 u a0 a1 a2 a3)

/-- The value `%279` of the body. -/
def p98 (u : Vec F S16x16 .f32) (a0 a1 a2 a3 : Vec F S1x57344 .f32) : FVec F S57344 .f32 :=
  k0_pay98 (p8 u a0 a1 a2 a3) (p9 u a0 a1 a2 a3) (p12 u a0 a1 a2 a3) (p13 u a0 a1 a2 a3) (p60 u a0 a1 a2 a3) (p62 u a0 a1 a2 a3) (p64 u a0 a1 a2 a3) (p66 u a0 a1 a2 a3)

/-- The value `%322` of the body. -/
def p99 (u : Vec F S16x16 .f32) (a0 a1 a2 a3 : Vec F S1x57344 .f32) : FVec F S16x57344 .f32 :=
  k0_pay99 (p9 u a0 a1 a2 a3) (p13 u a0 a1 a2 a3) (p25 u a0 a1 a2 a3) (p83 u a0 a1 a2 a3) (p84 u a0 a1 a2 a3) (p85 u a0 a1 a2 a3) (p86 u a0 a1 a2 a3) (p87 u a0 a1 a2 a3) (p88 u a0 a1 a2 a3) (p89 u a0 a1 a2 a3) (p90 u a0 a1 a2 a3) (p91 u a0 a1 a2 a3) (p92 u a0 a1 a2 a3) (p93 u a0 a1 a2 a3) (p94 u a0 a1 a2 a3) (p95 u a0 a1 a2 a3) (p96 u a0 a1 a2 a3) (p97 u a0 a1 a2 a3) (p98 u a0 a1 a2 a3)

/-- The value `%335` of the body. -/
def p100 (u : Vec F S16x16 .f32) (a0 a1 a2 a3 : Vec F S1x57344 .f32) : FVec F S57344 .f32 :=
  k0_pay100 (p9 u a0 a1 a2 a3) (p13 u a0 a1 a2 a3) (p25 u a0 a1 a2 a3) (p83 u a0 a1 a2 a3) (p84 u a0 a1 a2 a3) (p85 u a0 a1 a2 a3) (p86 u a0 a1 a2 a3) (p87 u a0 a1 a2 a3) (p88 u a0 a1 a2 a3) (p89 u a0 a1 a2 a3) (p90 u a0 a1 a2 a3) (p91 u a0 a1 a2 a3) (p92 u a0 a1 a2 a3) (p93 u a0 a1 a2 a3) (p94 u a0 a1 a2 a3) (p95 u a0 a1 a2 a3) (p96 u a0 a1 a2 a3) (p97 u a0 a1 a2 a3) (p98 u a0 a1 a2 a3)

/-- The value `%337` of the body. -/
def p101 (u : Vec F S16x16 .f32) (a0 a1 a2 a3 : Vec F S1x57344 .f32) : FVec F S57344 .f32 :=
  k0_pay101 (p9 u a0 a1 a2 a3) (p13 u a0 a1 a2 a3) (p25 u a0 a1 a2 a3) (p83 u a0 a1 a2 a3) (p84 u a0 a1 a2 a3) (p85 u a0 a1 a2 a3) (p86 u a0 a1 a2 a3) (p87 u a0 a1 a2 a3) (p88 u a0 a1 a2 a3) (p89 u a0 a1 a2 a3) (p90 u a0 a1 a2 a3) (p91 u a0 a1 a2 a3) (p92 u a0 a1 a2 a3) (p93 u a0 a1 a2 a3) (p94 u a0 a1 a2 a3) (p95 u a0 a1 a2 a3) (p96 u a0 a1 a2 a3) (p97 u a0 a1 a2 a3) (p98 u a0 a1 a2 a3)

/-- The value `%373` of the body. -/
def p102 (u : Vec F S16x16 .f32) (a0 a1 a2 a3 : Vec F S1x57344 .f32) : FVec F S57344 .f32 :=
  k0_pay102 (p99 u a0 a1 a2 a3) (p100 u a0 a1 a2 a3) (p101 u a0 a1 a2 a3)

/-- The value `%395` of the body. -/
def p103 (u : Vec F S16x16 .f32) (a0 a1 a2 a3 : Vec F S1x57344 .f32) : FVec F S57344 .f32 :=
  k0_pay103 (p99 u a0 a1 a2 a3)

/-- The value `%424` of the body. -/
def p104 (u : Vec F S16x16 .f32) (a0 a1 a2 a3 : Vec F S1x57344 .f32) : FVec F S57344 .f32 :=
  k0_pay104 (p99 u a0 a1 a2 a3) (p103 u a0 a1 a2 a3)

/-- The value `%449` of the body. -/
def p105 (u : Vec F S16x16 .f32) (a0 a1 a2 a3 : Vec F S1x57344 .f32) : FVec F S57344 .f32 :=
  k0_pay105 (p99 u a0 a1 a2 a3)

/-- The value `%451` of the body. -/
def p106 (u : Vec F S16x16 .f32) (a0 a1 a2 a3 : Vec F S1x57344 .f32) : FVec F S57344 .f32 :=
  k0_pay106 (p99 u a0 a1 a2 a3)

/-- The value `%452` of the body. -/
def p107 (u : Vec F S16x16 .f32) (a0 a1 a2 a3 : Vec F S1x57344 .f32) : FVec F S57344 .f32 :=
  k0_pay107 (F := F)

/-- The value `%475` of the body. -/
def p108 (u : Vec F S16x16 .f32) (a0 a1 a2 a3 : Vec F S1x57344 .f32) : FVec F S57344 .f32 :=
  k0_pay108 (p99 u a0 a1 a2 a3) (p105 u a0 a1 a2 a3) (p106 u a0 a1 a2 a3) (p107 u a0 a1 a2 a3)

/-- The value `%500` of the body. -/
def p109 (u : Vec F S16x16 .f32) (a0 a1 a2 a3 : Vec F S1x57344 .f32) : FVec F S57344 .f32 :=
  k0_pay109 (p99 u a0 a1 a2 a3)

/-- The value `%510` of the body. -/
def p110 (u : Vec F S16x16 .f32) (a0 a1 a2 a3 : Vec F S1x57344 .f32) : FVec F S57344 .f32 :=
  k0_pay110 (p99 u a0 a1 a2 a3)

/-- The block the body stores: the four expectation rows stacked. -/
def stored (u : Vec F S16x16 .f32) (a0 a1 a2 a3 : Vec F S1x57344 .f32) : FVec F S4x57344 .f32 :=
  k0_pay1 (p99 u a0 a1 a2 a3) (p102 u a0 a1 a2 a3) (p104 u a0 a1 a2 a3) (p108 u a0 a1 a2 a3) (p109 u a0 a1 a2 a3) (p110 u a0 a1 a2 a3)

end Cert.Kernel.Body
-- ==== Proof.KerBodyDag.lean ====
/-
  The values of the kernel body named one by one.  The body's stored block is a term in which every
  intermediate value is repeated wherever it is used; here each intermediate value is one definition over the
  five loaded blocks — the 16 x 16 matrix `u` and the four one-row blocks of angles `a0 … a3` — applied to
  the definitions of the values it reads, so that unfolding all of them gives back that term: `stored`, at
  the loads of the body, is definitionally the stored block.  Generic in the float instance.
-/
import proofs.«159359_j65481071398168_2_alg».proof.Proof.Gen.KernelIdeal.Skeleton

noncomputable section

namespace Cert.KernelIdeal.Body

open Idealize.ShloMosaic Cert.KernelIdeal.Gen

variable {F : FTy → Type} [FloatOps F]
/-- The value `%19` of the body. -/
def p9 (u : Vec F S16x16 .f32) (a0 a1 a2 a3 : Vec F S1x57344 .f32) : FVec F S57344 .f32 :=
  k0_pay9 a3

/-- The value `%31` of the body. -/
def p13 (u : Vec F S16x16 .f32) (a0 a1 a2 a3 : Vec F S1x57344 .f32) : FVec F S57344 .f32 :=
  k0_pay13 a3

/-- The value `%78` of the body. -/
def p25 (u : Vec F S16x16 .f32) (a0 a1 a2 a3 : Vec F S1x57344 .f32) : FVec F S16x16 .f32 :=
  k0_pay25 u

/-- The value `%16` of the body. -/
def p8 (u : Vec F S16x16 .f32) (a0 a1 a2 a3 : Vec F S1x57344 .f32) : FVec F S57344 .f32 :=
  k0_pay8 a2

/-- The value `%28` of the body. -/
def p12 (u : Vec F S16x16 .f32) (a0 a1 a2 a3 : Vec F S1x57344 .f32) : FVec F S57344 .f32 :=
  k0_pay12 a2

/-- The value `%13` of the body. -/
def p7 (u : Vec F S16x16 .f32) (a0 a1 a2 a3 : Vec F S1x57344 .f32) : FVec F S57344 .f32 :=
  k0_pay7 a1

/-- The value `%25` of the body. -/
def p11 (u : Vec F S16x16 .f32) (a0 a1 a2 a3 : Vec F S1x57344 .f32) : FVec F S57344 .f32 :=
  k0_pay11 a1

/-- The value `%10` of the body. -/
def p6 (u : Vec F S16x16 .f32) (a0 a1 a2 a3 : Vec F S1x57344 .f32) : FVec F S57344 .f32 :=
  k0_pay6 a0

/-- The value `%22` of the body. -/
def p10 (u : Vec F S16x16 .f32) (a0 a1 a2 a3 : Vec F S1x57344 .f32) : FVec F S57344 .f32 :=
  k0_pay10 a0

/-- The value `%35` of the body. -/
def p17 (u : Vec F S16x16 .f32) (a0 a1 a2 a3 : Vec F S1x57344 .f32) : FVec F S57344 .f32 :=
  k0_pay17 a0 a1

/-- The value `%36` of the body. -/
def p18 (u : Vec F S16x16 .f32) (a0 a1 a2 a3 : Vec F S1x57344 .f32) : FVec F S57344 .f32 :=
  k0_pay18 a0 a1 a2

/-- The value `%37` of the body. -/
def p19 (u : Vec F S16x16 .f32) (a0 a1 a2 a3 : Vec F S1x57344 .f32) : FVec F S57344 .f32 :=
  k0_pay19 a0 a1 a2

/-- The value `%38` of the body. -/
def p20 (u : Vec F S16x16 .f32) (a0 a1 a2 a3 : Vec F S1x57344 .f32) : FVec F S57344 .f32 :=
  k0_pay20 a0 a1 a2

/-- The value `%39` of the body. -/
def p21 (u : Vec F S16x16 .f32) (a0 a1 a2 a3 : Vec F S1x57344 .f32) : FVec F S57344 .f32 :=
  k0_pay21 a0 a1 a2

/-- The value `%40` of the body. -/
def p22 (u : Vec F S16x16 .f32) (a0 a1 a2 a3 : Vec F S1x57344 .f32) : FVec F S57344 .f32 :=
  k0_pay22 a0 a1 a2

/-- The value `%41` of the body. -/
def p23 (u : Vec F S16x16 .f32) (a0 a1 a2 a3 : Vec F S1x57344 .f32) : FVec F S57344 .f32 :=
  k0_pay23 a0 a1 a2

/-- The value `%42` of the body. -/
def p24 (u : Vec F S16x16 .f32) (a0 a1 a2 a3 : Vec F S1x57344 .f32) : FVec F S57344 .f32 :=
  k0_pay24 a0 a1 a2

/-- The value `%81` of the body. -/
def p27 (u : Vec F S16x16 .f32) (a0 a1 a2 a3 : Vec F S1x57344 .f32) : FVec F S57344 .f32 :=
  k0_pay27 (p9 u a0 a1 a2 a3) (p12 u a0 a1 a2 a3) (p13 u a0 a1 a2 a3) (p17 u a0 a1 a2 a3) (p18 u a0 a1 a2 a3) (p19 u a0 a1 a2 a3) (p20 u a0 a1 a2 a3) (p21 u a0 a1 a2 a3) (p22 u a0 a1 a2 a3) (p23 u a0 a1 a2 a3) (p24 u a0 a1 a2 a3) u

/-- The value `%97` of the body. -/
def p35 (u : Vec F S16x16 .f32) (a0 a1 a2 a3 : Vec F S1x57344 .f32) : FVec F S57344 .f32 :=
  k0_pay35 (p9 u a0 a1 a2 a3) (p12 u a0 a1 a2 a3) (p13 u a0 a1 a2 a3) (p17 u a0 a1 a2 a3) (p18 u a0 a1 a2 a3) (p19 u a0 a1 a2 a3) (p20 u a0 a1 a2 a3) (p21 u a0 a1 a2 a3) (p22 u a0 a1 a2 a3) (p23 u a0 a1 a2 a3) (p24 u a0 a1 a2 a3) u

/-- The value `%117` of the body. -/
def p44 (u : Vec F S16x16 .f32) (a0 a1 a2 a3 : Vec F S1x57344 .f32) : FVec F S57344 .f32 :=
  k0_pay44 (p6 u a0 a1 a2 a3) (p10 u a0 a1 a2 a3) (p27 u a0 a1 a2 a3) (p35 u a0 a1 a2 a3)

/-- The value `%79` of the body. -/
def p26 (u : Vec F S16x16 .f32) (a0 a1 a2 a3 : Vec F S1x57344 .f32) : FVec F S16x57344 .f32 :=
  k0_pay26 (p9 u a0 a1 a2 a3) (p12 u a0 a1 a2 a3) (p13 u a0 a1 a2 a3) (p17 u a0 a1 a2 a3) (p18 u a0 a1 a2 a3) (p19 u a0 a1 a2 a3) (p20 u a0 a1 a2 a3) (p21 u a0 a1 a2 a3) (p22 u a0 a1 a2 a3) (p23 u a0 a1 a2 a3) (p24 u a0 a1 a2 a3) u

/-- The value `%89` of the body. -/
def p31 (u : Vec F S16x16 .f32) (a0 a1 a2 a3 : Vec F S1x57344 .f32) : FVec F S57344 .f32 :=
  k0_pay31 (p9 u a0 a1 a2 a3) (p12 u a0 a1 a2 a3) (p13 u a0 a1 a2 a3) (p17 u a0 a1 a2 a3) (p18 u a0 a1 a2 a3) (p19 u a0 a1 a2 a3) (p20 u a0 a1 a2 a3) (p21 u a0 a1 a2 a3) (p22 u a0 a1 a2 a3) (p23 u a0 a1 a2 a3) (p24 u a0 a1 a2 a3) u

/-- The value `%141` of the body. -/
def p52 (u : Vec F S16x16 .f32) (a0 a1 a2 a3 : Vec F S1x57344 .f32) : FVec F S57344 .f32 :=
  k0_pay52 (p6 u a0 a1 a2 a3) (p10 u a0 a1 a2 a3) (p26 u a0 a1 a2 a3) (p31 u a0 a1 a2 a3)

/-- The value `%186` of the body. -/
def p67 (u : Vec F S16x16 .f32) (a0 a1 a2 a3 : Vec F S1x57344 .f32) : FVec F S57344 .f32 :=
  k0_pay67 (p7 u a0 a1 a2 a3) (p11 u a0 a1 a2 a3) (p44 u a0 a1 a2 a3) (p52 u a0 a1 a2 a3)

/-- The value `%85` of the body. -/
def p29 (u : Vec F S16x16 .f32) (a0 a1 a2 a3 : Vec F S1x57344 .f32) : FVec F S57344 .f32 :=
  k0_pay29 (p9 u a0 a1 a2 a3) (p12 u a0 a1 a2 a3) (p13 u a0 a1 a2 a3) (p17 u a0 a1 a2 a3) (p18 u a0 a1 a2 a3) (p19 u a0 a1 a2 a3) (p20 u a0 a1 a2 a3) (p21 u a0 a1 a2 a3) (p22 u a0 a1 a2 a3) (p23 u a0 a1 a2 a3) (p24 u a0 a1 a2 a3) u

/-- The value `%129` of the body. -/
def p48 (u : Vec F S16x16 .f32) (a0 a1 a2 a3 : Vec F S1x57344 .f32) : FVec F S57344 .f32 :=
  k0_pay48 (p6 u a0 a1 a2 a3) (p10 u a0 a1 a2 a3) (p26 u a0 a1 a2 a3) (p29 u a0 a1 a2 a3)

/-- The value `%93` of the body. -/
def p33 (u : Vec F S16x16 .f32) (a0 a1 a2 a3 : Vec F S1x57344 .f32) : FVec F S57344 .f32 :=
  k0_pay33 (p9 u a0 a1 a2 a3) (p12 u a0 a1 a2 a3) (p13 u a0 a1 a2 a3) (p17 u a0 a1 a2 a3) (p18 u a0 a1 a2 a3) (p19 u a0 a1 a2 a3) (p20 u a0 a1 a2 a3) (p21 u a0 a1 a2 a3) (p22 u a0 a1 a2 a3) (p23 u a0 a1 a2 a3) (p24 u a0 a1 a2 a3) u

/-- The value `%153` of the body. -/
def p56 (u : Vec F S16x16 .f32) (a0 a1 a2 a3 : Vec F S1x57344 .f32) : FVec F S57344 .f32 :=
  k0_pay56 (p6 u a0 a1 a2 a3) (p10 u a0 a1 a2 a3) (p26 u a0 a1 a2 a3) (p33 u a0 a1 a2 a3)

/-- The value `%198` of the body. -/
def p71 (u : Vec F S16x16 .f32) (a0 a1 a2 a3 : Vec F S1x57344 .f32) : FVec F S57344 .f32 :=
  k0_pay71 (p7 u a0 a1 a2 a3) (p11 u a0 a1 a2 a3) (p48 u a0 a1 a2 a3) (p56 u a0 a1 a2 a3)

/-- The value `%234` of the body. -/
def p83 (u : Vec F S16x16 .f32) (a0 a1 a2 a3 : Vec F S1x57344 .f32) : FVec F S57344 .f32 :=
  k0_pay83 (p8 u a0 a1 a2 a3) (p12 u a0 a1 a2 a3) (p67 u a0 a1 a2 a3) (p71 u a0 a1 a2 a3)

/-- The value `%237` of the body. -/
def p84 (u : Vec F S16x16 .f32) (a0 a1 a2 a3 : Vec F S1x57344 .f32) : FVec F S57344 .f32 :=
  k0_pay84 (p8 u a0 a1 a2 a3) (p12 u a0 a1 a2 a3) (p67 u a0 a1 a2 a3) (p71 u a0 a1 a2 a3)

/-- The value `%83` of the body. -/
def p28 (u : Vec F S16x16 .f32) (a0 a1 a2 a3 : Vec F S1x57344 .f32) : FVec F S57344 .f32 :=
  k0_pay28 (p9 u a0 a1 a2 a3) (p12 u a0 a1 a2 a3) (p13 u a0 a1 a2 a3) (p17 u a0 a1 a2 a3) (p18 u a0 a1 a2 a3) (p19 u a0 a1 a2 a3) (p20 u a0 a1 a2 a3) (p21 u a0 a1 a2 a3) (p22 u a0 a1 a2 a3) (p23 u a0 a1 a2 a3) (p24 u a0 a1 a2 a3) u

/-- The value `%99` of the body. -/
def p36 (u : Vec F S16x16 .f32) (a0 a1 a2 a3 : Vec F S1x57344 .f32) : FVec F S57344 .f32 :=
  k0_pay36 (p9 u a0 a1 a2 a3) (p12 u a0 a1 a2 a3) (p13 u a0 a1 a2 a3) (p17 u a0 a1 a2 a3) (p18 u a0 a1 a2 a3) (p19 u a0 a1 a2 a3) (p20 u a0 a1 a2 a3) (p21 u a0 a1 a2 a3) (p22 u a0 a1 a2 a3) (p23 u a0 a1 a2 a3) (p24 u a0 a1 a2 a3) u

/-- The value `%123` of the body. -/
def p46 (u : Vec F S16x16 .f32) (a0 a1 a2 a3 : Vec F S1x57344 .f32) : FVec F S57344 .f32 :=
  k0_pay46 (p6 u a0 a1 a2 a3) (p10 u a0 a1 a2 a3) (p28 u a0 a1 a2 a3) (p36 u a0 a1 a2 a3)

/-- The value `%91` of the body. -/
def p32 (u : Vec F S16x16 .f32) (a0 a1 a2 a3 : Vec F S1x57344 .f32) : FVec F S57344 .f32 :=
  k0_pay32 (p9 u a0 a1 a2 a3) (p12 u a0 a1 a2 a3) (p13 u a0 a1 a2 a3) (p17 u a0 a1 a2 a3) (p18 u a0 a1 a2 a3) (p19 u a0 a1 a2 a3) (p20 u a0 a1 a2 a3) (p21 u a0 a1 a2 a3) (p22 u a0 a1 a2 a3) (p23 u a0 a1 a2 a3) (p24 u a0 a1 a2 a3) u

/-- The value `%147` of the body. -/
def p54 (u : Vec F S16x16 .f32) (a0 a1 a2 a3 : Vec F S1x57344 .f32) : FVec F S57344 .f32 :=
  k0_pay54 (p6 u a0 a1 a2 a3) (p10 u a0 a1 a2 a3) (p26 u a0 a1 a2 a3) (p32 u a0 a1 a2 a3)

/-- The value `%192` of the body. -/
def p69 (u : Vec F S16x16 .f32) (a0 a1 a2 a3 : Vec F S1x57344 .f32) : FVec F S57344 .f32 :=
  k0_pay69 (p7 u a0 a1 a2 a3) (p11 u a0 a1 a2 a3) (p46 u a0 a1 a2 a3) (p54 u a0 a1 a2 a3)

/-- The value `%87` of the body. -/
def p30 (u : Vec F S16x16 .f32) (a0 a1 a2 a3 : Vec F S1x57344 .f32) : FVec F S57344 .f32 :=
  k0_pay30 (p9 u a0 a1 a2 a3) (p12 u a0 a1 a2 a3) (p13 u a0 a1 a2 a3) (p17 u a0 a1 a2 a3) (p18 u a0 a1 a2 a3) (p19 u a0 a1 a2 a3) (p20 u a0 a1 a2 a3) (p21 u a0 a1 a2 a3) (p22 u a0 a1 a2 a3) (p23 u a0 a1 a2 a3) (p24 u a0 a1 a2 a3) u

/-- The value `%135` of the body. -/
def p50 (u : Vec F S16x16 .f32) (a0 a1 a2 a3 : Vec F S1x57344 .f32) : FVec F S57344 .f32 :=
  k0_pay50 (p6 u a0 a1 a2 a3) (p10 u a0 a1 a2 a3) (p26 u a0 a1 a2 a3) (p30 u a0 a1 a2 a3)

/-- The value `%95` of the body. -/
def p34 (u : Vec F S16x16 .f32) (a0 a1 a2 a3 : Vec F S1x57344 .f32) : FVec F S57344 .f32 :=
  k0_pay34 (p9 u a0 a1 a2 a3) (p12 u a0 a1 a2 a3) (p13 u a0 a1 a2 a3) (p17 u a0 a1 a2 a3) (p18 u a0 a1 a2 a3) (p19 u a0 a1 a2 a3) (p20 u a0 a1 a2 a3) (p21 u a0 a1 a2 a3) (p22 u a0 a1 a2 a3) (p23 u a0 a1 a2 a3) (p24 u a0 a1 a2 a3) u

/-- The value `%159` of the body. -/
def p58 (u : Vec F S16x16 .f32) (a0 a1 a2 a3 : Vec F S1x57344 .f32) : FVec F S57344 .f32 :=
  k0_pay58 (p6 u a0 a1 a2 a3) (p10 u a0 a1 a2 a3) (p26 u a0 a1 a2 a3) (p34 u a0 a1 a2 a3)

/-- The value `%204` of the body. -/
def p73 (u : Vec F S16x16 .f32) (a0 a1 a2 a3 : Vec F S1x57344 .f32) : FVec F S57344 .f32 :=
  k0_pay73 (p7 u a0 a1 a2 a3) (p11 u a0 a1 a2 a3) (p50 u a0 a1 a2 a3) (p58 u a0 a1 a2 a3)

/-- The value `%240` of the body. -/
def p85 (u : Vec F S16x16 .f32) (a0 a1 a2 a3 : Vec F S1x57344 .f32) : FVec F S57344 .f32 :=
  k0_pay85 (p8 u a0 a1 a2 a3) (p12 u a0 a1 a2 a3) (p69 u a0 a1 a2 a3) (p73 u a0 a1 a2 a3)

/-- The value `%243` of the body. -/
def p86 (u : Vec F S16x16 .f32) (a0 a1 a2 a3 : Vec F S1x57344 .f32) : FVec F S57344 .f32 :=
  k0_pay86 (p8 u a0 a1 a2 a3) (p12 u a0 a1 a2 a3) (p69 u a0 a1 a2 a3) (p73 u a0 a1 a2 a3)

/-- The value `%189` of the body. -/
def p68 (u : Vec F S16x16 .f32) (a0 a1 a2 a3 : Vec F S1x57344 .f32) : FVec F S57344 .f32 :=
  k0_pay68 (p7 u a0 a1 a2 a3) (p11 u a0 a1 a2 a3) (p44 u a0 a1 a2 a3) (p52 u a0 a1 a2 a3)

/-- The value `%201` of the body. -/
def p72 (u : Vec F S16x16 .f32) (a0 a1 a2 a3 : Vec F S1x57344 .f32) : FVec F S57344 .f32 :=
  k0_pay72 (p7 u a0 a1 a2 a3) (p11 u a0 a1 a2 a3) (p48 u a0 a1 a2 a3) (p56 u a0 a1 a2 a3)

/-- The value `%246` of the body. -/
def p87 (u : Vec F S16x16 .f32) (a0 a1 a2 a3 : Vec F S1x57344 .f32) : FVec F S57344 .f32 :=
  k0_pay87 (p8 u a0 a1 a2 a3) (p12 u a0 a1 a2 a3) (p68 u a0 a1 a2 a3) (p72 u a0 a1 a2 a3)

/-- The value `%249` of the body. -/
def p88 (u : Vec F S16x16 .f32) (a0 a1 a2 a3 : Vec F S1x57344 .f32) : FVec F S57344 .f32 :=
  k0_pay88 (p8 u a0 a1 a2 a3) (p12 u a0 a1 a2 a3) (p68 u a0 a1 a2 a3) (p72 u a0 a1 a2 a3)

/-- The value `%195` of the body. -/
def p70 (u : Vec F S16x16 .f32) (a0 a1 a2 a3 : Vec F S1x57344 .f32) : FVec F S57344 .f32 :=
  k0_pay70 (p7 u a0 a1 a2 a3) (p11 u a0 a1 a2 a3) (p46 u a0 a1 a2 a3) (p54 u a0 a1 a2 a3)

/-- The value `%207` of the body. -/
def p74 (u : Vec F S16x16 .f32) (a0 a1 a2 a3 : Vec F S1x57344 .f32) : FVec F S57344 .f32 :=
  k0_pay74 (p7 u a0 a1 a2 a3) (p11 u a0 a1 a2 a3) (p50 u a0 a1 a2 a3) (p58 u a0 a1 a2 a3)

/-- The value `%252` of the body. -/
def p89 (u : Vec F S16x16 .f32) (a0 a1 a2 a3 : Vec F S1x57344 .f32) : FVec F S57344 .f32 :=
  k0_pay89 (p8 u a0 a1 a2 a3) (p12 u a0 a1 a2 a3) (p70 u a0 a1 a2 a3) (p74 u a0 a1 a2 a3)

/-- The value `%255` of the body. -/
def p90 (u : Vec F S16x16 .f32) (a0 a1 a2 a3 : Vec F S1x57344 .f32) : FVec F S57344 .f32 :=
  k0_pay90 (p8 u a0 a1 a2 a3) (p12 u a0 a1 a2 a3) (p70 u a0 a1 a2 a3) (p74 u a0 a1 a2 a3)

/-- The value `%114` of the body. -/
def p43 (u : Vec F S16x16 .f32) (a0 a1 a2 a3 : Vec F S1x57344 .f32) : FVec F S57344 .f32 :=
  k0_pay43 (p6 u a0 a1 a2 a3) (p10 u a0 a1 a2 a3) (p27 u a0 a1 a2 a3) (p35 u a0 a1 a2 a3)

/-- The value `%126` of the body. -/
def p47 (u : Vec F S16x16 .f32) (a0 a1 a2 a3 : Vec F S1x57344 .f32) : FVec F S57344 .f32 :=
  k0_pay47 (p6 u a0 a1 a2 a3) (p10 u a0 a1 a2 a3) (p26 u a0 a1 a2 a3) (p29 u a0 a1 a2 a3)

/-- The value `%138` of the body. -/
def p51 (u : Vec F S16x16 .f32) (a0 a1 a2 a3 : Vec F S1x57344 .f32) : FVec F S57344 .f32 :=
  k0_pay51 (p6 u a0 a1 a2 a3) (p10 u a0 a1 a2 a3) (p26 u a0 a1 a2 a3) (p31 u a0 a1 a2 a3)

/-- The value `%150` of the body. -/
def p55 (u : Vec F S16x16 .f32) (a0 a1 a2 a3 : Vec F S1x57344 .f32) : FVec F S57344 .f32 :=
  k0_pay55 (p6 u a0 a1 a2 a3) (p10 u a0 a1 a2 a3) (p26 u a0 a1 a2 a3) (p33 u a0 a1 a2 a3)

/-- The value `%210` of the body. -/
def p75 (u : Vec F S16x16 .f32) (a0 a1 a2 a3 : Vec F S1x57344 .f32) : FVec F S57344 .f32 :=
  k0_pay75 (p7 u a0 a1 a2 a3) (p8 u a0 a1 a2 a3) (p11 u a0 a1 a2 a3) (p12 u a0 a1 a2 a3) (p43 u a0 a1 a2 a3) (p47 u a0 a1 a2 a3) (p51 u a0 a1 a2 a3) (p55 u a0 a1 a2 a3)

/-- The value `%120` of the body. -/
def p45 (u : Vec F S16x16 .f32) (a0 a1 a2 a3 : Vec F S1x57344 .f32) : FVec F S57344 .f32 :=
  k0_pay45 (p6 u a0 a1 a2 a3) (p10 u a0 a1 a2 a3) (p28 u a0 a1 a2 a3) (p36 u a0 a1 a2 a3)

/-- The value `%132` of the body. -/
def p49 (u : Vec F S16x16 .f32) (a0 a1 a2 a3 : Vec F S1x57344 .f32) : FVec F S57344 .f32 :=
  k0_pay49 (p6 u a0 a1 a2 a3) (p10 u a0 a1 a2 a3) (p26 u a0 a1 a2 a3) (p30 u a0 a1 a2 a3)

/-- The value `%144` of the body. -/
def p53 (u : Vec F S16x16 .f32) (a0 a1 a2 a3 : Vec F S1x57344 .f32) : FVec F S57344 .f32 :=
  k0_pay53 (p6 u a0 a1 a2 a3) (p10 u a0 a1 a2 a3) (p26 u a0 a1 a2 a3) (p32 u a0 a1 a2 a3)

/-- The value `%156` of the body. -/
def p57 (u : Vec F S16x16 .f32) (a0 a1 a2 a3 : Vec F S1x57344 .f32) : FVec F S57344 .f32 :=
  k0_pay57 (p6 u a0 a1 a2 a3) (p10 u a0 a1 a2 a3) (p26 u a0 a1 a2 a3) (p34 u a0 a1 a2 a3)

/-- The value `%216` of the body. -/
def p77 (u : Vec F S16x16 .f32) (a0 a1 a2 a3 : Vec F S1x57344 .f32) : FVec F S57344 .f32 :=
  k0_pay77 (p7 u a0 a1 a2 a3) (p8 u a0 a1 a2 a3) (p11 u a0 a1 a2 a3) (p12 u a0 a1 a2 a3) (p45 u a0 a1 a2 a3) (p49 u a0 a1 a2 a3) (p53 u a0 a1 a2 a3) (p57 u a0 a1 a2 a3)

/-- The value `%258` of the body. -/
def p91 (u : Vec F S16x16 .f32) (a0 a1 a2 a3 : Vec F S1x57344 .f32) : FVec F S57344 .f32 :=
  k0_pay91 (p9 u a0 a1 a2 a3) (p13 u a0 a1 a2 a3) (p75 u a0 a1 a2 a3) (p77 u a0 a1 a2 a3)

/-- The value `%261` of the body. -/
def p92 (u : Vec F S16x16 .f32) (a0 a1 a2 a3 : Vec F S1x57344 .f32) : FVec F S57344 .f32 :=
  k0_pay92 (p9 u a0 a1 a2 a3) (p13 u a0 a1 a2 a3) (p75 u a0 a1 a2 a3) (p77 u a0 a1 a2 a3)

/-- The value `%213` of the body. -/
def p76 (u : Vec F S16x16 .f32) (a0 a1 a2 a3 : Vec F S1x57344 .f32) : FVec F S57344 .f32 :=
  k0_pay76 (p7 u a0 a1 a2 a3) (p8 u a0 a1 a2 a3) (p11 u a0 a1 a2 a3) (p12 u a0 a1 a2 a3) (p43 u a0 a1 a2 a3) (p47 u a0 a1 a2 a3) (p51 u a0 a1 a2 a3) (p55 u a0 a1 a2 a3)

/-- The value `%219` of the body. -/
def p78 (u : Vec F S16x16 .f32) (a0 a1 a2 a3 : Vec F S1x57344 .f32) : FVec F S57344 .f32 :=
  k0_pay78 (p7 u a0 a1 a2 a3) (p8 u a0 a1 a2 a3) (p11 u a0 a1 a2 a3) (p12 u a0 a1 a2 a3) (p45 u a0 a1 a2 a3) (p49 u a0 a1 a2 a3) (p53 u a0 a1 a2 a3) (p57 u a0 a1 a2 a3)

/-- The value `%264` of the body. -/
def p93 (u : Vec F S16x16 .f32) (a0 a1 a2 a3 : Vec F S1x57344 .f32) : FVec F S57344 .f32 :=
  k0_pay93 (p9 u a0 a1 a2 a3) (p13 u a0 a1 a2 a3) (p76 u a0 a1 a2 a3) (p78 u a0 a1 a2 a3)

/-- The value `%267` of the body. -/
def p94 (u : Vec F S16x16 .f32) (a0 a1 a2 a3 : Vec F S1x57344 .f32) : FVec F S57344 .f32 :=
  k0_pay94 (p9 u a0 a1 a2 a3) (p13 u a0 a1 a2 a3) (p76 u a0 a1 a2 a3) (p78 u a0 a1 a2 a3)

/-- The value `%165` of the body. -/
def p60 (u : Vec F S16x16 .f32) (a0 a1 a2 a3 : Vec F S1x57344 .f32) : FVec F S57344 .f32 :=
  k0_pay60 (p7 u a0 a1 a2 a3) (p11 u a0 a1 a2 a3) (p43 u a0 a1 a2 a3) (p51 u a0 a1 a2 a3)

/-- The value `%171` of the body. -/
def p62 (u : Vec F S16x16 .f32) (a0 a1 a2 a3 : Vec F S1x57344 .f32) : FVec F S57344 .f32 :=
  k0_pay62 (p7 u a0 a1 a2 a3) (p11 u a0 a1 a2 a3) (p45 u a0 a1 a2 a3) (p53 u a0 a1 a2 a3)

/-- The value `%177` of the body. -/
def p64 (u : Vec F S16x16 .f32) (a0 a1 a2 a3 : Vec F S1x57344 .f32) : FVec F S57344 .f32 :=
  k0_pay64 (p7 u a0 a1 a2 a3) (p11 u a0 a1 a2 a3) (p47 u a0 a1 a2 a3) (p55 u a0 a1 a2 a3)

/-- The value `%183` of the body. -/
def p66 (u : Vec F S16x16 .f32) (a0 a1 a2 a3 : Vec F S1x57344 .f32) : FVec F S57344 .f32 :=
  k0_pay66 (p7 u a0 a1 a2 a3) (p11 u a0 a1 a2 a3) (p49 u a0 a1 a2 a3) (p57 u a0 a1 a2 a3)

/-- The value `%270` of the body. -/
def p95 (u : Vec F S16x16 .f32) (a0 a1 a2 a3 : Vec F S1x57344 .f32) : FVec F S57344 .f32 :=
  k0_pay95 (p8 u a0 a1 a2 a3) (p9 u a0 a1 a2 a3) (p12 u a0 a1 a2 a3) (p13 u a0 a1 a2 a3) (p60 u a0 a1 a2 a3) (p62 u a0 a1 a2 a3) (p64 u a0 a1 a2 a3) (p66 u a0 a1 a2 a3)

/-- The value `%273` of the body. -/
def p96 (u : Vec F S16x16 .f32) (a0 a1 a2 a3 : Vec F S1x57344 .f32) : FVec F S57344 .f32 :=
  k0_pay96 (p8 u a0 a1 a2 a3) (p9 u a0 a1 a2 a3) (p12 u a0 a1 a2 a3) (p13 u a0 a1 a2 a3) (p60 u a0 a1 a2 a3) (p62 u a0 a1 a2 a3) (p64 u a0 a1 a2 a3) (p66 u a0 a1 a2 a3)

/-- The value `%276` of the body. -/
def p97 (u : Vec F S16x16 .f32) (a0 a1 a2 a3 : Vec F S1x57344 .f32) : FVec F S57344 .f32 :=
  k0_pay97 (p8 u a0 a1 a2 a3) (p9 u a0 a1 a2 a3) (p12 u a0 a1 a2 a3) (p13 u a0 a1 a2 a3) (p60 u a0 a1 a2 a3) (p62 u a0 a1 a2 a3) (p64 u a0 a1 a2 a3) (p66 u a0 a1 a2 a3)

/-- The value `%279` of the body. -/
def p98 (u : Vec F S16x16 .f32) (a0 a1 a2 a3 : Vec F S1x57344 .f32) : FVec F S57344 .f32 :=
  k0_pay98 (p8 u a0 a1 a2 a3) (p9 u a0 a1 a2 a3) (p12 u a0 a1 a2 a3) (p13 u a0 a1 a2 a3) (p60 u a0 a1 a2 a3) (p62 u a0 a1 a2 a3) (p64 u a0 a1 a2 a3) (p66 u a0 a1 a2 a3)

/-- The value `%322` of the body. -/
def p99 (u : Vec F S16x16 .f32) (a0 a1 a2 a3 : Vec F S1x57344 .f32) : FVec F S16x57344 .f32 :=
  k0_pay99 (p9 u a0 a1 a2 a3) (p13 u a0 a1 a2 a3) (p25 u a0 a1 a2 a3) (p83 u a0 a1 a2 a3) (p84 u a0 a1 a2 a3) (p85 u a0 a1 a2 a3) (p86 u a0 a1 a2 a3) (p87 u a0 a1 a2 a3) (p88 u a0 a1 a2 a3) (p89 u a0 a1 a2 a3) (p90 u a0 a1 a2 a3) (p91 u a0 a1 a2 a3) (p92 u a0 a1 a2 a3) (p93 u a0 a1 a2 a3) (p94 u a0 a1 a2 a3) (p95 u a0 a1 a2 a3) (p96 u a0 a1 a2 a3) (p97 u a0 a1 a2 a3) (p98 u a0 a1 a2 a3)

/-- The value `%335` of the body. -/
def p100 (u : Vec F S16x16 .f32) (a0 a1 a2 a3 : Vec F S1x57344 .f32) : FVec F S57344 .f32 :=
  k0_pay100 (p9 u a0 a1 a2 a3) (p13 u a0 a1 a2 a3) (p25 u a0 a1 a2 a3) (p83 u a0 a1 a2 a3) (p84 u a0 a1 a2 a3) (p85 u a0 a1 a2 a3) (p86 u a0 a1 a2 a3) (p87 u a0 a1 a2 a3) (p88 u a0 a1 a2 a3) (p89 u a0 a1 a2 a3) (p90 u a0 a1 a2 a3) (p91 u a0 a1 a2 a3) (p92 u a0 a1 a2 a3) (p93 u a0 a1 a2 a3) (p94 u a0 a1 a2 a3) (p95 u a0 a1 a2 a3) (p96 u a0 a1 a2 a3) (p97 u a0 a1 a2 a3) (p98 u a0 a1 a2 a3)

/-- The value `%337` of the body. -/
def p101 (u : Vec F S16x16 .f32) (a0 a1 a2 a3 : Vec F S1x57344 .f32) : FVec F S57344 .f32 :=
  k0_pay101 (p9 u a0 a1 a2 a3) (p13 u a0 a1 a2 a3) (p25 u a0 a1 a2 a3) (p83 u a0 a1 a2 a3) (p84 u a0 a1 a2 a3) (p85 u a0 a1 a2 a3) (p86 u a0 a1 a2 a3) (p87 u a0 a1 a2 a3) (p88 u a0 a1 a2 a3) (p89 u a0 a1 a2 a3) (p90 u a0 a1 a2 a3) (p91 u a0 a1 a2 a3) (p92 u a0 a1 a2 a3) (p93 u a0 a1 a2 a3) (p94 u a0 a1 a2 a3) (p95 u a0 a1 a2 a3) (p96 u a0 a1 a2 a3) (p97 u a0 a1 a2 a3) (p98 u a0 a1 a2 a3)

/-- The value `%373` of the body. -/
def p102 (u : Vec F S16x16 .f32) (a0 a1 a2 a3 : Vec F S1x57344 .f32) : FVec F S57344 .f32 :=
  k0_pay102 (p99 u a0 a1 a2 a3) (p100 u a0 a1 a2 a3) (p101 u a0 a1 a2 a3)

/-- The value `%395` of the body. -/
def p103 (u : Vec F S16x16 .f32) (a0 a1 a2 a3 : Vec F S1x57344 .f32) : FVec F S57344 .f32 :=
  k0_pay103 (p99 u a0 a1 a2 a3)

/-- The value `%424` of the body. -/
def p104 (u : Vec F S16x16 .f32) (a0 a1 a2 a3 : Vec F S1x57344 .f32) : FVec F S57344 .f32 :=
  k0_pay104 (p99 u a0 a1 a2 a3) (p103 u a0 a1 a2 a3)

/-- The value `%449` of the body. -/
def p105 (u : Vec F S16x16 .f32) (a0 a1 a2 a3 : Vec F S1x57344 .f32) : FVec F S57344 .f32 :=
  k0_pay105 (p99 u a0 a1 a2 a3)

/-- The value `%451` of the body. -/
def p106 (u : Vec F S16x16 .f32) (a0 a1 a2 a3 : Vec F S1x57344 .f32) : FVec F S57344 .f32 :=
  k0_pay106 (p99 u a0 a1 a2 a3)

/-- The value `%452` of the body. -/
def p107 (u : Vec F S16x16 .f32) (a0 a1 a2 a3 : Vec F S1x57344 .f32) : FVec F S57344 .f32 :=
  k0_pay107 (F := F)

/-- The value `%475` of the body. -/
def p108 (u : Vec F S16x16 .f32) (a0 a1 a2 a3 : Vec F S1x57344 .f32) : FVec F S57344 .f32 :=
  k0_pay108 (p99 u a0 a1 a2 a3) (p105 u a0 a1 a2 a3) (p106 u a0 a1 a2 a3) (p107 u a0 a1 a2 a3)

/-- The value `%500` of the body. -/
def p109 (u : Vec F S16x16 .f32) (a0 a1 a2 a3 : Vec F S1x57344 .f32) : FVec F S57344 .f32 :=
  k0_pay109 (p99 u a0 a1 a2 a3)

/-- The value `%510` of the body. -/
def p110 (u : Vec F S16x16 .f32) (a0 a1 a2 a3 : Vec F S1x57344 .f32) : FVec F S57344 .f32 :=
  k0_pay110 (p99 u a0 a1 a2 a3)

/-- The block the body stores: the four expectation rows stacked. -/
def stored (u : Vec F S16x16 .f32) (a0 a1 a2 a3 : Vec F S1x57344 .f32) : FVec F S4x57344 .f32 :=
  k0_pay1 (p99 u a0 a1 a2 a3) (p102 u a0 a1 a2 a3) (p104 u a0 a1 a2 a3) (p108 u a0 a1 a2 a3) (p109 u a0 a1 a2 a3) (p110 u a0 a1 a2 a3)

end Cert.KernelIdeal.Body
-- ==== Proof.RefGateDefs.lean ====
/- The reference program's gates as composed terms: for each stretch of @main between two states of the simulated
   register — one rotation or one controlled NOT —, and for the stretches before the first and after the last, the
   stretch's operations composed into ONE function of the arrays the stretch reads, with every intermediate array
   named. The same rotation of the first layer and of the second layer is the same function. -/
import proofs.«159359_j65481071398168_2_alg».proof.ReferenceIdeal
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The images regrouped into 2×2 patches, one row of four pixel angles per patch: three reshapes around one transpose. -/
def gPatches (x0 : (⟨S4096x784, .f32⟩ : BufTy).Contents (Elt F)) : (⟨S802816x4, .f32⟩ : BufTy).Contents (Elt F) :=
  let t0 : (⟨S4096x28x28, .f32⟩ : BufTy).Contents (Elt F) := shapeCast S4096x28x28 x0 shapeCasts_S4096x784_S4096x28x28
  let t1 : (⟨S4096x14x2x14x2, .f32⟩ : BufTy).Contents (Elt F) := shapeCast S4096x14x2x14x2 t0 shapeCasts_S4096x28x28_S4096x14x2x14x2
  let t2 : (⟨S4096x14x14x2x2, .f32⟩ : BufTy).Contents (Elt F) := (((transpose S4096x14x14x2x2 [0, 1, 3, 2, 4] · transposes_S4096x14x2x14x2_S4096x14x14x2x2_0_1_3_2_4) : (⟨S4096x14x2x14x2, .f32⟩ : BufTy).Contents (Elt F) → (⟨S4096x14x14x2x2, .f32⟩ : BufTy).Contents (Elt F)) : (⟨S4096x14x2x14x2, .f32⟩ : BufTy).Contents (Elt F) → (⟨S4096x14x14x2x2, .f32⟩ : BufTy).Contents (Elt F)) t1
  let t3 : (⟨S802816x4, .f32⟩ : BufTy).Contents (Elt F) := shapeCast S802816x4 t2 shapeCasts_S4096x14x14x2x2_S802816x4
  t3

/-- The initial state: zero everywhere except amplitude one at the basis vector 0000 of every patch (a scatter of ones into zeros at index 0,0,0,0). -/
def gInit : (⟨S802816x2x2x2x2, .f32⟩ : BufTy).Contents (Elt F) :=
  let t4 : (⟨S_, .f32⟩ : BufTy).Contents (Elt F) := (constant S_ .f32 0x00000000#32)
  let t5 : (⟨S802816x2x2x2x2, .f32⟩ : BufTy).Contents (Elt F) := ((broadcastInDim S802816x2x2x2x2 ![] bcast_S_S802816x2x2x2x2 : (⟨S_, .f32⟩ : BufTy).Contents (Elt F) → (⟨S802816x2x2x2x2, .f32⟩ : BufTy).Contents (Elt F)) : (⟨S_, .f32⟩ : BufTy).Contents (Elt F) → (⟨S802816x2x2x2x2, .f32⟩ : BufTy).Contents (Elt F)) t4
  let t6 : (⟨S_, .i32⟩ : BufTy).Contents (Elt F) := (constantI S_ 32 0#32)
  let t7 : (⟨S1, .i32⟩ : BufTy).Contents (Elt F) := ((broadcastInDim S1 ![] bcast_S_S1 : (⟨S_, .i32⟩ : BufTy).Contents (Elt F) → (⟨S1, .i32⟩ : BufTy).Contents (Elt F)) : (⟨S_, .i32⟩ : BufTy).Contents (Elt F) → (⟨S1, .i32⟩ : BufTy).Contents (Elt F)) t6
  let t8 : (⟨S_, .i32⟩ : BufTy).Contents (Elt F) := (constantI S_ 32 0#32)
  let t9 : (⟨S1, .i32⟩ : BufTy).Contents (Elt F) := ((broadcastInDim S1 ![] bcast_S_S1 : (⟨S_, .i32⟩ : BufTy).Contents (Elt F) → (⟨S1, .i32⟩ : BufTy).Contents (Elt F)) : (⟨S_, .i32⟩ : BufTy).Contents (Elt F) → (⟨S1, .i32⟩ : BufTy).Contents (Elt F)) t8
  let t10 : (⟨S_, .i32⟩ : BufTy).Contents (Elt F) := (constantI S_ 32 0#32)
  let t11 : (⟨S1, .i32⟩ : BufTy).Contents (Elt F) := ((broadcastInDim S1 ![] bcast_S_S1 : (⟨S_, .i32⟩ : BufTy).Contents (Elt F) → (⟨S1, .i32⟩ : BufTy).Contents (Elt F)) : (⟨S_, .i32⟩ : BufTy).Contents (Elt F) → (⟨S1, .i32⟩ : BufTy).Contents (Elt F)) t10
  let t12 : (⟨S_, .i32⟩ : BufTy).Contents (Elt F) := (constantI S_ 32 0#32)
  let t13 : (⟨S1, .i32⟩ : BufTy).Contents (Elt F) := ((broadcastInDim S1 ![] bcast_S_S1 : (⟨S_, .i32⟩ : BufTy).Contents (Elt F) → (⟨S1, .i32⟩ : BufTy).Contents (Elt F)) : (⟨S_, .i32⟩ : BufTy).Contents (Elt F) → (⟨S1, .i32⟩ : BufTy).Contents (Elt F)) t12
  let t14 : (⟨S4, .i32⟩ : BufTy).Contents (Elt F) := concatenate S4 0 [⟨S1, t7⟩, ⟨S1, t9⟩, ⟨S1, t11⟩, ⟨S1, t13⟩] concatenates_S1_S1_S1_S1_S4_d0
  let t15 : (⟨S_, .f32⟩ : BufTy).Contents (Elt F) := (constant S_ .f32 0x3F800000#32)
  let t16 : (⟨S802816, .f32⟩ : BufTy).Contents (Elt F) := ((broadcastInDim S802816 ![] bcast_S_S802816 : (⟨S_, .f32⟩ : BufTy).Contents (Elt F) → (⟨S802816, .f32⟩ : BufTy).Contents (Elt F)) : (⟨S_, .f32⟩ : BufTy).Contents (Elt F) → (⟨S802816, .f32⟩ : BufTy).Contents (Elt F)) t15
  let t17 : (⟨S802816x2x2x2x2, .f32⟩ : BufTy).Contents (Elt F) := (((fun x i u => Host.scatter scatter_S802816x2x2x2x2_S4_S802816_0_1234_1234_0 (fun _ b => b) x i u) : (⟨S802816x2x2x2x2, .f32⟩ : BufTy).Contents (Elt F) → (⟨S4, .i32⟩ : BufTy).Contents (Elt F) → (⟨S802816, .f32⟩ : BufTy).Contents (Elt F) → (⟨S802816x2x2x2x2, .f32⟩ : BufTy).Contents (Elt F)) : (⟨S802816x2x2x2x2, .f32⟩ : BufTy).Contents (Elt F) → (⟨S4, .i32⟩ : BufTy).Contents (Elt F) → (⟨S802816, .f32⟩ : BufTy).Contents (Elt F) → (⟨S802816x2x2x2x2, .f32⟩ : BufTy).Contents (Elt F)) t5 t14 t16
  t17

/-- The rotation of the first qubit by each patch's own angle (column 0 of the patches): the two halves of the state along that qubit's axis (each an index wrapped into range, a gather, and a select filling with NaN where the index was out of range), the cosine and sine of half the angle broadcast over the other qubits, the two combinations, and their concatenation back along the axis. `x0` is the state, `x1` the patches. -/
def gRyD0 (x0 : (⟨S802816x2x2x2x2, .f32⟩ : BufTy).Contents (Elt F)) (x1 : (⟨S802816x4, .f32⟩ : BufTy).Contents (Elt F)) : (⟨S802816x2x2x2x2, .f32⟩ : BufTy).Contents (Elt F) :=
  let t0 : (⟨S802816x1, .f32⟩ : BufTy).Contents (Elt F) := (((extractStridedSlice S802816x1 ![0, 0] · slices_S802816x4_S802816x1_0_0) : (⟨S802816x4, .f32⟩ : BufTy).Contents (Elt F) → (⟨S802816x1, .f32⟩ : BufTy).Contents (Elt F)) : (⟨S802816x4, .f32⟩ : BufTy).Contents (Elt F) → (⟨S802816x1, .f32⟩ : BufTy).Contents (Elt F)) x1
  let t1 : (⟨S802816, .f32⟩ : BufTy).Contents (Elt F) := shapeCast S802816 t0 shapeCasts_S802816x1_S802816
  let t2 : (⟨S_, .i32⟩ : BufTy).Contents (Elt F) := (constantI S_ 32 0#32)
  let t3 : (⟨S_, .i32⟩ : BufTy).Contents (Elt F) := (constantI S_ 32 0#32)
  let t4 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t2 t3
  let t5 : (⟨S_, .i32⟩ : BufTy).Contents (Elt F) := (constantI S_ 32 2#32)
  let t6 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t2 t5
  let t7 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t4 t6 t2
  let t8 : (⟨S1, .i32⟩ : BufTy).Contents (Elt F) := ((broadcastInDim S1 ![] bcast_S_S1) : (⟨S_, .i32⟩ : BufTy).Contents (Elt F) → (⟨S1, .i32⟩ : BufTy).Contents (Elt F)) t7
  let t9 : (⟨S1, .i32⟩ : BufTy).Contents (Elt F) := (constantI S1 32 1#32)
  let t10 : (⟨S1, .i32⟩ : BufTy).Contents (Elt F) := (id : (⟨S1, .i32⟩ : BufTy).Contents (Elt F) → (⟨S1, .i32⟩ : BufTy).Contents (Elt F)) t8
  let t11 : (⟨S_, .i32⟩ : BufTy).Contents (Elt F) := (constantI S_ 32 0#32)
  let t12 : (⟨S1, .i32⟩ : BufTy).Contents (Elt F) := ((broadcastInDim S1 ![] bcast_S_S1) : (⟨S_, .i32⟩ : BufTy).Contents (Elt F) → (⟨S1, .i32⟩ : BufTy).Contents (Elt F)) t11
  let t13 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t10 t12
  let t14 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t10 t9
  let t15 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t13 t14
  let t16 : (⟨S_, .i1⟩ : BufTy).Contents (Elt F) := (constantI S_ 1 1#1)
  let t17 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t15 t16
  let t18 : (⟨S802816x2x2x2, .f32⟩ : BufTy).Contents (Elt F) := ((fun x i => Host.gather gather_S802816x2x2x2x2_S1_S802816x2x2x2_0123_1_n_n_1_0_8028161222 x i) : (⟨S802816x2x2x2x2, .f32⟩ : BufTy).Contents (Elt F) → (⟨S1, .i32⟩ : BufTy).Contents (Elt F) → (⟨S802816x2x2x2, .f32⟩ : BufTy).Contents (Elt F)) x0 t10
  let t19 : (⟨S802816x2x2x2, .i1⟩ : BufTy).Contents (Elt F) := ((broadcastInDim S802816x2x2x2 ![] bcast_S_S802816x2x2x2) : (⟨S_, .i1⟩ : BufTy).Contents (Elt F) → (⟨S802816x2x2x2, .i1⟩ : BufTy).Contents (Elt F)) t17
  let t20 : (⟨S_, .f32⟩ : BufTy).Contents (Elt F) := (constant S_ .f32 0x7FC00000#32)
  let t21 : (⟨S802816x2x2x2, .f32⟩ : BufTy).Contents (Elt F) := ((broadcastInDim S802816x2x2x2 ![] bcast_S_S802816x2x2x2) : (⟨S_, .f32⟩ : BufTy).Contents (Elt F) → (⟨S802816x2x2x2, .f32⟩ : BufTy).Contents (Elt F)) t20
  let t22 : (⟨S802816x2x2x2, .f32⟩ : BufTy).Contents (Elt F) := (select : (⟨S802816x2x2x2, .i1⟩ : BufTy).Contents (Elt F) → (⟨S802816x2x2x2, .f32⟩ : BufTy).Contents (Elt F) → (⟨S802816x2x2x2, .f32⟩ : BufTy).Contents (Elt F) → (⟨S802816x2x2x2, .f32⟩ : BufTy).Contents (Elt F)) t19 t18 t21
  let t23 : (⟨S_, .i32⟩ : BufTy).Contents (Elt F) := (constantI S_ 32 1#32)
  let t24 : (⟨S_, .i32⟩ : BufTy).Contents (Elt F) := (constantI S_ 32 0#32)
  let t25 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t23 t24
  let t26 : (⟨S_, .i32⟩ : BufTy).Contents (Elt F) := (constantI S_ 32 2#32)
  let t27 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t23 t26
  let t28 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t25 t27 t23
  let t29 : (⟨S1, .i32⟩ : BufTy).Contents (Elt F) := ((broadcastInDim S1 ![] bcast_S_S1) : (⟨S_, .i32⟩ : BufTy).Contents (Elt F) → (⟨S1, .i32⟩ : BufTy).Contents (Elt F)) t28
  let t30 : (⟨S1, .i32⟩ : BufTy).Contents (Elt F) := (constantI S1 32 1#32)
  let t31 : (⟨S1, .i32⟩ : BufTy).Contents (Elt F) := (id : (⟨S1, .i32⟩ : BufTy).Contents (Elt F) → (⟨S1, .i32⟩ : BufTy).Contents (Elt F)) t29
  let t32 : (⟨S_, .i32⟩ : BufTy).Contents (Elt F) := (constantI S_ 32 0#32)
  let t33 : (⟨S1, .i32⟩ : BufTy).Contents (Elt F) := ((broadcastInDim S1 ![] bcast_S_S1) : (⟨S_, .i32⟩ : BufTy).Contents (Elt F) → (⟨S1, .i32⟩ : BufTy).Contents (Elt F)) t32
  let t34 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t31 t33
  let t35 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t31 t30
  let t36 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t34 t35
  let t37 : (⟨S_, .i1⟩ : BufTy).Contents (Elt F) := (constantI S_ 1 1#1)
  let t38 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t36 t37
  let t39 : (⟨S802816x2x2x2, .f32⟩ : BufTy).Contents (Elt F) := ((fun x i => Host.gather gather_S802816x2x2x2x2_S1_S802816x2x2x2_0123_1_n_n_1_0_8028161222 x i) : (⟨S802816x2x2x2x2, .f32⟩ : BufTy).Contents (Elt F) → (⟨S1, .i32⟩ : BufTy).Contents (Elt F) → (⟨S802816x2x2x2, .f32⟩ : BufTy).Contents (Elt F)) x0 t31
  let t40 : (⟨S802816x2x2x2, .i1⟩ : BufTy).Contents (Elt F) := ((broadcastInDim S802816x2x2x2 ![] bcast_S_S802816x2x2x2) : (⟨S_, .i1⟩ : BufTy).Contents (Elt F) → (⟨S802816x2x2x2, .i1⟩ : BufTy).Contents (Elt F)) t38
  let t41 : (⟨S_, .f32⟩ : BufTy).Contents (Elt F) := (constant S_ .f32 0x7FC00000#32)
  let t42 : (⟨S802816x2x2x2, .f32⟩ : BufTy).Contents (Elt F) := ((broadcastInDim S802816x2x2x2 ![] bcast_S_S802816x2x2x2) : (⟨S_, .f32⟩ : BufTy).Contents (Elt F) → (⟨S802816x2x2x2, .f32⟩ : BufTy).Contents (Elt F)) t41
  let t43 : (⟨S802816x2x2x2, .f32⟩ : BufTy).Contents (Elt F) := (select : (⟨S802816x2x2x2, .i1⟩ : BufTy).Contents (Elt F) → (⟨S802816x2x2x2, .f32⟩ : BufTy).Contents (Elt F) → (⟨S802816x2x2x2, .f32⟩ : BufTy).Contents (Elt F) → (⟨S802816x2x2x2, .f32⟩ : BufTy).Contents (Elt F)) t40 t39 t42
  let t44 : (⟨S_, .f32⟩ : BufTy).Contents (Elt F) := (constant S_ .f32 0x3F000000#32)
  let t45 : (⟨S802816, .f32⟩ : BufTy).Contents (Elt F) := ((broadcastInDim S802816 ![] bcast_S_S802816 : (⟨S_, .f32⟩ : BufTy).Contents (Elt F) → (⟨S802816, .f32⟩ : BufTy).Contents (Elt F)) : (⟨S_, .f32⟩ : BufTy).Contents (Elt F) → (⟨S802816, .f32⟩ : BufTy).Contents (Elt F)) t44
  let t46 : (⟨S802816, .f32⟩ : BufTy).Contents (Elt F) := ((mulf : (⟨S802816, .f32⟩ : BufTy).Contents (Elt F) → (⟨S802816, .f32⟩ : BufTy).Contents (Elt F) → (⟨S802816, .f32⟩ : BufTy).Contents (Elt F)) : (⟨S802816, .f32⟩ : BufTy).Contents (Elt F) → (⟨S802816, .f32⟩ : BufTy).Contents (Elt F) → (⟨S802816, .f32⟩ : BufTy).Contents (Elt F)) t1 t45
  let t47 : (⟨S802816, .f32⟩ : BufTy).Contents (Elt F) := ((Host.cos : (⟨S802816, .f32⟩ : BufTy).Contents (Elt F) → (⟨S802816, .f32⟩ : BufTy).Contents (Elt F)) : (⟨S802816, .f32⟩ : BufTy).Contents (Elt F) → (⟨S802816, .f32⟩ : BufTy).Contents (Elt F)) t46
  let t48 : (⟨S_, .f32⟩ : BufTy).Contents (Elt F) := (constant S_ .f32 0x3F000000#32)
  let t49 : (⟨S802816, .f32⟩ : BufTy).Contents (Elt F) := ((broadcastInDim S802816 ![] bcast_S_S802816 : (⟨S_, .f32⟩ : BufTy).Contents (Elt F) → (⟨S802816, .f32⟩ : BufTy).Contents (Elt F)) : (⟨S_, .f32⟩ : BufTy).Contents (Elt F) → (⟨S802816, .f32⟩ : BufTy).Contents (Elt F)) t48
  let t50 : (⟨S802816, .f32⟩ : BufTy).Contents (Elt F) := ((mulf : (⟨S802816, .f32⟩ : BufTy).Contents (Elt F) → (⟨S802816, .f32⟩ : BufTy).Contents (Elt F) → (⟨S802816, .f32⟩ : BufTy).Contents (Elt F)) : (⟨S802816, .f32⟩ : BufTy).Contents (Elt F) → (⟨S802816, .f32⟩ : BufTy).Contents (Elt F) → (⟨S802816, .f32⟩ : BufTy).Contents (Elt F)) t1 t49
  let t51 : (⟨S802816, .f32⟩ : BufTy).Contents (Elt F) := ((Host.sin : (⟨S802816, .f32⟩ : BufTy).Contents (Elt F) → (⟨S802816, .f32⟩ : BufTy).Contents (Elt F)) : (⟨S802816, .f32⟩ : BufTy).Contents (Elt F) → (⟨S802816, .f32⟩ : BufTy).Contents (Elt F)) t50
  let t52 : (⟨S802816x1x1x1, .f32⟩ : BufTy).Contents (Elt F) := shapeCast S802816x1x1x1 t47 shapeCasts_S802816_S802816x1x1x1
  let t53 : (⟨S802816x1x1x1, .f32⟩ : BufTy).Contents (Elt F) := shapeCast S802816x1x1x1 t51 shapeCasts_S802816_S802816x1x1x1
  let t54 : (⟨S802816x2x2x2, .f32⟩ : BufTy).Contents (Elt F) := ((broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)) : (⟨S802816x1x1x1, .f32⟩ : BufTy).Contents (Elt F) → (⟨S802816x2x2x2, .f32⟩ : BufTy).Contents (Elt F)) t52
  let t55 : (⟨S802816x2x2x2, .f32⟩ : BufTy).Contents (Elt F) := ((mulf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t54 t22
  let t56 : (⟨S802816x2x2x2, .f32⟩ : BufTy).Contents (Elt F) := ((broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)) : (⟨S802816x1x1x1, .f32⟩ : BufTy).Contents (Elt F) → (⟨S802816x2x2x2, .f32⟩ : BufTy).Contents (Elt F)) t53
  let t57 : (⟨S802816x2x2x2, .f32⟩ : BufTy).Contents (Elt F) := ((mulf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t56 t43
  let t58 : (⟨S802816x2x2x2, .f32⟩ : BufTy).Contents (Elt F) := ((subf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t55 t57
  let t59 : (⟨S802816x2x2x2, .f32⟩ : BufTy).Contents (Elt F) := ((broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)) : (⟨S802816x1x1x1, .f32⟩ : BufTy).Contents (Elt F) → (⟨S802816x2x2x2, .f32⟩ : BufTy).Contents (Elt F)) t53
  let t60 : (⟨S802816x2x2x2, .f32⟩ : BufTy).Contents (Elt F) := ((mulf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t59 t22
  let t61 : (⟨S802816x2x2x2, .f32⟩ : BufTy).Contents (Elt F) := ((broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)) : (⟨S802816x1x1x1, .f32⟩ : BufTy).Contents (Elt F) → (⟨S802816x2x2x2, .f32⟩ : BufTy).Contents (Elt F)) t52
  let t62 : (⟨S802816x2x2x2, .f32⟩ : BufTy).Contents (Elt F) := ((mulf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t61 t43
  let t63 : (⟨S802816x2x2x2, .f32⟩ : BufTy).Contents (Elt F) := ((addf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t60 t62
  let t64 : (⟨S802816x1x2x2x2, .f32⟩ : BufTy).Contents (Elt F) := ((broadcastInDim S802816x1x2x2x2 ![0, 2, 3, 4] bcast_S802816x2x2x2_S802816x1x2x2x2_0_2_3_4 : (⟨S802816x2x2x2, .f32⟩ : BufTy).Contents (Elt F) → (⟨S802816x1x2x2x2, .f32⟩ : BufTy).Contents (Elt F)) : (⟨S802816x2x2x2, .f32⟩ : BufTy).Contents (Elt F) → (⟨S802816x1x2x2x2, .f32⟩ : BufTy).Contents (Elt F)) t58
  let t65 : (⟨S802816x1x2x2x2, .f32⟩ : BufTy).Contents (Elt F) := ((broadcastInDim S802816x1x2x2x2 ![0, 2, 3, 4] bcast_S802816x2x2x2_S802816x1x2x2x2_0_2_3_4 : (⟨S802816x2x2x2, .f32⟩ : BufTy).Contents (Elt F) → (⟨S802816x1x2x2x2, .f32⟩ : BufTy).Contents (Elt F)) : (⟨S802816x2x2x2, .f32⟩ : BufTy).Contents (Elt F) → (⟨S802816x1x2x2x2, .f32⟩ : BufTy).Contents (Elt F)) t63
  let t66 : (⟨S802816x2x2x2x2, .f32⟩ : BufTy).Contents (Elt F) := (((fun a b => concatenate S802816x2x2x2x2 1 [⟨S802816x1x2x2x2, a⟩, ⟨S802816x1x2x2x2, b⟩] concatenates_S802816x1x2x2x2_S802816x1x2x2x2_S802816x2x2x2x2_d1) : (⟨S802816x1x2x2x2, .f32⟩ : BufTy).Contents (Elt F) → (⟨S802816x1x2x2x2, .f32⟩ : BufTy).Contents (Elt F) → (⟨S802816x2x2x2x2, .f32⟩ : BufTy).Contents (Elt F)) : (⟨S802816x1x2x2x2, .f32⟩ : BufTy).Contents (Elt F) → (⟨S802816x1x2x2x2, .f32⟩ : BufTy).Contents (Elt F) → (⟨S802816x2x2x2x2, .f32⟩ : BufTy).Contents (Elt F)) t64 t65
  t66

/-- The rotation of the second qubit by each patch's own angle (column 1 of the patches): the two halves of the state along that qubit's axis (each an index wrapped into range, a gather, and a select filling with NaN where the index was out of range), the cosine and sine of half the angle broadcast over the other qubits, the two combinations, and their concatenation back along the axis. `x0` is the state, `x1` the patches. -/
def gRyD1 (x0 : (⟨S802816x2x2x2x2, .f32⟩ : BufTy).Contents (Elt F)) (x1 : (⟨S802816x4, .f32⟩ : BufTy).Contents (Elt F)) : (⟨S802816x2x2x2x2, .f32⟩ : BufTy).Contents (Elt F) :=
  let t0 : (⟨S802816x1, .f32⟩ : BufTy).Contents (Elt F) := (((extractStridedSlice S802816x1 ![0, 1] · slices_S802816x4_S802816x1_0_1) : (⟨S802816x4, .f32⟩ : BufTy).Contents (Elt F) → (⟨S802816x1, .f32⟩ : BufTy).Contents (Elt F)) : (⟨S802816x4, .f32⟩ : BufTy).Contents (Elt F) → (⟨S802816x1, .f32⟩ : BufTy).Contents (Elt F)) x1
  let t1 : (⟨S802816, .f32⟩ : BufTy).Contents (Elt F) := shapeCast S802816 t0 shapeCasts_S802816x1_S802816
  let t2 : (⟨S_, .i32⟩ : BufTy).Contents (Elt F) := (constantI S_ 32 0#32)
  let t3 : (⟨S_, .i32⟩ : BufTy).Contents (Elt F) := (constantI S_ 32 0#32)
  let t4 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t2 t3
  let t5 : (⟨S_, .i32⟩ : BufTy).Contents (Elt F) := (constantI S_ 32 2#32)
  let t6 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t2 t5
  let t7 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t4 t6 t2
  let t8 : (⟨S1, .i32⟩ : BufTy).Contents (Elt F) := ((broadcastInDim S1 ![] bcast_S_S1) : (⟨S_, .i32⟩ : BufTy).Contents (Elt F) → (⟨S1, .i32⟩ : BufTy).Contents (Elt F)) t7
  let t9 : (⟨S1, .i32⟩ : BufTy).Contents (Elt F) := (constantI S1 32 1#32)
  let t10 : (⟨S1, .i32⟩ : BufTy).Contents (Elt F) := (id : (⟨S1, .i32⟩ : BufTy).Contents (Elt F) → (⟨S1, .i32⟩ : BufTy).Contents (Elt F)) t8
  let t11 : (⟨S_, .i32⟩ : BufTy).Contents (Elt F) := (constantI S_ 32 0#32)
  let t12 : (⟨S1, .i32⟩ : BufTy).Contents (Elt F) := ((broadcastInDim S1 ![] bcast_S_S1) : (⟨S_, .i32⟩ : BufTy).Contents (Elt F) → (⟨S1, .i32⟩ : BufTy).Contents (Elt F)) t11
  let t13 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t10 t12
  let t14 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t10 t9
  let t15 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t13 t14
  let t16 : (⟨S_, .i1⟩ : BufTy).Contents (Elt F) := (constantI S_ 1 1#1)
  let t17 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t15 t16
  let t18 : (⟨S802816x2x2x2, .f32⟩ : BufTy).Contents (Elt F) := ((fun x i => Host.gather gather_S802816x2x2x2x2_S1_S802816x2x2x2_0123_2_n_n_2_0_8028162122 x i) : (⟨S802816x2x2x2x2, .f32⟩ : BufTy).Contents (Elt F) → (⟨S1, .i32⟩ : BufTy).Contents (Elt F) → (⟨S802816x2x2x2, .f32⟩ : BufTy).Contents (Elt F)) x0 t10
  let t19 : (⟨S802816x2x2x2, .i1⟩ : BufTy).Contents (Elt F) := ((broadcastInDim S802816x2x2x2 ![] bcast_S_S802816x2x2x2) : (⟨S_, .i1⟩ : BufTy).Contents (Elt F) → (⟨S802816x2x2x2, .i1⟩ : BufTy).Contents (Elt F)) t17
  let t20 : (⟨S_, .f32⟩ : BufTy).Contents (Elt F) := (constant S_ .f32 0x7FC00000#32)
  let t21 : (⟨S802816x2x2x2, .f32⟩ : BufTy).Contents (Elt F) := ((broadcastInDim S802816x2x2x2 ![] bcast_S_S802816x2x2x2) : (⟨S_, .f32⟩ : BufTy).Contents (Elt F) → (⟨S802816x2x2x2, .f32⟩ : BufTy).Contents (Elt F)) t20
  let t22 : (⟨S802816x2x2x2, .f32⟩ : BufTy).Contents (Elt F) := (select : (⟨S802816x2x2x2, .i1⟩ : BufTy).Contents (Elt F) → (⟨S802816x2x2x2, .f32⟩ : BufTy).Contents (Elt F) → (⟨S802816x2x2x2, .f32⟩ : BufTy).Contents (Elt F) → (⟨S802816x2x2x2, .f32⟩ : BufTy).Contents (Elt F)) t19 t18 t21
  let t23 : (⟨S_, .i32⟩ : BufTy).Contents (Elt F) := (constantI S_ 32 1#32)
  let t24 : (⟨S_, .i32⟩ : BufTy).Contents (Elt F) := (constantI S_ 32 0#32)
  let t25 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t23 t24
  let t26 : (⟨S_, .i32⟩ : BufTy).Contents (Elt F) := (constantI S_ 32 2#32)
  let t27 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t23 t26
  let t28 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t25 t27 t23
  let t29 : (⟨S1, .i32⟩ : BufTy).Contents (Elt F) := ((broadcastInDim S1 ![] bcast_S_S1) : (⟨S_, .i32⟩ : BufTy).Contents (Elt F) → (⟨S1, .i32⟩ : BufTy).Contents (Elt F)) t28
  let t30 : (⟨S1, .i32⟩ : BufTy).Contents (Elt F) := (constantI S1 32 1#32)
  let t31 : (⟨S1, .i32⟩ : BufTy).Contents (Elt F) := (id : (⟨S1, .i32⟩ : BufTy).Contents (Elt F) → (⟨S1, .i32⟩ : BufTy).Contents (Elt F)) t29
  let t32 : (⟨S_, .i32⟩ : BufTy).Contents (Elt F) := (constantI S_ 32 0#32)
  let t33 : (⟨S1, .i32⟩ : BufTy).Contents (Elt F) := ((broadcastInDim S1 ![] bcast_S_S1) : (⟨S_, .i32⟩ : BufTy).Contents (Elt F) → (⟨S1, .i32⟩ : BufTy).Contents (Elt F)) t32
  let t34 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t31 t33
  let t35 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t31 t30
  let t36 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t34 t35
  let t37 : (⟨S_, .i1⟩ : BufTy).Contents (Elt F) := (constantI S_ 1 1#1)
  let t38 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t36 t37
  let t39 : (⟨S802816x2x2x2, .f32⟩ : BufTy).Contents (Elt F) := ((fun x i => Host.gather gather_S802816x2x2x2x2_S1_S802816x2x2x2_0123_2_n_n_2_0_8028162122 x i) : (⟨S802816x2x2x2x2, .f32⟩ : BufTy).Contents (Elt F) → (⟨S1, .i32⟩ : BufTy).Contents (Elt F) → (⟨S802816x2x2x2, .f32⟩ : BufTy).Contents (Elt F)) x0 t31
  let t40 : (⟨S802816x2x2x2, .i1⟩ : BufTy).Contents (Elt F) := ((broadcastInDim S802816x2x2x2 ![] bcast_S_S802816x2x2x2) : (⟨S_, .i1⟩ : BufTy).Contents (Elt F) → (⟨S802816x2x2x2, .i1⟩ : BufTy).Contents (Elt F)) t38
  let t41 : (⟨S_, .f32⟩ : BufTy).Contents (Elt F) := (constant S_ .f32 0x7FC00000#32)
  let t42 : (⟨S802816x2x2x2, .f32⟩ : BufTy).Contents (Elt F) := ((broadcastInDim S802816x2x2x2 ![] bcast_S_S802816x2x2x2) : (⟨S_, .f32⟩ : BufTy).Contents (Elt F) → (⟨S802816x2x2x2, .f32⟩ : BufTy).Contents (Elt F)) t41
  let t43 : (⟨S802816x2x2x2, .f32⟩ : BufTy).Contents (Elt F) := (select : (⟨S802816x2x2x2, .i1⟩ : BufTy).Contents (Elt F) → (⟨S802816x2x2x2, .f32⟩ : BufTy).Contents (Elt F) → (⟨S802816x2x2x2, .f32⟩ : BufTy).Contents (Elt F) → (⟨S802816x2x2x2, .f32⟩ : BufTy).Contents (Elt F)) t40 t39 t42
  let t44 : (⟨S_, .f32⟩ : BufTy).Contents (Elt F) := (constant S_ .f32 0x3F000000#32)
  let t45 : (⟨S802816, .f32⟩ : BufTy).Contents (Elt F) := ((broadcastInDim S802816 ![] bcast_S_S802816 : (⟨S_, .f32⟩ : BufTy).Contents (Elt F) → (⟨S802816, .f32⟩ : BufTy).Contents (Elt F)) : (⟨S_, .f32⟩ : BufTy).Contents (Elt F) → (⟨S802816, .f32⟩ : BufTy).Contents (Elt F)) t44
  let t46 : (⟨S802816, .f32⟩ : BufTy).Contents (Elt F) := ((mulf : (⟨S802816, .f32⟩ : BufTy).Contents (Elt F) → (⟨S802816, .f32⟩ : BufTy).Contents (Elt F) → (⟨S802816, .f32⟩ : BufTy).Contents (Elt F)) : (⟨S802816, .f32⟩ : BufTy).Contents (Elt F) → (⟨S802816, .f32⟩ : BufTy).Contents (Elt F) → (⟨S802816, .f32⟩ : BufTy).Contents (Elt F)) t1 t45
  let t47 : (⟨S802816, .f32⟩ : BufTy).Contents (Elt F) := ((Host.cos : (⟨S802816, .f32⟩ : BufTy).Contents (Elt F) → (⟨S802816, .f32⟩ : BufTy).Contents (Elt F)) : (⟨S802816, .f32⟩ : BufTy).Contents (Elt F) → (⟨S802816, .f32⟩ : BufTy).Contents (Elt F)) t46
  let t48 : (⟨S_, .f32⟩ : BufTy).Contents (Elt F) := (constant S_ .f32 0x3F000000#32)
  let t49 : (⟨S802816, .f32⟩ : BufTy).Contents (Elt F) := ((broadcastInDim S802816 ![] bcast_S_S802816 : (⟨S_, .f32⟩ : BufTy).Contents (Elt F) → (⟨S802816, .f32⟩ : BufTy).Contents (Elt F)) : (⟨S_, .f32⟩ : BufTy).Contents (Elt F) → (⟨S802816, .f32⟩ : BufTy).Contents (Elt F)) t48
  let t50 : (⟨S802816, .f32⟩ : BufTy).Contents (Elt F) := ((mulf : (⟨S802816, .f32⟩ : BufTy).Contents (Elt F) → (⟨S802816, .f32⟩ : BufTy).Contents (Elt F) → (⟨S802816, .f32⟩ : BufTy).Contents (Elt F)) : (⟨S802816, .f32⟩ : BufTy).Contents (Elt F) → (⟨S802816, .f32⟩ : BufTy).Contents (Elt F) → (⟨S802816, .f32⟩ : BufTy).Contents (Elt F)) t1 t49
  let t51 : (⟨S802816, .f32⟩ : BufTy).Contents (Elt F) := ((Host.sin : (⟨S802816, .f32⟩ : BufTy).Contents (Elt F) → (⟨S802816, .f32⟩ : BufTy).Contents (Elt F)) : (⟨S802816, .f32⟩ : BufTy).Contents (Elt F) → (⟨S802816, .f32⟩ : BufTy).Contents (Elt F)) t50
  let t52 : (⟨S802816x1x1x1, .f32⟩ : BufTy).Contents (Elt F) := shapeCast S802816x1x1x1 t47 shapeCasts_S802816_S802816x1x1x1
  let t53 : (⟨S802816x1x1x1, .f32⟩ : BufTy).Contents (Elt F) := shapeCast S802816x1x1x1 t51 shapeCasts_S802816_S802816x1x1x1
  let t54 : (⟨S802816x2x2x2, .f32⟩ : BufTy).Contents (Elt F) := ((broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)) : (⟨S802816x1x1x1, .f32⟩ : BufTy).Contents (Elt F) → (⟨S802816x2x2x2, .f32⟩ : BufTy).Contents (Elt F)) t52
  let t55 : (⟨S802816x2x2x2, .f32⟩ : BufTy).Contents (Elt F) := ((mulf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t54 t22
  let t56 : (⟨S802816x2x2x2, .f32⟩ : BufTy).Contents (Elt F) := ((broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)) : (⟨S802816x1x1x1, .f32⟩ : BufTy).Contents (Elt F) → (⟨S802816x2x2x2, .f32⟩ : BufTy).Contents (Elt F)) t53
  let t57 : (⟨S802816x2x2x2, .f32⟩ : BufTy).Contents (Elt F) := ((mulf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t56 t43
  let t58 : (⟨S802816x2x2x2, .f32⟩ : BufTy).Contents (Elt F) := ((subf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t55 t57
  let t59 : (⟨S802816x2x2x2, .f32⟩ : BufTy).Contents (Elt F) := ((broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)) : (⟨S802816x1x1x1, .f32⟩ : BufTy).Contents (Elt F) → (⟨S802816x2x2x2, .f32⟩ : BufTy).Contents (Elt F)) t53
  let t60 : (⟨S802816x2x2x2, .f32⟩ : BufTy).Contents (Elt F) := ((mulf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t59 t22
  let t61 : (⟨S802816x2x2x2, .f32⟩ : BufTy).Contents (Elt F) := ((broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)) : (⟨S802816x1x1x1, .f32⟩ : BufTy).Contents (Elt F) → (⟨S802816x2x2x2, .f32⟩ : BufTy).Contents (Elt F)) t52
  let t62 : (⟨S802816x2x2x2, .f32⟩ : BufTy).Contents (Elt F) := ((mulf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t61 t43
  let t63 : (⟨S802816x2x2x2, .f32⟩ : BufTy).Contents (Elt F) := ((addf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t60 t62
  let t64 : (⟨S802816x2x1x2x2, .f32⟩ : BufTy).Contents (Elt F) := ((broadcastInDim S802816x2x1x2x2 ![0, 1, 3, 4] bcast_S802816x2x2x2_S802816x2x1x2x2_0_1_3_4 : (⟨S802816x2x2x2, .f32⟩ : BufTy).Contents (Elt F) → (⟨S802816x2x1x2x2, .f32⟩ : BufTy).Contents (Elt F)) : (⟨S802816x2x2x2, .f32⟩ : BufTy).Contents (Elt F) → (⟨S802816x2x1x2x2, .f32⟩ : BufTy).Contents (Elt F)) t58
  let t65 : (⟨S802816x2x1x2x2, .f32⟩ : BufTy).Contents (Elt F) := ((broadcastInDim S802816x2x1x2x2 ![0, 1, 3, 4] bcast_S802816x2x2x2_S802816x2x1x2x2_0_1_3_4 : (⟨S802816x2x2x2, .f32⟩ : BufTy).Contents (Elt F) → (⟨S802816x2x1x2x2, .f32⟩ : BufTy).Contents (Elt F)) : (⟨S802816x2x2x2, .f32⟩ : BufTy).Contents (Elt F) → (⟨S802816x2x1x2x2, .f32⟩ : BufTy).Contents (Elt F)) t63
  let t66 : (⟨S802816x2x2x2x2, .f32⟩ : BufTy).Contents (Elt F) := (((fun a b => concatenate S802816x2x2x2x2 2 [⟨S802816x2x1x2x2, a⟩, ⟨S802816x2x1x2x2, b⟩] concatenates_S802816x2x1x2x2_S802816x2x1x2x2_S802816x2x2x2x2_d2) : (⟨S802816x2x1x2x2, .f32⟩ : BufTy).Contents (Elt F) → (⟨S802816x2x1x2x2, .f32⟩ : BufTy).Contents (Elt F) → (⟨S802816x2x2x2x2, .f32⟩ : BufTy).Contents (Elt F)) : (⟨S802816x2x1x2x2, .f32⟩ : BufTy).Contents (Elt F) → (⟨S802816x2x1x2x2, .f32⟩ : BufTy).Contents (Elt F) → (⟨S802816x2x2x2x2, .f32⟩ : BufTy).Contents (Elt F)) t64 t65
  t66

/-- The rotation of the third qubit by each patch's own angle (column 2 of the patches): the two halves of the state along that qubit's axis (each an index wrapped into range, a gather, and a select filling with NaN where the index was out of range), the cosine and sine of half the angle broadcast over the other qubits, the two combinations, and their concatenation back along the axis. `x0` is the state, `x1` the patches. -/
def gRyD2 (x0 : (⟨S802816x2x2x2x2, .f32⟩ : BufTy).Contents (Elt F)) (x1 : (⟨S802816x4, .f32⟩ : BufTy).Contents (Elt F)) : (⟨S802816x2x2x2x2, .f32⟩ : BufTy).Contents (Elt F) :=
  let t0 : (⟨S802816x1, .f32⟩ : BufTy).Contents (Elt F) := (((extractStridedSlice S802816x1 ![0, 2] · slices_S802816x4_S802816x1_0_2) : (⟨S802816x4, .f32⟩ : BufTy).Contents (Elt F) → (⟨S802816x1, .f32⟩ : BufTy).Contents (Elt F)) : (⟨S802816x4, .f32⟩ : BufTy).Contents (Elt F) → (⟨S802816x1, .f32⟩ : BufTy).Contents (Elt F)) x1
  let t1 : (⟨S802816, .f32⟩ : BufTy).Contents (Elt F) := shapeCast S802816 t0 shapeCasts_S802816x1_S802816
  let t2 : (⟨S_, .i32⟩ : BufTy).Contents (Elt F) := (constantI S_ 32 0#32)
  let t3 : (⟨S_, .i32⟩ : BufTy).Contents (Elt F) := (constantI S_ 32 0#32)
  let t4 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t2 t3
  let t5 : (⟨S_, .i32⟩ : BufTy).Contents (Elt F) := (constantI S_ 32 2#32)
  let t6 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t2 t5
  let t7 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t4 t6 t2
  let t8 : (⟨S1, .i32⟩ : BufTy).Contents (Elt F) := ((broadcastInDim S1 ![] bcast_S_S1) : (⟨S_, .i32⟩ : BufTy).Contents (Elt F) → (⟨S1, .i32⟩ : BufTy).Contents (Elt F)) t7
  let t9 : (⟨S1, .i32⟩ : BufTy).Contents (Elt F) := (constantI S1 32 1#32)
  let t10 : (⟨S1, .i32⟩ : BufTy).Contents (Elt F) := (id : (⟨S1, .i32⟩ : BufTy).Contents (Elt F) → (⟨S1, .i32⟩ : BufTy).Contents (Elt F)) t8
  let t11 : (⟨S_, .i32⟩ : BufTy).Contents (Elt F) := (constantI S_ 32 0#32)
  let t12 : (⟨S1, .i32⟩ : BufTy).Contents (Elt F) := ((broadcastInDim S1 ![] bcast_S_S1) : (⟨S_, .i32⟩ : BufTy).Contents (Elt F) → (⟨S1, .i32⟩ : BufTy).Contents (Elt F)) t11
  let t13 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t10 t12
  let t14 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t10 t9
  let t15 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t13 t14
  let t16 : (⟨S_, .i1⟩ : BufTy).Contents (Elt F) := (constantI S_ 1 1#1)
  let t17 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t15 t16
  let t18 : (⟨S802816x2x2x2, .f32⟩ : BufTy).Contents (Elt F) := ((fun x i => Host.gather gather_S802816x2x2x2x2_S1_S802816x2x2x2_0123_3_n_n_3_0_8028162212 x i) : (⟨S802816x2x2x2x2, .f32⟩ : BufTy).Contents (Elt F) → (⟨S1, .i32⟩ : BufTy).Contents (Elt F) → (⟨S802816x2x2x2, .f32⟩ : BufTy).Contents (Elt F)) x0 t10
  let t19 : (⟨S802816x2x2x2, .i1⟩ : BufTy).Contents (Elt F) := ((broadcastInDim S802816x2x2x2 ![] bcast_S_S802816x2x2x2) : (⟨S_, .i1⟩ : BufTy).Contents (Elt F) → (⟨S802816x2x2x2, .i1⟩ : BufTy).Contents (Elt F)) t17
  let t20 : (⟨S_, .f32⟩ : BufTy).Contents (Elt F) := (constant S_ .f32 0x7FC00000#32)
  let t21 : (⟨S802816x2x2x2, .f32⟩ : BufTy).Contents (Elt F) := ((broadcastInDim S802816x2x2x2 ![] bcast_S_S802816x2x2x2) : (⟨S_, .f32⟩ : BufTy).Contents (Elt F) → (⟨S802816x2x2x2, .f32⟩ : BufTy).Contents (Elt F)) t20
  let t22 : (⟨S802816x2x2x2, .f32⟩ : BufTy).Contents (Elt F) := (select : (⟨S802816x2x2x2, .i1⟩ : BufTy).Contents (Elt F) → (⟨S802816x2x2x2, .f32⟩ : BufTy).Contents (Elt F) → (⟨S802816x2x2x2, .f32⟩ : BufTy).Contents (Elt F) → (⟨S802816x2x2x2, .f32⟩ : BufTy).Contents (Elt F)) t19 t18 t21
  let t23 : (⟨S_, .i32⟩ : BufTy).Contents (Elt F) := (constantI S_ 32 1#32)
  let t24 : (⟨S_, .i32⟩ : BufTy).Contents (Elt F) := (constantI S_ 32 0#32)
  let t25 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t23 t24
  let t26 : (⟨S_, .i32⟩ : BufTy).Contents (Elt F) := (constantI S_ 32 2#32)
  let t27 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t23 t26
  let t28 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t25 t27 t23
  let t29 : (⟨S1, .i32⟩ : BufTy).Contents (Elt F) := ((broadcastInDim S1 ![] bcast_S_S1) : (⟨S_, .i32⟩ : BufTy).Contents (Elt F) → (⟨S1, .i32⟩ : BufTy).Contents (Elt F)) t28
  let t30 : (⟨S1, .i32⟩ : BufTy).Contents (Elt F) := (constantI S1 32 1#32)
  let t31 : (⟨S1, .i32⟩ : BufTy).Contents (Elt F) := (id : (⟨S1, .i32⟩ : BufTy).Contents (Elt F) → (⟨S1, .i32⟩ : BufTy).Contents (Elt F)) t29
  let t32 : (⟨S_, .i32⟩ : BufTy).Contents (Elt F) := (constantI S_ 32 0#32)
  let t33 : (⟨S1, .i32⟩ : BufTy).Contents (Elt F) := ((broadcastInDim S1 ![] bcast_S_S1) : (⟨S_, .i32⟩ : BufTy).Contents (Elt F) → (⟨S1, .i32⟩ : BufTy).Contents (Elt F)) t32
  let t34 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t31 t33
  let t35 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t31 t30
  let t36 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t34 t35
  let t37 : (⟨S_, .i1⟩ : BufTy).Contents (Elt F) := (constantI S_ 1 1#1)
  let t38 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t36 t37
  let t39 : (⟨S802816x2x2x2, .f32⟩ : BufTy).Contents (Elt F) := ((fun x i => Host.gather gather_S802816x2x2x2x2_S1_S802816x2x2x2_0123_3_n_n_3_0_8028162212 x i) : (⟨S802816x2x2x2x2, .f32⟩ : BufTy).Contents (Elt F) → (⟨S1, .i32⟩ : BufTy).Contents (Elt F) → (⟨S802816x2x2x2, .f32⟩ : BufTy).Contents (Elt F)) x0 t31
  let t40 : (⟨S802816x2x2x2, .i1⟩ : BufTy).Contents (Elt F) := ((broadcastInDim S802816x2x2x2 ![] bcast_S_S802816x2x2x2) : (⟨S_, .i1⟩ : BufTy).Contents (Elt F) → (⟨S802816x2x2x2, .i1⟩ : BufTy).Contents (Elt F)) t38
  let t41 : (⟨S_, .f32⟩ : BufTy).Contents (Elt F) := (constant S_ .f32 0x7FC00000#32)
  let t42 : (⟨S802816x2x2x2, .f32⟩ : BufTy).Contents (Elt F) := ((broadcastInDim S802816x2x2x2 ![] bcast_S_S802816x2x2x2) : (⟨S_, .f32⟩ : BufTy).Contents (Elt F) → (⟨S802816x2x2x2, .f32⟩ : BufTy).Contents (Elt F)) t41
  let t43 : (⟨S802816x2x2x2, .f32⟩ : BufTy).Contents (Elt F) := (select : (⟨S802816x2x2x2, .i1⟩ : BufTy).Contents (Elt F) → (⟨S802816x2x2x2, .f32⟩ : BufTy).Contents (Elt F) → (⟨S802816x2x2x2, .f32⟩ : BufTy).Contents (Elt F) → (⟨S802816x2x2x2, .f32⟩ : BufTy).Contents (Elt F)) t40 t39 t42
  let t44 : (⟨S_, .f32⟩ : BufTy).Contents (Elt F) := (constant S_ .f32 0x3F000000#32)
  let t45 : (⟨S802816, .f32⟩ : BufTy).Contents (Elt F) := ((broadcastInDim S802816 ![] bcast_S_S802816 : (⟨S_, .f32⟩ : BufTy).Contents (Elt F) → (⟨S802816, .f32⟩ : BufTy).Contents (Elt F)) : (⟨S_, .f32⟩ : BufTy).Contents (Elt F) → (⟨S802816, .f32⟩ : BufTy).Contents (Elt F)) t44
  let t46 : (⟨S802816, .f32⟩ : BufTy).Contents (Elt F) := ((mulf : (⟨S802816, .f32⟩ : BufTy).Contents (Elt F) → (⟨S802816, .f32⟩ : BufTy).Contents (Elt F) → (⟨S802816, .f32⟩ : BufTy).Contents (Elt F)) : (⟨S802816, .f32⟩ : BufTy).Contents (Elt F) → (⟨S802816, .f32⟩ : BufTy).Contents (Elt F) → (⟨S802816, .f32⟩ : BufTy).Contents (Elt F)) t1 t45
  let t47 : (⟨S802816, .f32⟩ : BufTy).Contents (Elt F) := ((Host.cos : (⟨S802816, .f32⟩ : BufTy).Contents (Elt F) → (⟨S802816, .f32⟩ : BufTy).Contents (Elt F)) : (⟨S802816, .f32⟩ : BufTy).Contents (Elt F) → (⟨S802816, .f32⟩ : BufTy).Contents (Elt F)) t46
  let t48 : (⟨S_, .f32⟩ : BufTy).Contents (Elt F) := (constant S_ .f32 0x3F000000#32)
  let t49 : (⟨S802816, .f32⟩ : BufTy).Contents (Elt F) := ((broadcastInDim S802816 ![] bcast_S_S802816 : (⟨S_, .f32⟩ : BufTy).Contents (Elt F) → (⟨S802816, .f32⟩ : BufTy).Contents (Elt F)) : (⟨S_, .f32⟩ : BufTy).Contents (Elt F) → (⟨S802816, .f32⟩ : BufTy).Contents (Elt F)) t48
  let t50 : (⟨S802816, .f32⟩ : BufTy).Contents (Elt F) := ((mulf : (⟨S802816, .f32⟩ : BufTy).Contents (Elt F) → (⟨S802816, .f32⟩ : BufTy).Contents (Elt F) → (⟨S802816, .f32⟩ : BufTy).Contents (Elt F)) : (⟨S802816, .f32⟩ : BufTy).Contents (Elt F) → (⟨S802816, .f32⟩ : BufTy).Contents (Elt F) → (⟨S802816, .f32⟩ : BufTy).Contents (Elt F)) t1 t49
  let t51 : (⟨S802816, .f32⟩ : BufTy).Contents (Elt F) := ((Host.sin : (⟨S802816, .f32⟩ : BufTy).Contents (Elt F) → (⟨S802816, .f32⟩ : BufTy).Contents (Elt F)) : (⟨S802816, .f32⟩ : BufTy).Contents (Elt F) → (⟨S802816, .f32⟩ : BufTy).Contents (Elt F)) t50
  let t52 : (⟨S802816x1x1x1, .f32⟩ : BufTy).Contents (Elt F) := shapeCast S802816x1x1x1 t47 shapeCasts_S802816_S802816x1x1x1
  let t53 : (⟨S802816x1x1x1, .f32⟩ : BufTy).Contents (Elt F) := shapeCast S802816x1x1x1 t51 shapeCasts_S802816_S802816x1x1x1
  let t54 : (⟨S802816x2x2x2, .f32⟩ : BufTy).Contents (Elt F) := ((broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)) : (⟨S802816x1x1x1, .f32⟩ : BufTy).Contents (Elt F) → (⟨S802816x2x2x2, .f32⟩ : BufTy).Contents (Elt F)) t52
  let t55 : (⟨S802816x2x2x2, .f32⟩ : BufTy).Contents (Elt F) := ((mulf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t54 t22
  let t56 : (⟨S802816x2x2x2, .f32⟩ : BufTy).Contents (Elt F) := ((broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)) : (⟨S802816x1x1x1, .f32⟩ : BufTy).Contents (Elt F) → (⟨S802816x2x2x2, .f32⟩ : BufTy).Contents (Elt F)) t53
  let t57 : (⟨S802816x2x2x2, .f32⟩ : BufTy).Contents (Elt F) := ((mulf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t56 t43
  let t58 : (⟨S802816x2x2x2, .f32⟩ : BufTy).Contents (Elt F) := ((subf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t55 t57
  let t59 : (⟨S802816x2x2x2, .f32⟩ : BufTy).Contents (Elt F) := ((broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)) : (⟨S802816x1x1x1, .f32⟩ : BufTy).Contents (Elt F) → (⟨S802816x2x2x2, .f32⟩ : BufTy).Contents (Elt F)) t53
  let t60 : (⟨S802816x2x2x2, .f32⟩ : BufTy).Contents (Elt F) := ((mulf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t59 t22
  let t61 : (⟨S802816x2x2x2, .f32⟩ : BufTy).Contents (Elt F) := ((broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)) : (⟨S802816x1x1x1, .f32⟩ : BufTy).Contents (Elt F) → (⟨S802816x2x2x2, .f32⟩ : BufTy).Contents (Elt F)) t52
  let t62 : (⟨S802816x2x2x2, .f32⟩ : BufTy).Contents (Elt F) := ((mulf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t61 t43
  let t63 : (⟨S802816x2x2x2, .f32⟩ : BufTy).Contents (Elt F) := ((addf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t60 t62
  let t64 : (⟨S802816x2x2x1x2, .f32⟩ : BufTy).Contents (Elt F) := ((broadcastInDim S802816x2x2x1x2 ![0, 1, 2, 4] bcast_S802816x2x2x2_S802816x2x2x1x2_0_1_2_4 : (⟨S802816x2x2x2, .f32⟩ : BufTy).Contents (Elt F) → (⟨S802816x2x2x1x2, .f32⟩ : BufTy).Contents (Elt F)) : (⟨S802816x2x2x2, .f32⟩ : BufTy).Contents (Elt F) → (⟨S802816x2x2x1x2, .f32⟩ : BufTy).Contents (Elt F)) t58
  let t65 : (⟨S802816x2x2x1x2, .f32⟩ : BufTy).Contents (Elt F) := ((broadcastInDim S802816x2x2x1x2 ![0, 1, 2, 4] bcast_S802816x2x2x2_S802816x2x2x1x2_0_1_2_4 : (⟨S802816x2x2x2, .f32⟩ : BufTy).Contents (Elt F) → (⟨S802816x2x2x1x2, .f32⟩ : BufTy).Contents (Elt F)) : (⟨S802816x2x2x2, .f32⟩ : BufTy).Contents (Elt F) → (⟨S802816x2x2x1x2, .f32⟩ : BufTy).Contents (Elt F)) t63
  let t66 : (⟨S802816x2x2x2x2, .f32⟩ : BufTy).Contents (Elt F) := (((fun a b => concatenate S802816x2x2x2x2 3 [⟨S802816x2x2x1x2, a⟩, ⟨S802816x2x2x1x2, b⟩] concatenates_S802816x2x2x1x2_S802816x2x2x1x2_S802816x2x2x2x2_d3) : (⟨S802816x2x2x1x2, .f32⟩ : BufTy).Contents (Elt F) → (⟨S802816x2x2x1x2, .f32⟩ : BufTy).Contents (Elt F) → (⟨S802816x2x2x2x2, .f32⟩ : BufTy).Contents (Elt F)) : (⟨S802816x2x2x1x2, .f32⟩ : BufTy).Contents (Elt F) → (⟨S802816x2x2x1x2, .f32⟩ : BufTy).Contents (Elt F) → (⟨S802816x2x2x2x2, .f32⟩ : BufTy).Contents (Elt F)) t64 t65
  t66

/-- The rotation of the fourth qubit by each patch's own angle (column 3 of the patches): the two halves of the state along that qubit's axis (each an index wrapped into range, a gather, and a select filling with NaN where the index was out of range), the cosine and sine of half the angle broadcast over the other qubits, the two combinations, and their concatenation back along the axis. `x0` is the state, `x1` the patches. -/
def gRyD3 (x0 : (⟨S802816x2x2x2x2, .f32⟩ : BufTy).Contents (Elt F)) (x1 : (⟨S802816x4, .f32⟩ : BufTy).Contents (Elt F)) : (⟨S802816x2x2x2x2, .f32⟩ : BufTy).Contents (Elt F) :=
  let t0 : (⟨S802816x1, .f32⟩ : BufTy).Contents (Elt F) := (((extractStridedSlice S802816x1 ![0, 3] · slices_S802816x4_S802816x1_0_3) : (⟨S802816x4, .f32⟩ : BufTy).Contents (Elt F) → (⟨S802816x1, .f32⟩ : BufTy).Contents (Elt F)) : (⟨S802816x4, .f32⟩ : BufTy).Contents (Elt F) → (⟨S802816x1, .f32⟩ : BufTy).Contents (Elt F)) x1
  let t1 : (⟨S802816, .f32⟩ : BufTy).Contents (Elt F) := shapeCast S802816 t0 shapeCasts_S802816x1_S802816
  let t2 : (⟨S_, .i32⟩ : BufTy).Contents (Elt F) := (constantI S_ 32 0#32)
  let t3 : (⟨S_, .i32⟩ : BufTy).Contents (Elt F) := (constantI S_ 32 0#32)
  let t4 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t2 t3
  let t5 : (⟨S_, .i32⟩ : BufTy).Contents (Elt F) := (constantI S_ 32 2#32)
  let t6 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t2 t5
  let t7 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t4 t6 t2
  let t8 : (⟨S1, .i32⟩ : BufTy).Contents (Elt F) := ((broadcastInDim S1 ![] bcast_S_S1) : (⟨S_, .i32⟩ : BufTy).Contents (Elt F) → (⟨S1, .i32⟩ : BufTy).Contents (Elt F)) t7
  let t9 : (⟨S1, .i32⟩ : BufTy).Contents (Elt F) := (constantI S1 32 1#32)
  let t10 : (⟨S1, .i32⟩ : BufTy).Contents (Elt F) := (id : (⟨S1, .i32⟩ : BufTy).Contents (Elt F) → (⟨S1, .i32⟩ : BufTy).Contents (Elt F)) t8
  let t11 : (⟨S_, .i32⟩ : BufTy).Contents (Elt F) := (constantI S_ 32 0#32)
  let t12 : (⟨S1, .i32⟩ : BufTy).Contents (Elt F) := ((broadcastInDim S1 ![] bcast_S_S1) : (⟨S_, .i32⟩ : BufTy).Contents (Elt F) → (⟨S1, .i32⟩ : BufTy).Contents (Elt F)) t11
  let t13 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t10 t12
  let t14 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t10 t9
  let t15 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t13 t14
  let t16 : (⟨S_, .i1⟩ : BufTy).Contents (Elt F) := (constantI S_ 1 1#1)
  let t17 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t15 t16
  let t18 : (⟨S802816x2x2x2, .f32⟩ : BufTy).Contents (Elt F) := ((fun x i => Host.gather gather_S802816x2x2x2x2_S1_S802816x2x2x2_0123_4_n_n_4_0_8028162221 x i) : (⟨S802816x2x2x2x2, .f32⟩ : BufTy).Contents (Elt F) → (⟨S1, .i32⟩ : BufTy).Contents (Elt F) → (⟨S802816x2x2x2, .f32⟩ : BufTy).Contents (Elt F)) x0 t10
  let t19 : (⟨S802816x2x2x2, .i1⟩ : BufTy).Contents (Elt F) := ((broadcastInDim S802816x2x2x2 ![] bcast_S_S802816x2x2x2) : (⟨S_, .i1⟩ : BufTy).Contents (Elt F) → (⟨S802816x2x2x2, .i1⟩ : BufTy).Contents (Elt F)) t17
  let t20 : (⟨S_, .f32⟩ : BufTy).Contents (Elt F) := (constant S_ .f32 0x7FC00000#32)
  let t21 : (⟨S802816x2x2x2, .f32⟩ : BufTy).Contents (Elt F) := ((broadcastInDim S802816x2x2x2 ![] bcast_S_S802816x2x2x2) : (⟨S_, .f32⟩ : BufTy).Contents (Elt F) → (⟨S802816x2x2x2, .f32⟩ : BufTy).Contents (Elt F)) t20
  let t22 : (⟨S802816x2x2x2, .f32⟩ : BufTy).Contents (Elt F) := (select : (⟨S802816x2x2x2, .i1⟩ : BufTy).Contents (Elt F) → (⟨S802816x2x2x2, .f32⟩ : BufTy).Contents (Elt F) → (⟨S802816x2x2x2, .f32⟩ : BufTy).Contents (Elt F) → (⟨S802816x2x2x2, .f32⟩ : BufTy).Contents (Elt F)) t19 t18 t21
  let t23 : (⟨S_, .i32⟩ : BufTy).Contents (Elt F) := (constantI S_ 32 1#32)
  let t24 : (⟨S_, .i32⟩ : BufTy).Contents (Elt F) := (constantI S_ 32 0#32)
  let t25 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t23 t24
  let t26 : (⟨S_, .i32⟩ : BufTy).Contents (Elt F) := (constantI S_ 32 2#32)
  let t27 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t23 t26
  let t28 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t25 t27 t23
  let t29 : (⟨S1, .i32⟩ : BufTy).Contents (Elt F) := ((broadcastInDim S1 ![] bcast_S_S1) : (⟨S_, .i32⟩ : BufTy).Contents (Elt F) → (⟨S1, .i32⟩ : BufTy).Contents (Elt F)) t28
  let t30 : (⟨S1, .i32⟩ : BufTy).Contents (Elt F) := (constantI S1 32 1#32)
  let t31 : (⟨S1, .i32⟩ : BufTy).Contents (Elt F) := (id : (⟨S1, .i32⟩ : BufTy).Contents (Elt F) → (⟨S1, .i32⟩ : BufTy).Contents (Elt F)) t29
  let t32 : (⟨S_, .i32⟩ : BufTy).Contents (Elt F) := (constantI S_ 32 0#32)
  let t33 : (⟨S1, .i32⟩ : BufTy).Contents (Elt F) := ((broadcastInDim S1 ![] bcast_S_S1) : (⟨S_, .i32⟩ : BufTy).Contents (Elt F) → (⟨S1, .i32⟩ : BufTy).Contents (Elt F)) t32
  let t34 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t31 t33
  let t35 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t31 t30
  let t36 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t34 t35
  let t37 : (⟨S_, .i1⟩ : BufTy).Contents (Elt F) := (constantI S_ 1 1#1)
  let t38 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t36 t37
  let t39 : (⟨S802816x2x2x2, .f32⟩ : BufTy).Contents (Elt F) := ((fun x i => Host.gather gather_S802816x2x2x2x2_S1_S802816x2x2x2_0123_4_n_n_4_0_8028162221 x i) : (⟨S802816x2x2x2x2, .f32⟩ : BufTy).Contents (Elt F) → (⟨S1, .i32⟩ : BufTy).Contents (Elt F) → (⟨S802816x2x2x2, .f32⟩ : BufTy).Contents (Elt F)) x0 t31
  let t40 : (⟨S802816x2x2x2, .i1⟩ : BufTy).Contents (Elt F) := ((broadcastInDim S802816x2x2x2 ![] bcast_S_S802816x2x2x2) : (⟨S_, .i1⟩ : BufTy).Contents (Elt F) → (⟨S802816x2x2x2, .i1⟩ : BufTy).Contents (Elt F)) t38
  let t41 : (⟨S_, .f32⟩ : BufTy).Contents (Elt F) := (constant S_ .f32 0x7FC00000#32)
  let t42 : (⟨S802816x2x2x2, .f32⟩ : BufTy).Contents (Elt F) := ((broadcastInDim S802816x2x2x2 ![] bcast_S_S802816x2x2x2) : (⟨S_, .f32⟩ : BufTy).Contents (Elt F) → (⟨S802816x2x2x2, .f32⟩ : BufTy).Contents (Elt F)) t41
  let t43 : (⟨S802816x2x2x2, .f32⟩ : BufTy).Contents (Elt F) := (select : (⟨S802816x2x2x2, .i1⟩ : BufTy).Contents (Elt F) → (⟨S802816x2x2x2, .f32⟩ : BufTy).Contents (Elt F) → (⟨S802816x2x2x2, .f32⟩ : BufTy).Contents (Elt F) → (⟨S802816x2x2x2, .f32⟩ : BufTy).Contents (Elt F)) t40 t39 t42
  let t44 : (⟨S_, .f32⟩ : BufTy).Contents (Elt F) := (constant S_ .f32 0x3F000000#32)
  let t45 : (⟨S802816, .f32⟩ : BufTy).Contents (Elt F) := ((broadcastInDim S802816 ![] bcast_S_S802816 : (⟨S_, .f32⟩ : BufTy).Contents (Elt F) → (⟨S802816, .f32⟩ : BufTy).Contents (Elt F)) : (⟨S_, .f32⟩ : BufTy).Contents (Elt F) → (⟨S802816, .f32⟩ : BufTy).Contents (Elt F)) t44
  let t46 : (⟨S802816, .f32⟩ : BufTy).Contents (Elt F) := ((mulf : (⟨S802816, .f32⟩ : BufTy).Contents (Elt F) → (⟨S802816, .f32⟩ : BufTy).Contents (Elt F) → (⟨S802816, .f32⟩ : BufTy).Contents (Elt F)) : (⟨S802816, .f32⟩ : BufTy).Contents (Elt F) → (⟨S802816, .f32⟩ : BufTy).Contents (Elt F) → (⟨S802816, .f32⟩ : BufTy).Contents (Elt F)) t1 t45
  let t47 : (⟨S802816, .f32⟩ : BufTy).Contents (Elt F) := ((Host.cos : (⟨S802816, .f32⟩ : BufTy).Contents (Elt F) → (⟨S802816, .f32⟩ : BufTy).Contents (Elt F)) : (⟨S802816, .f32⟩ : BufTy).Contents (Elt F) → (⟨S802816, .f32⟩ : BufTy).Contents (Elt F)) t46
  let t48 : (⟨S_, .f32⟩ : BufTy).Contents (Elt F) := (constant S_ .f32 0x3F000000#32)
  let t49 : (⟨S802816, .f32⟩ : BufTy).Contents (Elt F) := ((broadcastInDim S802816 ![] bcast_S_S802816 : (⟨S_, .f32⟩ : BufTy).Contents (Elt F) → (⟨S802816, .f32⟩ : BufTy).Contents (Elt F)) : (⟨S_, .f32⟩ : BufTy).Contents (Elt F) → (⟨S802816, .f32⟩ : BufTy).Contents (Elt F)) t48
  let t50 : (⟨S802816, .f32⟩ : BufTy).Contents (Elt F) := ((mulf : (⟨S802816, .f32⟩ : BufTy).Contents (Elt F) → (⟨S802816, .f32⟩ : BufTy).Contents (Elt F) → (⟨S802816, .f32⟩ : BufTy).Contents (Elt F)) : (⟨S802816, .f32⟩ : BufTy).Contents (Elt F) → (⟨S802816, .f32⟩ : BufTy).Contents (Elt F) → (⟨S802816, .f32⟩ : BufTy).Contents (Elt F)) t1 t49
  let t51 : (⟨S802816, .f32⟩ : BufTy).Contents (Elt F) := ((Host.sin : (⟨S802816, .f32⟩ : BufTy).Contents (Elt F) → (⟨S802816, .f32⟩ : BufTy).Contents (Elt F)) : (⟨S802816, .f32⟩ : BufTy).Contents (Elt F) → (⟨S802816, .f32⟩ : BufTy).Contents (Elt F)) t50
  let t52 : (⟨S802816x1x1x1, .f32⟩ : BufTy).Contents (Elt F) := shapeCast S802816x1x1x1 t47 shapeCasts_S802816_S802816x1x1x1
  let t53 : (⟨S802816x1x1x1, .f32⟩ : BufTy).Contents (Elt F) := shapeCast S802816x1x1x1 t51 shapeCasts_S802816_S802816x1x1x1
  let t54 : (⟨S802816x2x2x2, .f32⟩ : BufTy).Contents (Elt F) := ((broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)) : (⟨S802816x1x1x1, .f32⟩ : BufTy).Contents (Elt F) → (⟨S802816x2x2x2, .f32⟩ : BufTy).Contents (Elt F)) t52
  let t55 : (⟨S802816x2x2x2, .f32⟩ : BufTy).Contents (Elt F) := ((mulf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t54 t22
  let t56 : (⟨S802816x2x2x2, .f32⟩ : BufTy).Contents (Elt F) := ((broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)) : (⟨S802816x1x1x1, .f32⟩ : BufTy).Contents (Elt F) → (⟨S802816x2x2x2, .f32⟩ : BufTy).Contents (Elt F)) t53
  let t57 : (⟨S802816x2x2x2, .f32⟩ : BufTy).Contents (Elt F) := ((mulf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t56 t43
  let t58 : (⟨S802816x2x2x2, .f32⟩ : BufTy).Contents (Elt F) := ((subf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t55 t57
  let t59 : (⟨S802816x2x2x2, .f32⟩ : BufTy).Contents (Elt F) := ((broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)) : (⟨S802816x1x1x1, .f32⟩ : BufTy).Contents (Elt F) → (⟨S802816x2x2x2, .f32⟩ : BufTy).Contents (Elt F)) t53
  let t60 : (⟨S802816x2x2x2, .f32⟩ : BufTy).Contents (Elt F) := ((mulf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t59 t22
  let t61 : (⟨S802816x2x2x2, .f32⟩ : BufTy).Contents (Elt F) := ((broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)) : (⟨S802816x1x1x1, .f32⟩ : BufTy).Contents (Elt F) → (⟨S802816x2x2x2, .f32⟩ : BufTy).Contents (Elt F)) t52
  let t62 : (⟨S802816x2x2x2, .f32⟩ : BufTy).Contents (Elt F) := ((mulf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t61 t43
  let t63 : (⟨S802816x2x2x2, .f32⟩ : BufTy).Contents (Elt F) := ((addf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t60 t62
  let t64 : (⟨S802816x2x2x2x1, .f32⟩ : BufTy).Contents (Elt F) := ((broadcastInDim S802816x2x2x2x1 ![0, 1, 2, 3] bcast_S802816x2x2x2_S802816x2x2x2x1_0_1_2_3 : (⟨S802816x2x2x2, .f32⟩ : BufTy).Contents (Elt F) → (⟨S802816x2x2x2x1, .f32⟩ : BufTy).Contents (Elt F)) : (⟨S802816x2x2x2, .f32⟩ : BufTy).Contents (Elt F) → (⟨S802816x2x2x2x1, .f32⟩ : BufTy).Contents (Elt F)) t58
  let t65 : (⟨S802816x2x2x2x1, .f32⟩ : BufTy).Contents (Elt F) := ((broadcastInDim S802816x2x2x2x1 ![0, 1, 2, 3] bcast_S802816x2x2x2_S802816x2x2x2x1_0_1_2_3 : (⟨S802816x2x2x2, .f32⟩ : BufTy).Contents (Elt F) → (⟨S802816x2x2x2x1, .f32⟩ : BufTy).Contents (Elt F)) : (⟨S802816x2x2x2, .f32⟩ : BufTy).Contents (Elt F) → (⟨S802816x2x2x2x1, .f32⟩ : BufTy).Contents (Elt F)) t63
  let t66 : (⟨S802816x2x2x2x2, .f32⟩ : BufTy).Contents (Elt F) := (((fun a b => concatenate S802816x2x2x2x2 4 [⟨S802816x2x2x2x1, a⟩, ⟨S802816x2x2x2x1, b⟩] concatenates_S802816x2x2x2x1_S802816x2x2x2x1_S802816x2x2x2x2_d4) : (⟨S802816x2x2x2x1, .f32⟩ : BufTy).Contents (Elt F) → (⟨S802816x2x2x2x1, .f32⟩ : BufTy).Contents (Elt F) → (⟨S802816x2x2x2x2, .f32⟩ : BufTy).Contents (Elt F)) : (⟨S802816x2x2x2x1, .f32⟩ : BufTy).Contents (Elt F) → (⟨S802816x2x2x2x1, .f32⟩ : BufTy).Contents (Elt F) → (⟨S802816x2x2x2x2, .f32⟩ : BufTy).Contents (Elt F)) t64 t65
  t66

/-- The rotation of the first qubit by the fixed angle (entry 0 of the parameters): as the per-patch rotation, with the scalar cosine and sine broadcast over the whole array. `x0` is the state, `x1` the four parameters. -/
def gRyP0 (x0 : (⟨S802816x2x2x2x2, .f32⟩ : BufTy).Contents (Elt F)) (x1 : (⟨S4, .f32⟩ : BufTy).Contents (Elt F)) : (⟨S802816x2x2x2x2, .f32⟩ : BufTy).Contents (Elt F) :=
  let t0 : (⟨S1, .f32⟩ : BufTy).Contents (Elt F) := (((extractStridedSlice S1 ![0] · slices_S4_S1_0) : (⟨S4, .f32⟩ : BufTy).Contents (Elt F) → (⟨S1, .f32⟩ : BufTy).Contents (Elt F)) : (⟨S4, .f32⟩ : BufTy).Contents (Elt F) → (⟨S1, .f32⟩ : BufTy).Contents (Elt F)) x1
  let t1 : (⟨S_, .f32⟩ : BufTy).Contents (Elt F) := shapeCast S_ t0 shapeCasts_S1_S_
  let t2 : (⟨S_, .i32⟩ : BufTy).Contents (Elt F) := (constantI S_ 32 0#32)
  let t3 : (⟨S_, .i32⟩ : BufTy).Contents (Elt F) := (constantI S_ 32 0#32)
  let t4 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t2 t3
  let t5 : (⟨S_, .i32⟩ : BufTy).Contents (Elt F) := (constantI S_ 32 2#32)
  let t6 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t2 t5
  let t7 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t4 t6 t2
  let t8 : (⟨S1, .i32⟩ : BufTy).Contents (Elt F) := ((broadcastInDim S1 ![] bcast_S_S1) : (⟨S_, .i32⟩ : BufTy).Contents (Elt F) → (⟨S1, .i32⟩ : BufTy).Contents (Elt F)) t7
  let t9 : (⟨S1, .i32⟩ : BufTy).Contents (Elt F) := (constantI S1 32 1#32)
  let t10 : (⟨S1, .i32⟩ : BufTy).Contents (Elt F) := (id : (⟨S1, .i32⟩ : BufTy).Contents (Elt F) → (⟨S1, .i32⟩ : BufTy).Contents (Elt F)) t8
  let t11 : (⟨S_, .i32⟩ : BufTy).Contents (Elt F) := (constantI S_ 32 0#32)
  let t12 : (⟨S1, .i32⟩ : BufTy).Contents (Elt F) := ((broadcastInDim S1 ![] bcast_S_S1) : (⟨S_, .i32⟩ : BufTy).Contents (Elt F) → (⟨S1, .i32⟩ : BufTy).Contents (Elt F)) t11
  let t13 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t10 t12
  let t14 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t10 t9
  let t15 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t13 t14
  let t16 : (⟨S_, .i1⟩ : BufTy).Contents (Elt F) := (constantI S_ 1 1#1)
  let t17 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t15 t16
  let t18 : (⟨S802816x2x2x2, .f32⟩ : BufTy).Contents (Elt F) := ((fun x i => Host.gather gather_S802816x2x2x2x2_S1_S802816x2x2x2_0123_1_n_n_1_0_8028161222 x i) : (⟨S802816x2x2x2x2, .f32⟩ : BufTy).Contents (Elt F) → (⟨S1, .i32⟩ : BufTy).Contents (Elt F) → (⟨S802816x2x2x2, .f32⟩ : BufTy).Contents (Elt F)) x0 t10
  let t19 : (⟨S802816x2x2x2, .i1⟩ : BufTy).Contents (Elt F) := ((broadcastInDim S802816x2x2x2 ![] bcast_S_S802816x2x2x2) : (⟨S_, .i1⟩ : BufTy).Contents (Elt F) → (⟨S802816x2x2x2, .i1⟩ : BufTy).Contents (Elt F)) t17
  let t20 : (⟨S_, .f32⟩ : BufTy).Contents (Elt F) := (constant S_ .f32 0x7FC00000#32)
  let t21 : (⟨S802816x2x2x2, .f32⟩ : BufTy).Contents (Elt F) := ((broadcastInDim S802816x2x2x2 ![] bcast_S_S802816x2x2x2) : (⟨S_, .f32⟩ : BufTy).Contents (Elt F) → (⟨S802816x2x2x2, .f32⟩ : BufTy).Contents (Elt F)) t20
  let t22 : (⟨S802816x2x2x2, .f32⟩ : BufTy).Contents (Elt F) := (select : (⟨S802816x2x2x2, .i1⟩ : BufTy).Contents (Elt F) → (⟨S802816x2x2x2, .f32⟩ : BufTy).Contents (Elt F) → (⟨S802816x2x2x2, .f32⟩ : BufTy).Contents (Elt F) → (⟨S802816x2x2x2, .f32⟩ : BufTy).Contents (Elt F)) t19 t18 t21
  let t23 : (⟨S_, .i32⟩ : BufTy).Contents (Elt F) := (constantI S_ 32 1#32)
  let t24 : (⟨S_, .i32⟩ : BufTy).Contents (Elt F) := (constantI S_ 32 0#32)
  let t25 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t23 t24
  let t26 : (⟨S_, .i32⟩ : BufTy).Contents (Elt F) := (constantI S_ 32 2#32)
  let t27 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t23 t26
  let t28 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t25 t27 t23
  let t29 : (⟨S1, .i32⟩ : BufTy).Contents (Elt F) := ((broadcastInDim S1 ![] bcast_S_S1) : (⟨S_, .i32⟩ : BufTy).Contents (Elt F) → (⟨S1, .i32⟩ : BufTy).Contents (Elt F)) t28
  let t30 : (⟨S1, .i32⟩ : BufTy).Contents (Elt F) := (constantI S1 32 1#32)
  let t31 : (⟨S1, .i32⟩ : BufTy).Contents (Elt F) := (id : (⟨S1, .i32⟩ : BufTy).Contents (Elt F) → (⟨S1, .i32⟩ : BufTy).Contents (Elt F)) t29
  let t32 : (⟨S_, .i32⟩ : BufTy).Contents (Elt F) := (constantI S_ 32 0#32)
  let t33 : (⟨S1, .i32⟩ : BufTy).Contents (Elt F) := ((broadcastInDim S1 ![] bcast_S_S1) : (⟨S_, .i32⟩ : BufTy).Contents (Elt F) → (⟨S1, .i32⟩ : BufTy).Contents (Elt F)) t32
  let t34 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t31 t33
  let t35 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t31 t30
  let t36 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t34 t35
  let t37 : (⟨S_, .i1⟩ : BufTy).Contents (Elt F) := (constantI S_ 1 1#1)
  let t38 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t36 t37
  let t39 : (⟨S802816x2x2x2, .f32⟩ : BufTy).Contents (Elt F) := ((fun x i => Host.gather gather_S802816x2x2x2x2_S1_S802816x2x2x2_0123_1_n_n_1_0_8028161222 x i) : (⟨S802816x2x2x2x2, .f32⟩ : BufTy).Contents (Elt F) → (⟨S1, .i32⟩ : BufTy).Contents (Elt F) → (⟨S802816x2x2x2, .f32⟩ : BufTy).Contents (Elt F)) x0 t31
  let t40 : (⟨S802816x2x2x2, .i1⟩ : BufTy).Contents (Elt F) := ((broadcastInDim S802816x2x2x2 ![] bcast_S_S802816x2x2x2) : (⟨S_, .i1⟩ : BufTy).Contents (Elt F) → (⟨S802816x2x2x2, .i1⟩ : BufTy).Contents (Elt F)) t38
  let t41 : (⟨S_, .f32⟩ : BufTy).Contents (Elt F) := (constant S_ .f32 0x7FC00000#32)
  let t42 : (⟨S802816x2x2x2, .f32⟩ : BufTy).Contents (Elt F) := ((broadcastInDim S802816x2x2x2 ![] bcast_S_S802816x2x2x2) : (⟨S_, .f32⟩ : BufTy).Contents (Elt F) → (⟨S802816x2x2x2, .f32⟩ : BufTy).Contents (Elt F)) t41
  let t43 : (⟨S802816x2x2x2, .f32⟩ : BufTy).Contents (Elt F) := (select : (⟨S802816x2x2x2, .i1⟩ : BufTy).Contents (Elt F) → (⟨S802816x2x2x2, .f32⟩ : BufTy).Contents (Elt F) → (⟨S802816x2x2x2, .f32⟩ : BufTy).Contents (Elt F) → (⟨S802816x2x2x2, .f32⟩ : BufTy).Contents (Elt F)) t40 t39 t42
  let t44 : (⟨S_, .f32⟩ : BufTy).Contents (Elt F) := (constant S_ .f32 0x3F000000#32)
  let t45 : (⟨S_, .f32⟩ : BufTy).Contents (Elt F) := ((mulf : (⟨S_, .f32⟩ : BufTy).Contents (Elt F) → (⟨S_, .f32⟩ : BufTy).Contents (Elt F) → (⟨S_, .f32⟩ : BufTy).Contents (Elt F)) : (⟨S_, .f32⟩ : BufTy).Contents (Elt F) → (⟨S_, .f32⟩ : BufTy).Contents (Elt F) → (⟨S_, .f32⟩ : BufTy).Contents (Elt F)) t1 t44
  let t46 : (⟨S_, .f32⟩ : BufTy).Contents (Elt F) := ((Host.cos : (⟨S_, .f32⟩ : BufTy).Contents (Elt F) → (⟨S_, .f32⟩ : BufTy).Contents (Elt F)) : (⟨S_, .f32⟩ : BufTy).Contents (Elt F) → (⟨S_, .f32⟩ : BufTy).Contents (Elt F)) t45
  let t47 : (⟨S_, .f32⟩ : BufTy).Contents (Elt F) := (constant S_ .f32 0x3F000000#32)
  let t48 : (⟨S_, .f32⟩ : BufTy).Contents (Elt F) := ((mulf : (⟨S_, .f32⟩ : BufTy).Contents (Elt F) → (⟨S_, .f32⟩ : BufTy).Contents (Elt F) → (⟨S_, .f32⟩ : BufTy).Contents (Elt F)) : (⟨S_, .f32⟩ : BufTy).Contents (Elt F) → (⟨S_, .f32⟩ : BufTy).Contents (Elt F) → (⟨S_, .f32⟩ : BufTy).Contents (Elt F)) t1 t47
  let t49 : (⟨S_, .f32⟩ : BufTy).Contents (Elt F) := ((Host.sin : (⟨S_, .f32⟩ : BufTy).Contents (Elt F) → (⟨S_, .f32⟩ : BufTy).Contents (Elt F)) : (⟨S_, .f32⟩ : BufTy).Contents (Elt F) → (⟨S_, .f32⟩ : BufTy).Contents (Elt F)) t48
  let t50 : (⟨S802816x2x2x2, .f32⟩ : BufTy).Contents (Elt F) := ((broadcastInDim S802816x2x2x2 ![] bcast_S_S802816x2x2x2 : (⟨S_, .f32⟩ : BufTy).Contents (Elt F) → (⟨S802816x2x2x2, .f32⟩ : BufTy).Contents (Elt F)) : (⟨S_, .f32⟩ : BufTy).Contents (Elt F) → (⟨S802816x2x2x2, .f32⟩ : BufTy).Contents (Elt F)) t46
  let t51 : (⟨S802816x2x2x2, .f32⟩ : BufTy).Contents (Elt F) := ((mulf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t50 t22
  let t52 : (⟨S802816x2x2x2, .f32⟩ : BufTy).Contents (Elt F) := ((broadcastInDim S802816x2x2x2 ![] bcast_S_S802816x2x2x2 : (⟨S_, .f32⟩ : BufTy).Contents (Elt F) → (⟨S802816x2x2x2, .f32⟩ : BufTy).Contents (Elt F)) : (⟨S_, .f32⟩ : BufTy).Contents (Elt F) → (⟨S802816x2x2x2, .f32⟩ : BufTy).Contents (Elt F)) t49
  let t53 : (⟨S802816x2x2x2, .f32⟩ : BufTy).Contents (Elt F) := ((mulf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t52 t43
  let t54 : (⟨S802816x2x2x2, .f32⟩ : BufTy).Contents (Elt F) := ((subf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t51 t53
  let t55 : (⟨S802816x2x2x2, .f32⟩ : BufTy).Contents (Elt F) := ((broadcastInDim S802816x2x2x2 ![] bcast_S_S802816x2x2x2 : (⟨S_, .f32⟩ : BufTy).Contents (Elt F) → (⟨S802816x2x2x2, .f32⟩ : BufTy).Contents (Elt F)) : (⟨S_, .f32⟩ : BufTy).Contents (Elt F) → (⟨S802816x2x2x2, .f32⟩ : BufTy).Contents (Elt F)) t49
  let t56 : (⟨S802816x2x2x2, .f32⟩ : BufTy).Contents (Elt F) := ((mulf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t55 t22
  let t57 : (⟨S802816x2x2x2, .f32⟩ : BufTy).Contents (Elt F) := ((broadcastInDim S802816x2x2x2 ![] bcast_S_S802816x2x2x2 : (⟨S_, .f32⟩ : BufTy).Contents (Elt F) → (⟨S802816x2x2x2, .f32⟩ : BufTy).Contents (Elt F)) : (⟨S_, .f32⟩ : BufTy).Contents (Elt F) → (⟨S802816x2x2x2, .f32⟩ : BufTy).Contents (Elt F)) t46
  let t58 : (⟨S802816x2x2x2, .f32⟩ : BufTy).Contents (Elt F) := ((mulf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t57 t43
  let t59 : (⟨S802816x2x2x2, .f32⟩ : BufTy).Contents (Elt F) := ((addf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t56 t58
  let t60 : (⟨S802816x1x2x2x2, .f32⟩ : BufTy).Contents (Elt F) := ((broadcastInDim S802816x1x2x2x2 ![0, 2, 3, 4] bcast_S802816x2x2x2_S802816x1x2x2x2_0_2_3_4 : (⟨S802816x2x2x2, .f32⟩ : BufTy).Contents (Elt F) → (⟨S802816x1x2x2x2, .f32⟩ : BufTy).Contents (Elt F)) : (⟨S802816x2x2x2, .f32⟩ : BufTy).Contents (Elt F) → (⟨S802816x1x2x2x2, .f32⟩ : BufTy).Contents (Elt F)) t54
  let t61 : (⟨S802816x1x2x2x2, .f32⟩ : BufTy).Contents (Elt F) := ((broadcastInDim S802816x1x2x2x2 ![0, 2, 3, 4] bcast_S802816x2x2x2_S802816x1x2x2x2_0_2_3_4 : (⟨S802816x2x2x2, .f32⟩ : BufTy).Contents (Elt F) → (⟨S802816x1x2x2x2, .f32⟩ : BufTy).Contents (Elt F)) : (⟨S802816x2x2x2, .f32⟩ : BufTy).Contents (Elt F) → (⟨S802816x1x2x2x2, .f32⟩ : BufTy).Contents (Elt F)) t59
  let t62 : (⟨S802816x2x2x2x2, .f32⟩ : BufTy).Contents (Elt F) := (((fun a b => concatenate S802816x2x2x2x2 1 [⟨S802816x1x2x2x2, a⟩, ⟨S802816x1x2x2x2, b⟩] concatenates_S802816x1x2x2x2_S802816x1x2x2x2_S802816x2x2x2x2_d1) : (⟨S802816x1x2x2x2, .f32⟩ : BufTy).Contents (Elt F) → (⟨S802816x1x2x2x2, .f32⟩ : BufTy).Contents (Elt F) → (⟨S802816x2x2x2x2, .f32⟩ : BufTy).Contents (Elt F)) : (⟨S802816x1x2x2x2, .f32⟩ : BufTy).Contents (Elt F) → (⟨S802816x1x2x2x2, .f32⟩ : BufTy).Contents (Elt F) → (⟨S802816x2x2x2x2, .f32⟩ : BufTy).Contents (Elt F)) t60 t61
  t62

/-- The rotation of the second qubit by the fixed angle (entry 1 of the parameters): as the per-patch rotation, with the scalar cosine and sine broadcast over the whole array. `x0` is the state, `x1` the four parameters. -/
def gRyP1 (x0 : (⟨S802816x2x2x2x2, .f32⟩ : BufTy).Contents (Elt F)) (x1 : (⟨S4, .f32⟩ : BufTy).Contents (Elt F)) : (⟨S802816x2x2x2x2, .f32⟩ : BufTy).Contents (Elt F) :=
  let t0 : (⟨S1, .f32⟩ : BufTy).Contents (Elt F) := (((extractStridedSlice S1 ![1] · slices_S4_S1_1) : (⟨S4, .f32⟩ : BufTy).Contents (Elt F) → (⟨S1, .f32⟩ : BufTy).Contents (Elt F)) : (⟨S4, .f32⟩ : BufTy).Contents (Elt F) → (⟨S1, .f32⟩ : BufTy).Contents (Elt F)) x1
  let t1 : (⟨S_, .f32⟩ : BufTy).Contents (Elt F) := shapeCast S_ t0 shapeCasts_S1_S_
  let t2 : (⟨S_, .i32⟩ : BufTy).Contents (Elt F) := (constantI S_ 32 0#32)
  let t3 : (⟨S_, .i32⟩ : BufTy).Contents (Elt F) := (constantI S_ 32 0#32)
  let t4 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t2 t3
  let t5 : (⟨S_, .i32⟩ : BufTy).Contents (Elt F) := (constantI S_ 32 2#32)
  let t6 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t2 t5
  let t7 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t4 t6 t2
  let t8 : (⟨S1, .i32⟩ : BufTy).Contents (Elt F) := ((broadcastInDim S1 ![] bcast_S_S1) : (⟨S_, .i32⟩ : BufTy).Contents (Elt F) → (⟨S1, .i32⟩ : BufTy).Contents (Elt F)) t7
  let t9 : (⟨S1, .i32⟩ : BufTy).Contents (Elt F) := (constantI S1 32 1#32)
  let t10 : (⟨S1, .i32⟩ : BufTy).Contents (Elt F) := (id : (⟨S1, .i32⟩ : BufTy).Contents (Elt F) → (⟨S1, .i32⟩ : BufTy).Contents (Elt F)) t8
  let t11 : (⟨S_, .i32⟩ : BufTy).Contents (Elt F) := (constantI S_ 32 0#32)
  let t12 : (⟨S1, .i32⟩ : BufTy).Contents (Elt F) := ((broadcastInDim S1 ![] bcast_S_S1) : (⟨S_, .i32⟩ : BufTy).Contents (Elt F) → (⟨S1, .i32⟩ : BufTy).Contents (Elt F)) t11
  let t13 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t10 t12
  let t14 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t10 t9
  let t15 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t13 t14
  let t16 : (⟨S_, .i1⟩ : BufTy).Contents (Elt F) := (constantI S_ 1 1#1)
  let t17 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t15 t16
  let t18 : (⟨S802816x2x2x2, .f32⟩ : BufTy).Contents (Elt F) := ((fun x i => Host.gather gather_S802816x2x2x2x2_S1_S802816x2x2x2_0123_2_n_n_2_0_8028162122 x i) : (⟨S802816x2x2x2x2, .f32⟩ : BufTy).Contents (Elt F) → (⟨S1, .i32⟩ : BufTy).Contents (Elt F) → (⟨S802816x2x2x2, .f32⟩ : BufTy).Contents (Elt F)) x0 t10
  let t19 : (⟨S802816x2x2x2, .i1⟩ : BufTy).Contents (Elt F) := ((broadcastInDim S802816x2x2x2 ![] bcast_S_S802816x2x2x2) : (⟨S_, .i1⟩ : BufTy).Contents (Elt F) → (⟨S802816x2x2x2, .i1⟩ : BufTy).Contents (Elt F)) t17
  let t20 : (⟨S_, .f32⟩ : BufTy).Contents (Elt F) := (constant S_ .f32 0x7FC00000#32)
  let t21 : (⟨S802816x2x2x2, .f32⟩ : BufTy).Contents (Elt F) := ((broadcastInDim S802816x2x2x2 ![] bcast_S_S802816x2x2x2) : (⟨S_, .f32⟩ : BufTy).Contents (Elt F) → (⟨S802816x2x2x2, .f32⟩ : BufTy).Contents (Elt F)) t20
  let t22 : (⟨S802816x2x2x2, .f32⟩ : BufTy).Contents (Elt F) := (select : (⟨S802816x2x2x2, .i1⟩ : BufTy).Contents (Elt F) → (⟨S802816x2x2x2, .f32⟩ : BufTy).Contents (Elt F) → (⟨S802816x2x2x2, .f32⟩ : BufTy).Contents (Elt F) → (⟨S802816x2x2x2, .f32⟩ : BufTy).Contents (Elt F)) t19 t18 t21
  let t23 : (⟨S_, .i32⟩ : BufTy).Contents (Elt F) := (constantI S_ 32 1#32)
  let t24 : (⟨S_, .i32⟩ : BufTy).Contents (Elt F) := (constantI S_ 32 0#32)
  let t25 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t23 t24
  let t26 : (⟨S_, .i32⟩ : BufTy).Contents (Elt F) := (constantI S_ 32 2#32)
  let t27 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t23 t26
  let t28 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t25 t27 t23
  let t29 : (⟨S1, .i32⟩ : BufTy).Contents (Elt F) := ((broadcastInDim S1 ![] bcast_S_S1) : (⟨S_, .i32⟩ : BufTy).Contents (Elt F) → (⟨S1, .i32⟩ : BufTy).Contents (Elt F)) t28
  let t30 : (⟨S1, .i32⟩ : BufTy).Contents (Elt F) := (constantI S1 32 1#32)
  let t31 : (⟨S1, .i32⟩ : BufTy).Contents (Elt F) := (id : (⟨S1, .i32⟩ : BufTy).Contents (Elt F) → (⟨S1, .i32⟩ : BufTy).Contents (Elt F)) t29
  let t32 : (⟨S_, .i32⟩ : BufTy).Contents (Elt F) := (constantI S_ 32 0#32)
  let t33 : (⟨S1, .i32⟩ : BufTy).Contents (Elt F) := ((broadcastInDim S1 ![] bcast_S_S1) : (⟨S_, .i32⟩ : BufTy).Contents (Elt F) → (⟨S1, .i32⟩ : BufTy).Contents (Elt F)) t32
  let t34 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t31 t33
  let t35 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t31 t30
  let t36 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t34 t35
  let t37 : (⟨S_, .i1⟩ : BufTy).Contents (Elt F) := (constantI S_ 1 1#1)
  let t38 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t36 t37
  let t39 : (⟨S802816x2x2x2, .f32⟩ : BufTy).Contents (Elt F) := ((fun x i => Host.gather gather_S802816x2x2x2x2_S1_S802816x2x2x2_0123_2_n_n_2_0_8028162122 x i) : (⟨S802816x2x2x2x2, .f32⟩ : BufTy).Contents (Elt F) → (⟨S1, .i32⟩ : BufTy).Contents (Elt F) → (⟨S802816x2x2x2, .f32⟩ : BufTy).Contents (Elt F)) x0 t31
  let t40 : (⟨S802816x2x2x2, .i1⟩ : BufTy).Contents (Elt F) := ((broadcastInDim S802816x2x2x2 ![] bcast_S_S802816x2x2x2) : (⟨S_, .i1⟩ : BufTy).Contents (Elt F) → (⟨S802816x2x2x2, .i1⟩ : BufTy).Contents (Elt F)) t38
  let t41 : (⟨S_, .f32⟩ : BufTy).Contents (Elt F) := (constant S_ .f32 0x7FC00000#32)
  let t42 : (⟨S802816x2x2x2, .f32⟩ : BufTy).Contents (Elt F) := ((broadcastInDim S802816x2x2x2 ![] bcast_S_S802816x2x2x2) : (⟨S_, .f32⟩ : BufTy).Contents (Elt F) → (⟨S802816x2x2x2, .f32⟩ : BufTy).Contents (Elt F)) t41
  let t43 : (⟨S802816x2x2x2, .f32⟩ : BufTy).Contents (Elt F) := (select : (⟨S802816x2x2x2, .i1⟩ : BufTy).Contents (Elt F) → (⟨S802816x2x2x2, .f32⟩ : BufTy).Contents (Elt F) → (⟨S802816x2x2x2, .f32⟩ : BufTy).Contents (Elt F) → (⟨S802816x2x2x2, .f32⟩ : BufTy).Contents (Elt F)) t40 t39 t42
  let t44 : (⟨S_, .f32⟩ : BufTy).Contents (Elt F) := (constant S_ .f32 0x3F000000#32)
  let t45 : (⟨S_, .f32⟩ : BufTy).Contents (Elt F) := ((mulf : (⟨S_, .f32⟩ : BufTy).Contents (Elt F) → (⟨S_, .f32⟩ : BufTy).Contents (Elt F) → (⟨S_, .f32⟩ : BufTy).Contents (Elt F)) : (⟨S_, .f32⟩ : BufTy).Contents (Elt F) → (⟨S_, .f32⟩ : BufTy).Contents (Elt F) → (⟨S_, .f32⟩ : BufTy).Contents (Elt F)) t1 t44
  let t46 : (⟨S_, .f32⟩ : BufTy).Contents (Elt F) := ((Host.cos : (⟨S_, .f32⟩ : BufTy).Contents (Elt F) → (⟨S_, .f32⟩ : BufTy).Contents (Elt F)) : (⟨S_, .f32⟩ : BufTy).Contents (Elt F) → (⟨S_, .f32⟩ : BufTy).Contents (Elt F)) t45
  let t47 : (⟨S_, .f32⟩ : BufTy).Contents (Elt F) := (constant S_ .f32 0x3F000000#32)
  let t48 : (⟨S_, .f32⟩ : BufTy).Contents (Elt F) := ((mulf : (⟨S_, .f32⟩ : BufTy).Contents (Elt F) → (⟨S_, .f32⟩ : BufTy).Contents (Elt F) → (⟨S_, .f32⟩ : BufTy).Contents (Elt F)) : (⟨S_, .f32⟩ : BufTy).Contents (Elt F) → (⟨S_, .f32⟩ : BufTy).Contents (Elt F) → (⟨S_, .f32⟩ : BufTy).Contents (Elt F)) t1 t47
  let t49 : (⟨S_, .f32⟩ : BufTy).Contents (Elt F) := ((Host.sin : (⟨S_, .f32⟩ : BufTy).Contents (Elt F) → (⟨S_, .f32⟩ : BufTy).Contents (Elt F)) : (⟨S_, .f32⟩ : BufTy).Contents (Elt F) → (⟨S_, .f32⟩ : BufTy).Contents (Elt F)) t48
  let t50 : (⟨S802816x2x2x2, .f32⟩ : BufTy).Contents (Elt F) := ((broadcastInDim S802816x2x2x2 ![] bcast_S_S802816x2x2x2 : (⟨S_, .f32⟩ : BufTy).Contents (Elt F) → (⟨S802816x2x2x2, .f32⟩ : BufTy).Contents (Elt F)) : (⟨S_, .f32⟩ : BufTy).Contents (Elt F) → (⟨S802816x2x2x2, .f32⟩ : BufTy).Contents (Elt F)) t46
  let t51 : (⟨S802816x2x2x2, .f32⟩ : BufTy).Contents (Elt F) := ((mulf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t50 t22
  let t52 : (⟨S802816x2x2x2, .f32⟩ : BufTy).Contents (Elt F) := ((broadcastInDim S802816x2x2x2 ![] bcast_S_S802816x2x2x2 : (⟨S_, .f32⟩ : BufTy).Contents (Elt F) → (⟨S802816x2x2x2, .f32⟩ : BufTy).Contents (Elt F)) : (⟨S_, .f32⟩ : BufTy).Contents (Elt F) → (⟨S802816x2x2x2, .f32⟩ : BufTy).Contents (Elt F)) t49
  let t53 : (⟨S802816x2x2x2, .f32⟩ : BufTy).Contents (Elt F) := ((mulf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t52 t43
  let t54 : (⟨S802816x2x2x2, .f32⟩ : BufTy).Contents (Elt F) := ((subf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t51 t53
  let t55 : (⟨S802816x2x2x2, .f32⟩ : BufTy).Contents (Elt F) := ((broadcastInDim S802816x2x2x2 ![] bcast_S_S802816x2x2x2 : (⟨S_, .f32⟩ : BufTy).Contents (Elt F) → (⟨S802816x2x2x2, .f32⟩ : BufTy).Contents (Elt F)) : (⟨S_, .f32⟩ : BufTy).Contents (Elt F) → (⟨S802816x2x2x2, .f32⟩ : BufTy).Contents (Elt F)) t49
  let t56 : (⟨S802816x2x2x2, .f32⟩ : BufTy).Contents (Elt F) := ((mulf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t55 t22
  let t57 : (⟨S802816x2x2x2, .f32⟩ : BufTy).Contents (Elt F) := ((broadcastInDim S802816x2x2x2 ![] bcast_S_S802816x2x2x2 : (⟨S_, .f32⟩ : BufTy).Contents (Elt F) → (⟨S802816x2x2x2, .f32⟩ : BufTy).Contents (Elt F)) : (⟨S_, .f32⟩ : BufTy).Contents (Elt F) → (⟨S802816x2x2x2, .f32⟩ : BufTy).Contents (Elt F)) t46
  let t58 : (⟨S802816x2x2x2, .f32⟩ : BufTy).Contents (Elt F) := ((mulf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t57 t43
  let t59 : (⟨S802816x2x2x2, .f32⟩ : BufTy).Contents (Elt F) := ((addf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t56 t58
  let t60 : (⟨S802816x2x1x2x2, .f32⟩ : BufTy).Contents (Elt F) := ((broadcastInDim S802816x2x1x2x2 ![0, 1, 3, 4] bcast_S802816x2x2x2_S802816x2x1x2x2_0_1_3_4 : (⟨S802816x2x2x2, .f32⟩ : BufTy).Contents (Elt F) → (⟨S802816x2x1x2x2, .f32⟩ : BufTy).Contents (Elt F)) : (⟨S802816x2x2x2, .f32⟩ : BufTy).Contents (Elt F) → (⟨S802816x2x1x2x2, .f32⟩ : BufTy).Contents (Elt F)) t54
  let t61 : (⟨S802816x2x1x2x2, .f32⟩ : BufTy).Contents (Elt F) := ((broadcastInDim S802816x2x1x2x2 ![0, 1, 3, 4] bcast_S802816x2x2x2_S802816x2x1x2x2_0_1_3_4 : (⟨S802816x2x2x2, .f32⟩ : BufTy).Contents (Elt F) → (⟨S802816x2x1x2x2, .f32⟩ : BufTy).Contents (Elt F)) : (⟨S802816x2x2x2, .f32⟩ : BufTy).Contents (Elt F) → (⟨S802816x2x1x2x2, .f32⟩ : BufTy).Contents (Elt F)) t59
  let t62 : (⟨S802816x2x2x2x2, .f32⟩ : BufTy).Contents (Elt F) := (((fun a b => concatenate S802816x2x2x2x2 2 [⟨S802816x2x1x2x2, a⟩, ⟨S802816x2x1x2x2, b⟩] concatenates_S802816x2x1x2x2_S802816x2x1x2x2_S802816x2x2x2x2_d2) : (⟨S802816x2x1x2x2, .f32⟩ : BufTy).Contents (Elt F) → (⟨S802816x2x1x2x2, .f32⟩ : BufTy).Contents (Elt F) → (⟨S802816x2x2x2x2, .f32⟩ : BufTy).Contents (Elt F)) : (⟨S802816x2x1x2x2, .f32⟩ : BufTy).Contents (Elt F) → (⟨S802816x2x1x2x2, .f32⟩ : BufTy).Contents (Elt F) → (⟨S802816x2x2x2x2, .f32⟩ : BufTy).Contents (Elt F)) t60 t61
  t62

/-- The rotation of the third qubit by the fixed angle (entry 2 of the parameters): as the per-patch rotation, with the scalar cosine and sine broadcast over the whole array. `x0` is the state, `x1` the four parameters. -/
def gRyP2 (x0 : (⟨S802816x2x2x2x2, .f32⟩ : BufTy).Contents (Elt F)) (x1 : (⟨S4, .f32⟩ : BufTy).Contents (Elt F)) : (⟨S802816x2x2x2x2, .f32⟩ : BufTy).Contents (Elt F) :=
  let t0 : (⟨S1, .f32⟩ : BufTy).Contents (Elt F) := (((extractStridedSlice S1 ![2] · slices_S4_S1_2) : (⟨S4, .f32⟩ : BufTy).Contents (Elt F) → (⟨S1, .f32⟩ : BufTy).Contents (Elt F)) : (⟨S4, .f32⟩ : BufTy).Contents (Elt F) → (⟨S1, .f32⟩ : BufTy).Contents (Elt F)) x1
  let t1 : (⟨S_, .f32⟩ : BufTy).Contents (Elt F) := shapeCast S_ t0 shapeCasts_S1_S_
  let t2 : (⟨S_, .i32⟩ : BufTy).Contents (Elt F) := (constantI S_ 32 0#32)
  let t3 : (⟨S_, .i32⟩ : BufTy).Contents (Elt F) := (constantI S_ 32 0#32)
  let t4 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t2 t3
  let t5 : (⟨S_, .i32⟩ : BufTy).Contents (Elt F) := (constantI S_ 32 2#32)
  let t6 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t2 t5
  let t7 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t4 t6 t2
  let t8 : (⟨S1, .i32⟩ : BufTy).Contents (Elt F) := ((broadcastInDim S1 ![] bcast_S_S1) : (⟨S_, .i32⟩ : BufTy).Contents (Elt F) → (⟨S1, .i32⟩ : BufTy).Contents (Elt F)) t7
  let t9 : (⟨S1, .i32⟩ : BufTy).Contents (Elt F) := (constantI S1 32 1#32)
  let t10 : (⟨S1, .i32⟩ : BufTy).Contents (Elt F) := (id : (⟨S1, .i32⟩ : BufTy).Contents (Elt F) → (⟨S1, .i32⟩ : BufTy).Contents (Elt F)) t8
  let t11 : (⟨S_, .i32⟩ : BufTy).Contents (Elt F) := (constantI S_ 32 0#32)
  let t12 : (⟨S1, .i32⟩ : BufTy).Contents (Elt F) := ((broadcastInDim S1 ![] bcast_S_S1) : (⟨S_, .i32⟩ : BufTy).Contents (Elt F) → (⟨S1, .i32⟩ : BufTy).Contents (Elt F)) t11
  let t13 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t10 t12
  let t14 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t10 t9
  let t15 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t13 t14
  let t16 : (⟨S_, .i1⟩ : BufTy).Contents (Elt F) := (constantI S_ 1 1#1)
  let t17 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t15 t16
  let t18 : (⟨S802816x2x2x2, .f32⟩ : BufTy).Contents (Elt F) := ((fun x i => Host.gather gather_S802816x2x2x2x2_S1_S802816x2x2x2_0123_3_n_n_3_0_8028162212 x i) : (⟨S802816x2x2x2x2, .f32⟩ : BufTy).Contents (Elt F) → (⟨S1, .i32⟩ : BufTy).Contents (Elt F) → (⟨S802816x2x2x2, .f32⟩ : BufTy).Contents (Elt F)) x0 t10
  let t19 : (⟨S802816x2x2x2, .i1⟩ : BufTy).Contents (Elt F) := ((broadcastInDim S802816x2x2x2 ![] bcast_S_S802816x2x2x2) : (⟨S_, .i1⟩ : BufTy).Contents (Elt F) → (⟨S802816x2x2x2, .i1⟩ : BufTy).Contents (Elt F)) t17
  let t20 : (⟨S_, .f32⟩ : BufTy).Contents (Elt F) := (constant S_ .f32 0x7FC00000#32)
  let t21 : (⟨S802816x2x2x2, .f32⟩ : BufTy).Contents (Elt F) := ((broadcastInDim S802816x2x2x2 ![] bcast_S_S802816x2x2x2) : (⟨S_, .f32⟩ : BufTy).Contents (Elt F) → (⟨S802816x2x2x2, .f32⟩ : BufTy).Contents (Elt F)) t20
  let t22 : (⟨S802816x2x2x2, .f32⟩ : BufTy).Contents (Elt F) := (select : (⟨S802816x2x2x2, .i1⟩ : BufTy).Contents (Elt F) → (⟨S802816x2x2x2, .f32⟩ : BufTy).Contents (Elt F) → (⟨S802816x2x2x2, .f32⟩ : BufTy).Contents (Elt F) → (⟨S802816x2x2x2, .f32⟩ : BufTy).Contents (Elt F)) t19 t18 t21
  let t23 : (⟨S_, .i32⟩ : BufTy).Contents (Elt F) := (constantI S_ 32 1#32)
  let t24 : (⟨S_, .i32⟩ : BufTy).Contents (Elt F) := (constantI S_ 32 0#32)
  let t25 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t23 t24
  let t26 : (⟨S_, .i32⟩ : BufTy).Contents (Elt F) := (constantI S_ 32 2#32)
  let t27 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t23 t26
  let t28 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t25 t27 t23
  let t29 : (⟨S1, .i32⟩ : BufTy).Contents (Elt F) := ((broadcastInDim S1 ![] bcast_S_S1) : (⟨S_, .i32⟩ : BufTy).Contents (Elt F) → (⟨S1, .i32⟩ : BufTy).Contents (Elt F)) t28
  let t30 : (⟨S1, .i32⟩ : BufTy).Contents (Elt F) := (constantI S1 32 1#32)
  let t31 : (⟨S1, .i32⟩ : BufTy).Contents (Elt F) := (id : (⟨S1, .i32⟩ : BufTy).Contents (Elt F) → (⟨S1, .i32⟩ : BufTy).Contents (Elt F)) t29
  let t32 : (⟨S_, .i32⟩ : BufTy).Contents (Elt F) := (constantI S_ 32 0#32)
  let t33 : (⟨S1, .i32⟩ : BufTy).Contents (Elt F) := ((broadcastInDim S1 ![] bcast_S_S1) : (⟨S_, .i32⟩ : BufTy).Contents (Elt F) → (⟨S1, .i32⟩ : BufTy).Contents (Elt F)) t32
  let t34 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t31 t33
  let t35 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t31 t30
  let t36 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t34 t35
  let t37 : (⟨S_, .i1⟩ : BufTy).Contents (Elt F) := (constantI S_ 1 1#1)
  let t38 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t36 t37
  let t39 : (⟨S802816x2x2x2, .f32⟩ : BufTy).Contents (Elt F) := ((fun x i => Host.gather gather_S802816x2x2x2x2_S1_S802816x2x2x2_0123_3_n_n_3_0_8028162212 x i) : (⟨S802816x2x2x2x2, .f32⟩ : BufTy).Contents (Elt F) → (⟨S1, .i32⟩ : BufTy).Contents (Elt F) → (⟨S802816x2x2x2, .f32⟩ : BufTy).Contents (Elt F)) x0 t31
  let t40 : (⟨S802816x2x2x2, .i1⟩ : BufTy).Contents (Elt F) := ((broadcastInDim S802816x2x2x2 ![] bcast_S_S802816x2x2x2) : (⟨S_, .i1⟩ : BufTy).Contents (Elt F) → (⟨S802816x2x2x2, .i1⟩ : BufTy).Contents (Elt F)) t38
  let t41 : (⟨S_, .f32⟩ : BufTy).Contents (Elt F) := (constant S_ .f32 0x7FC00000#32)
  let t42 : (⟨S802816x2x2x2, .f32⟩ : BufTy).Contents (Elt F) := ((broadcastInDim S802816x2x2x2 ![] bcast_S_S802816x2x2x2) : (⟨S_, .f32⟩ : BufTy).Contents (Elt F) → (⟨S802816x2x2x2, .f32⟩ : BufTy).Contents (Elt F)) t41
  let t43 : (⟨S802816x2x2x2, .f32⟩ : BufTy).Contents (Elt F) := (select : (⟨S802816x2x2x2, .i1⟩ : BufTy).Contents (Elt F) → (⟨S802816x2x2x2, .f32⟩ : BufTy).Contents (Elt F) → (⟨S802816x2x2x2, .f32⟩ : BufTy).Contents (Elt F) → (⟨S802816x2x2x2, .f32⟩ : BufTy).Contents (Elt F)) t40 t39 t42
  let t44 : (⟨S_, .f32⟩ : BufTy).Contents (Elt F) := (constant S_ .f32 0x3F000000#32)
  let t45 : (⟨S_, .f32⟩ : BufTy).Contents (Elt F) := ((mulf : (⟨S_, .f32⟩ : BufTy).Contents (Elt F) → (⟨S_, .f32⟩ : BufTy).Contents (Elt F) → (⟨S_, .f32⟩ : BufTy).Contents (Elt F)) : (⟨S_, .f32⟩ : BufTy).Contents (Elt F) → (⟨S_, .f32⟩ : BufTy).Contents (Elt F) → (⟨S_, .f32⟩ : BufTy).Contents (Elt F)) t1 t44
  let t46 : (⟨S_, .f32⟩ : BufTy).Contents (Elt F) := ((Host.cos : (⟨S_, .f32⟩ : BufTy).Contents (Elt F) → (⟨S_, .f32⟩ : BufTy).Contents (Elt F)) : (⟨S_, .f32⟩ : BufTy).Contents (Elt F) → (⟨S_, .f32⟩ : BufTy).Contents (Elt F)) t45
  let t47 : (⟨S_, .f32⟩ : BufTy).Contents (Elt F) := (constant S_ .f32 0x3F000000#32)
  let t48 : (⟨S_, .f32⟩ : BufTy).Contents (Elt F) := ((mulf : (⟨S_, .f32⟩ : BufTy).Contents (Elt F) → (⟨S_, .f32⟩ : BufTy).Contents (Elt F) → (⟨S_, .f32⟩ : BufTy).Contents (Elt F)) : (⟨S_, .f32⟩ : BufTy).Contents (Elt F) → (⟨S_, .f32⟩ : BufTy).Contents (Elt F) → (⟨S_, .f32⟩ : BufTy).Contents (Elt F)) t1 t47
  let t49 : (⟨S_, .f32⟩ : BufTy).Contents (Elt F) := ((Host.sin : (⟨S_, .f32⟩ : BufTy).Contents (Elt F) → (⟨S_, .f32⟩ : BufTy).Contents (Elt F)) : (⟨S_, .f32⟩ : BufTy).Contents (Elt F) → (⟨S_, .f32⟩ : BufTy).Contents (Elt F)) t48
  let t50 : (⟨S802816x2x2x2, .f32⟩ : BufTy).Contents (Elt F) := ((broadcastInDim S802816x2x2x2 ![] bcast_S_S802816x2x2x2 : (⟨S_, .f32⟩ : BufTy).Contents (Elt F) → (⟨S802816x2x2x2, .f32⟩ : BufTy).Contents (Elt F)) : (⟨S_, .f32⟩ : BufTy).Contents (Elt F) → (⟨S802816x2x2x2, .f32⟩ : BufTy).Contents (Elt F)) t46
  let t51 : (⟨S802816x2x2x2, .f32⟩ : BufTy).Contents (Elt F) := ((mulf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t50 t22
  let t52 : (⟨S802816x2x2x2, .f32⟩ : BufTy).Contents (Elt F) := ((broadcastInDim S802816x2x2x2 ![] bcast_S_S802816x2x2x2 : (⟨S_, .f32⟩ : BufTy).Contents (Elt F) → (⟨S802816x2x2x2, .f32⟩ : BufTy).Contents (Elt F)) : (⟨S_, .f32⟩ : BufTy).Contents (Elt F) → (⟨S802816x2x2x2, .f32⟩ : BufTy).Contents (Elt F)) t49
  let t53 : (⟨S802816x2x2x2, .f32⟩ : BufTy).Contents (Elt F) := ((mulf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t52 t43
  let t54 : (⟨S802816x2x2x2, .f32⟩ : BufTy).Contents (Elt F) := ((subf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t51 t53
  let t55 : (⟨S802816x2x2x2, .f32⟩ : BufTy).Contents (Elt F) := ((broadcastInDim S802816x2x2x2 ![] bcast_S_S802816x2x2x2 : (⟨S_, .f32⟩ : BufTy).Contents (Elt F) → (⟨S802816x2x2x2, .f32⟩ : BufTy).Contents (Elt F)) : (⟨S_, .f32⟩ : BufTy).Contents (Elt F) → (⟨S802816x2x2x2, .f32⟩ : BufTy).Contents (Elt F)) t49
  let t56 : (⟨S802816x2x2x2, .f32⟩ : BufTy).Contents (Elt F) := ((mulf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t55 t22
  let t57 : (⟨S802816x2x2x2, .f32⟩ : BufTy).Contents (Elt F) := ((broadcastInDim S802816x2x2x2 ![] bcast_S_S802816x2x2x2 : (⟨S_, .f32⟩ : BufTy).Contents (Elt F) → (⟨S802816x2x2x2, .f32⟩ : BufTy).Contents (Elt F)) : (⟨S_, .f32⟩ : BufTy).Contents (Elt F) → (⟨S802816x2x2x2, .f32⟩ : BufTy).Contents (Elt F)) t46
  let t58 : (⟨S802816x2x2x2, .f32⟩ : BufTy).Contents (Elt F) := ((mulf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t57 t43
  let t59 : (⟨S802816x2x2x2, .f32⟩ : BufTy).Contents (Elt F) := ((addf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t56 t58
  let t60 : (⟨S802816x2x2x1x2, .f32⟩ : BufTy).Contents (Elt F) := ((broadcastInDim S802816x2x2x1x2 ![0, 1, 2, 4] bcast_S802816x2x2x2_S802816x2x2x1x2_0_1_2_4 : (⟨S802816x2x2x2, .f32⟩ : BufTy).Contents (Elt F) → (⟨S802816x2x2x1x2, .f32⟩ : BufTy).Contents (Elt F)) : (⟨S802816x2x2x2, .f32⟩ : BufTy).Contents (Elt F) → (⟨S802816x2x2x1x2, .f32⟩ : BufTy).Contents (Elt F)) t54
  let t61 : (⟨S802816x2x2x1x2, .f32⟩ : BufTy).Contents (Elt F) := ((broadcastInDim S802816x2x2x1x2 ![0, 1, 2, 4] bcast_S802816x2x2x2_S802816x2x2x1x2_0_1_2_4 : (⟨S802816x2x2x2, .f32⟩ : BufTy).Contents (Elt F) → (⟨S802816x2x2x1x2, .f32⟩ : BufTy).Contents (Elt F)) : (⟨S802816x2x2x2, .f32⟩ : BufTy).Contents (Elt F) → (⟨S802816x2x2x1x2, .f32⟩ : BufTy).Contents (Elt F)) t59
  let t62 : (⟨S802816x2x2x2x2, .f32⟩ : BufTy).Contents (Elt F) := (((fun a b => concatenate S802816x2x2x2x2 3 [⟨S802816x2x2x1x2, a⟩, ⟨S802816x2x2x1x2, b⟩] concatenates_S802816x2x2x1x2_S802816x2x2x1x2_S802816x2x2x2x2_d3) : (⟨S802816x2x2x1x2, .f32⟩ : BufTy).Contents (Elt F) → (⟨S802816x2x2x1x2, .f32⟩ : BufTy).Contents (Elt F) → (⟨S802816x2x2x2x2, .f32⟩ : BufTy).Contents (Elt F)) : (⟨S802816x2x2x1x2, .f32⟩ : BufTy).Contents (Elt F) → (⟨S802816x2x2x1x2, .f32⟩ : BufTy).Contents (Elt F) → (⟨S802816x2x2x2x2, .f32⟩ : BufTy).Contents (Elt F)) t60 t61
  t62

/-- The rotation of the fourth qubit by the fixed angle (entry 3 of the parameters): as the per-patch rotation, with the scalar cosine and sine broadcast over the whole array. `x0` is the state, `x1` the four parameters. -/
def gRyP3 (x0 : (⟨S802816x2x2x2x2, .f32⟩ : BufTy).Contents (Elt F)) (x1 : (⟨S4, .f32⟩ : BufTy).Contents (Elt F)) : (⟨S802816x2x2x2x2, .f32⟩ : BufTy).Contents (Elt F) :=
  let t0 : (⟨S1, .f32⟩ : BufTy).Contents (Elt F) := (((extractStridedSlice S1 ![3] · slices_S4_S1_3) : (⟨S4, .f32⟩ : BufTy).Contents (Elt F) → (⟨S1, .f32⟩ : BufTy).Contents (Elt F)) : (⟨S4, .f32⟩ : BufTy).Contents (Elt F) → (⟨S1, .f32⟩ : BufTy).Contents (Elt F)) x1
  let t1 : (⟨S_, .f32⟩ : BufTy).Contents (Elt F) := shapeCast S_ t0 shapeCasts_S1_S_
  let t2 : (⟨S_, .i32⟩ : BufTy).Contents (Elt F) := (constantI S_ 32 0#32)
  let t3 : (⟨S_, .i32⟩ : BufTy).Contents (Elt F) := (constantI S_ 32 0#32)
  let t4 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t2 t3
  let t5 : (⟨S_, .i32⟩ : BufTy).Contents (Elt F) := (constantI S_ 32 2#32)
  let t6 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t2 t5
  let t7 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t4 t6 t2
  let t8 : (⟨S1, .i32⟩ : BufTy).Contents (Elt F) := ((broadcastInDim S1 ![] bcast_S_S1) : (⟨S_, .i32⟩ : BufTy).Contents (Elt F) → (⟨S1, .i32⟩ : BufTy).Contents (Elt F)) t7
  let t9 : (⟨S1, .i32⟩ : BufTy).Contents (Elt F) := (constantI S1 32 1#32)
  let t10 : (⟨S1, .i32⟩ : BufTy).Contents (Elt F) := (id : (⟨S1, .i32⟩ : BufTy).Contents (Elt F) → (⟨S1, .i32⟩ : BufTy).Contents (Elt F)) t8
  let t11 : (⟨S_, .i32⟩ : BufTy).Contents (Elt F) := (constantI S_ 32 0#32)
  let t12 : (⟨S1, .i32⟩ : BufTy).Contents (Elt F) := ((broadcastInDim S1 ![] bcast_S_S1) : (⟨S_, .i32⟩ : BufTy).Contents (Elt F) → (⟨S1, .i32⟩ : BufTy).Contents (Elt F)) t11
  let t13 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t10 t12
  let t14 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t10 t9
  let t15 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t13 t14
  let t16 : (⟨S_, .i1⟩ : BufTy).Contents (Elt F) := (constantI S_ 1 1#1)
  let t17 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t15 t16
  let t18 : (⟨S802816x2x2x2, .f32⟩ : BufTy).Contents (Elt F) := ((fun x i => Host.gather gather_S802816x2x2x2x2_S1_S802816x2x2x2_0123_4_n_n_4_0_8028162221 x i) : (⟨S802816x2x2x2x2, .f32⟩ : BufTy).Contents (Elt F) → (⟨S1, .i32⟩ : BufTy).Contents (Elt F) → (⟨S802816x2x2x2, .f32⟩ : BufTy).Contents (Elt F)) x0 t10
  let t19 : (⟨S802816x2x2x2, .i1⟩ : BufTy).Contents (Elt F) := ((broadcastInDim S802816x2x2x2 ![] bcast_S_S802816x2x2x2) : (⟨S_, .i1⟩ : BufTy).Contents (Elt F) → (⟨S802816x2x2x2, .i1⟩ : BufTy).Contents (Elt F)) t17
  let t20 : (⟨S_, .f32⟩ : BufTy).Contents (Elt F) := (constant S_ .f32 0x7FC00000#32)
  let t21 : (⟨S802816x2x2x2, .f32⟩ : BufTy).Contents (Elt F) := ((broadcastInDim S802816x2x2x2 ![] bcast_S_S802816x2x2x2) : (⟨S_, .f32⟩ : BufTy).Contents (Elt F) → (⟨S802816x2x2x2, .f32⟩ : BufTy).Contents (Elt F)) t20
  let t22 : (⟨S802816x2x2x2, .f32⟩ : BufTy).Contents (Elt F) := (select : (⟨S802816x2x2x2, .i1⟩ : BufTy).Contents (Elt F) → (⟨S802816x2x2x2, .f32⟩ : BufTy).Contents (Elt F) → (⟨S802816x2x2x2, .f32⟩ : BufTy).Contents (Elt F) → (⟨S802816x2x2x2, .f32⟩ : BufTy).Contents (Elt F)) t19 t18 t21
  let t23 : (⟨S_, .i32⟩ : BufTy).Contents (Elt F) := (constantI S_ 32 1#32)
  let t24 : (⟨S_, .i32⟩ : BufTy).Contents (Elt F) := (constantI S_ 32 0#32)
  let t25 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t23 t24
  let t26 : (⟨S_, .i32⟩ : BufTy).Contents (Elt F) := (constantI S_ 32 2#32)
  let t27 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t23 t26
  let t28 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t25 t27 t23
  let t29 : (⟨S1, .i32⟩ : BufTy).Contents (Elt F) := ((broadcastInDim S1 ![] bcast_S_S1) : (⟨S_, .i32⟩ : BufTy).Contents (Elt F) → (⟨S1, .i32⟩ : BufTy).Contents (Elt F)) t28
  let t30 : (⟨S1, .i32⟩ : BufTy).Contents (Elt F) := (constantI S1 32 1#32)
  let t31 : (⟨S1, .i32⟩ : BufTy).Contents (Elt F) := (id : (⟨S1, .i32⟩ : BufTy).Contents (Elt F) → (⟨S1, .i32⟩ : BufTy).Contents (Elt F)) t29
  let t32 : (⟨S_, .i32⟩ : BufTy).Contents (Elt F) := (constantI S_ 32 0#32)
  let t33 : (⟨S1, .i32⟩ : BufTy).Contents (Elt F) := ((broadcastInDim S1 ![] bcast_S_S1) : (⟨S_, .i32⟩ : BufTy).Contents (Elt F) → (⟨S1, .i32⟩ : BufTy).Contents (Elt F)) t32
  let t34 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t31 t33
  let t35 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t31 t30
  let t36 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t34 t35
  let t37 : (⟨S_, .i1⟩ : BufTy).Contents (Elt F) := (constantI S_ 1 1#1)
  let t38 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t36 t37
  let t39 : (⟨S802816x2x2x2, .f32⟩ : BufTy).Contents (Elt F) := ((fun x i => Host.gather gather_S802816x2x2x2x2_S1_S802816x2x2x2_0123_4_n_n_4_0_8028162221 x i) : (⟨S802816x2x2x2x2, .f32⟩ : BufTy).Contents (Elt F) → (⟨S1, .i32⟩ : BufTy).Contents (Elt F) → (⟨S802816x2x2x2, .f32⟩ : BufTy).Contents (Elt F)) x0 t31
  let t40 : (⟨S802816x2x2x2, .i1⟩ : BufTy).Contents (Elt F) := ((broadcastInDim S802816x2x2x2 ![] bcast_S_S802816x2x2x2) : (⟨S_, .i1⟩ : BufTy).Contents (Elt F) → (⟨S802816x2x2x2, .i1⟩ : BufTy).Contents (Elt F)) t38
  let t41 : (⟨S_, .f32⟩ : BufTy).Contents (Elt F) := (constant S_ .f32 0x7FC00000#32)
  let t42 : (⟨S802816x2x2x2, .f32⟩ : BufTy).Contents (Elt F) := ((broadcastInDim S802816x2x2x2 ![] bcast_S_S802816x2x2x2) : (⟨S_, .f32⟩ : BufTy).Contents (Elt F) → (⟨S802816x2x2x2, .f32⟩ : BufTy).Contents (Elt F)) t41
  let t43 : (⟨S802816x2x2x2, .f32⟩ : BufTy).Contents (Elt F) := (select : (⟨S802816x2x2x2, .i1⟩ : BufTy).Contents (Elt F) → (⟨S802816x2x2x2, .f32⟩ : BufTy).Contents (Elt F) → (⟨S802816x2x2x2, .f32⟩ : BufTy).Contents (Elt F) → (⟨S802816x2x2x2, .f32⟩ : BufTy).Contents (Elt F)) t40 t39 t42
  let t44 : (⟨S_, .f32⟩ : BufTy).Contents (Elt F) := (constant S_ .f32 0x3F000000#32)
  let t45 : (⟨S_, .f32⟩ : BufTy).Contents (Elt F) := ((mulf : (⟨S_, .f32⟩ : BufTy).Contents (Elt F) → (⟨S_, .f32⟩ : BufTy).Contents (Elt F) → (⟨S_, .f32⟩ : BufTy).Contents (Elt F)) : (⟨S_, .f32⟩ : BufTy).Contents (Elt F) → (⟨S_, .f32⟩ : BufTy).Contents (Elt F) → (⟨S_, .f32⟩ : BufTy).Contents (Elt F)) t1 t44
  let t46 : (⟨S_, .f32⟩ : BufTy).Contents (Elt F) := ((Host.cos : (⟨S_, .f32⟩ : BufTy).Contents (Elt F) → (⟨S_, .f32⟩ : BufTy).Contents (Elt F)) : (⟨S_, .f32⟩ : BufTy).Contents (Elt F) → (⟨S_, .f32⟩ : BufTy).Contents (Elt F)) t45
  let t47 : (⟨S_, .f32⟩ : BufTy).Contents (Elt F) := (constant S_ .f32 0x3F000000#32)
  let t48 : (⟨S_, .f32⟩ : BufTy).Contents (Elt F) := ((mulf : (⟨S_, .f32⟩ : BufTy).Contents (Elt F) → (⟨S_, .f32⟩ : BufTy).Contents (Elt F) → (⟨S_, .f32⟩ : BufTy).Contents (Elt F)) : (⟨S_, .f32⟩ : BufTy).Contents (Elt F) → (⟨S_, .f32⟩ : BufTy).Contents (Elt F) → (⟨S_, .f32⟩ : BufTy).Contents (Elt F)) t1 t47
  let t49 : (⟨S_, .f32⟩ : BufTy).Contents (Elt F) := ((Host.sin : (⟨S_, .f32⟩ : BufTy).Contents (Elt F) → (⟨S_, .f32⟩ : BufTy).Contents (Elt F)) : (⟨S_, .f32⟩ : BufTy).Contents (Elt F) → (⟨S_, .f32⟩ : BufTy).Contents (Elt F)) t48
  let t50 : (⟨S802816x2x2x2, .f32⟩ : BufTy).Contents (Elt F) := ((broadcastInDim S802816x2x2x2 ![] bcast_S_S802816x2x2x2 : (⟨S_, .f32⟩ : BufTy).Contents (Elt F) → (⟨S802816x2x2x2, .f32⟩ : BufTy).Contents (Elt F)) : (⟨S_, .f32⟩ : BufTy).Contents (Elt F) → (⟨S802816x2x2x2, .f32⟩ : BufTy).Contents (Elt F)) t46
  let t51 : (⟨S802816x2x2x2, .f32⟩ : BufTy).Contents (Elt F) := ((mulf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t50 t22
  let t52 : (⟨S802816x2x2x2, .f32⟩ : BufTy).Contents (Elt F) := ((broadcastInDim S802816x2x2x2 ![] bcast_S_S802816x2x2x2 : (⟨S_, .f32⟩ : BufTy).Contents (Elt F) → (⟨S802816x2x2x2, .f32⟩ : BufTy).Contents (Elt F)) : (⟨S_, .f32⟩ : BufTy).Contents (Elt F) → (⟨S802816x2x2x2, .f32⟩ : BufTy).Contents (Elt F)) t49
  let t53 : (⟨S802816x2x2x2, .f32⟩ : BufTy).Contents (Elt F) := ((mulf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t52 t43
  let t54 : (⟨S802816x2x2x2, .f32⟩ : BufTy).Contents (Elt F) := ((subf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t51 t53
  let t55 : (⟨S802816x2x2x2, .f32⟩ : BufTy).Contents (Elt F) := ((broadcastInDim S802816x2x2x2 ![] bcast_S_S802816x2x2x2 : (⟨S_, .f32⟩ : BufTy).Contents (Elt F) → (⟨S802816x2x2x2, .f32⟩ : BufTy).Contents (Elt F)) : (⟨S_, .f32⟩ : BufTy).Contents (Elt F) → (⟨S802816x2x2x2, .f32⟩ : BufTy).Contents (Elt F)) t49
  let t56 : (⟨S802816x2x2x2, .f32⟩ : BufTy).Contents (Elt F) := ((mulf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t55 t22
  let t57 : (⟨S802816x2x2x2, .f32⟩ : BufTy).Contents (Elt F) := ((broadcastInDim S802816x2x2x2 ![] bcast_S_S802816x2x2x2 : (⟨S_, .f32⟩ : BufTy).Contents (Elt F) → (⟨S802816x2x2x2, .f32⟩ : BufTy).Contents (Elt F)) : (⟨S_, .f32⟩ : BufTy).Contents (Elt F) → (⟨S802816x2x2x2, .f32⟩ : BufTy).Contents (Elt F)) t46
  let t58 : (⟨S802816x2x2x2, .f32⟩ : BufTy).Contents (Elt F) := ((mulf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t57 t43
  let t59 : (⟨S802816x2x2x2, .f32⟩ : BufTy).Contents (Elt F) := ((addf : (⟨S802816x2x2x2, .f32⟩ : BufTy).Contents (Elt F) → (⟨S802816x2x2x2, .f32⟩ : BufTy).Contents (Elt F) → (⟨S802816x2x2x2, .f32⟩ : BufTy).Contents (Elt F)) : (⟨S802816x2x2x2, .f32⟩ : BufTy).Contents (Elt F) → (⟨S802816x2x2x2, .f32⟩ : BufTy).Contents (Elt F) → (⟨S802816x2x2x2, .f32⟩ : BufTy).Contents (Elt F)) t56 t58
  let t60 : (⟨S802816x2x2x2x1, .f32⟩ : BufTy).Contents (Elt F) := ((broadcastInDim S802816x2x2x2x1 ![0, 1, 2, 3] bcast_S802816x2x2x2_S802816x2x2x2x1_0_1_2_3 : (⟨S802816x2x2x2, .f32⟩ : BufTy).Contents (Elt F) → (⟨S802816x2x2x2x1, .f32⟩ : BufTy).Contents (Elt F)) : (⟨S802816x2x2x2, .f32⟩ : BufTy).Contents (Elt F) → (⟨S802816x2x2x2x1, .f32⟩ : BufTy).Contents (Elt F)) t54
  let t61 : (⟨S802816x2x2x2x1, .f32⟩ : BufTy).Contents (Elt F) := ((broadcastInDim S802816x2x2x2x1 ![0, 1, 2, 3] bcast_S802816x2x2x2_S802816x2x2x2x1_0_1_2_3 : (⟨S802816x2x2x2, .f32⟩ : BufTy).Contents (Elt F) → (⟨S802816x2x2x2x1, .f32⟩ : BufTy).Contents (Elt F)) : (⟨S802816x2x2x2, .f32⟩ : BufTy).Contents (Elt F) → (⟨S802816x2x2x2x1, .f32⟩ : BufTy).Contents (Elt F)) t59
  let t62 : (⟨S802816x2x2x2x2, .f32⟩ : BufTy).Contents (Elt F) := (((fun a b => concatenate S802816x2x2x2x2 4 [⟨S802816x2x2x2x1, a⟩, ⟨S802816x2x2x2x1, b⟩] concatenates_S802816x2x2x2x1_S802816x2x2x2x1_S802816x2x2x2x2_d4) : (⟨S802816x2x2x2x1, .f32⟩ : BufTy).Contents (Elt F) → (⟨S802816x2x2x2x1, .f32⟩ : BufTy).Contents (Elt F) → (⟨S802816x2x2x2x2, .f32⟩ : BufTy).Contents (Elt F)) : (⟨S802816x2x2x2x1, .f32⟩ : BufTy).Contents (Elt F) → (⟨S802816x2x2x2x1, .f32⟩ : BufTy).Contents (Elt F) → (⟨S802816x2x2x2x2, .f32⟩ : BufTy).Contents (Elt F)) t60 t61
  t62

/-- The controlled NOT with the first qubit as control and the next one (cyclically) as target: the two halves of the state along the control's axis, the second reversed along the target's axis, concatenated back along the control's axis. -/
def gCx0 (x0 : (⟨S802816x2x2x2x2, .f32⟩ : BufTy).Contents (Elt F)) : (⟨S802816x2x2x2x2, .f32⟩ : BufTy).Contents (Elt F) :=
  let t0 : (⟨S_, .i32⟩ : BufTy).Contents (Elt F) := (constantI S_ 32 0#32)
  let t1 : (⟨S_, .i32⟩ : BufTy).Contents (Elt F) := (constantI S_ 32 0#32)
  let t2 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t0 t1
  let t3 : (⟨S_, .i32⟩ : BufTy).Contents (Elt F) := (constantI S_ 32 2#32)
  let t4 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t0 t3
  let t5 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t2 t4 t0
  let t6 : (⟨S1, .i32⟩ : BufTy).Contents (Elt F) := ((broadcastInDim S1 ![] bcast_S_S1) : (⟨S_, .i32⟩ : BufTy).Contents (Elt F) → (⟨S1, .i32⟩ : BufTy).Contents (Elt F)) t5
  let t7 : (⟨S1, .i32⟩ : BufTy).Contents (Elt F) := (constantI S1 32 1#32)
  let t8 : (⟨S1, .i32⟩ : BufTy).Contents (Elt F) := (id : (⟨S1, .i32⟩ : BufTy).Contents (Elt F) → (⟨S1, .i32⟩ : BufTy).Contents (Elt F)) t6
  let t9 : (⟨S_, .i32⟩ : BufTy).Contents (Elt F) := (constantI S_ 32 0#32)
  let t10 : (⟨S1, .i32⟩ : BufTy).Contents (Elt F) := ((broadcastInDim S1 ![] bcast_S_S1) : (⟨S_, .i32⟩ : BufTy).Contents (Elt F) → (⟨S1, .i32⟩ : BufTy).Contents (Elt F)) t9
  let t11 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t8 t10
  let t12 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t8 t7
  let t13 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t11 t12
  let t14 : (⟨S_, .i1⟩ : BufTy).Contents (Elt F) := (constantI S_ 1 1#1)
  let t15 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t13 t14
  let t16 : (⟨S802816x2x2x2, .f32⟩ : BufTy).Contents (Elt F) := ((fun x i => Host.gather gather_S802816x2x2x2x2_S1_S802816x2x2x2_0123_1_n_n_1_0_8028161222 x i) : (⟨S802816x2x2x2x2, .f32⟩ : BufTy).Contents (Elt F) → (⟨S1, .i32⟩ : BufTy).Contents (Elt F) → (⟨S802816x2x2x2, .f32⟩ : BufTy).Contents (Elt F)) x0 t8
  let t17 : (⟨S802816x2x2x2, .i1⟩ : BufTy).Contents (Elt F) := ((broadcastInDim S802816x2x2x2 ![] bcast_S_S802816x2x2x2) : (⟨S_, .i1⟩ : BufTy).Contents (Elt F) → (⟨S802816x2x2x2, .i1⟩ : BufTy).Contents (Elt F)) t15
  let t18 : (⟨S_, .f32⟩ : BufTy).Contents (Elt F) := (constant S_ .f32 0x7FC00000#32)
  let t19 : (⟨S802816x2x2x2, .f32⟩ : BufTy).Contents (Elt F) := ((broadcastInDim S802816x2x2x2 ![] bcast_S_S802816x2x2x2) : (⟨S_, .f32⟩ : BufTy).Contents (Elt F) → (⟨S802816x2x2x2, .f32⟩ : BufTy).Contents (Elt F)) t18
  let t20 : (⟨S802816x2x2x2, .f32⟩ : BufTy).Contents (Elt F) := (select : (⟨S802816x2x2x2, .i1⟩ : BufTy).Contents (Elt F) → (⟨S802816x2x2x2, .f32⟩ : BufTy).Contents (Elt F) → (⟨S802816x2x2x2, .f32⟩ : BufTy).Contents (Elt F) → (⟨S802816x2x2x2, .f32⟩ : BufTy).Contents (Elt F)) t17 t16 t19
  let t21 : (⟨S_, .i32⟩ : BufTy).Contents (Elt F) := (constantI S_ 32 1#32)
  let t22 : (⟨S_, .i32⟩ : BufTy).Contents (Elt F) := (constantI S_ 32 0#32)
  let t23 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t21 t22
  let t24 : (⟨S_, .i32⟩ : BufTy).Contents (Elt F) := (constantI S_ 32 2#32)
  let t25 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t21 t24
  let t26 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t23 t25 t21
  let t27 : (⟨S1, .i32⟩ : BufTy).Contents (Elt F) := ((broadcastInDim S1 ![] bcast_S_S1) : (⟨S_, .i32⟩ : BufTy).Contents (Elt F) → (⟨S1, .i32⟩ : BufTy).Contents (Elt F)) t26
  let t28 : (⟨S1, .i32⟩ : BufTy).Contents (Elt F) := (constantI S1 32 1#32)
  let t29 : (⟨S1, .i32⟩ : BufTy).Contents (Elt F) := (id : (⟨S1, .i32⟩ : BufTy).Contents (Elt F) → (⟨S1, .i32⟩ : BufTy).Contents (Elt F)) t27
  let t30 : (⟨S_, .i32⟩ : BufTy).Contents (Elt F) := (constantI S_ 32 0#32)
  let t31 : (⟨S1, .i32⟩ : BufTy).Contents (Elt F) := ((broadcastInDim S1 ![] bcast_S_S1) : (⟨S_, .i32⟩ : BufTy).Contents (Elt F) → (⟨S1, .i32⟩ : BufTy).Contents (Elt F)) t30
  let t32 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t29 t31
  let t33 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t29 t28
  let t34 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t32 t33
  let t35 : (⟨S_, .i1⟩ : BufTy).Contents (Elt F) := (constantI S_ 1 1#1)
  let t36 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t34 t35
  let t37 : (⟨S802816x2x2x2, .f32⟩ : BufTy).Contents (Elt F) := ((fun x i => Host.gather gather_S802816x2x2x2x2_S1_S802816x2x2x2_0123_1_n_n_1_0_8028161222 x i) : (⟨S802816x2x2x2x2, .f32⟩ : BufTy).Contents (Elt F) → (⟨S1, .i32⟩ : BufTy).Contents (Elt F) → (⟨S802816x2x2x2, .f32⟩ : BufTy).Contents (Elt F)) x0 t29
  let t38 : (⟨S802816x2x2x2, .i1⟩ : BufTy).Contents (Elt F) := ((broadcastInDim S802816x2x2x2 ![] bcast_S_S802816x2x2x2) : (⟨S_, .i1⟩ : BufTy).Contents (Elt F) → (⟨S802816x2x2x2, .i1⟩ : BufTy).Contents (Elt F)) t36
  let t39 : (⟨S_, .f32⟩ : BufTy).Contents (Elt F) := (constant S_ .f32 0x7FC00000#32)
  let t40 : (⟨S802816x2x2x2, .f32⟩ : BufTy).Contents (Elt F) := ((broadcastInDim S802816x2x2x2 ![] bcast_S_S802816x2x2x2) : (⟨S_, .f32⟩ : BufTy).Contents (Elt F) → (⟨S802816x2x2x2, .f32⟩ : BufTy).Contents (Elt F)) t39
  let t41 : (⟨S802816x2x2x2, .f32⟩ : BufTy).Contents (Elt F) := (select : (⟨S802816x2x2x2, .i1⟩ : BufTy).Contents (Elt F) → (⟨S802816x2x2x2, .f32⟩ : BufTy).Contents (Elt F) → (⟨S802816x2x2x2, .f32⟩ : BufTy).Contents (Elt F) → (⟨S802816x2x2x2, .f32⟩ : BufTy).Contents (Elt F)) t38 t37 t40
  let t42 : (⟨S802816x2x2x2, .f32⟩ : BufTy).Contents (Elt F) := ((Host.reverse [1]) : (⟨S802816x2x2x2, .f32⟩ : BufTy).Contents (Elt F) → (⟨S802816x2x2x2, .f32⟩ : BufTy).Contents (Elt F)) t41
  let t43 : (⟨S802816x1x2x2x2, .f32⟩ : BufTy).Contents (Elt F) := ((broadcastInDim S802816x1x2x2x2 ![0, 2, 3, 4] bcast_S802816x2x2x2_S802816x1x2x2x2_0_2_3_4 : (⟨S802816x2x2x2, .f32⟩ : BufTy).Contents (Elt F) → (⟨S802816x1x2x2x2, .f32⟩ : BufTy).Contents (Elt F)) : (⟨S802816x2x2x2, .f32⟩ : BufTy).Contents (Elt F) → (⟨S802816x1x2x2x2, .f32⟩ : BufTy).Contents (Elt F)) t20
  let t44 : (⟨S802816x1x2x2x2, .f32⟩ : BufTy).Contents (Elt F) := ((broadcastInDim S802816x1x2x2x2 ![0, 2, 3, 4] bcast_S802816x2x2x2_S802816x1x2x2x2_0_2_3_4 : (⟨S802816x2x2x2, .f32⟩ : BufTy).Contents (Elt F) → (⟨S802816x1x2x2x2, .f32⟩ : BufTy).Contents (Elt F)) : (⟨S802816x2x2x2, .f32⟩ : BufTy).Contents (Elt F) → (⟨S802816x1x2x2x2, .f32⟩ : BufTy).Contents (Elt F)) t42
  let t45 : (⟨S802816x2x2x2x2, .f32⟩ : BufTy).Contents (Elt F) := (((fun a b => concatenate S802816x2x2x2x2 1 [⟨S802816x1x2x2x2, a⟩, ⟨S802816x1x2x2x2, b⟩] concatenates_S802816x1x2x2x2_S802816x1x2x2x2_S802816x2x2x2x2_d1) : (⟨S802816x1x2x2x2, .f32⟩ : BufTy).Contents (Elt F) → (⟨S802816x1x2x2x2, .f32⟩ : BufTy).Contents (Elt F) → (⟨S802816x2x2x2x2, .f32⟩ : BufTy).Contents (Elt F)) : (⟨S802816x1x2x2x2, .f32⟩ : BufTy).Contents (Elt F) → (⟨S802816x1x2x2x2, .f32⟩ : BufTy).Contents (Elt F) → (⟨S802816x2x2x2x2, .f32⟩ : BufTy).Contents (Elt F)) t43 t44
  t45

/-- The controlled NOT with the second qubit as control and the next one (cyclically) as target: the two halves of the state along the control's axis, the second reversed along the target's axis, concatenated back along the control's axis. -/
def gCx1 (x0 : (⟨S802816x2x2x2x2, .f32⟩ : BufTy).Contents (Elt F)) : (⟨S802816x2x2x2x2, .f32⟩ : BufTy).Contents (Elt F) :=
  let t0 : (⟨S_, .i32⟩ : BufTy).Contents (Elt F) := (constantI S_ 32 0#32)
  let t1 : (⟨S_, .i32⟩ : BufTy).Contents (Elt F) := (constantI S_ 32 0#32)
  let t2 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t0 t1
  let t3 : (⟨S_, .i32⟩ : BufTy).Contents (Elt F) := (constantI S_ 32 2#32)
  let t4 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t0 t3
  let t5 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t2 t4 t0
  let t6 : (⟨S1, .i32⟩ : BufTy).Contents (Elt F) := ((broadcastInDim S1 ![] bcast_S_S1) : (⟨S_, .i32⟩ : BufTy).Contents (Elt F) → (⟨S1, .i32⟩ : BufTy).Contents (Elt F)) t5
  let t7 : (⟨S1, .i32⟩ : BufTy).Contents (Elt F) := (constantI S1 32 1#32)
  let t8 : (⟨S1, .i32⟩ : BufTy).Contents (Elt F) := (id : (⟨S1, .i32⟩ : BufTy).Contents (Elt F) → (⟨S1, .i32⟩ : BufTy).Contents (Elt F)) t6
  let t9 : (⟨S_, .i32⟩ : BufTy).Contents (Elt F) := (constantI S_ 32 0#32)
  let t10 : (⟨S1, .i32⟩ : BufTy).Contents (Elt F) := ((broadcastInDim S1 ![] bcast_S_S1) : (⟨S_, .i32⟩ : BufTy).Contents (Elt F) → (⟨S1, .i32⟩ : BufTy).Contents (Elt F)) t9
  let t11 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t8 t10
  let t12 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t8 t7
  let t13 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t11 t12
  let t14 : (⟨S_, .i1⟩ : BufTy).Contents (Elt F) := (constantI S_ 1 1#1)
  let t15 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t13 t14
  let t16 : (⟨S802816x2x2x2, .f32⟩ : BufTy).Contents (Elt F) := ((fun x i => Host.gather gather_S802816x2x2x2x2_S1_S802816x2x2x2_0123_2_n_n_2_0_8028162122 x i) : (⟨S802816x2x2x2x2, .f32⟩ : BufTy).Contents (Elt F) → (⟨S1, .i32⟩ : BufTy).Contents (Elt F) → (⟨S802816x2x2x2, .f32⟩ : BufTy).Contents (Elt F)) x0 t8
  let t17 : (⟨S802816x2x2x2, .i1⟩ : BufTy).Contents (Elt F) := ((broadcastInDim S802816x2x2x2 ![] bcast_S_S802816x2x2x2) : (⟨S_, .i1⟩ : BufTy).Contents (Elt F) → (⟨S802816x2x2x2, .i1⟩ : BufTy).Contents (Elt F)) t15
  let t18 : (⟨S_, .f32⟩ : BufTy).Contents (Elt F) := (constant S_ .f32 0x7FC00000#32)
  let t19 : (⟨S802816x2x2x2, .f32⟩ : BufTy).Contents (Elt F) := ((broadcastInDim S802816x2x2x2 ![] bcast_S_S802816x2x2x2) : (⟨S_, .f32⟩ : BufTy).Contents (Elt F) → (⟨S802816x2x2x2, .f32⟩ : BufTy).Contents (Elt F)) t18
  let t20 : (⟨S802816x2x2x2, .f32⟩ : BufTy).Contents (Elt F) := (select : (⟨S802816x2x2x2, .i1⟩ : BufTy).Contents (Elt F) → (⟨S802816x2x2x2, .f32⟩ : BufTy).Contents (Elt F) → (⟨S802816x2x2x2, .f32⟩ : BufTy).Contents (Elt F) → (⟨S802816x2x2x2, .f32⟩ : BufTy).Contents (Elt F)) t17 t16 t19
  let t21 : (⟨S_, .i32⟩ : BufTy).Contents (Elt F) := (constantI S_ 32 1#32)
  let t22 : (⟨S_, .i32⟩ : BufTy).Contents (Elt F) := (constantI S_ 32 0#32)
  let t23 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t21 t22
  let t24 : (⟨S_, .i32⟩ : BufTy).Contents (Elt F) := (constantI S_ 32 2#32)
  let t25 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t21 t24
  let t26 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t23 t25 t21
  let t27 : (⟨S1, .i32⟩ : BufTy).Contents (Elt F) := ((broadcastInDim S1 ![] bcast_S_S1) : (⟨S_, .i32⟩ : BufTy).Contents (Elt F) → (⟨S1, .i32⟩ : BufTy).Contents (Elt F)) t26
  let t28 : (⟨S1, .i32⟩ : BufTy).Contents (Elt F) := (constantI S1 32 1#32)
  let t29 : (⟨S1, .i32⟩ : BufTy).Contents (Elt F) := (id : (⟨S1, .i32⟩ : BufTy).Contents (Elt F) → (⟨S1, .i32⟩ : BufTy).Contents (Elt F)) t27
  let t30 : (⟨S_, .i32⟩ : BufTy).Contents (Elt F) := (constantI S_ 32 0#32)
  let t31 : (⟨S1, .i32⟩ : BufTy).Contents (Elt F) := ((broadcastInDim S1 ![] bcast_S_S1) : (⟨S_, .i32⟩ : BufTy).Contents (Elt F) → (⟨S1, .i32⟩ : BufTy).Contents (Elt F)) t30
  let t32 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t29 t31
  let t33 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t29 t28
  let t34 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t32 t33
  let t35 : (⟨S_, .i1⟩ : BufTy).Contents (Elt F) := (constantI S_ 1 1#1)
  let t36 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t34 t35
  let t37 : (⟨S802816x2x2x2, .f32⟩ : BufTy).Contents (Elt F) := ((fun x i => Host.gather gather_S802816x2x2x2x2_S1_S802816x2x2x2_0123_2_n_n_2_0_8028162122 x i) : (⟨S802816x2x2x2x2, .f32⟩ : BufTy).Contents (Elt F) → (⟨S1, .i32⟩ : BufTy).Contents (Elt F) → (⟨S802816x2x2x2, .f32⟩ : BufTy).Contents (Elt F)) x0 t29
  let t38 : (⟨S802816x2x2x2, .i1⟩ : BufTy).Contents (Elt F) := ((broadcastInDim S802816x2x2x2 ![] bcast_S_S802816x2x2x2) : (⟨S_, .i1⟩ : BufTy).Contents (Elt F) → (⟨S802816x2x2x2, .i1⟩ : BufTy).Contents (Elt F)) t36
  let t39 : (⟨S_, .f32⟩ : BufTy).Contents (Elt F) := (constant S_ .f32 0x7FC00000#32)
  let t40 : (⟨S802816x2x2x2, .f32⟩ : BufTy).Contents (Elt F) := ((broadcastInDim S802816x2x2x2 ![] bcast_S_S802816x2x2x2) : (⟨S_, .f32⟩ : BufTy).Contents (Elt F) → (⟨S802816x2x2x2, .f32⟩ : BufTy).Contents (Elt F)) t39
  let t41 : (⟨S802816x2x2x2, .f32⟩ : BufTy).Contents (Elt F) := (select : (⟨S802816x2x2x2, .i1⟩ : BufTy).Contents (Elt F) → (⟨S802816x2x2x2, .f32⟩ : BufTy).Contents (Elt F) → (⟨S802816x2x2x2, .f32⟩ : BufTy).Contents (Elt F) → (⟨S802816x2x2x2, .f32⟩ : BufTy).Contents (Elt F)) t38 t37 t40
  let t42 : (⟨S802816x2x2x2, .f32⟩ : BufTy).Contents (Elt F) := ((Host.reverse [2]) : (⟨S802816x2x2x2, .f32⟩ : BufTy).Contents (Elt F) → (⟨S802816x2x2x2, .f32⟩ : BufTy).Contents (Elt F)) t41
  let t43 : (⟨S802816x2x1x2x2, .f32⟩ : BufTy).Contents (Elt F) := ((broadcastInDim S802816x2x1x2x2 ![0, 1, 3, 4] bcast_S802816x2x2x2_S802816x2x1x2x2_0_1_3_4 : (⟨S802816x2x2x2, .f32⟩ : BufTy).Contents (Elt F) → (⟨S802816x2x1x2x2, .f32⟩ : BufTy).Contents (Elt F)) : (⟨S802816x2x2x2, .f32⟩ : BufTy).Contents (Elt F) → (⟨S802816x2x1x2x2, .f32⟩ : BufTy).Contents (Elt F)) t20
  let t44 : (⟨S802816x2x1x2x2, .f32⟩ : BufTy).Contents (Elt F) := ((broadcastInDim S802816x2x1x2x2 ![0, 1, 3, 4] bcast_S802816x2x2x2_S802816x2x1x2x2_0_1_3_4 : (⟨S802816x2x2x2, .f32⟩ : BufTy).Contents (Elt F) → (⟨S802816x2x1x2x2, .f32⟩ : BufTy).Contents (Elt F)) : (⟨S802816x2x2x2, .f32⟩ : BufTy).Contents (Elt F) → (⟨S802816x2x1x2x2, .f32⟩ : BufTy).Contents (Elt F)) t42
  let t45 : (⟨S802816x2x2x2x2, .f32⟩ : BufTy).Contents (Elt F) := (((fun a b => concatenate S802816x2x2x2x2 2 [⟨S802816x2x1x2x2, a⟩, ⟨S802816x2x1x2x2, b⟩] concatenates_S802816x2x1x2x2_S802816x2x1x2x2_S802816x2x2x2x2_d2) : (⟨S802816x2x1x2x2, .f32⟩ : BufTy).Contents (Elt F) → (⟨S802816x2x1x2x2, .f32⟩ : BufTy).Contents (Elt F) → (⟨S802816x2x2x2x2, .f32⟩ : BufTy).Contents (Elt F)) : (⟨S802816x2x1x2x2, .f32⟩ : BufTy).Contents (Elt F) → (⟨S802816x2x1x2x2, .f32⟩ : BufTy).Contents (Elt F) → (⟨S802816x2x2x2x2, .f32⟩ : BufTy).Contents (Elt F)) t43 t44
  t45

/-- The controlled NOT with the third qubit as control and the next one (cyclically) as target: the two halves of the state along the control's axis, the second reversed along the target's axis, concatenated back along the control's axis. -/
def gCx2 (x0 : (⟨S802816x2x2x2x2, .f32⟩ : BufTy).Contents (Elt F)) : (⟨S802816x2x2x2x2, .f32⟩ : BufTy).Contents (Elt F) :=
  let t0 : (⟨S_, .i32⟩ : BufTy).Contents (Elt F) := (constantI S_ 32 0#32)
  let t1 : (⟨S_, .i32⟩ : BufTy).Contents (Elt F) := (constantI S_ 32 0#32)
  let t2 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t0 t1
  let t3 : (⟨S_, .i32⟩ : BufTy).Contents (Elt F) := (constantI S_ 32 2#32)
  let t4 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t0 t3
  let t5 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t2 t4 t0
  let t6 : (⟨S1, .i32⟩ : BufTy).Contents (Elt F) := ((broadcastInDim S1 ![] bcast_S_S1) : (⟨S_, .i32⟩ : BufTy).Contents (Elt F) → (⟨S1, .i32⟩ : BufTy).Contents (Elt F)) t5
  let t7 : (⟨S1, .i32⟩ : BufTy).Contents (Elt F) := (constantI S1 32 1#32)
  let t8 : (⟨S1, .i32⟩ : BufTy).Contents (Elt F) := (id : (⟨S1, .i32⟩ : BufTy).Contents (Elt F) → (⟨S1, .i32⟩ : BufTy).Contents (Elt F)) t6
  let t9 : (⟨S_, .i32⟩ : BufTy).Contents (Elt F) := (constantI S_ 32 0#32)
  let t10 : (⟨S1, .i32⟩ : BufTy).Contents (Elt F) := ((broadcastInDim S1 ![] bcast_S_S1) : (⟨S_, .i32⟩ : BufTy).Contents (Elt F) → (⟨S1, .i32⟩ : BufTy).Contents (Elt F)) t9
  let t11 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t8 t10
  let t12 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t8 t7
  let t13 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t11 t12
  let t14 : (⟨S_, .i1⟩ : BufTy).Contents (Elt F) := (constantI S_ 1 1#1)
  let t15 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t13 t14
  let t16 : (⟨S802816x2x2x2, .f32⟩ : BufTy).Contents (Elt F) := ((fun x i => Host.gather gather_S802816x2x2x2x2_S1_S802816x2x2x2_0123_3_n_n_3_0_8028162212 x i) : (⟨S802816x2x2x2x2, .f32⟩ : BufTy).Contents (Elt F) → (⟨S1, .i32⟩ : BufTy).Contents (Elt F) → (⟨S802816x2x2x2, .f32⟩ : BufTy).Contents (Elt F)) x0 t8
  let t17 : (⟨S802816x2x2x2, .i1⟩ : BufTy).Contents (Elt F) := ((broadcastInDim S802816x2x2x2 ![] bcast_S_S802816x2x2x2) : (⟨S_, .i1⟩ : BufTy).Contents (Elt F) → (⟨S802816x2x2x2, .i1⟩ : BufTy).Contents (Elt F)) t15
  let t18 : (⟨S_, .f32⟩ : BufTy).Contents (Elt F) := (constant S_ .f32 0x7FC00000#32)
  let t19 : (⟨S802816x2x2x2, .f32⟩ : BufTy).Contents (Elt F) := ((broadcastInDim S802816x2x2x2 ![] bcast_S_S802816x2x2x2) : (⟨S_, .f32⟩ : BufTy).Contents (Elt F) → (⟨S802816x2x2x2, .f32⟩ : BufTy).Contents (Elt F)) t18
  let t20 : (⟨S802816x2x2x2, .f32⟩ : BufTy).Contents (Elt F) := (select : (⟨S802816x2x2x2, .i1⟩ : BufTy).Contents (Elt F) → (⟨S802816x2x2x2, .f32⟩ : BufTy).Contents (Elt F) → (⟨S802816x2x2x2, .f32⟩ : BufTy).Contents (Elt F) → (⟨S802816x2x2x2, .f32⟩ : BufTy).Contents (Elt F)) t17 t16 t19
  let t21 : (⟨S_, .i32⟩ : BufTy).Contents (Elt F) := (constantI S_ 32 1#32)
  let t22 : (⟨S_, .i32⟩ : BufTy).Contents (Elt F) := (constantI S_ 32 0#32)
  let t23 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t21 t22
  let t24 : (⟨S_, .i32⟩ : BufTy).Contents (Elt F) := (constantI S_ 32 2#32)
  let t25 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t21 t24
  let t26 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t23 t25 t21
  let t27 : (⟨S1, .i32⟩ : BufTy).Contents (Elt F) := ((broadcastInDim S1 ![] bcast_S_S1) : (⟨S_, .i32⟩ : BufTy).Contents (Elt F) → (⟨S1, .i32⟩ : BufTy).Contents (Elt F)) t26
  let t28 : (⟨S1, .i32⟩ : BufTy).Contents (Elt F) := (constantI S1 32 1#32)
  let t29 : (⟨S1, .i32⟩ : BufTy).Contents (Elt F) := (id : (⟨S1, .i32⟩ : BufTy).Contents (Elt F) → (⟨S1, .i32⟩ : BufTy).Contents (Elt F)) t27
  let t30 : (⟨S_, .i32⟩ : BufTy).Contents (Elt F) := (constantI S_ 32 0#32)
  let t31 : (⟨S1, .i32⟩ : BufTy).Contents (Elt F) := ((broadcastInDim S1 ![] bcast_S_S1) : (⟨S_, .i32⟩ : BufTy).Contents (Elt F) → (⟨S1, .i32⟩ : BufTy).Contents (Elt F)) t30
  let t32 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t29 t31
  let t33 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t29 t28
  let t34 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t32 t33
  let t35 : (⟨S_, .i1⟩ : BufTy).Contents (Elt F) := (constantI S_ 1 1#1)
  let t36 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t34 t35
  let t37 : (⟨S802816x2x2x2, .f32⟩ : BufTy).Contents (Elt F) := ((fun x i => Host.gather gather_S802816x2x2x2x2_S1_S802816x2x2x2_0123_3_n_n_3_0_8028162212 x i) : (⟨S802816x2x2x2x2, .f32⟩ : BufTy).Contents (Elt F) → (⟨S1, .i32⟩ : BufTy).Contents (Elt F) → (⟨S802816x2x2x2, .f32⟩ : BufTy).Contents (Elt F)) x0 t29
  let t38 : (⟨S802816x2x2x2, .i1⟩ : BufTy).Contents (Elt F) := ((broadcastInDim S802816x2x2x2 ![] bcast_S_S802816x2x2x2) : (⟨S_, .i1⟩ : BufTy).Contents (Elt F) → (⟨S802816x2x2x2, .i1⟩ : BufTy).Contents (Elt F)) t36
  let t39 : (⟨S_, .f32⟩ : BufTy).Contents (Elt F) := (constant S_ .f32 0x7FC00000#32)
  let t40 : (⟨S802816x2x2x2, .f32⟩ : BufTy).Contents (Elt F) := ((broadcastInDim S802816x2x2x2 ![] bcast_S_S802816x2x2x2) : (⟨S_, .f32⟩ : BufTy).Contents (Elt F) → (⟨S802816x2x2x2, .f32⟩ : BufTy).Contents (Elt F)) t39
  let t41 : (⟨S802816x2x2x2, .f32⟩ : BufTy).Contents (Elt F) := (select : (⟨S802816x2x2x2, .i1⟩ : BufTy).Contents (Elt F) → (⟨S802816x2x2x2, .f32⟩ : BufTy).Contents (Elt F) → (⟨S802816x2x2x2, .f32⟩ : BufTy).Contents (Elt F) → (⟨S802816x2x2x2, .f32⟩ : BufTy).Contents (Elt F)) t38 t37 t40
  let t42 : (⟨S802816x2x2x2, .f32⟩ : BufTy).Contents (Elt F) := ((Host.reverse [3]) : (⟨S802816x2x2x2, .f32⟩ : BufTy).Contents (Elt F) → (⟨S802816x2x2x2, .f32⟩ : BufTy).Contents (Elt F)) t41
  let t43 : (⟨S802816x2x2x1x2, .f32⟩ : BufTy).Contents (Elt F) := ((broadcastInDim S802816x2x2x1x2 ![0, 1, 2, 4] bcast_S802816x2x2x2_S802816x2x2x1x2_0_1_2_4 : (⟨S802816x2x2x2, .f32⟩ : BufTy).Contents (Elt F) → (⟨S802816x2x2x1x2, .f32⟩ : BufTy).Contents (Elt F)) : (⟨S802816x2x2x2, .f32⟩ : BufTy).Contents (Elt F) → (⟨S802816x2x2x1x2, .f32⟩ : BufTy).Contents (Elt F)) t20
  let t44 : (⟨S802816x2x2x1x2, .f32⟩ : BufTy).Contents (Elt F) := ((broadcastInDim S802816x2x2x1x2 ![0, 1, 2, 4] bcast_S802816x2x2x2_S802816x2x2x1x2_0_1_2_4 : (⟨S802816x2x2x2, .f32⟩ : BufTy).Contents (Elt F) → (⟨S802816x2x2x1x2, .f32⟩ : BufTy).Contents (Elt F)) : (⟨S802816x2x2x2, .f32⟩ : BufTy).Contents (Elt F) → (⟨S802816x2x2x1x2, .f32⟩ : BufTy).Contents (Elt F)) t42
  let t45 : (⟨S802816x2x2x2x2, .f32⟩ : BufTy).Contents (Elt F) := (((fun a b => concatenate S802816x2x2x2x2 3 [⟨S802816x2x2x1x2, a⟩, ⟨S802816x2x2x1x2, b⟩] concatenates_S802816x2x2x1x2_S802816x2x2x1x2_S802816x2x2x2x2_d3) : (⟨S802816x2x2x1x2, .f32⟩ : BufTy).Contents (Elt F) → (⟨S802816x2x2x1x2, .f32⟩ : BufTy).Contents (Elt F) → (⟨S802816x2x2x2x2, .f32⟩ : BufTy).Contents (Elt F)) : (⟨S802816x2x2x1x2, .f32⟩ : BufTy).Contents (Elt F) → (⟨S802816x2x2x1x2, .f32⟩ : BufTy).Contents (Elt F) → (⟨S802816x2x2x2x2, .f32⟩ : BufTy).Contents (Elt F)) t43 t44
  t45

/-- The controlled NOT with the fourth qubit as control and the next one (cyclically) as target: the two halves of the state along the control's axis, the second reversed along the target's axis, concatenated back along the control's axis. -/
def gCx3 (x0 : (⟨S802816x2x2x2x2, .f32⟩ : BufTy).Contents (Elt F)) : (⟨S802816x2x2x2x2, .f32⟩ : BufTy).Contents (Elt F) :=
  let t0 : (⟨S_, .i32⟩ : BufTy).Contents (Elt F) := (constantI S_ 32 0#32)
  let t1 : (⟨S_, .i32⟩ : BufTy).Contents (Elt F) := (constantI S_ 32 0#32)
  let t2 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t0 t1
  let t3 : (⟨S_, .i32⟩ : BufTy).Contents (Elt F) := (constantI S_ 32 2#32)
  let t4 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t0 t3
  let t5 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t2 t4 t0
  let t6 : (⟨S1, .i32⟩ : BufTy).Contents (Elt F) := ((broadcastInDim S1 ![] bcast_S_S1) : (⟨S_, .i32⟩ : BufTy).Contents (Elt F) → (⟨S1, .i32⟩ : BufTy).Contents (Elt F)) t5
  let t7 : (⟨S1, .i32⟩ : BufTy).Contents (Elt F) := (constantI S1 32 1#32)
  let t8 : (⟨S1, .i32⟩ : BufTy).Contents (Elt F) := (id : (⟨S1, .i32⟩ : BufTy).Contents (Elt F) → (⟨S1, .i32⟩ : BufTy).Contents (Elt F)) t6
  let t9 : (⟨S_, .i32⟩ : BufTy).Contents (Elt F) := (constantI S_ 32 0#32)
  let t10 : (⟨S1, .i32⟩ : BufTy).Contents (Elt F) := ((broadcastInDim S1 ![] bcast_S_S1) : (⟨S_, .i32⟩ : BufTy).Contents (Elt F) → (⟨S1, .i32⟩ : BufTy).Contents (Elt F)) t9
  let t11 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t8 t10
  let t12 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t8 t7
  let t13 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t11 t12
  let t14 : (⟨S_, .i1⟩ : BufTy).Contents (Elt F) := (constantI S_ 1 1#1)
  let t15 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t13 t14
  let t16 : (⟨S802816x2x2x2, .f32⟩ : BufTy).Contents (Elt F) := ((fun x i => Host.gather gather_S802816x2x2x2x2_S1_S802816x2x2x2_0123_4_n_n_4_0_8028162221 x i) : (⟨S802816x2x2x2x2, .f32⟩ : BufTy).Contents (Elt F) → (⟨S1, .i32⟩ : BufTy).Contents (Elt F) → (⟨S802816x2x2x2, .f32⟩ : BufTy).Contents (Elt F)) x0 t8
  let t17 : (⟨S802816x2x2x2, .i1⟩ : BufTy).Contents (Elt F) := ((broadcastInDim S802816x2x2x2 ![] bcast_S_S802816x2x2x2) : (⟨S_, .i1⟩ : BufTy).Contents (Elt F) → (⟨S802816x2x2x2, .i1⟩ : BufTy).Contents (Elt F)) t15
  let t18 : (⟨S_, .f32⟩ : BufTy).Contents (Elt F) := (constant S_ .f32 0x7FC00000#32)
  let t19 : (⟨S802816x2x2x2, .f32⟩ : BufTy).Contents (Elt F) := ((broadcastInDim S802816x2x2x2 ![] bcast_S_S802816x2x2x2) : (⟨S_, .f32⟩ : BufTy).Contents (Elt F) → (⟨S802816x2x2x2, .f32⟩ : BufTy).Contents (Elt F)) t18
  let t20 : (⟨S802816x2x2x2, .f32⟩ : BufTy).Contents (Elt F) := (select : (⟨S802816x2x2x2, .i1⟩ : BufTy).Contents (Elt F) → (⟨S802816x2x2x2, .f32⟩ : BufTy).Contents (Elt F) → (⟨S802816x2x2x2, .f32⟩ : BufTy).Contents (Elt F) → (⟨S802816x2x2x2, .f32⟩ : BufTy).Contents (Elt F)) t17 t16 t19
  let t21 : (⟨S_, .i32⟩ : BufTy).Contents (Elt F) := (constantI S_ 32 1#32)
  let t22 : (⟨S_, .i32⟩ : BufTy).Contents (Elt F) := (constantI S_ 32 0#32)
  let t23 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t21 t22
  let t24 : (⟨S_, .i32⟩ : BufTy).Contents (Elt F) := (constantI S_ 32 2#32)
  let t25 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t21 t24
  let t26 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t23 t25 t21
  let t27 : (⟨S1, .i32⟩ : BufTy).Contents (Elt F) := ((broadcastInDim S1 ![] bcast_S_S1) : (⟨S_, .i32⟩ : BufTy).Contents (Elt F) → (⟨S1, .i32⟩ : BufTy).Contents (Elt F)) t26
  let t28 : (⟨S1, .i32⟩ : BufTy).Contents (Elt F) := (constantI S1 32 1#32)
  let t29 : (⟨S1, .i32⟩ : BufTy).Contents (Elt F) := (id : (⟨S1, .i32⟩ : BufTy).Contents (Elt F) → (⟨S1, .i32⟩ : BufTy).Contents (Elt F)) t27
  let t30 : (⟨S_, .i32⟩ : BufTy).Contents (Elt F) := (constantI S_ 32 0#32)
  let t31 : (⟨S1, .i32⟩ : BufTy).Contents (Elt F) := ((broadcastInDim S1 ![] bcast_S_S1) : (⟨S_, .i32⟩ : BufTy).Contents (Elt F) → (⟨S1, .i32⟩ : BufTy).Contents (Elt F)) t30
  let t32 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t29 t31
  let t33 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t29 t28
  let t34 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t32 t33
  let t35 : (⟨S_, .i1⟩ : BufTy).Contents (Elt F) := (constantI S_ 1 1#1)
  let t36 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t34 t35
  let t37 : (⟨S802816x2x2x2, .f32⟩ : BufTy).Contents (Elt F) := ((fun x i => Host.gather gather_S802816x2x2x2x2_S1_S802816x2x2x2_0123_4_n_n_4_0_8028162221 x i) : (⟨S802816x2x2x2x2, .f32⟩ : BufTy).Contents (Elt F) → (⟨S1, .i32⟩ : BufTy).Contents (Elt F) → (⟨S802816x2x2x2, .f32⟩ : BufTy).Contents (Elt F)) x0 t29
  let t38 : (⟨S802816x2x2x2, .i1⟩ : BufTy).Contents (Elt F) := ((broadcastInDim S802816x2x2x2 ![] bcast_S_S802816x2x2x2) : (⟨S_, .i1⟩ : BufTy).Contents (Elt F) → (⟨S802816x2x2x2, .i1⟩ : BufTy).Contents (Elt F)) t36
  let t39 : (⟨S_, .f32⟩ : BufTy).Contents (Elt F) := (constant S_ .f32 0x7FC00000#32)
  let t40 : (⟨S802816x2x2x2, .f32⟩ : BufTy).Contents (Elt F) := ((broadcastInDim S802816x2x2x2 ![] bcast_S_S802816x2x2x2) : (⟨S_, .f32⟩ : BufTy).Contents (Elt F) → (⟨S802816x2x2x2, .f32⟩ : BufTy).Contents (Elt F)) t39
  let t41 : (⟨S802816x2x2x2, .f32⟩ : BufTy).Contents (Elt F) := (select : (⟨S802816x2x2x2, .i1⟩ : BufTy).Contents (Elt F) → (⟨S802816x2x2x2, .f32⟩ : BufTy).Contents (Elt F) → (⟨S802816x2x2x2, .f32⟩ : BufTy).Contents (Elt F) → (⟨S802816x2x2x2, .f32⟩ : BufTy).Contents (Elt F)) t38 t37 t40
  let t42 : (⟨S802816x2x2x2, .f32⟩ : BufTy).Contents (Elt F) := ((Host.reverse [1]) : (⟨S802816x2x2x2, .f32⟩ : BufTy).Contents (Elt F) → (⟨S802816x2x2x2, .f32⟩ : BufTy).Contents (Elt F)) t41
  let t43 : (⟨S802816x2x2x2x1, .f32⟩ : BufTy).Contents (Elt F) := ((broadcastInDim S802816x2x2x2x1 ![0, 1, 2, 3] bcast_S802816x2x2x2_S802816x2x2x2x1_0_1_2_3 : (⟨S802816x2x2x2, .f32⟩ : BufTy).Contents (Elt F) → (⟨S802816x2x2x2x1, .f32⟩ : BufTy).Contents (Elt F)) : (⟨S802816x2x2x2, .f32⟩ : BufTy).Contents (Elt F) → (⟨S802816x2x2x2x1, .f32⟩ : BufTy).Contents (Elt F)) t20
  let t44 : (⟨S802816x2x2x2x1, .f32⟩ : BufTy).Contents (Elt F) := ((broadcastInDim S802816x2x2x2x1 ![0, 1, 2, 3] bcast_S802816x2x2x2_S802816x2x2x2x1_0_1_2_3 : (⟨S802816x2x2x2, .f32⟩ : BufTy).Contents (Elt F) → (⟨S802816x2x2x2x1, .f32⟩ : BufTy).Contents (Elt F)) : (⟨S802816x2x2x2, .f32⟩ : BufTy).Contents (Elt F) → (⟨S802816x2x2x2x1, .f32⟩ : BufTy).Contents (Elt F)) t42
  let t45 : (⟨S802816x2x2x2x2, .f32⟩ : BufTy).Contents (Elt F) := (((fun a b => concatenate S802816x2x2x2x2 4 [⟨S802816x2x2x2x1, a⟩, ⟨S802816x2x2x2x1, b⟩] concatenates_S802816x2x2x2x1_S802816x2x2x2x1_S802816x2x2x2x2_d4) : (⟨S802816x2x2x2x1, .f32⟩ : BufTy).Contents (Elt F) → (⟨S802816x2x2x2x1, .f32⟩ : BufTy).Contents (Elt F) → (⟨S802816x2x2x2x2, .f32⟩ : BufTy).Contents (Elt F)) : (⟨S802816x2x2x2x1, .f32⟩ : BufTy).Contents (Elt F) → (⟨S802816x2x2x2x1, .f32⟩ : BufTy).Contents (Elt F) → (⟨S802816x2x2x2x2, .f32⟩ : BufTy).Contents (Elt F)) t43 t44
  t45

/-- The probabilities: the state squared, entry by entry. -/
def gProbs (x0 : (⟨S802816x2x2x2x2, .f32⟩ : BufTy).Contents (Elt F)) : (⟨S802816x2x2x2x2, .f32⟩ : BufTy).Contents (Elt F) :=
  let t0 : (⟨S802816x2x2x2x2, .f32⟩ : BufTy).Contents (Elt F) := ((mulf : (⟨S802816x2x2x2x2, .f32⟩ : BufTy).Contents (Elt F) → (⟨S802816x2x2x2x2, .f32⟩ : BufTy).Contents (Elt F) → (⟨S802816x2x2x2x2, .f32⟩ : BufTy).Contents (Elt F)) : (⟨S802816x2x2x2x2, .f32⟩ : BufTy).Contents (Elt F) → (⟨S802816x2x2x2x2, .f32⟩ : BufTy).Contents (Elt F) → (⟨S802816x2x2x2x2, .f32⟩ : BufTy).Contents (Elt F)) x0 x0
  t0

/-- The features: for each qubit the probabilities summed over the other three qubits' axes, the entry at 0 minus the entry at 1; the four columns concatenated and regrouped as one row of 784 per image. -/
def gFeats (x0 : (⟨S802816x2x2x2x2, .f32⟩ : BufTy).Contents (Elt F)) : (⟨S4096x784, .f32⟩ : BufTy).Contents (Elt F) :=
  let t0 : (⟨S_, .f32⟩ : BufTy).Contents (Elt F) := (constant S_ .f32 0x00000000#32)
  let t1 : (⟨S802816x2, .f32⟩ : BufTy).Contents (Elt F) := (((fun x v => Host.reduceAdd x v reducesTo_S802816x2x2x2x2_S802816x2_d2_3_4 h_S_) : (⟨S802816x2x2x2x2, .f32⟩ : BufTy).Contents (Elt F) → (⟨S_, .f32⟩ : BufTy).Contents (Elt F) → (⟨S802816x2, .f32⟩ : BufTy).Contents (Elt F)) : (⟨S802816x2x2x2x2, .f32⟩ : BufTy).Contents (Elt F) → (⟨S_, .f32⟩ : BufTy).Contents (Elt F) → (⟨S802816x2, .f32⟩ : BufTy).Contents (Elt F)) x0 t0
  let t2 : (⟨S802816x1, .f32⟩ : BufTy).Contents (Elt F) := (((extractStridedSlice S802816x1 ![0, 0] · slices_S802816x2_S802816x1_0_0) : (⟨S802816x2, .f32⟩ : BufTy).Contents (Elt F) → (⟨S802816x1, .f32⟩ : BufTy).Contents (Elt F)) : (⟨S802816x2, .f32⟩ : BufTy).Contents (Elt F) → (⟨S802816x1, .f32⟩ : BufTy).Contents (Elt F)) t1
  let t3 : (⟨S802816, .f32⟩ : BufTy).Contents (Elt F) := shapeCast S802816 t2 shapeCasts_S802816x1_S802816
  let t4 : (⟨S802816x1, .f32⟩ : BufTy).Contents (Elt F) := (((extractStridedSlice S802816x1 ![0, 1] · slices_S802816x2_S802816x1_0_1) : (⟨S802816x2, .f32⟩ : BufTy).Contents (Elt F) → (⟨S802816x1, .f32⟩ : BufTy).Contents (Elt F)) : (⟨S802816x2, .f32⟩ : BufTy).Contents (Elt F) → (⟨S802816x1, .f32⟩ : BufTy).Contents (Elt F)) t1
  let t5 : (⟨S802816, .f32⟩ : BufTy).Contents (Elt F) := shapeCast S802816 t4 shapeCasts_S802816x1_S802816
  let t6 : (⟨S802816, .f32⟩ : BufTy).Contents (Elt F) := ((subf : (⟨S802816, .f32⟩ : BufTy).Contents (Elt F) → (⟨S802816, .f32⟩ : BufTy).Contents (Elt F) → (⟨S802816, .f32⟩ : BufTy).Contents (Elt F)) : (⟨S802816, .f32⟩ : BufTy).Contents (Elt F) → (⟨S802816, .f32⟩ : BufTy).Contents (Elt F) → (⟨S802816, .f32⟩ : BufTy).Contents (Elt F)) t3 t5
  let t7 : (⟨S_, .f32⟩ : BufTy).Contents (Elt F) := (constant S_ .f32 0x00000000#32)
  let t8 : (⟨S802816x2, .f32⟩ : BufTy).Contents (Elt F) := (((fun x v => Host.reduceAdd x v reducesTo_S802816x2x2x2x2_S802816x2_d1_3_4 h_S_) : (⟨S802816x2x2x2x2, .f32⟩ : BufTy).Contents (Elt F) → (⟨S_, .f32⟩ : BufTy).Contents (Elt F) → (⟨S802816x2, .f32⟩ : BufTy).Contents (Elt F)) : (⟨S802816x2x2x2x2, .f32⟩ : BufTy).Contents (Elt F) → (⟨S_, .f32⟩ : BufTy).Contents (Elt F) → (⟨S802816x2, .f32⟩ : BufTy).Contents (Elt F)) x0 t7
  let t9 : (⟨S802816x1, .f32⟩ : BufTy).Contents (Elt F) := (((extractStridedSlice S802816x1 ![0, 0] · slices_S802816x2_S802816x1_0_0) : (⟨S802816x2, .f32⟩ : BufTy).Contents (Elt F) → (⟨S802816x1, .f32⟩ : BufTy).Contents (Elt F)) : (⟨S802816x2, .f32⟩ : BufTy).Contents (Elt F) → (⟨S802816x1, .f32⟩ : BufTy).Contents (Elt F)) t8
  let t10 : (⟨S802816, .f32⟩ : BufTy).Contents (Elt F) := shapeCast S802816 t9 shapeCasts_S802816x1_S802816
  let t11 : (⟨S802816x1, .f32⟩ : BufTy).Contents (Elt F) := (((extractStridedSlice S802816x1 ![0, 1] · slices_S802816x2_S802816x1_0_1) : (⟨S802816x2, .f32⟩ : BufTy).Contents (Elt F) → (⟨S802816x1, .f32⟩ : BufTy).Contents (Elt F)) : (⟨S802816x2, .f32⟩ : BufTy).Contents (Elt F) → (⟨S802816x1, .f32⟩ : BufTy).Contents (Elt F)) t8
  let t12 : (⟨S802816, .f32⟩ : BufTy).Contents (Elt F) := shapeCast S802816 t11 shapeCasts_S802816x1_S802816
  let t13 : (⟨S802816, .f32⟩ : BufTy).Contents (Elt F) := ((subf : (⟨S802816, .f32⟩ : BufTy).Contents (Elt F) → (⟨S802816, .f32⟩ : BufTy).Contents (Elt F) → (⟨S802816, .f32⟩ : BufTy).Contents (Elt F)) : (⟨S802816, .f32⟩ : BufTy).Contents (Elt F) → (⟨S802816, .f32⟩ : BufTy).Contents (Elt F) → (⟨S802816, .f32⟩ : BufTy).Contents (Elt F)) t10 t12
  let t14 : (⟨S_, .f32⟩ : BufTy).Contents (Elt F) := (constant S_ .f32 0x00000000#32)
  let t15 : (⟨S802816x2, .f32⟩ : BufTy).Contents (Elt F) := (((fun x v => Host.reduceAdd x v reducesTo_S802816x2x2x2x2_S802816x2_d1_2_4 h_S_) : (⟨S802816x2x2x2x2, .f32⟩ : BufTy).Contents (Elt F) → (⟨S_, .f32⟩ : BufTy).Contents (Elt F) → (⟨S802816x2, .f32⟩ : BufTy).Contents (Elt F)) : (⟨S802816x2x2x2x2, .f32⟩ : BufTy).Contents (Elt F) → (⟨S_, .f32⟩ : BufTy).Contents (Elt F) → (⟨S802816x2, .f32⟩ : BufTy).Contents (Elt F)) x0 t14
  let t16 : (⟨S802816x1, .f32⟩ : BufTy).Contents (Elt F) := (((extractStridedSlice S802816x1 ![0, 0] · slices_S802816x2_S802816x1_0_0) : (⟨S802816x2, .f32⟩ : BufTy).Contents (Elt F) → (⟨S802816x1, .f32⟩ : BufTy).Contents (Elt F)) : (⟨S802816x2, .f32⟩ : BufTy).Contents (Elt F) → (⟨S802816x1, .f32⟩ : BufTy).Contents (Elt F)) t15
  let t17 : (⟨S802816, .f32⟩ : BufTy).Contents (Elt F) := shapeCast S802816 t16 shapeCasts_S802816x1_S802816
  let t18 : (⟨S802816x1, .f32⟩ : BufTy).Contents (Elt F) := (((extractStridedSlice S802816x1 ![0, 1] · slices_S802816x2_S802816x1_0_1) : (⟨S802816x2, .f32⟩ : BufTy).Contents (Elt F) → (⟨S802816x1, .f32⟩ : BufTy).Contents (Elt F)) : (⟨S802816x2, .f32⟩ : BufTy).Contents (Elt F) → (⟨S802816x1, .f32⟩ : BufTy).Contents (Elt F)) t15
  let t19 : (⟨S802816, .f32⟩ : BufTy).Contents (Elt F) := shapeCast S802816 t18 shapeCasts_S802816x1_S802816
  let t20 : (⟨S802816, .f32⟩ : BufTy).Contents (Elt F) := ((subf : (⟨S802816, .f32⟩ : BufTy).Contents (Elt F) → (⟨S802816, .f32⟩ : BufTy).Contents (Elt F) → (⟨S802816, .f32⟩ : BufTy).Contents (Elt F)) : (⟨S802816, .f32⟩ : BufTy).Contents (Elt F) → (⟨S802816, .f32⟩ : BufTy).Contents (Elt F) → (⟨S802816, .f32⟩ : BufTy).Contents (Elt F)) t17 t19
  let t21 : (⟨S_, .f32⟩ : BufTy).Contents (Elt F) := (constant S_ .f32 0x00000000#32)
  let t22 : (⟨S802816x2, .f32⟩ : BufTy).Contents (Elt F) := (((fun x v => Host.reduceAdd x v reducesTo_S802816x2x2x2x2_S802816x2_d1_2_3 h_S_) : (⟨S802816x2x2x2x2, .f32⟩ : BufTy).Contents (Elt F) → (⟨S_, .f32⟩ : BufTy).Contents (Elt F) → (⟨S802816x2, .f32⟩ : BufTy).Contents (Elt F)) : (⟨S802816x2x2x2x2, .f32⟩ : BufTy).Contents (Elt F) → (⟨S_, .f32⟩ : BufTy).Contents (Elt F) → (⟨S802816x2, .f32⟩ : BufTy).Contents (Elt F)) x0 t21
  let t23 : (⟨S802816x1, .f32⟩ : BufTy).Contents (Elt F) := (((extractStridedSlice S802816x1 ![0, 0] · slices_S802816x2_S802816x1_0_0) : (⟨S802816x2, .f32⟩ : BufTy).Contents (Elt F) → (⟨S802816x1, .f32⟩ : BufTy).Contents (Elt F)) : (⟨S802816x2, .f32⟩ : BufTy).Contents (Elt F) → (⟨S802816x1, .f32⟩ : BufTy).Contents (Elt F)) t22
  let t24 : (⟨S802816, .f32⟩ : BufTy).Contents (Elt F) := shapeCast S802816 t23 shapeCasts_S802816x1_S802816
  let t25 : (⟨S802816x1, .f32⟩ : BufTy).Contents (Elt F) := (((extractStridedSlice S802816x1 ![0, 1] · slices_S802816x2_S802816x1_0_1) : (⟨S802816x2, .f32⟩ : BufTy).Contents (Elt F) → (⟨S802816x1, .f32⟩ : BufTy).Contents (Elt F)) : (⟨S802816x2, .f32⟩ : BufTy).Contents (Elt F) → (⟨S802816x1, .f32⟩ : BufTy).Contents (Elt F)) t22
  let t26 : (⟨S802816, .f32⟩ : BufTy).Contents (Elt F) := shapeCast S802816 t25 shapeCasts_S802816x1_S802816
  let t27 : (⟨S802816, .f32⟩ : BufTy).Contents (Elt F) := ((subf : (⟨S802816, .f32⟩ : BufTy).Contents (Elt F) → (⟨S802816, .f32⟩ : BufTy).Contents (Elt F) → (⟨S802816, .f32⟩ : BufTy).Contents (Elt F)) : (⟨S802816, .f32⟩ : BufTy).Contents (Elt F) → (⟨S802816, .f32⟩ : BufTy).Contents (Elt F) → (⟨S802816, .f32⟩ : BufTy).Contents (Elt F)) t24 t26
  let t28 : (⟨S802816x1, .f32⟩ : BufTy).Contents (Elt F) := ((broadcastInDim S802816x1 ![0] bcast_S802816_S802816x1_0 : (⟨S802816, .f32⟩ : BufTy).Contents (Elt F) → (⟨S802816x1, .f32⟩ : BufTy).Contents (Elt F)) : (⟨S802816, .f32⟩ : BufTy).Contents (Elt F) → (⟨S802816x1, .f32⟩ : BufTy).Contents (Elt F)) t6
  let t29 : (⟨S802816x1, .f32⟩ : BufTy).Contents (Elt F) := ((broadcastInDim S802816x1 ![0] bcast_S802816_S802816x1_0 : (⟨S802816, .f32⟩ : BufTy).Contents (Elt F) → (⟨S802816x1, .f32⟩ : BufTy).Contents (Elt F)) : (⟨S802816, .f32⟩ : BufTy).Contents (Elt F) → (⟨S802816x1, .f32⟩ : BufTy).Contents (Elt F)) t13
  let t30 : (⟨S802816x1, .f32⟩ : BufTy).Contents (Elt F) := ((broadcastInDim S802816x1 ![0] bcast_S802816_S802816x1_0 : (⟨S802816, .f32⟩ : BufTy).Contents (Elt F) → (⟨S802816x1, .f32⟩ : BufTy).Contents (Elt F)) : (⟨S802816, .f32⟩ : BufTy).Contents (Elt F) → (⟨S802816x1, .f32⟩ : BufTy).Contents (Elt F)) t20
  let t31 : (⟨S802816x1, .f32⟩ : BufTy).Contents (Elt F) := ((broadcastInDim S802816x1 ![0] bcast_S802816_S802816x1_0 : (⟨S802816, .f32⟩ : BufTy).Contents (Elt F) → (⟨S802816x1, .f32⟩ : BufTy).Contents (Elt F)) : (⟨S802816, .f32⟩ : BufTy).Contents (Elt F) → (⟨S802816x1, .f32⟩ : BufTy).Contents (Elt F)) t27
  let t32 : (⟨S802816x4, .f32⟩ : BufTy).Contents (Elt F) := concatenate S802816x4 1 [⟨S802816x1, t28⟩, ⟨S802816x1, t29⟩, ⟨S802816x1, t30⟩, ⟨S802816x1, t31⟩] concatenates_S802816x1_S802816x1_S802816x1_S802816x1_S802816x4_d1
  let t33 : (⟨S4096x784, .f32⟩ : BufTy).Contents (Elt F) := shapeCast S4096x784 t32 shapeCasts_S802816x4_S4096x784
  t33

/-- The classifier's head: the features times the transposed weights plus the bias, then the logarithm of the softmax along the ten classes (the row maximum subtracted, the logarithm of the row sum of exponentials subtracted). `x0` is the features, `x1` the weights, `x2` the bias. -/
def gHead (x0 : (⟨S4096x784, .f32⟩ : BufTy).Contents (Elt F)) (x1 : (⟨S10x784, .f32⟩ : BufTy).Contents (Elt F)) (x2 : (⟨S10, .f32⟩ : BufTy).Contents (Elt F)) : (⟨S4096x10, .f32⟩ : BufTy).Contents (Elt F) :=
  let t0 : (⟨S784x10, .f32⟩ : BufTy).Contents (Elt F) := (((transpose S784x10 [1, 0] · transposes_S10x784_S784x10_1_0) : (⟨S10x784, .f32⟩ : BufTy).Contents (Elt F) → (⟨S784x10, .f32⟩ : BufTy).Contents (Elt F)) : (⟨S10x784, .f32⟩ : BufTy).Contents (Elt F) → (⟨S784x10, .f32⟩ : BufTy).Contents (Elt F)) x1
  let t1 : (⟨S4096x10, .f32⟩ : BufTy).Contents (Elt F) := (((fun l r => Host.dotGeneral dot_S4096x784_S784x10_S4096x10_1_0_0_1_n_n none l r) : (⟨S4096x784, .f32⟩ : BufTy).Contents (Elt F) → (⟨S784x10, .f32⟩ : BufTy).Contents (Elt F) → (⟨S4096x10, .f32⟩ : BufTy).Contents (Elt F)) : (⟨S4096x784, .f32⟩ : BufTy).Contents (Elt F) → (⟨S784x10, .f32⟩ : BufTy).Contents (Elt F) → (⟨S4096x10, .f32⟩ : BufTy).Contents (Elt F)) x0 t0
  let t2 : (⟨S1x10, .f32⟩ : BufTy).Contents (Elt F) := ((broadcastInDim S1x10 ![1] bcast_S10_S1x10_1 : (⟨S10, .f32⟩ : BufTy).Contents (Elt F) → (⟨S1x10, .f32⟩ : BufTy).Contents (Elt F)) : (⟨S10, .f32⟩ : BufTy).Contents (Elt F) → (⟨S1x10, .f32⟩ : BufTy).Contents (Elt F)) x2
  let t3 : (⟨S4096x10, .f32⟩ : BufTy).Contents (Elt F) := ((broadcastInDim S4096x10 ![0, 1] bcast_S1x10_S4096x10_0_1 : (⟨S1x10, .f32⟩ : BufTy).Contents (Elt F) → (⟨S4096x10, .f32⟩ : BufTy).Contents (Elt F)) : (⟨S1x10, .f32⟩ : BufTy).Contents (Elt F) → (⟨S4096x10, .f32⟩ : BufTy).Contents (Elt F)) t2
  let t4 : (⟨S4096x10, .f32⟩ : BufTy).Contents (Elt F) := ((addf : (⟨S4096x10, .f32⟩ : BufTy).Contents (Elt F) → (⟨S4096x10, .f32⟩ : BufTy).Contents (Elt F) → (⟨S4096x10, .f32⟩ : BufTy).Contents (Elt F)) : (⟨S4096x10, .f32⟩ : BufTy).Contents (Elt F) → (⟨S4096x10, .f32⟩ : BufTy).Contents (Elt F) → (⟨S4096x10, .f32⟩ : BufTy).Contents (Elt F)) t1 t3
  let t5 : (⟨S_, .f32⟩ : BufTy).Contents (Elt F) := (constant S_ .f32 0xFF800000#32)
  let t6 : (⟨S4096, .f32⟩ : BufTy).Contents (Elt F) := ((fun x v => Host.reduce FloatOps.maximumf x v reducesTo_S4096x10_S4096_d1 h_S_) : (⟨S4096x10, .f32⟩ : BufTy).Contents (Elt F) → (⟨S_, .f32⟩ : BufTy).Contents (Elt F) → (⟨S4096, .f32⟩ : BufTy).Contents (Elt F)) t4 t5
  let t7 : (⟨S_, .f32⟩ : BufTy).Contents (Elt F) := (constant S_ .f32 0xFF800000#32)
  let t8 : (⟨S4096, .f32⟩ : BufTy).Contents (Elt F) := ((broadcastInDim S4096 ![] bcast_S_S4096) : (⟨S_, .f32⟩ : BufTy).Contents (Elt F) → (⟨S4096, .f32⟩ : BufTy).Contents (Elt F)) t7
  let t9 : (⟨S4096, .f32⟩ : BufTy).Contents (Elt F) := (maximumf : (⟨S4096, .f32⟩ : BufTy).Contents (Elt F) → (⟨S4096, .f32⟩ : BufTy).Contents (Elt F) → (⟨S4096, .f32⟩ : BufTy).Contents (Elt F)) t8 t6
  let t10 : (⟨S4096x1, .f32⟩ : BufTy).Contents (Elt F) := ((broadcastInDim S4096x1 ![0] bcast_S4096_S4096x1_0) : (⟨S4096, .f32⟩ : BufTy).Contents (Elt F) → (⟨S4096x1, .f32⟩ : BufTy).Contents (Elt F)) t9
  let t11 : (⟨S4096x10, .f32⟩ : BufTy).Contents (Elt F) := ((broadcastInDim S4096x10 ![0, 1] bcast_S4096x1_S4096x10_0_1) : (⟨S4096x1, .f32⟩ : BufTy).Contents (Elt F) → (⟨S4096x10, .f32⟩ : BufTy).Contents (Elt F)) t10
  let t12 : (⟨S4096x10, .f32⟩ : BufTy).Contents (Elt F) := (subf : (⟨S4096x10, .f32⟩ : BufTy).Contents (Elt F) → (⟨S4096x10, .f32⟩ : BufTy).Contents (Elt F) → (⟨S4096x10, .f32⟩ : BufTy).Contents (Elt F)) t4 t11
  let t13 : (⟨S4096x10, .f32⟩ : BufTy).Contents (Elt F) := (Host.exp : (⟨S4096x10, .f32⟩ : BufTy).Contents (Elt F) → (⟨S4096x10, .f32⟩ : BufTy).Contents (Elt F)) t12
  let t14 : (⟨S_, .f32⟩ : BufTy).Contents (Elt F) := (constant S_ .f32 0x00000000#32)
  let t15 : (⟨S4096, .f32⟩ : BufTy).Contents (Elt F) := ((fun x v => Host.reduceAdd x v reducesTo_S4096x10_S4096_d1 h_S_) : (⟨S4096x10, .f32⟩ : BufTy).Contents (Elt F) → (⟨S_, .f32⟩ : BufTy).Contents (Elt F) → (⟨S4096, .f32⟩ : BufTy).Contents (Elt F)) t13 t14
  let t16 : (⟨S4096x1, .f32⟩ : BufTy).Contents (Elt F) := ((broadcastInDim S4096x1 ![0] bcast_S4096_S4096x1_0) : (⟨S4096, .f32⟩ : BufTy).Contents (Elt F) → (⟨S4096x1, .f32⟩ : BufTy).Contents (Elt F)) t15
  let t17 : (⟨S4096x1, .f32⟩ : BufTy).Contents (Elt F) := (Host.log : (⟨S4096x1, .f32⟩ : BufTy).Contents (Elt F) → (⟨S4096x1, .f32⟩ : BufTy).Contents (Elt F)) t16
  let t18 : (⟨S4096x10, .f32⟩ : BufTy).Contents (Elt F) := ((broadcastInDim S4096x10 ![0, 1] bcast_S4096x1_S4096x10_0_1) : (⟨S4096x1, .f32⟩ : BufTy).Contents (Elt F) → (⟨S4096x10, .f32⟩ : BufTy).Contents (Elt F)) t17
  let t19 : (⟨S4096x10, .f32⟩ : BufTy).Contents (Elt F) := (subf : (⟨S4096x10, .f32⟩ : BufTy).Contents (Elt F) → (⟨S4096x10, .f32⟩ : BufTy).Contents (Elt F) → (⟨S4096x10, .f32⟩ : BufTy).Contents (Elt F)) t12 t18
  t19

end Cert.ReferenceIdeal.RefRun

end
-- ==== Proof.RefSeg0.lean ====
/- Stretches 0 … 3 of the reference program's @main (a stretch ends where a state of the simulated register, or one of
   the arrays before the first and after the last state, is written): each as the list of its operations, the list of the
   buffers it writes, and its result as the stretch's composed function of the buffers it reads. -/
import proofs.«159359_j65481071398168_2_alg».proof.Proof.RefGateDefs
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Stretch 0 of @main: operations 1 … 18, ending where `main_v11` is written. -/
abbrev seg0 : List (HloOp τ sig (Elt F)) :=
  [ StableHlo.reshape main_arg0 main_v0 rfl shapeCasts_S4096x784_S4096x28x28,
    StableHlo.reshape main_v0 main_v1 rfl shapeCasts_S4096x28x28_S4096x14x2x14x2,
    StableHlo.unary main_v1 main_v2 ((transpose S4096x14x14x2x2 [0, 1, 3, 2, 4] · transposes_S4096x14x2x14x2_S4096x14x14x2x2_0_1_3_2_4) : (⟨S4096x14x2x14x2, .f32⟩ : BufTy).Contents (Elt F) → (⟨S4096x14x14x2x2, .f32⟩ : BufTy).Contents (Elt F)),
    StableHlo.reshape main_v2 main_v3 rfl shapeCasts_S4096x14x14x2x2_S802816x4,
    StableHlo.nullary main_cst (constant S_ .f32 0x00000000#32),
    StableHlo.unary main_cst main_v4 (broadcastInDim S802816x2x2x2x2 ![] bcast_S_S802816x2x2x2x2 : (⟨S_, .f32⟩ : BufTy).Contents (Elt F) → (⟨S802816x2x2x2x2, .f32⟩ : BufTy).Contents (Elt F)),
    StableHlo.nullary main_c (constantI S_ 32 0#32),
    StableHlo.unary main_c main_v5 (broadcastInDim S1 ![] bcast_S_S1 : (⟨S_, .i32⟩ : BufTy).Contents (Elt F) → (⟨S1, .i32⟩ : BufTy).Contents (Elt F)),
    StableHlo.nullary main_c_0 (constantI S_ 32 0#32),
    StableHlo.unary main_c_0 main_v6 (broadcastInDim S1 ![] bcast_S_S1 : (⟨S_, .i32⟩ : BufTy).Contents (Elt F) → (⟨S1, .i32⟩ : BufTy).Contents (Elt F)),
    StableHlo.nullary main_c_1 (constantI S_ 32 0#32),
    StableHlo.unary main_c_1 main_v7 (broadcastInDim S1 ![] bcast_S_S1 : (⟨S_, .i32⟩ : BufTy).Contents (Elt F) → (⟨S1, .i32⟩ : BufTy).Contents (Elt F)),
    StableHlo.nullary main_c_2 (constantI S_ 32 0#32),
    StableHlo.unary main_c_2 main_v8 (broadcastInDim S1 ![] bcast_S_S1 : (⟨S_, .i32⟩ : BufTy).Contents (Elt F) → (⟨S1, .i32⟩ : BufTy).Contents (Elt F)),
    StableHlo.nary ![main_v5, main_v6, main_v7, main_v8] main_v9 (fun u => concatenate S4 0 [⟨S1, u 0⟩, ⟨S1, u 1⟩, ⟨S1, u 2⟩, ⟨S1, u 3⟩] concatenates_S1_S1_S1_S1_S4_d0),
    StableHlo.nullary main_cst_3 (constant S_ .f32 0x3F800000#32),
    StableHlo.unary main_cst_3 main_v10 (broadcastInDim S802816 ![] bcast_S_S802816 : (⟨S_, .f32⟩ : BufTy).Contents (Elt F) → (⟨S802816, .f32⟩ : BufTy).Contents (Elt F)),
    StableHlo.ternary main_v4 main_v9 main_v10 main_v11 ((fun x i u => Host.scatter scatter_S802816x2x2x2x2_S4_S802816_0_1234_1234_0 (fun _ b => b) x i u) : (⟨S802816x2x2x2x2, .f32⟩ : BufTy).Contents (Elt F) → (⟨S4, .i32⟩ : BufTy).Contents (Elt F) → (⟨S802816, .f32⟩ : BufTy).Contents (Elt F) → (⟨S802816x2x2x2x2, .f32⟩ : BufTy).Contents (Elt F)) ]

/-- The buffers stretch 0 writes, one per operation. -/
abbrev seg0_W : List (Ref sig .tc) := [main_v0, main_v1, main_v2, main_v3, main_cst, main_v4, main_c, main_v5, main_c_0, main_v6, main_c_1, main_v7, main_c_2, main_v8, main_v9, main_cst_3, main_v10, main_v11]

set_option maxRecDepth 65536 in
theorem seg0_writes : (seg0 : List (HloOp τ sig (Elt F))).Forall fun op => op.writes ⊆ (seg0_W.map (Proc.devRef (τ := τ) .tc)).toFinset := by
  simp only [List.Forall]
  refine ⟨?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 0, from any contents `W`, `main_v3` holds the stretch's composed function of what `W` has at the buffers the stretch reads. -/
theorem seg0_main_v3 (W : Valuation τ sig (Elt F)) :
    after seg0 W (main_v3 : DevRef τ sig) = gPatches (W (main_arg0 : DevRef τ sig)) := by
  simp only [seg0]
  after_results_simp
  rfl

set_option maxRecDepth 65536 in
set_option maxHeartbeats 4000000 in
/-- After stretch 0, from any contents `W`, `main_v11` holds the stretch's composed function of what `W` has at the buffers the stretch reads. -/
theorem seg0_main_v11 (W : Valuation τ sig (Elt F)) :
    after seg0 W (main_v11 : DevRef τ sig) = gInit := by
  simp only [seg0]
  after_results_simp
  rfl

/-- Stretch 1 of @main: operations 19 … 85, ending where `main_v36` is written. -/
abbrev seg1 : List (HloOp τ sig (Elt F)) :=
  [ StableHlo.unary main_v3 main_v12 ((extractStridedSlice S802816x1 ![0, 0] · slices_S802816x4_S802816x1_0_0) : (⟨S802816x4, .f32⟩ : BufTy).Contents (Elt F) → (⟨S802816x1, .f32⟩ : BufTy).Contents (Elt F)),
    StableHlo.reshape main_v12 main_v13 rfl shapeCasts_S802816x1_S802816,
    StableHlo.nullary main_c_4 (constantI S_ 32 0#32),
    StableHlo.TRef.nullary main_call0.c (constantI S_ 32 0#32),
    StableHlo.TRef.binary (.of main_c_4) main_call0.c main_call0.v0 (cmpi .slt),
    StableHlo.TRef.nullary main_call0.c_0 (constantI S_ 32 2#32),
    StableHlo.TRef.binary (.of main_c_4) main_call0.c_0 main_call0.v1 addi,
    StableHlo.TRef.ternary main_call0.v0 main_call0.v1 (.of main_c_4) main_call0.call0.v0 select,
    StableHlo.TRef.unary main_call0.call0.v0 main_call0.v3 (broadcastInDim S1 ![] bcast_S_S1),
    StableHlo.TRef.nullary main_call0.c_1 (constantI S1 32 1#32),
    StableHlo.TRef.unary main_call0.v3 main_call0.v4 id,
    StableHlo.TRef.nullary main_call0.c_2 (constantI S_ 32 0#32),
    StableHlo.TRef.unary main_call0.c_2 main_call0.v5 (broadcastInDim S1 ![] bcast_S_S1),
    StableHlo.TRef.binary main_call0.v4 main_call0.v5 main_call0.v6 (cmpi .sge),
    StableHlo.TRef.binary main_call0.v4 main_call0.c_1 main_call0.v7 (cmpi .sle),
    StableHlo.TRef.binary main_call0.v6 main_call0.v7 main_call0.v8 andi,
    StableHlo.TRef.nullary main_call0.c_3 (constantI S_ 1 1#1),
    StableHlo.TRef.binary main_call0.v8 main_call0.c_3 main_call0.v9 (fun x v => Host.reduce IntOp.andi x v reducesTo_S1_S_d0 h_S_),
    StableHlo.TRef.binary (.of main_v11) main_call0.v4 main_call0.v10 (fun x i => Host.gather gather_S802816x2x2x2x2_S1_S802816x2x2x2_0123_1_n_n_1_0_8028161222 x i),
    StableHlo.TRef.unary main_call0.v9 main_call0.v11 (broadcastInDim S802816x2x2x2 ![] bcast_S_S802816x2x2x2),
    StableHlo.TRef.nullary main_call0.cst (constant S_ .f32 0x7FC00000#32),
    StableHlo.TRef.unary main_call0.cst main_call0.v12 (broadcastInDim S802816x2x2x2 ![] bcast_S_S802816x2x2x2),
    StableHlo.TRef.ternary main_call0.v11 main_call0.v10 main_call0.v12 main_call0.v13 select,
    StableHlo.nullary main_c_5 (constantI S_ 32 1#32),
    StableHlo.TRef.nullary main_call1.c (constantI S_ 32 0#32),
    StableHlo.TRef.binary (.of main_c_5) main_call1.c main_call1.v0 (cmpi .slt),
    StableHlo.TRef.nullary main_call1.c_0 (constantI S_ 32 2#32),
    StableHlo.TRef.binary (.of main_c_5) main_call1.c_0 main_call1.v1 addi,
    StableHlo.TRef.ternary main_call1.v0 main_call1.v1 (.of main_c_5) main_call1.call0.v0 select,
    StableHlo.TRef.unary main_call1.call0.v0 main_call1.v3 (broadcastInDim S1 ![] bcast_S_S1),
    StableHlo.TRef.nullary main_call1.c_1 (constantI S1 32 1#32),
    StableHlo.TRef.unary main_call1.v3 main_call1.v4 id,
    StableHlo.TRef.nullary main_call1.c_2 (constantI S_ 32 0#32),
    StableHlo.TRef.unary main_call1.c_2 main_call1.v5 (broadcastInDim S1 ![] bcast_S_S1),
    StableHlo.TRef.binary main_call1.v4 main_call1.v5 main_call1.v6 (cmpi .sge),
    StableHlo.TRef.binary main_call1.v4 main_call1.c_1 main_call1.v7 (cmpi .sle),
    StableHlo.TRef.binary main_call1.v6 main_call1.v7 main_call1.v8 andi,
    StableHlo.TRef.nullary main_call1.c_3 (constantI S_ 1 1#1),
    StableHlo.TRef.binary main_call1.v8 main_call1.c_3 main_call1.v9 (fun x v => Host.reduce IntOp.andi x v reducesTo_S1_S_d0 h_S_),
    StableHlo.TRef.binary (.of main_v11) main_call1.v4 main_call1.v10 (fun x i => Host.gather gather_S802816x2x2x2x2_S1_S802816x2x2x2_0123_1_n_n_1_0_8028161222 x i),
    StableHlo.TRef.unary main_call1.v9 main_call1.v11 (broadcastInDim S802816x2x2x2 ![] bcast_S_S802816x2x2x2),
    StableHlo.TRef.nullary main_call1.cst (constant S_ .f32 0x7FC00000#32),
    StableHlo.TRef.unary main_call1.cst main_call1.v12 (broadcastInDim S802816x2x2x2 ![] bcast_S_S802816x2x2x2),
    StableHlo.TRef.ternary main_call1.v11 main_call1.v10 main_call1.v12 main_call1.v13 select,
    StableHlo.nullary main_cst_6 (constant S_ .f32 0x3F000000#32),
    StableHlo.unary main_cst_6 main_v16 (broadcastInDim S802816 ![] bcast_S_S802816 : (⟨S_, .f32⟩ : BufTy).Contents (Elt F) → (⟨S802816, .f32⟩ : BufTy).Contents (Elt F)),
    StableHlo.binary main_v13 main_v16 main_v17 (mulf : (⟨S802816, .f32⟩ : BufTy).Contents (Elt F) → (⟨S802816, .f32⟩ : BufTy).Contents (Elt F) → (⟨S802816, .f32⟩ : BufTy).Contents (Elt F)),
    StableHlo.unary main_v17 main_v18 (Host.cos : (⟨S802816, .f32⟩ : BufTy).Contents (Elt F) → (⟨S802816, .f32⟩ : BufTy).Contents (Elt F)),
    StableHlo.nullary main_cst_7 (constant S_ .f32 0x3F000000#32),
    StableHlo.unary main_cst_7 main_v19 (broadcastInDim S802816 ![] bcast_S_S802816 : (⟨S_, .f32⟩ : BufTy).Contents (Elt F) → (⟨S802816, .f32⟩ : BufTy).Contents (Elt F)),
    StableHlo.binary main_v13 main_v19 main_v20 (mulf : (⟨S802816, .f32⟩ : BufTy).Contents (Elt F) → (⟨S802816, .f32⟩ : BufTy).Contents (Elt F) → (⟨S802816, .f32⟩ : BufTy).Contents (Elt F)),
    StableHlo.unary main_v20 main_v21 (Host.sin : (⟨S802816, .f32⟩ : BufTy).Contents (Elt F) → (⟨S802816, .f32⟩ : BufTy).Contents (Elt F)),
    StableHlo.reshape main_v18 main_v22 rfl shapeCasts_S802816_S802816x1x1x1,
    StableHlo.reshape main_v21 main_v23 rfl shapeCasts_S802816_S802816x1x1x1,
    StableHlo.unary main_v22 main_v24 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v24 main_v14 main_v25 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v23 main_v26 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v26 main_v15 main_v27 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v25 main_v27 main_v28 (subf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v23 main_v29 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v29 main_v14 main_v30 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v22 main_v31 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v31 main_v15 main_v32 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v30 main_v32 main_v33 (addf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v28 main_v34 (broadcastInDim S802816x1x2x2x2 ![0, 2, 3, 4] bcast_S802816x2x2x2_S802816x1x2x2x2_0_2_3_4 : (⟨S802816x2x2x2, .f32⟩ : BufTy).Contents (Elt F) → (⟨S802816x1x2x2x2, .f32⟩ : BufTy).Contents (Elt F)),
    StableHlo.unary main_v33 main_v35 (broadcastInDim S802816x1x2x2x2 ![0, 2, 3, 4] bcast_S802816x2x2x2_S802816x1x2x2x2_0_2_3_4 : (⟨S802816x2x2x2, .f32⟩ : BufTy).Contents (Elt F) → (⟨S802816x1x2x2x2, .f32⟩ : BufTy).Contents (Elt F)),
    StableHlo.binary main_v34 main_v35 main_v36 ((fun a b => concatenate S802816x2x2x2x2 1 [⟨S802816x1x2x2x2, a⟩, ⟨S802816x1x2x2x2, b⟩] concatenates_S802816x1x2x2x2_S802816x1x2x2x2_S802816x2x2x2x2_d1) : (⟨S802816x1x2x2x2, .f32⟩ : BufTy).Contents (Elt F) → (⟨S802816x1x2x2x2, .f32⟩ : BufTy).Contents (Elt F) → (⟨S802816x2x2x2x2, .f32⟩ : BufTy).Contents (Elt F)) ]

/-- The buffers stretch 1 writes, one per operation. -/
abbrev seg1_W : List (Ref sig .tc) := [main_v12, main_v13, main_c_4, main_call0_c, main_call0_v0, main_call0_c_0, main_call0_v1, main_call0_v2, main_call0_v3, main_call0_c_1, main_call0_v4, main_call0_c_2, main_call0_v5, main_call0_v6, main_call0_v7, main_call0_v8, main_call0_c_3, main_call0_v9, main_call0_v10, main_call0_v11, main_call0_cst, main_call0_v12, main_v14, main_c_5, main_call1_c, main_call1_v0, main_call1_c_0, main_call1_v1, main_call1_v2, main_call1_v3, main_call1_c_1, main_call1_v4, main_call1_c_2, main_call1_v5, main_call1_v6, main_call1_v7, main_call1_v8, main_call1_c_3, main_call1_v9, main_call1_v10, main_call1_v11, main_call1_cst, main_call1_v12, main_v15, main_cst_6, main_v16, main_v17, main_v18, main_cst_7, main_v19, main_v20, main_v21, main_v22, main_v23, main_v24, main_v25, main_v26, main_v27, main_v28, main_v29, main_v30, main_v31, main_v32, main_v33, main_v34, main_v35, main_v36]

set_option maxRecDepth 65536 in
theorem seg1_writes : (seg1 : List (HloOp τ sig (Elt F))).Forall fun op => op.writes ⊆ (seg1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 1, from any contents `W`, `main_v36` holds the stretch's composed function of what `W` has at the buffers the stretch reads. -/
theorem seg1_main_v36 (W : Valuation τ sig (Elt F)) :
    after seg1 W (main_v36 : DevRef τ sig) = gRyD0 (W (main_v11 : DevRef τ sig)) (W (main_v3 : DevRef τ sig)) := by
  simp only [seg1]
  after_results_simp
  rfl

/-- Stretch 2 of @main: operations 86 … 152, ending where `main_v61` is written. -/
abbrev seg2 : List (HloOp τ sig (Elt F)) :=
  [ StableHlo.unary main_v3 main_v37 ((extractStridedSlice S802816x1 ![0, 1] · slices_S802816x4_S802816x1_0_1) : (⟨S802816x4, .f32⟩ : BufTy).Contents (Elt F) → (⟨S802816x1, .f32⟩ : BufTy).Contents (Elt F)),
    StableHlo.reshape main_v37 main_v38 rfl shapeCasts_S802816x1_S802816,
    StableHlo.nullary main_c_8 (constantI S_ 32 0#32),
    StableHlo.TRef.nullary main_call2.c (constantI S_ 32 0#32),
    StableHlo.TRef.binary (.of main_c_8) main_call2.c main_call2.v0 (cmpi .slt),
    StableHlo.TRef.nullary main_call2.c_0 (constantI S_ 32 2#32),
    StableHlo.TRef.binary (.of main_c_8) main_call2.c_0 main_call2.v1 addi,
    StableHlo.TRef.ternary main_call2.v0 main_call2.v1 (.of main_c_8) main_call2.call0.v0 select,
    StableHlo.TRef.unary main_call2.call0.v0 main_call2.v3 (broadcastInDim S1 ![] bcast_S_S1),
    StableHlo.TRef.nullary main_call2.c_1 (constantI S1 32 1#32),
    StableHlo.TRef.unary main_call2.v3 main_call2.v4 id,
    StableHlo.TRef.nullary main_call2.c_2 (constantI S_ 32 0#32),
    StableHlo.TRef.unary main_call2.c_2 main_call2.v5 (broadcastInDim S1 ![] bcast_S_S1),
    StableHlo.TRef.binary main_call2.v4 main_call2.v5 main_call2.v6 (cmpi .sge),
    StableHlo.TRef.binary main_call2.v4 main_call2.c_1 main_call2.v7 (cmpi .sle),
    StableHlo.TRef.binary main_call2.v6 main_call2.v7 main_call2.v8 andi,
    StableHlo.TRef.nullary main_call2.c_3 (constantI S_ 1 1#1),
    StableHlo.TRef.binary main_call2.v8 main_call2.c_3 main_call2.v9 (fun x v => Host.reduce IntOp.andi x v reducesTo_S1_S_d0 h_S_),
    StableHlo.TRef.binary (.of main_v36) main_call2.v4 main_call2.v10 (fun x i => Host.gather gather_S802816x2x2x2x2_S1_S802816x2x2x2_0123_2_n_n_2_0_8028162122 x i),
    StableHlo.TRef.unary main_call2.v9 main_call2.v11 (broadcastInDim S802816x2x2x2 ![] bcast_S_S802816x2x2x2),
    StableHlo.TRef.nullary main_call2.cst (constant S_ .f32 0x7FC00000#32),
    StableHlo.TRef.unary main_call2.cst main_call2.v12 (broadcastInDim S802816x2x2x2 ![] bcast_S_S802816x2x2x2),
    StableHlo.TRef.ternary main_call2.v11 main_call2.v10 main_call2.v12 main_call2.v13 select,
    StableHlo.nullary main_c_9 (constantI S_ 32 1#32),
    StableHlo.TRef.nullary main_call3.c (constantI S_ 32 0#32),
    StableHlo.TRef.binary (.of main_c_9) main_call3.c main_call3.v0 (cmpi .slt),
    StableHlo.TRef.nullary main_call3.c_0 (constantI S_ 32 2#32),
    StableHlo.TRef.binary (.of main_c_9) main_call3.c_0 main_call3.v1 addi,
    StableHlo.TRef.ternary main_call3.v0 main_call3.v1 (.of main_c_9) main_call3.call0.v0 select,
    StableHlo.TRef.unary main_call3.call0.v0 main_call3.v3 (broadcastInDim S1 ![] bcast_S_S1),
    StableHlo.TRef.nullary main_call3.c_1 (constantI S1 32 1#32),
    StableHlo.TRef.unary main_call3.v3 main_call3.v4 id,
    StableHlo.TRef.nullary main_call3.c_2 (constantI S_ 32 0#32),
    StableHlo.TRef.unary main_call3.c_2 main_call3.v5 (broadcastInDim S1 ![] bcast_S_S1),
    StableHlo.TRef.binary main_call3.v4 main_call3.v5 main_call3.v6 (cmpi .sge),
    StableHlo.TRef.binary main_call3.v4 main_call3.c_1 main_call3.v7 (cmpi .sle),
    StableHlo.TRef.binary main_call3.v6 main_call3.v7 main_call3.v8 andi,
    StableHlo.TRef.nullary main_call3.c_3 (constantI S_ 1 1#1),
    StableHlo.TRef.binary main_call3.v8 main_call3.c_3 main_call3.v9 (fun x v => Host.reduce IntOp.andi x v reducesTo_S1_S_d0 h_S_),
    StableHlo.TRef.binary (.of main_v36) main_call3.v4 main_call3.v10 (fun x i => Host.gather gather_S802816x2x2x2x2_S1_S802816x2x2x2_0123_2_n_n_2_0_8028162122 x i),
    StableHlo.TRef.unary main_call3.v9 main_call3.v11 (broadcastInDim S802816x2x2x2 ![] bcast_S_S802816x2x2x2),
    StableHlo.TRef.nullary main_call3.cst (constant S_ .f32 0x7FC00000#32),
    StableHlo.TRef.unary main_call3.cst main_call3.v12 (broadcastInDim S802816x2x2x2 ![] bcast_S_S802816x2x2x2),
    StableHlo.TRef.ternary main_call3.v11 main_call3.v10 main_call3.v12 main_call3.v13 select,
    StableHlo.nullary main_cst_10 (constant S_ .f32 0x3F000000#32),
    StableHlo.unary main_cst_10 main_v41 (broadcastInDim S802816 ![] bcast_S_S802816 : (⟨S_, .f32⟩ : BufTy).Contents (Elt F) → (⟨S802816, .f32⟩ : BufTy).Contents (Elt F)),
    StableHlo.binary main_v38 main_v41 main_v42 (mulf : (⟨S802816, .f32⟩ : BufTy).Contents (Elt F) → (⟨S802816, .f32⟩ : BufTy).Contents (Elt F) → (⟨S802816, .f32⟩ : BufTy).Contents (Elt F)),
    StableHlo.unary main_v42 main_v43 (Host.cos : (⟨S802816, .f32⟩ : BufTy).Contents (Elt F) → (⟨S802816, .f32⟩ : BufTy).Contents (Elt F)),
    StableHlo.nullary main_cst_11 (constant S_ .f32 0x3F000000#32),
    StableHlo.unary main_cst_11 main_v44 (broadcastInDim S802816 ![] bcast_S_S802816 : (⟨S_, .f32⟩ : BufTy).Contents (Elt F) → (⟨S802816, .f32⟩ : BufTy).Contents (Elt F)),
    StableHlo.binary main_v38 main_v44 main_v45 (mulf : (⟨S802816, .f32⟩ : BufTy).Contents (Elt F) → (⟨S802816, .f32⟩ : BufTy).Contents (Elt F) → (⟨S802816, .f32⟩ : BufTy).Contents (Elt F)),
    StableHlo.unary main_v45 main_v46 (Host.sin : (⟨S802816, .f32⟩ : BufTy).Contents (Elt F) → (⟨S802816, .f32⟩ : BufTy).Contents (Elt F)),
    StableHlo.reshape main_v43 main_v47 rfl shapeCasts_S802816_S802816x1x1x1,
    StableHlo.reshape main_v46 main_v48 rfl shapeCasts_S802816_S802816x1x1x1,
    StableHlo.unary main_v47 main_v49 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v49 main_v39 main_v50 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v48 main_v51 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v51 main_v40 main_v52 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v50 main_v52 main_v53 (subf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v48 main_v54 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v54 main_v39 main_v55 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v47 main_v56 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v56 main_v40 main_v57 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v55 main_v57 main_v58 (addf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v53 main_v59 (broadcastInDim S802816x2x1x2x2 ![0, 1, 3, 4] bcast_S802816x2x2x2_S802816x2x1x2x2_0_1_3_4 : (⟨S802816x2x2x2, .f32⟩ : BufTy).Contents (Elt F) → (⟨S802816x2x1x2x2, .f32⟩ : BufTy).Contents (Elt F)),
    StableHlo.unary main_v58 main_v60 (broadcastInDim S802816x2x1x2x2 ![0, 1, 3, 4] bcast_S802816x2x2x2_S802816x2x1x2x2_0_1_3_4 : (⟨S802816x2x2x2, .f32⟩ : BufTy).Contents (Elt F) → (⟨S802816x2x1x2x2, .f32⟩ : BufTy).Contents (Elt F)),
    StableHlo.binary main_v59 main_v60 main_v61 ((fun a b => concatenate S802816x2x2x2x2 2 [⟨S802816x2x1x2x2, a⟩, ⟨S802816x2x1x2x2, b⟩] concatenates_S802816x2x1x2x2_S802816x2x1x2x2_S802816x2x2x2x2_d2) : (⟨S802816x2x1x2x2, .f32⟩ : BufTy).Contents (Elt F) → (⟨S802816x2x1x2x2, .f32⟩ : BufTy).Contents (Elt F) → (⟨S802816x2x2x2x2, .f32⟩ : BufTy).Contents (Elt F)) ]

/-- The buffers stretch 2 writes, one per operation. -/
abbrev seg2_W : List (Ref sig .tc) := [main_v37, main_v38, main_c_8, main_call2_c, main_call2_v0, main_call2_c_0, main_call2_v1, main_call2_v2, main_call2_v3, main_call2_c_1, main_call2_v4, main_call2_c_2, main_call2_v5, main_call2_v6, main_call2_v7, main_call2_v8, main_call2_c_3, main_call2_v9, main_call2_v10, main_call2_v11, main_call2_cst, main_call2_v12, main_v39, main_c_9, main_call3_c, main_call3_v0, main_call3_c_0, main_call3_v1, main_call3_v2, main_call3_v3, main_call3_c_1, main_call3_v4, main_call3_c_2, main_call3_v5, main_call3_v6, main_call3_v7, main_call3_v8, main_call3_c_3, main_call3_v9, main_call3_v10, main_call3_v11, main_call3_cst, main_call3_v12, main_v40, main_cst_10, main_v41, main_v42, main_v43, main_cst_11, main_v44, main_v45, main_v46, main_v47, main_v48, main_v49, main_v50, main_v51, main_v52, main_v53, main_v54, main_v55, main_v56, main_v57, main_v58, main_v59, main_v60, main_v61]

set_option maxRecDepth 65536 in
theorem seg2_writes : (seg2 : List (HloOp τ sig (Elt F))).Forall fun op => op.writes ⊆ (seg2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 2, from any contents `W`, `main_v61` holds the stretch's composed function of what `W` has at the buffers the stretch reads. -/
theorem seg2_main_v61 (W : Valuation τ sig (Elt F)) :
    after seg2 W (main_v61 : DevRef τ sig) = gRyD1 (W (main_v36 : DevRef τ sig)) (W (main_v3 : DevRef τ sig)) := by
  simp only [seg2]
  after_results_simp
  rfl

/-- Stretch 3 of @main: operations 153 … 219, ending where `main_v86` is written. -/
abbrev seg3 : List (HloOp τ sig (Elt F)) :=
  [ StableHlo.unary main_v3 main_v62 ((extractStridedSlice S802816x1 ![0, 2] · slices_S802816x4_S802816x1_0_2) : (⟨S802816x4, .f32⟩ : BufTy).Contents (Elt F) → (⟨S802816x1, .f32⟩ : BufTy).Contents (Elt F)),
    StableHlo.reshape main_v62 main_v63 rfl shapeCasts_S802816x1_S802816,
    StableHlo.nullary main_c_12 (constantI S_ 32 0#32),
    StableHlo.TRef.nullary main_call4.c (constantI S_ 32 0#32),
    StableHlo.TRef.binary (.of main_c_12) main_call4.c main_call4.v0 (cmpi .slt),
    StableHlo.TRef.nullary main_call4.c_0 (constantI S_ 32 2#32),
    StableHlo.TRef.binary (.of main_c_12) main_call4.c_0 main_call4.v1 addi,
    StableHlo.TRef.ternary main_call4.v0 main_call4.v1 (.of main_c_12) main_call4.call0.v0 select,
    StableHlo.TRef.unary main_call4.call0.v0 main_call4.v3 (broadcastInDim S1 ![] bcast_S_S1),
    StableHlo.TRef.nullary main_call4.c_1 (constantI S1 32 1#32),
    StableHlo.TRef.unary main_call4.v3 main_call4.v4 id,
    StableHlo.TRef.nullary main_call4.c_2 (constantI S_ 32 0#32),
    StableHlo.TRef.unary main_call4.c_2 main_call4.v5 (broadcastInDim S1 ![] bcast_S_S1),
    StableHlo.TRef.binary main_call4.v4 main_call4.v5 main_call4.v6 (cmpi .sge),
    StableHlo.TRef.binary main_call4.v4 main_call4.c_1 main_call4.v7 (cmpi .sle),
    StableHlo.TRef.binary main_call4.v6 main_call4.v7 main_call4.v8 andi,
    StableHlo.TRef.nullary main_call4.c_3 (constantI S_ 1 1#1),
    StableHlo.TRef.binary main_call4.v8 main_call4.c_3 main_call4.v9 (fun x v => Host.reduce IntOp.andi x v reducesTo_S1_S_d0 h_S_),
    StableHlo.TRef.binary (.of main_v61) main_call4.v4 main_call4.v10 (fun x i => Host.gather gather_S802816x2x2x2x2_S1_S802816x2x2x2_0123_3_n_n_3_0_8028162212 x i),
    StableHlo.TRef.unary main_call4.v9 main_call4.v11 (broadcastInDim S802816x2x2x2 ![] bcast_S_S802816x2x2x2),
    StableHlo.TRef.nullary main_call4.cst (constant S_ .f32 0x7FC00000#32),
    StableHlo.TRef.unary main_call4.cst main_call4.v12 (broadcastInDim S802816x2x2x2 ![] bcast_S_S802816x2x2x2),
    StableHlo.TRef.ternary main_call4.v11 main_call4.v10 main_call4.v12 main_call4.v13 select,
    StableHlo.nullary main_c_13 (constantI S_ 32 1#32),
    StableHlo.TRef.nullary main_call5.c (constantI S_ 32 0#32),
    StableHlo.TRef.binary (.of main_c_13) main_call5.c main_call5.v0 (cmpi .slt),
    StableHlo.TRef.nullary main_call5.c_0 (constantI S_ 32 2#32),
    StableHlo.TRef.binary (.of main_c_13) main_call5.c_0 main_call5.v1 addi,
    StableHlo.TRef.ternary main_call5.v0 main_call5.v1 (.of main_c_13) main_call5.call0.v0 select,
    StableHlo.TRef.unary main_call5.call0.v0 main_call5.v3 (broadcastInDim S1 ![] bcast_S_S1),
    StableHlo.TRef.nullary main_call5.c_1 (constantI S1 32 1#32),
    StableHlo.TRef.unary main_call5.v3 main_call5.v4 id,
    StableHlo.TRef.nullary main_call5.c_2 (constantI S_ 32 0#32),
    StableHlo.TRef.unary main_call5.c_2 main_call5.v5 (broadcastInDim S1 ![] bcast_S_S1),
    StableHlo.TRef.binary main_call5.v4 main_call5.v5 main_call5.v6 (cmpi .sge),
    StableHlo.TRef.binary main_call5.v4 main_call5.c_1 main_call5.v7 (cmpi .sle),
    StableHlo.TRef.binary main_call5.v6 main_call5.v7 main_call5.v8 andi,
    StableHlo.TRef.nullary main_call5.c_3 (constantI S_ 1 1#1),
    StableHlo.TRef.binary main_call5.v8 main_call5.c_3 main_call5.v9 (fun x v => Host.reduce IntOp.andi x v reducesTo_S1_S_d0 h_S_),
    StableHlo.TRef.binary (.of main_v61) main_call5.v4 main_call5.v10 (fun x i => Host.gather gather_S802816x2x2x2x2_S1_S802816x2x2x2_0123_3_n_n_3_0_8028162212 x i),
    StableHlo.TRef.unary main_call5.v9 main_call5.v11 (broadcastInDim S802816x2x2x2 ![] bcast_S_S802816x2x2x2),
    StableHlo.TRef.nullary main_call5.cst (constant S_ .f32 0x7FC00000#32),
    StableHlo.TRef.unary main_call5.cst main_call5.v12 (broadcastInDim S802816x2x2x2 ![] bcast_S_S802816x2x2x2),
    StableHlo.TRef.ternary main_call5.v11 main_call5.v10 main_call5.v12 main_call5.v13 select,
    StableHlo.nullary main_cst_14 (constant S_ .f32 0x3F000000#32),
    StableHlo.unary main_cst_14 main_v66 (broadcastInDim S802816 ![] bcast_S_S802816 : (⟨S_, .f32⟩ : BufTy).Contents (Elt F) → (⟨S802816, .f32⟩ : BufTy).Contents (Elt F)),
    StableHlo.binary main_v63 main_v66 main_v67 (mulf : (⟨S802816, .f32⟩ : BufTy).Contents (Elt F) → (⟨S802816, .f32⟩ : BufTy).Contents (Elt F) → (⟨S802816, .f32⟩ : BufTy).Contents (Elt F)),
    StableHlo.unary main_v67 main_v68 (Host.cos : (⟨S802816, .f32⟩ : BufTy).Contents (Elt F) → (⟨S802816, .f32⟩ : BufTy).Contents (Elt F)),
    StableHlo.nullary main_cst_15 (constant S_ .f32 0x3F000000#32),
    StableHlo.unary main_cst_15 main_v69 (broadcastInDim S802816 ![] bcast_S_S802816 : (⟨S_, .f32⟩ : BufTy).Contents (Elt F) → (⟨S802816, .f32⟩ : BufTy).Contents (Elt F)),
    StableHlo.binary main_v63 main_v69 main_v70 (mulf : (⟨S802816, .f32⟩ : BufTy).Contents (Elt F) → (⟨S802816, .f32⟩ : BufTy).Contents (Elt F) → (⟨S802816, .f32⟩ : BufTy).Contents (Elt F)),
    StableHlo.unary main_v70 main_v71 (Host.sin : (⟨S802816, .f32⟩ : BufTy).Contents (Elt F) → (⟨S802816, .f32⟩ : BufTy).Contents (Elt F)),
    StableHlo.reshape main_v68 main_v72 rfl shapeCasts_S802816_S802816x1x1x1,
    StableHlo.reshape main_v71 main_v73 rfl shapeCasts_S802816_S802816x1x1x1,
    StableHlo.unary main_v72 main_v74 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v74 main_v64 main_v75 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v73 main_v76 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v76 main_v65 main_v77 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v75 main_v77 main_v78 (subf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v73 main_v79 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v79 main_v64 main_v80 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v72 main_v81 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v81 main_v65 main_v82 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v80 main_v82 main_v83 (addf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v78 main_v84 (broadcastInDim S802816x2x2x1x2 ![0, 1, 2, 4] bcast_S802816x2x2x2_S802816x2x2x1x2_0_1_2_4 : (⟨S802816x2x2x2, .f32⟩ : BufTy).Contents (Elt F) → (⟨S802816x2x2x1x2, .f32⟩ : BufTy).Contents (Elt F)),
    StableHlo.unary main_v83 main_v85 (broadcastInDim S802816x2x2x1x2 ![0, 1, 2, 4] bcast_S802816x2x2x2_S802816x2x2x1x2_0_1_2_4 : (⟨S802816x2x2x2, .f32⟩ : BufTy).Contents (Elt F) → (⟨S802816x2x2x1x2, .f32⟩ : BufTy).Contents (Elt F)),
    StableHlo.binary main_v84 main_v85 main_v86 ((fun a b => concatenate S802816x2x2x2x2 3 [⟨S802816x2x2x1x2, a⟩, ⟨S802816x2x2x1x2, b⟩] concatenates_S802816x2x2x1x2_S802816x2x2x1x2_S802816x2x2x2x2_d3) : (⟨S802816x2x2x1x2, .f32⟩ : BufTy).Contents (Elt F) → (⟨S802816x2x2x1x2, .f32⟩ : BufTy).Contents (Elt F) → (⟨S802816x2x2x2x2, .f32⟩ : BufTy).Contents (Elt F)) ]

/-- The buffers stretch 3 writes, one per operation. -/
abbrev seg3_W : List (Ref sig .tc) := [main_v62, main_v63, main_c_12, main_call4_c, main_call4_v0, main_call4_c_0, main_call4_v1, main_call4_v2, main_call4_v3, main_call4_c_1, main_call4_v4, main_call4_c_2, main_call4_v5, main_call4_v6, main_call4_v7, main_call4_v8, main_call4_c_3, main_call4_v9, main_call4_v10, main_call4_v11, main_call4_cst, main_call4_v12, main_v64, main_c_13, main_call5_c, main_call5_v0, main_call5_c_0, main_call5_v1, main_call5_v2, main_call5_v3, main_call5_c_1, main_call5_v4, main_call5_c_2, main_call5_v5, main_call5_v6, main_call5_v7, main_call5_v8, main_call5_c_3, main_call5_v9, main_call5_v10, main_call5_v11, main_call5_cst, main_call5_v12, main_v65, main_cst_14, main_v66, main_v67, main_v68, main_cst_15, main_v69, main_v70, main_v71, main_v72, main_v73, main_v74, main_v75, main_v76, main_v77, main_v78, main_v79, main_v80, main_v81, main_v82, main_v83, main_v84, main_v85, main_v86]

set_option maxRecDepth 65536 in
theorem seg3_writes : (seg3 : List (HloOp τ sig (Elt F))).Forall fun op => op.writes ⊆ (seg3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 3, from any contents `W`, `main_v86` holds the stretch's composed function of what `W` has at the buffers the stretch reads. -/
theorem seg3_main_v86 (W : Valuation τ sig (Elt F)) :
    after seg3 W (main_v86 : DevRef τ sig) = gRyD2 (W (main_v61 : DevRef τ sig)) (W (main_v3 : DevRef τ sig)) := by
  simp only [seg3]
  after_results_simp
  rfl

end Cert.ReferenceIdeal.RefRun

end
-- ==== Proof.RefSeg1.lean ====
/- Stretches 4 … 7 of the reference program's @main (a stretch ends where a state of the simulated register, or one of
   the arrays before the first and after the last state, is written): each as the list of its operations, the list of the
   buffers it writes, and its result as the stretch's composed function of the buffers it reads. -/
import proofs.«159359_j65481071398168_2_alg».proof.Proof.RefGateDefs
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Stretch 4 of @main: operations 220 … 286, ending where `main_v111` is written. -/
abbrev seg4 : List (HloOp τ sig (Elt F)) :=
  [ StableHlo.unary main_v3 main_v87 ((extractStridedSlice S802816x1 ![0, 3] · slices_S802816x4_S802816x1_0_3) : (⟨S802816x4, .f32⟩ : BufTy).Contents (Elt F) → (⟨S802816x1, .f32⟩ : BufTy).Contents (Elt F)),
    StableHlo.reshape main_v87 main_v88 rfl shapeCasts_S802816x1_S802816,
    StableHlo.nullary main_c_16 (constantI S_ 32 0#32),
    StableHlo.TRef.nullary main_call6.c (constantI S_ 32 0#32),
    StableHlo.TRef.binary (.of main_c_16) main_call6.c main_call6.v0 (cmpi .slt),
    StableHlo.TRef.nullary main_call6.c_0 (constantI S_ 32 2#32),
    StableHlo.TRef.binary (.of main_c_16) main_call6.c_0 main_call6.v1 addi,
    StableHlo.TRef.ternary main_call6.v0 main_call6.v1 (.of main_c_16) main_call6.call0.v0 select,
    StableHlo.TRef.unary main_call6.call0.v0 main_call6.v3 (broadcastInDim S1 ![] bcast_S_S1),
    StableHlo.TRef.nullary main_call6.c_1 (constantI S1 32 1#32),
    StableHlo.TRef.unary main_call6.v3 main_call6.v4 id,
    StableHlo.TRef.nullary main_call6.c_2 (constantI S_ 32 0#32),
    StableHlo.TRef.unary main_call6.c_2 main_call6.v5 (broadcastInDim S1 ![] bcast_S_S1),
    StableHlo.TRef.binary main_call6.v4 main_call6.v5 main_call6.v6 (cmpi .sge),
    StableHlo.TRef.binary main_call6.v4 main_call6.c_1 main_call6.v7 (cmpi .sle),
    StableHlo.TRef.binary main_call6.v6 main_call6.v7 main_call6.v8 andi,
    StableHlo.TRef.nullary main_call6.c_3 (constantI S_ 1 1#1),
    StableHlo.TRef.binary main_call6.v8 main_call6.c_3 main_call6.v9 (fun x v => Host.reduce IntOp.andi x v reducesTo_S1_S_d0 h_S_),
    StableHlo.TRef.binary (.of main_v86) main_call6.v4 main_call6.v10 (fun x i => Host.gather gather_S802816x2x2x2x2_S1_S802816x2x2x2_0123_4_n_n_4_0_8028162221 x i),
    StableHlo.TRef.unary main_call6.v9 main_call6.v11 (broadcastInDim S802816x2x2x2 ![] bcast_S_S802816x2x2x2),
    StableHlo.TRef.nullary main_call6.cst (constant S_ .f32 0x7FC00000#32),
    StableHlo.TRef.unary main_call6.cst main_call6.v12 (broadcastInDim S802816x2x2x2 ![] bcast_S_S802816x2x2x2),
    StableHlo.TRef.ternary main_call6.v11 main_call6.v10 main_call6.v12 main_call6.v13 select,
    StableHlo.nullary main_c_17 (constantI S_ 32 1#32),
    StableHlo.TRef.nullary main_call7.c (constantI S_ 32 0#32),
    StableHlo.TRef.binary (.of main_c_17) main_call7.c main_call7.v0 (cmpi .slt),
    StableHlo.TRef.nullary main_call7.c_0 (constantI S_ 32 2#32),
    StableHlo.TRef.binary (.of main_c_17) main_call7.c_0 main_call7.v1 addi,
    StableHlo.TRef.ternary main_call7.v0 main_call7.v1 (.of main_c_17) main_call7.call0.v0 select,
    StableHlo.TRef.unary main_call7.call0.v0 main_call7.v3 (broadcastInDim S1 ![] bcast_S_S1),
    StableHlo.TRef.nullary main_call7.c_1 (constantI S1 32 1#32),
    StableHlo.TRef.unary main_call7.v3 main_call7.v4 id,
    StableHlo.TRef.nullary main_call7.c_2 (constantI S_ 32 0#32),
    StableHlo.TRef.unary main_call7.c_2 main_call7.v5 (broadcastInDim S1 ![] bcast_S_S1),
    StableHlo.TRef.binary main_call7.v4 main_call7.v5 main_call7.v6 (cmpi .sge),
    StableHlo.TRef.binary main_call7.v4 main_call7.c_1 main_call7.v7 (cmpi .sle),
    StableHlo.TRef.binary main_call7.v6 main_call7.v7 main_call7.v8 andi,
    StableHlo.TRef.nullary main_call7.c_3 (constantI S_ 1 1#1),
    StableHlo.TRef.binary main_call7.v8 main_call7.c_3 main_call7.v9 (fun x v => Host.reduce IntOp.andi x v reducesTo_S1_S_d0 h_S_),
    StableHlo.TRef.binary (.of main_v86) main_call7.v4 main_call7.v10 (fun x i => Host.gather gather_S802816x2x2x2x2_S1_S802816x2x2x2_0123_4_n_n_4_0_8028162221 x i),
    StableHlo.TRef.unary main_call7.v9 main_call7.v11 (broadcastInDim S802816x2x2x2 ![] bcast_S_S802816x2x2x2),
    StableHlo.TRef.nullary main_call7.cst (constant S_ .f32 0x7FC00000#32),
    StableHlo.TRef.unary main_call7.cst main_call7.v12 (broadcastInDim S802816x2x2x2 ![] bcast_S_S802816x2x2x2),
    StableHlo.TRef.ternary main_call7.v11 main_call7.v10 main_call7.v12 main_call7.v13 select,
    StableHlo.nullary main_cst_18 (constant S_ .f32 0x3F000000#32),
    StableHlo.unary main_cst_18 main_v91 (broadcastInDim S802816 ![] bcast_S_S802816 : (⟨S_, .f32⟩ : BufTy).Contents (Elt F) → (⟨S802816, .f32⟩ : BufTy).Contents (Elt F)),
    StableHlo.binary main_v88 main_v91 main_v92 (mulf : (⟨S802816, .f32⟩ : BufTy).Contents (Elt F) → (⟨S802816, .f32⟩ : BufTy).Contents (Elt F) → (⟨S802816, .f32⟩ : BufTy).Contents (Elt F)),
    StableHlo.unary main_v92 main_v93 (Host.cos : (⟨S802816, .f32⟩ : BufTy).Contents (Elt F) → (⟨S802816, .f32⟩ : BufTy).Contents (Elt F)),
    StableHlo.nullary main_cst_19 (constant S_ .f32 0x3F000000#32),
    StableHlo.unary main_cst_19 main_v94 (broadcastInDim S802816 ![] bcast_S_S802816 : (⟨S_, .f32⟩ : BufTy).Contents (Elt F) → (⟨S802816, .f32⟩ : BufTy).Contents (Elt F)),
    StableHlo.binary main_v88 main_v94 main_v95 (mulf : (⟨S802816, .f32⟩ : BufTy).Contents (Elt F) → (⟨S802816, .f32⟩ : BufTy).Contents (Elt F) → (⟨S802816, .f32⟩ : BufTy).Contents (Elt F)),
    StableHlo.unary main_v95 main_v96 (Host.sin : (⟨S802816, .f32⟩ : BufTy).Contents (Elt F) → (⟨S802816, .f32⟩ : BufTy).Contents (Elt F)),
    StableHlo.reshape main_v93 main_v97 rfl shapeCasts_S802816_S802816x1x1x1,
    StableHlo.reshape main_v96 main_v98 rfl shapeCasts_S802816_S802816x1x1x1,
    StableHlo.unary main_v97 main_v99 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v99 main_v89 main_v100 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v98 main_v101 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v101 main_v90 main_v102 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v100 main_v102 main_v103 (subf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v98 main_v104 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v104 main_v89 main_v105 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v97 main_v106 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v106 main_v90 main_v107 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v105 main_v107 main_v108 (addf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v103 main_v109 (broadcastInDim S802816x2x2x2x1 ![0, 1, 2, 3] bcast_S802816x2x2x2_S802816x2x2x2x1_0_1_2_3 : (⟨S802816x2x2x2, .f32⟩ : BufTy).Contents (Elt F) → (⟨S802816x2x2x2x1, .f32⟩ : BufTy).Contents (Elt F)),
    StableHlo.unary main_v108 main_v110 (broadcastInDim S802816x2x2x2x1 ![0, 1, 2, 3] bcast_S802816x2x2x2_S802816x2x2x2x1_0_1_2_3 : (⟨S802816x2x2x2, .f32⟩ : BufTy).Contents (Elt F) → (⟨S802816x2x2x2x1, .f32⟩ : BufTy).Contents (Elt F)),
    StableHlo.binary main_v109 main_v110 main_v111 ((fun a b => concatenate S802816x2x2x2x2 4 [⟨S802816x2x2x2x1, a⟩, ⟨S802816x2x2x2x1, b⟩] concatenates_S802816x2x2x2x1_S802816x2x2x2x1_S802816x2x2x2x2_d4) : (⟨S802816x2x2x2x1, .f32⟩ : BufTy).Contents (Elt F) → (⟨S802816x2x2x2x1, .f32⟩ : BufTy).Contents (Elt F) → (⟨S802816x2x2x2x2, .f32⟩ : BufTy).Contents (Elt F)) ]

/-- The buffers stretch 4 writes, one per operation. -/
abbrev seg4_W : List (Ref sig .tc) := [main_v87, main_v88, main_c_16, main_call6_c, main_call6_v0, main_call6_c_0, main_call6_v1, main_call6_v2, main_call6_v3, main_call6_c_1, main_call6_v4, main_call6_c_2, main_call6_v5, main_call6_v6, main_call6_v7, main_call6_v8, main_call6_c_3, main_call6_v9, main_call6_v10, main_call6_v11, main_call6_cst, main_call6_v12, main_v89, main_c_17, main_call7_c, main_call7_v0, main_call7_c_0, main_call7_v1, main_call7_v2, main_call7_v3, main_call7_c_1, main_call7_v4, main_call7_c_2, main_call7_v5, main_call7_v6, main_call7_v7, main_call7_v8, main_call7_c_3, main_call7_v9, main_call7_v10, main_call7_v11, main_call7_cst, main_call7_v12, main_v90, main_cst_18, main_v91, main_v92, main_v93, main_cst_19, main_v94, main_v95, main_v96, main_v97, main_v98, main_v99, main_v100, main_v101, main_v102, main_v103, main_v104, main_v105, main_v106, main_v107, main_v108, main_v109, main_v110, main_v111]

set_option maxRecDepth 65536 in
theorem seg4_writes : (seg4 : List (HloOp τ sig (Elt F))).Forall fun op => op.writes ⊆ (seg4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 4, from any contents `W`, `main_v111` holds the stretch's composed function of what `W` has at the buffers the stretch reads. -/
theorem seg4_main_v111 (W : Valuation τ sig (Elt F)) :
    after seg4 W (main_v111 : DevRef τ sig) = gRyD3 (W (main_v86 : DevRef τ sig)) (W (main_v3 : DevRef τ sig)) := by
  simp only [seg4]
  after_results_simp
  rfl

/-- Stretch 5 of @main: operations 287 … 349, ending where `main_v132` is written. -/
abbrev seg5 : List (HloOp τ sig (Elt F)) :=
  [ StableHlo.unary main_arg1 main_v112 ((extractStridedSlice S1 ![0] · slices_S4_S1_0) : (⟨S4, .f32⟩ : BufTy).Contents (Elt F) → (⟨S1, .f32⟩ : BufTy).Contents (Elt F)),
    StableHlo.reshape main_v112 main_v113 rfl shapeCasts_S1_S_,
    StableHlo.nullary main_c_20 (constantI S_ 32 0#32),
    StableHlo.TRef.nullary main_call8.c (constantI S_ 32 0#32),
    StableHlo.TRef.binary (.of main_c_20) main_call8.c main_call8.v0 (cmpi .slt),
    StableHlo.TRef.nullary main_call8.c_0 (constantI S_ 32 2#32),
    StableHlo.TRef.binary (.of main_c_20) main_call8.c_0 main_call8.v1 addi,
    StableHlo.TRef.ternary main_call8.v0 main_call8.v1 (.of main_c_20) main_call8.call0.v0 select,
    StableHlo.TRef.unary main_call8.call0.v0 main_call8.v3 (broadcastInDim S1 ![] bcast_S_S1),
    StableHlo.TRef.nullary main_call8.c_1 (constantI S1 32 1#32),
    StableHlo.TRef.unary main_call8.v3 main_call8.v4 id,
    StableHlo.TRef.nullary main_call8.c_2 (constantI S_ 32 0#32),
    StableHlo.TRef.unary main_call8.c_2 main_call8.v5 (broadcastInDim S1 ![] bcast_S_S1),
    StableHlo.TRef.binary main_call8.v4 main_call8.v5 main_call8.v6 (cmpi .sge),
    StableHlo.TRef.binary main_call8.v4 main_call8.c_1 main_call8.v7 (cmpi .sle),
    StableHlo.TRef.binary main_call8.v6 main_call8.v7 main_call8.v8 andi,
    StableHlo.TRef.nullary main_call8.c_3 (constantI S_ 1 1#1),
    StableHlo.TRef.binary main_call8.v8 main_call8.c_3 main_call8.v9 (fun x v => Host.reduce IntOp.andi x v reducesTo_S1_S_d0 h_S_),
    StableHlo.TRef.binary (.of main_v111) main_call8.v4 main_call8.v10 (fun x i => Host.gather gather_S802816x2x2x2x2_S1_S802816x2x2x2_0123_1_n_n_1_0_8028161222 x i),
    StableHlo.TRef.unary main_call8.v9 main_call8.v11 (broadcastInDim S802816x2x2x2 ![] bcast_S_S802816x2x2x2),
    StableHlo.TRef.nullary main_call8.cst (constant S_ .f32 0x7FC00000#32),
    StableHlo.TRef.unary main_call8.cst main_call8.v12 (broadcastInDim S802816x2x2x2 ![] bcast_S_S802816x2x2x2),
    StableHlo.TRef.ternary main_call8.v11 main_call8.v10 main_call8.v12 main_call8.v13 select,
    StableHlo.nullary main_c_21 (constantI S_ 32 1#32),
    StableHlo.TRef.nullary main_call9.c (constantI S_ 32 0#32),
    StableHlo.TRef.binary (.of main_c_21) main_call9.c main_call9.v0 (cmpi .slt),
    StableHlo.TRef.nullary main_call9.c_0 (constantI S_ 32 2#32),
    StableHlo.TRef.binary (.of main_c_21) main_call9.c_0 main_call9.v1 addi,
    StableHlo.TRef.ternary main_call9.v0 main_call9.v1 (.of main_c_21) main_call9.call0.v0 select,
    StableHlo.TRef.unary main_call9.call0.v0 main_call9.v3 (broadcastInDim S1 ![] bcast_S_S1),
    StableHlo.TRef.nullary main_call9.c_1 (constantI S1 32 1#32),
    StableHlo.TRef.unary main_call9.v3 main_call9.v4 id,
    StableHlo.TRef.nullary main_call9.c_2 (constantI S_ 32 0#32),
    StableHlo.TRef.unary main_call9.c_2 main_call9.v5 (broadcastInDim S1 ![] bcast_S_S1),
    StableHlo.TRef.binary main_call9.v4 main_call9.v5 main_call9.v6 (cmpi .sge),
    StableHlo.TRef.binary main_call9.v4 main_call9.c_1 main_call9.v7 (cmpi .sle),
    StableHlo.TRef.binary main_call9.v6 main_call9.v7 main_call9.v8 andi,
    StableHlo.TRef.nullary main_call9.c_3 (constantI S_ 1 1#1),
    StableHlo.TRef.binary main_call9.v8 main_call9.c_3 main_call9.v9 (fun x v => Host.reduce IntOp.andi x v reducesTo_S1_S_d0 h_S_),
    StableHlo.TRef.binary (.of main_v111) main_call9.v4 main_call9.v10 (fun x i => Host.gather gather_S802816x2x2x2x2_S1_S802816x2x2x2_0123_1_n_n_1_0_8028161222 x i),
    StableHlo.TRef.unary main_call9.v9 main_call9.v11 (broadcastInDim S802816x2x2x2 ![] bcast_S_S802816x2x2x2),
    StableHlo.TRef.nullary main_call9.cst (constant S_ .f32 0x7FC00000#32),
    StableHlo.TRef.unary main_call9.cst main_call9.v12 (broadcastInDim S802816x2x2x2 ![] bcast_S_S802816x2x2x2),
    StableHlo.TRef.ternary main_call9.v11 main_call9.v10 main_call9.v12 main_call9.v13 select,
    StableHlo.nullary main_cst_22 (constant S_ .f32 0x3F000000#32),
    StableHlo.binary main_v113 main_cst_22 main_v116 (mulf : (⟨S_, .f32⟩ : BufTy).Contents (Elt F) → (⟨S_, .f32⟩ : BufTy).Contents (Elt F) → (⟨S_, .f32⟩ : BufTy).Contents (Elt F)),
    StableHlo.unary main_v116 main_v117 (Host.cos : (⟨S_, .f32⟩ : BufTy).Contents (Elt F) → (⟨S_, .f32⟩ : BufTy).Contents (Elt F)),
    StableHlo.nullary main_cst_23 (constant S_ .f32 0x3F000000#32),
    StableHlo.binary main_v113 main_cst_23 main_v118 (mulf : (⟨S_, .f32⟩ : BufTy).Contents (Elt F) → (⟨S_, .f32⟩ : BufTy).Contents (Elt F) → (⟨S_, .f32⟩ : BufTy).Contents (Elt F)),
    StableHlo.unary main_v118 main_v119 (Host.sin : (⟨S_, .f32⟩ : BufTy).Contents (Elt F) → (⟨S_, .f32⟩ : BufTy).Contents (Elt F)),
    StableHlo.unary main_v117 main_v120 (broadcastInDim S802816x2x2x2 ![] bcast_S_S802816x2x2x2 : (⟨S_, .f32⟩ : BufTy).Contents (Elt F) → (⟨S802816x2x2x2, .f32⟩ : BufTy).Contents (Elt F)),
    StableHlo.binary main_v120 main_v114 main_v121 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v119 main_v122 (broadcastInDim S802816x2x2x2 ![] bcast_S_S802816x2x2x2 : (⟨S_, .f32⟩ : BufTy).Contents (Elt F) → (⟨S802816x2x2x2, .f32⟩ : BufTy).Contents (Elt F)),
    StableHlo.binary main_v122 main_v115 main_v123 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v121 main_v123 main_v124 (subf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v119 main_v125 (broadcastInDim S802816x2x2x2 ![] bcast_S_S802816x2x2x2 : (⟨S_, .f32⟩ : BufTy).Contents (Elt F) → (⟨S802816x2x2x2, .f32⟩ : BufTy).Contents (Elt F)),
    StableHlo.binary main_v125 main_v114 main_v126 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v117 main_v127 (broadcastInDim S802816x2x2x2 ![] bcast_S_S802816x2x2x2 : (⟨S_, .f32⟩ : BufTy).Contents (Elt F) → (⟨S802816x2x2x2, .f32⟩ : BufTy).Contents (Elt F)),
    StableHlo.binary main_v127 main_v115 main_v128 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v126 main_v128 main_v129 (addf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v124 main_v130 (broadcastInDim S802816x1x2x2x2 ![0, 2, 3, 4] bcast_S802816x2x2x2_S802816x1x2x2x2_0_2_3_4 : (⟨S802816x2x2x2, .f32⟩ : BufTy).Contents (Elt F) → (⟨S802816x1x2x2x2, .f32⟩ : BufTy).Contents (Elt F)),
    StableHlo.unary main_v129 main_v131 (broadcastInDim S802816x1x2x2x2 ![0, 2, 3, 4] bcast_S802816x2x2x2_S802816x1x2x2x2_0_2_3_4 : (⟨S802816x2x2x2, .f32⟩ : BufTy).Contents (Elt F) → (⟨S802816x1x2x2x2, .f32⟩ : BufTy).Contents (Elt F)),
    StableHlo.binary main_v130 main_v131 main_v132 ((fun a b => concatenate S802816x2x2x2x2 1 [⟨S802816x1x2x2x2, a⟩, ⟨S802816x1x2x2x2, b⟩] concatenates_S802816x1x2x2x2_S802816x1x2x2x2_S802816x2x2x2x2_d1) : (⟨S802816x1x2x2x2, .f32⟩ : BufTy).Contents (Elt F) → (⟨S802816x1x2x2x2, .f32⟩ : BufTy).Contents (Elt F) → (⟨S802816x2x2x2x2, .f32⟩ : BufTy).Contents (Elt F)) ]

/-- The buffers stretch 5 writes, one per operation. -/
abbrev seg5_W : List (Ref sig .tc) := [main_v112, main_v113, main_c_20, main_call8_c, main_call8_v0, main_call8_c_0, main_call8_v1, main_call8_v2, main_call8_v3, main_call8_c_1, main_call8_v4, main_call8_c_2, main_call8_v5, main_call8_v6, main_call8_v7, main_call8_v8, main_call8_c_3, main_call8_v9, main_call8_v10, main_call8_v11, main_call8_cst, main_call8_v12, main_v114, main_c_21, main_call9_c, main_call9_v0, main_call9_c_0, main_call9_v1, main_call9_v2, main_call9_v3, main_call9_c_1, main_call9_v4, main_call9_c_2, main_call9_v5, main_call9_v6, main_call9_v7, main_call9_v8, main_call9_c_3, main_call9_v9, main_call9_v10, main_call9_v11, main_call9_cst, main_call9_v12, main_v115, main_cst_22, main_v116, main_v117, main_cst_23, main_v118, main_v119, main_v120, main_v121, main_v122, main_v123, main_v124, main_v125, main_v126, main_v127, main_v128, main_v129, main_v130, main_v131, main_v132]

set_option maxRecDepth 65536 in
theorem seg5_writes : (seg5 : List (HloOp τ sig (Elt F))).Forall fun op => op.writes ⊆ (seg5_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 5, from any contents `W`, `main_v132` holds the stretch's composed function of what `W` has at the buffers the stretch reads. -/
theorem seg5_main_v132 (W : Valuation τ sig (Elt F)) :
    after seg5 W (main_v132 : DevRef τ sig) = gRyP0 (W (main_v111 : DevRef τ sig)) (W (main_arg1 : DevRef τ sig)) := by
  simp only [seg5]
  after_results_simp
  rfl

/-- Stretch 6 of @main: operations 350 … 395, ending where `main_v138` is written. -/
abbrev seg6 : List (HloOp τ sig (Elt F)) :=
  [ StableHlo.nullary main_c_24 (constantI S_ 32 0#32),
    StableHlo.TRef.nullary main_call10.c (constantI S_ 32 0#32),
    StableHlo.TRef.binary (.of main_c_24) main_call10.c main_call10.v0 (cmpi .slt),
    StableHlo.TRef.nullary main_call10.c_0 (constantI S_ 32 2#32),
    StableHlo.TRef.binary (.of main_c_24) main_call10.c_0 main_call10.v1 addi,
    StableHlo.TRef.ternary main_call10.v0 main_call10.v1 (.of main_c_24) main_call10.call0.v0 select,
    StableHlo.TRef.unary main_call10.call0.v0 main_call10.v3 (broadcastInDim S1 ![] bcast_S_S1),
    StableHlo.TRef.nullary main_call10.c_1 (constantI S1 32 1#32),
    StableHlo.TRef.unary main_call10.v3 main_call10.v4 id,
    StableHlo.TRef.nullary main_call10.c_2 (constantI S_ 32 0#32),
    StableHlo.TRef.unary main_call10.c_2 main_call10.v5 (broadcastInDim S1 ![] bcast_S_S1),
    StableHlo.TRef.binary main_call10.v4 main_call10.v5 main_call10.v6 (cmpi .sge),
    StableHlo.TRef.binary main_call10.v4 main_call10.c_1 main_call10.v7 (cmpi .sle),
    StableHlo.TRef.binary main_call10.v6 main_call10.v7 main_call10.v8 andi,
    StableHlo.TRef.nullary main_call10.c_3 (constantI S_ 1 1#1),
    StableHlo.TRef.binary main_call10.v8 main_call10.c_3 main_call10.v9 (fun x v => Host.reduce IntOp.andi x v reducesTo_S1_S_d0 h_S_),
    StableHlo.TRef.binary (.of main_v132) main_call10.v4 main_call10.v10 (fun x i => Host.gather gather_S802816x2x2x2x2_S1_S802816x2x2x2_0123_1_n_n_1_0_8028161222 x i),
    StableHlo.TRef.unary main_call10.v9 main_call10.v11 (broadcastInDim S802816x2x2x2 ![] bcast_S_S802816x2x2x2),
    StableHlo.TRef.nullary main_call10.cst (constant S_ .f32 0x7FC00000#32),
    StableHlo.TRef.unary main_call10.cst main_call10.v12 (broadcastInDim S802816x2x2x2 ![] bcast_S_S802816x2x2x2),
    StableHlo.TRef.ternary main_call10.v11 main_call10.v10 main_call10.v12 main_call10.v13 select,
    StableHlo.nullary main_c_25 (constantI S_ 32 1#32),
    StableHlo.TRef.nullary main_call11.c (constantI S_ 32 0#32),
    StableHlo.TRef.binary (.of main_c_25) main_call11.c main_call11.v0 (cmpi .slt),
    StableHlo.TRef.nullary main_call11.c_0 (constantI S_ 32 2#32),
    StableHlo.TRef.binary (.of main_c_25) main_call11.c_0 main_call11.v1 addi,
    StableHlo.TRef.ternary main_call11.v0 main_call11.v1 (.of main_c_25) main_call11.call0.v0 select,
    StableHlo.TRef.unary main_call11.call0.v0 main_call11.v3 (broadcastInDim S1 ![] bcast_S_S1),
    StableHlo.TRef.nullary main_call11.c_1 (constantI S1 32 1#32),
    StableHlo.TRef.unary main_call11.v3 main_call11.v4 id,
    StableHlo.TRef.nullary main_call11.c_2 (constantI S_ 32 0#32),
    StableHlo.TRef.unary main_call11.c_2 main_call11.v5 (broadcastInDim S1 ![] bcast_S_S1),
    StableHlo.TRef.binary main_call11.v4 main_call11.v5 main_call11.v6 (cmpi .sge),
    StableHlo.TRef.binary main_call11.v4 main_call11.c_1 main_call11.v7 (cmpi .sle),
    StableHlo.TRef.binary main_call11.v6 main_call11.v7 main_call11.v8 andi,
    StableHlo.TRef.nullary main_call11.c_3 (constantI S_ 1 1#1),
    StableHlo.TRef.binary main_call11.v8 main_call11.c_3 main_call11.v9 (fun x v => Host.reduce IntOp.andi x v reducesTo_S1_S_d0 h_S_),
    StableHlo.TRef.binary (.of main_v132) main_call11.v4 main_call11.v10 (fun x i => Host.gather gather_S802816x2x2x2x2_S1_S802816x2x2x2_0123_1_n_n_1_0_8028161222 x i),
    StableHlo.TRef.unary main_call11.v9 main_call11.v11 (broadcastInDim S802816x2x2x2 ![] bcast_S_S802816x2x2x2),
    StableHlo.TRef.nullary main_call11.cst (constant S_ .f32 0x7FC00000#32),
    StableHlo.TRef.unary main_call11.cst main_call11.v12 (broadcastInDim S802816x2x2x2 ![] bcast_S_S802816x2x2x2),
    StableHlo.TRef.ternary main_call11.v11 main_call11.v10 main_call11.v12 main_call11.v13 select,
    StableHlo.TRef.unary (.of main_v134) main_call12.v0 (Host.reverse [1]),
    StableHlo.unary main_v133 main_v136 (broadcastInDim S802816x1x2x2x2 ![0, 2, 3, 4] bcast_S802816x2x2x2_S802816x1x2x2x2_0_2_3_4 : (⟨S802816x2x2x2, .f32⟩ : BufTy).Contents (Elt F) → (⟨S802816x1x2x2x2, .f32⟩ : BufTy).Contents (Elt F)),
    StableHlo.unary main_v135 main_v137 (broadcastInDim S802816x1x2x2x2 ![0, 2, 3, 4] bcast_S802816x2x2x2_S802816x1x2x2x2_0_2_3_4 : (⟨S802816x2x2x2, .f32⟩ : BufTy).Contents (Elt F) → (⟨S802816x1x2x2x2, .f32⟩ : BufTy).Contents (Elt F)),
    StableHlo.binary main_v136 main_v137 main_v138 ((fun a b => concatenate S802816x2x2x2x2 1 [⟨S802816x1x2x2x2, a⟩, ⟨S802816x1x2x2x2, b⟩] concatenates_S802816x1x2x2x2_S802816x1x2x2x2_S802816x2x2x2x2_d1) : (⟨S802816x1x2x2x2, .f32⟩ : BufTy).Contents (Elt F) → (⟨S802816x1x2x2x2, .f32⟩ : BufTy).Contents (Elt F) → (⟨S802816x2x2x2x2, .f32⟩ : BufTy).Contents (Elt F)) ]

/-- The buffers stretch 6 writes, one per operation. -/
abbrev seg6_W : List (Ref sig .tc) := [main_c_24, main_call10_c, main_call10_v0, main_call10_c_0, main_call10_v1, main_call10_v2, main_call10_v3, main_call10_c_1, main_call10_v4, main_call10_c_2, main_call10_v5, main_call10_v6, main_call10_v7, main_call10_v8, main_call10_c_3, main_call10_v9, main_call10_v10, main_call10_v11, main_call10_cst, main_call10_v12, main_v133, main_c_25, main_call11_c, main_call11_v0, main_call11_c_0, main_call11_v1, main_call11_v2, main_call11_v3, main_call11_c_1, main_call11_v4, main_call11_c_2, main_call11_v5, main_call11_v6, main_call11_v7, main_call11_v8, main_call11_c_3, main_call11_v9, main_call11_v10, main_call11_v11, main_call11_cst, main_call11_v12, main_v134, main_v135, main_v136, main_v137, main_v138]

set_option maxRecDepth 65536 in
theorem seg6_writes : (seg6 : List (HloOp τ sig (Elt F))).Forall fun op => op.writes ⊆ (seg6_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 6, from any contents `W`, `main_v138` holds the stretch's composed function of what `W` has at the buffers the stretch reads. -/
theorem seg6_main_v138 (W : Valuation τ sig (Elt F)) :
    after seg6 W (main_v138 : DevRef τ sig) = gCx0 (W (main_v132 : DevRef τ sig)) := by
  simp only [seg6]
  after_results_simp
  rfl

/-- Stretch 7 of @main: operations 396 … 458, ending where `main_v159` is written. -/
abbrev seg7 : List (HloOp τ sig (Elt F)) :=
  [ StableHlo.unary main_arg1 main_v139 ((extractStridedSlice S1 ![1] · slices_S4_S1_1) : (⟨S4, .f32⟩ : BufTy).Contents (Elt F) → (⟨S1, .f32⟩ : BufTy).Contents (Elt F)),
    StableHlo.reshape main_v139 main_v140 rfl shapeCasts_S1_S_,
    StableHlo.nullary main_c_26 (constantI S_ 32 0#32),
    StableHlo.TRef.nullary main_call13.c (constantI S_ 32 0#32),
    StableHlo.TRef.binary (.of main_c_26) main_call13.c main_call13.v0 (cmpi .slt),
    StableHlo.TRef.nullary main_call13.c_0 (constantI S_ 32 2#32),
    StableHlo.TRef.binary (.of main_c_26) main_call13.c_0 main_call13.v1 addi,
    StableHlo.TRef.ternary main_call13.v0 main_call13.v1 (.of main_c_26) main_call13.call0.v0 select,
    StableHlo.TRef.unary main_call13.call0.v0 main_call13.v3 (broadcastInDim S1 ![] bcast_S_S1),
    StableHlo.TRef.nullary main_call13.c_1 (constantI S1 32 1#32),
    StableHlo.TRef.unary main_call13.v3 main_call13.v4 id,
    StableHlo.TRef.nullary main_call13.c_2 (constantI S_ 32 0#32),
    StableHlo.TRef.unary main_call13.c_2 main_call13.v5 (broadcastInDim S1 ![] bcast_S_S1),
    StableHlo.TRef.binary main_call13.v4 main_call13.v5 main_call13.v6 (cmpi .sge),
    StableHlo.TRef.binary main_call13.v4 main_call13.c_1 main_call13.v7 (cmpi .sle),
    StableHlo.TRef.binary main_call13.v6 main_call13.v7 main_call13.v8 andi,
    StableHlo.TRef.nullary main_call13.c_3 (constantI S_ 1 1#1),
    StableHlo.TRef.binary main_call13.v8 main_call13.c_3 main_call13.v9 (fun x v => Host.reduce IntOp.andi x v reducesTo_S1_S_d0 h_S_),
    StableHlo.TRef.binary (.of main_v138) main_call13.v4 main_call13.v10 (fun x i => Host.gather gather_S802816x2x2x2x2_S1_S802816x2x2x2_0123_2_n_n_2_0_8028162122 x i),
    StableHlo.TRef.unary main_call13.v9 main_call13.v11 (broadcastInDim S802816x2x2x2 ![] bcast_S_S802816x2x2x2),
    StableHlo.TRef.nullary main_call13.cst (constant S_ .f32 0x7FC00000#32),
    StableHlo.TRef.unary main_call13.cst main_call13.v12 (broadcastInDim S802816x2x2x2 ![] bcast_S_S802816x2x2x2),
    StableHlo.TRef.ternary main_call13.v11 main_call13.v10 main_call13.v12 main_call13.v13 select,
    StableHlo.nullary main_c_27 (constantI S_ 32 1#32),
    StableHlo.TRef.nullary main_call14.c (constantI S_ 32 0#32),
    StableHlo.TRef.binary (.of main_c_27) main_call14.c main_call14.v0 (cmpi .slt),
    StableHlo.TRef.nullary main_call14.c_0 (constantI S_ 32 2#32),
    StableHlo.TRef.binary (.of main_c_27) main_call14.c_0 main_call14.v1 addi,
    StableHlo.TRef.ternary main_call14.v0 main_call14.v1 (.of main_c_27) main_call14.call0.v0 select,
    StableHlo.TRef.unary main_call14.call0.v0 main_call14.v3 (broadcastInDim S1 ![] bcast_S_S1),
    StableHlo.TRef.nullary main_call14.c_1 (constantI S1 32 1#32),
    StableHlo.TRef.unary main_call14.v3 main_call14.v4 id,
    StableHlo.TRef.nullary main_call14.c_2 (constantI S_ 32 0#32),
    StableHlo.TRef.unary main_call14.c_2 main_call14.v5 (broadcastInDim S1 ![] bcast_S_S1),
    StableHlo.TRef.binary main_call14.v4 main_call14.v5 main_call14.v6 (cmpi .sge),
    StableHlo.TRef.binary main_call14.v4 main_call14.c_1 main_call14.v7 (cmpi .sle),
    StableHlo.TRef.binary main_call14.v6 main_call14.v7 main_call14.v8 andi,
    StableHlo.TRef.nullary main_call14.c_3 (constantI S_ 1 1#1),
    StableHlo.TRef.binary main_call14.v8 main_call14.c_3 main_call14.v9 (fun x v => Host.reduce IntOp.andi x v reducesTo_S1_S_d0 h_S_),
    StableHlo.TRef.binary (.of main_v138) main_call14.v4 main_call14.v10 (fun x i => Host.gather gather_S802816x2x2x2x2_S1_S802816x2x2x2_0123_2_n_n_2_0_8028162122 x i),
    StableHlo.TRef.unary main_call14.v9 main_call14.v11 (broadcastInDim S802816x2x2x2 ![] bcast_S_S802816x2x2x2),
    StableHlo.TRef.nullary main_call14.cst (constant S_ .f32 0x7FC00000#32),
    StableHlo.TRef.unary main_call14.cst main_call14.v12 (broadcastInDim S802816x2x2x2 ![] bcast_S_S802816x2x2x2),
    StableHlo.TRef.ternary main_call14.v11 main_call14.v10 main_call14.v12 main_call14.v13 select,
    StableHlo.nullary main_cst_28 (constant S_ .f32 0x3F000000#32),
    StableHlo.binary main_v140 main_cst_28 main_v143 (mulf : (⟨S_, .f32⟩ : BufTy).Contents (Elt F) → (⟨S_, .f32⟩ : BufTy).Contents (Elt F) → (⟨S_, .f32⟩ : BufTy).Contents (Elt F)),
    StableHlo.unary main_v143 main_v144 (Host.cos : (⟨S_, .f32⟩ : BufTy).Contents (Elt F) → (⟨S_, .f32⟩ : BufTy).Contents (Elt F)),
    StableHlo.nullary main_cst_29 (constant S_ .f32 0x3F000000#32),
    StableHlo.binary main_v140 main_cst_29 main_v145 (mulf : (⟨S_, .f32⟩ : BufTy).Contents (Elt F) → (⟨S_, .f32⟩ : BufTy).Contents (Elt F) → (⟨S_, .f32⟩ : BufTy).Contents (Elt F)),
    StableHlo.unary main_v145 main_v146 (Host.sin : (⟨S_, .f32⟩ : BufTy).Contents (Elt F) → (⟨S_, .f32⟩ : BufTy).Contents (Elt F)),
    StableHlo.unary main_v144 main_v147 (broadcastInDim S802816x2x2x2 ![] bcast_S_S802816x2x2x2 : (⟨S_, .f32⟩ : BufTy).Contents (Elt F) → (⟨S802816x2x2x2, .f32⟩ : BufTy).Contents (Elt F)),
    StableHlo.binary main_v147 main_v141 main_v148 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v146 main_v149 (broadcastInDim S802816x2x2x2 ![] bcast_S_S802816x2x2x2 : (⟨S_, .f32⟩ : BufTy).Contents (Elt F) → (⟨S802816x2x2x2, .f32⟩ : BufTy).Contents (Elt F)),
    StableHlo.binary main_v149 main_v142 main_v150 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v148 main_v150 main_v151 (subf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v146 main_v152 (broadcastInDim S802816x2x2x2 ![] bcast_S_S802816x2x2x2 : (⟨S_, .f32⟩ : BufTy).Contents (Elt F) → (⟨S802816x2x2x2, .f32⟩ : BufTy).Contents (Elt F)),
    StableHlo.binary main_v152 main_v141 main_v153 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v144 main_v154 (broadcastInDim S802816x2x2x2 ![] bcast_S_S802816x2x2x2 : (⟨S_, .f32⟩ : BufTy).Contents (Elt F) → (⟨S802816x2x2x2, .f32⟩ : BufTy).Contents (Elt F)),
    StableHlo.binary main_v154 main_v142 main_v155 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v153 main_v155 main_v156 (addf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v151 main_v157 (broadcastInDim S802816x2x1x2x2 ![0, 1, 3, 4] bcast_S802816x2x2x2_S802816x2x1x2x2_0_1_3_4 : (⟨S802816x2x2x2, .f32⟩ : BufTy).Contents (Elt F) → (⟨S802816x2x1x2x2, .f32⟩ : BufTy).Contents (Elt F)),
    StableHlo.unary main_v156 main_v158 (broadcastInDim S802816x2x1x2x2 ![0, 1, 3, 4] bcast_S802816x2x2x2_S802816x2x1x2x2_0_1_3_4 : (⟨S802816x2x2x2, .f32⟩ : BufTy).Contents (Elt F) → (⟨S802816x2x1x2x2, .f32⟩ : BufTy).Contents (Elt F)),
    StableHlo.binary main_v157 main_v158 main_v159 ((fun a b => concatenate S802816x2x2x2x2 2 [⟨S802816x2x1x2x2, a⟩, ⟨S802816x2x1x2x2, b⟩] concatenates_S802816x2x1x2x2_S802816x2x1x2x2_S802816x2x2x2x2_d2) : (⟨S802816x2x1x2x2, .f32⟩ : BufTy).Contents (Elt F) → (⟨S802816x2x1x2x2, .f32⟩ : BufTy).Contents (Elt F) → (⟨S802816x2x2x2x2, .f32⟩ : BufTy).Contents (Elt F)) ]

/-- The buffers stretch 7 writes, one per operation. -/
abbrev seg7_W : List (Ref sig .tc) := [main_v139, main_v140, main_c_26, main_call13_c, main_call13_v0, main_call13_c_0, main_call13_v1, main_call13_v2, main_call13_v3, main_call13_c_1, main_call13_v4, main_call13_c_2, main_call13_v5, main_call13_v6, main_call13_v7, main_call13_v8, main_call13_c_3, main_call13_v9, main_call13_v10, main_call13_v11, main_call13_cst, main_call13_v12, main_v141, main_c_27, main_call14_c, main_call14_v0, main_call14_c_0, main_call14_v1, main_call14_v2, main_call14_v3, main_call14_c_1, main_call14_v4, main_call14_c_2, main_call14_v5, main_call14_v6, main_call14_v7, main_call14_v8, main_call14_c_3, main_call14_v9, main_call14_v10, main_call14_v11, main_call14_cst, main_call14_v12, main_v142, main_cst_28, main_v143, main_v144, main_cst_29, main_v145, main_v146, main_v147, main_v148, main_v149, main_v150, main_v151, main_v152, main_v153, main_v154, main_v155, main_v156, main_v157, main_v158, main_v159]

set_option maxRecDepth 65536 in
theorem seg7_writes : (seg7 : List (HloOp τ sig (Elt F))).Forall fun op => op.writes ⊆ (seg7_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 7, from any contents `W`, `main_v159` holds the stretch's composed function of what `W` has at the buffers the stretch reads. -/
theorem seg7_main_v159 (W : Valuation τ sig (Elt F)) :
    after seg7 W (main_v159 : DevRef τ sig) = gRyP1 (W (main_v138 : DevRef τ sig)) (W (main_arg1 : DevRef τ sig)) := by
  simp only [seg7]
  after_results_simp
  rfl

end Cert.ReferenceIdeal.RefRun

end
-- ==== Proof.RefSeg2.lean ====
/- Stretches 8 … 11 of the reference program's @main (a stretch ends where a state of the simulated register, or one of
   the arrays before the first and after the last state, is written): each as the list of its operations, the list of the
   buffers it writes, and its result as the stretch's composed function of the buffers it reads. -/
import proofs.«159359_j65481071398168_2_alg».proof.Proof.RefGateDefs
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Stretch 8 of @main: operations 459 … 504, ending where `main_v165` is written. -/
abbrev seg8 : List (HloOp τ sig (Elt F)) :=
  [ StableHlo.nullary main_c_30 (constantI S_ 32 0#32),
    StableHlo.TRef.nullary main_call15.c (constantI S_ 32 0#32),
    StableHlo.TRef.binary (.of main_c_30) main_call15.c main_call15.v0 (cmpi .slt),
    StableHlo.TRef.nullary main_call15.c_0 (constantI S_ 32 2#32),
    StableHlo.TRef.binary (.of main_c_30) main_call15.c_0 main_call15.v1 addi,
    StableHlo.TRef.ternary main_call15.v0 main_call15.v1 (.of main_c_30) main_call15.call0.v0 select,
    StableHlo.TRef.unary main_call15.call0.v0 main_call15.v3 (broadcastInDim S1 ![] bcast_S_S1),
    StableHlo.TRef.nullary main_call15.c_1 (constantI S1 32 1#32),
    StableHlo.TRef.unary main_call15.v3 main_call15.v4 id,
    StableHlo.TRef.nullary main_call15.c_2 (constantI S_ 32 0#32),
    StableHlo.TRef.unary main_call15.c_2 main_call15.v5 (broadcastInDim S1 ![] bcast_S_S1),
    StableHlo.TRef.binary main_call15.v4 main_call15.v5 main_call15.v6 (cmpi .sge),
    StableHlo.TRef.binary main_call15.v4 main_call15.c_1 main_call15.v7 (cmpi .sle),
    StableHlo.TRef.binary main_call15.v6 main_call15.v7 main_call15.v8 andi,
    StableHlo.TRef.nullary main_call15.c_3 (constantI S_ 1 1#1),
    StableHlo.TRef.binary main_call15.v8 main_call15.c_3 main_call15.v9 (fun x v => Host.reduce IntOp.andi x v reducesTo_S1_S_d0 h_S_),
    StableHlo.TRef.binary (.of main_v159) main_call15.v4 main_call15.v10 (fun x i => Host.gather gather_S802816x2x2x2x2_S1_S802816x2x2x2_0123_2_n_n_2_0_8028162122 x i),
    StableHlo.TRef.unary main_call15.v9 main_call15.v11 (broadcastInDim S802816x2x2x2 ![] bcast_S_S802816x2x2x2),
    StableHlo.TRef.nullary main_call15.cst (constant S_ .f32 0x7FC00000#32),
    StableHlo.TRef.unary main_call15.cst main_call15.v12 (broadcastInDim S802816x2x2x2 ![] bcast_S_S802816x2x2x2),
    StableHlo.TRef.ternary main_call15.v11 main_call15.v10 main_call15.v12 main_call15.v13 select,
    StableHlo.nullary main_c_31 (constantI S_ 32 1#32),
    StableHlo.TRef.nullary main_call16.c (constantI S_ 32 0#32),
    StableHlo.TRef.binary (.of main_c_31) main_call16.c main_call16.v0 (cmpi .slt),
    StableHlo.TRef.nullary main_call16.c_0 (constantI S_ 32 2#32),
    StableHlo.TRef.binary (.of main_c_31) main_call16.c_0 main_call16.v1 addi,
    StableHlo.TRef.ternary main_call16.v0 main_call16.v1 (.of main_c_31) main_call16.call0.v0 select,
    StableHlo.TRef.unary main_call16.call0.v0 main_call16.v3 (broadcastInDim S1 ![] bcast_S_S1),
    StableHlo.TRef.nullary main_call16.c_1 (constantI S1 32 1#32),
    StableHlo.TRef.unary main_call16.v3 main_call16.v4 id,
    StableHlo.TRef.nullary main_call16.c_2 (constantI S_ 32 0#32),
    StableHlo.TRef.unary main_call16.c_2 main_call16.v5 (broadcastInDim S1 ![] bcast_S_S1),
    StableHlo.TRef.binary main_call16.v4 main_call16.v5 main_call16.v6 (cmpi .sge),
    StableHlo.TRef.binary main_call16.v4 main_call16.c_1 main_call16.v7 (cmpi .sle),
    StableHlo.TRef.binary main_call16.v6 main_call16.v7 main_call16.v8 andi,
    StableHlo.TRef.nullary main_call16.c_3 (constantI S_ 1 1#1),
    StableHlo.TRef.binary main_call16.v8 main_call16.c_3 main_call16.v9 (fun x v => Host.reduce IntOp.andi x v reducesTo_S1_S_d0 h_S_),
    StableHlo.TRef.binary (.of main_v159) main_call16.v4 main_call16.v10 (fun x i => Host.gather gather_S802816x2x2x2x2_S1_S802816x2x2x2_0123_2_n_n_2_0_8028162122 x i),
    StableHlo.TRef.unary main_call16.v9 main_call16.v11 (broadcastInDim S802816x2x2x2 ![] bcast_S_S802816x2x2x2),
    StableHlo.TRef.nullary main_call16.cst (constant S_ .f32 0x7FC00000#32),
    StableHlo.TRef.unary main_call16.cst main_call16.v12 (broadcastInDim S802816x2x2x2 ![] bcast_S_S802816x2x2x2),
    StableHlo.TRef.ternary main_call16.v11 main_call16.v10 main_call16.v12 main_call16.v13 select,
    StableHlo.TRef.unary (.of main_v161) main_call17.v0 (Host.reverse [2]),
    StableHlo.unary main_v160 main_v163 (broadcastInDim S802816x2x1x2x2 ![0, 1, 3, 4] bcast_S802816x2x2x2_S802816x2x1x2x2_0_1_3_4 : (⟨S802816x2x2x2, .f32⟩ : BufTy).Contents (Elt F) → (⟨S802816x2x1x2x2, .f32⟩ : BufTy).Contents (Elt F)),
    StableHlo.unary main_v162 main_v164 (broadcastInDim S802816x2x1x2x2 ![0, 1, 3, 4] bcast_S802816x2x2x2_S802816x2x1x2x2_0_1_3_4 : (⟨S802816x2x2x2, .f32⟩ : BufTy).Contents (Elt F) → (⟨S802816x2x1x2x2, .f32⟩ : BufTy).Contents (Elt F)),
    StableHlo.binary main_v163 main_v164 main_v165 ((fun a b => concatenate S802816x2x2x2x2 2 [⟨S802816x2x1x2x2, a⟩, ⟨S802816x2x1x2x2, b⟩] concatenates_S802816x2x1x2x2_S802816x2x1x2x2_S802816x2x2x2x2_d2) : (⟨S802816x2x1x2x2, .f32⟩ : BufTy).Contents (Elt F) → (⟨S802816x2x1x2x2, .f32⟩ : BufTy).Contents (Elt F) → (⟨S802816x2x2x2x2, .f32⟩ : BufTy).Contents (Elt F)) ]

/-- The buffers stretch 8 writes, one per operation. -/
abbrev seg8_W : List (Ref sig .tc) := [main_c_30, main_call15_c, main_call15_v0, main_call15_c_0, main_call15_v1, main_call15_v2, main_call15_v3, main_call15_c_1, main_call15_v4, main_call15_c_2, main_call15_v5, main_call15_v6, main_call15_v7, main_call15_v8, main_call15_c_3, main_call15_v9, main_call15_v10, main_call15_v11, main_call15_cst, main_call15_v12, main_v160, main_c_31, main_call16_c, main_call16_v0, main_call16_c_0, main_call16_v1, main_call16_v2, main_call16_v3, main_call16_c_1, main_call16_v4, main_call16_c_2, main_call16_v5, main_call16_v6, main_call16_v7, main_call16_v8, main_call16_c_3, main_call16_v9, main_call16_v10, main_call16_v11, main_call16_cst, main_call16_v12, main_v161, main_v162, main_v163, main_v164, main_v165]

set_option maxRecDepth 65536 in
theorem seg8_writes : (seg8 : List (HloOp τ sig (Elt F))).Forall fun op => op.writes ⊆ (seg8_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 8, from any contents `W`, `main_v165` holds the stretch's composed function of what `W` has at the buffers the stretch reads. -/
theorem seg8_main_v165 (W : Valuation τ sig (Elt F)) :
    after seg8 W (main_v165 : DevRef τ sig) = gCx1 (W (main_v159 : DevRef τ sig)) := by
  simp only [seg8]
  after_results_simp
  rfl

/-- Stretch 9 of @main: operations 505 … 567, ending where `main_v186` is written. -/
abbrev seg9 : List (HloOp τ sig (Elt F)) :=
  [ StableHlo.unary main_arg1 main_v166 ((extractStridedSlice S1 ![2] · slices_S4_S1_2) : (⟨S4, .f32⟩ : BufTy).Contents (Elt F) → (⟨S1, .f32⟩ : BufTy).Contents (Elt F)),
    StableHlo.reshape main_v166 main_v167 rfl shapeCasts_S1_S_,
    StableHlo.nullary main_c_32 (constantI S_ 32 0#32),
    StableHlo.TRef.nullary main_call18.c (constantI S_ 32 0#32),
    StableHlo.TRef.binary (.of main_c_32) main_call18.c main_call18.v0 (cmpi .slt),
    StableHlo.TRef.nullary main_call18.c_0 (constantI S_ 32 2#32),
    StableHlo.TRef.binary (.of main_c_32) main_call18.c_0 main_call18.v1 addi,
    StableHlo.TRef.ternary main_call18.v0 main_call18.v1 (.of main_c_32) main_call18.call0.v0 select,
    StableHlo.TRef.unary main_call18.call0.v0 main_call18.v3 (broadcastInDim S1 ![] bcast_S_S1),
    StableHlo.TRef.nullary main_call18.c_1 (constantI S1 32 1#32),
    StableHlo.TRef.unary main_call18.v3 main_call18.v4 id,
    StableHlo.TRef.nullary main_call18.c_2 (constantI S_ 32 0#32),
    StableHlo.TRef.unary main_call18.c_2 main_call18.v5 (broadcastInDim S1 ![] bcast_S_S1),
    StableHlo.TRef.binary main_call18.v4 main_call18.v5 main_call18.v6 (cmpi .sge),
    StableHlo.TRef.binary main_call18.v4 main_call18.c_1 main_call18.v7 (cmpi .sle),
    StableHlo.TRef.binary main_call18.v6 main_call18.v7 main_call18.v8 andi,
    StableHlo.TRef.nullary main_call18.c_3 (constantI S_ 1 1#1),
    StableHlo.TRef.binary main_call18.v8 main_call18.c_3 main_call18.v9 (fun x v => Host.reduce IntOp.andi x v reducesTo_S1_S_d0 h_S_),
    StableHlo.TRef.binary (.of main_v165) main_call18.v4 main_call18.v10 (fun x i => Host.gather gather_S802816x2x2x2x2_S1_S802816x2x2x2_0123_3_n_n_3_0_8028162212 x i),
    StableHlo.TRef.unary main_call18.v9 main_call18.v11 (broadcastInDim S802816x2x2x2 ![] bcast_S_S802816x2x2x2),
    StableHlo.TRef.nullary main_call18.cst (constant S_ .f32 0x7FC00000#32),
    StableHlo.TRef.unary main_call18.cst main_call18.v12 (broadcastInDim S802816x2x2x2 ![] bcast_S_S802816x2x2x2),
    StableHlo.TRef.ternary main_call18.v11 main_call18.v10 main_call18.v12 main_call18.v13 select,
    StableHlo.nullary main_c_33 (constantI S_ 32 1#32),
    StableHlo.TRef.nullary main_call19.c (constantI S_ 32 0#32),
    StableHlo.TRef.binary (.of main_c_33) main_call19.c main_call19.v0 (cmpi .slt),
    StableHlo.TRef.nullary main_call19.c_0 (constantI S_ 32 2#32),
    StableHlo.TRef.binary (.of main_c_33) main_call19.c_0 main_call19.v1 addi,
    StableHlo.TRef.ternary main_call19.v0 main_call19.v1 (.of main_c_33) main_call19.call0.v0 select,
    StableHlo.TRef.unary main_call19.call0.v0 main_call19.v3 (broadcastInDim S1 ![] bcast_S_S1),
    StableHlo.TRef.nullary main_call19.c_1 (constantI S1 32 1#32),
    StableHlo.TRef.unary main_call19.v3 main_call19.v4 id,
    StableHlo.TRef.nullary main_call19.c_2 (constantI S_ 32 0#32),
    StableHlo.TRef.unary main_call19.c_2 main_call19.v5 (broadcastInDim S1 ![] bcast_S_S1),
    StableHlo.TRef.binary main_call19.v4 main_call19.v5 main_call19.v6 (cmpi .sge),
    StableHlo.TRef.binary main_call19.v4 main_call19.c_1 main_call19.v7 (cmpi .sle),
    StableHlo.TRef.binary main_call19.v6 main_call19.v7 main_call19.v8 andi,
    StableHlo.TRef.nullary main_call19.c_3 (constantI S_ 1 1#1),
    StableHlo.TRef.binary main_call19.v8 main_call19.c_3 main_call19.v9 (fun x v => Host.reduce IntOp.andi x v reducesTo_S1_S_d0 h_S_),
    StableHlo.TRef.binary (.of main_v165) main_call19.v4 main_call19.v10 (fun x i => Host.gather gather_S802816x2x2x2x2_S1_S802816x2x2x2_0123_3_n_n_3_0_8028162212 x i),
    StableHlo.TRef.unary main_call19.v9 main_call19.v11 (broadcastInDim S802816x2x2x2 ![] bcast_S_S802816x2x2x2),
    StableHlo.TRef.nullary main_call19.cst (constant S_ .f32 0x7FC00000#32),
    StableHlo.TRef.unary main_call19.cst main_call19.v12 (broadcastInDim S802816x2x2x2 ![] bcast_S_S802816x2x2x2),
    StableHlo.TRef.ternary main_call19.v11 main_call19.v10 main_call19.v12 main_call19.v13 select,
    StableHlo.nullary main_cst_34 (constant S_ .f32 0x3F000000#32),
    StableHlo.binary main_v167 main_cst_34 main_v170 (mulf : (⟨S_, .f32⟩ : BufTy).Contents (Elt F) → (⟨S_, .f32⟩ : BufTy).Contents (Elt F) → (⟨S_, .f32⟩ : BufTy).Contents (Elt F)),
    StableHlo.unary main_v170 main_v171 (Host.cos : (⟨S_, .f32⟩ : BufTy).Contents (Elt F) → (⟨S_, .f32⟩ : BufTy).Contents (Elt F)),
    StableHlo.nullary main_cst_35 (constant S_ .f32 0x3F000000#32),
    StableHlo.binary main_v167 main_cst_35 main_v172 (mulf : (⟨S_, .f32⟩ : BufTy).Contents (Elt F) → (⟨S_, .f32⟩ : BufTy).Contents (Elt F) → (⟨S_, .f32⟩ : BufTy).Contents (Elt F)),
    StableHlo.unary main_v172 main_v173 (Host.sin : (⟨S_, .f32⟩ : BufTy).Contents (Elt F) → (⟨S_, .f32⟩ : BufTy).Contents (Elt F)),
    StableHlo.unary main_v171 main_v174 (broadcastInDim S802816x2x2x2 ![] bcast_S_S802816x2x2x2 : (⟨S_, .f32⟩ : BufTy).Contents (Elt F) → (⟨S802816x2x2x2, .f32⟩ : BufTy).Contents (Elt F)),
    StableHlo.binary main_v174 main_v168 main_v175 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v173 main_v176 (broadcastInDim S802816x2x2x2 ![] bcast_S_S802816x2x2x2 : (⟨S_, .f32⟩ : BufTy).Contents (Elt F) → (⟨S802816x2x2x2, .f32⟩ : BufTy).Contents (Elt F)),
    StableHlo.binary main_v176 main_v169 main_v177 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v175 main_v177 main_v178 (subf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v173 main_v179 (broadcastInDim S802816x2x2x2 ![] bcast_S_S802816x2x2x2 : (⟨S_, .f32⟩ : BufTy).Contents (Elt F) → (⟨S802816x2x2x2, .f32⟩ : BufTy).Contents (Elt F)),
    StableHlo.binary main_v179 main_v168 main_v180 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v171 main_v181 (broadcastInDim S802816x2x2x2 ![] bcast_S_S802816x2x2x2 : (⟨S_, .f32⟩ : BufTy).Contents (Elt F) → (⟨S802816x2x2x2, .f32⟩ : BufTy).Contents (Elt F)),
    StableHlo.binary main_v181 main_v169 main_v182 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v180 main_v182 main_v183 (addf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v178 main_v184 (broadcastInDim S802816x2x2x1x2 ![0, 1, 2, 4] bcast_S802816x2x2x2_S802816x2x2x1x2_0_1_2_4 : (⟨S802816x2x2x2, .f32⟩ : BufTy).Contents (Elt F) → (⟨S802816x2x2x1x2, .f32⟩ : BufTy).Contents (Elt F)),
    StableHlo.unary main_v183 main_v185 (broadcastInDim S802816x2x2x1x2 ![0, 1, 2, 4] bcast_S802816x2x2x2_S802816x2x2x1x2_0_1_2_4 : (⟨S802816x2x2x2, .f32⟩ : BufTy).Contents (Elt F) → (⟨S802816x2x2x1x2, .f32⟩ : BufTy).Contents (Elt F)),
    StableHlo.binary main_v184 main_v185 main_v186 ((fun a b => concatenate S802816x2x2x2x2 3 [⟨S802816x2x2x1x2, a⟩, ⟨S802816x2x2x1x2, b⟩] concatenates_S802816x2x2x1x2_S802816x2x2x1x2_S802816x2x2x2x2_d3) : (⟨S802816x2x2x1x2, .f32⟩ : BufTy).Contents (Elt F) → (⟨S802816x2x2x1x2, .f32⟩ : BufTy).Contents (Elt F) → (⟨S802816x2x2x2x2, .f32⟩ : BufTy).Contents (Elt F)) ]

/-- The buffers stretch 9 writes, one per operation. -/
abbrev seg9_W : List (Ref sig .tc) := [main_v166, main_v167, main_c_32, main_call18_c, main_call18_v0, main_call18_c_0, main_call18_v1, main_call18_v2, main_call18_v3, main_call18_c_1, main_call18_v4, main_call18_c_2, main_call18_v5, main_call18_v6, main_call18_v7, main_call18_v8, main_call18_c_3, main_call18_v9, main_call18_v10, main_call18_v11, main_call18_cst, main_call18_v12, main_v168, main_c_33, main_call19_c, main_call19_v0, main_call19_c_0, main_call19_v1, main_call19_v2, main_call19_v3, main_call19_c_1, main_call19_v4, main_call19_c_2, main_call19_v5, main_call19_v6, main_call19_v7, main_call19_v8, main_call19_c_3, main_call19_v9, main_call19_v10, main_call19_v11, main_call19_cst, main_call19_v12, main_v169, main_cst_34, main_v170, main_v171, main_cst_35, main_v172, main_v173, main_v174, main_v175, main_v176, main_v177, main_v178, main_v179, main_v180, main_v181, main_v182, main_v183, main_v184, main_v185, main_v186]

set_option maxRecDepth 65536 in
theorem seg9_writes : (seg9 : List (HloOp τ sig (Elt F))).Forall fun op => op.writes ⊆ (seg9_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 9, from any contents `W`, `main_v186` holds the stretch's composed function of what `W` has at the buffers the stretch reads. -/
theorem seg9_main_v186 (W : Valuation τ sig (Elt F)) :
    after seg9 W (main_v186 : DevRef τ sig) = gRyP2 (W (main_v165 : DevRef τ sig)) (W (main_arg1 : DevRef τ sig)) := by
  simp only [seg9]
  after_results_simp
  rfl

/-- Stretch 10 of @main: operations 568 … 613, ending where `main_v192` is written. -/
abbrev seg10 : List (HloOp τ sig (Elt F)) :=
  [ StableHlo.nullary main_c_36 (constantI S_ 32 0#32),
    StableHlo.TRef.nullary main_call20.c (constantI S_ 32 0#32),
    StableHlo.TRef.binary (.of main_c_36) main_call20.c main_call20.v0 (cmpi .slt),
    StableHlo.TRef.nullary main_call20.c_0 (constantI S_ 32 2#32),
    StableHlo.TRef.binary (.of main_c_36) main_call20.c_0 main_call20.v1 addi,
    StableHlo.TRef.ternary main_call20.v0 main_call20.v1 (.of main_c_36) main_call20.call0.v0 select,
    StableHlo.TRef.unary main_call20.call0.v0 main_call20.v3 (broadcastInDim S1 ![] bcast_S_S1),
    StableHlo.TRef.nullary main_call20.c_1 (constantI S1 32 1#32),
    StableHlo.TRef.unary main_call20.v3 main_call20.v4 id,
    StableHlo.TRef.nullary main_call20.c_2 (constantI S_ 32 0#32),
    StableHlo.TRef.unary main_call20.c_2 main_call20.v5 (broadcastInDim S1 ![] bcast_S_S1),
    StableHlo.TRef.binary main_call20.v4 main_call20.v5 main_call20.v6 (cmpi .sge),
    StableHlo.TRef.binary main_call20.v4 main_call20.c_1 main_call20.v7 (cmpi .sle),
    StableHlo.TRef.binary main_call20.v6 main_call20.v7 main_call20.v8 andi,
    StableHlo.TRef.nullary main_call20.c_3 (constantI S_ 1 1#1),
    StableHlo.TRef.binary main_call20.v8 main_call20.c_3 main_call20.v9 (fun x v => Host.reduce IntOp.andi x v reducesTo_S1_S_d0 h_S_),
    StableHlo.TRef.binary (.of main_v186) main_call20.v4 main_call20.v10 (fun x i => Host.gather gather_S802816x2x2x2x2_S1_S802816x2x2x2_0123_3_n_n_3_0_8028162212 x i),
    StableHlo.TRef.unary main_call20.v9 main_call20.v11 (broadcastInDim S802816x2x2x2 ![] bcast_S_S802816x2x2x2),
    StableHlo.TRef.nullary main_call20.cst (constant S_ .f32 0x7FC00000#32),
    StableHlo.TRef.unary main_call20.cst main_call20.v12 (broadcastInDim S802816x2x2x2 ![] bcast_S_S802816x2x2x2),
    StableHlo.TRef.ternary main_call20.v11 main_call20.v10 main_call20.v12 main_call20.v13 select,
    StableHlo.nullary main_c_37 (constantI S_ 32 1#32),
    StableHlo.TRef.nullary main_call21.c (constantI S_ 32 0#32),
    StableHlo.TRef.binary (.of main_c_37) main_call21.c main_call21.v0 (cmpi .slt),
    StableHlo.TRef.nullary main_call21.c_0 (constantI S_ 32 2#32),
    StableHlo.TRef.binary (.of main_c_37) main_call21.c_0 main_call21.v1 addi,
    StableHlo.TRef.ternary main_call21.v0 main_call21.v1 (.of main_c_37) main_call21.call0.v0 select,
    StableHlo.TRef.unary main_call21.call0.v0 main_call21.v3 (broadcastInDim S1 ![] bcast_S_S1),
    StableHlo.TRef.nullary main_call21.c_1 (constantI S1 32 1#32),
    StableHlo.TRef.unary main_call21.v3 main_call21.v4 id,
    StableHlo.TRef.nullary main_call21.c_2 (constantI S_ 32 0#32),
    StableHlo.TRef.unary main_call21.c_2 main_call21.v5 (broadcastInDim S1 ![] bcast_S_S1),
    StableHlo.TRef.binary main_call21.v4 main_call21.v5 main_call21.v6 (cmpi .sge),
    StableHlo.TRef.binary main_call21.v4 main_call21.c_1 main_call21.v7 (cmpi .sle),
    StableHlo.TRef.binary main_call21.v6 main_call21.v7 main_call21.v8 andi,
    StableHlo.TRef.nullary main_call21.c_3 (constantI S_ 1 1#1),
    StableHlo.TRef.binary main_call21.v8 main_call21.c_3 main_call21.v9 (fun x v => Host.reduce IntOp.andi x v reducesTo_S1_S_d0 h_S_),
    StableHlo.TRef.binary (.of main_v186) main_call21.v4 main_call21.v10 (fun x i => Host.gather gather_S802816x2x2x2x2_S1_S802816x2x2x2_0123_3_n_n_3_0_8028162212 x i),
    StableHlo.TRef.unary main_call21.v9 main_call21.v11 (broadcastInDim S802816x2x2x2 ![] bcast_S_S802816x2x2x2),
    StableHlo.TRef.nullary main_call21.cst (constant S_ .f32 0x7FC00000#32),
    StableHlo.TRef.unary main_call21.cst main_call21.v12 (broadcastInDim S802816x2x2x2 ![] bcast_S_S802816x2x2x2),
    StableHlo.TRef.ternary main_call21.v11 main_call21.v10 main_call21.v12 main_call21.v13 select,
    StableHlo.TRef.unary (.of main_v188) main_call22.v0 (Host.reverse [3]),
    StableHlo.unary main_v187 main_v190 (broadcastInDim S802816x2x2x1x2 ![0, 1, 2, 4] bcast_S802816x2x2x2_S802816x2x2x1x2_0_1_2_4 : (⟨S802816x2x2x2, .f32⟩ : BufTy).Contents (Elt F) → (⟨S802816x2x2x1x2, .f32⟩ : BufTy).Contents (Elt F)),
    StableHlo.unary main_v189 main_v191 (broadcastInDim S802816x2x2x1x2 ![0, 1, 2, 4] bcast_S802816x2x2x2_S802816x2x2x1x2_0_1_2_4 : (⟨S802816x2x2x2, .f32⟩ : BufTy).Contents (Elt F) → (⟨S802816x2x2x1x2, .f32⟩ : BufTy).Contents (Elt F)),
    StableHlo.binary main_v190 main_v191 main_v192 ((fun a b => concatenate S802816x2x2x2x2 3 [⟨S802816x2x2x1x2, a⟩, ⟨S802816x2x2x1x2, b⟩] concatenates_S802816x2x2x1x2_S802816x2x2x1x2_S802816x2x2x2x2_d3) : (⟨S802816x2x2x1x2, .f32⟩ : BufTy).Contents (Elt F) → (⟨S802816x2x2x1x2, .f32⟩ : BufTy).Contents (Elt F) → (⟨S802816x2x2x2x2, .f32⟩ : BufTy).Contents (Elt F)) ]

/-- The buffers stretch 10 writes, one per operation. -/
abbrev seg10_W : List (Ref sig .tc) := [main_c_36, main_call20_c, main_call20_v0, main_call20_c_0, main_call20_v1, main_call20_v2, main_call20_v3, main_call20_c_1, main_call20_v4, main_call20_c_2, main_call20_v5, main_call20_v6, main_call20_v7, main_call20_v8, main_call20_c_3, main_call20_v9, main_call20_v10, main_call20_v11, main_call20_cst, main_call20_v12, main_v187, main_c_37, main_call21_c, main_call21_v0, main_call21_c_0, main_call21_v1, main_call21_v2, main_call21_v3, main_call21_c_1, main_call21_v4, main_call21_c_2, main_call21_v5, main_call21_v6, main_call21_v7, main_call21_v8, main_call21_c_3, main_call21_v9, main_call21_v10, main_call21_v11, main_call21_cst, main_call21_v12, main_v188, main_v189, main_v190, main_v191, main_v192]

set_option maxRecDepth 65536 in
theorem seg10_writes : (seg10 : List (HloOp τ sig (Elt F))).Forall fun op => op.writes ⊆ (seg10_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 10, from any contents `W`, `main_v192` holds the stretch's composed function of what `W` has at the buffers the stretch reads. -/
theorem seg10_main_v192 (W : Valuation τ sig (Elt F)) :
    after seg10 W (main_v192 : DevRef τ sig) = gCx2 (W (main_v186 : DevRef τ sig)) := by
  simp only [seg10]
  after_results_simp
  rfl

/-- Stretch 11 of @main: operations 614 … 676, ending where `main_v213` is written. -/
abbrev seg11 : List (HloOp τ sig (Elt F)) :=
  [ StableHlo.unary main_arg1 main_v193 ((extractStridedSlice S1 ![3] · slices_S4_S1_3) : (⟨S4, .f32⟩ : BufTy).Contents (Elt F) → (⟨S1, .f32⟩ : BufTy).Contents (Elt F)),
    StableHlo.reshape main_v193 main_v194 rfl shapeCasts_S1_S_,
    StableHlo.nullary main_c_38 (constantI S_ 32 0#32),
    StableHlo.TRef.nullary main_call23.c (constantI S_ 32 0#32),
    StableHlo.TRef.binary (.of main_c_38) main_call23.c main_call23.v0 (cmpi .slt),
    StableHlo.TRef.nullary main_call23.c_0 (constantI S_ 32 2#32),
    StableHlo.TRef.binary (.of main_c_38) main_call23.c_0 main_call23.v1 addi,
    StableHlo.TRef.ternary main_call23.v0 main_call23.v1 (.of main_c_38) main_call23.call0.v0 select,
    StableHlo.TRef.unary main_call23.call0.v0 main_call23.v3 (broadcastInDim S1 ![] bcast_S_S1),
    StableHlo.TRef.nullary main_call23.c_1 (constantI S1 32 1#32),
    StableHlo.TRef.unary main_call23.v3 main_call23.v4 id,
    StableHlo.TRef.nullary main_call23.c_2 (constantI S_ 32 0#32),
    StableHlo.TRef.unary main_call23.c_2 main_call23.v5 (broadcastInDim S1 ![] bcast_S_S1),
    StableHlo.TRef.binary main_call23.v4 main_call23.v5 main_call23.v6 (cmpi .sge),
    StableHlo.TRef.binary main_call23.v4 main_call23.c_1 main_call23.v7 (cmpi .sle),
    StableHlo.TRef.binary main_call23.v6 main_call23.v7 main_call23.v8 andi,
    StableHlo.TRef.nullary main_call23.c_3 (constantI S_ 1 1#1),
    StableHlo.TRef.binary main_call23.v8 main_call23.c_3 main_call23.v9 (fun x v => Host.reduce IntOp.andi x v reducesTo_S1_S_d0 h_S_),
    StableHlo.TRef.binary (.of main_v192) main_call23.v4 main_call23.v10 (fun x i => Host.gather gather_S802816x2x2x2x2_S1_S802816x2x2x2_0123_4_n_n_4_0_8028162221 x i),
    StableHlo.TRef.unary main_call23.v9 main_call23.v11 (broadcastInDim S802816x2x2x2 ![] bcast_S_S802816x2x2x2),
    StableHlo.TRef.nullary main_call23.cst (constant S_ .f32 0x7FC00000#32),
    StableHlo.TRef.unary main_call23.cst main_call23.v12 (broadcastInDim S802816x2x2x2 ![] bcast_S_S802816x2x2x2),
    StableHlo.TRef.ternary main_call23.v11 main_call23.v10 main_call23.v12 main_call23.v13 select,
    StableHlo.nullary main_c_39 (constantI S_ 32 1#32),
    StableHlo.TRef.nullary main_call24.c (constantI S_ 32 0#32),
    StableHlo.TRef.binary (.of main_c_39) main_call24.c main_call24.v0 (cmpi .slt),
    StableHlo.TRef.nullary main_call24.c_0 (constantI S_ 32 2#32),
    StableHlo.TRef.binary (.of main_c_39) main_call24.c_0 main_call24.v1 addi,
    StableHlo.TRef.ternary main_call24.v0 main_call24.v1 (.of main_c_39) main_call24.call0.v0 select,
    StableHlo.TRef.unary main_call24.call0.v0 main_call24.v3 (broadcastInDim S1 ![] bcast_S_S1),
    StableHlo.TRef.nullary main_call24.c_1 (constantI S1 32 1#32),
    StableHlo.TRef.unary main_call24.v3 main_call24.v4 id,
    StableHlo.TRef.nullary main_call24.c_2 (constantI S_ 32 0#32),
    StableHlo.TRef.unary main_call24.c_2 main_call24.v5 (broadcastInDim S1 ![] bcast_S_S1),
    StableHlo.TRef.binary main_call24.v4 main_call24.v5 main_call24.v6 (cmpi .sge),
    StableHlo.TRef.binary main_call24.v4 main_call24.c_1 main_call24.v7 (cmpi .sle),
    StableHlo.TRef.binary main_call24.v6 main_call24.v7 main_call24.v8 andi,
    StableHlo.TRef.nullary main_call24.c_3 (constantI S_ 1 1#1),
    StableHlo.TRef.binary main_call24.v8 main_call24.c_3 main_call24.v9 (fun x v => Host.reduce IntOp.andi x v reducesTo_S1_S_d0 h_S_),
    StableHlo.TRef.binary (.of main_v192) main_call24.v4 main_call24.v10 (fun x i => Host.gather gather_S802816x2x2x2x2_S1_S802816x2x2x2_0123_4_n_n_4_0_8028162221 x i),
    StableHlo.TRef.unary main_call24.v9 main_call24.v11 (broadcastInDim S802816x2x2x2 ![] bcast_S_S802816x2x2x2),
    StableHlo.TRef.nullary main_call24.cst (constant S_ .f32 0x7FC00000#32),
    StableHlo.TRef.unary main_call24.cst main_call24.v12 (broadcastInDim S802816x2x2x2 ![] bcast_S_S802816x2x2x2),
    StableHlo.TRef.ternary main_call24.v11 main_call24.v10 main_call24.v12 main_call24.v13 select,
    StableHlo.nullary main_cst_40 (constant S_ .f32 0x3F000000#32),
    StableHlo.binary main_v194 main_cst_40 main_v197 (mulf : (⟨S_, .f32⟩ : BufTy).Contents (Elt F) → (⟨S_, .f32⟩ : BufTy).Contents (Elt F) → (⟨S_, .f32⟩ : BufTy).Contents (Elt F)),
    StableHlo.unary main_v197 main_v198 (Host.cos : (⟨S_, .f32⟩ : BufTy).Contents (Elt F) → (⟨S_, .f32⟩ : BufTy).Contents (Elt F)),
    StableHlo.nullary main_cst_41 (constant S_ .f32 0x3F000000#32),
    StableHlo.binary main_v194 main_cst_41 main_v199 (mulf : (⟨S_, .f32⟩ : BufTy).Contents (Elt F) → (⟨S_, .f32⟩ : BufTy).Contents (Elt F) → (⟨S_, .f32⟩ : BufTy).Contents (Elt F)),
    StableHlo.unary main_v199 main_v200 (Host.sin : (⟨S_, .f32⟩ : BufTy).Contents (Elt F) → (⟨S_, .f32⟩ : BufTy).Contents (Elt F)),
    StableHlo.unary main_v198 main_v201 (broadcastInDim S802816x2x2x2 ![] bcast_S_S802816x2x2x2 : (⟨S_, .f32⟩ : BufTy).Contents (Elt F) → (⟨S802816x2x2x2, .f32⟩ : BufTy).Contents (Elt F)),
    StableHlo.binary main_v201 main_v195 main_v202 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v200 main_v203 (broadcastInDim S802816x2x2x2 ![] bcast_S_S802816x2x2x2 : (⟨S_, .f32⟩ : BufTy).Contents (Elt F) → (⟨S802816x2x2x2, .f32⟩ : BufTy).Contents (Elt F)),
    StableHlo.binary main_v203 main_v196 main_v204 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v202 main_v204 main_v205 (subf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v200 main_v206 (broadcastInDim S802816x2x2x2 ![] bcast_S_S802816x2x2x2 : (⟨S_, .f32⟩ : BufTy).Contents (Elt F) → (⟨S802816x2x2x2, .f32⟩ : BufTy).Contents (Elt F)),
    StableHlo.binary main_v206 main_v195 main_v207 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v198 main_v208 (broadcastInDim S802816x2x2x2 ![] bcast_S_S802816x2x2x2 : (⟨S_, .f32⟩ : BufTy).Contents (Elt F) → (⟨S802816x2x2x2, .f32⟩ : BufTy).Contents (Elt F)),
    StableHlo.binary main_v208 main_v196 main_v209 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v207 main_v209 main_v210 (addf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v205 main_v211 (broadcastInDim S802816x2x2x2x1 ![0, 1, 2, 3] bcast_S802816x2x2x2_S802816x2x2x2x1_0_1_2_3 : (⟨S802816x2x2x2, .f32⟩ : BufTy).Contents (Elt F) → (⟨S802816x2x2x2x1, .f32⟩ : BufTy).Contents (Elt F)),
    StableHlo.unary main_v210 main_v212 (broadcastInDim S802816x2x2x2x1 ![0, 1, 2, 3] bcast_S802816x2x2x2_S802816x2x2x2x1_0_1_2_3 : (⟨S802816x2x2x2, .f32⟩ : BufTy).Contents (Elt F) → (⟨S802816x2x2x2x1, .f32⟩ : BufTy).Contents (Elt F)),
    StableHlo.binary main_v211 main_v212 main_v213 ((fun a b => concatenate S802816x2x2x2x2 4 [⟨S802816x2x2x2x1, a⟩, ⟨S802816x2x2x2x1, b⟩] concatenates_S802816x2x2x2x1_S802816x2x2x2x1_S802816x2x2x2x2_d4) : (⟨S802816x2x2x2x1, .f32⟩ : BufTy).Contents (Elt F) → (⟨S802816x2x2x2x1, .f32⟩ : BufTy).Contents (Elt F) → (⟨S802816x2x2x2x2, .f32⟩ : BufTy).Contents (Elt F)) ]

/-- The buffers stretch 11 writes, one per operation. -/
abbrev seg11_W : List (Ref sig .tc) := [main_v193, main_v194, main_c_38, main_call23_c, main_call23_v0, main_call23_c_0, main_call23_v1, main_call23_v2, main_call23_v3, main_call23_c_1, main_call23_v4, main_call23_c_2, main_call23_v5, main_call23_v6, main_call23_v7, main_call23_v8, main_call23_c_3, main_call23_v9, main_call23_v10, main_call23_v11, main_call23_cst, main_call23_v12, main_v195, main_c_39, main_call24_c, main_call24_v0, main_call24_c_0, main_call24_v1, main_call24_v2, main_call24_v3, main_call24_c_1, main_call24_v4, main_call24_c_2, main_call24_v5, main_call24_v6, main_call24_v7, main_call24_v8, main_call24_c_3, main_call24_v9, main_call24_v10, main_call24_v11, main_call24_cst, main_call24_v12, main_v196, main_cst_40, main_v197, main_v198, main_cst_41, main_v199, main_v200, main_v201, main_v202, main_v203, main_v204, main_v205, main_v206, main_v207, main_v208, main_v209, main_v210, main_v211, main_v212, main_v213]

set_option maxRecDepth 65536 in
theorem seg11_writes : (seg11 : List (HloOp τ sig (Elt F))).Forall fun op => op.writes ⊆ (seg11_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 11, from any contents `W`, `main_v213` holds the stretch's composed function of what `W` has at the buffers the stretch reads. -/
theorem seg11_main_v213 (W : Valuation τ sig (Elt F)) :
    after seg11 W (main_v213 : DevRef τ sig) = gRyP3 (W (main_v192 : DevRef τ sig)) (W (main_arg1 : DevRef τ sig)) := by
  simp only [seg11]
  after_results_simp
  rfl

end Cert.ReferenceIdeal.RefRun

end
-- ==== Proof.RefSeg3.lean ====
/- Stretches 12 … 15 of the reference program's @main (a stretch ends where a state of the simulated register, or one of
   the arrays before the first and after the last state, is written): each as the list of its operations, the list of the
   buffers it writes, and its result as the stretch's composed function of the buffers it reads. -/
import proofs.«159359_j65481071398168_2_alg».proof.Proof.RefGateDefs
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Stretch 12 of @main: operations 677 … 722, ending where `main_v219` is written. -/
abbrev seg12 : List (HloOp τ sig (Elt F)) :=
  [ StableHlo.nullary main_c_42 (constantI S_ 32 0#32),
    StableHlo.TRef.nullary main_call25.c (constantI S_ 32 0#32),
    StableHlo.TRef.binary (.of main_c_42) main_call25.c main_call25.v0 (cmpi .slt),
    StableHlo.TRef.nullary main_call25.c_0 (constantI S_ 32 2#32),
    StableHlo.TRef.binary (.of main_c_42) main_call25.c_0 main_call25.v1 addi,
    StableHlo.TRef.ternary main_call25.v0 main_call25.v1 (.of main_c_42) main_call25.call0.v0 select,
    StableHlo.TRef.unary main_call25.call0.v0 main_call25.v3 (broadcastInDim S1 ![] bcast_S_S1),
    StableHlo.TRef.nullary main_call25.c_1 (constantI S1 32 1#32),
    StableHlo.TRef.unary main_call25.v3 main_call25.v4 id,
    StableHlo.TRef.nullary main_call25.c_2 (constantI S_ 32 0#32),
    StableHlo.TRef.unary main_call25.c_2 main_call25.v5 (broadcastInDim S1 ![] bcast_S_S1),
    StableHlo.TRef.binary main_call25.v4 main_call25.v5 main_call25.v6 (cmpi .sge),
    StableHlo.TRef.binary main_call25.v4 main_call25.c_1 main_call25.v7 (cmpi .sle),
    StableHlo.TRef.binary main_call25.v6 main_call25.v7 main_call25.v8 andi,
    StableHlo.TRef.nullary main_call25.c_3 (constantI S_ 1 1#1),
    StableHlo.TRef.binary main_call25.v8 main_call25.c_3 main_call25.v9 (fun x v => Host.reduce IntOp.andi x v reducesTo_S1_S_d0 h_S_),
    StableHlo.TRef.binary (.of main_v213) main_call25.v4 main_call25.v10 (fun x i => Host.gather gather_S802816x2x2x2x2_S1_S802816x2x2x2_0123_4_n_n_4_0_8028162221 x i),
    StableHlo.TRef.unary main_call25.v9 main_call25.v11 (broadcastInDim S802816x2x2x2 ![] bcast_S_S802816x2x2x2),
    StableHlo.TRef.nullary main_call25.cst (constant S_ .f32 0x7FC00000#32),
    StableHlo.TRef.unary main_call25.cst main_call25.v12 (broadcastInDim S802816x2x2x2 ![] bcast_S_S802816x2x2x2),
    StableHlo.TRef.ternary main_call25.v11 main_call25.v10 main_call25.v12 main_call25.v13 select,
    StableHlo.nullary main_c_43 (constantI S_ 32 1#32),
    StableHlo.TRef.nullary main_call26.c (constantI S_ 32 0#32),
    StableHlo.TRef.binary (.of main_c_43) main_call26.c main_call26.v0 (cmpi .slt),
    StableHlo.TRef.nullary main_call26.c_0 (constantI S_ 32 2#32),
    StableHlo.TRef.binary (.of main_c_43) main_call26.c_0 main_call26.v1 addi,
    StableHlo.TRef.ternary main_call26.v0 main_call26.v1 (.of main_c_43) main_call26.call0.v0 select,
    StableHlo.TRef.unary main_call26.call0.v0 main_call26.v3 (broadcastInDim S1 ![] bcast_S_S1),
    StableHlo.TRef.nullary main_call26.c_1 (constantI S1 32 1#32),
    StableHlo.TRef.unary main_call26.v3 main_call26.v4 id,
    StableHlo.TRef.nullary main_call26.c_2 (constantI S_ 32 0#32),
    StableHlo.TRef.unary main_call26.c_2 main_call26.v5 (broadcastInDim S1 ![] bcast_S_S1),
    StableHlo.TRef.binary main_call26.v4 main_call26.v5 main_call26.v6 (cmpi .sge),
    StableHlo.TRef.binary main_call26.v4 main_call26.c_1 main_call26.v7 (cmpi .sle),
    StableHlo.TRef.binary main_call26.v6 main_call26.v7 main_call26.v8 andi,
    StableHlo.TRef.nullary main_call26.c_3 (constantI S_ 1 1#1),
    StableHlo.TRef.binary main_call26.v8 main_call26.c_3 main_call26.v9 (fun x v => Host.reduce IntOp.andi x v reducesTo_S1_S_d0 h_S_),
    StableHlo.TRef.binary (.of main_v213) main_call26.v4 main_call26.v10 (fun x i => Host.gather gather_S802816x2x2x2x2_S1_S802816x2x2x2_0123_4_n_n_4_0_8028162221 x i),
    StableHlo.TRef.unary main_call26.v9 main_call26.v11 (broadcastInDim S802816x2x2x2 ![] bcast_S_S802816x2x2x2),
    StableHlo.TRef.nullary main_call26.cst (constant S_ .f32 0x7FC00000#32),
    StableHlo.TRef.unary main_call26.cst main_call26.v12 (broadcastInDim S802816x2x2x2 ![] bcast_S_S802816x2x2x2),
    StableHlo.TRef.ternary main_call26.v11 main_call26.v10 main_call26.v12 main_call26.v13 select,
    StableHlo.TRef.unary (.of main_v215) main_call27.v0 (Host.reverse [1]),
    StableHlo.unary main_v214 main_v217 (broadcastInDim S802816x2x2x2x1 ![0, 1, 2, 3] bcast_S802816x2x2x2_S802816x2x2x2x1_0_1_2_3 : (⟨S802816x2x2x2, .f32⟩ : BufTy).Contents (Elt F) → (⟨S802816x2x2x2x1, .f32⟩ : BufTy).Contents (Elt F)),
    StableHlo.unary main_v216 main_v218 (broadcastInDim S802816x2x2x2x1 ![0, 1, 2, 3] bcast_S802816x2x2x2_S802816x2x2x2x1_0_1_2_3 : (⟨S802816x2x2x2, .f32⟩ : BufTy).Contents (Elt F) → (⟨S802816x2x2x2x1, .f32⟩ : BufTy).Contents (Elt F)),
    StableHlo.binary main_v217 main_v218 main_v219 ((fun a b => concatenate S802816x2x2x2x2 4 [⟨S802816x2x2x2x1, a⟩, ⟨S802816x2x2x2x1, b⟩] concatenates_S802816x2x2x2x1_S802816x2x2x2x1_S802816x2x2x2x2_d4) : (⟨S802816x2x2x2x1, .f32⟩ : BufTy).Contents (Elt F) → (⟨S802816x2x2x2x1, .f32⟩ : BufTy).Contents (Elt F) → (⟨S802816x2x2x2x2, .f32⟩ : BufTy).Contents (Elt F)) ]

/-- The buffers stretch 12 writes, one per operation. -/
abbrev seg12_W : List (Ref sig .tc) := [main_c_42, main_call25_c, main_call25_v0, main_call25_c_0, main_call25_v1, main_call25_v2, main_call25_v3, main_call25_c_1, main_call25_v4, main_call25_c_2, main_call25_v5, main_call25_v6, main_call25_v7, main_call25_v8, main_call25_c_3, main_call25_v9, main_call25_v10, main_call25_v11, main_call25_cst, main_call25_v12, main_v214, main_c_43, main_call26_c, main_call26_v0, main_call26_c_0, main_call26_v1, main_call26_v2, main_call26_v3, main_call26_c_1, main_call26_v4, main_call26_c_2, main_call26_v5, main_call26_v6, main_call26_v7, main_call26_v8, main_call26_c_3, main_call26_v9, main_call26_v10, main_call26_v11, main_call26_cst, main_call26_v12, main_v215, main_v216, main_v217, main_v218, main_v219]

set_option maxRecDepth 65536 in
theorem seg12_writes : (seg12 : List (HloOp τ sig (Elt F))).Forall fun op => op.writes ⊆ (seg12_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 12, from any contents `W`, `main_v219` holds the stretch's composed function of what `W` has at the buffers the stretch reads. -/
theorem seg12_main_v219 (W : Valuation τ sig (Elt F)) :
    after seg12 W (main_v219 : DevRef τ sig) = gCx3 (W (main_v213 : DevRef τ sig)) := by
  simp only [seg12]
  after_results_simp
  rfl

/-- Stretch 13 of @main: operations 723 … 789, ending where `main_v244` is written. -/
abbrev seg13 : List (HloOp τ sig (Elt F)) :=
  [ StableHlo.unary main_v3 main_v220 ((extractStridedSlice S802816x1 ![0, 0] · slices_S802816x4_S802816x1_0_0) : (⟨S802816x4, .f32⟩ : BufTy).Contents (Elt F) → (⟨S802816x1, .f32⟩ : BufTy).Contents (Elt F)),
    StableHlo.reshape main_v220 main_v221 rfl shapeCasts_S802816x1_S802816,
    StableHlo.nullary main_c_44 (constantI S_ 32 0#32),
    StableHlo.TRef.nullary main_call28.c (constantI S_ 32 0#32),
    StableHlo.TRef.binary (.of main_c_44) main_call28.c main_call28.v0 (cmpi .slt),
    StableHlo.TRef.nullary main_call28.c_0 (constantI S_ 32 2#32),
    StableHlo.TRef.binary (.of main_c_44) main_call28.c_0 main_call28.v1 addi,
    StableHlo.TRef.ternary main_call28.v0 main_call28.v1 (.of main_c_44) main_call28.call0.v0 select,
    StableHlo.TRef.unary main_call28.call0.v0 main_call28.v3 (broadcastInDim S1 ![] bcast_S_S1),
    StableHlo.TRef.nullary main_call28.c_1 (constantI S1 32 1#32),
    StableHlo.TRef.unary main_call28.v3 main_call28.v4 id,
    StableHlo.TRef.nullary main_call28.c_2 (constantI S_ 32 0#32),
    StableHlo.TRef.unary main_call28.c_2 main_call28.v5 (broadcastInDim S1 ![] bcast_S_S1),
    StableHlo.TRef.binary main_call28.v4 main_call28.v5 main_call28.v6 (cmpi .sge),
    StableHlo.TRef.binary main_call28.v4 main_call28.c_1 main_call28.v7 (cmpi .sle),
    StableHlo.TRef.binary main_call28.v6 main_call28.v7 main_call28.v8 andi,
    StableHlo.TRef.nullary main_call28.c_3 (constantI S_ 1 1#1),
    StableHlo.TRef.binary main_call28.v8 main_call28.c_3 main_call28.v9 (fun x v => Host.reduce IntOp.andi x v reducesTo_S1_S_d0 h_S_),
    StableHlo.TRef.binary (.of main_v219) main_call28.v4 main_call28.v10 (fun x i => Host.gather gather_S802816x2x2x2x2_S1_S802816x2x2x2_0123_1_n_n_1_0_8028161222 x i),
    StableHlo.TRef.unary main_call28.v9 main_call28.v11 (broadcastInDim S802816x2x2x2 ![] bcast_S_S802816x2x2x2),
    StableHlo.TRef.nullary main_call28.cst (constant S_ .f32 0x7FC00000#32),
    StableHlo.TRef.unary main_call28.cst main_call28.v12 (broadcastInDim S802816x2x2x2 ![] bcast_S_S802816x2x2x2),
    StableHlo.TRef.ternary main_call28.v11 main_call28.v10 main_call28.v12 main_call28.v13 select,
    StableHlo.nullary main_c_45 (constantI S_ 32 1#32),
    StableHlo.TRef.nullary main_call29.c (constantI S_ 32 0#32),
    StableHlo.TRef.binary (.of main_c_45) main_call29.c main_call29.v0 (cmpi .slt),
    StableHlo.TRef.nullary main_call29.c_0 (constantI S_ 32 2#32),
    StableHlo.TRef.binary (.of main_c_45) main_call29.c_0 main_call29.v1 addi,
    StableHlo.TRef.ternary main_call29.v0 main_call29.v1 (.of main_c_45) main_call29.call0.v0 select,
    StableHlo.TRef.unary main_call29.call0.v0 main_call29.v3 (broadcastInDim S1 ![] bcast_S_S1),
    StableHlo.TRef.nullary main_call29.c_1 (constantI S1 32 1#32),
    StableHlo.TRef.unary main_call29.v3 main_call29.v4 id,
    StableHlo.TRef.nullary main_call29.c_2 (constantI S_ 32 0#32),
    StableHlo.TRef.unary main_call29.c_2 main_call29.v5 (broadcastInDim S1 ![] bcast_S_S1),
    StableHlo.TRef.binary main_call29.v4 main_call29.v5 main_call29.v6 (cmpi .sge),
    StableHlo.TRef.binary main_call29.v4 main_call29.c_1 main_call29.v7 (cmpi .sle),
    StableHlo.TRef.binary main_call29.v6 main_call29.v7 main_call29.v8 andi,
    StableHlo.TRef.nullary main_call29.c_3 (constantI S_ 1 1#1),
    StableHlo.TRef.binary main_call29.v8 main_call29.c_3 main_call29.v9 (fun x v => Host.reduce IntOp.andi x v reducesTo_S1_S_d0 h_S_),
    StableHlo.TRef.binary (.of main_v219) main_call29.v4 main_call29.v10 (fun x i => Host.gather gather_S802816x2x2x2x2_S1_S802816x2x2x2_0123_1_n_n_1_0_8028161222 x i),
    StableHlo.TRef.unary main_call29.v9 main_call29.v11 (broadcastInDim S802816x2x2x2 ![] bcast_S_S802816x2x2x2),
    StableHlo.TRef.nullary main_call29.cst (constant S_ .f32 0x7FC00000#32),
    StableHlo.TRef.unary main_call29.cst main_call29.v12 (broadcastInDim S802816x2x2x2 ![] bcast_S_S802816x2x2x2),
    StableHlo.TRef.ternary main_call29.v11 main_call29.v10 main_call29.v12 main_call29.v13 select,
    StableHlo.nullary main_cst_46 (constant S_ .f32 0x3F000000#32),
    StableHlo.unary main_cst_46 main_v224 (broadcastInDim S802816 ![] bcast_S_S802816 : (⟨S_, .f32⟩ : BufTy).Contents (Elt F) → (⟨S802816, .f32⟩ : BufTy).Contents (Elt F)),
    StableHlo.binary main_v221 main_v224 main_v225 (mulf : (⟨S802816, .f32⟩ : BufTy).Contents (Elt F) → (⟨S802816, .f32⟩ : BufTy).Contents (Elt F) → (⟨S802816, .f32⟩ : BufTy).Contents (Elt F)),
    StableHlo.unary main_v225 main_v226 (Host.cos : (⟨S802816, .f32⟩ : BufTy).Contents (Elt F) → (⟨S802816, .f32⟩ : BufTy).Contents (Elt F)),
    StableHlo.nullary main_cst_47 (constant S_ .f32 0x3F000000#32),
    StableHlo.unary main_cst_47 main_v227 (broadcastInDim S802816 ![] bcast_S_S802816 : (⟨S_, .f32⟩ : BufTy).Contents (Elt F) → (⟨S802816, .f32⟩ : BufTy).Contents (Elt F)),
    StableHlo.binary main_v221 main_v227 main_v228 (mulf : (⟨S802816, .f32⟩ : BufTy).Contents (Elt F) → (⟨S802816, .f32⟩ : BufTy).Contents (Elt F) → (⟨S802816, .f32⟩ : BufTy).Contents (Elt F)),
    StableHlo.unary main_v228 main_v229 (Host.sin : (⟨S802816, .f32⟩ : BufTy).Contents (Elt F) → (⟨S802816, .f32⟩ : BufTy).Contents (Elt F)),
    StableHlo.reshape main_v226 main_v230 rfl shapeCasts_S802816_S802816x1x1x1,
    StableHlo.reshape main_v229 main_v231 rfl shapeCasts_S802816_S802816x1x1x1,
    StableHlo.unary main_v230 main_v232 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v232 main_v222 main_v233 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v231 main_v234 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v234 main_v223 main_v235 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v233 main_v235 main_v236 (subf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v231 main_v237 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v237 main_v222 main_v238 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v230 main_v239 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v239 main_v223 main_v240 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v238 main_v240 main_v241 (addf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v236 main_v242 (broadcastInDim S802816x1x2x2x2 ![0, 2, 3, 4] bcast_S802816x2x2x2_S802816x1x2x2x2_0_2_3_4 : (⟨S802816x2x2x2, .f32⟩ : BufTy).Contents (Elt F) → (⟨S802816x1x2x2x2, .f32⟩ : BufTy).Contents (Elt F)),
    StableHlo.unary main_v241 main_v243 (broadcastInDim S802816x1x2x2x2 ![0, 2, 3, 4] bcast_S802816x2x2x2_S802816x1x2x2x2_0_2_3_4 : (⟨S802816x2x2x2, .f32⟩ : BufTy).Contents (Elt F) → (⟨S802816x1x2x2x2, .f32⟩ : BufTy).Contents (Elt F)),
    StableHlo.binary main_v242 main_v243 main_v244 ((fun a b => concatenate S802816x2x2x2x2 1 [⟨S802816x1x2x2x2, a⟩, ⟨S802816x1x2x2x2, b⟩] concatenates_S802816x1x2x2x2_S802816x1x2x2x2_S802816x2x2x2x2_d1) : (⟨S802816x1x2x2x2, .f32⟩ : BufTy).Contents (Elt F) → (⟨S802816x1x2x2x2, .f32⟩ : BufTy).Contents (Elt F) → (⟨S802816x2x2x2x2, .f32⟩ : BufTy).Contents (Elt F)) ]

/-- The buffers stretch 13 writes, one per operation. -/
abbrev seg13_W : List (Ref sig .tc) := [main_v220, main_v221, main_c_44, main_call28_c, main_call28_v0, main_call28_c_0, main_call28_v1, main_call28_v2, main_call28_v3, main_call28_c_1, main_call28_v4, main_call28_c_2, main_call28_v5, main_call28_v6, main_call28_v7, main_call28_v8, main_call28_c_3, main_call28_v9, main_call28_v10, main_call28_v11, main_call28_cst, main_call28_v12, main_v222, main_c_45, main_call29_c, main_call29_v0, main_call29_c_0, main_call29_v1, main_call29_v2, main_call29_v3, main_call29_c_1, main_call29_v4, main_call29_c_2, main_call29_v5, main_call29_v6, main_call29_v7, main_call29_v8, main_call29_c_3, main_call29_v9, main_call29_v10, main_call29_v11, main_call29_cst, main_call29_v12, main_v223, main_cst_46, main_v224, main_v225, main_v226, main_cst_47, main_v227, main_v228, main_v229, main_v230, main_v231, main_v232, main_v233, main_v234, main_v235, main_v236, main_v237, main_v238, main_v239, main_v240, main_v241, main_v242, main_v243, main_v244]

set_option maxRecDepth 65536 in
theorem seg13_writes : (seg13 : List (HloOp τ sig (Elt F))).Forall fun op => op.writes ⊆ (seg13_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 13, from any contents `W`, `main_v244` holds the stretch's composed function of what `W` has at the buffers the stretch reads. -/
theorem seg13_main_v244 (W : Valuation τ sig (Elt F)) :
    after seg13 W (main_v244 : DevRef τ sig) = gRyD0 (W (main_v219 : DevRef τ sig)) (W (main_v3 : DevRef τ sig)) := by
  simp only [seg13]
  after_results_simp
  rfl

/-- Stretch 14 of @main: operations 790 … 856, ending where `main_v269` is written. -/
abbrev seg14 : List (HloOp τ sig (Elt F)) :=
  [ StableHlo.unary main_v3 main_v245 ((extractStridedSlice S802816x1 ![0, 1] · slices_S802816x4_S802816x1_0_1) : (⟨S802816x4, .f32⟩ : BufTy).Contents (Elt F) → (⟨S802816x1, .f32⟩ : BufTy).Contents (Elt F)),
    StableHlo.reshape main_v245 main_v246 rfl shapeCasts_S802816x1_S802816,
    StableHlo.nullary main_c_48 (constantI S_ 32 0#32),
    StableHlo.TRef.nullary main_call30.c (constantI S_ 32 0#32),
    StableHlo.TRef.binary (.of main_c_48) main_call30.c main_call30.v0 (cmpi .slt),
    StableHlo.TRef.nullary main_call30.c_0 (constantI S_ 32 2#32),
    StableHlo.TRef.binary (.of main_c_48) main_call30.c_0 main_call30.v1 addi,
    StableHlo.TRef.ternary main_call30.v0 main_call30.v1 (.of main_c_48) main_call30.call0.v0 select,
    StableHlo.TRef.unary main_call30.call0.v0 main_call30.v3 (broadcastInDim S1 ![] bcast_S_S1),
    StableHlo.TRef.nullary main_call30.c_1 (constantI S1 32 1#32),
    StableHlo.TRef.unary main_call30.v3 main_call30.v4 id,
    StableHlo.TRef.nullary main_call30.c_2 (constantI S_ 32 0#32),
    StableHlo.TRef.unary main_call30.c_2 main_call30.v5 (broadcastInDim S1 ![] bcast_S_S1),
    StableHlo.TRef.binary main_call30.v4 main_call30.v5 main_call30.v6 (cmpi .sge),
    StableHlo.TRef.binary main_call30.v4 main_call30.c_1 main_call30.v7 (cmpi .sle),
    StableHlo.TRef.binary main_call30.v6 main_call30.v7 main_call30.v8 andi,
    StableHlo.TRef.nullary main_call30.c_3 (constantI S_ 1 1#1),
    StableHlo.TRef.binary main_call30.v8 main_call30.c_3 main_call30.v9 (fun x v => Host.reduce IntOp.andi x v reducesTo_S1_S_d0 h_S_),
    StableHlo.TRef.binary (.of main_v244) main_call30.v4 main_call30.v10 (fun x i => Host.gather gather_S802816x2x2x2x2_S1_S802816x2x2x2_0123_2_n_n_2_0_8028162122 x i),
    StableHlo.TRef.unary main_call30.v9 main_call30.v11 (broadcastInDim S802816x2x2x2 ![] bcast_S_S802816x2x2x2),
    StableHlo.TRef.nullary main_call30.cst (constant S_ .f32 0x7FC00000#32),
    StableHlo.TRef.unary main_call30.cst main_call30.v12 (broadcastInDim S802816x2x2x2 ![] bcast_S_S802816x2x2x2),
    StableHlo.TRef.ternary main_call30.v11 main_call30.v10 main_call30.v12 main_call30.v13 select,
    StableHlo.nullary main_c_49 (constantI S_ 32 1#32),
    StableHlo.TRef.nullary main_call31.c (constantI S_ 32 0#32),
    StableHlo.TRef.binary (.of main_c_49) main_call31.c main_call31.v0 (cmpi .slt),
    StableHlo.TRef.nullary main_call31.c_0 (constantI S_ 32 2#32),
    StableHlo.TRef.binary (.of main_c_49) main_call31.c_0 main_call31.v1 addi,
    StableHlo.TRef.ternary main_call31.v0 main_call31.v1 (.of main_c_49) main_call31.call0.v0 select,
    StableHlo.TRef.unary main_call31.call0.v0 main_call31.v3 (broadcastInDim S1 ![] bcast_S_S1),
    StableHlo.TRef.nullary main_call31.c_1 (constantI S1 32 1#32),
    StableHlo.TRef.unary main_call31.v3 main_call31.v4 id,
    StableHlo.TRef.nullary main_call31.c_2 (constantI S_ 32 0#32),
    StableHlo.TRef.unary main_call31.c_2 main_call31.v5 (broadcastInDim S1 ![] bcast_S_S1),
    StableHlo.TRef.binary main_call31.v4 main_call31.v5 main_call31.v6 (cmpi .sge),
    StableHlo.TRef.binary main_call31.v4 main_call31.c_1 main_call31.v7 (cmpi .sle),
    StableHlo.TRef.binary main_call31.v6 main_call31.v7 main_call31.v8 andi,
    StableHlo.TRef.nullary main_call31.c_3 (constantI S_ 1 1#1),
    StableHlo.TRef.binary main_call31.v8 main_call31.c_3 main_call31.v9 (fun x v => Host.reduce IntOp.andi x v reducesTo_S1_S_d0 h_S_),
    StableHlo.TRef.binary (.of main_v244) main_call31.v4 main_call31.v10 (fun x i => Host.gather gather_S802816x2x2x2x2_S1_S802816x2x2x2_0123_2_n_n_2_0_8028162122 x i),
    StableHlo.TRef.unary main_call31.v9 main_call31.v11 (broadcastInDim S802816x2x2x2 ![] bcast_S_S802816x2x2x2),
    StableHlo.TRef.nullary main_call31.cst (constant S_ .f32 0x7FC00000#32),
    StableHlo.TRef.unary main_call31.cst main_call31.v12 (broadcastInDim S802816x2x2x2 ![] bcast_S_S802816x2x2x2),
    StableHlo.TRef.ternary main_call31.v11 main_call31.v10 main_call31.v12 main_call31.v13 select,
    StableHlo.nullary main_cst_50 (constant S_ .f32 0x3F000000#32),
    StableHlo.unary main_cst_50 main_v249 (broadcastInDim S802816 ![] bcast_S_S802816 : (⟨S_, .f32⟩ : BufTy).Contents (Elt F) → (⟨S802816, .f32⟩ : BufTy).Contents (Elt F)),
    StableHlo.binary main_v246 main_v249 main_v250 (mulf : (⟨S802816, .f32⟩ : BufTy).Contents (Elt F) → (⟨S802816, .f32⟩ : BufTy).Contents (Elt F) → (⟨S802816, .f32⟩ : BufTy).Contents (Elt F)),
    StableHlo.unary main_v250 main_v251 (Host.cos : (⟨S802816, .f32⟩ : BufTy).Contents (Elt F) → (⟨S802816, .f32⟩ : BufTy).Contents (Elt F)),
    StableHlo.nullary main_cst_51 (constant S_ .f32 0x3F000000#32),
    StableHlo.unary main_cst_51 main_v252 (broadcastInDim S802816 ![] bcast_S_S802816 : (⟨S_, .f32⟩ : BufTy).Contents (Elt F) → (⟨S802816, .f32⟩ : BufTy).Contents (Elt F)),
    StableHlo.binary main_v246 main_v252 main_v253 (mulf : (⟨S802816, .f32⟩ : BufTy).Contents (Elt F) → (⟨S802816, .f32⟩ : BufTy).Contents (Elt F) → (⟨S802816, .f32⟩ : BufTy).Contents (Elt F)),
    StableHlo.unary main_v253 main_v254 (Host.sin : (⟨S802816, .f32⟩ : BufTy).Contents (Elt F) → (⟨S802816, .f32⟩ : BufTy).Contents (Elt F)),
    StableHlo.reshape main_v251 main_v255 rfl shapeCasts_S802816_S802816x1x1x1,
    StableHlo.reshape main_v254 main_v256 rfl shapeCasts_S802816_S802816x1x1x1,
    StableHlo.unary main_v255 main_v257 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v257 main_v247 main_v258 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v256 main_v259 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v259 main_v248 main_v260 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v258 main_v260 main_v261 (subf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v256 main_v262 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v262 main_v247 main_v263 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v255 main_v264 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v264 main_v248 main_v265 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v263 main_v265 main_v266 (addf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v261 main_v267 (broadcastInDim S802816x2x1x2x2 ![0, 1, 3, 4] bcast_S802816x2x2x2_S802816x2x1x2x2_0_1_3_4 : (⟨S802816x2x2x2, .f32⟩ : BufTy).Contents (Elt F) → (⟨S802816x2x1x2x2, .f32⟩ : BufTy).Contents (Elt F)),
    StableHlo.unary main_v266 main_v268 (broadcastInDim S802816x2x1x2x2 ![0, 1, 3, 4] bcast_S802816x2x2x2_S802816x2x1x2x2_0_1_3_4 : (⟨S802816x2x2x2, .f32⟩ : BufTy).Contents (Elt F) → (⟨S802816x2x1x2x2, .f32⟩ : BufTy).Contents (Elt F)),
    StableHlo.binary main_v267 main_v268 main_v269 ((fun a b => concatenate S802816x2x2x2x2 2 [⟨S802816x2x1x2x2, a⟩, ⟨S802816x2x1x2x2, b⟩] concatenates_S802816x2x1x2x2_S802816x2x1x2x2_S802816x2x2x2x2_d2) : (⟨S802816x2x1x2x2, .f32⟩ : BufTy).Contents (Elt F) → (⟨S802816x2x1x2x2, .f32⟩ : BufTy).Contents (Elt F) → (⟨S802816x2x2x2x2, .f32⟩ : BufTy).Contents (Elt F)) ]

/-- The buffers stretch 14 writes, one per operation. -/
abbrev seg14_W : List (Ref sig .tc) := [main_v245, main_v246, main_c_48, main_call30_c, main_call30_v0, main_call30_c_0, main_call30_v1, main_call30_v2, main_call30_v3, main_call30_c_1, main_call30_v4, main_call30_c_2, main_call30_v5, main_call30_v6, main_call30_v7, main_call30_v8, main_call30_c_3, main_call30_v9, main_call30_v10, main_call30_v11, main_call30_cst, main_call30_v12, main_v247, main_c_49, main_call31_c, main_call31_v0, main_call31_c_0, main_call31_v1, main_call31_v2, main_call31_v3, main_call31_c_1, main_call31_v4, main_call31_c_2, main_call31_v5, main_call31_v6, main_call31_v7, main_call31_v8, main_call31_c_3, main_call31_v9, main_call31_v10, main_call31_v11, main_call31_cst, main_call31_v12, main_v248, main_cst_50, main_v249, main_v250, main_v251, main_cst_51, main_v252, main_v253, main_v254, main_v255, main_v256, main_v257, main_v258, main_v259, main_v260, main_v261, main_v262, main_v263, main_v264, main_v265, main_v266, main_v267, main_v268, main_v269]

set_option maxRecDepth 65536 in
theorem seg14_writes : (seg14 : List (HloOp τ sig (Elt F))).Forall fun op => op.writes ⊆ (seg14_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 14, from any contents `W`, `main_v269` holds the stretch's composed function of what `W` has at the buffers the stretch reads. -/
theorem seg14_main_v269 (W : Valuation τ sig (Elt F)) :
    after seg14 W (main_v269 : DevRef τ sig) = gRyD1 (W (main_v244 : DevRef τ sig)) (W (main_v3 : DevRef τ sig)) := by
  simp only [seg14]
  after_results_simp
  rfl

/-- Stretch 15 of @main: operations 857 … 923, ending where `main_v294` is written. -/
abbrev seg15 : List (HloOp τ sig (Elt F)) :=
  [ StableHlo.unary main_v3 main_v270 ((extractStridedSlice S802816x1 ![0, 2] · slices_S802816x4_S802816x1_0_2) : (⟨S802816x4, .f32⟩ : BufTy).Contents (Elt F) → (⟨S802816x1, .f32⟩ : BufTy).Contents (Elt F)),
    StableHlo.reshape main_v270 main_v271 rfl shapeCasts_S802816x1_S802816,
    StableHlo.nullary main_c_52 (constantI S_ 32 0#32),
    StableHlo.TRef.nullary main_call32.c (constantI S_ 32 0#32),
    StableHlo.TRef.binary (.of main_c_52) main_call32.c main_call32.v0 (cmpi .slt),
    StableHlo.TRef.nullary main_call32.c_0 (constantI S_ 32 2#32),
    StableHlo.TRef.binary (.of main_c_52) main_call32.c_0 main_call32.v1 addi,
    StableHlo.TRef.ternary main_call32.v0 main_call32.v1 (.of main_c_52) main_call32.call0.v0 select,
    StableHlo.TRef.unary main_call32.call0.v0 main_call32.v3 (broadcastInDim S1 ![] bcast_S_S1),
    StableHlo.TRef.nullary main_call32.c_1 (constantI S1 32 1#32),
    StableHlo.TRef.unary main_call32.v3 main_call32.v4 id,
    StableHlo.TRef.nullary main_call32.c_2 (constantI S_ 32 0#32),
    StableHlo.TRef.unary main_call32.c_2 main_call32.v5 (broadcastInDim S1 ![] bcast_S_S1),
    StableHlo.TRef.binary main_call32.v4 main_call32.v5 main_call32.v6 (cmpi .sge),
    StableHlo.TRef.binary main_call32.v4 main_call32.c_1 main_call32.v7 (cmpi .sle),
    StableHlo.TRef.binary main_call32.v6 main_call32.v7 main_call32.v8 andi,
    StableHlo.TRef.nullary main_call32.c_3 (constantI S_ 1 1#1),
    StableHlo.TRef.binary main_call32.v8 main_call32.c_3 main_call32.v9 (fun x v => Host.reduce IntOp.andi x v reducesTo_S1_S_d0 h_S_),
    StableHlo.TRef.binary (.of main_v269) main_call32.v4 main_call32.v10 (fun x i => Host.gather gather_S802816x2x2x2x2_S1_S802816x2x2x2_0123_3_n_n_3_0_8028162212 x i),
    StableHlo.TRef.unary main_call32.v9 main_call32.v11 (broadcastInDim S802816x2x2x2 ![] bcast_S_S802816x2x2x2),
    StableHlo.TRef.nullary main_call32.cst (constant S_ .f32 0x7FC00000#32),
    StableHlo.TRef.unary main_call32.cst main_call32.v12 (broadcastInDim S802816x2x2x2 ![] bcast_S_S802816x2x2x2),
    StableHlo.TRef.ternary main_call32.v11 main_call32.v10 main_call32.v12 main_call32.v13 select,
    StableHlo.nullary main_c_53 (constantI S_ 32 1#32),
    StableHlo.TRef.nullary main_call33.c (constantI S_ 32 0#32),
    StableHlo.TRef.binary (.of main_c_53) main_call33.c main_call33.v0 (cmpi .slt),
    StableHlo.TRef.nullary main_call33.c_0 (constantI S_ 32 2#32),
    StableHlo.TRef.binary (.of main_c_53) main_call33.c_0 main_call33.v1 addi,
    StableHlo.TRef.ternary main_call33.v0 main_call33.v1 (.of main_c_53) main_call33.call0.v0 select,
    StableHlo.TRef.unary main_call33.call0.v0 main_call33.v3 (broadcastInDim S1 ![] bcast_S_S1),
    StableHlo.TRef.nullary main_call33.c_1 (constantI S1 32 1#32),
    StableHlo.TRef.unary main_call33.v3 main_call33.v4 id,
    StableHlo.TRef.nullary main_call33.c_2 (constantI S_ 32 0#32),
    StableHlo.TRef.unary main_call33.c_2 main_call33.v5 (broadcastInDim S1 ![] bcast_S_S1),
    StableHlo.TRef.binary main_call33.v4 main_call33.v5 main_call33.v6 (cmpi .sge),
    StableHlo.TRef.binary main_call33.v4 main_call33.c_1 main_call33.v7 (cmpi .sle),
    StableHlo.TRef.binary main_call33.v6 main_call33.v7 main_call33.v8 andi,
    StableHlo.TRef.nullary main_call33.c_3 (constantI S_ 1 1#1),
    StableHlo.TRef.binary main_call33.v8 main_call33.c_3 main_call33.v9 (fun x v => Host.reduce IntOp.andi x v reducesTo_S1_S_d0 h_S_),
    StableHlo.TRef.binary (.of main_v269) main_call33.v4 main_call33.v10 (fun x i => Host.gather gather_S802816x2x2x2x2_S1_S802816x2x2x2_0123_3_n_n_3_0_8028162212 x i),
    StableHlo.TRef.unary main_call33.v9 main_call33.v11 (broadcastInDim S802816x2x2x2 ![] bcast_S_S802816x2x2x2),
    StableHlo.TRef.nullary main_call33.cst (constant S_ .f32 0x7FC00000#32),
    StableHlo.TRef.unary main_call33.cst main_call33.v12 (broadcastInDim S802816x2x2x2 ![] bcast_S_S802816x2x2x2),
    StableHlo.TRef.ternary main_call33.v11 main_call33.v10 main_call33.v12 main_call33.v13 select,
    StableHlo.nullary main_cst_54 (constant S_ .f32 0x3F000000#32),
    StableHlo.unary main_cst_54 main_v274 (broadcastInDim S802816 ![] bcast_S_S802816 : (⟨S_, .f32⟩ : BufTy).Contents (Elt F) → (⟨S802816, .f32⟩ : BufTy).Contents (Elt F)),
    StableHlo.binary main_v271 main_v274 main_v275 (mulf : (⟨S802816, .f32⟩ : BufTy).Contents (Elt F) → (⟨S802816, .f32⟩ : BufTy).Contents (Elt F) → (⟨S802816, .f32⟩ : BufTy).Contents (Elt F)),
    StableHlo.unary main_v275 main_v276 (Host.cos : (⟨S802816, .f32⟩ : BufTy).Contents (Elt F) → (⟨S802816, .f32⟩ : BufTy).Contents (Elt F)),
    StableHlo.nullary main_cst_55 (constant S_ .f32 0x3F000000#32),
    StableHlo.unary main_cst_55 main_v277 (broadcastInDim S802816 ![] bcast_S_S802816 : (⟨S_, .f32⟩ : BufTy).Contents (Elt F) → (⟨S802816, .f32⟩ : BufTy).Contents (Elt F)),
    StableHlo.binary main_v271 main_v277 main_v278 (mulf : (⟨S802816, .f32⟩ : BufTy).Contents (Elt F) → (⟨S802816, .f32⟩ : BufTy).Contents (Elt F) → (⟨S802816, .f32⟩ : BufTy).Contents (Elt F)),
    StableHlo.unary main_v278 main_v279 (Host.sin : (⟨S802816, .f32⟩ : BufTy).Contents (Elt F) → (⟨S802816, .f32⟩ : BufTy).Contents (Elt F)),
    StableHlo.reshape main_v276 main_v280 rfl shapeCasts_S802816_S802816x1x1x1,
    StableHlo.reshape main_v279 main_v281 rfl shapeCasts_S802816_S802816x1x1x1,
    StableHlo.unary main_v280 main_v282 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v282 main_v272 main_v283 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v281 main_v284 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v284 main_v273 main_v285 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v283 main_v285 main_v286 (subf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v281 main_v287 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v287 main_v272 main_v288 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v280 main_v289 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v289 main_v273 main_v290 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v288 main_v290 main_v291 (addf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v286 main_v292 (broadcastInDim S802816x2x2x1x2 ![0, 1, 2, 4] bcast_S802816x2x2x2_S802816x2x2x1x2_0_1_2_4 : (⟨S802816x2x2x2, .f32⟩ : BufTy).Contents (Elt F) → (⟨S802816x2x2x1x2, .f32⟩ : BufTy).Contents (Elt F)),
    StableHlo.unary main_v291 main_v293 (broadcastInDim S802816x2x2x1x2 ![0, 1, 2, 4] bcast_S802816x2x2x2_S802816x2x2x1x2_0_1_2_4 : (⟨S802816x2x2x2, .f32⟩ : BufTy).Contents (Elt F) → (⟨S802816x2x2x1x2, .f32⟩ : BufTy).Contents (Elt F)),
    StableHlo.binary main_v292 main_v293 main_v294 ((fun a b => concatenate S802816x2x2x2x2 3 [⟨S802816x2x2x1x2, a⟩, ⟨S802816x2x2x1x2, b⟩] concatenates_S802816x2x2x1x2_S802816x2x2x1x2_S802816x2x2x2x2_d3) : (⟨S802816x2x2x1x2, .f32⟩ : BufTy).Contents (Elt F) → (⟨S802816x2x2x1x2, .f32⟩ : BufTy).Contents (Elt F) → (⟨S802816x2x2x2x2, .f32⟩ : BufTy).Contents (Elt F)) ]

/-- The buffers stretch 15 writes, one per operation. -/
abbrev seg15_W : List (Ref sig .tc) := [main_v270, main_v271, main_c_52, main_call32_c, main_call32_v0, main_call32_c_0, main_call32_v1, main_call32_v2, main_call32_v3, main_call32_c_1, main_call32_v4, main_call32_c_2, main_call32_v5, main_call32_v6, main_call32_v7, main_call32_v8, main_call32_c_3, main_call32_v9, main_call32_v10, main_call32_v11, main_call32_cst, main_call32_v12, main_v272, main_c_53, main_call33_c, main_call33_v0, main_call33_c_0, main_call33_v1, main_call33_v2, main_call33_v3, main_call33_c_1, main_call33_v4, main_call33_c_2, main_call33_v5, main_call33_v6, main_call33_v7, main_call33_v8, main_call33_c_3, main_call33_v9, main_call33_v10, main_call33_v11, main_call33_cst, main_call33_v12, main_v273, main_cst_54, main_v274, main_v275, main_v276, main_cst_55, main_v277, main_v278, main_v279, main_v280, main_v281, main_v282, main_v283, main_v284, main_v285, main_v286, main_v287, main_v288, main_v289, main_v290, main_v291, main_v292, main_v293, main_v294]

set_option maxRecDepth 65536 in
theorem seg15_writes : (seg15 : List (HloOp τ sig (Elt F))).Forall fun op => op.writes ⊆ (seg15_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 15, from any contents `W`, `main_v294` holds the stretch's composed function of what `W` has at the buffers the stretch reads. -/
theorem seg15_main_v294 (W : Valuation τ sig (Elt F)) :
    after seg15 W (main_v294 : DevRef τ sig) = gRyD2 (W (main_v269 : DevRef τ sig)) (W (main_v3 : DevRef τ sig)) := by
  simp only [seg15]
  after_results_simp
  rfl

end Cert.ReferenceIdeal.RefRun

end
-- ==== Proof.RefSeg4.lean ====
/- Stretches 16 … 19 of the reference program's @main (a stretch ends where a state of the simulated register, or one of
   the arrays before the first and after the last state, is written): each as the list of its operations, the list of the
   buffers it writes, and its result as the stretch's composed function of the buffers it reads. -/
import proofs.«159359_j65481071398168_2_alg».proof.Proof.RefGateDefs
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Stretch 16 of @main: operations 924 … 990, ending where `main_v319` is written. -/
abbrev seg16 : List (HloOp τ sig (Elt F)) :=
  [ StableHlo.unary main_v3 main_v295 ((extractStridedSlice S802816x1 ![0, 3] · slices_S802816x4_S802816x1_0_3) : (⟨S802816x4, .f32⟩ : BufTy).Contents (Elt F) → (⟨S802816x1, .f32⟩ : BufTy).Contents (Elt F)),
    StableHlo.reshape main_v295 main_v296 rfl shapeCasts_S802816x1_S802816,
    StableHlo.nullary main_c_56 (constantI S_ 32 0#32),
    StableHlo.TRef.nullary main_call34.c (constantI S_ 32 0#32),
    StableHlo.TRef.binary (.of main_c_56) main_call34.c main_call34.v0 (cmpi .slt),
    StableHlo.TRef.nullary main_call34.c_0 (constantI S_ 32 2#32),
    StableHlo.TRef.binary (.of main_c_56) main_call34.c_0 main_call34.v1 addi,
    StableHlo.TRef.ternary main_call34.v0 main_call34.v1 (.of main_c_56) main_call34.call0.v0 select,
    StableHlo.TRef.unary main_call34.call0.v0 main_call34.v3 (broadcastInDim S1 ![] bcast_S_S1),
    StableHlo.TRef.nullary main_call34.c_1 (constantI S1 32 1#32),
    StableHlo.TRef.unary main_call34.v3 main_call34.v4 id,
    StableHlo.TRef.nullary main_call34.c_2 (constantI S_ 32 0#32),
    StableHlo.TRef.unary main_call34.c_2 main_call34.v5 (broadcastInDim S1 ![] bcast_S_S1),
    StableHlo.TRef.binary main_call34.v4 main_call34.v5 main_call34.v6 (cmpi .sge),
    StableHlo.TRef.binary main_call34.v4 main_call34.c_1 main_call34.v7 (cmpi .sle),
    StableHlo.TRef.binary main_call34.v6 main_call34.v7 main_call34.v8 andi,
    StableHlo.TRef.nullary main_call34.c_3 (constantI S_ 1 1#1),
    StableHlo.TRef.binary main_call34.v8 main_call34.c_3 main_call34.v9 (fun x v => Host.reduce IntOp.andi x v reducesTo_S1_S_d0 h_S_),
    StableHlo.TRef.binary (.of main_v294) main_call34.v4 main_call34.v10 (fun x i => Host.gather gather_S802816x2x2x2x2_S1_S802816x2x2x2_0123_4_n_n_4_0_8028162221 x i),
    StableHlo.TRef.unary main_call34.v9 main_call34.v11 (broadcastInDim S802816x2x2x2 ![] bcast_S_S802816x2x2x2),
    StableHlo.TRef.nullary main_call34.cst (constant S_ .f32 0x7FC00000#32),
    StableHlo.TRef.unary main_call34.cst main_call34.v12 (broadcastInDim S802816x2x2x2 ![] bcast_S_S802816x2x2x2),
    StableHlo.TRef.ternary main_call34.v11 main_call34.v10 main_call34.v12 main_call34.v13 select,
    StableHlo.nullary main_c_57 (constantI S_ 32 1#32),
    StableHlo.TRef.nullary main_call35.c (constantI S_ 32 0#32),
    StableHlo.TRef.binary (.of main_c_57) main_call35.c main_call35.v0 (cmpi .slt),
    StableHlo.TRef.nullary main_call35.c_0 (constantI S_ 32 2#32),
    StableHlo.TRef.binary (.of main_c_57) main_call35.c_0 main_call35.v1 addi,
    StableHlo.TRef.ternary main_call35.v0 main_call35.v1 (.of main_c_57) main_call35.call0.v0 select,
    StableHlo.TRef.unary main_call35.call0.v0 main_call35.v3 (broadcastInDim S1 ![] bcast_S_S1),
    StableHlo.TRef.nullary main_call35.c_1 (constantI S1 32 1#32),
    StableHlo.TRef.unary main_call35.v3 main_call35.v4 id,
    StableHlo.TRef.nullary main_call35.c_2 (constantI S_ 32 0#32),
    StableHlo.TRef.unary main_call35.c_2 main_call35.v5 (broadcastInDim S1 ![] bcast_S_S1),
    StableHlo.TRef.binary main_call35.v4 main_call35.v5 main_call35.v6 (cmpi .sge),
    StableHlo.TRef.binary main_call35.v4 main_call35.c_1 main_call35.v7 (cmpi .sle),
    StableHlo.TRef.binary main_call35.v6 main_call35.v7 main_call35.v8 andi,
    StableHlo.TRef.nullary main_call35.c_3 (constantI S_ 1 1#1),
    StableHlo.TRef.binary main_call35.v8 main_call35.c_3 main_call35.v9 (fun x v => Host.reduce IntOp.andi x v reducesTo_S1_S_d0 h_S_),
    StableHlo.TRef.binary (.of main_v294) main_call35.v4 main_call35.v10 (fun x i => Host.gather gather_S802816x2x2x2x2_S1_S802816x2x2x2_0123_4_n_n_4_0_8028162221 x i),
    StableHlo.TRef.unary main_call35.v9 main_call35.v11 (broadcastInDim S802816x2x2x2 ![] bcast_S_S802816x2x2x2),
    StableHlo.TRef.nullary main_call35.cst (constant S_ .f32 0x7FC00000#32),
    StableHlo.TRef.unary main_call35.cst main_call35.v12 (broadcastInDim S802816x2x2x2 ![] bcast_S_S802816x2x2x2),
    StableHlo.TRef.ternary main_call35.v11 main_call35.v10 main_call35.v12 main_call35.v13 select,
    StableHlo.nullary main_cst_58 (constant S_ .f32 0x3F000000#32),
    StableHlo.unary main_cst_58 main_v299 (broadcastInDim S802816 ![] bcast_S_S802816 : (⟨S_, .f32⟩ : BufTy).Contents (Elt F) → (⟨S802816, .f32⟩ : BufTy).Contents (Elt F)),
    StableHlo.binary main_v296 main_v299 main_v300 (mulf : (⟨S802816, .f32⟩ : BufTy).Contents (Elt F) → (⟨S802816, .f32⟩ : BufTy).Contents (Elt F) → (⟨S802816, .f32⟩ : BufTy).Contents (Elt F)),
    StableHlo.unary main_v300 main_v301 (Host.cos : (⟨S802816, .f32⟩ : BufTy).Contents (Elt F) → (⟨S802816, .f32⟩ : BufTy).Contents (Elt F)),
    StableHlo.nullary main_cst_59 (constant S_ .f32 0x3F000000#32),
    StableHlo.unary main_cst_59 main_v302 (broadcastInDim S802816 ![] bcast_S_S802816 : (⟨S_, .f32⟩ : BufTy).Contents (Elt F) → (⟨S802816, .f32⟩ : BufTy).Contents (Elt F)),
    StableHlo.binary main_v296 main_v302 main_v303 (mulf : (⟨S802816, .f32⟩ : BufTy).Contents (Elt F) → (⟨S802816, .f32⟩ : BufTy).Contents (Elt F) → (⟨S802816, .f32⟩ : BufTy).Contents (Elt F)),
    StableHlo.unary main_v303 main_v304 (Host.sin : (⟨S802816, .f32⟩ : BufTy).Contents (Elt F) → (⟨S802816, .f32⟩ : BufTy).Contents (Elt F)),
    StableHlo.reshape main_v301 main_v305 rfl shapeCasts_S802816_S802816x1x1x1,
    StableHlo.reshape main_v304 main_v306 rfl shapeCasts_S802816_S802816x1x1x1,
    StableHlo.unary main_v305 main_v307 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v307 main_v297 main_v308 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v306 main_v309 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v309 main_v298 main_v310 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v308 main_v310 main_v311 (subf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v306 main_v312 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v312 main_v297 main_v313 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v305 main_v314 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v314 main_v298 main_v315 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v313 main_v315 main_v316 (addf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v311 main_v317 (broadcastInDim S802816x2x2x2x1 ![0, 1, 2, 3] bcast_S802816x2x2x2_S802816x2x2x2x1_0_1_2_3 : (⟨S802816x2x2x2, .f32⟩ : BufTy).Contents (Elt F) → (⟨S802816x2x2x2x1, .f32⟩ : BufTy).Contents (Elt F)),
    StableHlo.unary main_v316 main_v318 (broadcastInDim S802816x2x2x2x1 ![0, 1, 2, 3] bcast_S802816x2x2x2_S802816x2x2x2x1_0_1_2_3 : (⟨S802816x2x2x2, .f32⟩ : BufTy).Contents (Elt F) → (⟨S802816x2x2x2x1, .f32⟩ : BufTy).Contents (Elt F)),
    StableHlo.binary main_v317 main_v318 main_v319 ((fun a b => concatenate S802816x2x2x2x2 4 [⟨S802816x2x2x2x1, a⟩, ⟨S802816x2x2x2x1, b⟩] concatenates_S802816x2x2x2x1_S802816x2x2x2x1_S802816x2x2x2x2_d4) : (⟨S802816x2x2x2x1, .f32⟩ : BufTy).Contents (Elt F) → (⟨S802816x2x2x2x1, .f32⟩ : BufTy).Contents (Elt F) → (⟨S802816x2x2x2x2, .f32⟩ : BufTy).Contents (Elt F)) ]

/-- The buffers stretch 16 writes, one per operation. -/
abbrev seg16_W : List (Ref sig .tc) := [main_v295, main_v296, main_c_56, main_call34_c, main_call34_v0, main_call34_c_0, main_call34_v1, main_call34_v2, main_call34_v3, main_call34_c_1, main_call34_v4, main_call34_c_2, main_call34_v5, main_call34_v6, main_call34_v7, main_call34_v8, main_call34_c_3, main_call34_v9, main_call34_v10, main_call34_v11, main_call34_cst, main_call34_v12, main_v297, main_c_57, main_call35_c, main_call35_v0, main_call35_c_0, main_call35_v1, main_call35_v2, main_call35_v3, main_call35_c_1, main_call35_v4, main_call35_c_2, main_call35_v5, main_call35_v6, main_call35_v7, main_call35_v8, main_call35_c_3, main_call35_v9, main_call35_v10, main_call35_v11, main_call35_cst, main_call35_v12, main_v298, main_cst_58, main_v299, main_v300, main_v301, main_cst_59, main_v302, main_v303, main_v304, main_v305, main_v306, main_v307, main_v308, main_v309, main_v310, main_v311, main_v312, main_v313, main_v314, main_v315, main_v316, main_v317, main_v318, main_v319]

set_option maxRecDepth 65536 in
theorem seg16_writes : (seg16 : List (HloOp τ sig (Elt F))).Forall fun op => op.writes ⊆ (seg16_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 16, from any contents `W`, `main_v319` holds the stretch's composed function of what `W` has at the buffers the stretch reads. -/
theorem seg16_main_v319 (W : Valuation τ sig (Elt F)) :
    after seg16 W (main_v319 : DevRef τ sig) = gRyD3 (W (main_v294 : DevRef τ sig)) (W (main_v3 : DevRef τ sig)) := by
  simp only [seg16]
  after_results_simp
  rfl

/-- Stretch 17 of @main: operations 991 … 1053, ending where `main_v340` is written. -/
abbrev seg17 : List (HloOp τ sig (Elt F)) :=
  [ StableHlo.unary main_arg1 main_v320 ((extractStridedSlice S1 ![0] · slices_S4_S1_0) : (⟨S4, .f32⟩ : BufTy).Contents (Elt F) → (⟨S1, .f32⟩ : BufTy).Contents (Elt F)),
    StableHlo.reshape main_v320 main_v321 rfl shapeCasts_S1_S_,
    StableHlo.nullary main_c_60 (constantI S_ 32 0#32),
    StableHlo.TRef.nullary main_call36.c (constantI S_ 32 0#32),
    StableHlo.TRef.binary (.of main_c_60) main_call36.c main_call36.v0 (cmpi .slt),
    StableHlo.TRef.nullary main_call36.c_0 (constantI S_ 32 2#32),
    StableHlo.TRef.binary (.of main_c_60) main_call36.c_0 main_call36.v1 addi,
    StableHlo.TRef.ternary main_call36.v0 main_call36.v1 (.of main_c_60) main_call36.call0.v0 select,
    StableHlo.TRef.unary main_call36.call0.v0 main_call36.v3 (broadcastInDim S1 ![] bcast_S_S1),
    StableHlo.TRef.nullary main_call36.c_1 (constantI S1 32 1#32),
    StableHlo.TRef.unary main_call36.v3 main_call36.v4 id,
    StableHlo.TRef.nullary main_call36.c_2 (constantI S_ 32 0#32),
    StableHlo.TRef.unary main_call36.c_2 main_call36.v5 (broadcastInDim S1 ![] bcast_S_S1),
    StableHlo.TRef.binary main_call36.v4 main_call36.v5 main_call36.v6 (cmpi .sge),
    StableHlo.TRef.binary main_call36.v4 main_call36.c_1 main_call36.v7 (cmpi .sle),
    StableHlo.TRef.binary main_call36.v6 main_call36.v7 main_call36.v8 andi,
    StableHlo.TRef.nullary main_call36.c_3 (constantI S_ 1 1#1),
    StableHlo.TRef.binary main_call36.v8 main_call36.c_3 main_call36.v9 (fun x v => Host.reduce IntOp.andi x v reducesTo_S1_S_d0 h_S_),
    StableHlo.TRef.binary (.of main_v319) main_call36.v4 main_call36.v10 (fun x i => Host.gather gather_S802816x2x2x2x2_S1_S802816x2x2x2_0123_1_n_n_1_0_8028161222 x i),
    StableHlo.TRef.unary main_call36.v9 main_call36.v11 (broadcastInDim S802816x2x2x2 ![] bcast_S_S802816x2x2x2),
    StableHlo.TRef.nullary main_call36.cst (constant S_ .f32 0x7FC00000#32),
    StableHlo.TRef.unary main_call36.cst main_call36.v12 (broadcastInDim S802816x2x2x2 ![] bcast_S_S802816x2x2x2),
    StableHlo.TRef.ternary main_call36.v11 main_call36.v10 main_call36.v12 main_call36.v13 select,
    StableHlo.nullary main_c_61 (constantI S_ 32 1#32),
    StableHlo.TRef.nullary main_call37.c (constantI S_ 32 0#32),
    StableHlo.TRef.binary (.of main_c_61) main_call37.c main_call37.v0 (cmpi .slt),
    StableHlo.TRef.nullary main_call37.c_0 (constantI S_ 32 2#32),
    StableHlo.TRef.binary (.of main_c_61) main_call37.c_0 main_call37.v1 addi,
    StableHlo.TRef.ternary main_call37.v0 main_call37.v1 (.of main_c_61) main_call37.call0.v0 select,
    StableHlo.TRef.unary main_call37.call0.v0 main_call37.v3 (broadcastInDim S1 ![] bcast_S_S1),
    StableHlo.TRef.nullary main_call37.c_1 (constantI S1 32 1#32),
    StableHlo.TRef.unary main_call37.v3 main_call37.v4 id,
    StableHlo.TRef.nullary main_call37.c_2 (constantI S_ 32 0#32),
    StableHlo.TRef.unary main_call37.c_2 main_call37.v5 (broadcastInDim S1 ![] bcast_S_S1),
    StableHlo.TRef.binary main_call37.v4 main_call37.v5 main_call37.v6 (cmpi .sge),
    StableHlo.TRef.binary main_call37.v4 main_call37.c_1 main_call37.v7 (cmpi .sle),
    StableHlo.TRef.binary main_call37.v6 main_call37.v7 main_call37.v8 andi,
    StableHlo.TRef.nullary main_call37.c_3 (constantI S_ 1 1#1),
    StableHlo.TRef.binary main_call37.v8 main_call37.c_3 main_call37.v9 (fun x v => Host.reduce IntOp.andi x v reducesTo_S1_S_d0 h_S_),
    StableHlo.TRef.binary (.of main_v319) main_call37.v4 main_call37.v10 (fun x i => Host.gather gather_S802816x2x2x2x2_S1_S802816x2x2x2_0123_1_n_n_1_0_8028161222 x i),
    StableHlo.TRef.unary main_call37.v9 main_call37.v11 (broadcastInDim S802816x2x2x2 ![] bcast_S_S802816x2x2x2),
    StableHlo.TRef.nullary main_call37.cst (constant S_ .f32 0x7FC00000#32),
    StableHlo.TRef.unary main_call37.cst main_call37.v12 (broadcastInDim S802816x2x2x2 ![] bcast_S_S802816x2x2x2),
    StableHlo.TRef.ternary main_call37.v11 main_call37.v10 main_call37.v12 main_call37.v13 select,
    StableHlo.nullary main_cst_62 (constant S_ .f32 0x3F000000#32),
    StableHlo.binary main_v321 main_cst_62 main_v324 (mulf : (⟨S_, .f32⟩ : BufTy).Contents (Elt F) → (⟨S_, .f32⟩ : BufTy).Contents (Elt F) → (⟨S_, .f32⟩ : BufTy).Contents (Elt F)),
    StableHlo.unary main_v324 main_v325 (Host.cos : (⟨S_, .f32⟩ : BufTy).Contents (Elt F) → (⟨S_, .f32⟩ : BufTy).Contents (Elt F)),
    StableHlo.nullary main_cst_63 (constant S_ .f32 0x3F000000#32),
    StableHlo.binary main_v321 main_cst_63 main_v326 (mulf : (⟨S_, .f32⟩ : BufTy).Contents (Elt F) → (⟨S_, .f32⟩ : BufTy).Contents (Elt F) → (⟨S_, .f32⟩ : BufTy).Contents (Elt F)),
    StableHlo.unary main_v326 main_v327 (Host.sin : (⟨S_, .f32⟩ : BufTy).Contents (Elt F) → (⟨S_, .f32⟩ : BufTy).Contents (Elt F)),
    StableHlo.unary main_v325 main_v328 (broadcastInDim S802816x2x2x2 ![] bcast_S_S802816x2x2x2 : (⟨S_, .f32⟩ : BufTy).Contents (Elt F) → (⟨S802816x2x2x2, .f32⟩ : BufTy).Contents (Elt F)),
    StableHlo.binary main_v328 main_v322 main_v329 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v327 main_v330 (broadcastInDim S802816x2x2x2 ![] bcast_S_S802816x2x2x2 : (⟨S_, .f32⟩ : BufTy).Contents (Elt F) → (⟨S802816x2x2x2, .f32⟩ : BufTy).Contents (Elt F)),
    StableHlo.binary main_v330 main_v323 main_v331 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v329 main_v331 main_v332 (subf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v327 main_v333 (broadcastInDim S802816x2x2x2 ![] bcast_S_S802816x2x2x2 : (⟨S_, .f32⟩ : BufTy).Contents (Elt F) → (⟨S802816x2x2x2, .f32⟩ : BufTy).Contents (Elt F)),
    StableHlo.binary main_v333 main_v322 main_v334 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v325 main_v335 (broadcastInDim S802816x2x2x2 ![] bcast_S_S802816x2x2x2 : (⟨S_, .f32⟩ : BufTy).Contents (Elt F) → (⟨S802816x2x2x2, .f32⟩ : BufTy).Contents (Elt F)),
    StableHlo.binary main_v335 main_v323 main_v336 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v334 main_v336 main_v337 (addf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v332 main_v338 (broadcastInDim S802816x1x2x2x2 ![0, 2, 3, 4] bcast_S802816x2x2x2_S802816x1x2x2x2_0_2_3_4 : (⟨S802816x2x2x2, .f32⟩ : BufTy).Contents (Elt F) → (⟨S802816x1x2x2x2, .f32⟩ : BufTy).Contents (Elt F)),
    StableHlo.unary main_v337 main_v339 (broadcastInDim S802816x1x2x2x2 ![0, 2, 3, 4] bcast_S802816x2x2x2_S802816x1x2x2x2_0_2_3_4 : (⟨S802816x2x2x2, .f32⟩ : BufTy).Contents (Elt F) → (⟨S802816x1x2x2x2, .f32⟩ : BufTy).Contents (Elt F)),
    StableHlo.binary main_v338 main_v339 main_v340 ((fun a b => concatenate S802816x2x2x2x2 1 [⟨S802816x1x2x2x2, a⟩, ⟨S802816x1x2x2x2, b⟩] concatenates_S802816x1x2x2x2_S802816x1x2x2x2_S802816x2x2x2x2_d1) : (⟨S802816x1x2x2x2, .f32⟩ : BufTy).Contents (Elt F) → (⟨S802816x1x2x2x2, .f32⟩ : BufTy).Contents (Elt F) → (⟨S802816x2x2x2x2, .f32⟩ : BufTy).Contents (Elt F)) ]

/-- The buffers stretch 17 writes, one per operation. -/
abbrev seg17_W : List (Ref sig .tc) := [main_v320, main_v321, main_c_60, main_call36_c, main_call36_v0, main_call36_c_0, main_call36_v1, main_call36_v2, main_call36_v3, main_call36_c_1, main_call36_v4, main_call36_c_2, main_call36_v5, main_call36_v6, main_call36_v7, main_call36_v8, main_call36_c_3, main_call36_v9, main_call36_v10, main_call36_v11, main_call36_cst, main_call36_v12, main_v322, main_c_61, main_call37_c, main_call37_v0, main_call37_c_0, main_call37_v1, main_call37_v2, main_call37_v3, main_call37_c_1, main_call37_v4, main_call37_c_2, main_call37_v5, main_call37_v6, main_call37_v7, main_call37_v8, main_call37_c_3, main_call37_v9, main_call37_v10, main_call37_v11, main_call37_cst, main_call37_v12, main_v323, main_cst_62, main_v324, main_v325, main_cst_63, main_v326, main_v327, main_v328, main_v329, main_v330, main_v331, main_v332, main_v333, main_v334, main_v335, main_v336, main_v337, main_v338, main_v339, main_v340]

set_option maxRecDepth 65536 in
theorem seg17_writes : (seg17 : List (HloOp τ sig (Elt F))).Forall fun op => op.writes ⊆ (seg17_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 17, from any contents `W`, `main_v340` holds the stretch's composed function of what `W` has at the buffers the stretch reads. -/
theorem seg17_main_v340 (W : Valuation τ sig (Elt F)) :
    after seg17 W (main_v340 : DevRef τ sig) = gRyP0 (W (main_v319 : DevRef τ sig)) (W (main_arg1 : DevRef τ sig)) := by
  simp only [seg17]
  after_results_simp
  rfl

/-- Stretch 18 of @main: operations 1054 … 1099, ending where `main_v346` is written. -/
abbrev seg18 : List (HloOp τ sig (Elt F)) :=
  [ StableHlo.nullary main_c_64 (constantI S_ 32 0#32),
    StableHlo.TRef.nullary main_call38.c (constantI S_ 32 0#32),
    StableHlo.TRef.binary (.of main_c_64) main_call38.c main_call38.v0 (cmpi .slt),
    StableHlo.TRef.nullary main_call38.c_0 (constantI S_ 32 2#32),
    StableHlo.TRef.binary (.of main_c_64) main_call38.c_0 main_call38.v1 addi,
    StableHlo.TRef.ternary main_call38.v0 main_call38.v1 (.of main_c_64) main_call38.call0.v0 select,
    StableHlo.TRef.unary main_call38.call0.v0 main_call38.v3 (broadcastInDim S1 ![] bcast_S_S1),
    StableHlo.TRef.nullary main_call38.c_1 (constantI S1 32 1#32),
    StableHlo.TRef.unary main_call38.v3 main_call38.v4 id,
    StableHlo.TRef.nullary main_call38.c_2 (constantI S_ 32 0#32),
    StableHlo.TRef.unary main_call38.c_2 main_call38.v5 (broadcastInDim S1 ![] bcast_S_S1),
    StableHlo.TRef.binary main_call38.v4 main_call38.v5 main_call38.v6 (cmpi .sge),
    StableHlo.TRef.binary main_call38.v4 main_call38.c_1 main_call38.v7 (cmpi .sle),
    StableHlo.TRef.binary main_call38.v6 main_call38.v7 main_call38.v8 andi,
    StableHlo.TRef.nullary main_call38.c_3 (constantI S_ 1 1#1),
    StableHlo.TRef.binary main_call38.v8 main_call38.c_3 main_call38.v9 (fun x v => Host.reduce IntOp.andi x v reducesTo_S1_S_d0 h_S_),
    StableHlo.TRef.binary (.of main_v340) main_call38.v4 main_call38.v10 (fun x i => Host.gather gather_S802816x2x2x2x2_S1_S802816x2x2x2_0123_1_n_n_1_0_8028161222 x i),
    StableHlo.TRef.unary main_call38.v9 main_call38.v11 (broadcastInDim S802816x2x2x2 ![] bcast_S_S802816x2x2x2),
    StableHlo.TRef.nullary main_call38.cst (constant S_ .f32 0x7FC00000#32),
    StableHlo.TRef.unary main_call38.cst main_call38.v12 (broadcastInDim S802816x2x2x2 ![] bcast_S_S802816x2x2x2),
    StableHlo.TRef.ternary main_call38.v11 main_call38.v10 main_call38.v12 main_call38.v13 select,
    StableHlo.nullary main_c_65 (constantI S_ 32 1#32),
    StableHlo.TRef.nullary main_call39.c (constantI S_ 32 0#32),
    StableHlo.TRef.binary (.of main_c_65) main_call39.c main_call39.v0 (cmpi .slt),
    StableHlo.TRef.nullary main_call39.c_0 (constantI S_ 32 2#32),
    StableHlo.TRef.binary (.of main_c_65) main_call39.c_0 main_call39.v1 addi,
    StableHlo.TRef.ternary main_call39.v0 main_call39.v1 (.of main_c_65) main_call39.call0.v0 select,
    StableHlo.TRef.unary main_call39.call0.v0 main_call39.v3 (broadcastInDim S1 ![] bcast_S_S1),
    StableHlo.TRef.nullary main_call39.c_1 (constantI S1 32 1#32),
    StableHlo.TRef.unary main_call39.v3 main_call39.v4 id,
    StableHlo.TRef.nullary main_call39.c_2 (constantI S_ 32 0#32),
    StableHlo.TRef.unary main_call39.c_2 main_call39.v5 (broadcastInDim S1 ![] bcast_S_S1),
    StableHlo.TRef.binary main_call39.v4 main_call39.v5 main_call39.v6 (cmpi .sge),
    StableHlo.TRef.binary main_call39.v4 main_call39.c_1 main_call39.v7 (cmpi .sle),
    StableHlo.TRef.binary main_call39.v6 main_call39.v7 main_call39.v8 andi,
    StableHlo.TRef.nullary main_call39.c_3 (constantI S_ 1 1#1),
    StableHlo.TRef.binary main_call39.v8 main_call39.c_3 main_call39.v9 (fun x v => Host.reduce IntOp.andi x v reducesTo_S1_S_d0 h_S_),
    StableHlo.TRef.binary (.of main_v340) main_call39.v4 main_call39.v10 (fun x i => Host.gather gather_S802816x2x2x2x2_S1_S802816x2x2x2_0123_1_n_n_1_0_8028161222 x i),
    StableHlo.TRef.unary main_call39.v9 main_call39.v11 (broadcastInDim S802816x2x2x2 ![] bcast_S_S802816x2x2x2),
    StableHlo.TRef.nullary main_call39.cst (constant S_ .f32 0x7FC00000#32),
    StableHlo.TRef.unary main_call39.cst main_call39.v12 (broadcastInDim S802816x2x2x2 ![] bcast_S_S802816x2x2x2),
    StableHlo.TRef.ternary main_call39.v11 main_call39.v10 main_call39.v12 main_call39.v13 select,
    StableHlo.TRef.unary (.of main_v342) main_call40.v0 (Host.reverse [1]),
    StableHlo.unary main_v341 main_v344 (broadcastInDim S802816x1x2x2x2 ![0, 2, 3, 4] bcast_S802816x2x2x2_S802816x1x2x2x2_0_2_3_4 : (⟨S802816x2x2x2, .f32⟩ : BufTy).Contents (Elt F) → (⟨S802816x1x2x2x2, .f32⟩ : BufTy).Contents (Elt F)),
    StableHlo.unary main_v343 main_v345 (broadcastInDim S802816x1x2x2x2 ![0, 2, 3, 4] bcast_S802816x2x2x2_S802816x1x2x2x2_0_2_3_4 : (⟨S802816x2x2x2, .f32⟩ : BufTy).Contents (Elt F) → (⟨S802816x1x2x2x2, .f32⟩ : BufTy).Contents (Elt F)),
    StableHlo.binary main_v344 main_v345 main_v346 ((fun a b => concatenate S802816x2x2x2x2 1 [⟨S802816x1x2x2x2, a⟩, ⟨S802816x1x2x2x2, b⟩] concatenates_S802816x1x2x2x2_S802816x1x2x2x2_S802816x2x2x2x2_d1) : (⟨S802816x1x2x2x2, .f32⟩ : BufTy).Contents (Elt F) → (⟨S802816x1x2x2x2, .f32⟩ : BufTy).Contents (Elt F) → (⟨S802816x2x2x2x2, .f32⟩ : BufTy).Contents (Elt F)) ]

/-- The buffers stretch 18 writes, one per operation. -/
abbrev seg18_W : List (Ref sig .tc) := [main_c_64, main_call38_c, main_call38_v0, main_call38_c_0, main_call38_v1, main_call38_v2, main_call38_v3, main_call38_c_1, main_call38_v4, main_call38_c_2, main_call38_v5, main_call38_v6, main_call38_v7, main_call38_v8, main_call38_c_3, main_call38_v9, main_call38_v10, main_call38_v11, main_call38_cst, main_call38_v12, main_v341, main_c_65, main_call39_c, main_call39_v0, main_call39_c_0, main_call39_v1, main_call39_v2, main_call39_v3, main_call39_c_1, main_call39_v4, main_call39_c_2, main_call39_v5, main_call39_v6, main_call39_v7, main_call39_v8, main_call39_c_3, main_call39_v9, main_call39_v10, main_call39_v11, main_call39_cst, main_call39_v12, main_v342, main_v343, main_v344, main_v345, main_v346]

set_option maxRecDepth 65536 in
theorem seg18_writes : (seg18 : List (HloOp τ sig (Elt F))).Forall fun op => op.writes ⊆ (seg18_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 18, from any contents `W`, `main_v346` holds the stretch's composed function of what `W` has at the buffers the stretch reads. -/
theorem seg18_main_v346 (W : Valuation τ sig (Elt F)) :
    after seg18 W (main_v346 : DevRef τ sig) = gCx0 (W (main_v340 : DevRef τ sig)) := by
  simp only [seg18]
  after_results_simp
  rfl

/-- Stretch 19 of @main: operations 1100 … 1162, ending where `main_v367` is written. -/
abbrev seg19 : List (HloOp τ sig (Elt F)) :=
  [ StableHlo.unary main_arg1 main_v347 ((extractStridedSlice S1 ![1] · slices_S4_S1_1) : (⟨S4, .f32⟩ : BufTy).Contents (Elt F) → (⟨S1, .f32⟩ : BufTy).Contents (Elt F)),
    StableHlo.reshape main_v347 main_v348 rfl shapeCasts_S1_S_,
    StableHlo.nullary main_c_66 (constantI S_ 32 0#32),
    StableHlo.TRef.nullary main_call41.c (constantI S_ 32 0#32),
    StableHlo.TRef.binary (.of main_c_66) main_call41.c main_call41.v0 (cmpi .slt),
    StableHlo.TRef.nullary main_call41.c_0 (constantI S_ 32 2#32),
    StableHlo.TRef.binary (.of main_c_66) main_call41.c_0 main_call41.v1 addi,
    StableHlo.TRef.ternary main_call41.v0 main_call41.v1 (.of main_c_66) main_call41.call0.v0 select,
    StableHlo.TRef.unary main_call41.call0.v0 main_call41.v3 (broadcastInDim S1 ![] bcast_S_S1),
    StableHlo.TRef.nullary main_call41.c_1 (constantI S1 32 1#32),
    StableHlo.TRef.unary main_call41.v3 main_call41.v4 id,
    StableHlo.TRef.nullary main_call41.c_2 (constantI S_ 32 0#32),
    StableHlo.TRef.unary main_call41.c_2 main_call41.v5 (broadcastInDim S1 ![] bcast_S_S1),
    StableHlo.TRef.binary main_call41.v4 main_call41.v5 main_call41.v6 (cmpi .sge),
    StableHlo.TRef.binary main_call41.v4 main_call41.c_1 main_call41.v7 (cmpi .sle),
    StableHlo.TRef.binary main_call41.v6 main_call41.v7 main_call41.v8 andi,
    StableHlo.TRef.nullary main_call41.c_3 (constantI S_ 1 1#1),
    StableHlo.TRef.binary main_call41.v8 main_call41.c_3 main_call41.v9 (fun x v => Host.reduce IntOp.andi x v reducesTo_S1_S_d0 h_S_),
    StableHlo.TRef.binary (.of main_v346) main_call41.v4 main_call41.v10 (fun x i => Host.gather gather_S802816x2x2x2x2_S1_S802816x2x2x2_0123_2_n_n_2_0_8028162122 x i),
    StableHlo.TRef.unary main_call41.v9 main_call41.v11 (broadcastInDim S802816x2x2x2 ![] bcast_S_S802816x2x2x2),
    StableHlo.TRef.nullary main_call41.cst (constant S_ .f32 0x7FC00000#32),
    StableHlo.TRef.unary main_call41.cst main_call41.v12 (broadcastInDim S802816x2x2x2 ![] bcast_S_S802816x2x2x2),
    StableHlo.TRef.ternary main_call41.v11 main_call41.v10 main_call41.v12 main_call41.v13 select,
    StableHlo.nullary main_c_67 (constantI S_ 32 1#32),
    StableHlo.TRef.nullary main_call42.c (constantI S_ 32 0#32),
    StableHlo.TRef.binary (.of main_c_67) main_call42.c main_call42.v0 (cmpi .slt),
    StableHlo.TRef.nullary main_call42.c_0 (constantI S_ 32 2#32),
    StableHlo.TRef.binary (.of main_c_67) main_call42.c_0 main_call42.v1 addi,
    StableHlo.TRef.ternary main_call42.v0 main_call42.v1 (.of main_c_67) main_call42.call0.v0 select,
    StableHlo.TRef.unary main_call42.call0.v0 main_call42.v3 (broadcastInDim S1 ![] bcast_S_S1),
    StableHlo.TRef.nullary main_call42.c_1 (constantI S1 32 1#32),
    StableHlo.TRef.unary main_call42.v3 main_call42.v4 id,
    StableHlo.TRef.nullary main_call42.c_2 (constantI S_ 32 0#32),
    StableHlo.TRef.unary main_call42.c_2 main_call42.v5 (broadcastInDim S1 ![] bcast_S_S1),
    StableHlo.TRef.binary main_call42.v4 main_call42.v5 main_call42.v6 (cmpi .sge),
    StableHlo.TRef.binary main_call42.v4 main_call42.c_1 main_call42.v7 (cmpi .sle),
    StableHlo.TRef.binary main_call42.v6 main_call42.v7 main_call42.v8 andi,
    StableHlo.TRef.nullary main_call42.c_3 (constantI S_ 1 1#1),
    StableHlo.TRef.binary main_call42.v8 main_call42.c_3 main_call42.v9 (fun x v => Host.reduce IntOp.andi x v reducesTo_S1_S_d0 h_S_),
    StableHlo.TRef.binary (.of main_v346) main_call42.v4 main_call42.v10 (fun x i => Host.gather gather_S802816x2x2x2x2_S1_S802816x2x2x2_0123_2_n_n_2_0_8028162122 x i),
    StableHlo.TRef.unary main_call42.v9 main_call42.v11 (broadcastInDim S802816x2x2x2 ![] bcast_S_S802816x2x2x2),
    StableHlo.TRef.nullary main_call42.cst (constant S_ .f32 0x7FC00000#32),
    StableHlo.TRef.unary main_call42.cst main_call42.v12 (broadcastInDim S802816x2x2x2 ![] bcast_S_S802816x2x2x2),
    StableHlo.TRef.ternary main_call42.v11 main_call42.v10 main_call42.v12 main_call42.v13 select,
    StableHlo.nullary main_cst_68 (constant S_ .f32 0x3F000000#32),
    StableHlo.binary main_v348 main_cst_68 main_v351 (mulf : (⟨S_, .f32⟩ : BufTy).Contents (Elt F) → (⟨S_, .f32⟩ : BufTy).Contents (Elt F) → (⟨S_, .f32⟩ : BufTy).Contents (Elt F)),
    StableHlo.unary main_v351 main_v352 (Host.cos : (⟨S_, .f32⟩ : BufTy).Contents (Elt F) → (⟨S_, .f32⟩ : BufTy).Contents (Elt F)),
    StableHlo.nullary main_cst_69 (constant S_ .f32 0x3F000000#32),
    StableHlo.binary main_v348 main_cst_69 main_v353 (mulf : (⟨S_, .f32⟩ : BufTy).Contents (Elt F) → (⟨S_, .f32⟩ : BufTy).Contents (Elt F) → (⟨S_, .f32⟩ : BufTy).Contents (Elt F)),
    StableHlo.unary main_v353 main_v354 (Host.sin : (⟨S_, .f32⟩ : BufTy).Contents (Elt F) → (⟨S_, .f32⟩ : BufTy).Contents (Elt F)),
    StableHlo.unary main_v352 main_v355 (broadcastInDim S802816x2x2x2 ![] bcast_S_S802816x2x2x2 : (⟨S_, .f32⟩ : BufTy).Contents (Elt F) → (⟨S802816x2x2x2, .f32⟩ : BufTy).Contents (Elt F)),
    StableHlo.binary main_v355 main_v349 main_v356 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v354 main_v357 (broadcastInDim S802816x2x2x2 ![] bcast_S_S802816x2x2x2 : (⟨S_, .f32⟩ : BufTy).Contents (Elt F) → (⟨S802816x2x2x2, .f32⟩ : BufTy).Contents (Elt F)),
    StableHlo.binary main_v357 main_v350 main_v358 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v356 main_v358 main_v359 (subf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v354 main_v360 (broadcastInDim S802816x2x2x2 ![] bcast_S_S802816x2x2x2 : (⟨S_, .f32⟩ : BufTy).Contents (Elt F) → (⟨S802816x2x2x2, .f32⟩ : BufTy).Contents (Elt F)),
    StableHlo.binary main_v360 main_v349 main_v361 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v352 main_v362 (broadcastInDim S802816x2x2x2 ![] bcast_S_S802816x2x2x2 : (⟨S_, .f32⟩ : BufTy).Contents (Elt F) → (⟨S802816x2x2x2, .f32⟩ : BufTy).Contents (Elt F)),
    StableHlo.binary main_v362 main_v350 main_v363 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v361 main_v363 main_v364 (addf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v359 main_v365 (broadcastInDim S802816x2x1x2x2 ![0, 1, 3, 4] bcast_S802816x2x2x2_S802816x2x1x2x2_0_1_3_4 : (⟨S802816x2x2x2, .f32⟩ : BufTy).Contents (Elt F) → (⟨S802816x2x1x2x2, .f32⟩ : BufTy).Contents (Elt F)),
    StableHlo.unary main_v364 main_v366 (broadcastInDim S802816x2x1x2x2 ![0, 1, 3, 4] bcast_S802816x2x2x2_S802816x2x1x2x2_0_1_3_4 : (⟨S802816x2x2x2, .f32⟩ : BufTy).Contents (Elt F) → (⟨S802816x2x1x2x2, .f32⟩ : BufTy).Contents (Elt F)),
    StableHlo.binary main_v365 main_v366 main_v367 ((fun a b => concatenate S802816x2x2x2x2 2 [⟨S802816x2x1x2x2, a⟩, ⟨S802816x2x1x2x2, b⟩] concatenates_S802816x2x1x2x2_S802816x2x1x2x2_S802816x2x2x2x2_d2) : (⟨S802816x2x1x2x2, .f32⟩ : BufTy).Contents (Elt F) → (⟨S802816x2x1x2x2, .f32⟩ : BufTy).Contents (Elt F) → (⟨S802816x2x2x2x2, .f32⟩ : BufTy).Contents (Elt F)) ]

/-- The buffers stretch 19 writes, one per operation. -/
abbrev seg19_W : List (Ref sig .tc) := [main_v347, main_v348, main_c_66, main_call41_c, main_call41_v0, main_call41_c_0, main_call41_v1, main_call41_v2, main_call41_v3, main_call41_c_1, main_call41_v4, main_call41_c_2, main_call41_v5, main_call41_v6, main_call41_v7, main_call41_v8, main_call41_c_3, main_call41_v9, main_call41_v10, main_call41_v11, main_call41_cst, main_call41_v12, main_v349, main_c_67, main_call42_c, main_call42_v0, main_call42_c_0, main_call42_v1, main_call42_v2, main_call42_v3, main_call42_c_1, main_call42_v4, main_call42_c_2, main_call42_v5, main_call42_v6, main_call42_v7, main_call42_v8, main_call42_c_3, main_call42_v9, main_call42_v10, main_call42_v11, main_call42_cst, main_call42_v12, main_v350, main_cst_68, main_v351, main_v352, main_cst_69, main_v353, main_v354, main_v355, main_v356, main_v357, main_v358, main_v359, main_v360, main_v361, main_v362, main_v363, main_v364, main_v365, main_v366, main_v367]

set_option maxRecDepth 65536 in
theorem seg19_writes : (seg19 : List (HloOp τ sig (Elt F))).Forall fun op => op.writes ⊆ (seg19_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 19, from any contents `W`, `main_v367` holds the stretch's composed function of what `W` has at the buffers the stretch reads. -/
theorem seg19_main_v367 (W : Valuation τ sig (Elt F)) :
    after seg19 W (main_v367 : DevRef τ sig) = gRyP1 (W (main_v346 : DevRef τ sig)) (W (main_arg1 : DevRef τ sig)) := by
  simp only [seg19]
  after_results_simp
  rfl

end Cert.ReferenceIdeal.RefRun

end
-- ==== Proof.RefSeg5.lean ====
/- Stretches 20 … 23 of the reference program's @main (a stretch ends where a state of the simulated register, or one of
   the arrays before the first and after the last state, is written): each as the list of its operations, the list of the
   buffers it writes, and its result as the stretch's composed function of the buffers it reads. -/
import proofs.«159359_j65481071398168_2_alg».proof.Proof.RefGateDefs
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Stretch 20 of @main: operations 1163 … 1208, ending where `main_v373` is written. -/
abbrev seg20 : List (HloOp τ sig (Elt F)) :=
  [ StableHlo.nullary main_c_70 (constantI S_ 32 0#32),
    StableHlo.TRef.nullary main_call43.c (constantI S_ 32 0#32),
    StableHlo.TRef.binary (.of main_c_70) main_call43.c main_call43.v0 (cmpi .slt),
    StableHlo.TRef.nullary main_call43.c_0 (constantI S_ 32 2#32),
    StableHlo.TRef.binary (.of main_c_70) main_call43.c_0 main_call43.v1 addi,
    StableHlo.TRef.ternary main_call43.v0 main_call43.v1 (.of main_c_70) main_call43.call0.v0 select,
    StableHlo.TRef.unary main_call43.call0.v0 main_call43.v3 (broadcastInDim S1 ![] bcast_S_S1),
    StableHlo.TRef.nullary main_call43.c_1 (constantI S1 32 1#32),
    StableHlo.TRef.unary main_call43.v3 main_call43.v4 id,
    StableHlo.TRef.nullary main_call43.c_2 (constantI S_ 32 0#32),
    StableHlo.TRef.unary main_call43.c_2 main_call43.v5 (broadcastInDim S1 ![] bcast_S_S1),
    StableHlo.TRef.binary main_call43.v4 main_call43.v5 main_call43.v6 (cmpi .sge),
    StableHlo.TRef.binary main_call43.v4 main_call43.c_1 main_call43.v7 (cmpi .sle),
    StableHlo.TRef.binary main_call43.v6 main_call43.v7 main_call43.v8 andi,
    StableHlo.TRef.nullary main_call43.c_3 (constantI S_ 1 1#1),
    StableHlo.TRef.binary main_call43.v8 main_call43.c_3 main_call43.v9 (fun x v => Host.reduce IntOp.andi x v reducesTo_S1_S_d0 h_S_),
    StableHlo.TRef.binary (.of main_v367) main_call43.v4 main_call43.v10 (fun x i => Host.gather gather_S802816x2x2x2x2_S1_S802816x2x2x2_0123_2_n_n_2_0_8028162122 x i),
    StableHlo.TRef.unary main_call43.v9 main_call43.v11 (broadcastInDim S802816x2x2x2 ![] bcast_S_S802816x2x2x2),
    StableHlo.TRef.nullary main_call43.cst (constant S_ .f32 0x7FC00000#32),
    StableHlo.TRef.unary main_call43.cst main_call43.v12 (broadcastInDim S802816x2x2x2 ![] bcast_S_S802816x2x2x2),
    StableHlo.TRef.ternary main_call43.v11 main_call43.v10 main_call43.v12 main_call43.v13 select,
    StableHlo.nullary main_c_71 (constantI S_ 32 1#32),
    StableHlo.TRef.nullary main_call44.c (constantI S_ 32 0#32),
    StableHlo.TRef.binary (.of main_c_71) main_call44.c main_call44.v0 (cmpi .slt),
    StableHlo.TRef.nullary main_call44.c_0 (constantI S_ 32 2#32),
    StableHlo.TRef.binary (.of main_c_71) main_call44.c_0 main_call44.v1 addi,
    StableHlo.TRef.ternary main_call44.v0 main_call44.v1 (.of main_c_71) main_call44.call0.v0 select,
    StableHlo.TRef.unary main_call44.call0.v0 main_call44.v3 (broadcastInDim S1 ![] bcast_S_S1),
    StableHlo.TRef.nullary main_call44.c_1 (constantI S1 32 1#32),
    StableHlo.TRef.unary main_call44.v3 main_call44.v4 id,
    StableHlo.TRef.nullary main_call44.c_2 (constantI S_ 32 0#32),
    StableHlo.TRef.unary main_call44.c_2 main_call44.v5 (broadcastInDim S1 ![] bcast_S_S1),
    StableHlo.TRef.binary main_call44.v4 main_call44.v5 main_call44.v6 (cmpi .sge),
    StableHlo.TRef.binary main_call44.v4 main_call44.c_1 main_call44.v7 (cmpi .sle),
    StableHlo.TRef.binary main_call44.v6 main_call44.v7 main_call44.v8 andi,
    StableHlo.TRef.nullary main_call44.c_3 (constantI S_ 1 1#1),
    StableHlo.TRef.binary main_call44.v8 main_call44.c_3 main_call44.v9 (fun x v => Host.reduce IntOp.andi x v reducesTo_S1_S_d0 h_S_),
    StableHlo.TRef.binary (.of main_v367) main_call44.v4 main_call44.v10 (fun x i => Host.gather gather_S802816x2x2x2x2_S1_S802816x2x2x2_0123_2_n_n_2_0_8028162122 x i),
    StableHlo.TRef.unary main_call44.v9 main_call44.v11 (broadcastInDim S802816x2x2x2 ![] bcast_S_S802816x2x2x2),
    StableHlo.TRef.nullary main_call44.cst (constant S_ .f32 0x7FC00000#32),
    StableHlo.TRef.unary main_call44.cst main_call44.v12 (broadcastInDim S802816x2x2x2 ![] bcast_S_S802816x2x2x2),
    StableHlo.TRef.ternary main_call44.v11 main_call44.v10 main_call44.v12 main_call44.v13 select,
    StableHlo.TRef.unary (.of main_v369) main_call45.v0 (Host.reverse [2]),
    StableHlo.unary main_v368 main_v371 (broadcastInDim S802816x2x1x2x2 ![0, 1, 3, 4] bcast_S802816x2x2x2_S802816x2x1x2x2_0_1_3_4 : (⟨S802816x2x2x2, .f32⟩ : BufTy).Contents (Elt F) → (⟨S802816x2x1x2x2, .f32⟩ : BufTy).Contents (Elt F)),
    StableHlo.unary main_v370 main_v372 (broadcastInDim S802816x2x1x2x2 ![0, 1, 3, 4] bcast_S802816x2x2x2_S802816x2x1x2x2_0_1_3_4 : (⟨S802816x2x2x2, .f32⟩ : BufTy).Contents (Elt F) → (⟨S802816x2x1x2x2, .f32⟩ : BufTy).Contents (Elt F)),
    StableHlo.binary main_v371 main_v372 main_v373 ((fun a b => concatenate S802816x2x2x2x2 2 [⟨S802816x2x1x2x2, a⟩, ⟨S802816x2x1x2x2, b⟩] concatenates_S802816x2x1x2x2_S802816x2x1x2x2_S802816x2x2x2x2_d2) : (⟨S802816x2x1x2x2, .f32⟩ : BufTy).Contents (Elt F) → (⟨S802816x2x1x2x2, .f32⟩ : BufTy).Contents (Elt F) → (⟨S802816x2x2x2x2, .f32⟩ : BufTy).Contents (Elt F)) ]

/-- The buffers stretch 20 writes, one per operation. -/
abbrev seg20_W : List (Ref sig .tc) := [main_c_70, main_call43_c, main_call43_v0, main_call43_c_0, main_call43_v1, main_call43_v2, main_call43_v3, main_call43_c_1, main_call43_v4, main_call43_c_2, main_call43_v5, main_call43_v6, main_call43_v7, main_call43_v8, main_call43_c_3, main_call43_v9, main_call43_v10, main_call43_v11, main_call43_cst, main_call43_v12, main_v368, main_c_71, main_call44_c, main_call44_v0, main_call44_c_0, main_call44_v1, main_call44_v2, main_call44_v3, main_call44_c_1, main_call44_v4, main_call44_c_2, main_call44_v5, main_call44_v6, main_call44_v7, main_call44_v8, main_call44_c_3, main_call44_v9, main_call44_v10, main_call44_v11, main_call44_cst, main_call44_v12, main_v369, main_v370, main_v371, main_v372, main_v373]

set_option maxRecDepth 65536 in
theorem seg20_writes : (seg20 : List (HloOp τ sig (Elt F))).Forall fun op => op.writes ⊆ (seg20_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 20, from any contents `W`, `main_v373` holds the stretch's composed function of what `W` has at the buffers the stretch reads. -/
theorem seg20_main_v373 (W : Valuation τ sig (Elt F)) :
    after seg20 W (main_v373 : DevRef τ sig) = gCx1 (W (main_v367 : DevRef τ sig)) := by
  simp only [seg20]
  after_results_simp
  rfl

/-- Stretch 21 of @main: operations 1209 … 1271, ending where `main_v394` is written. -/
abbrev seg21 : List (HloOp τ sig (Elt F)) :=
  [ StableHlo.unary main_arg1 main_v374 ((extractStridedSlice S1 ![2] · slices_S4_S1_2) : (⟨S4, .f32⟩ : BufTy).Contents (Elt F) → (⟨S1, .f32⟩ : BufTy).Contents (Elt F)),
    StableHlo.reshape main_v374 main_v375 rfl shapeCasts_S1_S_,
    StableHlo.nullary main_c_72 (constantI S_ 32 0#32),
    StableHlo.TRef.nullary main_call46.c (constantI S_ 32 0#32),
    StableHlo.TRef.binary (.of main_c_72) main_call46.c main_call46.v0 (cmpi .slt),
    StableHlo.TRef.nullary main_call46.c_0 (constantI S_ 32 2#32),
    StableHlo.TRef.binary (.of main_c_72) main_call46.c_0 main_call46.v1 addi,
    StableHlo.TRef.ternary main_call46.v0 main_call46.v1 (.of main_c_72) main_call46.call0.v0 select,
    StableHlo.TRef.unary main_call46.call0.v0 main_call46.v3 (broadcastInDim S1 ![] bcast_S_S1),
    StableHlo.TRef.nullary main_call46.c_1 (constantI S1 32 1#32),
    StableHlo.TRef.unary main_call46.v3 main_call46.v4 id,
    StableHlo.TRef.nullary main_call46.c_2 (constantI S_ 32 0#32),
    StableHlo.TRef.unary main_call46.c_2 main_call46.v5 (broadcastInDim S1 ![] bcast_S_S1),
    StableHlo.TRef.binary main_call46.v4 main_call46.v5 main_call46.v6 (cmpi .sge),
    StableHlo.TRef.binary main_call46.v4 main_call46.c_1 main_call46.v7 (cmpi .sle),
    StableHlo.TRef.binary main_call46.v6 main_call46.v7 main_call46.v8 andi,
    StableHlo.TRef.nullary main_call46.c_3 (constantI S_ 1 1#1),
    StableHlo.TRef.binary main_call46.v8 main_call46.c_3 main_call46.v9 (fun x v => Host.reduce IntOp.andi x v reducesTo_S1_S_d0 h_S_),
    StableHlo.TRef.binary (.of main_v373) main_call46.v4 main_call46.v10 (fun x i => Host.gather gather_S802816x2x2x2x2_S1_S802816x2x2x2_0123_3_n_n_3_0_8028162212 x i),
    StableHlo.TRef.unary main_call46.v9 main_call46.v11 (broadcastInDim S802816x2x2x2 ![] bcast_S_S802816x2x2x2),
    StableHlo.TRef.nullary main_call46.cst (constant S_ .f32 0x7FC00000#32),
    StableHlo.TRef.unary main_call46.cst main_call46.v12 (broadcastInDim S802816x2x2x2 ![] bcast_S_S802816x2x2x2),
    StableHlo.TRef.ternary main_call46.v11 main_call46.v10 main_call46.v12 main_call46.v13 select,
    StableHlo.nullary main_c_73 (constantI S_ 32 1#32),
    StableHlo.TRef.nullary main_call47.c (constantI S_ 32 0#32),
    StableHlo.TRef.binary (.of main_c_73) main_call47.c main_call47.v0 (cmpi .slt),
    StableHlo.TRef.nullary main_call47.c_0 (constantI S_ 32 2#32),
    StableHlo.TRef.binary (.of main_c_73) main_call47.c_0 main_call47.v1 addi,
    StableHlo.TRef.ternary main_call47.v0 main_call47.v1 (.of main_c_73) main_call47.call0.v0 select,
    StableHlo.TRef.unary main_call47.call0.v0 main_call47.v3 (broadcastInDim S1 ![] bcast_S_S1),
    StableHlo.TRef.nullary main_call47.c_1 (constantI S1 32 1#32),
    StableHlo.TRef.unary main_call47.v3 main_call47.v4 id,
    StableHlo.TRef.nullary main_call47.c_2 (constantI S_ 32 0#32),
    StableHlo.TRef.unary main_call47.c_2 main_call47.v5 (broadcastInDim S1 ![] bcast_S_S1),
    StableHlo.TRef.binary main_call47.v4 main_call47.v5 main_call47.v6 (cmpi .sge),
    StableHlo.TRef.binary main_call47.v4 main_call47.c_1 main_call47.v7 (cmpi .sle),
    StableHlo.TRef.binary main_call47.v6 main_call47.v7 main_call47.v8 andi,
    StableHlo.TRef.nullary main_call47.c_3 (constantI S_ 1 1#1),
    StableHlo.TRef.binary main_call47.v8 main_call47.c_3 main_call47.v9 (fun x v => Host.reduce IntOp.andi x v reducesTo_S1_S_d0 h_S_),
    StableHlo.TRef.binary (.of main_v373) main_call47.v4 main_call47.v10 (fun x i => Host.gather gather_S802816x2x2x2x2_S1_S802816x2x2x2_0123_3_n_n_3_0_8028162212 x i),
    StableHlo.TRef.unary main_call47.v9 main_call47.v11 (broadcastInDim S802816x2x2x2 ![] bcast_S_S802816x2x2x2),
    StableHlo.TRef.nullary main_call47.cst (constant S_ .f32 0x7FC00000#32),
    StableHlo.TRef.unary main_call47.cst main_call47.v12 (broadcastInDim S802816x2x2x2 ![] bcast_S_S802816x2x2x2),
    StableHlo.TRef.ternary main_call47.v11 main_call47.v10 main_call47.v12 main_call47.v13 select,
    StableHlo.nullary main_cst_74 (constant S_ .f32 0x3F000000#32),
    StableHlo.binary main_v375 main_cst_74 main_v378 (mulf : (⟨S_, .f32⟩ : BufTy).Contents (Elt F) → (⟨S_, .f32⟩ : BufTy).Contents (Elt F) → (⟨S_, .f32⟩ : BufTy).Contents (Elt F)),
    StableHlo.unary main_v378 main_v379 (Host.cos : (⟨S_, .f32⟩ : BufTy).Contents (Elt F) → (⟨S_, .f32⟩ : BufTy).Contents (Elt F)),
    StableHlo.nullary main_cst_75 (constant S_ .f32 0x3F000000#32),
    StableHlo.binary main_v375 main_cst_75 main_v380 (mulf : (⟨S_, .f32⟩ : BufTy).Contents (Elt F) → (⟨S_, .f32⟩ : BufTy).Contents (Elt F) → (⟨S_, .f32⟩ : BufTy).Contents (Elt F)),
    StableHlo.unary main_v380 main_v381 (Host.sin : (⟨S_, .f32⟩ : BufTy).Contents (Elt F) → (⟨S_, .f32⟩ : BufTy).Contents (Elt F)),
    StableHlo.unary main_v379 main_v382 (broadcastInDim S802816x2x2x2 ![] bcast_S_S802816x2x2x2 : (⟨S_, .f32⟩ : BufTy).Contents (Elt F) → (⟨S802816x2x2x2, .f32⟩ : BufTy).Contents (Elt F)),
    StableHlo.binary main_v382 main_v376 main_v383 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v381 main_v384 (broadcastInDim S802816x2x2x2 ![] bcast_S_S802816x2x2x2 : (⟨S_, .f32⟩ : BufTy).Contents (Elt F) → (⟨S802816x2x2x2, .f32⟩ : BufTy).Contents (Elt F)),
    StableHlo.binary main_v384 main_v377 main_v385 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v383 main_v385 main_v386 (subf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v381 main_v387 (broadcastInDim S802816x2x2x2 ![] bcast_S_S802816x2x2x2 : (⟨S_, .f32⟩ : BufTy).Contents (Elt F) → (⟨S802816x2x2x2, .f32⟩ : BufTy).Contents (Elt F)),
    StableHlo.binary main_v387 main_v376 main_v388 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v379 main_v389 (broadcastInDim S802816x2x2x2 ![] bcast_S_S802816x2x2x2 : (⟨S_, .f32⟩ : BufTy).Contents (Elt F) → (⟨S802816x2x2x2, .f32⟩ : BufTy).Contents (Elt F)),
    StableHlo.binary main_v389 main_v377 main_v390 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v388 main_v390 main_v391 (addf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v386 main_v392 (broadcastInDim S802816x2x2x1x2 ![0, 1, 2, 4] bcast_S802816x2x2x2_S802816x2x2x1x2_0_1_2_4 : (⟨S802816x2x2x2, .f32⟩ : BufTy).Contents (Elt F) → (⟨S802816x2x2x1x2, .f32⟩ : BufTy).Contents (Elt F)),
    StableHlo.unary main_v391 main_v393 (broadcastInDim S802816x2x2x1x2 ![0, 1, 2, 4] bcast_S802816x2x2x2_S802816x2x2x1x2_0_1_2_4 : (⟨S802816x2x2x2, .f32⟩ : BufTy).Contents (Elt F) → (⟨S802816x2x2x1x2, .f32⟩ : BufTy).Contents (Elt F)),
    StableHlo.binary main_v392 main_v393 main_v394 ((fun a b => concatenate S802816x2x2x2x2 3 [⟨S802816x2x2x1x2, a⟩, ⟨S802816x2x2x1x2, b⟩] concatenates_S802816x2x2x1x2_S802816x2x2x1x2_S802816x2x2x2x2_d3) : (⟨S802816x2x2x1x2, .f32⟩ : BufTy).Contents (Elt F) → (⟨S802816x2x2x1x2, .f32⟩ : BufTy).Contents (Elt F) → (⟨S802816x2x2x2x2, .f32⟩ : BufTy).Contents (Elt F)) ]

/-- The buffers stretch 21 writes, one per operation. -/
abbrev seg21_W : List (Ref sig .tc) := [main_v374, main_v375, main_c_72, main_call46_c, main_call46_v0, main_call46_c_0, main_call46_v1, main_call46_v2, main_call46_v3, main_call46_c_1, main_call46_v4, main_call46_c_2, main_call46_v5, main_call46_v6, main_call46_v7, main_call46_v8, main_call46_c_3, main_call46_v9, main_call46_v10, main_call46_v11, main_call46_cst, main_call46_v12, main_v376, main_c_73, main_call47_c, main_call47_v0, main_call47_c_0, main_call47_v1, main_call47_v2, main_call47_v3, main_call47_c_1, main_call47_v4, main_call47_c_2, main_call47_v5, main_call47_v6, main_call47_v7, main_call47_v8, main_call47_c_3, main_call47_v9, main_call47_v10, main_call47_v11, main_call47_cst, main_call47_v12, main_v377, main_cst_74, main_v378, main_v379, main_cst_75, main_v380, main_v381, main_v382, main_v383, main_v384, main_v385, main_v386, main_v387, main_v388, main_v389, main_v390, main_v391, main_v392, main_v393, main_v394]

set_option maxRecDepth 65536 in
theorem seg21_writes : (seg21 : List (HloOp τ sig (Elt F))).Forall fun op => op.writes ⊆ (seg21_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 21, from any contents `W`, `main_v394` holds the stretch's composed function of what `W` has at the buffers the stretch reads. -/
theorem seg21_main_v394 (W : Valuation τ sig (Elt F)) :
    after seg21 W (main_v394 : DevRef τ sig) = gRyP2 (W (main_v373 : DevRef τ sig)) (W (main_arg1 : DevRef τ sig)) := by
  simp only [seg21]
  after_results_simp
  rfl

/-- Stretch 22 of @main: operations 1272 … 1317, ending where `main_v400` is written. -/
abbrev seg22 : List (HloOp τ sig (Elt F)) :=
  [ StableHlo.nullary main_c_76 (constantI S_ 32 0#32),
    StableHlo.TRef.nullary main_call48.c (constantI S_ 32 0#32),
    StableHlo.TRef.binary (.of main_c_76) main_call48.c main_call48.v0 (cmpi .slt),
    StableHlo.TRef.nullary main_call48.c_0 (constantI S_ 32 2#32),
    StableHlo.TRef.binary (.of main_c_76) main_call48.c_0 main_call48.v1 addi,
    StableHlo.TRef.ternary main_call48.v0 main_call48.v1 (.of main_c_76) main_call48.call0.v0 select,
    StableHlo.TRef.unary main_call48.call0.v0 main_call48.v3 (broadcastInDim S1 ![] bcast_S_S1),
    StableHlo.TRef.nullary main_call48.c_1 (constantI S1 32 1#32),
    StableHlo.TRef.unary main_call48.v3 main_call48.v4 id,
    StableHlo.TRef.nullary main_call48.c_2 (constantI S_ 32 0#32),
    StableHlo.TRef.unary main_call48.c_2 main_call48.v5 (broadcastInDim S1 ![] bcast_S_S1),
    StableHlo.TRef.binary main_call48.v4 main_call48.v5 main_call48.v6 (cmpi .sge),
    StableHlo.TRef.binary main_call48.v4 main_call48.c_1 main_call48.v7 (cmpi .sle),
    StableHlo.TRef.binary main_call48.v6 main_call48.v7 main_call48.v8 andi,
    StableHlo.TRef.nullary main_call48.c_3 (constantI S_ 1 1#1),
    StableHlo.TRef.binary main_call48.v8 main_call48.c_3 main_call48.v9 (fun x v => Host.reduce IntOp.andi x v reducesTo_S1_S_d0 h_S_),
    StableHlo.TRef.binary (.of main_v394) main_call48.v4 main_call48.v10 (fun x i => Host.gather gather_S802816x2x2x2x2_S1_S802816x2x2x2_0123_3_n_n_3_0_8028162212 x i),
    StableHlo.TRef.unary main_call48.v9 main_call48.v11 (broadcastInDim S802816x2x2x2 ![] bcast_S_S802816x2x2x2),
    StableHlo.TRef.nullary main_call48.cst (constant S_ .f32 0x7FC00000#32),
    StableHlo.TRef.unary main_call48.cst main_call48.v12 (broadcastInDim S802816x2x2x2 ![] bcast_S_S802816x2x2x2),
    StableHlo.TRef.ternary main_call48.v11 main_call48.v10 main_call48.v12 main_call48.v13 select,
    StableHlo.nullary main_c_77 (constantI S_ 32 1#32),
    StableHlo.TRef.nullary main_call49.c (constantI S_ 32 0#32),
    StableHlo.TRef.binary (.of main_c_77) main_call49.c main_call49.v0 (cmpi .slt),
    StableHlo.TRef.nullary main_call49.c_0 (constantI S_ 32 2#32),
    StableHlo.TRef.binary (.of main_c_77) main_call49.c_0 main_call49.v1 addi,
    StableHlo.TRef.ternary main_call49.v0 main_call49.v1 (.of main_c_77) main_call49.call0.v0 select,
    StableHlo.TRef.unary main_call49.call0.v0 main_call49.v3 (broadcastInDim S1 ![] bcast_S_S1),
    StableHlo.TRef.nullary main_call49.c_1 (constantI S1 32 1#32),
    StableHlo.TRef.unary main_call49.v3 main_call49.v4 id,
    StableHlo.TRef.nullary main_call49.c_2 (constantI S_ 32 0#32),
    StableHlo.TRef.unary main_call49.c_2 main_call49.v5 (broadcastInDim S1 ![] bcast_S_S1),
    StableHlo.TRef.binary main_call49.v4 main_call49.v5 main_call49.v6 (cmpi .sge),
    StableHlo.TRef.binary main_call49.v4 main_call49.c_1 main_call49.v7 (cmpi .sle),
    StableHlo.TRef.binary main_call49.v6 main_call49.v7 main_call49.v8 andi,
    StableHlo.TRef.nullary main_call49.c_3 (constantI S_ 1 1#1),
    StableHlo.TRef.binary main_call49.v8 main_call49.c_3 main_call49.v9 (fun x v => Host.reduce IntOp.andi x v reducesTo_S1_S_d0 h_S_),
    StableHlo.TRef.binary (.of main_v394) main_call49.v4 main_call49.v10 (fun x i => Host.gather gather_S802816x2x2x2x2_S1_S802816x2x2x2_0123_3_n_n_3_0_8028162212 x i),
    StableHlo.TRef.unary main_call49.v9 main_call49.v11 (broadcastInDim S802816x2x2x2 ![] bcast_S_S802816x2x2x2),
    StableHlo.TRef.nullary main_call49.cst (constant S_ .f32 0x7FC00000#32),
    StableHlo.TRef.unary main_call49.cst main_call49.v12 (broadcastInDim S802816x2x2x2 ![] bcast_S_S802816x2x2x2),
    StableHlo.TRef.ternary main_call49.v11 main_call49.v10 main_call49.v12 main_call49.v13 select,
    StableHlo.TRef.unary (.of main_v396) main_call50.v0 (Host.reverse [3]),
    StableHlo.unary main_v395 main_v398 (broadcastInDim S802816x2x2x1x2 ![0, 1, 2, 4] bcast_S802816x2x2x2_S802816x2x2x1x2_0_1_2_4 : (⟨S802816x2x2x2, .f32⟩ : BufTy).Contents (Elt F) → (⟨S802816x2x2x1x2, .f32⟩ : BufTy).Contents (Elt F)),
    StableHlo.unary main_v397 main_v399 (broadcastInDim S802816x2x2x1x2 ![0, 1, 2, 4] bcast_S802816x2x2x2_S802816x2x2x1x2_0_1_2_4 : (⟨S802816x2x2x2, .f32⟩ : BufTy).Contents (Elt F) → (⟨S802816x2x2x1x2, .f32⟩ : BufTy).Contents (Elt F)),
    StableHlo.binary main_v398 main_v399 main_v400 ((fun a b => concatenate S802816x2x2x2x2 3 [⟨S802816x2x2x1x2, a⟩, ⟨S802816x2x2x1x2, b⟩] concatenates_S802816x2x2x1x2_S802816x2x2x1x2_S802816x2x2x2x2_d3) : (⟨S802816x2x2x1x2, .f32⟩ : BufTy).Contents (Elt F) → (⟨S802816x2x2x1x2, .f32⟩ : BufTy).Contents (Elt F) → (⟨S802816x2x2x2x2, .f32⟩ : BufTy).Contents (Elt F)) ]

/-- The buffers stretch 22 writes, one per operation. -/
abbrev seg22_W : List (Ref sig .tc) := [main_c_76, main_call48_c, main_call48_v0, main_call48_c_0, main_call48_v1, main_call48_v2, main_call48_v3, main_call48_c_1, main_call48_v4, main_call48_c_2, main_call48_v5, main_call48_v6, main_call48_v7, main_call48_v8, main_call48_c_3, main_call48_v9, main_call48_v10, main_call48_v11, main_call48_cst, main_call48_v12, main_v395, main_c_77, main_call49_c, main_call49_v0, main_call49_c_0, main_call49_v1, main_call49_v2, main_call49_v3, main_call49_c_1, main_call49_v4, main_call49_c_2, main_call49_v5, main_call49_v6, main_call49_v7, main_call49_v8, main_call49_c_3, main_call49_v9, main_call49_v10, main_call49_v11, main_call49_cst, main_call49_v12, main_v396, main_v397, main_v398, main_v399, main_v400]

set_option maxRecDepth 65536 in
theorem seg22_writes : (seg22 : List (HloOp τ sig (Elt F))).Forall fun op => op.writes ⊆ (seg22_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 22, from any contents `W`, `main_v400` holds the stretch's composed function of what `W` has at the buffers the stretch reads. -/
theorem seg22_main_v400 (W : Valuation τ sig (Elt F)) :
    after seg22 W (main_v400 : DevRef τ sig) = gCx2 (W (main_v394 : DevRef τ sig)) := by
  simp only [seg22]
  after_results_simp
  rfl

/-- Stretch 23 of @main: operations 1318 … 1380, ending where `main_v421` is written. -/
abbrev seg23 : List (HloOp τ sig (Elt F)) :=
  [ StableHlo.unary main_arg1 main_v401 ((extractStridedSlice S1 ![3] · slices_S4_S1_3) : (⟨S4, .f32⟩ : BufTy).Contents (Elt F) → (⟨S1, .f32⟩ : BufTy).Contents (Elt F)),
    StableHlo.reshape main_v401 main_v402 rfl shapeCasts_S1_S_,
    StableHlo.nullary main_c_78 (constantI S_ 32 0#32),
    StableHlo.TRef.nullary main_call51.c (constantI S_ 32 0#32),
    StableHlo.TRef.binary (.of main_c_78) main_call51.c main_call51.v0 (cmpi .slt),
    StableHlo.TRef.nullary main_call51.c_0 (constantI S_ 32 2#32),
    StableHlo.TRef.binary (.of main_c_78) main_call51.c_0 main_call51.v1 addi,
    StableHlo.TRef.ternary main_call51.v0 main_call51.v1 (.of main_c_78) main_call51.call0.v0 select,
    StableHlo.TRef.unary main_call51.call0.v0 main_call51.v3 (broadcastInDim S1 ![] bcast_S_S1),
    StableHlo.TRef.nullary main_call51.c_1 (constantI S1 32 1#32),
    StableHlo.TRef.unary main_call51.v3 main_call51.v4 id,
    StableHlo.TRef.nullary main_call51.c_2 (constantI S_ 32 0#32),
    StableHlo.TRef.unary main_call51.c_2 main_call51.v5 (broadcastInDim S1 ![] bcast_S_S1),
    StableHlo.TRef.binary main_call51.v4 main_call51.v5 main_call51.v6 (cmpi .sge),
    StableHlo.TRef.binary main_call51.v4 main_call51.c_1 main_call51.v7 (cmpi .sle),
    StableHlo.TRef.binary main_call51.v6 main_call51.v7 main_call51.v8 andi,
    StableHlo.TRef.nullary main_call51.c_3 (constantI S_ 1 1#1),
    StableHlo.TRef.binary main_call51.v8 main_call51.c_3 main_call51.v9 (fun x v => Host.reduce IntOp.andi x v reducesTo_S1_S_d0 h_S_),
    StableHlo.TRef.binary (.of main_v400) main_call51.v4 main_call51.v10 (fun x i => Host.gather gather_S802816x2x2x2x2_S1_S802816x2x2x2_0123_4_n_n_4_0_8028162221 x i),
    StableHlo.TRef.unary main_call51.v9 main_call51.v11 (broadcastInDim S802816x2x2x2 ![] bcast_S_S802816x2x2x2),
    StableHlo.TRef.nullary main_call51.cst (constant S_ .f32 0x7FC00000#32),
    StableHlo.TRef.unary main_call51.cst main_call51.v12 (broadcastInDim S802816x2x2x2 ![] bcast_S_S802816x2x2x2),
    StableHlo.TRef.ternary main_call51.v11 main_call51.v10 main_call51.v12 main_call51.v13 select,
    StableHlo.nullary main_c_79 (constantI S_ 32 1#32),
    StableHlo.TRef.nullary main_call52.c (constantI S_ 32 0#32),
    StableHlo.TRef.binary (.of main_c_79) main_call52.c main_call52.v0 (cmpi .slt),
    StableHlo.TRef.nullary main_call52.c_0 (constantI S_ 32 2#32),
    StableHlo.TRef.binary (.of main_c_79) main_call52.c_0 main_call52.v1 addi,
    StableHlo.TRef.ternary main_call52.v0 main_call52.v1 (.of main_c_79) main_call52.call0.v0 select,
    StableHlo.TRef.unary main_call52.call0.v0 main_call52.v3 (broadcastInDim S1 ![] bcast_S_S1),
    StableHlo.TRef.nullary main_call52.c_1 (constantI S1 32 1#32),
    StableHlo.TRef.unary main_call52.v3 main_call52.v4 id,
    StableHlo.TRef.nullary main_call52.c_2 (constantI S_ 32 0#32),
    StableHlo.TRef.unary main_call52.c_2 main_call52.v5 (broadcastInDim S1 ![] bcast_S_S1),
    StableHlo.TRef.binary main_call52.v4 main_call52.v5 main_call52.v6 (cmpi .sge),
    StableHlo.TRef.binary main_call52.v4 main_call52.c_1 main_call52.v7 (cmpi .sle),
    StableHlo.TRef.binary main_call52.v6 main_call52.v7 main_call52.v8 andi,
    StableHlo.TRef.nullary main_call52.c_3 (constantI S_ 1 1#1),
    StableHlo.TRef.binary main_call52.v8 main_call52.c_3 main_call52.v9 (fun x v => Host.reduce IntOp.andi x v reducesTo_S1_S_d0 h_S_),
    StableHlo.TRef.binary (.of main_v400) main_call52.v4 main_call52.v10 (fun x i => Host.gather gather_S802816x2x2x2x2_S1_S802816x2x2x2_0123_4_n_n_4_0_8028162221 x i),
    StableHlo.TRef.unary main_call52.v9 main_call52.v11 (broadcastInDim S802816x2x2x2 ![] bcast_S_S802816x2x2x2),
    StableHlo.TRef.nullary main_call52.cst (constant S_ .f32 0x7FC00000#32),
    StableHlo.TRef.unary main_call52.cst main_call52.v12 (broadcastInDim S802816x2x2x2 ![] bcast_S_S802816x2x2x2),
    StableHlo.TRef.ternary main_call52.v11 main_call52.v10 main_call52.v12 main_call52.v13 select,
    StableHlo.nullary main_cst_80 (constant S_ .f32 0x3F000000#32),
    StableHlo.binary main_v402 main_cst_80 main_v405 (mulf : (⟨S_, .f32⟩ : BufTy).Contents (Elt F) → (⟨S_, .f32⟩ : BufTy).Contents (Elt F) → (⟨S_, .f32⟩ : BufTy).Contents (Elt F)),
    StableHlo.unary main_v405 main_v406 (Host.cos : (⟨S_, .f32⟩ : BufTy).Contents (Elt F) → (⟨S_, .f32⟩ : BufTy).Contents (Elt F)),
    StableHlo.nullary main_cst_81 (constant S_ .f32 0x3F000000#32),
    StableHlo.binary main_v402 main_cst_81 main_v407 (mulf : (⟨S_, .f32⟩ : BufTy).Contents (Elt F) → (⟨S_, .f32⟩ : BufTy).Contents (Elt F) → (⟨S_, .f32⟩ : BufTy).Contents (Elt F)),
    StableHlo.unary main_v407 main_v408 (Host.sin : (⟨S_, .f32⟩ : BufTy).Contents (Elt F) → (⟨S_, .f32⟩ : BufTy).Contents (Elt F)),
    StableHlo.unary main_v406 main_v409 (broadcastInDim S802816x2x2x2 ![] bcast_S_S802816x2x2x2 : (⟨S_, .f32⟩ : BufTy).Contents (Elt F) → (⟨S802816x2x2x2, .f32⟩ : BufTy).Contents (Elt F)),
    StableHlo.binary main_v409 main_v403 main_v410 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v408 main_v411 (broadcastInDim S802816x2x2x2 ![] bcast_S_S802816x2x2x2 : (⟨S_, .f32⟩ : BufTy).Contents (Elt F) → (⟨S802816x2x2x2, .f32⟩ : BufTy).Contents (Elt F)),
    StableHlo.binary main_v411 main_v404 main_v412 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v410 main_v412 main_v413 (subf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v408 main_v414 (broadcastInDim S802816x2x2x2 ![] bcast_S_S802816x2x2x2 : (⟨S_, .f32⟩ : BufTy).Contents (Elt F) → (⟨S802816x2x2x2, .f32⟩ : BufTy).Contents (Elt F)),
    StableHlo.binary main_v414 main_v403 main_v415 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v406 main_v416 (broadcastInDim S802816x2x2x2 ![] bcast_S_S802816x2x2x2 : (⟨S_, .f32⟩ : BufTy).Contents (Elt F) → (⟨S802816x2x2x2, .f32⟩ : BufTy).Contents (Elt F)),
    StableHlo.binary main_v416 main_v404 main_v417 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v415 main_v417 main_v418 (addf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v413 main_v419 (broadcastInDim S802816x2x2x2x1 ![0, 1, 2, 3] bcast_S802816x2x2x2_S802816x2x2x2x1_0_1_2_3 : (⟨S802816x2x2x2, .f32⟩ : BufTy).Contents (Elt F) → (⟨S802816x2x2x2x1, .f32⟩ : BufTy).Contents (Elt F)),
    StableHlo.unary main_v418 main_v420 (broadcastInDim S802816x2x2x2x1 ![0, 1, 2, 3] bcast_S802816x2x2x2_S802816x2x2x2x1_0_1_2_3 : (⟨S802816x2x2x2, .f32⟩ : BufTy).Contents (Elt F) → (⟨S802816x2x2x2x1, .f32⟩ : BufTy).Contents (Elt F)),
    StableHlo.binary main_v419 main_v420 main_v421 ((fun a b => concatenate S802816x2x2x2x2 4 [⟨S802816x2x2x2x1, a⟩, ⟨S802816x2x2x2x1, b⟩] concatenates_S802816x2x2x2x1_S802816x2x2x2x1_S802816x2x2x2x2_d4) : (⟨S802816x2x2x2x1, .f32⟩ : BufTy).Contents (Elt F) → (⟨S802816x2x2x2x1, .f32⟩ : BufTy).Contents (Elt F) → (⟨S802816x2x2x2x2, .f32⟩ : BufTy).Contents (Elt F)) ]

/-- The buffers stretch 23 writes, one per operation. -/
abbrev seg23_W : List (Ref sig .tc) := [main_v401, main_v402, main_c_78, main_call51_c, main_call51_v0, main_call51_c_0, main_call51_v1, main_call51_v2, main_call51_v3, main_call51_c_1, main_call51_v4, main_call51_c_2, main_call51_v5, main_call51_v6, main_call51_v7, main_call51_v8, main_call51_c_3, main_call51_v9, main_call51_v10, main_call51_v11, main_call51_cst, main_call51_v12, main_v403, main_c_79, main_call52_c, main_call52_v0, main_call52_c_0, main_call52_v1, main_call52_v2, main_call52_v3, main_call52_c_1, main_call52_v4, main_call52_c_2, main_call52_v5, main_call52_v6, main_call52_v7, main_call52_v8, main_call52_c_3, main_call52_v9, main_call52_v10, main_call52_v11, main_call52_cst, main_call52_v12, main_v404, main_cst_80, main_v405, main_v406, main_cst_81, main_v407, main_v408, main_v409, main_v410, main_v411, main_v412, main_v413, main_v414, main_v415, main_v416, main_v417, main_v418, main_v419, main_v420, main_v421]

set_option maxRecDepth 65536 in
theorem seg23_writes : (seg23 : List (HloOp τ sig (Elt F))).Forall fun op => op.writes ⊆ (seg23_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 23, from any contents `W`, `main_v421` holds the stretch's composed function of what `W` has at the buffers the stretch reads. -/
theorem seg23_main_v421 (W : Valuation τ sig (Elt F)) :
    after seg23 W (main_v421 : DevRef τ sig) = gRyP3 (W (main_v400 : DevRef τ sig)) (W (main_arg1 : DevRef τ sig)) := by
  simp only [seg23]
  after_results_simp
  rfl

end Cert.ReferenceIdeal.RefRun

end
-- ==== Proof.RefSeg6.lean ====
/- Stretches 24 … 27 of the reference program's @main (a stretch ends where a state of the simulated register, or one of
   the arrays before the first and after the last state, is written): each as the list of its operations, the list of the
   buffers it writes, and its result as the stretch's composed function of the buffers it reads. -/
import proofs.«159359_j65481071398168_2_alg».proof.Proof.RefGateDefs
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Stretch 24 of @main: operations 1381 … 1426, ending where `main_v427` is written. -/
abbrev seg24 : List (HloOp τ sig (Elt F)) :=
  [ StableHlo.nullary main_c_82 (constantI S_ 32 0#32),
    StableHlo.TRef.nullary main_call53.c (constantI S_ 32 0#32),
    StableHlo.TRef.binary (.of main_c_82) main_call53.c main_call53.v0 (cmpi .slt),
    StableHlo.TRef.nullary main_call53.c_0 (constantI S_ 32 2#32),
    StableHlo.TRef.binary (.of main_c_82) main_call53.c_0 main_call53.v1 addi,
    StableHlo.TRef.ternary main_call53.v0 main_call53.v1 (.of main_c_82) main_call53.call0.v0 select,
    StableHlo.TRef.unary main_call53.call0.v0 main_call53.v3 (broadcastInDim S1 ![] bcast_S_S1),
    StableHlo.TRef.nullary main_call53.c_1 (constantI S1 32 1#32),
    StableHlo.TRef.unary main_call53.v3 main_call53.v4 id,
    StableHlo.TRef.nullary main_call53.c_2 (constantI S_ 32 0#32),
    StableHlo.TRef.unary main_call53.c_2 main_call53.v5 (broadcastInDim S1 ![] bcast_S_S1),
    StableHlo.TRef.binary main_call53.v4 main_call53.v5 main_call53.v6 (cmpi .sge),
    StableHlo.TRef.binary main_call53.v4 main_call53.c_1 main_call53.v7 (cmpi .sle),
    StableHlo.TRef.binary main_call53.v6 main_call53.v7 main_call53.v8 andi,
    StableHlo.TRef.nullary main_call53.c_3 (constantI S_ 1 1#1),
    StableHlo.TRef.binary main_call53.v8 main_call53.c_3 main_call53.v9 (fun x v => Host.reduce IntOp.andi x v reducesTo_S1_S_d0 h_S_),
    StableHlo.TRef.binary (.of main_v421) main_call53.v4 main_call53.v10 (fun x i => Host.gather gather_S802816x2x2x2x2_S1_S802816x2x2x2_0123_4_n_n_4_0_8028162221 x i),
    StableHlo.TRef.unary main_call53.v9 main_call53.v11 (broadcastInDim S802816x2x2x2 ![] bcast_S_S802816x2x2x2),
    StableHlo.TRef.nullary main_call53.cst (constant S_ .f32 0x7FC00000#32),
    StableHlo.TRef.unary main_call53.cst main_call53.v12 (broadcastInDim S802816x2x2x2 ![] bcast_S_S802816x2x2x2),
    StableHlo.TRef.ternary main_call53.v11 main_call53.v10 main_call53.v12 main_call53.v13 select,
    StableHlo.nullary main_c_83 (constantI S_ 32 1#32),
    StableHlo.TRef.nullary main_call54.c (constantI S_ 32 0#32),
    StableHlo.TRef.binary (.of main_c_83) main_call54.c main_call54.v0 (cmpi .slt),
    StableHlo.TRef.nullary main_call54.c_0 (constantI S_ 32 2#32),
    StableHlo.TRef.binary (.of main_c_83) main_call54.c_0 main_call54.v1 addi,
    StableHlo.TRef.ternary main_call54.v0 main_call54.v1 (.of main_c_83) main_call54.call0.v0 select,
    StableHlo.TRef.unary main_call54.call0.v0 main_call54.v3 (broadcastInDim S1 ![] bcast_S_S1),
    StableHlo.TRef.nullary main_call54.c_1 (constantI S1 32 1#32),
    StableHlo.TRef.unary main_call54.v3 main_call54.v4 id,
    StableHlo.TRef.nullary main_call54.c_2 (constantI S_ 32 0#32),
    StableHlo.TRef.unary main_call54.c_2 main_call54.v5 (broadcastInDim S1 ![] bcast_S_S1),
    StableHlo.TRef.binary main_call54.v4 main_call54.v5 main_call54.v6 (cmpi .sge),
    StableHlo.TRef.binary main_call54.v4 main_call54.c_1 main_call54.v7 (cmpi .sle),
    StableHlo.TRef.binary main_call54.v6 main_call54.v7 main_call54.v8 andi,
    StableHlo.TRef.nullary main_call54.c_3 (constantI S_ 1 1#1),
    StableHlo.TRef.binary main_call54.v8 main_call54.c_3 main_call54.v9 (fun x v => Host.reduce IntOp.andi x v reducesTo_S1_S_d0 h_S_),
    StableHlo.TRef.binary (.of main_v421) main_call54.v4 main_call54.v10 (fun x i => Host.gather gather_S802816x2x2x2x2_S1_S802816x2x2x2_0123_4_n_n_4_0_8028162221 x i),
    StableHlo.TRef.unary main_call54.v9 main_call54.v11 (broadcastInDim S802816x2x2x2 ![] bcast_S_S802816x2x2x2),
    StableHlo.TRef.nullary main_call54.cst (constant S_ .f32 0x7FC00000#32),
    StableHlo.TRef.unary main_call54.cst main_call54.v12 (broadcastInDim S802816x2x2x2 ![] bcast_S_S802816x2x2x2),
    StableHlo.TRef.ternary main_call54.v11 main_call54.v10 main_call54.v12 main_call54.v13 select,
    StableHlo.TRef.unary (.of main_v423) main_call55.v0 (Host.reverse [1]),
    StableHlo.unary main_v422 main_v425 (broadcastInDim S802816x2x2x2x1 ![0, 1, 2, 3] bcast_S802816x2x2x2_S802816x2x2x2x1_0_1_2_3 : (⟨S802816x2x2x2, .f32⟩ : BufTy).Contents (Elt F) → (⟨S802816x2x2x2x1, .f32⟩ : BufTy).Contents (Elt F)),
    StableHlo.unary main_v424 main_v426 (broadcastInDim S802816x2x2x2x1 ![0, 1, 2, 3] bcast_S802816x2x2x2_S802816x2x2x2x1_0_1_2_3 : (⟨S802816x2x2x2, .f32⟩ : BufTy).Contents (Elt F) → (⟨S802816x2x2x2x1, .f32⟩ : BufTy).Contents (Elt F)),
    StableHlo.binary main_v425 main_v426 main_v427 ((fun a b => concatenate S802816x2x2x2x2 4 [⟨S802816x2x2x2x1, a⟩, ⟨S802816x2x2x2x1, b⟩] concatenates_S802816x2x2x2x1_S802816x2x2x2x1_S802816x2x2x2x2_d4) : (⟨S802816x2x2x2x1, .f32⟩ : BufTy).Contents (Elt F) → (⟨S802816x2x2x2x1, .f32⟩ : BufTy).Contents (Elt F) → (⟨S802816x2x2x2x2, .f32⟩ : BufTy).Contents (Elt F)) ]

/-- The buffers stretch 24 writes, one per operation. -/
abbrev seg24_W : List (Ref sig .tc) := [main_c_82, main_call53_c, main_call53_v0, main_call53_c_0, main_call53_v1, main_call53_v2, main_call53_v3, main_call53_c_1, main_call53_v4, main_call53_c_2, main_call53_v5, main_call53_v6, main_call53_v7, main_call53_v8, main_call53_c_3, main_call53_v9, main_call53_v10, main_call53_v11, main_call53_cst, main_call53_v12, main_v422, main_c_83, main_call54_c, main_call54_v0, main_call54_c_0, main_call54_v1, main_call54_v2, main_call54_v3, main_call54_c_1, main_call54_v4, main_call54_c_2, main_call54_v5, main_call54_v6, main_call54_v7, main_call54_v8, main_call54_c_3, main_call54_v9, main_call54_v10, main_call54_v11, main_call54_cst, main_call54_v12, main_v423, main_v424, main_v425, main_v426, main_v427]

set_option maxRecDepth 65536 in
theorem seg24_writes : (seg24 : List (HloOp τ sig (Elt F))).Forall fun op => op.writes ⊆ (seg24_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 24, from any contents `W`, `main_v427` holds the stretch's composed function of what `W` has at the buffers the stretch reads. -/
theorem seg24_main_v427 (W : Valuation τ sig (Elt F)) :
    after seg24 W (main_v427 : DevRef τ sig) = gCx3 (W (main_v421 : DevRef τ sig)) := by
  simp only [seg24]
  after_results_simp
  rfl

/-- Stretch 25 of @main: operations 1427 … 1427, ending where `main_v428` is written. -/
abbrev seg25 : List (HloOp τ sig (Elt F)) :=
  [ StableHlo.binary main_v427 main_v427 main_v428 (mulf : (⟨S802816x2x2x2x2, .f32⟩ : BufTy).Contents (Elt F) → (⟨S802816x2x2x2x2, .f32⟩ : BufTy).Contents (Elt F) → (⟨S802816x2x2x2x2, .f32⟩ : BufTy).Contents (Elt F)) ]

/-- The buffers stretch 25 writes, one per operation. -/
abbrev seg25_W : List (Ref sig .tc) := [main_v428]

set_option maxRecDepth 65536 in
theorem seg25_writes : (seg25 : List (HloOp τ sig (Elt F))).Forall fun op => op.writes ⊆ (seg25_W.map (Proc.devRef (τ := τ) .tc)).toFinset := by
  simp only [List.Forall]
  refine ?_ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 25, from any contents `W`, `main_v428` holds the stretch's composed function of what `W` has at the buffers the stretch reads. -/
theorem seg25_main_v428 (W : Valuation τ sig (Elt F)) :
    after seg25 W (main_v428 : DevRef τ sig) = gProbs (W (main_v427 : DevRef τ sig)) := by
  simp only [seg25]
  after_results_simp
  rfl

/-- Stretch 26 of @main: operations 1428 … 1461, ending where `main_v458` is written. -/
abbrev seg26 : List (HloOp τ sig (Elt F)) :=
  [ StableHlo.nullary main_cst_84 (constant S_ .f32 0x00000000#32),
    StableHlo.binary main_v428 main_cst_84 main_v429 ((fun x v => Host.reduceAdd x v reducesTo_S802816x2x2x2x2_S802816x2_d2_3_4 h_S_) : (⟨S802816x2x2x2x2, .f32⟩ : BufTy).Contents (Elt F) → (⟨S_, .f32⟩ : BufTy).Contents (Elt F) → (⟨S802816x2, .f32⟩ : BufTy).Contents (Elt F)),
    StableHlo.unary main_v429 main_v430 ((extractStridedSlice S802816x1 ![0, 0] · slices_S802816x2_S802816x1_0_0) : (⟨S802816x2, .f32⟩ : BufTy).Contents (Elt F) → (⟨S802816x1, .f32⟩ : BufTy).Contents (Elt F)),
    StableHlo.reshape main_v430 main_v431 rfl shapeCasts_S802816x1_S802816,
    StableHlo.unary main_v429 main_v432 ((extractStridedSlice S802816x1 ![0, 1] · slices_S802816x2_S802816x1_0_1) : (⟨S802816x2, .f32⟩ : BufTy).Contents (Elt F) → (⟨S802816x1, .f32⟩ : BufTy).Contents (Elt F)),
    StableHlo.reshape main_v432 main_v433 rfl shapeCasts_S802816x1_S802816,
    StableHlo.binary main_v431 main_v433 main_v434 (subf : (⟨S802816, .f32⟩ : BufTy).Contents (Elt F) → (⟨S802816, .f32⟩ : BufTy).Contents (Elt F) → (⟨S802816, .f32⟩ : BufTy).Contents (Elt F)),
    StableHlo.nullary main_cst_85 (constant S_ .f32 0x00000000#32),
    StableHlo.binary main_v428 main_cst_85 main_v435 ((fun x v => Host.reduceAdd x v reducesTo_S802816x2x2x2x2_S802816x2_d1_3_4 h_S_) : (⟨S802816x2x2x2x2, .f32⟩ : BufTy).Contents (Elt F) → (⟨S_, .f32⟩ : BufTy).Contents (Elt F) → (⟨S802816x2, .f32⟩ : BufTy).Contents (Elt F)),
    StableHlo.unary main_v435 main_v436 ((extractStridedSlice S802816x1 ![0, 0] · slices_S802816x2_S802816x1_0_0) : (⟨S802816x2, .f32⟩ : BufTy).Contents (Elt F) → (⟨S802816x1, .f32⟩ : BufTy).Contents (Elt F)),
    StableHlo.reshape main_v436 main_v437 rfl shapeCasts_S802816x1_S802816,
    StableHlo.unary main_v435 main_v438 ((extractStridedSlice S802816x1 ![0, 1] · slices_S802816x2_S802816x1_0_1) : (⟨S802816x2, .f32⟩ : BufTy).Contents (Elt F) → (⟨S802816x1, .f32⟩ : BufTy).Contents (Elt F)),
    StableHlo.reshape main_v438 main_v439 rfl shapeCasts_S802816x1_S802816,
    StableHlo.binary main_v437 main_v439 main_v440 (subf : (⟨S802816, .f32⟩ : BufTy).Contents (Elt F) → (⟨S802816, .f32⟩ : BufTy).Contents (Elt F) → (⟨S802816, .f32⟩ : BufTy).Contents (Elt F)),
    StableHlo.nullary main_cst_86 (constant S_ .f32 0x00000000#32),
    StableHlo.binary main_v428 main_cst_86 main_v441 ((fun x v => Host.reduceAdd x v reducesTo_S802816x2x2x2x2_S802816x2_d1_2_4 h_S_) : (⟨S802816x2x2x2x2, .f32⟩ : BufTy).Contents (Elt F) → (⟨S_, .f32⟩ : BufTy).Contents (Elt F) → (⟨S802816x2, .f32⟩ : BufTy).Contents (Elt F)),
    StableHlo.unary main_v441 main_v442 ((extractStridedSlice S802816x1 ![0, 0] · slices_S802816x2_S802816x1_0_0) : (⟨S802816x2, .f32⟩ : BufTy).Contents (Elt F) → (⟨S802816x1, .f32⟩ : BufTy).Contents (Elt F)),
    StableHlo.reshape main_v442 main_v443 rfl shapeCasts_S802816x1_S802816,
    StableHlo.unary main_v441 main_v444 ((extractStridedSlice S802816x1 ![0, 1] · slices_S802816x2_S802816x1_0_1) : (⟨S802816x2, .f32⟩ : BufTy).Contents (Elt F) → (⟨S802816x1, .f32⟩ : BufTy).Contents (Elt F)),
    StableHlo.reshape main_v444 main_v445 rfl shapeCasts_S802816x1_S802816,
    StableHlo.binary main_v443 main_v445 main_v446 (subf : (⟨S802816, .f32⟩ : BufTy).Contents (Elt F) → (⟨S802816, .f32⟩ : BufTy).Contents (Elt F) → (⟨S802816, .f32⟩ : BufTy).Contents (Elt F)),
    StableHlo.nullary main_cst_87 (constant S_ .f32 0x00000000#32),
    StableHlo.binary main_v428 main_cst_87 main_v447 ((fun x v => Host.reduceAdd x v reducesTo_S802816x2x2x2x2_S802816x2_d1_2_3 h_S_) : (⟨S802816x2x2x2x2, .f32⟩ : BufTy).Contents (Elt F) → (⟨S_, .f32⟩ : BufTy).Contents (Elt F) → (⟨S802816x2, .f32⟩ : BufTy).Contents (Elt F)),
    StableHlo.unary main_v447 main_v448 ((extractStridedSlice S802816x1 ![0, 0] · slices_S802816x2_S802816x1_0_0) : (⟨S802816x2, .f32⟩ : BufTy).Contents (Elt F) → (⟨S802816x1, .f32⟩ : BufTy).Contents (Elt F)),
    StableHlo.reshape main_v448 main_v449 rfl shapeCasts_S802816x1_S802816,
    StableHlo.unary main_v447 main_v450 ((extractStridedSlice S802816x1 ![0, 1] · slices_S802816x2_S802816x1_0_1) : (⟨S802816x2, .f32⟩ : BufTy).Contents (Elt F) → (⟨S802816x1, .f32⟩ : BufTy).Contents (Elt F)),
    StableHlo.reshape main_v450 main_v451 rfl shapeCasts_S802816x1_S802816,
    StableHlo.binary main_v449 main_v451 main_v452 (subf : (⟨S802816, .f32⟩ : BufTy).Contents (Elt F) → (⟨S802816, .f32⟩ : BufTy).Contents (Elt F) → (⟨S802816, .f32⟩ : BufTy).Contents (Elt F)),
    StableHlo.unary main_v434 main_v453 (broadcastInDim S802816x1 ![0] bcast_S802816_S802816x1_0 : (⟨S802816, .f32⟩ : BufTy).Contents (Elt F) → (⟨S802816x1, .f32⟩ : BufTy).Contents (Elt F)),
    StableHlo.unary main_v440 main_v454 (broadcastInDim S802816x1 ![0] bcast_S802816_S802816x1_0 : (⟨S802816, .f32⟩ : BufTy).Contents (Elt F) → (⟨S802816x1, .f32⟩ : BufTy).Contents (Elt F)),
    StableHlo.unary main_v446 main_v455 (broadcastInDim S802816x1 ![0] bcast_S802816_S802816x1_0 : (⟨S802816, .f32⟩ : BufTy).Contents (Elt F) → (⟨S802816x1, .f32⟩ : BufTy).Contents (Elt F)),
    StableHlo.unary main_v452 main_v456 (broadcastInDim S802816x1 ![0] bcast_S802816_S802816x1_0 : (⟨S802816, .f32⟩ : BufTy).Contents (Elt F) → (⟨S802816x1, .f32⟩ : BufTy).Contents (Elt F)),
    StableHlo.nary ![main_v453, main_v454, main_v455, main_v456] main_v457 (fun u => concatenate S802816x4 1 [⟨S802816x1, u 0⟩, ⟨S802816x1, u 1⟩, ⟨S802816x1, u 2⟩, ⟨S802816x1, u 3⟩] concatenates_S802816x1_S802816x1_S802816x1_S802816x1_S802816x4_d1),
    StableHlo.reshape main_v457 main_v458 rfl shapeCasts_S802816x4_S4096x784 ]

/-- The buffers stretch 26 writes, one per operation. -/
abbrev seg26_W : List (Ref sig .tc) := [main_cst_84, main_v429, main_v430, main_v431, main_v432, main_v433, main_v434, main_cst_85, main_v435, main_v436, main_v437, main_v438, main_v439, main_v440, main_cst_86, main_v441, main_v442, main_v443, main_v444, main_v445, main_v446, main_cst_87, main_v447, main_v448, main_v449, main_v450, main_v451, main_v452, main_v453, main_v454, main_v455, main_v456, main_v457, main_v458]

set_option maxRecDepth 65536 in
theorem seg26_writes : (seg26 : List (HloOp τ sig (Elt F))).Forall fun op => op.writes ⊆ (seg26_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 26, from any contents `W`, `main_v458` holds the stretch's composed function of what `W` has at the buffers the stretch reads. -/
theorem seg26_main_v458 (W : Valuation τ sig (Elt F)) :
    after seg26 W (main_v458 : DevRef τ sig) = gFeats (W (main_v428 : DevRef τ sig)) := by
  simp only [seg26]
  after_results_simp
  rfl

/-- Stretch 27 of @main: operations 1462 … 1481, ending where `main_v464` is written. -/
abbrev seg27 : List (HloOp τ sig (Elt F)) :=
  [ StableHlo.unary main_arg2 main_v459 ((transpose S784x10 [1, 0] · transposes_S10x784_S784x10_1_0) : (⟨S10x784, .f32⟩ : BufTy).Contents (Elt F) → (⟨S784x10, .f32⟩ : BufTy).Contents (Elt F)),
    StableHlo.binary main_v458 main_v459 main_v460 ((fun l r => Host.dotGeneral dot_S4096x784_S784x10_S4096x10_1_0_0_1_n_n none l r) : (⟨S4096x784, .f32⟩ : BufTy).Contents (Elt F) → (⟨S784x10, .f32⟩ : BufTy).Contents (Elt F) → (⟨S4096x10, .f32⟩ : BufTy).Contents (Elt F)),
    StableHlo.unary main_arg3 main_v461 (broadcastInDim S1x10 ![1] bcast_S10_S1x10_1 : (⟨S10, .f32⟩ : BufTy).Contents (Elt F) → (⟨S1x10, .f32⟩ : BufTy).Contents (Elt F)),
    StableHlo.unary main_v461 main_v462 (broadcastInDim S4096x10 ![0, 1] bcast_S1x10_S4096x10_0_1 : (⟨S1x10, .f32⟩ : BufTy).Contents (Elt F) → (⟨S4096x10, .f32⟩ : BufTy).Contents (Elt F)),
    StableHlo.binary main_v460 main_v462 main_v463 (addf : (⟨S4096x10, .f32⟩ : BufTy).Contents (Elt F) → (⟨S4096x10, .f32⟩ : BufTy).Contents (Elt F) → (⟨S4096x10, .f32⟩ : BufTy).Contents (Elt F)),
    StableHlo.TRef.nullary main_call56.cst (constant S_ .f32 0xFF800000#32),
    StableHlo.TRef.binary (.of main_v463 : StableHlo.TRef sig ⟨S4096x10, .f32⟩) main_call56.cst main_call56.v0 (fun x v => Host.reduce FloatOps.maximumf x v reducesTo_S4096x10_S4096_d1 h_S_),
    StableHlo.TRef.nullary main_call56.cst_0 (constant S_ .f32 0xFF800000#32),
    StableHlo.TRef.unary main_call56.cst_0 main_call56.v1 (broadcastInDim S4096 ![] bcast_S_S4096),
    StableHlo.TRef.binary main_call56.v1 main_call56.v0 main_call56.v2 maximumf,
    StableHlo.TRef.unary main_call56.v2 main_call56.v3 (broadcastInDim S4096x1 ![0] bcast_S4096_S4096x1_0),
    StableHlo.TRef.unary main_call56.v3 main_call56.v4 (broadcastInDim S4096x10 ![0, 1] bcast_S4096x1_S4096x10_0_1),
    StableHlo.TRef.binary (.of main_v463 : StableHlo.TRef sig ⟨S4096x10, .f32⟩) main_call56.v4 main_call56.v5 subf,
    StableHlo.TRef.unary main_call56.v5 main_call56.v6 Host.exp,
    StableHlo.TRef.nullary main_call56.cst_1 (constant S_ .f32 0x00000000#32),
    StableHlo.TRef.binary main_call56.v6 main_call56.cst_1 main_call56.v7 (fun x v => Host.reduceAdd x v reducesTo_S4096x10_S4096_d1 h_S_),
    StableHlo.TRef.unary main_call56.v7 main_call56.v8 (broadcastInDim S4096x1 ![0] bcast_S4096_S4096x1_0),
    StableHlo.TRef.unary main_call56.v8 main_call56.v9 Host.log,
    StableHlo.TRef.unary main_call56.v9 main_call56.v10 (broadcastInDim S4096x10 ![0, 1] bcast_S4096x1_S4096x10_0_1),
    StableHlo.TRef.binary main_call56.v5 main_call56.v10 main_call56.v11 subf ]

/-- The buffers stretch 27 writes, one per operation. -/
abbrev seg27_W : List (Ref sig .tc) := [main_v459, main_v460, main_v461, main_v462, main_v463, main_call56_cst, main_call56_v0, main_call56_cst_0, main_call56_v1, main_call56_v2, main_call56_v3, main_call56_v4, main_call56_v5, main_call56_v6, main_call56_cst_1, main_call56_v7, main_call56_v8, main_call56_v9, main_call56_v10, main_v464]

set_option maxRecDepth 65536 in
theorem seg27_writes : (seg27 : List (HloOp τ sig (Elt F))).Forall fun op => op.writes ⊆ (seg27_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 27, from any contents `W`, `main_v464` holds the stretch's composed function of what `W` has at the buffers the stretch reads. -/
theorem seg27_main_v464 (W : Valuation τ sig (Elt F)) :
    after seg27 W (main_v464 : DevRef τ sig) = gHead (W (main_v458 : DevRef τ sig)) (W (main_arg2 : DevRef τ sig)) (W (main_arg3 : DevRef τ sig)) := by
  simp only [seg27]
  after_results_simp
  rfl

end Cert.ReferenceIdeal.RefRun

end
-- ==== Proof.RefOps0.lean ====
/- Window 0 of the reference program's @main as a list of its 136 operations, in order: each call of an
   outlined function is replaced by the callee's own operations over that call's record of buffers (an index
   wrapped into range, a gather, a select filling with NaN where the index was out of range, …). Proved below: the
   window IS this straight line, every operation touches only buffers of the TensorCore, and none leaves a
   buffer undetermined. -/
import proofs.«159359_j65481071398168_2_alg».proof.ReferenceIdeal
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The operations of window 0 of @main, the calls unfolded. -/
abbrev ops0 : List (HloOp τ sig (Elt F)) :=
  [ StableHlo.reshape main_arg0 main_v0 rfl shapeCasts_S4096x784_S4096x28x28,
    StableHlo.reshape main_v0 main_v1 rfl shapeCasts_S4096x28x28_S4096x14x2x14x2,
    StableHlo.unary main_v1 main_v2 ((transpose S4096x14x14x2x2 [0, 1, 3, 2, 4] · transposes_S4096x14x2x14x2_S4096x14x14x2x2_0_1_3_2_4) : (⟨S4096x14x2x14x2, .f32⟩ : BufTy).Contents (Elt F) → (⟨S4096x14x14x2x2, .f32⟩ : BufTy).Contents (Elt F)),
    StableHlo.reshape main_v2 main_v3 rfl shapeCasts_S4096x14x14x2x2_S802816x4,
    StableHlo.nullary main_cst (constant S_ .f32 0x00000000#32),
    StableHlo.unary main_cst main_v4 (broadcastInDim S802816x2x2x2x2 ![] bcast_S_S802816x2x2x2x2 : (⟨S_, .f32⟩ : BufTy).Contents (Elt F) → (⟨S802816x2x2x2x2, .f32⟩ : BufTy).Contents (Elt F)),
    StableHlo.nullary main_c (constantI S_ 32 0#32),
    StableHlo.unary main_c main_v5 (broadcastInDim S1 ![] bcast_S_S1 : (⟨S_, .i32⟩ : BufTy).Contents (Elt F) → (⟨S1, .i32⟩ : BufTy).Contents (Elt F)),
    StableHlo.nullary main_c_0 (constantI S_ 32 0#32),
    StableHlo.unary main_c_0 main_v6 (broadcastInDim S1 ![] bcast_S_S1 : (⟨S_, .i32⟩ : BufTy).Contents (Elt F) → (⟨S1, .i32⟩ : BufTy).Contents (Elt F)),
    StableHlo.nullary main_c_1 (constantI S_ 32 0#32),
    StableHlo.unary main_c_1 main_v7 (broadcastInDim S1 ![] bcast_S_S1 : (⟨S_, .i32⟩ : BufTy).Contents (Elt F) → (⟨S1, .i32⟩ : BufTy).Contents (Elt F)),
    StableHlo.nullary main_c_2 (constantI S_ 32 0#32),
    StableHlo.unary main_c_2 main_v8 (broadcastInDim S1 ![] bcast_S_S1 : (⟨S_, .i32⟩ : BufTy).Contents (Elt F) → (⟨S1, .i32⟩ : BufTy).Contents (Elt F)),
    StableHlo.nary ![main_v5, main_v6, main_v7, main_v8] main_v9 (fun u => concatenate S4 0 [⟨S1, u 0⟩, ⟨S1, u 1⟩, ⟨S1, u 2⟩, ⟨S1, u 3⟩] concatenates_S1_S1_S1_S1_S4_d0),
    StableHlo.nullary main_cst_3 (constant S_ .f32 0x3F800000#32),
    StableHlo.unary main_cst_3 main_v10 (broadcastInDim S802816 ![] bcast_S_S802816 : (⟨S_, .f32⟩ : BufTy).Contents (Elt F) → (⟨S802816, .f32⟩ : BufTy).Contents (Elt F)),
    StableHlo.ternary main_v4 main_v9 main_v10 main_v11 ((fun x i u => Host.scatter scatter_S802816x2x2x2x2_S4_S802816_0_1234_1234_0 (fun _ b => b) x i u) : (⟨S802816x2x2x2x2, .f32⟩ : BufTy).Contents (Elt F) → (⟨S4, .i32⟩ : BufTy).Contents (Elt F) → (⟨S802816, .f32⟩ : BufTy).Contents (Elt F) → (⟨S802816x2x2x2x2, .f32⟩ : BufTy).Contents (Elt F)),
    StableHlo.unary main_v3 main_v12 ((extractStridedSlice S802816x1 ![0, 0] · slices_S802816x4_S802816x1_0_0) : (⟨S802816x4, .f32⟩ : BufTy).Contents (Elt F) → (⟨S802816x1, .f32⟩ : BufTy).Contents (Elt F)),
    StableHlo.reshape main_v12 main_v13 rfl shapeCasts_S802816x1_S802816,
    StableHlo.nullary main_c_4 (constantI S_ 32 0#32),
    StableHlo.TRef.nullary main_call0.c (constantI S_ 32 0#32),
    StableHlo.TRef.binary (.of main_c_4 : StableHlo.TRef sig ⟨S_, .i32⟩) main_call0.c main_call0.v0 (cmpi .slt),
    StableHlo.TRef.nullary main_call0.c_0 (constantI S_ 32 2#32),
    StableHlo.TRef.binary (.of main_c_4 : StableHlo.TRef sig ⟨S_, .i32⟩) main_call0.c_0 main_call0.v1 addi,
    StableHlo.TRef.ternary main_call0.v0 main_call0.v1 (.of main_c_4 : StableHlo.TRef sig ⟨S_, .i32⟩) main_call0.call0.v0 select,
    StableHlo.TRef.unary main_call0.call0.v0 main_call0.v3 (broadcastInDim S1 ![] bcast_S_S1),
    StableHlo.TRef.nullary main_call0.c_1 (constantI S1 32 1#32),
    StableHlo.TRef.unary main_call0.v3 main_call0.v4 id,
    StableHlo.TRef.nullary main_call0.c_2 (constantI S_ 32 0#32),
    StableHlo.TRef.unary main_call0.c_2 main_call0.v5 (broadcastInDim S1 ![] bcast_S_S1),
    StableHlo.TRef.binary main_call0.v4 main_call0.v5 main_call0.v6 (cmpi .sge),
    StableHlo.TRef.binary main_call0.v4 main_call0.c_1 main_call0.v7 (cmpi .sle),
    StableHlo.TRef.binary main_call0.v6 main_call0.v7 main_call0.v8 andi,
    StableHlo.TRef.nullary main_call0.c_3 (constantI S_ 1 1#1),
    StableHlo.TRef.binary main_call0.v8 main_call0.c_3 main_call0.v9 (fun x v => Host.reduce IntOp.andi x v reducesTo_S1_S_d0 h_S_),
    StableHlo.TRef.binary (.of main_v11 : StableHlo.TRef sig ⟨S802816x2x2x2x2, .f32⟩) main_call0.v4 main_call0.v10 (fun x i => Host.gather gather_S802816x2x2x2x2_S1_S802816x2x2x2_0123_1_n_n_1_0_8028161222 x i),
    StableHlo.TRef.unary main_call0.v9 main_call0.v11 (broadcastInDim S802816x2x2x2 ![] bcast_S_S802816x2x2x2),
    StableHlo.TRef.nullary main_call0.cst (constant S_ .f32 0x7FC00000#32),
    StableHlo.TRef.unary main_call0.cst main_call0.v12 (broadcastInDim S802816x2x2x2 ![] bcast_S_S802816x2x2x2),
    StableHlo.TRef.ternary main_call0.v11 main_call0.v10 main_call0.v12 main_call0.v13 select,
    StableHlo.nullary main_c_5 (constantI S_ 32 1#32),
    StableHlo.TRef.nullary main_call1.c (constantI S_ 32 0#32),
    StableHlo.TRef.binary (.of main_c_5 : StableHlo.TRef sig ⟨S_, .i32⟩) main_call1.c main_call1.v0 (cmpi .slt),
    StableHlo.TRef.nullary main_call1.c_0 (constantI S_ 32 2#32),
    StableHlo.TRef.binary (.of main_c_5 : StableHlo.TRef sig ⟨S_, .i32⟩) main_call1.c_0 main_call1.v1 addi,
    StableHlo.TRef.ternary main_call1.v0 main_call1.v1 (.of main_c_5 : StableHlo.TRef sig ⟨S_, .i32⟩) main_call1.call0.v0 select,
    StableHlo.TRef.unary main_call1.call0.v0 main_call1.v3 (broadcastInDim S1 ![] bcast_S_S1),
    StableHlo.TRef.nullary main_call1.c_1 (constantI S1 32 1#32),
    StableHlo.TRef.unary main_call1.v3 main_call1.v4 id,
    StableHlo.TRef.nullary main_call1.c_2 (constantI S_ 32 0#32),
    StableHlo.TRef.unary main_call1.c_2 main_call1.v5 (broadcastInDim S1 ![] bcast_S_S1),
    StableHlo.TRef.binary main_call1.v4 main_call1.v5 main_call1.v6 (cmpi .sge),
    StableHlo.TRef.binary main_call1.v4 main_call1.c_1 main_call1.v7 (cmpi .sle),
    StableHlo.TRef.binary main_call1.v6 main_call1.v7 main_call1.v8 andi,
    StableHlo.TRef.nullary main_call1.c_3 (constantI S_ 1 1#1),
    StableHlo.TRef.binary main_call1.v8 main_call1.c_3 main_call1.v9 (fun x v => Host.reduce IntOp.andi x v reducesTo_S1_S_d0 h_S_),
    StableHlo.TRef.binary (.of main_v11 : StableHlo.TRef sig ⟨S802816x2x2x2x2, .f32⟩) main_call1.v4 main_call1.v10 (fun x i => Host.gather gather_S802816x2x2x2x2_S1_S802816x2x2x2_0123_1_n_n_1_0_8028161222 x i),
    StableHlo.TRef.unary main_call1.v9 main_call1.v11 (broadcastInDim S802816x2x2x2 ![] bcast_S_S802816x2x2x2),
    StableHlo.TRef.nullary main_call1.cst (constant S_ .f32 0x7FC00000#32),
    StableHlo.TRef.unary main_call1.cst main_call1.v12 (broadcastInDim S802816x2x2x2 ![] bcast_S_S802816x2x2x2),
    StableHlo.TRef.ternary main_call1.v11 main_call1.v10 main_call1.v12 main_call1.v13 select,
    StableHlo.nullary main_cst_6 (constant S_ .f32 0x3F000000#32),
    StableHlo.unary main_cst_6 main_v16 (broadcastInDim S802816 ![] bcast_S_S802816 : (⟨S_, .f32⟩ : BufTy).Contents (Elt F) → (⟨S802816, .f32⟩ : BufTy).Contents (Elt F)),
    StableHlo.binary main_v13 main_v16 main_v17 (mulf : (⟨S802816, .f32⟩ : BufTy).Contents (Elt F) → (⟨S802816, .f32⟩ : BufTy).Contents (Elt F) → (⟨S802816, .f32⟩ : BufTy).Contents (Elt F)),
    StableHlo.unary main_v17 main_v18 (Host.cos : (⟨S802816, .f32⟩ : BufTy).Contents (Elt F) → (⟨S802816, .f32⟩ : BufTy).Contents (Elt F)),
    StableHlo.nullary main_cst_7 (constant S_ .f32 0x3F000000#32),
    StableHlo.unary main_cst_7 main_v19 (broadcastInDim S802816 ![] bcast_S_S802816 : (⟨S_, .f32⟩ : BufTy).Contents (Elt F) → (⟨S802816, .f32⟩ : BufTy).Contents (Elt F)),
    StableHlo.binary main_v13 main_v19 main_v20 (mulf : (⟨S802816, .f32⟩ : BufTy).Contents (Elt F) → (⟨S802816, .f32⟩ : BufTy).Contents (Elt F) → (⟨S802816, .f32⟩ : BufTy).Contents (Elt F)),
    StableHlo.unary main_v20 main_v21 (Host.sin : (⟨S802816, .f32⟩ : BufTy).Contents (Elt F) → (⟨S802816, .f32⟩ : BufTy).Contents (Elt F)),
    StableHlo.reshape main_v18 main_v22 rfl shapeCasts_S802816_S802816x1x1x1,
    StableHlo.reshape main_v21 main_v23 rfl shapeCasts_S802816_S802816x1x1x1,
    StableHlo.unary main_v22 main_v24 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v24 main_v14 main_v25 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v23 main_v26 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v26 main_v15 main_v27 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v25 main_v27 main_v28 (subf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v23 main_v29 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v29 main_v14 main_v30 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v22 main_v31 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v31 main_v15 main_v32 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v30 main_v32 main_v33 (addf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v28 main_v34 (broadcastInDim S802816x1x2x2x2 ![0, 2, 3, 4] bcast_S802816x2x2x2_S802816x1x2x2x2_0_2_3_4 : (⟨S802816x2x2x2, .f32⟩ : BufTy).Contents (Elt F) → (⟨S802816x1x2x2x2, .f32⟩ : BufTy).Contents (Elt F)),
    StableHlo.unary main_v33 main_v35 (broadcastInDim S802816x1x2x2x2 ![0, 2, 3, 4] bcast_S802816x2x2x2_S802816x1x2x2x2_0_2_3_4 : (⟨S802816x2x2x2, .f32⟩ : BufTy).Contents (Elt F) → (⟨S802816x1x2x2x2, .f32⟩ : BufTy).Contents (Elt F)),
    StableHlo.binary main_v34 main_v35 main_v36 ((fun a b => concatenate S802816x2x2x2x2 1 [⟨S802816x1x2x2x2, a⟩, ⟨S802816x1x2x2x2, b⟩] concatenates_S802816x1x2x2x2_S802816x1x2x2x2_S802816x2x2x2x2_d1) : (⟨S802816x1x2x2x2, .f32⟩ : BufTy).Contents (Elt F) → (⟨S802816x1x2x2x2, .f32⟩ : BufTy).Contents (Elt F) → (⟨S802816x2x2x2x2, .f32⟩ : BufTy).Contents (Elt F)),
    StableHlo.unary main_v3 main_v37 ((extractStridedSlice S802816x1 ![0, 1] · slices_S802816x4_S802816x1_0_1) : (⟨S802816x4, .f32⟩ : BufTy).Contents (Elt F) → (⟨S802816x1, .f32⟩ : BufTy).Contents (Elt F)),
    StableHlo.reshape main_v37 main_v38 rfl shapeCasts_S802816x1_S802816,
    StableHlo.nullary main_c_8 (constantI S_ 32 0#32),
    StableHlo.TRef.nullary main_call2.c (constantI S_ 32 0#32),
    StableHlo.TRef.binary (.of main_c_8 : StableHlo.TRef sig ⟨S_, .i32⟩) main_call2.c main_call2.v0 (cmpi .slt),
    StableHlo.TRef.nullary main_call2.c_0 (constantI S_ 32 2#32),
    StableHlo.TRef.binary (.of main_c_8 : StableHlo.TRef sig ⟨S_, .i32⟩) main_call2.c_0 main_call2.v1 addi,
    StableHlo.TRef.ternary main_call2.v0 main_call2.v1 (.of main_c_8 : StableHlo.TRef sig ⟨S_, .i32⟩) main_call2.call0.v0 select,
    StableHlo.TRef.unary main_call2.call0.v0 main_call2.v3 (broadcastInDim S1 ![] bcast_S_S1),
    StableHlo.TRef.nullary main_call2.c_1 (constantI S1 32 1#32),
    StableHlo.TRef.unary main_call2.v3 main_call2.v4 id,
    StableHlo.TRef.nullary main_call2.c_2 (constantI S_ 32 0#32),
    StableHlo.TRef.unary main_call2.c_2 main_call2.v5 (broadcastInDim S1 ![] bcast_S_S1),
    StableHlo.TRef.binary main_call2.v4 main_call2.v5 main_call2.v6 (cmpi .sge),
    StableHlo.TRef.binary main_call2.v4 main_call2.c_1 main_call2.v7 (cmpi .sle),
    StableHlo.TRef.binary main_call2.v6 main_call2.v7 main_call2.v8 andi,
    StableHlo.TRef.nullary main_call2.c_3 (constantI S_ 1 1#1),
    StableHlo.TRef.binary main_call2.v8 main_call2.c_3 main_call2.v9 (fun x v => Host.reduce IntOp.andi x v reducesTo_S1_S_d0 h_S_),
    StableHlo.TRef.binary (.of main_v36 : StableHlo.TRef sig ⟨S802816x2x2x2x2, .f32⟩) main_call2.v4 main_call2.v10 (fun x i => Host.gather gather_S802816x2x2x2x2_S1_S802816x2x2x2_0123_2_n_n_2_0_8028162122 x i),
    StableHlo.TRef.unary main_call2.v9 main_call2.v11 (broadcastInDim S802816x2x2x2 ![] bcast_S_S802816x2x2x2),
    StableHlo.TRef.nullary main_call2.cst (constant S_ .f32 0x7FC00000#32),
    StableHlo.TRef.unary main_call2.cst main_call2.v12 (broadcastInDim S802816x2x2x2 ![] bcast_S_S802816x2x2x2),
    StableHlo.TRef.ternary main_call2.v11 main_call2.v10 main_call2.v12 main_call2.v13 select,
    StableHlo.nullary main_c_9 (constantI S_ 32 1#32),
    StableHlo.TRef.nullary main_call3.c (constantI S_ 32 0#32),
    StableHlo.TRef.binary (.of main_c_9 : StableHlo.TRef sig ⟨S_, .i32⟩) main_call3.c main_call3.v0 (cmpi .slt),
    StableHlo.TRef.nullary main_call3.c_0 (constantI S_ 32 2#32),
    StableHlo.TRef.binary (.of main_c_9 : StableHlo.TRef sig ⟨S_, .i32⟩) main_call3.c_0 main_call3.v1 addi,
    StableHlo.TRef.ternary main_call3.v0 main_call3.v1 (.of main_c_9 : StableHlo.TRef sig ⟨S_, .i32⟩) main_call3.call0.v0 select,
    StableHlo.TRef.unary main_call3.call0.v0 main_call3.v3 (broadcastInDim S1 ![] bcast_S_S1),
    StableHlo.TRef.nullary main_call3.c_1 (constantI S1 32 1#32),
    StableHlo.TRef.unary main_call3.v3 main_call3.v4 id,
    StableHlo.TRef.nullary main_call3.c_2 (constantI S_ 32 0#32),
    StableHlo.TRef.unary main_call3.c_2 main_call3.v5 (broadcastInDim S1 ![] bcast_S_S1),
    StableHlo.TRef.binary main_call3.v4 main_call3.v5 main_call3.v6 (cmpi .sge),
    StableHlo.TRef.binary main_call3.v4 main_call3.c_1 main_call3.v7 (cmpi .sle),
    StableHlo.TRef.binary main_call3.v6 main_call3.v7 main_call3.v8 andi,
    StableHlo.TRef.nullary main_call3.c_3 (constantI S_ 1 1#1),
    StableHlo.TRef.binary main_call3.v8 main_call3.c_3 main_call3.v9 (fun x v => Host.reduce IntOp.andi x v reducesTo_S1_S_d0 h_S_),
    StableHlo.TRef.binary (.of main_v36 : StableHlo.TRef sig ⟨S802816x2x2x2x2, .f32⟩) main_call3.v4 main_call3.v10 (fun x i => Host.gather gather_S802816x2x2x2x2_S1_S802816x2x2x2_0123_2_n_n_2_0_8028162122 x i),
    StableHlo.TRef.unary main_call3.v9 main_call3.v11 (broadcastInDim S802816x2x2x2 ![] bcast_S_S802816x2x2x2),
    StableHlo.TRef.nullary main_call3.cst (constant S_ .f32 0x7FC00000#32),
    StableHlo.TRef.unary main_call3.cst main_call3.v12 (broadcastInDim S802816x2x2x2 ![] bcast_S_S802816x2x2x2),
    StableHlo.TRef.ternary main_call3.v11 main_call3.v10 main_call3.v12 main_call3.v13 select,
    StableHlo.nullary main_cst_10 (constant S_ .f32 0x3F000000#32),
    StableHlo.unary main_cst_10 main_v41 (broadcastInDim S802816 ![] bcast_S_S802816 : (⟨S_, .f32⟩ : BufTy).Contents (Elt F) → (⟨S802816, .f32⟩ : BufTy).Contents (Elt F)),
    StableHlo.binary main_v38 main_v41 main_v42 (mulf : (⟨S802816, .f32⟩ : BufTy).Contents (Elt F) → (⟨S802816, .f32⟩ : BufTy).Contents (Elt F) → (⟨S802816, .f32⟩ : BufTy).Contents (Elt F)),
    StableHlo.unary main_v42 main_v43 (Host.cos : (⟨S802816, .f32⟩ : BufTy).Contents (Elt F) → (⟨S802816, .f32⟩ : BufTy).Contents (Elt F)),
    StableHlo.nullary main_cst_11 (constant S_ .f32 0x3F000000#32),
    StableHlo.unary main_cst_11 main_v44 (broadcastInDim S802816 ![] bcast_S_S802816 : (⟨S_, .f32⟩ : BufTy).Contents (Elt F) → (⟨S802816, .f32⟩ : BufTy).Contents (Elt F)),
    StableHlo.binary main_v38 main_v44 main_v45 (mulf : (⟨S802816, .f32⟩ : BufTy).Contents (Elt F) → (⟨S802816, .f32⟩ : BufTy).Contents (Elt F) → (⟨S802816, .f32⟩ : BufTy).Contents (Elt F)) ]

set_option maxRecDepth 65536 in
set_option maxHeartbeats 4000000 in
/-- The window is that straight line: the callees' definitions unfolded at their calls, both sides are one chain of
    steps once sequencing is reassociated. -/
theorem main_part0_eq (c : Dev nD) : main_part0 (F := F) c = seq ops0 := by
  simp only [main_part0, fn_take.body, fn_where.body, fn_take_0.body, seq, bind_assoc, pure_bind]
  try rfl

set_option maxRecDepth 65536 in
/-- Every operation of the window touches TensorCore buffers only. -/
theorem ops0_sub : (ops0 : List (HloOp τ sig (Elt F))).Forall fun op => op.bufs ⊆ tcRefs τ sig :=
  ⟨reshape_bufs_sub .., reshape_bufs_sub .., unary_bufs_sub .., reshape_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nary_bufs_sub .., nullary_bufs_sub .., unary_bufs_sub .., ternary_bufs_sub .., unary_bufs_sub .., reshape_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., unary_bufs_sub .., nullary_bufs_sub .., unary_bufs_sub .., binary_bufs_sub .., unary_bufs_sub .., reshape_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., unary_bufs_sub .., reshape_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., unary_bufs_sub .., nullary_bufs_sub .., unary_bufs_sub .., binary_bufs_sub ..⟩

set_option maxRecDepth 65536 in
/-- No operation of the window leaves a buffer's contents undetermined. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefOps1.lean ====
/- Window 1 of the reference program's @main as a list of its 136 operations, in order: each call of an
   outlined function is replaced by the callee's own operations over that call's record of buffers (an index
   wrapped into range, a gather, a select filling with NaN where the index was out of range, …). Proved below: the
   window IS this straight line, every operation touches only buffers of the TensorCore, and none leaves a
   buffer undetermined. -/
import proofs.«159359_j65481071398168_2_alg».proof.ReferenceIdeal
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The operations of window 1 of @main, the calls unfolded. -/
abbrev ops1 : List (HloOp τ sig (Elt F)) :=
  [ StableHlo.unary main_v45 main_v46 (Host.sin : (⟨S802816, .f32⟩ : BufTy).Contents (Elt F) → (⟨S802816, .f32⟩ : BufTy).Contents (Elt F)),
    StableHlo.reshape main_v43 main_v47 rfl shapeCasts_S802816_S802816x1x1x1,
    StableHlo.reshape main_v46 main_v48 rfl shapeCasts_S802816_S802816x1x1x1,
    StableHlo.unary main_v47 main_v49 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v49 main_v39 main_v50 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v48 main_v51 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v51 main_v40 main_v52 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v50 main_v52 main_v53 (subf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v48 main_v54 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v54 main_v39 main_v55 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v47 main_v56 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v56 main_v40 main_v57 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v55 main_v57 main_v58 (addf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v53 main_v59 (broadcastInDim S802816x2x1x2x2 ![0, 1, 3, 4] bcast_S802816x2x2x2_S802816x2x1x2x2_0_1_3_4 : (⟨S802816x2x2x2, .f32⟩ : BufTy).Contents (Elt F) → (⟨S802816x2x1x2x2, .f32⟩ : BufTy).Contents (Elt F)),
    StableHlo.unary main_v58 main_v60 (broadcastInDim S802816x2x1x2x2 ![0, 1, 3, 4] bcast_S802816x2x2x2_S802816x2x1x2x2_0_1_3_4 : (⟨S802816x2x2x2, .f32⟩ : BufTy).Contents (Elt F) → (⟨S802816x2x1x2x2, .f32⟩ : BufTy).Contents (Elt F)),
    StableHlo.binary main_v59 main_v60 main_v61 ((fun a b => concatenate S802816x2x2x2x2 2 [⟨S802816x2x1x2x2, a⟩, ⟨S802816x2x1x2x2, b⟩] concatenates_S802816x2x1x2x2_S802816x2x1x2x2_S802816x2x2x2x2_d2) : (⟨S802816x2x1x2x2, .f32⟩ : BufTy).Contents (Elt F) → (⟨S802816x2x1x2x2, .f32⟩ : BufTy).Contents (Elt F) → (⟨S802816x2x2x2x2, .f32⟩ : BufTy).Contents (Elt F)),
    StableHlo.unary main_v3 main_v62 ((extractStridedSlice S802816x1 ![0, 2] · slices_S802816x4_S802816x1_0_2) : (⟨S802816x4, .f32⟩ : BufTy).Contents (Elt F) → (⟨S802816x1, .f32⟩ : BufTy).Contents (Elt F)),
    StableHlo.reshape main_v62 main_v63 rfl shapeCasts_S802816x1_S802816,
    StableHlo.nullary main_c_12 (constantI S_ 32 0#32),
    StableHlo.TRef.nullary main_call4.c (constantI S_ 32 0#32),
    StableHlo.TRef.binary (.of main_c_12 : StableHlo.TRef sig ⟨S_, .i32⟩) main_call4.c main_call4.v0 (cmpi .slt),
    StableHlo.TRef.nullary main_call4.c_0 (constantI S_ 32 2#32),
    StableHlo.TRef.binary (.of main_c_12 : StableHlo.TRef sig ⟨S_, .i32⟩) main_call4.c_0 main_call4.v1 addi,
    StableHlo.TRef.ternary main_call4.v0 main_call4.v1 (.of main_c_12 : StableHlo.TRef sig ⟨S_, .i32⟩) main_call4.call0.v0 select,
    StableHlo.TRef.unary main_call4.call0.v0 main_call4.v3 (broadcastInDim S1 ![] bcast_S_S1),
    StableHlo.TRef.nullary main_call4.c_1 (constantI S1 32 1#32),
    StableHlo.TRef.unary main_call4.v3 main_call4.v4 id,
    StableHlo.TRef.nullary main_call4.c_2 (constantI S_ 32 0#32),
    StableHlo.TRef.unary main_call4.c_2 main_call4.v5 (broadcastInDim S1 ![] bcast_S_S1),
    StableHlo.TRef.binary main_call4.v4 main_call4.v5 main_call4.v6 (cmpi .sge),
    StableHlo.TRef.binary main_call4.v4 main_call4.c_1 main_call4.v7 (cmpi .sle),
    StableHlo.TRef.binary main_call4.v6 main_call4.v7 main_call4.v8 andi,
    StableHlo.TRef.nullary main_call4.c_3 (constantI S_ 1 1#1),
    StableHlo.TRef.binary main_call4.v8 main_call4.c_3 main_call4.v9 (fun x v => Host.reduce IntOp.andi x v reducesTo_S1_S_d0 h_S_),
    StableHlo.TRef.binary (.of main_v61 : StableHlo.TRef sig ⟨S802816x2x2x2x2, .f32⟩) main_call4.v4 main_call4.v10 (fun x i => Host.gather gather_S802816x2x2x2x2_S1_S802816x2x2x2_0123_3_n_n_3_0_8028162212 x i),
    StableHlo.TRef.unary main_call4.v9 main_call4.v11 (broadcastInDim S802816x2x2x2 ![] bcast_S_S802816x2x2x2),
    StableHlo.TRef.nullary main_call4.cst (constant S_ .f32 0x7FC00000#32),
    StableHlo.TRef.unary main_call4.cst main_call4.v12 (broadcastInDim S802816x2x2x2 ![] bcast_S_S802816x2x2x2),
    StableHlo.TRef.ternary main_call4.v11 main_call4.v10 main_call4.v12 main_call4.v13 select,
    StableHlo.nullary main_c_13 (constantI S_ 32 1#32),
    StableHlo.TRef.nullary main_call5.c (constantI S_ 32 0#32),
    StableHlo.TRef.binary (.of main_c_13 : StableHlo.TRef sig ⟨S_, .i32⟩) main_call5.c main_call5.v0 (cmpi .slt),
    StableHlo.TRef.nullary main_call5.c_0 (constantI S_ 32 2#32),
    StableHlo.TRef.binary (.of main_c_13 : StableHlo.TRef sig ⟨S_, .i32⟩) main_call5.c_0 main_call5.v1 addi,
    StableHlo.TRef.ternary main_call5.v0 main_call5.v1 (.of main_c_13 : StableHlo.TRef sig ⟨S_, .i32⟩) main_call5.call0.v0 select,
    StableHlo.TRef.unary main_call5.call0.v0 main_call5.v3 (broadcastInDim S1 ![] bcast_S_S1),
    StableHlo.TRef.nullary main_call5.c_1 (constantI S1 32 1#32),
    StableHlo.TRef.unary main_call5.v3 main_call5.v4 id,
    StableHlo.TRef.nullary main_call5.c_2 (constantI S_ 32 0#32),
    StableHlo.TRef.unary main_call5.c_2 main_call5.v5 (broadcastInDim S1 ![] bcast_S_S1),
    StableHlo.TRef.binary main_call5.v4 main_call5.v5 main_call5.v6 (cmpi .sge),
    StableHlo.TRef.binary main_call5.v4 main_call5.c_1 main_call5.v7 (cmpi .sle),
    StableHlo.TRef.binary main_call5.v6 main_call5.v7 main_call5.v8 andi,
    StableHlo.TRef.nullary main_call5.c_3 (constantI S_ 1 1#1),
    StableHlo.TRef.binary main_call5.v8 main_call5.c_3 main_call5.v9 (fun x v => Host.reduce IntOp.andi x v reducesTo_S1_S_d0 h_S_),
    StableHlo.TRef.binary (.of main_v61 : StableHlo.TRef sig ⟨S802816x2x2x2x2, .f32⟩) main_call5.v4 main_call5.v10 (fun x i => Host.gather gather_S802816x2x2x2x2_S1_S802816x2x2x2_0123_3_n_n_3_0_8028162212 x i),
    StableHlo.TRef.unary main_call5.v9 main_call5.v11 (broadcastInDim S802816x2x2x2 ![] bcast_S_S802816x2x2x2),
    StableHlo.TRef.nullary main_call5.cst (constant S_ .f32 0x7FC00000#32),
    StableHlo.TRef.unary main_call5.cst main_call5.v12 (broadcastInDim S802816x2x2x2 ![] bcast_S_S802816x2x2x2),
    StableHlo.TRef.ternary main_call5.v11 main_call5.v10 main_call5.v12 main_call5.v13 select,
    StableHlo.nullary main_cst_14 (constant S_ .f32 0x3F000000#32),
    StableHlo.unary main_cst_14 main_v66 (broadcastInDim S802816 ![] bcast_S_S802816 : (⟨S_, .f32⟩ : BufTy).Contents (Elt F) → (⟨S802816, .f32⟩ : BufTy).Contents (Elt F)),
    StableHlo.binary main_v63 main_v66 main_v67 (mulf : (⟨S802816, .f32⟩ : BufTy).Contents (Elt F) → (⟨S802816, .f32⟩ : BufTy).Contents (Elt F) → (⟨S802816, .f32⟩ : BufTy).Contents (Elt F)),
    StableHlo.unary main_v67 main_v68 (Host.cos : (⟨S802816, .f32⟩ : BufTy).Contents (Elt F) → (⟨S802816, .f32⟩ : BufTy).Contents (Elt F)),
    StableHlo.nullary main_cst_15 (constant S_ .f32 0x3F000000#32),
    StableHlo.unary main_cst_15 main_v69 (broadcastInDim S802816 ![] bcast_S_S802816 : (⟨S_, .f32⟩ : BufTy).Contents (Elt F) → (⟨S802816, .f32⟩ : BufTy).Contents (Elt F)),
    StableHlo.binary main_v63 main_v69 main_v70 (mulf : (⟨S802816, .f32⟩ : BufTy).Contents (Elt F) → (⟨S802816, .f32⟩ : BufTy).Contents (Elt F) → (⟨S802816, .f32⟩ : BufTy).Contents (Elt F)),
    StableHlo.unary main_v70 main_v71 (Host.sin : (⟨S802816, .f32⟩ : BufTy).Contents (Elt F) → (⟨S802816, .f32⟩ : BufTy).Contents (Elt F)),
    StableHlo.reshape main_v68 main_v72 rfl shapeCasts_S802816_S802816x1x1x1,
    StableHlo.reshape main_v71 main_v73 rfl shapeCasts_S802816_S802816x1x1x1,
    StableHlo.unary main_v72 main_v74 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v74 main_v64 main_v75 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v73 main_v76 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v76 main_v65 main_v77 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v75 main_v77 main_v78 (subf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v73 main_v79 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v79 main_v64 main_v80 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v72 main_v81 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v81 main_v65 main_v82 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v80 main_v82 main_v83 (addf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v78 main_v84 (broadcastInDim S802816x2x2x1x2 ![0, 1, 2, 4] bcast_S802816x2x2x2_S802816x2x2x1x2_0_1_2_4 : (⟨S802816x2x2x2, .f32⟩ : BufTy).Contents (Elt F) → (⟨S802816x2x2x1x2, .f32⟩ : BufTy).Contents (Elt F)),
    StableHlo.unary main_v83 main_v85 (broadcastInDim S802816x2x2x1x2 ![0, 1, 2, 4] bcast_S802816x2x2x2_S802816x2x2x1x2_0_1_2_4 : (⟨S802816x2x2x2, .f32⟩ : BufTy).Contents (Elt F) → (⟨S802816x2x2x1x2, .f32⟩ : BufTy).Contents (Elt F)),
    StableHlo.binary main_v84 main_v85 main_v86 ((fun a b => concatenate S802816x2x2x2x2 3 [⟨S802816x2x2x1x2, a⟩, ⟨S802816x2x2x1x2, b⟩] concatenates_S802816x2x2x1x2_S802816x2x2x1x2_S802816x2x2x2x2_d3) : (⟨S802816x2x2x1x2, .f32⟩ : BufTy).Contents (Elt F) → (⟨S802816x2x2x1x2, .f32⟩ : BufTy).Contents (Elt F) → (⟨S802816x2x2x2x2, .f32⟩ : BufTy).Contents (Elt F)),
    StableHlo.unary main_v3 main_v87 ((extractStridedSlice S802816x1 ![0, 3] · slices_S802816x4_S802816x1_0_3) : (⟨S802816x4, .f32⟩ : BufTy).Contents (Elt F) → (⟨S802816x1, .f32⟩ : BufTy).Contents (Elt F)),
    StableHlo.reshape main_v87 main_v88 rfl shapeCasts_S802816x1_S802816,
    StableHlo.nullary main_c_16 (constantI S_ 32 0#32),
    StableHlo.TRef.nullary main_call6.c (constantI S_ 32 0#32),
    StableHlo.TRef.binary (.of main_c_16 : StableHlo.TRef sig ⟨S_, .i32⟩) main_call6.c main_call6.v0 (cmpi .slt),
    StableHlo.TRef.nullary main_call6.c_0 (constantI S_ 32 2#32),
    StableHlo.TRef.binary (.of main_c_16 : StableHlo.TRef sig ⟨S_, .i32⟩) main_call6.c_0 main_call6.v1 addi,
    StableHlo.TRef.ternary main_call6.v0 main_call6.v1 (.of main_c_16 : StableHlo.TRef sig ⟨S_, .i32⟩) main_call6.call0.v0 select,
    StableHlo.TRef.unary main_call6.call0.v0 main_call6.v3 (broadcastInDim S1 ![] bcast_S_S1),
    StableHlo.TRef.nullary main_call6.c_1 (constantI S1 32 1#32),
    StableHlo.TRef.unary main_call6.v3 main_call6.v4 id,
    StableHlo.TRef.nullary main_call6.c_2 (constantI S_ 32 0#32),
    StableHlo.TRef.unary main_call6.c_2 main_call6.v5 (broadcastInDim S1 ![] bcast_S_S1),
    StableHlo.TRef.binary main_call6.v4 main_call6.v5 main_call6.v6 (cmpi .sge),
    StableHlo.TRef.binary main_call6.v4 main_call6.c_1 main_call6.v7 (cmpi .sle),
    StableHlo.TRef.binary main_call6.v6 main_call6.v7 main_call6.v8 andi,
    StableHlo.TRef.nullary main_call6.c_3 (constantI S_ 1 1#1),
    StableHlo.TRef.binary main_call6.v8 main_call6.c_3 main_call6.v9 (fun x v => Host.reduce IntOp.andi x v reducesTo_S1_S_d0 h_S_),
    StableHlo.TRef.binary (.of main_v86 : StableHlo.TRef sig ⟨S802816x2x2x2x2, .f32⟩) main_call6.v4 main_call6.v10 (fun x i => Host.gather gather_S802816x2x2x2x2_S1_S802816x2x2x2_0123_4_n_n_4_0_8028162221 x i),
    StableHlo.TRef.unary main_call6.v9 main_call6.v11 (broadcastInDim S802816x2x2x2 ![] bcast_S_S802816x2x2x2),
    StableHlo.TRef.nullary main_call6.cst (constant S_ .f32 0x7FC00000#32),
    StableHlo.TRef.unary main_call6.cst main_call6.v12 (broadcastInDim S802816x2x2x2 ![] bcast_S_S802816x2x2x2),
    StableHlo.TRef.ternary main_call6.v11 main_call6.v10 main_call6.v12 main_call6.v13 select,
    StableHlo.nullary main_c_17 (constantI S_ 32 1#32),
    StableHlo.TRef.nullary main_call7.c (constantI S_ 32 0#32),
    StableHlo.TRef.binary (.of main_c_17 : StableHlo.TRef sig ⟨S_, .i32⟩) main_call7.c main_call7.v0 (cmpi .slt),
    StableHlo.TRef.nullary main_call7.c_0 (constantI S_ 32 2#32),
    StableHlo.TRef.binary (.of main_c_17 : StableHlo.TRef sig ⟨S_, .i32⟩) main_call7.c_0 main_call7.v1 addi,
    StableHlo.TRef.ternary main_call7.v0 main_call7.v1 (.of main_c_17 : StableHlo.TRef sig ⟨S_, .i32⟩) main_call7.call0.v0 select,
    StableHlo.TRef.unary main_call7.call0.v0 main_call7.v3 (broadcastInDim S1 ![] bcast_S_S1),
    StableHlo.TRef.nullary main_call7.c_1 (constantI S1 32 1#32),
    StableHlo.TRef.unary main_call7.v3 main_call7.v4 id,
    StableHlo.TRef.nullary main_call7.c_2 (constantI S_ 32 0#32),
    StableHlo.TRef.unary main_call7.c_2 main_call7.v5 (broadcastInDim S1 ![] bcast_S_S1),
    StableHlo.TRef.binary main_call7.v4 main_call7.v5 main_call7.v6 (cmpi .sge),
    StableHlo.TRef.binary main_call7.v4 main_call7.c_1 main_call7.v7 (cmpi .sle),
    StableHlo.TRef.binary main_call7.v6 main_call7.v7 main_call7.v8 andi,
    StableHlo.TRef.nullary main_call7.c_3 (constantI S_ 1 1#1),
    StableHlo.TRef.binary main_call7.v8 main_call7.c_3 main_call7.v9 (fun x v => Host.reduce IntOp.andi x v reducesTo_S1_S_d0 h_S_),
    StableHlo.TRef.binary (.of main_v86 : StableHlo.TRef sig ⟨S802816x2x2x2x2, .f32⟩) main_call7.v4 main_call7.v10 (fun x i => Host.gather gather_S802816x2x2x2x2_S1_S802816x2x2x2_0123_4_n_n_4_0_8028162221 x i),
    StableHlo.TRef.unary main_call7.v9 main_call7.v11 (broadcastInDim S802816x2x2x2 ![] bcast_S_S802816x2x2x2),
    StableHlo.TRef.nullary main_call7.cst (constant S_ .f32 0x7FC00000#32),
    StableHlo.TRef.unary main_call7.cst main_call7.v12 (broadcastInDim S802816x2x2x2 ![] bcast_S_S802816x2x2x2),
    StableHlo.TRef.ternary main_call7.v11 main_call7.v10 main_call7.v12 main_call7.v13 select,
    StableHlo.nullary main_cst_18 (constant S_ .f32 0x3F000000#32),
    StableHlo.unary main_cst_18 main_v91 (broadcastInDim S802816 ![] bcast_S_S802816 : (⟨S_, .f32⟩ : BufTy).Contents (Elt F) → (⟨S802816, .f32⟩ : BufTy).Contents (Elt F)),
    StableHlo.binary main_v88 main_v91 main_v92 (mulf : (⟨S802816, .f32⟩ : BufTy).Contents (Elt F) → (⟨S802816, .f32⟩ : BufTy).Contents (Elt F) → (⟨S802816, .f32⟩ : BufTy).Contents (Elt F)),
    StableHlo.unary main_v92 main_v93 (Host.cos : (⟨S802816, .f32⟩ : BufTy).Contents (Elt F) → (⟨S802816, .f32⟩ : BufTy).Contents (Elt F)),
    StableHlo.nullary main_cst_19 (constant S_ .f32 0x3F000000#32),
    StableHlo.unary main_cst_19 main_v94 (broadcastInDim S802816 ![] bcast_S_S802816 : (⟨S_, .f32⟩ : BufTy).Contents (Elt F) → (⟨S802816, .f32⟩ : BufTy).Contents (Elt F)),
    StableHlo.binary main_v88 main_v94 main_v95 (mulf : (⟨S802816, .f32⟩ : BufTy).Contents (Elt F) → (⟨S802816, .f32⟩ : BufTy).Contents (Elt F) → (⟨S802816, .f32⟩ : BufTy).Contents (Elt F)),
    StableHlo.unary main_v95 main_v96 (Host.sin : (⟨S802816, .f32⟩ : BufTy).Contents (Elt F) → (⟨S802816, .f32⟩ : BufTy).Contents (Elt F)),
    StableHlo.reshape main_v93 main_v97 rfl shapeCasts_S802816_S802816x1x1x1 ]

set_option maxRecDepth 65536 in
set_option maxHeartbeats 4000000 in
/-- The window is that straight line: the callees' definitions unfolded at their calls, both sides are one chain of
    steps once sequencing is reassociated. -/
theorem main_part1_eq (c : Dev nD) : main_part1 (F := F) c = seq ops1 := by
  simp only [main_part1, fn_take_1.body, fn_where.body, fn_take_2.body, seq, bind_assoc, pure_bind]
  try rfl

set_option maxRecDepth 65536 in
/-- Every operation of the window touches TensorCore buffers only. -/
theorem ops1_sub : (ops1 : List (HloOp τ sig (Elt F))).Forall fun op => op.bufs ⊆ tcRefs τ sig :=
  ⟨unary_bufs_sub .., reshape_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., unary_bufs_sub .., reshape_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., unary_bufs_sub .., nullary_bufs_sub .., unary_bufs_sub .., binary_bufs_sub .., unary_bufs_sub .., reshape_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., unary_bufs_sub .., reshape_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., unary_bufs_sub .., nullary_bufs_sub .., unary_bufs_sub .., binary_bufs_sub .., unary_bufs_sub .., reshape_bufs_sub ..⟩

set_option maxRecDepth 65536 in
/-- No operation of the window leaves a buffer's contents undetermined. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefOps2.lean ====
/- Window 2 of the reference program's @main as a list of its 174 operations, in order: each call of an
   outlined function is replaced by the callee's own operations over that call's record of buffers (an index
   wrapped into range, a gather, a select filling with NaN where the index was out of range, …). Proved below: the
   window IS this straight line, every operation touches only buffers of the TensorCore, and none leaves a
   buffer undetermined. -/
import proofs.«159359_j65481071398168_2_alg».proof.ReferenceIdeal
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The operations of window 2 of @main, the calls unfolded. -/
abbrev ops2 : List (HloOp τ sig (Elt F)) :=
  [ StableHlo.reshape main_v96 main_v98 rfl shapeCasts_S802816_S802816x1x1x1,
    StableHlo.unary main_v97 main_v99 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v99 main_v89 main_v100 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v98 main_v101 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v101 main_v90 main_v102 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v100 main_v102 main_v103 (subf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v98 main_v104 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v104 main_v89 main_v105 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v97 main_v106 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v106 main_v90 main_v107 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v105 main_v107 main_v108 (addf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v103 main_v109 (broadcastInDim S802816x2x2x2x1 ![0, 1, 2, 3] bcast_S802816x2x2x2_S802816x2x2x2x1_0_1_2_3 : (⟨S802816x2x2x2, .f32⟩ : BufTy).Contents (Elt F) → (⟨S802816x2x2x2x1, .f32⟩ : BufTy).Contents (Elt F)),
    StableHlo.unary main_v108 main_v110 (broadcastInDim S802816x2x2x2x1 ![0, 1, 2, 3] bcast_S802816x2x2x2_S802816x2x2x2x1_0_1_2_3 : (⟨S802816x2x2x2, .f32⟩ : BufTy).Contents (Elt F) → (⟨S802816x2x2x2x1, .f32⟩ : BufTy).Contents (Elt F)),
    StableHlo.binary main_v109 main_v110 main_v111 ((fun a b => concatenate S802816x2x2x2x2 4 [⟨S802816x2x2x2x1, a⟩, ⟨S802816x2x2x2x1, b⟩] concatenates_S802816x2x2x2x1_S802816x2x2x2x1_S802816x2x2x2x2_d4) : (⟨S802816x2x2x2x1, .f32⟩ : BufTy).Contents (Elt F) → (⟨S802816x2x2x2x1, .f32⟩ : BufTy).Contents (Elt F) → (⟨S802816x2x2x2x2, .f32⟩ : BufTy).Contents (Elt F)),
    StableHlo.unary main_arg1 main_v112 ((extractStridedSlice S1 ![0] · slices_S4_S1_0) : (⟨S4, .f32⟩ : BufTy).Contents (Elt F) → (⟨S1, .f32⟩ : BufTy).Contents (Elt F)),
    StableHlo.reshape main_v112 main_v113 rfl shapeCasts_S1_S_,
    StableHlo.nullary main_c_20 (constantI S_ 32 0#32),
    StableHlo.TRef.nullary main_call8.c (constantI S_ 32 0#32),
    StableHlo.TRef.binary (.of main_c_20 : StableHlo.TRef sig ⟨S_, .i32⟩) main_call8.c main_call8.v0 (cmpi .slt),
    StableHlo.TRef.nullary main_call8.c_0 (constantI S_ 32 2#32),
    StableHlo.TRef.binary (.of main_c_20 : StableHlo.TRef sig ⟨S_, .i32⟩) main_call8.c_0 main_call8.v1 addi,
    StableHlo.TRef.ternary main_call8.v0 main_call8.v1 (.of main_c_20 : StableHlo.TRef sig ⟨S_, .i32⟩) main_call8.call0.v0 select,
    StableHlo.TRef.unary main_call8.call0.v0 main_call8.v3 (broadcastInDim S1 ![] bcast_S_S1),
    StableHlo.TRef.nullary main_call8.c_1 (constantI S1 32 1#32),
    StableHlo.TRef.unary main_call8.v3 main_call8.v4 id,
    StableHlo.TRef.nullary main_call8.c_2 (constantI S_ 32 0#32),
    StableHlo.TRef.unary main_call8.c_2 main_call8.v5 (broadcastInDim S1 ![] bcast_S_S1),
    StableHlo.TRef.binary main_call8.v4 main_call8.v5 main_call8.v6 (cmpi .sge),
    StableHlo.TRef.binary main_call8.v4 main_call8.c_1 main_call8.v7 (cmpi .sle),
    StableHlo.TRef.binary main_call8.v6 main_call8.v7 main_call8.v8 andi,
    StableHlo.TRef.nullary main_call8.c_3 (constantI S_ 1 1#1),
    StableHlo.TRef.binary main_call8.v8 main_call8.c_3 main_call8.v9 (fun x v => Host.reduce IntOp.andi x v reducesTo_S1_S_d0 h_S_),
    StableHlo.TRef.binary (.of main_v111 : StableHlo.TRef sig ⟨S802816x2x2x2x2, .f32⟩) main_call8.v4 main_call8.v10 (fun x i => Host.gather gather_S802816x2x2x2x2_S1_S802816x2x2x2_0123_1_n_n_1_0_8028161222 x i),
    StableHlo.TRef.unary main_call8.v9 main_call8.v11 (broadcastInDim S802816x2x2x2 ![] bcast_S_S802816x2x2x2),
    StableHlo.TRef.nullary main_call8.cst (constant S_ .f32 0x7FC00000#32),
    StableHlo.TRef.unary main_call8.cst main_call8.v12 (broadcastInDim S802816x2x2x2 ![] bcast_S_S802816x2x2x2),
    StableHlo.TRef.ternary main_call8.v11 main_call8.v10 main_call8.v12 main_call8.v13 select,
    StableHlo.nullary main_c_21 (constantI S_ 32 1#32),
    StableHlo.TRef.nullary main_call9.c (constantI S_ 32 0#32),
    StableHlo.TRef.binary (.of main_c_21 : StableHlo.TRef sig ⟨S_, .i32⟩) main_call9.c main_call9.v0 (cmpi .slt),
    StableHlo.TRef.nullary main_call9.c_0 (constantI S_ 32 2#32),
    StableHlo.TRef.binary (.of main_c_21 : StableHlo.TRef sig ⟨S_, .i32⟩) main_call9.c_0 main_call9.v1 addi,
    StableHlo.TRef.ternary main_call9.v0 main_call9.v1 (.of main_c_21 : StableHlo.TRef sig ⟨S_, .i32⟩) main_call9.call0.v0 select,
    StableHlo.TRef.unary main_call9.call0.v0 main_call9.v3 (broadcastInDim S1 ![] bcast_S_S1),
    StableHlo.TRef.nullary main_call9.c_1 (constantI S1 32 1#32),
    StableHlo.TRef.unary main_call9.v3 main_call9.v4 id,
    StableHlo.TRef.nullary main_call9.c_2 (constantI S_ 32 0#32),
    StableHlo.TRef.unary main_call9.c_2 main_call9.v5 (broadcastInDim S1 ![] bcast_S_S1),
    StableHlo.TRef.binary main_call9.v4 main_call9.v5 main_call9.v6 (cmpi .sge),
    StableHlo.TRef.binary main_call9.v4 main_call9.c_1 main_call9.v7 (cmpi .sle),
    StableHlo.TRef.binary main_call9.v6 main_call9.v7 main_call9.v8 andi,
    StableHlo.TRef.nullary main_call9.c_3 (constantI S_ 1 1#1),
    StableHlo.TRef.binary main_call9.v8 main_call9.c_3 main_call9.v9 (fun x v => Host.reduce IntOp.andi x v reducesTo_S1_S_d0 h_S_),
    StableHlo.TRef.binary (.of main_v111 : StableHlo.TRef sig ⟨S802816x2x2x2x2, .f32⟩) main_call9.v4 main_call9.v10 (fun x i => Host.gather gather_S802816x2x2x2x2_S1_S802816x2x2x2_0123_1_n_n_1_0_8028161222 x i),
    StableHlo.TRef.unary main_call9.v9 main_call9.v11 (broadcastInDim S802816x2x2x2 ![] bcast_S_S802816x2x2x2),
    StableHlo.TRef.nullary main_call9.cst (constant S_ .f32 0x7FC00000#32),
    StableHlo.TRef.unary main_call9.cst main_call9.v12 (broadcastInDim S802816x2x2x2 ![] bcast_S_S802816x2x2x2),
    StableHlo.TRef.ternary main_call9.v11 main_call9.v10 main_call9.v12 main_call9.v13 select,
    StableHlo.nullary main_cst_22 (constant S_ .f32 0x3F000000#32),
    StableHlo.binary main_v113 main_cst_22 main_v116 (mulf : (⟨S_, .f32⟩ : BufTy).Contents (Elt F) → (⟨S_, .f32⟩ : BufTy).Contents (Elt F) → (⟨S_, .f32⟩ : BufTy).Contents (Elt F)),
    StableHlo.unary main_v116 main_v117 (Host.cos : (⟨S_, .f32⟩ : BufTy).Contents (Elt F) → (⟨S_, .f32⟩ : BufTy).Contents (Elt F)),
    StableHlo.nullary main_cst_23 (constant S_ .f32 0x3F000000#32),
    StableHlo.binary main_v113 main_cst_23 main_v118 (mulf : (⟨S_, .f32⟩ : BufTy).Contents (Elt F) → (⟨S_, .f32⟩ : BufTy).Contents (Elt F) → (⟨S_, .f32⟩ : BufTy).Contents (Elt F)),
    StableHlo.unary main_v118 main_v119 (Host.sin : (⟨S_, .f32⟩ : BufTy).Contents (Elt F) → (⟨S_, .f32⟩ : BufTy).Contents (Elt F)),
    StableHlo.unary main_v117 main_v120 (broadcastInDim S802816x2x2x2 ![] bcast_S_S802816x2x2x2 : (⟨S_, .f32⟩ : BufTy).Contents (Elt F) → (⟨S802816x2x2x2, .f32⟩ : BufTy).Contents (Elt F)),
    StableHlo.binary main_v120 main_v114 main_v121 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v119 main_v122 (broadcastInDim S802816x2x2x2 ![] bcast_S_S802816x2x2x2 : (⟨S_, .f32⟩ : BufTy).Contents (Elt F) → (⟨S802816x2x2x2, .f32⟩ : BufTy).Contents (Elt F)),
    StableHlo.binary main_v122 main_v115 main_v123 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v121 main_v123 main_v124 (subf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v119 main_v125 (broadcastInDim S802816x2x2x2 ![] bcast_S_S802816x2x2x2 : (⟨S_, .f32⟩ : BufTy).Contents (Elt F) → (⟨S802816x2x2x2, .f32⟩ : BufTy).Contents (Elt F)),
    StableHlo.binary main_v125 main_v114 main_v126 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v117 main_v127 (broadcastInDim S802816x2x2x2 ![] bcast_S_S802816x2x2x2 : (⟨S_, .f32⟩ : BufTy).Contents (Elt F) → (⟨S802816x2x2x2, .f32⟩ : BufTy).Contents (Elt F)),
    StableHlo.binary main_v127 main_v115 main_v128 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v126 main_v128 main_v129 (addf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v124 main_v130 (broadcastInDim S802816x1x2x2x2 ![0, 2, 3, 4] bcast_S802816x2x2x2_S802816x1x2x2x2_0_2_3_4 : (⟨S802816x2x2x2, .f32⟩ : BufTy).Contents (Elt F) → (⟨S802816x1x2x2x2, .f32⟩ : BufTy).Contents (Elt F)),
    StableHlo.unary main_v129 main_v131 (broadcastInDim S802816x1x2x2x2 ![0, 2, 3, 4] bcast_S802816x2x2x2_S802816x1x2x2x2_0_2_3_4 : (⟨S802816x2x2x2, .f32⟩ : BufTy).Contents (Elt F) → (⟨S802816x1x2x2x2, .f32⟩ : BufTy).Contents (Elt F)),
    StableHlo.binary main_v130 main_v131 main_v132 ((fun a b => concatenate S802816x2x2x2x2 1 [⟨S802816x1x2x2x2, a⟩, ⟨S802816x1x2x2x2, b⟩] concatenates_S802816x1x2x2x2_S802816x1x2x2x2_S802816x2x2x2x2_d1) : (⟨S802816x1x2x2x2, .f32⟩ : BufTy).Contents (Elt F) → (⟨S802816x1x2x2x2, .f32⟩ : BufTy).Contents (Elt F) → (⟨S802816x2x2x2x2, .f32⟩ : BufTy).Contents (Elt F)),
    StableHlo.nullary main_c_24 (constantI S_ 32 0#32),
    StableHlo.TRef.nullary main_call10.c (constantI S_ 32 0#32),
    StableHlo.TRef.binary (.of main_c_24 : StableHlo.TRef sig ⟨S_, .i32⟩) main_call10.c main_call10.v0 (cmpi .slt),
    StableHlo.TRef.nullary main_call10.c_0 (constantI S_ 32 2#32),
    StableHlo.TRef.binary (.of main_c_24 : StableHlo.TRef sig ⟨S_, .i32⟩) main_call10.c_0 main_call10.v1 addi,
    StableHlo.TRef.ternary main_call10.v0 main_call10.v1 (.of main_c_24 : StableHlo.TRef sig ⟨S_, .i32⟩) main_call10.call0.v0 select,
    StableHlo.TRef.unary main_call10.call0.v0 main_call10.v3 (broadcastInDim S1 ![] bcast_S_S1),
    StableHlo.TRef.nullary main_call10.c_1 (constantI S1 32 1#32),
    StableHlo.TRef.unary main_call10.v3 main_call10.v4 id,
    StableHlo.TRef.nullary main_call10.c_2 (constantI S_ 32 0#32),
    StableHlo.TRef.unary main_call10.c_2 main_call10.v5 (broadcastInDim S1 ![] bcast_S_S1),
    StableHlo.TRef.binary main_call10.v4 main_call10.v5 main_call10.v6 (cmpi .sge),
    StableHlo.TRef.binary main_call10.v4 main_call10.c_1 main_call10.v7 (cmpi .sle),
    StableHlo.TRef.binary main_call10.v6 main_call10.v7 main_call10.v8 andi,
    StableHlo.TRef.nullary main_call10.c_3 (constantI S_ 1 1#1),
    StableHlo.TRef.binary main_call10.v8 main_call10.c_3 main_call10.v9 (fun x v => Host.reduce IntOp.andi x v reducesTo_S1_S_d0 h_S_),
    StableHlo.TRef.binary (.of main_v132 : StableHlo.TRef sig ⟨S802816x2x2x2x2, .f32⟩) main_call10.v4 main_call10.v10 (fun x i => Host.gather gather_S802816x2x2x2x2_S1_S802816x2x2x2_0123_1_n_n_1_0_8028161222 x i),
    StableHlo.TRef.unary main_call10.v9 main_call10.v11 (broadcastInDim S802816x2x2x2 ![] bcast_S_S802816x2x2x2),
    StableHlo.TRef.nullary main_call10.cst (constant S_ .f32 0x7FC00000#32),
    StableHlo.TRef.unary main_call10.cst main_call10.v12 (broadcastInDim S802816x2x2x2 ![] bcast_S_S802816x2x2x2),
    StableHlo.TRef.ternary main_call10.v11 main_call10.v10 main_call10.v12 main_call10.v13 select,
    StableHlo.nullary main_c_25 (constantI S_ 32 1#32),
    StableHlo.TRef.nullary main_call11.c (constantI S_ 32 0#32),
    StableHlo.TRef.binary (.of main_c_25 : StableHlo.TRef sig ⟨S_, .i32⟩) main_call11.c main_call11.v0 (cmpi .slt),
    StableHlo.TRef.nullary main_call11.c_0 (constantI S_ 32 2#32),
    StableHlo.TRef.binary (.of main_c_25 : StableHlo.TRef sig ⟨S_, .i32⟩) main_call11.c_0 main_call11.v1 addi,
    StableHlo.TRef.ternary main_call11.v0 main_call11.v1 (.of main_c_25 : StableHlo.TRef sig ⟨S_, .i32⟩) main_call11.call0.v0 select,
    StableHlo.TRef.unary main_call11.call0.v0 main_call11.v3 (broadcastInDim S1 ![] bcast_S_S1),
    StableHlo.TRef.nullary main_call11.c_1 (constantI S1 32 1#32),
    StableHlo.TRef.unary main_call11.v3 main_call11.v4 id,
    StableHlo.TRef.nullary main_call11.c_2 (constantI S_ 32 0#32),
    StableHlo.TRef.unary main_call11.c_2 main_call11.v5 (broadcastInDim S1 ![] bcast_S_S1),
    StableHlo.TRef.binary main_call11.v4 main_call11.v5 main_call11.v6 (cmpi .sge),
    StableHlo.TRef.binary main_call11.v4 main_call11.c_1 main_call11.v7 (cmpi .sle),
    StableHlo.TRef.binary main_call11.v6 main_call11.v7 main_call11.v8 andi,
    StableHlo.TRef.nullary main_call11.c_3 (constantI S_ 1 1#1),
    StableHlo.TRef.binary main_call11.v8 main_call11.c_3 main_call11.v9 (fun x v => Host.reduce IntOp.andi x v reducesTo_S1_S_d0 h_S_),
    StableHlo.TRef.binary (.of main_v132 : StableHlo.TRef sig ⟨S802816x2x2x2x2, .f32⟩) main_call11.v4 main_call11.v10 (fun x i => Host.gather gather_S802816x2x2x2x2_S1_S802816x2x2x2_0123_1_n_n_1_0_8028161222 x i),
    StableHlo.TRef.unary main_call11.v9 main_call11.v11 (broadcastInDim S802816x2x2x2 ![] bcast_S_S802816x2x2x2),
    StableHlo.TRef.nullary main_call11.cst (constant S_ .f32 0x7FC00000#32),
    StableHlo.TRef.unary main_call11.cst main_call11.v12 (broadcastInDim S802816x2x2x2 ![] bcast_S_S802816x2x2x2),
    StableHlo.TRef.ternary main_call11.v11 main_call11.v10 main_call11.v12 main_call11.v13 select,
    StableHlo.TRef.unary (.of main_v134 : StableHlo.TRef sig ⟨S802816x2x2x2, .f32⟩) main_call12.v0 (Host.reverse [1]),
    StableHlo.unary main_v133 main_v136 (broadcastInDim S802816x1x2x2x2 ![0, 2, 3, 4] bcast_S802816x2x2x2_S802816x1x2x2x2_0_2_3_4 : (⟨S802816x2x2x2, .f32⟩ : BufTy).Contents (Elt F) → (⟨S802816x1x2x2x2, .f32⟩ : BufTy).Contents (Elt F)),
    StableHlo.unary main_v135 main_v137 (broadcastInDim S802816x1x2x2x2 ![0, 2, 3, 4] bcast_S802816x2x2x2_S802816x1x2x2x2_0_2_3_4 : (⟨S802816x2x2x2, .f32⟩ : BufTy).Contents (Elt F) → (⟨S802816x1x2x2x2, .f32⟩ : BufTy).Contents (Elt F)),
    StableHlo.binary main_v136 main_v137 main_v138 ((fun a b => concatenate S802816x2x2x2x2 1 [⟨S802816x1x2x2x2, a⟩, ⟨S802816x1x2x2x2, b⟩] concatenates_S802816x1x2x2x2_S802816x1x2x2x2_S802816x2x2x2x2_d1) : (⟨S802816x1x2x2x2, .f32⟩ : BufTy).Contents (Elt F) → (⟨S802816x1x2x2x2, .f32⟩ : BufTy).Contents (Elt F) → (⟨S802816x2x2x2x2, .f32⟩ : BufTy).Contents (Elt F)),
    StableHlo.unary main_arg1 main_v139 ((extractStridedSlice S1 ![1] · slices_S4_S1_1) : (⟨S4, .f32⟩ : BufTy).Contents (Elt F) → (⟨S1, .f32⟩ : BufTy).Contents (Elt F)),
    StableHlo.reshape main_v139 main_v140 rfl shapeCasts_S1_S_,
    StableHlo.nullary main_c_26 (constantI S_ 32 0#32),
    StableHlo.TRef.nullary main_call13.c (constantI S_ 32 0#32),
    StableHlo.TRef.binary (.of main_c_26 : StableHlo.TRef sig ⟨S_, .i32⟩) main_call13.c main_call13.v0 (cmpi .slt),
    StableHlo.TRef.nullary main_call13.c_0 (constantI S_ 32 2#32),
    StableHlo.TRef.binary (.of main_c_26 : StableHlo.TRef sig ⟨S_, .i32⟩) main_call13.c_0 main_call13.v1 addi,
    StableHlo.TRef.ternary main_call13.v0 main_call13.v1 (.of main_c_26 : StableHlo.TRef sig ⟨S_, .i32⟩) main_call13.call0.v0 select,
    StableHlo.TRef.unary main_call13.call0.v0 main_call13.v3 (broadcastInDim S1 ![] bcast_S_S1),
    StableHlo.TRef.nullary main_call13.c_1 (constantI S1 32 1#32),
    StableHlo.TRef.unary main_call13.v3 main_call13.v4 id,
    StableHlo.TRef.nullary main_call13.c_2 (constantI S_ 32 0#32),
    StableHlo.TRef.unary main_call13.c_2 main_call13.v5 (broadcastInDim S1 ![] bcast_S_S1),
    StableHlo.TRef.binary main_call13.v4 main_call13.v5 main_call13.v6 (cmpi .sge),
    StableHlo.TRef.binary main_call13.v4 main_call13.c_1 main_call13.v7 (cmpi .sle),
    StableHlo.TRef.binary main_call13.v6 main_call13.v7 main_call13.v8 andi,
    StableHlo.TRef.nullary main_call13.c_3 (constantI S_ 1 1#1),
    StableHlo.TRef.binary main_call13.v8 main_call13.c_3 main_call13.v9 (fun x v => Host.reduce IntOp.andi x v reducesTo_S1_S_d0 h_S_),
    StableHlo.TRef.binary (.of main_v138 : StableHlo.TRef sig ⟨S802816x2x2x2x2, .f32⟩) main_call13.v4 main_call13.v10 (fun x i => Host.gather gather_S802816x2x2x2x2_S1_S802816x2x2x2_0123_2_n_n_2_0_8028162122 x i),
    StableHlo.TRef.unary main_call13.v9 main_call13.v11 (broadcastInDim S802816x2x2x2 ![] bcast_S_S802816x2x2x2),
    StableHlo.TRef.nullary main_call13.cst (constant S_ .f32 0x7FC00000#32),
    StableHlo.TRef.unary main_call13.cst main_call13.v12 (broadcastInDim S802816x2x2x2 ![] bcast_S_S802816x2x2x2),
    StableHlo.TRef.ternary main_call13.v11 main_call13.v10 main_call13.v12 main_call13.v13 select,
    StableHlo.nullary main_c_27 (constantI S_ 32 1#32),
    StableHlo.TRef.nullary main_call14.c (constantI S_ 32 0#32),
    StableHlo.TRef.binary (.of main_c_27 : StableHlo.TRef sig ⟨S_, .i32⟩) main_call14.c main_call14.v0 (cmpi .slt),
    StableHlo.TRef.nullary main_call14.c_0 (constantI S_ 32 2#32),
    StableHlo.TRef.binary (.of main_c_27 : StableHlo.TRef sig ⟨S_, .i32⟩) main_call14.c_0 main_call14.v1 addi,
    StableHlo.TRef.ternary main_call14.v0 main_call14.v1 (.of main_c_27 : StableHlo.TRef sig ⟨S_, .i32⟩) main_call14.call0.v0 select,
    StableHlo.TRef.unary main_call14.call0.v0 main_call14.v3 (broadcastInDim S1 ![] bcast_S_S1),
    StableHlo.TRef.nullary main_call14.c_1 (constantI S1 32 1#32),
    StableHlo.TRef.unary main_call14.v3 main_call14.v4 id,
    StableHlo.TRef.nullary main_call14.c_2 (constantI S_ 32 0#32),
    StableHlo.TRef.unary main_call14.c_2 main_call14.v5 (broadcastInDim S1 ![] bcast_S_S1),
    StableHlo.TRef.binary main_call14.v4 main_call14.v5 main_call14.v6 (cmpi .sge),
    StableHlo.TRef.binary main_call14.v4 main_call14.c_1 main_call14.v7 (cmpi .sle),
    StableHlo.TRef.binary main_call14.v6 main_call14.v7 main_call14.v8 andi,
    StableHlo.TRef.nullary main_call14.c_3 (constantI S_ 1 1#1),
    StableHlo.TRef.binary main_call14.v8 main_call14.c_3 main_call14.v9 (fun x v => Host.reduce IntOp.andi x v reducesTo_S1_S_d0 h_S_),
    StableHlo.TRef.binary (.of main_v138 : StableHlo.TRef sig ⟨S802816x2x2x2x2, .f32⟩) main_call14.v4 main_call14.v10 (fun x i => Host.gather gather_S802816x2x2x2x2_S1_S802816x2x2x2_0123_2_n_n_2_0_8028162122 x i),
    StableHlo.TRef.unary main_call14.v9 main_call14.v11 (broadcastInDim S802816x2x2x2 ![] bcast_S_S802816x2x2x2),
    StableHlo.TRef.nullary main_call14.cst (constant S_ .f32 0x7FC00000#32),
    StableHlo.TRef.unary main_call14.cst main_call14.v12 (broadcastInDim S802816x2x2x2 ![] bcast_S_S802816x2x2x2),
    StableHlo.TRef.ternary main_call14.v11 main_call14.v10 main_call14.v12 main_call14.v13 select,
    StableHlo.nullary main_cst_28 (constant S_ .f32 0x3F000000#32),
    StableHlo.binary main_v140 main_cst_28 main_v143 (mulf : (⟨S_, .f32⟩ : BufTy).Contents (Elt F) → (⟨S_, .f32⟩ : BufTy).Contents (Elt F) → (⟨S_, .f32⟩ : BufTy).Contents (Elt F)),
    StableHlo.unary main_v143 main_v144 (Host.cos : (⟨S_, .f32⟩ : BufTy).Contents (Elt F) → (⟨S_, .f32⟩ : BufTy).Contents (Elt F)),
    StableHlo.nullary main_cst_29 (constant S_ .f32 0x3F000000#32),
    StableHlo.binary main_v140 main_cst_29 main_v145 (mulf : (⟨S_, .f32⟩ : BufTy).Contents (Elt F) → (⟨S_, .f32⟩ : BufTy).Contents (Elt F) → (⟨S_, .f32⟩ : BufTy).Contents (Elt F)),
    StableHlo.unary main_v145 main_v146 (Host.sin : (⟨S_, .f32⟩ : BufTy).Contents (Elt F) → (⟨S_, .f32⟩ : BufTy).Contents (Elt F)),
    StableHlo.unary main_v144 main_v147 (broadcastInDim S802816x2x2x2 ![] bcast_S_S802816x2x2x2 : (⟨S_, .f32⟩ : BufTy).Contents (Elt F) → (⟨S802816x2x2x2, .f32⟩ : BufTy).Contents (Elt F)) ]

set_option maxRecDepth 65536 in
set_option maxHeartbeats 4000000 in
/-- The window is that straight line: the callees' definitions unfolded at their calls, both sides are one chain of
    steps once sequencing is reassociated. -/
theorem main_part2_eq (c : Dev nD) : main_part2 (F := F) c = seq ops2 := by
  simp only [main_part2, fn_take.body, fn_where.body, fn_flip.body, fn_take_0.body, seq, bind_assoc, pure_bind]
  try rfl

set_option maxRecDepth 65536 in
/-- Every operation of the window touches TensorCore buffers only. -/
theorem ops2_sub : (ops2 : List (HloOp τ sig (Elt F))).Forall fun op => op.bufs ⊆ tcRefs τ sig :=
  ⟨reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., unary_bufs_sub .., reshape_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., nullary_bufs_sub .., binary_bufs_sub .., unary_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., unary_bufs_sub .., binary_bufs_sub .., unary_bufs_sub .., reshape_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., nullary_bufs_sub .., binary_bufs_sub .., unary_bufs_sub .., unary_bufs_sub ..⟩

set_option maxRecDepth 65536 in
/-- No operation of the window leaves a buffer's contents undetermined. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefOps3.lean ====
/- Window 3 of the reference program's @main as a list of its 212 operations, in order: each call of an
   outlined function is replaced by the callee's own operations over that call's record of buffers (an index
   wrapped into range, a gather, a select filling with NaN where the index was out of range, …). Proved below: the
   window IS this straight line, every operation touches only buffers of the TensorCore, and none leaves a
   buffer undetermined. -/
import proofs.«159359_j65481071398168_2_alg».proof.ReferenceIdeal
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The operations of window 3 of @main, the calls unfolded. -/
abbrev ops3 : List (HloOp τ sig (Elt F)) :=
  [ StableHlo.binary main_v147 main_v141 main_v148 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v146 main_v149 (broadcastInDim S802816x2x2x2 ![] bcast_S_S802816x2x2x2 : (⟨S_, .f32⟩ : BufTy).Contents (Elt F) → (⟨S802816x2x2x2, .f32⟩ : BufTy).Contents (Elt F)),
    StableHlo.binary main_v149 main_v142 main_v150 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v148 main_v150 main_v151 (subf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v146 main_v152 (broadcastInDim S802816x2x2x2 ![] bcast_S_S802816x2x2x2 : (⟨S_, .f32⟩ : BufTy).Contents (Elt F) → (⟨S802816x2x2x2, .f32⟩ : BufTy).Contents (Elt F)),
    StableHlo.binary main_v152 main_v141 main_v153 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v144 main_v154 (broadcastInDim S802816x2x2x2 ![] bcast_S_S802816x2x2x2 : (⟨S_, .f32⟩ : BufTy).Contents (Elt F) → (⟨S802816x2x2x2, .f32⟩ : BufTy).Contents (Elt F)),
    StableHlo.binary main_v154 main_v142 main_v155 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v153 main_v155 main_v156 (addf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v151 main_v157 (broadcastInDim S802816x2x1x2x2 ![0, 1, 3, 4] bcast_S802816x2x2x2_S802816x2x1x2x2_0_1_3_4 : (⟨S802816x2x2x2, .f32⟩ : BufTy).Contents (Elt F) → (⟨S802816x2x1x2x2, .f32⟩ : BufTy).Contents (Elt F)),
    StableHlo.unary main_v156 main_v158 (broadcastInDim S802816x2x1x2x2 ![0, 1, 3, 4] bcast_S802816x2x2x2_S802816x2x1x2x2_0_1_3_4 : (⟨S802816x2x2x2, .f32⟩ : BufTy).Contents (Elt F) → (⟨S802816x2x1x2x2, .f32⟩ : BufTy).Contents (Elt F)),
    StableHlo.binary main_v157 main_v158 main_v159 ((fun a b => concatenate S802816x2x2x2x2 2 [⟨S802816x2x1x2x2, a⟩, ⟨S802816x2x1x2x2, b⟩] concatenates_S802816x2x1x2x2_S802816x2x1x2x2_S802816x2x2x2x2_d2) : (⟨S802816x2x1x2x2, .f32⟩ : BufTy).Contents (Elt F) → (⟨S802816x2x1x2x2, .f32⟩ : BufTy).Contents (Elt F) → (⟨S802816x2x2x2x2, .f32⟩ : BufTy).Contents (Elt F)),
    StableHlo.nullary main_c_30 (constantI S_ 32 0#32),
    StableHlo.TRef.nullary main_call15.c (constantI S_ 32 0#32),
    StableHlo.TRef.binary (.of main_c_30 : StableHlo.TRef sig ⟨S_, .i32⟩) main_call15.c main_call15.v0 (cmpi .slt),
    StableHlo.TRef.nullary main_call15.c_0 (constantI S_ 32 2#32),
    StableHlo.TRef.binary (.of main_c_30 : StableHlo.TRef sig ⟨S_, .i32⟩) main_call15.c_0 main_call15.v1 addi,
    StableHlo.TRef.ternary main_call15.v0 main_call15.v1 (.of main_c_30 : StableHlo.TRef sig ⟨S_, .i32⟩) main_call15.call0.v0 select,
    StableHlo.TRef.unary main_call15.call0.v0 main_call15.v3 (broadcastInDim S1 ![] bcast_S_S1),
    StableHlo.TRef.nullary main_call15.c_1 (constantI S1 32 1#32),
    StableHlo.TRef.unary main_call15.v3 main_call15.v4 id,
    StableHlo.TRef.nullary main_call15.c_2 (constantI S_ 32 0#32),
    StableHlo.TRef.unary main_call15.c_2 main_call15.v5 (broadcastInDim S1 ![] bcast_S_S1),
    StableHlo.TRef.binary main_call15.v4 main_call15.v5 main_call15.v6 (cmpi .sge),
    StableHlo.TRef.binary main_call15.v4 main_call15.c_1 main_call15.v7 (cmpi .sle),
    StableHlo.TRef.binary main_call15.v6 main_call15.v7 main_call15.v8 andi,
    StableHlo.TRef.nullary main_call15.c_3 (constantI S_ 1 1#1),
    StableHlo.TRef.binary main_call15.v8 main_call15.c_3 main_call15.v9 (fun x v => Host.reduce IntOp.andi x v reducesTo_S1_S_d0 h_S_),
    StableHlo.TRef.binary (.of main_v159 : StableHlo.TRef sig ⟨S802816x2x2x2x2, .f32⟩) main_call15.v4 main_call15.v10 (fun x i => Host.gather gather_S802816x2x2x2x2_S1_S802816x2x2x2_0123_2_n_n_2_0_8028162122 x i),
    StableHlo.TRef.unary main_call15.v9 main_call15.v11 (broadcastInDim S802816x2x2x2 ![] bcast_S_S802816x2x2x2),
    StableHlo.TRef.nullary main_call15.cst (constant S_ .f32 0x7FC00000#32),
    StableHlo.TRef.unary main_call15.cst main_call15.v12 (broadcastInDim S802816x2x2x2 ![] bcast_S_S802816x2x2x2),
    StableHlo.TRef.ternary main_call15.v11 main_call15.v10 main_call15.v12 main_call15.v13 select,
    StableHlo.nullary main_c_31 (constantI S_ 32 1#32),
    StableHlo.TRef.nullary main_call16.c (constantI S_ 32 0#32),
    StableHlo.TRef.binary (.of main_c_31 : StableHlo.TRef sig ⟨S_, .i32⟩) main_call16.c main_call16.v0 (cmpi .slt),
    StableHlo.TRef.nullary main_call16.c_0 (constantI S_ 32 2#32),
    StableHlo.TRef.binary (.of main_c_31 : StableHlo.TRef sig ⟨S_, .i32⟩) main_call16.c_0 main_call16.v1 addi,
    StableHlo.TRef.ternary main_call16.v0 main_call16.v1 (.of main_c_31 : StableHlo.TRef sig ⟨S_, .i32⟩) main_call16.call0.v0 select,
    StableHlo.TRef.unary main_call16.call0.v0 main_call16.v3 (broadcastInDim S1 ![] bcast_S_S1),
    StableHlo.TRef.nullary main_call16.c_1 (constantI S1 32 1#32),
    StableHlo.TRef.unary main_call16.v3 main_call16.v4 id,
    StableHlo.TRef.nullary main_call16.c_2 (constantI S_ 32 0#32),
    StableHlo.TRef.unary main_call16.c_2 main_call16.v5 (broadcastInDim S1 ![] bcast_S_S1),
    StableHlo.TRef.binary main_call16.v4 main_call16.v5 main_call16.v6 (cmpi .sge),
    StableHlo.TRef.binary main_call16.v4 main_call16.c_1 main_call16.v7 (cmpi .sle),
    StableHlo.TRef.binary main_call16.v6 main_call16.v7 main_call16.v8 andi,
    StableHlo.TRef.nullary main_call16.c_3 (constantI S_ 1 1#1),
    StableHlo.TRef.binary main_call16.v8 main_call16.c_3 main_call16.v9 (fun x v => Host.reduce IntOp.andi x v reducesTo_S1_S_d0 h_S_),
    StableHlo.TRef.binary (.of main_v159 : StableHlo.TRef sig ⟨S802816x2x2x2x2, .f32⟩) main_call16.v4 main_call16.v10 (fun x i => Host.gather gather_S802816x2x2x2x2_S1_S802816x2x2x2_0123_2_n_n_2_0_8028162122 x i),
    StableHlo.TRef.unary main_call16.v9 main_call16.v11 (broadcastInDim S802816x2x2x2 ![] bcast_S_S802816x2x2x2),
    StableHlo.TRef.nullary main_call16.cst (constant S_ .f32 0x7FC00000#32),
    StableHlo.TRef.unary main_call16.cst main_call16.v12 (broadcastInDim S802816x2x2x2 ![] bcast_S_S802816x2x2x2),
    StableHlo.TRef.ternary main_call16.v11 main_call16.v10 main_call16.v12 main_call16.v13 select,
    StableHlo.TRef.unary (.of main_v161 : StableHlo.TRef sig ⟨S802816x2x2x2, .f32⟩) main_call17.v0 (Host.reverse [2]),
    StableHlo.unary main_v160 main_v163 (broadcastInDim S802816x2x1x2x2 ![0, 1, 3, 4] bcast_S802816x2x2x2_S802816x2x1x2x2_0_1_3_4 : (⟨S802816x2x2x2, .f32⟩ : BufTy).Contents (Elt F) → (⟨S802816x2x1x2x2, .f32⟩ : BufTy).Contents (Elt F)),
    StableHlo.unary main_v162 main_v164 (broadcastInDim S802816x2x1x2x2 ![0, 1, 3, 4] bcast_S802816x2x2x2_S802816x2x1x2x2_0_1_3_4 : (⟨S802816x2x2x2, .f32⟩ : BufTy).Contents (Elt F) → (⟨S802816x2x1x2x2, .f32⟩ : BufTy).Contents (Elt F)),
    StableHlo.binary main_v163 main_v164 main_v165 ((fun a b => concatenate S802816x2x2x2x2 2 [⟨S802816x2x1x2x2, a⟩, ⟨S802816x2x1x2x2, b⟩] concatenates_S802816x2x1x2x2_S802816x2x1x2x2_S802816x2x2x2x2_d2) : (⟨S802816x2x1x2x2, .f32⟩ : BufTy).Contents (Elt F) → (⟨S802816x2x1x2x2, .f32⟩ : BufTy).Contents (Elt F) → (⟨S802816x2x2x2x2, .f32⟩ : BufTy).Contents (Elt F)),
    StableHlo.unary main_arg1 main_v166 ((extractStridedSlice S1 ![2] · slices_S4_S1_2) : (⟨S4, .f32⟩ : BufTy).Contents (Elt F) → (⟨S1, .f32⟩ : BufTy).Contents (Elt F)),
    StableHlo.reshape main_v166 main_v167 rfl shapeCasts_S1_S_,
    StableHlo.nullary main_c_32 (constantI S_ 32 0#32),
    StableHlo.TRef.nullary main_call18.c (constantI S_ 32 0#32),
    StableHlo.TRef.binary (.of main_c_32 : StableHlo.TRef sig ⟨S_, .i32⟩) main_call18.c main_call18.v0 (cmpi .slt),
    StableHlo.TRef.nullary main_call18.c_0 (constantI S_ 32 2#32),
    StableHlo.TRef.binary (.of main_c_32 : StableHlo.TRef sig ⟨S_, .i32⟩) main_call18.c_0 main_call18.v1 addi,
    StableHlo.TRef.ternary main_call18.v0 main_call18.v1 (.of main_c_32 : StableHlo.TRef sig ⟨S_, .i32⟩) main_call18.call0.v0 select,
    StableHlo.TRef.unary main_call18.call0.v0 main_call18.v3 (broadcastInDim S1 ![] bcast_S_S1),
    StableHlo.TRef.nullary main_call18.c_1 (constantI S1 32 1#32),
    StableHlo.TRef.unary main_call18.v3 main_call18.v4 id,
    StableHlo.TRef.nullary main_call18.c_2 (constantI S_ 32 0#32),
    StableHlo.TRef.unary main_call18.c_2 main_call18.v5 (broadcastInDim S1 ![] bcast_S_S1),
    StableHlo.TRef.binary main_call18.v4 main_call18.v5 main_call18.v6 (cmpi .sge),
    StableHlo.TRef.binary main_call18.v4 main_call18.c_1 main_call18.v7 (cmpi .sle),
    StableHlo.TRef.binary main_call18.v6 main_call18.v7 main_call18.v8 andi,
    StableHlo.TRef.nullary main_call18.c_3 (constantI S_ 1 1#1),
    StableHlo.TRef.binary main_call18.v8 main_call18.c_3 main_call18.v9 (fun x v => Host.reduce IntOp.andi x v reducesTo_S1_S_d0 h_S_),
    StableHlo.TRef.binary (.of main_v165 : StableHlo.TRef sig ⟨S802816x2x2x2x2, .f32⟩) main_call18.v4 main_call18.v10 (fun x i => Host.gather gather_S802816x2x2x2x2_S1_S802816x2x2x2_0123_3_n_n_3_0_8028162212 x i),
    StableHlo.TRef.unary main_call18.v9 main_call18.v11 (broadcastInDim S802816x2x2x2 ![] bcast_S_S802816x2x2x2),
    StableHlo.TRef.nullary main_call18.cst (constant S_ .f32 0x7FC00000#32),
    StableHlo.TRef.unary main_call18.cst main_call18.v12 (broadcastInDim S802816x2x2x2 ![] bcast_S_S802816x2x2x2),
    StableHlo.TRef.ternary main_call18.v11 main_call18.v10 main_call18.v12 main_call18.v13 select,
    StableHlo.nullary main_c_33 (constantI S_ 32 1#32),
    StableHlo.TRef.nullary main_call19.c (constantI S_ 32 0#32),
    StableHlo.TRef.binary (.of main_c_33 : StableHlo.TRef sig ⟨S_, .i32⟩) main_call19.c main_call19.v0 (cmpi .slt),
    StableHlo.TRef.nullary main_call19.c_0 (constantI S_ 32 2#32),
    StableHlo.TRef.binary (.of main_c_33 : StableHlo.TRef sig ⟨S_, .i32⟩) main_call19.c_0 main_call19.v1 addi,
    StableHlo.TRef.ternary main_call19.v0 main_call19.v1 (.of main_c_33 : StableHlo.TRef sig ⟨S_, .i32⟩) main_call19.call0.v0 select,
    StableHlo.TRef.unary main_call19.call0.v0 main_call19.v3 (broadcastInDim S1 ![] bcast_S_S1),
    StableHlo.TRef.nullary main_call19.c_1 (constantI S1 32 1#32),
    StableHlo.TRef.unary main_call19.v3 main_call19.v4 id,
    StableHlo.TRef.nullary main_call19.c_2 (constantI S_ 32 0#32),
    StableHlo.TRef.unary main_call19.c_2 main_call19.v5 (broadcastInDim S1 ![] bcast_S_S1),
    StableHlo.TRef.binary main_call19.v4 main_call19.v5 main_call19.v6 (cmpi .sge),
    StableHlo.TRef.binary main_call19.v4 main_call19.c_1 main_call19.v7 (cmpi .sle),
    StableHlo.TRef.binary main_call19.v6 main_call19.v7 main_call19.v8 andi,
    StableHlo.TRef.nullary main_call19.c_3 (constantI S_ 1 1#1),
    StableHlo.TRef.binary main_call19.v8 main_call19.c_3 main_call19.v9 (fun x v => Host.reduce IntOp.andi x v reducesTo_S1_S_d0 h_S_),
    StableHlo.TRef.binary (.of main_v165 : StableHlo.TRef sig ⟨S802816x2x2x2x2, .f32⟩) main_call19.v4 main_call19.v10 (fun x i => Host.gather gather_S802816x2x2x2x2_S1_S802816x2x2x2_0123_3_n_n_3_0_8028162212 x i),
    StableHlo.TRef.unary main_call19.v9 main_call19.v11 (broadcastInDim S802816x2x2x2 ![] bcast_S_S802816x2x2x2),
    StableHlo.TRef.nullary main_call19.cst (constant S_ .f32 0x7FC00000#32),
    StableHlo.TRef.unary main_call19.cst main_call19.v12 (broadcastInDim S802816x2x2x2 ![] bcast_S_S802816x2x2x2),
    StableHlo.TRef.ternary main_call19.v11 main_call19.v10 main_call19.v12 main_call19.v13 select,
    StableHlo.nullary main_cst_34 (constant S_ .f32 0x3F000000#32),
    StableHlo.binary main_v167 main_cst_34 main_v170 (mulf : (⟨S_, .f32⟩ : BufTy).Contents (Elt F) → (⟨S_, .f32⟩ : BufTy).Contents (Elt F) → (⟨S_, .f32⟩ : BufTy).Contents (Elt F)),
    StableHlo.unary main_v170 main_v171 (Host.cos : (⟨S_, .f32⟩ : BufTy).Contents (Elt F) → (⟨S_, .f32⟩ : BufTy).Contents (Elt F)),
    StableHlo.nullary main_cst_35 (constant S_ .f32 0x3F000000#32),
    StableHlo.binary main_v167 main_cst_35 main_v172 (mulf : (⟨S_, .f32⟩ : BufTy).Contents (Elt F) → (⟨S_, .f32⟩ : BufTy).Contents (Elt F) → (⟨S_, .f32⟩ : BufTy).Contents (Elt F)),
    StableHlo.unary main_v172 main_v173 (Host.sin : (⟨S_, .f32⟩ : BufTy).Contents (Elt F) → (⟨S_, .f32⟩ : BufTy).Contents (Elt F)),
    StableHlo.unary main_v171 main_v174 (broadcastInDim S802816x2x2x2 ![] bcast_S_S802816x2x2x2 : (⟨S_, .f32⟩ : BufTy).Contents (Elt F) → (⟨S802816x2x2x2, .f32⟩ : BufTy).Contents (Elt F)),
    StableHlo.binary main_v174 main_v168 main_v175 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v173 main_v176 (broadcastInDim S802816x2x2x2 ![] bcast_S_S802816x2x2x2 : (⟨S_, .f32⟩ : BufTy).Contents (Elt F) → (⟨S802816x2x2x2, .f32⟩ : BufTy).Contents (Elt F)),
    StableHlo.binary main_v176 main_v169 main_v177 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v175 main_v177 main_v178 (subf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v173 main_v179 (broadcastInDim S802816x2x2x2 ![] bcast_S_S802816x2x2x2 : (⟨S_, .f32⟩ : BufTy).Contents (Elt F) → (⟨S802816x2x2x2, .f32⟩ : BufTy).Contents (Elt F)),
    StableHlo.binary main_v179 main_v168 main_v180 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v171 main_v181 (broadcastInDim S802816x2x2x2 ![] bcast_S_S802816x2x2x2 : (⟨S_, .f32⟩ : BufTy).Contents (Elt F) → (⟨S802816x2x2x2, .f32⟩ : BufTy).Contents (Elt F)),
    StableHlo.binary main_v181 main_v169 main_v182 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v180 main_v182 main_v183 (addf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v178 main_v184 (broadcastInDim S802816x2x2x1x2 ![0, 1, 2, 4] bcast_S802816x2x2x2_S802816x2x2x1x2_0_1_2_4 : (⟨S802816x2x2x2, .f32⟩ : BufTy).Contents (Elt F) → (⟨S802816x2x2x1x2, .f32⟩ : BufTy).Contents (Elt F)),
    StableHlo.unary main_v183 main_v185 (broadcastInDim S802816x2x2x1x2 ![0, 1, 2, 4] bcast_S802816x2x2x2_S802816x2x2x1x2_0_1_2_4 : (⟨S802816x2x2x2, .f32⟩ : BufTy).Contents (Elt F) → (⟨S802816x2x2x1x2, .f32⟩ : BufTy).Contents (Elt F)),
    StableHlo.binary main_v184 main_v185 main_v186 ((fun a b => concatenate S802816x2x2x2x2 3 [⟨S802816x2x2x1x2, a⟩, ⟨S802816x2x2x1x2, b⟩] concatenates_S802816x2x2x1x2_S802816x2x2x1x2_S802816x2x2x2x2_d3) : (⟨S802816x2x2x1x2, .f32⟩ : BufTy).Contents (Elt F) → (⟨S802816x2x2x1x2, .f32⟩ : BufTy).Contents (Elt F) → (⟨S802816x2x2x2x2, .f32⟩ : BufTy).Contents (Elt F)),
    StableHlo.nullary main_c_36 (constantI S_ 32 0#32),
    StableHlo.TRef.nullary main_call20.c (constantI S_ 32 0#32),
    StableHlo.TRef.binary (.of main_c_36 : StableHlo.TRef sig ⟨S_, .i32⟩) main_call20.c main_call20.v0 (cmpi .slt),
    StableHlo.TRef.nullary main_call20.c_0 (constantI S_ 32 2#32),
    StableHlo.TRef.binary (.of main_c_36 : StableHlo.TRef sig ⟨S_, .i32⟩) main_call20.c_0 main_call20.v1 addi,
    StableHlo.TRef.ternary main_call20.v0 main_call20.v1 (.of main_c_36 : StableHlo.TRef sig ⟨S_, .i32⟩) main_call20.call0.v0 select,
    StableHlo.TRef.unary main_call20.call0.v0 main_call20.v3 (broadcastInDim S1 ![] bcast_S_S1),
    StableHlo.TRef.nullary main_call20.c_1 (constantI S1 32 1#32),
    StableHlo.TRef.unary main_call20.v3 main_call20.v4 id,
    StableHlo.TRef.nullary main_call20.c_2 (constantI S_ 32 0#32),
    StableHlo.TRef.unary main_call20.c_2 main_call20.v5 (broadcastInDim S1 ![] bcast_S_S1),
    StableHlo.TRef.binary main_call20.v4 main_call20.v5 main_call20.v6 (cmpi .sge),
    StableHlo.TRef.binary main_call20.v4 main_call20.c_1 main_call20.v7 (cmpi .sle),
    StableHlo.TRef.binary main_call20.v6 main_call20.v7 main_call20.v8 andi,
    StableHlo.TRef.nullary main_call20.c_3 (constantI S_ 1 1#1),
    StableHlo.TRef.binary main_call20.v8 main_call20.c_3 main_call20.v9 (fun x v => Host.reduce IntOp.andi x v reducesTo_S1_S_d0 h_S_),
    StableHlo.TRef.binary (.of main_v186 : StableHlo.TRef sig ⟨S802816x2x2x2x2, .f32⟩) main_call20.v4 main_call20.v10 (fun x i => Host.gather gather_S802816x2x2x2x2_S1_S802816x2x2x2_0123_3_n_n_3_0_8028162212 x i),
    StableHlo.TRef.unary main_call20.v9 main_call20.v11 (broadcastInDim S802816x2x2x2 ![] bcast_S_S802816x2x2x2),
    StableHlo.TRef.nullary main_call20.cst (constant S_ .f32 0x7FC00000#32),
    StableHlo.TRef.unary main_call20.cst main_call20.v12 (broadcastInDim S802816x2x2x2 ![] bcast_S_S802816x2x2x2),
    StableHlo.TRef.ternary main_call20.v11 main_call20.v10 main_call20.v12 main_call20.v13 select,
    StableHlo.nullary main_c_37 (constantI S_ 32 1#32),
    StableHlo.TRef.nullary main_call21.c (constantI S_ 32 0#32),
    StableHlo.TRef.binary (.of main_c_37 : StableHlo.TRef sig ⟨S_, .i32⟩) main_call21.c main_call21.v0 (cmpi .slt),
    StableHlo.TRef.nullary main_call21.c_0 (constantI S_ 32 2#32),
    StableHlo.TRef.binary (.of main_c_37 : StableHlo.TRef sig ⟨S_, .i32⟩) main_call21.c_0 main_call21.v1 addi,
    StableHlo.TRef.ternary main_call21.v0 main_call21.v1 (.of main_c_37 : StableHlo.TRef sig ⟨S_, .i32⟩) main_call21.call0.v0 select,
    StableHlo.TRef.unary main_call21.call0.v0 main_call21.v3 (broadcastInDim S1 ![] bcast_S_S1),
    StableHlo.TRef.nullary main_call21.c_1 (constantI S1 32 1#32),
    StableHlo.TRef.unary main_call21.v3 main_call21.v4 id,
    StableHlo.TRef.nullary main_call21.c_2 (constantI S_ 32 0#32),
    StableHlo.TRef.unary main_call21.c_2 main_call21.v5 (broadcastInDim S1 ![] bcast_S_S1),
    StableHlo.TRef.binary main_call21.v4 main_call21.v5 main_call21.v6 (cmpi .sge),
    StableHlo.TRef.binary main_call21.v4 main_call21.c_1 main_call21.v7 (cmpi .sle),
    StableHlo.TRef.binary main_call21.v6 main_call21.v7 main_call21.v8 andi,
    StableHlo.TRef.nullary main_call21.c_3 (constantI S_ 1 1#1),
    StableHlo.TRef.binary main_call21.v8 main_call21.c_3 main_call21.v9 (fun x v => Host.reduce IntOp.andi x v reducesTo_S1_S_d0 h_S_),
    StableHlo.TRef.binary (.of main_v186 : StableHlo.TRef sig ⟨S802816x2x2x2x2, .f32⟩) main_call21.v4 main_call21.v10 (fun x i => Host.gather gather_S802816x2x2x2x2_S1_S802816x2x2x2_0123_3_n_n_3_0_8028162212 x i),
    StableHlo.TRef.unary main_call21.v9 main_call21.v11 (broadcastInDim S802816x2x2x2 ![] bcast_S_S802816x2x2x2),
    StableHlo.TRef.nullary main_call21.cst (constant S_ .f32 0x7FC00000#32),
    StableHlo.TRef.unary main_call21.cst main_call21.v12 (broadcastInDim S802816x2x2x2 ![] bcast_S_S802816x2x2x2),
    StableHlo.TRef.ternary main_call21.v11 main_call21.v10 main_call21.v12 main_call21.v13 select,
    StableHlo.TRef.unary (.of main_v188 : StableHlo.TRef sig ⟨S802816x2x2x2, .f32⟩) main_call22.v0 (Host.reverse [3]),
    StableHlo.unary main_v187 main_v190 (broadcastInDim S802816x2x2x1x2 ![0, 1, 2, 4] bcast_S802816x2x2x2_S802816x2x2x1x2_0_1_2_4 : (⟨S802816x2x2x2, .f32⟩ : BufTy).Contents (Elt F) → (⟨S802816x2x2x1x2, .f32⟩ : BufTy).Contents (Elt F)),
    StableHlo.unary main_v189 main_v191 (broadcastInDim S802816x2x2x1x2 ![0, 1, 2, 4] bcast_S802816x2x2x2_S802816x2x2x1x2_0_1_2_4 : (⟨S802816x2x2x2, .f32⟩ : BufTy).Contents (Elt F) → (⟨S802816x2x2x1x2, .f32⟩ : BufTy).Contents (Elt F)),
    StableHlo.binary main_v190 main_v191 main_v192 ((fun a b => concatenate S802816x2x2x2x2 3 [⟨S802816x2x2x1x2, a⟩, ⟨S802816x2x2x1x2, b⟩] concatenates_S802816x2x2x1x2_S802816x2x2x1x2_S802816x2x2x2x2_d3) : (⟨S802816x2x2x1x2, .f32⟩ : BufTy).Contents (Elt F) → (⟨S802816x2x2x1x2, .f32⟩ : BufTy).Contents (Elt F) → (⟨S802816x2x2x2x2, .f32⟩ : BufTy).Contents (Elt F)),
    StableHlo.unary main_arg1 main_v193 ((extractStridedSlice S1 ![3] · slices_S4_S1_3) : (⟨S4, .f32⟩ : BufTy).Contents (Elt F) → (⟨S1, .f32⟩ : BufTy).Contents (Elt F)),
    StableHlo.reshape main_v193 main_v194 rfl shapeCasts_S1_S_,
    StableHlo.nullary main_c_38 (constantI S_ 32 0#32),
    StableHlo.TRef.nullary main_call23.c (constantI S_ 32 0#32),
    StableHlo.TRef.binary (.of main_c_38 : StableHlo.TRef sig ⟨S_, .i32⟩) main_call23.c main_call23.v0 (cmpi .slt),
    StableHlo.TRef.nullary main_call23.c_0 (constantI S_ 32 2#32),
    StableHlo.TRef.binary (.of main_c_38 : StableHlo.TRef sig ⟨S_, .i32⟩) main_call23.c_0 main_call23.v1 addi,
    StableHlo.TRef.ternary main_call23.v0 main_call23.v1 (.of main_c_38 : StableHlo.TRef sig ⟨S_, .i32⟩) main_call23.call0.v0 select,
    StableHlo.TRef.unary main_call23.call0.v0 main_call23.v3 (broadcastInDim S1 ![] bcast_S_S1),
    StableHlo.TRef.nullary main_call23.c_1 (constantI S1 32 1#32),
    StableHlo.TRef.unary main_call23.v3 main_call23.v4 id,
    StableHlo.TRef.nullary main_call23.c_2 (constantI S_ 32 0#32),
    StableHlo.TRef.unary main_call23.c_2 main_call23.v5 (broadcastInDim S1 ![] bcast_S_S1),
    StableHlo.TRef.binary main_call23.v4 main_call23.v5 main_call23.v6 (cmpi .sge),
    StableHlo.TRef.binary main_call23.v4 main_call23.c_1 main_call23.v7 (cmpi .sle),
    StableHlo.TRef.binary main_call23.v6 main_call23.v7 main_call23.v8 andi,
    StableHlo.TRef.nullary main_call23.c_3 (constantI S_ 1 1#1),
    StableHlo.TRef.binary main_call23.v8 main_call23.c_3 main_call23.v9 (fun x v => Host.reduce IntOp.andi x v reducesTo_S1_S_d0 h_S_),
    StableHlo.TRef.binary (.of main_v192 : StableHlo.TRef sig ⟨S802816x2x2x2x2, .f32⟩) main_call23.v4 main_call23.v10 (fun x i => Host.gather gather_S802816x2x2x2x2_S1_S802816x2x2x2_0123_4_n_n_4_0_8028162221 x i),
    StableHlo.TRef.unary main_call23.v9 main_call23.v11 (broadcastInDim S802816x2x2x2 ![] bcast_S_S802816x2x2x2),
    StableHlo.TRef.nullary main_call23.cst (constant S_ .f32 0x7FC00000#32),
    StableHlo.TRef.unary main_call23.cst main_call23.v12 (broadcastInDim S802816x2x2x2 ![] bcast_S_S802816x2x2x2),
    StableHlo.TRef.ternary main_call23.v11 main_call23.v10 main_call23.v12 main_call23.v13 select,
    StableHlo.nullary main_c_39 (constantI S_ 32 1#32),
    StableHlo.TRef.nullary main_call24.c (constantI S_ 32 0#32),
    StableHlo.TRef.binary (.of main_c_39 : StableHlo.TRef sig ⟨S_, .i32⟩) main_call24.c main_call24.v0 (cmpi .slt),
    StableHlo.TRef.nullary main_call24.c_0 (constantI S_ 32 2#32),
    StableHlo.TRef.binary (.of main_c_39 : StableHlo.TRef sig ⟨S_, .i32⟩) main_call24.c_0 main_call24.v1 addi,
    StableHlo.TRef.ternary main_call24.v0 main_call24.v1 (.of main_c_39 : StableHlo.TRef sig ⟨S_, .i32⟩) main_call24.call0.v0 select,
    StableHlo.TRef.unary main_call24.call0.v0 main_call24.v3 (broadcastInDim S1 ![] bcast_S_S1),
    StableHlo.TRef.nullary main_call24.c_1 (constantI S1 32 1#32),
    StableHlo.TRef.unary main_call24.v3 main_call24.v4 id,
    StableHlo.TRef.nullary main_call24.c_2 (constantI S_ 32 0#32),
    StableHlo.TRef.unary main_call24.c_2 main_call24.v5 (broadcastInDim S1 ![] bcast_S_S1),
    StableHlo.TRef.binary main_call24.v4 main_call24.v5 main_call24.v6 (cmpi .sge),
    StableHlo.TRef.binary main_call24.v4 main_call24.c_1 main_call24.v7 (cmpi .sle),
    StableHlo.TRef.binary main_call24.v6 main_call24.v7 main_call24.v8 andi,
    StableHlo.TRef.nullary main_call24.c_3 (constantI S_ 1 1#1),
    StableHlo.TRef.binary main_call24.v8 main_call24.c_3 main_call24.v9 (fun x v => Host.reduce IntOp.andi x v reducesTo_S1_S_d0 h_S_),
    StableHlo.TRef.binary (.of main_v192 : StableHlo.TRef sig ⟨S802816x2x2x2x2, .f32⟩) main_call24.v4 main_call24.v10 (fun x i => Host.gather gather_S802816x2x2x2x2_S1_S802816x2x2x2_0123_4_n_n_4_0_8028162221 x i),
    StableHlo.TRef.unary main_call24.v9 main_call24.v11 (broadcastInDim S802816x2x2x2 ![] bcast_S_S802816x2x2x2),
    StableHlo.TRef.nullary main_call24.cst (constant S_ .f32 0x7FC00000#32),
    StableHlo.TRef.unary main_call24.cst main_call24.v12 (broadcastInDim S802816x2x2x2 ![] bcast_S_S802816x2x2x2),
    StableHlo.TRef.ternary main_call24.v11 main_call24.v10 main_call24.v12 main_call24.v13 select,
    StableHlo.nullary main_cst_40 (constant S_ .f32 0x3F000000#32) ]

set_option maxRecDepth 65536 in
set_option maxHeartbeats 4000000 in
/-- The window is that straight line: the callees' definitions unfolded at their calls, both sides are one chain of
    steps once sequencing is reassociated. -/
theorem main_part3_eq (c : Dev nD) : main_part3 (F := F) c = seq ops3 := by
  simp only [main_part3, fn_take_0.body, fn_where.body, fn_flip_3.body, fn_take_1.body, fn_flip_4.body, fn_take_2.body, seq, bind_assoc, pure_bind]
  try rfl

set_option maxRecDepth 65536 in
/-- Every operation of the window touches TensorCore buffers only. -/
theorem ops3_sub : (ops3 : List (HloOp τ sig (Elt F))).Forall fun op => op.bufs ⊆ tcRefs τ sig :=
  ⟨binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., unary_bufs_sub .., binary_bufs_sub .., unary_bufs_sub .., reshape_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., nullary_bufs_sub .., binary_bufs_sub .., unary_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., unary_bufs_sub .., binary_bufs_sub .., unary_bufs_sub .., reshape_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub ..⟩

set_option maxRecDepth 65536 in
/-- No operation of the window leaves a buffer's contents undetermined. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefOps4.lean ====
/- Window 4 of the reference program's @main as a list of its 155 operations, in order: each call of an
   outlined function is replaced by the callee's own operations over that call's record of buffers (an index
   wrapped into range, a gather, a select filling with NaN where the index was out of range, …). Proved below: the
   window IS this straight line, every operation touches only buffers of the TensorCore, and none leaves a
   buffer undetermined. -/
import proofs.«159359_j65481071398168_2_alg».proof.ReferenceIdeal
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The operations of window 4 of @main, the calls unfolded. -/
abbrev ops4 : List (HloOp τ sig (Elt F)) :=
  [ StableHlo.binary main_v194 main_cst_40 main_v197 (mulf : (⟨S_, .f32⟩ : BufTy).Contents (Elt F) → (⟨S_, .f32⟩ : BufTy).Contents (Elt F) → (⟨S_, .f32⟩ : BufTy).Contents (Elt F)),
    StableHlo.unary main_v197 main_v198 (Host.cos : (⟨S_, .f32⟩ : BufTy).Contents (Elt F) → (⟨S_, .f32⟩ : BufTy).Contents (Elt F)),
    StableHlo.nullary main_cst_41 (constant S_ .f32 0x3F000000#32),
    StableHlo.binary main_v194 main_cst_41 main_v199 (mulf : (⟨S_, .f32⟩ : BufTy).Contents (Elt F) → (⟨S_, .f32⟩ : BufTy).Contents (Elt F) → (⟨S_, .f32⟩ : BufTy).Contents (Elt F)),
    StableHlo.unary main_v199 main_v200 (Host.sin : (⟨S_, .f32⟩ : BufTy).Contents (Elt F) → (⟨S_, .f32⟩ : BufTy).Contents (Elt F)),
    StableHlo.unary main_v198 main_v201 (broadcastInDim S802816x2x2x2 ![] bcast_S_S802816x2x2x2 : (⟨S_, .f32⟩ : BufTy).Contents (Elt F) → (⟨S802816x2x2x2, .f32⟩ : BufTy).Contents (Elt F)),
    StableHlo.binary main_v201 main_v195 main_v202 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v200 main_v203 (broadcastInDim S802816x2x2x2 ![] bcast_S_S802816x2x2x2 : (⟨S_, .f32⟩ : BufTy).Contents (Elt F) → (⟨S802816x2x2x2, .f32⟩ : BufTy).Contents (Elt F)),
    StableHlo.binary main_v203 main_v196 main_v204 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v202 main_v204 main_v205 (subf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v200 main_v206 (broadcastInDim S802816x2x2x2 ![] bcast_S_S802816x2x2x2 : (⟨S_, .f32⟩ : BufTy).Contents (Elt F) → (⟨S802816x2x2x2, .f32⟩ : BufTy).Contents (Elt F)),
    StableHlo.binary main_v206 main_v195 main_v207 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v198 main_v208 (broadcastInDim S802816x2x2x2 ![] bcast_S_S802816x2x2x2 : (⟨S_, .f32⟩ : BufTy).Contents (Elt F) → (⟨S802816x2x2x2, .f32⟩ : BufTy).Contents (Elt F)),
    StableHlo.binary main_v208 main_v196 main_v209 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v207 main_v209 main_v210 (addf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v205 main_v211 (broadcastInDim S802816x2x2x2x1 ![0, 1, 2, 3] bcast_S802816x2x2x2_S802816x2x2x2x1_0_1_2_3 : (⟨S802816x2x2x2, .f32⟩ : BufTy).Contents (Elt F) → (⟨S802816x2x2x2x1, .f32⟩ : BufTy).Contents (Elt F)),
    StableHlo.unary main_v210 main_v212 (broadcastInDim S802816x2x2x2x1 ![0, 1, 2, 3] bcast_S802816x2x2x2_S802816x2x2x2x1_0_1_2_3 : (⟨S802816x2x2x2, .f32⟩ : BufTy).Contents (Elt F) → (⟨S802816x2x2x2x1, .f32⟩ : BufTy).Contents (Elt F)),
    StableHlo.binary main_v211 main_v212 main_v213 ((fun a b => concatenate S802816x2x2x2x2 4 [⟨S802816x2x2x2x1, a⟩, ⟨S802816x2x2x2x1, b⟩] concatenates_S802816x2x2x2x1_S802816x2x2x2x1_S802816x2x2x2x2_d4) : (⟨S802816x2x2x2x1, .f32⟩ : BufTy).Contents (Elt F) → (⟨S802816x2x2x2x1, .f32⟩ : BufTy).Contents (Elt F) → (⟨S802816x2x2x2x2, .f32⟩ : BufTy).Contents (Elt F)),
    StableHlo.nullary main_c_42 (constantI S_ 32 0#32),
    StableHlo.TRef.nullary main_call25.c (constantI S_ 32 0#32),
    StableHlo.TRef.binary (.of main_c_42 : StableHlo.TRef sig ⟨S_, .i32⟩) main_call25.c main_call25.v0 (cmpi .slt),
    StableHlo.TRef.nullary main_call25.c_0 (constantI S_ 32 2#32),
    StableHlo.TRef.binary (.of main_c_42 : StableHlo.TRef sig ⟨S_, .i32⟩) main_call25.c_0 main_call25.v1 addi,
    StableHlo.TRef.ternary main_call25.v0 main_call25.v1 (.of main_c_42 : StableHlo.TRef sig ⟨S_, .i32⟩) main_call25.call0.v0 select,
    StableHlo.TRef.unary main_call25.call0.v0 main_call25.v3 (broadcastInDim S1 ![] bcast_S_S1),
    StableHlo.TRef.nullary main_call25.c_1 (constantI S1 32 1#32),
    StableHlo.TRef.unary main_call25.v3 main_call25.v4 id,
    StableHlo.TRef.nullary main_call25.c_2 (constantI S_ 32 0#32),
    StableHlo.TRef.unary main_call25.c_2 main_call25.v5 (broadcastInDim S1 ![] bcast_S_S1),
    StableHlo.TRef.binary main_call25.v4 main_call25.v5 main_call25.v6 (cmpi .sge),
    StableHlo.TRef.binary main_call25.v4 main_call25.c_1 main_call25.v7 (cmpi .sle),
    StableHlo.TRef.binary main_call25.v6 main_call25.v7 main_call25.v8 andi,
    StableHlo.TRef.nullary main_call25.c_3 (constantI S_ 1 1#1),
    StableHlo.TRef.binary main_call25.v8 main_call25.c_3 main_call25.v9 (fun x v => Host.reduce IntOp.andi x v reducesTo_S1_S_d0 h_S_),
    StableHlo.TRef.binary (.of main_v213 : StableHlo.TRef sig ⟨S802816x2x2x2x2, .f32⟩) main_call25.v4 main_call25.v10 (fun x i => Host.gather gather_S802816x2x2x2x2_S1_S802816x2x2x2_0123_4_n_n_4_0_8028162221 x i),
    StableHlo.TRef.unary main_call25.v9 main_call25.v11 (broadcastInDim S802816x2x2x2 ![] bcast_S_S802816x2x2x2),
    StableHlo.TRef.nullary main_call25.cst (constant S_ .f32 0x7FC00000#32),
    StableHlo.TRef.unary main_call25.cst main_call25.v12 (broadcastInDim S802816x2x2x2 ![] bcast_S_S802816x2x2x2),
    StableHlo.TRef.ternary main_call25.v11 main_call25.v10 main_call25.v12 main_call25.v13 select,
    StableHlo.nullary main_c_43 (constantI S_ 32 1#32),
    StableHlo.TRef.nullary main_call26.c (constantI S_ 32 0#32),
    StableHlo.TRef.binary (.of main_c_43 : StableHlo.TRef sig ⟨S_, .i32⟩) main_call26.c main_call26.v0 (cmpi .slt),
    StableHlo.TRef.nullary main_call26.c_0 (constantI S_ 32 2#32),
    StableHlo.TRef.binary (.of main_c_43 : StableHlo.TRef sig ⟨S_, .i32⟩) main_call26.c_0 main_call26.v1 addi,
    StableHlo.TRef.ternary main_call26.v0 main_call26.v1 (.of main_c_43 : StableHlo.TRef sig ⟨S_, .i32⟩) main_call26.call0.v0 select,
    StableHlo.TRef.unary main_call26.call0.v0 main_call26.v3 (broadcastInDim S1 ![] bcast_S_S1),
    StableHlo.TRef.nullary main_call26.c_1 (constantI S1 32 1#32),
    StableHlo.TRef.unary main_call26.v3 main_call26.v4 id,
    StableHlo.TRef.nullary main_call26.c_2 (constantI S_ 32 0#32),
    StableHlo.TRef.unary main_call26.c_2 main_call26.v5 (broadcastInDim S1 ![] bcast_S_S1),
    StableHlo.TRef.binary main_call26.v4 main_call26.v5 main_call26.v6 (cmpi .sge),
    StableHlo.TRef.binary main_call26.v4 main_call26.c_1 main_call26.v7 (cmpi .sle),
    StableHlo.TRef.binary main_call26.v6 main_call26.v7 main_call26.v8 andi,
    StableHlo.TRef.nullary main_call26.c_3 (constantI S_ 1 1#1),
    StableHlo.TRef.binary main_call26.v8 main_call26.c_3 main_call26.v9 (fun x v => Host.reduce IntOp.andi x v reducesTo_S1_S_d0 h_S_),
    StableHlo.TRef.binary (.of main_v213 : StableHlo.TRef sig ⟨S802816x2x2x2x2, .f32⟩) main_call26.v4 main_call26.v10 (fun x i => Host.gather gather_S802816x2x2x2x2_S1_S802816x2x2x2_0123_4_n_n_4_0_8028162221 x i),
    StableHlo.TRef.unary main_call26.v9 main_call26.v11 (broadcastInDim S802816x2x2x2 ![] bcast_S_S802816x2x2x2),
    StableHlo.TRef.nullary main_call26.cst (constant S_ .f32 0x7FC00000#32),
    StableHlo.TRef.unary main_call26.cst main_call26.v12 (broadcastInDim S802816x2x2x2 ![] bcast_S_S802816x2x2x2),
    StableHlo.TRef.ternary main_call26.v11 main_call26.v10 main_call26.v12 main_call26.v13 select,
    StableHlo.TRef.unary (.of main_v215 : StableHlo.TRef sig ⟨S802816x2x2x2, .f32⟩) main_call27.v0 (Host.reverse [1]),
    StableHlo.unary main_v214 main_v217 (broadcastInDim S802816x2x2x2x1 ![0, 1, 2, 3] bcast_S802816x2x2x2_S802816x2x2x2x1_0_1_2_3 : (⟨S802816x2x2x2, .f32⟩ : BufTy).Contents (Elt F) → (⟨S802816x2x2x2x1, .f32⟩ : BufTy).Contents (Elt F)),
    StableHlo.unary main_v216 main_v218 (broadcastInDim S802816x2x2x2x1 ![0, 1, 2, 3] bcast_S802816x2x2x2_S802816x2x2x2x1_0_1_2_3 : (⟨S802816x2x2x2, .f32⟩ : BufTy).Contents (Elt F) → (⟨S802816x2x2x2x1, .f32⟩ : BufTy).Contents (Elt F)),
    StableHlo.binary main_v217 main_v218 main_v219 ((fun a b => concatenate S802816x2x2x2x2 4 [⟨S802816x2x2x2x1, a⟩, ⟨S802816x2x2x2x1, b⟩] concatenates_S802816x2x2x2x1_S802816x2x2x2x1_S802816x2x2x2x2_d4) : (⟨S802816x2x2x2x1, .f32⟩ : BufTy).Contents (Elt F) → (⟨S802816x2x2x2x1, .f32⟩ : BufTy).Contents (Elt F) → (⟨S802816x2x2x2x2, .f32⟩ : BufTy).Contents (Elt F)),
    StableHlo.unary main_v3 main_v220 ((extractStridedSlice S802816x1 ![0, 0] · slices_S802816x4_S802816x1_0_0) : (⟨S802816x4, .f32⟩ : BufTy).Contents (Elt F) → (⟨S802816x1, .f32⟩ : BufTy).Contents (Elt F)),
    StableHlo.reshape main_v220 main_v221 rfl shapeCasts_S802816x1_S802816,
    StableHlo.nullary main_c_44 (constantI S_ 32 0#32),
    StableHlo.TRef.nullary main_call28.c (constantI S_ 32 0#32),
    StableHlo.TRef.binary (.of main_c_44 : StableHlo.TRef sig ⟨S_, .i32⟩) main_call28.c main_call28.v0 (cmpi .slt),
    StableHlo.TRef.nullary main_call28.c_0 (constantI S_ 32 2#32),
    StableHlo.TRef.binary (.of main_c_44 : StableHlo.TRef sig ⟨S_, .i32⟩) main_call28.c_0 main_call28.v1 addi,
    StableHlo.TRef.ternary main_call28.v0 main_call28.v1 (.of main_c_44 : StableHlo.TRef sig ⟨S_, .i32⟩) main_call28.call0.v0 select,
    StableHlo.TRef.unary main_call28.call0.v0 main_call28.v3 (broadcastInDim S1 ![] bcast_S_S1),
    StableHlo.TRef.nullary main_call28.c_1 (constantI S1 32 1#32),
    StableHlo.TRef.unary main_call28.v3 main_call28.v4 id,
    StableHlo.TRef.nullary main_call28.c_2 (constantI S_ 32 0#32),
    StableHlo.TRef.unary main_call28.c_2 main_call28.v5 (broadcastInDim S1 ![] bcast_S_S1),
    StableHlo.TRef.binary main_call28.v4 main_call28.v5 main_call28.v6 (cmpi .sge),
    StableHlo.TRef.binary main_call28.v4 main_call28.c_1 main_call28.v7 (cmpi .sle),
    StableHlo.TRef.binary main_call28.v6 main_call28.v7 main_call28.v8 andi,
    StableHlo.TRef.nullary main_call28.c_3 (constantI S_ 1 1#1),
    StableHlo.TRef.binary main_call28.v8 main_call28.c_3 main_call28.v9 (fun x v => Host.reduce IntOp.andi x v reducesTo_S1_S_d0 h_S_),
    StableHlo.TRef.binary (.of main_v219 : StableHlo.TRef sig ⟨S802816x2x2x2x2, .f32⟩) main_call28.v4 main_call28.v10 (fun x i => Host.gather gather_S802816x2x2x2x2_S1_S802816x2x2x2_0123_1_n_n_1_0_8028161222 x i),
    StableHlo.TRef.unary main_call28.v9 main_call28.v11 (broadcastInDim S802816x2x2x2 ![] bcast_S_S802816x2x2x2),
    StableHlo.TRef.nullary main_call28.cst (constant S_ .f32 0x7FC00000#32),
    StableHlo.TRef.unary main_call28.cst main_call28.v12 (broadcastInDim S802816x2x2x2 ![] bcast_S_S802816x2x2x2),
    StableHlo.TRef.ternary main_call28.v11 main_call28.v10 main_call28.v12 main_call28.v13 select,
    StableHlo.nullary main_c_45 (constantI S_ 32 1#32),
    StableHlo.TRef.nullary main_call29.c (constantI S_ 32 0#32),
    StableHlo.TRef.binary (.of main_c_45 : StableHlo.TRef sig ⟨S_, .i32⟩) main_call29.c main_call29.v0 (cmpi .slt),
    StableHlo.TRef.nullary main_call29.c_0 (constantI S_ 32 2#32),
    StableHlo.TRef.binary (.of main_c_45 : StableHlo.TRef sig ⟨S_, .i32⟩) main_call29.c_0 main_call29.v1 addi,
    StableHlo.TRef.ternary main_call29.v0 main_call29.v1 (.of main_c_45 : StableHlo.TRef sig ⟨S_, .i32⟩) main_call29.call0.v0 select,
    StableHlo.TRef.unary main_call29.call0.v0 main_call29.v3 (broadcastInDim S1 ![] bcast_S_S1),
    StableHlo.TRef.nullary main_call29.c_1 (constantI S1 32 1#32),
    StableHlo.TRef.unary main_call29.v3 main_call29.v4 id,
    StableHlo.TRef.nullary main_call29.c_2 (constantI S_ 32 0#32),
    StableHlo.TRef.unary main_call29.c_2 main_call29.v5 (broadcastInDim S1 ![] bcast_S_S1),
    StableHlo.TRef.binary main_call29.v4 main_call29.v5 main_call29.v6 (cmpi .sge),
    StableHlo.TRef.binary main_call29.v4 main_call29.c_1 main_call29.v7 (cmpi .sle),
    StableHlo.TRef.binary main_call29.v6 main_call29.v7 main_call29.v8 andi,
    StableHlo.TRef.nullary main_call29.c_3 (constantI S_ 1 1#1),
    StableHlo.TRef.binary main_call29.v8 main_call29.c_3 main_call29.v9 (fun x v => Host.reduce IntOp.andi x v reducesTo_S1_S_d0 h_S_),
    StableHlo.TRef.binary (.of main_v219 : StableHlo.TRef sig ⟨S802816x2x2x2x2, .f32⟩) main_call29.v4 main_call29.v10 (fun x i => Host.gather gather_S802816x2x2x2x2_S1_S802816x2x2x2_0123_1_n_n_1_0_8028161222 x i),
    StableHlo.TRef.unary main_call29.v9 main_call29.v11 (broadcastInDim S802816x2x2x2 ![] bcast_S_S802816x2x2x2),
    StableHlo.TRef.nullary main_call29.cst (constant S_ .f32 0x7FC00000#32),
    StableHlo.TRef.unary main_call29.cst main_call29.v12 (broadcastInDim S802816x2x2x2 ![] bcast_S_S802816x2x2x2),
    StableHlo.TRef.ternary main_call29.v11 main_call29.v10 main_call29.v12 main_call29.v13 select,
    StableHlo.nullary main_cst_46 (constant S_ .f32 0x3F000000#32),
    StableHlo.unary main_cst_46 main_v224 (broadcastInDim S802816 ![] bcast_S_S802816 : (⟨S_, .f32⟩ : BufTy).Contents (Elt F) → (⟨S802816, .f32⟩ : BufTy).Contents (Elt F)),
    StableHlo.binary main_v221 main_v224 main_v225 (mulf : (⟨S802816, .f32⟩ : BufTy).Contents (Elt F) → (⟨S802816, .f32⟩ : BufTy).Contents (Elt F) → (⟨S802816, .f32⟩ : BufTy).Contents (Elt F)),
    StableHlo.unary main_v225 main_v226 (Host.cos : (⟨S802816, .f32⟩ : BufTy).Contents (Elt F) → (⟨S802816, .f32⟩ : BufTy).Contents (Elt F)),
    StableHlo.nullary main_cst_47 (constant S_ .f32 0x3F000000#32),
    StableHlo.unary main_cst_47 main_v227 (broadcastInDim S802816 ![] bcast_S_S802816 : (⟨S_, .f32⟩ : BufTy).Contents (Elt F) → (⟨S802816, .f32⟩ : BufTy).Contents (Elt F)),
    StableHlo.binary main_v221 main_v227 main_v228 (mulf : (⟨S802816, .f32⟩ : BufTy).Contents (Elt F) → (⟨S802816, .f32⟩ : BufTy).Contents (Elt F) → (⟨S802816, .f32⟩ : BufTy).Contents (Elt F)),
    StableHlo.unary main_v228 main_v229 (Host.sin : (⟨S802816, .f32⟩ : BufTy).Contents (Elt F) → (⟨S802816, .f32⟩ : BufTy).Contents (Elt F)),
    StableHlo.reshape main_v226 main_v230 rfl shapeCasts_S802816_S802816x1x1x1,
    StableHlo.reshape main_v229 main_v231 rfl shapeCasts_S802816_S802816x1x1x1,
    StableHlo.unary main_v230 main_v232 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v232 main_v222 main_v233 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v231 main_v234 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v234 main_v223 main_v235 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v233 main_v235 main_v236 (subf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v231 main_v237 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v237 main_v222 main_v238 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v230 main_v239 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v239 main_v223 main_v240 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v238 main_v240 main_v241 (addf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v236 main_v242 (broadcastInDim S802816x1x2x2x2 ![0, 2, 3, 4] bcast_S802816x2x2x2_S802816x1x2x2x2_0_2_3_4 : (⟨S802816x2x2x2, .f32⟩ : BufTy).Contents (Elt F) → (⟨S802816x1x2x2x2, .f32⟩ : BufTy).Contents (Elt F)),
    StableHlo.unary main_v241 main_v243 (broadcastInDim S802816x1x2x2x2 ![0, 2, 3, 4] bcast_S802816x2x2x2_S802816x1x2x2x2_0_2_3_4 : (⟨S802816x2x2x2, .f32⟩ : BufTy).Contents (Elt F) → (⟨S802816x1x2x2x2, .f32⟩ : BufTy).Contents (Elt F)),
    StableHlo.binary main_v242 main_v243 main_v244 ((fun a b => concatenate S802816x2x2x2x2 1 [⟨S802816x1x2x2x2, a⟩, ⟨S802816x1x2x2x2, b⟩] concatenates_S802816x1x2x2x2_S802816x1x2x2x2_S802816x2x2x2x2_d1) : (⟨S802816x1x2x2x2, .f32⟩ : BufTy).Contents (Elt F) → (⟨S802816x1x2x2x2, .f32⟩ : BufTy).Contents (Elt F) → (⟨S802816x2x2x2x2, .f32⟩ : BufTy).Contents (Elt F)),
    StableHlo.unary main_v3 main_v245 ((extractStridedSlice S802816x1 ![0, 1] · slices_S802816x4_S802816x1_0_1) : (⟨S802816x4, .f32⟩ : BufTy).Contents (Elt F) → (⟨S802816x1, .f32⟩ : BufTy).Contents (Elt F)),
    StableHlo.reshape main_v245 main_v246 rfl shapeCasts_S802816x1_S802816,
    StableHlo.nullary main_c_48 (constantI S_ 32 0#32),
    StableHlo.TRef.nullary main_call30.c (constantI S_ 32 0#32),
    StableHlo.TRef.binary (.of main_c_48 : StableHlo.TRef sig ⟨S_, .i32⟩) main_call30.c main_call30.v0 (cmpi .slt),
    StableHlo.TRef.nullary main_call30.c_0 (constantI S_ 32 2#32),
    StableHlo.TRef.binary (.of main_c_48 : StableHlo.TRef sig ⟨S_, .i32⟩) main_call30.c_0 main_call30.v1 addi,
    StableHlo.TRef.ternary main_call30.v0 main_call30.v1 (.of main_c_48 : StableHlo.TRef sig ⟨S_, .i32⟩) main_call30.call0.v0 select,
    StableHlo.TRef.unary main_call30.call0.v0 main_call30.v3 (broadcastInDim S1 ![] bcast_S_S1),
    StableHlo.TRef.nullary main_call30.c_1 (constantI S1 32 1#32),
    StableHlo.TRef.unary main_call30.v3 main_call30.v4 id,
    StableHlo.TRef.nullary main_call30.c_2 (constantI S_ 32 0#32),
    StableHlo.TRef.unary main_call30.c_2 main_call30.v5 (broadcastInDim S1 ![] bcast_S_S1),
    StableHlo.TRef.binary main_call30.v4 main_call30.v5 main_call30.v6 (cmpi .sge),
    StableHlo.TRef.binary main_call30.v4 main_call30.c_1 main_call30.v7 (cmpi .sle),
    StableHlo.TRef.binary main_call30.v6 main_call30.v7 main_call30.v8 andi,
    StableHlo.TRef.nullary main_call30.c_3 (constantI S_ 1 1#1),
    StableHlo.TRef.binary main_call30.v8 main_call30.c_3 main_call30.v9 (fun x v => Host.reduce IntOp.andi x v reducesTo_S1_S_d0 h_S_),
    StableHlo.TRef.binary (.of main_v244 : StableHlo.TRef sig ⟨S802816x2x2x2x2, .f32⟩) main_call30.v4 main_call30.v10 (fun x i => Host.gather gather_S802816x2x2x2x2_S1_S802816x2x2x2_0123_2_n_n_2_0_8028162122 x i),
    StableHlo.TRef.unary main_call30.v9 main_call30.v11 (broadcastInDim S802816x2x2x2 ![] bcast_S_S802816x2x2x2),
    StableHlo.TRef.nullary main_call30.cst (constant S_ .f32 0x7FC00000#32),
    StableHlo.TRef.unary main_call30.cst main_call30.v12 (broadcastInDim S802816x2x2x2 ![] bcast_S_S802816x2x2x2),
    StableHlo.TRef.ternary main_call30.v11 main_call30.v10 main_call30.v12 main_call30.v13 select,
    StableHlo.nullary main_c_49 (constantI S_ 32 1#32) ]

set_option maxRecDepth 65536 in
set_option maxHeartbeats 4000000 in
/-- The window is that straight line: the callees' definitions unfolded at their calls, both sides are one chain of
    steps once sequencing is reassociated. -/
theorem main_part4_eq (c : Dev nD) : main_part4 (F := F) c = seq ops4 := by
  simp only [main_part4, fn_take_2.body, fn_where.body, fn_flip.body, fn_take.body, fn_take_0.body, seq, bind_assoc, pure_bind]
  try rfl

set_option maxRecDepth 65536 in
/-- Every operation of the window touches TensorCore buffers only. -/
theorem ops4_sub : (ops4 : List (HloOp τ sig (Elt F))).Forall fun op => op.bufs ⊆ tcRefs τ sig :=
  ⟨binary_bufs_sub .., unary_bufs_sub .., nullary_bufs_sub .., binary_bufs_sub .., unary_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., unary_bufs_sub .., binary_bufs_sub .., unary_bufs_sub .., reshape_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., unary_bufs_sub .., nullary_bufs_sub .., unary_bufs_sub .., binary_bufs_sub .., unary_bufs_sub .., reshape_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., unary_bufs_sub .., reshape_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub ..⟩

set_option maxRecDepth 65536 in
/-- No operation of the window leaves a buffer's contents undetermined. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefOps5.lean ====
/- Window 5 of the reference program's @main as a list of its 155 operations, in order: each call of an
   outlined function is replaced by the callee's own operations over that call's record of buffers (an index
   wrapped into range, a gather, a select filling with NaN where the index was out of range, …). Proved below: the
   window IS this straight line, every operation touches only buffers of the TensorCore, and none leaves a
   buffer undetermined. -/
import proofs.«159359_j65481071398168_2_alg».proof.ReferenceIdeal
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The operations of window 5 of @main, the calls unfolded. -/
abbrev ops5 : List (HloOp τ sig (Elt F)) :=
  [ StableHlo.TRef.nullary main_call31.c (constantI S_ 32 0#32),
    StableHlo.TRef.binary (.of main_c_49 : StableHlo.TRef sig ⟨S_, .i32⟩) main_call31.c main_call31.v0 (cmpi .slt),
    StableHlo.TRef.nullary main_call31.c_0 (constantI S_ 32 2#32),
    StableHlo.TRef.binary (.of main_c_49 : StableHlo.TRef sig ⟨S_, .i32⟩) main_call31.c_0 main_call31.v1 addi,
    StableHlo.TRef.ternary main_call31.v0 main_call31.v1 (.of main_c_49 : StableHlo.TRef sig ⟨S_, .i32⟩) main_call31.call0.v0 select,
    StableHlo.TRef.unary main_call31.call0.v0 main_call31.v3 (broadcastInDim S1 ![] bcast_S_S1),
    StableHlo.TRef.nullary main_call31.c_1 (constantI S1 32 1#32),
    StableHlo.TRef.unary main_call31.v3 main_call31.v4 id,
    StableHlo.TRef.nullary main_call31.c_2 (constantI S_ 32 0#32),
    StableHlo.TRef.unary main_call31.c_2 main_call31.v5 (broadcastInDim S1 ![] bcast_S_S1),
    StableHlo.TRef.binary main_call31.v4 main_call31.v5 main_call31.v6 (cmpi .sge),
    StableHlo.TRef.binary main_call31.v4 main_call31.c_1 main_call31.v7 (cmpi .sle),
    StableHlo.TRef.binary main_call31.v6 main_call31.v7 main_call31.v8 andi,
    StableHlo.TRef.nullary main_call31.c_3 (constantI S_ 1 1#1),
    StableHlo.TRef.binary main_call31.v8 main_call31.c_3 main_call31.v9 (fun x v => Host.reduce IntOp.andi x v reducesTo_S1_S_d0 h_S_),
    StableHlo.TRef.binary (.of main_v244 : StableHlo.TRef sig ⟨S802816x2x2x2x2, .f32⟩) main_call31.v4 main_call31.v10 (fun x i => Host.gather gather_S802816x2x2x2x2_S1_S802816x2x2x2_0123_2_n_n_2_0_8028162122 x i),
    StableHlo.TRef.unary main_call31.v9 main_call31.v11 (broadcastInDim S802816x2x2x2 ![] bcast_S_S802816x2x2x2),
    StableHlo.TRef.nullary main_call31.cst (constant S_ .f32 0x7FC00000#32),
    StableHlo.TRef.unary main_call31.cst main_call31.v12 (broadcastInDim S802816x2x2x2 ![] bcast_S_S802816x2x2x2),
    StableHlo.TRef.ternary main_call31.v11 main_call31.v10 main_call31.v12 main_call31.v13 select,
    StableHlo.nullary main_cst_50 (constant S_ .f32 0x3F000000#32),
    StableHlo.unary main_cst_50 main_v249 (broadcastInDim S802816 ![] bcast_S_S802816 : (⟨S_, .f32⟩ : BufTy).Contents (Elt F) → (⟨S802816, .f32⟩ : BufTy).Contents (Elt F)),
    StableHlo.binary main_v246 main_v249 main_v250 (mulf : (⟨S802816, .f32⟩ : BufTy).Contents (Elt F) → (⟨S802816, .f32⟩ : BufTy).Contents (Elt F) → (⟨S802816, .f32⟩ : BufTy).Contents (Elt F)),
    StableHlo.unary main_v250 main_v251 (Host.cos : (⟨S802816, .f32⟩ : BufTy).Contents (Elt F) → (⟨S802816, .f32⟩ : BufTy).Contents (Elt F)),
    StableHlo.nullary main_cst_51 (constant S_ .f32 0x3F000000#32),
    StableHlo.unary main_cst_51 main_v252 (broadcastInDim S802816 ![] bcast_S_S802816 : (⟨S_, .f32⟩ : BufTy).Contents (Elt F) → (⟨S802816, .f32⟩ : BufTy).Contents (Elt F)),
    StableHlo.binary main_v246 main_v252 main_v253 (mulf : (⟨S802816, .f32⟩ : BufTy).Contents (Elt F) → (⟨S802816, .f32⟩ : BufTy).Contents (Elt F) → (⟨S802816, .f32⟩ : BufTy).Contents (Elt F)),
    StableHlo.unary main_v253 main_v254 (Host.sin : (⟨S802816, .f32⟩ : BufTy).Contents (Elt F) → (⟨S802816, .f32⟩ : BufTy).Contents (Elt F)),
    StableHlo.reshape main_v251 main_v255 rfl shapeCasts_S802816_S802816x1x1x1,
    StableHlo.reshape main_v254 main_v256 rfl shapeCasts_S802816_S802816x1x1x1,
    StableHlo.unary main_v255 main_v257 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v257 main_v247 main_v258 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v256 main_v259 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v259 main_v248 main_v260 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v258 main_v260 main_v261 (subf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v256 main_v262 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v262 main_v247 main_v263 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v255 main_v264 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v264 main_v248 main_v265 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v263 main_v265 main_v266 (addf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v261 main_v267 (broadcastInDim S802816x2x1x2x2 ![0, 1, 3, 4] bcast_S802816x2x2x2_S802816x2x1x2x2_0_1_3_4 : (⟨S802816x2x2x2, .f32⟩ : BufTy).Contents (Elt F) → (⟨S802816x2x1x2x2, .f32⟩ : BufTy).Contents (Elt F)),
    StableHlo.unary main_v266 main_v268 (broadcastInDim S802816x2x1x2x2 ![0, 1, 3, 4] bcast_S802816x2x2x2_S802816x2x1x2x2_0_1_3_4 : (⟨S802816x2x2x2, .f32⟩ : BufTy).Contents (Elt F) → (⟨S802816x2x1x2x2, .f32⟩ : BufTy).Contents (Elt F)),
    StableHlo.binary main_v267 main_v268 main_v269 ((fun a b => concatenate S802816x2x2x2x2 2 [⟨S802816x2x1x2x2, a⟩, ⟨S802816x2x1x2x2, b⟩] concatenates_S802816x2x1x2x2_S802816x2x1x2x2_S802816x2x2x2x2_d2) : (⟨S802816x2x1x2x2, .f32⟩ : BufTy).Contents (Elt F) → (⟨S802816x2x1x2x2, .f32⟩ : BufTy).Contents (Elt F) → (⟨S802816x2x2x2x2, .f32⟩ : BufTy).Contents (Elt F)),
    StableHlo.unary main_v3 main_v270 ((extractStridedSlice S802816x1 ![0, 2] · slices_S802816x4_S802816x1_0_2) : (⟨S802816x4, .f32⟩ : BufTy).Contents (Elt F) → (⟨S802816x1, .f32⟩ : BufTy).Contents (Elt F)),
    StableHlo.reshape main_v270 main_v271 rfl shapeCasts_S802816x1_S802816,
    StableHlo.nullary main_c_52 (constantI S_ 32 0#32),
    StableHlo.TRef.nullary main_call32.c (constantI S_ 32 0#32),
    StableHlo.TRef.binary (.of main_c_52 : StableHlo.TRef sig ⟨S_, .i32⟩) main_call32.c main_call32.v0 (cmpi .slt),
    StableHlo.TRef.nullary main_call32.c_0 (constantI S_ 32 2#32),
    StableHlo.TRef.binary (.of main_c_52 : StableHlo.TRef sig ⟨S_, .i32⟩) main_call32.c_0 main_call32.v1 addi,
    StableHlo.TRef.ternary main_call32.v0 main_call32.v1 (.of main_c_52 : StableHlo.TRef sig ⟨S_, .i32⟩) main_call32.call0.v0 select,
    StableHlo.TRef.unary main_call32.call0.v0 main_call32.v3 (broadcastInDim S1 ![] bcast_S_S1),
    StableHlo.TRef.nullary main_call32.c_1 (constantI S1 32 1#32),
    StableHlo.TRef.unary main_call32.v3 main_call32.v4 id,
    StableHlo.TRef.nullary main_call32.c_2 (constantI S_ 32 0#32),
    StableHlo.TRef.unary main_call32.c_2 main_call32.v5 (broadcastInDim S1 ![] bcast_S_S1),
    StableHlo.TRef.binary main_call32.v4 main_call32.v5 main_call32.v6 (cmpi .sge),
    StableHlo.TRef.binary main_call32.v4 main_call32.c_1 main_call32.v7 (cmpi .sle),
    StableHlo.TRef.binary main_call32.v6 main_call32.v7 main_call32.v8 andi,
    StableHlo.TRef.nullary main_call32.c_3 (constantI S_ 1 1#1),
    StableHlo.TRef.binary main_call32.v8 main_call32.c_3 main_call32.v9 (fun x v => Host.reduce IntOp.andi x v reducesTo_S1_S_d0 h_S_),
    StableHlo.TRef.binary (.of main_v269 : StableHlo.TRef sig ⟨S802816x2x2x2x2, .f32⟩) main_call32.v4 main_call32.v10 (fun x i => Host.gather gather_S802816x2x2x2x2_S1_S802816x2x2x2_0123_3_n_n_3_0_8028162212 x i),
    StableHlo.TRef.unary main_call32.v9 main_call32.v11 (broadcastInDim S802816x2x2x2 ![] bcast_S_S802816x2x2x2),
    StableHlo.TRef.nullary main_call32.cst (constant S_ .f32 0x7FC00000#32),
    StableHlo.TRef.unary main_call32.cst main_call32.v12 (broadcastInDim S802816x2x2x2 ![] bcast_S_S802816x2x2x2),
    StableHlo.TRef.ternary main_call32.v11 main_call32.v10 main_call32.v12 main_call32.v13 select,
    StableHlo.nullary main_c_53 (constantI S_ 32 1#32),
    StableHlo.TRef.nullary main_call33.c (constantI S_ 32 0#32),
    StableHlo.TRef.binary (.of main_c_53 : StableHlo.TRef sig ⟨S_, .i32⟩) main_call33.c main_call33.v0 (cmpi .slt),
    StableHlo.TRef.nullary main_call33.c_0 (constantI S_ 32 2#32),
    StableHlo.TRef.binary (.of main_c_53 : StableHlo.TRef sig ⟨S_, .i32⟩) main_call33.c_0 main_call33.v1 addi,
    StableHlo.TRef.ternary main_call33.v0 main_call33.v1 (.of main_c_53 : StableHlo.TRef sig ⟨S_, .i32⟩) main_call33.call0.v0 select,
    StableHlo.TRef.unary main_call33.call0.v0 main_call33.v3 (broadcastInDim S1 ![] bcast_S_S1),
    StableHlo.TRef.nullary main_call33.c_1 (constantI S1 32 1#32),
    StableHlo.TRef.unary main_call33.v3 main_call33.v4 id,
    StableHlo.TRef.nullary main_call33.c_2 (constantI S_ 32 0#32),
    StableHlo.TRef.unary main_call33.c_2 main_call33.v5 (broadcastInDim S1 ![] bcast_S_S1),
    StableHlo.TRef.binary main_call33.v4 main_call33.v5 main_call33.v6 (cmpi .sge),
    StableHlo.TRef.binary main_call33.v4 main_call33.c_1 main_call33.v7 (cmpi .sle),
    StableHlo.TRef.binary main_call33.v6 main_call33.v7 main_call33.v8 andi,
    StableHlo.TRef.nullary main_call33.c_3 (constantI S_ 1 1#1),
    StableHlo.TRef.binary main_call33.v8 main_call33.c_3 main_call33.v9 (fun x v => Host.reduce IntOp.andi x v reducesTo_S1_S_d0 h_S_),
    StableHlo.TRef.binary (.of main_v269 : StableHlo.TRef sig ⟨S802816x2x2x2x2, .f32⟩) main_call33.v4 main_call33.v10 (fun x i => Host.gather gather_S802816x2x2x2x2_S1_S802816x2x2x2_0123_3_n_n_3_0_8028162212 x i),
    StableHlo.TRef.unary main_call33.v9 main_call33.v11 (broadcastInDim S802816x2x2x2 ![] bcast_S_S802816x2x2x2),
    StableHlo.TRef.nullary main_call33.cst (constant S_ .f32 0x7FC00000#32),
    StableHlo.TRef.unary main_call33.cst main_call33.v12 (broadcastInDim S802816x2x2x2 ![] bcast_S_S802816x2x2x2),
    StableHlo.TRef.ternary main_call33.v11 main_call33.v10 main_call33.v12 main_call33.v13 select,
    StableHlo.nullary main_cst_54 (constant S_ .f32 0x3F000000#32),
    StableHlo.unary main_cst_54 main_v274 (broadcastInDim S802816 ![] bcast_S_S802816 : (⟨S_, .f32⟩ : BufTy).Contents (Elt F) → (⟨S802816, .f32⟩ : BufTy).Contents (Elt F)),
    StableHlo.binary main_v271 main_v274 main_v275 (mulf : (⟨S802816, .f32⟩ : BufTy).Contents (Elt F) → (⟨S802816, .f32⟩ : BufTy).Contents (Elt F) → (⟨S802816, .f32⟩ : BufTy).Contents (Elt F)),
    StableHlo.unary main_v275 main_v276 (Host.cos : (⟨S802816, .f32⟩ : BufTy).Contents (Elt F) → (⟨S802816, .f32⟩ : BufTy).Contents (Elt F)),
    StableHlo.nullary main_cst_55 (constant S_ .f32 0x3F000000#32),
    StableHlo.unary main_cst_55 main_v277 (broadcastInDim S802816 ![] bcast_S_S802816 : (⟨S_, .f32⟩ : BufTy).Contents (Elt F) → (⟨S802816, .f32⟩ : BufTy).Contents (Elt F)),
    StableHlo.binary main_v271 main_v277 main_v278 (mulf : (⟨S802816, .f32⟩ : BufTy).Contents (Elt F) → (⟨S802816, .f32⟩ : BufTy).Contents (Elt F) → (⟨S802816, .f32⟩ : BufTy).Contents (Elt F)),
    StableHlo.unary main_v278 main_v279 (Host.sin : (⟨S802816, .f32⟩ : BufTy).Contents (Elt F) → (⟨S802816, .f32⟩ : BufTy).Contents (Elt F)),
    StableHlo.reshape main_v276 main_v280 rfl shapeCasts_S802816_S802816x1x1x1,
    StableHlo.reshape main_v279 main_v281 rfl shapeCasts_S802816_S802816x1x1x1,
    StableHlo.unary main_v280 main_v282 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v282 main_v272 main_v283 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v281 main_v284 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v284 main_v273 main_v285 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v283 main_v285 main_v286 (subf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v281 main_v287 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v287 main_v272 main_v288 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v280 main_v289 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v289 main_v273 main_v290 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v288 main_v290 main_v291 (addf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v286 main_v292 (broadcastInDim S802816x2x2x1x2 ![0, 1, 2, 4] bcast_S802816x2x2x2_S802816x2x2x1x2_0_1_2_4 : (⟨S802816x2x2x2, .f32⟩ : BufTy).Contents (Elt F) → (⟨S802816x2x2x1x2, .f32⟩ : BufTy).Contents (Elt F)),
    StableHlo.unary main_v291 main_v293 (broadcastInDim S802816x2x2x1x2 ![0, 1, 2, 4] bcast_S802816x2x2x2_S802816x2x2x1x2_0_1_2_4 : (⟨S802816x2x2x2, .f32⟩ : BufTy).Contents (Elt F) → (⟨S802816x2x2x1x2, .f32⟩ : BufTy).Contents (Elt F)),
    StableHlo.binary main_v292 main_v293 main_v294 ((fun a b => concatenate S802816x2x2x2x2 3 [⟨S802816x2x2x1x2, a⟩, ⟨S802816x2x2x1x2, b⟩] concatenates_S802816x2x2x1x2_S802816x2x2x1x2_S802816x2x2x2x2_d3) : (⟨S802816x2x2x1x2, .f32⟩ : BufTy).Contents (Elt F) → (⟨S802816x2x2x1x2, .f32⟩ : BufTy).Contents (Elt F) → (⟨S802816x2x2x2x2, .f32⟩ : BufTy).Contents (Elt F)),
    StableHlo.unary main_v3 main_v295 ((extractStridedSlice S802816x1 ![0, 3] · slices_S802816x4_S802816x1_0_3) : (⟨S802816x4, .f32⟩ : BufTy).Contents (Elt F) → (⟨S802816x1, .f32⟩ : BufTy).Contents (Elt F)),
    StableHlo.reshape main_v295 main_v296 rfl shapeCasts_S802816x1_S802816,
    StableHlo.nullary main_c_56 (constantI S_ 32 0#32),
    StableHlo.TRef.nullary main_call34.c (constantI S_ 32 0#32),
    StableHlo.TRef.binary (.of main_c_56 : StableHlo.TRef sig ⟨S_, .i32⟩) main_call34.c main_call34.v0 (cmpi .slt),
    StableHlo.TRef.nullary main_call34.c_0 (constantI S_ 32 2#32),
    StableHlo.TRef.binary (.of main_c_56 : StableHlo.TRef sig ⟨S_, .i32⟩) main_call34.c_0 main_call34.v1 addi,
    StableHlo.TRef.ternary main_call34.v0 main_call34.v1 (.of main_c_56 : StableHlo.TRef sig ⟨S_, .i32⟩) main_call34.call0.v0 select,
    StableHlo.TRef.unary main_call34.call0.v0 main_call34.v3 (broadcastInDim S1 ![] bcast_S_S1),
    StableHlo.TRef.nullary main_call34.c_1 (constantI S1 32 1#32),
    StableHlo.TRef.unary main_call34.v3 main_call34.v4 id,
    StableHlo.TRef.nullary main_call34.c_2 (constantI S_ 32 0#32),
    StableHlo.TRef.unary main_call34.c_2 main_call34.v5 (broadcastInDim S1 ![] bcast_S_S1),
    StableHlo.TRef.binary main_call34.v4 main_call34.v5 main_call34.v6 (cmpi .sge),
    StableHlo.TRef.binary main_call34.v4 main_call34.c_1 main_call34.v7 (cmpi .sle),
    StableHlo.TRef.binary main_call34.v6 main_call34.v7 main_call34.v8 andi,
    StableHlo.TRef.nullary main_call34.c_3 (constantI S_ 1 1#1),
    StableHlo.TRef.binary main_call34.v8 main_call34.c_3 main_call34.v9 (fun x v => Host.reduce IntOp.andi x v reducesTo_S1_S_d0 h_S_),
    StableHlo.TRef.binary (.of main_v294 : StableHlo.TRef sig ⟨S802816x2x2x2x2, .f32⟩) main_call34.v4 main_call34.v10 (fun x i => Host.gather gather_S802816x2x2x2x2_S1_S802816x2x2x2_0123_4_n_n_4_0_8028162221 x i),
    StableHlo.TRef.unary main_call34.v9 main_call34.v11 (broadcastInDim S802816x2x2x2 ![] bcast_S_S802816x2x2x2),
    StableHlo.TRef.nullary main_call34.cst (constant S_ .f32 0x7FC00000#32),
    StableHlo.TRef.unary main_call34.cst main_call34.v12 (broadcastInDim S802816x2x2x2 ![] bcast_S_S802816x2x2x2),
    StableHlo.TRef.ternary main_call34.v11 main_call34.v10 main_call34.v12 main_call34.v13 select,
    StableHlo.nullary main_c_57 (constantI S_ 32 1#32),
    StableHlo.TRef.nullary main_call35.c (constantI S_ 32 0#32),
    StableHlo.TRef.binary (.of main_c_57 : StableHlo.TRef sig ⟨S_, .i32⟩) main_call35.c main_call35.v0 (cmpi .slt),
    StableHlo.TRef.nullary main_call35.c_0 (constantI S_ 32 2#32),
    StableHlo.TRef.binary (.of main_c_57 : StableHlo.TRef sig ⟨S_, .i32⟩) main_call35.c_0 main_call35.v1 addi,
    StableHlo.TRef.ternary main_call35.v0 main_call35.v1 (.of main_c_57 : StableHlo.TRef sig ⟨S_, .i32⟩) main_call35.call0.v0 select,
    StableHlo.TRef.unary main_call35.call0.v0 main_call35.v3 (broadcastInDim S1 ![] bcast_S_S1),
    StableHlo.TRef.nullary main_call35.c_1 (constantI S1 32 1#32),
    StableHlo.TRef.unary main_call35.v3 main_call35.v4 id,
    StableHlo.TRef.nullary main_call35.c_2 (constantI S_ 32 0#32),
    StableHlo.TRef.unary main_call35.c_2 main_call35.v5 (broadcastInDim S1 ![] bcast_S_S1),
    StableHlo.TRef.binary main_call35.v4 main_call35.v5 main_call35.v6 (cmpi .sge),
    StableHlo.TRef.binary main_call35.v4 main_call35.c_1 main_call35.v7 (cmpi .sle),
    StableHlo.TRef.binary main_call35.v6 main_call35.v7 main_call35.v8 andi,
    StableHlo.TRef.nullary main_call35.c_3 (constantI S_ 1 1#1),
    StableHlo.TRef.binary main_call35.v8 main_call35.c_3 main_call35.v9 (fun x v => Host.reduce IntOp.andi x v reducesTo_S1_S_d0 h_S_),
    StableHlo.TRef.binary (.of main_v294 : StableHlo.TRef sig ⟨S802816x2x2x2x2, .f32⟩) main_call35.v4 main_call35.v10 (fun x i => Host.gather gather_S802816x2x2x2x2_S1_S802816x2x2x2_0123_4_n_n_4_0_8028162221 x i),
    StableHlo.TRef.unary main_call35.v9 main_call35.v11 (broadcastInDim S802816x2x2x2 ![] bcast_S_S802816x2x2x2),
    StableHlo.TRef.nullary main_call35.cst (constant S_ .f32 0x7FC00000#32),
    StableHlo.TRef.unary main_call35.cst main_call35.v12 (broadcastInDim S802816x2x2x2 ![] bcast_S_S802816x2x2x2),
    StableHlo.TRef.ternary main_call35.v11 main_call35.v10 main_call35.v12 main_call35.v13 select,
    StableHlo.nullary main_cst_58 (constant S_ .f32 0x3F000000#32) ]

set_option maxRecDepth 65536 in
set_option maxHeartbeats 4000000 in
/-- The window is that straight line: the callees' definitions unfolded at their calls, both sides are one chain of
    steps once sequencing is reassociated. -/
theorem main_part5_eq (c : Dev nD) : main_part5 (F := F) c = seq ops5 := by
  simp only [main_part5, fn_take_0.body, fn_where.body, fn_take_1.body, fn_take_2.body, seq, bind_assoc, pure_bind]
  try rfl

set_option maxRecDepth 65536 in
/-- Every operation of the window touches TensorCore buffers only. -/
theorem ops5_sub : (ops5 : List (HloOp τ sig (Elt F))).Forall fun op => op.bufs ⊆ tcRefs τ sig :=
  ⟨nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., unary_bufs_sub .., nullary_bufs_sub .., unary_bufs_sub .., binary_bufs_sub .., unary_bufs_sub .., reshape_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., unary_bufs_sub .., reshape_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., unary_bufs_sub .., nullary_bufs_sub .., unary_bufs_sub .., binary_bufs_sub .., unary_bufs_sub .., reshape_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., unary_bufs_sub .., reshape_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub ..⟩

set_option maxRecDepth 65536 in
/-- No operation of the window leaves a buffer's contents undetermined. -/
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefOps6.lean ====
/- Window 6 of the reference program's @main as a list of its 155 operations, in order: each call of an
   outlined function is replaced by the callee's own operations over that call's record of buffers (an index
   wrapped into range, a gather, a select filling with NaN where the index was out of range, …). Proved below: the
   window IS this straight line, every operation touches only buffers of the TensorCore, and none leaves a
   buffer undetermined. -/
import proofs.«159359_j65481071398168_2_alg».proof.ReferenceIdeal
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The operations of window 6 of @main, the calls unfolded. -/
abbrev ops6 : List (HloOp τ sig (Elt F)) :=
  [ StableHlo.unary main_cst_58 main_v299 (broadcastInDim S802816 ![] bcast_S_S802816 : (⟨S_, .f32⟩ : BufTy).Contents (Elt F) → (⟨S802816, .f32⟩ : BufTy).Contents (Elt F)),
    StableHlo.binary main_v296 main_v299 main_v300 (mulf : (⟨S802816, .f32⟩ : BufTy).Contents (Elt F) → (⟨S802816, .f32⟩ : BufTy).Contents (Elt F) → (⟨S802816, .f32⟩ : BufTy).Contents (Elt F)),
    StableHlo.unary main_v300 main_v301 (Host.cos : (⟨S802816, .f32⟩ : BufTy).Contents (Elt F) → (⟨S802816, .f32⟩ : BufTy).Contents (Elt F)),
    StableHlo.nullary main_cst_59 (constant S_ .f32 0x3F000000#32),
    StableHlo.unary main_cst_59 main_v302 (broadcastInDim S802816 ![] bcast_S_S802816 : (⟨S_, .f32⟩ : BufTy).Contents (Elt F) → (⟨S802816, .f32⟩ : BufTy).Contents (Elt F)),
    StableHlo.binary main_v296 main_v302 main_v303 (mulf : (⟨S802816, .f32⟩ : BufTy).Contents (Elt F) → (⟨S802816, .f32⟩ : BufTy).Contents (Elt F) → (⟨S802816, .f32⟩ : BufTy).Contents (Elt F)),
    StableHlo.unary main_v303 main_v304 (Host.sin : (⟨S802816, .f32⟩ : BufTy).Contents (Elt F) → (⟨S802816, .f32⟩ : BufTy).Contents (Elt F)),
    StableHlo.reshape main_v301 main_v305 rfl shapeCasts_S802816_S802816x1x1x1,
    StableHlo.reshape main_v304 main_v306 rfl shapeCasts_S802816_S802816x1x1x1,
    StableHlo.unary main_v305 main_v307 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v307 main_v297 main_v308 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v306 main_v309 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v309 main_v298 main_v310 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v308 main_v310 main_v311 (subf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v306 main_v312 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v312 main_v297 main_v313 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v305 main_v314 (broadcastInDim S802816x2x2x2 ![0, 1, 2, 3] bcast_S802816x1x1x1_S802816x2x2x2_0_1_2_3 : (⟨S802816x1x1x1, .f32⟩ : BufTy).Contents (Elt F) → (⟨S802816x2x2x2, .f32⟩ : BufTy).Contents (Elt F)),
    StableHlo.binary main_v314 main_v298 main_v315 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v313 main_v315 main_v316 (addf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v311 main_v317 (broadcastInDim S802816x2x2x2x1 ![0, 1, 2, 3] bcast_S802816x2x2x2_S802816x2x2x2x1_0_1_2_3 : (⟨S802816x2x2x2, .f32⟩ : BufTy).Contents (Elt F) → (⟨S802816x2x2x2x1, .f32⟩ : BufTy).Contents (Elt F)),
    StableHlo.unary main_v316 main_v318 (broadcastInDim S802816x2x2x2x1 ![0, 1, 2, 3] bcast_S802816x2x2x2_S802816x2x2x2x1_0_1_2_3 : (⟨S802816x2x2x2, .f32⟩ : BufTy).Contents (Elt F) → (⟨S802816x2x2x2x1, .f32⟩ : BufTy).Contents (Elt F)),
    StableHlo.binary main_v317 main_v318 main_v319 ((fun a b => concatenate S802816x2x2x2x2 4 [⟨S802816x2x2x2x1, a⟩, ⟨S802816x2x2x2x1, b⟩] concatenates_S802816x2x2x2x1_S802816x2x2x2x1_S802816x2x2x2x2_d4) : (⟨S802816x2x2x2x1, .f32⟩ : BufTy).Contents (Elt F) → (⟨S802816x2x2x2x1, .f32⟩ : BufTy).Contents (Elt F) → (⟨S802816x2x2x2x2, .f32⟩ : BufTy).Contents (Elt F)),
    StableHlo.unary main_arg1 main_v320 ((extractStridedSlice S1 ![0] · slices_S4_S1_0) : (⟨S4, .f32⟩ : BufTy).Contents (Elt F) → (⟨S1, .f32⟩ : BufTy).Contents (Elt F)),
    StableHlo.reshape main_v320 main_v321 rfl shapeCasts_S1_S_,
    StableHlo.nullary main_c_60 (constantI S_ 32 0#32),
    StableHlo.TRef.nullary main_call36.c (constantI S_ 32 0#32),
    StableHlo.TRef.binary (.of main_c_60 : StableHlo.TRef sig ⟨S_, .i32⟩) main_call36.c main_call36.v0 (cmpi .slt),
    StableHlo.TRef.nullary main_call36.c_0 (constantI S_ 32 2#32),
    StableHlo.TRef.binary (.of main_c_60 : StableHlo.TRef sig ⟨S_, .i32⟩) main_call36.c_0 main_call36.v1 addi,
    StableHlo.TRef.ternary main_call36.v0 main_call36.v1 (.of main_c_60 : StableHlo.TRef sig ⟨S_, .i32⟩) main_call36.call0.v0 select,
    StableHlo.TRef.unary main_call36.call0.v0 main_call36.v3 (broadcastInDim S1 ![] bcast_S_S1),
    StableHlo.TRef.nullary main_call36.c_1 (constantI S1 32 1#32),
    StableHlo.TRef.unary main_call36.v3 main_call36.v4 id,
    StableHlo.TRef.nullary main_call36.c_2 (constantI S_ 32 0#32),
    StableHlo.TRef.unary main_call36.c_2 main_call36.v5 (broadcastInDim S1 ![] bcast_S_S1),
    StableHlo.TRef.binary main_call36.v4 main_call36.v5 main_call36.v6 (cmpi .sge),
    StableHlo.TRef.binary main_call36.v4 main_call36.c_1 main_call36.v7 (cmpi .sle),
    StableHlo.TRef.binary main_call36.v6 main_call36.v7 main_call36.v8 andi,
    StableHlo.TRef.nullary main_call36.c_3 (constantI S_ 1 1#1),
    StableHlo.TRef.binary main_call36.v8 main_call36.c_3 main_call36.v9 (fun x v => Host.reduce IntOp.andi x v reducesTo_S1_S_d0 h_S_),
    StableHlo.TRef.binary (.of main_v319 : StableHlo.TRef sig ⟨S802816x2x2x2x2, .f32⟩) main_call36.v4 main_call36.v10 (fun x i => Host.gather gather_S802816x2x2x2x2_S1_S802816x2x2x2_0123_1_n_n_1_0_8028161222 x i),
    StableHlo.TRef.unary main_call36.v9 main_call36.v11 (broadcastInDim S802816x2x2x2 ![] bcast_S_S802816x2x2x2),
    StableHlo.TRef.nullary main_call36.cst (constant S_ .f32 0x7FC00000#32),
    StableHlo.TRef.unary main_call36.cst main_call36.v12 (broadcastInDim S802816x2x2x2 ![] bcast_S_S802816x2x2x2),
    StableHlo.TRef.ternary main_call36.v11 main_call36.v10 main_call36.v12 main_call36.v13 select,
    StableHlo.nullary main_c_61 (constantI S_ 32 1#32),
    StableHlo.TRef.nullary main_call37.c (constantI S_ 32 0#32),
    StableHlo.TRef.binary (.of main_c_61 : StableHlo.TRef sig ⟨S_, .i32⟩) main_call37.c main_call37.v0 (cmpi .slt),
    StableHlo.TRef.nullary main_call37.c_0 (constantI S_ 32 2#32),
    StableHlo.TRef.binary (.of main_c_61 : StableHlo.TRef sig ⟨S_, .i32⟩) main_call37.c_0 main_call37.v1 addi,
    StableHlo.TRef.ternary main_call37.v0 main_call37.v1 (.of main_c_61 : StableHlo.TRef sig ⟨S_, .i32⟩) main_call37.call0.v0 select,
    StableHlo.TRef.unary main_call37.call0.v0 main_call37.v3 (broadcastInDim S1 ![] bcast_S_S1),
    StableHlo.TRef.nullary main_call37.c_1 (constantI S1 32 1#32),
    StableHlo.TRef.unary main_call37.v3 main_call37.v4 id,
    StableHlo.TRef.nullary main_call37.c_2 (constantI S_ 32 0#32),
    StableHlo.TRef.unary main_call37.c_2 main_call37.v5 (broadcastInDim S1 ![] bcast_S_S1),
    StableHlo.TRef.binary main_call37.v4 main_call37.v5 main_call37.v6 (cmpi .sge),
    StableHlo.TRef.binary main_call37.v4 main_call37.c_1 main_call37.v7 (cmpi .sle),
    StableHlo.TRef.binary main_call37.v6 main_call37.v7 main_call37.v8 andi,
    StableHlo.TRef.nullary main_call37.c_3 (constantI S_ 1 1#1),
    StableHlo.TRef.binary main_call37.v8 main_call37.c_3 main_call37.v9 (fun x v => Host.reduce IntOp.andi x v reducesTo_S1_S_d0 h_S_),
    StableHlo.TRef.binary (.of main_v319 : StableHlo.TRef sig ⟨S802816x2x2x2x2, .f32⟩) main_call37.v4 main_call37.v10 (fun x i => Host.gather gather_S802816x2x2x2x2_S1_S802816x2x2x2_0123_1_n_n_1_0_8028161222 x i),
    StableHlo.TRef.unary main_call37.v9 main_call37.v11 (broadcastInDim S802816x2x2x2 ![] bcast_S_S802816x2x2x2),
    StableHlo.TRef.nullary main_call37.cst (constant S_ .f32 0x7FC00000#32),
    StableHlo.TRef.unary main_call37.cst main_call37.v12 (broadcastInDim S802816x2x2x2 ![] bcast_S_S802816x2x2x2),
    StableHlo.TRef.ternary main_call37.v11 main_call37.v10 main_call37.v12 main_call37.v13 select,
    StableHlo.nullary main_cst_62 (constant S_ .f32 0x3F000000#32),
    StableHlo.binary main_v321 main_cst_62 main_v324 (mulf : (⟨S_, .f32⟩ : BufTy).Contents (Elt F) → (⟨S_, .f32⟩ : BufTy).Contents (Elt F) → (⟨S_, .f32⟩ : BufTy).Contents (Elt F)),
    StableHlo.unary main_v324 main_v325 (Host.cos : (⟨S_, .f32⟩ : BufTy).Contents (Elt F) → (⟨S_, .f32⟩ : BufTy).Contents (Elt F)),
    StableHlo.nullary main_cst_63 (constant S_ .f32 0x3F000000#32),
    StableHlo.binary main_v321 main_cst_63 main_v326 (mulf : (⟨S_, .f32⟩ : BufTy).Contents (Elt F) → (⟨S_, .f32⟩ : BufTy).Contents (Elt F) → (⟨S_, .f32⟩ : BufTy).Contents (Elt F)),
    StableHlo.unary main_v326 main_v327 (Host.sin : (⟨S_, .f32⟩ : BufTy).Contents (Elt F) → (⟨S_, .f32⟩ : BufTy).Contents (Elt F)),
    StableHlo.unary main_v325 main_v328 (broadcastInDim S802816x2x2x2 ![] bcast_S_S802816x2x2x2 : (⟨S_, .f32⟩ : BufTy).Contents (Elt F) → (⟨S802816x2x2x2, .f32⟩ : BufTy).Contents (Elt F)),
    StableHlo.binary main_v328 main_v322 main_v329 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v327 main_v330 (broadcastInDim S802816x2x2x2 ![] bcast_S_S802816x2x2x2 : (⟨S_, .f32⟩ : BufTy).Contents (Elt F) → (⟨S802816x2x2x2, .f32⟩ : BufTy).Contents (Elt F)),
    StableHlo.binary main_v330 main_v323 main_v331 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v329 main_v331 main_v332 (subf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v327 main_v333 (broadcastInDim S802816x2x2x2 ![] bcast_S_S802816x2x2x2 : (⟨S_, .f32⟩ : BufTy).Contents (Elt F) → (⟨S802816x2x2x2, .f32⟩ : BufTy).Contents (Elt F)),
    StableHlo.binary main_v333 main_v322 main_v334 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v325 main_v335 (broadcastInDim S802816x2x2x2 ![] bcast_S_S802816x2x2x2 : (⟨S_, .f32⟩ : BufTy).Contents (Elt F) → (⟨S802816x2x2x2, .f32⟩ : BufTy).Contents (Elt F)),
    StableHlo.binary main_v335 main_v323 main_v336 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v334 main_v336 main_v337 (addf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v332 main_v338 (broadcastInDim S802816x1x2x2x2 ![0, 2, 3, 4] bcast_S802816x2x2x2_S802816x1x2x2x2_0_2_3_4 : (⟨S802816x2x2x2, .f32⟩ : BufTy).Contents (Elt F) → (⟨S802816x1x2x2x2, .f32⟩ : BufTy).Contents (Elt F)),
    StableHlo.unary main_v337 main_v339 (broadcastInDim S802816x1x2x2x2 ![0, 2, 3, 4] bcast_S802816x2x2x2_S802816x1x2x2x2_0_2_3_4 : (⟨S802816x2x2x2, .f32⟩ : BufTy).Contents (Elt F) → (⟨S802816x1x2x2x2, .f32⟩ : BufTy).Contents (Elt F)),
    StableHlo.binary main_v338 main_v339 main_v340 ((fun a b => concatenate S802816x2x2x2x2 1 [⟨S802816x1x2x2x2, a⟩, ⟨S802816x1x2x2x2, b⟩] concatenates_S802816x1x2x2x2_S802816x1x2x2x2_S802816x2x2x2x2_d1) : (⟨S802816x1x2x2x2, .f32⟩ : BufTy).Contents (Elt F) → (⟨S802816x1x2x2x2, .f32⟩ : BufTy).Contents (Elt F) → (⟨S802816x2x2x2x2, .f32⟩ : BufTy).Contents (Elt F)),
    StableHlo.nullary main_c_64 (constantI S_ 32 0#32),
    StableHlo.TRef.nullary main_call38.c (constantI S_ 32 0#32),
    StableHlo.TRef.binary (.of main_c_64 : StableHlo.TRef sig ⟨S_, .i32⟩) main_call38.c main_call38.v0 (cmpi .slt),
    StableHlo.TRef.nullary main_call38.c_0 (constantI S_ 32 2#32),
    StableHlo.TRef.binary (.of main_c_64 : StableHlo.TRef sig ⟨S_, .i32⟩) main_call38.c_0 main_call38.v1 addi,
    StableHlo.TRef.ternary main_call38.v0 main_call38.v1 (.of main_c_64 : StableHlo.TRef sig ⟨S_, .i32⟩) main_call38.call0.v0 select,
    StableHlo.TRef.unary main_call38.call0.v0 main_call38.v3 (broadcastInDim S1 ![] bcast_S_S1),
    StableHlo.TRef.nullary main_call38.c_1 (constantI S1 32 1#32),
    StableHlo.TRef.unary main_call38.v3 main_call38.v4 id,
    StableHlo.TRef.nullary main_call38.c_2 (constantI S_ 32 0#32),
    StableHlo.TRef.unary main_call38.c_2 main_call38.v5 (broadcastInDim S1 ![] bcast_S_S1),
    StableHlo.TRef.binary main_call38.v4 main_call38.v5 main_call38.v6 (cmpi .sge),
    StableHlo.TRef.binary main_call38.v4 main_call38.c_1 main_call38.v7 (cmpi .sle),
    StableHlo.TRef.binary main_call38.v6 main_call38.v7 main_call38.v8 andi,
    StableHlo.TRef.nullary main_call38.c_3 (constantI S_ 1 1#1),
    StableHlo.TRef.binary main_call38.v8 main_call38.c_3 main_call38.v9 (fun x v => Host.reduce IntOp.andi x v reducesTo_S1_S_d0 h_S_),
    StableHlo.TRef.binary (.of main_v340 : StableHlo.TRef sig ⟨S802816x2x2x2x2, .f32⟩) main_call38.v4 main_call38.v10 (fun x i => Host.gather gather_S802816x2x2x2x2_S1_S802816x2x2x2_0123_1_n_n_1_0_8028161222 x i),
    StableHlo.TRef.unary main_call38.v9 main_call38.v11 (broadcastInDim S802816x2x2x2 ![] bcast_S_S802816x2x2x2),
    StableHlo.TRef.nullary main_call38.cst (constant S_ .f32 0x7FC00000#32),
    StableHlo.TRef.unary main_call38.cst main_call38.v12 (broadcastInDim S802816x2x2x2 ![] bcast_S_S802816x2x2x2),
    StableHlo.TRef.ternary main_call38.v11 main_call38.v10 main_call38.v12 main_call38.v13 select,
    StableHlo.nullary main_c_65 (constantI S_ 32 1#32),
    StableHlo.TRef.nullary main_call39.c (constantI S_ 32 0#32),
    StableHlo.TRef.binary (.of main_c_65 : StableHlo.TRef sig ⟨S_, .i32⟩) main_call39.c main_call39.v0 (cmpi .slt),
    StableHlo.TRef.nullary main_call39.c_0 (constantI S_ 32 2#32),
    StableHlo.TRef.binary (.of main_c_65 : StableHlo.TRef sig ⟨S_, .i32⟩) main_call39.c_0 main_call39.v1 addi,
    StableHlo.TRef.ternary main_call39.v0 main_call39.v1 (.of main_c_65 : StableHlo.TRef sig ⟨S_, .i32⟩) main_call39.call0.v0 select,
    StableHlo.TRef.unary main_call39.call0.v0 main_call39.v3 (broadcastInDim S1 ![] bcast_S_S1),
    StableHlo.TRef.nullary main_call39.c_1 (constantI S1 32 1#32),
    StableHlo.TRef.unary main_call39.v3 main_call39.v4 id,
    StableHlo.TRef.nullary main_call39.c_2 (constantI S_ 32 0#32),
    StableHlo.TRef.unary main_call39.c_2 main_call39.v5 (broadcastInDim S1 ![] bcast_S_S1),
    StableHlo.TRef.binary main_call39.v4 main_call39.v5 main_call39.v6 (cmpi .sge),
    StableHlo.TRef.binary main_call39.v4 main_call39.c_1 main_call39.v7 (cmpi .sle),
    StableHlo.TRef.binary main_call39.v6 main_call39.v7 main_call39.v8 andi,
    StableHlo.TRef.nullary main_call39.c_3 (constantI S_ 1 1#1),
    StableHlo.TRef.binary main_call39.v8 main_call39.c_3 main_call39.v9 (fun x v => Host.reduce IntOp.andi x v reducesTo_S1_S_d0 h_S_),
    StableHlo.TRef.binary (.of main_v340 : StableHlo.TRef sig ⟨S802816x2x2x2x2, .f32⟩) main_call39.v4 main_call39.v10 (fun x i => Host.gather gather_S802816x2x2x2x2_S1_S802816x2x2x2_0123_1_n_n_1_0_8028161222 x i),
    StableHlo.TRef.unary main_call39.v9 main_call39.v11 (broadcastInDim S802816x2x2x2 ![] bcast_S_S802816x2x2x2),
    StableHlo.TRef.nullary main_call39.cst (constant S_ .f32 0x7FC00000#32),
    StableHlo.TRef.unary main_call39.cst main_call39.v12 (broadcastInDim S802816x2x2x2 ![] bcast_S_S802816x2x2x2),
    StableHlo.TRef.ternary main_call39.v11 main_call39.v10 main_call39.v12 main_call39.v13 select,
    StableHlo.TRef.unary (.of main_v342 : StableHlo.TRef sig ⟨S802816x2x2x2, .f32⟩) main_call40.v0 (Host.reverse [1]),
    StableHlo.unary main_v341 main_v344 (broadcastInDim S802816x1x2x2x2 ![0, 2, 3, 4] bcast_S802816x2x2x2_S802816x1x2x2x2_0_2_3_4 : (⟨S802816x2x2x2, .f32⟩ : BufTy).Contents (Elt F) → (⟨S802816x1x2x2x2, .f32⟩ : BufTy).Contents (Elt F)),
    StableHlo.unary main_v343 main_v345 (broadcastInDim S802816x1x2x2x2 ![0, 2, 3, 4] bcast_S802816x2x2x2_S802816x1x2x2x2_0_2_3_4 : (⟨S802816x2x2x2, .f32⟩ : BufTy).Contents (Elt F) → (⟨S802816x1x2x2x2, .f32⟩ : BufTy).Contents (Elt F)),
    StableHlo.binary main_v344 main_v345 main_v346 ((fun a b => concatenate S802816x2x2x2x2 1 [⟨S802816x1x2x2x2, a⟩, ⟨S802816x1x2x2x2, b⟩] concatenates_S802816x1x2x2x2_S802816x1x2x2x2_S802816x2x2x2x2_d1) : (⟨S802816x1x2x2x2, .f32⟩ : BufTy).Contents (Elt F) → (⟨S802816x1x2x2x2, .f32⟩ : BufTy).Contents (Elt F) → (⟨S802816x2x2x2x2, .f32⟩ : BufTy).Contents (Elt F)),
    StableHlo.unary main_arg1 main_v347 ((extractStridedSlice S1 ![1] · slices_S4_S1_1) : (⟨S4, .f32⟩ : BufTy).Contents (Elt F) → (⟨S1, .f32⟩ : BufTy).Contents (Elt F)),
    StableHlo.reshape main_v347 main_v348 rfl shapeCasts_S1_S_,
    StableHlo.nullary main_c_66 (constantI S_ 32 0#32),
    StableHlo.TRef.nullary main_call41.c (constantI S_ 32 0#32),
    StableHlo.TRef.binary (.of main_c_66 : StableHlo.TRef sig ⟨S_, .i32⟩) main_call41.c main_call41.v0 (cmpi .slt),
    StableHlo.TRef.nullary main_call41.c_0 (constantI S_ 32 2#32),
    StableHlo.TRef.binary (.of main_c_66 : StableHlo.TRef sig ⟨S_, .i32⟩) main_call41.c_0 main_call41.v1 addi,
    StableHlo.TRef.ternary main_call41.v0 main_call41.v1 (.of main_c_66 : StableHlo.TRef sig ⟨S_, .i32⟩) main_call41.call0.v0 select,
    StableHlo.TRef.unary main_call41.call0.v0 main_call41.v3 (broadcastInDim S1 ![] bcast_S_S1),
    StableHlo.TRef.nullary main_call41.c_1 (constantI S1 32 1#32),
    StableHlo.TRef.unary main_call41.v3 main_call41.v4 id,
    StableHlo.TRef.nullary main_call41.c_2 (constantI S_ 32 0#32),
    StableHlo.TRef.unary main_call41.c_2 main_call41.v5 (broadcastInDim S1 ![] bcast_S_S1),
    StableHlo.TRef.binary main_call41.v4 main_call41.v5 main_call41.v6 (cmpi .sge),
    StableHlo.TRef.binary main_call41.v4 main_call41.c_1 main_call41.v7 (cmpi .sle),
    StableHlo.TRef.binary main_call41.v6 main_call41.v7 main_call41.v8 andi,
    StableHlo.TRef.nullary main_call41.c_3 (constantI S_ 1 1#1),
    StableHlo.TRef.binary main_call41.v8 main_call41.c_3 main_call41.v9 (fun x v => Host.reduce IntOp.andi x v reducesTo_S1_S_d0 h_S_),
    StableHlo.TRef.binary (.of main_v346 : StableHlo.TRef sig ⟨S802816x2x2x2x2, .f32⟩) main_call41.v4 main_call41.v10 (fun x i => Host.gather gather_S802816x2x2x2x2_S1_S802816x2x2x2_0123_2_n_n_2_0_8028162122 x i),
    StableHlo.TRef.unary main_call41.v9 main_call41.v11 (broadcastInDim S802816x2x2x2 ![] bcast_S_S802816x2x2x2),
    StableHlo.TRef.nullary main_call41.cst (constant S_ .f32 0x7FC00000#32),
    StableHlo.TRef.unary main_call41.cst main_call41.v12 (broadcastInDim S802816x2x2x2 ![] bcast_S_S802816x2x2x2),
    StableHlo.TRef.ternary main_call41.v11 main_call41.v10 main_call41.v12 main_call41.v13 select,
    StableHlo.nullary main_c_67 (constantI S_ 32 1#32) ]

set_option maxRecDepth 65536 in
set_option maxHeartbeats 4000000 in
/-- The window is that straight line: the callees' definitions unfolded at their calls, both sides are one chain of
    steps once sequencing is reassociated. -/
theorem main_part6_eq (c : Dev nD) : main_part6 (F := F) c = seq ops6 := by
  simp only [main_part6, fn_take.body, fn_where.body, fn_flip.body, fn_take_0.body, seq, bind_assoc, pure_bind]
  try rfl

set_option maxRecDepth 65536 in
/-- Every operation of the window touches TensorCore buffers only. -/
theorem ops6_sub : (ops6 : List (HloOp τ sig (Elt F))).Forall fun op => op.bufs ⊆ tcRefs τ sig :=
  ⟨unary_bufs_sub .., binary_bufs_sub .., unary_bufs_sub .., nullary_bufs_sub .., unary_bufs_sub .., binary_bufs_sub .., unary_bufs_sub .., reshape_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., unary_bufs_sub .., reshape_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., nullary_bufs_sub .., binary_bufs_sub .., unary_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., unary_bufs_sub .., binary_bufs_sub .., unary_bufs_sub .., reshape_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub ..⟩

set_option maxRecDepth 65536 in
/-- No operation of the window leaves a buffer's contents undetermined. -/
theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefOps7.lean ====
/- Window 7 of the reference program's @main as a list of its 193 operations, in order: each call of an
   outlined function is replaced by the callee's own operations over that call's record of buffers (an index
   wrapped into range, a gather, a select filling with NaN where the index was out of range, …). Proved below: the
   window IS this straight line, every operation touches only buffers of the TensorCore, and none leaves a
   buffer undetermined. -/
import proofs.«159359_j65481071398168_2_alg».proof.ReferenceIdeal
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The operations of window 7 of @main, the calls unfolded. -/
abbrev ops7 : List (HloOp τ sig (Elt F)) :=
  [ StableHlo.TRef.nullary main_call42.c (constantI S_ 32 0#32),
    StableHlo.TRef.binary (.of main_c_67 : StableHlo.TRef sig ⟨S_, .i32⟩) main_call42.c main_call42.v0 (cmpi .slt),
    StableHlo.TRef.nullary main_call42.c_0 (constantI S_ 32 2#32),
    StableHlo.TRef.binary (.of main_c_67 : StableHlo.TRef sig ⟨S_, .i32⟩) main_call42.c_0 main_call42.v1 addi,
    StableHlo.TRef.ternary main_call42.v0 main_call42.v1 (.of main_c_67 : StableHlo.TRef sig ⟨S_, .i32⟩) main_call42.call0.v0 select,
    StableHlo.TRef.unary main_call42.call0.v0 main_call42.v3 (broadcastInDim S1 ![] bcast_S_S1),
    StableHlo.TRef.nullary main_call42.c_1 (constantI S1 32 1#32),
    StableHlo.TRef.unary main_call42.v3 main_call42.v4 id,
    StableHlo.TRef.nullary main_call42.c_2 (constantI S_ 32 0#32),
    StableHlo.TRef.unary main_call42.c_2 main_call42.v5 (broadcastInDim S1 ![] bcast_S_S1),
    StableHlo.TRef.binary main_call42.v4 main_call42.v5 main_call42.v6 (cmpi .sge),
    StableHlo.TRef.binary main_call42.v4 main_call42.c_1 main_call42.v7 (cmpi .sle),
    StableHlo.TRef.binary main_call42.v6 main_call42.v7 main_call42.v8 andi,
    StableHlo.TRef.nullary main_call42.c_3 (constantI S_ 1 1#1),
    StableHlo.TRef.binary main_call42.v8 main_call42.c_3 main_call42.v9 (fun x v => Host.reduce IntOp.andi x v reducesTo_S1_S_d0 h_S_),
    StableHlo.TRef.binary (.of main_v346 : StableHlo.TRef sig ⟨S802816x2x2x2x2, .f32⟩) main_call42.v4 main_call42.v10 (fun x i => Host.gather gather_S802816x2x2x2x2_S1_S802816x2x2x2_0123_2_n_n_2_0_8028162122 x i),
    StableHlo.TRef.unary main_call42.v9 main_call42.v11 (broadcastInDim S802816x2x2x2 ![] bcast_S_S802816x2x2x2),
    StableHlo.TRef.nullary main_call42.cst (constant S_ .f32 0x7FC00000#32),
    StableHlo.TRef.unary main_call42.cst main_call42.v12 (broadcastInDim S802816x2x2x2 ![] bcast_S_S802816x2x2x2),
    StableHlo.TRef.ternary main_call42.v11 main_call42.v10 main_call42.v12 main_call42.v13 select,
    StableHlo.nullary main_cst_68 (constant S_ .f32 0x3F000000#32),
    StableHlo.binary main_v348 main_cst_68 main_v351 (mulf : (⟨S_, .f32⟩ : BufTy).Contents (Elt F) → (⟨S_, .f32⟩ : BufTy).Contents (Elt F) → (⟨S_, .f32⟩ : BufTy).Contents (Elt F)),
    StableHlo.unary main_v351 main_v352 (Host.cos : (⟨S_, .f32⟩ : BufTy).Contents (Elt F) → (⟨S_, .f32⟩ : BufTy).Contents (Elt F)),
    StableHlo.nullary main_cst_69 (constant S_ .f32 0x3F000000#32),
    StableHlo.binary main_v348 main_cst_69 main_v353 (mulf : (⟨S_, .f32⟩ : BufTy).Contents (Elt F) → (⟨S_, .f32⟩ : BufTy).Contents (Elt F) → (⟨S_, .f32⟩ : BufTy).Contents (Elt F)),
    StableHlo.unary main_v353 main_v354 (Host.sin : (⟨S_, .f32⟩ : BufTy).Contents (Elt F) → (⟨S_, .f32⟩ : BufTy).Contents (Elt F)),
    StableHlo.unary main_v352 main_v355 (broadcastInDim S802816x2x2x2 ![] bcast_S_S802816x2x2x2 : (⟨S_, .f32⟩ : BufTy).Contents (Elt F) → (⟨S802816x2x2x2, .f32⟩ : BufTy).Contents (Elt F)),
    StableHlo.binary main_v355 main_v349 main_v356 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v354 main_v357 (broadcastInDim S802816x2x2x2 ![] bcast_S_S802816x2x2x2 : (⟨S_, .f32⟩ : BufTy).Contents (Elt F) → (⟨S802816x2x2x2, .f32⟩ : BufTy).Contents (Elt F)),
    StableHlo.binary main_v357 main_v350 main_v358 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v356 main_v358 main_v359 (subf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v354 main_v360 (broadcastInDim S802816x2x2x2 ![] bcast_S_S802816x2x2x2 : (⟨S_, .f32⟩ : BufTy).Contents (Elt F) → (⟨S802816x2x2x2, .f32⟩ : BufTy).Contents (Elt F)),
    StableHlo.binary main_v360 main_v349 main_v361 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v352 main_v362 (broadcastInDim S802816x2x2x2 ![] bcast_S_S802816x2x2x2 : (⟨S_, .f32⟩ : BufTy).Contents (Elt F) → (⟨S802816x2x2x2, .f32⟩ : BufTy).Contents (Elt F)),
    StableHlo.binary main_v362 main_v350 main_v363 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v361 main_v363 main_v364 (addf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v359 main_v365 (broadcastInDim S802816x2x1x2x2 ![0, 1, 3, 4] bcast_S802816x2x2x2_S802816x2x1x2x2_0_1_3_4 : (⟨S802816x2x2x2, .f32⟩ : BufTy).Contents (Elt F) → (⟨S802816x2x1x2x2, .f32⟩ : BufTy).Contents (Elt F)),
    StableHlo.unary main_v364 main_v366 (broadcastInDim S802816x2x1x2x2 ![0, 1, 3, 4] bcast_S802816x2x2x2_S802816x2x1x2x2_0_1_3_4 : (⟨S802816x2x2x2, .f32⟩ : BufTy).Contents (Elt F) → (⟨S802816x2x1x2x2, .f32⟩ : BufTy).Contents (Elt F)),
    StableHlo.binary main_v365 main_v366 main_v367 ((fun a b => concatenate S802816x2x2x2x2 2 [⟨S802816x2x1x2x2, a⟩, ⟨S802816x2x1x2x2, b⟩] concatenates_S802816x2x1x2x2_S802816x2x1x2x2_S802816x2x2x2x2_d2) : (⟨S802816x2x1x2x2, .f32⟩ : BufTy).Contents (Elt F) → (⟨S802816x2x1x2x2, .f32⟩ : BufTy).Contents (Elt F) → (⟨S802816x2x2x2x2, .f32⟩ : BufTy).Contents (Elt F)),
    StableHlo.nullary main_c_70 (constantI S_ 32 0#32),
    StableHlo.TRef.nullary main_call43.c (constantI S_ 32 0#32),
    StableHlo.TRef.binary (.of main_c_70 : StableHlo.TRef sig ⟨S_, .i32⟩) main_call43.c main_call43.v0 (cmpi .slt),
    StableHlo.TRef.nullary main_call43.c_0 (constantI S_ 32 2#32),
    StableHlo.TRef.binary (.of main_c_70 : StableHlo.TRef sig ⟨S_, .i32⟩) main_call43.c_0 main_call43.v1 addi,
    StableHlo.TRef.ternary main_call43.v0 main_call43.v1 (.of main_c_70 : StableHlo.TRef sig ⟨S_, .i32⟩) main_call43.call0.v0 select,
    StableHlo.TRef.unary main_call43.call0.v0 main_call43.v3 (broadcastInDim S1 ![] bcast_S_S1),
    StableHlo.TRef.nullary main_call43.c_1 (constantI S1 32 1#32),
    StableHlo.TRef.unary main_call43.v3 main_call43.v4 id,
    StableHlo.TRef.nullary main_call43.c_2 (constantI S_ 32 0#32),
    StableHlo.TRef.unary main_call43.c_2 main_call43.v5 (broadcastInDim S1 ![] bcast_S_S1),
    StableHlo.TRef.binary main_call43.v4 main_call43.v5 main_call43.v6 (cmpi .sge),
    StableHlo.TRef.binary main_call43.v4 main_call43.c_1 main_call43.v7 (cmpi .sle),
    StableHlo.TRef.binary main_call43.v6 main_call43.v7 main_call43.v8 andi,
    StableHlo.TRef.nullary main_call43.c_3 (constantI S_ 1 1#1),
    StableHlo.TRef.binary main_call43.v8 main_call43.c_3 main_call43.v9 (fun x v => Host.reduce IntOp.andi x v reducesTo_S1_S_d0 h_S_),
    StableHlo.TRef.binary (.of main_v367 : StableHlo.TRef sig ⟨S802816x2x2x2x2, .f32⟩) main_call43.v4 main_call43.v10 (fun x i => Host.gather gather_S802816x2x2x2x2_S1_S802816x2x2x2_0123_2_n_n_2_0_8028162122 x i),
    StableHlo.TRef.unary main_call43.v9 main_call43.v11 (broadcastInDim S802816x2x2x2 ![] bcast_S_S802816x2x2x2),
    StableHlo.TRef.nullary main_call43.cst (constant S_ .f32 0x7FC00000#32),
    StableHlo.TRef.unary main_call43.cst main_call43.v12 (broadcastInDim S802816x2x2x2 ![] bcast_S_S802816x2x2x2),
    StableHlo.TRef.ternary main_call43.v11 main_call43.v10 main_call43.v12 main_call43.v13 select,
    StableHlo.nullary main_c_71 (constantI S_ 32 1#32),
    StableHlo.TRef.nullary main_call44.c (constantI S_ 32 0#32),
    StableHlo.TRef.binary (.of main_c_71 : StableHlo.TRef sig ⟨S_, .i32⟩) main_call44.c main_call44.v0 (cmpi .slt),
    StableHlo.TRef.nullary main_call44.c_0 (constantI S_ 32 2#32),
    StableHlo.TRef.binary (.of main_c_71 : StableHlo.TRef sig ⟨S_, .i32⟩) main_call44.c_0 main_call44.v1 addi,
    StableHlo.TRef.ternary main_call44.v0 main_call44.v1 (.of main_c_71 : StableHlo.TRef sig ⟨S_, .i32⟩) main_call44.call0.v0 select,
    StableHlo.TRef.unary main_call44.call0.v0 main_call44.v3 (broadcastInDim S1 ![] bcast_S_S1),
    StableHlo.TRef.nullary main_call44.c_1 (constantI S1 32 1#32),
    StableHlo.TRef.unary main_call44.v3 main_call44.v4 id,
    StableHlo.TRef.nullary main_call44.c_2 (constantI S_ 32 0#32),
    StableHlo.TRef.unary main_call44.c_2 main_call44.v5 (broadcastInDim S1 ![] bcast_S_S1),
    StableHlo.TRef.binary main_call44.v4 main_call44.v5 main_call44.v6 (cmpi .sge),
    StableHlo.TRef.binary main_call44.v4 main_call44.c_1 main_call44.v7 (cmpi .sle),
    StableHlo.TRef.binary main_call44.v6 main_call44.v7 main_call44.v8 andi,
    StableHlo.TRef.nullary main_call44.c_3 (constantI S_ 1 1#1),
    StableHlo.TRef.binary main_call44.v8 main_call44.c_3 main_call44.v9 (fun x v => Host.reduce IntOp.andi x v reducesTo_S1_S_d0 h_S_),
    StableHlo.TRef.binary (.of main_v367 : StableHlo.TRef sig ⟨S802816x2x2x2x2, .f32⟩) main_call44.v4 main_call44.v10 (fun x i => Host.gather gather_S802816x2x2x2x2_S1_S802816x2x2x2_0123_2_n_n_2_0_8028162122 x i),
    StableHlo.TRef.unary main_call44.v9 main_call44.v11 (broadcastInDim S802816x2x2x2 ![] bcast_S_S802816x2x2x2),
    StableHlo.TRef.nullary main_call44.cst (constant S_ .f32 0x7FC00000#32),
    StableHlo.TRef.unary main_call44.cst main_call44.v12 (broadcastInDim S802816x2x2x2 ![] bcast_S_S802816x2x2x2),
    StableHlo.TRef.ternary main_call44.v11 main_call44.v10 main_call44.v12 main_call44.v13 select,
    StableHlo.TRef.unary (.of main_v369 : StableHlo.TRef sig ⟨S802816x2x2x2, .f32⟩) main_call45.v0 (Host.reverse [2]),
    StableHlo.unary main_v368 main_v371 (broadcastInDim S802816x2x1x2x2 ![0, 1, 3, 4] bcast_S802816x2x2x2_S802816x2x1x2x2_0_1_3_4 : (⟨S802816x2x2x2, .f32⟩ : BufTy).Contents (Elt F) → (⟨S802816x2x1x2x2, .f32⟩ : BufTy).Contents (Elt F)),
    StableHlo.unary main_v370 main_v372 (broadcastInDim S802816x2x1x2x2 ![0, 1, 3, 4] bcast_S802816x2x2x2_S802816x2x1x2x2_0_1_3_4 : (⟨S802816x2x2x2, .f32⟩ : BufTy).Contents (Elt F) → (⟨S802816x2x1x2x2, .f32⟩ : BufTy).Contents (Elt F)),
    StableHlo.binary main_v371 main_v372 main_v373 ((fun a b => concatenate S802816x2x2x2x2 2 [⟨S802816x2x1x2x2, a⟩, ⟨S802816x2x1x2x2, b⟩] concatenates_S802816x2x1x2x2_S802816x2x1x2x2_S802816x2x2x2x2_d2) : (⟨S802816x2x1x2x2, .f32⟩ : BufTy).Contents (Elt F) → (⟨S802816x2x1x2x2, .f32⟩ : BufTy).Contents (Elt F) → (⟨S802816x2x2x2x2, .f32⟩ : BufTy).Contents (Elt F)),
    StableHlo.unary main_arg1 main_v374 ((extractStridedSlice S1 ![2] · slices_S4_S1_2) : (⟨S4, .f32⟩ : BufTy).Contents (Elt F) → (⟨S1, .f32⟩ : BufTy).Contents (Elt F)),
    StableHlo.reshape main_v374 main_v375 rfl shapeCasts_S1_S_,
    StableHlo.nullary main_c_72 (constantI S_ 32 0#32),
    StableHlo.TRef.nullary main_call46.c (constantI S_ 32 0#32),
    StableHlo.TRef.binary (.of main_c_72 : StableHlo.TRef sig ⟨S_, .i32⟩) main_call46.c main_call46.v0 (cmpi .slt),
    StableHlo.TRef.nullary main_call46.c_0 (constantI S_ 32 2#32),
    StableHlo.TRef.binary (.of main_c_72 : StableHlo.TRef sig ⟨S_, .i32⟩) main_call46.c_0 main_call46.v1 addi,
    StableHlo.TRef.ternary main_call46.v0 main_call46.v1 (.of main_c_72 : StableHlo.TRef sig ⟨S_, .i32⟩) main_call46.call0.v0 select,
    StableHlo.TRef.unary main_call46.call0.v0 main_call46.v3 (broadcastInDim S1 ![] bcast_S_S1),
    StableHlo.TRef.nullary main_call46.c_1 (constantI S1 32 1#32),
    StableHlo.TRef.unary main_call46.v3 main_call46.v4 id,
    StableHlo.TRef.nullary main_call46.c_2 (constantI S_ 32 0#32),
    StableHlo.TRef.unary main_call46.c_2 main_call46.v5 (broadcastInDim S1 ![] bcast_S_S1),
    StableHlo.TRef.binary main_call46.v4 main_call46.v5 main_call46.v6 (cmpi .sge),
    StableHlo.TRef.binary main_call46.v4 main_call46.c_1 main_call46.v7 (cmpi .sle),
    StableHlo.TRef.binary main_call46.v6 main_call46.v7 main_call46.v8 andi,
    StableHlo.TRef.nullary main_call46.c_3 (constantI S_ 1 1#1),
    StableHlo.TRef.binary main_call46.v8 main_call46.c_3 main_call46.v9 (fun x v => Host.reduce IntOp.andi x v reducesTo_S1_S_d0 h_S_),
    StableHlo.TRef.binary (.of main_v373 : StableHlo.TRef sig ⟨S802816x2x2x2x2, .f32⟩) main_call46.v4 main_call46.v10 (fun x i => Host.gather gather_S802816x2x2x2x2_S1_S802816x2x2x2_0123_3_n_n_3_0_8028162212 x i),
    StableHlo.TRef.unary main_call46.v9 main_call46.v11 (broadcastInDim S802816x2x2x2 ![] bcast_S_S802816x2x2x2),
    StableHlo.TRef.nullary main_call46.cst (constant S_ .f32 0x7FC00000#32),
    StableHlo.TRef.unary main_call46.cst main_call46.v12 (broadcastInDim S802816x2x2x2 ![] bcast_S_S802816x2x2x2),
    StableHlo.TRef.ternary main_call46.v11 main_call46.v10 main_call46.v12 main_call46.v13 select,
    StableHlo.nullary main_c_73 (constantI S_ 32 1#32),
    StableHlo.TRef.nullary main_call47.c (constantI S_ 32 0#32),
    StableHlo.TRef.binary (.of main_c_73 : StableHlo.TRef sig ⟨S_, .i32⟩) main_call47.c main_call47.v0 (cmpi .slt),
    StableHlo.TRef.nullary main_call47.c_0 (constantI S_ 32 2#32),
    StableHlo.TRef.binary (.of main_c_73 : StableHlo.TRef sig ⟨S_, .i32⟩) main_call47.c_0 main_call47.v1 addi,
    StableHlo.TRef.ternary main_call47.v0 main_call47.v1 (.of main_c_73 : StableHlo.TRef sig ⟨S_, .i32⟩) main_call47.call0.v0 select,
    StableHlo.TRef.unary main_call47.call0.v0 main_call47.v3 (broadcastInDim S1 ![] bcast_S_S1),
    StableHlo.TRef.nullary main_call47.c_1 (constantI S1 32 1#32),
    StableHlo.TRef.unary main_call47.v3 main_call47.v4 id,
    StableHlo.TRef.nullary main_call47.c_2 (constantI S_ 32 0#32),
    StableHlo.TRef.unary main_call47.c_2 main_call47.v5 (broadcastInDim S1 ![] bcast_S_S1),
    StableHlo.TRef.binary main_call47.v4 main_call47.v5 main_call47.v6 (cmpi .sge),
    StableHlo.TRef.binary main_call47.v4 main_call47.c_1 main_call47.v7 (cmpi .sle),
    StableHlo.TRef.binary main_call47.v6 main_call47.v7 main_call47.v8 andi,
    StableHlo.TRef.nullary main_call47.c_3 (constantI S_ 1 1#1),
    StableHlo.TRef.binary main_call47.v8 main_call47.c_3 main_call47.v9 (fun x v => Host.reduce IntOp.andi x v reducesTo_S1_S_d0 h_S_),
    StableHlo.TRef.binary (.of main_v373 : StableHlo.TRef sig ⟨S802816x2x2x2x2, .f32⟩) main_call47.v4 main_call47.v10 (fun x i => Host.gather gather_S802816x2x2x2x2_S1_S802816x2x2x2_0123_3_n_n_3_0_8028162212 x i),
    StableHlo.TRef.unary main_call47.v9 main_call47.v11 (broadcastInDim S802816x2x2x2 ![] bcast_S_S802816x2x2x2),
    StableHlo.TRef.nullary main_call47.cst (constant S_ .f32 0x7FC00000#32),
    StableHlo.TRef.unary main_call47.cst main_call47.v12 (broadcastInDim S802816x2x2x2 ![] bcast_S_S802816x2x2x2),
    StableHlo.TRef.ternary main_call47.v11 main_call47.v10 main_call47.v12 main_call47.v13 select,
    StableHlo.nullary main_cst_74 (constant S_ .f32 0x3F000000#32),
    StableHlo.binary main_v375 main_cst_74 main_v378 (mulf : (⟨S_, .f32⟩ : BufTy).Contents (Elt F) → (⟨S_, .f32⟩ : BufTy).Contents (Elt F) → (⟨S_, .f32⟩ : BufTy).Contents (Elt F)),
    StableHlo.unary main_v378 main_v379 (Host.cos : (⟨S_, .f32⟩ : BufTy).Contents (Elt F) → (⟨S_, .f32⟩ : BufTy).Contents (Elt F)),
    StableHlo.nullary main_cst_75 (constant S_ .f32 0x3F000000#32),
    StableHlo.binary main_v375 main_cst_75 main_v380 (mulf : (⟨S_, .f32⟩ : BufTy).Contents (Elt F) → (⟨S_, .f32⟩ : BufTy).Contents (Elt F) → (⟨S_, .f32⟩ : BufTy).Contents (Elt F)),
    StableHlo.unary main_v380 main_v381 (Host.sin : (⟨S_, .f32⟩ : BufTy).Contents (Elt F) → (⟨S_, .f32⟩ : BufTy).Contents (Elt F)),
    StableHlo.unary main_v379 main_v382 (broadcastInDim S802816x2x2x2 ![] bcast_S_S802816x2x2x2 : (⟨S_, .f32⟩ : BufTy).Contents (Elt F) → (⟨S802816x2x2x2, .f32⟩ : BufTy).Contents (Elt F)),
    StableHlo.binary main_v382 main_v376 main_v383 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v381 main_v384 (broadcastInDim S802816x2x2x2 ![] bcast_S_S802816x2x2x2 : (⟨S_, .f32⟩ : BufTy).Contents (Elt F) → (⟨S802816x2x2x2, .f32⟩ : BufTy).Contents (Elt F)),
    StableHlo.binary main_v384 main_v377 main_v385 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v383 main_v385 main_v386 (subf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v381 main_v387 (broadcastInDim S802816x2x2x2 ![] bcast_S_S802816x2x2x2 : (⟨S_, .f32⟩ : BufTy).Contents (Elt F) → (⟨S802816x2x2x2, .f32⟩ : BufTy).Contents (Elt F)),
    StableHlo.binary main_v387 main_v376 main_v388 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v379 main_v389 (broadcastInDim S802816x2x2x2 ![] bcast_S_S802816x2x2x2 : (⟨S_, .f32⟩ : BufTy).Contents (Elt F) → (⟨S802816x2x2x2, .f32⟩ : BufTy).Contents (Elt F)),
    StableHlo.binary main_v389 main_v377 main_v390 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v388 main_v390 main_v391 (addf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v386 main_v392 (broadcastInDim S802816x2x2x1x2 ![0, 1, 2, 4] bcast_S802816x2x2x2_S802816x2x2x1x2_0_1_2_4 : (⟨S802816x2x2x2, .f32⟩ : BufTy).Contents (Elt F) → (⟨S802816x2x2x1x2, .f32⟩ : BufTy).Contents (Elt F)),
    StableHlo.unary main_v391 main_v393 (broadcastInDim S802816x2x2x1x2 ![0, 1, 2, 4] bcast_S802816x2x2x2_S802816x2x2x1x2_0_1_2_4 : (⟨S802816x2x2x2, .f32⟩ : BufTy).Contents (Elt F) → (⟨S802816x2x2x1x2, .f32⟩ : BufTy).Contents (Elt F)),
    StableHlo.binary main_v392 main_v393 main_v394 ((fun a b => concatenate S802816x2x2x2x2 3 [⟨S802816x2x2x1x2, a⟩, ⟨S802816x2x2x1x2, b⟩] concatenates_S802816x2x2x1x2_S802816x2x2x1x2_S802816x2x2x2x2_d3) : (⟨S802816x2x2x1x2, .f32⟩ : BufTy).Contents (Elt F) → (⟨S802816x2x2x1x2, .f32⟩ : BufTy).Contents (Elt F) → (⟨S802816x2x2x2x2, .f32⟩ : BufTy).Contents (Elt F)),
    StableHlo.nullary main_c_76 (constantI S_ 32 0#32),
    StableHlo.TRef.nullary main_call48.c (constantI S_ 32 0#32),
    StableHlo.TRef.binary (.of main_c_76 : StableHlo.TRef sig ⟨S_, .i32⟩) main_call48.c main_call48.v0 (cmpi .slt),
    StableHlo.TRef.nullary main_call48.c_0 (constantI S_ 32 2#32),
    StableHlo.TRef.binary (.of main_c_76 : StableHlo.TRef sig ⟨S_, .i32⟩) main_call48.c_0 main_call48.v1 addi,
    StableHlo.TRef.ternary main_call48.v0 main_call48.v1 (.of main_c_76 : StableHlo.TRef sig ⟨S_, .i32⟩) main_call48.call0.v0 select,
    StableHlo.TRef.unary main_call48.call0.v0 main_call48.v3 (broadcastInDim S1 ![] bcast_S_S1),
    StableHlo.TRef.nullary main_call48.c_1 (constantI S1 32 1#32),
    StableHlo.TRef.unary main_call48.v3 main_call48.v4 id,
    StableHlo.TRef.nullary main_call48.c_2 (constantI S_ 32 0#32),
    StableHlo.TRef.unary main_call48.c_2 main_call48.v5 (broadcastInDim S1 ![] bcast_S_S1),
    StableHlo.TRef.binary main_call48.v4 main_call48.v5 main_call48.v6 (cmpi .sge),
    StableHlo.TRef.binary main_call48.v4 main_call48.c_1 main_call48.v7 (cmpi .sle),
    StableHlo.TRef.binary main_call48.v6 main_call48.v7 main_call48.v8 andi,
    StableHlo.TRef.nullary main_call48.c_3 (constantI S_ 1 1#1),
    StableHlo.TRef.binary main_call48.v8 main_call48.c_3 main_call48.v9 (fun x v => Host.reduce IntOp.andi x v reducesTo_S1_S_d0 h_S_),
    StableHlo.TRef.binary (.of main_v394 : StableHlo.TRef sig ⟨S802816x2x2x2x2, .f32⟩) main_call48.v4 main_call48.v10 (fun x i => Host.gather gather_S802816x2x2x2x2_S1_S802816x2x2x2_0123_3_n_n_3_0_8028162212 x i),
    StableHlo.TRef.unary main_call48.v9 main_call48.v11 (broadcastInDim S802816x2x2x2 ![] bcast_S_S802816x2x2x2),
    StableHlo.TRef.nullary main_call48.cst (constant S_ .f32 0x7FC00000#32),
    StableHlo.TRef.unary main_call48.cst main_call48.v12 (broadcastInDim S802816x2x2x2 ![] bcast_S_S802816x2x2x2),
    StableHlo.TRef.ternary main_call48.v11 main_call48.v10 main_call48.v12 main_call48.v13 select,
    StableHlo.nullary main_c_77 (constantI S_ 32 1#32),
    StableHlo.TRef.nullary main_call49.c (constantI S_ 32 0#32),
    StableHlo.TRef.binary (.of main_c_77 : StableHlo.TRef sig ⟨S_, .i32⟩) main_call49.c main_call49.v0 (cmpi .slt),
    StableHlo.TRef.nullary main_call49.c_0 (constantI S_ 32 2#32),
    StableHlo.TRef.binary (.of main_c_77 : StableHlo.TRef sig ⟨S_, .i32⟩) main_call49.c_0 main_call49.v1 addi,
    StableHlo.TRef.ternary main_call49.v0 main_call49.v1 (.of main_c_77 : StableHlo.TRef sig ⟨S_, .i32⟩) main_call49.call0.v0 select,
    StableHlo.TRef.unary main_call49.call0.v0 main_call49.v3 (broadcastInDim S1 ![] bcast_S_S1),
    StableHlo.TRef.nullary main_call49.c_1 (constantI S1 32 1#32),
    StableHlo.TRef.unary main_call49.v3 main_call49.v4 id,
    StableHlo.TRef.nullary main_call49.c_2 (constantI S_ 32 0#32),
    StableHlo.TRef.unary main_call49.c_2 main_call49.v5 (broadcastInDim S1 ![] bcast_S_S1),
    StableHlo.TRef.binary main_call49.v4 main_call49.v5 main_call49.v6 (cmpi .sge),
    StableHlo.TRef.binary main_call49.v4 main_call49.c_1 main_call49.v7 (cmpi .sle),
    StableHlo.TRef.binary main_call49.v6 main_call49.v7 main_call49.v8 andi,
    StableHlo.TRef.nullary main_call49.c_3 (constantI S_ 1 1#1),
    StableHlo.TRef.binary main_call49.v8 main_call49.c_3 main_call49.v9 (fun x v => Host.reduce IntOp.andi x v reducesTo_S1_S_d0 h_S_),
    StableHlo.TRef.binary (.of main_v394 : StableHlo.TRef sig ⟨S802816x2x2x2x2, .f32⟩) main_call49.v4 main_call49.v10 (fun x i => Host.gather gather_S802816x2x2x2x2_S1_S802816x2x2x2_0123_3_n_n_3_0_8028162212 x i),
    StableHlo.TRef.unary main_call49.v9 main_call49.v11 (broadcastInDim S802816x2x2x2 ![] bcast_S_S802816x2x2x2),
    StableHlo.TRef.nullary main_call49.cst (constant S_ .f32 0x7FC00000#32),
    StableHlo.TRef.unary main_call49.cst main_call49.v12 (broadcastInDim S802816x2x2x2 ![] bcast_S_S802816x2x2x2),
    StableHlo.TRef.ternary main_call49.v11 main_call49.v10 main_call49.v12 main_call49.v13 select,
    StableHlo.TRef.unary (.of main_v396 : StableHlo.TRef sig ⟨S802816x2x2x2, .f32⟩) main_call50.v0 (Host.reverse [3]),
    StableHlo.unary main_v395 main_v398 (broadcastInDim S802816x2x2x1x2 ![0, 1, 2, 4] bcast_S802816x2x2x2_S802816x2x2x1x2_0_1_2_4 : (⟨S802816x2x2x2, .f32⟩ : BufTy).Contents (Elt F) → (⟨S802816x2x2x1x2, .f32⟩ : BufTy).Contents (Elt F)),
    StableHlo.unary main_v397 main_v399 (broadcastInDim S802816x2x2x1x2 ![0, 1, 2, 4] bcast_S802816x2x2x2_S802816x2x2x1x2_0_1_2_4 : (⟨S802816x2x2x2, .f32⟩ : BufTy).Contents (Elt F) → (⟨S802816x2x2x1x2, .f32⟩ : BufTy).Contents (Elt F)) ]

set_option maxRecDepth 65536 in
set_option maxHeartbeats 4000000 in
/-- The window is that straight line: the callees' definitions unfolded at their calls, both sides are one chain of
    steps once sequencing is reassociated. -/
theorem main_part7_eq (c : Dev nD) : main_part7 (F := F) c = seq ops7 := by
  simp only [main_part7, fn_take_0.body, fn_where.body, fn_flip_3.body, fn_take_1.body, fn_flip_4.body, seq, bind_assoc, pure_bind]
  try rfl

set_option maxRecDepth 65536 in
/-- Every operation of the window touches TensorCore buffers only. -/
theorem ops7_sub : (ops7 : List (HloOp τ sig (Elt F))).Forall fun op => op.bufs ⊆ tcRefs τ sig :=
  ⟨nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., nullary_bufs_sub .., binary_bufs_sub .., unary_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., unary_bufs_sub .., binary_bufs_sub .., unary_bufs_sub .., reshape_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., nullary_bufs_sub .., binary_bufs_sub .., unary_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., unary_bufs_sub ..⟩

set_option maxRecDepth 65536 in
/-- No operation of the window leaves a buffer's contents undetermined. -/
theorem ops7_fresh : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefOps8.lean ====
/- Window 8 of the reference program's @main as a list of its 136 operations, in order: each call of an
   outlined function is replaced by the callee's own operations over that call's record of buffers (an index
   wrapped into range, a gather, a select filling with NaN where the index was out of range, …). Proved below: the
   window IS this straight line, every operation touches only buffers of the TensorCore, and none leaves a
   buffer undetermined. -/
import proofs.«159359_j65481071398168_2_alg».proof.ReferenceIdeal
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The operations of window 8 of @main, the calls unfolded. -/
abbrev ops8 : List (HloOp τ sig (Elt F)) :=
  [ StableHlo.binary main_v398 main_v399 main_v400 ((fun a b => concatenate S802816x2x2x2x2 3 [⟨S802816x2x2x1x2, a⟩, ⟨S802816x2x2x1x2, b⟩] concatenates_S802816x2x2x1x2_S802816x2x2x1x2_S802816x2x2x2x2_d3) : (⟨S802816x2x2x1x2, .f32⟩ : BufTy).Contents (Elt F) → (⟨S802816x2x2x1x2, .f32⟩ : BufTy).Contents (Elt F) → (⟨S802816x2x2x2x2, .f32⟩ : BufTy).Contents (Elt F)),
    StableHlo.unary main_arg1 main_v401 ((extractStridedSlice S1 ![3] · slices_S4_S1_3) : (⟨S4, .f32⟩ : BufTy).Contents (Elt F) → (⟨S1, .f32⟩ : BufTy).Contents (Elt F)),
    StableHlo.reshape main_v401 main_v402 rfl shapeCasts_S1_S_,
    StableHlo.nullary main_c_78 (constantI S_ 32 0#32),
    StableHlo.TRef.nullary main_call51.c (constantI S_ 32 0#32),
    StableHlo.TRef.binary (.of main_c_78 : StableHlo.TRef sig ⟨S_, .i32⟩) main_call51.c main_call51.v0 (cmpi .slt),
    StableHlo.TRef.nullary main_call51.c_0 (constantI S_ 32 2#32),
    StableHlo.TRef.binary (.of main_c_78 : StableHlo.TRef sig ⟨S_, .i32⟩) main_call51.c_0 main_call51.v1 addi,
    StableHlo.TRef.ternary main_call51.v0 main_call51.v1 (.of main_c_78 : StableHlo.TRef sig ⟨S_, .i32⟩) main_call51.call0.v0 select,
    StableHlo.TRef.unary main_call51.call0.v0 main_call51.v3 (broadcastInDim S1 ![] bcast_S_S1),
    StableHlo.TRef.nullary main_call51.c_1 (constantI S1 32 1#32),
    StableHlo.TRef.unary main_call51.v3 main_call51.v4 id,
    StableHlo.TRef.nullary main_call51.c_2 (constantI S_ 32 0#32),
    StableHlo.TRef.unary main_call51.c_2 main_call51.v5 (broadcastInDim S1 ![] bcast_S_S1),
    StableHlo.TRef.binary main_call51.v4 main_call51.v5 main_call51.v6 (cmpi .sge),
    StableHlo.TRef.binary main_call51.v4 main_call51.c_1 main_call51.v7 (cmpi .sle),
    StableHlo.TRef.binary main_call51.v6 main_call51.v7 main_call51.v8 andi,
    StableHlo.TRef.nullary main_call51.c_3 (constantI S_ 1 1#1),
    StableHlo.TRef.binary main_call51.v8 main_call51.c_3 main_call51.v9 (fun x v => Host.reduce IntOp.andi x v reducesTo_S1_S_d0 h_S_),
    StableHlo.TRef.binary (.of main_v400 : StableHlo.TRef sig ⟨S802816x2x2x2x2, .f32⟩) main_call51.v4 main_call51.v10 (fun x i => Host.gather gather_S802816x2x2x2x2_S1_S802816x2x2x2_0123_4_n_n_4_0_8028162221 x i),
    StableHlo.TRef.unary main_call51.v9 main_call51.v11 (broadcastInDim S802816x2x2x2 ![] bcast_S_S802816x2x2x2),
    StableHlo.TRef.nullary main_call51.cst (constant S_ .f32 0x7FC00000#32),
    StableHlo.TRef.unary main_call51.cst main_call51.v12 (broadcastInDim S802816x2x2x2 ![] bcast_S_S802816x2x2x2),
    StableHlo.TRef.ternary main_call51.v11 main_call51.v10 main_call51.v12 main_call51.v13 select,
    StableHlo.nullary main_c_79 (constantI S_ 32 1#32),
    StableHlo.TRef.nullary main_call52.c (constantI S_ 32 0#32),
    StableHlo.TRef.binary (.of main_c_79 : StableHlo.TRef sig ⟨S_, .i32⟩) main_call52.c main_call52.v0 (cmpi .slt),
    StableHlo.TRef.nullary main_call52.c_0 (constantI S_ 32 2#32),
    StableHlo.TRef.binary (.of main_c_79 : StableHlo.TRef sig ⟨S_, .i32⟩) main_call52.c_0 main_call52.v1 addi,
    StableHlo.TRef.ternary main_call52.v0 main_call52.v1 (.of main_c_79 : StableHlo.TRef sig ⟨S_, .i32⟩) main_call52.call0.v0 select,
    StableHlo.TRef.unary main_call52.call0.v0 main_call52.v3 (broadcastInDim S1 ![] bcast_S_S1),
    StableHlo.TRef.nullary main_call52.c_1 (constantI S1 32 1#32),
    StableHlo.TRef.unary main_call52.v3 main_call52.v4 id,
    StableHlo.TRef.nullary main_call52.c_2 (constantI S_ 32 0#32),
    StableHlo.TRef.unary main_call52.c_2 main_call52.v5 (broadcastInDim S1 ![] bcast_S_S1),
    StableHlo.TRef.binary main_call52.v4 main_call52.v5 main_call52.v6 (cmpi .sge),
    StableHlo.TRef.binary main_call52.v4 main_call52.c_1 main_call52.v7 (cmpi .sle),
    StableHlo.TRef.binary main_call52.v6 main_call52.v7 main_call52.v8 andi,
    StableHlo.TRef.nullary main_call52.c_3 (constantI S_ 1 1#1),
    StableHlo.TRef.binary main_call52.v8 main_call52.c_3 main_call52.v9 (fun x v => Host.reduce IntOp.andi x v reducesTo_S1_S_d0 h_S_),
    StableHlo.TRef.binary (.of main_v400 : StableHlo.TRef sig ⟨S802816x2x2x2x2, .f32⟩) main_call52.v4 main_call52.v10 (fun x i => Host.gather gather_S802816x2x2x2x2_S1_S802816x2x2x2_0123_4_n_n_4_0_8028162221 x i),
    StableHlo.TRef.unary main_call52.v9 main_call52.v11 (broadcastInDim S802816x2x2x2 ![] bcast_S_S802816x2x2x2),
    StableHlo.TRef.nullary main_call52.cst (constant S_ .f32 0x7FC00000#32),
    StableHlo.TRef.unary main_call52.cst main_call52.v12 (broadcastInDim S802816x2x2x2 ![] bcast_S_S802816x2x2x2),
    StableHlo.TRef.ternary main_call52.v11 main_call52.v10 main_call52.v12 main_call52.v13 select,
    StableHlo.nullary main_cst_80 (constant S_ .f32 0x3F000000#32),
    StableHlo.binary main_v402 main_cst_80 main_v405 (mulf : (⟨S_, .f32⟩ : BufTy).Contents (Elt F) → (⟨S_, .f32⟩ : BufTy).Contents (Elt F) → (⟨S_, .f32⟩ : BufTy).Contents (Elt F)),
    StableHlo.unary main_v405 main_v406 (Host.cos : (⟨S_, .f32⟩ : BufTy).Contents (Elt F) → (⟨S_, .f32⟩ : BufTy).Contents (Elt F)),
    StableHlo.nullary main_cst_81 (constant S_ .f32 0x3F000000#32),
    StableHlo.binary main_v402 main_cst_81 main_v407 (mulf : (⟨S_, .f32⟩ : BufTy).Contents (Elt F) → (⟨S_, .f32⟩ : BufTy).Contents (Elt F) → (⟨S_, .f32⟩ : BufTy).Contents (Elt F)),
    StableHlo.unary main_v407 main_v408 (Host.sin : (⟨S_, .f32⟩ : BufTy).Contents (Elt F) → (⟨S_, .f32⟩ : BufTy).Contents (Elt F)),
    StableHlo.unary main_v406 main_v409 (broadcastInDim S802816x2x2x2 ![] bcast_S_S802816x2x2x2 : (⟨S_, .f32⟩ : BufTy).Contents (Elt F) → (⟨S802816x2x2x2, .f32⟩ : BufTy).Contents (Elt F)),
    StableHlo.binary main_v409 main_v403 main_v410 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v408 main_v411 (broadcastInDim S802816x2x2x2 ![] bcast_S_S802816x2x2x2 : (⟨S_, .f32⟩ : BufTy).Contents (Elt F) → (⟨S802816x2x2x2, .f32⟩ : BufTy).Contents (Elt F)),
    StableHlo.binary main_v411 main_v404 main_v412 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v410 main_v412 main_v413 (subf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v408 main_v414 (broadcastInDim S802816x2x2x2 ![] bcast_S_S802816x2x2x2 : (⟨S_, .f32⟩ : BufTy).Contents (Elt F) → (⟨S802816x2x2x2, .f32⟩ : BufTy).Contents (Elt F)),
    StableHlo.binary main_v414 main_v403 main_v415 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v406 main_v416 (broadcastInDim S802816x2x2x2 ![] bcast_S_S802816x2x2x2 : (⟨S_, .f32⟩ : BufTy).Contents (Elt F) → (⟨S802816x2x2x2, .f32⟩ : BufTy).Contents (Elt F)),
    StableHlo.binary main_v416 main_v404 main_v417 (mulf : (⟨S802816x2x2x2, .f32⟩ : BufTy).Contents (Elt F) → (⟨S802816x2x2x2, .f32⟩ : BufTy).Contents (Elt F) → (⟨S802816x2x2x2, .f32⟩ : BufTy).Contents (Elt F)),
    StableHlo.binary main_v415 main_v417 main_v418 (addf : (⟨S802816x2x2x2, .f32⟩ : BufTy).Contents (Elt F) → (⟨S802816x2x2x2, .f32⟩ : BufTy).Contents (Elt F) → (⟨S802816x2x2x2, .f32⟩ : BufTy).Contents (Elt F)),
    StableHlo.unary main_v413 main_v419 (broadcastInDim S802816x2x2x2x1 ![0, 1, 2, 3] bcast_S802816x2x2x2_S802816x2x2x2x1_0_1_2_3 : (⟨S802816x2x2x2, .f32⟩ : BufTy).Contents (Elt F) → (⟨S802816x2x2x2x1, .f32⟩ : BufTy).Contents (Elt F)),
    StableHlo.unary main_v418 main_v420 (broadcastInDim S802816x2x2x2x1 ![0, 1, 2, 3] bcast_S802816x2x2x2_S802816x2x2x2x1_0_1_2_3 : (⟨S802816x2x2x2, .f32⟩ : BufTy).Contents (Elt F) → (⟨S802816x2x2x2x1, .f32⟩ : BufTy).Contents (Elt F)),
    StableHlo.binary main_v419 main_v420 main_v421 ((fun a b => concatenate S802816x2x2x2x2 4 [⟨S802816x2x2x2x1, a⟩, ⟨S802816x2x2x2x1, b⟩] concatenates_S802816x2x2x2x1_S802816x2x2x2x1_S802816x2x2x2x2_d4) : (⟨S802816x2x2x2x1, .f32⟩ : BufTy).Contents (Elt F) → (⟨S802816x2x2x2x1, .f32⟩ : BufTy).Contents (Elt F) → (⟨S802816x2x2x2x2, .f32⟩ : BufTy).Contents (Elt F)),
    StableHlo.nullary main_c_82 (constantI S_ 32 0#32),
    StableHlo.TRef.nullary main_call53.c (constantI S_ 32 0#32),
    StableHlo.TRef.binary (.of main_c_82 : StableHlo.TRef sig ⟨S_, .i32⟩) main_call53.c main_call53.v0 (cmpi .slt),
    StableHlo.TRef.nullary main_call53.c_0 (constantI S_ 32 2#32),
    StableHlo.TRef.binary (.of main_c_82 : StableHlo.TRef sig ⟨S_, .i32⟩) main_call53.c_0 main_call53.v1 addi,
    StableHlo.TRef.ternary main_call53.v0 main_call53.v1 (.of main_c_82 : StableHlo.TRef sig ⟨S_, .i32⟩) main_call53.call0.v0 select,
    StableHlo.TRef.unary main_call53.call0.v0 main_call53.v3 (broadcastInDim S1 ![] bcast_S_S1),
    StableHlo.TRef.nullary main_call53.c_1 (constantI S1 32 1#32),
    StableHlo.TRef.unary main_call53.v3 main_call53.v4 id,
    StableHlo.TRef.nullary main_call53.c_2 (constantI S_ 32 0#32),
    StableHlo.TRef.unary main_call53.c_2 main_call53.v5 (broadcastInDim S1 ![] bcast_S_S1),
    StableHlo.TRef.binary main_call53.v4 main_call53.v5 main_call53.v6 (cmpi .sge),
    StableHlo.TRef.binary main_call53.v4 main_call53.c_1 main_call53.v7 (cmpi .sle),
    StableHlo.TRef.binary main_call53.v6 main_call53.v7 main_call53.v8 andi,
    StableHlo.TRef.nullary main_call53.c_3 (constantI S_ 1 1#1),
    StableHlo.TRef.binary main_call53.v8 main_call53.c_3 main_call53.v9 (fun x v => Host.reduce IntOp.andi x v reducesTo_S1_S_d0 h_S_),
    StableHlo.TRef.binary (.of main_v421 : StableHlo.TRef sig ⟨S802816x2x2x2x2, .f32⟩) main_call53.v4 main_call53.v10 (fun x i => Host.gather gather_S802816x2x2x2x2_S1_S802816x2x2x2_0123_4_n_n_4_0_8028162221 x i),
    StableHlo.TRef.unary main_call53.v9 main_call53.v11 (broadcastInDim S802816x2x2x2 ![] bcast_S_S802816x2x2x2),
    StableHlo.TRef.nullary main_call53.cst (constant S_ .f32 0x7FC00000#32),
    StableHlo.TRef.unary main_call53.cst main_call53.v12 (broadcastInDim S802816x2x2x2 ![] bcast_S_S802816x2x2x2),
    StableHlo.TRef.ternary main_call53.v11 main_call53.v10 main_call53.v12 main_call53.v13 select,
    StableHlo.nullary main_c_83 (constantI S_ 32 1#32),
    StableHlo.TRef.nullary main_call54.c (constantI S_ 32 0#32),
    StableHlo.TRef.binary (.of main_c_83 : StableHlo.TRef sig ⟨S_, .i32⟩) main_call54.c main_call54.v0 (cmpi .slt),
    StableHlo.TRef.nullary main_call54.c_0 (constantI S_ 32 2#32),
    StableHlo.TRef.binary (.of main_c_83 : StableHlo.TRef sig ⟨S_, .i32⟩) main_call54.c_0 main_call54.v1 addi,
    StableHlo.TRef.ternary main_call54.v0 main_call54.v1 (.of main_c_83 : StableHlo.TRef sig ⟨S_, .i32⟩) main_call54.call0.v0 select,
    StableHlo.TRef.unary main_call54.call0.v0 main_call54.v3 (broadcastInDim S1 ![] bcast_S_S1),
    StableHlo.TRef.nullary main_call54.c_1 (constantI S1 32 1#32),
    StableHlo.TRef.unary main_call54.v3 main_call54.v4 id,
    StableHlo.TRef.nullary main_call54.c_2 (constantI S_ 32 0#32),
    StableHlo.TRef.unary main_call54.c_2 main_call54.v5 (broadcastInDim S1 ![] bcast_S_S1),
    StableHlo.TRef.binary main_call54.v4 main_call54.v5 main_call54.v6 (cmpi .sge),
    StableHlo.TRef.binary main_call54.v4 main_call54.c_1 main_call54.v7 (cmpi .sle),
    StableHlo.TRef.binary main_call54.v6 main_call54.v7 main_call54.v8 andi,
    StableHlo.TRef.nullary main_call54.c_3 (constantI S_ 1 1#1),
    StableHlo.TRef.binary main_call54.v8 main_call54.c_3 main_call54.v9 (fun x v => Host.reduce IntOp.andi x v reducesTo_S1_S_d0 h_S_),
    StableHlo.TRef.binary (.of main_v421 : StableHlo.TRef sig ⟨S802816x2x2x2x2, .f32⟩) main_call54.v4 main_call54.v10 (fun x i => Host.gather gather_S802816x2x2x2x2_S1_S802816x2x2x2_0123_4_n_n_4_0_8028162221 x i),
    StableHlo.TRef.unary main_call54.v9 main_call54.v11 (broadcastInDim S802816x2x2x2 ![] bcast_S_S802816x2x2x2),
    StableHlo.TRef.nullary main_call54.cst (constant S_ .f32 0x7FC00000#32),
    StableHlo.TRef.unary main_call54.cst main_call54.v12 (broadcastInDim S802816x2x2x2 ![] bcast_S_S802816x2x2x2),
    StableHlo.TRef.ternary main_call54.v11 main_call54.v10 main_call54.v12 main_call54.v13 select,
    StableHlo.TRef.unary (.of main_v423 : StableHlo.TRef sig ⟨S802816x2x2x2, .f32⟩) main_call55.v0 (Host.reverse [1]),
    StableHlo.unary main_v422 main_v425 (broadcastInDim S802816x2x2x2x1 ![0, 1, 2, 3] bcast_S802816x2x2x2_S802816x2x2x2x1_0_1_2_3 : (⟨S802816x2x2x2, .f32⟩ : BufTy).Contents (Elt F) → (⟨S802816x2x2x2x1, .f32⟩ : BufTy).Contents (Elt F)),
    StableHlo.unary main_v424 main_v426 (broadcastInDim S802816x2x2x2x1 ![0, 1, 2, 3] bcast_S802816x2x2x2_S802816x2x2x2x1_0_1_2_3 : (⟨S802816x2x2x2, .f32⟩ : BufTy).Contents (Elt F) → (⟨S802816x2x2x2x1, .f32⟩ : BufTy).Contents (Elt F)),
    StableHlo.binary main_v425 main_v426 main_v427 ((fun a b => concatenate S802816x2x2x2x2 4 [⟨S802816x2x2x2x1, a⟩, ⟨S802816x2x2x2x1, b⟩] concatenates_S802816x2x2x2x1_S802816x2x2x2x1_S802816x2x2x2x2_d4) : (⟨S802816x2x2x2x1, .f32⟩ : BufTy).Contents (Elt F) → (⟨S802816x2x2x2x1, .f32⟩ : BufTy).Contents (Elt F) → (⟨S802816x2x2x2x2, .f32⟩ : BufTy).Contents (Elt F)),
    StableHlo.binary main_v427 main_v427 main_v428 (mulf : (⟨S802816x2x2x2x2, .f32⟩ : BufTy).Contents (Elt F) → (⟨S802816x2x2x2x2, .f32⟩ : BufTy).Contents (Elt F) → (⟨S802816x2x2x2x2, .f32⟩ : BufTy).Contents (Elt F)),
    StableHlo.nullary main_cst_84 (constant S_ .f32 0x00000000#32),
    StableHlo.binary main_v428 main_cst_84 main_v429 ((fun x v => Host.reduceAdd x v reducesTo_S802816x2x2x2x2_S802816x2_d2_3_4 h_S_) : (⟨S802816x2x2x2x2, .f32⟩ : BufTy).Contents (Elt F) → (⟨S_, .f32⟩ : BufTy).Contents (Elt F) → (⟨S802816x2, .f32⟩ : BufTy).Contents (Elt F)),
    StableHlo.unary main_v429 main_v430 ((extractStridedSlice S802816x1 ![0, 0] · slices_S802816x2_S802816x1_0_0) : (⟨S802816x2, .f32⟩ : BufTy).Contents (Elt F) → (⟨S802816x1, .f32⟩ : BufTy).Contents (Elt F)),
    StableHlo.reshape main_v430 main_v431 rfl shapeCasts_S802816x1_S802816,
    StableHlo.unary main_v429 main_v432 ((extractStridedSlice S802816x1 ![0, 1] · slices_S802816x2_S802816x1_0_1) : (⟨S802816x2, .f32⟩ : BufTy).Contents (Elt F) → (⟨S802816x1, .f32⟩ : BufTy).Contents (Elt F)),
    StableHlo.reshape main_v432 main_v433 rfl shapeCasts_S802816x1_S802816,
    StableHlo.binary main_v431 main_v433 main_v434 (subf : (⟨S802816, .f32⟩ : BufTy).Contents (Elt F) → (⟨S802816, .f32⟩ : BufTy).Contents (Elt F) → (⟨S802816, .f32⟩ : BufTy).Contents (Elt F)),
    StableHlo.nullary main_cst_85 (constant S_ .f32 0x00000000#32),
    StableHlo.binary main_v428 main_cst_85 main_v435 ((fun x v => Host.reduceAdd x v reducesTo_S802816x2x2x2x2_S802816x2_d1_3_4 h_S_) : (⟨S802816x2x2x2x2, .f32⟩ : BufTy).Contents (Elt F) → (⟨S_, .f32⟩ : BufTy).Contents (Elt F) → (⟨S802816x2, .f32⟩ : BufTy).Contents (Elt F)),
    StableHlo.unary main_v435 main_v436 ((extractStridedSlice S802816x1 ![0, 0] · slices_S802816x2_S802816x1_0_0) : (⟨S802816x2, .f32⟩ : BufTy).Contents (Elt F) → (⟨S802816x1, .f32⟩ : BufTy).Contents (Elt F)),
    StableHlo.reshape main_v436 main_v437 rfl shapeCasts_S802816x1_S802816,
    StableHlo.unary main_v435 main_v438 ((extractStridedSlice S802816x1 ![0, 1] · slices_S802816x2_S802816x1_0_1) : (⟨S802816x2, .f32⟩ : BufTy).Contents (Elt F) → (⟨S802816x1, .f32⟩ : BufTy).Contents (Elt F)),
    StableHlo.reshape main_v438 main_v439 rfl shapeCasts_S802816x1_S802816,
    StableHlo.binary main_v437 main_v439 main_v440 (subf : (⟨S802816, .f32⟩ : BufTy).Contents (Elt F) → (⟨S802816, .f32⟩ : BufTy).Contents (Elt F) → (⟨S802816, .f32⟩ : BufTy).Contents (Elt F)),
    StableHlo.nullary main_cst_86 (constant S_ .f32 0x00000000#32),
    StableHlo.binary main_v428 main_cst_86 main_v441 ((fun x v => Host.reduceAdd x v reducesTo_S802816x2x2x2x2_S802816x2_d1_2_4 h_S_) : (⟨S802816x2x2x2x2, .f32⟩ : BufTy).Contents (Elt F) → (⟨S_, .f32⟩ : BufTy).Contents (Elt F) → (⟨S802816x2, .f32⟩ : BufTy).Contents (Elt F)),
    StableHlo.unary main_v441 main_v442 ((extractStridedSlice S802816x1 ![0, 0] · slices_S802816x2_S802816x1_0_0) : (⟨S802816x2, .f32⟩ : BufTy).Contents (Elt F) → (⟨S802816x1, .f32⟩ : BufTy).Contents (Elt F)),
    StableHlo.reshape main_v442 main_v443 rfl shapeCasts_S802816x1_S802816,
    StableHlo.unary main_v441 main_v444 ((extractStridedSlice S802816x1 ![0, 1] · slices_S802816x2_S802816x1_0_1) : (⟨S802816x2, .f32⟩ : BufTy).Contents (Elt F) → (⟨S802816x1, .f32⟩ : BufTy).Contents (Elt F)),
    StableHlo.reshape main_v444 main_v445 rfl shapeCasts_S802816x1_S802816,
    StableHlo.binary main_v443 main_v445 main_v446 (subf : (⟨S802816, .f32⟩ : BufTy).Contents (Elt F) → (⟨S802816, .f32⟩ : BufTy).Contents (Elt F) → (⟨S802816, .f32⟩ : BufTy).Contents (Elt F)),
    StableHlo.nullary main_cst_87 (constant S_ .f32 0x00000000#32),
    StableHlo.binary main_v428 main_cst_87 main_v447 ((fun x v => Host.reduceAdd x v reducesTo_S802816x2x2x2x2_S802816x2_d1_2_3 h_S_) : (⟨S802816x2x2x2x2, .f32⟩ : BufTy).Contents (Elt F) → (⟨S_, .f32⟩ : BufTy).Contents (Elt F) → (⟨S802816x2, .f32⟩ : BufTy).Contents (Elt F)),
    StableHlo.unary main_v447 main_v448 ((extractStridedSlice S802816x1 ![0, 0] · slices_S802816x2_S802816x1_0_0) : (⟨S802816x2, .f32⟩ : BufTy).Contents (Elt F) → (⟨S802816x1, .f32⟩ : BufTy).Contents (Elt F)),
    StableHlo.reshape main_v448 main_v449 rfl shapeCasts_S802816x1_S802816 ]

set_option maxRecDepth 65536 in
set_option maxHeartbeats 4000000 in
/-- The window is that straight line: the callees' definitions unfolded at their calls, both sides are one chain of
    steps once sequencing is reassociated. -/
theorem main_part8_eq (c : Dev nD) : main_part8 (F := F) c = seq ops8 := by
  simp only [main_part8, fn_take_2.body, fn_where.body, fn_flip.body, seq, bind_assoc, pure_bind]
  try rfl

set_option maxRecDepth 65536 in
/-- Every operation of the window touches TensorCore buffers only. -/
theorem ops8_sub : (ops8 : List (HloOp τ sig (Elt F))).Forall fun op => op.bufs ⊆ tcRefs τ sig :=
  ⟨binary_bufs_sub .., unary_bufs_sub .., reshape_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., nullary_bufs_sub .., binary_bufs_sub .., unary_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., nullary_bufs_sub .., binary_bufs_sub .., nullary_bufs_sub .., binary_bufs_sub .., ternary_bufs_sub .., unary_bufs_sub .., nullary_bufs_sub .., unary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., unary_bufs_sub .., binary_bufs_sub .., binary_bufs_sub .., nullary_bufs_sub .., binary_bufs_sub .., unary_bufs_sub .., reshape_bufs_sub .., unary_bufs_sub .., reshape_bufs_sub .., binary_bufs_sub .., nullary_bufs_sub .., binary_bufs_sub .., unary_bufs_sub .., reshape_bufs_sub .., unary_bufs_sub .., reshape_bufs_sub .., binary_bufs_sub .., nullary_bufs_sub .., binary_bufs_sub .., unary_bufs_sub .., reshape_bufs_sub .., unary_bufs_sub .., reshape_bufs_sub .., binary_bufs_sub .., nullary_bufs_sub .., binary_bufs_sub .., unary_bufs_sub .., reshape_bufs_sub ..⟩

set_option maxRecDepth 65536 in
/-- No operation of the window leaves a buffer's contents undetermined. -/
theorem ops8_fresh : (ops8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefOps9.lean ====
/- Window 9 of the reference program's @main as a list of its 29 operations, in order: each call of an
   outlined function is replaced by the callee's own operations over that call's record of buffers (an index
   wrapped into range, a gather, a select filling with NaN where the index was out of range, …). Proved below: the
   window IS this straight line, every operation touches only buffers of the TensorCore, and none leaves a
   buffer undetermined. -/
import proofs.«159359_j65481071398168_2_alg».proof.ReferenceIdeal
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The operations of window 9 of @main, the calls unfolded. -/
abbrev ops9 : List (HloOp τ sig (Elt F)) :=
  [ StableHlo.unary main_v447 main_v450 ((extractStridedSlice S802816x1 ![0, 1] · slices_S802816x2_S802816x1_0_1) : (⟨S802816x2, .f32⟩ : BufTy).Contents (Elt F) → (⟨S802816x1, .f32⟩ : BufTy).Contents (Elt F)),
    StableHlo.reshape main_v450 main_v451 rfl shapeCasts_S802816x1_S802816,
    StableHlo.binary main_v449 main_v451 main_v452 (subf : (⟨S802816, .f32⟩ : BufTy).Contents (Elt F) → (⟨S802816, .f32⟩ : BufTy).Contents (Elt F) → (⟨S802816, .f32⟩ : BufTy).Contents (Elt F)),
    StableHlo.unary main_v434 main_v453 (broadcastInDim S802816x1 ![0] bcast_S802816_S802816x1_0 : (⟨S802816, .f32⟩ : BufTy).Contents (Elt F) → (⟨S802816x1, .f32⟩ : BufTy).Contents (Elt F)),
    StableHlo.unary main_v440 main_v454 (broadcastInDim S802816x1 ![0] bcast_S802816_S802816x1_0 : (⟨S802816, .f32⟩ : BufTy).Contents (Elt F) → (⟨S802816x1, .f32⟩ : BufTy).Contents (Elt F)),
    StableHlo.unary main_v446 main_v455 (broadcastInDim S802816x1 ![0] bcast_S802816_S802816x1_0 : (⟨S802816, .f32⟩ : BufTy).Contents (Elt F) → (⟨S802816x1, .f32⟩ : BufTy).Contents (Elt F)),
    StableHlo.unary main_v452 main_v456 (broadcastInDim S802816x1 ![0] bcast_S802816_S802816x1_0 : (⟨S802816, .f32⟩ : BufTy).Contents (Elt F) → (⟨S802816x1, .f32⟩ : BufTy).Contents (Elt F)),
    StableHlo.nary ![main_v453, main_v454, main_v455, main_v456] main_v457 (fun u => concatenate S802816x4 1 [⟨S802816x1, u 0⟩, ⟨S802816x1, u 1⟩, ⟨S802816x1, u 2⟩, ⟨S802816x1, u 3⟩] concatenates_S802816x1_S802816x1_S802816x1_S802816x1_S802816x4_d1),
    StableHlo.reshape main_v457 main_v458 rfl shapeCasts_S802816x4_S4096x784,
    StableHlo.unary main_arg2 main_v459 ((transpose S784x10 [1, 0] · transposes_S10x784_S784x10_1_0) : (⟨S10x784, .f32⟩ : BufTy).Contents (Elt F) → (⟨S784x10, .f32⟩ : BufTy).Contents (Elt F)),
    StableHlo.binary main_v458 main_v459 main_v460 ((fun l r => Host.dotGeneral dot_S4096x784_S784x10_S4096x10_1_0_0_1_n_n none l r) : (⟨S4096x784, .f32⟩ : BufTy).Contents (Elt F) → (⟨S784x10, .f32⟩ : BufTy).Contents (Elt F) → (⟨S4096x10, .f32⟩ : BufTy).Contents (Elt F)),
    StableHlo.unary main_arg3 main_v461 (broadcastInDim S1x10 ![1] bcast_S10_S1x10_1 : (⟨S10, .f32⟩ : BufTy).Contents (Elt F) → (⟨S1x10, .f32⟩ : BufTy).Contents (Elt F)),
    StableHlo.unary main_v461 main_v462 (broadcastInDim S4096x10 ![0, 1] bcast_S1x10_S4096x10_0_1 : (⟨S1x10, .f32⟩ : BufTy).Contents (Elt F) → (⟨S4096x10, .f32⟩ : BufTy).Contents (Elt F)),
    StableHlo.binary main_v460 main_v462 main_v463 (addf : (⟨S4096x10, .f32⟩ : BufTy).Contents (Elt F) → (⟨S4096x10, .f32⟩ : BufTy).Contents (Elt F) → (⟨S4096x10, .f32⟩ : BufTy).Contents (Elt F)),
    StableHlo.TRef.nullary main_call56.cst (constant S_ .f32 0xFF800000#32),
    StableHlo.TRef.binary (.of main_v463 : StableHlo.TRef sig ⟨S4096x10, .f32⟩) main_call56.cst main_call56.v0 (fun x v => Host.reduce FloatOps.maximumf x v reducesTo_S4096x10_S4096_d1 h_S_),
    StableHlo.TRef.nullary main_call56.cst_0 (constant S_ .f32 0xFF800000#32),
    StableHlo.TRef.unary main_call56.cst_0 main_call56.v1 (broadcastInDim S4096 ![] bcast_S_S4096),
    StableHlo.TRef.binary main_call56.v1 main_call56.v0 main_call56.v2 maximumf,
    StableHlo.TRef.unary main_call56.v2 main_call56.v3 (broadcastInDim S4096x1 ![0] bcast_S4096_S4096x1_0),
    StableHlo.TRef.unary main_call56.v3 main_call56.v4 (broadcastInDim S4096x10 ![0, 1] bcast_S4096x1_S4096x10_0_1),
    StableHlo.TRef.binary (.of main_v463 : StableHlo.TRef sig ⟨S4096x10, .f32⟩) main_call56.v4 main_call56.v5 subf,
    StableHlo.TRef.unary main_call56.v5 main_call56.v6 Host.exp,
    StableHlo.TRef.nullary main_call56.cst_1 (constant S_ .f32 0x00000000#32),
    StableHlo.TRef.binary main_call56.v6 main_call56.cst_1 main_call56.v7 (fun x v => Host.reduceAdd x v reducesTo_S4096x10_S4096_d1 h_S_),
    StableHlo.TRef.unary main_call56.v7 main_call56.v8 (broadcastInDim S4096x1 ![0] bcast_S4096_S4096x1_0),
    StableHlo.TRef.unary main_call56.v8 main_call56.v9 Host.log,
    StableHlo.TRef.unary main_call56.v9 main_call56.v10 (broadcastInDim S4096x10 ![0, 1] bcast_S4096x1_S4096x10_0_1),
    StableHlo.TRef.binary main_call56.v5 main_call56.v10 main_call56.v11 subf ]

set_option maxRecDepth 65536 in
set_option maxHeartbeats 4000000 in
/-- The window is that straight line: the callees' definitions unfolded at their calls, both sides are one chain of
    steps once sequencing is reassociated. -/
theorem main_part9_eq (c : Dev nD) : main_part9 (F := F) c = seq ops9 := by
  simp only [main_part9, fn_log_softmax.body, seq, bind_assoc, pure_bind]
  try rfl

set_option maxRecDepth 65536 in
/-- Every operation of the window touches TensorCore buffers only. -/
theorem ops9_sub : (ops9 : List (HloOp τ sig (Elt F))).Forall fun op => op.bufs ⊆ tcRefs τ sig :=
  ⟨unary_bufs_sub .., reshape_bufs_sub .., binary_bufs_sub .., unary_bufs_sub .., unary_bufs_sub .., unary_bufs_sub .., unary_bufs_sub .., nary_bufs_sub .., reshape_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 65536 in
/-- No operation of the window leaves a buffer's contents undetermined. -/
theorem ops9_fresh : (ops9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefRun.lean ====
/- The reference program's run, read back. @main is ten windows of statements; each window is a straight line of
   operations (its table, with the calls of outlined functions replaced by the callees' operations, is in the
   window's own module). Their concatenation `ops` is @main's whole straight line, so every weakly fair execution
   of @main terminates with each TensorCore buffer holding the fold of the operations' results over the contents
   the buffers had at launch. -/
import proofs.«159359_j65481071398168_2_alg».proof.Proof.RefOps0
import proofs.«159359_j65481071398168_2_alg».proof.Proof.RefOps1
import proofs.«159359_j65481071398168_2_alg».proof.Proof.RefOps2
import proofs.«159359_j65481071398168_2_alg».proof.Proof.RefOps3
import proofs.«159359_j65481071398168_2_alg».proof.Proof.RefOps4
import proofs.«159359_j65481071398168_2_alg».proof.Proof.RefOps5
import proofs.«159359_j65481071398168_2_alg».proof.Proof.RefOps6
import proofs.«159359_j65481071398168_2_alg».proof.Proof.RefOps7
import proofs.«159359_j65481071398168_2_alg».proof.Proof.RefOps8
import proofs.«159359_j65481071398168_2_alg».proof.Proof.RefOps9
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- @main's operations, in order: the ten windows one after the other. -/
abbrev ops : List (HloOp τ sig (Elt F)) :=
  ops0 ++ (ops1 ++ (ops2 ++ (ops3 ++ (ops4 ++ (ops5 ++ (ops6 ++ (ops7 ++ (ops8 ++ (ops9)))))))))

set_option maxRecDepth 8192 in
/-- @main runs its windows in turn, each window is its straight line, and straight lines run in turn are their
    concatenation run as one. -/
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c, ← main_part9_eq c]
  rfl

set_option maxRecDepth 65536 in
/-- No buffer of the signature is scoped. -/
theorem scopedRefs_eq : (Finset.univ.filter fun b : Ref sig .tc => b.isScoped) = ∅ := by decide
/-- There is no semaphore, so none is scoped. -/
theorem scopedSems_eq : (Finset.univ.filter fun sm : SemLoc sig => sm.isScoped .tc) = ∅ := by decide

/-- Every operation of @main touches TensorCore buffers only: it belongs to one of the windows. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h, List.forall_iff_forall_mem.mp ops8_sub op h, List.forall_iff_forall_mem.mp ops9_sub op h]

/-- No operation of @main leaves a buffer's contents undetermined: it belongs to one of the windows. -/
theorem ops_fresh : ∀ op ∈ (ops : List (HloOp τ sig (Elt F))), op.fresh = ∅ := fun op h => by
  simp only [ops, List.mem_append] at h
  rcases h with h | h | h | h | h | h | h | h | h | h
  exacts [List.forall_iff_forall_mem.mp ops0_fresh op h, List.forall_iff_forall_mem.mp ops1_fresh op h, List.forall_iff_forall_mem.mp ops2_fresh op h, List.forall_iff_forall_mem.mp ops3_fresh op h, List.forall_iff_forall_mem.mp ops4_fresh op h, List.forall_iff_forall_mem.mp ops5_fresh op h, List.forall_iff_forall_mem.mp ops6_fresh op h, List.forall_iff_forall_mem.mp ops7_fresh op h, List.forall_iff_forall_mem.mp ops8_fresh op h, List.forall_iff_forall_mem.mp ops9_fresh op h]

/-- On every device, for any float values, from any memory with zero counters: every weakly fair execution of @main
    terminates, and every final state has each TensorCore buffer at the fold of @main's operations over the
    contents the device's buffers had at launch. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefBound.lean ====
/- The reference program's contents at the gate boundaries. @main's straight line `ops` is cut into 28 stretches, each
   ending where a state of the simulated register (or one of the arrays before the first and after the last state) is
   written. Every buffer is written once and read only later, so after the WHOLE line a stretch's result is the
   stretch's composed function of the whole line's contents at the buffers the stretch reads: the later stretches
   write neither the result nor what was read. The arguments are written by no operation, which gives the frame. -/
import proofs.«159359_j65481071398168_2_alg».proof.Proof.RefSeg0
import proofs.«159359_j65481071398168_2_alg».proof.Proof.RefSeg1
import proofs.«159359_j65481071398168_2_alg».proof.Proof.RefSeg2
import proofs.«159359_j65481071398168_2_alg».proof.Proof.RefSeg3
import proofs.«159359_j65481071398168_2_alg».proof.Proof.RefSeg4
import proofs.«159359_j65481071398168_2_alg».proof.Proof.RefSeg5
import proofs.«159359_j65481071398168_2_alg».proof.Proof.RefSeg6
import proofs.«159359_j65481071398168_2_alg».proof.Proof.RefRun
import Idealize.ShloMosaic.Lib.Pipeline.Frame

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The operations of a line write only buffers of the list `W`. -/
abbrev Writes (l : List (HloOp τ sig (Elt F))) (W : List (Ref sig .tc)) : Prop :=
  l.Forall fun op => op.writes ⊆ (W.map (Proc.devRef (τ := τ) .tc)).toFinset

omit [Facts] in
/-- Two lines in a row write what either writes. -/
theorem writes_append {g t : List (HloOp τ sig (Elt F))} {Wg Wt : List (Ref sig .tc)} (hg : Writes g Wg) (ht : Writes t Wt) :
    Writes (g ++ t) (Wg ++ Wt) :=
  List.forall_iff_forall_mem.mpr fun op h => by
    rcases List.mem_append.mp h with h | h
    · exact (List.forall_iff_forall_mem.mp hg op h).trans fun b hb => by
        simp only [List.map_append, List.toFinset_append, Finset.mem_union]; exact Or.inl hb
    · exact (List.forall_iff_forall_mem.mp ht op h).trans fun b hb => by
        simp only [List.map_append, List.toFinset_append, Finset.mem_union]; exact Or.inr hb

omit [Facts] in
/-- The empty line writes nothing. -/
theorem writes_nil : Writes ([] : List (HloOp τ sig (Elt F))) [] := trivial

omit [Facts] in
/-- If the whole line is a prefix (ending in contents `S`) followed by a stretch `g` and a tail `t'` that does not
    write `r`, the whole line leaves at `r` what the stretch leaves there from `S`. -/
theorem at_result {l g t' : List (HloOp τ sig (Elt F))} {WT' : List (Ref sig .tc)} (V S : Valuation τ sig (Elt F))
    (hpre : after l V = after (g ++ t') S) (ht' : Writes t' WT') {r : Ref sig .tc} (hr : r ∉ WT') :
    after l V (Proc.devRef .tc r) = after g S (Proc.devRef .tc r) := by
  rw [hpre, StableHlo.after_append]; exact after_of_writes_sub t' _ ht' hr

omit [Facts] in
/-- If the whole line is a prefix (ending in contents `S`) followed by a tail `t` that does not write `r`, the whole
    line leaves at `r` what `S` has there. -/
theorem at_input {l t : List (HloOp τ sig (Elt F))} {WT : List (Ref sig .tc)} (V S : Valuation τ sig (Elt F))
    (hpre : after l V = after t S) (ht : Writes t WT) {r : Ref sig .tc} (hr : r ∉ WT) :
    after l V (Proc.devRef .tc r) = S (Proc.devRef .tc r) := by
  rw [hpre]; exact after_of_writes_sub t _ ht hr

/-! ## The tails: stretch `j` and everything after it -/

abbrev tail28 : List (HloOp τ sig (Elt F)) := []
abbrev tailW28 : List (Ref sig .tc) := []
theorem tail28_writes : Writes (F := F) tail28 tailW28 := writes_nil
abbrev tail27 : List (HloOp τ sig (Elt F)) := seg27 ++ tail28
abbrev tailW27 : List (Ref sig .tc) := seg27_W ++ tailW28
theorem tail27_writes : Writes (F := F) tail27 tailW27 := writes_append seg27_writes tail28_writes
abbrev tail26 : List (HloOp τ sig (Elt F)) := seg26 ++ tail27
abbrev tailW26 : List (Ref sig .tc) := seg26_W ++ tailW27
theorem tail26_writes : Writes (F := F) tail26 tailW26 := writes_append seg26_writes tail27_writes
abbrev tail25 : List (HloOp τ sig (Elt F)) := seg25 ++ tail26
abbrev tailW25 : List (Ref sig .tc) := seg25_W ++ tailW26
theorem tail25_writes : Writes (F := F) tail25 tailW25 := writes_append seg25_writes tail26_writes
abbrev tail24 : List (HloOp τ sig (Elt F)) := seg24 ++ tail25
abbrev tailW24 : List (Ref sig .tc) := seg24_W ++ tailW25
theorem tail24_writes : Writes (F := F) tail24 tailW24 := writes_append seg24_writes tail25_writes
abbrev tail23 : List (HloOp τ sig (Elt F)) := seg23 ++ tail24
abbrev tailW23 : List (Ref sig .tc) := seg23_W ++ tailW24
theorem tail23_writes : Writes (F := F) tail23 tailW23 := writes_append seg23_writes tail24_writes
abbrev tail22 : List (HloOp τ sig (Elt F)) := seg22 ++ tail23
abbrev tailW22 : List (Ref sig .tc) := seg22_W ++ tailW23
theorem tail22_writes : Writes (F := F) tail22 tailW22 := writes_append seg22_writes tail23_writes
abbrev tail21 : List (HloOp τ sig (Elt F)) := seg21 ++ tail22
abbrev tailW21 : List (Ref sig .tc) := seg21_W ++ tailW22
theorem tail21_writes : Writes (F := F) tail21 tailW21 := writes_append seg21_writes tail22_writes
abbrev tail20 : List (HloOp τ sig (Elt F)) := seg20 ++ tail21
abbrev tailW20 : List (Ref sig .tc) := seg20_W ++ tailW21
theorem tail20_writes : Writes (F := F) tail20 tailW20 := writes_append seg20_writes tail21_writes
abbrev tail19 : List (HloOp τ sig (Elt F)) := seg19 ++ tail20
abbrev tailW19 : List (Ref sig .tc) := seg19_W ++ tailW20
theorem tail19_writes : Writes (F := F) tail19 tailW19 := writes_append seg19_writes tail20_writes
abbrev tail18 : List (HloOp τ sig (Elt F)) := seg18 ++ tail19
abbrev tailW18 : List (Ref sig .tc) := seg18_W ++ tailW19
theorem tail18_writes : Writes (F := F) tail18 tailW18 := writes_append seg18_writes tail19_writes
abbrev tail17 : List (HloOp τ sig (Elt F)) := seg17 ++ tail18
abbrev tailW17 : List (Ref sig .tc) := seg17_W ++ tailW18
theorem tail17_writes : Writes (F := F) tail17 tailW17 := writes_append seg17_writes tail18_writes
abbrev tail16 : List (HloOp τ sig (Elt F)) := seg16 ++ tail17
abbrev tailW16 : List (Ref sig .tc) := seg16_W ++ tailW17
theorem tail16_writes : Writes (F := F) tail16 tailW16 := writes_append seg16_writes tail17_writes
abbrev tail15 : List (HloOp τ sig (Elt F)) := seg15 ++ tail16
abbrev tailW15 : List (Ref sig .tc) := seg15_W ++ tailW16
theorem tail15_writes : Writes (F := F) tail15 tailW15 := writes_append seg15_writes tail16_writes
abbrev tail14 : List (HloOp τ sig (Elt F)) := seg14 ++ tail15
abbrev tailW14 : List (Ref sig .tc) := seg14_W ++ tailW15
theorem tail14_writes : Writes (F := F) tail14 tailW14 := writes_append seg14_writes tail15_writes
abbrev tail13 : List (HloOp τ sig (Elt F)) := seg13 ++ tail14
abbrev tailW13 : List (Ref sig .tc) := seg13_W ++ tailW14
theorem tail13_writes : Writes (F := F) tail13 tailW13 := writes_append seg13_writes tail14_writes
abbrev tail12 : List (HloOp τ sig (Elt F)) := seg12 ++ tail13
abbrev tailW12 : List (Ref sig .tc) := seg12_W ++ tailW13
theorem tail12_writes : Writes (F := F) tail12 tailW12 := writes_append seg12_writes tail13_writes
abbrev tail11 : List (HloOp τ sig (Elt F)) := seg11 ++ tail12
abbrev tailW11 : List (Ref sig .tc) := seg11_W ++ tailW12
theorem tail11_writes : Writes (F := F) tail11 tailW11 := writes_append seg11_writes tail12_writes
abbrev tail10 : List (HloOp τ sig (Elt F)) := seg10 ++ tail11
abbrev tailW10 : List (Ref sig .tc) := seg10_W ++ tailW11
theorem tail10_writes : Writes (F := F) tail10 tailW10 := writes_append seg10_writes tail11_writes
abbrev tail9 : List (HloOp τ sig (Elt F)) := seg9 ++ tail10
abbrev tailW9 : List (Ref sig .tc) := seg9_W ++ tailW10
theorem tail9_writes : Writes (F := F) tail9 tailW9 := writes_append seg9_writes tail10_writes
abbrev tail8 : List (HloOp τ sig (Elt F)) := seg8 ++ tail9
abbrev tailW8 : List (Ref sig .tc) := seg8_W ++ tailW9
theorem tail8_writes : Writes (F := F) tail8 tailW8 := writes_append seg8_writes tail9_writes
abbrev tail7 : List (HloOp τ sig (Elt F)) := seg7 ++ tail8
abbrev tailW7 : List (Ref sig .tc) := seg7_W ++ tailW8
theorem tail7_writes : Writes (F := F) tail7 tailW7 := writes_append seg7_writes tail8_writes
abbrev tail6 : List (HloOp τ sig (Elt F)) := seg6 ++ tail7
abbrev tailW6 : List (Ref sig .tc) := seg6_W ++ tailW7
theorem tail6_writes : Writes (F := F) tail6 tailW6 := writes_append seg6_writes tail7_writes
abbrev tail5 : List (HloOp τ sig (Elt F)) := seg5 ++ tail6
abbrev tailW5 : List (Ref sig .tc) := seg5_W ++ tailW6
theorem tail5_writes : Writes (F := F) tail5 tailW5 := writes_append seg5_writes tail6_writes
abbrev tail4 : List (HloOp τ sig (Elt F)) := seg4 ++ tail5
abbrev tailW4 : List (Ref sig .tc) := seg4_W ++ tailW5
theorem tail4_writes : Writes (F := F) tail4 tailW4 := writes_append seg4_writes tail5_writes
abbrev tail3 : List (HloOp τ sig (Elt F)) := seg3 ++ tail4
abbrev tailW3 : List (Ref sig .tc) := seg3_W ++ tailW4
theorem tail3_writes : Writes (F := F) tail3 tailW3 := writes_append seg3_writes tail4_writes
abbrev tail2 : List (HloOp τ sig (Elt F)) := seg2 ++ tail3
abbrev tailW2 : List (Ref sig .tc) := seg2_W ++ tailW3
theorem tail2_writes : Writes (F := F) tail2 tailW2 := writes_append seg2_writes tail3_writes
abbrev tail1 : List (HloOp τ sig (Elt F)) := seg1 ++ tail2
abbrev tailW1 : List (Ref sig .tc) := seg1_W ++ tailW2
theorem tail1_writes : Writes (F := F) tail1 tailW1 := writes_append seg1_writes tail2_writes
abbrev tail0 : List (HloOp τ sig (Elt F)) := seg0 ++ tail1
abbrev tailW0 : List (Ref sig .tc) := seg0_W ++ tailW1
theorem tail0_writes : Writes (F := F) tail0 tailW0 := writes_append seg0_writes tail1_writes

set_option maxRecDepth 65536 in
/-- @main's line is its stretches one after the other: the same operations in the same order, grouped at other places. -/
theorem ops_eq_tail0 : (ops : List (HloOp τ sig (Elt F))) = tail0 := rfl

/-! ## The contents before each stretch -/

/-- The contents before stretch 0: those at launch. -/
def st0 (V : Valuation τ sig (Elt F)) : Valuation τ sig (Elt F) := V
theorem pre0 (V : Valuation τ sig (Elt F)) : after ops V = after tail0 (st0 V) := by rw [ops_eq_tail0]; rfl
/-- The contents before stretch 1. -/
def st1 (V : Valuation τ sig (Elt F)) : Valuation τ sig (Elt F) := after seg0 (st0 V)
theorem pre1 (V : Valuation τ sig (Elt F)) : after ops V = after tail1 (st1 V) :=
  (pre0 V).trans (StableHlo.after_append seg0 tail1 (st0 V))
/-- The contents before stretch 2. -/
def st2 (V : Valuation τ sig (Elt F)) : Valuation τ sig (Elt F) := after seg1 (st1 V)
theorem pre2 (V : Valuation τ sig (Elt F)) : after ops V = after tail2 (st2 V) :=
  (pre1 V).trans (StableHlo.after_append seg1 tail2 (st1 V))
/-- The contents before stretch 3. -/
def st3 (V : Valuation τ sig (Elt F)) : Valuation τ sig (Elt F) := after seg2 (st2 V)
theorem pre3 (V : Valuation τ sig (Elt F)) : after ops V = after tail3 (st3 V) :=
  (pre2 V).trans (StableHlo.after_append seg2 tail3 (st2 V))
/-- The contents before stretch 4. -/
def st4 (V : Valuation τ sig (Elt F)) : Valuation τ sig (Elt F) := after seg3 (st3 V)
theorem pre4 (V : Valuation τ sig (Elt F)) : after ops V = after tail4 (st4 V) :=
  (pre3 V).trans (StableHlo.after_append seg3 tail4 (st3 V))
/-- The contents before stretch 5. -/
def st5 (V : Valuation τ sig (Elt F)) : Valuation τ sig (Elt F) := after seg4 (st4 V)
theorem pre5 (V : Valuation τ sig (Elt F)) : after ops V = after tail5 (st5 V) :=
  (pre4 V).trans (StableHlo.after_append seg4 tail5 (st4 V))
/-- The contents before stretch 6. -/
def st6 (V : Valuation τ sig (Elt F)) : Valuation τ sig (Elt F) := after seg5 (st5 V)
theorem pre6 (V : Valuation τ sig (Elt F)) : after ops V = after tail6 (st6 V) :=
  (pre5 V).trans (StableHlo.after_append seg5 tail6 (st5 V))
/-- The contents before stretch 7. -/
def st7 (V : Valuation τ sig (Elt F)) : Valuation τ sig (Elt F) := after seg6 (st6 V)
theorem pre7 (V : Valuation τ sig (Elt F)) : after ops V = after tail7 (st7 V) :=
  (pre6 V).trans (StableHlo.after_append seg6 tail7 (st6 V))
/-- The contents before stretch 8. -/
def st8 (V : Valuation τ sig (Elt F)) : Valuation τ sig (Elt F) := after seg7 (st7 V)
theorem pre8 (V : Valuation τ sig (Elt F)) : after ops V = after tail8 (st8 V) :=
  (pre7 V).trans (StableHlo.after_append seg7 tail8 (st7 V))
/-- The contents before stretch 9. -/
def st9 (V : Valuation τ sig (Elt F)) : Valuation τ sig (Elt F) := after seg8 (st8 V)
theorem pre9 (V : Valuation τ sig (Elt F)) : after ops V = after tail9 (st9 V) :=
  (pre8 V).trans (StableHlo.after_append seg8 tail9 (st8 V))
/-- The contents before stretch 10. -/
def st10 (V : Valuation τ sig (Elt F)) : Valuation τ sig (Elt F) := after seg9 (st9 V)
theorem pre10 (V : Valuation τ sig (Elt F)) : after ops V = after tail10 (st10 V) :=
  (pre9 V).trans (StableHlo.after_append seg9 tail10 (st9 V))
/-- The contents before stretch 11. -/
def st11 (V : Valuation τ sig (Elt F)) : Valuation τ sig (Elt F) := after seg10 (st10 V)
theorem pre11 (V : Valuation τ sig (Elt F)) : after ops V = after tail11 (st11 V) :=
  (pre10 V).trans (StableHlo.after_append seg10 tail11 (st10 V))
/-- The contents before stretch 12. -/
def st12 (V : Valuation τ sig (Elt F)) : Valuation τ sig (Elt F) := after seg11 (st11 V)
theorem pre12 (V : Valuation τ sig (Elt F)) : after ops V = after tail12 (st12 V) :=
  (pre11 V).trans (StableHlo.after_append seg11 tail12 (st11 V))
/-- The contents before stretch 13. -/
def st13 (V : Valuation τ sig (Elt F)) : Valuation τ sig (Elt F) := after seg12 (st12 V)
theorem pre13 (V : Valuation τ sig (Elt F)) : after ops V = after tail13 (st13 V) :=
  (pre12 V).trans (StableHlo.after_append seg12 tail13 (st12 V))
/-- The contents before stretch 14. -/
def st14 (V : Valuation τ sig (Elt F)) : Valuation τ sig (Elt F) := after seg13 (st13 V)
theorem pre14 (V : Valuation τ sig (Elt F)) : after ops V = after tail14 (st14 V) :=
  (pre13 V).trans (StableHlo.after_append seg13 tail14 (st13 V))
/-- The contents before stretch 15. -/
def st15 (V : Valuation τ sig (Elt F)) : Valuation τ sig (Elt F) := after seg14 (st14 V)
theorem pre15 (V : Valuation τ sig (Elt F)) : after ops V = after tail15 (st15 V) :=
  (pre14 V).trans (StableHlo.after_append seg14 tail15 (st14 V))
/-- The contents before stretch 16. -/
def st16 (V : Valuation τ sig (Elt F)) : Valuation τ sig (Elt F) := after seg15 (st15 V)
theorem pre16 (V : Valuation τ sig (Elt F)) : after ops V = after tail16 (st16 V) :=
  (pre15 V).trans (StableHlo.after_append seg15 tail16 (st15 V))
/-- The contents before stretch 17. -/
def st17 (V : Valuation τ sig (Elt F)) : Valuation τ sig (Elt F) := after seg16 (st16 V)
theorem pre17 (V : Valuation τ sig (Elt F)) : after ops V = after tail17 (st17 V) :=
  (pre16 V).trans (StableHlo.after_append seg16 tail17 (st16 V))
/-- The contents before stretch 18. -/
def st18 (V : Valuation τ sig (Elt F)) : Valuation τ sig (Elt F) := after seg17 (st17 V)
theorem pre18 (V : Valuation τ sig (Elt F)) : after ops V = after tail18 (st18 V) :=
  (pre17 V).trans (StableHlo.after_append seg17 tail18 (st17 V))
/-- The contents before stretch 19. -/
def st19 (V : Valuation τ sig (Elt F)) : Valuation τ sig (Elt F) := after seg18 (st18 V)
theorem pre19 (V : Valuation τ sig (Elt F)) : after ops V = after tail19 (st19 V) :=
  (pre18 V).trans (StableHlo.after_append seg18 tail19 (st18 V))
/-- The contents before stretch 20. -/
def st20 (V : Valuation τ sig (Elt F)) : Valuation τ sig (Elt F) := after seg19 (st19 V)
theorem pre20 (V : Valuation τ sig (Elt F)) : after ops V = after tail20 (st20 V) :=
  (pre19 V).trans (StableHlo.after_append seg19 tail20 (st19 V))
/-- The contents before stretch 21. -/
def st21 (V : Valuation τ sig (Elt F)) : Valuation τ sig (Elt F) := after seg20 (st20 V)
theorem pre21 (V : Valuation τ sig (Elt F)) : after ops V = after tail21 (st21 V) :=
  (pre20 V).trans (StableHlo.after_append seg20 tail21 (st20 V))
/-- The contents before stretch 22. -/
def st22 (V : Valuation τ sig (Elt F)) : Valuation τ sig (Elt F) := after seg21 (st21 V)
theorem pre22 (V : Valuation τ sig (Elt F)) : after ops V = after tail22 (st22 V) :=
  (pre21 V).trans (StableHlo.after_append seg21 tail22 (st21 V))
/-- The contents before stretch 23. -/
def st23 (V : Valuation τ sig (Elt F)) : Valuation τ sig (Elt F) := after seg22 (st22 V)
theorem pre23 (V : Valuation τ sig (Elt F)) : after ops V = after tail23 (st23 V) :=
  (pre22 V).trans (StableHlo.after_append seg22 tail23 (st22 V))
/-- The contents before stretch 24. -/
def st24 (V : Valuation τ sig (Elt F)) : Valuation τ sig (Elt F) := after seg23 (st23 V)
theorem pre24 (V : Valuation τ sig (Elt F)) : after ops V = after tail24 (st24 V) :=
  (pre23 V).trans (StableHlo.after_append seg23 tail24 (st23 V))
/-- The contents before stretch 25. -/
def st25 (V : Valuation τ sig (Elt F)) : Valuation τ sig (Elt F) := after seg24 (st24 V)
theorem pre25 (V : Valuation τ sig (Elt F)) : after ops V = after tail25 (st25 V) :=
  (pre24 V).trans (StableHlo.after_append seg24 tail25 (st24 V))
/-- The contents before stretch 26. -/
def st26 (V : Valuation τ sig (Elt F)) : Valuation τ sig (Elt F) := after seg25 (st25 V)
theorem pre26 (V : Valuation τ sig (Elt F)) : after ops V = after tail26 (st26 V) :=
  (pre25 V).trans (StableHlo.after_append seg25 tail26 (st25 V))
/-- The contents before stretch 27. -/
def st27 (V : Valuation τ sig (Elt F)) : Valuation τ sig (Elt F) := after seg26 (st26 V)
theorem pre27 (V : Valuation τ sig (Elt F)) : after ops V = after tail27 (st27 V) :=
  (pre26 V).trans (StableHlo.after_append seg26 tail27 (st26 V))
/-- The contents before stretch 28. -/
def st28 (V : Valuation τ sig (Elt F)) : Valuation τ sig (Elt F) := after seg27 (st27 V)
theorem pre28 (V : Valuation τ sig (Elt F)) : after ops V = after tail28 (st28 V) :=
  (pre27 V).trans (StableHlo.after_append seg27 tail28 (st27 V))

/-! ## The arguments are kept, and the frame -/

set_option maxRecDepth 65536 in
/-- No operation writes argument 0: after the whole line, from any contents, it holds what it held. -/
theorem at_main_arg0 (V : Valuation τ sig (Elt F)) :
    after ops V (main_arg0 : DevRef τ sig) = V (main_arg0 : DevRef τ sig) :=
  at_input V (st0 V) (pre0 V) tail0_writes (r := main_arg0) (by decide)

/-- Argument 0 after the whole line from a device's launch contents: what the device held at launch. -/
theorem kept_arg0 (m : (ℓ : Loc nD τ sig) → Buf (Elt F) ℓ) (c : Dev nD) :
    after ops (launchContents m c) (main_arg0 : DevRef τ sig) = m ((c.tc : Thread nD τ).loc main_arg0) :=
  at_main_arg0 (launchContents m c)

set_option maxRecDepth 65536 in
/-- No operation writes argument 1: after the whole line, from any contents, it holds what it held. -/
theorem at_main_arg1 (V : Valuation τ sig (Elt F)) :
    after ops V (main_arg1 : DevRef τ sig) = V (main_arg1 : DevRef τ sig) :=
  at_input V (st0 V) (pre0 V) tail0_writes (r := main_arg1) (by decide)

/-- Argument 1 after the whole line from a device's launch contents: what the device held at launch. -/
theorem kept_arg1 (m : (ℓ : Loc nD τ sig) → Buf (Elt F) ℓ) (c : Dev nD) :
    after ops (launchContents m c) (main_arg1 : DevRef τ sig) = m ((c.tc : Thread nD τ).loc main_arg1) :=
  at_main_arg1 (launchContents m c)

set_option maxRecDepth 65536 in
/-- No operation writes argument 2: after the whole line, from any contents, it holds what it held. -/
theorem at_main_arg2 (V : Valuation τ sig (Elt F)) :
    after ops V (main_arg2 : DevRef τ sig) = V (main_arg2 : DevRef τ sig) :=
  at_input V (st0 V) (pre0 V) tail0_writes (r := main_arg2) (by decide)

/-- Argument 2 after the whole line from a device's launch contents: what the device held at launch. -/
theorem kept_arg2 (m : (ℓ : Loc nD τ sig) → Buf (Elt F) ℓ) (c : Dev nD) :
    after ops (launchContents m c) (main_arg2 : DevRef τ sig) = m ((c.tc : Thread nD τ).loc main_arg2) :=
  at_main_arg2 (launchContents m c)

set_option maxRecDepth 65536 in
/-- No operation writes argument 3: after the whole line, from any contents, it holds what it held. -/
theorem at_main_arg3 (V : Valuation τ sig (Elt F)) :
    after ops V (main_arg3 : DevRef τ sig) = V (main_arg3 : DevRef τ sig) :=
  at_input V (st0 V) (pre0 V) tail0_writes (r := main_arg3) (by decide)

/-- Argument 3 after the whole line from a device's launch contents: what the device held at launch. -/
theorem kept_arg3 (m : (ℓ : Loc nD τ sig) → Buf (Elt F) ℓ) (c : Dev nD) :
    after ops (launchContents m c) (main_arg3 : DevRef τ sig) = m ((c.tc : Thread nD τ).loc main_arg3) :=
  at_main_arg3 (launchContents m c)

/-- On every device, for any float values, from any memory with zero counters: every weakly fair execution of @main
    terminates with the four arguments unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_arg0).trans (kept_arg0 m c), (h c main_arg1).trans (kept_arg1 m c),
      (h c main_arg2).trans (kept_arg2 m c), (h c main_arg3).trans (kept_arg3 m c)⟩) (run m ρ)

/-! ## The boundaries -/

set_option maxRecDepth 65536 in
/-- After the whole line `main_v3` is stretch 0's function of the whole line's contents at what the stretch reads. -/
theorem at_main_v3 (V : Valuation τ sig (Elt F)) :
    after ops V (main_v3 : DevRef τ sig) = gPatches (after ops V (main_arg0 : DevRef τ sig)) := by
  have h := (at_result V (st0 V) (pre0 V) tail1_writes (r := main_v3) (by decide)).trans (seg0_main_v3 (st0 V))
  rw [← at_input V (st0 V) (pre0 V) tail0_writes (r := main_arg0) (by decide)] at h
  exact h

set_option maxRecDepth 65536 in
/-- After the whole line `main_v11` is stretch 0's function of the whole line's contents at what the stretch reads. -/
theorem at_main_v11 (V : Valuation τ sig (Elt F)) :
    after ops V (main_v11 : DevRef τ sig) = gInit := by
  have h := (at_result V (st0 V) (pre0 V) tail1_writes (r := main_v11) (by decide)).trans (seg0_main_v11 (st0 V))
  exact h

set_option maxRecDepth 65536 in
/-- After the whole line `main_v36` is stretch 1's function of the whole line's contents at what the stretch reads. -/
theorem at_main_v36 (V : Valuation τ sig (Elt F)) :
    after ops V (main_v36 : DevRef τ sig) = gRyD0 (after ops V (main_v11 : DevRef τ sig)) (after ops V (main_v3 : DevRef τ sig)) := by
  have h := (at_result V (st1 V) (pre1 V) tail2_writes (r := main_v36) (by decide)).trans (seg1_main_v36 (st1 V))
  rw [← at_input V (st1 V) (pre1 V) tail1_writes (r := main_v11) (by decide),
    ← at_input V (st1 V) (pre1 V) tail1_writes (r := main_v3) (by decide)] at h
  exact h

set_option maxRecDepth 65536 in
/-- After the whole line `main_v61` is stretch 2's function of the whole line's contents at what the stretch reads. -/
theorem at_main_v61 (V : Valuation τ sig (Elt F)) :
    after ops V (main_v61 : DevRef τ sig) = gRyD1 (after ops V (main_v36 : DevRef τ sig)) (after ops V (main_v3 : DevRef τ sig)) := by
  have h := (at_result V (st2 V) (pre2 V) tail3_writes (r := main_v61) (by decide)).trans (seg2_main_v61 (st2 V))
  rw [← at_input V (st2 V) (pre2 V) tail2_writes (r := main_v36) (by decide),
    ← at_input V (st2 V) (pre2 V) tail2_writes (r := main_v3) (by decide)] at h
  exact h

set_option maxRecDepth 65536 in
/-- After the whole line `main_v86` is stretch 3's function of the whole line's contents at what the stretch reads. -/
theorem at_main_v86 (V : Valuation τ sig (Elt F)) :
    after ops V (main_v86 : DevRef τ sig) = gRyD2 (after ops V (main_v61 : DevRef τ sig)) (after ops V (main_v3 : DevRef τ sig)) := by
  have h := (at_result V (st3 V) (pre3 V) tail4_writes (r := main_v86) (by decide)).trans (seg3_main_v86 (st3 V))
  rw [← at_input V (st3 V) (pre3 V) tail3_writes (r := main_v61) (by decide),
    ← at_input V (st3 V) (pre3 V) tail3_writes (r := main_v3) (by decide)] at h
  exact h

set_option maxRecDepth 65536 in
/-- After the whole line `main_v111` is stretch 4's function of the whole line's contents at what the stretch reads. -/
theorem at_main_v111 (V : Valuation τ sig (Elt F)) :
    after ops V (main_v111 : DevRef τ sig) = gRyD3 (after ops V (main_v86 : DevRef τ sig)) (after ops V (main_v3 : DevRef τ sig)) := by
  have h := (at_result V (st4 V) (pre4 V) tail5_writes (r := main_v111) (by decide)).trans (seg4_main_v111 (st4 V))
  rw [← at_input V (st4 V) (pre4 V) tail4_writes (r := main_v86) (by decide),
    ← at_input V (st4 V) (pre4 V) tail4_writes (r := main_v3) (by decide)] at h
  exact h

set_option maxRecDepth 65536 in
/-- After the whole line `main_v132` is stretch 5's function of the whole line's contents at what the stretch reads. -/
theorem at_main_v132 (V : Valuation τ sig (Elt F)) :
    after ops V (main_v132 : DevRef τ sig) = gRyP0 (after ops V (main_v111 : DevRef τ sig)) (after ops V (main_arg1 : DevRef τ sig)) := by
  have h := (at_result V (st5 V) (pre5 V) tail6_writes (r := main_v132) (by decide)).trans (seg5_main_v132 (st5 V))
  rw [← at_input V (st5 V) (pre5 V) tail5_writes (r := main_v111) (by decide),
    ← at_input V (st5 V) (pre5 V) tail5_writes (r := main_arg1) (by decide)] at h
  exact h

set_option maxRecDepth 65536 in
/-- After the whole line `main_v138` is stretch 6's function of the whole line's contents at what the stretch reads. -/
theorem at_main_v138 (V : Valuation τ sig (Elt F)) :
    after ops V (main_v138 : DevRef τ sig) = gCx0 (after ops V (main_v132 : DevRef τ sig)) := by
  have h := (at_result V (st6 V) (pre6 V) tail7_writes (r := main_v138) (by decide)).trans (seg6_main_v138 (st6 V))
  rw [← at_input V (st6 V) (pre6 V) tail6_writes (r := main_v132) (by decide)] at h
  exact h

set_option maxRecDepth 65536 in
/-- After the whole line `main_v159` is stretch 7's function of the whole line's contents at what the stretch reads. -/
theorem at_main_v159 (V : Valuation τ sig (Elt F)) :
    after ops V (main_v159 : DevRef τ sig) = gRyP1 (after ops V (main_v138 : DevRef τ sig)) (after ops V (main_arg1 : DevRef τ sig)) := by
  have h := (at_result V (st7 V) (pre7 V) tail8_writes (r := main_v159) (by decide)).trans (seg7_main_v159 (st7 V))
  rw [← at_input V (st7 V) (pre7 V) tail7_writes (r := main_v138) (by decide),
    ← at_input V (st7 V) (pre7 V) tail7_writes (r := main_arg1) (by decide)] at h
  exact h

set_option maxRecDepth 65536 in
/-- After the whole line `main_v165` is stretch 8's function of the whole line's contents at what the stretch reads. -/
theorem at_main_v165 (V : Valuation τ sig (Elt F)) :
    after ops V (main_v165 : DevRef τ sig) = gCx1 (after ops V (main_v159 : DevRef τ sig)) := by
  have h := (at_result V (st8 V) (pre8 V) tail9_writes (r := main_v165) (by decide)).trans (seg8_main_v165 (st8 V))
  rw [← at_input V (st8 V) (pre8 V) tail8_writes (r := main_v159) (by decide)] at h
  exact h

set_option maxRecDepth 65536 in
/-- After the whole line `main_v186` is stretch 9's function of the whole line's contents at what the stretch reads. -/
theorem at_main_v186 (V : Valuation τ sig (Elt F)) :
    after ops V (main_v186 : DevRef τ sig) = gRyP2 (after ops V (main_v165 : DevRef τ sig)) (after ops V (main_arg1 : DevRef τ sig)) := by
  have h := (at_result V (st9 V) (pre9 V) tail10_writes (r := main_v186) (by decide)).trans (seg9_main_v186 (st9 V))
  rw [← at_input V (st9 V) (pre9 V) tail9_writes (r := main_v165) (by decide),
    ← at_input V (st9 V) (pre9 V) tail9_writes (r := main_arg1) (by decide)] at h
  exact h

set_option maxRecDepth 65536 in
/-- After the whole line `main_v192` is stretch 10's function of the whole line's contents at what the stretch reads. -/
theorem at_main_v192 (V : Valuation τ sig (Elt F)) :
    after ops V (main_v192 : DevRef τ sig) = gCx2 (after ops V (main_v186 : DevRef τ sig)) := by
  have h := (at_result V (st10 V) (pre10 V) tail11_writes (r := main_v192) (by decide)).trans (seg10_main_v192 (st10 V))
  rw [← at_input V (st10 V) (pre10 V) tail10_writes (r := main_v186) (by decide)] at h
  exact h

set_option maxRecDepth 65536 in
/-- After the whole line `main_v213` is stretch 11's function of the whole line's contents at what the stretch reads. -/
theorem at_main_v213 (V : Valuation τ sig (Elt F)) :
    after ops V (main_v213 : DevRef τ sig) = gRyP3 (after ops V (main_v192 : DevRef τ sig)) (after ops V (main_arg1 : DevRef τ sig)) := by
  have h := (at_result V (st11 V) (pre11 V) tail12_writes (r := main_v213) (by decide)).trans (seg11_main_v213 (st11 V))
  rw [← at_input V (st11 V) (pre11 V) tail11_writes (r := main_v192) (by decide),
    ← at_input V (st11 V) (pre11 V) tail11_writes (r := main_arg1) (by decide)] at h
  exact h

set_option maxRecDepth 65536 in
/-- After the whole line `main_v219` is stretch 12's function of the whole line's contents at what the stretch reads. -/
theorem at_main_v219 (V : Valuation τ sig (Elt F)) :
    after ops V (main_v219 : DevRef τ sig) = gCx3 (after ops V (main_v213 : DevRef τ sig)) := by
  have h := (at_result V (st12 V) (pre12 V) tail13_writes (r := main_v219) (by decide)).trans (seg12_main_v219 (st12 V))
  rw [← at_input V (st12 V) (pre12 V) tail12_writes (r := main_v213) (by decide)] at h
  exact h

set_option maxRecDepth 65536 in
/-- After the whole line `main_v244` is stretch 13's function of the whole line's contents at what the stretch reads. -/
theorem at_main_v244 (V : Valuation τ sig (Elt F)) :
    after ops V (main_v244 : DevRef τ sig) = gRyD0 (after ops V (main_v219 : DevRef τ sig)) (after ops V (main_v3 : DevRef τ sig)) := by
  have h := (at_result V (st13 V) (pre13 V) tail14_writes (r := main_v244) (by decide)).trans (seg13_main_v244 (st13 V))
  rw [← at_input V (st13 V) (pre13 V) tail13_writes (r := main_v219) (by decide),
    ← at_input V (st13 V) (pre13 V) tail13_writes (r := main_v3) (by decide)] at h
  exact h

set_option maxRecDepth 65536 in
/-- After the whole line `main_v269` is stretch 14's function of the whole line's contents at what the stretch reads. -/
theorem at_main_v269 (V : Valuation τ sig (Elt F)) :
    after ops V (main_v269 : DevRef τ sig) = gRyD1 (after ops V (main_v244 : DevRef τ sig)) (after ops V (main_v3 : DevRef τ sig)) := by
  have h := (at_result V (st14 V) (pre14 V) tail15_writes (r := main_v269) (by decide)).trans (seg14_main_v269 (st14 V))
  rw [← at_input V (st14 V) (pre14 V) tail14_writes (r := main_v244) (by decide),
    ← at_input V (st14 V) (pre14 V) tail14_writes (r := main_v3) (by decide)] at h
  exact h

set_option maxRecDepth 65536 in
/-- After the whole line `main_v294` is stretch 15's function of the whole line's contents at what the stretch reads. -/
theorem at_main_v294 (V : Valuation τ sig (Elt F)) :
    after ops V (main_v294 : DevRef τ sig) = gRyD2 (after ops V (main_v269 : DevRef τ sig)) (after ops V (main_v3 : DevRef τ sig)) := by
  have h := (at_result V (st15 V) (pre15 V) tail16_writes (r := main_v294) (by decide)).trans (seg15_main_v294 (st15 V))
  rw [← at_input V (st15 V) (pre15 V) tail15_writes (r := main_v269) (by decide),
    ← at_input V (st15 V) (pre15 V) tail15_writes (r := main_v3) (by decide)] at h
  exact h

set_option maxRecDepth 65536 in
/-- After the whole line `main_v319` is stretch 16's function of the whole line's contents at what the stretch reads. -/
theorem at_main_v319 (V : Valuation τ sig (Elt F)) :
    after ops V (main_v319 : DevRef τ sig) = gRyD3 (after ops V (main_v294 : DevRef τ sig)) (after ops V (main_v3 : DevRef τ sig)) := by
  have h := (at_result V (st16 V) (pre16 V) tail17_writes (r := main_v319) (by decide)).trans (seg16_main_v319 (st16 V))
  rw [← at_input V (st16 V) (pre16 V) tail16_writes (r := main_v294) (by decide),
    ← at_input V (st16 V) (pre16 V) tail16_writes (r := main_v3) (by decide)] at h
  exact h

set_option maxRecDepth 65536 in
/-- After the whole line `main_v340` is stretch 17's function of the whole line's contents at what the stretch reads. -/
theorem at_main_v340 (V : Valuation τ sig (Elt F)) :
    after ops V (main_v340 : DevRef τ sig) = gRyP0 (after ops V (main_v319 : DevRef τ sig)) (after ops V (main_arg1 : DevRef τ sig)) := by
  have h := (at_result V (st17 V) (pre17 V) tail18_writes (r := main_v340) (by decide)).trans (seg17_main_v340 (st17 V))
  rw [← at_input V (st17 V) (pre17 V) tail17_writes (r := main_v319) (by decide),
    ← at_input V (st17 V) (pre17 V) tail17_writes (r := main_arg1) (by decide)] at h
  exact h

set_option maxRecDepth 65536 in
/-- After the whole line `main_v346` is stretch 18's function of the whole line's contents at what the stretch reads. -/
theorem at_main_v346 (V : Valuation τ sig (Elt F)) :
    after ops V (main_v346 : DevRef τ sig) = gCx0 (after ops V (main_v340 : DevRef τ sig)) := by
  have h := (at_result V (st18 V) (pre18 V) tail19_writes (r := main_v346) (by decide)).trans (seg18_main_v346 (st18 V))
  rw [← at_input V (st18 V) (pre18 V) tail18_writes (r := main_v340) (by decide)] at h
  exact h

set_option maxRecDepth 65536 in
/-- After the whole line `main_v367` is stretch 19's function of the whole line's contents at what the stretch reads. -/
theorem at_main_v367 (V : Valuation τ sig (Elt F)) :
    after ops V (main_v367 : DevRef τ sig) = gRyP1 (after ops V (main_v346 : DevRef τ sig)) (after ops V (main_arg1 : DevRef τ sig)) := by
  have h := (at_result V (st19 V) (pre19 V) tail20_writes (r := main_v367) (by decide)).trans (seg19_main_v367 (st19 V))
  rw [← at_input V (st19 V) (pre19 V) tail19_writes (r := main_v346) (by decide),
    ← at_input V (st19 V) (pre19 V) tail19_writes (r := main_arg1) (by decide)] at h
  exact h

set_option maxRecDepth 65536 in
/-- After the whole line `main_v373` is stretch 20's function of the whole line's contents at what the stretch reads. -/
theorem at_main_v373 (V : Valuation τ sig (Elt F)) :
    after ops V (main_v373 : DevRef τ sig) = gCx1 (after ops V (main_v367 : DevRef τ sig)) := by
  have h := (at_result V (st20 V) (pre20 V) tail21_writes (r := main_v373) (by decide)).trans (seg20_main_v373 (st20 V))
  rw [← at_input V (st20 V) (pre20 V) tail20_writes (r := main_v367) (by decide)] at h
  exact h

set_option maxRecDepth 65536 in
/-- After the whole line `main_v394` is stretch 21's function of the whole line's contents at what the stretch reads. -/
theorem at_main_v394 (V : Valuation τ sig (Elt F)) :
    after ops V (main_v394 : DevRef τ sig) = gRyP2 (after ops V (main_v373 : DevRef τ sig)) (after ops V (main_arg1 : DevRef τ sig)) := by
  have h := (at_result V (st21 V) (pre21 V) tail22_writes (r := main_v394) (by decide)).trans (seg21_main_v394 (st21 V))
  rw [← at_input V (st21 V) (pre21 V) tail21_writes (r := main_v373) (by decide),
    ← at_input V (st21 V) (pre21 V) tail21_writes (r := main_arg1) (by decide)] at h
  exact h

set_option maxRecDepth 65536 in
/-- After the whole line `main_v400` is stretch 22's function of the whole line's contents at what the stretch reads. -/
theorem at_main_v400 (V : Valuation τ sig (Elt F)) :
    after ops V (main_v400 : DevRef τ sig) = gCx2 (after ops V (main_v394 : DevRef τ sig)) := by
  have h := (at_result V (st22 V) (pre22 V) tail23_writes (r := main_v400) (by decide)).trans (seg22_main_v400 (st22 V))
  rw [← at_input V (st22 V) (pre22 V) tail22_writes (r := main_v394) (by decide)] at h
  exact h

set_option maxRecDepth 65536 in
/-- After the whole line `main_v421` is stretch 23's function of the whole line's contents at what the stretch reads. -/
theorem at_main_v421 (V : Valuation τ sig (Elt F)) :
    after ops V (main_v421 : DevRef τ sig) = gRyP3 (after ops V (main_v400 : DevRef τ sig)) (after ops V (main_arg1 : DevRef τ sig)) := by
  have h := (at_result V (st23 V) (pre23 V) tail24_writes (r := main_v421) (by decide)).trans (seg23_main_v421 (st23 V))
  rw [← at_input V (st23 V) (pre23 V) tail23_writes (r := main_v400) (by decide),
    ← at_input V (st23 V) (pre23 V) tail23_writes (r := main_arg1) (by decide)] at h
  exact h

set_option maxRecDepth 65536 in
/-- After the whole line `main_v427` is stretch 24's function of the whole line's contents at what the stretch reads. -/
theorem at_main_v427 (V : Valuation τ sig (Elt F)) :
    after ops V (main_v427 : DevRef τ sig) = gCx3 (after ops V (main_v421 : DevRef τ sig)) := by
  have h := (at_result V (st24 V) (pre24 V) tail25_writes (r := main_v427) (by decide)).trans (seg24_main_v427 (st24 V))
  rw [← at_input V (st24 V) (pre24 V) tail24_writes (r := main_v421) (by decide)] at h
  exact h

set_option maxRecDepth 65536 in
/-- After the whole line `main_v428` is stretch 25's function of the whole line's contents at what the stretch reads. -/
theorem at_main_v428 (V : Valuation τ sig (Elt F)) :
    after ops V (main_v428 : DevRef τ sig) = gProbs (after ops V (main_v427 : DevRef τ sig)) := by
  have h := (at_result V (st25 V) (pre25 V) tail26_writes (r := main_v428) (by decide)).trans (seg25_main_v428 (st25 V))
  rw [← at_input V (st25 V) (pre25 V) tail25_writes (r := main_v427) (by decide)] at h
  exact h

set_option maxRecDepth 65536 in
/-- After the whole line `main_v458` is stretch 26's function of the whole line's contents at what the stretch reads. -/
theorem at_main_v458 (V : Valuation τ sig (Elt F)) :
    after ops V (main_v458 : DevRef τ sig) = gFeats (after ops V (main_v428 : DevRef τ sig)) := by
  have h := (at_result V (st26 V) (pre26 V) tail27_writes (r := main_v458) (by decide)).trans (seg26_main_v458 (st26 V))
  rw [← at_input V (st26 V) (pre26 V) tail26_writes (r := main_v428) (by decide)] at h
  exact h

set_option maxRecDepth 65536 in
/-- After the whole line `main_v464` is stretch 27's function of the whole line's contents at what the stretch reads. -/
theorem at_main_v464 (V : Valuation τ sig (Elt F)) :
    after ops V (main_v464 : DevRef τ sig) = gHead (after ops V (main_v458 : DevRef τ sig)) (after ops V (main_arg2 : DevRef τ sig)) (after ops V (main_arg3 : DevRef τ sig)) := by
  have h := (at_result V (st27 V) (pre27 V) tail28_writes (r := main_v464) (by decide)).trans (seg27_main_v464 (st27 V))
  rw [← at_input V (st27 V) (pre27 V) tail27_writes (r := main_v458) (by decide),
    ← at_input V (st27 V) (pre27 V) tail27_writes (r := main_arg2) (by decide),
    ← at_input V (st27 V) (pre27 V) tail27_writes (r := main_arg3) (by decide)] at h
  exact h

end Cert.ReferenceIdeal.RefRun

end
-- ==== Proof.KerBodyOps.lean ====
/-
  The layout operations and the matrix product of the kernel body read at an index, at the ideal instance:
  a row cut out of a sixteen-row block and flattened; sixteen (or four) flat rows stacked into a block; the
  product of a 16 x 16 matrix with a sixteen-row block into a zero accumulator as a sum over the sixteen
  contraction positions; and a load of one row of the four-row block of angles.
-/
import proofs.«159359_j65481071398168_2_alg».proof.Proof.Gen.KernelIdeal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Idealize.ShloMosaic Idealize.ShloMosaic.ValueIdx Cert.KernelIdeal.Gen

/-- Row `r` cut out of a sixteen-row block and flattened reads the block at `(r, n)`. -/
theorem row_apply {α : Type} (r : Nat) (hr : r < 16) (X : S16x57344.Idx → α)
    (h1 : S16x57344.Slices ![r, 0] S1x57344) (h2 : S1x57344.ShapeCasts S57344) (n : Fin 57344) :
    shapeCast S57344 (extractStridedSlice S1x57344 ![r, 0] X h1) h2 (ix1 n) = X (ix2 (⟨r, hr⟩ : Fin 16) n) :=
  (shapeCast_1a_a_apply _ h2 n).trans
    (slice2_axis0_apply r X h1 (0 : Fin 1) n (⟨r, hr⟩ : Fin 16) (Nat.add_zero r).symm)

/-- Sixteen flat rows, each given one leading unit axis, stacked along that axis: row `j` of the block is the
    `j`-th of them. -/
theorem stack16_apply {α : Type} (f : Fin 16 → (S57344.Idx → α)) (hc : S57344.ShapeCasts S1x57344)
    (h : Shape.Concatenates ((List.ofFn fun k : Fin 16 =>
      (⟨S1x57344, shapeCast S1x57344 (f k) hc⟩ : (s : Shape) × (s.Idx → α))).map (·.1)) S16x57344 0)
    (j : Fin 16) (n : Fin 57344) :
    concatenate S16x57344 0 (List.ofFn fun k : Fin 16 =>
      (⟨S1x57344, shapeCast S1x57344 (f k) hc⟩ : (s : Shape) × (s.Idx → α))) h (ix2 j n) = f j (ix1 n) :=
  (concatenate_ofFn_unit_apply (t := S16x57344) (s₁ := S1x57344) 0 (fun k => shapeCast S1x57344 (f k) hc) h rfl rfl
    (ix2 j n) j rfl (ix2 (0 : Fin 1) n) (fun b hb => by
      match b with
      | ⟨0, _⟩ => exact absurd rfl hb
      | ⟨1, _⟩ => rfl)).trans (shapeCast_a_1a_apply (f j) hc 0 n)

/-- Four flat rows stacked the same way. -/
theorem stack4_apply {α : Type} (f : Fin 4 → (S57344.Idx → α)) (hc : S57344.ShapeCasts S1x57344)
    (h : Shape.Concatenates ((List.ofFn fun k : Fin 4 =>
      (⟨S1x57344, shapeCast S1x57344 (f k) hc⟩ : (s : Shape) × (s.Idx → α))).map (·.1)) S4x57344 0)
    (j : Fin 4) (n : Fin 57344) :
    concatenate S4x57344 0 (List.ofFn fun k : Fin 4 =>
      (⟨S1x57344, shapeCast S1x57344 (f k) hc⟩ : (s : Shape) × (s.Idx → α))) h (ix2 j n) = f j (ix1 n) :=
  (concatenate_ofFn_unit_apply (t := S4x57344) (s₁ := S1x57344) 0 (fun k => shapeCast S1x57344 (f k) hc) h rfl rfl
    (ix2 j n) j rfl (ix2 (0 : Fin 1) n) (fun b hb => by
      match b with
      | ⟨0, _⟩ => exact absurd rfl hb
      | ⟨1, _⟩ => rfl)).trans (shapeCast_a_1a_apply (f j) hc 0 n)

/-- The dimension numbers of the body's two matrix products: the matrix's columns against the block's rows. -/
abbrev D : DotDims S16x16 S16x57344 S16x57344 := dot_S16x16_S16x57344_S16x57344_1_0_0_1_n_n

theorem lhs_D_0 (i : S16x57344.Idx) (q : D.contr.Idx) : (D.lhsIdx i q 0).val = (i 0).val := by
  unfold DotDims.lhsIdx
  rw [dif_neg (show ¬(0 : Fin S16x16.rank) ∈ D.lhsBatch by decide),
    dif_pos (show (0 : Fin S16x16.rank) ∈ D.lhsNonContracting by decide)]
  rfl
theorem lhs_D_1 (i : S16x57344.Idx) (q : D.contr.Idx) : (D.lhsIdx i q 1).val = (q ⟨0, by decide⟩).val :=
  D.lhsIdx_val_of_single rfl i q
theorem rhs_D_0 (i : S16x57344.Idx) (q : D.contr.Idx) : (D.rhsIdx i q 0).val = (q ⟨0, by decide⟩).val :=
  D.rhsIdx_val_of_single rfl i q
theorem rhs_D_1 (i : S16x57344.Idx) (q : D.contr.Idx) : (D.rhsIdx i q 1).val = (i 1).val := by
  unfold DotDims.rhsIdx
  rw [dif_neg (show ¬(1 : Fin S16x57344.rank) ∈ D.rhsBatch by decide),
    dif_pos (show (1 : Fin S16x57344.rank) ∈ D.rhsNonContracting by decide)]
  rfl

/-- The product of a 16 x 16 matrix with a sixteen-row block into the zero accumulator, at `(j, n)`: the sum over
    the sixteen contraction positions of the matrix's row `j` against the block's column `n`. -/
theorem matmul16_apply (L : FVec Ideal S16x16 .f32) (R : FVec Ideal S16x57344 .f32) (j : Fin 16) (n : Fin 57344) :
    matmul D (some .fp32) L R (constant (F := Ideal) S16x57344 .f32 0x00000000#32) (ix2 j n)
      = ∑ k : Fin 16, L (ix2 j k) * R (ix2 k n) := by
  show FloatOps.matmul D (some .fp32) L R (constant (F := Ideal) S16x57344 .f32 0x00000000#32) (ix2 j n) = _
  rw [Ideal.matmul_constant_zero_apply, ← Equiv.sum_comp (contrEquiv1 D 16 rfl rfl).symm]
  refine Finset.sum_congr rfl fun k _ => ?_
  have hk := contrEquiv1_symm_val D 16 rfl rfl k
  have el : D.lhsIdx (ix2 j n) ((contrEquiv1 D 16 rfl rfl).symm k) = ix2 j k := funext fun a => Fin.ext (by
    match a with
    | ⟨0, _⟩ => exact lhs_D_0 _ _
    | ⟨1, _⟩ => exact (lhs_D_1 _ _).trans hk)
  have er : D.rhsIdx (ix2 j n) ((contrEquiv1 D 16 rfl rfl).symm k) = ix2 k n := funext fun a => Fin.ext (by
    match a with
    | ⟨0, _⟩ => exact (rhs_D_0 _ _).trans hk
    | ⟨1, _⟩ => exact rhs_D_1 _ _)
  rw [el, er]

/-- A load of row `q` of the four-row block of angles, as a one-row block, reads the block at `(q, n)`. -/
theorem ld_row_apply {Val : EltTy → Type} (x : S4x57344.Idx → Val .f32) (q : Nat) (hq : q < 4)
    (inb : ∀ a, (![q, 0] : Fin 2 → Nat) a + S1x57344.size a ≤ S4x57344.size a) (n : Fin 57344) :
    View.ld x (Rect.unit (s := S4x57344) ![q, 0] S1x57344.size inb) (ix2 (0 : Fin 1) n) = x (ix2 (⟨q, hq⟩ : Fin 4) n) := by
  show x ((Rect.unit (s := S4x57344) ![q, 0] S1x57344.size inb).emb (ix2 (0 : Fin 1) n)) = _
  refine congrArg x (funext fun a => Fin.ext ?_)
  rw [Rect.emb_apply]
  match a with
  | ⟨0, _⟩ => show q + 1 * 0 = q; omega
  | ⟨1, _⟩ => show 0 + 1 * n.val = n.val; omega

end Cert.KernelIdeal.Body
-- ==== Proof.KerArr.lean ====
/-
  From blocks to the array.  The region's output array [4, 802816] is written in fourteen column blocks of 57344
  patches; block t holds, at (q, n), the body's stored value for the matrix block (always the whole 16 x 16
  matrix) and the four angle rows of block t at column n.  If the stored value at a column is a function
  `spec` of the matrix and of that column's four angles (which is what the body lemma provides), then the whole
  array after the run is, at (q, N), `spec` of the matrix and the four angles of patch N at q: the block that
  covers patch N is N / 57344, and a block's coordinate is its index times its size plus the coordinate inside it.
-/
import proofs.«159359_j65481071398168_2_alg».proof.Proof.FrameIdealP
import proofs.«159359_j65481071398168_2_alg».proof.Proof.KerBodyOps
import Idealize.ShloMosaic.Lib.Pipeline.Value
import Idealize.ShloMosaic.Lib.ValueIdx

set_option maxRecDepth 16384

noncomputable section

namespace Cert.KernelIdeal.KerArr

open Idealize.ShloMosaic Idealize.ShloMosaic.TcCoe Idealize.ShloMosaic.ValueIdx Idealize.SL.Sem
open Idealize.ShloMosaic.Pipeline (Dat Cfg Window)
open Cert.KernelIdeal Cert.KernelIdeal.GenP

variable (m : (ℓ : Loc nD τ sig) → Buf (Elt Ideal) ℓ) (ρ : Dev nD → PrngReg)

-- the stored value at a column as a function of the matrix and the column's four angles
variable (spec : (S16x16.Idx → EReal) → EReal → EReal → EReal → EReal → Fin 4 → EReal)

/-- The output array as one function of the matrix array and the angle array. -/
def G (U : S16x16.Idx → EReal) (PT : S4x802816.Idx → EReal) : S4x802816.Idx → EReal := fun i =>
  spec U (PT (ix2 (0 : Fin 4) (i 1))) (PT (ix2 (1 : Fin 4) (i 1))) (PT (ix2 (2 : Fin 4) (i 1))) (PT (ix2 (3 : Fin 4) (i 1))) (i 0)

theorem hz : (![0, 0] : Fin 2 → Nat) = fun _ => 0 := funext fun a => by fin_cases a <;> rfl

/-- The printed index maps over the grid: the matrix block never moves; the angle block and the output block are
    block t along the patch axis. -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

variable (hspec : ∀ (u : Vec Ideal S16x16 .f32) (a0 a1 a2 a3 : Vec Ideal S1x57344 .f32) (q : Fin 4) (n : Fin 57344),
    Cert.KernelIdeal.Body.stored (F := Ideal) u a0 a1 a2 a3 (ix2 q n)
      = spec u (a0 (ix2 (0 : Fin 1) n)) (a1 (ix2 (0 : Fin 1) n)) (a2 (ix2 (0 : Fin 1) n)) (a3 (ix2 (0 : Fin 1) n)) q)

include hspec in
/-- What point t writes back is block t of `G` of the arrays as the region finds them. -/
theorem flushed_eq (c : Dev nD) (t : Fin cfg0.N) :
    (dats m 0 c).flushed 2 t = ((cfg0.win 2).blk t).view.read (Elt Ideal) (G spec (V m c main_v119) (V m c main_v2)) := by
  show (cfg0.win 2).cut (grid0.coords t) ((dats m 0 c).after 2 t) = _
  rw [after0_2]
  unfold out0_2
  rw [View.canon_unit_zero hz]
  obtain ⟨e00, e01, e10, e11, e20, e21⟩ := idx_facts t
  have ht : t.val < 14 := Gen.N_0 ▸ t.isLt
  have hU : View.ld (iblk m c 0 t) r0_4 = V m c main_v119 := by
    rw [View.ld_unit_zero (S := S16x16) hz]
    funext y
    show V m c main_v119 (((cfg0.win 0).blk t).view.emb y) = V m c main_v119 y
    refine congrArg _ (funext fun a => Fin.ext ?_)
    match a with
    | ⟨0, _⟩ => show win0_0.index t (0 : Fin 2) * 16 + 1 * (y 0).val = (y 0).val; omega
    | ⟨1, _⟩ => show win0_0.index t (1 : Fin 2) * 16 + 1 * (y 1).val = (y 1).val; omega
  have hA : ∀ (k : Nat) (hk : k < 4) (inb : ∀ a, (![k, 0] : Fin 2 → Nat) a + S1x57344.size a ≤ S4x57344.size a) (n : Fin 57344)
      (hN : t.val * 57344 + n.val < 802816),
      View.ld (iblk m c 1 t) (Rect.unit (s := S4x57344) ![k, 0] S1x57344.size inb) (ix2 (0 : Fin 1) n)
        = V m c main_v2 (ix2 (⟨k, hk⟩ : Fin 4) (⟨t.val * 57344 + n.val, hN⟩ : Fin 802816)) := by
    intro k hk inb n hN
    refine (Cert.KernelIdeal.Body.ld_row_apply (iblk m c 1 t) k hk inb n).trans ?_
    show V m c main_v2 (((cfg0.win 1).blk t).view.emb (ix2 (⟨k, hk⟩ : Fin 4) n)) = _
    refine congrArg _ (funext fun a => Fin.ext ?_)
    match a with
    | ⟨0, _⟩ => show win0_1.index t (0 : Fin 2) * 4 + 1 * k = k; omega
    | ⟨1, _⟩ => show win0_1.index t (1 : Fin 2) * 57344 + 1 * n.val = t.val * 57344 + n.val; omega
  funext (j : S4x57344.Idx)
  obtain ⟨q, n, rfl⟩ : ∃ (q : Fin 4) (n : Fin 57344), j = ix2 q n := ⟨j 0, j 1, eq_ix2 j⟩
  have hN : t.val * 57344 + n.val < 802816 := by have := n.isLt; omega
  have hemb : ((cfg0.win 2).blk t).view.emb (ix2 q n) = (ix2 q (⟨t.val * 57344 + n.val, hN⟩ : Fin 802816) : S4x802816.Idx) := by
    refine funext fun a => Fin.ext ?_
    match a with
    | ⟨0, _⟩ => show win0_2.index t (0 : Fin 2) * 4 + 1 * q.val = q.val; omega
    | ⟨1, _⟩ => show win0_2.index t (1 : Fin 2) * 57344 + 1 * n.val = t.val * 57344 + n.val; omega
  refine (hspec _ _ _ _ _ q n).trans ?_
  show _ = G spec (V m c main_v119) (V m c main_v2) (((cfg0.win 2).blk t).view.emb (ix2 q n))
  rw [hemb]
  exact congrFun (congr (congr (congr (congr (congrArg spec hU) (hA 0 (by decide) _ n hN)) (hA 1 (by decide) _ n hN))
    (hA 2 (by decide) _ n hN)) (hA 3 (by decide) _ n hN)) q

/-- An index of the array is in point t's block iff each coordinate is in the block's range on its axis. -/
theorem mem_blk (t : Fin cfg0.N) (i : S4x802816.Idx) :
    i ∈ ((cfg0.win 2).blk t).view.set ↔ ∀ a : Fin 2, win0_2.index t a * S4x57344.size a ≤ (i a).val ∧ (i a).val < win0_2.index t a * S4x57344.size a + S4x57344.size a := by
  show i ∈ ((View.whole main_v120).slice (win0_2.rect t)).set ↔ _
  rw [View.set_slice_whole, Rect.mem_set_unit]
  exact Iff.rfl

/-- Every index of the output array is in the block of the point its patch coordinate divided by 57344 names. -/
theorem cover (i : S4x802816.Idx) : ∃ t : Fin cfg0.N, (cfg0.win 2).flush t = true ∧ i ∈ ((cfg0.win 2).blk t).view.set := by
  have hi0 : (i 0).val < 4 := (i 0).isLt
  have hi1 : (i 1).val < 802816 := (i 1).isLt
  have hlt : (i 1).val / 57344 < cfg0.N := by rw [show cfg0.N = 14 from Gen.N_0]; omega
  refine ⟨⟨(i 1).val / 57344, hlt⟩, Gen.flush0_2 _, ?_⟩
  obtain ⟨-, -, -, -, e20, e21⟩ := idx_facts ⟨(i 1).val / 57344, hlt⟩
  rw [mem_blk]
  intro a
  match a with
  | ⟨0, _⟩ => show win0_2.index _ (0 : Fin 2) * 4 ≤ (i 0).val ∧ (i 0).val < win0_2.index _ (0 : Fin 2) * 4 + 4; omega
  | ⟨1, _⟩ => show win0_2.index _ (1 : Fin 2) * 57344 ≤ (i 1).val ∧ (i 1).val < win0_2.index _ (1 : Fin 2) * 57344 + 57344; simp only [e21]; omega

include hspec in
/-- The output array after the run, as one function of the arrays the region finds. -/
theorem final (c : Dev nD) : (dats m 0 c).arrAt 2 cfg0.N = G spec (V m c main_v119) (V m c main_v2) :=
  (dats m 0 c).arrAt_eq_of_cover 2 (G spec (V m c main_v119) (V m c main_v2)) (fun t _ => flushed_eq m spec hspec c t) cover

end Cert.KernelIdeal.KerArr

end
-- ==== Proof.KerTail.lean ====
/-
  The host lines after the kernel's region, as one function of the region's output array and the last two
  arguments: the [4, 802816] output is transposed and regrouped into [4096, 784] feature rows, multiplied by the
  transposed weights, the bias row is added, and each row of ten logits goes through log-softmax
  (subtract the row maximum, subtract the logarithm of the sum of exponentials).
-/
import proofs.«159359_j65481071398168_2_alg».proof.Proof.Gen.KernelIdeal.Launch
import proofs.«159359_j65481071398168_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.StableHlo.Run
import Idealize.ShloMosaic.Lib.Tactic

set_option maxRecDepth 65536

noncomputable section

namespace Cert.KernelIdeal.KerTail

open Idealize.ShloMosaic Idealize.ShloMosaic.TcCoe Idealize.ShloMosaic.Tactic Idealize.SL.Sem
open Idealize.ShloMosaic.Pipeline (Dat Cfg Window)
open Cert.KernelIdeal

variable {F : FTy → Type} [FloatOps F] [Facts]
open Facts₀ Facts

/-- Logits of a feature array: features times transposed weights, plus the bias row. -/
def logits (feats : FVec F S4096x784 .f32) (W : FVec F S10x784 .f32) (b : FVec F S10 .f32) : FVec F S4096x10 .f32 :=
  addf (Host.dotGeneral dot_S4096x784_S784x10_S4096x10_1_0_0_1_n_n none feats (transpose S784x10 [1, 0] W transposes_S10x784_S784x10_1_0))
    (broadcastInDim S4096x10 ![0, 1] bcast_S1x10_S4096x10_0_1 (broadcastInDim S1x10 ![1] bcast_S10_S1x10_1 b))

/-- A row with its maximum subtracted. -/
def centred (l : FVec F S4096x10 .f32) : FVec F S4096x10 .f32 :=
  subf l (broadcastInDim S4096x10 ![0, 1] bcast_S4096x1_S4096x10_0_1 (broadcastInDim S4096x1 ![0] bcast_S4096_S4096x1_0
    (maximumf (broadcastInDim S4096 ![] bcast_S_S4096 (constant S_ .f32 0xFF800000#32))
      (Host.reduce FloatOps.maximumf l (constant S_ .f32 0xFF800000#32) reducesTo_S4096x10_S4096_d1 h_S_))))

/-- Log-softmax along the rows. -/
def logSoftmax (l : FVec F S4096x10 .f32) : FVec F S4096x10 .f32 :=
  subf (centred l) (broadcastInDim S4096x10 ![0, 1] bcast_S4096x1_S4096x10_0_1 (Host.log (broadcastInDim S4096x1 ![0] bcast_S4096_S4096x1_0
    (Host.reduceAdd (Host.exp (centred l)) (constant S_ .f32 0x00000000#32) reducesTo_S4096x10_S4096_d1 h_S_))))

/-- The feature rows from the region's output: transposed, then regrouped. -/
def featsOf (O : FVec F S4x802816 .f32) : FVec F S4096x784 .f32 :=
  shapeCast S4096x784 (transpose S802816x4 [1, 0] O transposes_S4x802816_S802816x4_1_0) shapeCasts_S802816x4_S4096x784

set_option maxHeartbeats 2000000 in
/-- The program's result buffer after the lines that follow the region, from any contents `X` of the buffers
    at the region's exit: the feature rows are read off the region's output buffer. -/
theorem tail_eq (X : Valuation τ sig (Elt F)) :
    StableHlo.after (List.flatten [Gen.hostOps1, Gen.hostOps1_1]) X (Proc.devRef .tc main_v128)
      = logSoftmax (logits (featsOf (X (Proc.devRef .tc main_v120))) (X (Proc.devRef .tc main_arg2)) (X (Proc.devRef .tc main_arg3))) := by
  simp only [Gen.hostOps1, Gen.hostOps1_1, List.flatten_cons, List.flatten_nil, List.append_nil, List.cons_append, List.nil_append]
  after_results_simp
  rfl

end Cert.KernelIdeal.KerTail

end
-- ==== Proof.KerRun.lean ====
/-
  The kernel program's run with its result named: the generated frame run leaves the region's output array at the
  blocks' common function (`KerArr.final`) and the result buffer at the host lines after the region applied to
  it (`KerTail.tail_eq`); the last two arguments reach those lines as launched.
-/
import proofs.«159359_j65481071398168_2_alg».proof.Proof.KerArr
import proofs.«159359_j65481071398168_2_alg».proof.Proof.KerTail

set_option maxRecDepth 16384

noncomputable section

namespace Cert.KernelIdeal.KerRun

open Idealize.ShloMosaic Idealize.ShloMosaic.TcCoe Idealize.ShloMosaic.ValueIdx Idealize.SL.Sem
open Idealize.ShloMosaic.Pipeline (Dat Cfg Window)
open Cert.KernelIdeal Cert.KernelIdeal.GenP Cert.KernelIdeal.KerArr

variable (m : (ℓ : Loc nD τ sig) → Buf (Elt Ideal) ℓ) (ρ : Dev nD → PrngReg)
variable (spec : (S16x16.Idx → EReal) → EReal → EReal → EReal → EReal → Fin 4 → EReal)
variable (hspec : ∀ (u : Vec Ideal S16x16 .f32) (a0 a1 a2 a3 : Vec Ideal S1x57344 .f32) (q : Fin 4) (n : Fin 57344),
    Cert.KernelIdeal.Body.stored (F := Ideal) u a0 a1 a2 a3 (ix2 q n)
      = spec u (a0 (ix2 (0 : Fin 1) n)) (a1 (ix2 (0 : Fin 1) n)) (a2 (ix2 (0 : Fin 1) n)) (a3 (ix2 (0 : Fin 1) n)) q)

/-- The result of the kernel program as a function of what the region finds in its two input arrays. -/
def result (c : Dev nD) : FVec Ideal S4096x10 .f32 :=
  KerTail.logSoftmax (KerTail.logits (KerTail.featsOf (G spec (V m c main_v119) (V m c main_v2)))
    (m ((c : Thread nD τ).loc main_arg2)) (m ((c : Thread nD τ).loc main_arg3)))

include hspec in
/-- What the result buffer holds after the host lines that follow the region. -/
theorem tail_value (c : Dev nD) :
    Pipeline.afterTail₀ cfgs (dats m) 0 (V0 m) [Gen.hostOps1, Gen.hostOps1_1] c main_v128 = result m spec c := by
  have e1 : Pipeline.afterTail₀ cfgs (dats m) 0 (V0 m) [Gen.hostOps1, Gen.hostOps1_1] c main_v128
      = StableHlo.after (List.flatten [Gen.hostOps1, Gen.hostOps1_1])
          (Pipeline.withArrays spec0 c (V0 m c) fun w => (dats m 0 c).arrAt w cfg0.N) (Proc.devRef .tc main_v128) := rfl
  rw [e1, KerTail.tail_eq]
  have hO : Pipeline.withArrays spec0 c (V0 m c) (fun w => (dats m 0 c).arrAt w cfg0.N) (Proc.devRef .tc main_v120)
      = G spec (V m c main_v119) (V m c main_v2) :=
    (Pipeline.withArrays_arr spec0 Gen.launch0.win.arr_inj c _ _ 2).trans (final m spec hspec c)
  have h2 : Pipeline.withArrays spec0 c (V0 m c) (fun w => (dats m 0 c).arrAt w cfg0.N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  have h3 : Pipeline.withArrays spec0 c (V0 m c) (fun w => (dats m 0 c).arrAt w cfg0.N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  rw [hO, h2, h3]
  rfl

include hspec in
/-- Every weakly fair execution of the kernel program ends with the result buffer at `result` and the arguments as launched. -/
theorem run_value : θ_run defs (onTc (τ := τ) (main (F := Ideal))) ⟨m, fun _ => 0, ρ⟩ (fun r => ∀ c : Dev nD,
      r.2.mem ((c.tc : Thread nD τ).loc main_v128) = result m spec c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v128 (Pipeline.mem_restRefs_of main_v128 (by decide) (by decide))).trans (tail_value m spec hspec c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KernelIdeal.KerRun

end
-- ==== Proof.KerBodySpec.lean ====
/-
  Sixteen amplitudes of four two-level systems as functions of a basis index 0..15, system 0 being the most
  significant of the index's four bits.  The definitions here are the arithmetic of one column of the kernel
  body, in the order the body performs it: the product state of four (cosine, sine) pairs multiplied from
  system 0 on; a 16 x 16 matrix applied to a column; the plane rotation of one system; and the difference of
  the two sums of squares over the indices whose bit q is 0 and 1, each sum accumulated from 0 in increasing
  order of the index.
-/
import Idealize.ShloMosaic.PureOps.Ideal
import Idealize.ShloMosaic.Lib.ValueIdx
import Mathlib.Algebra.BigOperators.Fin

noncomputable section

namespace Cert.QBody

/-- Bit `q` of the basis index `i`: system 0 is the most significant of the four bits. -/
def bit (q : Fin 4) (i : Fin 16) : Bool := (i.val / 2 ^ (3 - q.val)) % 2 == 1

/-- The basis index that differs from `i` in bit `q` only. -/
def flip (q : Fin 4) (i : Fin 16) : Fin 16 := ⟨(i.val ^^^ 2 ^ (3 - q.val)) % 16, Nat.mod_lt _ (by decide)⟩

/-- The factor system `q` contributes to amplitude `i` of a product state: the cosine where bit `q` of `i` is 0,
    the sine where it is 1. -/
def factor (c s : Fin 4 → EReal) (q : Fin 4) (i : Fin 16) : EReal := if bit q i then s q else c q

/-- The product state of the four pairs `(c q, s q)`: the factors multiplied from system 0 on. -/
def prodState (c s : Fin 4 → EReal) : Fin 16 → EReal := fun i =>
  ((factor c s 0 i * factor c s 1 i) * factor c s 2 i) * factor c s 3 i

/-- A 16 x 16 matrix applied to a column. -/
def matVec (U : Fin 16 → Fin 16 → EReal) (v : Fin 16 → EReal) : Fin 16 → EReal := fun j => ∑ i, U j i * v i

/-- The plane rotation of system `q` with half-angle cosine `c` and sine `s`: the pair of amplitudes that differ in
    bit `q` only, `(x0, x1)`, goes to `(c x0 - s x1, s x0 + c x1)`. -/
def ryVec (q : Fin 4) (c s : EReal) (v : Fin 16 → EReal) : Fin 16 → EReal := fun i =>
  if bit q i then s * v (flip q i) + c * v i else c * v i - s * v (flip q i)

/-- The squares of the amplitudes whose bit `q` is `b`, added up from 0 in increasing order of the index. -/
def zsum (q : Fin 4) (b : Bool) (v : Fin 16 → EReal) : EReal :=
  ((List.finRange 16).filter fun i => bit q i == b).foldl (fun acc i => acc + v i * v i) 0

/-- The expectation of Z on system `q`: the squares over bit `q` = 0 minus those over bit `q` = 1. -/
def zexp (q : Fin 4) (v : Fin 16 → EReal) : EReal := zsum q false v - zsum q true v

/-! ## The definitions at each literal index (what the kernel's unrolled code computes) -/

theorem zsum_0_false (v : Fin 16 → EReal) : zsum 0 false v
    = 0 + v 0 * v 0 + v 1 * v 1 + v 2 * v 2 + v 3 * v 3 + v 4 * v 4 + v 5 * v 5 + v 6 * v 6 + v 7 * v 7 := rfl
theorem zsum_0_true (v : Fin 16 → EReal) : zsum 0 true v
    = 0 + v 8 * v 8 + v 9 * v 9 + v 10 * v 10 + v 11 * v 11 + v 12 * v 12 + v 13 * v 13 + v 14 * v 14 + v 15 * v 15 := rfl
theorem zsum_1_false (v : Fin 16 → EReal) : zsum 1 false v
    = 0 + v 0 * v 0 + v 1 * v 1 + v 2 * v 2 + v 3 * v 3 + v 8 * v 8 + v 9 * v 9 + v 10 * v 10 + v 11 * v 11 := rfl
theorem zsum_1_true (v : Fin 16 → EReal) : zsum 1 true v
    = 0 + v 4 * v 4 + v 5 * v 5 + v 6 * v 6 + v 7 * v 7 + v 12 * v 12 + v 13 * v 13 + v 14 * v 14 + v 15 * v 15 := rfl
theorem zsum_2_false (v : Fin 16 → EReal) : zsum 2 false v
    = 0 + v 0 * v 0 + v 1 * v 1 + v 4 * v 4 + v 5 * v 5 + v 8 * v 8 + v 9 * v 9 + v 12 * v 12 + v 13 * v 13 := rfl
theorem zsum_2_true (v : Fin 16 → EReal) : zsum 2 true v
    = 0 + v 2 * v 2 + v 3 * v 3 + v 6 * v 6 + v 7 * v 7 + v 10 * v 10 + v 11 * v 11 + v 14 * v 14 + v 15 * v 15 := rfl
theorem zsum_3_false (v : Fin 16 → EReal) : zsum 3 false v
    = 0 + v 0 * v 0 + v 2 * v 2 + v 4 * v 4 + v 6 * v 6 + v 8 * v 8 + v 10 * v 10 + v 12 * v 12 + v 14 * v 14 := rfl
theorem zsum_3_true (v : Fin 16 → EReal) : zsum 3 true v
    = 0 + v 1 * v 1 + v 3 * v 3 + v 5 * v 5 + v 7 * v 7 + v 9 * v 9 + v 11 * v 11 + v 13 * v 13 + v 15 * v 15 := rfl

end Cert.QBody
-- ==== Proof.KerBodyMM.lean ====
/-
  The body's two matrix products and its final stacking, read at an index at the ideal instance, as
  statements over variables: each operand block is sixteen flat rows stacked, so the product at `(j, n)` is the
  sum over `k` of the matrix's entry `(j, k)` times row `k` at `n`.
-/
import proofs.«159359_j65481071398168_2_alg».proof.Proof.KerBodyOps
import proofs.«159359_j65481071398168_2_alg».proof.Proof.Gen.KernelIdeal.Skeleton

noncomputable section

namespace Cert.KernelIdeal.Body

open Idealize.ShloMosaic Idealize.ShloMosaic.ValueIdx Cert.KernelIdeal.Gen

/-- Sixteen flat rows written out one by one, stacked. -/
theorem stack16_lit {α : Type} (r0 r1 r2 r3 r4 r5 r6 r7 r8 r9 r10 r11 r12 r13 r14 r15 : S57344.Idx → α) (hc : S57344.ShapeCasts S1x57344)
    (h : Shape.Concatenates [S1x57344, S1x57344, S1x57344, S1x57344, S1x57344, S1x57344, S1x57344, S1x57344, S1x57344, S1x57344, S1x57344, S1x57344, S1x57344, S1x57344, S1x57344, S1x57344] S16x57344 0) (j : Fin 16) (n : Fin 57344) :
    concatenate S16x57344 0 [⟨S1x57344, shapeCast S1x57344 r0 hc⟩, ⟨S1x57344, shapeCast S1x57344 r1 hc⟩, ⟨S1x57344, shapeCast S1x57344 r2 hc⟩, ⟨S1x57344, shapeCast S1x57344 r3 hc⟩, ⟨S1x57344, shapeCast S1x57344 r4 hc⟩, ⟨S1x57344, shapeCast S1x57344 r5 hc⟩, ⟨S1x57344, shapeCast S1x57344 r6 hc⟩, ⟨S1x57344, shapeCast S1x57344 r7 hc⟩, ⟨S1x57344, shapeCast S1x57344 r8 hc⟩, ⟨S1x57344, shapeCast S1x57344 r9 hc⟩, ⟨S1x57344, shapeCast S1x57344 r10 hc⟩, ⟨S1x57344, shapeCast S1x57344 r11 hc⟩, ⟨S1x57344, shapeCast S1x57344 r12 hc⟩, ⟨S1x57344, shapeCast S1x57344 r13 hc⟩, ⟨S1x57344, shapeCast S1x57344 r14 hc⟩, ⟨S1x57344, shapeCast S1x57344 r15 hc⟩] h (ix2 j n) = (![r0, r1, r2, r3, r4, r5, r6, r7, r8, r9, r10, r11, r12, r13, r14, r15] : Fin 16 → S57344.Idx → α) j (ix1 n) :=
  stack16_apply (![r0, r1, r2, r3, r4, r5, r6, r7, r8, r9, r10, r11, r12, r13, r14, r15] : Fin 16 → S57344.Idx → α) hc h j n

/-- Four flat rows written out one by one, stacked. -/
theorem stack4_lit {α : Type} (r0 r1 r2 r3 : S57344.Idx → α) (hc : S57344.ShapeCasts S1x57344)
    (h : Shape.Concatenates [S1x57344, S1x57344, S1x57344, S1x57344] S4x57344 0) (j : Fin 4) (n : Fin 57344) :
    concatenate S4x57344 0 [⟨S1x57344, shapeCast S1x57344 r0 hc⟩, ⟨S1x57344, shapeCast S1x57344 r1 hc⟩, ⟨S1x57344, shapeCast S1x57344 r2 hc⟩, ⟨S1x57344, shapeCast S1x57344 r3 hc⟩] h (ix2 j n)
      = (![r0, r1, r2, r3] : Fin 4 → S57344.Idx → α) j (ix1 n) :=
  stack4_apply (![r0, r1, r2, r3] : Fin 4 → S57344.Idx → α) hc h j n

/-- The matrix product against sixteen stacked rows. -/
theorem mm16_lit (L : FVec Ideal S16x16 .f32) (r0 r1 r2 r3 r4 r5 r6 r7 r8 r9 r10 r11 r12 r13 r14 r15 : FVec Ideal S57344 .f32) (hc : S57344.ShapeCasts S1x57344)
    (h : Shape.Concatenates [S1x57344, S1x57344, S1x57344, S1x57344, S1x57344, S1x57344, S1x57344, S1x57344, S1x57344, S1x57344, S1x57344, S1x57344, S1x57344, S1x57344, S1x57344, S1x57344] S16x57344 0) (j : Fin 16) (n : Fin 57344) :
    matmul D (some .fp32) L (concatenate S16x57344 0 [⟨S1x57344, shapeCast S1x57344 r0 hc⟩, ⟨S1x57344, shapeCast S1x57344 r1 hc⟩, ⟨S1x57344, shapeCast S1x57344 r2 hc⟩, ⟨S1x57344, shapeCast S1x57344 r3 hc⟩, ⟨S1x57344, shapeCast S1x57344 r4 hc⟩, ⟨S1x57344, shapeCast S1x57344 r5 hc⟩, ⟨S1x57344, shapeCast S1x57344 r6 hc⟩, ⟨S1x57344, shapeCast S1x57344 r7 hc⟩, ⟨S1x57344, shapeCast S1x57344 r8 hc⟩, ⟨S1x57344, shapeCast S1x57344 r9 hc⟩, ⟨S1x57344, shapeCast S1x57344 r10 hc⟩, ⟨S1x57344, shapeCast S1x57344 r11 hc⟩, ⟨S1x57344, shapeCast S1x57344 r12 hc⟩, ⟨S1x57344, shapeCast S1x57344 r13 hc⟩, ⟨S1x57344, shapeCast S1x57344 r14 hc⟩, ⟨S1x57344, shapeCast S1x57344 r15 hc⟩] h) (constant (F := Ideal) S16x57344 .f32 0x00000000#32) (ix2 j n)
      = ∑ k : Fin 16, L (ix2 j k) * (![r0, r1, r2, r3, r4, r5, r6, r7, r8, r9, r10, r11, r12, r13, r14, r15] : Fin 16 → FVec Ideal S57344 .f32) k (ix1 n) :=
  (matmul16_apply L _ j n).trans
    (Finset.sum_congr rfl fun k _ => congrArg (fun t => L (ix2 j k) * t) (stack16_lit r0 r1 r2 r3 r4 r5 r6 r7 r8 r9 r10 r11 r12 r13 r14 r15 hc h k n))

/-- The first product: the matrix block against the sixteen product-state rows. -/
theorem pay26_apply (v19 v28 v31 v35 v36 v37 v38 v39 v40 v41 v42 : FVec Ideal S57344 .f32) (v77 : Vec Ideal S16x16 .f32) (j : Fin 16) (n : Fin 57344) :
    k0_pay26 v19 v28 v31 v35 v36 v37 v38 v39 v40 v41 v42 v77 (ix2 j n)
      = ∑ k : Fin 16, v77 (ix2 j k) * (![mulf v36 v19, mulf v36 v31, mulf v37 v19, mulf v37 v31, mulf v38 v19, mulf v38 v31, mulf v39 v19, mulf v39 v31, mulf v40 v19, mulf v40 v31, mulf v41 v19, mulf v41 v31, mulf v42 v19, mulf v42 v31, mulf (mulf v35 v28) v19, mulf (mulf v35 v28) v31] : Fin 16 → FVec Ideal S57344 .f32) k (ix1 n) := by
  refine (mm16_lit (shapeCast S16x16 v77 shapeCasts_S16x16_S16x16) (mulf v36 v19) (mulf v36 v31) (mulf v37 v19) (mulf v37 v31) (mulf v38 v19) (mulf v38 v31) (mulf v39 v19) (mulf v39 v31) (mulf v40 v19) (mulf v40 v31) (mulf v41 v19) (mulf v41 v31) (mulf v42 v19) (mulf v42 v31) (mulf (mulf v35 v28) v19) (mulf (mulf v35 v28) v31) shapeCasts_S57344_S1x57344 concatenates_S1x57344_S1x57344_S1x57344_S1x57344_S1x57344_S1x57344_S1x57344_S1x57344_S1x57344_S1x57344_S1x57344_S1x57344_S1x57344_S1x57344_S1x57344_S1x57344_S16x57344_d0 j n).trans ?_
  rw [shapeCast_self]

/-- The second product, squared entry by entry: the matrix against the sixteen rows after the second layer's rotations. -/
theorem pay99_apply (v19 v31 : FVec Ideal S57344 .f32) (v78 : FVec Ideal S16x16 .f32) (v234 v237 v240 v243 v246 v249 v252 v255 v258 v261 v264 v267 v270 v273 v276 v279 : FVec Ideal S57344 .f32) (j : Fin 16) (n : Fin 57344) :
    k0_pay99 v19 v31 v78 v234 v237 v240 v243 v246 v249 v252 v255 v258 v261 v264 v267 v270 v273 v276 v279 (ix2 j n)
      = (∑ k : Fin 16, v78 (ix2 j k) * (![v258, v261, v264, v267, v270, v273, v276, v279, subf (mulf v19 v234) (mulf v31 v240), addf (mulf v31 v234) (mulf v19 v240), subf (mulf v19 v237) (mulf v31 v243), addf (mulf v31 v237) (mulf v19 v243), subf (mulf v19 v246) (mulf v31 v252), addf (mulf v31 v246) (mulf v19 v252), subf (mulf v19 v249) (mulf v31 v255), addf (mulf v31 v249) (mulf v19 v255)] : Fin 16 → FVec Ideal S57344 .f32) k (ix1 n))
        * (∑ k : Fin 16, v78 (ix2 j k) * (![v258, v261, v264, v267, v270, v273, v276, v279, subf (mulf v19 v234) (mulf v31 v240), addf (mulf v31 v234) (mulf v19 v240), subf (mulf v19 v237) (mulf v31 v243), addf (mulf v31 v237) (mulf v19 v243), subf (mulf v19 v246) (mulf v31 v252), addf (mulf v31 v246) (mulf v19 v252), subf (mulf v19 v249) (mulf v31 v255), addf (mulf v31 v249) (mulf v19 v255)] : Fin 16 → FVec Ideal S57344 .f32) k (ix1 n)) :=
  congrArg (fun t => t * t) (mm16_lit v78 v258 v261 v264 v267 v270 v273 v276 v279 (subf (mulf v19 v234) (mulf v31 v240)) (addf (mulf v31 v234) (mulf v19 v240)) (subf (mulf v19 v237) (mulf v31 v243)) (addf (mulf v31 v237) (mulf v19 v243)) (subf (mulf v19 v246) (mulf v31 v252)) (addf (mulf v31 v246) (mulf v19 v252)) (subf (mulf v19 v249) (mulf v31 v255)) (addf (mulf v31 v249) (mulf v19 v255)) shapeCasts_S57344_S1x57344 concatenates_S1x57344_S1x57344_S1x57344_S1x57344_S1x57344_S1x57344_S1x57344_S1x57344_S1x57344_S1x57344_S1x57344_S1x57344_S1x57344_S1x57344_S1x57344_S1x57344_S16x57344_d0 j n)

end Cert.KernelIdeal.Body
-- ==== Proof.KerBodyCol.lean ====
/-
  One column of the kernel body at the ideal instance, stage by stage.  Every arithmetic operation of the body
  acts entry by entry, so the column `n` of each intermediate row is, by unfolding alone, the same arithmetic on
  the columns `n` of the rows it reads.  What is not entry-by-entry — a row cut out of a block, rows stacked into a
  block, the two matrix products — is read by the lemmas on those operations.  The sixteen rows of each stage are
  listed in the order of the basis index, and their columns are the stages of the circuit: the product state, the
  fixed matrix applied to it, the four rotations of the second layer, the fixed matrix again.
-/
import proofs.«159359_j65481071398168_2_alg».proof.Proof.KerBodySpec
import proofs.«159359_j65481071398168_2_alg».proof.Proof.KerBodyMM
import proofs.«159359_j65481071398168_2_alg».proof.Proof.KerBodyDag
import Mathlib.Tactic.FinCases

noncomputable section

namespace Cert.KernelIdeal.Body

open Idealize.ShloMosaic Idealize.ShloMosaic.ValueIdx Cert.KernelIdeal.Gen Cert.QBody

variable (u : Vec Ideal S16x16 .f32) (a0 a1 a2 a3 : Vec Ideal S1x57344 .f32) (n : Fin 57344)

/-- The cosines of the four half angles of column `n`, as the body computes them. -/
def cs : Fin 4 → EReal := ![p6 u a0 a1 a2 a3 (ix1 n), p7 u a0 a1 a2 a3 (ix1 n), p8 u a0 a1 a2 a3 (ix1 n), p9 u a0 a1 a2 a3 (ix1 n)]
/-- The sines of the four half angles of column `n`. -/
def sn : Fin 4 → EReal := ![p10 u a0 a1 a2 a3 (ix1 n), p11 u a0 a1 a2 a3 (ix1 n), p12 u a0 a1 a2 a3 (ix1 n), p13 u a0 a1 a2 a3 (ix1 n)]
/-- The matrix block as a function of row and column. -/
def Umat : Fin 16 → Fin 16 → EReal := fun j i => u (ix2 j i)

/-- The sixteen rows of the first product's operand: the product state. -/
def rowsP : Fin 16 → FVec Ideal S57344 .f32 :=
  ![mulf (p18 u a0 a1 a2 a3) (p9 u a0 a1 a2 a3),
    mulf (p18 u a0 a1 a2 a3) (p13 u a0 a1 a2 a3),
    mulf (p19 u a0 a1 a2 a3) (p9 u a0 a1 a2 a3),
    mulf (p19 u a0 a1 a2 a3) (p13 u a0 a1 a2 a3),
    mulf (p20 u a0 a1 a2 a3) (p9 u a0 a1 a2 a3),
    mulf (p20 u a0 a1 a2 a3) (p13 u a0 a1 a2 a3),
    mulf (p21 u a0 a1 a2 a3) (p9 u a0 a1 a2 a3),
    mulf (p21 u a0 a1 a2 a3) (p13 u a0 a1 a2 a3),
    mulf (p22 u a0 a1 a2 a3) (p9 u a0 a1 a2 a3),
    mulf (p22 u a0 a1 a2 a3) (p13 u a0 a1 a2 a3),
    mulf (p23 u a0 a1 a2 a3) (p9 u a0 a1 a2 a3),
    mulf (p23 u a0 a1 a2 a3) (p13 u a0 a1 a2 a3),
    mulf (p24 u a0 a1 a2 a3) (p9 u a0 a1 a2 a3),
    mulf (p24 u a0 a1 a2 a3) (p13 u a0 a1 a2 a3),
    mulf (mulf (p17 u a0 a1 a2 a3) (p12 u a0 a1 a2 a3)) (p9 u a0 a1 a2 a3),
    mulf (mulf (p17 u a0 a1 a2 a3) (p12 u a0 a1 a2 a3)) (p13 u a0 a1 a2 a3)]
/-- The sixteen rows of the first product, cut out and flattened. -/
def rowsA1 : Fin 16 → FVec Ideal S57344 .f32 :=
  ![p27 u a0 a1 a2 a3,
    p28 u a0 a1 a2 a3,
    p29 u a0 a1 a2 a3,
    p30 u a0 a1 a2 a3,
    p31 u a0 a1 a2 a3,
    p32 u a0 a1 a2 a3,
    p33 u a0 a1 a2 a3,
    p34 u a0 a1 a2 a3,
    p35 u a0 a1 a2 a3,
    p36 u a0 a1 a2 a3,
    k0_pay37 (p26 u a0 a1 a2 a3),
    k0_pay38 (p26 u a0 a1 a2 a3),
    k0_pay39 (p26 u a0 a1 a2 a3),
    k0_pay40 (p26 u a0 a1 a2 a3),
    k0_pay41 (p26 u a0 a1 a2 a3),
    k0_pay42 (p26 u a0 a1 a2 a3)]
/-- The rows after the rotation of system 0. -/
def rowsB0 : Fin 16 → FVec Ideal S57344 .f32 :=
  ![p43 u a0 a1 a2 a3,
    p45 u a0 a1 a2 a3,
    p47 u a0 a1 a2 a3,
    p49 u a0 a1 a2 a3,
    p51 u a0 a1 a2 a3,
    p53 u a0 a1 a2 a3,
    p55 u a0 a1 a2 a3,
    p57 u a0 a1 a2 a3,
    p44 u a0 a1 a2 a3,
    p46 u a0 a1 a2 a3,
    p48 u a0 a1 a2 a3,
    p50 u a0 a1 a2 a3,
    p52 u a0 a1 a2 a3,
    p54 u a0 a1 a2 a3,
    p56 u a0 a1 a2 a3,
    p58 u a0 a1 a2 a3]
/-- The rows after the rotation of system 1. -/
def rowsB1 : Fin 16 → FVec Ideal S57344 .f32 :=
  ![k0_pay59 (p7 u a0 a1 a2 a3) (p11 u a0 a1 a2 a3) (p43 u a0 a1 a2 a3) (p51 u a0 a1 a2 a3),
    k0_pay61 (p7 u a0 a1 a2 a3) (p11 u a0 a1 a2 a3) (p45 u a0 a1 a2 a3) (p53 u a0 a1 a2 a3),
    k0_pay63 (p7 u a0 a1 a2 a3) (p11 u a0 a1 a2 a3) (p47 u a0 a1 a2 a3) (p55 u a0 a1 a2 a3),
    k0_pay65 (p7 u a0 a1 a2 a3) (p11 u a0 a1 a2 a3) (p49 u a0 a1 a2 a3) (p57 u a0 a1 a2 a3),
    p60 u a0 a1 a2 a3,
    p62 u a0 a1 a2 a3,
    p64 u a0 a1 a2 a3,
    p66 u a0 a1 a2 a3,
    p67 u a0 a1 a2 a3,
    p69 u a0 a1 a2 a3,
    p71 u a0 a1 a2 a3,
    p73 u a0 a1 a2 a3,
    p68 u a0 a1 a2 a3,
    p70 u a0 a1 a2 a3,
    p72 u a0 a1 a2 a3,
    p74 u a0 a1 a2 a3]
/-- The rows after the rotation of system 2. -/
def rowsB2 : Fin 16 → FVec Ideal S57344 .f32 :=
  ![p75 u a0 a1 a2 a3,
    p77 u a0 a1 a2 a3,
    p76 u a0 a1 a2 a3,
    p78 u a0 a1 a2 a3,
    k0_pay79 (p8 u a0 a1 a2 a3) (p12 u a0 a1 a2 a3) (p60 u a0 a1 a2 a3) (p64 u a0 a1 a2 a3),
    k0_pay81 (p8 u a0 a1 a2 a3) (p12 u a0 a1 a2 a3) (p62 u a0 a1 a2 a3) (p66 u a0 a1 a2 a3),
    k0_pay80 (p8 u a0 a1 a2 a3) (p12 u a0 a1 a2 a3) (p60 u a0 a1 a2 a3) (p64 u a0 a1 a2 a3),
    k0_pay82 (p8 u a0 a1 a2 a3) (p12 u a0 a1 a2 a3) (p62 u a0 a1 a2 a3) (p66 u a0 a1 a2 a3),
    p83 u a0 a1 a2 a3,
    p85 u a0 a1 a2 a3,
    p84 u a0 a1 a2 a3,
    p86 u a0 a1 a2 a3,
    p87 u a0 a1 a2 a3,
    p89 u a0 a1 a2 a3,
    p88 u a0 a1 a2 a3,
    p90 u a0 a1 a2 a3]
/-- The rows after the rotation of system 3: the second product's operand. -/
def rowsB3 : Fin 16 → FVec Ideal S57344 .f32 :=
  ![p91 u a0 a1 a2 a3,
    p92 u a0 a1 a2 a3,
    p93 u a0 a1 a2 a3,
    p94 u a0 a1 a2 a3,
    p95 u a0 a1 a2 a3,
    p96 u a0 a1 a2 a3,
    p97 u a0 a1 a2 a3,
    p98 u a0 a1 a2 a3,
    subf (mulf (p9 u a0 a1 a2 a3) (p83 u a0 a1 a2 a3)) (mulf (p13 u a0 a1 a2 a3) (p85 u a0 a1 a2 a3)),
    addf (mulf (p13 u a0 a1 a2 a3) (p83 u a0 a1 a2 a3)) (mulf (p9 u a0 a1 a2 a3) (p85 u a0 a1 a2 a3)),
    subf (mulf (p9 u a0 a1 a2 a3) (p84 u a0 a1 a2 a3)) (mulf (p13 u a0 a1 a2 a3) (p86 u a0 a1 a2 a3)),
    addf (mulf (p13 u a0 a1 a2 a3) (p84 u a0 a1 a2 a3)) (mulf (p9 u a0 a1 a2 a3) (p86 u a0 a1 a2 a3)),
    subf (mulf (p9 u a0 a1 a2 a3) (p87 u a0 a1 a2 a3)) (mulf (p13 u a0 a1 a2 a3) (p89 u a0 a1 a2 a3)),
    addf (mulf (p13 u a0 a1 a2 a3) (p87 u a0 a1 a2 a3)) (mulf (p9 u a0 a1 a2 a3) (p89 u a0 a1 a2 a3)),
    subf (mulf (p9 u a0 a1 a2 a3) (p88 u a0 a1 a2 a3)) (mulf (p13 u a0 a1 a2 a3) (p90 u a0 a1 a2 a3)),
    addf (mulf (p13 u a0 a1 a2 a3) (p88 u a0 a1 a2 a3)) (mulf (p9 u a0 a1 a2 a3) (p90 u a0 a1 a2 a3))]

theorem colP_eq : (fun k => rowsP u a0 a1 a2 a3 k (ix1 n)) = prodState (cs u a0 a1 a2 a3 n) (sn u a0 a1 a2 a3 n) := by
  funext k; fin_cases k <;> rfl

theorem p26_apply (j : Fin 16) :
    p26 u a0 a1 a2 a3 (ix2 j n) = matVec (Umat u) (prodState (cs u a0 a1 a2 a3 n) (sn u a0 a1 a2 a3 n)) j := by
  refine (pay26_apply (p9 u a0 a1 a2 a3) (p12 u a0 a1 a2 a3) (p13 u a0 a1 a2 a3) (p17 u a0 a1 a2 a3) (p18 u a0 a1 a2 a3) (p19 u a0 a1 a2 a3) (p20 u a0 a1 a2 a3) (p21 u a0 a1 a2 a3) (p22 u a0 a1 a2 a3) (p23 u a0 a1 a2 a3) (p24 u a0 a1 a2 a3) u j n).trans ?_
  show ∑ k : Fin 16, Umat u j k * (fun k => rowsP u a0 a1 a2 a3 k (ix1 n)) k = _
  rw [colP_eq]; rfl

theorem colA1_eq : (fun j => rowsA1 u a0 a1 a2 a3 j (ix1 n)) = matVec (Umat u) (prodState (cs u a0 a1 a2 a3 n) (sn u a0 a1 a2 a3 n)) := by
  funext j
  fin_cases j
  · exact (row_apply 0 (by decide) (p26 u a0 a1 a2 a3) slices_S16x57344_o0_0_S1x57344 shapeCasts_S1x57344_S57344 n).trans (p26_apply u a0 a1 a2 a3 n 0)
  · exact (row_apply 1 (by decide) (p26 u a0 a1 a2 a3) slices_S16x57344_o1_0_S1x57344 shapeCasts_S1x57344_S57344 n).trans (p26_apply u a0 a1 a2 a3 n 1)
  · exact (row_apply 2 (by decide) (p26 u a0 a1 a2 a3) slices_S16x57344_o2_0_S1x57344 shapeCasts_S1x57344_S57344 n).trans (p26_apply u a0 a1 a2 a3 n 2)
  · exact (row_apply 3 (by decide) (p26 u a0 a1 a2 a3) slices_S16x57344_o3_0_S1x57344 shapeCasts_S1x57344_S57344 n).trans (p26_apply u a0 a1 a2 a3 n 3)
  · exact (row_apply 4 (by decide) (p26 u a0 a1 a2 a3) slices_S16x57344_o4_0_S1x57344 shapeCasts_S1x57344_S57344 n).trans (p26_apply u a0 a1 a2 a3 n 4)
  · exact (row_apply 5 (by decide) (p26 u a0 a1 a2 a3) slices_S16x57344_o5_0_S1x57344 shapeCasts_S1x57344_S57344 n).trans (p26_apply u a0 a1 a2 a3 n 5)
  · exact (row_apply 6 (by decide) (p26 u a0 a1 a2 a3) slices_S16x57344_o6_0_S1x57344 shapeCasts_S1x57344_S57344 n).trans (p26_apply u a0 a1 a2 a3 n 6)
  · exact (row_apply 7 (by decide) (p26 u a0 a1 a2 a3) slices_S16x57344_o7_0_S1x57344 shapeCasts_S1x57344_S57344 n).trans (p26_apply u a0 a1 a2 a3 n 7)
  · exact (row_apply 8 (by decide) (p26 u a0 a1 a2 a3) slices_S16x57344_o8_0_S1x57344 shapeCasts_S1x57344_S57344 n).trans (p26_apply u a0 a1 a2 a3 n 8)
  · exact (row_apply 9 (by decide) (p26 u a0 a1 a2 a3) slices_S16x57344_o9_0_S1x57344 shapeCasts_S1x57344_S57344 n).trans (p26_apply u a0 a1 a2 a3 n 9)
  · exact (row_apply 10 (by decide) (p26 u a0 a1 a2 a3) slices_S16x57344_o10_0_S1x57344 shapeCasts_S1x57344_S57344 n).trans (p26_apply u a0 a1 a2 a3 n 10)
  · exact (row_apply 11 (by decide) (p26 u a0 a1 a2 a3) slices_S16x57344_o11_0_S1x57344 shapeCasts_S1x57344_S57344 n).trans (p26_apply u a0 a1 a2 a3 n 11)
  · exact (row_apply 12 (by decide) (p26 u a0 a1 a2 a3) slices_S16x57344_o12_0_S1x57344 shapeCasts_S1x57344_S57344 n).trans (p26_apply u a0 a1 a2 a3 n 12)
  · exact (row_apply 13 (by decide) (p26 u a0 a1 a2 a3) slices_S16x57344_o13_0_S1x57344 shapeCasts_S1x57344_S57344 n).trans (p26_apply u a0 a1 a2 a3 n 13)
  · exact (row_apply 14 (by decide) (p26 u a0 a1 a2 a3) slices_S16x57344_o14_0_S1x57344 shapeCasts_S1x57344_S57344 n).trans (p26_apply u a0 a1 a2 a3 n 14)
  · exact (row_apply 15 (by decide) (p26 u a0 a1 a2 a3) slices_S16x57344_o15_0_S1x57344 shapeCasts_S1x57344_S57344 n).trans (p26_apply u a0 a1 a2 a3 n 15)

theorem colB0_eq : (fun i => rowsB0 u a0 a1 a2 a3 i (ix1 n))
    = ryVec 0 (cs u a0 a1 a2 a3 n 0) (sn u a0 a1 a2 a3 n 0) (fun j => rowsA1 u a0 a1 a2 a3 j (ix1 n)) := by
  funext i; fin_cases i <;> rfl
theorem colB1_eq : (fun i => rowsB1 u a0 a1 a2 a3 i (ix1 n))
    = ryVec 1 (cs u a0 a1 a2 a3 n 1) (sn u a0 a1 a2 a3 n 1) (fun j => rowsB0 u a0 a1 a2 a3 j (ix1 n)) := by
  funext i; fin_cases i <;> rfl
theorem colB2_eq : (fun i => rowsB2 u a0 a1 a2 a3 i (ix1 n))
    = ryVec 2 (cs u a0 a1 a2 a3 n 2) (sn u a0 a1 a2 a3 n 2) (fun j => rowsB1 u a0 a1 a2 a3 j (ix1 n)) := by
  funext i; fin_cases i <;> rfl
theorem colB3_eq : (fun i => rowsB3 u a0 a1 a2 a3 i (ix1 n))
    = ryVec 3 (cs u a0 a1 a2 a3 n 3) (sn u a0 a1 a2 a3 n 3) (fun j => rowsB2 u a0 a1 a2 a3 j (ix1 n)) := by
  funext i; fin_cases i <;> rfl

/-- The amplitudes of column `n` before the second product. -/
def amp : Fin 16 → EReal :=
  ryVec 3 (cs u a0 a1 a2 a3 n 3) (sn u a0 a1 a2 a3 n 3) (ryVec 2 (cs u a0 a1 a2 a3 n 2) (sn u a0 a1 a2 a3 n 2) (ryVec 1 (cs u a0 a1 a2 a3 n 1) (sn u a0 a1 a2 a3 n 1)
    (ryVec 0 (cs u a0 a1 a2 a3 n 0) (sn u a0 a1 a2 a3 n 0) (matVec (Umat u) (prodState (cs u a0 a1 a2 a3 n) (sn u a0 a1 a2 a3 n))))))

theorem colB3_amp : (fun i => rowsB3 u a0 a1 a2 a3 i (ix1 n)) = amp u a0 a1 a2 a3 n := by
  rw [colB3_eq, colB2_eq, colB1_eq, colB0_eq, colA1_eq]; rfl

/-- The second product squared, at `(j, n)`. -/
theorem p99_apply (j : Fin 16) :
    p99 u a0 a1 a2 a3 (ix2 j n) = matVec (Umat u) (amp u a0 a1 a2 a3 n) j * matVec (Umat u) (amp u a0 a1 a2 a3 n) j := by
  refine (pay99_apply (p9 u a0 a1 a2 a3) (p13 u a0 a1 a2 a3) (p25 u a0 a1 a2 a3) (p83 u a0 a1 a2 a3) (p84 u a0 a1 a2 a3) (p85 u a0 a1 a2 a3) (p86 u a0 a1 a2 a3) (p87 u a0 a1 a2 a3) (p88 u a0 a1 a2 a3) (p89 u a0 a1 a2 a3) (p90 u a0 a1 a2 a3) (p91 u a0 a1 a2 a3) (p92 u a0 a1 a2 a3) (p93 u a0 a1 a2 a3) (p94 u a0 a1 a2 a3) (p95 u a0 a1 a2 a3) (p96 u a0 a1 a2 a3) (p97 u a0 a1 a2 a3) (p98 u a0 a1 a2 a3) j n).trans ?_
  have hu : ∀ k : Fin 16, p25 u a0 a1 a2 a3 (ix2 j k) = Umat u j k := fun k =>
    congrFun (shapeCast_self u shapeCasts_S16x16_S16x16) (ix2 j k)
  have e : (∑ k : Fin 16, p25 u a0 a1 a2 a3 (ix2 j k) * (fun k => rowsB3 u a0 a1 a2 a3 k (ix1 n)) k) = matVec (Umat u) (amp u a0 a1 a2 a3 n) j := by
    rw [colB3_amp]; exact Finset.sum_congr rfl fun k _ => congrArg (fun t => t * amp u a0 a1 a2 a3 n k) (hu k)
  exact congrArg (fun t => t * t) e

end Cert.KernelIdeal.Body
-- ==== Proof.KerBodyOut.lean ====
/-
  The block the kernel body stores, at an index: row `q`, column `n` is the expectation of Z on system `q` of
  the state the two-layer circuit reaches from the four angles of column `n`.
-/
import proofs.«159359_j65481071398168_2_alg».proof.Proof.KerBodyCol

noncomputable section

namespace Cert.QBody

/-- The kernel's arrangement of the circuit on one column: the product state of the first layer's rotations, the
    fixed matrix, the second layer's four rotations, the fixed matrix again. -/
def circuit (U : Fin 16 → Fin 16 → EReal) (c s : Fin 4 → EReal) : Fin 16 → EReal :=
  matVec U (ryVec 3 (c 3) (s 3) (ryVec 2 (c 2) (s 2) (ryVec 1 (c 1) (s 1) (ryVec 0 (c 0) (s 0)
    (matVec U (prodState c s))))))

end Cert.QBody

namespace Cert.KernelIdeal.Body

open Idealize.ShloMosaic Idealize.ShloMosaic.ValueIdx Cert.KernelIdeal.Gen Cert.QBody

/-- The fourth row of the stored block: the sum over the indices whose last bit is 0, minus the sum over the
    others, the latter continued from its first three terms. -/
def lastRow (v322 : FVec Ideal S16x57344 .f32) (v500 v510 : FVec Ideal S57344 .f32) : FVec Ideal S57344 .f32 :=
  subf v500 (addf (addf (addf (addf (addf v510 (shapeCast S57344 (extractStridedSlice S1x57344 ![7, 0] v322 slices_S16x57344_o7_0_S1x57344) shapeCasts_S1x57344_S57344)) (shapeCast S57344 (extractStridedSlice S1x57344 ![9, 0] v322 slices_S16x57344_o9_0_S1x57344) shapeCasts_S1x57344_S57344)) (shapeCast S57344 (extractStridedSlice S1x57344 ![11, 0] v322 slices_S16x57344_o11_0_S1x57344) shapeCasts_S1x57344_S57344)) (shapeCast S57344 (extractStridedSlice S1x57344 ![13, 0] v322 slices_S16x57344_o13_0_S1x57344) shapeCasts_S1x57344_S57344)) (shapeCast S57344 (extractStridedSlice S1x57344 ![15, 0] v322 slices_S16x57344_o15_0_S1x57344) shapeCasts_S1x57344_S57344))

/-- The stored block is four flat rows stacked: the three differences computed before, and the fourth formed here. -/
theorem pay1_eq (v322 : FVec Ideal S16x57344 .f32) (v373 v424 v475 v500 v510 : FVec Ideal S57344 .f32) :
    k0_pay1 v322 v373 v424 v475 v500 v510
      = concatenate S4x57344 0 [⟨S1x57344, shapeCast S1x57344 v373 shapeCasts_S57344_S1x57344⟩, ⟨S1x57344, shapeCast S1x57344 v424 shapeCasts_S57344_S1x57344⟩, ⟨S1x57344, shapeCast S1x57344 v475 shapeCasts_S57344_S1x57344⟩, ⟨S1x57344, shapeCast S1x57344 (lastRow v322 v500 v510) shapeCasts_S57344_S1x57344⟩] concatenates_S1x57344_S1x57344_S1x57344_S1x57344_S4x57344_d0 :=
  rfl

theorem pay1_apply (v322 : FVec Ideal S16x57344 .f32) (v373 v424 v475 v500 v510 : FVec Ideal S57344 .f32) (q : Fin 4) (n : Fin 57344) :
    k0_pay1 v322 v373 v424 v475 v500 v510 (ix2 q n)
      = (![v373, v424, v475, lastRow v322 v500 v510] : Fin 4 → FVec Ideal S57344 .f32) q (ix1 n) :=
  (congrFun (pay1_eq v322 v373 v424 v475 v500 v510) (ix2 q n)).trans
    (stack4_lit v373 v424 v475 (lastRow v322 v500 v510) shapeCasts_S57344_S1x57344 concatenates_S1x57344_S1x57344_S1x57344_S1x57344_S4x57344_d0 q n)

variable (u : Vec Ideal S16x16 .f32) (a0 a1 a2 a3 : Vec Ideal S1x57344 .f32) (n : Fin 57344)

/-- The sixteen rows of the squared second product, cut out and flattened. -/
def rowsSq : Fin 16 → FVec Ideal S57344 .f32 :=
  ![shapeCast S57344 (extractStridedSlice S1x57344 ![0, 0] (p99 u a0 a1 a2 a3) slices_S16x57344_o0_0_S1x57344) shapeCasts_S1x57344_S57344,
    shapeCast S57344 (extractStridedSlice S1x57344 ![1, 0] (p99 u a0 a1 a2 a3) slices_S16x57344_o1_0_S1x57344) shapeCasts_S1x57344_S57344,
    p106 u a0 a1 a2 a3,
    shapeCast S57344 (extractStridedSlice S1x57344 ![3, 0] (p99 u a0 a1 a2 a3) slices_S16x57344_o3_0_S1x57344) shapeCasts_S1x57344_S57344,
    p101 u a0 a1 a2 a3,
    shapeCast S57344 (extractStridedSlice S1x57344 ![5, 0] (p99 u a0 a1 a2 a3) slices_S16x57344_o5_0_S1x57344) shapeCasts_S1x57344_S57344,
    shapeCast S57344 (extractStridedSlice S1x57344 ![6, 0] (p99 u a0 a1 a2 a3) slices_S16x57344_o6_0_S1x57344) shapeCasts_S1x57344_S57344,
    shapeCast S57344 (extractStridedSlice S1x57344 ![7, 0] (p99 u a0 a1 a2 a3) slices_S16x57344_o7_0_S1x57344) shapeCasts_S1x57344_S57344,
    shapeCast S57344 (extractStridedSlice S1x57344 ![8, 0] (p99 u a0 a1 a2 a3) slices_S16x57344_o8_0_S1x57344) shapeCasts_S1x57344_S57344,
    shapeCast S57344 (extractStridedSlice S1x57344 ![9, 0] (p99 u a0 a1 a2 a3) slices_S16x57344_o9_0_S1x57344) shapeCasts_S1x57344_S57344,
    shapeCast S57344 (extractStridedSlice S1x57344 ![10, 0] (p99 u a0 a1 a2 a3) slices_S16x57344_o10_0_S1x57344) shapeCasts_S1x57344_S57344,
    shapeCast S57344 (extractStridedSlice S1x57344 ![11, 0] (p99 u a0 a1 a2 a3) slices_S16x57344_o11_0_S1x57344) shapeCasts_S1x57344_S57344,
    shapeCast S57344 (extractStridedSlice S1x57344 ![12, 0] (p99 u a0 a1 a2 a3) slices_S16x57344_o12_0_S1x57344) shapeCasts_S1x57344_S57344,
    shapeCast S57344 (extractStridedSlice S1x57344 ![13, 0] (p99 u a0 a1 a2 a3) slices_S16x57344_o13_0_S1x57344) shapeCasts_S1x57344_S57344,
    shapeCast S57344 (extractStridedSlice S1x57344 ![14, 0] (p99 u a0 a1 a2 a3) slices_S16x57344_o14_0_S1x57344) shapeCasts_S1x57344_S57344,
    shapeCast S57344 (extractStridedSlice S1x57344 ![15, 0] (p99 u a0 a1 a2 a3) slices_S16x57344_o15_0_S1x57344) shapeCasts_S1x57344_S57344]

theorem colSq_eq (i : Fin 16) :
    rowsSq u a0 a1 a2 a3 i (ix1 n) = matVec (Umat u) (amp u a0 a1 a2 a3 n) i * matVec (Umat u) (amp u a0 a1 a2 a3 n) i := by
  fin_cases i
  · exact (row_apply 0 (by decide) (p99 u a0 a1 a2 a3) slices_S16x57344_o0_0_S1x57344 shapeCasts_S1x57344_S57344 n).trans (p99_apply u a0 a1 a2 a3 n 0)
  · exact (row_apply 1 (by decide) (p99 u a0 a1 a2 a3) slices_S16x57344_o1_0_S1x57344 shapeCasts_S1x57344_S57344 n).trans (p99_apply u a0 a1 a2 a3 n 1)
  · exact (row_apply 2 (by decide) (p99 u a0 a1 a2 a3) slices_S16x57344_o2_0_S1x57344 shapeCasts_S1x57344_S57344 n).trans (p99_apply u a0 a1 a2 a3 n 2)
  · exact (row_apply 3 (by decide) (p99 u a0 a1 a2 a3) slices_S16x57344_o3_0_S1x57344 shapeCasts_S1x57344_S57344 n).trans (p99_apply u a0 a1 a2 a3 n 3)
  · exact (row_apply 4 (by decide) (p99 u a0 a1 a2 a3) slices_S16x57344_o4_0_S1x57344 shapeCasts_S1x57344_S57344 n).trans (p99_apply u a0 a1 a2 a3 n 4)
  · exact (row_apply 5 (by decide) (p99 u a0 a1 a2 a3) slices_S16x57344_o5_0_S1x57344 shapeCasts_S1x57344_S57344 n).trans (p99_apply u a0 a1 a2 a3 n 5)
  · exact (row_apply 6 (by decide) (p99 u a0 a1 a2 a3) slices_S16x57344_o6_0_S1x57344 shapeCasts_S1x57344_S57344 n).trans (p99_apply u a0 a1 a2 a3 n 6)
  · exact (row_apply 7 (by decide) (p99 u a0 a1 a2 a3) slices_S16x57344_o7_0_S1x57344 shapeCasts_S1x57344_S57344 n).trans (p99_apply u a0 a1 a2 a3 n 7)
  · exact (row_apply 8 (by decide) (p99 u a0 a1 a2 a3) slices_S16x57344_o8_0_S1x57344 shapeCasts_S1x57344_S57344 n).trans (p99_apply u a0 a1 a2 a3 n 8)
  · exact (row_apply 9 (by decide) (p99 u a0 a1 a2 a3) slices_S16x57344_o9_0_S1x57344 shapeCasts_S1x57344_S57344 n).trans (p99_apply u a0 a1 a2 a3 n 9)
  · exact (row_apply 10 (by decide) (p99 u a0 a1 a2 a3) slices_S16x57344_o10_0_S1x57344 shapeCasts_S1x57344_S57344 n).trans (p99_apply u a0 a1 a2 a3 n 10)
  · exact (row_apply 11 (by decide) (p99 u a0 a1 a2 a3) slices_S16x57344_o11_0_S1x57344 shapeCasts_S1x57344_S57344 n).trans (p99_apply u a0 a1 a2 a3 n 11)
  · exact (row_apply 12 (by decide) (p99 u a0 a1 a2 a3) slices_S16x57344_o12_0_S1x57344 shapeCasts_S1x57344_S57344 n).trans (p99_apply u a0 a1 a2 a3 n 12)
  · exact (row_apply 13 (by decide) (p99 u a0 a1 a2 a3) slices_S16x57344_o13_0_S1x57344 shapeCasts_S1x57344_S57344 n).trans (p99_apply u a0 a1 a2 a3 n 13)
  · exact (row_apply 14 (by decide) (p99 u a0 a1 a2 a3) slices_S16x57344_o14_0_S1x57344 shapeCasts_S1x57344_S57344 n).trans (p99_apply u a0 a1 a2 a3 n 14)
  · exact (row_apply 15 (by decide) (p99 u a0 a1 a2 a3) slices_S16x57344_o15_0_S1x57344 shapeCasts_S1x57344_S57344 n).trans (p99_apply u a0 a1 a2 a3 n 15)

/-- The four rows the body stacks into the stored block. -/
def rowsOut : Fin 4 → FVec Ideal S57344 .f32 :=
  ![p102 u a0 a1 a2 a3,
    p104 u a0 a1 a2 a3,
    p108 u a0 a1 a2 a3,
    lastRow (p99 u a0 a1 a2 a3) (p109 u a0 a1 a2 a3) (p110 u a0 a1 a2 a3)]

theorem stored_rows (q : Fin 4) : stored u a0 a1 a2 a3 (ix2 q n) = rowsOut u a0 a1 a2 a3 q (ix1 n) :=
  pay1_apply (p99 u a0 a1 a2 a3) (p102 u a0 a1 a2 a3) (p104 u a0 a1 a2 a3) (p108 u a0 a1 a2 a3) (p109 u a0 a1 a2 a3) (p110 u a0 a1 a2 a3) q n

theorem out0_eq : rowsOut u a0 a1 a2 a3 0 (ix1 n) = zexp 0 (matVec (Umat u) (amp u a0 a1 a2 a3 n)) := by
  rw [zexp, zsum_0_false, zsum_0_true]
  simp only [← colSq_eq u a0 a1 a2 a3 n]
  rw [← Ideal.ofBits_zero_f32]
  rfl
theorem out1_eq : rowsOut u a0 a1 a2 a3 1 (ix1 n) = zexp 1 (matVec (Umat u) (amp u a0 a1 a2 a3 n)) := by
  rw [zexp, zsum_1_false, zsum_1_true]
  simp only [← colSq_eq u a0 a1 a2 a3 n]
  rw [← Ideal.ofBits_zero_f32]
  rfl
theorem out2_eq : rowsOut u a0 a1 a2 a3 2 (ix1 n) = zexp 2 (matVec (Umat u) (amp u a0 a1 a2 a3 n)) := by
  rw [zexp, zsum_2_false, zsum_2_true]
  simp only [← colSq_eq u a0 a1 a2 a3 n]
  rw [← Ideal.ofBits_zero_f32]
  rfl
theorem out3_eq : rowsOut u a0 a1 a2 a3 3 (ix1 n) = zexp 3 (matVec (Umat u) (amp u a0 a1 a2 a3 n)) := by
  rw [zexp, zsum_3_false, zsum_3_true]
  simp only [← colSq_eq u a0 a1 a2 a3 n]
  rw [← Ideal.ofBits_zero_f32]
  rfl

/-- The stored block at `(q, n)`, over the body's own cosines and sines. -/
theorem stored_amp (q : Fin 4) : stored u a0 a1 a2 a3 (ix2 q n) = zexp q (matVec (Umat u) (amp u a0 a1 a2 a3 n)) := by
  rw [stored_rows]
  fin_cases q
  · exact out0_eq u a0 a1 a2 a3 n
  · exact out1_eq u a0 a1 a2 a3 n
  · exact out2_eq u a0 a1 a2 a3 n
  · exact out3_eq u a0 a1 a2 a3 n

/-! ## The half angles -/

/-- The cosines of the half angles of column `n`: each angle times the literal one half, as the body multiplies. -/
def cosHalf : Fin 4 → EReal :=
  ![Ideal.cos (a0 (ix2 0 n) * Ideal.ofBits .f32 0x3F000000#32), Ideal.cos (a1 (ix2 0 n) * Ideal.ofBits .f32 0x3F000000#32),
    Ideal.cos (a2 (ix2 0 n) * Ideal.ofBits .f32 0x3F000000#32), Ideal.cos (a3 (ix2 0 n) * Ideal.ofBits .f32 0x3F000000#32)]
/-- The sines of the half angles of column `n`. -/
def sinHalf : Fin 4 → EReal :=
  ![Ideal.sin (a0 (ix2 0 n) * Ideal.ofBits .f32 0x3F000000#32), Ideal.sin (a1 (ix2 0 n) * Ideal.ofBits .f32 0x3F000000#32),
    Ideal.sin (a2 (ix2 0 n) * Ideal.ofBits .f32 0x3F000000#32), Ideal.sin (a3 (ix2 0 n) * Ideal.ofBits .f32 0x3F000000#32)]

theorem cs_eq : cs u a0 a1 a2 a3 n = cosHalf a0 a1 a2 a3 n := by
  funext q
  fin_cases q
  · exact congrArg (fun t => Ideal.cos (t * Ideal.ofBits .f32 0x3F000000#32)) (shapeCast_1a_a_apply a0 shapeCasts_S1x57344_S57344 n)
  · exact congrArg (fun t => Ideal.cos (t * Ideal.ofBits .f32 0x3F000000#32)) (shapeCast_1a_a_apply a1 shapeCasts_S1x57344_S57344 n)
  · exact congrArg (fun t => Ideal.cos (t * Ideal.ofBits .f32 0x3F000000#32)) (shapeCast_1a_a_apply a2 shapeCasts_S1x57344_S57344 n)
  · exact congrArg (fun t => Ideal.cos (t * Ideal.ofBits .f32 0x3F000000#32)) (shapeCast_1a_a_apply a3 shapeCasts_S1x57344_S57344 n)
theorem sn_eq : sn u a0 a1 a2 a3 n = sinHalf a0 a1 a2 a3 n := by
  funext q
  fin_cases q
  · exact congrArg (fun t => Ideal.sin (t * Ideal.ofBits .f32 0x3F000000#32)) (shapeCast_1a_a_apply a0 shapeCasts_S1x57344_S57344 n)
  · exact congrArg (fun t => Ideal.sin (t * Ideal.ofBits .f32 0x3F000000#32)) (shapeCast_1a_a_apply a1 shapeCasts_S1x57344_S57344 n)
  · exact congrArg (fun t => Ideal.sin (t * Ideal.ofBits .f32 0x3F000000#32)) (shapeCast_1a_a_apply a2 shapeCasts_S1x57344_S57344 n)
  · exact congrArg (fun t => Ideal.sin (t * Ideal.ofBits .f32 0x3F000000#32)) (shapeCast_1a_a_apply a3 shapeCasts_S1x57344_S57344 n)

/-- The stored block at `(q, n)` from the five loaded blocks. -/
theorem stored_apply (q : Fin 4) :
    stored u a0 a1 a2 a3 (ix2 q n) = zexp q (circuit (Umat u) (cosHalf a0 a1 a2 a3 n) (sinHalf a0 a1 a2 a3 n)) := by
  rw [stored_amp, amp, cs_eq, sn_eq]; rfl

/-! ## Through the body's loads and its one store -/

theorem zero2 : (![0, 0] : Fin 2 → Nat) = fun _ => 0 := by
  funext a; fin_cases a <;> rfl

/-- The staging buffer of the output after the body, at `(q, n)`, from the two input blocks: the matrix block
    `x0` and the block of angles `x1` (row `k` = the angle of system `k`). The rectangles are the body's: the whole
    matrix block, row `k` of the angles, the whole output block; their in-bounds proofs are arbitrary. -/
theorem body_apply (x0 : Vec Ideal S16x16 .f32) (x1 : Vec Ideal S4x57344 .f32)
    (inb0 : ∀ a, (![0, 0] : Fin 2 → Nat) a + S1x57344.size a ≤ S4x57344.size a)
    (inb1 : ∀ a, (![1, 0] : Fin 2 → Nat) a + S1x57344.size a ≤ S4x57344.size a)
    (inb2 : ∀ a, (![2, 0] : Fin 2 → Nat) a + S1x57344.size a ≤ S4x57344.size a)
    (inb3 : ∀ a, (![3, 0] : Fin 2 → Nat) a + S1x57344.size a ≤ S4x57344.size a)
    (inb4 : ∀ a, (![0, 0] : Fin 2 → Nat) a + S16x16.size a ≤ S16x16.size a)
    (inb5 : ∀ a, (![0, 0] : Fin 2 → Nat) a + S4x57344.size a ≤ S4x57344.size a)
    (q : Fin 4) (n : Fin 57344) :
    View.canon [(⟨Rect.unit (s := S4x57344) ![0, 0] S4x57344.size inb5,
        stored (F := Ideal) (View.ld x0 (Rect.unit (s := S16x16) ![0, 0] S16x16.size inb4))
          (View.ld x1 (Rect.unit (s := S4x57344) ![0, 0] S1x57344.size inb0))
          (View.ld x1 (Rect.unit (s := S4x57344) ![1, 0] S1x57344.size inb1))
          (View.ld x1 (Rect.unit (s := S4x57344) ![2, 0] S1x57344.size inb2))
          (View.ld x1 (Rect.unit (s := S4x57344) ![3, 0] S1x57344.size inb3))⟩ : View.Piece (Elt Ideal) S4x57344 .f32)] (ix2 q n)
      = zexp q (circuit (fun j i => x0 (ix2 j i))
          (fun k => Ideal.cos (x1 (ix2 k n) * Ideal.ofBits .f32 0x3F000000#32))
          (fun k => Ideal.sin (x1 (ix2 k n) * Ideal.ofBits .f32 0x3F000000#32))) := by
  rw [View.canon_unit_zero zero2, View.ld_unit_zero zero2, stored_apply]
  have hc : cosHalf (View.ld x1 (Rect.unit (s := S4x57344) ![0, 0] S1x57344.size inb0))
      (View.ld x1 (Rect.unit (s := S4x57344) ![1, 0] S1x57344.size inb1))
      (View.ld x1 (Rect.unit (s := S4x57344) ![2, 0] S1x57344.size inb2))
      (View.ld x1 (Rect.unit (s := S4x57344) ![3, 0] S1x57344.size inb3)) n
      = fun k => Ideal.cos (x1 (ix2 k n) * Ideal.ofBits .f32 0x3F000000#32) := by
    funext k
    fin_cases k
    · exact congrArg (fun t => Ideal.cos (t * Ideal.ofBits .f32 0x3F000000#32)) (ld_row_apply x1 0 (by decide) inb0 n)
    · exact congrArg (fun t => Ideal.cos (t * Ideal.ofBits .f32 0x3F000000#32)) (ld_row_apply x1 1 (by decide) inb1 n)
    · exact congrArg (fun t => Ideal.cos (t * Ideal.ofBits .f32 0x3F000000#32)) (ld_row_apply x1 2 (by decide) inb2 n)
    · exact congrArg (fun t => Ideal.cos (t * Ideal.ofBits .f32 0x3F000000#32)) (ld_row_apply x1 3 (by decide) inb3 n)
  have hs : sinHalf (View.ld x1 (Rect.unit (s := S4x57344) ![0, 0] S1x57344.size inb0))
      (View.ld x1 (Rect.unit (s := S4x57344) ![1, 0] S1x57344.size inb1))
      (View.ld x1 (Rect.unit (s := S4x57344) ![2, 0] S1x57344.size inb2))
      (View.ld x1 (Rect.unit (s := S4x57344) ![3, 0] S1x57344.size inb3)) n
      = fun k => Ideal.sin (x1 (ix2 k n) * Ideal.ofBits .f32 0x3F000000#32) := by
    funext k
    fin_cases k
    · exact congrArg (fun t => Ideal.sin (t * Ideal.ofBits .f32 0x3F000000#32)) (ld_row_apply x1 0 (by decide) inb0 n)
    · exact congrArg (fun t => Ideal.sin (t * Ideal.ofBits .f32 0x3F000000#32)) (ld_row_apply x1 1 (by decide) inb1 n)
    · exact congrArg (fun t => Ideal.sin (t * Ideal.ofBits .f32 0x3F000000#32)) (ld_row_apply x1 2 (by decide) inb2 n)
    · exact congrArg (fun t => Ideal.sin (t * Ideal.ofBits .f32 0x3F000000#32)) (ld_row_apply x1 3 (by decide) inb3 n)
  rw [hc, hs]; rfl

end Cert.KernelIdeal.Body
-- ==== Proof.QSpec.lean ====
/-
  Four two-level systems, sixteen real amplitudes.  This module is pure mathematics: the gates that both
  programs apply (a plane rotation of one system, a controlled flip of a neighbour), the two arrangements of
  the circuit, and the theorem that they agree.

  A state is a function of four bits.  A rotation of system q by an angle with half-angle cosine c and sine s
  sends the pair of amplitudes that differ only in bit q, (x0, x1), to (c x0 - s x1, s x0 + c x1).  A controlled
  flip with control k and target t leaves the amplitudes with bit k = 0 alone and exchanges, among those with
  bit k = 1, the two values of bit t.  One layer is: rotate each system by its own data angle (`enc`), then for
  k = 0, 1, 2, 3 rotate system k by a fixed angle and flip system k+1 (mod 4) under its control (`vary`).

  The gate-by-gate arrangement applies two layers to the state that is 1 at 0000 and 0 elsewhere.  The other
  arrangement uses two facts.  First, the data rotations applied to that starting state give a product state:
  the amplitude at (a, b, e, d) is f0 a * f1 b * f2 e * f3 d with fq 0 = cq, fq 1 = sq (`enc_start`).  Second,
  `vary` is linear, so it is multiplication by the matrix whose column i is `vary` of the i-th basis state
  (`vary_eq_matrix`).  Hence both arrangements compute the same state (`arrangements_agree`).
-/
import Mathlib.Data.Real.Basic
import Mathlib.Algebra.BigOperators.Fin
import Mathlib.Algebra.Module.LinearMap.Defs
import Mathlib.Algebra.Module.Pi
import Mathlib.Algebra.BigOperators.Pi
import Mathlib.Tactic.Ring
import Mathlib.Tactic.FinCases
import Mathlib.Tactic.NormNum

noncomputable section

namespace Cert.QSpec

section Gates

variable {α : Type} [Mul α] [Add α] [Sub α]

/-- Rotation of the first system: the pair (ψ 0 b e d, ψ 1 b e d) goes to (c x0 - s x1, s x0 + c x1). -/
def ry0 (c s : α) (ψ : Fin 2 → Fin 2 → Fin 2 → Fin 2 → α) : Fin 2 → Fin 2 → Fin 2 → Fin 2 → α := fun a b e d =>
  if a = 0 then c * ψ 0 b e d - s * ψ 1 b e d else s * ψ 0 b e d + c * ψ 1 b e d
/-- Rotation of the second system. -/
def ry1 (c s : α) (ψ : Fin 2 → Fin 2 → Fin 2 → Fin 2 → α) : Fin 2 → Fin 2 → Fin 2 → Fin 2 → α := fun a b e d =>
  if b = 0 then c * ψ a 0 e d - s * ψ a 1 e d else s * ψ a 0 e d + c * ψ a 1 e d
/-- Rotation of the third system. -/
def ry2 (c s : α) (ψ : Fin 2 → Fin 2 → Fin 2 → Fin 2 → α) : Fin 2 → Fin 2 → Fin 2 → Fin 2 → α := fun a b e d =>
  if e = 0 then c * ψ a b 0 d - s * ψ a b 1 d else s * ψ a b 0 d + c * ψ a b 1 d
/-- Rotation of the fourth system. -/
def ry3 (c s : α) (ψ : Fin 2 → Fin 2 → Fin 2 → Fin 2 → α) : Fin 2 → Fin 2 → Fin 2 → Fin 2 → α := fun a b e d =>
  if d = 0 then c * ψ a b e 0 - s * ψ a b e 1 else s * ψ a b e 0 + c * ψ a b e 1

omit [Mul α] [Add α] [Sub α] in
/-- Controlled flip, control the first system, target the second. -/
def cx01 (ψ : Fin 2 → Fin 2 → Fin 2 → Fin 2 → α) : Fin 2 → Fin 2 → Fin 2 → Fin 2 → α := fun a b e d =>
  if a = 0 then ψ a b e d else ψ a b.rev e d
/-- Control the second system, target the third. -/
def cx12 (ψ : Fin 2 → Fin 2 → Fin 2 → Fin 2 → α) : Fin 2 → Fin 2 → Fin 2 → Fin 2 → α := fun a b e d =>
  if b = 0 then ψ a b e d else ψ a b e.rev d
/-- Control the third system, target the fourth. -/
def cx23 (ψ : Fin 2 → Fin 2 → Fin 2 → Fin 2 → α) : Fin 2 → Fin 2 → Fin 2 → Fin 2 → α := fun a b e d =>
  if e = 0 then ψ a b e d else ψ a b e d.rev
/-- Control the fourth system, target the first. -/
def cx30 (ψ : Fin 2 → Fin 2 → Fin 2 → Fin 2 → α) : Fin 2 → Fin 2 → Fin 2 → Fin 2 → α := fun a b e d =>
  if d = 0 then ψ a b e d else ψ a.rev b e d

/-- The data rotations of one layer: system q by the angle with half-angle cosine `c q` and sine `s q`. -/
def enc (c s : Fin 4 → α) (ψ : Fin 2 → Fin 2 → Fin 2 → Fin 2 → α) : Fin 2 → Fin 2 → Fin 2 → Fin 2 → α :=
  ry3 (c 3) (s 3) (ry2 (c 2) (s 2) (ry1 (c 1) (s 1) (ry0 (c 0) (s 0) ψ)))

/-- The fixed block of one layer: for k = 0, 1, 2, 3 rotate system k, then flip system k+1 under its control. -/
def vary (p r : Fin 4 → α) (ψ : Fin 2 → Fin 2 → Fin 2 → Fin 2 → α) : Fin 2 → Fin 2 → Fin 2 → Fin 2 → α :=
  cx30 (ry3 (p 3) (r 3) (cx23 (ry2 (p 2) (r 2) (cx12 (ry1 (p 1) (r 1) (cx01 (ry0 (p 0) (r 0) ψ)))))))

/-- The product state of the four pairs (c q, s q): the factors multiplied from the first system on. -/
def prod (c s : Fin 4 → α) : Fin 2 → Fin 2 → Fin 2 → Fin 2 → α := fun a b e d =>
  (((if a = 0 then c 0 else s 0) * (if b = 0 then c 1 else s 1)) * (if e = 0 then c 2 else s 2))
    * (if d = 0 then c 3 else s 3)

end Gates

/-- Real amplitudes. -/
abbrev Amp := Fin 2 → Fin 2 → Fin 2 → Fin 2 → ℝ

/-- The basis state at (a0, b0, e0, d0). -/
def basis (a0 b0 e0 d0 : Fin 2) : Amp := fun a b e d => if a = a0 ∧ b = b0 ∧ e = e0 ∧ d = d0 then 1 else 0

/-- The data rotations turn the starting state into the product state. -/
theorem enc_start (c s : Fin 4 → ℝ) : enc c s (basis 0 0 0 0) = prod c s := by
  funext a b e d
  fin_cases a <;> fin_cases b <;> fin_cases e <;> fin_cases d <;>
    simp [enc, ry0, ry1, ry2, ry3, basis, prod] <;> ring

/-- Every state is the combination of the basis states with its own amplitudes as coefficients. -/
theorem decomp (ψ : Amp) :
    ψ = ∑ a0, ∑ b0, ∑ e0, ∑ d0, ψ a0 b0 e0 d0 • basis a0 b0 e0 d0 := by
  funext a b e d
  simp only [Fin.sum_univ_two, Pi.add_apply, Pi.smul_apply, smul_eq_mul, basis]
  fin_cases a <;> fin_cases b <;> fin_cases e <;> fin_cases d <;> simp

section Linear

/-- A gate is linear when it respects sums and real multiples. -/
structure Lin (G : Amp → Amp) : Prop where
  add : ∀ ψ χ, G (ψ + χ) = G ψ + G χ
  smul : ∀ (t : ℝ) ψ, G (t • ψ) = t • G ψ

theorem Lin.comp {G H : Amp → Amp} (hG : Lin G) (hH : Lin H) : Lin (G ∘ H) :=
  ⟨fun ψ χ => by simp only [Function.comp, hH.add, hG.add], fun t ψ => by simp only [Function.comp, hH.smul, hG.smul]⟩

theorem Lin.zero {G : Amp → Amp} (hG : Lin G) : G 0 = 0 := by
  have := hG.smul 0 0; simpa using this

theorem Lin.sum {G : Amp → Amp} (hG : Lin G) {ι : Type} (S : Finset ι) (f : ι → Amp) :
    G (∑ i ∈ S, f i) = ∑ i ∈ S, G (f i) := by
  classical
  induction S using Finset.induction_on with
  | empty => simpa using hG.zero
  | insert i S hi ih => rw [Finset.sum_insert hi, Finset.sum_insert hi, hG.add, ih]

theorem lin_ry0 (c s : ℝ) : Lin (ry0 c s) :=
  ⟨fun ψ χ => by funext a b e d; simp only [ry0, Pi.add_apply]; split_ifs <;> ring,
   fun t ψ => by funext a b e d; simp only [ry0, Pi.smul_apply, smul_eq_mul]; split_ifs <;> ring⟩
theorem lin_ry1 (c s : ℝ) : Lin (ry1 c s) :=
  ⟨fun ψ χ => by funext a b e d; simp only [ry1, Pi.add_apply]; split_ifs <;> ring,
   fun t ψ => by funext a b e d; simp only [ry1, Pi.smul_apply, smul_eq_mul]; split_ifs <;> ring⟩
theorem lin_ry2 (c s : ℝ) : Lin (ry2 c s) :=
  ⟨fun ψ χ => by funext a b e d; simp only [ry2, Pi.add_apply]; split_ifs <;> ring,
   fun t ψ => by funext a b e d; simp only [ry2, Pi.smul_apply, smul_eq_mul]; split_ifs <;> ring⟩
theorem lin_ry3 (c s : ℝ) : Lin (ry3 c s) :=
  ⟨fun ψ χ => by funext a b e d; simp only [ry3, Pi.add_apply]; split_ifs <;> ring,
   fun t ψ => by funext a b e d; simp only [ry3, Pi.smul_apply, smul_eq_mul]; split_ifs <;> ring⟩
theorem lin_cx01 : Lin (cx01 (α := ℝ)) :=
  ⟨fun ψ χ => by funext a b e d; simp only [cx01, Pi.add_apply]; split_ifs <;> rfl,
   fun t ψ => by funext a b e d; simp only [cx01, Pi.smul_apply]; split_ifs <;> rfl⟩
theorem lin_cx12 : Lin (cx12 (α := ℝ)) :=
  ⟨fun ψ χ => by funext a b e d; simp only [cx12, Pi.add_apply]; split_ifs <;> rfl,
   fun t ψ => by funext a b e d; simp only [cx12, Pi.smul_apply]; split_ifs <;> rfl⟩
theorem lin_cx23 : Lin (cx23 (α := ℝ)) :=
  ⟨fun ψ χ => by funext a b e d; simp only [cx23, Pi.add_apply]; split_ifs <;> rfl,
   fun t ψ => by funext a b e d; simp only [cx23, Pi.smul_apply]; split_ifs <;> rfl⟩
theorem lin_cx30 : Lin (cx30 (α := ℝ)) :=
  ⟨fun ψ χ => by funext a b e d; simp only [cx30, Pi.add_apply]; split_ifs <;> rfl,
   fun t ψ => by funext a b e d; simp only [cx30, Pi.smul_apply]; split_ifs <;> rfl⟩

/-- The fixed block is a composition of linear gates. -/
theorem lin_vary (p r : Fin 4 → ℝ) : Lin (vary p r) :=
  (lin_cx30.comp ((lin_ry3 _ _).comp (lin_cx23.comp ((lin_ry2 _ _).comp
    (lin_cx12.comp ((lin_ry1 _ _).comp (lin_cx01.comp (lin_ry0 (p 0) (r 0)))))))))

end Linear

/-- The matrix of the fixed block: the entry at row (a, b, e, d), column (a0, b0, e0, d0) is the amplitude at
    (a, b, e, d) of the block applied to the basis state (a0, b0, e0, d0). -/
def matrix (p r : Fin 4 → ℝ) (a b e d a0 b0 e0 d0 : Fin 2) : ℝ := vary p r (basis a0 b0 e0 d0) a b e d

/-- Multiplication of a state by a sixteen-by-sixteen matrix given by bits. -/
def mulVec (M : Fin 2 → Fin 2 → Fin 2 → Fin 2 → Fin 2 → Fin 2 → Fin 2 → Fin 2 → ℝ) (ψ : Amp) : Amp := fun a b e d =>
  ∑ a0, ∑ b0, ∑ e0, ∑ d0, M a b e d a0 b0 e0 d0 * ψ a0 b0 e0 d0

/-- The fixed block is multiplication by its matrix. -/
theorem vary_eq_matrix (p r : Fin 4 → ℝ) (ψ : Amp) : vary p r ψ = mulVec (matrix p r) ψ := by
  have hL := lin_vary p r
  conv_lhs => rw [decomp ψ]
  simp only [hL.sum, hL.smul]
  funext a b e d
  simp only [mulVec, matrix, Finset.sum_apply, Pi.smul_apply, smul_eq_mul, mul_comm]

/-- The gate-by-gate arrangement (two layers on the starting state) and the arrangement through the product
    state and the block's matrix compute the same state. -/
theorem arrangements_agree (c s p r : Fin 4 → ℝ) :
    vary p r (enc c s (vary p r (enc c s (basis 0 0 0 0))))
      = mulVec (matrix p r) (enc c s (mulVec (matrix p r) (prod c s))) := by
  rw [enc_start, vary_eq_matrix, vary_eq_matrix]

end Cert.QSpec

end
-- ==== Proof.QBridge.lean ====
/-
  The two arrangements of the circuit on the extended reals, when every half-angle cosine and sine is a real
  number.  The gates of `QSpec` are written for any type with +, - and *, so both programs' values are stated
  with them on the extended reals; this module shows that on real data they are the images of the real gates
  (sums, differences and products of reals are the same on both sides of the inclusion), and so the real
  theorem `QSpec.arrangements_agree` transfers.
-/
import Mathlib.Data.EReal.Basic
import Mathlib.Data.EReal.Operations
import Mathlib.Tactic.NormNum
import proofs.«159359_j65481071398168_2_alg».proof.Proof.QSpec

noncomputable section

namespace Cert.QSpec

/-- Amplitudes on the extended reals. -/
abbrev AmpE := Fin 2 → Fin 2 → Fin 2 → Fin 2 → EReal

/-- The inclusion of real amplitudes. -/
def up (ψ : Amp) : AmpE := fun a b e d => ((ψ a b e d : ℝ) : EReal)

/-- The inclusion of a real family. -/
def upv (c : Fin 4 → ℝ) : Fin 4 → EReal := fun k => ((c k : ℝ) : EReal)

theorem up_ry0 (c s : ℝ) (ψ : Amp) : ry0 (c : EReal) (s : EReal) (up ψ) = up (ry0 c s ψ) := by
  funext a b e d; simp only [ry0, up]; split_ifs <;> norm_cast
theorem up_ry1 (c s : ℝ) (ψ : Amp) : ry1 (c : EReal) (s : EReal) (up ψ) = up (ry1 c s ψ) := by
  funext a b e d; simp only [ry1, up]; split_ifs <;> norm_cast
theorem up_ry2 (c s : ℝ) (ψ : Amp) : ry2 (c : EReal) (s : EReal) (up ψ) = up (ry2 c s ψ) := by
  funext a b e d; simp only [ry2, up]; split_ifs <;> norm_cast
theorem up_ry3 (c s : ℝ) (ψ : Amp) : ry3 (c : EReal) (s : EReal) (up ψ) = up (ry3 c s ψ) := by
  funext a b e d; simp only [ry3, up]; split_ifs <;> norm_cast
theorem up_cx01 (ψ : Amp) : cx01 (up ψ) = up (cx01 ψ) := by
  funext a b e d; simp only [cx01, up]; split_ifs <;> rfl
theorem up_cx12 (ψ : Amp) : cx12 (up ψ) = up (cx12 ψ) := by
  funext a b e d; simp only [cx12, up]; split_ifs <;> rfl
theorem up_cx23 (ψ : Amp) : cx23 (up ψ) = up (cx23 ψ) := by
  funext a b e d; simp only [cx23, up]; split_ifs <;> rfl
theorem up_cx30 (ψ : Amp) : cx30 (up ψ) = up (cx30 ψ) := by
  funext a b e d; simp only [cx30, up]; split_ifs <;> rfl

theorem up_enc (c s : Fin 4 → ℝ) (ψ : Amp) : enc (upv c) (upv s) (up ψ) = up (enc c s ψ) := by
  simp only [enc, upv, up_ry0, up_ry1, up_ry2, up_ry3]

theorem up_vary (p r : Fin 4 → ℝ) (ψ : Amp) : vary (upv p) (upv r) (up ψ) = up (vary p r ψ) := by
  simp only [vary, upv, up_ry0, up_ry1, up_ry2, up_ry3, up_cx01, up_cx12, up_cx23, up_cx30]

theorem up_prod (c s : Fin 4 → ℝ) : prod (upv c) (upv s) = up (prod c s) := by
  funext a b e d; simp only [prod, upv, up]; split_ifs <;> norm_cast

/-- The basis state on the extended reals. -/
def basisE (a0 b0 e0 d0 : Fin 2) : AmpE := fun a b e d => if a = a0 ∧ b = b0 ∧ e = e0 ∧ d = d0 then 1 else 0

theorem up_basis (a0 b0 e0 d0 : Fin 2) : basisE a0 b0 e0 d0 = up (basis a0 b0 e0 d0) := by
  funext a b e d; simp only [basisE, basis, up]; split_ifs <;> norm_cast

/-- The block's matrix on the extended reals. -/
def matrixE (p r : Fin 4 → EReal) (a b e d a0 b0 e0 d0 : Fin 2) : EReal := vary p r (basisE a0 b0 e0 d0) a b e d

/-- Multiplication of a state by a matrix given by bits, on the extended reals; the sixteen products are added
    in the order of the column index (a0, b0, e0, d0), most significant bit first. -/
def mulVecE (M : Fin 2 → Fin 2 → Fin 2 → Fin 2 → Fin 2 → Fin 2 → Fin 2 → Fin 2 → EReal) (ψ : AmpE) : AmpE := fun a b e d =>
  ∑ a0, ∑ b0, ∑ e0, ∑ d0, M a b e d a0 b0 e0 d0 * ψ a0 b0 e0 d0

theorem up_matrix (p r : Fin 4 → ℝ) (a b e d a0 b0 e0 d0 : Fin 2) :
    matrixE (upv p) (upv r) a b e d a0 b0 e0 d0 = ((matrix p r a b e d a0 b0 e0 d0 : ℝ) : EReal) := by
  simp only [matrixE, matrix, up_basis, up_vary, up]

theorem up_mulVec (p r : Fin 4 → ℝ) (ψ : Amp) :
    mulVecE (matrixE (upv p) (upv r)) (up ψ) = up (mulVec (matrix p r) ψ) := by
  funext a b e d
  simp only [mulVecE, up_matrix, up, mulVec, Fin.sum_univ_two]
  norm_cast

/-- On real half-angle data the two arrangements agree on the extended reals. -/
theorem arrangements_agree_E (c s p r : Fin 4 → ℝ) :
    vary (upv p) (upv r) (enc (upv c) (upv s) (vary (upv p) (upv r) (enc (upv c) (upv s) (basisE 0 0 0 0))))
      = mulVecE (matrixE (upv p) (upv r)) (enc (upv c) (upv s) (mulVecE (matrixE (upv p) (upv r)) (prod (upv c) (upv s)))) := by
  rw [up_basis, up_enc, up_vary, up_enc, up_vary, up_prod, up_mulVec, up_enc, up_mulVec, arrangements_agree]

end Cert.QSpec

end
-- ==== Proof.QFlat.lean ====
/-
  The sixteen amplitudes numbered 0 … 15 (bit 0 of the numbering is the LAST system: i = 8a + 4b + 2e + d)
  against the amplitudes indexed by four bits.  The kernel's arithmetic is stated on the numbered form
  (`QBody`), the circuit's mathematics on the bit form (`QSpec`); this module carries each operation across:
  the product state, the four rotations, the multiplication by a matrix, the whole circuit, and the expectation of Z.
-/
import proofs.«159359_j65481071398168_2_alg».proof.Proof.KerBodySpec
import proofs.«159359_j65481071398168_2_alg».proof.Proof.QBridge
import Mathlib.Tactic.Abel

noncomputable section

namespace Cert.QFlat

open Cert.QBody Cert.QSpec

/-- The number of the basis state with bits (a, b, e, d). -/
def flat (a b e d : Fin 2) : Fin 16 := ⟨8 * a.val + 4 * b.val + 2 * e.val + d.val, by omega⟩

/-- A numbered family read by bits. -/
def unflat (v : Fin 16 → EReal) : AmpE := fun a b e d => v (flat a b e d)

/-- A matrix numbered by rows and columns, read by bits. -/
def unflatM (U : Fin 16 → Fin 16 → EReal) : Fin 2 → Fin 2 → Fin 2 → Fin 2 → Fin 2 → Fin 2 → Fin 2 → Fin 2 → EReal :=
  fun a b e d a0 b0 e0 d0 => U (flat a b e d) (flat a0 b0 e0 d0)

theorem unflat_prodState (c s : Fin 4 → EReal) : unflat (prodState c s) = Cert.QSpec.prod c s := by
  funext a b e d
  fin_cases a <;> fin_cases b <;> fin_cases e <;> fin_cases d <;>
    simp [unflat, flat, prodState, factor, bit, Cert.QSpec.prod]

theorem unflat_ry0 (c s : EReal) (v : Fin 16 → EReal) : unflat (ryVec 0 c s v) = ry0 c s (unflat v) := by
  funext a b e d
  fin_cases a <;> fin_cases b <;> fin_cases e <;> fin_cases d <;>
    simp [unflat, flat, ryVec, bit, QBody.flip, ry0, add_comm]
theorem unflat_ry1 (c s : EReal) (v : Fin 16 → EReal) : unflat (ryVec 1 c s v) = ry1 c s (unflat v) := by
  funext a b e d
  fin_cases a <;> fin_cases b <;> fin_cases e <;> fin_cases d <;>
    simp [unflat, flat, ryVec, bit, QBody.flip, ry1, add_comm]
theorem unflat_ry2 (c s : EReal) (v : Fin 16 → EReal) : unflat (ryVec 2 c s v) = ry2 c s (unflat v) := by
  funext a b e d
  fin_cases a <;> fin_cases b <;> fin_cases e <;> fin_cases d <;>
    simp [unflat, flat, ryVec, bit, QBody.flip, ry2, add_comm]
theorem unflat_ry3 (c s : EReal) (v : Fin 16 → EReal) : unflat (ryVec 3 c s v) = ry3 c s (unflat v) := by
  funext a b e d
  fin_cases a <;> fin_cases b <;> fin_cases e <;> fin_cases d <;>
    simp [unflat, flat, ryVec, bit, QBody.flip, ry3, add_comm]

theorem unflat_matVec (U : Fin 16 → Fin 16 → EReal) (v : Fin 16 → EReal) :
    unflat (matVec U v) = mulVecE (unflatM U) (unflat v) := by
  funext a b e d
  simp only [unflat, matVec, mulVecE, unflatM, Fin.sum_univ_two]
  simp only [Fin.sum_univ_succ, Fin.sum_univ_zero, add_zero]
  simp only [flat]
  abel_nf
  rfl

/-- The kernel's circuit on the numbered amplitudes is the matrix arrangement on the bit-indexed ones. -/
theorem unflat_circuit (U : Fin 16 → Fin 16 → EReal) (c s : Fin 4 → EReal) :
    unflat (matVec U (ryVec 3 (c 3) (s 3) (ryVec 2 (c 2) (s 2) (ryVec 1 (c 1) (s 1) (ryVec 0 (c 0) (s 0)
        (matVec U (prodState c s)))))))
      = mulVecE (unflatM U) (enc c s (mulVecE (unflatM U) (Cert.QSpec.prod c s))) := by
  simp only [unflat_matVec, unflat_ry3, unflat_ry2, unflat_ry1, unflat_ry0, unflat_prodState, enc]

/-- The expectation of Z on system q over the reals: the squares with bit q = 0 minus those with bit q = 1. -/
def zR (q : Fin 4) (ψ : Amp) : ℝ :=
  match q with
  | 0 => (∑ b, ∑ e, ∑ d, ψ 0 b e d * ψ 0 b e d) - ∑ b, ∑ e, ∑ d, ψ 1 b e d * ψ 1 b e d
  | 1 => (∑ a, ∑ e, ∑ d, ψ a 0 e d * ψ a 0 e d) - ∑ a, ∑ e, ∑ d, ψ a 1 e d * ψ a 1 e d
  | 2 => (∑ a, ∑ b, ∑ d, ψ a b 0 d * ψ a b 0 d) - ∑ a, ∑ b, ∑ d, ψ a b 1 d * ψ a b 1 d
  | 3 => (∑ a, ∑ b, ∑ e, ψ a b e 0 * ψ a b e 0) - ∑ a, ∑ b, ∑ e, ψ a b e 1 * ψ a b e 1

/-- On real amplitudes the kernel's expectation (squares added from 0 in increasing order of the number) is the
    real expectation. -/
theorem zexp_up (q : Fin 4) (v : Fin 16 → EReal) (ψ : Amp) (h : unflat v = up ψ) : zexp q v = ((zR q ψ : ℝ) : EReal) := by
  have hv : ∀ a b e d, v (flat a b e d) = ((ψ a b e d : ℝ) : EReal) := fun a b e d =>
    congrFun (congrFun (congrFun (congrFun h a) b) e) d
  have h0 : v 0 = _ := hv 0 0 0 0
  have h1 : v 1 = _ := hv 0 0 0 1
  have h2 : v 2 = _ := hv 0 0 1 0
  have h3 : v 3 = _ := hv 0 0 1 1
  have h4 : v 4 = _ := hv 0 1 0 0
  have h5 : v 5 = _ := hv 0 1 0 1
  have h6 : v 6 = _ := hv 0 1 1 0
  have h7 : v 7 = _ := hv 0 1 1 1
  have h8 : v 8 = _ := hv 1 0 0 0
  have h9 : v 9 = _ := hv 1 0 0 1
  have h10 : v 10 = _ := hv 1 0 1 0
  have h11 : v 11 = _ := hv 1 0 1 1
  have h12 : v 12 = _ := hv 1 1 0 0
  have h13 : v 13 = _ := hv 1 1 0 1
  have h14 : v 14 = _ := hv 1 1 1 0
  have h15 : v 15 = _ := hv 1 1 1 1
  fin_cases q
  · show zexp 0 v = _
    rw [zexp, zsum_0_false, zsum_0_true, h0, h1, h2, h3, h4, h5, h6, h7, h8, h9, h10, h11, h12, h13, h14, h15]
    norm_cast
    simp only [zR, Fin.sum_univ_two]; ring
  · show zexp 1 v = _
    rw [zexp, zsum_1_false, zsum_1_true, h0, h1, h2, h3, h4, h5, h6, h7, h8, h9, h10, h11, h12, h13, h14, h15]
    norm_cast
    simp only [zR, Fin.sum_univ_two]; ring
  · show zexp 2 v = _
    rw [zexp, zsum_2_false, zsum_2_true, h0, h1, h2, h3, h4, h5, h6, h7, h8, h9, h10, h11, h12, h13, h14, h15]
    norm_cast
    simp only [zR, Fin.sum_univ_two]; ring
  · show zexp 3 v = _
    rw [zexp, zsum_3_false, zsum_3_true, h0, h1, h2, h3, h4, h5, h6, h7, h8, h9, h10, h11, h12, h13, h14, h15]
    norm_cast
    simp only [zR, Fin.sum_univ_two]; ring

end Cert.QFlat

end
-- ==== Proof.KerSpec.lean ====
/-
  The kernel's value at a patch, in the terms of the circuit's mathematics.  At column n of a block the body
  stores, in row q, the expectation of Z on system q of the state obtained from the product state of the four
  half-angle pairs by: the 16 x 16 matrix, the four data rotations, the matrix again (`Body.stored_apply`).
  This module states that as a function of the matrix and of the column's four angles, in the form the
  blocks-to-array step takes.
-/
import proofs.«159359_j65481071398168_2_alg».proof.Proof.KerBodyOut
import proofs.«159359_j65481071398168_2_alg».proof.Proof.QFlat

noncomputable section

namespace Cert.KernelIdeal.KerSpec

open Idealize.ShloMosaic Idealize.ShloMosaic.ValueIdx Cert.KernelIdeal Cert.QBody

/-- The literal 0.5 as the body prints it. -/
abbrev halfLit : EReal := Ideal.ofBits .f32 0x3F000000#32

/-- The stored value at a column: from the matrix `U` and the column's four angles. -/
def spec (U : S16x16.Idx → EReal) (t0 t1 t2 t3 : EReal) (q : Fin 4) : EReal :=
  zexp q (circuit (fun j i => U (ix2 j i))
    ![Ideal.cos (t0 * halfLit), Ideal.cos (t1 * halfLit), Ideal.cos (t2 * halfLit), Ideal.cos (t3 * halfLit)]
    ![Ideal.sin (t0 * halfLit), Ideal.sin (t1 * halfLit), Ideal.sin (t2 * halfLit), Ideal.sin (t3 * halfLit)])

theorem hspec (u : Vec Ideal S16x16 .f32) (a0 a1 a2 a3 : Vec Ideal S1x57344 .f32) (q : Fin 4) (n : Fin 57344) :
    Cert.KernelIdeal.Body.stored (F := Ideal) u a0 a1 a2 a3 (ix2 q n)
      = spec u (a0 (ix2 (0 : Fin 1) n)) (a1 (ix2 (0 : Fin 1) n)) (a2 (ix2 (0 : Fin 1) n)) (a3 (ix2 (0 : Fin 1) n)) q :=
  Cert.KernelIdeal.Body.stored_apply u a0 a1 a2 a3 n q

end Cert.KernelIdeal.KerSpec

end
-- ==== Proof.KerGatesTake.lean ====
import proofs.«159359_j65481071398168_2_alg».proof.KernelIdeal
import Idealize.ShloMosaic.Lib.ValueIdx
import Idealize.ShloMosaic.PureOps.Reduce

noncomputable section

namespace Cert.KernelIdeal.KerGates

open Idealize.ShloMosaic Idealize.ShloMosaic.ValueIdx
open Cert.KernelIdeal Cert.KernelIdeal.Facts₀

variable [Facts₀]

/-! # Taking one slice of the state along a qubit axis

The state is a rank-5 array `[N, 2, 2, 2, 2]`: one batch axis and one axis of extent 2 per qubit.
`take` along axis `a` at position `k ∈ {0, 1}` is: normalise the position (a negative one counts from the
end), gather the slice, and keep it where the position is in bounds (elsewhere a fill value). For the two
positions that occur the position is in bounds, so the result at `(n, r, s, t)` is the state at the index
with `k` inserted on axis `a`. -/

/-- A left fold of the one-bit "and" over entries that are all one, from one, is one. -/
theorem foldl_andi_ones {ι : Type} (x : ι → BitVec 1) (hx : ∀ i, x i = 1#1) (l : List ι) :
    l.foldl (fun r i => IntOp.andi r (x i)) 1#1 = 1#1 := by
  induction l with
  | nil => rfl
  | cons a l ih => rw [List.foldl_cons, hx a]; exact ih

/-- A one-bit "and" reduction whose operand and initial value are all one is one. -/
theorem reduce_andi_ones {s t u : Shape} {axes : List (Fin s.rank)} (x : IVec s 1) (init : IVec u 1)
    (h : s.ReducesTo axes t) (hu : 0 < u.numel) (j : t.Idx) (hx : ∀ i, x i = 1#1)
    (hi : init (Shape.Idx.first hu) = 1#1) : Host.reduce IntOp.andi x init h hu j = 1#1 := by
  rw [Host.reduce_eq_foldl, hi]
  exact foldl_andi_ones x hx _

/-- On an operand axis other than the one start-indexed axis `c`, with no batching axes, a gather reads the
    result index's offset coordinate. -/
theorem operandIdx_val_of_ne {s si t : Shape} (d : GatherDims s si t) {w : Nat} (j : t.Idx) (idx : IVec si w)
    (ax c : Fin s.rank) (hl : d.startIndexMap = [c]) (hc : ax.val ≠ c.val) (hb : d.operandBatchingDims = []) :
    (d.operandIdx j idx ax).val = d.offCoord j ax := by
  show d.start j idx ax + d.batchCoord j ax + d.offCoord j ax = _
  have h1 : ax ∉ d.startIndexMap := by
    rw [hl]; intro h; exact hc (congrArg Fin.val (List.mem_singleton.1 h))
  have h2 : ax ∉ d.operandBatchingDims := by rw [hb]; exact List.not_mem_nil
  rw [d.batchCoord_eq_zero j ax h2]
  unfold GatherDims.start
  rw [dif_neg h1]; omega

/-- The normalised position as a one-element index array: `k` itself when `k ≥ 0`, else `k + 2`. -/
def takeStart (k : BitVec 32) : IVec S1 32 :=
  let a1 : IVec S_ 32 := constantI S_ 32 k
  let c : IVec S_ 32 := constantI S_ 32 0#32
  let v0 := cmpi .slt a1 c
  let c0 : IVec S_ 32 := constantI S_ 32 2#32
  let v1 := addi a1 c0
  let v2 := select v0 v1 a1
  let v3 := broadcastInDim S1 ![] bcast_S_S1 v2
  id v3

/-- The in-bounds flag of the normalised position: `0 ≤ p ∧ p ≤ 1`, reduced by "and" to a scalar. -/
def takeOk (k : BitVec 32) : IVec S_ 1 :=
  let v4 := takeStart k
  let c_1 : IVec S1 32 := constantI S1 32 1#32
  let c_2 : IVec S_ 32 := constantI S_ 32 0#32
  let v5 := broadcastInDim S1 ![] bcast_S_S1 c_2
  let v6 := cmpi .sge v4 v5
  let v7 := cmpi .sle v4 c_1
  let v8 := andi v6 v7
  let c_3 : IVec S_ 1 := constantI S_ 1 1#1
  Host.reduce IntOp.andi v8 c_3 reducesTo_S1_S_d0 h_S_

theorem takeStart_zero (i : S1.Idx) : takeStart 0#32 i = 0#32 := rfl
theorem takeStart_one (i : S1.Idx) : takeStart 1#32 i = 1#32 := rfl

theorem takeOk_zero (i : S_.Idx) : takeOk 0#32 i = 1#1 := by
  unfold takeOk
  refine reduce_andi_ones _ _ _ _ _ (fun i => ?_) rfl
  show IntOp.andi (IntOp.cmpi .sge (takeStart 0#32 i) 0#32) (IntOp.cmpi .sle (takeStart 0#32 i) 1#32) = 1#1
  rw [takeStart_zero]; decide

theorem takeOk_one (i : S_.Idx) : takeOk 1#32 i = 1#1 := by
  unfold takeOk
  refine reduce_andi_ones _ _ _ _ _ (fun i => ?_) rfl
  show IntOp.andi (IntOp.cmpi .sge (takeStart 1#32 i) 0#32) (IntOp.cmpi .sle (takeStart 1#32 i) 1#32) = 1#1
  rw [takeStart_one]; decide

/-! ## Axis 1 -/

/-- The slice at position `k` of axis 1. -/
def take1 (k : BitVec 32) (x : FVec Ideal S16x2x2x2x2 .f32) : FVec Ideal S16x2x2x2 .f32 :=
  let v10 := Host.gather gather_S16x2x2x2x2_S1_S16x2x2x2_0123_1_n_n_1_0_161222 x (takeStart k)
  let v11 := broadcastInDim S16x2x2x2 ![] bcast_S_S16x2x2x2 (takeOk k)
  let cst : FVec Ideal S_ .f32 := constant S_ .f32 0x7FC00000#32
  let v12 := broadcastInDim S16x2x2x2 ![] bcast_S_S16x2x2x2 cst
  select v11 v10 v12

theorem take1_zero_apply (x : FVec Ideal S16x2x2x2x2 .f32) (n : Fin 16) (r s t : Fin 2) :
    take1 0#32 x (ix4 n r s t) = x (ix5 n 0 r s t) := by
  unfold take1
  show Scalar.select (takeOk 0#32 _) (Host.gather _ x (takeStart 0#32) (ix4 n r s t)) _ = _
  rw [takeOk_zero, select_one]
  unfold Host.gather
  refine congrArg x (funext fun ax => Fin.ext ?_)
  match ax with
  | ⟨0, _⟩ => exact (operandIdx_val_of_ne _ _ _ _ 1 rfl (by decide : (0 : Nat) ≠ 1) rfl).trans rfl
  | ⟨1, _⟩ => rfl
  | ⟨2, _⟩ => exact (operandIdx_val_of_ne _ _ _ _ 1 rfl (by decide : (2 : Nat) ≠ 1) rfl).trans rfl
  | ⟨3, _⟩ => exact (operandIdx_val_of_ne _ _ _ _ 1 rfl (by decide : (3 : Nat) ≠ 1) rfl).trans rfl
  | ⟨4, _⟩ => exact (operandIdx_val_of_ne _ _ _ _ 1 rfl (by decide : (4 : Nat) ≠ 1) rfl).trans rfl

theorem take1_one_apply (x : FVec Ideal S16x2x2x2x2 .f32) (n : Fin 16) (r s t : Fin 2) :
    take1 1#32 x (ix4 n r s t) = x (ix5 n 1 r s t) := by
  unfold take1
  show Scalar.select (takeOk 1#32 _) (Host.gather _ x (takeStart 1#32) (ix4 n r s t)) _ = _
  rw [takeOk_one, select_one]
  unfold Host.gather
  refine congrArg x (funext fun ax => Fin.ext ?_)
  match ax with
  | ⟨0, _⟩ => exact (operandIdx_val_of_ne _ _ _ _ 1 rfl (by decide : (0 : Nat) ≠ 1) rfl).trans rfl
  | ⟨1, _⟩ => rfl
  | ⟨2, _⟩ => exact (operandIdx_val_of_ne _ _ _ _ 1 rfl (by decide : (2 : Nat) ≠ 1) rfl).trans rfl
  | ⟨3, _⟩ => exact (operandIdx_val_of_ne _ _ _ _ 1 rfl (by decide : (3 : Nat) ≠ 1) rfl).trans rfl
  | ⟨4, _⟩ => exact (operandIdx_val_of_ne _ _ _ _ 1 rfl (by decide : (4 : Nat) ≠ 1) rfl).trans rfl

/-! ## Axis 2 -/

/-- The slice at position `k` of axis 2. -/
def take2 (k : BitVec 32) (x : FVec Ideal S16x2x2x2x2 .f32) : FVec Ideal S16x2x2x2 .f32 :=
  let v10 := Host.gather gather_S16x2x2x2x2_S1_S16x2x2x2_0123_2_n_n_2_0_162122 x (takeStart k)
  let v11 := broadcastInDim S16x2x2x2 ![] bcast_S_S16x2x2x2 (takeOk k)
  let cst : FVec Ideal S_ .f32 := constant S_ .f32 0x7FC00000#32
  let v12 := broadcastInDim S16x2x2x2 ![] bcast_S_S16x2x2x2 cst
  select v11 v10 v12

theorem take2_zero_apply (x : FVec Ideal S16x2x2x2x2 .f32) (n : Fin 16) (r s t : Fin 2) :
    take2 0#32 x (ix4 n r s t) = x (ix5 n r 0 s t) := by
  unfold take2
  show Scalar.select (takeOk 0#32 _) (Host.gather _ x (takeStart 0#32) (ix4 n r s t)) _ = _
  rw [takeOk_zero, select_one]
  unfold Host.gather
  refine congrArg x (funext fun ax => Fin.ext ?_)
  match ax with
  | ⟨0, _⟩ => exact (operandIdx_val_of_ne _ _ _ _ 2 rfl (by decide : (0 : Nat) ≠ 2) rfl).trans rfl
  | ⟨1, _⟩ => exact (operandIdx_val_of_ne _ _ _ _ 2 rfl (by decide : (1 : Nat) ≠ 2) rfl).trans rfl
  | ⟨2, _⟩ => rfl
  | ⟨3, _⟩ => exact (operandIdx_val_of_ne _ _ _ _ 2 rfl (by decide : (3 : Nat) ≠ 2) rfl).trans rfl
  | ⟨4, _⟩ => exact (operandIdx_val_of_ne _ _ _ _ 2 rfl (by decide : (4 : Nat) ≠ 2) rfl).trans rfl

theorem take2_one_apply (x : FVec Ideal S16x2x2x2x2 .f32) (n : Fin 16) (r s t : Fin 2) :
    take2 1#32 x (ix4 n r s t) = x (ix5 n r 1 s t) := by
  unfold take2
  show Scalar.select (takeOk 1#32 _) (Host.gather _ x (takeStart 1#32) (ix4 n r s t)) _ = _
  rw [takeOk_one, select_one]
  unfold Host.gather
  refine congrArg x (funext fun ax => Fin.ext ?_)
  match ax with
  | ⟨0, _⟩ => exact (operandIdx_val_of_ne _ _ _ _ 2 rfl (by decide : (0 : Nat) ≠ 2) rfl).trans rfl
  | ⟨1, _⟩ => exact (operandIdx_val_of_ne _ _ _ _ 2 rfl (by decide : (1 : Nat) ≠ 2) rfl).trans rfl
  | ⟨2, _⟩ => rfl
  | ⟨3, _⟩ => exact (operandIdx_val_of_ne _ _ _ _ 2 rfl (by decide : (3 : Nat) ≠ 2) rfl).trans rfl
  | ⟨4, _⟩ => exact (operandIdx_val_of_ne _ _ _ _ 2 rfl (by decide : (4 : Nat) ≠ 2) rfl).trans rfl

/-! ## Axis 3 -/

/-- The slice at position `k` of axis 3. -/
def take3 (k : BitVec 32) (x : FVec Ideal S16x2x2x2x2 .f32) : FVec Ideal S16x2x2x2 .f32 :=
  let v10 := Host.gather gather_S16x2x2x2x2_S1_S16x2x2x2_0123_3_n_n_3_0_162212 x (takeStart k)
  let v11 := broadcastInDim S16x2x2x2 ![] bcast_S_S16x2x2x2 (takeOk k)
  let cst : FVec Ideal S_ .f32 := constant S_ .f32 0x7FC00000#32
  let v12 := broadcastInDim S16x2x2x2 ![] bcast_S_S16x2x2x2 cst
  select v11 v10 v12

theorem take3_zero_apply (x : FVec Ideal S16x2x2x2x2 .f32) (n : Fin 16) (r s t : Fin 2) :
    take3 0#32 x (ix4 n r s t) = x (ix5 n r s 0 t) := by
  unfold take3
  show Scalar.select (takeOk 0#32 _) (Host.gather _ x (takeStart 0#32) (ix4 n r s t)) _ = _
  rw [takeOk_zero, select_one]
  unfold Host.gather
  refine congrArg x (funext fun ax => Fin.ext ?_)
  match ax with
  | ⟨0, _⟩ => exact (operandIdx_val_of_ne _ _ _ _ 3 rfl (by decide : (0 : Nat) ≠ 3) rfl).trans rfl
  | ⟨1, _⟩ => exact (operandIdx_val_of_ne _ _ _ _ 3 rfl (by decide : (1 : Nat) ≠ 3) rfl).trans rfl
  | ⟨2, _⟩ => exact (operandIdx_val_of_ne _ _ _ _ 3 rfl (by decide : (2 : Nat) ≠ 3) rfl).trans rfl
  | ⟨3, _⟩ => rfl
  | ⟨4, _⟩ => exact (operandIdx_val_of_ne _ _ _ _ 3 rfl (by decide : (4 : Nat) ≠ 3) rfl).trans rfl

theorem take3_one_apply (x : FVec Ideal S16x2x2x2x2 .f32) (n : Fin 16) (r s t : Fin 2) :
    take3 1#32 x (ix4 n r s t) = x (ix5 n r s 1 t) := by
  unfold take3
  show Scalar.select (takeOk 1#32 _) (Host.gather _ x (takeStart 1#32) (ix4 n r s t)) _ = _
  rw [takeOk_one, select_one]
  unfold Host.gather
  refine congrArg x (funext fun ax => Fin.ext ?_)
  match ax with
  | ⟨0, _⟩ => exact (operandIdx_val_of_ne _ _ _ _ 3 rfl (by decide : (0 : Nat) ≠ 3) rfl).trans rfl
  | ⟨1, _⟩ => exact (operandIdx_val_of_ne _ _ _ _ 3 rfl (by decide : (1 : Nat) ≠ 3) rfl).trans rfl
  | ⟨2, _⟩ => exact (operandIdx_val_of_ne _ _ _ _ 3 rfl (by decide : (2 : Nat) ≠ 3) rfl).trans rfl
  | ⟨3, _⟩ => rfl
  | ⟨4, _⟩ => exact (operandIdx_val_of_ne _ _ _ _ 3 rfl (by decide : (4 : Nat) ≠ 3) rfl).trans rfl

/-! ## Axis 4 -/

/-- The slice at position `k` of axis 4. -/
def take4 (k : BitVec 32) (x : FVec Ideal S16x2x2x2x2 .f32) : FVec Ideal S16x2x2x2 .f32 :=
  let v10 := Host.gather gather_S16x2x2x2x2_S1_S16x2x2x2_0123_4_n_n_4_0_162221 x (takeStart k)
  let v11 := broadcastInDim S16x2x2x2 ![] bcast_S_S16x2x2x2 (takeOk k)
  let cst : FVec Ideal S_ .f32 := constant S_ .f32 0x7FC00000#32
  let v12 := broadcastInDim S16x2x2x2 ![] bcast_S_S16x2x2x2 cst
  select v11 v10 v12

theorem take4_zero_apply (x : FVec Ideal S16x2x2x2x2 .f32) (n : Fin 16) (r s t : Fin 2) :
    take4 0#32 x (ix4 n r s t) = x (ix5 n r s t 0) := by
  unfold take4
  show Scalar.select (takeOk 0#32 _) (Host.gather _ x (takeStart 0#32) (ix4 n r s t)) _ = _
  rw [takeOk_zero, select_one]
  unfold Host.gather
  refine congrArg x (funext fun ax => Fin.ext ?_)
  match ax with
  | ⟨0, _⟩ => exact (operandIdx_val_of_ne _ _ _ _ 4 rfl (by decide : (0 : Nat) ≠ 4) rfl).trans rfl
  | ⟨1, _⟩ => exact (operandIdx_val_of_ne _ _ _ _ 4 rfl (by decide : (1 : Nat) ≠ 4) rfl).trans rfl
  | ⟨2, _⟩ => exact (operandIdx_val_of_ne _ _ _ _ 4 rfl (by decide : (2 : Nat) ≠ 4) rfl).trans rfl
  | ⟨3, _⟩ => exact (operandIdx_val_of_ne _ _ _ _ 4 rfl (by decide : (3 : Nat) ≠ 4) rfl).trans rfl
  | ⟨4, _⟩ => rfl

theorem take4_one_apply (x : FVec Ideal S16x2x2x2x2 .f32) (n : Fin 16) (r s t : Fin 2) :
    take4 1#32 x (ix4 n r s t) = x (ix5 n r s t 1) := by
  unfold take4
  show Scalar.select (takeOk 1#32 _) (Host.gather _ x (takeStart 1#32) (ix4 n r s t)) _ = _
  rw [takeOk_one, select_one]
  unfold Host.gather
  refine congrArg x (funext fun ax => Fin.ext ?_)
  match ax with
  | ⟨0, _⟩ => exact (operandIdx_val_of_ne _ _ _ _ 4 rfl (by decide : (0 : Nat) ≠ 4) rfl).trans rfl
  | ⟨1, _⟩ => exact (operandIdx_val_of_ne _ _ _ _ 4 rfl (by decide : (1 : Nat) ≠ 4) rfl).trans rfl
  | ⟨2, _⟩ => exact (operandIdx_val_of_ne _ _ _ _ 4 rfl (by decide : (2 : Nat) ≠ 4) rfl).trans rfl
  | ⟨3, _⟩ => exact (operandIdx_val_of_ne _ _ _ _ 4 rfl (by decide : (3 : Nat) ≠ 4) rfl).trans rfl
  | ⟨4, _⟩ => rfl

end Cert.KernelIdeal.KerGates

end
-- ==== Proof.KerGatesRy.lean ====
import proofs.«159359_j65481071398168_2_alg».proof.Proof.KerGatesTake
import Idealize.ShloMosaic.Lib.Pipeline.Value

noncomputable section

namespace Cert.KernelIdeal.KerGates

open Idealize.ShloMosaic Idealize.ShloMosaic.ValueIdx
open Cert.KernelIdeal Cert.KernelIdeal.Facts₀

variable [Facts₀]

/-! # One rotation about Y on one qubit axis

With `cb`, `sb` the cosine and sine of half the angle, already broadcast over the three other qubit axes,
the rotation on axis `a` replaces the two slices `x₀`, `x₁` of the state along `a` by
`cb · x₀ − sb · x₁` and `sb · x₀ + cb · x₁`, stacked back along `a`. Read at an index whose coordinate on
axis `a` is `0` it is the first combination, at `1` the second, the other coordinates unchanged. -/

/-! ## Axis 1 -/

def ry1 (cb sb : FVec Ideal S16x2x2x2 .f32) (x : FVec Ideal S16x2x2x2x2 .f32) :
    FVec Ideal S16x2x2x2x2 .f32 :=
  let s0 := take1 0#32 x
  let s1 := take1 1#32 x
  let lo := subf (mulf cb s0) (mulf sb s1)
  let hi := addf (mulf sb s0) (mulf cb s1)
  let lo' := broadcastInDim S16x1x2x2x2 ![0, 2, 3, 4] bcast_S16x2x2x2_S16x1x2x2x2_0_2_3_4 lo
  let hi' := broadcastInDim S16x1x2x2x2 ![0, 2, 3, 4] bcast_S16x2x2x2_S16x1x2x2x2_0_2_3_4 hi
  concatenate S16x2x2x2x2 1 [⟨S16x1x2x2x2, lo'⟩, ⟨S16x1x2x2x2, hi'⟩]
    concatenates_S16x1x2x2x2_S16x1x2x2x2_S16x2x2x2x2_d1

theorem ry1_zero_apply (cb sb : FVec Ideal S16x2x2x2 .f32) (x : FVec Ideal S16x2x2x2x2 .f32)
    (n : Fin 16) (r s t : Fin 2) :
    ry1 cb sb x (ix5 n 0 r s t)
      = cb (ix4 n r s t) * x (ix5 n 0 r s t) - sb (ix4 n r s t) * x (ix5 n 1 r s t) := by
  unfold ry1
  refine (concatenate_pair_apply_left (t := S16x2x2x2x2) (s₁ := S16x1x2x2x2) (s₂ := S16x1x2x2x2) 1 _ _ _
    (ix5 n (0 : Fin 2) r s t) rfl (ix5 n (0 : Fin 1) r s t) (fun b => ?_)).trans ?_
  · match b with
    | ⟨0, _⟩ => rfl
    | ⟨1, _⟩ => rfl
    | ⟨2, _⟩ => rfl
    | ⟨3, _⟩ => rfl
    | ⟨4, _⟩ => rfl
  · refine (broadcastInDim_apply _ _ _ (ix5 n (0 : Fin 1) r s t) (ix4 n r s t) (fun a => ?_)).trans ?_
    · match a with
      | ⟨0, _⟩ => rfl
      | ⟨1, _⟩ => rfl
      | ⟨2, _⟩ => rfl
      | ⟨3, _⟩ => rfl
    · rw [subf_apply, mulf_apply, mulf_apply, take1_zero_apply, take1_one_apply]

theorem ry1_one_apply (cb sb : FVec Ideal S16x2x2x2 .f32) (x : FVec Ideal S16x2x2x2x2 .f32)
    (n : Fin 16) (r s t : Fin 2) :
    ry1 cb sb x (ix5 n 1 r s t)
      = sb (ix4 n r s t) * x (ix5 n 0 r s t) + cb (ix4 n r s t) * x (ix5 n 1 r s t) := by
  unfold ry1
  refine (concatenate_pair_apply_right (t := S16x2x2x2x2) (s₁ := S16x1x2x2x2) (s₂ := S16x1x2x2x2) 1 _ _ _
    (ix5 n (1 : Fin 2) r s t) rfl rfl (ix5 n (0 : Fin 1) r s t) (fun b hb => ?_) rfl).trans ?_
  · match b with
    | ⟨0, _⟩ => rfl
    | ⟨1, _⟩ => exact absurd rfl hb
    | ⟨2, _⟩ => rfl
    | ⟨3, _⟩ => rfl
    | ⟨4, _⟩ => rfl
  · refine (broadcastInDim_apply _ _ _ (ix5 n (0 : Fin 1) r s t) (ix4 n r s t) (fun a => ?_)).trans ?_
    · match a with
      | ⟨0, _⟩ => rfl
      | ⟨1, _⟩ => rfl
      | ⟨2, _⟩ => rfl
      | ⟨3, _⟩ => rfl
    · rw [addf_apply, mulf_apply, mulf_apply, take1_zero_apply, take1_one_apply]

/-! ## Axis 2 -/

def ry2 (cb sb : FVec Ideal S16x2x2x2 .f32) (x : FVec Ideal S16x2x2x2x2 .f32) :
    FVec Ideal S16x2x2x2x2 .f32 :=
  let s0 := take2 0#32 x
  let s1 := take2 1#32 x
  let lo := subf (mulf cb s0) (mulf sb s1)
  let hi := addf (mulf sb s0) (mulf cb s1)
  let lo' := broadcastInDim S16x2x1x2x2 ![0, 1, 3, 4] bcast_S16x2x2x2_S16x2x1x2x2_0_1_3_4 lo
  let hi' := broadcastInDim S16x2x1x2x2 ![0, 1, 3, 4] bcast_S16x2x2x2_S16x2x1x2x2_0_1_3_4 hi
  concatenate S16x2x2x2x2 2 [⟨S16x2x1x2x2, lo'⟩, ⟨S16x2x1x2x2, hi'⟩]
    concatenates_S16x2x1x2x2_S16x2x1x2x2_S16x2x2x2x2_d2

theorem ry2_zero_apply (cb sb : FVec Ideal S16x2x2x2 .f32) (x : FVec Ideal S16x2x2x2x2 .f32)
    (n : Fin 16) (r s t : Fin 2) :
    ry2 cb sb x (ix5 n r 0 s t)
      = cb (ix4 n r s t) * x (ix5 n r 0 s t) - sb (ix4 n r s t) * x (ix5 n r 1 s t) := by
  unfold ry2
  refine (concatenate_pair_apply_left (t := S16x2x2x2x2) (s₁ := S16x2x1x2x2) (s₂ := S16x2x1x2x2) 2 _ _ _
    (ix5 n r (0 : Fin 2) s t) rfl (ix5 n r (0 : Fin 1) s t) (fun b => ?_)).trans ?_
  · match b with
    | ⟨0, _⟩ => rfl
    | ⟨1, _⟩ => rfl
    | ⟨2, _⟩ => rfl
    | ⟨3, _⟩ => rfl
    | ⟨4, _⟩ => rfl
  · refine (broadcastInDim_apply _ _ _ (ix5 n r (0 : Fin 1) s t) (ix4 n r s t) (fun a => ?_)).trans ?_
    · match a with
      | ⟨0, _⟩ => rfl
      | ⟨1, _⟩ => rfl
      | ⟨2, _⟩ => rfl
      | ⟨3, _⟩ => rfl
    · rw [subf_apply, mulf_apply, mulf_apply, take2_zero_apply, take2_one_apply]

theorem ry2_one_apply (cb sb : FVec Ideal S16x2x2x2 .f32) (x : FVec Ideal S16x2x2x2x2 .f32)
    (n : Fin 16) (r s t : Fin 2) :
    ry2 cb sb x (ix5 n r 1 s t)
      = sb (ix4 n r s t) * x (ix5 n r 0 s t) + cb (ix4 n r s t) * x (ix5 n r 1 s t) := by
  unfold ry2
  refine (concatenate_pair_apply_right (t := S16x2x2x2x2) (s₁ := S16x2x1x2x2) (s₂ := S16x2x1x2x2) 2 _ _ _
    (ix5 n r (1 : Fin 2) s t) rfl rfl (ix5 n r (0 : Fin 1) s t) (fun b hb => ?_) rfl).trans ?_
  · match b with
    | ⟨0, _⟩ => rfl
    | ⟨1, _⟩ => rfl
    | ⟨2, _⟩ => exact absurd rfl hb
    | ⟨3, _⟩ => rfl
    | ⟨4, _⟩ => rfl
  · refine (broadcastInDim_apply _ _ _ (ix5 n r (0 : Fin 1) s t) (ix4 n r s t) (fun a => ?_)).trans ?_
    · match a with
      | ⟨0, _⟩ => rfl
      | ⟨1, _⟩ => rfl
      | ⟨2, _⟩ => rfl
      | ⟨3, _⟩ => rfl
    · rw [addf_apply, mulf_apply, mulf_apply, take2_zero_apply, take2_one_apply]

/-! ## Axis 3 -/

def ry3 (cb sb : FVec Ideal S16x2x2x2 .f32) (x : FVec Ideal S16x2x2x2x2 .f32) :
    FVec Ideal S16x2x2x2x2 .f32 :=
  let s0 := take3 0#32 x
  let s1 := take3 1#32 x
  let lo := subf (mulf cb s0) (mulf sb s1)
  let hi := addf (mulf sb s0) (mulf cb s1)
  let lo' := broadcastInDim S16x2x2x1x2 ![0, 1, 2, 4] bcast_S16x2x2x2_S16x2x2x1x2_0_1_2_4 lo
  let hi' := broadcastInDim S16x2x2x1x2 ![0, 1, 2, 4] bcast_S16x2x2x2_S16x2x2x1x2_0_1_2_4 hi
  concatenate S16x2x2x2x2 3 [⟨S16x2x2x1x2, lo'⟩, ⟨S16x2x2x1x2, hi'⟩]
    concatenates_S16x2x2x1x2_S16x2x2x1x2_S16x2x2x2x2_d3

theorem ry3_zero_apply (cb sb : FVec Ideal S16x2x2x2 .f32) (x : FVec Ideal S16x2x2x2x2 .f32)
    (n : Fin 16) (r s t : Fin 2) :
    ry3 cb sb x (ix5 n r s 0 t)
      = cb (ix4 n r s t) * x (ix5 n r s 0 t) - sb (ix4 n r s t) * x (ix5 n r s 1 t) := by
  unfold ry3
  refine (concatenate_pair_apply_left (t := S16x2x2x2x2) (s₁ := S16x2x2x1x2) (s₂ := S16x2x2x1x2) 3 _ _ _
    (ix5 n r s (0 : Fin 2) t) rfl (ix5 n r s (0 : Fin 1) t) (fun b => ?_)).trans ?_
  · match b with
    | ⟨0, _⟩ => rfl
    | ⟨1, _⟩ => rfl
    | ⟨2, _⟩ => rfl
    | ⟨3, _⟩ => rfl
    | ⟨4, _⟩ => rfl
  · refine (broadcastInDim_apply _ _ _ (ix5 n r s (0 : Fin 1) t) (ix4 n r s t) (fun a => ?_)).trans ?_
    · match a with
      | ⟨0, _⟩ => rfl
      | ⟨1, _⟩ => rfl
      | ⟨2, _⟩ => rfl
      | ⟨3, _⟩ => rfl
    · rw [subf_apply, mulf_apply, mulf_apply, take3_zero_apply, take3_one_apply]

theorem ry3_one_apply (cb sb : FVec Ideal S16x2x2x2 .f32) (x : FVec Ideal S16x2x2x2x2 .f32)
    (n : Fin 16) (r s t : Fin 2) :
    ry3 cb sb x (ix5 n r s 1 t)
      = sb (ix4 n r s t) * x (ix5 n r s 0 t) + cb (ix4 n r s t) * x (ix5 n r s 1 t) := by
  unfold ry3
  refine (concatenate_pair_apply_right (t := S16x2x2x2x2) (s₁ := S16x2x2x1x2) (s₂ := S16x2x2x1x2) 3 _ _ _
    (ix5 n r s (1 : Fin 2) t) rfl rfl (ix5 n r s (0 : Fin 1) t) (fun b hb => ?_) rfl).trans ?_
  · match b with
    | ⟨0, _⟩ => rfl
    | ⟨1, _⟩ => rfl
    | ⟨2, _⟩ => rfl
    | ⟨3, _⟩ => exact absurd rfl hb
    | ⟨4, _⟩ => rfl
  · refine (broadcastInDim_apply _ _ _ (ix5 n r s (0 : Fin 1) t) (ix4 n r s t) (fun a => ?_)).trans ?_
    · match a with
      | ⟨0, _⟩ => rfl
      | ⟨1, _⟩ => rfl
      | ⟨2, _⟩ => rfl
      | ⟨3, _⟩ => rfl
    · rw [addf_apply, mulf_apply, mulf_apply, take3_zero_apply, take3_one_apply]

/-! ## Axis 4 -/

def ry4 (cb sb : FVec Ideal S16x2x2x2 .f32) (x : FVec Ideal S16x2x2x2x2 .f32) :
    FVec Ideal S16x2x2x2x2 .f32 :=
  let s0 := take4 0#32 x
  let s1 := take4 1#32 x
  let lo := subf (mulf cb s0) (mulf sb s1)
  let hi := addf (mulf sb s0) (mulf cb s1)
  let lo' := broadcastInDim S16x2x2x2x1 ![0, 1, 2, 3] bcast_S16x2x2x2_S16x2x2x2x1_0_1_2_3 lo
  let hi' := broadcastInDim S16x2x2x2x1 ![0, 1, 2, 3] bcast_S16x2x2x2_S16x2x2x2x1_0_1_2_3 hi
  concatenate S16x2x2x2x2 4 [⟨S16x2x2x2x1, lo'⟩, ⟨S16x2x2x2x1, hi'⟩]
    concatenates_S16x2x2x2x1_S16x2x2x2x1_S16x2x2x2x2_d4

theorem ry4_zero_apply (cb sb : FVec Ideal S16x2x2x2 .f32) (x : FVec Ideal S16x2x2x2x2 .f32)
    (n : Fin 16) (r s t : Fin 2) :
    ry4 cb sb x (ix5 n r s t 0)
      = cb (ix4 n r s t) * x (ix5 n r s t 0) - sb (ix4 n r s t) * x (ix5 n r s t 1) := by
  unfold ry4
  refine (concatenate_pair_apply_left (t := S16x2x2x2x2) (s₁ := S16x2x2x2x1) (s₂ := S16x2x2x2x1) 4 _ _ _
    (ix5 n r s t (0 : Fin 2)) rfl (ix5 n r s t (0 : Fin 1)) (fun b => ?_)).trans ?_
  · match b with
    | ⟨0, _⟩ => rfl
    | ⟨1, _⟩ => rfl
    | ⟨2, _⟩ => rfl
    | ⟨3, _⟩ => rfl
    | ⟨4, _⟩ => rfl
  · refine (broadcastInDim_apply _ _ _ (ix5 n r s t (0 : Fin 1)) (ix4 n r s t) (fun a => ?_)).trans ?_
    · match a with
      | ⟨0, _⟩ => rfl
      | ⟨1, _⟩ => rfl
      | ⟨2, _⟩ => rfl
      | ⟨3, _⟩ => rfl
    · rw [subf_apply, mulf_apply, mulf_apply, take4_zero_apply, take4_one_apply]

theorem ry4_one_apply (cb sb : FVec Ideal S16x2x2x2 .f32) (x : FVec Ideal S16x2x2x2x2 .f32)
    (n : Fin 16) (r s t : Fin 2) :
    ry4 cb sb x (ix5 n r s t 1)
      = sb (ix4 n r s t) * x (ix5 n r s t 0) + cb (ix4 n r s t) * x (ix5 n r s t 1) := by
  unfold ry4
  refine (concatenate_pair_apply_right (t := S16x2x2x2x2) (s₁ := S16x2x2x2x1) (s₂ := S16x2x2x2x1) 4 _ _ _
    (ix5 n r s t (1 : Fin 2)) rfl rfl (ix5 n r s t (0 : Fin 1)) (fun b hb => ?_) rfl).trans ?_
  · match b with
    | ⟨0, _⟩ => rfl
    | ⟨1, _⟩ => rfl
    | ⟨2, _⟩ => rfl
    | ⟨3, _⟩ => rfl
    | ⟨4, _⟩ => exact absurd rfl hb
  · refine (broadcastInDim_apply _ _ _ (ix5 n r s t (0 : Fin 1)) (ix4 n r s t) (fun a => ?_)).trans ?_
    · match a with
      | ⟨0, _⟩ => rfl
      | ⟨1, _⟩ => rfl
      | ⟨2, _⟩ => rfl
      | ⟨3, _⟩ => rfl
    · rw [addf_apply, mulf_apply, mulf_apply, take4_zero_apply, take4_one_apply]

end Cert.KernelIdeal.KerGates

end
-- ==== Proof.KerGatesCx.lean ====
import proofs.«159359_j65481071398168_2_alg».proof.Proof.KerGatesTake
import Idealize.ShloMosaic.Lib.Pipeline.Value

noncomputable section

namespace Cert.KernelIdeal.KerGates

open Idealize.ShloMosaic Idealize.ShloMosaic.ValueIdx
open Cert.KernelIdeal Cert.KernelIdeal.Facts₀

variable [Facts₀]

/-! # One controlled-NOT between two qubit axes

With control axis `c` and target axis `t`: the slice of the state at control `0` is kept, the slice at
control `1` is reversed along the target (a reversal of an axis of extent 2 exchanges its two positions),
and the two are stacked back along `c`. Read at an index, the result is the state at the same index when the
control coordinate is `0`, and at the index with the target coordinate reversed when it is `1`. -/

/-- A reversal along position 1 of a rank-4 slice, read at an index. -/
theorem reverse1_apply (y : FVec Ideal S16x2x2x2 .f32) (n : Fin 16) (r s t : Fin 2) :
    Host.reverse [1] y (ix4 n r s t) = y (ix4 n r.rev s t) := by
  unfold Host.reverse
  refine congrArg y (funext fun a => ?_)
  match a with
  | ⟨0, _⟩ => rfl
  | ⟨1, _⟩ => rfl
  | ⟨2, _⟩ => rfl
  | ⟨3, _⟩ => rfl

/-- A reversal along position 2 of a rank-4 slice, read at an index. -/
theorem reverse2_apply (y : FVec Ideal S16x2x2x2 .f32) (n : Fin 16) (r s t : Fin 2) :
    Host.reverse [2] y (ix4 n r s t) = y (ix4 n r s.rev t) := by
  unfold Host.reverse
  refine congrArg y (funext fun a => ?_)
  match a with
  | ⟨0, _⟩ => rfl
  | ⟨1, _⟩ => rfl
  | ⟨2, _⟩ => rfl
  | ⟨3, _⟩ => rfl

/-- A reversal along position 3 of a rank-4 slice, read at an index. -/
theorem reverse3_apply (y : FVec Ideal S16x2x2x2 .f32) (n : Fin 16) (r s t : Fin 2) :
    Host.reverse [3] y (ix4 n r s t) = y (ix4 n r s t.rev) := by
  unfold Host.reverse
  refine congrArg y (funext fun a => ?_)
  match a with
  | ⟨0, _⟩ => rfl
  | ⟨1, _⟩ => rfl
  | ⟨2, _⟩ => rfl
  | ⟨3, _⟩ => rfl

/-! ## Control axis 1, target axis 2 -/

def cx12 (x : FVec Ideal S16x2x2x2x2 .f32) : FVec Ideal S16x2x2x2x2 .f32 :=
  let c0 := take1 0#32 x
  let c1 := take1 1#32 x
  let f := Host.reverse [1] c1
  let c0' := broadcastInDim S16x1x2x2x2 ![0, 2, 3, 4] bcast_S16x2x2x2_S16x1x2x2x2_0_2_3_4 c0
  let f' := broadcastInDim S16x1x2x2x2 ![0, 2, 3, 4] bcast_S16x2x2x2_S16x1x2x2x2_0_2_3_4 f
  concatenate S16x2x2x2x2 1 [⟨S16x1x2x2x2, c0'⟩, ⟨S16x1x2x2x2, f'⟩]
    concatenates_S16x1x2x2x2_S16x1x2x2x2_S16x2x2x2x2_d1

theorem cx12_zero_apply (x : FVec Ideal S16x2x2x2x2 .f32) (n : Fin 16) (r s t : Fin 2) :
    cx12 x (ix5 n 0 r s t) = x (ix5 n 0 r s t) := by
  unfold cx12
  refine (concatenate_pair_apply_left (t := S16x2x2x2x2) (s₁ := S16x1x2x2x2) (s₂ := S16x1x2x2x2) 1 _ _ _
    (ix5 n (0 : Fin 2) r s t) rfl (ix5 n (0 : Fin 1) r s t) (fun b => ?_)).trans ?_
  · match b with
    | ⟨0, _⟩ => rfl
    | ⟨1, _⟩ => rfl
    | ⟨2, _⟩ => rfl
    | ⟨3, _⟩ => rfl
    | ⟨4, _⟩ => rfl
  · refine (broadcastInDim_apply _ _ _ (ix5 n (0 : Fin 1) r s t) (ix4 n r s t) (fun a => ?_)).trans ?_
    · match a with
      | ⟨0, _⟩ => rfl
      | ⟨1, _⟩ => rfl
      | ⟨2, _⟩ => rfl
      | ⟨3, _⟩ => rfl
    · exact take1_zero_apply x n r s t

theorem cx12_one_apply (x : FVec Ideal S16x2x2x2x2 .f32) (n : Fin 16) (r s t : Fin 2) :
    cx12 x (ix5 n 1 r s t) = x (ix5 n 1 r.rev s t) := by
  unfold cx12
  refine (concatenate_pair_apply_right (t := S16x2x2x2x2) (s₁ := S16x1x2x2x2) (s₂ := S16x1x2x2x2) 1 _ _ _
    (ix5 n (1 : Fin 2) r s t) rfl rfl (ix5 n (0 : Fin 1) r s t) (fun b hb => ?_) rfl).trans ?_
  · match b with
    | ⟨0, _⟩ => rfl
    | ⟨1, _⟩ => exact absurd rfl hb
    | ⟨2, _⟩ => rfl
    | ⟨3, _⟩ => rfl
    | ⟨4, _⟩ => rfl
  · refine (broadcastInDim_apply _ _ _ (ix5 n (0 : Fin 1) r s t) (ix4 n r s t) (fun a => ?_)).trans ?_
    · match a with
      | ⟨0, _⟩ => rfl
      | ⟨1, _⟩ => rfl
      | ⟨2, _⟩ => rfl
      | ⟨3, _⟩ => rfl
    · rw [reverse1_apply, take1_one_apply]

/-! ## Control axis 2, target axis 3 -/

def cx23 (x : FVec Ideal S16x2x2x2x2 .f32) : FVec Ideal S16x2x2x2x2 .f32 :=
  let c0 := take2 0#32 x
  let c1 := take2 1#32 x
  let f := Host.reverse [2] c1
  let c0' := broadcastInDim S16x2x1x2x2 ![0, 1, 3, 4] bcast_S16x2x2x2_S16x2x1x2x2_0_1_3_4 c0
  let f' := broadcastInDim S16x2x1x2x2 ![0, 1, 3, 4] bcast_S16x2x2x2_S16x2x1x2x2_0_1_3_4 f
  concatenate S16x2x2x2x2 2 [⟨S16x2x1x2x2, c0'⟩, ⟨S16x2x1x2x2, f'⟩]
    concatenates_S16x2x1x2x2_S16x2x1x2x2_S16x2x2x2x2_d2

theorem cx23_zero_apply (x : FVec Ideal S16x2x2x2x2 .f32) (n : Fin 16) (r s t : Fin 2) :
    cx23 x (ix5 n r 0 s t) = x (ix5 n r 0 s t) := by
  unfold cx23
  refine (concatenate_pair_apply_left (t := S16x2x2x2x2) (s₁ := S16x2x1x2x2) (s₂ := S16x2x1x2x2) 2 _ _ _
    (ix5 n r (0 : Fin 2) s t) rfl (ix5 n r (0 : Fin 1) s t) (fun b => ?_)).trans ?_
  · match b with
    | ⟨0, _⟩ => rfl
    | ⟨1, _⟩ => rfl
    | ⟨2, _⟩ => rfl
    | ⟨3, _⟩ => rfl
    | ⟨4, _⟩ => rfl
  · refine (broadcastInDim_apply _ _ _ (ix5 n r (0 : Fin 1) s t) (ix4 n r s t) (fun a => ?_)).trans ?_
    · match a with
      | ⟨0, _⟩ => rfl
      | ⟨1, _⟩ => rfl
      | ⟨2, _⟩ => rfl
      | ⟨3, _⟩ => rfl
    · exact take2_zero_apply x n r s t

theorem cx23_one_apply (x : FVec Ideal S16x2x2x2x2 .f32) (n : Fin 16) (r s t : Fin 2) :
    cx23 x (ix5 n r 1 s t) = x (ix5 n r 1 s.rev t) := by
  unfold cx23
  refine (concatenate_pair_apply_right (t := S16x2x2x2x2) (s₁ := S16x2x1x2x2) (s₂ := S16x2x1x2x2) 2 _ _ _
    (ix5 n r (1 : Fin 2) s t) rfl rfl (ix5 n r (0 : Fin 1) s t) (fun b hb => ?_) rfl).trans ?_
  · match b with
    | ⟨0, _⟩ => rfl
    | ⟨1, _⟩ => rfl
    | ⟨2, _⟩ => exact absurd rfl hb
    | ⟨3, _⟩ => rfl
    | ⟨4, _⟩ => rfl
  · refine (broadcastInDim_apply _ _ _ (ix5 n r (0 : Fin 1) s t) (ix4 n r s t) (fun a => ?_)).trans ?_
    · match a with
      | ⟨0, _⟩ => rfl
      | ⟨1, _⟩ => rfl
      | ⟨2, _⟩ => rfl
      | ⟨3, _⟩ => rfl
    · rw [reverse2_apply, take2_one_apply]

/-! ## Control axis 3, target axis 4 -/

def cx34 (x : FVec Ideal S16x2x2x2x2 .f32) : FVec Ideal S16x2x2x2x2 .f32 :=
  let c0 := take3 0#32 x
  let c1 := take3 1#32 x
  let f := Host.reverse [3] c1
  let c0' := broadcastInDim S16x2x2x1x2 ![0, 1, 2, 4] bcast_S16x2x2x2_S16x2x2x1x2_0_1_2_4 c0
  let f' := broadcastInDim S16x2x2x1x2 ![0, 1, 2, 4] bcast_S16x2x2x2_S16x2x2x1x2_0_1_2_4 f
  concatenate S16x2x2x2x2 3 [⟨S16x2x2x1x2, c0'⟩, ⟨S16x2x2x1x2, f'⟩]
    concatenates_S16x2x2x1x2_S16x2x2x1x2_S16x2x2x2x2_d3

theorem cx34_zero_apply (x : FVec Ideal S16x2x2x2x2 .f32) (n : Fin 16) (r s t : Fin 2) :
    cx34 x (ix5 n r s 0 t) = x (ix5 n r s 0 t) := by
  unfold cx34
  refine (concatenate_pair_apply_left (t := S16x2x2x2x2) (s₁ := S16x2x2x1x2) (s₂ := S16x2x2x1x2) 3 _ _ _
    (ix5 n r s (0 : Fin 2) t) rfl (ix5 n r s (0 : Fin 1) t) (fun b => ?_)).trans ?_
  · match b with
    | ⟨0, _⟩ => rfl
    | ⟨1, _⟩ => rfl
    | ⟨2, _⟩ => rfl
    | ⟨3, _⟩ => rfl
    | ⟨4, _⟩ => rfl
  · refine (broadcastInDim_apply _ _ _ (ix5 n r s (0 : Fin 1) t) (ix4 n r s t) (fun a => ?_)).trans ?_
    · match a with
      | ⟨0, _⟩ => rfl
      | ⟨1, _⟩ => rfl
      | ⟨2, _⟩ => rfl
      | ⟨3, _⟩ => rfl
    · exact take3_zero_apply x n r s t

theorem cx34_one_apply (x : FVec Ideal S16x2x2x2x2 .f32) (n : Fin 16) (r s t : Fin 2) :
    cx34 x (ix5 n r s 1 t) = x (ix5 n r s 1 t.rev) := by
  unfold cx34
  refine (concatenate_pair_apply_right (t := S16x2x2x2x2) (s₁ := S16x2x2x1x2) (s₂ := S16x2x2x1x2) 3 _ _ _
    (ix5 n r s (1 : Fin 2) t) rfl rfl (ix5 n r s (0 : Fin 1) t) (fun b hb => ?_) rfl).trans ?_
  · match b with
    | ⟨0, _⟩ => rfl
    | ⟨1, _⟩ => rfl
    | ⟨2, _⟩ => rfl
    | ⟨3, _⟩ => exact absurd rfl hb
    | ⟨4, _⟩ => rfl
  · refine (broadcastInDim_apply _ _ _ (ix5 n r s (0 : Fin 1) t) (ix4 n r s t) (fun a => ?_)).trans ?_
    · match a with
      | ⟨0, _⟩ => rfl
      | ⟨1, _⟩ => rfl
      | ⟨2, _⟩ => rfl
      | ⟨3, _⟩ => rfl
    · rw [reverse3_apply, take3_one_apply]

/-! ## Control axis 4, target axis 1 -/

def cx41 (x : FVec Ideal S16x2x2x2x2 .f32) : FVec Ideal S16x2x2x2x2 .f32 :=
  let c0 := take4 0#32 x
  let c1 := take4 1#32 x
  let f := Host.reverse [1] c1
  let c0' := broadcastInDim S16x2x2x2x1 ![0, 1, 2, 3] bcast_S16x2x2x2_S16x2x2x2x1_0_1_2_3 c0
  let f' := broadcastInDim S16x2x2x2x1 ![0, 1, 2, 3] bcast_S16x2x2x2_S16x2x2x2x1_0_1_2_3 f
  concatenate S16x2x2x2x2 4 [⟨S16x2x2x2x1, c0'⟩, ⟨S16x2x2x2x1, f'⟩]
    concatenates_S16x2x2x2x1_S16x2x2x2x1_S16x2x2x2x2_d4

theorem cx41_zero_apply (x : FVec Ideal S16x2x2x2x2 .f32) (n : Fin 16) (r s t : Fin 2) :
    cx41 x (ix5 n r s t 0) = x (ix5 n r s t 0) := by
  unfold cx41
  refine (concatenate_pair_apply_left (t := S16x2x2x2x2) (s₁ := S16x2x2x2x1) (s₂ := S16x2x2x2x1) 4 _ _ _
    (ix5 n r s t (0 : Fin 2)) rfl (ix5 n r s t (0 : Fin 1)) (fun b => ?_)).trans ?_
  · match b with
    | ⟨0, _⟩ => rfl
    | ⟨1, _⟩ => rfl
    | ⟨2, _⟩ => rfl
    | ⟨3, _⟩ => rfl
    | ⟨4, _⟩ => rfl
  · refine (broadcastInDim_apply _ _ _ (ix5 n r s t (0 : Fin 1)) (ix4 n r s t) (fun a => ?_)).trans ?_
    · match a with
      | ⟨0, _⟩ => rfl
      | ⟨1, _⟩ => rfl
      | ⟨2, _⟩ => rfl
      | ⟨3, _⟩ => rfl
    · exact take4_zero_apply x n r s t

theorem cx41_one_apply (x : FVec Ideal S16x2x2x2x2 .f32) (n : Fin 16) (r s t : Fin 2) :
    cx41 x (ix5 n r s t 1) = x (ix5 n r.rev s t 1) := by
  unfold cx41
  refine (concatenate_pair_apply_right (t := S16x2x2x2x2) (s₁ := S16x2x2x2x1) (s₂ := S16x2x2x2x1) 4 _ _ _
    (ix5 n r s t (1 : Fin 2)) rfl rfl (ix5 n r s t (0 : Fin 1)) (fun b hb => ?_) rfl).trans ?_
  · match b with
    | ⟨0, _⟩ => rfl
    | ⟨1, _⟩ => rfl
    | ⟨2, _⟩ => rfl
    | ⟨3, _⟩ => rfl
    | ⟨4, _⟩ => exact absurd rfl hb
  · refine (broadcastInDim_apply _ _ _ (ix5 n r s t (0 : Fin 1)) (ix4 n r s t) (fun a => ?_)).trans ?_
    · match a with
      | ⟨0, _⟩ => rfl
      | ⟨1, _⟩ => rfl
      | ⟨2, _⟩ => rfl
      | ⟨3, _⟩ => rfl
    · rw [reverse1_apply, take4_one_apply]

end Cert.KernelIdeal.KerGates

end
-- ==== Proof.KerGatesAngle.lean ====
import proofs.«159359_j65481071398168_2_alg».proof.KernelIdeal
import Idealize.ShloMosaic.Lib.ValueIdx
import Idealize.ShloMosaic.Lib.Pipeline.Value
import Idealize.ShloMosaic.Lib.IdealHost

noncomputable section

namespace Cert.KernelIdeal.KerGates

open Idealize.ShloMosaic Idealize.ShloMosaic.ValueIdx
open Cert.KernelIdeal Cert.KernelIdeal.Facts₀

variable [Facts₀]

/-! # The rotation angles

A rotation by `θ` uses `cos (θ / 2)` and `sin (θ / 2)`. The angles of the fixed block are the four entries of a
vector: entry `k` is cut out, halved, passed through cosine or sine as a scalar, and broadcast to every index. -/

/-- The f32 pattern `0x3F000000` is the real one half. -/
theorem ofBits_half_f32 : Ideal.ofBits .f32 0x3F000000#32 = (((1 : ℝ) / 2 : ℝ) : EReal) := by
  simp [Ideal.ofBits, Ideal.ieee, -EReal.coe_mul]; norm_num

/-- Half of entry `k` of the shared angles, as a scalar. -/
def halfPar (k : Nat) (hk : S4.Slices ![k] S1) (v : FVec Ideal S4 .f32) : FVec Ideal S_ .f32 :=
  let v112 := extractStridedSlice S1 ![k] v hk
  let v113 := shapeCast S_ v112 shapeCasts_S1_S_
  let half : FVec Ideal S_ .f32 := constant S_ .f32 0x3F000000#32
  mulf v113 half

theorem halfPar_apply (k : Fin 4) (hk : S4.Slices ![k.val] S1) (v : FVec Ideal S4 .f32) (i : S_.Idx) :
    halfPar k.val hk v i = v (ix1 k) * Ideal.ofBits .f32 0x3F000000#32 := by
  unfold halfPar
  rw [mulf_apply, constant_apply]
  congr 1
  refine (shapeCast_apply _ _ i (ix1 (0 : Fin 1)) ?_).trans ?_
  · rw [Shape.rowMajor_val_one]
    have h1 : S_.numel = 1 := rfl
    have := (S_.rowMajor i).isLt
    show 0 = (S_.rowMajor i).val
    omega
  · refine extractStridedSlice_apply _ v hk (ix1 (0 : Fin 1)) (ix1 k) (fun a => ?_)
    match a with
    | ⟨0, _⟩ => rfl

theorem cosPar_apply (k : Fin 4) (hk : S4.Slices ![k.val] S1) (v : FVec Ideal S4 .f32) (j : S16x2x2x2.Idx) :
    broadcastInDim S16x2x2x2 ![] bcast_S_S16x2x2x2 (Host.cos (halfPar k.val hk v)) j
      = Ideal.cos (v (ix1 k) * (((1 : ℝ) / 2 : ℝ) : EReal)) := by
  rw [broadcastInDim_scalar_apply]
  show Ideal.cos (halfPar k.val hk v ix0) = _
  rw [halfPar_apply, ofBits_half_f32]

theorem sinPar_apply (k : Fin 4) (hk : S4.Slices ![k.val] S1) (v : FVec Ideal S4 .f32) (j : S16x2x2x2.Idx) :
    broadcastInDim S16x2x2x2 ![] bcast_S_S16x2x2x2 (Host.sin (halfPar k.val hk v)) j
      = Ideal.sin (v (ix1 k) * (((1 : ℝ) / 2 : ℝ) : EReal)) := by
  rw [broadcastInDim_scalar_apply]
  show Ideal.sin (halfPar k.val hk v ix0) = _
  rw [halfPar_apply, ofBits_half_f32]

end Cert.KernelIdeal.KerGates

end
-- ==== Proof.KerGatesInit.lean ====
import proofs.«159359_j65481071398168_2_alg».proof.KernelIdeal
import Idealize.ShloMosaic.Lib.ValueIdx
import Idealize.ShloMosaic.Lib.ValueLayout
import Idealize.ShloMosaic.Lib.Pipeline.Value
import Idealize.ShloMosaic.Lib.IdealHost

noncomputable section

namespace Cert.KernelIdeal.KerGates

open Idealize.ShloMosaic Idealize.ShloMosaic.ValueIdx
open Cert.KernelIdeal Cert.KernelIdeal.Facts₀

variable [Facts₀]

/-! # The sixteen basis states, and the matrix read off the transformed states

The fixed block's matrix is found by applying the block to the sixteen basis states at once: a `[16, 16]` array
whose row `i` is the basis state `i` (1 at column `i`, 0 elsewhere: a row counter compared with a column
counter), regrouped to `[16, 2, 2, 2, 2]` so that the column index `8a + 4b + 2e + d` becomes the four bits
`(a, b, e, d)`. After the block the array is flattened back to `[16, 16]` and transposed: entry `(j, i)` of the
matrix is the amplitude at the bits of `j` of the transformed basis state `i`. -/

/-- Two naturals below sixteen have equal 32-bit words only when they are equal. -/
theorem ofNat32_eq_iff (a b : Nat) (ha : a < 16) (hb : b < 16) : BitVec.ofNat 32 a = BitVec.ofNat 32 b ↔ a = b := by
  constructor
  · intro h
    have := congrArg BitVec.toNat h
    rw [BitVec.toNat_ofNat, BitVec.toNat_ofNat, Nat.mod_eq_of_lt (by omega), Nat.mod_eq_of_lt (by omega)] at this
    exact this
  · intro h; rw [h]

/-- The sixteen basis states as the rows of a `[16, 16]` array: the row counter (plus a zero offset) compared with
    the column counter, the truth value read as a number. -/
def eye : FVec Ideal S16x16 .f32 :=
  uitofp .f32 (cmpi .eq (addi (iotaInDim S16x16 32 0) (broadcastInDim S16x16 ![] bcast_S_S16x16 (constantI S_ 32 0#32)))
    (iotaInDim S16x16 32 1))

theorem eye_apply (i j : Fin 16) : eye (ix2 i j) = if i.val = j.val then 1 else 0 := by
  unfold eye
  show (((IntOp.cmpi .eq (IntOp.addi (BitVec.ofNat 32 i.val)
      (broadcastInDim S16x16 ![] bcast_S_S16x16 (constantI S_ 32 0#32) (ix2 i j))) (BitVec.ofNat 32 j.val)).toNat : ℝ) : EReal) = _
  rw [broadcastInDim_scalar_apply]
  show (((BitVec.ofBool (BitVec.ofNat 32 i.val + 0#32 == BitVec.ofNat 32 j.val)).toNat : ℝ) : EReal) = _
  rw [BitVec.add_zero]
  by_cases h : i.val = j.val
  · rw [if_pos h, h]; simp
  · rw [if_neg h]
    have hne : (BitVec.ofNat 32 i.val == BitVec.ofNat 32 j.val) = false := by
      rw [beq_eq_false_iff_ne]; intro e; exact h ((ofNat32_eq_iff _ _ i.isLt j.isLt).1 e)
    rw [hne]; simp

/-- The basis states regrouped: at state `i` and bits `(a, b, e, d)` the entry is 1 exactly when
    `i = 8a + 4b + 2e + d`. -/
theorem eye5_apply (i : Fin 16) (a b e d : Fin 2) :
    shapeCast S16x2x2x2x2 eye shapeCasts_S16x16_S16x2x2x2x2 (ix5 i a b e d)
      = if i.val = 8 * a.val + 4 * b.val + 2 * e.val + d.val then 1 else 0 := by
  have hj : 8 * a.val + 4 * b.val + 2 * e.val + d.val < 16 := by omega
  refine (shapeCast_apply eye _ (ix5 i a b e d) (ix2 i (⟨_, hj⟩ : Fin 16)) ?_).trans (eye_apply i ⟨_, hj⟩)
  rw [Shape.rowMajor_val_two, Shape.rowMajor_val_five]
  show i.val * 16 + (8 * a.val + 4 * b.val + 2 * e.val + d.val)
    = (((i.val * 2 + a.val) * 2 + b.val) * 2 + e.val) * 2 + d.val
  omega

/-- The transformed states flattened and transposed: entry `(j, i)` is the amplitude of state `i` at the bits of `j`. -/
theorem unflatten_apply {α : Type} (T : S16x2x2x2x2.Idx → α) (i j : Fin 16) (a b e d : Fin 2)
    (hj : j.val = 8 * a.val + 4 * b.val + 2 * e.val + d.val) :
    transpose S16x16 [1, 0] (shapeCast S16x16 T shapeCasts_S16x2x2x2x2_S16x16) transposes_S16x16_S16x16_1_0 (ix2 j i)
      = T (ix5 i a b e d) := by
  refine (transpose_ix2_apply _ _ j i).trans ?_
  refine shapeCast_apply T _ (ix2 i j) (ix5 i a b e d) ?_
  rw [Shape.rowMajor_val_five, Shape.rowMajor_val_two]
  show (((i.val * 2 + a.val) * 2 + b.val) * 2 + e.val) * 2 + d.val = i.val * 16 + j.val
  omega

end Cert.KernelIdeal.KerGates

end
-- ==== Proof.KerState.lean ====
/-
  The kernel program's matrix, entry by entry.  The host lines before the region run the fixed block's gates on the
  array [16, 2, 2, 2, 2] whose row i is the i-th basis state (the identity regrouped), so row i of the result is
  the block applied to that basis state; regrouped to [16, 16] and transposed, the entry at row j, column i is the
  amplitude j of the block applied to basis state i: the block's matrix.  The gates act on every row separately,
  and on one row they are the gates of `QSpec` on the extended reals.
-/
import proofs.«159359_j65481071398168_2_alg».proof.Proof.KerGatesRy
import proofs.«159359_j65481071398168_2_alg».proof.Proof.KerGatesCx
import proofs.«159359_j65481071398168_2_alg».proof.Proof.KerGatesAngle
import proofs.«159359_j65481071398168_2_alg».proof.Proof.KerGatesInit
import proofs.«159359_j65481071398168_2_alg».proof.Proof.QFlat

noncomputable section

namespace Cert.KernelIdeal.KerState

open Idealize.ShloMosaic Idealize.ShloMosaic.ValueIdx Cert.KernelIdeal Cert.KernelIdeal.KerGates
open Cert.KernelIdeal.Facts₀

variable [Facts₀]

/-- The sixteen amplitudes of row `n` of a state array. -/
def st (x : FVec Ideal S16x2x2x2x2 .f32) (n : Fin 16) : Fin 2 → Fin 2 → Fin 2 → Fin 2 → EReal :=
  fun a b e d => x (ix5 n a b e d)

theorem st_ry1 (cb sb : FVec Ideal S16x2x2x2 .f32) (x : FVec Ideal S16x2x2x2x2 .f32) (n : Fin 16) (c s : EReal)
    (hc : ∀ r s' t, cb (ix4 n r s' t) = c) (hs : ∀ r s' t, sb (ix4 n r s' t) = s) :
    st (ry1 cb sb x) n = Cert.QSpec.ry0 c s (st x n) := by
  funext a b e d
  fin_cases a
  · show ry1 cb sb x (ix5 n 0 b e d) = _
    rw [ry1_zero_apply, hc, hs]; rfl
  · show ry1 cb sb x (ix5 n 1 b e d) = _
    rw [ry1_one_apply, hc, hs]; rfl
theorem st_ry2 (cb sb : FVec Ideal S16x2x2x2 .f32) (x : FVec Ideal S16x2x2x2x2 .f32) (n : Fin 16) (c s : EReal)
    (hc : ∀ r s' t, cb (ix4 n r s' t) = c) (hs : ∀ r s' t, sb (ix4 n r s' t) = s) :
    st (ry2 cb sb x) n = Cert.QSpec.ry1 c s (st x n) := by
  funext a b e d
  fin_cases b
  · show ry2 cb sb x (ix5 n a 0 e d) = _
    rw [ry2_zero_apply, hc, hs]; rfl
  · show ry2 cb sb x (ix5 n a 1 e d) = _
    rw [ry2_one_apply, hc, hs]; rfl
theorem st_ry3 (cb sb : FVec Ideal S16x2x2x2 .f32) (x : FVec Ideal S16x2x2x2x2 .f32) (n : Fin 16) (c s : EReal)
    (hc : ∀ r s' t, cb (ix4 n r s' t) = c) (hs : ∀ r s' t, sb (ix4 n r s' t) = s) :
    st (ry3 cb sb x) n = Cert.QSpec.ry2 c s (st x n) := by
  funext a b e d
  fin_cases e
  · show ry3 cb sb x (ix5 n a b 0 d) = _
    rw [ry3_zero_apply, hc, hs]; rfl
  · show ry3 cb sb x (ix5 n a b 1 d) = _
    rw [ry3_one_apply, hc, hs]; rfl
theorem st_ry4 (cb sb : FVec Ideal S16x2x2x2 .f32) (x : FVec Ideal S16x2x2x2x2 .f32) (n : Fin 16) (c s : EReal)
    (hc : ∀ r s' t, cb (ix4 n r s' t) = c) (hs : ∀ r s' t, sb (ix4 n r s' t) = s) :
    st (ry4 cb sb x) n = Cert.QSpec.ry3 c s (st x n) := by
  funext a b e d
  fin_cases d
  · show ry4 cb sb x (ix5 n a b e 0) = _
    rw [ry4_zero_apply, hc, hs]; rfl
  · show ry4 cb sb x (ix5 n a b e 1) = _
    rw [ry4_one_apply, hc, hs]; rfl

theorem st_cx12 (x : FVec Ideal S16x2x2x2x2 .f32) (n : Fin 16) : st (cx12 x) n = Cert.QSpec.cx01 (st x n) := by
  funext a b e d
  fin_cases a
  · show cx12 x (ix5 n 0 b e d) = _
    rw [cx12_zero_apply]; rfl
  · show cx12 x (ix5 n 1 b e d) = _
    rw [cx12_one_apply]; rfl
theorem st_cx23 (x : FVec Ideal S16x2x2x2x2 .f32) (n : Fin 16) : st (cx23 x) n = Cert.QSpec.cx12 (st x n) := by
  funext a b e d
  fin_cases b
  · show cx23 x (ix5 n a 0 e d) = _
    rw [cx23_zero_apply]; rfl
  · show cx23 x (ix5 n a 1 e d) = _
    rw [cx23_one_apply]; rfl
theorem st_cx34 (x : FVec Ideal S16x2x2x2x2 .f32) (n : Fin 16) : st (cx34 x) n = Cert.QSpec.cx23 (st x n) := by
  funext a b e d
  fin_cases e
  · show cx34 x (ix5 n a b 0 d) = _
    rw [cx34_zero_apply]; rfl
  · show cx34 x (ix5 n a b 1 d) = _
    rw [cx34_one_apply]; rfl
theorem st_cx41 (x : FVec Ideal S16x2x2x2x2 .f32) (n : Fin 16) : st (cx41 x) n = Cert.QSpec.cx30 (st x n) := by
  funext a b e d
  fin_cases d
  · show cx41 x (ix5 n a b e 0) = _
    rw [cx41_zero_apply]; rfl
  · show cx41 x (ix5 n a b e 1) = _
    rw [cx41_one_apply]; rfl

/-- One half, as an extended real. -/
abbrev half : EReal := (((1 : ℝ) / 2 : ℝ) : EReal)

/-- Half-angle cosines of the four fixed angles. -/
def cP (v : FVec Ideal S4 .f32) : Fin 4 → EReal := fun k => Ideal.cos (v (ix1 k) * half)
/-- Half-angle sines of the four fixed angles. -/
def sP (v : FVec Ideal S4 .f32) : Fin 4 → EReal := fun k => Ideal.sin (v (ix1 k) * half)

/-- A scalar spread over [16, 2, 2, 2]. -/
abbrev bc (z : FVec Ideal S_ .f32) : FVec Ideal S16x2x2x2 .f32 := broadcastInDim S16x2x2x2 ![] bcast_S_S16x2x2x2 z

/-- The fixed block as the host lines compose it: for k = 0 … 3 the rotation of axis k+1 by the k-th fixed angle,
    then the controlled flip of the next axis. -/
def block (x : FVec Ideal S16x2x2x2x2 .f32) (v : FVec Ideal S4 .f32) : FVec Ideal S16x2x2x2x2 .f32 :=
  cx41 (ry4 (bc (Host.cos (halfPar 3 slices_S4_S1_3 v))) (bc (Host.sin (halfPar 3 slices_S4_S1_3 v)))
    (cx34 (ry3 (bc (Host.cos (halfPar 2 slices_S4_S1_2 v))) (bc (Host.sin (halfPar 2 slices_S4_S1_2 v)))
      (cx23 (ry2 (bc (Host.cos (halfPar 1 slices_S4_S1_1 v))) (bc (Host.sin (halfPar 1 slices_S4_S1_1 v)))
        (cx12 (ry1 (bc (Host.cos (halfPar 0 slices_S4_S1_0 v))) (bc (Host.sin (halfPar 0 slices_S4_S1_0 v))) x)))))))

theorem st_par0 (x : FVec Ideal S16x2x2x2x2 .f32) (v : FVec Ideal S4 .f32) (n : Fin 16) :
    st (ry1 (bc (Host.cos (halfPar 0 slices_S4_S1_0 v))) (bc (Host.sin (halfPar 0 slices_S4_S1_0 v))) x) n
      = Cert.QSpec.ry0 (cP v 0) (sP v 0) (st x n) :=
  st_ry1 _ _ x n _ _ (fun r s t => cosPar_apply 0 _ v (ix4 n r s t)) (fun r s t => sinPar_apply 0 _ v (ix4 n r s t))
theorem st_par1 (x : FVec Ideal S16x2x2x2x2 .f32) (v : FVec Ideal S4 .f32) (n : Fin 16) :
    st (ry2 (bc (Host.cos (halfPar 1 slices_S4_S1_1 v))) (bc (Host.sin (halfPar 1 slices_S4_S1_1 v))) x) n
      = Cert.QSpec.ry1 (cP v 1) (sP v 1) (st x n) :=
  st_ry2 _ _ x n _ _ (fun r s t => cosPar_apply 1 _ v (ix4 n r s t)) (fun r s t => sinPar_apply 1 _ v (ix4 n r s t))
theorem st_par2 (x : FVec Ideal S16x2x2x2x2 .f32) (v : FVec Ideal S4 .f32) (n : Fin 16) :
    st (ry3 (bc (Host.cos (halfPar 2 slices_S4_S1_2 v))) (bc (Host.sin (halfPar 2 slices_S4_S1_2 v))) x) n
      = Cert.QSpec.ry2 (cP v 2) (sP v 2) (st x n) :=
  st_ry3 _ _ x n _ _ (fun r s t => cosPar_apply 2 _ v (ix4 n r s t)) (fun r s t => sinPar_apply 2 _ v (ix4 n r s t))
theorem st_par3 (x : FVec Ideal S16x2x2x2x2 .f32) (v : FVec Ideal S4 .f32) (n : Fin 16) :
    st (ry4 (bc (Host.cos (halfPar 3 slices_S4_S1_3 v))) (bc (Host.sin (halfPar 3 slices_S4_S1_3 v))) x) n
      = Cert.QSpec.ry3 (cP v 3) (sP v 3) (st x n) :=
  st_ry4 _ _ x n _ _ (fun r s t => cosPar_apply 3 _ v (ix4 n r s t)) (fun r s t => sinPar_apply 3 _ v (ix4 n r s t))

/-- The block on row `n` is the fixed block of `QSpec`. -/
theorem st_block (x : FVec Ideal S16x2x2x2x2 .f32) (v : FVec Ideal S4 .f32) (n : Fin 16) :
    st (block x v) n = Cert.QSpec.vary (cP v) (sP v) (st x n) := by
  simp only [block, st_cx41, st_par3, st_cx34, st_par2, st_cx23, st_par1, st_cx12, st_par0, Cert.QSpec.vary]

/-- Row i of the identity regrouped is the i-th basis state. -/
theorem st_eye (a0 b0 e0 d0 : Fin 2) :
    st (shapeCast S16x2x2x2x2 eye shapeCasts_S16x16_S16x2x2x2x2) (Cert.QFlat.flat a0 b0 e0 d0) = Cert.QSpec.basisE a0 b0 e0 d0 := by
  funext a b e d
  show shapeCast S16x2x2x2x2 eye shapeCasts_S16x16_S16x2x2x2x2 (ix5 (Cert.QFlat.flat a0 b0 e0 d0) a b e d) = _
  rw [eye5_apply]
  have ha := a.isLt; have hb := b.isLt; have he := e.isLt; have hd := d.isLt
  have ha0 := a0.isLt; have hb0 := b0.isLt; have he0 := e0.isLt; have hd0 := d0.isLt
  unfold Cert.QSpec.basisE
  by_cases h : a = a0 ∧ b = b0 ∧ e = e0 ∧ d = d0
  · obtain ⟨rfl, rfl, rfl, rfl⟩ := h
    simp [Cert.QFlat.flat]
  · rw [if_neg h, if_neg]
    intro h'
    apply h
    simp only [Cert.QFlat.flat] at h'
    refine ⟨Fin.ext ?_, Fin.ext ?_, Fin.ext ?_, Fin.ext ?_⟩ <;> omega

/-- The matrix the region is given, read by bits, is the fixed block's matrix. -/
theorem matrix_entry (v : FVec Ideal S4 .f32) :
    Cert.QFlat.unflatM (fun j i => transpose S16x16 [1, 0] (shapeCast S16x16
        (block (shapeCast S16x2x2x2x2 eye shapeCasts_S16x16_S16x2x2x2x2) v) shapeCasts_S16x2x2x2x2_S16x16) transposes_S16x16_S16x16_1_0 (ix2 j i))
      = Cert.QSpec.matrixE (cP v) (sP v) := by
  funext a b e d a0 b0 e0 d0
  show transpose S16x16 [1, 0] _ transposes_S16x16_S16x16_1_0 (ix2 (Cert.QFlat.flat a b e d) (Cert.QFlat.flat a0 b0 e0 d0)) = _
  rw [unflatten_apply _ (Cert.QFlat.flat a0 b0 e0 d0) (Cert.QFlat.flat a b e d) a b e d rfl]
  show st (block _ v) (Cert.QFlat.flat a0 b0 e0 d0) a b e d = _
  rw [st_block, st_eye]
  rfl

end Cert.KernelIdeal.KerState

end
-- ==== Proof.QFinal.lean ====
/-
  The two programs' values at one patch, on real half-angle data.  Both are the expectations of Z of one real state:
  two layers applied to the starting state.  The kernel reaches it through the product state and the fixed block's
  matrix (`QSpec.arrangements_agree`), numbering the amplitudes 0 … 15 (`QFlat`).
-/
import proofs.«159359_j65481071398168_2_alg».proof.Proof.QFlat

noncomputable section

namespace Cert.QFinal

open Cert.QSpec Cert.QFlat Cert.QBody

/-- The real state after two layers on the starting state. -/
def psi (c s p r : Fin 4 → ℝ) : Amp := vary p r (enc c s (vary p r (enc c s (basis 0 0 0 0))))

/-- The gate-by-gate arrangement on the extended reals, on real data, is the inclusion of the real state. -/
theorem ref_state (c s p r : Fin 4 → ℝ) :
    vary (upv p) (upv r) (enc (upv c) (upv s) (vary (upv p) (upv r) (enc (upv c) (upv s) (basisE 0 0 0 0))))
      = up (psi c s p r) := by
  rw [up_basis, up_enc, up_vary, up_enc, up_vary]; rfl

/-- The kernel's value: if the matrix it is given is the fixed block's matrix, the expectation it computes through the
    product state and two multiplications by that matrix is the real expectation of the two-layer state. -/
theorem kernel_value (U : Fin 16 → Fin 16 → EReal) (c s p r : Fin 4 → ℝ)
    (hU : unflatM U = matrixE (upv p) (upv r)) (q : Fin 4) :
    zexp q (matVec U (ryVec 3 (upv c 3) (upv s 3) (ryVec 2 (upv c 2) (upv s 2) (ryVec 1 (upv c 1) (upv s 1)
      (ryVec 0 (upv c 0) (upv s 0) (matVec U (prodState (upv c) (upv s))))))))
      = ((zR q (psi c s p r) : ℝ) : EReal) := by
  apply zexp_up
  rw [unflat_circuit, hU, ← arrangements_agree_E, ref_state]

end Cert.QFinal

end
-- ==== Proof.KerEntry.lean ====
/-
  The kernel's output array, entry by entry, on real data.  At (q, n) the region's output array holds the body's
  stored value for the matrix the host lines built and the four angles of patch n.  The matrix is the fixed block's
  matrix (`KerState.matrix_entry`), the angles are real numbers, so every half-angle cosine and sine is real and the
  entry is the real expectation of the two-layer state (`QFinal.kernel_value`) — the number the reference's
  feature array holds at (n, q) (`RefFinal.ref_entry`).
-/
import proofs.«159359_j65481071398168_2_alg».proof.Proof.KerArr
import proofs.«159359_j65481071398168_2_alg».proof.Proof.KerSpec
import proofs.«159359_j65481071398168_2_alg».proof.Proof.KerState
import proofs.«159359_j65481071398168_2_alg».proof.Proof.QFinal

set_option maxRecDepth 16384

noncomputable section

namespace Cert.KerEntry

open Idealize.ShloMosaic Idealize.ShloMosaic.ValueIdx
open Cert.QSpec Cert.QFlat Cert.QFinal Cert.QBody
open Cert.KernelIdeal Cert.KernelIdeal.KerGates

/-- Half-angle cosines of four real angles. -/
def cR (θ : Fin 4 → ℝ) : Fin 4 → ℝ := fun k => Real.cos (θ k * (1 / 2))
/-- Half-angle sines of four real angles. -/
def sR (θ : Fin 4 → ℝ) : Fin 4 → ℝ := fun k => Real.sin (θ k * (1 / 2))

theorem cos_halfLit (t : ℝ) : Ideal.cos ((t : EReal) * KerSpec.halfLit) = ((Real.cos (t * (1 / 2)) : ℝ) : EReal) := by
  rw [KerSpec.halfLit, ofBits_half_f32, show ((t : EReal) * (((1 : ℝ) / 2 : ℝ) : EReal)) = ((t * (1 / 2) : ℝ) : EReal) from (EReal.coe_mul _ _).symm]; rfl
theorem sin_halfLit (t : ℝ) : Ideal.sin ((t : EReal) * KerSpec.halfLit) = ((Real.sin (t * (1 / 2)) : ℝ) : EReal) := by
  rw [KerSpec.halfLit, ofBits_half_f32, show ((t : EReal) * (((1 : ℝ) / 2 : ℝ) : EReal)) = ((t * (1 / 2) : ℝ) : EReal) from (EReal.coe_mul _ _).symm]; rfl
theorem cos_half (t : ℝ) : Ideal.cos ((t : EReal) * KerState.half) = ((Real.cos (t * (1 / 2)) : ℝ) : EReal) := by
  rw [show ((t : EReal) * KerState.half) = ((t * (1 / 2) : ℝ) : EReal) from (EReal.coe_mul _ _).symm]; rfl
theorem sin_half (t : ℝ) : Ideal.sin ((t : EReal) * KerState.half) = ((Real.sin (t * (1 / 2)) : ℝ) : EReal) := by
  rw [show ((t : EReal) * KerState.half) = ((t * (1 / 2) : ℝ) : EReal) from (EReal.coe_mul _ _).symm]; rfl

/-- The stored value at a column whose four angles are real, for the fixed block's matrix of real fixed angles. -/
theorem spec_real (U : S16x16.Idx → EReal) (v : FVec Ideal S4 .f32) (θ φ : Fin 4 → ℝ)
    (hU : U = transpose S16x16 [1, 0] (shapeCast S16x16
        (KerState.block (shapeCast S16x2x2x2x2 eye Facts₀.shapeCasts_S16x16_S16x2x2x2x2) v) Facts₀.shapeCasts_S16x2x2x2x2_S16x16)
        Facts₀.transposes_S16x16_S16x16_1_0)
    (hφ : ∀ k, v (ix1 k) = ((φ k : ℝ) : EReal)) (q : Fin 4) :
    KerSpec.spec U ((θ 0 : ℝ) : EReal) ((θ 1 : ℝ) : EReal) ((θ 2 : ℝ) : EReal) ((θ 3 : ℝ) : EReal) q
      = ((zR q (psi (cR θ) (sR θ) (cR φ) (sR φ)) : ℝ) : EReal) := by
  unfold KerSpec.spec
  have hc : (![Ideal.cos (((θ 0 : ℝ) : EReal) * KerSpec.halfLit), Ideal.cos (((θ 1 : ℝ) : EReal) * KerSpec.halfLit),
      Ideal.cos (((θ 2 : ℝ) : EReal) * KerSpec.halfLit), Ideal.cos (((θ 3 : ℝ) : EReal) * KerSpec.halfLit)] : Fin 4 → EReal) = upv (cR θ) := by
    funext k; fin_cases k <;> exact cos_halfLit _
  have hs : (![Ideal.sin (((θ 0 : ℝ) : EReal) * KerSpec.halfLit), Ideal.sin (((θ 1 : ℝ) : EReal) * KerSpec.halfLit),
      Ideal.sin (((θ 2 : ℝ) : EReal) * KerSpec.halfLit), Ideal.sin (((θ 3 : ℝ) : EReal) * KerSpec.halfLit)] : Fin 4 → EReal) = upv (sR θ) := by
    funext k; fin_cases k <;> exact sin_halfLit _
  rw [hc, hs]
  have hp : KerState.cP v = upv (cR φ) := funext fun k => by
    show Ideal.cos (v (ix1 k) * KerState.half) = _; rw [hφ, cos_half]; rfl
  have hr : KerState.sP v = upv (sR φ) := funext fun k => by
    show Ideal.sin (v (ix1 k) * KerState.half) = _; rw [hφ, sin_half]; rfl
  have hM : unflatM (fun j i => U (ix2 j i)) = matrixE (upv (cR φ)) (upv (sR φ)) := by
    rw [hU, ← hp, ← hr]; exact KerState.matrix_entry v
  exact kernel_value _ (cR θ) (sR θ) (cR φ) (sR φ) hM q

end Cert.KerEntry

end
-- ==== Proof.KerHostDefs.lean ====
/- The kernel program's host operations before its launch, as composed terms: the fixed block of rotations and
   controlled NOTs is run there on the sixteen basis vectors at once. For each stretch of operations between two
   states of that array — one rotation or one controlled NOT —, and for the stretches before the first and after the
   last, the stretch's operations composed into ONE function of the arrays the stretch reads, with every intermediate
   array named. -/
import proofs.«159359_j65481071398168_2_alg».proof.KernelIdeal
import Idealize.ShloMosaic.Lib.StableHlo.Run

set_option synthInstance.maxSize 4096

noncomputable section

namespace Cert.KernelIdeal.KerHost

open Cert.KernelIdeal Idealize.ShloMosaic Idealize.ShloMosaic.TcCoe Idealize.SL.Sem Idealize.ShloMosaic.StableHlo
open Cert.KernelIdeal.Facts₀ Cert.KernelIdeal.Facts

variable {F : FTy → Type} [FloatOps F] [Facts]

/-- The images regrouped with the pixel of the patch outermost: one row of 802816 angles per pixel position (a reshape, a transpose, a reshape). -/
def kAngles (x0 : (⟨S4096x784, .f32⟩ : BufTy).Contents (Elt F)) : (⟨S4x802816, .f32⟩ : BufTy).Contents (Elt F) :=
  let t0 : (⟨S4096x14x2x14x2, .f32⟩ : BufTy).Contents (Elt F) := shapeCast S4096x14x2x14x2 x0 shapeCasts_S4096x784_S4096x14x2x14x2
  let t1 : (⟨S2x2x4096x14x14, .f32⟩ : BufTy).Contents (Elt F) := (((transpose S2x2x4096x14x14 [2, 4, 0, 1, 3] · transposes_S4096x14x2x14x2_S2x2x4096x14x14_2_4_0_1_3) : (⟨S4096x14x2x14x2, .f32⟩ : BufTy).Contents (Elt F) → (⟨S2x2x4096x14x14, .f32⟩ : BufTy).Contents (Elt F)) : (⟨S4096x14x2x14x2, .f32⟩ : BufTy).Contents (Elt F) → (⟨S2x2x4096x14x14, .f32⟩ : BufTy).Contents (Elt F)) t0
  let t2 : (⟨S4x802816, .f32⟩ : BufTy).Contents (Elt F) := shapeCast S4x802816 t1 shapeCasts_S2x2x4096x14x14_S4x802816
  t2

/-- The sixteen basis vectors as one array: the 16×16 identity matrix (row index equal to column index, as a float) regrouped with the column index split into four qubit axes. -/
def kIdent : (⟨S16x2x2x2x2, .f32⟩ : BufTy).Contents (Elt F) :=
  let t3 : (⟨S16x16, .i32⟩ : BufTy).Contents (Elt F) := (iotaInDim S16x16 32 0)
  let t4 : (⟨S16x16, .i32⟩ : BufTy).Contents (Elt F) := (iotaInDim S16x16 32 1)
  let t5 : (⟨S_, .i32⟩ : BufTy).Contents (Elt F) := (constantI S_ 32 0#32)
  let t6 : (⟨S16x16, .i32⟩ : BufTy).Contents (Elt F) := ((broadcastInDim S16x16 ![] bcast_S_S16x16 : (⟨S_, .i32⟩ : BufTy).Contents (Elt F) → (⟨S16x16, .i32⟩ : BufTy).Contents (Elt F)) : (⟨S_, .i32⟩ : BufTy).Contents (Elt F) → (⟨S16x16, .i32⟩ : BufTy).Contents (Elt F)) t5
  let t7 : (⟨S16x16, .i32⟩ : BufTy).Contents (Elt F) := ((addi : (⟨S16x16, .i32⟩ : BufTy).Contents (Elt F) → (⟨S16x16, .i32⟩ : BufTy).Contents (Elt F) → (⟨S16x16, .i32⟩ : BufTy).Contents (Elt F)) : (⟨S16x16, .i32⟩ : BufTy).Contents (Elt F) → (⟨S16x16, .i32⟩ : BufTy).Contents (Elt F) → (⟨S16x16, .i32⟩ : BufTy).Contents (Elt F)) t3 t6
  let t8 : (⟨S16x16, .i1⟩ : BufTy).Contents (Elt F) := ((cmpi .eq : (⟨S16x16, .i32⟩ : BufTy).Contents (Elt F) → (⟨S16x16, .i32⟩ : BufTy).Contents (Elt F) → (⟨S16x16, .i1⟩ : BufTy).Contents (Elt F)) : (⟨S16x16, .i32⟩ : BufTy).Contents (Elt F) → (⟨S16x16, .i32⟩ : BufTy).Contents (Elt F) → (⟨S16x16, .i1⟩ : BufTy).Contents (Elt F)) t7 t4
  let t9 : (⟨S16x16, .f32⟩ : BufTy).Contents (Elt F) := ((uitofp .f32 : (⟨S16x16, .i1⟩ : BufTy).Contents (Elt F) → (⟨S16x16, .f32⟩ : BufTy).Contents (Elt F)) : (⟨S16x16, .i1⟩ : BufTy).Contents (Elt F) → (⟨S16x16, .f32⟩ : BufTy).Contents (Elt F)) t8
  let t10 : (⟨S16x2x2x2x2, .f32⟩ : BufTy).Contents (Elt F) := shapeCast S16x2x2x2x2 t9 shapeCasts_S16x16_S16x2x2x2x2
  t10

/-- The rotation of the first qubit by the fixed angle (entry 0 of the parameters) on the sixteen basis vectors at once: the two halves of the array along that qubit's axis (each an index wrapped into range, a gather, and a select filling with NaN where the index was out of range), the scalar cosine and sine of half the angle broadcast over the array, the two combinations, and their concatenation back along the axis. `x0` is the array of states, `x1` the four parameters. -/
def kRyP0 (x0 : (⟨S16x2x2x2x2, .f32⟩ : BufTy).Contents (Elt F)) (x1 : (⟨S4, .f32⟩ : BufTy).Contents (Elt F)) : (⟨S16x2x2x2x2, .f32⟩ : BufTy).Contents (Elt F) :=
  let t0 : (⟨S1, .f32⟩ : BufTy).Contents (Elt F) := (((extractStridedSlice S1 ![0] · slices_S4_S1_0) : (⟨S4, .f32⟩ : BufTy).Contents (Elt F) → (⟨S1, .f32⟩ : BufTy).Contents (Elt F)) : (⟨S4, .f32⟩ : BufTy).Contents (Elt F) → (⟨S1, .f32⟩ : BufTy).Contents (Elt F)) x1
  let t1 : (⟨S_, .f32⟩ : BufTy).Contents (Elt F) := shapeCast S_ t0 shapeCasts_S1_S_
  let t2 : (⟨S_, .i32⟩ : BufTy).Contents (Elt F) := (constantI S_ 32 0#32)
  let t3 : (⟨S_, .i32⟩ : BufTy).Contents (Elt F) := (constantI S_ 32 0#32)
  let t4 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t2 t3
  let t5 : (⟨S_, .i32⟩ : BufTy).Contents (Elt F) := (constantI S_ 32 2#32)
  let t6 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t2 t5
  let t7 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t4 t6 t2
  let t8 : (⟨S1, .i32⟩ : BufTy).Contents (Elt F) := ((broadcastInDim S1 ![] bcast_S_S1) : (⟨S_, .i32⟩ : BufTy).Contents (Elt F) → (⟨S1, .i32⟩ : BufTy).Contents (Elt F)) t7
  let t9 : (⟨S1, .i32⟩ : BufTy).Contents (Elt F) := (constantI S1 32 1#32)
  let t10 : (⟨S1, .i32⟩ : BufTy).Contents (Elt F) := (id : (⟨S1, .i32⟩ : BufTy).Contents (Elt F) → (⟨S1, .i32⟩ : BufTy).Contents (Elt F)) t8
  let t11 : (⟨S_, .i32⟩ : BufTy).Contents (Elt F) := (constantI S_ 32 0#32)
  let t12 : (⟨S1, .i32⟩ : BufTy).Contents (Elt F) := ((broadcastInDim S1 ![] bcast_S_S1) : (⟨S_, .i32⟩ : BufTy).Contents (Elt F) → (⟨S1, .i32⟩ : BufTy).Contents (Elt F)) t11
  let t13 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t10 t12
  let t14 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t10 t9
  let t15 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t13 t14
  let t16 : (⟨S_, .i1⟩ : BufTy).Contents (Elt F) := (constantI S_ 1 1#1)
  let t17 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t15 t16
  let t18 : (⟨S16x2x2x2, .f32⟩ : BufTy).Contents (Elt F) := ((fun x i => Host.gather gather_S16x2x2x2x2_S1_S16x2x2x2_0123_1_n_n_1_0_161222 x i) : (⟨S16x2x2x2x2, .f32⟩ : BufTy).Contents (Elt F) → (⟨S1, .i32⟩ : BufTy).Contents (Elt F) → (⟨S16x2x2x2, .f32⟩ : BufTy).Contents (Elt F)) x0 t10
  let t19 : (⟨S16x2x2x2, .i1⟩ : BufTy).Contents (Elt F) := ((broadcastInDim S16x2x2x2 ![] bcast_S_S16x2x2x2) : (⟨S_, .i1⟩ : BufTy).Contents (Elt F) → (⟨S16x2x2x2, .i1⟩ : BufTy).Contents (Elt F)) t17
  let t20 : (⟨S_, .f32⟩ : BufTy).Contents (Elt F) := (constant S_ .f32 0x7FC00000#32)
  let t21 : (⟨S16x2x2x2, .f32⟩ : BufTy).Contents (Elt F) := ((broadcastInDim S16x2x2x2 ![] bcast_S_S16x2x2x2) : (⟨S_, .f32⟩ : BufTy).Contents (Elt F) → (⟨S16x2x2x2, .f32⟩ : BufTy).Contents (Elt F)) t20
  let t22 : (⟨S16x2x2x2, .f32⟩ : BufTy).Contents (Elt F) := (select : (⟨S16x2x2x2, .i1⟩ : BufTy).Contents (Elt F) → (⟨S16x2x2x2, .f32⟩ : BufTy).Contents (Elt F) → (⟨S16x2x2x2, .f32⟩ : BufTy).Contents (Elt F) → (⟨S16x2x2x2, .f32⟩ : BufTy).Contents (Elt F)) t19 t18 t21
  let t23 : (⟨S_, .i32⟩ : BufTy).Contents (Elt F) := (constantI S_ 32 1#32)
  let t24 : (⟨S_, .i32⟩ : BufTy).Contents (Elt F) := (constantI S_ 32 0#32)
  let t25 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t23 t24
  let t26 : (⟨S_, .i32⟩ : BufTy).Contents (Elt F) := (constantI S_ 32 2#32)
  let t27 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t23 t26
  let t28 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t25 t27 t23
  let t29 : (⟨S1, .i32⟩ : BufTy).Contents (Elt F) := ((broadcastInDim S1 ![] bcast_S_S1) : (⟨S_, .i32⟩ : BufTy).Contents (Elt F) → (⟨S1, .i32⟩ : BufTy).Contents (Elt F)) t28
  let t30 : (⟨S1, .i32⟩ : BufTy).Contents (Elt F) := (constantI S1 32 1#32)
  let t31 : (⟨S1, .i32⟩ : BufTy).Contents (Elt F) := (id : (⟨S1, .i32⟩ : BufTy).Contents (Elt F) → (⟨S1, .i32⟩ : BufTy).Contents (Elt F)) t29
  let t32 : (⟨S_, .i32⟩ : BufTy).Contents (Elt F) := (constantI S_ 32 0#32)
  let t33 : (⟨S1, .i32⟩ : BufTy).Contents (Elt F) := ((broadcastInDim S1 ![] bcast_S_S1) : (⟨S_, .i32⟩ : BufTy).Contents (Elt F) → (⟨S1, .i32⟩ : BufTy).Contents (Elt F)) t32
  let t34 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t31 t33
  let t35 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t31 t30
  let t36 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t34 t35
  let t37 : (⟨S_, .i1⟩ : BufTy).Contents (Elt F) := (constantI S_ 1 1#1)
  let t38 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t36 t37
  let t39 : (⟨S16x2x2x2, .f32⟩ : BufTy).Contents (Elt F) := ((fun x i => Host.gather gather_S16x2x2x2x2_S1_S16x2x2x2_0123_1_n_n_1_0_161222 x i) : (⟨S16x2x2x2x2, .f32⟩ : BufTy).Contents (Elt F) → (⟨S1, .i32⟩ : BufTy).Contents (Elt F) → (⟨S16x2x2x2, .f32⟩ : BufTy).Contents (Elt F)) x0 t31
  let t40 : (⟨S16x2x2x2, .i1⟩ : BufTy).Contents (Elt F) := ((broadcastInDim S16x2x2x2 ![] bcast_S_S16x2x2x2) : (⟨S_, .i1⟩ : BufTy).Contents (Elt F) → (⟨S16x2x2x2, .i1⟩ : BufTy).Contents (Elt F)) t38
  let t41 : (⟨S_, .f32⟩ : BufTy).Contents (Elt F) := (constant S_ .f32 0x7FC00000#32)
  let t42 : (⟨S16x2x2x2, .f32⟩ : BufTy).Contents (Elt F) := ((broadcastInDim S16x2x2x2 ![] bcast_S_S16x2x2x2) : (⟨S_, .f32⟩ : BufTy).Contents (Elt F) → (⟨S16x2x2x2, .f32⟩ : BufTy).Contents (Elt F)) t41
  let t43 : (⟨S16x2x2x2, .f32⟩ : BufTy).Contents (Elt F) := (select : (⟨S16x2x2x2, .i1⟩ : BufTy).Contents (Elt F) → (⟨S16x2x2x2, .f32⟩ : BufTy).Contents (Elt F) → (⟨S16x2x2x2, .f32⟩ : BufTy).Contents (Elt F) → (⟨S16x2x2x2, .f32⟩ : BufTy).Contents (Elt F)) t40 t39 t42
  let t44 : (⟨S_, .f32⟩ : BufTy).Contents (Elt F) := (constant S_ .f32 0x3F000000#32)
  let t45 : (⟨S_, .f32⟩ : BufTy).Contents (Elt F) := ((mulf : (⟨S_, .f32⟩ : BufTy).Contents (Elt F) → (⟨S_, .f32⟩ : BufTy).Contents (Elt F) → (⟨S_, .f32⟩ : BufTy).Contents (Elt F)) : (⟨S_, .f32⟩ : BufTy).Contents (Elt F) → (⟨S_, .f32⟩ : BufTy).Contents (Elt F) → (⟨S_, .f32⟩ : BufTy).Contents (Elt F)) t1 t44
  let t46 : (⟨S_, .f32⟩ : BufTy).Contents (Elt F) := ((Host.cos : (⟨S_, .f32⟩ : BufTy).Contents (Elt F) → (⟨S_, .f32⟩ : BufTy).Contents (Elt F)) : (⟨S_, .f32⟩ : BufTy).Contents (Elt F) → (⟨S_, .f32⟩ : BufTy).Contents (Elt F)) t45
  let t47 : (⟨S_, .f32⟩ : BufTy).Contents (Elt F) := (constant S_ .f32 0x3F000000#32)
  let t48 : (⟨S_, .f32⟩ : BufTy).Contents (Elt F) := ((mulf : (⟨S_, .f32⟩ : BufTy).Contents (Elt F) → (⟨S_, .f32⟩ : BufTy).Contents (Elt F) → (⟨S_, .f32⟩ : BufTy).Contents (Elt F)) : (⟨S_, .f32⟩ : BufTy).Contents (Elt F) → (⟨S_, .f32⟩ : BufTy).Contents (Elt F) → (⟨S_, .f32⟩ : BufTy).Contents (Elt F)) t1 t47
  let t49 : (⟨S_, .f32⟩ : BufTy).Contents (Elt F) := ((Host.sin : (⟨S_, .f32⟩ : BufTy).Contents (Elt F) → (⟨S_, .f32⟩ : BufTy).Contents (Elt F)) : (⟨S_, .f32⟩ : BufTy).Contents (Elt F) → (⟨S_, .f32⟩ : BufTy).Contents (Elt F)) t48
  let t50 : (⟨S16x2x2x2, .f32⟩ : BufTy).Contents (Elt F) := ((broadcastInDim S16x2x2x2 ![] bcast_S_S16x2x2x2 : (⟨S_, .f32⟩ : BufTy).Contents (Elt F) → (⟨S16x2x2x2, .f32⟩ : BufTy).Contents (Elt F)) : (⟨S_, .f32⟩ : BufTy).Contents (Elt F) → (⟨S16x2x2x2, .f32⟩ : BufTy).Contents (Elt F)) t46
  let t51 : (⟨S16x2x2x2, .f32⟩ : BufTy).Contents (Elt F) := ((mulf : (⟨S16x2x2x2, .f32⟩ : BufTy).Contents (Elt F) → (⟨S16x2x2x2, .f32⟩ : BufTy).Contents (Elt F) → (⟨S16x2x2x2, .f32⟩ : BufTy).Contents (Elt F)) : (⟨S16x2x2x2, .f32⟩ : BufTy).Contents (Elt F) → (⟨S16x2x2x2, .f32⟩ : BufTy).Contents (Elt F) → (⟨S16x2x2x2, .f32⟩ : BufTy).Contents (Elt F)) t50 t22
  let t52 : (⟨S16x2x2x2, .f32⟩ : BufTy).Contents (Elt F) := ((broadcastInDim S16x2x2x2 ![] bcast_S_S16x2x2x2 : (⟨S_, .f32⟩ : BufTy).Contents (Elt F) → (⟨S16x2x2x2, .f32⟩ : BufTy).Contents (Elt F)) : (⟨S_, .f32⟩ : BufTy).Contents (Elt F) → (⟨S16x2x2x2, .f32⟩ : BufTy).Contents (Elt F)) t49
  let t53 : (⟨S16x2x2x2, .f32⟩ : BufTy).Contents (Elt F) := ((mulf : (⟨S16x2x2x2, .f32⟩ : BufTy).Contents (Elt F) → (⟨S16x2x2x2, .f32⟩ : BufTy).Contents (Elt F) → (⟨S16x2x2x2, .f32⟩ : BufTy).Contents (Elt F)) : (⟨S16x2x2x2, .f32⟩ : BufTy).Contents (Elt F) → (⟨S16x2x2x2, .f32⟩ : BufTy).Contents (Elt F) → (⟨S16x2x2x2, .f32⟩ : BufTy).Contents (Elt F)) t52 t43
  let t54 : (⟨S16x2x2x2, .f32⟩ : BufTy).Contents (Elt F) := ((subf : (⟨S16x2x2x2, .f32⟩ : BufTy).Contents (Elt F) → (⟨S16x2x2x2, .f32⟩ : BufTy).Contents (Elt F) → (⟨S16x2x2x2, .f32⟩ : BufTy).Contents (Elt F)) : (⟨S16x2x2x2, .f32⟩ : BufTy).Contents (Elt F) → (⟨S16x2x2x2, .f32⟩ : BufTy).Contents (Elt F) → (⟨S16x2x2x2, .f32⟩ : BufTy).Contents (Elt F)) t51 t53
  let t55 : (⟨S16x2x2x2, .f32⟩ : BufTy).Contents (Elt F) := ((broadcastInDim S16x2x2x2 ![] bcast_S_S16x2x2x2 : (⟨S_, .f32⟩ : BufTy).Contents (Elt F) → (⟨S16x2x2x2, .f32⟩ : BufTy).Contents (Elt F)) : (⟨S_, .f32⟩ : BufTy).Contents (Elt F) → (⟨S16x2x2x2, .f32⟩ : BufTy).Contents (Elt F)) t49
  let t56 : (⟨S16x2x2x2, .f32⟩ : BufTy).Contents (Elt F) := ((mulf : (⟨S16x2x2x2, .f32⟩ : BufTy).Contents (Elt F) → (⟨S16x2x2x2, .f32⟩ : BufTy).Contents (Elt F) → (⟨S16x2x2x2, .f32⟩ : BufTy).Contents (Elt F)) : (⟨S16x2x2x2, .f32⟩ : BufTy).Contents (Elt F) → (⟨S16x2x2x2, .f32⟩ : BufTy).Contents (Elt F) → (⟨S16x2x2x2, .f32⟩ : BufTy).Contents (Elt F)) t55 t22
  let t57 : (⟨S16x2x2x2, .f32⟩ : BufTy).Contents (Elt F) := ((broadcastInDim S16x2x2x2 ![] bcast_S_S16x2x2x2 : (⟨S_, .f32⟩ : BufTy).Contents (Elt F) → (⟨S16x2x2x2, .f32⟩ : BufTy).Contents (Elt F)) : (⟨S_, .f32⟩ : BufTy).Contents (Elt F) → (⟨S16x2x2x2, .f32⟩ : BufTy).Contents (Elt F)) t46
  let t58 : (⟨S16x2x2x2, .f32⟩ : BufTy).Contents (Elt F) := ((mulf : (⟨S16x2x2x2, .f32⟩ : BufTy).Contents (Elt F) → (⟨S16x2x2x2, .f32⟩ : BufTy).Contents (Elt F) → (⟨S16x2x2x2, .f32⟩ : BufTy).Contents (Elt F)) : (⟨S16x2x2x2, .f32⟩ : BufTy).Contents (Elt F) → (⟨S16x2x2x2, .f32⟩ : BufTy).Contents (Elt F) → (⟨S16x2x2x2, .f32⟩ : BufTy).Contents (Elt F)) t57 t43
  let t59 : (⟨S16x2x2x2, .f32⟩ : BufTy).Contents (Elt F) := ((addf : (⟨S16x2x2x2, .f32⟩ : BufTy).Contents (Elt F) → (⟨S16x2x2x2, .f32⟩ : BufTy).Contents (Elt F) → (⟨S16x2x2x2, .f32⟩ : BufTy).Contents (Elt F)) : (⟨S16x2x2x2, .f32⟩ : BufTy).Contents (Elt F) → (⟨S16x2x2x2, .f32⟩ : BufTy).Contents (Elt F) → (⟨S16x2x2x2, .f32⟩ : BufTy).Contents (Elt F)) t56 t58
  let t60 : (⟨S16x1x2x2x2, .f32⟩ : BufTy).Contents (Elt F) := ((broadcastInDim S16x1x2x2x2 ![0, 2, 3, 4] bcast_S16x2x2x2_S16x1x2x2x2_0_2_3_4 : (⟨S16x2x2x2, .f32⟩ : BufTy).Contents (Elt F) → (⟨S16x1x2x2x2, .f32⟩ : BufTy).Contents (Elt F)) : (⟨S16x2x2x2, .f32⟩ : BufTy).Contents (Elt F) → (⟨S16x1x2x2x2, .f32⟩ : BufTy).Contents (Elt F)) t54
  let t61 : (⟨S16x1x2x2x2, .f32⟩ : BufTy).Contents (Elt F) := ((broadcastInDim S16x1x2x2x2 ![0, 2, 3, 4] bcast_S16x2x2x2_S16x1x2x2x2_0_2_3_4 : (⟨S16x2x2x2, .f32⟩ : BufTy).Contents (Elt F) → (⟨S16x1x2x2x2, .f32⟩ : BufTy).Contents (Elt F)) : (⟨S16x2x2x2, .f32⟩ : BufTy).Contents (Elt F) → (⟨S16x1x2x2x2, .f32⟩ : BufTy).Contents (Elt F)) t59
  let t62 : (⟨S16x2x2x2x2, .f32⟩ : BufTy).Contents (Elt F) := (((fun a b => concatenate S16x2x2x2x2 1 [⟨S16x1x2x2x2, a⟩, ⟨S16x1x2x2x2, b⟩] concatenates_S16x1x2x2x2_S16x1x2x2x2_S16x2x2x2x2_d1) : (⟨S16x1x2x2x2, .f32⟩ : BufTy).Contents (Elt F) → (⟨S16x1x2x2x2, .f32⟩ : BufTy).Contents (Elt F) → (⟨S16x2x2x2x2, .f32⟩ : BufTy).Contents (Elt F)) : (⟨S16x1x2x2x2, .f32⟩ : BufTy).Contents (Elt F) → (⟨S16x1x2x2x2, .f32⟩ : BufTy).Contents (Elt F) → (⟨S16x2x2x2x2, .f32⟩ : BufTy).Contents (Elt F)) t60 t61
  t62

/-- The rotation of the second qubit by the fixed angle (entry 1 of the parameters) on the sixteen basis vectors at once: the two halves of the array along that qubit's axis (each an index wrapped into range, a gather, and a select filling with NaN where the index was out of range), the scalar cosine and sine of half the angle broadcast over the array, the two combinations, and their concatenation back along the axis. `x0` is the array of states, `x1` the four parameters. -/
def kRyP1 (x0 : (⟨S16x2x2x2x2, .f32⟩ : BufTy).Contents (Elt F)) (x1 : (⟨S4, .f32⟩ : BufTy).Contents (Elt F)) : (⟨S16x2x2x2x2, .f32⟩ : BufTy).Contents (Elt F) :=
  let t0 : (⟨S1, .f32⟩ : BufTy).Contents (Elt F) := (((extractStridedSlice S1 ![1] · slices_S4_S1_1) : (⟨S4, .f32⟩ : BufTy).Contents (Elt F) → (⟨S1, .f32⟩ : BufTy).Contents (Elt F)) : (⟨S4, .f32⟩ : BufTy).Contents (Elt F) → (⟨S1, .f32⟩ : BufTy).Contents (Elt F)) x1
  let t1 : (⟨S_, .f32⟩ : BufTy).Contents (Elt F) := shapeCast S_ t0 shapeCasts_S1_S_
  let t2 : (⟨S_, .i32⟩ : BufTy).Contents (Elt F) := (constantI S_ 32 0#32)
  let t3 : (⟨S_, .i32⟩ : BufTy).Contents (Elt F) := (constantI S_ 32 0#32)
  let t4 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t2 t3
  let t5 : (⟨S_, .i32⟩ : BufTy).Contents (Elt F) := (constantI S_ 32 2#32)
  let t6 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t2 t5
  let t7 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t4 t6 t2
  let t8 : (⟨S1, .i32⟩ : BufTy).Contents (Elt F) := ((broadcastInDim S1 ![] bcast_S_S1) : (⟨S_, .i32⟩ : BufTy).Contents (Elt F) → (⟨S1, .i32⟩ : BufTy).Contents (Elt F)) t7
  let t9 : (⟨S1, .i32⟩ : BufTy).Contents (Elt F) := (constantI S1 32 1#32)
  let t10 : (⟨S1, .i32⟩ : BufTy).Contents (Elt F) := (id : (⟨S1, .i32⟩ : BufTy).Contents (Elt F) → (⟨S1, .i32⟩ : BufTy).Contents (Elt F)) t8
  let t11 : (⟨S_, .i32⟩ : BufTy).Contents (Elt F) := (constantI S_ 32 0#32)
  let t12 : (⟨S1, .i32⟩ : BufTy).Contents (Elt F) := ((broadcastInDim S1 ![] bcast_S_S1) : (⟨S_, .i32⟩ : BufTy).Contents (Elt F) → (⟨S1, .i32⟩ : BufTy).Contents (Elt F)) t11
  let t13 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t10 t12
  let t14 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t10 t9
  let t15 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t13 t14
  let t16 : (⟨S_, .i1⟩ : BufTy).Contents (Elt F) := (constantI S_ 1 1#1)
  let t17 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t15 t16
  let t18 : (⟨S16x2x2x2, .f32⟩ : BufTy).Contents (Elt F) := ((fun x i => Host.gather gather_S16x2x2x2x2_S1_S16x2x2x2_0123_2_n_n_2_0_162122 x i) : (⟨S16x2x2x2x2, .f32⟩ : BufTy).Contents (Elt F) → (⟨S1, .i32⟩ : BufTy).Contents (Elt F) → (⟨S16x2x2x2, .f32⟩ : BufTy).Contents (Elt F)) x0 t10
  let t19 : (⟨S16x2x2x2, .i1⟩ : BufTy).Contents (Elt F) := ((broadcastInDim S16x2x2x2 ![] bcast_S_S16x2x2x2) : (⟨S_, .i1⟩ : BufTy).Contents (Elt F) → (⟨S16x2x2x2, .i1⟩ : BufTy).Contents (Elt F)) t17
  let t20 : (⟨S_, .f32⟩ : BufTy).Contents (Elt F) := (constant S_ .f32 0x7FC00000#32)
  let t21 : (⟨S16x2x2x2, .f32⟩ : BufTy).Contents (Elt F) := ((broadcastInDim S16x2x2x2 ![] bcast_S_S16x2x2x2) : (⟨S_, .f32⟩ : BufTy).Contents (Elt F) → (⟨S16x2x2x2, .f32⟩ : BufTy).Contents (Elt F)) t20
  let t22 : (⟨S16x2x2x2, .f32⟩ : BufTy).Contents (Elt F) := (select : (⟨S16x2x2x2, .i1⟩ : BufTy).Contents (Elt F) → (⟨S16x2x2x2, .f32⟩ : BufTy).Contents (Elt F) → (⟨S16x2x2x2, .f32⟩ : BufTy).Contents (Elt F) → (⟨S16x2x2x2, .f32⟩ : BufTy).Contents (Elt F)) t19 t18 t21
  let t23 : (⟨S_, .i32⟩ : BufTy).Contents (Elt F) := (constantI S_ 32 1#32)
  let t24 : (⟨S_, .i32⟩ : BufTy).Contents (Elt F) := (constantI S_ 32 0#32)
  let t25 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t23 t24
  let t26 : (⟨S_, .i32⟩ : BufTy).Contents (Elt F) := (constantI S_ 32 2#32)
  let t27 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t23 t26
  let t28 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t25 t27 t23
  let t29 : (⟨S1, .i32⟩ : BufTy).Contents (Elt F) := ((broadcastInDim S1 ![] bcast_S_S1) : (⟨S_, .i32⟩ : BufTy).Contents (Elt F) → (⟨S1, .i32⟩ : BufTy).Contents (Elt F)) t28
  let t30 : (⟨S1, .i32⟩ : BufTy).Contents (Elt F) := (constantI S1 32 1#32)
  let t31 : (⟨S1, .i32⟩ : BufTy).Contents (Elt F) := (id : (⟨S1, .i32⟩ : BufTy).Contents (Elt F) → (⟨S1, .i32⟩ : BufTy).Contents (Elt F)) t29
  let t32 : (⟨S_, .i32⟩ : BufTy).Contents (Elt F) := (constantI S_ 32 0#32)
  let t33 : (⟨S1, .i32⟩ : BufTy).Contents (Elt F) := ((broadcastInDim S1 ![] bcast_S_S1) : (⟨S_, .i32⟩ : BufTy).Contents (Elt F) → (⟨S1, .i32⟩ : BufTy).Contents (Elt F)) t32
  let t34 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t31 t33
  let t35 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t31 t30
  let t36 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t34 t35
  let t37 : (⟨S_, .i1⟩ : BufTy).Contents (Elt F) := (constantI S_ 1 1#1)
  let t38 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t36 t37
  let t39 : (⟨S16x2x2x2, .f32⟩ : BufTy).Contents (Elt F) := ((fun x i => Host.gather gather_S16x2x2x2x2_S1_S16x2x2x2_0123_2_n_n_2_0_162122 x i) : (⟨S16x2x2x2x2, .f32⟩ : BufTy).Contents (Elt F) → (⟨S1, .i32⟩ : BufTy).Contents (Elt F) → (⟨S16x2x2x2, .f32⟩ : BufTy).Contents (Elt F)) x0 t31
  let t40 : (⟨S16x2x2x2, .i1⟩ : BufTy).Contents (Elt F) := ((broadcastInDim S16x2x2x2 ![] bcast_S_S16x2x2x2) : (⟨S_, .i1⟩ : BufTy).Contents (Elt F) → (⟨S16x2x2x2, .i1⟩ : BufTy).Contents (Elt F)) t38
  let t41 : (⟨S_, .f32⟩ : BufTy).Contents (Elt F) := (constant S_ .f32 0x7FC00000#32)
  let t42 : (⟨S16x2x2x2, .f32⟩ : BufTy).Contents (Elt F) := ((broadcastInDim S16x2x2x2 ![] bcast_S_S16x2x2x2) : (⟨S_, .f32⟩ : BufTy).Contents (Elt F) → (⟨S16x2x2x2, .f32⟩ : BufTy).Contents (Elt F)) t41
  let t43 : (⟨S16x2x2x2, .f32⟩ : BufTy).Contents (Elt F) := (select : (⟨S16x2x2x2, .i1⟩ : BufTy).Contents (Elt F) → (⟨S16x2x2x2, .f32⟩ : BufTy).Contents (Elt F) → (⟨S16x2x2x2, .f32⟩ : BufTy).Contents (Elt F) → (⟨S16x2x2x2, .f32⟩ : BufTy).Contents (Elt F)) t40 t39 t42
  let t44 : (⟨S_, .f32⟩ : BufTy).Contents (Elt F) := (constant S_ .f32 0x3F000000#32)
  let t45 : (⟨S_, .f32⟩ : BufTy).Contents (Elt F) := ((mulf : (⟨S_, .f32⟩ : BufTy).Contents (Elt F) → (⟨S_, .f32⟩ : BufTy).Contents (Elt F) → (⟨S_, .f32⟩ : BufTy).Contents (Elt F)) : (⟨S_, .f32⟩ : BufTy).Contents (Elt F) → (⟨S_, .f32⟩ : BufTy).Contents (Elt F) → (⟨S_, .f32⟩ : BufTy).Contents (Elt F)) t1 t44
  let t46 : (⟨S_, .f32⟩ : BufTy).Contents (Elt F) := ((Host.cos : (⟨S_, .f32⟩ : BufTy).Contents (Elt F) → (⟨S_, .f32⟩ : BufTy).Contents (Elt F)) : (⟨S_, .f32⟩ : BufTy).Contents (Elt F) → (⟨S_, .f32⟩ : BufTy).Contents (Elt F)) t45
  let t47 : (⟨S_, .f32⟩ : BufTy).Contents (Elt F) := (constant S_ .f32 0x3F000000#32)
  let t48 : (⟨S_, .f32⟩ : BufTy).Contents (Elt F) := ((mulf : (⟨S_, .f32⟩ : BufTy).Contents (Elt F) → (⟨S_, .f32⟩ : BufTy).Contents (Elt F) → (⟨S_, .f32⟩ : BufTy).Contents (Elt F)) : (⟨S_, .f32⟩ : BufTy).Contents (Elt F) → (⟨S_, .f32⟩ : BufTy).Contents (Elt F) → (⟨S_, .f32⟩ : BufTy).Contents (Elt F)) t1 t47
  let t49 : (⟨S_, .f32⟩ : BufTy).Contents (Elt F) := ((Host.sin : (⟨S_, .f32⟩ : BufTy).Contents (Elt F) → (⟨S_, .f32⟩ : BufTy).Contents (Elt F)) : (⟨S_, .f32⟩ : BufTy).Contents (Elt F) → (⟨S_, .f32⟩ : BufTy).Contents (Elt F)) t48
  let t50 : (⟨S16x2x2x2, .f32⟩ : BufTy).Contents (Elt F) := ((broadcastInDim S16x2x2x2 ![] bcast_S_S16x2x2x2 : (⟨S_, .f32⟩ : BufTy).Contents (Elt F) → (⟨S16x2x2x2, .f32⟩ : BufTy).Contents (Elt F)) : (⟨S_, .f32⟩ : BufTy).Contents (Elt F) → (⟨S16x2x2x2, .f32⟩ : BufTy).Contents (Elt F)) t46
  let t51 : (⟨S16x2x2x2, .f32⟩ : BufTy).Contents (Elt F) := ((mulf : (⟨S16x2x2x2, .f32⟩ : BufTy).Contents (Elt F) → (⟨S16x2x2x2, .f32⟩ : BufTy).Contents (Elt F) → (⟨S16x2x2x2, .f32⟩ : BufTy).Contents (Elt F)) : (⟨S16x2x2x2, .f32⟩ : BufTy).Contents (Elt F) → (⟨S16x2x2x2, .f32⟩ : BufTy).Contents (Elt F) → (⟨S16x2x2x2, .f32⟩ : BufTy).Contents (Elt F)) t50 t22
  let t52 : (⟨S16x2x2x2, .f32⟩ : BufTy).Contents (Elt F) := ((broadcastInDim S16x2x2x2 ![] bcast_S_S16x2x2x2 : (⟨S_, .f32⟩ : BufTy).Contents (Elt F) → (⟨S16x2x2x2, .f32⟩ : BufTy).Contents (Elt F)) : (⟨S_, .f32⟩ : BufTy).Contents (Elt F) → (⟨S16x2x2x2, .f32⟩ : BufTy).Contents (Elt F)) t49
  let t53 : (⟨S16x2x2x2, .f32⟩ : BufTy).Contents (Elt F) := ((mulf : (⟨S16x2x2x2, .f32⟩ : BufTy).Contents (Elt F) → (⟨S16x2x2x2, .f32⟩ : BufTy).Contents (Elt F) → (⟨S16x2x2x2, .f32⟩ : BufTy).Contents (Elt F)) : (⟨S16x2x2x2, .f32⟩ : BufTy).Contents (Elt F) → (⟨S16x2x2x2, .f32⟩ : BufTy).Contents (Elt F) → (⟨S16x2x2x2, .f32⟩ : BufTy).Contents (Elt F)) t52 t43
  let t54 : (⟨S16x2x2x2, .f32⟩ : BufTy).Contents (Elt F) := ((subf : (⟨S16x2x2x2, .f32⟩ : BufTy).Contents (Elt F) → (⟨S16x2x2x2, .f32⟩ : BufTy).Contents (Elt F) → (⟨S16x2x2x2, .f32⟩ : BufTy).Contents (Elt F)) : (⟨S16x2x2x2, .f32⟩ : BufTy).Contents (Elt F) → (⟨S16x2x2x2, .f32⟩ : BufTy).Contents (Elt F) → (⟨S16x2x2x2, .f32⟩ : BufTy).Contents (Elt F)) t51 t53
  let t55 : (⟨S16x2x2x2, .f32⟩ : BufTy).Contents (Elt F) := ((broadcastInDim S16x2x2x2 ![] bcast_S_S16x2x2x2 : (⟨S_, .f32⟩ : BufTy).Contents (Elt F) → (⟨S16x2x2x2, .f32⟩ : BufTy).Contents (Elt F)) : (⟨S_, .f32⟩ : BufTy).Contents (Elt F) → (⟨S16x2x2x2, .f32⟩ : BufTy).Contents (Elt F)) t49
  let t56 : (⟨S16x2x2x2, .f32⟩ : BufTy).Contents (Elt F) := ((mulf : (⟨S16x2x2x2, .f32⟩ : BufTy).Contents (Elt F) → (⟨S16x2x2x2, .f32⟩ : BufTy).Contents (Elt F) → (⟨S16x2x2x2, .f32⟩ : BufTy).Contents (Elt F)) : (⟨S16x2x2x2, .f32⟩ : BufTy).Contents (Elt F) → (⟨S16x2x2x2, .f32⟩ : BufTy).Contents (Elt F) → (⟨S16x2x2x2, .f32⟩ : BufTy).Contents (Elt F)) t55 t22
  let t57 : (⟨S16x2x2x2, .f32⟩ : BufTy).Contents (Elt F) := ((broadcastInDim S16x2x2x2 ![] bcast_S_S16x2x2x2 : (⟨S_, .f32⟩ : BufTy).Contents (Elt F) → (⟨S16x2x2x2, .f32⟩ : BufTy).Contents (Elt F)) : (⟨S_, .f32⟩ : BufTy).Contents (Elt F) → (⟨S16x2x2x2, .f32⟩ : BufTy).Contents (Elt F)) t46
  let t58 : (⟨S16x2x2x2, .f32⟩ : BufTy).Contents (Elt F) := ((mulf : (⟨S16x2x2x2, .f32⟩ : BufTy).Contents (Elt F) → (⟨S16x2x2x2, .f32⟩ : BufTy).Contents (Elt F) → (⟨S16x2x2x2, .f32⟩ : BufTy).Contents (Elt F)) : (⟨S16x2x2x2, .f32⟩ : BufTy).Contents (Elt F) → (⟨S16x2x2x2, .f32⟩ : BufTy).Contents (Elt F) → (⟨S16x2x2x2, .f32⟩ : BufTy).Contents (Elt F)) t57 t43
  let t59 : (⟨S16x2x2x2, .f32⟩ : BufTy).Contents (Elt F) := ((addf : (⟨S16x2x2x2, .f32⟩ : BufTy).Contents (Elt F) → (⟨S16x2x2x2, .f32⟩ : BufTy).Contents (Elt F) → (⟨S16x2x2x2, .f32⟩ : BufTy).Contents (Elt F)) : (⟨S16x2x2x2, .f32⟩ : BufTy).Contents (Elt F) → (⟨S16x2x2x2, .f32⟩ : BufTy).Contents (Elt F) → (⟨S16x2x2x2, .f32⟩ : BufTy).Contents (Elt F)) t56 t58
  let t60 : (⟨S16x2x1x2x2, .f32⟩ : BufTy).Contents (Elt F) := ((broadcastInDim S16x2x1x2x2 ![0, 1, 3, 4] bcast_S16x2x2x2_S16x2x1x2x2_0_1_3_4 : (⟨S16x2x2x2, .f32⟩ : BufTy).Contents (Elt F) → (⟨S16x2x1x2x2, .f32⟩ : BufTy).Contents (Elt F)) : (⟨S16x2x2x2, .f32⟩ : BufTy).Contents (Elt F) → (⟨S16x2x1x2x2, .f32⟩ : BufTy).Contents (Elt F)) t54
  let t61 : (⟨S16x2x1x2x2, .f32⟩ : BufTy).Contents (Elt F) := ((broadcastInDim S16x2x1x2x2 ![0, 1, 3, 4] bcast_S16x2x2x2_S16x2x1x2x2_0_1_3_4 : (⟨S16x2x2x2, .f32⟩ : BufTy).Contents (Elt F) → (⟨S16x2x1x2x2, .f32⟩ : BufTy).Contents (Elt F)) : (⟨S16x2x2x2, .f32⟩ : BufTy).Contents (Elt F) → (⟨S16x2x1x2x2, .f32⟩ : BufTy).Contents (Elt F)) t59
  let t62 : (⟨S16x2x2x2x2, .f32⟩ : BufTy).Contents (Elt F) := (((fun a b => concatenate S16x2x2x2x2 2 [⟨S16x2x1x2x2, a⟩, ⟨S16x2x1x2x2, b⟩] concatenates_S16x2x1x2x2_S16x2x1x2x2_S16x2x2x2x2_d2) : (⟨S16x2x1x2x2, .f32⟩ : BufTy).Contents (Elt F) → (⟨S16x2x1x2x2, .f32⟩ : BufTy).Contents (Elt F) → (⟨S16x2x2x2x2, .f32⟩ : BufTy).Contents (Elt F)) : (⟨S16x2x1x2x2, .f32⟩ : BufTy).Contents (Elt F) → (⟨S16x2x1x2x2, .f32⟩ : BufTy).Contents (Elt F) → (⟨S16x2x2x2x2, .f32⟩ : BufTy).Contents (Elt F)) t60 t61
  t62

/-- The rotation of the third qubit by the fixed angle (entry 2 of the parameters) on the sixteen basis vectors at once: the two halves of the array along that qubit's axis (each an index wrapped into range, a gather, and a select filling with NaN where the index was out of range), the scalar cosine and sine of half the angle broadcast over the array, the two combinations, and their concatenation back along the axis. `x0` is the array of states, `x1` the four parameters. -/
def kRyP2 (x0 : (⟨S16x2x2x2x2, .f32⟩ : BufTy).Contents (Elt F)) (x1 : (⟨S4, .f32⟩ : BufTy).Contents (Elt F)) : (⟨S16x2x2x2x2, .f32⟩ : BufTy).Contents (Elt F) :=
  let t0 : (⟨S1, .f32⟩ : BufTy).Contents (Elt F) := (((extractStridedSlice S1 ![2] · slices_S4_S1_2) : (⟨S4, .f32⟩ : BufTy).Contents (Elt F) → (⟨S1, .f32⟩ : BufTy).Contents (Elt F)) : (⟨S4, .f32⟩ : BufTy).Contents (Elt F) → (⟨S1, .f32⟩ : BufTy).Contents (Elt F)) x1
  let t1 : (⟨S_, .f32⟩ : BufTy).Contents (Elt F) := shapeCast S_ t0 shapeCasts_S1_S_
  let t2 : (⟨S_, .i32⟩ : BufTy).Contents (Elt F) := (constantI S_ 32 0#32)
  let t3 : (⟨S_, .i32⟩ : BufTy).Contents (Elt F) := (constantI S_ 32 0#32)
  let t4 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t2 t3
  let t5 : (⟨S_, .i32⟩ : BufTy).Contents (Elt F) := (constantI S_ 32 2#32)
  let t6 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t2 t5
  let t7 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t4 t6 t2
  let t8 : (⟨S1, .i32⟩ : BufTy).Contents (Elt F) := ((broadcastInDim S1 ![] bcast_S_S1) : (⟨S_, .i32⟩ : BufTy).Contents (Elt F) → (⟨S1, .i32⟩ : BufTy).Contents (Elt F)) t7
  let t9 : (⟨S1, .i32⟩ : BufTy).Contents (Elt F) := (constantI S1 32 1#32)
  let t10 : (⟨S1, .i32⟩ : BufTy).Contents (Elt F) := (id : (⟨S1, .i32⟩ : BufTy).Contents (Elt F) → (⟨S1, .i32⟩ : BufTy).Contents (Elt F)) t8
  let t11 : (⟨S_, .i32⟩ : BufTy).Contents (Elt F) := (constantI S_ 32 0#32)
  let t12 : (⟨S1, .i32⟩ : BufTy).Contents (Elt F) := ((broadcastInDim S1 ![] bcast_S_S1) : (⟨S_, .i32⟩ : BufTy).Contents (Elt F) → (⟨S1, .i32⟩ : BufTy).Contents (Elt F)) t11
  let t13 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t10 t12
  let t14 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t10 t9
  let t15 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t13 t14
  let t16 : (⟨S_, .i1⟩ : BufTy).Contents (Elt F) := (constantI S_ 1 1#1)
  let t17 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t15 t16
  let t18 : (⟨S16x2x2x2, .f32⟩ : BufTy).Contents (Elt F) := ((fun x i => Host.gather gather_S16x2x2x2x2_S1_S16x2x2x2_0123_3_n_n_3_0_162212 x i) : (⟨S16x2x2x2x2, .f32⟩ : BufTy).Contents (Elt F) → (⟨S1, .i32⟩ : BufTy).Contents (Elt F) → (⟨S16x2x2x2, .f32⟩ : BufTy).Contents (Elt F)) x0 t10
  let t19 : (⟨S16x2x2x2, .i1⟩ : BufTy).Contents (Elt F) := ((broadcastInDim S16x2x2x2 ![] bcast_S_S16x2x2x2) : (⟨S_, .i1⟩ : BufTy).Contents (Elt F) → (⟨S16x2x2x2, .i1⟩ : BufTy).Contents (Elt F)) t17
  let t20 : (⟨S_, .f32⟩ : BufTy).Contents (Elt F) := (constant S_ .f32 0x7FC00000#32)
  let t21 : (⟨S16x2x2x2, .f32⟩ : BufTy).Contents (Elt F) := ((broadcastInDim S16x2x2x2 ![] bcast_S_S16x2x2x2) : (⟨S_, .f32⟩ : BufTy).Contents (Elt F) → (⟨S16x2x2x2, .f32⟩ : BufTy).Contents (Elt F)) t20
  let t22 : (⟨S16x2x2x2, .f32⟩ : BufTy).Contents (Elt F) := (select : (⟨S16x2x2x2, .i1⟩ : BufTy).Contents (Elt F) → (⟨S16x2x2x2, .f32⟩ : BufTy).Contents (Elt F) → (⟨S16x2x2x2, .f32⟩ : BufTy).Contents (Elt F) → (⟨S16x2x2x2, .f32⟩ : BufTy).Contents (Elt F)) t19 t18 t21
  let t23 : (⟨S_, .i32⟩ : BufTy).Contents (Elt F) := (constantI S_ 32 1#32)
  let t24 : (⟨S_, .i32⟩ : BufTy).Contents (Elt F) := (constantI S_ 32 0#32)
  let t25 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t23 t24
  let t26 : (⟨S_, .i32⟩ : BufTy).Contents (Elt F) := (constantI S_ 32 2#32)
  let t27 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t23 t26
  let t28 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t25 t27 t23
  let t29 : (⟨S1, .i32⟩ : BufTy).Contents (Elt F) := ((broadcastInDim S1 ![] bcast_S_S1) : (⟨S_, .i32⟩ : BufTy).Contents (Elt F) → (⟨S1, .i32⟩ : BufTy).Contents (Elt F)) t28
  let t30 : (⟨S1, .i32⟩ : BufTy).Contents (Elt F) := (constantI S1 32 1#32)
  let t31 : (⟨S1, .i32⟩ : BufTy).Contents (Elt F) := (id : (⟨S1, .i32⟩ : BufTy).Contents (Elt F) → (⟨S1, .i32⟩ : BufTy).Contents (Elt F)) t29
  let t32 : (⟨S_, .i32⟩ : BufTy).Contents (Elt F) := (constantI S_ 32 0#32)
  let t33 : (⟨S1, .i32⟩ : BufTy).Contents (Elt F) := ((broadcastInDim S1 ![] bcast_S_S1) : (⟨S_, .i32⟩ : BufTy).Contents (Elt F) → (⟨S1, .i32⟩ : BufTy).Contents (Elt F)) t32
  let t34 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t31 t33
  let t35 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t31 t30
  let t36 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t34 t35
  let t37 : (⟨S_, .i1⟩ : BufTy).Contents (Elt F) := (constantI S_ 1 1#1)
  let t38 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t36 t37
  let t39 : (⟨S16x2x2x2, .f32⟩ : BufTy).Contents (Elt F) := ((fun x i => Host.gather gather_S16x2x2x2x2_S1_S16x2x2x2_0123_3_n_n_3_0_162212 x i) : (⟨S16x2x2x2x2, .f32⟩ : BufTy).Contents (Elt F) → (⟨S1, .i32⟩ : BufTy).Contents (Elt F) → (⟨S16x2x2x2, .f32⟩ : BufTy).Contents (Elt F)) x0 t31
  let t40 : (⟨S16x2x2x2, .i1⟩ : BufTy).Contents (Elt F) := ((broadcastInDim S16x2x2x2 ![] bcast_S_S16x2x2x2) : (⟨S_, .i1⟩ : BufTy).Contents (Elt F) → (⟨S16x2x2x2, .i1⟩ : BufTy).Contents (Elt F)) t38
  let t41 : (⟨S_, .f32⟩ : BufTy).Contents (Elt F) := (constant S_ .f32 0x7FC00000#32)
  let t42 : (⟨S16x2x2x2, .f32⟩ : BufTy).Contents (Elt F) := ((broadcastInDim S16x2x2x2 ![] bcast_S_S16x2x2x2) : (⟨S_, .f32⟩ : BufTy).Contents (Elt F) → (⟨S16x2x2x2, .f32⟩ : BufTy).Contents (Elt F)) t41
  let t43 : (⟨S16x2x2x2, .f32⟩ : BufTy).Contents (Elt F) := (select : (⟨S16x2x2x2, .i1⟩ : BufTy).Contents (Elt F) → (⟨S16x2x2x2, .f32⟩ : BufTy).Contents (Elt F) → (⟨S16x2x2x2, .f32⟩ : BufTy).Contents (Elt F) → (⟨S16x2x2x2, .f32⟩ : BufTy).Contents (Elt F)) t40 t39 t42
  let t44 : (⟨S_, .f32⟩ : BufTy).Contents (Elt F) := (constant S_ .f32 0x3F000000#32)
  let t45 : (⟨S_, .f32⟩ : BufTy).Contents (Elt F) := ((mulf : (⟨S_, .f32⟩ : BufTy).Contents (Elt F) → (⟨S_, .f32⟩ : BufTy).Contents (Elt F) → (⟨S_, .f32⟩ : BufTy).Contents (Elt F)) : (⟨S_, .f32⟩ : BufTy).Contents (Elt F) → (⟨S_, .f32⟩ : BufTy).Contents (Elt F) → (⟨S_, .f32⟩ : BufTy).Contents (Elt F)) t1 t44
  let t46 : (⟨S_, .f32⟩ : BufTy).Contents (Elt F) := ((Host.cos : (⟨S_, .f32⟩ : BufTy).Contents (Elt F) → (⟨S_, .f32⟩ : BufTy).Contents (Elt F)) : (⟨S_, .f32⟩ : BufTy).Contents (Elt F) → (⟨S_, .f32⟩ : BufTy).Contents (Elt F)) t45
  let t47 : (⟨S_, .f32⟩ : BufTy).Contents (Elt F) := (constant S_ .f32 0x3F000000#32)
  let t48 : (⟨S_, .f32⟩ : BufTy).Contents (Elt F) := ((mulf : (⟨S_, .f32⟩ : BufTy).Contents (Elt F) → (⟨S_, .f32⟩ : BufTy).Contents (Elt F) → (⟨S_, .f32⟩ : BufTy).Contents (Elt F)) : (⟨S_, .f32⟩ : BufTy).Contents (Elt F) → (⟨S_, .f32⟩ : BufTy).Contents (Elt F) → (⟨S_, .f32⟩ : BufTy).Contents (Elt F)) t1 t47
  let t49 : (⟨S_, .f32⟩ : BufTy).Contents (Elt F) := ((Host.sin : (⟨S_, .f32⟩ : BufTy).Contents (Elt F) → (⟨S_, .f32⟩ : BufTy).Contents (Elt F)) : (⟨S_, .f32⟩ : BufTy).Contents (Elt F) → (⟨S_, .f32⟩ : BufTy).Contents (Elt F)) t48
  let t50 : (⟨S16x2x2x2, .f32⟩ : BufTy).Contents (Elt F) := ((broadcastInDim S16x2x2x2 ![] bcast_S_S16x2x2x2 : (⟨S_, .f32⟩ : BufTy).Contents (Elt F) → (⟨S16x2x2x2, .f32⟩ : BufTy).Contents (Elt F)) : (⟨S_, .f32⟩ : BufTy).Contents (Elt F) → (⟨S16x2x2x2, .f32⟩ : BufTy).Contents (Elt F)) t46
  let t51 : (⟨S16x2x2x2, .f32⟩ : BufTy).Contents (Elt F) := ((mulf : (⟨S16x2x2x2, .f32⟩ : BufTy).Contents (Elt F) → (⟨S16x2x2x2, .f32⟩ : BufTy).Contents (Elt F) → (⟨S16x2x2x2, .f32⟩ : BufTy).Contents (Elt F)) : (⟨S16x2x2x2, .f32⟩ : BufTy).Contents (Elt F) → (⟨S16x2x2x2, .f32⟩ : BufTy).Contents (Elt F) → (⟨S16x2x2x2, .f32⟩ : BufTy).Contents (Elt F)) t50 t22
  let t52 : (⟨S16x2x2x2, .f32⟩ : BufTy).Contents (Elt F) := ((broadcastInDim S16x2x2x2 ![] bcast_S_S16x2x2x2 : (⟨S_, .f32⟩ : BufTy).Contents (Elt F) → (⟨S16x2x2x2, .f32⟩ : BufTy).Contents (Elt F)) : (⟨S_, .f32⟩ : BufTy).Contents (Elt F) → (⟨S16x2x2x2, .f32⟩ : BufTy).Contents (Elt F)) t49
  let t53 : (⟨S16x2x2x2, .f32⟩ : BufTy).Contents (Elt F) := ((mulf : (⟨S16x2x2x2, .f32⟩ : BufTy).Contents (Elt F) → (⟨S16x2x2x2, .f32⟩ : BufTy).Contents (Elt F) → (⟨S16x2x2x2, .f32⟩ : BufTy).Contents (Elt F)) : (⟨S16x2x2x2, .f32⟩ : BufTy).Contents (Elt F) → (⟨S16x2x2x2, .f32⟩ : BufTy).Contents (Elt F) → (⟨S16x2x2x2, .f32⟩ : BufTy).Contents (Elt F)) t52 t43
  let t54 : (⟨S16x2x2x2, .f32⟩ : BufTy).Contents (Elt F) := ((subf : (⟨S16x2x2x2, .f32⟩ : BufTy).Contents (Elt F) → (⟨S16x2x2x2, .f32⟩ : BufTy).Contents (Elt F) → (⟨S16x2x2x2, .f32⟩ : BufTy).Contents (Elt F)) : (⟨S16x2x2x2, .f32⟩ : BufTy).Contents (Elt F) → (⟨S16x2x2x2, .f32⟩ : BufTy).Contents (Elt F) → (⟨S16x2x2x2, .f32⟩ : BufTy).Contents (Elt F)) t51 t53
  let t55 : (⟨S16x2x2x2, .f32⟩ : BufTy).Contents (Elt F) := ((broadcastInDim S16x2x2x2 ![] bcast_S_S16x2x2x2 : (⟨S_, .f32⟩ : BufTy).Contents (Elt F) → (⟨S16x2x2x2, .f32⟩ : BufTy).Contents (Elt F)) : (⟨S_, .f32⟩ : BufTy).Contents (Elt F) → (⟨S16x2x2x2, .f32⟩ : BufTy).Contents (Elt F)) t49
  let t56 : (⟨S16x2x2x2, .f32⟩ : BufTy).Contents (Elt F) := ((mulf : (⟨S16x2x2x2, .f32⟩ : BufTy).Contents (Elt F) → (⟨S16x2x2x2, .f32⟩ : BufTy).Contents (Elt F) → (⟨S16x2x2x2, .f32⟩ : BufTy).Contents (Elt F)) : (⟨S16x2x2x2, .f32⟩ : BufTy).Contents (Elt F) → (⟨S16x2x2x2, .f32⟩ : BufTy).Contents (Elt F) → (⟨S16x2x2x2, .f32⟩ : BufTy).Contents (Elt F)) t55 t22
  let t57 : (⟨S16x2x2x2, .f32⟩ : BufTy).Contents (Elt F) := ((broadcastInDim S16x2x2x2 ![] bcast_S_S16x2x2x2 : (⟨S_, .f32⟩ : BufTy).Contents (Elt F) → (⟨S16x2x2x2, .f32⟩ : BufTy).Contents (Elt F)) : (⟨S_, .f32⟩ : BufTy).Contents (Elt F) → (⟨S16x2x2x2, .f32⟩ : BufTy).Contents (Elt F)) t46
  let t58 : (⟨S16x2x2x2, .f32⟩ : BufTy).Contents (Elt F) := ((mulf : (⟨S16x2x2x2, .f32⟩ : BufTy).Contents (Elt F) → (⟨S16x2x2x2, .f32⟩ : BufTy).Contents (Elt F) → (⟨S16x2x2x2, .f32⟩ : BufTy).Contents (Elt F)) : (⟨S16x2x2x2, .f32⟩ : BufTy).Contents (Elt F) → (⟨S16x2x2x2, .f32⟩ : BufTy).Contents (Elt F) → (⟨S16x2x2x2, .f32⟩ : BufTy).Contents (Elt F)) t57 t43
  let t59 : (⟨S16x2x2x2, .f32⟩ : BufTy).Contents (Elt F) := ((addf : (⟨S16x2x2x2, .f32⟩ : BufTy).Contents (Elt F) → (⟨S16x2x2x2, .f32⟩ : BufTy).Contents (Elt F) → (⟨S16x2x2x2, .f32⟩ : BufTy).Contents (Elt F)) : (⟨S16x2x2x2, .f32⟩ : BufTy).Contents (Elt F) → (⟨S16x2x2x2, .f32⟩ : BufTy).Contents (Elt F) → (⟨S16x2x2x2, .f32⟩ : BufTy).Contents (Elt F)) t56 t58
  let t60 : (⟨S16x2x2x1x2, .f32⟩ : BufTy).Contents (Elt F) := ((broadcastInDim S16x2x2x1x2 ![0, 1, 2, 4] bcast_S16x2x2x2_S16x2x2x1x2_0_1_2_4 : (⟨S16x2x2x2, .f32⟩ : BufTy).Contents (Elt F) → (⟨S16x2x2x1x2, .f32⟩ : BufTy).Contents (Elt F)) : (⟨S16x2x2x2, .f32⟩ : BufTy).Contents (Elt F) → (⟨S16x2x2x1x2, .f32⟩ : BufTy).Contents (Elt F)) t54
  let t61 : (⟨S16x2x2x1x2, .f32⟩ : BufTy).Contents (Elt F) := ((broadcastInDim S16x2x2x1x2 ![0, 1, 2, 4] bcast_S16x2x2x2_S16x2x2x1x2_0_1_2_4 : (⟨S16x2x2x2, .f32⟩ : BufTy).Contents (Elt F) → (⟨S16x2x2x1x2, .f32⟩ : BufTy).Contents (Elt F)) : (⟨S16x2x2x2, .f32⟩ : BufTy).Contents (Elt F) → (⟨S16x2x2x1x2, .f32⟩ : BufTy).Contents (Elt F)) t59
  let t62 : (⟨S16x2x2x2x2, .f32⟩ : BufTy).Contents (Elt F) := (((fun a b => concatenate S16x2x2x2x2 3 [⟨S16x2x2x1x2, a⟩, ⟨S16x2x2x1x2, b⟩] concatenates_S16x2x2x1x2_S16x2x2x1x2_S16x2x2x2x2_d3) : (⟨S16x2x2x1x2, .f32⟩ : BufTy).Contents (Elt F) → (⟨S16x2x2x1x2, .f32⟩ : BufTy).Contents (Elt F) → (⟨S16x2x2x2x2, .f32⟩ : BufTy).Contents (Elt F)) : (⟨S16x2x2x1x2, .f32⟩ : BufTy).Contents (Elt F) → (⟨S16x2x2x1x2, .f32⟩ : BufTy).Contents (Elt F) → (⟨S16x2x2x2x2, .f32⟩ : BufTy).Contents (Elt F)) t60 t61
  t62

/-- The rotation of the fourth qubit by the fixed angle (entry 3 of the parameters) on the sixteen basis vectors at once: the two halves of the array along that qubit's axis (each an index wrapped into range, a gather, and a select filling with NaN where the index was out of range), the scalar cosine and sine of half the angle broadcast over the array, the two combinations, and their concatenation back along the axis. `x0` is the array of states, `x1` the four parameters. -/
def kRyP3 (x0 : (⟨S16x2x2x2x2, .f32⟩ : BufTy).Contents (Elt F)) (x1 : (⟨S4, .f32⟩ : BufTy).Contents (Elt F)) : (⟨S16x2x2x2x2, .f32⟩ : BufTy).Contents (Elt F) :=
  let t0 : (⟨S1, .f32⟩ : BufTy).Contents (Elt F) := (((extractStridedSlice S1 ![3] · slices_S4_S1_3) : (⟨S4, .f32⟩ : BufTy).Contents (Elt F) → (⟨S1, .f32⟩ : BufTy).Contents (Elt F)) : (⟨S4, .f32⟩ : BufTy).Contents (Elt F) → (⟨S1, .f32⟩ : BufTy).Contents (Elt F)) x1
  let t1 : (⟨S_, .f32⟩ : BufTy).Contents (Elt F) := shapeCast S_ t0 shapeCasts_S1_S_
  let t2 : (⟨S_, .i32⟩ : BufTy).Contents (Elt F) := (constantI S_ 32 0#32)
  let t3 : (⟨S_, .i32⟩ : BufTy).Contents (Elt F) := (constantI S_ 32 0#32)
  let t4 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t2 t3
  let t5 : (⟨S_, .i32⟩ : BufTy).Contents (Elt F) := (constantI S_ 32 2#32)
  let t6 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t2 t5
  let t7 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t4 t6 t2
  let t8 : (⟨S1, .i32⟩ : BufTy).Contents (Elt F) := ((broadcastInDim S1 ![] bcast_S_S1) : (⟨S_, .i32⟩ : BufTy).Contents (Elt F) → (⟨S1, .i32⟩ : BufTy).Contents (Elt F)) t7
  let t9 : (⟨S1, .i32⟩ : BufTy).Contents (Elt F) := (constantI S1 32 1#32)
  let t10 : (⟨S1, .i32⟩ : BufTy).Contents (Elt F) := (id : (⟨S1, .i32⟩ : BufTy).Contents (Elt F) → (⟨S1, .i32⟩ : BufTy).Contents (Elt F)) t8
  let t11 : (⟨S_, .i32⟩ : BufTy).Contents (Elt F) := (constantI S_ 32 0#32)
  let t12 : (⟨S1, .i32⟩ : BufTy).Contents (Elt F) := ((broadcastInDim S1 ![] bcast_S_S1) : (⟨S_, .i32⟩ : BufTy).Contents (Elt F) → (⟨S1, .i32⟩ : BufTy).Contents (Elt F)) t11
  let t13 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t10 t12
  let t14 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t10 t9
  let t15 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t13 t14
  let t16 : (⟨S_, .i1⟩ : BufTy).Contents (Elt F) := (constantI S_ 1 1#1)
  let t17 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t15 t16
  let t18 : (⟨S16x2x2x2, .f32⟩ : BufTy).Contents (Elt F) := ((fun x i => Host.gather gather_S16x2x2x2x2_S1_S16x2x2x2_0123_4_n_n_4_0_162221 x i) : (⟨S16x2x2x2x2, .f32⟩ : BufTy).Contents (Elt F) → (⟨S1, .i32⟩ : BufTy).Contents (Elt F) → (⟨S16x2x2x2, .f32⟩ : BufTy).Contents (Elt F)) x0 t10
  let t19 : (⟨S16x2x2x2, .i1⟩ : BufTy).Contents (Elt F) := ((broadcastInDim S16x2x2x2 ![] bcast_S_S16x2x2x2) : (⟨S_, .i1⟩ : BufTy).Contents (Elt F) → (⟨S16x2x2x2, .i1⟩ : BufTy).Contents (Elt F)) t17
  let t20 : (⟨S_, .f32⟩ : BufTy).Contents (Elt F) := (constant S_ .f32 0x7FC00000#32)
  let t21 : (⟨S16x2x2x2, .f32⟩ : BufTy).Contents (Elt F) := ((broadcastInDim S16x2x2x2 ![] bcast_S_S16x2x2x2) : (⟨S_, .f32⟩ : BufTy).Contents (Elt F) → (⟨S16x2x2x2, .f32⟩ : BufTy).Contents (Elt F)) t20
  let t22 : (⟨S16x2x2x2, .f32⟩ : BufTy).Contents (Elt F) := (select : (⟨S16x2x2x2, .i1⟩ : BufTy).Contents (Elt F) → (⟨S16x2x2x2, .f32⟩ : BufTy).Contents (Elt F) → (⟨S16x2x2x2, .f32⟩ : BufTy).Contents (Elt F) → (⟨S16x2x2x2, .f32⟩ : BufTy).Contents (Elt F)) t19 t18 t21
  let t23 : (⟨S_, .i32⟩ : BufTy).Contents (Elt F) := (constantI S_ 32 1#32)
  let t24 : (⟨S_, .i32⟩ : BufTy).Contents (Elt F) := (constantI S_ 32 0#32)
  let t25 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t23 t24
  let t26 : (⟨S_, .i32⟩ : BufTy).Contents (Elt F) := (constantI S_ 32 2#32)
  let t27 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t23 t26
  let t28 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t25 t27 t23
  let t29 : (⟨S1, .i32⟩ : BufTy).Contents (Elt F) := ((broadcastInDim S1 ![] bcast_S_S1) : (⟨S_, .i32⟩ : BufTy).Contents (Elt F) → (⟨S1, .i32⟩ : BufTy).Contents (Elt F)) t28
  let t30 : (⟨S1, .i32⟩ : BufTy).Contents (Elt F) := (constantI S1 32 1#32)
  let t31 : (⟨S1, .i32⟩ : BufTy).Contents (Elt F) := (id : (⟨S1, .i32⟩ : BufTy).Contents (Elt F) → (⟨S1, .i32⟩ : BufTy).Contents (Elt F)) t29
  let t32 : (⟨S_, .i32⟩ : BufTy).Contents (Elt F) := (constantI S_ 32 0#32)
  let t33 : (⟨S1, .i32⟩ : BufTy).Contents (Elt F) := ((broadcastInDim S1 ![] bcast_S_S1) : (⟨S_, .i32⟩ : BufTy).Contents (Elt F) → (⟨S1, .i32⟩ : BufTy).Contents (Elt F)) t32
  let t34 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t31 t33
  let t35 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t31 t30
  let t36 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t34 t35
  let t37 : (⟨S_, .i1⟩ : BufTy).Contents (Elt F) := (constantI S_ 1 1#1)
  let t38 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t36 t37
  let t39 : (⟨S16x2x2x2, .f32⟩ : BufTy).Contents (Elt F) := ((fun x i => Host.gather gather_S16x2x2x2x2_S1_S16x2x2x2_0123_4_n_n_4_0_162221 x i) : (⟨S16x2x2x2x2, .f32⟩ : BufTy).Contents (Elt F) → (⟨S1, .i32⟩ : BufTy).Contents (Elt F) → (⟨S16x2x2x2, .f32⟩ : BufTy).Contents (Elt F)) x0 t31
  let t40 : (⟨S16x2x2x2, .i1⟩ : BufTy).Contents (Elt F) := ((broadcastInDim S16x2x2x2 ![] bcast_S_S16x2x2x2) : (⟨S_, .i1⟩ : BufTy).Contents (Elt F) → (⟨S16x2x2x2, .i1⟩ : BufTy).Contents (Elt F)) t38
  let t41 : (⟨S_, .f32⟩ : BufTy).Contents (Elt F) := (constant S_ .f32 0x7FC00000#32)
  let t42 : (⟨S16x2x2x2, .f32⟩ : BufTy).Contents (Elt F) := ((broadcastInDim S16x2x2x2 ![] bcast_S_S16x2x2x2) : (⟨S_, .f32⟩ : BufTy).Contents (Elt F) → (⟨S16x2x2x2, .f32⟩ : BufTy).Contents (Elt F)) t41
  let t43 : (⟨S16x2x2x2, .f32⟩ : BufTy).Contents (Elt F) := (select : (⟨S16x2x2x2, .i1⟩ : BufTy).Contents (Elt F) → (⟨S16x2x2x2, .f32⟩ : BufTy).Contents (Elt F) → (⟨S16x2x2x2, .f32⟩ : BufTy).Contents (Elt F) → (⟨S16x2x2x2, .f32⟩ : BufTy).Contents (Elt F)) t40 t39 t42
  let t44 : (⟨S_, .f32⟩ : BufTy).Contents (Elt F) := (constant S_ .f32 0x3F000000#32)
  let t45 : (⟨S_, .f32⟩ : BufTy).Contents (Elt F) := ((mulf : (⟨S_, .f32⟩ : BufTy).Contents (Elt F) → (⟨S_, .f32⟩ : BufTy).Contents (Elt F) → (⟨S_, .f32⟩ : BufTy).Contents (Elt F)) : (⟨S_, .f32⟩ : BufTy).Contents (Elt F) → (⟨S_, .f32⟩ : BufTy).Contents (Elt F) → (⟨S_, .f32⟩ : BufTy).Contents (Elt F)) t1 t44
  let t46 : (⟨S_, .f32⟩ : BufTy).Contents (Elt F) := ((Host.cos : (⟨S_, .f32⟩ : BufTy).Contents (Elt F) → (⟨S_, .f32⟩ : BufTy).Contents (Elt F)) : (⟨S_, .f32⟩ : BufTy).Contents (Elt F) → (⟨S_, .f32⟩ : BufTy).Contents (Elt F)) t45
  let t47 : (⟨S_, .f32⟩ : BufTy).Contents (Elt F) := (constant S_ .f32 0x3F000000#32)
  let t48 : (⟨S_, .f32⟩ : BufTy).Contents (Elt F) := ((mulf : (⟨S_, .f32⟩ : BufTy).Contents (Elt F) → (⟨S_, .f32⟩ : BufTy).Contents (Elt F) → (⟨S_, .f32⟩ : BufTy).Contents (Elt F)) : (⟨S_, .f32⟩ : BufTy).Contents (Elt F) → (⟨S_, .f32⟩ : BufTy).Contents (Elt F) → (⟨S_, .f32⟩ : BufTy).Contents (Elt F)) t1 t47
  let t49 : (⟨S_, .f32⟩ : BufTy).Contents (Elt F) := ((Host.sin : (⟨S_, .f32⟩ : BufTy).Contents (Elt F) → (⟨S_, .f32⟩ : BufTy).Contents (Elt F)) : (⟨S_, .f32⟩ : BufTy).Contents (Elt F) → (⟨S_, .f32⟩ : BufTy).Contents (Elt F)) t48
  let t50 : (⟨S16x2x2x2, .f32⟩ : BufTy).Contents (Elt F) := ((broadcastInDim S16x2x2x2 ![] bcast_S_S16x2x2x2 : (⟨S_, .f32⟩ : BufTy).Contents (Elt F) → (⟨S16x2x2x2, .f32⟩ : BufTy).Contents (Elt F)) : (⟨S_, .f32⟩ : BufTy).Contents (Elt F) → (⟨S16x2x2x2, .f32⟩ : BufTy).Contents (Elt F)) t46
  let t51 : (⟨S16x2x2x2, .f32⟩ : BufTy).Contents (Elt F) := ((mulf : (⟨S16x2x2x2, .f32⟩ : BufTy).Contents (Elt F) → (⟨S16x2x2x2, .f32⟩ : BufTy).Contents (Elt F) → (⟨S16x2x2x2, .f32⟩ : BufTy).Contents (Elt F)) : (⟨S16x2x2x2, .f32⟩ : BufTy).Contents (Elt F) → (⟨S16x2x2x2, .f32⟩ : BufTy).Contents (Elt F) → (⟨S16x2x2x2, .f32⟩ : BufTy).Contents (Elt F)) t50 t22
  let t52 : (⟨S16x2x2x2, .f32⟩ : BufTy).Contents (Elt F) := ((broadcastInDim S16x2x2x2 ![] bcast_S_S16x2x2x2 : (⟨S_, .f32⟩ : BufTy).Contents (Elt F) → (⟨S16x2x2x2, .f32⟩ : BufTy).Contents (Elt F)) : (⟨S_, .f32⟩ : BufTy).Contents (Elt F) → (⟨S16x2x2x2, .f32⟩ : BufTy).Contents (Elt F)) t49
  let t53 : (⟨S16x2x2x2, .f32⟩ : BufTy).Contents (Elt F) := ((mulf : (⟨S16x2x2x2, .f32⟩ : BufTy).Contents (Elt F) → (⟨S16x2x2x2, .f32⟩ : BufTy).Contents (Elt F) → (⟨S16x2x2x2, .f32⟩ : BufTy).Contents (Elt F)) : (⟨S16x2x2x2, .f32⟩ : BufTy).Contents (Elt F) → (⟨S16x2x2x2, .f32⟩ : BufTy).Contents (Elt F) → (⟨S16x2x2x2, .f32⟩ : BufTy).Contents (Elt F)) t52 t43
  let t54 : (⟨S16x2x2x2, .f32⟩ : BufTy).Contents (Elt F) := ((subf : (⟨S16x2x2x2, .f32⟩ : BufTy).Contents (Elt F) → (⟨S16x2x2x2, .f32⟩ : BufTy).Contents (Elt F) → (⟨S16x2x2x2, .f32⟩ : BufTy).Contents (Elt F)) : (⟨S16x2x2x2, .f32⟩ : BufTy).Contents (Elt F) → (⟨S16x2x2x2, .f32⟩ : BufTy).Contents (Elt F) → (⟨S16x2x2x2, .f32⟩ : BufTy).Contents (Elt F)) t51 t53
  let t55 : (⟨S16x2x2x2, .f32⟩ : BufTy).Contents (Elt F) := ((broadcastInDim S16x2x2x2 ![] bcast_S_S16x2x2x2 : (⟨S_, .f32⟩ : BufTy).Contents (Elt F) → (⟨S16x2x2x2, .f32⟩ : BufTy).Contents (Elt F)) : (⟨S_, .f32⟩ : BufTy).Contents (Elt F) → (⟨S16x2x2x2, .f32⟩ : BufTy).Contents (Elt F)) t49
  let t56 : (⟨S16x2x2x2, .f32⟩ : BufTy).Contents (Elt F) := ((mulf : (⟨S16x2x2x2, .f32⟩ : BufTy).Contents (Elt F) → (⟨S16x2x2x2, .f32⟩ : BufTy).Contents (Elt F) → (⟨S16x2x2x2, .f32⟩ : BufTy).Contents (Elt F)) : (⟨S16x2x2x2, .f32⟩ : BufTy).Contents (Elt F) → (⟨S16x2x2x2, .f32⟩ : BufTy).Contents (Elt F) → (⟨S16x2x2x2, .f32⟩ : BufTy).Contents (Elt F)) t55 t22
  let t57 : (⟨S16x2x2x2, .f32⟩ : BufTy).Contents (Elt F) := ((broadcastInDim S16x2x2x2 ![] bcast_S_S16x2x2x2 : (⟨S_, .f32⟩ : BufTy).Contents (Elt F) → (⟨S16x2x2x2, .f32⟩ : BufTy).Contents (Elt F)) : (⟨S_, .f32⟩ : BufTy).Contents (Elt F) → (⟨S16x2x2x2, .f32⟩ : BufTy).Contents (Elt F)) t46
  let t58 : (⟨S16x2x2x2, .f32⟩ : BufTy).Contents (Elt F) := ((mulf : (⟨S16x2x2x2, .f32⟩ : BufTy).Contents (Elt F) → (⟨S16x2x2x2, .f32⟩ : BufTy).Contents (Elt F) → (⟨S16x2x2x2, .f32⟩ : BufTy).Contents (Elt F)) : (⟨S16x2x2x2, .f32⟩ : BufTy).Contents (Elt F) → (⟨S16x2x2x2, .f32⟩ : BufTy).Contents (Elt F) → (⟨S16x2x2x2, .f32⟩ : BufTy).Contents (Elt F)) t57 t43
  let t59 : (⟨S16x2x2x2, .f32⟩ : BufTy).Contents (Elt F) := ((addf : (⟨S16x2x2x2, .f32⟩ : BufTy).Contents (Elt F) → (⟨S16x2x2x2, .f32⟩ : BufTy).Contents (Elt F) → (⟨S16x2x2x2, .f32⟩ : BufTy).Contents (Elt F)) : (⟨S16x2x2x2, .f32⟩ : BufTy).Contents (Elt F) → (⟨S16x2x2x2, .f32⟩ : BufTy).Contents (Elt F) → (⟨S16x2x2x2, .f32⟩ : BufTy).Contents (Elt F)) t56 t58
  let t60 : (⟨S16x2x2x2x1, .f32⟩ : BufTy).Contents (Elt F) := ((broadcastInDim S16x2x2x2x1 ![0, 1, 2, 3] bcast_S16x2x2x2_S16x2x2x2x1_0_1_2_3 : (⟨S16x2x2x2, .f32⟩ : BufTy).Contents (Elt F) → (⟨S16x2x2x2x1, .f32⟩ : BufTy).Contents (Elt F)) : (⟨S16x2x2x2, .f32⟩ : BufTy).Contents (Elt F) → (⟨S16x2x2x2x1, .f32⟩ : BufTy).Contents (Elt F)) t54
  let t61 : (⟨S16x2x2x2x1, .f32⟩ : BufTy).Contents (Elt F) := ((broadcastInDim S16x2x2x2x1 ![0, 1, 2, 3] bcast_S16x2x2x2_S16x2x2x2x1_0_1_2_3 : (⟨S16x2x2x2, .f32⟩ : BufTy).Contents (Elt F) → (⟨S16x2x2x2x1, .f32⟩ : BufTy).Contents (Elt F)) : (⟨S16x2x2x2, .f32⟩ : BufTy).Contents (Elt F) → (⟨S16x2x2x2x1, .f32⟩ : BufTy).Contents (Elt F)) t59
  let t62 : (⟨S16x2x2x2x2, .f32⟩ : BufTy).Contents (Elt F) := (((fun a b => concatenate S16x2x2x2x2 4 [⟨S16x2x2x2x1, a⟩, ⟨S16x2x2x2x1, b⟩] concatenates_S16x2x2x2x1_S16x2x2x2x1_S16x2x2x2x2_d4) : (⟨S16x2x2x2x1, .f32⟩ : BufTy).Contents (Elt F) → (⟨S16x2x2x2x1, .f32⟩ : BufTy).Contents (Elt F) → (⟨S16x2x2x2x2, .f32⟩ : BufTy).Contents (Elt F)) : (⟨S16x2x2x2x1, .f32⟩ : BufTy).Contents (Elt F) → (⟨S16x2x2x2x1, .f32⟩ : BufTy).Contents (Elt F) → (⟨S16x2x2x2x2, .f32⟩ : BufTy).Contents (Elt F)) t60 t61
  t62

/-- The controlled NOT with the first qubit as control and the next one (cyclically) as target, on the sixteen basis vectors at once: the two halves along the control's axis, the second reversed along the target's axis, concatenated back along the control's axis. -/
def kCx0 (x0 : (⟨S16x2x2x2x2, .f32⟩ : BufTy).Contents (Elt F)) : (⟨S16x2x2x2x2, .f32⟩ : BufTy).Contents (Elt F) :=
  let t0 : (⟨S_, .i32⟩ : BufTy).Contents (Elt F) := (constantI S_ 32 0#32)
  let t1 : (⟨S_, .i32⟩ : BufTy).Contents (Elt F) := (constantI S_ 32 0#32)
  let t2 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t0 t1
  let t3 : (⟨S_, .i32⟩ : BufTy).Contents (Elt F) := (constantI S_ 32 2#32)
  let t4 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t0 t3
  let t5 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t2 t4 t0
  let t6 : (⟨S1, .i32⟩ : BufTy).Contents (Elt F) := ((broadcastInDim S1 ![] bcast_S_S1) : (⟨S_, .i32⟩ : BufTy).Contents (Elt F) → (⟨S1, .i32⟩ : BufTy).Contents (Elt F)) t5
  let t7 : (⟨S1, .i32⟩ : BufTy).Contents (Elt F) := (constantI S1 32 1#32)
  let t8 : (⟨S1, .i32⟩ : BufTy).Contents (Elt F) := (id : (⟨S1, .i32⟩ : BufTy).Contents (Elt F) → (⟨S1, .i32⟩ : BufTy).Contents (Elt F)) t6
  let t9 : (⟨S_, .i32⟩ : BufTy).Contents (Elt F) := (constantI S_ 32 0#32)
  let t10 : (⟨S1, .i32⟩ : BufTy).Contents (Elt F) := ((broadcastInDim S1 ![] bcast_S_S1) : (⟨S_, .i32⟩ : BufTy).Contents (Elt F) → (⟨S1, .i32⟩ : BufTy).Contents (Elt F)) t9
  let t11 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t8 t10
  let t12 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t8 t7
  let t13 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t11 t12
  let t14 : (⟨S_, .i1⟩ : BufTy).Contents (Elt F) := (constantI S_ 1 1#1)
  let t15 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t13 t14
  let t16 : (⟨S16x2x2x2, .f32⟩ : BufTy).Contents (Elt F) := ((fun x i => Host.gather gather_S16x2x2x2x2_S1_S16x2x2x2_0123_1_n_n_1_0_161222 x i) : (⟨S16x2x2x2x2, .f32⟩ : BufTy).Contents (Elt F) → (⟨S1, .i32⟩ : BufTy).Contents (Elt F) → (⟨S16x2x2x2, .f32⟩ : BufTy).Contents (Elt F)) x0 t8
  let t17 : (⟨S16x2x2x2, .i1⟩ : BufTy).Contents (Elt F) := ((broadcastInDim S16x2x2x2 ![] bcast_S_S16x2x2x2) : (⟨S_, .i1⟩ : BufTy).Contents (Elt F) → (⟨S16x2x2x2, .i1⟩ : BufTy).Contents (Elt F)) t15
  let t18 : (⟨S_, .f32⟩ : BufTy).Contents (Elt F) := (constant S_ .f32 0x7FC00000#32)
  let t19 : (⟨S16x2x2x2, .f32⟩ : BufTy).Contents (Elt F) := ((broadcastInDim S16x2x2x2 ![] bcast_S_S16x2x2x2) : (⟨S_, .f32⟩ : BufTy).Contents (Elt F) → (⟨S16x2x2x2, .f32⟩ : BufTy).Contents (Elt F)) t18
  let t20 : (⟨S16x2x2x2, .f32⟩ : BufTy).Contents (Elt F) := (select : (⟨S16x2x2x2, .i1⟩ : BufTy).Contents (Elt F) → (⟨S16x2x2x2, .f32⟩ : BufTy).Contents (Elt F) → (⟨S16x2x2x2, .f32⟩ : BufTy).Contents (Elt F) → (⟨S16x2x2x2, .f32⟩ : BufTy).Contents (Elt F)) t17 t16 t19
  let t21 : (⟨S_, .i32⟩ : BufTy).Contents (Elt F) := (constantI S_ 32 1#32)
  let t22 : (⟨S_, .i32⟩ : BufTy).Contents (Elt F) := (constantI S_ 32 0#32)
  let t23 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t21 t22
  let t24 : (⟨S_, .i32⟩ : BufTy).Contents (Elt F) := (constantI S_ 32 2#32)
  let t25 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t21 t24
  let t26 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t23 t25 t21
  let t27 : (⟨S1, .i32⟩ : BufTy).Contents (Elt F) := ((broadcastInDim S1 ![] bcast_S_S1) : (⟨S_, .i32⟩ : BufTy).Contents (Elt F) → (⟨S1, .i32⟩ : BufTy).Contents (Elt F)) t26
  let t28 : (⟨S1, .i32⟩ : BufTy).Contents (Elt F) := (constantI S1 32 1#32)
  let t29 : (⟨S1, .i32⟩ : BufTy).Contents (Elt F) := (id : (⟨S1, .i32⟩ : BufTy).Contents (Elt F) → (⟨S1, .i32⟩ : BufTy).Contents (Elt F)) t27
  let t30 : (⟨S_, .i32⟩ : BufTy).Contents (Elt F) := (constantI S_ 32 0#32)
  let t31 : (⟨S1, .i32⟩ : BufTy).Contents (Elt F) := ((broadcastInDim S1 ![] bcast_S_S1) : (⟨S_, .i32⟩ : BufTy).Contents (Elt F) → (⟨S1, .i32⟩ : BufTy).Contents (Elt F)) t30
  let t32 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t29 t31
  let t33 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t29 t28
  let t34 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t32 t33
  let t35 : (⟨S_, .i1⟩ : BufTy).Contents (Elt F) := (constantI S_ 1 1#1)
  let t36 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t34 t35
  let t37 : (⟨S16x2x2x2, .f32⟩ : BufTy).Contents (Elt F) := ((fun x i => Host.gather gather_S16x2x2x2x2_S1_S16x2x2x2_0123_1_n_n_1_0_161222 x i) : (⟨S16x2x2x2x2, .f32⟩ : BufTy).Contents (Elt F) → (⟨S1, .i32⟩ : BufTy).Contents (Elt F) → (⟨S16x2x2x2, .f32⟩ : BufTy).Contents (Elt F)) x0 t29
  let t38 : (⟨S16x2x2x2, .i1⟩ : BufTy).Contents (Elt F) := ((broadcastInDim S16x2x2x2 ![] bcast_S_S16x2x2x2) : (⟨S_, .i1⟩ : BufTy).Contents (Elt F) → (⟨S16x2x2x2, .i1⟩ : BufTy).Contents (Elt F)) t36
  let t39 : (⟨S_, .f32⟩ : BufTy).Contents (Elt F) := (constant S_ .f32 0x7FC00000#32)
  let t40 : (⟨S16x2x2x2, .f32⟩ : BufTy).Contents (Elt F) := ((broadcastInDim S16x2x2x2 ![] bcast_S_S16x2x2x2) : (⟨S_, .f32⟩ : BufTy).Contents (Elt F) → (⟨S16x2x2x2, .f32⟩ : BufTy).Contents (Elt F)) t39
  let t41 : (⟨S16x2x2x2, .f32⟩ : BufTy).Contents (Elt F) := (select : (⟨S16x2x2x2, .i1⟩ : BufTy).Contents (Elt F) → (⟨S16x2x2x2, .f32⟩ : BufTy).Contents (Elt F) → (⟨S16x2x2x2, .f32⟩ : BufTy).Contents (Elt F) → (⟨S16x2x2x2, .f32⟩ : BufTy).Contents (Elt F)) t38 t37 t40
  let t42 : (⟨S16x2x2x2, .f32⟩ : BufTy).Contents (Elt F) := ((Host.reverse [1]) : (⟨S16x2x2x2, .f32⟩ : BufTy).Contents (Elt F) → (⟨S16x2x2x2, .f32⟩ : BufTy).Contents (Elt F)) t41
  let t43 : (⟨S16x1x2x2x2, .f32⟩ : BufTy).Contents (Elt F) := ((broadcastInDim S16x1x2x2x2 ![0, 2, 3, 4] bcast_S16x2x2x2_S16x1x2x2x2_0_2_3_4 : (⟨S16x2x2x2, .f32⟩ : BufTy).Contents (Elt F) → (⟨S16x1x2x2x2, .f32⟩ : BufTy).Contents (Elt F)) : (⟨S16x2x2x2, .f32⟩ : BufTy).Contents (Elt F) → (⟨S16x1x2x2x2, .f32⟩ : BufTy).Contents (Elt F)) t20
  let t44 : (⟨S16x1x2x2x2, .f32⟩ : BufTy).Contents (Elt F) := ((broadcastInDim S16x1x2x2x2 ![0, 2, 3, 4] bcast_S16x2x2x2_S16x1x2x2x2_0_2_3_4 : (⟨S16x2x2x2, .f32⟩ : BufTy).Contents (Elt F) → (⟨S16x1x2x2x2, .f32⟩ : BufTy).Contents (Elt F)) : (⟨S16x2x2x2, .f32⟩ : BufTy).Contents (Elt F) → (⟨S16x1x2x2x2, .f32⟩ : BufTy).Contents (Elt F)) t42
  let t45 : (⟨S16x2x2x2x2, .f32⟩ : BufTy).Contents (Elt F) := (((fun a b => concatenate S16x2x2x2x2 1 [⟨S16x1x2x2x2, a⟩, ⟨S16x1x2x2x2, b⟩] concatenates_S16x1x2x2x2_S16x1x2x2x2_S16x2x2x2x2_d1) : (⟨S16x1x2x2x2, .f32⟩ : BufTy).Contents (Elt F) → (⟨S16x1x2x2x2, .f32⟩ : BufTy).Contents (Elt F) → (⟨S16x2x2x2x2, .f32⟩ : BufTy).Contents (Elt F)) : (⟨S16x1x2x2x2, .f32⟩ : BufTy).Contents (Elt F) → (⟨S16x1x2x2x2, .f32⟩ : BufTy).Contents (Elt F) → (⟨S16x2x2x2x2, .f32⟩ : BufTy).Contents (Elt F)) t43 t44
  t45

/-- The controlled NOT with the second qubit as control and the next one (cyclically) as target, on the sixteen basis vectors at once: the two halves along the control's axis, the second reversed along the target's axis, concatenated back along the control's axis. -/
def kCx1 (x0 : (⟨S16x2x2x2x2, .f32⟩ : BufTy).Contents (Elt F)) : (⟨S16x2x2x2x2, .f32⟩ : BufTy).Contents (Elt F) :=
  let t0 : (⟨S_, .i32⟩ : BufTy).Contents (Elt F) := (constantI S_ 32 0#32)
  let t1 : (⟨S_, .i32⟩ : BufTy).Contents (Elt F) := (constantI S_ 32 0#32)
  let t2 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t0 t1
  let t3 : (⟨S_, .i32⟩ : BufTy).Contents (Elt F) := (constantI S_ 32 2#32)
  let t4 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t0 t3
  let t5 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t2 t4 t0
  let t6 : (⟨S1, .i32⟩ : BufTy).Contents (Elt F) := ((broadcastInDim S1 ![] bcast_S_S1) : (⟨S_, .i32⟩ : BufTy).Contents (Elt F) → (⟨S1, .i32⟩ : BufTy).Contents (Elt F)) t5
  let t7 : (⟨S1, .i32⟩ : BufTy).Contents (Elt F) := (constantI S1 32 1#32)
  let t8 : (⟨S1, .i32⟩ : BufTy).Contents (Elt F) := (id : (⟨S1, .i32⟩ : BufTy).Contents (Elt F) → (⟨S1, .i32⟩ : BufTy).Contents (Elt F)) t6
  let t9 : (⟨S_, .i32⟩ : BufTy).Contents (Elt F) := (constantI S_ 32 0#32)
  let t10 : (⟨S1, .i32⟩ : BufTy).Contents (Elt F) := ((broadcastInDim S1 ![] bcast_S_S1) : (⟨S_, .i32⟩ : BufTy).Contents (Elt F) → (⟨S1, .i32⟩ : BufTy).Contents (Elt F)) t9
  let t11 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t8 t10
  let t12 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t8 t7
  let t13 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t11 t12
  let t14 : (⟨S_, .i1⟩ : BufTy).Contents (Elt F) := (constantI S_ 1 1#1)
  let t15 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t13 t14
  let t16 : (⟨S16x2x2x2, .f32⟩ : BufTy).Contents (Elt F) := ((fun x i => Host.gather gather_S16x2x2x2x2_S1_S16x2x2x2_0123_2_n_n_2_0_162122 x i) : (⟨S16x2x2x2x2, .f32⟩ : BufTy).Contents (Elt F) → (⟨S1, .i32⟩ : BufTy).Contents (Elt F) → (⟨S16x2x2x2, .f32⟩ : BufTy).Contents (Elt F)) x0 t8
  let t17 : (⟨S16x2x2x2, .i1⟩ : BufTy).Contents (Elt F) := ((broadcastInDim S16x2x2x2 ![] bcast_S_S16x2x2x2) : (⟨S_, .i1⟩ : BufTy).Contents (Elt F) → (⟨S16x2x2x2, .i1⟩ : BufTy).Contents (Elt F)) t15
  let t18 : (⟨S_, .f32⟩ : BufTy).Contents (Elt F) := (constant S_ .f32 0x7FC00000#32)
  let t19 : (⟨S16x2x2x2, .f32⟩ : BufTy).Contents (Elt F) := ((broadcastInDim S16x2x2x2 ![] bcast_S_S16x2x2x2) : (⟨S_, .f32⟩ : BufTy).Contents (Elt F) → (⟨S16x2x2x2, .f32⟩ : BufTy).Contents (Elt F)) t18
  let t20 : (⟨S16x2x2x2, .f32⟩ : BufTy).Contents (Elt F) := (select : (⟨S16x2x2x2, .i1⟩ : BufTy).Contents (Elt F) → (⟨S16x2x2x2, .f32⟩ : BufTy).Contents (Elt F) → (⟨S16x2x2x2, .f32⟩ : BufTy).Contents (Elt F) → (⟨S16x2x2x2, .f32⟩ : BufTy).Contents (Elt F)) t17 t16 t19
  let t21 : (⟨S_, .i32⟩ : BufTy).Contents (Elt F) := (constantI S_ 32 1#32)
  let t22 : (⟨S_, .i32⟩ : BufTy).Contents (Elt F) := (constantI S_ 32 0#32)
  let t23 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t21 t22
  let t24 : (⟨S_, .i32⟩ : BufTy).Contents (Elt F) := (constantI S_ 32 2#32)
  let t25 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t21 t24
  let t26 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t23 t25 t21
  let t27 : (⟨S1, .i32⟩ : BufTy).Contents (Elt F) := ((broadcastInDim S1 ![] bcast_S_S1) : (⟨S_, .i32⟩ : BufTy).Contents (Elt F) → (⟨S1, .i32⟩ : BufTy).Contents (Elt F)) t26
  let t28 : (⟨S1, .i32⟩ : BufTy).Contents (Elt F) := (constantI S1 32 1#32)
  let t29 : (⟨S1, .i32⟩ : BufTy).Contents (Elt F) := (id : (⟨S1, .i32⟩ : BufTy).Contents (Elt F) → (⟨S1, .i32⟩ : BufTy).Contents (Elt F)) t27
  let t30 : (⟨S_, .i32⟩ : BufTy).Contents (Elt F) := (constantI S_ 32 0#32)
  let t31 : (⟨S1, .i32⟩ : BufTy).Contents (Elt F) := ((broadcastInDim S1 ![] bcast_S_S1) : (⟨S_, .i32⟩ : BufTy).Contents (Elt F) → (⟨S1, .i32⟩ : BufTy).Contents (Elt F)) t30
  let t32 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t29 t31
  let t33 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t29 t28
  let t34 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t32 t33
  let t35 : (⟨S_, .i1⟩ : BufTy).Contents (Elt F) := (constantI S_ 1 1#1)
  let t36 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t34 t35
  let t37 : (⟨S16x2x2x2, .f32⟩ : BufTy).Contents (Elt F) := ((fun x i => Host.gather gather_S16x2x2x2x2_S1_S16x2x2x2_0123_2_n_n_2_0_162122 x i) : (⟨S16x2x2x2x2, .f32⟩ : BufTy).Contents (Elt F) → (⟨S1, .i32⟩ : BufTy).Contents (Elt F) → (⟨S16x2x2x2, .f32⟩ : BufTy).Contents (Elt F)) x0 t29
  let t38 : (⟨S16x2x2x2, .i1⟩ : BufTy).Contents (Elt F) := ((broadcastInDim S16x2x2x2 ![] bcast_S_S16x2x2x2) : (⟨S_, .i1⟩ : BufTy).Contents (Elt F) → (⟨S16x2x2x2, .i1⟩ : BufTy).Contents (Elt F)) t36
  let t39 : (⟨S_, .f32⟩ : BufTy).Contents (Elt F) := (constant S_ .f32 0x7FC00000#32)
  let t40 : (⟨S16x2x2x2, .f32⟩ : BufTy).Contents (Elt F) := ((broadcastInDim S16x2x2x2 ![] bcast_S_S16x2x2x2) : (⟨S_, .f32⟩ : BufTy).Contents (Elt F) → (⟨S16x2x2x2, .f32⟩ : BufTy).Contents (Elt F)) t39
  let t41 : (⟨S16x2x2x2, .f32⟩ : BufTy).Contents (Elt F) := (select : (⟨S16x2x2x2, .i1⟩ : BufTy).Contents (Elt F) → (⟨S16x2x2x2, .f32⟩ : BufTy).Contents (Elt F) → (⟨S16x2x2x2, .f32⟩ : BufTy).Contents (Elt F) → (⟨S16x2x2x2, .f32⟩ : BufTy).Contents (Elt F)) t38 t37 t40
  let t42 : (⟨S16x2x2x2, .f32⟩ : BufTy).Contents (Elt F) := ((Host.reverse [2]) : (⟨S16x2x2x2, .f32⟩ : BufTy).Contents (Elt F) → (⟨S16x2x2x2, .f32⟩ : BufTy).Contents (Elt F)) t41
  let t43 : (⟨S16x2x1x2x2, .f32⟩ : BufTy).Contents (Elt F) := ((broadcastInDim S16x2x1x2x2 ![0, 1, 3, 4] bcast_S16x2x2x2_S16x2x1x2x2_0_1_3_4 : (⟨S16x2x2x2, .f32⟩ : BufTy).Contents (Elt F) → (⟨S16x2x1x2x2, .f32⟩ : BufTy).Contents (Elt F)) : (⟨S16x2x2x2, .f32⟩ : BufTy).Contents (Elt F) → (⟨S16x2x1x2x2, .f32⟩ : BufTy).Contents (Elt F)) t20
  let t44 : (⟨S16x2x1x2x2, .f32⟩ : BufTy).Contents (Elt F) := ((broadcastInDim S16x2x1x2x2 ![0, 1, 3, 4] bcast_S16x2x2x2_S16x2x1x2x2_0_1_3_4 : (⟨S16x2x2x2, .f32⟩ : BufTy).Contents (Elt F) → (⟨S16x2x1x2x2, .f32⟩ : BufTy).Contents (Elt F)) : (⟨S16x2x2x2, .f32⟩ : BufTy).Contents (Elt F) → (⟨S16x2x1x2x2, .f32⟩ : BufTy).Contents (Elt F)) t42
  let t45 : (⟨S16x2x2x2x2, .f32⟩ : BufTy).Contents (Elt F) := (((fun a b => concatenate S16x2x2x2x2 2 [⟨S16x2x1x2x2, a⟩, ⟨S16x2x1x2x2, b⟩] concatenates_S16x2x1x2x2_S16x2x1x2x2_S16x2x2x2x2_d2) : (⟨S16x2x1x2x2, .f32⟩ : BufTy).Contents (Elt F) → (⟨S16x2x1x2x2, .f32⟩ : BufTy).Contents (Elt F) → (⟨S16x2x2x2x2, .f32⟩ : BufTy).Contents (Elt F)) : (⟨S16x2x1x2x2, .f32⟩ : BufTy).Contents (Elt F) → (⟨S16x2x1x2x2, .f32⟩ : BufTy).Contents (Elt F) → (⟨S16x2x2x2x2, .f32⟩ : BufTy).Contents (Elt F)) t43 t44
  t45

/-- The controlled NOT with the third qubit as control and the next one (cyclically) as target, on the sixteen basis vectors at once: the two halves along the control's axis, the second reversed along the target's axis, concatenated back along the control's axis. -/
def kCx2 (x0 : (⟨S16x2x2x2x2, .f32⟩ : BufTy).Contents (Elt F)) : (⟨S16x2x2x2x2, .f32⟩ : BufTy).Contents (Elt F) :=
  let t0 : (⟨S_, .i32⟩ : BufTy).Contents (Elt F) := (constantI S_ 32 0#32)
  let t1 : (⟨S_, .i32⟩ : BufTy).Contents (Elt F) := (constantI S_ 32 0#32)
  let t2 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t0 t1
  let t3 : (⟨S_, .i32⟩ : BufTy).Contents (Elt F) := (constantI S_ 32 2#32)
  let t4 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t0 t3
  let t5 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t2 t4 t0
  let t6 : (⟨S1, .i32⟩ : BufTy).Contents (Elt F) := ((broadcastInDim S1 ![] bcast_S_S1) : (⟨S_, .i32⟩ : BufTy).Contents (Elt F) → (⟨S1, .i32⟩ : BufTy).Contents (Elt F)) t5
  let t7 : (⟨S1, .i32⟩ : BufTy).Contents (Elt F) := (constantI S1 32 1#32)
  let t8 : (⟨S1, .i32⟩ : BufTy).Contents (Elt F) := (id : (⟨S1, .i32⟩ : BufTy).Contents (Elt F) → (⟨S1, .i32⟩ : BufTy).Contents (Elt F)) t6
  let t9 : (⟨S_, .i32⟩ : BufTy).Contents (Elt F) := (constantI S_ 32 0#32)
  let t10 : (⟨S1, .i32⟩ : BufTy).Contents (Elt F) := ((broadcastInDim S1 ![] bcast_S_S1) : (⟨S_, .i32⟩ : BufTy).Contents (Elt F) → (⟨S1, .i32⟩ : BufTy).Contents (Elt F)) t9
  let t11 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t8 t10
  let t12 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t8 t7
  let t13 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t11 t12
  let t14 : (⟨S_, .i1⟩ : BufTy).Contents (Elt F) := (constantI S_ 1 1#1)
  let t15 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t13 t14
  let t16 : (⟨S16x2x2x2, .f32⟩ : BufTy).Contents (Elt F) := ((fun x i => Host.gather gather_S16x2x2x2x2_S1_S16x2x2x2_0123_3_n_n_3_0_162212 x i) : (⟨S16x2x2x2x2, .f32⟩ : BufTy).Contents (Elt F) → (⟨S1, .i32⟩ : BufTy).Contents (Elt F) → (⟨S16x2x2x2, .f32⟩ : BufTy).Contents (Elt F)) x0 t8
  let t17 : (⟨S16x2x2x2, .i1⟩ : BufTy).Contents (Elt F) := ((broadcastInDim S16x2x2x2 ![] bcast_S_S16x2x2x2) : (⟨S_, .i1⟩ : BufTy).Contents (Elt F) → (⟨S16x2x2x2, .i1⟩ : BufTy).Contents (Elt F)) t15
  let t18 : (⟨S_, .f32⟩ : BufTy).Contents (Elt F) := (constant S_ .f32 0x7FC00000#32)
  let t19 : (⟨S16x2x2x2, .f32⟩ : BufTy).Contents (Elt F) := ((broadcastInDim S16x2x2x2 ![] bcast_S_S16x2x2x2) : (⟨S_, .f32⟩ : BufTy).Contents (Elt F) → (⟨S16x2x2x2, .f32⟩ : BufTy).Contents (Elt F)) t18
  let t20 : (⟨S16x2x2x2, .f32⟩ : BufTy).Contents (Elt F) := (select : (⟨S16x2x2x2, .i1⟩ : BufTy).Contents (Elt F) → (⟨S16x2x2x2, .f32⟩ : BufTy).Contents (Elt F) → (⟨S16x2x2x2, .f32⟩ : BufTy).Contents (Elt F) → (⟨S16x2x2x2, .f32⟩ : BufTy).Contents (Elt F)) t17 t16 t19
  let t21 : (⟨S_, .i32⟩ : BufTy).Contents (Elt F) := (constantI S_ 32 1#32)
  let t22 : (⟨S_, .i32⟩ : BufTy).Contents (Elt F) := (constantI S_ 32 0#32)
  let t23 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t21 t22
  let t24 : (⟨S_, .i32⟩ : BufTy).Contents (Elt F) := (constantI S_ 32 2#32)
  let t25 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t21 t24
  let t26 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t23 t25 t21
  let t27 : (⟨S1, .i32⟩ : BufTy).Contents (Elt F) := ((broadcastInDim S1 ![] bcast_S_S1) : (⟨S_, .i32⟩ : BufTy).Contents (Elt F) → (⟨S1, .i32⟩ : BufTy).Contents (Elt F)) t26
  let t28 : (⟨S1, .i32⟩ : BufTy).Contents (Elt F) := (constantI S1 32 1#32)
  let t29 : (⟨S1, .i32⟩ : BufTy).Contents (Elt F) := (id : (⟨S1, .i32⟩ : BufTy).Contents (Elt F) → (⟨S1, .i32⟩ : BufTy).Contents (Elt F)) t27
  let t30 : (⟨S_, .i32⟩ : BufTy).Contents (Elt F) := (constantI S_ 32 0#32)
  let t31 : (⟨S1, .i32⟩ : BufTy).Contents (Elt F) := ((broadcastInDim S1 ![] bcast_S_S1) : (⟨S_, .i32⟩ : BufTy).Contents (Elt F) → (⟨S1, .i32⟩ : BufTy).Contents (Elt F)) t30
  let t32 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t29 t31
  let t33 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t29 t28
  let t34 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t32 t33
  let t35 : (⟨S_, .i1⟩ : BufTy).Contents (Elt F) := (constantI S_ 1 1#1)
  let t36 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t34 t35
  let t37 : (⟨S16x2x2x2, .f32⟩ : BufTy).Contents (Elt F) := ((fun x i => Host.gather gather_S16x2x2x2x2_S1_S16x2x2x2_0123_3_n_n_3_0_162212 x i) : (⟨S16x2x2x2x2, .f32⟩ : BufTy).Contents (Elt F) → (⟨S1, .i32⟩ : BufTy).Contents (Elt F) → (⟨S16x2x2x2, .f32⟩ : BufTy).Contents (Elt F)) x0 t29
  let t38 : (⟨S16x2x2x2, .i1⟩ : BufTy).Contents (Elt F) := ((broadcastInDim S16x2x2x2 ![] bcast_S_S16x2x2x2) : (⟨S_, .i1⟩ : BufTy).Contents (Elt F) → (⟨S16x2x2x2, .i1⟩ : BufTy).Contents (Elt F)) t36
  let t39 : (⟨S_, .f32⟩ : BufTy).Contents (Elt F) := (constant S_ .f32 0x7FC00000#32)
  let t40 : (⟨S16x2x2x2, .f32⟩ : BufTy).Contents (Elt F) := ((broadcastInDim S16x2x2x2 ![] bcast_S_S16x2x2x2) : (⟨S_, .f32⟩ : BufTy).Contents (Elt F) → (⟨S16x2x2x2, .f32⟩ : BufTy).Contents (Elt F)) t39
  let t41 : (⟨S16x2x2x2, .f32⟩ : BufTy).Contents (Elt F) := (select : (⟨S16x2x2x2, .i1⟩ : BufTy).Contents (Elt F) → (⟨S16x2x2x2, .f32⟩ : BufTy).Contents (Elt F) → (⟨S16x2x2x2, .f32⟩ : BufTy).Contents (Elt F) → (⟨S16x2x2x2, .f32⟩ : BufTy).Contents (Elt F)) t38 t37 t40
  let t42 : (⟨S16x2x2x2, .f32⟩ : BufTy).Contents (Elt F) := ((Host.reverse [3]) : (⟨S16x2x2x2, .f32⟩ : BufTy).Contents (Elt F) → (⟨S16x2x2x2, .f32⟩ : BufTy).Contents (Elt F)) t41
  let t43 : (⟨S16x2x2x1x2, .f32⟩ : BufTy).Contents (Elt F) := ((broadcastInDim S16x2x2x1x2 ![0, 1, 2, 4] bcast_S16x2x2x2_S16x2x2x1x2_0_1_2_4 : (⟨S16x2x2x2, .f32⟩ : BufTy).Contents (Elt F) → (⟨S16x2x2x1x2, .f32⟩ : BufTy).Contents (Elt F)) : (⟨S16x2x2x2, .f32⟩ : BufTy).Contents (Elt F) → (⟨S16x2x2x1x2, .f32⟩ : BufTy).Contents (Elt F)) t20
  let t44 : (⟨S16x2x2x1x2, .f32⟩ : BufTy).Contents (Elt F) := ((broadcastInDim S16x2x2x1x2 ![0, 1, 2, 4] bcast_S16x2x2x2_S16x2x2x1x2_0_1_2_4 : (⟨S16x2x2x2, .f32⟩ : BufTy).Contents (Elt F) → (⟨S16x2x2x1x2, .f32⟩ : BufTy).Contents (Elt F)) : (⟨S16x2x2x2, .f32⟩ : BufTy).Contents (Elt F) → (⟨S16x2x2x1x2, .f32⟩ : BufTy).Contents (Elt F)) t42
  let t45 : (⟨S16x2x2x2x2, .f32⟩ : BufTy).Contents (Elt F) := (((fun a b => concatenate S16x2x2x2x2 3 [⟨S16x2x2x1x2, a⟩, ⟨S16x2x2x1x2, b⟩] concatenates_S16x2x2x1x2_S16x2x2x1x2_S16x2x2x2x2_d3) : (⟨S16x2x2x1x2, .f32⟩ : BufTy).Contents (Elt F) → (⟨S16x2x2x1x2, .f32⟩ : BufTy).Contents (Elt F) → (⟨S16x2x2x2x2, .f32⟩ : BufTy).Contents (Elt F)) : (⟨S16x2x2x1x2, .f32⟩ : BufTy).Contents (Elt F) → (⟨S16x2x2x1x2, .f32⟩ : BufTy).Contents (Elt F) → (⟨S16x2x2x2x2, .f32⟩ : BufTy).Contents (Elt F)) t43 t44
  t45

/-- The controlled NOT with the fourth qubit as control and the next one (cyclically) as target, on the sixteen basis vectors at once: the two halves along the control's axis, the second reversed along the target's axis, concatenated back along the control's axis. -/
def kCx3 (x0 : (⟨S16x2x2x2x2, .f32⟩ : BufTy).Contents (Elt F)) : (⟨S16x2x2x2x2, .f32⟩ : BufTy).Contents (Elt F) :=
  let t0 : (⟨S_, .i32⟩ : BufTy).Contents (Elt F) := (constantI S_ 32 0#32)
  let t1 : (⟨S_, .i32⟩ : BufTy).Contents (Elt F) := (constantI S_ 32 0#32)
  let t2 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t0 t1
  let t3 : (⟨S_, .i32⟩ : BufTy).Contents (Elt F) := (constantI S_ 32 2#32)
  let t4 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t0 t3
  let t5 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t2 t4 t0
  let t6 : (⟨S1, .i32⟩ : BufTy).Contents (Elt F) := ((broadcastInDim S1 ![] bcast_S_S1) : (⟨S_, .i32⟩ : BufTy).Contents (Elt F) → (⟨S1, .i32⟩ : BufTy).Contents (Elt F)) t5
  let t7 : (⟨S1, .i32⟩ : BufTy).Contents (Elt F) := (constantI S1 32 1#32)
  let t8 : (⟨S1, .i32⟩ : BufTy).Contents (Elt F) := (id : (⟨S1, .i32⟩ : BufTy).Contents (Elt F) → (⟨S1, .i32⟩ : BufTy).Contents (Elt F)) t6
  let t9 : (⟨S_, .i32⟩ : BufTy).Contents (Elt F) := (constantI S_ 32 0#32)
  let t10 : (⟨S1, .i32⟩ : BufTy).Contents (Elt F) := ((broadcastInDim S1 ![] bcast_S_S1) : (⟨S_, .i32⟩ : BufTy).Contents (Elt F) → (⟨S1, .i32⟩ : BufTy).Contents (Elt F)) t9
  let t11 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t8 t10
  let t12 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t8 t7
  let t13 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t11 t12
  let t14 : (⟨S_, .i1⟩ : BufTy).Contents (Elt F) := (constantI S_ 1 1#1)
  let t15 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t13 t14
  let t16 : (⟨S16x2x2x2, .f32⟩ : BufTy).Contents (Elt F) := ((fun x i => Host.gather gather_S16x2x2x2x2_S1_S16x2x2x2_0123_4_n_n_4_0_162221 x i) : (⟨S16x2x2x2x2, .f32⟩ : BufTy).Contents (Elt F) → (⟨S1, .i32⟩ : BufTy).Contents (Elt F) → (⟨S16x2x2x2, .f32⟩ : BufTy).Contents (Elt F)) x0 t8
  let t17 : (⟨S16x2x2x2, .i1⟩ : BufTy).Contents (Elt F) := ((broadcastInDim S16x2x2x2 ![] bcast_S_S16x2x2x2) : (⟨S_, .i1⟩ : BufTy).Contents (Elt F) → (⟨S16x2x2x2, .i1⟩ : BufTy).Contents (Elt F)) t15
  let t18 : (⟨S_, .f32⟩ : BufTy).Contents (Elt F) := (constant S_ .f32 0x7FC00000#32)
  let t19 : (⟨S16x2x2x2, .f32⟩ : BufTy).Contents (Elt F) := ((broadcastInDim S16x2x2x2 ![] bcast_S_S16x2x2x2) : (⟨S_, .f32⟩ : BufTy).Contents (Elt F) → (⟨S16x2x2x2, .f32⟩ : BufTy).Contents (Elt F)) t18
  let t20 : (⟨S16x2x2x2, .f32⟩ : BufTy).Contents (Elt F) := (select : (⟨S16x2x2x2, .i1⟩ : BufTy).Contents (Elt F) → (⟨S16x2x2x2, .f32⟩ : BufTy).Contents (Elt F) → (⟨S16x2x2x2, .f32⟩ : BufTy).Contents (Elt F) → (⟨S16x2x2x2, .f32⟩ : BufTy).Contents (Elt F)) t17 t16 t19
  let t21 : (⟨S_, .i32⟩ : BufTy).Contents (Elt F) := (constantI S_ 32 1#32)
  let t22 : (⟨S_, .i32⟩ : BufTy).Contents (Elt F) := (constantI S_ 32 0#32)
  let t23 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) t21 t22
  let t24 : (⟨S_, .i32⟩ : BufTy).Contents (Elt F) := (constantI S_ 32 2#32)
  let t25 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t21 t24
  let t26 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t23 t25 t21
  let t27 : (⟨S1, .i32⟩ : BufTy).Contents (Elt F) := ((broadcastInDim S1 ![] bcast_S_S1) : (⟨S_, .i32⟩ : BufTy).Contents (Elt F) → (⟨S1, .i32⟩ : BufTy).Contents (Elt F)) t26
  let t28 : (⟨S1, .i32⟩ : BufTy).Contents (Elt F) := (constantI S1 32 1#32)
  let t29 : (⟨S1, .i32⟩ : BufTy).Contents (Elt F) := (id : (⟨S1, .i32⟩ : BufTy).Contents (Elt F) → (⟨S1, .i32⟩ : BufTy).Contents (Elt F)) t27
  let t30 : (⟨S_, .i32⟩ : BufTy).Contents (Elt F) := (constantI S_ 32 0#32)
  let t31 : (⟨S1, .i32⟩ : BufTy).Contents (Elt F) := ((broadcastInDim S1 ![] bcast_S_S1) : (⟨S_, .i32⟩ : BufTy).Contents (Elt F) → (⟨S1, .i32⟩ : BufTy).Contents (Elt F)) t30
  let t32 : (⟨S1, .i1⟩ : BufTy).Contents (Elt F) := ((cmpi .sge) : (⟨S1, .i32⟩ : BufTy).Contents (Elt F) → (⟨S1, .i32⟩ : BufTy).Contents (Elt F) → (⟨S1, .i1⟩ : BufTy).Contents (Elt F)) t29 t31
  let t33 : (⟨S1, .i1⟩ : BufTy).Contents (Elt F) := ((cmpi .sle) : (⟨S1, .i32⟩ : BufTy).Contents (Elt F) → (⟨S1, .i32⟩ : BufTy).Contents (Elt F) → (⟨S1, .i1⟩ : BufTy).Contents (Elt F)) t29 t28
  let t34 : (⟨S1, .i1⟩ : BufTy).Contents (Elt F) := (andi : (⟨S1, .i1⟩ : BufTy).Contents (Elt F) → (⟨S1, .i1⟩ : BufTy).Contents (Elt F) → (⟨S1, .i1⟩ : BufTy).Contents (Elt F)) t32 t33
  let t35 : (⟨S_, .i1⟩ : BufTy).Contents (Elt F) := (constantI S_ 1 1#1)
  let t36 : (⟨S_, .i1⟩ : BufTy).Contents (Elt F) := ((fun x v => Host.reduce IntOp.andi x v reducesTo_S1_S_d0 h_S_) : (⟨S1, .i1⟩ : BufTy).Contents (Elt F) → (⟨S_, .i1⟩ : BufTy).Contents (Elt F) → (⟨S_, .i1⟩ : BufTy).Contents (Elt F)) t34 t35
  let t37 : (⟨S16x2x2x2, .f32⟩ : BufTy).Contents (Elt F) := ((fun x i => Host.gather gather_S16x2x2x2x2_S1_S16x2x2x2_0123_4_n_n_4_0_162221 x i) : (⟨S16x2x2x2x2, .f32⟩ : BufTy).Contents (Elt F) → (⟨S1, .i32⟩ : BufTy).Contents (Elt F) → (⟨S16x2x2x2, .f32⟩ : BufTy).Contents (Elt F)) x0 t29
  let t38 : (⟨S16x2x2x2, .i1⟩ : BufTy).Contents (Elt F) := ((broadcastInDim S16x2x2x2 ![] bcast_S_S16x2x2x2) : (⟨S_, .i1⟩ : BufTy).Contents (Elt F) → (⟨S16x2x2x2, .i1⟩ : BufTy).Contents (Elt F)) t36
  let t39 : (⟨S_, .f32⟩ : BufTy).Contents (Elt F) := (constant S_ .f32 0x7FC00000#32)
  let t40 : (⟨S16x2x2x2, .f32⟩ : BufTy).Contents (Elt F) := ((broadcastInDim S16x2x2x2 ![] bcast_S_S16x2x2x2) : (⟨S_, .f32⟩ : BufTy).Contents (Elt F) → (⟨S16x2x2x2, .f32⟩ : BufTy).Contents (Elt F)) t39
  let t41 : (⟨S16x2x2x2, .f32⟩ : BufTy).Contents (Elt F) := (select : (⟨S16x2x2x2, .i1⟩ : BufTy).Contents (Elt F) → (⟨S16x2x2x2, .f32⟩ : BufTy).Contents (Elt F) → (⟨S16x2x2x2, .f32⟩ : BufTy).Contents (Elt F) → (⟨S16x2x2x2, .f32⟩ : BufTy).Contents (Elt F)) t38 t37 t40
  let t42 : (⟨S16x2x2x2, .f32⟩ : BufTy).Contents (Elt F) := ((Host.reverse [1]) : (⟨S16x2x2x2, .f32⟩ : BufTy).Contents (Elt F) → (⟨S16x2x2x2, .f32⟩ : BufTy).Contents (Elt F)) t41
  let t43 : (⟨S16x2x2x2x1, .f32⟩ : BufTy).Contents (Elt F) := ((broadcastInDim S16x2x2x2x1 ![0, 1, 2, 3] bcast_S16x2x2x2_S16x2x2x2x1_0_1_2_3 : (⟨S16x2x2x2, .f32⟩ : BufTy).Contents (Elt F) → (⟨S16x2x2x2x1, .f32⟩ : BufTy).Contents (Elt F)) : (⟨S16x2x2x2, .f32⟩ : BufTy).Contents (Elt F) → (⟨S16x2x2x2x1, .f32⟩ : BufTy).Contents (Elt F)) t20
  let t44 : (⟨S16x2x2x2x1, .f32⟩ : BufTy).Contents (Elt F) := ((broadcastInDim S16x2x2x2x1 ![0, 1, 2, 3] bcast_S16x2x2x2_S16x2x2x2x1_0_1_2_3 : (⟨S16x2x2x2, .f32⟩ : BufTy).Contents (Elt F) → (⟨S16x2x2x2x1, .f32⟩ : BufTy).Contents (Elt F)) : (⟨S16x2x2x2, .f32⟩ : BufTy).Contents (Elt F) → (⟨S16x2x2x2x1, .f32⟩ : BufTy).Contents (Elt F)) t42
  let t45 : (⟨S16x2x2x2x2, .f32⟩ : BufTy).Contents (Elt F) := (((fun a b => concatenate S16x2x2x2x2 4 [⟨S16x2x2x2x1, a⟩, ⟨S16x2x2x2x1, b⟩] concatenates_S16x2x2x2x1_S16x2x2x2x1_S16x2x2x2x2_d4) : (⟨S16x2x2x2x1, .f32⟩ : BufTy).Contents (Elt F) → (⟨S16x2x2x2x1, .f32⟩ : BufTy).Contents (Elt F) → (⟨S16x2x2x2x2, .f32⟩ : BufTy).Contents (Elt F)) : (⟨S16x2x2x2x1, .f32⟩ : BufTy).Contents (Elt F) → (⟨S16x2x2x2x1, .f32⟩ : BufTy).Contents (Elt F) → (⟨S16x2x2x2x2, .f32⟩ : BufTy).Contents (Elt F)) t43 t44
  t45

/-- The sixteen final states as the rows of a 16×16 matrix. -/
def kMat (x0 : (⟨S16x2x2x2x2, .f32⟩ : BufTy).Contents (Elt F)) : (⟨S16x16, .f32⟩ : BufTy).Contents (Elt F) :=
  let t0 : (⟨S16x16, .f32⟩ : BufTy).Contents (Elt F) := shapeCast S16x16 x0 shapeCasts_S16x2x2x2x2_S16x16
  t0

/-- That matrix transposed: the matrix of the fixed block, whose columns are the images of the basis vectors. -/
def kMatT (x0 : (⟨S16x16, .f32⟩ : BufTy).Contents (Elt F)) : (⟨S16x16, .f32⟩ : BufTy).Contents (Elt F) :=
  let t0 : (⟨S16x16, .f32⟩ : BufTy).Contents (Elt F) := (((transpose S16x16 [1, 0] · transposes_S16x16_S16x16_1_0) : (⟨S16x16, .f32⟩ : BufTy).Contents (Elt F) → (⟨S16x16, .f32⟩ : BufTy).Contents (Elt F)) : (⟨S16x16, .f32⟩ : BufTy).Contents (Elt F) → (⟨S16x16, .f32⟩ : BufTy).Contents (Elt F)) x0
  t0

end Cert.KernelIdeal.KerHost

end
-- ==== Proof.KerHostSeg0.lean ====
/- Stretches 0 … 4 of the kernel program's host operations before its launch (a stretch ends where a state of the
   array of sixteen simulated registers, or one of the arrays before the first and after the last state, is written):
   each as the list of its operations, the list of the buffers it writes, and its result as the stretch's composed
   function of the buffers it reads. -/
import proofs.«159359_j65481071398168_2_alg».proof.Proof.KerHostDefs
import Idealize.ShloMosaic.Lib.StableHlo.Run

set_option synthInstance.maxSize 4096

noncomputable section

namespace Cert.KernelIdeal.KerHost

open Cert.KernelIdeal Idealize.ShloMosaic Idealize.ShloMosaic.TcCoe Idealize.SL.Sem Idealize.ShloMosaic.StableHlo
open Cert.KernelIdeal.Facts₀ Cert.KernelIdeal.Facts

variable {F : FTy → Type} [FloatOps F] [Facts]

/-- Stretch 0 of the host operations before the launch: operations 1 … 11, ending where `main_v9` is written. -/
abbrev hseg0 : List (HloOp τ sig (Elt F)) :=
  [ StableHlo.reshape main_arg0 main_v0 rfl shapeCasts_S4096x784_S4096x14x2x14x2,
    StableHlo.unary main_v0 main_v1 ((transpose S2x2x4096x14x14 [2, 4, 0, 1, 3] · transposes_S4096x14x2x14x2_S2x2x4096x14x14_2_4_0_1_3) : (⟨S4096x14x2x14x2, .f32⟩ : BufTy).Contents (Elt F) → (⟨S2x2x4096x14x14, .f32⟩ : BufTy).Contents (Elt F)),
    StableHlo.reshape main_v1 main_v2 rfl shapeCasts_S2x2x4096x14x14_S4x802816,
    StableHlo.nullary main_v3 (iotaInDim S16x16 32 0),
    StableHlo.nullary main_v4 (iotaInDim S16x16 32 1),
    StableHlo.nullary main_c (constantI S_ 32 0#32),
    StableHlo.unary main_c main_v5 (broadcastInDim S16x16 ![] bcast_S_S16x16 : (⟨S_, .i32⟩ : BufTy).Contents (Elt F) → (⟨S16x16, .i32⟩ : BufTy).Contents (Elt F)),
    StableHlo.binary main_v3 main_v5 main_v6 (addi : (⟨S16x16, .i32⟩ : BufTy).Contents (Elt F) → (⟨S16x16, .i32⟩ : BufTy).Contents (Elt F) → (⟨S16x16, .i32⟩ : BufTy).Contents (Elt F)),
    StableHlo.binary main_v6 main_v4 main_v7 (cmpi .eq : (⟨S16x16, .i32⟩ : BufTy).Contents (Elt F) → (⟨S16x16, .i32⟩ : BufTy).Contents (Elt F) → (⟨S16x16, .i1⟩ : BufTy).Contents (Elt F)),
    StableHlo.unary main_v7 main_v8 (uitofp .f32 : (⟨S16x16, .i1⟩ : BufTy).Contents (Elt F) → (⟨S16x16, .f32⟩ : BufTy).Contents (Elt F)),
    StableHlo.reshape main_v8 main_v9 rfl shapeCasts_S16x16_S16x2x2x2x2 ]

/-- The buffers stretch 0 writes, one per operation. -/
abbrev hseg0_W : List (Ref sig .tc) := [main_v0, main_v1, main_v2, main_v3, main_v4, main_c, main_v5, main_v6, main_v7, main_v8, main_v9]

set_option maxRecDepth 65536 in
theorem hseg0_writes : (hseg0 : List (HloOp τ sig (Elt F))).Forall fun op => op.writes ⊆ (hseg0_W.map (Proc.devRef (τ := τ) .tc)).toFinset := by
  simp only [List.Forall]
  refine ⟨?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 0, from any contents `W`, `main_v2` holds the stretch's composed function of what `W` has at the buffers the stretch reads. -/
theorem hseg0_main_v2 (W : Valuation τ sig (Elt F)) :
    after hseg0 W (main_v2 : DevRef τ sig) = kAngles (W (main_arg0 : DevRef τ sig)) := by
  simp only [hseg0]
  after_results_simp
  rfl

set_option maxRecDepth 65536 in
set_option maxHeartbeats 4000000 in
/-- After stretch 0, from any contents `W`, `main_v9` holds the stretch's composed function of what `W` has at the buffers the stretch reads. -/
theorem hseg0_main_v9 (W : Valuation τ sig (Elt F)) :
    after hseg0 W (main_v9 : DevRef τ sig) = kIdent := by
  simp only [hseg0]
  after_results_simp
  rfl

/-- Stretch 1 of the host operations before the launch: operations 12 … 74, ending where `main_v30` is written. -/
abbrev hseg1 : List (HloOp τ sig (Elt F)) :=
  [ StableHlo.unary main_arg1 main_v10 ((extractStridedSlice S1 ![0] · slices_S4_S1_0) : (⟨S4, .f32⟩ : BufTy).Contents (Elt F) → (⟨S1, .f32⟩ : BufTy).Contents (Elt F)),
    StableHlo.reshape main_v10 main_v11 rfl shapeCasts_S1_S_,
    StableHlo.nullary main_c_0 (constantI S_ 32 0#32),
    StableHlo.TRef.nullary (.of main_call0_c : StableHlo.TRef sig ⟨S_, .i32⟩) (constantI S_ 32 0#32),
    StableHlo.TRef.binary (.of main_c_0 : StableHlo.TRef sig ⟨S_, .i32⟩) (.of main_call0_c : StableHlo.TRef sig ⟨S_, .i32⟩) (.of main_call0_v0 : StableHlo.TRef sig ⟨S_, .i1⟩) (cmpi .slt),
    StableHlo.TRef.nullary (.of main_call0_c_0 : StableHlo.TRef sig ⟨S_, .i32⟩) (constantI S_ 32 2#32),
    StableHlo.TRef.binary (.of main_c_0 : StableHlo.TRef sig ⟨S_, .i32⟩) (.of main_call0_c_0 : StableHlo.TRef sig ⟨S_, .i32⟩) (.of main_call0_v1 : StableHlo.TRef sig ⟨S_, .i32⟩) addi,
    StableHlo.TRef.ternary (.of main_call0_v0 : StableHlo.TRef sig ⟨S_, .i1⟩) (.of main_call0_v1 : StableHlo.TRef sig ⟨S_, .i32⟩) (.of main_c_0 : StableHlo.TRef sig ⟨S_, .i32⟩) (.of main_call0_v2 : StableHlo.TRef sig ⟨S_, .i32⟩) select,
    StableHlo.TRef.unary main_call0_call0.v0 (.of main_call0_v3 : StableHlo.TRef sig ⟨S1, .i32⟩) (broadcastInDim S1 ![] bcast_S_S1),
    StableHlo.TRef.nullary (.of main_call0_c_1 : StableHlo.TRef sig ⟨S1, .i32⟩) (constantI S1 32 1#32),
    StableHlo.TRef.unary (.of main_call0_v3 : StableHlo.TRef sig ⟨S1, .i32⟩) (.of main_call0_v4 : StableHlo.TRef sig ⟨S1, .i32⟩) id,
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v5 : StableHlo.TRef sig ⟨S1, .i32⟩) (broadcastInDim S1 ![] bcast_S_S1),
    StableHlo.TRef.binary (.of main_call0_v4 : StableHlo.TRef sig ⟨S1, .i32⟩) (.of main_call0_v5 : StableHlo.TRef sig ⟨S1, .i32⟩) (.of main_call0_v6 : StableHlo.TRef sig ⟨S1, .i1⟩) (cmpi .sge),
    StableHlo.TRef.binary (.of main_call0_v4 : StableHlo.TRef sig ⟨S1, .i32⟩) (.of main_call0_c_1 : StableHlo.TRef sig ⟨S1, .i32⟩) (.of main_call0_v7 : StableHlo.TRef sig ⟨S1, .i1⟩) (cmpi .sle),
    StableHlo.TRef.binary (.of main_call0_v6 : StableHlo.TRef sig ⟨S1, .i1⟩) (.of main_call0_v7 : StableHlo.TRef sig ⟨S1, .i1⟩) (.of main_call0_v8 : StableHlo.TRef sig ⟨S1, .i1⟩) andi,
    StableHlo.TRef.nullary (.of main_call0_c_3 : StableHlo.TRef sig ⟨S_, .i1⟩) (constantI S_ 1 1#1),
    StableHlo.TRef.binary (.of main_call0_v8 : StableHlo.TRef sig ⟨S1, .i1⟩) (.of main_call0_c_3 : StableHlo.TRef sig ⟨S_, .i1⟩) (.of main_call0_v9 : StableHlo.TRef sig ⟨S_, .i1⟩) (fun x v => Host.reduce IntOp.andi x v reducesTo_S1_S_d0 h_S_),
    StableHlo.TRef.binary (.of main_v9 : StableHlo.TRef sig ⟨S16x2x2x2x2, .f32⟩) (.of main_call0_v4 : StableHlo.TRef sig ⟨S1, .i32⟩) (.of main_call0_v10 : StableHlo.TRef sig ⟨S16x2x2x2, .f32⟩) (fun x i => Host.gather gather_S16x2x2x2x2_S1_S16x2x2x2_0123_1_n_n_1_0_161222 x i),
    StableHlo.TRef.unary (.of main_call0_v9 : StableHlo.TRef sig ⟨S_, .i1⟩) (.of main_call0_v11 : StableHlo.TRef sig ⟨S16x2x2x2, .i1⟩) (broadcastInDim S16x2x2x2 ![] bcast_S_S16x2x2x2),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v12 : StableHlo.TRef sig ⟨S16x2x2x2, .f32⟩) (broadcastInDim S16x2x2x2 ![] bcast_S_S16x2x2x2),
    StableHlo.TRef.ternary (.of main_call0_v11 : StableHlo.TRef sig ⟨S16x2x2x2, .i1⟩) (.of main_call0_v10 : StableHlo.TRef sig ⟨S16x2x2x2, .f32⟩) (.of main_call0_v12 : StableHlo.TRef sig ⟨S16x2x2x2, .f32⟩) (.of main_v12 : StableHlo.TRef sig ⟨S16x2x2x2, .f32⟩) select,
    StableHlo.nullary main_c_1 (constantI S_ 32 1#32),
    StableHlo.TRef.nullary (.of main_call1_c : StableHlo.TRef sig ⟨S_, .i32⟩) (constantI S_ 32 0#32),
    StableHlo.TRef.binary (.of main_c_1 : StableHlo.TRef sig ⟨S_, .i32⟩) (.of main_call1_c : StableHlo.TRef sig ⟨S_, .i32⟩) (.of main_call1_v0 : StableHlo.TRef sig ⟨S_, .i1⟩) (cmpi .slt),
    StableHlo.TRef.nullary (.of main_call1_c_0 : StableHlo.TRef sig ⟨S_, .i32⟩) (constantI S_ 32 2#32),
    StableHlo.TRef.binary (.of main_c_1 : StableHlo.TRef sig ⟨S_, .i32⟩) (.of main_call1_c_0 : StableHlo.TRef sig ⟨S_, .i32⟩) (.of main_call1_v1 : StableHlo.TRef sig ⟨S_, .i32⟩) addi,
    StableHlo.TRef.ternary (.of main_call1_v0 : StableHlo.TRef sig ⟨S_, .i1⟩) (.of main_call1_v1 : StableHlo.TRef sig ⟨S_, .i32⟩) (.of main_c_1 : StableHlo.TRef sig ⟨S_, .i32⟩) (.of main_call1_v2 : StableHlo.TRef sig ⟨S_, .i32⟩) select,
    StableHlo.TRef.unary main_call1_call0.v0 (.of main_call1_v3 : StableHlo.TRef sig ⟨S1, .i32⟩) (broadcastInDim S1 ![] bcast_S_S1),
    StableHlo.TRef.nullary (.of main_call1_c_1 : StableHlo.TRef sig ⟨S1, .i32⟩) (constantI S1 32 1#32),
    StableHlo.TRef.unary (.of main_call1_v3 : StableHlo.TRef sig ⟨S1, .i32⟩) (.of main_call1_v4 : StableHlo.TRef sig ⟨S1, .i32⟩) id,
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v5 : StableHlo.TRef sig ⟨S1, .i32⟩) (broadcastInDim S1 ![] bcast_S_S1),
    StableHlo.TRef.binary (.of main_call1_v4 : StableHlo.TRef sig ⟨S1, .i32⟩) (.of main_call1_v5 : StableHlo.TRef sig ⟨S1, .i32⟩) (.of main_call1_v6 : StableHlo.TRef sig ⟨S1, .i1⟩) (cmpi .sge),
    StableHlo.TRef.binary (.of main_call1_v4 : StableHlo.TRef sig ⟨S1, .i32⟩) (.of main_call1_c_1 : StableHlo.TRef sig ⟨S1, .i32⟩) (.of main_call1_v7 : StableHlo.TRef sig ⟨S1, .i1⟩) (cmpi .sle),
    StableHlo.TRef.binary (.of main_call1_v6 : StableHlo.TRef sig ⟨S1, .i1⟩) (.of main_call1_v7 : StableHlo.TRef sig ⟨S1, .i1⟩) (.of main_call1_v8 : StableHlo.TRef sig ⟨S1, .i1⟩) andi,
    StableHlo.TRef.nullary (.of main_call1_c_3 : StableHlo.TRef sig ⟨S_, .i1⟩) (constantI S_ 1 1#1),
    StableHlo.TRef.binary (.of main_call1_v8 : StableHlo.TRef sig ⟨S1, .i1⟩) (.of main_call1_c_3 : StableHlo.TRef sig ⟨S_, .i1⟩) (.of main_call1_v9 : StableHlo.TRef sig ⟨S_, .i1⟩) (fun x v => Host.reduce IntOp.andi x v reducesTo_S1_S_d0 h_S_),
    StableHlo.TRef.binary (.of main_v9 : StableHlo.TRef sig ⟨S16x2x2x2x2, .f32⟩) (.of main_call1_v4 : StableHlo.TRef sig ⟨S1, .i32⟩) (.of main_call1_v10 : StableHlo.TRef sig ⟨S16x2x2x2, .f32⟩) (fun x i => Host.gather gather_S16x2x2x2x2_S1_S16x2x2x2_0123_1_n_n_1_0_161222 x i),
    StableHlo.TRef.unary (.of main_call1_v9 : StableHlo.TRef sig ⟨S_, .i1⟩) (.of main_call1_v11 : StableHlo.TRef sig ⟨S16x2x2x2, .i1⟩) (broadcastInDim S16x2x2x2 ![] bcast_S_S16x2x2x2),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v12 : StableHlo.TRef sig ⟨S16x2x2x2, .f32⟩) (broadcastInDim S16x2x2x2 ![] bcast_S_S16x2x2x2),
    StableHlo.TRef.ternary (.of main_call1_v11 : StableHlo.TRef sig ⟨S16x2x2x2, .i1⟩) (.of main_call1_v10 : StableHlo.TRef sig ⟨S16x2x2x2, .f32⟩) (.of main_call1_v12 : StableHlo.TRef sig ⟨S16x2x2x2, .f32⟩) (.of main_v13 : StableHlo.TRef sig ⟨S16x2x2x2, .f32⟩) select,
    StableHlo.nullary main_cst (constant S_ .f32 0x3F000000#32),
    StableHlo.binary main_v11 main_cst main_v14 (mulf : (⟨S_, .f32⟩ : BufTy).Contents (Elt F) → (⟨S_, .f32⟩ : BufTy).Contents (Elt F) → (⟨S_, .f32⟩ : BufTy).Contents (Elt F)),
    StableHlo.unary main_v14 main_v15 (Host.cos : (⟨S_, .f32⟩ : BufTy).Contents (Elt F) → (⟨S_, .f32⟩ : BufTy).Contents (Elt F)),
    StableHlo.nullary main_cst_2 (constant S_ .f32 0x3F000000#32),
    StableHlo.binary main_v11 main_cst_2 main_v16 (mulf : (⟨S_, .f32⟩ : BufTy).Contents (Elt F) → (⟨S_, .f32⟩ : BufTy).Contents (Elt F) → (⟨S_, .f32⟩ : BufTy).Contents (Elt F)),
    StableHlo.unary main_v16 main_v17 (Host.sin : (⟨S_, .f32⟩ : BufTy).Contents (Elt F) → (⟨S_, .f32⟩ : BufTy).Contents (Elt F)),
    StableHlo.unary main_v15 main_v18 (broadcastInDim S16x2x2x2 ![] bcast_S_S16x2x2x2 : (⟨S_, .f32⟩ : BufTy).Contents (Elt F) → (⟨S16x2x2x2, .f32⟩ : BufTy).Contents (Elt F)),
    StableHlo.binary main_v18 main_v12 main_v19 (mulf : (⟨S16x2x2x2, .f32⟩ : BufTy).Contents (Elt F) → (⟨S16x2x2x2, .f32⟩ : BufTy).Contents (Elt F) → (⟨S16x2x2x2, .f32⟩ : BufTy).Contents (Elt F)),
    StableHlo.unary main_v17 main_v20 (broadcastInDim S16x2x2x2 ![] bcast_S_S16x2x2x2 : (⟨S_, .f32⟩ : BufTy).Contents (Elt F) → (⟨S16x2x2x2, .f32⟩ : BufTy).Contents (Elt F)),
    StableHlo.binary main_v20 main_v13 main_v21 (mulf : (⟨S16x2x2x2, .f32⟩ : BufTy).Contents (Elt F) → (⟨S16x2x2x2, .f32⟩ : BufTy).Contents (Elt F) → (⟨S16x2x2x2, .f32⟩ : BufTy).Contents (Elt F)),
    StableHlo.binary main_v19 main_v21 main_v22 (subf : (⟨S16x2x2x2, .f32⟩ : BufTy).Contents (Elt F) → (⟨S16x2x2x2, .f32⟩ : BufTy).Contents (Elt F) → (⟨S16x2x2x2, .f32⟩ : BufTy).Contents (Elt F)),
    StableHlo.unary main_v17 main_v23 (broadcastInDim S16x2x2x2 ![] bcast_S_S16x2x2x2 : (⟨S_, .f32⟩ : BufTy).Contents (Elt F) → (⟨S16x2x2x2, .f32⟩ : BufTy).Contents (Elt F)),
    StableHlo.binary main_v23 main_v12 main_v24 (mulf : (⟨S16x2x2x2, .f32⟩ : BufTy).Contents (Elt F) → (⟨S16x2x2x2, .f32⟩ : BufTy).Contents (Elt F) → (⟨S16x2x2x2, .f32⟩ : BufTy).Contents (Elt F)),
    StableHlo.unary main_v15 main_v25 (broadcastInDim S16x2x2x2 ![] bcast_S_S16x2x2x2 : (⟨S_, .f32⟩ : BufTy).Contents (Elt F) → (⟨S16x2x2x2, .f32⟩ : BufTy).Contents (Elt F)),
    StableHlo.binary main_v25 main_v13 main_v26 (mulf : (⟨S16x2x2x2, .f32⟩ : BufTy).Contents (Elt F) → (⟨S16x2x2x2, .f32⟩ : BufTy).Contents (Elt F) → (⟨S16x2x2x2, .f32⟩ : BufTy).Contents (Elt F)),
    StableHlo.binary main_v24 main_v26 main_v27 (addf : (⟨S16x2x2x2, .f32⟩ : BufTy).Contents (Elt F) → (⟨S16x2x2x2, .f32⟩ : BufTy).Contents (Elt F) → (⟨S16x2x2x2, .f32⟩ : BufTy).Contents (Elt F)),
    StableHlo.unary main_v22 main_v28 (broadcastInDim S16x1x2x2x2 ![0, 2, 3, 4] bcast_S16x2x2x2_S16x1x2x2x2_0_2_3_4 : (⟨S16x2x2x2, .f32⟩ : BufTy).Contents (Elt F) → (⟨S16x1x2x2x2, .f32⟩ : BufTy).Contents (Elt F)),
    StableHlo.unary main_v27 main_v29 (broadcastInDim S16x1x2x2x2 ![0, 2, 3, 4] bcast_S16x2x2x2_S16x1x2x2x2_0_2_3_4 : (⟨S16x2x2x2, .f32⟩ : BufTy).Contents (Elt F) → (⟨S16x1x2x2x2, .f32⟩ : BufTy).Contents (Elt F)),
    StableHlo.binary main_v28 main_v29 main_v30 ((fun a b => concatenate S16x2x2x2x2 1 [⟨S16x1x2x2x2, a⟩, ⟨S16x1x2x2x2, b⟩] concatenates_S16x1x2x2x2_S16x1x2x2x2_S16x2x2x2x2_d1) : (⟨S16x1x2x2x2, .f32⟩ : BufTy).Contents (Elt F) → (⟨S16x1x2x2x2, .f32⟩ : BufTy).Contents (Elt F) → (⟨S16x2x2x2x2, .f32⟩ : BufTy).Contents (Elt F)) ]

/-- The buffers stretch 1 writes, one per operation. -/
abbrev hseg1_W : List (Ref sig .tc) := [main_v10, main_v11, main_c_0, main_call0_c, main_call0_v0, main_call0_c_0, main_call0_v1, main_call0_v2, main_call0_v3, main_call0_c_1, main_call0_v4, main_call0_c_2, main_call0_v5, main_call0_v6, main_call0_v7, main_call0_v8, main_call0_c_3, main_call0_v9, main_call0_v10, main_call0_v11, main_call0_cst, main_call0_v12, main_v12, main_c_1, main_call1_c, main_call1_v0, main_call1_c_0, main_call1_v1, main_call1_v2, main_call1_v3, main_call1_c_1, main_call1_v4, main_call1_c_2, main_call1_v5, main_call1_v6, main_call1_v7, main_call1_v8, main_call1_c_3, main_call1_v9, main_call1_v10, main_call1_v11, main_call1_cst, main_call1_v12, main_v13, main_cst, main_v14, main_v15, main_cst_2, main_v16, main_v17, main_v18, main_v19, main_v20, main_v21, main_v22, main_v23, main_v24, main_v25, main_v26, main_v27, main_v28, main_v29, main_v30]

set_option maxRecDepth 65536 in
theorem hseg1_writes : (hseg1 : List (HloOp τ sig (Elt F))).Forall fun op => op.writes ⊆ (hseg1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 1, from any contents `W`, `main_v30` holds the stretch's composed function of what `W` has at the buffers the stretch reads. -/
theorem hseg1_main_v30 (W : Valuation τ sig (Elt F)) :
    after hseg1 W (main_v30 : DevRef τ sig) = kRyP0 (W (main_v9 : DevRef τ sig)) (W (main_arg1 : DevRef τ sig)) := by
  simp only [hseg1]
  after_results_simp
  rfl

/-- Stretch 2 of the host operations before the launch: operations 75 … 120, ending where `main_v36` is written. -/
abbrev hseg2 : List (HloOp τ sig (Elt F)) :=
  [ StableHlo.nullary main_c_3 (constantI S_ 32 0#32),
    StableHlo.TRef.nullary (.of main_call2_c : StableHlo.TRef sig ⟨S_, .i32⟩) (constantI S_ 32 0#32),
    StableHlo.TRef.binary (.of main_c_3 : StableHlo.TRef sig ⟨S_, .i32⟩) (.of main_call2_c : StableHlo.TRef sig ⟨S_, .i32⟩) (.of main_call2_v0 : StableHlo.TRef sig ⟨S_, .i1⟩) (cmpi .slt),
    StableHlo.TRef.nullary (.of main_call2_c_0 : StableHlo.TRef sig ⟨S_, .i32⟩) (constantI S_ 32 2#32),
    StableHlo.TRef.binary (.of main_c_3 : StableHlo.TRef sig ⟨S_, .i32⟩) (.of main_call2_c_0 : StableHlo.TRef sig ⟨S_, .i32⟩) (.of main_call2_v1 : StableHlo.TRef sig ⟨S_, .i32⟩) addi,
    StableHlo.TRef.ternary (.of main_call2_v0 : StableHlo.TRef sig ⟨S_, .i1⟩) (.of main_call2_v1 : StableHlo.TRef sig ⟨S_, .i32⟩) (.of main_c_3 : StableHlo.TRef sig ⟨S_, .i32⟩) (.of main_call2_v2 : StableHlo.TRef sig ⟨S_, .i32⟩) select,
    StableHlo.TRef.unary main_call2_call0.v0 (.of main_call2_v3 : StableHlo.TRef sig ⟨S1, .i32⟩) (broadcastInDim S1 ![] bcast_S_S1),
    StableHlo.TRef.nullary (.of main_call2_c_1 : StableHlo.TRef sig ⟨S1, .i32⟩) (constantI S1 32 1#32),
    StableHlo.TRef.unary (.of main_call2_v3 : StableHlo.TRef sig ⟨S1, .i32⟩) (.of main_call2_v4 : StableHlo.TRef sig ⟨S1, .i32⟩) id,
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v5 : StableHlo.TRef sig ⟨S1, .i32⟩) (broadcastInDim S1 ![] bcast_S_S1),
    StableHlo.TRef.binary (.of main_call2_v4 : StableHlo.TRef sig ⟨S1, .i32⟩) (.of main_call2_v5 : StableHlo.TRef sig ⟨S1, .i32⟩) (.of main_call2_v6 : StableHlo.TRef sig ⟨S1, .i1⟩) (cmpi .sge),
    StableHlo.TRef.binary (.of main_call2_v4 : StableHlo.TRef sig ⟨S1, .i32⟩) (.of main_call2_c_1 : StableHlo.TRef sig ⟨S1, .i32⟩) (.of main_call2_v7 : StableHlo.TRef sig ⟨S1, .i1⟩) (cmpi .sle),
    StableHlo.TRef.binary (.of main_call2_v6 : StableHlo.TRef sig ⟨S1, .i1⟩) (.of main_call2_v7 : StableHlo.TRef sig ⟨S1, .i1⟩) (.of main_call2_v8 : StableHlo.TRef sig ⟨S1, .i1⟩) andi,
    StableHlo.TRef.nullary (.of main_call2_c_3 : StableHlo.TRef sig ⟨S_, .i1⟩) (constantI S_ 1 1#1),
    StableHlo.TRef.binary (.of main_call2_v8 : StableHlo.TRef sig ⟨S1, .i1⟩) (.of main_call2_c_3 : StableHlo.TRef sig ⟨S_, .i1⟩) (.of main_call2_v9 : StableHlo.TRef sig ⟨S_, .i1⟩) (fun x v => Host.reduce IntOp.andi x v reducesTo_S1_S_d0 h_S_),
    StableHlo.TRef.binary (.of main_v30 : StableHlo.TRef sig ⟨S16x2x2x2x2, .f32⟩) (.of main_call2_v4 : StableHlo.TRef sig ⟨S1, .i32⟩) (.of main_call2_v10 : StableHlo.TRef sig ⟨S16x2x2x2, .f32⟩) (fun x i => Host.gather gather_S16x2x2x2x2_S1_S16x2x2x2_0123_1_n_n_1_0_161222 x i),
    StableHlo.TRef.unary (.of main_call2_v9 : StableHlo.TRef sig ⟨S_, .i1⟩) (.of main_call2_v11 : StableHlo.TRef sig ⟨S16x2x2x2, .i1⟩) (broadcastInDim S16x2x2x2 ![] bcast_S_S16x2x2x2),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v12 : StableHlo.TRef sig ⟨S16x2x2x2, .f32⟩) (broadcastInDim S16x2x2x2 ![] bcast_S_S16x2x2x2),
    StableHlo.TRef.ternary (.of main_call2_v11 : StableHlo.TRef sig ⟨S16x2x2x2, .i1⟩) (.of main_call2_v10 : StableHlo.TRef sig ⟨S16x2x2x2, .f32⟩) (.of main_call2_v12 : StableHlo.TRef sig ⟨S16x2x2x2, .f32⟩) (.of main_v31 : StableHlo.TRef sig ⟨S16x2x2x2, .f32⟩) select,
    StableHlo.nullary main_c_4 (constantI S_ 32 1#32),
    StableHlo.TRef.nullary (.of main_call3_c : StableHlo.TRef sig ⟨S_, .i32⟩) (constantI S_ 32 0#32),
    StableHlo.TRef.binary (.of main_c_4 : StableHlo.TRef sig ⟨S_, .i32⟩) (.of main_call3_c : StableHlo.TRef sig ⟨S_, .i32⟩) (.of main_call3_v0 : StableHlo.TRef sig ⟨S_, .i1⟩) (cmpi .slt),
    StableHlo.TRef.nullary (.of main_call3_c_0 : StableHlo.TRef sig ⟨S_, .i32⟩) (constantI S_ 32 2#32),
    StableHlo.TRef.binary (.of main_c_4 : StableHlo.TRef sig ⟨S_, .i32⟩) (.of main_call3_c_0 : StableHlo.TRef sig ⟨S_, .i32⟩) (.of main_call3_v1 : StableHlo.TRef sig ⟨S_, .i32⟩) addi,
    StableHlo.TRef.ternary (.of main_call3_v0 : StableHlo.TRef sig ⟨S_, .i1⟩) (.of main_call3_v1 : StableHlo.TRef sig ⟨S_, .i32⟩) (.of main_c_4 : StableHlo.TRef sig ⟨S_, .i32⟩) (.of main_call3_v2 : StableHlo.TRef sig ⟨S_, .i32⟩) select,
    StableHlo.TRef.unary main_call3_call0.v0 (.of main_call3_v3 : StableHlo.TRef sig ⟨S1, .i32⟩) (broadcastInDim S1 ![] bcast_S_S1),
    StableHlo.TRef.nullary (.of main_call3_c_1 : StableHlo.TRef sig ⟨S1, .i32⟩) (constantI S1 32 1#32),
    StableHlo.TRef.unary (.of main_call3_v3 : StableHlo.TRef sig ⟨S1, .i32⟩) (.of main_call3_v4 : StableHlo.TRef sig ⟨S1, .i32⟩) id,
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v5 : StableHlo.TRef sig ⟨S1, .i32⟩) (broadcastInDim S1 ![] bcast_S_S1),
    StableHlo.TRef.binary (.of main_call3_v4 : StableHlo.TRef sig ⟨S1, .i32⟩) (.of main_call3_v5 : StableHlo.TRef sig ⟨S1, .i32⟩) (.of main_call3_v6 : StableHlo.TRef sig ⟨S1, .i1⟩) (cmpi .sge),
    StableHlo.TRef.binary (.of main_call3_v4 : StableHlo.TRef sig ⟨S1, .i32⟩) (.of main_call3_c_1 : StableHlo.TRef sig ⟨S1, .i32⟩) (.of main_call3_v7 : StableHlo.TRef sig ⟨S1, .i1⟩) (cmpi .sle),
    StableHlo.TRef.binary (.of main_call3_v6 : StableHlo.TRef sig ⟨S1, .i1⟩) (.of main_call3_v7 : StableHlo.TRef sig ⟨S1, .i1⟩) (.of main_call3_v8 : StableHlo.TRef sig ⟨S1, .i1⟩) andi,
    StableHlo.TRef.nullary (.of main_call3_c_3 : StableHlo.TRef sig ⟨S_, .i1⟩) (constantI S_ 1 1#1),
    StableHlo.TRef.binary (.of main_call3_v8 : StableHlo.TRef sig ⟨S1, .i1⟩) (.of main_call3_c_3 : StableHlo.TRef sig ⟨S_, .i1⟩) (.of main_call3_v9 : StableHlo.TRef sig ⟨S_, .i1⟩) (fun x v => Host.reduce IntOp.andi x v reducesTo_S1_S_d0 h_S_),
    StableHlo.TRef.binary (.of main_v30 : StableHlo.TRef sig ⟨S16x2x2x2x2, .f32⟩) (.of main_call3_v4 : StableHlo.TRef sig ⟨S1, .i32⟩) (.of main_call3_v10 : StableHlo.TRef sig ⟨S16x2x2x2, .f32⟩) (fun x i => Host.gather gather_S16x2x2x2x2_S1_S16x2x2x2_0123_1_n_n_1_0_161222 x i),
    StableHlo.TRef.unary (.of main_call3_v9 : StableHlo.TRef sig ⟨S_, .i1⟩) (.of main_call3_v11 : StableHlo.TRef sig ⟨S16x2x2x2, .i1⟩) (broadcastInDim S16x2x2x2 ![] bcast_S_S16x2x2x2),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v12 : StableHlo.TRef sig ⟨S16x2x2x2, .f32⟩) (broadcastInDim S16x2x2x2 ![] bcast_S_S16x2x2x2),
    StableHlo.TRef.ternary (.of main_call3_v11 : StableHlo.TRef sig ⟨S16x2x2x2, .i1⟩) (.of main_call3_v10 : StableHlo.TRef sig ⟨S16x2x2x2, .f32⟩) (.of main_call3_v12 : StableHlo.TRef sig ⟨S16x2x2x2, .f32⟩) (.of main_v32 : StableHlo.TRef sig ⟨S16x2x2x2, .f32⟩) select,
    StableHlo.TRef.unary (.of main_v32 : StableHlo.TRef sig ⟨S16x2x2x2, .f32⟩) (.of main_v33 : StableHlo.TRef sig ⟨S16x2x2x2, .f32⟩) (Host.reverse [1]),
    StableHlo.unary main_v31 main_v34 (broadcastInDim S16x1x2x2x2 ![0, 2, 3, 4] bcast_S16x2x2x2_S16x1x2x2x2_0_2_3_4 : (⟨S16x2x2x2, .f32⟩ : BufTy).Contents (Elt F) → (⟨S16x1x2x2x2, .f32⟩ : BufTy).Contents (Elt F)),
    StableHlo.unary main_v33 main_v35 (broadcastInDim S16x1x2x2x2 ![0, 2, 3, 4] bcast_S16x2x2x2_S16x1x2x2x2_0_2_3_4 : (⟨S16x2x2x2, .f32⟩ : BufTy).Contents (Elt F) → (⟨S16x1x2x2x2, .f32⟩ : BufTy).Contents (Elt F)),
    StableHlo.binary main_v34 main_v35 main_v36 ((fun a b => concatenate S16x2x2x2x2 1 [⟨S16x1x2x2x2, a⟩, ⟨S16x1x2x2x2, b⟩] concatenates_S16x1x2x2x2_S16x1x2x2x2_S16x2x2x2x2_d1) : (⟨S16x1x2x2x2, .f32⟩ : BufTy).Contents (Elt F) → (⟨S16x1x2x2x2, .f32⟩ : BufTy).Contents (Elt F) → (⟨S16x2x2x2x2, .f32⟩ : BufTy).Contents (Elt F)) ]

/-- The buffers stretch 2 writes, one per operation. -/
abbrev hseg2_W : List (Ref sig .tc) := [main_c_3, main_call2_c, main_call2_v0, main_call2_c_0, main_call2_v1, main_call2_v2, main_call2_v3, main_call2_c_1, main_call2_v4, main_call2_c_2, main_call2_v5, main_call2_v6, main_call2_v7, main_call2_v8, main_call2_c_3, main_call2_v9, main_call2_v10, main_call2_v11, main_call2_cst, main_call2_v12, main_v31, main_c_4, main_call3_c, main_call3_v0, main_call3_c_0, main_call3_v1, main_call3_v2, main_call3_v3, main_call3_c_1, main_call3_v4, main_call3_c_2, main_call3_v5, main_call3_v6, main_call3_v7, main_call3_v8, main_call3_c_3, main_call3_v9, main_call3_v10, main_call3_v11, main_call3_cst, main_call3_v12, main_v32, main_v33, main_v34, main_v35, main_v36]

set_option maxRecDepth 65536 in
theorem hseg2_writes : (hseg2 : List (HloOp τ sig (Elt F))).Forall fun op => op.writes ⊆ (hseg2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 2, from any contents `W`, `main_v36` holds the stretch's composed function of what `W` has at the buffers the stretch reads. -/
theorem hseg2_main_v36 (W : Valuation τ sig (Elt F)) :
    after hseg2 W (main_v36 : DevRef τ sig) = kCx0 (W (main_v30 : DevRef τ sig)) := by
  simp only [hseg2]
  after_results_simp
  rfl

/-- Stretch 3 of the host operations before the launch: operations 121 … 183, ending where `main_v57` is written. -/
abbrev hseg3 : List (HloOp τ sig (Elt F)) :=
  [ StableHlo.unary main_arg1 main_v37 ((extractStridedSlice S1 ![1] · slices_S4_S1_1) : (⟨S4, .f32⟩ : BufTy).Contents (Elt F) → (⟨S1, .f32⟩ : BufTy).Contents (Elt F)),
    StableHlo.reshape main_v37 main_v38 rfl shapeCasts_S1_S_,
    StableHlo.nullary main_c_5 (constantI S_ 32 0#32),
    StableHlo.TRef.nullary (.of main_call5_c : StableHlo.TRef sig ⟨S_, .i32⟩) (constantI S_ 32 0#32),
    StableHlo.TRef.binary (.of main_c_5 : StableHlo.TRef sig ⟨S_, .i32⟩) (.of main_call5_c : StableHlo.TRef sig ⟨S_, .i32⟩) (.of main_call5_v0 : StableHlo.TRef sig ⟨S_, .i1⟩) (cmpi .slt),
    StableHlo.TRef.nullary (.of main_call5_c_0 : StableHlo.TRef sig ⟨S_, .i32⟩) (constantI S_ 32 2#32),
    StableHlo.TRef.binary (.of main_c_5 : StableHlo.TRef sig ⟨S_, .i32⟩) (.of main_call5_c_0 : StableHlo.TRef sig ⟨S_, .i32⟩) (.of main_call5_v1 : StableHlo.TRef sig ⟨S_, .i32⟩) addi,
    StableHlo.TRef.ternary (.of main_call5_v0 : StableHlo.TRef sig ⟨S_, .i1⟩) (.of main_call5_v1 : StableHlo.TRef sig ⟨S_, .i32⟩) (.of main_c_5 : StableHlo.TRef sig ⟨S_, .i32⟩) (.of main_call5_v2 : StableHlo.TRef sig ⟨S_, .i32⟩) select,
    StableHlo.TRef.unary main_call5_call0.v0 (.of main_call5_v3 : StableHlo.TRef sig ⟨S1, .i32⟩) (broadcastInDim S1 ![] bcast_S_S1),
    StableHlo.TRef.nullary (.of main_call5_c_1 : StableHlo.TRef sig ⟨S1, .i32⟩) (constantI S1 32 1#32),
    StableHlo.TRef.unary (.of main_call5_v3 : StableHlo.TRef sig ⟨S1, .i32⟩) (.of main_call5_v4 : StableHlo.TRef sig ⟨S1, .i32⟩) id,
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v5 : StableHlo.TRef sig ⟨S1, .i32⟩) (broadcastInDim S1 ![] bcast_S_S1),
    StableHlo.TRef.binary (.of main_call5_v4 : StableHlo.TRef sig ⟨S1, .i32⟩) (.of main_call5_v5 : StableHlo.TRef sig ⟨S1, .i32⟩) (.of main_call5_v6 : StableHlo.TRef sig ⟨S1, .i1⟩) (cmpi .sge),
    StableHlo.TRef.binary (.of main_call5_v4 : StableHlo.TRef sig ⟨S1, .i32⟩) (.of main_call5_c_1 : StableHlo.TRef sig ⟨S1, .i32⟩) (.of main_call5_v7 : StableHlo.TRef sig ⟨S1, .i1⟩) (cmpi .sle),
    StableHlo.TRef.binary (.of main_call5_v6 : StableHlo.TRef sig ⟨S1, .i1⟩) (.of main_call5_v7 : StableHlo.TRef sig ⟨S1, .i1⟩) (.of main_call5_v8 : StableHlo.TRef sig ⟨S1, .i1⟩) andi,
    StableHlo.TRef.nullary (.of main_call5_c_3 : StableHlo.TRef sig ⟨S_, .i1⟩) (constantI S_ 1 1#1),
    StableHlo.TRef.binary (.of main_call5_v8 : StableHlo.TRef sig ⟨S1, .i1⟩) (.of main_call5_c_3 : StableHlo.TRef sig ⟨S_, .i1⟩) (.of main_call5_v9 : StableHlo.TRef sig ⟨S_, .i1⟩) (fun x v => Host.reduce IntOp.andi x v reducesTo_S1_S_d0 h_S_),
    StableHlo.TRef.binary (.of main_v36 : StableHlo.TRef sig ⟨S16x2x2x2x2, .f32⟩) (.of main_call5_v4 : StableHlo.TRef sig ⟨S1, .i32⟩) (.of main_call5_v10 : StableHlo.TRef sig ⟨S16x2x2x2, .f32⟩) (fun x i => Host.gather gather_S16x2x2x2x2_S1_S16x2x2x2_0123_2_n_n_2_0_162122 x i),
    StableHlo.TRef.unary (.of main_call5_v9 : StableHlo.TRef sig ⟨S_, .i1⟩) (.of main_call5_v11 : StableHlo.TRef sig ⟨S16x2x2x2, .i1⟩) (broadcastInDim S16x2x2x2 ![] bcast_S_S16x2x2x2),
    StableHlo.TRef.nullary (.of main_call5_cst : StableHlo.TRef sig ⟨S_, .f32⟩) (constant S_ .f32 0x7FC00000#32),
    StableHlo.TRef.unary (.of main_call5_cst : StableHlo.TRef sig ⟨S_, .f32⟩) (.of main_call5_v12 : StableHlo.TRef sig ⟨S16x2x2x2, .f32⟩) (broadcastInDim S16x2x2x2 ![] bcast_S_S16x2x2x2),
    StableHlo.TRef.ternary (.of main_call5_v11 : StableHlo.TRef sig ⟨S16x2x2x2, .i1⟩) (.of main_call5_v10 : StableHlo.TRef sig ⟨S16x2x2x2, .f32⟩) (.of main_call5_v12 : StableHlo.TRef sig ⟨S16x2x2x2, .f32⟩) (.of main_v39 : StableHlo.TRef sig ⟨S16x2x2x2, .f32⟩) select,
    StableHlo.nullary main_c_6 (constantI S_ 32 1#32),
    StableHlo.TRef.nullary (.of main_call6_c : StableHlo.TRef sig ⟨S_, .i32⟩) (constantI S_ 32 0#32),
    StableHlo.TRef.binary (.of main_c_6 : StableHlo.TRef sig ⟨S_, .i32⟩) (.of main_call6_c : StableHlo.TRef sig ⟨S_, .i32⟩) (.of main_call6_v0 : StableHlo.TRef sig ⟨S_, .i1⟩) (cmpi .slt),
    StableHlo.TRef.nullary (.of main_call6_c_0 : StableHlo.TRef sig ⟨S_, .i32⟩) (constantI S_ 32 2#32),
    StableHlo.TRef.binary (.of main_c_6 : StableHlo.TRef sig ⟨S_, .i32⟩) (.of main_call6_c_0 : StableHlo.TRef sig ⟨S_, .i32⟩) (.of main_call6_v1 : StableHlo.TRef sig ⟨S_, .i32⟩) addi,
    StableHlo.TRef.ternary (.of main_call6_v0 : StableHlo.TRef sig ⟨S_, .i1⟩) (.of main_call6_v1 : StableHlo.TRef sig ⟨S_, .i32⟩) (.of main_c_6 : StableHlo.TRef sig ⟨S_, .i32⟩) (.of main_call6_v2 : StableHlo.TRef sig ⟨S_, .i32⟩) select,
    StableHlo.TRef.unary main_call6_call0.v0 (.of main_call6_v3 : StableHlo.TRef sig ⟨S1, .i32⟩) (broadcastInDim S1 ![] bcast_S_S1),
    StableHlo.TRef.nullary (.of main_call6_c_1 : StableHlo.TRef sig ⟨S1, .i32⟩) (constantI S1 32 1#32),
    StableHlo.TRef.unary (.of main_call6_v3 : StableHlo.TRef sig ⟨S1, .i32⟩) (.of main_call6_v4 : StableHlo.TRef sig ⟨S1, .i32⟩) id,
    StableHlo.TRef.nullary (.of main_call6_c_2 : StableHlo.TRef sig ⟨S_, .i32⟩) (constantI S_ 32 0#32),
    StableHlo.TRef.unary (.of main_call6_c_2 : StableHlo.TRef sig ⟨S_, .i32⟩) (.of main_call6_v5 : StableHlo.TRef sig ⟨S1, .i32⟩) (broadcastInDim S1 ![] bcast_S_S1),
    StableHlo.TRef.binary (.of main_call6_v4 : StableHlo.TRef sig ⟨S1, .i32⟩) (.of main_call6_v5 : StableHlo.TRef sig ⟨S1, .i32⟩) (.of main_call6_v6 : StableHlo.TRef sig ⟨S1, .i1⟩) (cmpi .sge),
    StableHlo.TRef.binary (.of main_call6_v4 : StableHlo.TRef sig ⟨S1, .i32⟩) (.of main_call6_c_1 : StableHlo.TRef sig ⟨S1, .i32⟩) (.of main_call6_v7 : StableHlo.TRef sig ⟨S1, .i1⟩) (cmpi .sle),
    StableHlo.TRef.binary (.of main_call6_v6 : StableHlo.TRef sig ⟨S1, .i1⟩) (.of main_call6_v7 : StableHlo.TRef sig ⟨S1, .i1⟩) (.of main_call6_v8 : StableHlo.TRef sig ⟨S1, .i1⟩) andi,
    StableHlo.TRef.nullary (.of main_call6_c_3 : StableHlo.TRef sig ⟨S_, .i1⟩) (constantI S_ 1 1#1),
    StableHlo.TRef.binary (.of main_call6_v8 : StableHlo.TRef sig ⟨S1, .i1⟩) (.of main_call6_c_3 : StableHlo.TRef sig ⟨S_, .i1⟩) (.of main_call6_v9 : StableHlo.TRef sig ⟨S_, .i1⟩) (fun x v => Host.reduce IntOp.andi x v reducesTo_S1_S_d0 h_S_),
    StableHlo.TRef.binary (.of main_v36 : StableHlo.TRef sig ⟨S16x2x2x2x2, .f32⟩) (.of main_call6_v4 : StableHlo.TRef sig ⟨S1, .i32⟩) (.of main_call6_v10 : StableHlo.TRef sig ⟨S16x2x2x2, .f32⟩) (fun x i => Host.gather gather_S16x2x2x2x2_S1_S16x2x2x2_0123_2_n_n_2_0_162122 x i),
    StableHlo.TRef.unary (.of main_call6_v9 : StableHlo.TRef sig ⟨S_, .i1⟩) (.of main_call6_v11 : StableHlo.TRef sig ⟨S16x2x2x2, .i1⟩) (broadcastInDim S16x2x2x2 ![] bcast_S_S16x2x2x2),
    StableHlo.TRef.nullary (.of main_call6_cst : StableHlo.TRef sig ⟨S_, .f32⟩) (constant S_ .f32 0x7FC00000#32),
    StableHlo.TRef.unary (.of main_call6_cst : StableHlo.TRef sig ⟨S_, .f32⟩) (.of main_call6_v12 : StableHlo.TRef sig ⟨S16x2x2x2, .f32⟩) (broadcastInDim S16x2x2x2 ![] bcast_S_S16x2x2x2),
    StableHlo.TRef.ternary (.of main_call6_v11 : StableHlo.TRef sig ⟨S16x2x2x2, .i1⟩) (.of main_call6_v10 : StableHlo.TRef sig ⟨S16x2x2x2, .f32⟩) (.of main_call6_v12 : StableHlo.TRef sig ⟨S16x2x2x2, .f32⟩) (.of main_v40 : StableHlo.TRef sig ⟨S16x2x2x2, .f32⟩) select,
    StableHlo.nullary main_cst_7 (constant S_ .f32 0x3F000000#32),
    StableHlo.binary main_v38 main_cst_7 main_v41 (mulf : (⟨S_, .f32⟩ : BufTy).Contents (Elt F) → (⟨S_, .f32⟩ : BufTy).Contents (Elt F) → (⟨S_, .f32⟩ : BufTy).Contents (Elt F)),
    StableHlo.unary main_v41 main_v42 (Host.cos : (⟨S_, .f32⟩ : BufTy).Contents (Elt F) → (⟨S_, .f32⟩ : BufTy).Contents (Elt F)),
    StableHlo.nullary main_cst_8 (constant S_ .f32 0x3F000000#32),
    StableHlo.binary main_v38 main_cst_8 main_v43 (mulf : (⟨S_, .f32⟩ : BufTy).Contents (Elt F) → (⟨S_, .f32⟩ : BufTy).Contents (Elt F) → (⟨S_, .f32⟩ : BufTy).Contents (Elt F)),
    StableHlo.unary main_v43 main_v44 (Host.sin : (⟨S_, .f32⟩ : BufTy).Contents (Elt F) → (⟨S_, .f32⟩ : BufTy).Contents (Elt F)),
    StableHlo.unary main_v42 main_v45 (broadcastInDim S16x2x2x2 ![] bcast_S_S16x2x2x2 : (⟨S_, .f32⟩ : BufTy).Contents (Elt F) → (⟨S16x2x2x2, .f32⟩ : BufTy).Contents (Elt F)),
    StableHlo.binary main_v45 main_v39 main_v46 (mulf : (⟨S16x2x2x2, .f32⟩ : BufTy).Contents (Elt F) → (⟨S16x2x2x2, .f32⟩ : BufTy).Contents (Elt F) → (⟨S16x2x2x2, .f32⟩ : BufTy).Contents (Elt F)),
    StableHlo.unary main_v44 main_v47 (broadcastInDim S16x2x2x2 ![] bcast_S_S16x2x2x2 : (⟨S_, .f32⟩ : BufTy).Contents (Elt F) → (⟨S16x2x2x2, .f32⟩ : BufTy).Contents (Elt F)),
    StableHlo.binary main_v47 main_v40 main_v48 (mulf : (⟨S16x2x2x2, .f32⟩ : BufTy).Contents (Elt F) → (⟨S16x2x2x2, .f32⟩ : BufTy).Contents (Elt F) → (⟨S16x2x2x2, .f32⟩ : BufTy).Contents (Elt F)),
    StableHlo.binary main_v46 main_v48 main_v49 (subf : (⟨S16x2x2x2, .f32⟩ : BufTy).Contents (Elt F) → (⟨S16x2x2x2, .f32⟩ : BufTy).Contents (Elt F) → (⟨S16x2x2x2, .f32⟩ : BufTy).Contents (Elt F)),
    StableHlo.unary main_v44 main_v50 (broadcastInDim S16x2x2x2 ![] bcast_S_S16x2x2x2 : (⟨S_, .f32⟩ : BufTy).Contents (Elt F) → (⟨S16x2x2x2, .f32⟩ : BufTy).Contents (Elt F)),
    StableHlo.binary main_v50 main_v39 main_v51 (mulf : (⟨S16x2x2x2, .f32⟩ : BufTy).Contents (Elt F) → (⟨S16x2x2x2, .f32⟩ : BufTy).Contents (Elt F) → (⟨S16x2x2x2, .f32⟩ : BufTy).Contents (Elt F)),
    StableHlo.unary main_v42 main_v52 (broadcastInDim S16x2x2x2 ![] bcast_S_S16x2x2x2 : (⟨S_, .f32⟩ : BufTy).Contents (Elt F) → (⟨S16x2x2x2, .f32⟩ : BufTy).Contents (Elt F)),
    StableHlo.binary main_v52 main_v40 main_v53 (mulf : (⟨S16x2x2x2, .f32⟩ : BufTy).Contents (Elt F) → (⟨S16x2x2x2, .f32⟩ : BufTy).Contents (Elt F) → (⟨S16x2x2x2, .f32⟩ : BufTy).Contents (Elt F)),
    StableHlo.binary main_v51 main_v53 main_v54 (addf : (⟨S16x2x2x2, .f32⟩ : BufTy).Contents (Elt F) → (⟨S16x2x2x2, .f32⟩ : BufTy).Contents (Elt F) → (⟨S16x2x2x2, .f32⟩ : BufTy).Contents (Elt F)),
    StableHlo.unary main_v49 main_v55 (broadcastInDim S16x2x1x2x2 ![0, 1, 3, 4] bcast_S16x2x2x2_S16x2x1x2x2_0_1_3_4 : (⟨S16x2x2x2, .f32⟩ : BufTy).Contents (Elt F) → (⟨S16x2x1x2x2, .f32⟩ : BufTy).Contents (Elt F)),
    StableHlo.unary main_v54 main_v56 (broadcastInDim S16x2x1x2x2 ![0, 1, 3, 4] bcast_S16x2x2x2_S16x2x1x2x2_0_1_3_4 : (⟨S16x2x2x2, .f32⟩ : BufTy).Contents (Elt F) → (⟨S16x2x1x2x2, .f32⟩ : BufTy).Contents (Elt F)),
    StableHlo.binary main_v55 main_v56 main_v57 ((fun a b => concatenate S16x2x2x2x2 2 [⟨S16x2x1x2x2, a⟩, ⟨S16x2x1x2x2, b⟩] concatenates_S16x2x1x2x2_S16x2x1x2x2_S16x2x2x2x2_d2) : (⟨S16x2x1x2x2, .f32⟩ : BufTy).Contents (Elt F) → (⟨S16x2x1x2x2, .f32⟩ : BufTy).Contents (Elt F) → (⟨S16x2x2x2x2, .f32⟩ : BufTy).Contents (Elt F)) ]

/-- The buffers stretch 3 writes, one per operation. -/
abbrev hseg3_W : List (Ref sig .tc) := [main_v37, main_v38, main_c_5, main_call5_c, main_call5_v0, main_call5_c_0, main_call5_v1, main_call5_v2, main_call5_v3, main_call5_c_1, main_call5_v4, main_call5_c_2, main_call5_v5, main_call5_v6, main_call5_v7, main_call5_v8, main_call5_c_3, main_call5_v9, main_call5_v10, main_call5_v11, main_call5_cst, main_call5_v12, main_v39, main_c_6, main_call6_c, main_call6_v0, main_call6_c_0, main_call6_v1, main_call6_v2, main_call6_v3, main_call6_c_1, main_call6_v4, main_call6_c_2, main_call6_v5, main_call6_v6, main_call6_v7, main_call6_v8, main_call6_c_3, main_call6_v9, main_call6_v10, main_call6_v11, main_call6_cst, main_call6_v12, main_v40, main_cst_7, main_v41, main_v42, main_cst_8, main_v43, main_v44, main_v45, main_v46, main_v47, main_v48, main_v49, main_v50, main_v51, main_v52, main_v53, main_v54, main_v55, main_v56, main_v57]

set_option maxRecDepth 65536 in
theorem hseg3_writes : (hseg3 : List (HloOp τ sig (Elt F))).Forall fun op => op.writes ⊆ (hseg3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 3, from any contents `W`, `main_v57` holds the stretch's composed function of what `W` has at the buffers the stretch reads. -/
theorem hseg3_main_v57 (W : Valuation τ sig (Elt F)) :
    after hseg3 W (main_v57 : DevRef τ sig) = kRyP1 (W (main_v36 : DevRef τ sig)) (W (main_arg1 : DevRef τ sig)) := by
  simp only [hseg3]
  after_results_simp
  rfl

/-- Stretch 4 of the host operations before the launch: operations 184 … 229, ending where `main_v63` is written. -/
abbrev hseg4 : List (HloOp τ sig (Elt F)) :=
  [ StableHlo.nullary main_c_9 (constantI S_ 32 0#32),
    StableHlo.TRef.nullary (.of main_call7_c : StableHlo.TRef sig ⟨S_, .i32⟩) (constantI S_ 32 0#32),
    StableHlo.TRef.binary (.of main_c_9 : StableHlo.TRef sig ⟨S_, .i32⟩) (.of main_call7_c : StableHlo.TRef sig ⟨S_, .i32⟩) (.of main_call7_v0 : StableHlo.TRef sig ⟨S_, .i1⟩) (cmpi .slt),
    StableHlo.TRef.nullary (.of main_call7_c_0 : StableHlo.TRef sig ⟨S_, .i32⟩) (constantI S_ 32 2#32),
    StableHlo.TRef.binary (.of main_c_9 : StableHlo.TRef sig ⟨S_, .i32⟩) (.of main_call7_c_0 : StableHlo.TRef sig ⟨S_, .i32⟩) (.of main_call7_v1 : StableHlo.TRef sig ⟨S_, .i32⟩) addi,
    StableHlo.TRef.ternary (.of main_call7_v0 : StableHlo.TRef sig ⟨S_, .i1⟩) (.of main_call7_v1 : StableHlo.TRef sig ⟨S_, .i32⟩) (.of main_c_9 : StableHlo.TRef sig ⟨S_, .i32⟩) (.of main_call7_v2 : StableHlo.TRef sig ⟨S_, .i32⟩) select,
    StableHlo.TRef.unary main_call7_call0.v0 (.of main_call7_v3 : StableHlo.TRef sig ⟨S1, .i32⟩) (broadcastInDim S1 ![] bcast_S_S1),
    StableHlo.TRef.nullary (.of main_call7_c_1 : StableHlo.TRef sig ⟨S1, .i32⟩) (constantI S1 32 1#32),
    StableHlo.TRef.unary (.of main_call7_v3 : StableHlo.TRef sig ⟨S1, .i32⟩) (.of main_call7_v4 : StableHlo.TRef sig ⟨S1, .i32⟩) id,
    StableHlo.TRef.nullary (.of main_call7_c_2 : StableHlo.TRef sig ⟨S_, .i32⟩) (constantI S_ 32 0#32),
    StableHlo.TRef.unary (.of main_call7_c_2 : StableHlo.TRef sig ⟨S_, .i32⟩) (.of main_call7_v5 : StableHlo.TRef sig ⟨S1, .i32⟩) (broadcastInDim S1 ![] bcast_S_S1),
    StableHlo.TRef.binary (.of main_call7_v4 : StableHlo.TRef sig ⟨S1, .i32⟩) (.of main_call7_v5 : StableHlo.TRef sig ⟨S1, .i32⟩) (.of main_call7_v6 : StableHlo.TRef sig ⟨S1, .i1⟩) (cmpi .sge),
    StableHlo.TRef.binary (.of main_call7_v4 : StableHlo.TRef sig ⟨S1, .i32⟩) (.of main_call7_c_1 : StableHlo.TRef sig ⟨S1, .i32⟩) (.of main_call7_v7 : StableHlo.TRef sig ⟨S1, .i1⟩) (cmpi .sle),
    StableHlo.TRef.binary (.of main_call7_v6 : StableHlo.TRef sig ⟨S1, .i1⟩) (.of main_call7_v7 : StableHlo.TRef sig ⟨S1, .i1⟩) (.of main_call7_v8 : StableHlo.TRef sig ⟨S1, .i1⟩) andi,
    StableHlo.TRef.nullary (.of main_call7_c_3 : StableHlo.TRef sig ⟨S_, .i1⟩) (constantI S_ 1 1#1),
    StableHlo.TRef.binary (.of main_call7_v8 : StableHlo.TRef sig ⟨S1, .i1⟩) (.of main_call7_c_3 : StableHlo.TRef sig ⟨S_, .i1⟩) (.of main_call7_v9 : StableHlo.TRef sig ⟨S_, .i1⟩) (fun x v => Host.reduce IntOp.andi x v reducesTo_S1_S_d0 h_S_),
    StableHlo.TRef.binary (.of main_v57 : StableHlo.TRef sig ⟨S16x2x2x2x2, .f32⟩) (.of main_call7_v4 : StableHlo.TRef sig ⟨S1, .i32⟩) (.of main_call7_v10 : StableHlo.TRef sig ⟨S16x2x2x2, .f32⟩) (fun x i => Host.gather gather_S16x2x2x2x2_S1_S16x2x2x2_0123_2_n_n_2_0_162122 x i),
    StableHlo.TRef.unary (.of main_call7_v9 : StableHlo.TRef sig ⟨S_, .i1⟩) (.of main_call7_v11 : StableHlo.TRef sig ⟨S16x2x2x2, .i1⟩) (broadcastInDim S16x2x2x2 ![] bcast_S_S16x2x2x2),
    StableHlo.TRef.nullary (.of main_call7_cst : StableHlo.TRef sig ⟨S_, .f32⟩) (constant S_ .f32 0x7FC00000#32),
    StableHlo.TRef.unary (.of main_call7_cst : StableHlo.TRef sig ⟨S_, .f32⟩) (.of main_call7_v12 : StableHlo.TRef sig ⟨S16x2x2x2, .f32⟩) (broadcastInDim S16x2x2x2 ![] bcast_S_S16x2x2x2),
    StableHlo.TRef.ternary (.of main_call7_v11 : StableHlo.TRef sig ⟨S16x2x2x2, .i1⟩) (.of main_call7_v10 : StableHlo.TRef sig ⟨S16x2x2x2, .f32⟩) (.of main_call7_v12 : StableHlo.TRef sig ⟨S16x2x2x2, .f32⟩) (.of main_v58 : StableHlo.TRef sig ⟨S16x2x2x2, .f32⟩) select,
    StableHlo.nullary main_c_10 (constantI S_ 32 1#32),
    StableHlo.TRef.nullary (.of main_call8_c : StableHlo.TRef sig ⟨S_, .i32⟩) (constantI S_ 32 0#32),
    StableHlo.TRef.binary (.of main_c_10 : StableHlo.TRef sig ⟨S_, .i32⟩) (.of main_call8_c : StableHlo.TRef sig ⟨S_, .i32⟩) (.of main_call8_v0 : StableHlo.TRef sig ⟨S_, .i1⟩) (cmpi .slt),
    StableHlo.TRef.nullary (.of main_call8_c_0 : StableHlo.TRef sig ⟨S_, .i32⟩) (constantI S_ 32 2#32),
    StableHlo.TRef.binary (.of main_c_10 : StableHlo.TRef sig ⟨S_, .i32⟩) (.of main_call8_c_0 : StableHlo.TRef sig ⟨S_, .i32⟩) (.of main_call8_v1 : StableHlo.TRef sig ⟨S_, .i32⟩) addi,
    StableHlo.TRef.ternary (.of main_call8_v0 : StableHlo.TRef sig ⟨S_, .i1⟩) (.of main_call8_v1 : StableHlo.TRef sig ⟨S_, .i32⟩) (.of main_c_10 : StableHlo.TRef sig ⟨S_, .i32⟩) (.of main_call8_v2 : StableHlo.TRef sig ⟨S_, .i32⟩) select,
    StableHlo.TRef.unary main_call8_call0.v0 (.of main_call8_v3 : StableHlo.TRef sig ⟨S1, .i32⟩) (broadcastInDim S1 ![] bcast_S_S1),
    StableHlo.TRef.nullary (.of main_call8_c_1 : StableHlo.TRef sig ⟨S1, .i32⟩) (constantI S1 32 1#32),
    StableHlo.TRef.unary (.of main_call8_v3 : StableHlo.TRef sig ⟨S1, .i32⟩) (.of main_call8_v4 : StableHlo.TRef sig ⟨S1, .i32⟩) id,
    StableHlo.TRef.nullary (.of main_call8_c_2 : StableHlo.TRef sig ⟨S_, .i32⟩) (constantI S_ 32 0#32),
    StableHlo.TRef.unary (.of main_call8_c_2 : StableHlo.TRef sig ⟨S_, .i32⟩) (.of main_call8_v5 : StableHlo.TRef sig ⟨S1, .i32⟩) (broadcastInDim S1 ![] bcast_S_S1),
    StableHlo.TRef.binary (.of main_call8_v4 : StableHlo.TRef sig ⟨S1, .i32⟩) (.of main_call8_v5 : StableHlo.TRef sig ⟨S1, .i32⟩) (.of main_call8_v6 : StableHlo.TRef sig ⟨S1, .i1⟩) (cmpi .sge),
    StableHlo.TRef.binary (.of main_call8_v4 : StableHlo.TRef sig ⟨S1, .i32⟩) (.of main_call8_c_1 : StableHlo.TRef sig ⟨S1, .i32⟩) (.of main_call8_v7 : StableHlo.TRef sig ⟨S1, .i1⟩) (cmpi .sle),
    StableHlo.TRef.binary (.of main_call8_v6 : StableHlo.TRef sig ⟨S1, .i1⟩) (.of main_call8_v7 : StableHlo.TRef sig ⟨S1, .i1⟩) (.of main_call8_v8 : StableHlo.TRef sig ⟨S1, .i1⟩) andi,
    StableHlo.TRef.nullary (.of main_call8_c_3 : StableHlo.TRef sig ⟨S_, .i1⟩) (constantI S_ 1 1#1),
    StableHlo.TRef.binary (.of main_call8_v8 : StableHlo.TRef sig ⟨S1, .i1⟩) (.of main_call8_c_3 : StableHlo.TRef sig ⟨S_, .i1⟩) (.of main_call8_v9 : StableHlo.TRef sig ⟨S_, .i1⟩) (fun x v => Host.reduce IntOp.andi x v reducesTo_S1_S_d0 h_S_),
    StableHlo.TRef.binary (.of main_v57 : StableHlo.TRef sig ⟨S16x2x2x2x2, .f32⟩) (.of main_call8_v4 : StableHlo.TRef sig ⟨S1, .i32⟩) (.of main_call8_v10 : StableHlo.TRef sig ⟨S16x2x2x2, .f32⟩) (fun x i => Host.gather gather_S16x2x2x2x2_S1_S16x2x2x2_0123_2_n_n_2_0_162122 x i),
    StableHlo.TRef.unary (.of main_call8_v9 : StableHlo.TRef sig ⟨S_, .i1⟩) (.of main_call8_v11 : StableHlo.TRef sig ⟨S16x2x2x2, .i1⟩) (broadcastInDim S16x2x2x2 ![] bcast_S_S16x2x2x2),
    StableHlo.TRef.nullary (.of main_call8_cst : StableHlo.TRef sig ⟨S_, .f32⟩) (constant S_ .f32 0x7FC00000#32),
    StableHlo.TRef.unary (.of main_call8_cst : StableHlo.TRef sig ⟨S_, .f32⟩) (.of main_call8_v12 : StableHlo.TRef sig ⟨S16x2x2x2, .f32⟩) (broadcastInDim S16x2x2x2 ![] bcast_S_S16x2x2x2),
    StableHlo.TRef.ternary (.of main_call8_v11 : StableHlo.TRef sig ⟨S16x2x2x2, .i1⟩) (.of main_call8_v10 : StableHlo.TRef sig ⟨S16x2x2x2, .f32⟩) (.of main_call8_v12 : StableHlo.TRef sig ⟨S16x2x2x2, .f32⟩) (.of main_v59 : StableHlo.TRef sig ⟨S16x2x2x2, .f32⟩) select,
    StableHlo.TRef.unary (.of main_v59 : StableHlo.TRef sig ⟨S16x2x2x2, .f32⟩) (.of main_v60 : StableHlo.TRef sig ⟨S16x2x2x2, .f32⟩) (Host.reverse [2]),
    StableHlo.unary main_v58 main_v61 (broadcastInDim S16x2x1x2x2 ![0, 1, 3, 4] bcast_S16x2x2x2_S16x2x1x2x2_0_1_3_4 : (⟨S16x2x2x2, .f32⟩ : BufTy).Contents (Elt F) → (⟨S16x2x1x2x2, .f32⟩ : BufTy).Contents (Elt F)),
    StableHlo.unary main_v60 main_v62 (broadcastInDim S16x2x1x2x2 ![0, 1, 3, 4] bcast_S16x2x2x2_S16x2x1x2x2_0_1_3_4 : (⟨S16x2x2x2, .f32⟩ : BufTy).Contents (Elt F) → (⟨S16x2x1x2x2, .f32⟩ : BufTy).Contents (Elt F)),
    StableHlo.binary main_v61 main_v62 main_v63 ((fun a b => concatenate S16x2x2x2x2 2 [⟨S16x2x1x2x2, a⟩, ⟨S16x2x1x2x2, b⟩] concatenates_S16x2x1x2x2_S16x2x1x2x2_S16x2x2x2x2_d2) : (⟨S16x2x1x2x2, .f32⟩ : BufTy).Contents (Elt F) → (⟨S16x2x1x2x2, .f32⟩ : BufTy).Contents (Elt F) → (⟨S16x2x2x2x2, .f32⟩ : BufTy).Contents (Elt F)) ]

/-- The buffers stretch 4 writes, one per operation. -/
abbrev hseg4_W : List (Ref sig .tc) := [main_c_9, main_call7_c, main_call7_v0, main_call7_c_0, main_call7_v1, main_call7_v2, main_call7_v3, main_call7_c_1, main_call7_v4, main_call7_c_2, main_call7_v5, main_call7_v6, main_call7_v7, main_call7_v8, main_call7_c_3, main_call7_v9, main_call7_v10, main_call7_v11, main_call7_cst, main_call7_v12, main_v58, main_c_10, main_call8_c, main_call8_v0, main_call8_c_0, main_call8_v1, main_call8_v2, main_call8_v3, main_call8_c_1, main_call8_v4, main_call8_c_2, main_call8_v5, main_call8_v6, main_call8_v7, main_call8_v8, main_call8_c_3, main_call8_v9, main_call8_v10, main_call8_v11, main_call8_cst, main_call8_v12, main_v59, main_v60, main_v61, main_v62, main_v63]

set_option maxRecDepth 65536 in
theorem hseg4_writes : (hseg4 : List (HloOp τ sig (Elt F))).Forall fun op => op.writes ⊆ (hseg4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 4, from any contents `W`, `main_v63` holds the stretch's composed function of what `W` has at the buffers the stretch reads. -/
theorem hseg4_main_v63 (W : Valuation τ sig (Elt F)) :
    after hseg4 W (main_v63 : DevRef τ sig) = kCx1 (W (main_v57 : DevRef τ sig)) := by
  simp only [hseg4]
  after_results_simp
  rfl

end Cert.KernelIdeal.KerHost

end
-- ==== Proof.KerHostSeg1.lean ====
/- Stretches 5 … 10 of the kernel program's host operations before its launch (a stretch ends where a state of the
   array of sixteen simulated registers, or one of the arrays before the first and after the last state, is written):
   each as the list of its operations, the list of the buffers it writes, and its result as the stretch's composed
   function of the buffers it reads. -/
import proofs.«159359_j65481071398168_2_alg».proof.Proof.KerHostDefs
import Idealize.ShloMosaic.Lib.StableHlo.Run

set_option synthInstance.maxSize 4096

noncomputable section

namespace Cert.KernelIdeal.KerHost

open Cert.KernelIdeal Idealize.ShloMosaic Idealize.ShloMosaic.TcCoe Idealize.SL.Sem Idealize.ShloMosaic.StableHlo
open Cert.KernelIdeal.Facts₀ Cert.KernelIdeal.Facts

variable {F : FTy → Type} [FloatOps F] [Facts]

/-- Stretch 5 of the host operations before the launch: operations 230 … 292, ending where `main_v84` is written. -/
abbrev hseg5 : List (HloOp τ sig (Elt F)) :=
  [ StableHlo.unary main_arg1 main_v64 ((extractStridedSlice S1 ![2] · slices_S4_S1_2) : (⟨S4, .f32⟩ : BufTy).Contents (Elt F) → (⟨S1, .f32⟩ : BufTy).Contents (Elt F)),
    StableHlo.reshape main_v64 main_v65 rfl shapeCasts_S1_S_,
    StableHlo.nullary main_c_11 (constantI S_ 32 0#32),
    StableHlo.TRef.nullary (.of main_call10_c : StableHlo.TRef sig ⟨S_, .i32⟩) (constantI S_ 32 0#32),
    StableHlo.TRef.binary (.of main_c_11 : StableHlo.TRef sig ⟨S_, .i32⟩) (.of main_call10_c : StableHlo.TRef sig ⟨S_, .i32⟩) (.of main_call10_v0 : StableHlo.TRef sig ⟨S_, .i1⟩) (cmpi .slt),
    StableHlo.TRef.nullary (.of main_call10_c_0 : StableHlo.TRef sig ⟨S_, .i32⟩) (constantI S_ 32 2#32),
    StableHlo.TRef.binary (.of main_c_11 : StableHlo.TRef sig ⟨S_, .i32⟩) (.of main_call10_c_0 : StableHlo.TRef sig ⟨S_, .i32⟩) (.of main_call10_v1 : StableHlo.TRef sig ⟨S_, .i32⟩) addi,
    StableHlo.TRef.ternary (.of main_call10_v0 : StableHlo.TRef sig ⟨S_, .i1⟩) (.of main_call10_v1 : StableHlo.TRef sig ⟨S_, .i32⟩) (.of main_c_11 : StableHlo.TRef sig ⟨S_, .i32⟩) (.of main_call10_v2 : StableHlo.TRef sig ⟨S_, .i32⟩) select,
    StableHlo.TRef.unary main_call10_call0.v0 (.of main_call10_v3 : StableHlo.TRef sig ⟨S1, .i32⟩) (broadcastInDim S1 ![] bcast_S_S1),
    StableHlo.TRef.nullary (.of main_call10_c_1 : StableHlo.TRef sig ⟨S1, .i32⟩) (constantI S1 32 1#32),
    StableHlo.TRef.unary (.of main_call10_v3 : StableHlo.TRef sig ⟨S1, .i32⟩) (.of main_call10_v4 : StableHlo.TRef sig ⟨S1, .i32⟩) id,
    StableHlo.TRef.nullary (.of main_call10_c_2 : StableHlo.TRef sig ⟨S_, .i32⟩) (constantI S_ 32 0#32),
    StableHlo.TRef.unary (.of main_call10_c_2 : StableHlo.TRef sig ⟨S_, .i32⟩) (.of main_call10_v5 : StableHlo.TRef sig ⟨S1, .i32⟩) (broadcastInDim S1 ![] bcast_S_S1),
    StableHlo.TRef.binary (.of main_call10_v4 : StableHlo.TRef sig ⟨S1, .i32⟩) (.of main_call10_v5 : StableHlo.TRef sig ⟨S1, .i32⟩) (.of main_call10_v6 : StableHlo.TRef sig ⟨S1, .i1⟩) (cmpi .sge),
    StableHlo.TRef.binary (.of main_call10_v4 : StableHlo.TRef sig ⟨S1, .i32⟩) (.of main_call10_c_1 : StableHlo.TRef sig ⟨S1, .i32⟩) (.of main_call10_v7 : StableHlo.TRef sig ⟨S1, .i1⟩) (cmpi .sle),
    StableHlo.TRef.binary (.of main_call10_v6 : StableHlo.TRef sig ⟨S1, .i1⟩) (.of main_call10_v7 : StableHlo.TRef sig ⟨S1, .i1⟩) (.of main_call10_v8 : StableHlo.TRef sig ⟨S1, .i1⟩) andi,
    StableHlo.TRef.nullary (.of main_call10_c_3 : StableHlo.TRef sig ⟨S_, .i1⟩) (constantI S_ 1 1#1),
    StableHlo.TRef.binary (.of main_call10_v8 : StableHlo.TRef sig ⟨S1, .i1⟩) (.of main_call10_c_3 : StableHlo.TRef sig ⟨S_, .i1⟩) (.of main_call10_v9 : StableHlo.TRef sig ⟨S_, .i1⟩) (fun x v => Host.reduce IntOp.andi x v reducesTo_S1_S_d0 h_S_),
    StableHlo.TRef.binary (.of main_v63 : StableHlo.TRef sig ⟨S16x2x2x2x2, .f32⟩) (.of main_call10_v4 : StableHlo.TRef sig ⟨S1, .i32⟩) (.of main_call10_v10 : StableHlo.TRef sig ⟨S16x2x2x2, .f32⟩) (fun x i => Host.gather gather_S16x2x2x2x2_S1_S16x2x2x2_0123_3_n_n_3_0_162212 x i),
    StableHlo.TRef.unary (.of main_call10_v9 : StableHlo.TRef sig ⟨S_, .i1⟩) (.of main_call10_v11 : StableHlo.TRef sig ⟨S16x2x2x2, .i1⟩) (broadcastInDim S16x2x2x2 ![] bcast_S_S16x2x2x2),
    StableHlo.TRef.nullary (.of main_call10_cst : StableHlo.TRef sig ⟨S_, .f32⟩) (constant S_ .f32 0x7FC00000#32),
    StableHlo.TRef.unary (.of main_call10_cst : StableHlo.TRef sig ⟨S_, .f32⟩) (.of main_call10_v12 : StableHlo.TRef sig ⟨S16x2x2x2, .f32⟩) (broadcastInDim S16x2x2x2 ![] bcast_S_S16x2x2x2),
    StableHlo.TRef.ternary (.of main_call10_v11 : StableHlo.TRef sig ⟨S16x2x2x2, .i1⟩) (.of main_call10_v10 : StableHlo.TRef sig ⟨S16x2x2x2, .f32⟩) (.of main_call10_v12 : StableHlo.TRef sig ⟨S16x2x2x2, .f32⟩) (.of main_v66 : StableHlo.TRef sig ⟨S16x2x2x2, .f32⟩) select,
    StableHlo.nullary main_c_12 (constantI S_ 32 1#32),
    StableHlo.TRef.nullary (.of main_call11_c : StableHlo.TRef sig ⟨S_, .i32⟩) (constantI S_ 32 0#32),
    StableHlo.TRef.binary (.of main_c_12 : StableHlo.TRef sig ⟨S_, .i32⟩) (.of main_call11_c : StableHlo.TRef sig ⟨S_, .i32⟩) (.of main_call11_v0 : StableHlo.TRef sig ⟨S_, .i1⟩) (cmpi .slt),
    StableHlo.TRef.nullary (.of main_call11_c_0 : StableHlo.TRef sig ⟨S_, .i32⟩) (constantI S_ 32 2#32),
    StableHlo.TRef.binary (.of main_c_12 : StableHlo.TRef sig ⟨S_, .i32⟩) (.of main_call11_c_0 : StableHlo.TRef sig ⟨S_, .i32⟩) (.of main_call11_v1 : StableHlo.TRef sig ⟨S_, .i32⟩) addi,
    StableHlo.TRef.ternary (.of main_call11_v0 : StableHlo.TRef sig ⟨S_, .i1⟩) (.of main_call11_v1 : StableHlo.TRef sig ⟨S_, .i32⟩) (.of main_c_12 : StableHlo.TRef sig ⟨S_, .i32⟩) (.of main_call11_v2 : StableHlo.TRef sig ⟨S_, .i32⟩) select,
    StableHlo.TRef.unary main_call11_call0.v0 (.of main_call11_v3 : StableHlo.TRef sig ⟨S1, .i32⟩) (broadcastInDim S1 ![] bcast_S_S1),
    StableHlo.TRef.nullary (.of main_call11_c_1 : StableHlo.TRef sig ⟨S1, .i32⟩) (constantI S1 32 1#32),
    StableHlo.TRef.unary (.of main_call11_v3 : StableHlo.TRef sig ⟨S1, .i32⟩) (.of main_call11_v4 : StableHlo.TRef sig ⟨S1, .i32⟩) id,
    StableHlo.TRef.nullary (.of main_call11_c_2 : StableHlo.TRef sig ⟨S_, .i32⟩) (constantI S_ 32 0#32),
    StableHlo.TRef.unary (.of main_call11_c_2 : StableHlo.TRef sig ⟨S_, .i32⟩) (.of main_call11_v5 : StableHlo.TRef sig ⟨S1, .i32⟩) (broadcastInDim S1 ![] bcast_S_S1),
    StableHlo.TRef.binary (.of main_call11_v4 : StableHlo.TRef sig ⟨S1, .i32⟩) (.of main_call11_v5 : StableHlo.TRef sig ⟨S1, .i32⟩) (.of main_call11_v6 : StableHlo.TRef sig ⟨S1, .i1⟩) (cmpi .sge),
    StableHlo.TRef.binary (.of main_call11_v4 : StableHlo.TRef sig ⟨S1, .i32⟩) (.of main_call11_c_1 : StableHlo.TRef sig ⟨S1, .i32⟩) (.of main_call11_v7 : StableHlo.TRef sig ⟨S1, .i1⟩) (cmpi .sle),
    StableHlo.TRef.binary (.of main_call11_v6 : StableHlo.TRef sig ⟨S1, .i1⟩) (.of main_call11_v7 : StableHlo.TRef sig ⟨S1, .i1⟩) (.of main_call11_v8 : StableHlo.TRef sig ⟨S1, .i1⟩) andi,
    StableHlo.TRef.nullary (.of main_call11_c_3 : StableHlo.TRef sig ⟨S_, .i1⟩) (constantI S_ 1 1#1),
    StableHlo.TRef.binary (.of main_call11_v8 : StableHlo.TRef sig ⟨S1, .i1⟩) (.of main_call11_c_3 : StableHlo.TRef sig ⟨S_, .i1⟩) (.of main_call11_v9 : StableHlo.TRef sig ⟨S_, .i1⟩) (fun x v => Host.reduce IntOp.andi x v reducesTo_S1_S_d0 h_S_),
    StableHlo.TRef.binary (.of main_v63 : StableHlo.TRef sig ⟨S16x2x2x2x2, .f32⟩) (.of main_call11_v4 : StableHlo.TRef sig ⟨S1, .i32⟩) (.of main_call11_v10 : StableHlo.TRef sig ⟨S16x2x2x2, .f32⟩) (fun x i => Host.gather gather_S16x2x2x2x2_S1_S16x2x2x2_0123_3_n_n_3_0_162212 x i),
    StableHlo.TRef.unary (.of main_call11_v9 : StableHlo.TRef sig ⟨S_, .i1⟩) (.of main_call11_v11 : StableHlo.TRef sig ⟨S16x2x2x2, .i1⟩) (broadcastInDim S16x2x2x2 ![] bcast_S_S16x2x2x2),
    StableHlo.TRef.nullary (.of main_call11_cst : StableHlo.TRef sig ⟨S_, .f32⟩) (constant S_ .f32 0x7FC00000#32),
    StableHlo.TRef.unary (.of main_call11_cst : StableHlo.TRef sig ⟨S_, .f32⟩) (.of main_call11_v12 : StableHlo.TRef sig ⟨S16x2x2x2, .f32⟩) (broadcastInDim S16x2x2x2 ![] bcast_S_S16x2x2x2),
    StableHlo.TRef.ternary (.of main_call11_v11 : StableHlo.TRef sig ⟨S16x2x2x2, .i1⟩) (.of main_call11_v10 : StableHlo.TRef sig ⟨S16x2x2x2, .f32⟩) (.of main_call11_v12 : StableHlo.TRef sig ⟨S16x2x2x2, .f32⟩) (.of main_v67 : StableHlo.TRef sig ⟨S16x2x2x2, .f32⟩) select,
    StableHlo.nullary main_cst_13 (constant S_ .f32 0x3F000000#32),
    StableHlo.binary main_v65 main_cst_13 main_v68 (mulf : (⟨S_, .f32⟩ : BufTy).Contents (Elt F) → (⟨S_, .f32⟩ : BufTy).Contents (Elt F) → (⟨S_, .f32⟩ : BufTy).Contents (Elt F)),
    StableHlo.unary main_v68 main_v69 (Host.cos : (⟨S_, .f32⟩ : BufTy).Contents (Elt F) → (⟨S_, .f32⟩ : BufTy).Contents (Elt F)),
    StableHlo.nullary main_cst_14 (constant S_ .f32 0x3F000000#32),
    StableHlo.binary main_v65 main_cst_14 main_v70 (mulf : (⟨S_, .f32⟩ : BufTy).Contents (Elt F) → (⟨S_, .f32⟩ : BufTy).Contents (Elt F) → (⟨S_, .f32⟩ : BufTy).Contents (Elt F)),
    StableHlo.unary main_v70 main_v71 (Host.sin : (⟨S_, .f32⟩ : BufTy).Contents (Elt F) → (⟨S_, .f32⟩ : BufTy).Contents (Elt F)),
    StableHlo.unary main_v69 main_v72 (broadcastInDim S16x2x2x2 ![] bcast_S_S16x2x2x2 : (⟨S_, .f32⟩ : BufTy).Contents (Elt F) → (⟨S16x2x2x2, .f32⟩ : BufTy).Contents (Elt F)),
    StableHlo.binary main_v72 main_v66 main_v73 (mulf : (⟨S16x2x2x2, .f32⟩ : BufTy).Contents (Elt F) → (⟨S16x2x2x2, .f32⟩ : BufTy).Contents (Elt F) → (⟨S16x2x2x2, .f32⟩ : BufTy).Contents (Elt F)),
    StableHlo.unary main_v71 main_v74 (broadcastInDim S16x2x2x2 ![] bcast_S_S16x2x2x2 : (⟨S_, .f32⟩ : BufTy).Contents (Elt F) → (⟨S16x2x2x2, .f32⟩ : BufTy).Contents (Elt F)),
    StableHlo.binary main_v74 main_v67 main_v75 (mulf : (⟨S16x2x2x2, .f32⟩ : BufTy).Contents (Elt F) → (⟨S16x2x2x2, .f32⟩ : BufTy).Contents (Elt F) → (⟨S16x2x2x2, .f32⟩ : BufTy).Contents (Elt F)),
    StableHlo.binary main_v73 main_v75 main_v76 (subf : (⟨S16x2x2x2, .f32⟩ : BufTy).Contents (Elt F) → (⟨S16x2x2x2, .f32⟩ : BufTy).Contents (Elt F) → (⟨S16x2x2x2, .f32⟩ : BufTy).Contents (Elt F)),
    StableHlo.unary main_v71 main_v77 (broadcastInDim S16x2x2x2 ![] bcast_S_S16x2x2x2 : (⟨S_, .f32⟩ : BufTy).Contents (Elt F) → (⟨S16x2x2x2, .f32⟩ : BufTy).Contents (Elt F)),
    StableHlo.binary main_v77 main_v66 main_v78 (mulf : (⟨S16x2x2x2, .f32⟩ : BufTy).Contents (Elt F) → (⟨S16x2x2x2, .f32⟩ : BufTy).Contents (Elt F) → (⟨S16x2x2x2, .f32⟩ : BufTy).Contents (Elt F)),
    StableHlo.unary main_v69 main_v79 (broadcastInDim S16x2x2x2 ![] bcast_S_S16x2x2x2 : (⟨S_, .f32⟩ : BufTy).Contents (Elt F) → (⟨S16x2x2x2, .f32⟩ : BufTy).Contents (Elt F)),
    StableHlo.binary main_v79 main_v67 main_v80 (mulf : (⟨S16x2x2x2, .f32⟩ : BufTy).Contents (Elt F) → (⟨S16x2x2x2, .f32⟩ : BufTy).Contents (Elt F) → (⟨S16x2x2x2, .f32⟩ : BufTy).Contents (Elt F)),
    StableHlo.binary main_v78 main_v80 main_v81 (addf : (⟨S16x2x2x2, .f32⟩ : BufTy).Contents (Elt F) → (⟨S16x2x2x2, .f32⟩ : BufTy).Contents (Elt F) → (⟨S16x2x2x2, .f32⟩ : BufTy).Contents (Elt F)),
    StableHlo.unary main_v76 main_v82 (broadcastInDim S16x2x2x1x2 ![0, 1, 2, 4] bcast_S16x2x2x2_S16x2x2x1x2_0_1_2_4 : (⟨S16x2x2x2, .f32⟩ : BufTy).Contents (Elt F) → (⟨S16x2x2x1x2, .f32⟩ : BufTy).Contents (Elt F)),
    StableHlo.unary main_v81 main_v83 (broadcastInDim S16x2x2x1x2 ![0, 1, 2, 4] bcast_S16x2x2x2_S16x2x2x1x2_0_1_2_4 : (⟨S16x2x2x2, .f32⟩ : BufTy).Contents (Elt F) → (⟨S16x2x2x1x2, .f32⟩ : BufTy).Contents (Elt F)),
    StableHlo.binary main_v82 main_v83 main_v84 ((fun a b => concatenate S16x2x2x2x2 3 [⟨S16x2x2x1x2, a⟩, ⟨S16x2x2x1x2, b⟩] concatenates_S16x2x2x1x2_S16x2x2x1x2_S16x2x2x2x2_d3) : (⟨S16x2x2x1x2, .f32⟩ : BufTy).Contents (Elt F) → (⟨S16x2x2x1x2, .f32⟩ : BufTy).Contents (Elt F) → (⟨S16x2x2x2x2, .f32⟩ : BufTy).Contents (Elt F)) ]

/-- The buffers stretch 5 writes, one per operation. -/
abbrev hseg5_W : List (Ref sig .tc) := [main_v64, main_v65, main_c_11, main_call10_c, main_call10_v0, main_call10_c_0, main_call10_v1, main_call10_v2, main_call10_v3, main_call10_c_1, main_call10_v4, main_call10_c_2, main_call10_v5, main_call10_v6, main_call10_v7, main_call10_v8, main_call10_c_3, main_call10_v9, main_call10_v10, main_call10_v11, main_call10_cst, main_call10_v12, main_v66, main_c_12, main_call11_c, main_call11_v0, main_call11_c_0, main_call11_v1, main_call11_v2, main_call11_v3, main_call11_c_1, main_call11_v4, main_call11_c_2, main_call11_v5, main_call11_v6, main_call11_v7, main_call11_v8, main_call11_c_3, main_call11_v9, main_call11_v10, main_call11_v11, main_call11_cst, main_call11_v12, main_v67, main_cst_13, main_v68, main_v69, main_cst_14, main_v70, main_v71, main_v72, main_v73, main_v74, main_v75, main_v76, main_v77, main_v78, main_v79, main_v80, main_v81, main_v82, main_v83, main_v84]

set_option maxRecDepth 65536 in
theorem hseg5_writes : (hseg5 : List (HloOp τ sig (Elt F))).Forall fun op => op.writes ⊆ (hseg5_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 5, from any contents `W`, `main_v84` holds the stretch's composed function of what `W` has at the buffers the stretch reads. -/
theorem hseg5_main_v84 (W : Valuation τ sig (Elt F)) :
    after hseg5 W (main_v84 : DevRef τ sig) = kRyP2 (W (main_v63 : DevRef τ sig)) (W (main_arg1 : DevRef τ sig)) := by
  simp only [hseg5]
  after_results_simp
  rfl

/-- Stretch 6 of the host operations before the launch: operations 293 … 338, ending where `main_v90` is written. -/
abbrev hseg6 : List (HloOp τ sig (Elt F)) :=
  [ StableHlo.nullary main_c_15 (constantI S_ 32 0#32),
    StableHlo.TRef.nullary (.of main_call12_c : StableHlo.TRef sig ⟨S_, .i32⟩) (constantI S_ 32 0#32),
    StableHlo.TRef.binary (.of main_c_15 : StableHlo.TRef sig ⟨S_, .i32⟩) (.of main_call12_c : StableHlo.TRef sig ⟨S_, .i32⟩) (.of main_call12_v0 : StableHlo.TRef sig ⟨S_, .i1⟩) (cmpi .slt),
    StableHlo.TRef.nullary (.of main_call12_c_0 : StableHlo.TRef sig ⟨S_, .i32⟩) (constantI S_ 32 2#32),
    StableHlo.TRef.binary (.of main_c_15 : StableHlo.TRef sig ⟨S_, .i32⟩) (.of main_call12_c_0 : StableHlo.TRef sig ⟨S_, .i32⟩) (.of main_call12_v1 : StableHlo.TRef sig ⟨S_, .i32⟩) addi,
    StableHlo.TRef.ternary (.of main_call12_v0 : StableHlo.TRef sig ⟨S_, .i1⟩) (.of main_call12_v1 : StableHlo.TRef sig ⟨S_, .i32⟩) (.of main_c_15 : StableHlo.TRef sig ⟨S_, .i32⟩) (.of main_call12_v2 : StableHlo.TRef sig ⟨S_, .i32⟩) select,
    StableHlo.TRef.unary main_call12_call0.v0 (.of main_call12_v3 : StableHlo.TRef sig ⟨S1, .i32⟩) (broadcastInDim S1 ![] bcast_S_S1),
    StableHlo.TRef.nullary (.of main_call12_c_1 : StableHlo.TRef sig ⟨S1, .i32⟩) (constantI S1 32 1#32),
    StableHlo.TRef.unary (.of main_call12_v3 : StableHlo.TRef sig ⟨S1, .i32⟩) (.of main_call12_v4 : StableHlo.TRef sig ⟨S1, .i32⟩) id,
    StableHlo.TRef.nullary (.of main_call12_c_2 : StableHlo.TRef sig ⟨S_, .i32⟩) (constantI S_ 32 0#32),
    StableHlo.TRef.unary (.of main_call12_c_2 : StableHlo.TRef sig ⟨S_, .i32⟩) (.of main_call12_v5 : StableHlo.TRef sig ⟨S1, .i32⟩) (broadcastInDim S1 ![] bcast_S_S1),
    StableHlo.TRef.binary (.of main_call12_v4 : StableHlo.TRef sig ⟨S1, .i32⟩) (.of main_call12_v5 : StableHlo.TRef sig ⟨S1, .i32⟩) (.of main_call12_v6 : StableHlo.TRef sig ⟨S1, .i1⟩) (cmpi .sge),
    StableHlo.TRef.binary (.of main_call12_v4 : StableHlo.TRef sig ⟨S1, .i32⟩) (.of main_call12_c_1 : StableHlo.TRef sig ⟨S1, .i32⟩) (.of main_call12_v7 : StableHlo.TRef sig ⟨S1, .i1⟩) (cmpi .sle),
    StableHlo.TRef.binary (.of main_call12_v6 : StableHlo.TRef sig ⟨S1, .i1⟩) (.of main_call12_v7 : StableHlo.TRef sig ⟨S1, .i1⟩) (.of main_call12_v8 : StableHlo.TRef sig ⟨S1, .i1⟩) andi,
    StableHlo.TRef.nullary (.of main_call12_c_3 : StableHlo.TRef sig ⟨S_, .i1⟩) (constantI S_ 1 1#1),
    StableHlo.TRef.binary (.of main_call12_v8 : StableHlo.TRef sig ⟨S1, .i1⟩) (.of main_call12_c_3 : StableHlo.TRef sig ⟨S_, .i1⟩) (.of main_call12_v9 : StableHlo.TRef sig ⟨S_, .i1⟩) (fun x v => Host.reduce IntOp.andi x v reducesTo_S1_S_d0 h_S_),
    StableHlo.TRef.binary (.of main_v84 : StableHlo.TRef sig ⟨S16x2x2x2x2, .f32⟩) (.of main_call12_v4 : StableHlo.TRef sig ⟨S1, .i32⟩) (.of main_call12_v10 : StableHlo.TRef sig ⟨S16x2x2x2, .f32⟩) (fun x i => Host.gather gather_S16x2x2x2x2_S1_S16x2x2x2_0123_3_n_n_3_0_162212 x i),
    StableHlo.TRef.unary (.of main_call12_v9 : StableHlo.TRef sig ⟨S_, .i1⟩) (.of main_call12_v11 : StableHlo.TRef sig ⟨S16x2x2x2, .i1⟩) (broadcastInDim S16x2x2x2 ![] bcast_S_S16x2x2x2),
    StableHlo.TRef.nullary (.of main_call12_cst : StableHlo.TRef sig ⟨S_, .f32⟩) (constant S_ .f32 0x7FC00000#32),
    StableHlo.TRef.unary (.of main_call12_cst : StableHlo.TRef sig ⟨S_, .f32⟩) (.of main_call12_v12 : StableHlo.TRef sig ⟨S16x2x2x2, .f32⟩) (broadcastInDim S16x2x2x2 ![] bcast_S_S16x2x2x2),
    StableHlo.TRef.ternary (.of main_call12_v11 : StableHlo.TRef sig ⟨S16x2x2x2, .i1⟩) (.of main_call12_v10 : StableHlo.TRef sig ⟨S16x2x2x2, .f32⟩) (.of main_call12_v12 : StableHlo.TRef sig ⟨S16x2x2x2, .f32⟩) (.of main_v85 : StableHlo.TRef sig ⟨S16x2x2x2, .f32⟩) select,
    StableHlo.nullary main_c_16 (constantI S_ 32 1#32),
    StableHlo.TRef.nullary (.of main_call13_c : StableHlo.TRef sig ⟨S_, .i32⟩) (constantI S_ 32 0#32),
    StableHlo.TRef.binary (.of main_c_16 : StableHlo.TRef sig ⟨S_, .i32⟩) (.of main_call13_c : StableHlo.TRef sig ⟨S_, .i32⟩) (.of main_call13_v0 : StableHlo.TRef sig ⟨S_, .i1⟩) (cmpi .slt),
    StableHlo.TRef.nullary (.of main_call13_c_0 : StableHlo.TRef sig ⟨S_, .i32⟩) (constantI S_ 32 2#32),
    StableHlo.TRef.binary (.of main_c_16 : StableHlo.TRef sig ⟨S_, .i32⟩) (.of main_call13_c_0 : StableHlo.TRef sig ⟨S_, .i32⟩) (.of main_call13_v1 : StableHlo.TRef sig ⟨S_, .i32⟩) addi,
    StableHlo.TRef.ternary (.of main_call13_v0 : StableHlo.TRef sig ⟨S_, .i1⟩) (.of main_call13_v1 : StableHlo.TRef sig ⟨S_, .i32⟩) (.of main_c_16 : StableHlo.TRef sig ⟨S_, .i32⟩) (.of main_call13_v2 : StableHlo.TRef sig ⟨S_, .i32⟩) select,
    StableHlo.TRef.unary main_call13_call0.v0 (.of main_call13_v3 : StableHlo.TRef sig ⟨S1, .i32⟩) (broadcastInDim S1 ![] bcast_S_S1),
    StableHlo.TRef.nullary (.of main_call13_c_1 : StableHlo.TRef sig ⟨S1, .i32⟩) (constantI S1 32 1#32),
    StableHlo.TRef.unary (.of main_call13_v3 : StableHlo.TRef sig ⟨S1, .i32⟩) (.of main_call13_v4 : StableHlo.TRef sig ⟨S1, .i32⟩) id,
    StableHlo.TRef.nullary (.of main_call13_c_2 : StableHlo.TRef sig ⟨S_, .i32⟩) (constantI S_ 32 0#32),
    StableHlo.TRef.unary (.of main_call13_c_2 : StableHlo.TRef sig ⟨S_, .i32⟩) (.of main_call13_v5 : StableHlo.TRef sig ⟨S1, .i32⟩) (broadcastInDim S1 ![] bcast_S_S1),
    StableHlo.TRef.binary (.of main_call13_v4 : StableHlo.TRef sig ⟨S1, .i32⟩) (.of main_call13_v5 : StableHlo.TRef sig ⟨S1, .i32⟩) (.of main_call13_v6 : StableHlo.TRef sig ⟨S1, .i1⟩) (cmpi .sge),
    StableHlo.TRef.binary (.of main_call13_v4 : StableHlo.TRef sig ⟨S1, .i32⟩) (.of main_call13_c_1 : StableHlo.TRef sig ⟨S1, .i32⟩) (.of main_call13_v7 : StableHlo.TRef sig ⟨S1, .i1⟩) (cmpi .sle),
    StableHlo.TRef.binary (.of main_call13_v6 : StableHlo.TRef sig ⟨S1, .i1⟩) (.of main_call13_v7 : StableHlo.TRef sig ⟨S1, .i1⟩) (.of main_call13_v8 : StableHlo.TRef sig ⟨S1, .i1⟩) andi,
    StableHlo.TRef.nullary (.of main_call13_c_3 : StableHlo.TRef sig ⟨S_, .i1⟩) (constantI S_ 1 1#1),
    StableHlo.TRef.binary (.of main_call13_v8 : StableHlo.TRef sig ⟨S1, .i1⟩) (.of main_call13_c_3 : StableHlo.TRef sig ⟨S_, .i1⟩) (.of main_call13_v9 : StableHlo.TRef sig ⟨S_, .i1⟩) (fun x v => Host.reduce IntOp.andi x v reducesTo_S1_S_d0 h_S_),
    StableHlo.TRef.binary (.of main_v84 : StableHlo.TRef sig ⟨S16x2x2x2x2, .f32⟩) (.of main_call13_v4 : StableHlo.TRef sig ⟨S1, .i32⟩) (.of main_call13_v10 : StableHlo.TRef sig ⟨S16x2x2x2, .f32⟩) (fun x i => Host.gather gather_S16x2x2x2x2_S1_S16x2x2x2_0123_3_n_n_3_0_162212 x i),
    StableHlo.TRef.unary (.of main_call13_v9 : StableHlo.TRef sig ⟨S_, .i1⟩) (.of main_call13_v11 : StableHlo.TRef sig ⟨S16x2x2x2, .i1⟩) (broadcastInDim S16x2x2x2 ![] bcast_S_S16x2x2x2),
    StableHlo.TRef.nullary (.of main_call13_cst : StableHlo.TRef sig ⟨S_, .f32⟩) (constant S_ .f32 0x7FC00000#32),
    StableHlo.TRef.unary (.of main_call13_cst : StableHlo.TRef sig ⟨S_, .f32⟩) (.of main_call13_v12 : StableHlo.TRef sig ⟨S16x2x2x2, .f32⟩) (broadcastInDim S16x2x2x2 ![] bcast_S_S16x2x2x2),
    StableHlo.TRef.ternary (.of main_call13_v11 : StableHlo.TRef sig ⟨S16x2x2x2, .i1⟩) (.of main_call13_v10 : StableHlo.TRef sig ⟨S16x2x2x2, .f32⟩) (.of main_call13_v12 : StableHlo.TRef sig ⟨S16x2x2x2, .f32⟩) (.of main_v86 : StableHlo.TRef sig ⟨S16x2x2x2, .f32⟩) select,
    StableHlo.TRef.unary (.of main_v86 : StableHlo.TRef sig ⟨S16x2x2x2, .f32⟩) (.of main_v87 : StableHlo.TRef sig ⟨S16x2x2x2, .f32⟩) (Host.reverse [3]),
    StableHlo.unary main_v85 main_v88 (broadcastInDim S16x2x2x1x2 ![0, 1, 2, 4] bcast_S16x2x2x2_S16x2x2x1x2_0_1_2_4 : (⟨S16x2x2x2, .f32⟩ : BufTy).Contents (Elt F) → (⟨S16x2x2x1x2, .f32⟩ : BufTy).Contents (Elt F)),
    StableHlo.unary main_v87 main_v89 (broadcastInDim S16x2x2x1x2 ![0, 1, 2, 4] bcast_S16x2x2x2_S16x2x2x1x2_0_1_2_4 : (⟨S16x2x2x2, .f32⟩ : BufTy).Contents (Elt F) → (⟨S16x2x2x1x2, .f32⟩ : BufTy).Contents (Elt F)),
    StableHlo.binary main_v88 main_v89 main_v90 ((fun a b => concatenate S16x2x2x2x2 3 [⟨S16x2x2x1x2, a⟩, ⟨S16x2x2x1x2, b⟩] concatenates_S16x2x2x1x2_S16x2x2x1x2_S16x2x2x2x2_d3) : (⟨S16x2x2x1x2, .f32⟩ : BufTy).Contents (Elt F) → (⟨S16x2x2x1x2, .f32⟩ : BufTy).Contents (Elt F) → (⟨S16x2x2x2x2, .f32⟩ : BufTy).Contents (Elt F)) ]

/-- The buffers stretch 6 writes, one per operation. -/
abbrev hseg6_W : List (Ref sig .tc) := [main_c_15, main_call12_c, main_call12_v0, main_call12_c_0, main_call12_v1, main_call12_v2, main_call12_v3, main_call12_c_1, main_call12_v4, main_call12_c_2, main_call12_v5, main_call12_v6, main_call12_v7, main_call12_v8, main_call12_c_3, main_call12_v9, main_call12_v10, main_call12_v11, main_call12_cst, main_call12_v12, main_v85, main_c_16, main_call13_c, main_call13_v0, main_call13_c_0, main_call13_v1, main_call13_v2, main_call13_v3, main_call13_c_1, main_call13_v4, main_call13_c_2, main_call13_v5, main_call13_v6, main_call13_v7, main_call13_v8, main_call13_c_3, main_call13_v9, main_call13_v10, main_call13_v11, main_call13_cst, main_call13_v12, main_v86, main_v87, main_v88, main_v89, main_v90]

set_option maxRecDepth 65536 in
theorem hseg6_writes : (hseg6 : List (HloOp τ sig (Elt F))).Forall fun op => op.writes ⊆ (hseg6_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 6, from any contents `W`, `main_v90` holds the stretch's composed function of what `W` has at the buffers the stretch reads. -/
theorem hseg6_main_v90 (W : Valuation τ sig (Elt F)) :
    after hseg6 W (main_v90 : DevRef τ sig) = kCx2 (W (main_v84 : DevRef τ sig)) := by
  simp only [hseg6]
  after_results_simp
  rfl

/-- Stretch 7 of the host operations before the launch: operations 339 … 401, ending where `main_v111` is written. -/
abbrev hseg7 : List (HloOp τ sig (Elt F)) :=
  [ StableHlo.unary main_arg1 main_v91 ((extractStridedSlice S1 ![3] · slices_S4_S1_3) : (⟨S4, .f32⟩ : BufTy).Contents (Elt F) → (⟨S1, .f32⟩ : BufTy).Contents (Elt F)),
    StableHlo.reshape main_v91 main_v92 rfl shapeCasts_S1_S_,
    StableHlo.nullary main_c_17 (constantI S_ 32 0#32),
    StableHlo.TRef.nullary (.of main_call15_c : StableHlo.TRef sig ⟨S_, .i32⟩) (constantI S_ 32 0#32),
    StableHlo.TRef.binary (.of main_c_17 : StableHlo.TRef sig ⟨S_, .i32⟩) (.of main_call15_c : StableHlo.TRef sig ⟨S_, .i32⟩) (.of main_call15_v0 : StableHlo.TRef sig ⟨S_, .i1⟩) (cmpi .slt),
    StableHlo.TRef.nullary (.of main_call15_c_0 : StableHlo.TRef sig ⟨S_, .i32⟩) (constantI S_ 32 2#32),
    StableHlo.TRef.binary (.of main_c_17 : StableHlo.TRef sig ⟨S_, .i32⟩) (.of main_call15_c_0 : StableHlo.TRef sig ⟨S_, .i32⟩) (.of main_call15_v1 : StableHlo.TRef sig ⟨S_, .i32⟩) addi,
    StableHlo.TRef.ternary (.of main_call15_v0 : StableHlo.TRef sig ⟨S_, .i1⟩) (.of main_call15_v1 : StableHlo.TRef sig ⟨S_, .i32⟩) (.of main_c_17 : StableHlo.TRef sig ⟨S_, .i32⟩) (.of main_call15_v2 : StableHlo.TRef sig ⟨S_, .i32⟩) select,
    StableHlo.TRef.unary main_call15_call0.v0 (.of main_call15_v3 : StableHlo.TRef sig ⟨S1, .i32⟩) (broadcastInDim S1 ![] bcast_S_S1),
    StableHlo.TRef.nullary (.of main_call15_c_1 : StableHlo.TRef sig ⟨S1, .i32⟩) (constantI S1 32 1#32),
    StableHlo.TRef.unary (.of main_call15_v3 : StableHlo.TRef sig ⟨S1, .i32⟩) (.of main_call15_v4 : StableHlo.TRef sig ⟨S1, .i32⟩) id,
    StableHlo.TRef.nullary (.of main_call15_c_2 : StableHlo.TRef sig ⟨S_, .i32⟩) (constantI S_ 32 0#32),
    StableHlo.TRef.unary (.of main_call15_c_2 : StableHlo.TRef sig ⟨S_, .i32⟩) (.of main_call15_v5 : StableHlo.TRef sig ⟨S1, .i32⟩) (broadcastInDim S1 ![] bcast_S_S1),
    StableHlo.TRef.binary (.of main_call15_v4 : StableHlo.TRef sig ⟨S1, .i32⟩) (.of main_call15_v5 : StableHlo.TRef sig ⟨S1, .i32⟩) (.of main_call15_v6 : StableHlo.TRef sig ⟨S1, .i1⟩) (cmpi .sge),
    StableHlo.TRef.binary (.of main_call15_v4 : StableHlo.TRef sig ⟨S1, .i32⟩) (.of main_call15_c_1 : StableHlo.TRef sig ⟨S1, .i32⟩) (.of main_call15_v7 : StableHlo.TRef sig ⟨S1, .i1⟩) (cmpi .sle),
    StableHlo.TRef.binary (.of main_call15_v6 : StableHlo.TRef sig ⟨S1, .i1⟩) (.of main_call15_v7 : StableHlo.TRef sig ⟨S1, .i1⟩) (.of main_call15_v8 : StableHlo.TRef sig ⟨S1, .i1⟩) andi,
    StableHlo.TRef.nullary (.of main_call15_c_3 : StableHlo.TRef sig ⟨S_, .i1⟩) (constantI S_ 1 1#1),
    StableHlo.TRef.binary (.of main_call15_v8 : StableHlo.TRef sig ⟨S1, .i1⟩) (.of main_call15_c_3 : StableHlo.TRef sig ⟨S_, .i1⟩) (.of main_call15_v9 : StableHlo.TRef sig ⟨S_, .i1⟩) (fun x v => Host.reduce IntOp.andi x v reducesTo_S1_S_d0 h_S_),
    StableHlo.TRef.binary (.of main_v90 : StableHlo.TRef sig ⟨S16x2x2x2x2, .f32⟩) (.of main_call15_v4 : StableHlo.TRef sig ⟨S1, .i32⟩) (.of main_call15_v10 : StableHlo.TRef sig ⟨S16x2x2x2, .f32⟩) (fun x i => Host.gather gather_S16x2x2x2x2_S1_S16x2x2x2_0123_4_n_n_4_0_162221 x i),
    StableHlo.TRef.unary (.of main_call15_v9 : StableHlo.TRef sig ⟨S_, .i1⟩) (.of main_call15_v11 : StableHlo.TRef sig ⟨S16x2x2x2, .i1⟩) (broadcastInDim S16x2x2x2 ![] bcast_S_S16x2x2x2),
    StableHlo.TRef.nullary (.of main_call15_cst : StableHlo.TRef sig ⟨S_, .f32⟩) (constant S_ .f32 0x7FC00000#32),
    StableHlo.TRef.unary (.of main_call15_cst : StableHlo.TRef sig ⟨S_, .f32⟩) (.of main_call15_v12 : StableHlo.TRef sig ⟨S16x2x2x2, .f32⟩) (broadcastInDim S16x2x2x2 ![] bcast_S_S16x2x2x2),
    StableHlo.TRef.ternary (.of main_call15_v11 : StableHlo.TRef sig ⟨S16x2x2x2, .i1⟩) (.of main_call15_v10 : StableHlo.TRef sig ⟨S16x2x2x2, .f32⟩) (.of main_call15_v12 : StableHlo.TRef sig ⟨S16x2x2x2, .f32⟩) (.of main_v93 : StableHlo.TRef sig ⟨S16x2x2x2, .f32⟩) select,
    StableHlo.nullary main_c_18 (constantI S_ 32 1#32),
    StableHlo.TRef.nullary (.of main_call16_c : StableHlo.TRef sig ⟨S_, .i32⟩) (constantI S_ 32 0#32),
    StableHlo.TRef.binary (.of main_c_18 : StableHlo.TRef sig ⟨S_, .i32⟩) (.of main_call16_c : StableHlo.TRef sig ⟨S_, .i32⟩) (.of main_call16_v0 : StableHlo.TRef sig ⟨S_, .i1⟩) (cmpi .slt),
    StableHlo.TRef.nullary (.of main_call16_c_0 : StableHlo.TRef sig ⟨S_, .i32⟩) (constantI S_ 32 2#32),
    StableHlo.TRef.binary (.of main_c_18 : StableHlo.TRef sig ⟨S_, .i32⟩) (.of main_call16_c_0 : StableHlo.TRef sig ⟨S_, .i32⟩) (.of main_call16_v1 : StableHlo.TRef sig ⟨S_, .i32⟩) addi,
    StableHlo.TRef.ternary (.of main_call16_v0 : StableHlo.TRef sig ⟨S_, .i1⟩) (.of main_call16_v1 : StableHlo.TRef sig ⟨S_, .i32⟩) (.of main_c_18 : StableHlo.TRef sig ⟨S_, .i32⟩) (.of main_call16_v2 : StableHlo.TRef sig ⟨S_, .i32⟩) select,
    StableHlo.TRef.unary main_call16_call0.v0 (.of main_call16_v3 : StableHlo.TRef sig ⟨S1, .i32⟩) (broadcastInDim S1 ![] bcast_S_S1),
    StableHlo.TRef.nullary (.of main_call16_c_1 : StableHlo.TRef sig ⟨S1, .i32⟩) (constantI S1 32 1#32),
    StableHlo.TRef.unary (.of main_call16_v3 : StableHlo.TRef sig ⟨S1, .i32⟩) (.of main_call16_v4 : StableHlo.TRef sig ⟨S1, .i32⟩) id,
    StableHlo.TRef.nullary (.of main_call16_c_2 : StableHlo.TRef sig ⟨S_, .i32⟩) (constantI S_ 32 0#32),
    StableHlo.TRef.unary (.of main_call16_c_2 : StableHlo.TRef sig ⟨S_, .i32⟩) (.of main_call16_v5 : StableHlo.TRef sig ⟨S1, .i32⟩) (broadcastInDim S1 ![] bcast_S_S1),
    StableHlo.TRef.binary (.of main_call16_v4 : StableHlo.TRef sig ⟨S1, .i32⟩) (.of main_call16_v5 : StableHlo.TRef sig ⟨S1, .i32⟩) (.of main_call16_v6 : StableHlo.TRef sig ⟨S1, .i1⟩) (cmpi .sge),
    StableHlo.TRef.binary (.of main_call16_v4 : StableHlo.TRef sig ⟨S1, .i32⟩) (.of main_call16_c_1 : StableHlo.TRef sig ⟨S1, .i32⟩) (.of main_call16_v7 : StableHlo.TRef sig ⟨S1, .i1⟩) (cmpi .sle),
    StableHlo.TRef.binary (.of main_call16_v6 : StableHlo.TRef sig ⟨S1, .i1⟩) (.of main_call16_v7 : StableHlo.TRef sig ⟨S1, .i1⟩) (.of main_call16_v8 : StableHlo.TRef sig ⟨S1, .i1⟩) andi,
    StableHlo.TRef.nullary (.of main_call16_c_3 : StableHlo.TRef sig ⟨S_, .i1⟩) (constantI S_ 1 1#1),
    StableHlo.TRef.binary (.of main_call16_v8 : StableHlo.TRef sig ⟨S1, .i1⟩) (.of main_call16_c_3 : StableHlo.TRef sig ⟨S_, .i1⟩) (.of main_call16_v9 : StableHlo.TRef sig ⟨S_, .i1⟩) (fun x v => Host.reduce IntOp.andi x v reducesTo_S1_S_d0 h_S_),
    StableHlo.TRef.binary (.of main_v90 : StableHlo.TRef sig ⟨S16x2x2x2x2, .f32⟩) (.of main_call16_v4 : StableHlo.TRef sig ⟨S1, .i32⟩) (.of main_call16_v10 : StableHlo.TRef sig ⟨S16x2x2x2, .f32⟩) (fun x i => Host.gather gather_S16x2x2x2x2_S1_S16x2x2x2_0123_4_n_n_4_0_162221 x i),
    StableHlo.TRef.unary (.of main_call16_v9 : StableHlo.TRef sig ⟨S_, .i1⟩) (.of main_call16_v11 : StableHlo.TRef sig ⟨S16x2x2x2, .i1⟩) (broadcastInDim S16x2x2x2 ![] bcast_S_S16x2x2x2),
    StableHlo.TRef.nullary (.of main_call16_cst : StableHlo.TRef sig ⟨S_, .f32⟩) (constant S_ .f32 0x7FC00000#32),
    StableHlo.TRef.unary (.of main_call16_cst : StableHlo.TRef sig ⟨S_, .f32⟩) (.of main_call16_v12 : StableHlo.TRef sig ⟨S16x2x2x2, .f32⟩) (broadcastInDim S16x2x2x2 ![] bcast_S_S16x2x2x2),
    StableHlo.TRef.ternary (.of main_call16_v11 : StableHlo.TRef sig ⟨S16x2x2x2, .i1⟩) (.of main_call16_v10 : StableHlo.TRef sig ⟨S16x2x2x2, .f32⟩) (.of main_call16_v12 : StableHlo.TRef sig ⟨S16x2x2x2, .f32⟩) (.of main_v94 : StableHlo.TRef sig ⟨S16x2x2x2, .f32⟩) select,
    StableHlo.nullary main_cst_19 (constant S_ .f32 0x3F000000#32),
    StableHlo.binary main_v92 main_cst_19 main_v95 (mulf : (⟨S_, .f32⟩ : BufTy).Contents (Elt F) → (⟨S_, .f32⟩ : BufTy).Contents (Elt F) → (⟨S_, .f32⟩ : BufTy).Contents (Elt F)),
    StableHlo.unary main_v95 main_v96 (Host.cos : (⟨S_, .f32⟩ : BufTy).Contents (Elt F) → (⟨S_, .f32⟩ : BufTy).Contents (Elt F)),
    StableHlo.nullary main_cst_20 (constant S_ .f32 0x3F000000#32),
    StableHlo.binary main_v92 main_cst_20 main_v97 (mulf : (⟨S_, .f32⟩ : BufTy).Contents (Elt F) → (⟨S_, .f32⟩ : BufTy).Contents (Elt F) → (⟨S_, .f32⟩ : BufTy).Contents (Elt F)),
    StableHlo.unary main_v97 main_v98 (Host.sin : (⟨S_, .f32⟩ : BufTy).Contents (Elt F) → (⟨S_, .f32⟩ : BufTy).Contents (Elt F)),
    StableHlo.unary main_v96 main_v99 (broadcastInDim S16x2x2x2 ![] bcast_S_S16x2x2x2 : (⟨S_, .f32⟩ : BufTy).Contents (Elt F) → (⟨S16x2x2x2, .f32⟩ : BufTy).Contents (Elt F)),
    StableHlo.binary main_v99 main_v93 main_v100 (mulf : (⟨S16x2x2x2, .f32⟩ : BufTy).Contents (Elt F) → (⟨S16x2x2x2, .f32⟩ : BufTy).Contents (Elt F) → (⟨S16x2x2x2, .f32⟩ : BufTy).Contents (Elt F)),
    StableHlo.unary main_v98 main_v101 (broadcastInDim S16x2x2x2 ![] bcast_S_S16x2x2x2 : (⟨S_, .f32⟩ : BufTy).Contents (Elt F) → (⟨S16x2x2x2, .f32⟩ : BufTy).Contents (Elt F)),
    StableHlo.binary main_v101 main_v94 main_v102 (mulf : (⟨S16x2x2x2, .f32⟩ : BufTy).Contents (Elt F) → (⟨S16x2x2x2, .f32⟩ : BufTy).Contents (Elt F) → (⟨S16x2x2x2, .f32⟩ : BufTy).Contents (Elt F)),
    StableHlo.binary main_v100 main_v102 main_v103 (subf : (⟨S16x2x2x2, .f32⟩ : BufTy).Contents (Elt F) → (⟨S16x2x2x2, .f32⟩ : BufTy).Contents (Elt F) → (⟨S16x2x2x2, .f32⟩ : BufTy).Contents (Elt F)),
    StableHlo.unary main_v98 main_v104 (broadcastInDim S16x2x2x2 ![] bcast_S_S16x2x2x2 : (⟨S_, .f32⟩ : BufTy).Contents (Elt F) → (⟨S16x2x2x2, .f32⟩ : BufTy).Contents (Elt F)),
    StableHlo.binary main_v104 main_v93 main_v105 (mulf : (⟨S16x2x2x2, .f32⟩ : BufTy).Contents (Elt F) → (⟨S16x2x2x2, .f32⟩ : BufTy).Contents (Elt F) → (⟨S16x2x2x2, .f32⟩ : BufTy).Contents (Elt F)),
    StableHlo.unary main_v96 main_v106 (broadcastInDim S16x2x2x2 ![] bcast_S_S16x2x2x2 : (⟨S_, .f32⟩ : BufTy).Contents (Elt F) → (⟨S16x2x2x2, .f32⟩ : BufTy).Contents (Elt F)),
    StableHlo.binary main_v106 main_v94 main_v107 (mulf : (⟨S16x2x2x2, .f32⟩ : BufTy).Contents (Elt F) → (⟨S16x2x2x2, .f32⟩ : BufTy).Contents (Elt F) → (⟨S16x2x2x2, .f32⟩ : BufTy).Contents (Elt F)),
    StableHlo.binary main_v105 main_v107 main_v108 (addf : (⟨S16x2x2x2, .f32⟩ : BufTy).Contents (Elt F) → (⟨S16x2x2x2, .f32⟩ : BufTy).Contents (Elt F) → (⟨S16x2x2x2, .f32⟩ : BufTy).Contents (Elt F)),
    StableHlo.unary main_v103 main_v109 (broadcastInDim S16x2x2x2x1 ![0, 1, 2, 3] bcast_S16x2x2x2_S16x2x2x2x1_0_1_2_3 : (⟨S16x2x2x2, .f32⟩ : BufTy).Contents (Elt F) → (⟨S16x2x2x2x1, .f32⟩ : BufTy).Contents (Elt F)),
    StableHlo.unary main_v108 main_v110 (broadcastInDim S16x2x2x2x1 ![0, 1, 2, 3] bcast_S16x2x2x2_S16x2x2x2x1_0_1_2_3 : (⟨S16x2x2x2, .f32⟩ : BufTy).Contents (Elt F) → (⟨S16x2x2x2x1, .f32⟩ : BufTy).Contents (Elt F)),
    StableHlo.binary main_v109 main_v110 main_v111 ((fun a b => concatenate S16x2x2x2x2 4 [⟨S16x2x2x2x1, a⟩, ⟨S16x2x2x2x1, b⟩] concatenates_S16x2x2x2x1_S16x2x2x2x1_S16x2x2x2x2_d4) : (⟨S16x2x2x2x1, .f32⟩ : BufTy).Contents (Elt F) → (⟨S16x2x2x2x1, .f32⟩ : BufTy).Contents (Elt F) → (⟨S16x2x2x2x2, .f32⟩ : BufTy).Contents (Elt F)) ]

/-- The buffers stretch 7 writes, one per operation. -/
abbrev hseg7_W : List (Ref sig .tc) := [main_v91, main_v92, main_c_17, main_call15_c, main_call15_v0, main_call15_c_0, main_call15_v1, main_call15_v2, main_call15_v3, main_call15_c_1, main_call15_v4, main_call15_c_2, main_call15_v5, main_call15_v6, main_call15_v7, main_call15_v8, main_call15_c_3, main_call15_v9, main_call15_v10, main_call15_v11, main_call15_cst, main_call15_v12, main_v93, main_c_18, main_call16_c, main_call16_v0, main_call16_c_0, main_call16_v1, main_call16_v2, main_call16_v3, main_call16_c_1, main_call16_v4, main_call16_c_2, main_call16_v5, main_call16_v6, main_call16_v7, main_call16_v8, main_call16_c_3, main_call16_v9, main_call16_v10, main_call16_v11, main_call16_cst, main_call16_v12, main_v94, main_cst_19, main_v95, main_v96, main_cst_20, main_v97, main_v98, main_v99, main_v100, main_v101, main_v102, main_v103, main_v104, main_v105, main_v106, main_v107, main_v108, main_v109, main_v110, main_v111]

set_option maxRecDepth 65536 in
theorem hseg7_writes : (hseg7 : List (HloOp τ sig (Elt F))).Forall fun op => op.writes ⊆ (hseg7_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 7, from any contents `W`, `main_v111` holds the stretch's composed function of what `W` has at the buffers the stretch reads. -/
theorem hseg7_main_v111 (W : Valuation τ sig (Elt F)) :
    after hseg7 W (main_v111 : DevRef τ sig) = kRyP3 (W (main_v90 : DevRef τ sig)) (W (main_arg1 : DevRef τ sig)) := by
  simp only [hseg7]
  after_results_simp
  rfl

/-- Stretch 8 of the host operations before the launch: operations 402 … 447, ending where `main_v117` is written. -/
abbrev hseg8 : List (HloOp τ sig (Elt F)) :=
  [ StableHlo.nullary main_c_21 (constantI S_ 32 0#32),
    StableHlo.TRef.nullary (.of main_call17_c : StableHlo.TRef sig ⟨S_, .i32⟩) (constantI S_ 32 0#32),
    StableHlo.TRef.binary (.of main_c_21 : StableHlo.TRef sig ⟨S_, .i32⟩) (.of main_call17_c : StableHlo.TRef sig ⟨S_, .i32⟩) (.of main_call17_v0 : StableHlo.TRef sig ⟨S_, .i1⟩) (cmpi .slt),
    StableHlo.TRef.nullary (.of main_call17_c_0 : StableHlo.TRef sig ⟨S_, .i32⟩) (constantI S_ 32 2#32),
    StableHlo.TRef.binary (.of main_c_21 : StableHlo.TRef sig ⟨S_, .i32⟩) (.of main_call17_c_0 : StableHlo.TRef sig ⟨S_, .i32⟩) (.of main_call17_v1 : StableHlo.TRef sig ⟨S_, .i32⟩) addi,
    StableHlo.TRef.ternary (.of main_call17_v0 : StableHlo.TRef sig ⟨S_, .i1⟩) (.of main_call17_v1 : StableHlo.TRef sig ⟨S_, .i32⟩) (.of main_c_21 : StableHlo.TRef sig ⟨S_, .i32⟩) (.of main_call17_v2 : StableHlo.TRef sig ⟨S_, .i32⟩) select,
    StableHlo.TRef.unary main_call17_call0.v0 (.of main_call17_v3 : StableHlo.TRef sig ⟨S1, .i32⟩) (broadcastInDim S1 ![] bcast_S_S1),
    StableHlo.TRef.nullary (.of main_call17_c_1 : StableHlo.TRef sig ⟨S1, .i32⟩) (constantI S1 32 1#32),
    StableHlo.TRef.unary (.of main_call17_v3 : StableHlo.TRef sig ⟨S1, .i32⟩) (.of main_call17_v4 : StableHlo.TRef sig ⟨S1, .i32⟩) id,
    StableHlo.TRef.nullary (.of main_call17_c_2 : StableHlo.TRef sig ⟨S_, .i32⟩) (constantI S_ 32 0#32),
    StableHlo.TRef.unary (.of main_call17_c_2 : StableHlo.TRef sig ⟨S_, .i32⟩) (.of main_call17_v5 : StableHlo.TRef sig ⟨S1, .i32⟩) (broadcastInDim S1 ![] bcast_S_S1),
    StableHlo.TRef.binary (.of main_call17_v4 : StableHlo.TRef sig ⟨S1, .i32⟩) (.of main_call17_v5 : StableHlo.TRef sig ⟨S1, .i32⟩) (.of main_call17_v6 : StableHlo.TRef sig ⟨S1, .i1⟩) (cmpi .sge),
    StableHlo.TRef.binary (.of main_call17_v4 : StableHlo.TRef sig ⟨S1, .i32⟩) (.of main_call17_c_1 : StableHlo.TRef sig ⟨S1, .i32⟩) (.of main_call17_v7 : StableHlo.TRef sig ⟨S1, .i1⟩) (cmpi .sle),
    StableHlo.TRef.binary (.of main_call17_v6 : StableHlo.TRef sig ⟨S1, .i1⟩) (.of main_call17_v7 : StableHlo.TRef sig ⟨S1, .i1⟩) (.of main_call17_v8 : StableHlo.TRef sig ⟨S1, .i1⟩) andi,
    StableHlo.TRef.nullary (.of main_call17_c_3 : StableHlo.TRef sig ⟨S_, .i1⟩) (constantI S_ 1 1#1),
    StableHlo.TRef.binary (.of main_call17_v8 : StableHlo.TRef sig ⟨S1, .i1⟩) (.of main_call17_c_3 : StableHlo.TRef sig ⟨S_, .i1⟩) (.of main_call17_v9 : StableHlo.TRef sig ⟨S_, .i1⟩) (fun x v => Host.reduce IntOp.andi x v reducesTo_S1_S_d0 h_S_),
    StableHlo.TRef.binary (.of main_v111 : StableHlo.TRef sig ⟨S16x2x2x2x2, .f32⟩) (.of main_call17_v4 : StableHlo.TRef sig ⟨S1, .i32⟩) (.of main_call17_v10 : StableHlo.TRef sig ⟨S16x2x2x2, .f32⟩) (fun x i => Host.gather gather_S16x2x2x2x2_S1_S16x2x2x2_0123_4_n_n_4_0_162221 x i),
    StableHlo.TRef.unary (.of main_call17_v9 : StableHlo.TRef sig ⟨S_, .i1⟩) (.of main_call17_v11 : StableHlo.TRef sig ⟨S16x2x2x2, .i1⟩) (broadcastInDim S16x2x2x2 ![] bcast_S_S16x2x2x2),
    StableHlo.TRef.nullary (.of main_call17_cst : StableHlo.TRef sig ⟨S_, .f32⟩) (constant S_ .f32 0x7FC00000#32),
    StableHlo.TRef.unary (.of main_call17_cst : StableHlo.TRef sig ⟨S_, .f32⟩) (.of main_call17_v12 : StableHlo.TRef sig ⟨S16x2x2x2, .f32⟩) (broadcastInDim S16x2x2x2 ![] bcast_S_S16x2x2x2),
    StableHlo.TRef.ternary (.of main_call17_v11 : StableHlo.TRef sig ⟨S16x2x2x2, .i1⟩) (.of main_call17_v10 : StableHlo.TRef sig ⟨S16x2x2x2, .f32⟩) (.of main_call17_v12 : StableHlo.TRef sig ⟨S16x2x2x2, .f32⟩) (.of main_v112 : StableHlo.TRef sig ⟨S16x2x2x2, .f32⟩) select,
    StableHlo.nullary main_c_22 (constantI S_ 32 1#32),
    StableHlo.TRef.nullary (.of main_call18_c : StableHlo.TRef sig ⟨S_, .i32⟩) (constantI S_ 32 0#32),
    StableHlo.TRef.binary (.of main_c_22 : StableHlo.TRef sig ⟨S_, .i32⟩) (.of main_call18_c : StableHlo.TRef sig ⟨S_, .i32⟩) (.of main_call18_v0 : StableHlo.TRef sig ⟨S_, .i1⟩) (cmpi .slt),
    StableHlo.TRef.nullary (.of main_call18_c_0 : StableHlo.TRef sig ⟨S_, .i32⟩) (constantI S_ 32 2#32),
    StableHlo.TRef.binary (.of main_c_22 : StableHlo.TRef sig ⟨S_, .i32⟩) (.of main_call18_c_0 : StableHlo.TRef sig ⟨S_, .i32⟩) (.of main_call18_v1 : StableHlo.TRef sig ⟨S_, .i32⟩) addi,
    StableHlo.TRef.ternary (.of main_call18_v0 : StableHlo.TRef sig ⟨S_, .i1⟩) (.of main_call18_v1 : StableHlo.TRef sig ⟨S_, .i32⟩) (.of main_c_22 : StableHlo.TRef sig ⟨S_, .i32⟩) (.of main_call18_v2 : StableHlo.TRef sig ⟨S_, .i32⟩) select,
    StableHlo.TRef.unary main_call18_call0.v0 (.of main_call18_v3 : StableHlo.TRef sig ⟨S1, .i32⟩) (broadcastInDim S1 ![] bcast_S_S1),
    StableHlo.TRef.nullary (.of main_call18_c_1 : StableHlo.TRef sig ⟨S1, .i32⟩) (constantI S1 32 1#32),
    StableHlo.TRef.unary (.of main_call18_v3 : StableHlo.TRef sig ⟨S1, .i32⟩) (.of main_call18_v4 : StableHlo.TRef sig ⟨S1, .i32⟩) id,
    StableHlo.TRef.nullary (.of main_call18_c_2 : StableHlo.TRef sig ⟨S_, .i32⟩) (constantI S_ 32 0#32),
    StableHlo.TRef.unary (.of main_call18_c_2 : StableHlo.TRef sig ⟨S_, .i32⟩) (.of main_call18_v5 : StableHlo.TRef sig ⟨S1, .i32⟩) (broadcastInDim S1 ![] bcast_S_S1),
    StableHlo.TRef.binary (.of main_call18_v4 : StableHlo.TRef sig ⟨S1, .i32⟩) (.of main_call18_v5 : StableHlo.TRef sig ⟨S1, .i32⟩) (.of main_call18_v6 : StableHlo.TRef sig ⟨S1, .i1⟩) (cmpi .sge),
    StableHlo.TRef.binary (.of main_call18_v4 : StableHlo.TRef sig ⟨S1, .i32⟩) (.of main_call18_c_1 : StableHlo.TRef sig ⟨S1, .i32⟩) (.of main_call18_v7 : StableHlo.TRef sig ⟨S1, .i1⟩) (cmpi .sle),
    StableHlo.TRef.binary (.of main_call18_v6 : StableHlo.TRef sig ⟨S1, .i1⟩) (.of main_call18_v7 : StableHlo.TRef sig ⟨S1, .i1⟩) (.of main_call18_v8 : StableHlo.TRef sig ⟨S1, .i1⟩) andi,
    StableHlo.TRef.nullary (.of main_call18_c_3 : StableHlo.TRef sig ⟨S_, .i1⟩) (constantI S_ 1 1#1),
    StableHlo.TRef.binary (.of main_call18_v8 : StableHlo.TRef sig ⟨S1, .i1⟩) (.of main_call18_c_3 : StableHlo.TRef sig ⟨S_, .i1⟩) (.of main_call18_v9 : StableHlo.TRef sig ⟨S_, .i1⟩) (fun x v => Host.reduce IntOp.andi x v reducesTo_S1_S_d0 h_S_),
    StableHlo.TRef.binary (.of main_v111 : StableHlo.TRef sig ⟨S16x2x2x2x2, .f32⟩) (.of main_call18_v4 : StableHlo.TRef sig ⟨S1, .i32⟩) (.of main_call18_v10 : StableHlo.TRef sig ⟨S16x2x2x2, .f32⟩) (fun x i => Host.gather gather_S16x2x2x2x2_S1_S16x2x2x2_0123_4_n_n_4_0_162221 x i),
    StableHlo.TRef.unary (.of main_call18_v9 : StableHlo.TRef sig ⟨S_, .i1⟩) (.of main_call18_v11 : StableHlo.TRef sig ⟨S16x2x2x2, .i1⟩) (broadcastInDim S16x2x2x2 ![] bcast_S_S16x2x2x2),
    StableHlo.TRef.nullary (.of main_call18_cst : StableHlo.TRef sig ⟨S_, .f32⟩) (constant S_ .f32 0x7FC00000#32),
    StableHlo.TRef.unary (.of main_call18_cst : StableHlo.TRef sig ⟨S_, .f32⟩) (.of main_call18_v12 : StableHlo.TRef sig ⟨S16x2x2x2, .f32⟩) (broadcastInDim S16x2x2x2 ![] bcast_S_S16x2x2x2),
    StableHlo.TRef.ternary (.of main_call18_v11 : StableHlo.TRef sig ⟨S16x2x2x2, .i1⟩) (.of main_call18_v10 : StableHlo.TRef sig ⟨S16x2x2x2, .f32⟩) (.of main_call18_v12 : StableHlo.TRef sig ⟨S16x2x2x2, .f32⟩) (.of main_v113 : StableHlo.TRef sig ⟨S16x2x2x2, .f32⟩) select,
    StableHlo.TRef.unary (.of main_v113 : StableHlo.TRef sig ⟨S16x2x2x2, .f32⟩) (.of main_v114 : StableHlo.TRef sig ⟨S16x2x2x2, .f32⟩) (Host.reverse [1]),
    StableHlo.unary main_v112 main_v115 (broadcastInDim S16x2x2x2x1 ![0, 1, 2, 3] bcast_S16x2x2x2_S16x2x2x2x1_0_1_2_3 : (⟨S16x2x2x2, .f32⟩ : BufTy).Contents (Elt F) → (⟨S16x2x2x2x1, .f32⟩ : BufTy).Contents (Elt F)),
    StableHlo.unary main_v114 main_v116 (broadcastInDim S16x2x2x2x1 ![0, 1, 2, 3] bcast_S16x2x2x2_S16x2x2x2x1_0_1_2_3 : (⟨S16x2x2x2, .f32⟩ : BufTy).Contents (Elt F) → (⟨S16x2x2x2x1, .f32⟩ : BufTy).Contents (Elt F)),
    StableHlo.binary main_v115 main_v116 main_v117 ((fun a b => concatenate S16x2x2x2x2 4 [⟨S16x2x2x2x1, a⟩, ⟨S16x2x2x2x1, b⟩] concatenates_S16x2x2x2x1_S16x2x2x2x1_S16x2x2x2x2_d4) : (⟨S16x2x2x2x1, .f32⟩ : BufTy).Contents (Elt F) → (⟨S16x2x2x2x1, .f32⟩ : BufTy).Contents (Elt F) → (⟨S16x2x2x2x2, .f32⟩ : BufTy).Contents (Elt F)) ]

/-- The buffers stretch 8 writes, one per operation. -/
abbrev hseg8_W : List (Ref sig .tc) := [main_c_21, main_call17_c, main_call17_v0, main_call17_c_0, main_call17_v1, main_call17_v2, main_call17_v3, main_call17_c_1, main_call17_v4, main_call17_c_2, main_call17_v5, main_call17_v6, main_call17_v7, main_call17_v8, main_call17_c_3, main_call17_v9, main_call17_v10, main_call17_v11, main_call17_cst, main_call17_v12, main_v112, main_c_22, main_call18_c, main_call18_v0, main_call18_c_0, main_call18_v1, main_call18_v2, main_call18_v3, main_call18_c_1, main_call18_v4, main_call18_c_2, main_call18_v5, main_call18_v6, main_call18_v7, main_call18_v8, main_call18_c_3, main_call18_v9, main_call18_v10, main_call18_v11, main_call18_cst, main_call18_v12, main_v113, main_v114, main_v115, main_v116, main_v117]

set_option maxRecDepth 65536 in
theorem hseg8_writes : (hseg8 : List (HloOp τ sig (Elt F))).Forall fun op => op.writes ⊆ (hseg8_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 8, from any contents `W`, `main_v117` holds the stretch's composed function of what `W` has at the buffers the stretch reads. -/
theorem hseg8_main_v117 (W : Valuation τ sig (Elt F)) :
    after hseg8 W (main_v117 : DevRef τ sig) = kCx3 (W (main_v111 : DevRef τ sig)) := by
  simp only [hseg8]
  after_results_simp
  rfl

/-- Stretch 9 of the host operations before the launch: operations 448 … 448, ending where `main_v118` is written. -/
abbrev hseg9 : List (HloOp τ sig (Elt F)) :=
  [ StableHlo.reshape main_v117 main_v118 rfl shapeCasts_S16x2x2x2x2_S16x16 ]

/-- The buffers stretch 9 writes, one per operation. -/
abbrev hseg9_W : List (Ref sig .tc) := [main_v118]

set_option maxRecDepth 65536 in
theorem hseg9_writes : (hseg9 : List (HloOp τ sig (Elt F))).Forall fun op => op.writes ⊆ (hseg9_W.map (Proc.devRef (τ := τ) .tc)).toFinset := by
  simp only [List.Forall]
  refine ?_ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 9, from any contents `W`, `main_v118` holds the stretch's composed function of what `W` has at the buffers the stretch reads. -/
theorem hseg9_main_v118 (W : Valuation τ sig (Elt F)) :
    after hseg9 W (main_v118 : DevRef τ sig) = kMat (W (main_v117 : DevRef τ sig)) := by
  simp only [hseg9]
  after_results_simp
  rfl

/-- Stretch 10 of the host operations before the launch: operations 449 … 449, ending where `main_v119` is written. -/
abbrev hseg10 : List (HloOp τ sig (Elt F)) :=
  [ StableHlo.unary main_v118 main_v119 ((transpose S16x16 [1, 0] · transposes_S16x16_S16x16_1_0) : (⟨S16x16, .f32⟩ : BufTy).Contents (Elt F) → (⟨S16x16, .f32⟩ : BufTy).Contents (Elt F)) ]

/-- The buffers stretch 10 writes, one per operation. -/
abbrev hseg10_W : List (Ref sig .tc) := [main_v119]

set_option maxRecDepth 65536 in
theorem hseg10_writes : (hseg10 : List (HloOp τ sig (Elt F))).Forall fun op => op.writes ⊆ (hseg10_W.map (Proc.devRef (τ := τ) .tc)).toFinset := by
  simp only [List.Forall]
  refine ?_ <;>
    (simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 65536 in
set_option maxHeartbeats 4000000 in
/-- After stretch 10, from any contents `W`, `main_v119` holds the stretch's composed function of what `W` has at the buffers the stretch reads. -/
theorem hseg10_main_v119 (W : Valuation τ sig (Elt F)) :
    after hseg10 W (main_v119 : DevRef τ sig) = kMatT (W (main_v118 : DevRef τ sig)) := by
  simp only [hseg10]
  after_results_simp
  rfl

end Cert.KernelIdeal.KerHost

end
-- ==== Proof.KerHostBound.lean ====
/- The kernel program's contents at the gate boundaries of its host operations before the launch. The 37 lists of
   host operations, flattened, are cut into 11 stretches, each ending where a state of the array of sixteen
   simulated registers (or one of the arrays before the first and after the last state) is written. Every buffer is
   written once and read only later, so after the WHOLE line a stretch's result is the stretch's composed function of
   the whole line's contents at the buffers the stretch reads: the later stretches write neither the result nor what
   was read. The arguments are written by no operation. -/
import proofs.«159359_j65481071398168_2_alg».proof.Proof.KerHostSeg0
import proofs.«159359_j65481071398168_2_alg».proof.Proof.KerHostSeg1
import proofs.«159359_j65481071398168_2_alg».proof.Proof.Gen.KernelIdeal.Launch
import Idealize.ShloMosaic.Lib.Pipeline.Frame

set_option synthInstance.maxSize 4096

noncomputable section

namespace Cert.KernelIdeal.KerHost

open Cert.KernelIdeal Idealize.ShloMosaic Idealize.ShloMosaic.TcCoe Idealize.SL.Sem Idealize.ShloMosaic.StableHlo
open Cert.KernelIdeal.Facts₀ Cert.KernelIdeal.Facts

variable {F : FTy → Type} [FloatOps F]

open Cert.KernelIdeal.Gen

/-- The host operations before the launch, in order. -/
abbrev hostAll : List (HloOp τ sig (Elt F)) :=
  List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]

/-- The operations of a line write only buffers of the list `W`. -/
abbrev Writes (l : List (HloOp τ sig (Elt F))) (W : List (Ref sig .tc)) : Prop :=
  l.Forall fun op => op.writes ⊆ (W.map (Proc.devRef (τ := τ) .tc)).toFinset

/-- Two lines in a row write what either writes. -/
theorem writes_append {g t : List (HloOp τ sig (Elt F))} {Wg Wt : List (Ref sig .tc)} (hg : Writes g Wg) (ht : Writes t Wt) :
    Writes (g ++ t) (Wg ++ Wt) :=
  List.forall_iff_forall_mem.mpr fun op h => by
    rcases List.mem_append.mp h with h | h
    · exact (List.forall_iff_forall_mem.mp hg op h).trans fun b hb => by
        simp only [List.map_append, List.toFinset_append, Finset.mem_union]; exact Or.inl hb
    · exact (List.forall_iff_forall_mem.mp ht op h).trans fun b hb => by
        simp only [List.map_append, List.toFinset_append, Finset.mem_union]; exact Or.inr hb

/-- The empty line writes nothing. -/
theorem writes_nil : Writes ([] : List (HloOp τ sig (Elt F))) [] := trivial

/-- If the whole line is a prefix (ending in contents `S`) followed by a stretch `g` and a tail `t'` that does not
    write `r`, the whole line leaves at `r` what the stretch leaves there from `S`. -/
theorem at_result {l g t' : List (HloOp τ sig (Elt F))} {WT' : List (Ref sig .tc)} (V S : Valuation τ sig (Elt F))
    (hpre : after l V = after (g ++ t') S) (ht' : Writes t' WT') {r : Ref sig .tc} (hr : r ∉ WT') :
    after l V (Proc.devRef .tc r) = after g S (Proc.devRef .tc r) := by
  rw [hpre, StableHlo.after_append]; exact after_of_writes_sub t' _ ht' hr

/-- If the whole line is a prefix (ending in contents `S`) followed by a tail `t` that does not write `r`, the whole
    line leaves at `r` what `S` has there. -/
theorem at_input {l t : List (HloOp τ sig (Elt F))} {WT : List (Ref sig .tc)} (V S : Valuation τ sig (Elt F))
    (hpre : after l V = after t S) (ht : Writes t WT) {r : Ref sig .tc} (hr : r ∉ WT) :
    after l V (Proc.devRef .tc r) = S (Proc.devRef .tc r) := by
  rw [hpre]; exact after_of_writes_sub t _ ht hr

/-! ## The tails: stretch `j` and everything after it -/

abbrev htail11 : List (HloOp τ sig (Elt F)) := []
abbrev htailW11 : List (Ref sig .tc) := []
theorem htail11_writes : Writes (F := F) htail11 htailW11 := writes_nil
abbrev htail10 : List (HloOp τ sig (Elt F)) := hseg10 ++ htail11
abbrev htailW10 : List (Ref sig .tc) := hseg10_W ++ htailW11
theorem htail10_writes : Writes (F := F) htail10 htailW10 := writes_append hseg10_writes htail11_writes
abbrev htail9 : List (HloOp τ sig (Elt F)) := hseg9 ++ htail10
abbrev htailW9 : List (Ref sig .tc) := hseg9_W ++ htailW10
theorem htail9_writes : Writes (F := F) htail9 htailW9 := writes_append hseg9_writes htail10_writes
abbrev htail8 : List (HloOp τ sig (Elt F)) := hseg8 ++ htail9
abbrev htailW8 : List (Ref sig .tc) := hseg8_W ++ htailW9
theorem htail8_writes : Writes (F := F) htail8 htailW8 := writes_append hseg8_writes htail9_writes
abbrev htail7 : List (HloOp τ sig (Elt F)) := hseg7 ++ htail8
abbrev htailW7 : List (Ref sig .tc) := hseg7_W ++ htailW8
theorem htail7_writes : Writes (F := F) htail7 htailW7 := writes_append hseg7_writes htail8_writes
abbrev htail6 : List (HloOp τ sig (Elt F)) := hseg6 ++ htail7
abbrev htailW6 : List (Ref sig .tc) := hseg6_W ++ htailW7
theorem htail6_writes : Writes (F := F) htail6 htailW6 := writes_append hseg6_writes htail7_writes
abbrev htail5 : List (HloOp τ sig (Elt F)) := hseg5 ++ htail6
abbrev htailW5 : List (Ref sig .tc) := hseg5_W ++ htailW6
theorem htail5_writes : Writes (F := F) htail5 htailW5 := writes_append hseg5_writes htail6_writes
abbrev htail4 : List (HloOp τ sig (Elt F)) := hseg4 ++ htail5
abbrev htailW4 : List (Ref sig .tc) := hseg4_W ++ htailW5
theorem htail4_writes : Writes (F := F) htail4 htailW4 := writes_append hseg4_writes htail5_writes
abbrev htail3 : List (HloOp τ sig (Elt F)) := hseg3 ++ htail4
abbrev htailW3 : List (Ref sig .tc) := hseg3_W ++ htailW4
theorem htail3_writes : Writes (F := F) htail3 htailW3 := writes_append hseg3_writes htail4_writes
abbrev htail2 : List (HloOp τ sig (Elt F)) := hseg2 ++ htail3
abbrev htailW2 : List (Ref sig .tc) := hseg2_W ++ htailW3
theorem htail2_writes : Writes (F := F) htail2 htailW2 := writes_append hseg2_writes htail3_writes
abbrev htail1 : List (HloOp τ sig (Elt F)) := hseg1 ++ htail2
abbrev htailW1 : List (Ref sig .tc) := hseg1_W ++ htailW2
theorem htail1_writes : Writes (F := F) htail1 htailW1 := writes_append hseg1_writes htail2_writes
abbrev htail0 : List (HloOp τ sig (Elt F)) := hseg0 ++ htail1
abbrev htailW0 : List (Ref sig .tc) := hseg0_W ++ htailW1
theorem htail0_writes : Writes (F := F) htail0 htailW0 := writes_append hseg0_writes htail1_writes

set_option maxRecDepth 65536 in
/-- The flattened lists are the stretches one after the other: the same operations in the same order, grouped at other places. -/
theorem hostAll_eq_htail0 : (hostAll : List (HloOp τ sig (Elt F))) = htail0 := rfl

/-! ## The contents before each stretch -/

/-- The contents before stretch 0: those the line starts from. -/
def hst0 (V : Valuation τ sig (Elt F)) : Valuation τ sig (Elt F) := V
theorem hpre0 (V : Valuation τ sig (Elt F)) : after hostAll V = after htail0 (hst0 V) := by rw [hostAll_eq_htail0]; rfl
/-- The contents before stretch 1. -/
def hst1 (V : Valuation τ sig (Elt F)) : Valuation τ sig (Elt F) := after hseg0 (hst0 V)
theorem hpre1 (V : Valuation τ sig (Elt F)) : after hostAll V = after htail1 (hst1 V) :=
  (hpre0 V).trans (StableHlo.after_append hseg0 htail1 (hst0 V))
/-- The contents before stretch 2. -/
def hst2 (V : Valuation τ sig (Elt F)) : Valuation τ sig (Elt F) := after hseg1 (hst1 V)
theorem hpre2 (V : Valuation τ sig (Elt F)) : after hostAll V = after htail2 (hst2 V) :=
  (hpre1 V).trans (StableHlo.after_append hseg1 htail2 (hst1 V))
/-- The contents before stretch 3. -/
def hst3 (V : Valuation τ sig (Elt F)) : Valuation τ sig (Elt F) := after hseg2 (hst2 V)
theorem hpre3 (V : Valuation τ sig (Elt F)) : after hostAll V = after htail3 (hst3 V) :=
  (hpre2 V).trans (StableHlo.after_append hseg2 htail3 (hst2 V))
/-- The contents before stretch 4. -/
def hst4 (V : Valuation τ sig (Elt F)) : Valuation τ sig (Elt F) := after hseg3 (hst3 V)
theorem hpre4 (V : Valuation τ sig (Elt F)) : after hostAll V = after htail4 (hst4 V) :=
  (hpre3 V).trans (StableHlo.after_append hseg3 htail4 (hst3 V))
/-- The contents before stretch 5. -/
def hst5 (V : Valuation τ sig (Elt F)) : Valuation τ sig (Elt F) := after hseg4 (hst4 V)
theorem hpre5 (V : Valuation τ sig (Elt F)) : after hostAll V = after htail5 (hst5 V) :=
  (hpre4 V).trans (StableHlo.after_append hseg4 htail5 (hst4 V))
/-- The contents before stretch 6. -/
def hst6 (V : Valuation τ sig (Elt F)) : Valuation τ sig (Elt F) := after hseg5 (hst5 V)
theorem hpre6 (V : Valuation τ sig (Elt F)) : after hostAll V = after htail6 (hst6 V) :=
  (hpre5 V).trans (StableHlo.after_append hseg5 htail6 (hst5 V))
/-- The contents before stretch 7. -/
def hst7 (V : Valuation τ sig (Elt F)) : Valuation τ sig (Elt F) := after hseg6 (hst6 V)
theorem hpre7 (V : Valuation τ sig (Elt F)) : after hostAll V = after htail7 (hst7 V) :=
  (hpre6 V).trans (StableHlo.after_append hseg6 htail7 (hst6 V))
/-- The contents before stretch 8. -/
def hst8 (V : Valuation τ sig (Elt F)) : Valuation τ sig (Elt F) := after hseg7 (hst7 V)
theorem hpre8 (V : Valuation τ sig (Elt F)) : after hostAll V = after htail8 (hst8 V) :=
  (hpre7 V).trans (StableHlo.after_append hseg7 htail8 (hst7 V))
/-- The contents before stretch 9. -/
def hst9 (V : Valuation τ sig (Elt F)) : Valuation τ sig (Elt F) := after hseg8 (hst8 V)
theorem hpre9 (V : Valuation τ sig (Elt F)) : after hostAll V = after htail9 (hst9 V) :=
  (hpre8 V).trans (StableHlo.after_append hseg8 htail9 (hst8 V))
/-- The contents before stretch 10. -/
def hst10 (V : Valuation τ sig (Elt F)) : Valuation τ sig (Elt F) := after hseg9 (hst9 V)
theorem hpre10 (V : Valuation τ sig (Elt F)) : after hostAll V = after htail10 (hst10 V) :=
  (hpre9 V).trans (StableHlo.after_append hseg9 htail10 (hst9 V))
/-- The contents before stretch 11. -/
def hst11 (V : Valuation τ sig (Elt F)) : Valuation τ sig (Elt F) := after hseg10 (hst10 V)
theorem hpre11 (V : Valuation τ sig (Elt F)) : after hostAll V = after htail11 (hst11 V) :=
  (hpre10 V).trans (StableHlo.after_append hseg10 htail11 (hst10 V))

/-! ## The arguments are kept -/

set_option maxRecDepth 65536 in
/-- No host operation before the launch writes argument 0: after them, from any contents, it holds what it held. -/
theorem hat_main_arg0 (V : Valuation τ sig (Elt F)) :
    after hostAll V (main_arg0 : DevRef τ sig) = V (main_arg0 : DevRef τ sig) :=
  at_input V (hst0 V) (hpre0 V) htail0_writes (r := main_arg0) (by decide)

set_option maxRecDepth 65536 in
/-- No host operation before the launch writes argument 1: after them, from any contents, it holds what it held. -/
theorem hat_main_arg1 (V : Valuation τ sig (Elt F)) :
    after hostAll V (main_arg1 : DevRef τ sig) = V (main_arg1 : DevRef τ sig) :=
  at_input V (hst0 V) (hpre0 V) htail0_writes (r := main_arg1) (by decide)

set_option maxRecDepth 65536 in
/-- No host operation before the launch writes argument 2: after them, from any contents, it holds what it held. -/
theorem hat_main_arg2 (V : Valuation τ sig (Elt F)) :
    after hostAll V (main_arg2 : DevRef τ sig) = V (main_arg2 : DevRef τ sig) :=
  at_input V (hst0 V) (hpre0 V) htail0_writes (r := main_arg2) (by decide)

set_option maxRecDepth 65536 in
/-- No host operation before the launch writes argument 3: after them, from any contents, it holds what it held. -/
theorem hat_main_arg3 (V : Valuation τ sig (Elt F)) :
    after hostAll V (main_arg3 : DevRef τ sig) = V (main_arg3 : DevRef τ sig) :=
  at_input V (hst0 V) (hpre0 V) htail0_writes (r := main_arg3) (by decide)

/-! ## The boundaries -/

set_option maxRecDepth 65536 in
/-- After the whole line `main_v2` is stretch 0's function of the whole line's contents at what the stretch reads. -/
theorem hat_main_v2 (V : Valuation τ sig (Elt F)) :
    after hostAll V (main_v2 : DevRef τ sig) = kAngles (after hostAll V (main_arg0 : DevRef τ sig)) := by
  have h := (at_result V (hst0 V) (hpre0 V) htail1_writes (r := main_v2) (by decide)).trans (hseg0_main_v2 (hst0 V))
  rw [← at_input V (hst0 V) (hpre0 V) htail0_writes (r := main_arg0) (by decide)] at h
  exact h

set_option maxRecDepth 65536 in
/-- After the whole line `main_v9` is stretch 0's function of the whole line's contents at what the stretch reads. -/
theorem hat_main_v9 (V : Valuation τ sig (Elt F)) :
    after hostAll V (main_v9 : DevRef τ sig) = kIdent := by
  have h := (at_result V (hst0 V) (hpre0 V) htail1_writes (r := main_v9) (by decide)).trans (hseg0_main_v9 (hst0 V))
  exact h

set_option maxRecDepth 65536 in
/-- After the whole line `main_v30` is stretch 1's function of the whole line's contents at what the stretch reads. -/
theorem hat_main_v30 (V : Valuation τ sig (Elt F)) :
    after hostAll V (main_v30 : DevRef τ sig) = kRyP0 (after hostAll V (main_v9 : DevRef τ sig)) (after hostAll V (main_arg1 : DevRef τ sig)) := by
  have h := (at_result V (hst1 V) (hpre1 V) htail2_writes (r := main_v30) (by decide)).trans (hseg1_main_v30 (hst1 V))
  rw [← at_input V (hst1 V) (hpre1 V) htail1_writes (r := main_v9) (by decide),
    ← at_input V (hst1 V) (hpre1 V) htail1_writes (r := main_arg1) (by decide)] at h
  exact h

set_option maxRecDepth 65536 in
/-- After the whole line `main_v36` is stretch 2's function of the whole line's contents at what the stretch reads. -/
theorem hat_main_v36 (V : Valuation τ sig (Elt F)) :
    after hostAll V (main_v36 : DevRef τ sig) = kCx0 (after hostAll V (main_v30 : DevRef τ sig)) := by
  have h := (at_result V (hst2 V) (hpre2 V) htail3_writes (r := main_v36) (by decide)).trans (hseg2_main_v36 (hst2 V))
  rw [← at_input V (hst2 V) (hpre2 V) htail2_writes (r := main_v30) (by decide)] at h
  exact h

set_option maxRecDepth 65536 in
/-- After the whole line `main_v57` is stretch 3's function of the whole line's contents at what the stretch reads. -/
theorem hat_main_v57 (V : Valuation τ sig (Elt F)) :
    after hostAll V (main_v57 : DevRef τ sig) = kRyP1 (after hostAll V (main_v36 : DevRef τ sig)) (after hostAll V (main_arg1 : DevRef τ sig)) := by
  have h := (at_result V (hst3 V) (hpre3 V) htail4_writes (r := main_v57) (by decide)).trans (hseg3_main_v57 (hst3 V))
  rw [← at_input V (hst3 V) (hpre3 V) htail3_writes (r := main_v36) (by decide),
    ← at_input V (hst3 V) (hpre3 V) htail3_writes (r := main_arg1) (by decide)] at h
  exact h

set_option maxRecDepth 65536 in
/-- After the whole line `main_v63` is stretch 4's function of the whole line's contents at what the stretch reads. -/
theorem hat_main_v63 (V : Valuation τ sig (Elt F)) :
    after hostAll V (main_v63 : DevRef τ sig) = kCx1 (after hostAll V (main_v57 : DevRef τ sig)) := by
  have h := (at_result V (hst4 V) (hpre4 V) htail5_writes (r := main_v63) (by decide)).trans (hseg4_main_v63 (hst4 V))
  rw [← at_input V (hst4 V) (hpre4 V) htail4_writes (r := main_v57) (by decide)] at h
  exact h

set_option maxRecDepth 65536 in
/-- After the whole line `main_v84` is stretch 5's function of the whole line's contents at what the stretch reads. -/
theorem hat_main_v84 (V : Valuation τ sig (Elt F)) :
    after hostAll V (main_v84 : DevRef τ sig) = kRyP2 (after hostAll V (main_v63 : DevRef τ sig)) (after hostAll V (main_arg1 : DevRef τ sig)) := by
  have h := (at_result V (hst5 V) (hpre5 V) htail6_writes (r := main_v84) (by decide)).trans (hseg5_main_v84 (hst5 V))
  rw [← at_input V (hst5 V) (hpre5 V) htail5_writes (r := main_v63) (by decide),
    ← at_input V (hst5 V) (hpre5 V) htail5_writes (r := main_arg1) (by decide)] at h
  exact h

set_option maxRecDepth 65536 in
/-- After the whole line `main_v90` is stretch 6's function of the whole line's contents at what the stretch reads. -/
theorem hat_main_v90 (V : Valuation τ sig (Elt F)) :
    after hostAll V (main_v90 : DevRef τ sig) = kCx2 (after hostAll V (main_v84 : DevRef τ sig)) := by
  have h := (at_result V (hst6 V) (hpre6 V) htail7_writes (r := main_v90) (by decide)).trans (hseg6_main_v90 (hst6 V))
  rw [← at_input V (hst6 V) (hpre6 V) htail6_writes (r := main_v84) (by decide)] at h
  exact h

set_option maxRecDepth 65536 in
/-- After the whole line `main_v111` is stretch 7's function of the whole line's contents at what the stretch reads. -/
theorem hat_main_v111 (V : Valuation τ sig (Elt F)) :
    after hostAll V (main_v111 : DevRef τ sig) = kRyP3 (after hostAll V (main_v90 : DevRef τ sig)) (after hostAll V (main_arg1 : DevRef τ sig)) := by
  have h := (at_result V (hst7 V) (hpre7 V) htail8_writes (r := main_v111) (by decide)).trans (hseg7_main_v111 (hst7 V))
  rw [← at_input V (hst7 V) (hpre7 V) htail7_writes (r := main_v90) (by decide),
    ← at_input V (hst7 V) (hpre7 V) htail7_writes (r := main_arg1) (by decide)] at h
  exact h

set_option maxRecDepth 65536 in
/-- After the whole line `main_v117` is stretch 8's function of the whole line's contents at what the stretch reads. -/
theorem hat_main_v117 (V : Valuation τ sig (Elt F)) :
    after hostAll V (main_v117 : DevRef τ sig) = kCx3 (after hostAll V (main_v111 : DevRef τ sig)) := by
  have h := (at_result V (hst8 V) (hpre8 V) htail9_writes (r := main_v117) (by decide)).trans (hseg8_main_v117 (hst8 V))
  rw [← at_input V (hst8 V) (hpre8 V) htail8_writes (r := main_v111) (by decide)] at h
  exact h

set_option maxRecDepth 65536 in
/-- After the whole line `main_v118` is stretch 9's function of the whole line's contents at what the stretch reads. -/
theorem hat_main_v118 (V : Valuation τ sig (Elt F)) :
    after hostAll V (main_v118 : DevRef τ sig) = kMat (after hostAll V (main_v117 : DevRef τ sig)) := by
  have h := (at_result V (hst9 V) (hpre9 V) htail10_writes (r := main_v118) (by decide)).trans (hseg9_main_v118 (hst9 V))
  rw [← at_input V (hst9 V) (hpre9 V) htail9_writes (r := main_v117) (by decide)] at h
  exact h

set_option maxRecDepth 65536 in
/-- After the whole line `main_v119` is stretch 10's function of the whole line's contents at what the stretch reads. -/
theorem hat_main_v119 (V : Valuation τ sig (Elt F)) :
    after hostAll V (main_v119 : DevRef τ sig) = kMatT (after hostAll V (main_v118 : DevRef τ sig)) := by
  have h := (at_result V (hst10 V) (hpre10 V) htail11_writes (r := main_v119) (by decide)).trans (hseg10_main_v119 (hst10 V))
  rw [← at_input V (hst10 V) (hpre10 V) htail10_writes (r := main_v118) (by decide)] at h
  exact h

/-! ## End to end -/

/-- After the host operations before the launch, from any contents `V`, the kernel's angle operand is the images of argument 0 regrouped. -/
theorem hat_main_v2_whole (V : Valuation τ sig (Elt F)) :
    after hostAll V (main_v2 : DevRef τ sig) = kAngles (V (main_arg0 : DevRef τ sig)) := by
  rw [hat_main_v2, hat_main_arg0]

/-- After the host operations before the launch, from any contents `V`, the kernel's matrix operand is the fixed block — four times a rotation by
    a parameter of argument 1 then a controlled NOT — run on the sixteen basis vectors, as a matrix, transposed. -/
theorem hat_main_v119_whole (V : Valuation τ sig (Elt F)) :
    after hostAll V (main_v119 : DevRef τ sig)
      = kMatT (kMat (kCx3 (kRyP3 (kCx2 (kRyP2 (kCx1 (kRyP1 (kCx0 (kRyP0 kIdent (V (main_arg1 : DevRef τ sig)))) (V (main_arg1 : DevRef τ sig)))) (V (main_arg1 : DevRef τ sig)))) (V (main_arg1 : DevRef τ sig))))) := by
  rw [hat_main_v119, hat_main_v118, hat_main_v117, hat_main_v111, hat_main_v90, hat_main_v84, hat_main_v63, hat_main_v57, hat_main_v36, hat_main_v30, hat_main_v9, hat_main_arg1]

end Cert.KernelIdeal.KerHost

end
-- ==== Proof.AngleArrays.lean ====
import proofs.«159359_j65481071398168_2_alg».proof.ReferenceIdeal
import proofs.«159359_j65481071398168_2_alg».proof.KernelIdeal
import Idealize.ShloMosaic.Lib.ValueIdx
import Idealize.ShloMosaic.Lib.Pipeline.Value

noncomputable section

namespace Cert.AngleArrays

open Idealize.ShloMosaic Idealize.ShloMosaic.ValueIdx

/-! # The two programs' angle arrays hold the same numbers

An image is `28 × 28`, cut into `14 × 14` patches of `2 × 2` pixels. Patch `N = (b · 14 + i) · 14 + j` of the batch
and pixel `k = 2 · di + dj` inside it is pixel `(2 i + di, 2 j + dj)` of image `b`, that is, entry
`(b, 56 i + 28 di + 2 j + dj)` of the flattened `[B, 784]` input. One program lays these numbers out as
`[N, k]`, the other as `[k, N]`; both are reshapes around one transpose, read here at an index. -/

/-- The input entry that is pixel `k` of patch `N`. -/
def pix (N : Fin 802816) (k : Fin 4) : (⟨2, ![4096, 784]⟩ : Shape).Idx :=
  ix2 (⟨N.val / 196, by have := N.isLt; omega⟩ : Fin 4096)
    (⟨((N.val % 196) / 14) * 56 + (k.val / 2) * 28 + (N.val % 14) * 2 + k.val % 2, by
      have := N.isLt; have := k.isLt; omega⟩ : Fin 784)

section Reference
open Cert.ReferenceIdeal Cert.ReferenceIdeal.Facts₀
variable [Cert.ReferenceIdeal.Facts₀]

/-- The patches as rows: `[N, 4]`. -/
def P (x : FVec Ideal S4096x784 .f32) : FVec Ideal S802816x4 .f32 :=
  let t0 := shapeCast S4096x28x28 x shapeCasts_S4096x784_S4096x28x28
  let t1 := shapeCast S4096x14x2x14x2 t0 shapeCasts_S4096x28x28_S4096x14x2x14x2
  let t2 := transpose S4096x14x14x2x2 [0, 1, 3, 2, 4] t1 transposes_S4096x14x2x14x2_S4096x14x14x2x2_0_1_3_2_4
  shapeCast S802816x4 t2 shapeCasts_S4096x14x14x2x2_S802816x4

theorem P_apply (x : FVec Ideal S4096x784 .f32) (N : Fin 802816) (k : Fin 4) :
    P x (ix2 N k) = x (pix N k) := by
  have hN := N.isLt
  have hk := k.isLt
  let b : Fin 4096 := ⟨N.val / 196, by omega⟩
  let i : Fin 14 := ⟨(N.val % 196) / 14, by omega⟩
  let j : Fin 14 := ⟨N.val % 14, by omega⟩
  let di : Fin 2 := ⟨k.val / 2, by omega⟩
  let dj : Fin 2 := ⟨k.val % 2, by omega⟩
  unfold P
  refine (shapeCast_apply _ _ (ix2 N k) (ix5 b i j di dj) ?_).trans ?_
  · rw [Shape.rowMajor_val_five, Shape.rowMajor_val_two]
    show ((((N.val / 196) * 14 + (N.val % 196) / 14) * 14 + N.val % 14) * 2 + k.val / 2) * 2 + k.val % 2
      = N.val * 4 + k.val
    omega
  refine (transpose_apply _ _ _ (ix5 b i j di dj) (ix5 b i di j dj) (fun r => ?_)).trans ?_
  · match r with
    | ⟨0, _⟩ => rfl
    | ⟨1, _⟩ => rfl
    | ⟨2, _⟩ => rfl
    | ⟨3, _⟩ => rfl
    | ⟨4, _⟩ => rfl
  refine (shapeCast_apply _ _ (ix5 b i di j dj)
    (ix3 b (⟨i.val * 2 + di.val, by have := i.isLt; have := di.isLt; omega⟩ : Fin 28)
      (⟨j.val * 2 + dj.val, by have := j.isLt; have := dj.isLt; omega⟩ : Fin 28)) ?_).trans ?_
  · rw [Shape.rowMajor_val_five, Shape.rowMajor_val_three]
    show ((N.val / 196) * 28 + ((N.val % 196) / 14 * 2 + k.val / 2)) * 28 + (N.val % 14 * 2 + k.val % 2)
      = ((((N.val / 196) * 14 + (N.val % 196) / 14) * 2 + k.val / 2) * 14 + N.val % 14) * 2 + k.val % 2
    omega
  refine shapeCast_apply _ _ _ (pix N k) ?_
  rw [Shape.rowMajor_val_three, Shape.rowMajor_val_two]
  show (N.val / 196) * 784 + (((N.val % 196) / 14) * 56 + (k.val / 2) * 28 + (N.val % 14) * 2 + k.val % 2)
    = ((N.val / 196) * 28 + ((N.val % 196) / 14 * 2 + k.val / 2)) * 28 + (N.val % 14 * 2 + k.val % 2)
  omega

end Reference

section Kernel
open Cert.KernelIdeal Cert.KernelIdeal.Facts₀
variable [Cert.KernelIdeal.Facts₀]

/-- The patches as columns: `[4, N]`. -/
def PT (x : FVec Ideal S4096x784 .f32) : FVec Ideal S4x802816 .f32 :=
  let t0 := shapeCast S4096x14x2x14x2 x shapeCasts_S4096x784_S4096x14x2x14x2
  let t1 := transpose S2x2x4096x14x14 [2, 4, 0, 1, 3] t0 transposes_S4096x14x2x14x2_S2x2x4096x14x14_2_4_0_1_3
  shapeCast S4x802816 t1 shapeCasts_S2x2x4096x14x14_S4x802816

theorem PT_apply (x : FVec Ideal S4096x784 .f32) (N : Fin 802816) (k : Fin 4) :
    PT x (ix2 k N) = x (pix N k) := by
  have hN := N.isLt
  have hk := k.isLt
  let b : Fin 4096 := ⟨N.val / 196, by omega⟩
  let i : Fin 14 := ⟨(N.val % 196) / 14, by omega⟩
  let j : Fin 14 := ⟨N.val % 14, by omega⟩
  let di : Fin 2 := ⟨k.val / 2, by omega⟩
  let dj : Fin 2 := ⟨k.val % 2, by omega⟩
  unfold PT
  refine (shapeCast_apply _ _ (ix2 k N) (ix5 di dj b i j) ?_).trans ?_
  · rw [Shape.rowMajor_val_five, Shape.rowMajor_val_two]
    show ((((k.val / 2) * 2 + k.val % 2) * 4096 + N.val / 196) * 14 + (N.val % 196) / 14) * 14 + N.val % 14
      = k.val * 802816 + N.val
    omega
  refine (transpose_apply _ _ _ (ix5 di dj b i j) (ix5 b i di j dj) (fun r => ?_)).trans ?_
  · match r with
    | ⟨0, _⟩ => rfl
    | ⟨1, _⟩ => rfl
    | ⟨2, _⟩ => rfl
    | ⟨3, _⟩ => rfl
    | ⟨4, _⟩ => rfl
  refine shapeCast_apply _ _ _ (pix N k) ?_
  rw [Shape.rowMajor_val_five, Shape.rowMajor_val_two]
  show (N.val / 196) * 784 + (((N.val % 196) / 14) * 56 + (k.val / 2) * 28 + (N.val % 14) * 2 + k.val % 2)
    = ((((N.val / 196) * 14 + (N.val % 196) / 14) * 2 + k.val / 2) * 14 + N.val % 14) * 2 + k.val % 2
  omega

end Kernel

/-- The two layouts hold the same number for pixel `k` of patch `N`. -/
theorem angles_agree [Cert.ReferenceIdeal.Facts₀] [Cert.KernelIdeal.Facts₀]
    (x : FVec Ideal (⟨2, ![4096, 784]⟩ : Shape) .f32) (N : Fin 802816) (k : Fin 4) :
    PT x (ix2 k N) = P x (ix2 N k) := by
  rw [PT_apply, P_apply]

end Cert.AngleArrays

end
-- ==== Proof.KerBridge.lean ====
/- The kernel program's host stretches, as composed from its operations one by one, are the gates as defined
   array-wise: a rotation's stretch is the rotation of that axis applied to the cosine and sine of half the angle
   broadcast over the whole array, a controlled NOT's stretch is the controlled NOT of that pair of axes, the first
   stretch yields the sixteen basis vectors regrouped and the angles regrouped, the last two flatten and transpose.
   Both sides are the same operations composed in the same order, so each equation holds by unfolding the
   definitions. -/
import proofs.«159359_j65481071398168_2_alg».proof.Proof.KerHostDefs
import proofs.«159359_j65481071398168_2_alg».proof.Proof.KerState
import proofs.«159359_j65481071398168_2_alg».proof.Proof.AngleArrays

set_option synthInstance.maxSize 4096

noncomputable section

namespace Cert.KernelIdeal.KerHost

open Cert.KernelIdeal Idealize.ShloMosaic
open Cert.KernelIdeal.Facts₀ Cert.KernelIdeal.Facts

variable [Facts]

/-- The fixed rotation of the first qubit: the rotation of axis 1 by the cosine and sine of half of parameter 0, broadcast over the whole array. -/
theorem kRyP0_eq (x0 : FVec Ideal S16x2x2x2x2 .f32) (x1 : FVec Ideal S4 .f32) :
    kRyP0 (F := Ideal) x0 x1
      = KerGates.ry1 (broadcastInDim S16x2x2x2 ![] bcast_S_S16x2x2x2 (Host.cos (KerGates.halfPar 0 slices_S4_S1_0 x1)))
          (broadcastInDim S16x2x2x2 ![] bcast_S_S16x2x2x2 (Host.sin (KerGates.halfPar 0 slices_S4_S1_0 x1))) x0 := rfl

/-- The fixed rotation of the second qubit: the rotation of axis 2 by the cosine and sine of half of parameter 1, broadcast over the whole array. -/
theorem kRyP1_eq (x0 : FVec Ideal S16x2x2x2x2 .f32) (x1 : FVec Ideal S4 .f32) :
    kRyP1 (F := Ideal) x0 x1
      = KerGates.ry2 (broadcastInDim S16x2x2x2 ![] bcast_S_S16x2x2x2 (Host.cos (KerGates.halfPar 1 slices_S4_S1_1 x1)))
          (broadcastInDim S16x2x2x2 ![] bcast_S_S16x2x2x2 (Host.sin (KerGates.halfPar 1 slices_S4_S1_1 x1))) x0 := rfl

/-- The fixed rotation of the third qubit: the rotation of axis 3 by the cosine and sine of half of parameter 2, broadcast over the whole array. -/
theorem kRyP2_eq (x0 : FVec Ideal S16x2x2x2x2 .f32) (x1 : FVec Ideal S4 .f32) :
    kRyP2 (F := Ideal) x0 x1
      = KerGates.ry3 (broadcastInDim S16x2x2x2 ![] bcast_S_S16x2x2x2 (Host.cos (KerGates.halfPar 2 slices_S4_S1_2 x1)))
          (broadcastInDim S16x2x2x2 ![] bcast_S_S16x2x2x2 (Host.sin (KerGates.halfPar 2 slices_S4_S1_2 x1))) x0 := rfl

/-- The fixed rotation of the fourth qubit: the rotation of axis 4 by the cosine and sine of half of parameter 3, broadcast over the whole array. -/
theorem kRyP3_eq (x0 : FVec Ideal S16x2x2x2x2 .f32) (x1 : FVec Ideal S4 .f32) :
    kRyP3 (F := Ideal) x0 x1
      = KerGates.ry4 (broadcastInDim S16x2x2x2 ![] bcast_S_S16x2x2x2 (Host.cos (KerGates.halfPar 3 slices_S4_S1_3 x1)))
          (broadcastInDim S16x2x2x2 ![] bcast_S_S16x2x2x2 (Host.sin (KerGates.halfPar 3 slices_S4_S1_3 x1))) x0 := rfl

/-- The controlled NOT with the first qubit as control. -/
theorem kCx0_eq (x0 : FVec Ideal S16x2x2x2x2 .f32) : kCx0 (F := Ideal) x0 = KerGates.cx12 x0 := rfl

/-- The controlled NOT with the second qubit as control. -/
theorem kCx1_eq (x0 : FVec Ideal S16x2x2x2x2 .f32) : kCx1 (F := Ideal) x0 = KerGates.cx23 x0 := rfl

/-- The controlled NOT with the third qubit as control. -/
theorem kCx2_eq (x0 : FVec Ideal S16x2x2x2x2 .f32) : kCx2 (F := Ideal) x0 = KerGates.cx34 x0 := rfl

/-- The controlled NOT with the fourth qubit as control. -/
theorem kCx3_eq (x0 : FVec Ideal S16x2x2x2x2 .f32) : kCx3 (F := Ideal) x0 = KerGates.cx41 x0 := rfl

/-- The first state: the sixteen basis vectors, regrouped. -/
theorem kIdent_eq : kIdent (F := Ideal) = shapeCast S16x2x2x2x2 KerGates.eye shapeCasts_S16x16_S16x2x2x2x2 := rfl

/-- The last two stretches: the transformed basis vectors flattened to a matrix, then transposed. -/
theorem kMatT_kMat_eq (T : FVec Ideal S16x2x2x2x2 .f32) :
    kMatT (F := Ideal) (kMat (F := Ideal) T)
      = transpose S16x16 [1, 0] (shapeCast S16x16 T shapeCasts_S16x2x2x2x2_S16x16) transposes_S16x16_S16x16_1_0 := rfl

/-- The angles regrouped: one row per pixel of the patch. -/
theorem kAngles_eq (x : FVec Ideal S4096x784 .f32) : kAngles (F := Ideal) x = Cert.AngleArrays.PT x := rfl

/-- The eight gate stretches in a row are the fixed block. -/
theorem kBlock_eq (x : FVec Ideal S16x2x2x2x2 .f32) (v : FVec Ideal S4 .f32) :
    kCx3 (F := Ideal) (kRyP3 (F := Ideal) (kCx2 (F := Ideal) (kRyP2 (F := Ideal) (kCx1 (F := Ideal) (kRyP1 (F := Ideal)
      (kCx0 (F := Ideal) (kRyP0 (F := Ideal) x v)) v)) v)) v) = KerState.block x v := by
  rw [kRyP0_eq, kCx0_eq, kRyP1_eq, kCx1_eq, kRyP2_eq, kCx2_eq, kRyP3_eq, kCx3_eq]
  rfl

end Cert.KernelIdeal.KerHost

end
-- ==== Proof.RefGatesTake.lean ====
import proofs.«159359_j65481071398168_2_alg».proof.ReferenceIdeal
import Idealize.ShloMosaic.Lib.ValueIdx
import Idealize.ShloMosaic.PureOps.Reduce

noncomputable section

namespace Cert.ReferenceIdeal.RefGates

open Idealize.ShloMosaic Idealize.ShloMosaic.ValueIdx
open Cert.ReferenceIdeal Cert.ReferenceIdeal.Facts₀

variable [Facts₀]

/-! # Taking one slice of the state along a qubit axis

The state is a rank-5 array `[N, 2, 2, 2, 2]`: one batch axis and one axis of extent 2 per qubit.
`take` along axis `a` at position `k ∈ {0, 1}` is: normalise the position (a negative one counts from the
end), gather the slice, and keep it where the position is in bounds (elsewhere a fill value). For the two
positions that occur the position is in bounds, so the result at `(n, r, s, t)` is the state at the index
with `k` inserted on axis `a`. -/

/-- A left fold of the one-bit "and" over entries that are all one, from one, is one. -/
theorem foldl_andi_ones {ι : Type} (x : ι → BitVec 1) (hx : ∀ i, x i = 1#1) (l : List ι) :
    l.foldl (fun r i => IntOp.andi r (x i)) 1#1 = 1#1 := by
  induction l with
  | nil => rfl
  | cons a l ih => rw [List.foldl_cons, hx a]; exact ih

/-- A one-bit "and" reduction whose operand and initial value are all one is one. -/
theorem reduce_andi_ones {s t u : Shape} {axes : List (Fin s.rank)} (x : IVec s 1) (init : IVec u 1)
    (h : s.ReducesTo axes t) (hu : 0 < u.numel) (j : t.Idx) (hx : ∀ i, x i = 1#1)
    (hi : init (Shape.Idx.first hu) = 1#1) : Host.reduce IntOp.andi x init h hu j = 1#1 := by
  rw [Host.reduce_eq_foldl, hi]
  exact foldl_andi_ones x hx _

/-- On an operand axis other than the one start-indexed axis `c`, with no batching axes, a gather reads the
    result index's offset coordinate. -/
theorem operandIdx_val_of_ne {s si t : Shape} (d : GatherDims s si t) {w : Nat} (j : t.Idx) (idx : IVec si w)
    (ax c : Fin s.rank) (hl : d.startIndexMap = [c]) (hc : ax.val ≠ c.val) (hb : d.operandBatchingDims = []) :
    (d.operandIdx j idx ax).val = d.offCoord j ax := by
  show d.start j idx ax + d.batchCoord j ax + d.offCoord j ax = _
  have h1 : ax ∉ d.startIndexMap := by
    rw [hl]; intro h; exact hc (congrArg Fin.val (List.mem_singleton.1 h))
  have h2 : ax ∉ d.operandBatchingDims := by rw [hb]; exact List.not_mem_nil
  rw [d.batchCoord_eq_zero j ax h2]
  unfold GatherDims.start
  rw [dif_neg h1]; omega

/-- The normalised position as a one-element index array: `k` itself when `k ≥ 0`, else `k + 2`. -/
def takeStart (k : BitVec 32) : IVec S1 32 :=
  let a1 : IVec S_ 32 := constantI S_ 32 k
  let c : IVec S_ 32 := constantI S_ 32 0#32
  let v0 := cmpi .slt a1 c
  let c0 : IVec S_ 32 := constantI S_ 32 2#32
  let v1 := addi a1 c0
  let v2 := select v0 v1 a1
  let v3 := broadcastInDim S1 ![] bcast_S_S1 v2
  id v3

/-- The in-bounds flag of the normalised position: `0 ≤ p ∧ p ≤ 1`, reduced by "and" to a scalar. -/
def takeOk (k : BitVec 32) : IVec S_ 1 :=
  let v4 := takeStart k
  let c_1 : IVec S1 32 := constantI S1 32 1#32
  let c_2 : IVec S_ 32 := constantI S_ 32 0#32
  let v5 := broadcastInDim S1 ![] bcast_S_S1 c_2
  let v6 := cmpi .sge v4 v5
  let v7 := cmpi .sle v4 c_1
  let v8 := andi v6 v7
  let c_3 : IVec S_ 1 := constantI S_ 1 1#1
  Host.reduce IntOp.andi v8 c_3 reducesTo_S1_S_d0 h_S_

theorem takeStart_zero (i : S1.Idx) : takeStart 0#32 i = 0#32 := rfl
theorem takeStart_one (i : S1.Idx) : takeStart 1#32 i = 1#32 := rfl

theorem takeOk_zero (i : S_.Idx) : takeOk 0#32 i = 1#1 := by
  unfold takeOk
  refine reduce_andi_ones _ _ _ _ _ (fun i => ?_) rfl
  show IntOp.andi (IntOp.cmpi .sge (takeStart 0#32 i) 0#32) (IntOp.cmpi .sle (takeStart 0#32 i) 1#32) = 1#1
  rw [takeStart_zero]; decide

theorem takeOk_one (i : S_.Idx) : takeOk 1#32 i = 1#1 := by
  unfold takeOk
  refine reduce_andi_ones _ _ _ _ _ (fun i => ?_) rfl
  show IntOp.andi (IntOp.cmpi .sge (takeStart 1#32 i) 0#32) (IntOp.cmpi .sle (takeStart 1#32 i) 1#32) = 1#1
  rw [takeStart_one]; decide

/-! ## Axis 1 -/

/-- The slice at position `k` of axis 1. -/
def take1 (k : BitVec 32) (x : FVec Ideal S802816x2x2x2x2 .f32) : FVec Ideal S802816x2x2x2 .f32 :=
  let v10 := Host.gather gather_S802816x2x2x2x2_S1_S802816x2x2x2_0123_1_n_n_1_0_8028161222 x (takeStart k)
  let v11 := broadcastInDim S802816x2x2x2 ![] bcast_S_S802816x2x2x2 (takeOk k)
  let cst : FVec Ideal S_ .f32 := constant S_ .f32 0x7FC00000#32
  let v12 := broadcastInDim S802816x2x2x2 ![] bcast_S_S802816x2x2x2 cst
  select v11 v10 v12

theorem take1_zero_apply (x : FVec Ideal S802816x2x2x2x2 .f32) (n : Fin 802816) (r s t : Fin 2) :
    take1 0#32 x (ix4 n r s t) = x (ix5 n 0 r s t) := by
  unfold take1
  show Scalar.select (takeOk 0#32 _) (Host.gather _ x (takeStart 0#32) (ix4 n r s t)) _ = _
  rw [takeOk_zero, select_one]
  unfold Host.gather
  refine congrArg x (funext fun ax => Fin.ext ?_)
  match ax with
  | ⟨0, _⟩ => exact (operandIdx_val_of_ne _ _ _ _ 1 rfl (by decide : (0 : Nat) ≠ 1) rfl).trans rfl
  | ⟨1, _⟩ => rfl
  | ⟨2, _⟩ => exact (operandIdx_val_of_ne _ _ _ _ 1 rfl (by decide : (2 : Nat) ≠ 1) rfl).trans rfl
  | ⟨3, _⟩ => exact (operandIdx_val_of_ne _ _ _ _ 1 rfl (by decide : (3 : Nat) ≠ 1) rfl).trans rfl
  | ⟨4, _⟩ => exact (operandIdx_val_of_ne _ _ _ _ 1 rfl (by decide : (4 : Nat) ≠ 1) rfl).trans rfl

theorem take1_one_apply (x : FVec Ideal S802816x2x2x2x2 .f32) (n : Fin 802816) (r s t : Fin 2) :
    take1 1#32 x (ix4 n r s t) = x (ix5 n 1 r s t) := by
  unfold take1
  show Scalar.select (takeOk 1#32 _) (Host.gather _ x (takeStart 1#32) (ix4 n r s t)) _ = _
  rw [takeOk_one, select_one]
  unfold Host.gather
  refine congrArg x (funext fun ax => Fin.ext ?_)
  match ax with
  | ⟨0, _⟩ => exact (operandIdx_val_of_ne _ _ _ _ 1 rfl (by decide : (0 : Nat) ≠ 1) rfl).trans rfl
  | ⟨1, _⟩ => rfl
  | ⟨2, _⟩ => exact (operandIdx_val_of_ne _ _ _ _ 1 rfl (by decide : (2 : Nat) ≠ 1) rfl).trans rfl
  | ⟨3, _⟩ => exact (operandIdx_val_of_ne _ _ _ _ 1 rfl (by decide : (3 : Nat) ≠ 1) rfl).trans rfl
  | ⟨4, _⟩ => exact (operandIdx_val_of_ne _ _ _ _ 1 rfl (by decide : (4 : Nat) ≠ 1) rfl).trans rfl

/-! ## Axis 2 -/

/-- The slice at position `k` of axis 2. -/
def take2 (k : BitVec 32) (x : FVec Ideal S802816x2x2x2x2 .f32) : FVec Ideal S802816x2x2x2 .f32 :=
  let v10 := Host.gather gather_S802816x2x2x2x2_S1_S802816x2x2x2_0123_2_n_n_2_0_8028162122 x (takeStart k)
  let v11 := broadcastInDim S802816x2x2x2 ![] bcast_S_S802816x2x2x2 (takeOk k)
  let cst : FVec Ideal S_ .f32 := constant S_ .f32 0x7FC00000#32
  let v12 := broadcastInDim S802816x2x2x2 ![] bcast_S_S802816x2x2x2 cst
  select v11 v10 v12

theorem take2_zero_apply (x : FVec Ideal S802816x2x2x2x2 .f32) (n : Fin 802816) (r s t : Fin 2) :
    take2 0#32 x (ix4 n r s t) = x (ix5 n r 0 s t) := by
  unfold take2
  show Scalar.select (takeOk 0#32 _) (Host.gather _ x (takeStart 0#32) (ix4 n r s t)) _ = _
  rw [takeOk_zero, select_one]
  unfold Host.gather
  refine congrArg x (funext fun ax => Fin.ext ?_)
  match ax with
  | ⟨0, _⟩ => exact (operandIdx_val_of_ne _ _ _ _ 2 rfl (by decide : (0 : Nat) ≠ 2) rfl).trans rfl
  | ⟨1, _⟩ => exact (operandIdx_val_of_ne _ _ _ _ 2 rfl (by decide : (1 : Nat) ≠ 2) rfl).trans rfl
  | ⟨2, _⟩ => rfl
  | ⟨3, _⟩ => exact (operandIdx_val_of_ne _ _ _ _ 2 rfl (by decide : (3 : Nat) ≠ 2) rfl).trans rfl
  | ⟨4, _⟩ => exact (operandIdx_val_of_ne _ _ _ _ 2 rfl (by decide : (4 : Nat) ≠ 2) rfl).trans rfl

theorem take2_one_apply (x : FVec Ideal S802816x2x2x2x2 .f32) (n : Fin 802816) (r s t : Fin 2) :
    take2 1#32 x (ix4 n r s t) = x (ix5 n r 1 s t) := by
  unfold take2
  show Scalar.select (takeOk 1#32 _) (Host.gather _ x (takeStart 1#32) (ix4 n r s t)) _ = _
  rw [takeOk_one, select_one]
  unfold Host.gather
  refine congrArg x (funext fun ax => Fin.ext ?_)
  match ax with
  | ⟨0, _⟩ => exact (operandIdx_val_of_ne _ _ _ _ 2 rfl (by decide : (0 : Nat) ≠ 2) rfl).trans rfl
  | ⟨1, _⟩ => exact (operandIdx_val_of_ne _ _ _ _ 2 rfl (by decide : (1 : Nat) ≠ 2) rfl).trans rfl
  | ⟨2, _⟩ => rfl
  | ⟨3, _⟩ => exact (operandIdx_val_of_ne _ _ _ _ 2 rfl (by decide : (3 : Nat) ≠ 2) rfl).trans rfl
  | ⟨4, _⟩ => exact (operandIdx_val_of_ne _ _ _ _ 2 rfl (by decide : (4 : Nat) ≠ 2) rfl).trans rfl

/-! ## Axis 3 -/

/-- The slice at position `k` of axis 3. -/
def take3 (k : BitVec 32) (x : FVec Ideal S802816x2x2x2x2 .f32) : FVec Ideal S802816x2x2x2 .f32 :=
  let v10 := Host.gather gather_S802816x2x2x2x2_S1_S802816x2x2x2_0123_3_n_n_3_0_8028162212 x (takeStart k)
  let v11 := broadcastInDim S802816x2x2x2 ![] bcast_S_S802816x2x2x2 (takeOk k)
  let cst : FVec Ideal S_ .f32 := constant S_ .f32 0x7FC00000#32
  let v12 := broadcastInDim S802816x2x2x2 ![] bcast_S_S802816x2x2x2 cst
  select v11 v10 v12

theorem take3_zero_apply (x : FVec Ideal S802816x2x2x2x2 .f32) (n : Fin 802816) (r s t : Fin 2) :
    take3 0#32 x (ix4 n r s t) = x (ix5 n r s 0 t) := by
  unfold take3
  show Scalar.select (takeOk 0#32 _) (Host.gather _ x (takeStart 0#32) (ix4 n r s t)) _ = _
  rw [takeOk_zero, select_one]
  unfold Host.gather
  refine congrArg x (funext fun ax => Fin.ext ?_)
  match ax with
  | ⟨0, _⟩ => exact (operandIdx_val_of_ne _ _ _ _ 3 rfl (by decide : (0 : Nat) ≠ 3) rfl).trans rfl
  | ⟨1, _⟩ => exact (operandIdx_val_of_ne _ _ _ _ 3 rfl (by decide : (1 : Nat) ≠ 3) rfl).trans rfl
  | ⟨2, _⟩ => exact (operandIdx_val_of_ne _ _ _ _ 3 rfl (by decide : (2 : Nat) ≠ 3) rfl).trans rfl
  | ⟨3, _⟩ => rfl
  | ⟨4, _⟩ => exact (operandIdx_val_of_ne _ _ _ _ 3 rfl (by decide : (4 : Nat) ≠ 3) rfl).trans rfl

theorem take3_one_apply (x : FVec Ideal S802816x2x2x2x2 .f32) (n : Fin 802816) (r s t : Fin 2) :
    take3 1#32 x (ix4 n r s t) = x (ix5 n r s 1 t) := by
  unfold take3
  show Scalar.select (takeOk 1#32 _) (Host.gather _ x (takeStart 1#32) (ix4 n r s t)) _ = _
  rw [takeOk_one, select_one]
  unfold Host.gather
  refine congrArg x (funext fun ax => Fin.ext ?_)
  match ax with
  | ⟨0, _⟩ => exact (operandIdx_val_of_ne _ _ _ _ 3 rfl (by decide : (0 : Nat) ≠ 3) rfl).trans rfl
  | ⟨1, _⟩ => exact (operandIdx_val_of_ne _ _ _ _ 3 rfl (by decide : (1 : Nat) ≠ 3) rfl).trans rfl
  | ⟨2, _⟩ => exact (operandIdx_val_of_ne _ _ _ _ 3 rfl (by decide : (2 : Nat) ≠ 3) rfl).trans rfl
  | ⟨3, _⟩ => rfl
  | ⟨4, _⟩ => exact (operandIdx_val_of_ne _ _ _ _ 3 rfl (by decide : (4 : Nat) ≠ 3) rfl).trans rfl

/-! ## Axis 4 -/

/-- The slice at position `k` of axis 4. -/
def take4 (k : BitVec 32) (x : FVec Ideal S802816x2x2x2x2 .f32) : FVec Ideal S802816x2x2x2 .f32 :=
  let v10 := Host.gather gather_S802816x2x2x2x2_S1_S802816x2x2x2_0123_4_n_n_4_0_8028162221 x (takeStart k)
  let v11 := broadcastInDim S802816x2x2x2 ![] bcast_S_S802816x2x2x2 (takeOk k)
  let cst : FVec Ideal S_ .f32 := constant S_ .f32 0x7FC00000#32
  let v12 := broadcastInDim S802816x2x2x2 ![] bcast_S_S802816x2x2x2 cst
  select v11 v10 v12

theorem take4_zero_apply (x : FVec Ideal S802816x2x2x2x2 .f32) (n : Fin 802816) (r s t : Fin 2) :
    take4 0#32 x (ix4 n r s t) = x (ix5 n r s t 0) := by
  unfold take4
  show Scalar.select (takeOk 0#32 _) (Host.gather _ x (takeStart 0#32) (ix4 n r s t)) _ = _
  rw [takeOk_zero, select_one]
  unfold Host.gather
  refine congrArg x (funext fun ax => Fin.ext ?_)
  match ax with
  | ⟨0, _⟩ => exact (operandIdx_val_of_ne _ _ _ _ 4 rfl (by decide : (0 : Nat) ≠ 4) rfl).trans rfl
  | ⟨1, _⟩ => exact (operandIdx_val_of_ne _ _ _ _ 4 rfl (by decide : (1 : Nat) ≠ 4) rfl).trans rfl
  | ⟨2, _⟩ => exact (operandIdx_val_of_ne _ _ _ _ 4 rfl (by decide : (2 : Nat) ≠ 4) rfl).trans rfl
  | ⟨3, _⟩ => exact (operandIdx_val_of_ne _ _ _ _ 4 rfl (by decide : (3 : Nat) ≠ 4) rfl).trans rfl
  | ⟨4, _⟩ => rfl

theorem take4_one_apply (x : FVec Ideal S802816x2x2x2x2 .f32) (n : Fin 802816) (r s t : Fin 2) :
    take4 1#32 x (ix4 n r s t) = x (ix5 n r s t 1) := by
  unfold take4
  show Scalar.select (takeOk 1#32 _) (Host.gather _ x (takeStart 1#32) (ix4 n r s t)) _ = _
  rw [takeOk_one, select_one]
  unfold Host.gather
  refine congrArg x (funext fun ax => Fin.ext ?_)
  match ax with
  | ⟨0, _⟩ => exact (operandIdx_val_of_ne _ _ _ _ 4 rfl (by decide : (0 : Nat) ≠ 4) rfl).trans rfl
  | ⟨1, _⟩ => exact (operandIdx_val_of_ne _ _ _ _ 4 rfl (by decide : (1 : Nat) ≠ 4) rfl).trans rfl
  | ⟨2, _⟩ => exact (operandIdx_val_of_ne _ _ _ _ 4 rfl (by decide : (2 : Nat) ≠ 4) rfl).trans rfl
  | ⟨3, _⟩ => exact (operandIdx_val_of_ne _ _ _ _ 4 rfl (by decide : (3 : Nat) ≠ 4) rfl).trans rfl
  | ⟨4, _⟩ => rfl

end Cert.ReferenceIdeal.RefGates

end
-- ==== Proof.RefGatesRy.lean ====
import proofs.«159359_j65481071398168_2_alg».proof.Proof.RefGatesTake
import Idealize.ShloMosaic.Lib.Pipeline.Value

noncomputable section

namespace Cert.ReferenceIdeal.RefGates

open Idealize.ShloMosaic Idealize.ShloMosaic.ValueIdx
open Cert.ReferenceIdeal Cert.ReferenceIdeal.Facts₀

variable [Facts₀]

/-! # One rotation about Y on one qubit axis

With `cb`, `sb` the cosine and sine of half the angle, already broadcast over the three other qubit axes,
the rotation on axis `a` replaces the two slices `x₀`, `x₁` of the state along `a` by
`cb · x₀ − sb · x₁` and `sb · x₀ + cb · x₁`, stacked back along `a`. Read at an index whose coordinate on
axis `a` is `0` it is the first combination, at `1` the second, the other coordinates unchanged. -/

/-! ## Axis 1 -/

def ry1 (cb sb : FVec Ideal S802816x2x2x2 .f32) (x : FVec Ideal S802816x2x2x2x2 .f32) :
    FVec Ideal S802816x2x2x2x2 .f32 :=
  let s0 := take1 0#32 x
  let s1 := take1 1#32 x
  let lo := subf (mulf cb s0) (mulf sb s1)
  let hi := addf (mulf sb s0) (mulf cb s1)
  let lo' := broadcastInDim S802816x1x2x2x2 ![0, 2, 3, 4] bcast_S802816x2x2x2_S802816x1x2x2x2_0_2_3_4 lo
  let hi' := broadcastInDim S802816x1x2x2x2 ![0, 2, 3, 4] bcast_S802816x2x2x2_S802816x1x2x2x2_0_2_3_4 hi
  concatenate S802816x2x2x2x2 1 [⟨S802816x1x2x2x2, lo'⟩, ⟨S802816x1x2x2x2, hi'⟩]
    concatenates_S802816x1x2x2x2_S802816x1x2x2x2_S802816x2x2x2x2_d1

theorem ry1_zero_apply (cb sb : FVec Ideal S802816x2x2x2 .f32) (x : FVec Ideal S802816x2x2x2x2 .f32)
    (n : Fin 802816) (r s t : Fin 2) :
    ry1 cb sb x (ix5 n 0 r s t)
      = cb (ix4 n r s t) * x (ix5 n 0 r s t) - sb (ix4 n r s t) * x (ix5 n 1 r s t) := by
  unfold ry1
  refine (concatenate_pair_apply_left (t := S802816x2x2x2x2) (s₁ := S802816x1x2x2x2) (s₂ := S802816x1x2x2x2) 1 _ _ _
    (ix5 n (0 : Fin 2) r s t) rfl (ix5 n (0 : Fin 1) r s t) (fun b => ?_)).trans ?_
  · match b with
    | ⟨0, _⟩ => rfl
    | ⟨1, _⟩ => rfl
    | ⟨2, _⟩ => rfl
    | ⟨3, _⟩ => rfl
    | ⟨4, _⟩ => rfl
  · refine (broadcastInDim_apply _ _ _ (ix5 n (0 : Fin 1) r s t) (ix4 n r s t) (fun a => ?_)).trans ?_
    · match a with
      | ⟨0, _⟩ => rfl
      | ⟨1, _⟩ => rfl
      | ⟨2, _⟩ => rfl
      | ⟨3, _⟩ => rfl
    · rw [subf_apply, mulf_apply, mulf_apply, take1_zero_apply, take1_one_apply]

theorem ry1_one_apply (cb sb : FVec Ideal S802816x2x2x2 .f32) (x : FVec Ideal S802816x2x2x2x2 .f32)
    (n : Fin 802816) (r s t : Fin 2) :
    ry1 cb sb x (ix5 n 1 r s t)
      = sb (ix4 n r s t) * x (ix5 n 0 r s t) + cb (ix4 n r s t) * x (ix5 n 1 r s t) := by
  unfold ry1
  refine (concatenate_pair_apply_right (t := S802816x2x2x2x2) (s₁ := S802816x1x2x2x2) (s₂ := S802816x1x2x2x2) 1 _ _ _
    (ix5 n (1 : Fin 2) r s t) rfl rfl (ix5 n (0 : Fin 1) r s t) (fun b hb => ?_) rfl).trans ?_
  · match b with
    | ⟨0, _⟩ => rfl
    | ⟨1, _⟩ => exact absurd rfl hb
    | ⟨2, _⟩ => rfl
    | ⟨3, _⟩ => rfl
    | ⟨4, _⟩ => rfl
  · refine (broadcastInDim_apply _ _ _ (ix5 n (0 : Fin 1) r s t) (ix4 n r s t) (fun a => ?_)).trans ?_
    · match a with
      | ⟨0, _⟩ => rfl
      | ⟨1, _⟩ => rfl
      | ⟨2, _⟩ => rfl
      | ⟨3, _⟩ => rfl
    · rw [addf_apply, mulf_apply, mulf_apply, take1_zero_apply, take1_one_apply]

/-! ## Axis 2 -/

def ry2 (cb sb : FVec Ideal S802816x2x2x2 .f32) (x : FVec Ideal S802816x2x2x2x2 .f32) :
    FVec Ideal S802816x2x2x2x2 .f32 :=
  let s0 := take2 0#32 x
  let s1 := take2 1#32 x
  let lo := subf (mulf cb s0) (mulf sb s1)
  let hi := addf (mulf sb s0) (mulf cb s1)
  let lo' := broadcastInDim S802816x2x1x2x2 ![0, 1, 3, 4] bcast_S802816x2x2x2_S802816x2x1x2x2_0_1_3_4 lo
  let hi' := broadcastInDim S802816x2x1x2x2 ![0, 1, 3, 4] bcast_S802816x2x2x2_S802816x2x1x2x2_0_1_3_4 hi
  concatenate S802816x2x2x2x2 2 [⟨S802816x2x1x2x2, lo'⟩, ⟨S802816x2x1x2x2, hi'⟩]
    concatenates_S802816x2x1x2x2_S802816x2x1x2x2_S802816x2x2x2x2_d2

theorem ry2_zero_apply (cb sb : FVec Ideal S802816x2x2x2 .f32) (x : FVec Ideal S802816x2x2x2x2 .f32)
    (n : Fin 802816) (r s t : Fin 2) :
    ry2 cb sb x (ix5 n r 0 s t)
      = cb (ix4 n r s t) * x (ix5 n r 0 s t) - sb (ix4 n r s t) * x (ix5 n r 1 s t) := by
  unfold ry2
  refine (concatenate_pair_apply_left (t := S802816x2x2x2x2) (s₁ := S802816x2x1x2x2) (s₂ := S802816x2x1x2x2) 2 _ _ _
    (ix5 n r (0 : Fin 2) s t) rfl (ix5 n r (0 : Fin 1) s t) (fun b => ?_)).trans ?_
  · match b with
    | ⟨0, _⟩ => rfl
    | ⟨1, _⟩ => rfl
    | ⟨2, _⟩ => rfl
    | ⟨3, _⟩ => rfl
    | ⟨4, _⟩ => rfl
  · refine (broadcastInDim_apply _ _ _ (ix5 n r (0 : Fin 1) s t) (ix4 n r s t) (fun a => ?_)).trans ?_
    · match a with
      | ⟨0, _⟩ => rfl
      | ⟨1, _⟩ => rfl
      | ⟨2, _⟩ => rfl
      | ⟨3, _⟩ => rfl
    · rw [subf_apply, mulf_apply, mulf_apply, take2_zero_apply, take2_one_apply]

theorem ry2_one_apply (cb sb : FVec Ideal S802816x2x2x2 .f32) (x : FVec Ideal S802816x2x2x2x2 .f32)
    (n : Fin 802816) (r s t : Fin 2) :
    ry2 cb sb x (ix5 n r 1 s t)
      = sb (ix4 n r s t) * x (ix5 n r 0 s t) + cb (ix4 n r s t) * x (ix5 n r 1 s t) := by
  unfold ry2
  refine (concatenate_pair_apply_right (t := S802816x2x2x2x2) (s₁ := S802816x2x1x2x2) (s₂ := S802816x2x1x2x2) 2 _ _ _
    (ix5 n r (1 : Fin 2) s t) rfl rfl (ix5 n r (0 : Fin 1) s t) (fun b hb => ?_) rfl).trans ?_
  · match b with
    | ⟨0, _⟩ => rfl
    | ⟨1, _⟩ => rfl
    | ⟨2, _⟩ => exact absurd rfl hb
    | ⟨3, _⟩ => rfl
    | ⟨4, _⟩ => rfl
  · refine (broadcastInDim_apply _ _ _ (ix5 n r (0 : Fin 1) s t) (ix4 n r s t) (fun a => ?_)).trans ?_
    · match a with
      | ⟨0, _⟩ => rfl
      | ⟨1, _⟩ => rfl
      | ⟨2, _⟩ => rfl
      | ⟨3, _⟩ => rfl
    · rw [addf_apply, mulf_apply, mulf_apply, take2_zero_apply, take2_one_apply]

/-! ## Axis 3 -/

def ry3 (cb sb : FVec Ideal S802816x2x2x2 .f32) (x : FVec Ideal S802816x2x2x2x2 .f32) :
    FVec Ideal S802816x2x2x2x2 .f32 :=
  let s0 := take3 0#32 x
  let s1 := take3 1#32 x
  let lo := subf (mulf cb s0) (mulf sb s1)
  let hi := addf (mulf sb s0) (mulf cb s1)
  let lo' := broadcastInDim S802816x2x2x1x2 ![0, 1, 2, 4] bcast_S802816x2x2x2_S802816x2x2x1x2_0_1_2_4 lo
  let hi' := broadcastInDim S802816x2x2x1x2 ![0, 1, 2, 4] bcast_S802816x2x2x2_S802816x2x2x1x2_0_1_2_4 hi
  concatenate S802816x2x2x2x2 3 [⟨S802816x2x2x1x2, lo'⟩, ⟨S802816x2x2x1x2, hi'⟩]
    concatenates_S802816x2x2x1x2_S802816x2x2x1x2_S802816x2x2x2x2_d3

theorem ry3_zero_apply (cb sb : FVec Ideal S802816x2x2x2 .f32) (x : FVec Ideal S802816x2x2x2x2 .f32)
    (n : Fin 802816) (r s t : Fin 2) :
    ry3 cb sb x (ix5 n r s 0 t)
      = cb (ix4 n r s t) * x (ix5 n r s 0 t) - sb (ix4 n r s t) * x (ix5 n r s 1 t) := by
  unfold ry3
  refine (concatenate_pair_apply_left (t := S802816x2x2x2x2) (s₁ := S802816x2x2x1x2) (s₂ := S802816x2x2x1x2) 3 _ _ _
    (ix5 n r s (0 : Fin 2) t) rfl (ix5 n r s (0 : Fin 1) t) (fun b => ?_)).trans ?_
  · match b with
    | ⟨0, _⟩ => rfl
    | ⟨1, _⟩ => rfl
    | ⟨2, _⟩ => rfl
    | ⟨3, _⟩ => rfl
    | ⟨4, _⟩ => rfl
  · refine (broadcastInDim_apply _ _ _ (ix5 n r s (0 : Fin 1) t) (ix4 n r s t) (fun a => ?_)).trans ?_
    · match a with
      | ⟨0, _⟩ => rfl
      | ⟨1, _⟩ => rfl
      | ⟨2, _⟩ => rfl
      | ⟨3, _⟩ => rfl
    · rw [subf_apply, mulf_apply, mulf_apply, take3_zero_apply, take3_one_apply]

theorem ry3_one_apply (cb sb : FVec Ideal S802816x2x2x2 .f32) (x : FVec Ideal S802816x2x2x2x2 .f32)
    (n : Fin 802816) (r s t : Fin 2) :
    ry3 cb sb x (ix5 n r s 1 t)
      = sb (ix4 n r s t) * x (ix5 n r s 0 t) + cb (ix4 n r s t) * x (ix5 n r s 1 t) := by
  unfold ry3
  refine (concatenate_pair_apply_right (t := S802816x2x2x2x2) (s₁ := S802816x2x2x1x2) (s₂ := S802816x2x2x1x2) 3 _ _ _
    (ix5 n r s (1 : Fin 2) t) rfl rfl (ix5 n r s (0 : Fin 1) t) (fun b hb => ?_) rfl).trans ?_
  · match b with
    | ⟨0, _⟩ => rfl
    | ⟨1, _⟩ => rfl
    | ⟨2, _⟩ => rfl
    | ⟨3, _⟩ => exact absurd rfl hb
    | ⟨4, _⟩ => rfl
  · refine (broadcastInDim_apply _ _ _ (ix5 n r s (0 : Fin 1) t) (ix4 n r s t) (fun a => ?_)).trans ?_
    · match a with
      | ⟨0, _⟩ => rfl
      | ⟨1, _⟩ => rfl
      | ⟨2, _⟩ => rfl
      | ⟨3, _⟩ => rfl
    · rw [addf_apply, mulf_apply, mulf_apply, take3_zero_apply, take3_one_apply]

/-! ## Axis 4 -/

def ry4 (cb sb : FVec Ideal S802816x2x2x2 .f32) (x : FVec Ideal S802816x2x2x2x2 .f32) :
    FVec Ideal S802816x2x2x2x2 .f32 :=
  let s0 := take4 0#32 x
  let s1 := take4 1#32 x
  let lo := subf (mulf cb s0) (mulf sb s1)
  let hi := addf (mulf sb s0) (mulf cb s1)
  let lo' := broadcastInDim S802816x2x2x2x1 ![0, 1, 2, 3] bcast_S802816x2x2x2_S802816x2x2x2x1_0_1_2_3 lo
  let hi' := broadcastInDim S802816x2x2x2x1 ![0, 1, 2, 3] bcast_S802816x2x2x2_S802816x2x2x2x1_0_1_2_3 hi
  concatenate S802816x2x2x2x2 4 [⟨S802816x2x2x2x1, lo'⟩, ⟨S802816x2x2x2x1, hi'⟩]
    concatenates_S802816x2x2x2x1_S802816x2x2x2x1_S802816x2x2x2x2_d4

theorem ry4_zero_apply (cb sb : FVec Ideal S802816x2x2x2 .f32) (x : FVec Ideal S802816x2x2x2x2 .f32)
    (n : Fin 802816) (r s t : Fin 2) :
    ry4 cb sb x (ix5 n r s t 0)
      = cb (ix4 n r s t) * x (ix5 n r s t 0) - sb (ix4 n r s t) * x (ix5 n r s t 1) := by
  unfold ry4
  refine (concatenate_pair_apply_left (t := S802816x2x2x2x2) (s₁ := S802816x2x2x2x1) (s₂ := S802816x2x2x2x1) 4 _ _ _
    (ix5 n r s t (0 : Fin 2)) rfl (ix5 n r s t (0 : Fin 1)) (fun b => ?_)).trans ?_
  · match b with
    | ⟨0, _⟩ => rfl
    | ⟨1, _⟩ => rfl
    | ⟨2, _⟩ => rfl
    | ⟨3, _⟩ => rfl
    | ⟨4, _⟩ => rfl
  · refine (broadcastInDim_apply _ _ _ (ix5 n r s t (0 : Fin 1)) (ix4 n r s t) (fun a => ?_)).trans ?_
    · match a with
      | ⟨0, _⟩ => rfl
      | ⟨1, _⟩ => rfl
      | ⟨2, _⟩ => rfl
      | ⟨3, _⟩ => rfl
    · rw [subf_apply, mulf_apply, mulf_apply, take4_zero_apply, take4_one_apply]

theorem ry4_one_apply (cb sb : FVec Ideal S802816x2x2x2 .f32) (x : FVec Ideal S802816x2x2x2x2 .f32)
    (n : Fin 802816) (r s t : Fin 2) :
    ry4 cb sb x (ix5 n r s t 1)
      = sb (ix4 n r s t) * x (ix5 n r s t 0) + cb (ix4 n r s t) * x (ix5 n r s t 1) := by
  unfold ry4
  refine (concatenate_pair_apply_right (t := S802816x2x2x2x2) (s₁ := S802816x2x2x2x1) (s₂ := S802816x2x2x2x1) 4 _ _ _
    (ix5 n r s t (1 : Fin 2)) rfl rfl (ix5 n r s t (0 : Fin 1)) (fun b hb => ?_) rfl).trans ?_
  · match b with
    | ⟨0, _⟩ => rfl
    | ⟨1, _⟩ => rfl
    | ⟨2, _⟩ => rfl
    | ⟨3, _⟩ => rfl
    | ⟨4, _⟩ => exact absurd rfl hb
  · refine (broadcastInDim_apply _ _ _ (ix5 n r s t (0 : Fin 1)) (ix4 n r s t) (fun a => ?_)).trans ?_
    · match a with
      | ⟨0, _⟩ => rfl
      | ⟨1, _⟩ => rfl
      | ⟨2, _⟩ => rfl
      | ⟨3, _⟩ => rfl
    · rw [addf_apply, mulf_apply, mulf_apply, take4_zero_apply, take4_one_apply]

end Cert.ReferenceIdeal.RefGates

end
-- ==== Proof.RefGatesCx.lean ====
import proofs.«159359_j65481071398168_2_alg».proof.Proof.RefGatesTake
import Idealize.ShloMosaic.Lib.Pipeline.Value

noncomputable section

namespace Cert.ReferenceIdeal.RefGates

open Idealize.ShloMosaic Idealize.ShloMosaic.ValueIdx
open Cert.ReferenceIdeal Cert.ReferenceIdeal.Facts₀

variable [Facts₀]

/-! # One controlled-NOT between two qubit axes

With control axis `c` and target axis `t`: the slice of the state at control `0` is kept, the slice at
control `1` is reversed along the target (a reversal of an axis of extent 2 exchanges its two positions),
and the two are stacked back along `c`. Read at an index, the result is the state at the same index when the
control coordinate is `0`, and at the index with the target coordinate reversed when it is `1`. -/

/-- A reversal along position 1 of a rank-4 slice, read at an index. -/
theorem reverse1_apply (y : FVec Ideal S802816x2x2x2 .f32) (n : Fin 802816) (r s t : Fin 2) :
    Host.reverse [1] y (ix4 n r s t) = y (ix4 n r.rev s t) := by
  unfold Host.reverse
  refine congrArg y (funext fun a => ?_)
  match a with
  | ⟨0, _⟩ => rfl
  | ⟨1, _⟩ => rfl
  | ⟨2, _⟩ => rfl
  | ⟨3, _⟩ => rfl

/-- A reversal along position 2 of a rank-4 slice, read at an index. -/
theorem reverse2_apply (y : FVec Ideal S802816x2x2x2 .f32) (n : Fin 802816) (r s t : Fin 2) :
    Host.reverse [2] y (ix4 n r s t) = y (ix4 n r s.rev t) := by
  unfold Host.reverse
  refine congrArg y (funext fun a => ?_)
  match a with
  | ⟨0, _⟩ => rfl
  | ⟨1, _⟩ => rfl
  | ⟨2, _⟩ => rfl
  | ⟨3, _⟩ => rfl

/-- A reversal along position 3 of a rank-4 slice, read at an index. -/
theorem reverse3_apply (y : FVec Ideal S802816x2x2x2 .f32) (n : Fin 802816) (r s t : Fin 2) :
    Host.reverse [3] y (ix4 n r s t) = y (ix4 n r s t.rev) := by
  unfold Host.reverse
  refine congrArg y (funext fun a => ?_)
  match a with
  | ⟨0, _⟩ => rfl
  | ⟨1, _⟩ => rfl
  | ⟨2, _⟩ => rfl
  | ⟨3, _⟩ => rfl

/-! ## Control axis 1, target axis 2 -/

def cx12 (x : FVec Ideal S802816x2x2x2x2 .f32) : FVec Ideal S802816x2x2x2x2 .f32 :=
  let c0 := take1 0#32 x
  let c1 := take1 1#32 x
  let f := Host.reverse [1] c1
  let c0' := broadcastInDim S802816x1x2x2x2 ![0, 2, 3, 4] bcast_S802816x2x2x2_S802816x1x2x2x2_0_2_3_4 c0
  let f' := broadcastInDim S802816x1x2x2x2 ![0, 2, 3, 4] bcast_S802816x2x2x2_S802816x1x2x2x2_0_2_3_4 f
  concatenate S802816x2x2x2x2 1 [⟨S802816x1x2x2x2, c0'⟩, ⟨S802816x1x2x2x2, f'⟩]
    concatenates_S802816x1x2x2x2_S802816x1x2x2x2_S802816x2x2x2x2_d1

theorem cx12_zero_apply (x : FVec Ideal S802816x2x2x2x2 .f32) (n : Fin 802816) (r s t : Fin 2) :
    cx12 x (ix5 n 0 r s t) = x (ix5 n 0 r s t) := by
  unfold cx12
  refine (concatenate_pair_apply_left (t := S802816x2x2x2x2) (s₁ := S802816x1x2x2x2) (s₂ := S802816x1x2x2x2) 1 _ _ _
    (ix5 n (0 : Fin 2) r s t) rfl (ix5 n (0 : Fin 1) r s t) (fun b => ?_)).trans ?_
  · match b with
    | ⟨0, _⟩ => rfl
    | ⟨1, _⟩ => rfl
    | ⟨2, _⟩ => rfl
    | ⟨3, _⟩ => rfl
    | ⟨4, _⟩ => rfl
  · refine (broadcastInDim_apply _ _ _ (ix5 n (0 : Fin 1) r s t) (ix4 n r s t) (fun a => ?_)).trans ?_
    · match a with
      | ⟨0, _⟩ => rfl
      | ⟨1, _⟩ => rfl
      | ⟨2, _⟩ => rfl
      | ⟨3, _⟩ => rfl
    · exact take1_zero_apply x n r s t

theorem cx12_one_apply (x : FVec Ideal S802816x2x2x2x2 .f32) (n : Fin 802816) (r s t : Fin 2) :
    cx12 x (ix5 n 1 r s t) = x (ix5 n 1 r.rev s t) := by
  unfold cx12
  refine (concatenate_pair_apply_right (t := S802816x2x2x2x2) (s₁ := S802816x1x2x2x2) (s₂ := S802816x1x2x2x2) 1 _ _ _
    (ix5 n (1 : Fin 2) r s t) rfl rfl (ix5 n (0 : Fin 1) r s t) (fun b hb => ?_) rfl).trans ?_
  · match b with
    | ⟨0, _⟩ => rfl
    | ⟨1, _⟩ => exact absurd rfl hb
    | ⟨2, _⟩ => rfl
    | ⟨3, _⟩ => rfl
    | ⟨4, _⟩ => rfl
  · refine (broadcastInDim_apply _ _ _ (ix5 n (0 : Fin 1) r s t) (ix4 n r s t) (fun a => ?_)).trans ?_
    · match a with
      | ⟨0, _⟩ => rfl
      | ⟨1, _⟩ => rfl
      | ⟨2, _⟩ => rfl
      | ⟨3, _⟩ => rfl
    · rw [reverse1_apply, take1_one_apply]

/-! ## Control axis 2, target axis 3 -/

def cx23 (x : FVec Ideal S802816x2x2x2x2 .f32) : FVec Ideal S802816x2x2x2x2 .f32 :=
  let c0 := take2 0#32 x
  let c1 := take2 1#32 x
  let f := Host.reverse [2] c1
  let c0' := broadcastInDim S802816x2x1x2x2 ![0, 1, 3, 4] bcast_S802816x2x2x2_S802816x2x1x2x2_0_1_3_4 c0
  let f' := broadcastInDim S802816x2x1x2x2 ![0, 1, 3, 4] bcast_S802816x2x2x2_S802816x2x1x2x2_0_1_3_4 f
  concatenate S802816x2x2x2x2 2 [⟨S802816x2x1x2x2, c0'⟩, ⟨S802816x2x1x2x2, f'⟩]
    concatenates_S802816x2x1x2x2_S802816x2x1x2x2_S802816x2x2x2x2_d2

theorem cx23_zero_apply (x : FVec Ideal S802816x2x2x2x2 .f32) (n : Fin 802816) (r s t : Fin 2) :
    cx23 x (ix5 n r 0 s t) = x (ix5 n r 0 s t) := by
  unfold cx23
  refine (concatenate_pair_apply_left (t := S802816x2x2x2x2) (s₁ := S802816x2x1x2x2) (s₂ := S802816x2x1x2x2) 2 _ _ _
    (ix5 n r (0 : Fin 2) s t) rfl (ix5 n r (0 : Fin 1) s t) (fun b => ?_)).trans ?_
  · match b with
    | ⟨0, _⟩ => rfl
    | ⟨1, _⟩ => rfl
    | ⟨2, _⟩ => rfl
    | ⟨3, _⟩ => rfl
    | ⟨4, _⟩ => rfl
  · refine (broadcastInDim_apply _ _ _ (ix5 n r (0 : Fin 1) s t) (ix4 n r s t) (fun a => ?_)).trans ?_
    · match a with
      | ⟨0, _⟩ => rfl
      | ⟨1, _⟩ => rfl
      | ⟨2, _⟩ => rfl
      | ⟨3, _⟩ => rfl
    · exact take2_zero_apply x n r s t

theorem cx23_one_apply (x : FVec Ideal S802816x2x2x2x2 .f32) (n : Fin 802816) (r s t : Fin 2) :
    cx23 x (ix5 n r 1 s t) = x (ix5 n r 1 s.rev t) := by
  unfold cx23
  refine (concatenate_pair_apply_right (t := S802816x2x2x2x2) (s₁ := S802816x2x1x2x2) (s₂ := S802816x2x1x2x2) 2 _ _ _
    (ix5 n r (1 : Fin 2) s t) rfl rfl (ix5 n r (0 : Fin 1) s t) (fun b hb => ?_) rfl).trans ?_
  · match b with
    | ⟨0, _⟩ => rfl
    | ⟨1, _⟩ => rfl
    | ⟨2, _⟩ => exact absurd rfl hb
    | ⟨3, _⟩ => rfl
    | ⟨4, _⟩ => rfl
  · refine (broadcastInDim_apply _ _ _ (ix5 n r (0 : Fin 1) s t) (ix4 n r s t) (fun a => ?_)).trans ?_
    · match a with
      | ⟨0, _⟩ => rfl
      | ⟨1, _⟩ => rfl
      | ⟨2, _⟩ => rfl
      | ⟨3, _⟩ => rfl
    · rw [reverse2_apply, take2_one_apply]

/-! ## Control axis 3, target axis 4 -/

def cx34 (x : FVec Ideal S802816x2x2x2x2 .f32) : FVec Ideal S802816x2x2x2x2 .f32 :=
  let c0 := take3 0#32 x
  let c1 := take3 1#32 x
  let f := Host.reverse [3] c1
  let c0' := broadcastInDim S802816x2x2x1x2 ![0, 1, 2, 4] bcast_S802816x2x2x2_S802816x2x2x1x2_0_1_2_4 c0
  let f' := broadcastInDim S802816x2x2x1x2 ![0, 1, 2, 4] bcast_S802816x2x2x2_S802816x2x2x1x2_0_1_2_4 f
  concatenate S802816x2x2x2x2 3 [⟨S802816x2x2x1x2, c0'⟩, ⟨S802816x2x2x1x2, f'⟩]
    concatenates_S802816x2x2x1x2_S802816x2x2x1x2_S802816x2x2x2x2_d3

theorem cx34_zero_apply (x : FVec Ideal S802816x2x2x2x2 .f32) (n : Fin 802816) (r s t : Fin 2) :
    cx34 x (ix5 n r s 0 t) = x (ix5 n r s 0 t) := by
  unfold cx34
  refine (concatenate_pair_apply_left (t := S802816x2x2x2x2) (s₁ := S802816x2x2x1x2) (s₂ := S802816x2x2x1x2) 3 _ _ _
    (ix5 n r s (0 : Fin 2) t) rfl (ix5 n r s (0 : Fin 1) t) (fun b => ?_)).trans ?_
  · match b with
    | ⟨0, _⟩ => rfl
    | ⟨1, _⟩ => rfl
    | ⟨2, _⟩ => rfl
    | ⟨3, _⟩ => rfl
    | ⟨4, _⟩ => rfl
  · refine (broadcastInDim_apply _ _ _ (ix5 n r s (0 : Fin 1) t) (ix4 n r s t) (fun a => ?_)).trans ?_
    · match a with
      | ⟨0, _⟩ => rfl
      | ⟨1, _⟩ => rfl
      | ⟨2, _⟩ => rfl
      | ⟨3, _⟩ => rfl
    · exact take3_zero_apply x n r s t

theorem cx34_one_apply (x : FVec Ideal S802816x2x2x2x2 .f32) (n : Fin 802816) (r s t : Fin 2) :
    cx34 x (ix5 n r s 1 t) = x (ix5 n r s 1 t.rev) := by
  unfold cx34
  refine (concatenate_pair_apply_right (t := S802816x2x2x2x2) (s₁ := S802816x2x2x1x2) (s₂ := S802816x2x2x1x2) 3 _ _ _
    (ix5 n r s (1 : Fin 2) t) rfl rfl (ix5 n r s (0 : Fin 1) t) (fun b hb => ?_) rfl).trans ?_
  · match b with
    | ⟨0, _⟩ => rfl
    | ⟨1, _⟩ => rfl
    | ⟨2, _⟩ => rfl
    | ⟨3, _⟩ => exact absurd rfl hb
    | ⟨4, _⟩ => rfl
  · refine (broadcastInDim_apply _ _ _ (ix5 n r s (0 : Fin 1) t) (ix4 n r s t) (fun a => ?_)).trans ?_
    · match a with
      | ⟨0, _⟩ => rfl
      | ⟨1, _⟩ => rfl
      | ⟨2, _⟩ => rfl
      | ⟨3, _⟩ => rfl
    · rw [reverse3_apply, take3_one_apply]

/-! ## Control axis 4, target axis 1 -/

def cx41 (x : FVec Ideal S802816x2x2x2x2 .f32) : FVec Ideal S802816x2x2x2x2 .f32 :=
  let c0 := take4 0#32 x
  let c1 := take4 1#32 x
  let f := Host.reverse [1] c1
  let c0' := broadcastInDim S802816x2x2x2x1 ![0, 1, 2, 3] bcast_S802816x2x2x2_S802816x2x2x2x1_0_1_2_3 c0
  let f' := broadcastInDim S802816x2x2x2x1 ![0, 1, 2, 3] bcast_S802816x2x2x2_S802816x2x2x2x1_0_1_2_3 f
  concatenate S802816x2x2x2x2 4 [⟨S802816x2x2x2x1, c0'⟩, ⟨S802816x2x2x2x1, f'⟩]
    concatenates_S802816x2x2x2x1_S802816x2x2x2x1_S802816x2x2x2x2_d4

theorem cx41_zero_apply (x : FVec Ideal S802816x2x2x2x2 .f32) (n : Fin 802816) (r s t : Fin 2) :
    cx41 x (ix5 n r s t 0) = x (ix5 n r s t 0) := by
  unfold cx41
  refine (concatenate_pair_apply_left (t := S802816x2x2x2x2) (s₁ := S802816x2x2x2x1) (s₂ := S802816x2x2x2x1) 4 _ _ _
    (ix5 n r s t (0 : Fin 2)) rfl (ix5 n r s t (0 : Fin 1)) (fun b => ?_)).trans ?_
  · match b with
    | ⟨0, _⟩ => rfl
    | ⟨1, _⟩ => rfl
    | ⟨2, _⟩ => rfl
    | ⟨3, _⟩ => rfl
    | ⟨4, _⟩ => rfl
  · refine (broadcastInDim_apply _ _ _ (ix5 n r s t (0 : Fin 1)) (ix4 n r s t) (fun a => ?_)).trans ?_
    · match a with
      | ⟨0, _⟩ => rfl
      | ⟨1, _⟩ => rfl
      | ⟨2, _⟩ => rfl
      | ⟨3, _⟩ => rfl
    · exact take4_zero_apply x n r s t

theorem cx41_one_apply (x : FVec Ideal S802816x2x2x2x2 .f32) (n : Fin 802816) (r s t : Fin 2) :
    cx41 x (ix5 n r s t 1) = x (ix5 n r.rev s t 1) := by
  unfold cx41
  refine (concatenate_pair_apply_right (t := S802816x2x2x2x2) (s₁ := S802816x2x2x2x1) (s₂ := S802816x2x2x2x1) 4 _ _ _
    (ix5 n r s t (1 : Fin 2)) rfl rfl (ix5 n r s t (0 : Fin 1)) (fun b hb => ?_) rfl).trans ?_
  · match b with
    | ⟨0, _⟩ => rfl
    | ⟨1, _⟩ => rfl
    | ⟨2, _⟩ => rfl
    | ⟨3, _⟩ => rfl
    | ⟨4, _⟩ => exact absurd rfl hb
  · refine (broadcastInDim_apply _ _ _ (ix5 n r s t (0 : Fin 1)) (ix4 n r s t) (fun a => ?_)).trans ?_
    · match a with
      | ⟨0, _⟩ => rfl
      | ⟨1, _⟩ => rfl
      | ⟨2, _⟩ => rfl
      | ⟨3, _⟩ => rfl
    · rw [reverse1_apply, take4_one_apply]

end Cert.ReferenceIdeal.RefGates

end
-- ==== Proof.RefGatesAngle.lean ====
import proofs.«159359_j65481071398168_2_alg».proof.ReferenceIdeal
import Idealize.ShloMosaic.Lib.ValueIdx
import Idealize.ShloMosaic.Lib.Pipeline.Value
import Idealize.ShloMosaic.Lib.IdealHost

noncomputable section

namespace Cert.ReferenceIdeal.RefGates

open Idealize.ShloMosaic Idealize.ShloMosaic.ValueIdx
open Cert.ReferenceIdeal Cert.ReferenceIdeal.Facts₀

variable [Facts₀]

/-! # The rotation angles

A rotation by `θ` uses `cos (θ / 2)` and `sin (θ / 2)`. The per-sample angles are a column `q` of the
`[N, 4]` array of pixel values: the column is cut out, halved, passed through cosine or sine, and spread over
the three remaining qubit axes. The shared angles are the four entries of a vector: entry `k` is cut out,
halved, passed through cosine or sine as a scalar, and broadcast to every index. -/

/-- The f32 pattern `0x3F000000` is the real one half. -/
theorem ofBits_half_f32 : Ideal.ofBits .f32 0x3F000000#32 = (((1 : ℝ) / 2 : ℝ) : EReal) := by
  simp [Ideal.ofBits, Ideal.ieee, -EReal.coe_mul]; norm_num

/-- Half of column `q` of the per-sample angles, as a vector over the samples. -/
def halfCol (q : Nat) (hq : S802816x4.Slices ![0, q] S802816x1) (p : FVec Ideal S802816x4 .f32) :
    FVec Ideal S802816 .f32 :=
  let v12 := extractStridedSlice S802816x1 ![0, q] p hq
  let v13 := shapeCast S802816 v12 shapeCasts_S802816x1_S802816
  let half : FVec Ideal S_ .f32 := constant S_ .f32 0x3F000000#32
  let v16 := broadcastInDim S802816 ![] bcast_S_S802816 half
  mulf v13 v16

theorem halfCol_apply (q : Fin 4) (hq : S802816x4.Slices ![0, q.val] S802816x1) (p : FVec Ideal S802816x4 .f32)
    (n : Fin 802816) : halfCol q.val hq p (ix1 n) = p (ix2 n q) * Ideal.ofBits .f32 0x3F000000#32 := by
  unfold halfCol
  rw [mulf_apply, broadcastInDim_scalar_apply, constant_apply]
  congr 1
  refine (shapeCast_apply _ _ (ix1 n) (ix2 n (0 : Fin 1)) ?_).trans ?_
  · rw [Shape.rowMajor_val_one, Shape.rowMajor_val_two]
    show n.val * 1 + 0 = n.val
    omega
  · refine extractStridedSlice_apply _ p hq (ix2 n (0 : Fin 1)) (ix2 n q) (fun a => ?_)
    match a with
    | ⟨0, _⟩ => exact (Nat.zero_add _).symm
    | ⟨1, _⟩ => rfl

/-- A per-sample vector spread over the three remaining qubit axes. -/
def spread (v : FVec Ideal S802816 .f32) : FVec Ideal S802816x2x2x2 .f32 :=
  let v22 := shapeCast S802816x1x1x1 v shapeCasts_S802816_S802816x1x1x1
  broadcastInDim S802816x2x2x2 ![0, 1, 2, 3] bcast_S802816x1x1x1_S802816x2x2x2_0_1_2_3 v22

theorem spread_apply (v : FVec Ideal S802816 .f32) (n : Fin 802816) (r s t : Fin 2) :
    spread v (ix4 n r s t) = v (ix1 n) := by
  unfold spread
  refine (broadcastInDim_apply _ _ _ (ix4 n r s t) (ix4 n (0 : Fin 1) (0 : Fin 1) (0 : Fin 1)) (fun a => ?_)).trans ?_
  · match a with
    | ⟨0, _⟩ => rfl
    | ⟨1, _⟩ => rfl
    | ⟨2, _⟩ => rfl
    | ⟨3, _⟩ => rfl
  · refine shapeCast_apply _ _ (ix4 n (0 : Fin 1) (0 : Fin 1) (0 : Fin 1)) (ix1 n) ?_
    rw [Shape.rowMajor_val_one, Shape.rowMajor_val_four]
    show n.val = ((n.val * 1 + 0) * 1 + 0) * 1 + 0
    omega

theorem cosCol_apply (q : Fin 4) (hq : S802816x4.Slices ![0, q.val] S802816x1) (p : FVec Ideal S802816x4 .f32)
    (n : Fin 802816) (r s t : Fin 2) :
    spread (Host.cos (halfCol q.val hq p)) (ix4 n r s t) = Ideal.cos (p (ix2 n q) * (((1 : ℝ) / 2 : ℝ) : EReal)) := by
  rw [spread_apply]
  show Ideal.cos (halfCol q.val hq p (ix1 n)) = _
  rw [halfCol_apply, ofBits_half_f32]

theorem sinCol_apply (q : Fin 4) (hq : S802816x4.Slices ![0, q.val] S802816x1) (p : FVec Ideal S802816x4 .f32)
    (n : Fin 802816) (r s t : Fin 2) :
    spread (Host.sin (halfCol q.val hq p)) (ix4 n r s t) = Ideal.sin (p (ix2 n q) * (((1 : ℝ) / 2 : ℝ) : EReal)) := by
  rw [spread_apply]
  show Ideal.sin (halfCol q.val hq p (ix1 n)) = _
  rw [halfCol_apply, ofBits_half_f32]

/-- Half of entry `k` of the shared angles, as a scalar. -/
def halfPar (k : Nat) (hk : S4.Slices ![k] S1) (v : FVec Ideal S4 .f32) : FVec Ideal S_ .f32 :=
  let v112 := extractStridedSlice S1 ![k] v hk
  let v113 := shapeCast S_ v112 shapeCasts_S1_S_
  let half : FVec Ideal S_ .f32 := constant S_ .f32 0x3F000000#32
  mulf v113 half

theorem halfPar_apply (k : Fin 4) (hk : S4.Slices ![k.val] S1) (v : FVec Ideal S4 .f32) (i : S_.Idx) :
    halfPar k.val hk v i = v (ix1 k) * Ideal.ofBits .f32 0x3F000000#32 := by
  unfold halfPar
  rw [mulf_apply, constant_apply]
  congr 1
  refine (shapeCast_apply _ _ i (ix1 (0 : Fin 1)) ?_).trans ?_
  · rw [Shape.rowMajor_val_one]
    have h1 : S_.numel = 1 := rfl
    have := (S_.rowMajor i).isLt
    show 0 = (S_.rowMajor i).val
    omega
  · refine extractStridedSlice_apply _ v hk (ix1 (0 : Fin 1)) (ix1 k) (fun a => ?_)
    match a with
    | ⟨0, _⟩ => rfl

theorem cosPar_apply (k : Fin 4) (hk : S4.Slices ![k.val] S1) (v : FVec Ideal S4 .f32) (j : S802816x2x2x2.Idx) :
    broadcastInDim S802816x2x2x2 ![] bcast_S_S802816x2x2x2 (Host.cos (halfPar k.val hk v)) j
      = Ideal.cos (v (ix1 k) * (((1 : ℝ) / 2 : ℝ) : EReal)) := by
  rw [broadcastInDim_scalar_apply]
  show Ideal.cos (halfPar k.val hk v ix0) = _
  rw [halfPar_apply, ofBits_half_f32]

theorem sinPar_apply (k : Fin 4) (hk : S4.Slices ![k.val] S1) (v : FVec Ideal S4 .f32) (j : S802816x2x2x2.Idx) :
    broadcastInDim S802816x2x2x2 ![] bcast_S_S802816x2x2x2 (Host.sin (halfPar k.val hk v)) j
      = Ideal.sin (v (ix1 k) * (((1 : ℝ) / 2 : ℝ) : EReal)) := by
  rw [broadcastInDim_scalar_apply]
  show Ideal.sin (halfPar k.val hk v ix0) = _
  rw [halfPar_apply, ofBits_half_f32]

end Cert.ReferenceIdeal.RefGates

end
-- ==== Proof.RefBridge.lean ====
/- The reference program's stretches, as composed from its operations one by one, are the gates as defined
   array-wise: a rotation's stretch is the rotation of that axis applied to the cosine and sine of half the angle
   spread over the other axes, a controlled NOT's stretch is the controlled NOT of that pair of axes. Both sides are
   the same operations composed in the same order, so each equation holds by unfolding the definitions. -/
import proofs.«159359_j65481071398168_2_alg».proof.Proof.RefGateDefs
import proofs.«159359_j65481071398168_2_alg».proof.Proof.RefGatesRy
import proofs.«159359_j65481071398168_2_alg».proof.Proof.RefGatesCx
import proofs.«159359_j65481071398168_2_alg».proof.Proof.RefGatesAngle

set_option synthInstance.maxSize 4096

noncomputable section

namespace Cert.ReferenceIdeal.RefRun

open Cert.ReferenceIdeal Idealize.ShloMosaic
open Cert.ReferenceIdeal.Facts₀ Cert.ReferenceIdeal.Facts

variable [Facts]

/-- The per-patch rotation of qubit 0: the rotation of axis 1 by the cosine and sine of half of column 0 of the patches. -/
theorem gRyD0_eq (x0 : FVec Ideal S802816x2x2x2x2 .f32) (x1 : FVec Ideal S802816x4 .f32) :
    gRyD0 (F := Ideal) x0 x1
      = RefGates.ry1 (RefGates.spread (Host.cos (RefGates.halfCol 0 slices_S802816x4_S802816x1_0_0 x1)))
          (RefGates.spread (Host.sin (RefGates.halfCol 0 slices_S802816x4_S802816x1_0_0 x1))) x0 := rfl

/-- The per-patch rotation of qubit 1: the rotation of axis 2 by the cosine and sine of half of column 1 of the patches. -/
theorem gRyD1_eq (x0 : FVec Ideal S802816x2x2x2x2 .f32) (x1 : FVec Ideal S802816x4 .f32) :
    gRyD1 (F := Ideal) x0 x1
      = RefGates.ry2 (RefGates.spread (Host.cos (RefGates.halfCol 1 slices_S802816x4_S802816x1_0_1 x1)))
          (RefGates.spread (Host.sin (RefGates.halfCol 1 slices_S802816x4_S802816x1_0_1 x1))) x0 := rfl

/-- The per-patch rotation of qubit 2: the rotation of axis 3 by the cosine and sine of half of column 2 of the patches. -/
theorem gRyD2_eq (x0 : FVec Ideal S802816x2x2x2x2 .f32) (x1 : FVec Ideal S802816x4 .f32) :
    gRyD2 (F := Ideal) x0 x1
      = RefGates.ry3 (RefGates.spread (Host.cos (RefGates.halfCol 2 slices_S802816x4_S802816x1_0_2 x1)))
          (RefGates.spread (Host.sin (RefGates.halfCol 2 slices_S802816x4_S802816x1_0_2 x1))) x0 := rfl

/-- The per-patch rotation of qubit 3: the rotation of axis 4 by the cosine and sine of half of column 3 of the patches. -/
theorem gRyD3_eq (x0 : FVec Ideal S802816x2x2x2x2 .f32) (x1 : FVec Ideal S802816x4 .f32) :
    gRyD3 (F := Ideal) x0 x1
      = RefGates.ry4 (RefGates.spread (Host.cos (RefGates.halfCol 3 slices_S802816x4_S802816x1_0_3 x1)))
          (RefGates.spread (Host.sin (RefGates.halfCol 3 slices_S802816x4_S802816x1_0_3 x1))) x0 := rfl

/-- The fixed rotation of qubit 0: the rotation of axis 1 by the cosine and sine of half of parameter 0, broadcast over the whole array. -/
theorem gRyP0_eq (x0 : FVec Ideal S802816x2x2x2x2 .f32) (x1 : FVec Ideal S4 .f32) :
    gRyP0 (F := Ideal) x0 x1
      = RefGates.ry1 (broadcastInDim S802816x2x2x2 ![] bcast_S_S802816x2x2x2 (Host.cos (RefGates.halfPar 0 slices_S4_S1_0 x1)))
          (broadcastInDim S802816x2x2x2 ![] bcast_S_S802816x2x2x2 (Host.sin (RefGates.halfPar 0 slices_S4_S1_0 x1))) x0 := rfl

/-- The fixed rotation of qubit 1: the rotation of axis 2 by the cosine and sine of half of parameter 1, broadcast over the whole array. -/
theorem gRyP1_eq (x0 : FVec Ideal S802816x2x2x2x2 .f32) (x1 : FVec Ideal S4 .f32) :
    gRyP1 (F := Ideal) x0 x1
      = RefGates.ry2 (broadcastInDim S802816x2x2x2 ![] bcast_S_S802816x2x2x2 (Host.cos (RefGates.halfPar 1 slices_S4_S1_1 x1)))
          (broadcastInDim S802816x2x2x2 ![] bcast_S_S802816x2x2x2 (Host.sin (RefGates.halfPar 1 slices_S4_S1_1 x1))) x0 := rfl

/-- The fixed rotation of qubit 2: the rotation of axis 3 by the cosine and sine of half of parameter 2, broadcast over the whole array. -/
theorem gRyP2_eq (x0 : FVec Ideal S802816x2x2x2x2 .f32) (x1 : FVec Ideal S4 .f32) :
    gRyP2 (F := Ideal) x0 x1
      = RefGates.ry3 (broadcastInDim S802816x2x2x2 ![] bcast_S_S802816x2x2x2 (Host.cos (RefGates.halfPar 2 slices_S4_S1_2 x1)))
          (broadcastInDim S802816x2x2x2 ![] bcast_S_S802816x2x2x2 (Host.sin (RefGates.halfPar 2 slices_S4_S1_2 x1))) x0 := rfl

/-- The fixed rotation of qubit 3: the rotation of axis 4 by the cosine and sine of half of parameter 3, broadcast over the whole array. -/
theorem gRyP3_eq (x0 : FVec Ideal S802816x2x2x2x2 .f32) (x1 : FVec Ideal S4 .f32) :
    gRyP3 (F := Ideal) x0 x1
      = RefGates.ry4 (broadcastInDim S802816x2x2x2 ![] bcast_S_S802816x2x2x2 (Host.cos (RefGates.halfPar 3 slices_S4_S1_3 x1)))
          (broadcastInDim S802816x2x2x2 ![] bcast_S_S802816x2x2x2 (Host.sin (RefGates.halfPar 3 slices_S4_S1_3 x1))) x0 := rfl

/-- The controlled NOT with qubit 0 as control. -/
theorem gCx0_eq (x0 : FVec Ideal S802816x2x2x2x2 .f32) : gCx0 (F := Ideal) x0 = RefGates.cx12 x0 := rfl

/-- The controlled NOT with qubit 1 as control. -/
theorem gCx1_eq (x0 : FVec Ideal S802816x2x2x2x2 .f32) : gCx1 (F := Ideal) x0 = RefGates.cx23 x0 := rfl

/-- The controlled NOT with qubit 2 as control. -/
theorem gCx2_eq (x0 : FVec Ideal S802816x2x2x2x2 .f32) : gCx2 (F := Ideal) x0 = RefGates.cx34 x0 := rfl

/-- The controlled NOT with qubit 3 as control. -/
theorem gCx3_eq (x0 : FVec Ideal S802816x2x2x2x2 .f32) : gCx3 (F := Ideal) x0 = RefGates.cx41 x0 := rfl

end Cert.ReferenceIdeal.RefRun

end
-- ==== Proof.RefState.lean ====
/-
  The reference's state array read patch by patch.  The state array [802816, 2, 2, 2, 2] holds, for each patch n,
  sixteen amplitudes indexed by four bits; `st x n` is that family.  Each array-level gate of the reference acts
  on every patch separately, and on one patch it is the corresponding gate of `QSpec` on the extended reals:
  a rotation whose cosine and sine arrays are constant along the bit axes at patch n is the rotation by those two
  numbers, and the controlled flips are the controlled flips.
-/
import proofs.«159359_j65481071398168_2_alg».proof.Proof.RefGatesRy
import proofs.«159359_j65481071398168_2_alg».proof.Proof.RefGatesCx
import proofs.«159359_j65481071398168_2_alg».proof.Proof.QSpec
import Mathlib.Data.EReal.Basic

noncomputable section

namespace Cert.ReferenceIdeal.RefState

open Idealize.ShloMosaic Idealize.ShloMosaic.ValueIdx Cert.ReferenceIdeal Cert.ReferenceIdeal.RefGates

variable [Facts₀]

/-- The sixteen amplitudes of patch `n`. -/
def st (x : FVec Ideal S802816x2x2x2x2 .f32) (n : Fin 802816) : Fin 2 → Fin 2 → Fin 2 → Fin 2 → EReal :=
  fun a b e d => x (ix5 n a b e d)

theorem st_ry1 (cb sb : FVec Ideal S802816x2x2x2 .f32) (x : FVec Ideal S802816x2x2x2x2 .f32) (n : Fin 802816) (c s : EReal)
    (hc : ∀ r s' t, cb (ix4 n r s' t) = c) (hs : ∀ r s' t, sb (ix4 n r s' t) = s) :
    st (ry1 cb sb x) n = Cert.QSpec.ry0 c s (st x n) := by
  funext a b e d
  fin_cases a
  · show ry1 cb sb x (ix5 n 0 b e d) = _
    rw [ry1_zero_apply, hc, hs]; rfl
  · show ry1 cb sb x (ix5 n 1 b e d) = _
    rw [ry1_one_apply, hc, hs]; rfl

theorem st_ry2 (cb sb : FVec Ideal S802816x2x2x2 .f32) (x : FVec Ideal S802816x2x2x2x2 .f32) (n : Fin 802816) (c s : EReal)
    (hc : ∀ r s' t, cb (ix4 n r s' t) = c) (hs : ∀ r s' t, sb (ix4 n r s' t) = s) :
    st (ry2 cb sb x) n = Cert.QSpec.ry1 c s (st x n) := by
  funext a b e d
  fin_cases b
  · show ry2 cb sb x (ix5 n a 0 e d) = _
    rw [ry2_zero_apply, hc, hs]; rfl
  · show ry2 cb sb x (ix5 n a 1 e d) = _
    rw [ry2_one_apply, hc, hs]; rfl

theorem st_ry3 (cb sb : FVec Ideal S802816x2x2x2 .f32) (x : FVec Ideal S802816x2x2x2x2 .f32) (n : Fin 802816) (c s : EReal)
    (hc : ∀ r s' t, cb (ix4 n r s' t) = c) (hs : ∀ r s' t, sb (ix4 n r s' t) = s) :
    st (ry3 cb sb x) n = Cert.QSpec.ry2 c s (st x n) := by
  funext a b e d
  fin_cases e
  · show ry3 cb sb x (ix5 n a b 0 d) = _
    rw [ry3_zero_apply, hc, hs]; rfl
  · show ry3 cb sb x (ix5 n a b 1 d) = _
    rw [ry3_one_apply, hc, hs]; rfl

theorem st_ry4 (cb sb : FVec Ideal S802816x2x2x2 .f32) (x : FVec Ideal S802816x2x2x2x2 .f32) (n : Fin 802816) (c s : EReal)
    (hc : ∀ r s' t, cb (ix4 n r s' t) = c) (hs : ∀ r s' t, sb (ix4 n r s' t) = s) :
    st (ry4 cb sb x) n = Cert.QSpec.ry3 c s (st x n) := by
  funext a b e d
  fin_cases d
  · show ry4 cb sb x (ix5 n a b e 0) = _
    rw [ry4_zero_apply, hc, hs]; rfl
  · show ry4 cb sb x (ix5 n a b e 1) = _
    rw [ry4_one_apply, hc, hs]; rfl

theorem st_cx12 (x : FVec Ideal S802816x2x2x2x2 .f32) (n : Fin 802816) : st (cx12 x) n = Cert.QSpec.cx01 (st x n) := by
  funext a b e d
  fin_cases a
  · show cx12 x (ix5 n 0 b e d) = _
    rw [cx12_zero_apply]; rfl
  · show cx12 x (ix5 n 1 b e d) = _
    rw [cx12_one_apply]; rfl

theorem st_cx23 (x : FVec Ideal S802816x2x2x2x2 .f32) (n : Fin 802816) : st (cx23 x) n = Cert.QSpec.cx12 (st x n) := by
  funext a b e d
  fin_cases b
  · show cx23 x (ix5 n a 0 e d) = _
    rw [cx23_zero_apply]; rfl
  · show cx23 x (ix5 n a 1 e d) = _
    rw [cx23_one_apply]; rfl

theorem st_cx34 (x : FVec Ideal S802816x2x2x2x2 .f32) (n : Fin 802816) : st (cx34 x) n = Cert.QSpec.cx23 (st x n) := by
  funext a b e d
  fin_cases e
  · show cx34 x (ix5 n a b 0 d) = _
    rw [cx34_zero_apply]; rfl
  · show cx34 x (ix5 n a b 1 d) = _
    rw [cx34_one_apply]; rfl

theorem st_cx41 (x : FVec Ideal S802816x2x2x2x2 .f32) (n : Fin 802816) : st (cx41 x) n = Cert.QSpec.cx30 (st x n) := by
  funext a b e d
  fin_cases d
  · show cx41 x (ix5 n a b e 0) = _
    rw [cx41_zero_apply]; rfl
  · show cx41 x (ix5 n a b e 1) = _
    rw [cx41_one_apply]; rfl

end Cert.ReferenceIdeal.RefState

end
-- ==== Proof.RefLayer.lean ====
/-
  One layer of the reference, patch by patch.  With the angle arrays read at a patch (the cosine and sine of half
  the patch's q-th angle, resp. of half the q-th fixed angle, the same number along the three remaining bit axes),
  each of the reference's composed stretches is the corresponding gate of `QSpec` on the patch's sixteen
  amplitudes; a layer is `vary` after `enc`.
-/
import proofs.«159359_j65481071398168_2_alg».proof.Proof.RefBridge
import proofs.«159359_j65481071398168_2_alg».proof.Proof.RefState

noncomputable section

namespace Cert.ReferenceIdeal.RefLayer

open Idealize.ShloMosaic Idealize.ShloMosaic.ValueIdx Cert.ReferenceIdeal Cert.ReferenceIdeal.RefGates
open Cert.ReferenceIdeal.RefRun Cert.ReferenceIdeal.RefState

variable [Facts]

/-- One half, as an extended real. -/
abbrev half : EReal := (((1 : ℝ) / 2 : ℝ) : EReal)

/-- Half-angle cosines of patch `n`: of its four data angles. -/
def cD (P : FVec Ideal S802816x4 .f32) (n : Fin 802816) : Fin 4 → EReal := fun q => Ideal.cos (P (ix2 n q) * half)
/-- Half-angle sines of patch `n`. -/
def sD (P : FVec Ideal S802816x4 .f32) (n : Fin 802816) : Fin 4 → EReal := fun q => Ideal.sin (P (ix2 n q) * half)
/-- Half-angle cosines of the four fixed angles. -/
def cP (v : FVec Ideal S4 .f32) : Fin 4 → EReal := fun k => Ideal.cos (v (ix1 k) * half)
/-- Half-angle sines of the four fixed angles. -/
def sP (v : FVec Ideal S4 .f32) : Fin 4 → EReal := fun k => Ideal.sin (v (ix1 k) * half)

theorem st_gRyD0 (x : FVec Ideal S802816x2x2x2x2 .f32) (P : FVec Ideal S802816x4 .f32) (n : Fin 802816) :
    st (gRyD0 (F := Ideal) x P) n = Cert.QSpec.ry0 (cD P n 0) (sD P n 0) (st x n) := by
  rw [gRyD0_eq]
  exact st_ry1 _ _ x n _ _ (fun r s t => cosCol_apply 0 _ P n r s t) (fun r s t => sinCol_apply 0 _ P n r s t)
theorem st_gRyD1 (x : FVec Ideal S802816x2x2x2x2 .f32) (P : FVec Ideal S802816x4 .f32) (n : Fin 802816) :
    st (gRyD1 (F := Ideal) x P) n = Cert.QSpec.ry1 (cD P n 1) (sD P n 1) (st x n) := by
  rw [gRyD1_eq]
  exact st_ry2 _ _ x n _ _ (fun r s t => cosCol_apply 1 _ P n r s t) (fun r s t => sinCol_apply 1 _ P n r s t)
theorem st_gRyD2 (x : FVec Ideal S802816x2x2x2x2 .f32) (P : FVec Ideal S802816x4 .f32) (n : Fin 802816) :
    st (gRyD2 (F := Ideal) x P) n = Cert.QSpec.ry2 (cD P n 2) (sD P n 2) (st x n) := by
  rw [gRyD2_eq]
  exact st_ry3 _ _ x n _ _ (fun r s t => cosCol_apply 2 _ P n r s t) (fun r s t => sinCol_apply 2 _ P n r s t)
theorem st_gRyD3 (x : FVec Ideal S802816x2x2x2x2 .f32) (P : FVec Ideal S802816x4 .f32) (n : Fin 802816) :
    st (gRyD3 (F := Ideal) x P) n = Cert.QSpec.ry3 (cD P n 3) (sD P n 3) (st x n) := by
  rw [gRyD3_eq]
  exact st_ry4 _ _ x n _ _ (fun r s t => cosCol_apply 3 _ P n r s t) (fun r s t => sinCol_apply 3 _ P n r s t)

theorem st_gRyP0 (x : FVec Ideal S802816x2x2x2x2 .f32) (v : FVec Ideal S4 .f32) (n : Fin 802816) :
    st (gRyP0 (F := Ideal) x v) n = Cert.QSpec.ry0 (cP v 0) (sP v 0) (st x n) := by
  rw [gRyP0_eq]
  exact st_ry1 _ _ x n _ _ (fun r s t => cosPar_apply 0 _ v (ix4 n r s t)) (fun r s t => sinPar_apply 0 _ v (ix4 n r s t))
theorem st_gRyP1 (x : FVec Ideal S802816x2x2x2x2 .f32) (v : FVec Ideal S4 .f32) (n : Fin 802816) :
    st (gRyP1 (F := Ideal) x v) n = Cert.QSpec.ry1 (cP v 1) (sP v 1) (st x n) := by
  rw [gRyP1_eq]
  exact st_ry2 _ _ x n _ _ (fun r s t => cosPar_apply 1 _ v (ix4 n r s t)) (fun r s t => sinPar_apply 1 _ v (ix4 n r s t))
theorem st_gRyP2 (x : FVec Ideal S802816x2x2x2x2 .f32) (v : FVec Ideal S4 .f32) (n : Fin 802816) :
    st (gRyP2 (F := Ideal) x v) n = Cert.QSpec.ry2 (cP v 2) (sP v 2) (st x n) := by
  rw [gRyP2_eq]
  exact st_ry3 _ _ x n _ _ (fun r s t => cosPar_apply 2 _ v (ix4 n r s t)) (fun r s t => sinPar_apply 2 _ v (ix4 n r s t))
theorem st_gRyP3 (x : FVec Ideal S802816x2x2x2x2 .f32) (v : FVec Ideal S4 .f32) (n : Fin 802816) :
    st (gRyP3 (F := Ideal) x v) n = Cert.QSpec.ry3 (cP v 3) (sP v 3) (st x n) := by
  rw [gRyP3_eq]
  exact st_ry4 _ _ x n _ _ (fun r s t => cosPar_apply 3 _ v (ix4 n r s t)) (fun r s t => sinPar_apply 3 _ v (ix4 n r s t))

theorem st_gCx0 (x : FVec Ideal S802816x2x2x2x2 .f32) (n : Fin 802816) : st (gCx0 (F := Ideal) x) n = Cert.QSpec.cx01 (st x n) := by
  rw [gCx0_eq]; exact st_cx12 x n
theorem st_gCx1 (x : FVec Ideal S802816x2x2x2x2 .f32) (n : Fin 802816) : st (gCx1 (F := Ideal) x) n = Cert.QSpec.cx12 (st x n) := by
  rw [gCx1_eq]; exact st_cx23 x n
theorem st_gCx2 (x : FVec Ideal S802816x2x2x2x2 .f32) (n : Fin 802816) : st (gCx2 (F := Ideal) x) n = Cert.QSpec.cx23 (st x n) := by
  rw [gCx2_eq]; exact st_cx34 x n
theorem st_gCx3 (x : FVec Ideal S802816x2x2x2x2 .f32) (n : Fin 802816) : st (gCx3 (F := Ideal) x) n = Cert.QSpec.cx30 (st x n) := by
  rw [gCx3_eq]; exact st_cx41 x n

/-- One layer of the reference as its stretches compose it. -/
def layer (x : FVec Ideal S802816x2x2x2x2 .f32) (P : FVec Ideal S802816x4 .f32) (v : FVec Ideal S4 .f32) :
    FVec Ideal S802816x2x2x2x2 .f32 :=
  gCx3 (F := Ideal) (gRyP3 (F := Ideal) (gCx2 (F := Ideal) (gRyP2 (F := Ideal) (gCx1 (F := Ideal) (gRyP1 (F := Ideal)
    (gCx0 (F := Ideal) (gRyP0 (F := Ideal)
      (gRyD3 (F := Ideal) (gRyD2 (F := Ideal) (gRyD1 (F := Ideal) (gRyD0 (F := Ideal) x P) P) P) P) v)) v)) v)) v)

/-- A layer on patch `n` is the fixed block after the data rotations. -/
theorem st_layer (x : FVec Ideal S802816x2x2x2x2 .f32) (P : FVec Ideal S802816x4 .f32) (v : FVec Ideal S4 .f32) (n : Fin 802816) :
    st (layer x P v) n = Cert.QSpec.vary (cP v) (sP v) (Cert.QSpec.enc (cD P n) (sD P n) (st x n)) := by
  simp only [layer, st_gCx3, st_gRyP3, st_gCx2, st_gRyP2, st_gCx1, st_gRyP1, st_gCx0, st_gRyP0, st_gRyD3, st_gRyD2, st_gRyD1,
    st_gRyD0, Cert.QSpec.vary, Cert.QSpec.enc]

end Cert.ReferenceIdeal.RefLayer

end
-- ==== Proof.RefWhole.lean ====
/- The reference program's run end to end, at the exact reals. Chaining the boundary statements: the state after
   the second layer is the layer function applied twice to the initial state, with the patches and the parameters
   read from the arguments; the result is the head of the features of the squares of that state. -/
import proofs.«159359_j65481071398168_2_alg».proof.Proof.RefBound
import proofs.«159359_j65481071398168_2_alg».proof.Proof.RefLayer

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Facts]

set_option maxRecDepth 65536 in
/-- After the whole line, from any contents `V`, the last state of the register is two layers applied to the initial
    state, both reading the patches cut from argument 0 and the parameters in argument 1. -/
theorem at_main_v427_whole (V : Valuation τ sig (Elt Ideal)) :
    after ops V (main_v427 : DevRef τ sig)
      = RefLayer.layer (RefLayer.layer (gInit (F := Ideal)) (gPatches (F := Ideal) (V (main_arg0 : DevRef τ sig))) (V (main_arg1 : DevRef τ sig)))
          (gPatches (F := Ideal) (V (main_arg0 : DevRef τ sig))) (V (main_arg1 : DevRef τ sig)) := by
  rw [at_main_v427, at_main_v421, at_main_v400, at_main_v394, at_main_v373, at_main_v367, at_main_v346, at_main_v340, at_main_v319, at_main_v294, at_main_v269, at_main_v244, at_main_v219, at_main_v213, at_main_v192, at_main_v186, at_main_v165, at_main_v159, at_main_v138, at_main_v132, at_main_v111, at_main_v86, at_main_v61, at_main_v36, at_main_v11, at_main_v3,
    at_main_arg0, at_main_arg1]
  rfl

/-- After the whole line, from any contents `V`, the result is the head (weights in argument 2, bias in argument 3) of
    the features of the squares of the last state. -/
theorem at_main_v464_whole (V : Valuation τ sig (Elt Ideal)) :
    after ops V (main_v464 : DevRef τ sig)
      = gHead (F := Ideal) (gFeats (F := Ideal) (gProbs (F := Ideal) (after ops V (main_v427 : DevRef τ sig))))
          (V (main_arg2 : DevRef τ sig)) (V (main_arg3 : DevRef τ sig)) := by
  rw [at_main_v464, at_main_v458, at_main_v428, at_main_arg2, at_main_arg3]

end Cert.ReferenceIdeal.RefRun

end
-- ==== Proof.RefGatesInit.lean ====
import proofs.«159359_j65481071398168_2_alg».proof.ReferenceIdeal
import Idealize.ShloMosaic.Lib.ValueIdx
import Idealize.ShloMosaic.Lib.Pipeline.Value
import Idealize.ShloMosaic.Lib.IdealHost

noncomputable section

namespace Cert.ReferenceIdeal.RefGates

open Idealize.ShloMosaic Idealize.ShloMosaic.ValueIdx
open Cert.ReferenceIdeal Cert.ReferenceIdeal.Facts₀

variable [Facts₀]

/-! # The initial state

The state starts as the array of zeros with a one written at `[n, 0, 0, 0, 0]` for every `n`: a scatter of
a vector of ones, one update per `n`, whose start index on the four qubit axes is `(0, 0, 0, 0)`. Every update
writes the same value, so the order of the updates is immaterial: the result is that value wherever some update
lands and the operand elsewhere. -/

section Scatter
variable {α : Type} {s si u : Shape} {w : Nat}

/-- One step of a scatter whose body returns the update. -/
def scatStep (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

theorem scatter_eq_foldl (d : ScatterDims s si u) (x : s.Idx → α) (idx : IVec si w) (upd : u.Idx → α) :
    Host.scatter d (fun _ b => b) x idx upd = (List.finRange u.numel).foldl (scatStep d idx upd) x := rfl

theorem scatStep_apply (d : ScatterDims s si u) (idx : IVec si w) (upd : u.Idx → α) (c : α) (hupd : ∀ j, upd j = c)
    (r : s.Idx → α) (n : Fin u.numel) (i : s.Idx) :
    scatStep d idx upd r n i = if d.resultIdx? (u.rowMajor.symm n) idx = some i then c else r i := by
  unfold scatStep
  cases hg : d.resultIdx? (u.rowMajor.symm n) idx with
  | none => simp
  | some t =>
    by_cases hi : i = t
    · subst hi; simp [hupd]
    · have : ¬ (some t = some i) := fun e => hi (Option.some.inj e).symm
      simp [hi, this]

theorem foldl_scatStep_apply (d : ScatterDims s si u) (idx : IVec si w) (upd : u.Idx → α) (c : α) (hupd : ∀ j, upd j = c)
    (l : List (Fin u.numel)) (x : s.Idx → α) (i : s.Idx) :
    l.foldl (scatStep d idx upd) x i
      = if ∃ n ∈ l, d.resultIdx? (u.rowMajor.symm n) idx = some i then c else x i := by
  induction l generalizing x with
  | nil => simp
  | cons n l ih =>
    rw [List.foldl_cons, ih, scatStep_apply d idx upd c hupd]
    by_cases h1 : ∃ m ∈ l, d.resultIdx? (u.rowMajor.symm m) idx = some i
    · have h2 : ∃ m ∈ n :: l, d.resultIdx? (u.rowMajor.symm m) idx = some i := by
        obtain ⟨m, hm, e⟩ := h1; exact ⟨m, List.mem_cons_of_mem _ hm, e⟩
      rw [if_pos h1, if_pos h2]
    · rw [if_neg h1]
      by_cases h3 : d.resultIdx? (u.rowMajor.symm n) idx = some i
      · rw [if_pos h3, if_pos ⟨n, List.mem_cons_self, h3⟩]
      · rw [if_neg h3, if_neg]
        rintro ⟨m, hm, e⟩
        rcases List.mem_cons.1 hm with rfl | hm'
        · exact h3 e
        · exact h1 ⟨m, hm', e⟩

/-- A scatter that writes one value `c` everywhere it writes: the result is `c` at the indices some update
    lands on, the operand elsewhere. -/
theorem scatter_const_apply (d : ScatterDims s si u) (x : s.Idx → α) (idx : IVec si w) (upd : u.Idx → α) (c : α)
    (hupd : ∀ j, upd j = c) (i : s.Idx) :
    Host.scatter d (fun _ b => b) x idx upd i = if ∃ j : u.Idx, d.resultIdx? j idx = some i then c else x i := by
  rw [scatter_eq_foldl, foldl_scatStep_apply d idx upd c hupd]
  have hiff : (∃ n ∈ List.finRange u.numel, d.resultIdx? (u.rowMajor.symm n) idx = some i)
      ↔ ∃ j : u.Idx, d.resultIdx? j idx = some i := by
    constructor
    · rintro ⟨n, _, e⟩; exact ⟨_, e⟩
    · rintro ⟨j, e⟩; exact ⟨u.rowMajor j, List.mem_finRange _, by rw [Equiv.symm_apply_apply]; exact e⟩
  by_cases h : ∃ j : u.Idx, d.resultIdx? j idx = some i
  · rw [if_pos h, if_pos (hiff.2 h)]
  · rw [if_neg h, if_neg (fun h' => h (hiff.1 h'))]

/-- Where an update lands: the index whose every coordinate is the start plus the window coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  by_cases h : ∀ a, 0 ≤ d.start j idx a + d.window j a ∧ d.start j idx a + d.window j a < s.size a
  · rw [dif_pos h]
    constructor
    · intro e a
      have e' := congrFun (Option.some.inj e) a
      have e'' : (d.start j idx a + (d.window j a : Int)).toNat = (i a).val := congrArg Fin.val e'
      rw [← e'']; exact (Int.toNat_of_nonneg (h a).1).symm
    · intro e
      refine congrArg some (funext fun a => Fin.ext ?_)
      show (d.start j idx a + (d.window j a : Int)).toNat = (i a).val
      rw [e a]; exact Int.toNat_natCast _
  · rw [dif_neg h]
    constructor
    · intro e; exact absurd e (by simp)
    · intro e; exact absurd (fun a => by rw [e a]; exact ⟨Int.natCast_nonneg _, by exact_mod_cast (i a).isLt⟩) h

end Scatter

/-! ## The initial state -/

/-- The all-zero start indices of the scatter: four one-element pieces, each zero. -/
def initIdx : IVec S4 32 :=
  let z : IVec S1 32 := broadcastInDim S1 ![] bcast_S_S1 (constantI S_ 32 0#32)
  concatenate S4 0 [⟨S1, z⟩, ⟨S1, z⟩, ⟨S1, z⟩, ⟨S1, z⟩] concatenates_S1_S1_S1_S1_S4_d0

theorem initIdx_apply (k : S4.Idx) : initIdx k = 0#32 := by
  obtain ⟨c, rfl⟩ : ∃ c : Fin 4, k = ix1 c := ⟨k 0, eq_ix1 k⟩
  match c with
  | ⟨0, _⟩ => rfl
  | ⟨1, _⟩ => rfl
  | ⟨2, _⟩ => rfl
  | ⟨3, _⟩ => rfl

/-- The initial state: zeros, with ones written at `[:, 0, 0, 0, 0]`. -/
def initState : FVec Ideal S802816x2x2x2x2 .f32 :=
  let zeros : FVec Ideal S802816x2x2x2x2 .f32 :=
    broadcastInDim S802816x2x2x2x2 ![] bcast_S_S802816x2x2x2x2 (constant S_ .f32 0x00000000#32)
  let ones : FVec Ideal S802816 .f32 := broadcastInDim S802816 ![] bcast_S_S802816 (constant S_ .f32 0x3F800000#32)
  Host.scatter scatter_S802816x2x2x2x2_S4_S802816_0_1234_1234_0 (fun _ b => b) zeros initIdx ones

theorem init_start (j : S802816.Idx) (a : Fin 5) :
    scatter_S802816x2x2x2x2_S4_S802816_0_1234_1234_0.start j initIdx a = 0 := by
  unfold ScatterDims.start
  split
  · rw [initIdx_apply]; rfl
  · rfl

theorem init_lands_iff (m : Fin 802816) (i : S802816x2x2x2x2.Idx) :
    scatter_S802816x2x2x2x2_S4_S802816_0_1234_1234_0.resultIdx? (ix1 m) initIdx = some i
      ↔ (i 0).val = m.val ∧ (i 1).val = 0 ∧ (i 2).val = 0 ∧ (i 3).val = 0 ∧ (i 4).val = 0 := by
  rw [resultIdx?_eq_some_iff]
  constructor
  · intro h
    have h0 := h 0; have h1 := h 1; have h2 := h 2; have h3 := h 3; have h4 := h 4
    rw [init_start] at h0 h1 h2 h3 h4
    have w0 : scatter_S802816x2x2x2x2_S4_S802816_0_1234_1234_0.window (ix1 m) 0 = m.val := rfl
    have w1 : scatter_S802816x2x2x2x2_S4_S802816_0_1234_1234_0.window (ix1 m) 1 = 0 := rfl
    have w2 : scatter_S802816x2x2x2x2_S4_S802816_0_1234_1234_0.window (ix1 m) 2 = 0 := rfl
    have w3 : scatter_S802816x2x2x2x2_S4_S802816_0_1234_1234_0.window (ix1 m) 3 = 0 := rfl
    have w4 : scatter_S802816x2x2x2x2_S4_S802816_0_1234_1234_0.window (ix1 m) 4 = 0 := rfl
    rw [w0] at h0; rw [w1] at h1; rw [w2] at h2; rw [w3] at h3; rw [w4] at h4
    omega
  · rintro ⟨e0, e1, e2, e3, e4⟩ a
    rw [init_start]
    match a with
    | ⟨0, _⟩ =>
      show (0 : Int) + ((m.val : Nat) : Int) = _
      have : (i ⟨0, by decide⟩).val = m.val := e0
      omega
    | ⟨1, _⟩ =>
      show (0 : Int) + ((0 : Nat) : Int) = _
      have : (i ⟨1, by decide⟩).val = 0 := e1
      omega
    | ⟨2, _⟩ =>
      show (0 : Int) + ((0 : Nat) : Int) = _
      have : (i ⟨2, by decide⟩).val = 0 := e2
      omega
    | ⟨3, _⟩ =>
      show (0 : Int) + ((0 : Nat) : Int) = _
      have : (i ⟨3, by decide⟩).val = 0 := e3
      omega
    | ⟨4, _⟩ =>
      show (0 : Int) + ((0 : Nat) : Int) = _
      have : (i ⟨4, by decide⟩).val = 0 := e4
      omega

/-- The initial state read at an index: one when all four bits are zero, else zero. -/
theorem initState_apply (n : Fin 802816) (a b c d : Fin 2) :
    initState (ix5 n a b c d) = if a = 0 ∧ b = 0 ∧ c = 0 ∧ d = 0 then 1 else 0 := by
  unfold initState
  rw [scatter_const_apply _ _ _ _ (Ideal.ofBits .f32 0x3F800000#32) (fun j => by
    rw [broadcastInDim_scalar_apply, constant_apply])]
  rw [broadcastInDim_scalar_apply, constant_apply, Ideal.ofBits_zero_f32, Ideal.ofBits_one_f32]
  have hiff : (∃ j : S802816.Idx,
      scatter_S802816x2x2x2x2_S4_S802816_0_1234_1234_0.resultIdx? j initIdx = some (ix5 n a b c d))
      ↔ (a = 0 ∧ b = 0 ∧ c = 0 ∧ d = 0) := by
    constructor
    · rintro ⟨j, hj⟩
      obtain ⟨m, rfl⟩ : ∃ m : Fin 802816, j = ix1 m := ⟨j 0, eq_ix1 j⟩
      obtain ⟨_, e1, e2, e3, e4⟩ := (init_lands_iff m _).1 hj
      exact ⟨Fin.ext e1, Fin.ext e2, Fin.ext e3, Fin.ext e4⟩
    · rintro ⟨rfl, rfl, rfl, rfl⟩
      exact ⟨ix1 n, (init_lands_iff n _).2 ⟨rfl, rfl, rfl, rfl, rfl⟩⟩
  by_cases h : a = 0 ∧ b = 0 ∧ c = 0 ∧ d = 0
  · rw [if_pos h, if_pos (hiff.2 h)]
  · rw [if_neg h, if_neg (fun h' => h (hiff.1 h'))]

end Cert.ReferenceIdeal.RefGates

end
-- ==== Proof.RefBridgeInit.lean ====
/- The reference program's first stretch, as composed from its operations one by one, leaves the initial state as
   defined array-wise: ones scattered at index 0,0,0,0 of every patch into an array of zeros. Both sides are the same
   operations composed in the same order (the index vector's four zeros are four equal terms on one side and one
   term named once on the other), so the equation holds by unfolding the definitions. -/
import proofs.«159359_j65481071398168_2_alg».proof.Proof.RefGateDefs
import proofs.«159359_j65481071398168_2_alg».proof.Proof.RefGatesInit

set_option synthInstance.maxSize 4096

noncomputable section

namespace Cert.ReferenceIdeal.RefRun

open Cert.ReferenceIdeal Idealize.ShloMosaic
open Cert.ReferenceIdeal.Facts₀ Cert.ReferenceIdeal.Facts

variable [Facts]

/-- The initial state of the run is the initial state defined array-wise. -/
theorem gInit_eq : gInit (F := Ideal) = RefGates.initState := rfl

end Cert.ReferenceIdeal.RefRun

end
-- ==== Proof.RefGatesMeasure.lean ====
import proofs.«159359_j65481071398168_2_alg».proof.ReferenceIdeal
import Idealize.ShloMosaic.Lib.ValueIdx
import Idealize.ShloMosaic.Lib.Pipeline.Value
import Idealize.ShloMosaic.Lib.IdealHost

noncomputable section

namespace Cert.ReferenceIdeal.RefGates

open Idealize.ShloMosaic Idealize.ShloMosaic.ValueIdx
open Cert.ReferenceIdeal Cert.ReferenceIdeal.Facts₀

variable [Facts₀]

/-! # The measurement

From the final amplitudes the probabilities are the squares. For each qubit the probabilities are summed over
the three other qubit axes, giving an `[N, 2]` marginal; the expectation of Z is the marginal at bit 0 minus
the marginal at bit 1. The four expectations are laid side by side as `[N, 4]` and regrouped as `[B, 784]`.
At the exact values a sum over a set of indices does not depend on its order, so each marginal is the initial
value plus the triple sum over the three other bits. -/

open scoped BigOperators

/-- A sum over the fibre of `drop` above `j`, when the fibre is the injective image of the eight triples of
    bits, is the triple sum over the bits. -/
theorem sum_fiber_bits {ι κ : Type} {_ : Fintype ι} (drop : ι → κ) (j : κ) {_ : DecidablePred fun i => drop i = j}
    (g : Fin 2 × Fin 2 × Fin 2 → ι) (hg : Function.Injective g) (hdrop : ∀ p, drop (g p) = j)
    (hsurj : ∀ i, drop i = j → ∃ p, g p = i) (x : ι → EReal) :
    ∑ i ∈ Finset.univ.filter (fun i => drop i = j), x i = ∑ r, ∑ s, ∑ t, x (g (r, s, t)) := by
  classical
  have hset : Finset.univ.filter (fun i => drop i = j) = Finset.univ.image g := by
    ext i
    simp only [Finset.mem_filter, Finset.mem_univ, true_and, Finset.mem_image]
    constructor
    · intro h; exact hsurj i h
    · rintro ⟨p, rfl⟩; exact hdrop p
  rw [hset, Finset.sum_image (fun a _ b _ h => hg h), Fintype.sum_prod_type]
  simp only [Fintype.sum_prod_type]

/-- The marginal of qubit axis 1: the sum over the three other qubit axes. -/
theorem marg1_apply (x : FVec Ideal S802816x2x2x2x2 .f32) (init : FVec Ideal S_ .f32) (n : Fin 802816) (q : Fin 2) :
    Host.reduceAdd x init reducesTo_S802816x2x2x2x2_S802816x2_d2_3_4 h_S_ (ix2 n q)
      = init ix0 + ∑ r : Fin 2, ∑ s : Fin 2, ∑ t : Fin 2, x (ix5 n q r s t) := by
  rw [hostReduceAdd_apply, eq_ix0 (Shape.Idx.first h_S_)]
  unfold Ideal.hostReduceAdd
  refine congrArg (init ix0 + ·) ?_
  refine (sum_fiber_bits (drop := reducesTo_S802816x2x2x2x2_S802816x2_d2_3_4.drop) (j := ix2 n q)
    (fun p => ix5 n q p.1 p.2.1 p.2.2) ?_ ?_ ?_ x).trans ?_
  · intro p p' h
    exact Prod.ext (congrFun h 2) (Prod.ext (congrFun h 3) (congrFun h 4))
  · intro p
    funext b
    match b with
    | ⟨0, _⟩ => exact Fin.ext rfl
    | ⟨1, _⟩ => exact Fin.ext rfl
  · intro i hd
    refine ⟨(i 2, i 3, i 4), funext fun a => ?_⟩
    match a with
    | ⟨0, _⟩ => exact Fin.ext (congrArg Fin.val (congrFun hd 0)).symm
    | ⟨1, _⟩ => exact Fin.ext (congrArg Fin.val (congrFun hd 1)).symm
    | ⟨2, _⟩ => rfl
    | ⟨3, _⟩ => rfl
    | ⟨4, _⟩ => rfl
  · rfl

/-- The marginal of qubit axis 2. -/
theorem marg2_apply (x : FVec Ideal S802816x2x2x2x2 .f32) (init : FVec Ideal S_ .f32) (n : Fin 802816) (q : Fin 2) :
    Host.reduceAdd x init reducesTo_S802816x2x2x2x2_S802816x2_d1_3_4 h_S_ (ix2 n q)
      = init ix0 + ∑ r : Fin 2, ∑ s : Fin 2, ∑ t : Fin 2, x (ix5 n r q s t) := by
  rw [hostReduceAdd_apply, eq_ix0 (Shape.Idx.first h_S_)]
  unfold Ideal.hostReduceAdd
  refine congrArg (init ix0 + ·) ?_
  refine (sum_fiber_bits (drop := reducesTo_S802816x2x2x2x2_S802816x2_d1_3_4.drop) (j := ix2 n q)
    (fun p => ix5 n p.1 q p.2.1 p.2.2) ?_ ?_ ?_ x).trans ?_
  · intro p p' h
    exact Prod.ext (congrFun h 1) (Prod.ext (congrFun h 3) (congrFun h 4))
  · intro p
    funext b
    match b with
    | ⟨0, _⟩ => exact Fin.ext rfl
    | ⟨1, _⟩ => exact Fin.ext rfl
  · intro i hd
    refine ⟨(i 1, i 3, i 4), funext fun a => ?_⟩
    match a with
    | ⟨0, _⟩ => exact Fin.ext (congrArg Fin.val (congrFun hd 0)).symm
    | ⟨1, _⟩ => rfl
    | ⟨2, _⟩ => exact Fin.ext (congrArg Fin.val (congrFun hd 1)).symm
    | ⟨3, _⟩ => rfl
    | ⟨4, _⟩ => rfl
  · rfl

/-- The marginal of qubit axis 3. -/
theorem marg3_apply (x : FVec Ideal S802816x2x2x2x2 .f32) (init : FVec Ideal S_ .f32) (n : Fin 802816) (q : Fin 2) :
    Host.reduceAdd x init reducesTo_S802816x2x2x2x2_S802816x2_d1_2_4 h_S_ (ix2 n q)
      = init ix0 + ∑ r : Fin 2, ∑ s : Fin 2, ∑ t : Fin 2, x (ix5 n r s q t) := by
  rw [hostReduceAdd_apply, eq_ix0 (Shape.Idx.first h_S_)]
  unfold Ideal.hostReduceAdd
  refine congrArg (init ix0 + ·) ?_
  refine (sum_fiber_bits (drop := reducesTo_S802816x2x2x2x2_S802816x2_d1_2_4.drop) (j := ix2 n q)
    (fun p => ix5 n p.1 p.2.1 q p.2.2) ?_ ?_ ?_ x).trans ?_
  · intro p p' h
    exact Prod.ext (congrFun h 1) (Prod.ext (congrFun h 2) (congrFun h 4))
  · intro p
    funext b
    match b with
    | ⟨0, _⟩ => exact Fin.ext rfl
    | ⟨1, _⟩ => exact Fin.ext rfl
  · intro i hd
    refine ⟨(i 1, i 2, i 4), funext fun a => ?_⟩
    match a with
    | ⟨0, _⟩ => exact Fin.ext (congrArg Fin.val (congrFun hd 0)).symm
    | ⟨1, _⟩ => rfl
    | ⟨2, _⟩ => rfl
    | ⟨3, _⟩ => exact Fin.ext (congrArg Fin.val (congrFun hd 1)).symm
    | ⟨4, _⟩ => rfl
  · rfl

/-- The marginal of qubit axis 4. -/
theorem marg4_apply (x : FVec Ideal S802816x2x2x2x2 .f32) (init : FVec Ideal S_ .f32) (n : Fin 802816) (q : Fin 2) :
    Host.reduceAdd x init reducesTo_S802816x2x2x2x2_S802816x2_d1_2_3 h_S_ (ix2 n q)
      = init ix0 + ∑ r : Fin 2, ∑ s : Fin 2, ∑ t : Fin 2, x (ix5 n r s t q) := by
  rw [hostReduceAdd_apply, eq_ix0 (Shape.Idx.first h_S_)]
  unfold Ideal.hostReduceAdd
  refine congrArg (init ix0 + ·) ?_
  refine (sum_fiber_bits (drop := reducesTo_S802816x2x2x2x2_S802816x2_d1_2_3.drop) (j := ix2 n q)
    (fun p => ix5 n p.1 p.2.1 p.2.2 q) ?_ ?_ ?_ x).trans ?_
  · intro p p' h
    exact Prod.ext (congrFun h 1) (Prod.ext (congrFun h 2) (congrFun h 3))
  · intro p
    funext b
    match b with
    | ⟨0, _⟩ => exact Fin.ext rfl
    | ⟨1, _⟩ => exact Fin.ext rfl
  · intro i hd
    refine ⟨(i 1, i 2, i 3), funext fun a => ?_⟩
    match a with
    | ⟨0, _⟩ => exact Fin.ext (congrArg Fin.val (congrFun hd 0)).symm
    | ⟨1, _⟩ => rfl
    | ⟨2, _⟩ => rfl
    | ⟨3, _⟩ => rfl
    | ⟨4, _⟩ => exact Fin.ext (congrArg Fin.val (congrFun hd 1)).symm
  · rfl

/-- The expectation of Z from a marginal `[N, 2]`: the weight at bit 0 minus the weight at bit 1. -/
def zOf (m : FVec Ideal S802816x2 .f32) : FVec Ideal S802816 .f32 :=
  let a := shapeCast S802816 (extractStridedSlice S802816x1 ![0, 0] m slices_S802816x2_S802816x1_0_0)
    shapeCasts_S802816x1_S802816
  let b := shapeCast S802816 (extractStridedSlice S802816x1 ![0, 1] m slices_S802816x2_S802816x1_0_1)
    shapeCasts_S802816x1_S802816
  subf a b

theorem zOf_apply (m : FVec Ideal S802816x2 .f32) (n : Fin 802816) :
    zOf m (ix1 n) = m (ix2 n 0) - m (ix2 n 1) := by
  unfold zOf
  rw [subf_apply]
  congr 1
  · refine (shapeCast_apply _ _ (ix1 n) (ix2 n (0 : Fin 1)) ?_).trans ?_
    · rw [Shape.rowMajor_val_one, Shape.rowMajor_val_two]
      show n.val * 1 + 0 = n.val
      omega
    · refine extractStridedSlice_apply _ m _ (ix2 n (0 : Fin 1)) (ix2 n (0 : Fin 2)) (fun a => ?_)
      match a with
      | ⟨0, _⟩ => exact (Nat.zero_add _).symm
      | ⟨1, _⟩ => rfl
  · refine (shapeCast_apply _ _ (ix1 n) (ix2 n (0 : Fin 1)) ?_).trans ?_
    · rw [Shape.rowMajor_val_one, Shape.rowMajor_val_two]
      show n.val * 1 + 0 = n.val
      omega
    · refine extractStridedSlice_apply _ m _ (ix2 n (0 : Fin 1)) (ix2 n (1 : Fin 2)) (fun a => ?_)
      match a with
      | ⟨0, _⟩ => exact (Nat.zero_add _).symm
      | ⟨1, _⟩ => rfl

/-- Four per-sample vectors laid side by side as the four columns of an `[N, 4]` array. -/
def stack4 (z0 z1 z2 z3 : FVec Ideal S802816 .f32) : FVec Ideal S802816x4 .f32 :=
  let c0 := broadcastInDim S802816x1 ![0] bcast_S802816_S802816x1_0 z0
  let c1 := broadcastInDim S802816x1 ![0] bcast_S802816_S802816x1_0 z1
  let c2 := broadcastInDim S802816x1 ![0] bcast_S802816_S802816x1_0 z2
  let c3 := broadcastInDim S802816x1 ![0] bcast_S802816_S802816x1_0 z3
  concatenate S802816x4 1 [⟨S802816x1, c0⟩, ⟨S802816x1, c1⟩, ⟨S802816x1, c2⟩, ⟨S802816x1, c3⟩]
    concatenates_S802816x1_S802816x1_S802816x1_S802816x1_S802816x4_d1

theorem col_apply (z : FVec Ideal S802816 .f32) (n : Fin 802816) :
    broadcastInDim S802816x1 ![0] bcast_S802816_S802816x1_0 z (ix2 n (0 : Fin 1)) = z (ix1 n) := by
  refine broadcastInDim_apply _ _ _ (ix2 n (0 : Fin 1)) (ix1 n) (fun a => ?_)
  match a with
  | ⟨0, _⟩ => rfl

theorem stack4_apply_0 (z0 z1 z2 z3 : FVec Ideal S802816 .f32) (n : Fin 802816) :
    stack4 z0 z1 z2 z3 (ix2 n 0) = z0 (ix1 n) := by
  unfold stack4
  refine (concatenate_apply_piece (t := S802816x4) 1 _ _ (ix2 n (0 : Fin 4)) 0 (by show 0 < 4; omega) S802816x1 _ rfl rfl
    0 rfl (ix2 n (0 : Fin 1)) (fun b hb => ?_) rfl).trans (col_apply z0 n)
  match b with
  | ⟨0, _⟩ => rfl
  | ⟨1, _⟩ => exact absurd rfl hb

theorem stack4_apply_1 (z0 z1 z2 z3 : FVec Ideal S802816 .f32) (n : Fin 802816) :
    stack4 z0 z1 z2 z3 (ix2 n 1) = z1 (ix1 n) := by
  unfold stack4
  refine (concatenate_apply_piece (t := S802816x4) 1 _ _ (ix2 n (1 : Fin 4)) 1 (by show 1 < 4; omega) S802816x1 _ rfl rfl
    1 rfl (ix2 n (0 : Fin 1)) (fun b hb => ?_) rfl).trans (col_apply z1 n)
  match b with
  | ⟨0, _⟩ => rfl
  | ⟨1, _⟩ => exact absurd rfl hb

theorem stack4_apply_2 (z0 z1 z2 z3 : FVec Ideal S802816 .f32) (n : Fin 802816) :
    stack4 z0 z1 z2 z3 (ix2 n 2) = z2 (ix1 n) := by
  unfold stack4
  refine (concatenate_apply_piece (t := S802816x4) 1 _ _ (ix2 n (2 : Fin 4)) 2 (by show 2 < 4; omega) S802816x1 _ rfl rfl
    2 rfl (ix2 n (0 : Fin 1)) (fun b hb => ?_) rfl).trans (col_apply z2 n)
  match b with
  | ⟨0, _⟩ => rfl
  | ⟨1, _⟩ => exact absurd rfl hb

theorem stack4_apply_3 (z0 z1 z2 z3 : FVec Ideal S802816 .f32) (n : Fin 802816) :
    stack4 z0 z1 z2 z3 (ix2 n 3) = z3 (ix1 n) := by
  unfold stack4
  refine (concatenate_apply_piece (t := S802816x4) 1 _ _ (ix2 n (3 : Fin 4)) 3 (by show 3 < 4; omega) S802816x1 _ rfl rfl
    3 rfl (ix2 n (0 : Fin 1)) (fun b hb => ?_) rfl).trans (col_apply z3 n)
  match b with
  | ⟨0, _⟩ => rfl
  | ⟨1, _⟩ => exact absurd rfl hb

/-- The `[N, 4]` features regrouped as `[B, 784]`: entry `(b, f)` is the entry `(n, q)` at the same row-major
    position. -/
theorem feats_apply (y : FVec Ideal S802816x4 .f32) (b : Fin 4096) (f : Fin 784) (n : Fin 802816) (q : Fin 4)
    (h : n.val * 4 + q.val = b.val * 784 + f.val) :
    shapeCast S4096x784 y shapeCasts_S802816x4_S4096x784 (ix2 b f) = y (ix2 n q) := by
  refine shapeCast_apply y _ (ix2 b f) (ix2 n q) ?_
  rw [Shape.rowMajor_val_two, Shape.rowMajor_val_two]
  exact h

end Cert.ReferenceIdeal.RefGates

end
-- ==== Proof.RefGatesReadout.lean ====
import proofs.«159359_j65481071398168_2_alg».proof.Proof.RefGatesMeasure

noncomputable section

namespace Cert.ReferenceIdeal.RefGates

open Idealize.ShloMosaic Idealize.ShloMosaic.ValueIdx
open Cert.ReferenceIdeal Cert.ReferenceIdeal.Facts₀

variable [Facts₀]

open scoped BigOperators

/-! # The whole read-out of the final state

The four expectations of Z, as an `[N, 4]` array, in terms of the sixteen final amplitudes of each sample:
column `q` is the sum of the squared amplitudes whose bit `q` is 0 minus the sum of those whose bit `q` is 1. -/

/-- Squares, the four marginals from zero, the four differences, side by side. -/
def readout (st : FVec Ideal S802816x2x2x2x2 .f32) : FVec Ideal S802816x4 .f32 :=
  let pr := mulf st st
  let zero : FVec Ideal S_ .f32 := constant S_ .f32 0x00000000#32
  stack4
    (zOf (Host.reduceAdd pr zero reducesTo_S802816x2x2x2x2_S802816x2_d2_3_4 h_S_))
    (zOf (Host.reduceAdd pr zero reducesTo_S802816x2x2x2x2_S802816x2_d1_3_4 h_S_))
    (zOf (Host.reduceAdd pr zero reducesTo_S802816x2x2x2x2_S802816x2_d1_2_4 h_S_))
    (zOf (Host.reduceAdd pr zero reducesTo_S802816x2x2x2x2_S802816x2_d1_2_3 h_S_))

theorem readout_apply_0 (st : FVec Ideal S802816x2x2x2x2 .f32) (n : Fin 802816) :
    readout st (ix2 n 0)
      = (∑ r : Fin 2, ∑ s : Fin 2, ∑ t : Fin 2, st (ix5 n 0 r s t) * st (ix5 n 0 r s t))
        - (∑ r : Fin 2, ∑ s : Fin 2, ∑ t : Fin 2, st (ix5 n 1 r s t) * st (ix5 n 1 r s t)) := by
  unfold readout
  rw [stack4_apply_0, zOf_apply, marg1_apply, marg1_apply, constant_apply, Ideal.ofBits_zero_f32, zero_add, zero_add]
  simp only [mulf_apply]

theorem readout_apply_1 (st : FVec Ideal S802816x2x2x2x2 .f32) (n : Fin 802816) :
    readout st (ix2 n 1)
      = (∑ r : Fin 2, ∑ s : Fin 2, ∑ t : Fin 2, st (ix5 n r 0 s t) * st (ix5 n r 0 s t))
        - (∑ r : Fin 2, ∑ s : Fin 2, ∑ t : Fin 2, st (ix5 n r 1 s t) * st (ix5 n r 1 s t)) := by
  unfold readout
  rw [stack4_apply_1, zOf_apply, marg2_apply, marg2_apply, constant_apply, Ideal.ofBits_zero_f32, zero_add, zero_add]
  simp only [mulf_apply]

theorem readout_apply_2 (st : FVec Ideal S802816x2x2x2x2 .f32) (n : Fin 802816) :
    readout st (ix2 n 2)
      = (∑ r : Fin 2, ∑ s : Fin 2, ∑ t : Fin 2, st (ix5 n r s 0 t) * st (ix5 n r s 0 t))
        - (∑ r : Fin 2, ∑ s : Fin 2, ∑ t : Fin 2, st (ix5 n r s 1 t) * st (ix5 n r s 1 t)) := by
  unfold readout
  rw [stack4_apply_2, zOf_apply, marg3_apply, marg3_apply, constant_apply, Ideal.ofBits_zero_f32, zero_add, zero_add]
  simp only [mulf_apply]

theorem readout_apply_3 (st : FVec Ideal S802816x2x2x2x2 .f32) (n : Fin 802816) :
    readout st (ix2 n 3)
      = (∑ r : Fin 2, ∑ s : Fin 2, ∑ t : Fin 2, st (ix5 n r s t 0) * st (ix5 n r s t 0))
        - (∑ r : Fin 2, ∑ s : Fin 2, ∑ t : Fin 2, st (ix5 n r s t 1) * st (ix5 n r s t 1)) := by
  unfold readout
  rw [stack4_apply_3, zOf_apply, marg4_apply, marg4_apply, constant_apply, Ideal.ofBits_zero_f32, zero_add, zero_add]
  simp only [mulf_apply]

end Cert.ReferenceIdeal.RefGates

end
-- ==== Proof.RefFinal.lean ====
/-
  The reference's feature array before its last regrouping, entry by entry, on real data.  Entry (n, q) of that
  [802816, 4] array is the difference of the two marginal sums of squares of patch n's final amplitudes along
  system q.  The final state of patch n is two layers applied to the starting state (`RefLayer.st_layer`), the
  starting state is the basis state 0000, and when the patch's angles and the fixed angles are real numbers every
  half-angle cosine and sine is real, so the entry is the real expectation of the real two-layer state.
-/
import proofs.«159359_j65481071398168_2_alg».proof.Proof.RefLayer
import proofs.«159359_j65481071398168_2_alg».proof.Proof.RefGatesInit
import proofs.«159359_j65481071398168_2_alg».proof.Proof.RefGatesReadout
import proofs.«159359_j65481071398168_2_alg».proof.Proof.QFinal

noncomputable section

namespace Cert.ReferenceIdeal.RefFinal

open Idealize.ShloMosaic Idealize.ShloMosaic.ValueIdx Cert.ReferenceIdeal Cert.ReferenceIdeal.RefGates
open Cert.ReferenceIdeal.RefRun Cert.ReferenceIdeal.RefState Cert.ReferenceIdeal.RefLayer
open Cert.QSpec Cert.QFlat Cert.QFinal

variable [Facts]

/-- The starting state of every patch is the basis state 0000. -/
theorem st_init (n : Fin 802816) : st initState n = basisE 0 0 0 0 := by
  funext a b e d
  exact initState_apply n a b e d

/-- Half-angle cosine and sine of a real angle are real. -/
theorem cos_half (θ : ℝ) : Ideal.cos ((θ : EReal) * half) = ((Real.cos (θ * (1 / 2)) : ℝ) : EReal) := by
  rw [show ((θ : EReal) * half) = ((θ * (1 / 2) : ℝ) : EReal) from (EReal.coe_mul _ _).symm]; rfl
theorem sin_half (θ : ℝ) : Ideal.sin ((θ : EReal) * half) = ((Real.sin (θ * (1 / 2)) : ℝ) : EReal) := by
  rw [show ((θ : EReal) * half) = ((θ * (1 / 2) : ℝ) : EReal) from (EReal.coe_mul _ _).symm]; rfl

/-- The readout of a real state. -/
theorem readout_up (x : FVec Ideal S802816x2x2x2x2 .f32) (n : Fin 802816) (ψ : Amp) (h : st x n = up ψ) (q : Fin 4) :
    readout x (ix2 n q) = ((zR q ψ : ℝ) : EReal) := by
  have hv : ∀ a b e d, x (ix5 n a b e d) = ((ψ a b e d : ℝ) : EReal) := fun a b e d =>
    congrFun (congrFun (congrFun (congrFun h a) b) e) d
  fin_cases q
  · show readout x (ix2 n 0) = _
    rw [readout_apply_0]; simp only [hv, Fin.sum_univ_two]; norm_cast
    show _ = zR 0 ψ
    simp only [zR, Fin.sum_univ_two]
  · show readout x (ix2 n 1) = _
    rw [readout_apply_1]; simp only [hv, Fin.sum_univ_two]; norm_cast
    show _ = zR 1 ψ
    simp only [zR, Fin.sum_univ_two]
  · show readout x (ix2 n 2) = _
    rw [readout_apply_2]; simp only [hv, Fin.sum_univ_two]; norm_cast
    show _ = zR 2 ψ
    simp only [zR, Fin.sum_univ_two]
  · show readout x (ix2 n 3) = _
    rw [readout_apply_3]; simp only [hv, Fin.sum_univ_two]; norm_cast
    show _ = zR 3 ψ
    simp only [zR, Fin.sum_univ_two]

/-- THE REFERENCE'S ENTRY: with real angles θ of patch n and real fixed angles φ, entry (n, q) of the feature array
    is the real expectation of the two-layer state. -/
theorem ref_entry (P : FVec Ideal S802816x4 .f32) (v : FVec Ideal S4 .f32) (n : Fin 802816) (θ φ : Fin 4 → ℝ)
    (hθ : ∀ k, P (ix2 n k) = ((θ k : ℝ) : EReal)) (hφ : ∀ k, v (ix1 k) = ((φ k : ℝ) : EReal)) (q : Fin 4) :
    readout (layer (layer initState P v) P v) (ix2 n q)
      = ((zR q (psi (fun k => Real.cos (θ k * (1 / 2))) (fun k => Real.sin (θ k * (1 / 2)))
          (fun k => Real.cos (φ k * (1 / 2))) (fun k => Real.sin (φ k * (1 / 2)))) : ℝ) : EReal) := by
  apply readout_up
  have hc : cD P n = upv (fun k => Real.cos (θ k * (1 / 2))) := funext fun k => by
    show Ideal.cos (P (ix2 n k) * half) = _; rw [hθ, cos_half]; rfl
  have hs : sD P n = upv (fun k => Real.sin (θ k * (1 / 2))) := funext fun k => by
    show Ideal.sin (P (ix2 n k) * half) = _; rw [hθ, sin_half]; rfl
  have hp : cP v = upv (fun k => Real.cos (φ k * (1 / 2))) := funext fun k => by
    show Ideal.cos (v (ix1 k) * half) = _; rw [hφ, cos_half]; rfl
  have hr : sP v = upv (fun k => Real.sin (φ k * (1 / 2))) := funext fun k => by
    show Ideal.sin (v (ix1 k) * half) = _; rw [hφ, sin_half]; rfl
  rw [st_layer, st_layer, st_init, hc, hs, hp, hr]
  exact ref_state _ _ _ _

end Cert.ReferenceIdeal.RefFinal

end
-- ==== Proof.Finite.lean ====
/-
  What the precondition gives: every entry of the image array and every one of the four fixed angles is a real
  number.  The precondition is the conjunction of four "all entries have absolute value below +infinity" tests;
  a conjunction that is 1 has both conjuncts 1, an all-reduction that is 1 had 1 at every entry, and an extended
  real whose absolute value (max x (-x)) is below +infinity is neither infinity.
-/
import proofs.«159359_j65481071398168_2_alg».proof.Pre_finite_inputs
import Idealize.ShloMosaic.Lib.ReduceAll
import Idealize.ShloMosaic.Lib.Affine
import Idealize.ShloMosaic.PureOps.Ideal
import Idealize.ShloMosaic.Lib.ValueIdx

noncomputable section

namespace Cert.Finite

open Idealize.ShloMosaic Cert.Pre_finite_inputs

variable [Cert.Pre_finite_inputs.Facts]

instance : Subsingleton S_.Idx := ⟨fun a b => funext fun d => d.elim0⟩

/-- An extended real with |x| < +infinity is a real number. -/
theorem real_of_lt (x : EReal) (h : Ideal.cmp .olt (max x (-x)) (Ideal.ofBits .f32 0x7F800000#32) = 1#1) : ∃ r : ℝ, x = r := by
  induction x using EReal.rec with
  | bot => simp [Ideal.cmp, Ideal.ofBits, Ideal.ieee] at h
  | coe r => exact ⟨r, rfl⟩
  | top => simp [Ideal.cmp, Ideal.ofBits, Ideal.ieee] at h

/-- Under the precondition the first two arguments hold real numbers only. -/
theorem pre_real (x0 : FVec Ideal S4096x784 .f32) (x1 : FVec Ideal S4 .f32) (x2 : FVec Ideal S10x784 .f32) (x3 : FVec Ideal S10 .f32)
    (h : fn (F := Ideal) x0 x1 x2 x3 = fun _ => 1#1) :
    (∀ i, ∃ r : ℝ, x0 i = r) ∧ (∀ i, ∃ r : ℝ, x1 i = r) := by
  have h0 := congrFun h ValueIdx.ix0
  dsimp only [fn, fn_part1] at h0
  obtain ⟨h012, _⟩ := IntOp.andi_eq_one.1 h0
  obtain ⟨h01, _⟩ := IntOp.andi_eq_one.1 h012
  obtain ⟨hA, hB⟩ := IntOp.andi_eq_one.1 h01
  refine ⟨fun i => ?_, fun i => ?_⟩
  · exact real_of_lt _ (Host.reduce_andi_all _ _ _ _ _ hA i)
  · exact real_of_lt _ (Host.reduce_andi_all _ _ _ _ _ hB i)

end Cert.Finite

end
-- ==== Proof.Assemble.lean ====
/-
  The two programs' results are one array.  Both end with the same last lines (logits of a [4096, 784] feature array,
  then log-softmax), so it is enough that the feature arrays agree; both feature arrays are the regrouping of a
  [802816, 4] array, so it is enough that those agree entry by entry; and entry (n, q) is, on both sides, the real
  expectation of Z on system q of the two-layer state of patch n (`KerEntry.spec_real`, `RefFinal.ref_entry`) — the
  precondition makes every angle a real number, and the two programs read the same angles (`AngleArrays`).
-/
import proofs.«159359_j65481071398168_2_alg».proof.Proof.KerRun
import proofs.«159359_j65481071398168_2_alg».proof.Proof.KerEntry
import proofs.«159359_j65481071398168_2_alg».proof.Proof.KerHostBound
import proofs.«159359_j65481071398168_2_alg».proof.Proof.KerBridge
import proofs.«159359_j65481071398168_2_alg».proof.Proof.RefWhole
import proofs.«159359_j65481071398168_2_alg».proof.Proof.RefBridgeInit
import proofs.«159359_j65481071398168_2_alg».proof.Proof.RefFinal
import proofs.«159359_j65481071398168_2_alg».proof.Proof.Finite
import proofs.«159359_j65481071398168_2_alg».proof.Proof.Gen.ReferenceIdeal
import proofs.«159359_j65481071398168_2_alg».proof.Proof.Gen.Pre_finite_inputs
import proofs.«159359_j65481071398168_2_alg».proof.Defs
import Idealize.ShloMosaic.Lib.ValueLayout

set_option maxRecDepth 65536

noncomputable section

namespace Cert.Assemble

open Idealize.ShloMosaic Idealize.ShloMosaic.TcCoe Idealize.ShloMosaic.ValueIdx Idealize.SL.Sem
open Cert.QSpec Cert.QFlat Cert.QFinal Cert.KerEntry

/-- The kernel program's feature rows are the regrouping of the transposed output array; the transposed output
    array is the reference's [802816, 4] array when the two agree entry by entry. -/
theorem feats_eq (K : FVec Ideal Cert.KernelIdeal.S4x802816 .f32) (R : FVec Ideal Cert.KernelIdeal.S802816x4 .f32)
    (h : ∀ (n : Fin 802816) (q : Fin 4), K (ix2 q n) = R (ix2 n q)) :
    Cert.KernelIdeal.KerTail.featsOf K = shapeCast Cert.KernelIdeal.S4096x784 R Cert.KernelIdeal.Facts₀.shapeCasts_S802816x4_S4096x784 := by
  unfold Cert.KernelIdeal.KerTail.featsOf
  congr 1
  funext j
  obtain ⟨n, q, rfl⟩ : ∃ (n : Fin 802816) (q : Fin 4), j = ix2 n q := ⟨j 0, j 1, eq_ix2 j⟩
  exact (transpose_ix2_apply K _ n q).trans (h n q)

/-- ENTRY BY ENTRY: with the matrix the host lines build (`hU`) and the angle array they regroup (`hPT`), and every
    input a real number, the kernel's output array at (q, n) is the reference's [802816, 4] array at (n, q). -/
theorem entries_agree (U : Cert.KernelIdeal.S16x16.Idx → EReal) (PT : Cert.KernelIdeal.S4x802816.Idx → EReal)
    (x : FVec Ideal Cert.KernelIdeal.S4096x784 .f32) (v : FVec Ideal Cert.KernelIdeal.S4 .f32)
    (hx : ∀ i, ∃ r : ℝ, x i = r) (hv : ∀ i, ∃ r : ℝ, v i = r)
    (hPT : PT = Cert.AngleArrays.PT x)
    (hU : U = transpose Cert.KernelIdeal.S16x16 [1, 0] (shapeCast Cert.KernelIdeal.S16x16
        (Cert.KernelIdeal.KerState.block (shapeCast Cert.KernelIdeal.S16x2x2x2x2 Cert.KernelIdeal.KerGates.eye
          Cert.KernelIdeal.Facts₀.shapeCasts_S16x16_S16x2x2x2x2) v) Cert.KernelIdeal.Facts₀.shapeCasts_S16x2x2x2x2_S16x16)
        Cert.KernelIdeal.Facts₀.transposes_S16x16_S16x16_1_0)
    (n : Fin 802816) (q : Fin 4) :
    Cert.KernelIdeal.KerArr.G Cert.KernelIdeal.KerSpec.spec U PT (ix2 q n)
      = Cert.ReferenceIdeal.RefGates.readout (Cert.ReferenceIdeal.RefLayer.layer (Cert.ReferenceIdeal.RefLayer.layer
          Cert.ReferenceIdeal.RefGates.initState (Cert.AngleArrays.P x) v) (Cert.AngleArrays.P x) v) (ix2 n q) := by
  choose θ hθ using fun k => hx (Cert.AngleArrays.pix n k)
  choose φ hφ using fun k => hv (ix1 k)
  have hK : Cert.KernelIdeal.KerArr.G Cert.KernelIdeal.KerSpec.spec U PT (ix2 q n)
      = Cert.KernelIdeal.KerSpec.spec U (PT (ix2 (0 : Fin 4) n)) (PT (ix2 (1 : Fin 4) n)) (PT (ix2 (2 : Fin 4) n)) (PT (ix2 (3 : Fin 4) n)) q := rfl
  rw [hK, hPT, Cert.AngleArrays.PT_apply, Cert.AngleArrays.PT_apply, Cert.AngleArrays.PT_apply, Cert.AngleArrays.PT_apply,
    hθ 0, hθ 1, hθ 2, hθ 3, spec_real U v θ φ hU hφ q]
  exact (Cert.ReferenceIdeal.RefFinal.ref_entry (Cert.AngleArrays.P x) v n θ φ
    (fun k => (Cert.AngleArrays.P_apply x n k).trans (hθ k)) hφ q).symm

/-- The reference's feature array is the regrouping of its [802816, 4] readout. -/
theorem gFeats_eq (S : FVec Ideal Cert.ReferenceIdeal.S802816x2x2x2x2 .f32) :
    Cert.ReferenceIdeal.RefRun.gFeats (F := Ideal) (Cert.ReferenceIdeal.RefRun.gProbs (F := Ideal) S)
      = shapeCast Cert.ReferenceIdeal.S4096x784 (Cert.ReferenceIdeal.RefGates.readout S) Cert.ReferenceIdeal.Facts₀.shapeCasts_S802816x4_S4096x784 := rfl

/-- The reference's regrouped angles are the angle array. -/
theorem gPatches_eq (x : FVec Ideal Cert.ReferenceIdeal.S4096x784 .f32) :
    Cert.ReferenceIdeal.RefRun.gPatches (F := Ideal) x = Cert.AngleArrays.P x := rfl

/-- The two programs' last lines are one function of the feature array, the weights and the bias. -/
theorem head_eq (f : FVec Ideal Cert.KernelIdeal.S4096x784 .f32) (W : FVec Ideal Cert.KernelIdeal.S10x784 .f32) (b : FVec Ideal Cert.KernelIdeal.S10 .f32) :
    Cert.ReferenceIdeal.RefRun.gHead (F := Ideal) f W b = Cert.KernelIdeal.KerTail.logSoftmax (Cert.KernelIdeal.KerTail.logits f W b) := rfl

section Main

open Cert.KernelIdeal.GenP

variable (m : (ℓ : Loc Cert.KernelIdeal.nD Cert.KernelIdeal.τ Cert.KernelIdeal.sig) → Buf (Elt Ideal) ℓ)

/-- The angle array the region finds is the regrouped first argument. -/
theorem ker_angles (c : Dev Cert.KernelIdeal.nD) :
    V m c Cert.KernelIdeal.main_v2 = Cert.AngleArrays.PT (m ((c : Thread Cert.KernelIdeal.nD Cert.KernelIdeal.τ).loc Cert.KernelIdeal.main_arg0)) :=
  (Cert.KernelIdeal.KerHost.hat_main_v2_whole (F := Ideal) (fun b => m (c, b))).trans (Cert.KernelIdeal.KerHost.kAngles_eq _)

/-- The matrix the region finds is the fixed block applied to the sixteen basis states, regrouped and transposed. -/
theorem ker_matrix (c : Dev Cert.KernelIdeal.nD) :
    V m c Cert.KernelIdeal.main_v119 = transpose Cert.KernelIdeal.S16x16 [1, 0] (shapeCast Cert.KernelIdeal.S16x16
        (Cert.KernelIdeal.KerState.block (shapeCast Cert.KernelIdeal.S16x2x2x2x2 Cert.KernelIdeal.KerGates.eye
          Cert.KernelIdeal.Facts₀.shapeCasts_S16x16_S16x2x2x2x2) (m ((c : Thread Cert.KernelIdeal.nD Cert.KernelIdeal.τ).loc Cert.KernelIdeal.main_arg1)))
        Cert.KernelIdeal.Facts₀.shapeCasts_S16x2x2x2x2_S16x16) Cert.KernelIdeal.Facts₀.transposes_S16x16_S16x16_1_0 := by
  refine (Cert.KernelIdeal.KerHost.hat_main_v119_whole (F := Ideal) (fun b => m (c, b))).trans ?_
  rw [Cert.KernelIdeal.KerHost.kMatT_kMat_eq, Cert.KernelIdeal.KerHost.kBlock_eq, Cert.KernelIdeal.KerHost.kIdent_eq]

/-- THE RESULTS AGREE: under the precondition, from memories that agree on the arguments, the reference's result buffer
    after its run holds the kernel program's result. -/
theorem results_agree
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = (fun _ => 1#1))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    StableHlo.after (Cert.ReferenceIdeal.RefRun.ops (F := Ideal)) (StableHlo.launchContents m' c)
        (Cert.ReferenceIdeal.main_v464 : DevRef Cert.ReferenceIdeal.τ Cert.ReferenceIdeal.sig)
      = Cert.KernelIdeal.KerRun.result m Cert.KernelIdeal.KerSpec.spec c := by
  obtain ⟨hx, hv⟩ := Cert.Finite.pre_real _ _ _ _ hpre
  rw [Cert.ReferenceIdeal.RefRun.at_main_v464_whole, Cert.ReferenceIdeal.RefRun.at_main_v427_whole]
  have e0 : StableHlo.launchContents m' c (Cert.ReferenceIdeal.main_arg0 : DevRef Cert.ReferenceIdeal.τ Cert.ReferenceIdeal.sig) = m ((c.tc : Thread Cert.KernelIdeal.nD Cert.KernelIdeal.τ).loc Cert.KernelIdeal.main_arg0) := h0
  have e1 : StableHlo.launchContents m' c (Cert.ReferenceIdeal.main_arg1 : DevRef Cert.ReferenceIdeal.τ Cert.ReferenceIdeal.sig) = m ((c.tc : Thread Cert.KernelIdeal.nD Cert.KernelIdeal.τ).loc Cert.KernelIdeal.main_arg1) := h1
  have e2 : StableHlo.launchContents m' c (Cert.ReferenceIdeal.main_arg2 : DevRef Cert.ReferenceIdeal.τ Cert.ReferenceIdeal.sig) = m ((c.tc : Thread Cert.KernelIdeal.nD Cert.KernelIdeal.τ).loc Cert.KernelIdeal.main_arg2) := h2
  have e3 : StableHlo.launchContents m' c (Cert.ReferenceIdeal.main_arg3 : DevRef Cert.ReferenceIdeal.τ Cert.ReferenceIdeal.sig) = m ((c.tc : Thread Cert.KernelIdeal.nD Cert.KernelIdeal.τ).loc Cert.KernelIdeal.main_arg3) := h3
  rw [e0, e1, e2, e3, Cert.ReferenceIdeal.RefRun.gInit_eq, gPatches_eq, gFeats_eq, head_eq]
  unfold Cert.KernelIdeal.KerRun.result
  rw [feats_eq _ _ (entries_agree _ _ _ _ hx hv (ker_angles m c) (ker_matrix m c))]

/-- The algebraic claim. -/
theorem algebraic : Cert.algebraic_KernelIdeal_ReferenceIdeal := by
  intro m ρ m' ρ' hpre hagree
  refine ⟨fun c => Cert.KernelIdeal.KerRun.result m Cert.KernelIdeal.KerSpec.spec c,
    Cert.KernelIdeal.KerRun.run_value m ρ Cert.KernelIdeal.KerSpec.spec Cert.KernelIdeal.KerSpec.hspec, ?_⟩
  refine (θ_run (Cert.ReferenceIdeal.defs (F := Ideal)) _ _).mono (fun r h c => ⟨?_, ?_, ?_, ?_, ?_⟩)
    (Cert.ReferenceIdeal.RefRun.run (F := Ideal) m' ρ')
  · exact (h c Cert.ReferenceIdeal.main_v464).trans
      (results_agree m m' c (hpre c) (hagree c).1 (hagree c).2.1 (hagree c).2.2.1 (hagree c).2.2.2)
  · exact (h c Cert.ReferenceIdeal.main_arg0).trans (Cert.ReferenceIdeal.RefRun.kept_arg0 m' c)
  · exact (h c Cert.ReferenceIdeal.main_arg1).trans (Cert.ReferenceIdeal.RefRun.kept_arg1 m' c)
  · exact (h c Cert.ReferenceIdeal.main_arg2).trans (Cert.ReferenceIdeal.RefRun.kept_arg2 m' c)
  · exact (h c Cert.ReferenceIdeal.main_arg3).trans (Cert.ReferenceIdeal.RefRun.kept_arg3 m' c)

end Main

end Cert.Assemble

end
-- ==== Proof.lean ====
/-
  Two programs compute, for every 2 x 2 patch of a batch of images, the expectations of Z on the four systems of a
  small real circuit (two layers of data rotations and a fixed block of rotations and controlled flips), and feed
  them to the same linear layer and log-softmax.  The reference simulates the circuit gate by gate on a state array;
  the kernel program precomputes the fixed block's 16 x 16 matrix on the host, and in a kernel over blocks of patches
  builds the first layer's product state, multiplies by the matrix, applies the second layer's rotations amplitude by
  amplitude, multiplies again, and sums squares.  The claim is that both run without fault, leave their arguments
  unchanged, and — every float an exact extended real, under the precondition that the inputs are finite — end with
  equal results.

  The mathematics is in QSpec (the gates, linearity of the fixed block, the two arrangements agree), QBridge (the same
  on the extended reals for real data), QFlat (amplitudes numbered 0 … 15 against amplitudes indexed by bits) and
  QFinal.  The kernel program's value is read off its frame run: the body's stored block (KerBody*), the blocks
  assembled into the array (KerArr), the host lines before (KerHost*, KerGates*, KerState) and after (KerTail) the
  region, and the run (KerRun).  The reference's value is read off its run (RefOps*, RefRun, RefSeg*, RefBound,
  RefWhole) through its gates at an index (RefGates*, RefState, RefLayer, RefFinal).  AngleArrays shows the two programs
  read the same angles, Finite that the precondition makes them real, and Assemble joins the two sides.
-/
import proofs.«159359_j65481071398168_2_alg».proof.Defs
import proofs.«159359_j65481071398168_2_alg».proof.Proof.Gen.Kernel
import proofs.«159359_j65481071398168_2_alg».proof.Proof.Gen.KernelIdeal
import proofs.«159359_j65481071398168_2_alg».proof.Proof.Gen.ReferenceIdeal
import proofs.«159359_j65481071398168_2_alg».proof.Proof.Gen.Pre_finite_inputs
import proofs.«159359_j65481071398168_2_alg».proof.Proof.FrameBitsP
import proofs.«159359_j65481071398168_2_alg».proof.Proof.FrameIdealP
import proofs.«159359_j65481071398168_2_alg».proof.Proof.RefBound
import proofs.«159359_j65481071398168_2_alg».proof.Proof.Assemble

noncomputable section

namespace Cert.Proof

open Idealize.ShloMosaic Idealize.SL.Sem

/-- Every weakly fair execution of the word-level kernel program terminates without fault, its arguments unchanged. -/
theorem frame_kernel : Cert.frame_Kernel := fun m ρ _ => Cert.Kernel.GenP.frame m ρ

/-- The same for the idealized kernel program. -/
theorem frame_kernelIdeal : Cert.frame_KernelIdeal := fun m ρ _ => Cert.KernelIdeal.GenP.frame m ρ

/-- The same for the idealized reference: its run, with the result dropped. -/
theorem frame_referenceIdeal : Cert.frame_ReferenceIdeal := fun m ρ _ => Cert.ReferenceIdeal.RefRun.frame m ρ

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Assemble.algebraic⟩

end Cert.Proof

end
